-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S8x1024x128 : Shape := ⟨3, ![8, 1024, 128]⟩
abbrev S8x1024x64 : Shape := ⟨3, ![8, 1024, 64]⟩
abbrev S8x1024x64x50 : Shape := ⟨4, ![8, 1024, 64, 50]⟩
abbrev S50x128 : Shape := ⟨2, ![50, 128]⟩
abbrev S128 : Shape := ⟨1, ![128]⟩
abbrev S128x128 : Shape := ⟨2, ![128, 128]⟩
abbrev S_ : Shape := ⟨0, ![]⟩

class Facts : Prop where
  bcast_S_S8x1024x128 : S_.BroadcastsInDim S8x1024x128 (![] : Fin 0 → Fin S8x1024x128.rank)
  reducesTo_S8x1024x128_S_d0_1_2 : S8x1024x128.ReducesTo [0, 1, 2] S_
  h_S_ : 0 < S_.numel
  bcast_S_S8x1024x64 : S_.BroadcastsInDim S8x1024x64 (![] : Fin 0 → Fin S8x1024x64.rank)
  reducesTo_S8x1024x64_S_d0_1_2 : S8x1024x64.ReducesTo [0, 1, 2] S_
  bcast_S_S8x1024x64x50 : S_.BroadcastsInDim S8x1024x64x50 (![] : Fin 0 → Fin S8x1024x64x50.rank)
  reducesTo_S8x1024x64x50_S_d0_1_2_3 : S8x1024x64x50.ReducesTo [0, 1, 2, 3] S_
  bcast_S_S50x128 : S_.BroadcastsInDim S50x128 (![] : Fin 0 → Fin S50x128.rank)
  reducesTo_S50x128_S_d0_1 : S50x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part4 {F : FTy → Type} [FloatOps F] (main_v63 : IVec S_ 1) (main_v65 : IVec S8x1024x64 1) (main_v67 : IVec S8x1024x64 1) : IVec S_ 1 :=
  let main_v68 : IVec S8x1024x64 1 := andi main_v65 main_v67
  let main_c_26 : IVec S_ 1 := constantI S_ 1 1#1
  let main_v69 : IVec S_ 1 := (fun x v => Host.reduce IntOp.andi x v reducesTo_S8x1024x64_S_d0_1_2 h_S_) main_v68 main_c_26
  let main_v70 : IVec S_ 1 := andi main_v63 main_v69
  main_v70

def fn_part3 {F : FTy → Type} [FloatOps F] (main_arg2 : IVec S8x1024x64 32) (main_arg12 : FVec F S128x128 .f32) (main_arg13 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_c_24 : IVec S_ 32 := constantI S_ 32 0#32
  let main_v64 : IVec S8x1024x64 32 := broadcastInDim S8x1024x64 ![] bcast_S_S8x1024x64 main_c_24
  let main_v65 : IVec S8x1024x64 1 := cmpi .sge main_arg2 main_v64
  let main_c_25 : IVec S_ 32 := constantI S_ 32 1023#32
  let main_v66 : IVec S8x1024x64 32 := broadcastInDim S8x1024x64 ![] bcast_S_S8x1024x64 main_c_25
  let main_v67 : IVec S8x1024x64 1 := cmpi .sle main_arg2 main_v66
  fn_part4 (F := F) main_v63 main_v65 main_v67

def fn_part2 {F : FTy → Type} [FloatOps F] (main_arg2 : IVec S8x1024x64 32) (main_arg8 : FVec F S128 .f32) (main_arg9 : FVec F S128x128 .f32) (main_arg10 : FVec F S128x128 .f32) (main_arg11 : FVec F S128 .f32) (main_arg12 : FVec F S128x128 .f32) (main_arg13 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg2 main_arg12 main_arg13 main_v48 main_v49 main_v50

def fn_part1 {F : FTy → Type} [FloatOps F] (main_arg2 : IVec S8x1024x64 32) (main_arg5 : FVec F S50x128 .f32) (main_arg6 : FVec F S128 .f32) (main_arg7 : FVec F S128x128 .f32) (main_arg8 : FVec F S128 .f32) (main_arg9 : FVec F S128x128 .f32) (main_arg10 : FVec F S128x128 .f32) (main_arg11 : FVec F S128 .f32) (main_arg12 : FVec F S128x128 .f32) (main_arg13 : FVec F S128 .f32) (main_v13 : IVec S_ 1) (main_v16 : IVec S8x1024x64x50 1) : IVec S_ 1 :=
  let main_c_5 : IVec S_ 1 := constantI S_ 1 1#1
  let main_v17 : IVec S_ 1 := (fun x v => Host.reduce IntOp.andi x v reducesTo_S8x1024x64x50_S_d0_1_2_3 h_S_) main_v16 main_c_5
  let main_v18 : IVec S_ 1 := andi main_v13 main_v17
  let main_v19 : FVec F S50x128 .f32 := Host.absf main_arg5
  let main_cst_6 : FVec F S_ .f32 := constant S_ .f32 0x7F800000#32
  let main_v20 : FVec F S50x128 .f32 := broadcastInDim S50x128 ![] bcast_S_S50x128 main_cst_6
  let main_v21 : IVec S50x128 1 := cmpf .olt main_v19 main_v20
  let main_c_7 : IVec S_ 1 := constantI S_ 1 1#1
  let main_v22 : IVec S_ 1 := (fun x v => Host.reduce IntOp.andi x v reducesTo_S50x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg8 main_arg9 main_arg10 main_arg11 main_arg12 main_arg13 main_v33

def fn {F : FTy → Type} [FloatOps F] (main_arg0 : FVec F S8x1024x128 .f32) (main_arg1 : FVec F S8x1024x64 .f32) (main_arg2 : IVec S8x1024x64 32) (main_arg3 : FVec F S8x1024x64 .f32) (main_arg4 : FVec F S8x1024x64x50 .f32) (main_arg5 : FVec F S50x128 .f32) (main_arg6 : FVec F S128 .f32) (main_arg7 : FVec F S128x128 .f32) (main_arg8 : FVec F S128 .f32) (main_arg9 : FVec F S128x128 .f32) (main_arg10 : FVec F S128x128 .f32) (main_arg11 : FVec F S128 .f32) (main_arg12 : FVec F S128x128 .f32) (main_arg13 : FVec F S128 .f32) : IVec S_ 1 :=
  let main_v0 : FVec F S8x1024x128 .f32 := Host.absf main_arg0
  let main_cst : FVec F S_ .f32 := constant S_ .f32 0x7F800000#32
  let main_v1 : FVec F S8x1024x128 .f32 := broadcastInDim S8x1024x128 ![] bcast_S_S8x1024x128 main_cst
  let main_v2 : IVec S8x1024x128 1 := cmpf .olt main_v0 main_v1
  let main_c : IVec S_ 1 := constantI S_ 1 1#1
  let main_v3 : IVec S_ 1 := (fun x v => Host.reduce IntOp.andi x v reducesTo_S8x1024x128_S_d0_1_2 h_S_) main_v2 main_c
  let main_v4 : FVec F S8x1024x64 .f32 := Host.absf main_arg1
  let main_cst_0 : FVec F S_ .f32 := constant S_ .f32 0x7F800000#32
  let main_v5 : FVec F S8x1024x64 .f32 := broadcastInDim S8x1024x64 ![] bcast_S_S8x1024x64 main_cst_0
  let main_v6 : IVec S8x1024x64 1 := cmpf .olt main_v4 main_v5
  let main_c_1 : IVec S_ 1 := constantI S_ 1 1#1
  let main_v7 : IVec S_ 1 := (fun x v => Host.reduce IntOp.andi x v reducesTo_S8x1024x64_S_d0_1_2 h_S_) main_v6 main_c_1
  let main_v8 : IVec S_ 1 := andi main_v3 main_v7
  let main_v9 : FVec F S8x1024x64 .f32 := Host.absf main_arg3
  let main_cst_2 : FVec F S_ .f32 := constant S_ .f32 0x7F800000#32
  let main_v10 : FVec F S8x1024x64 .f32 := broadcastInDim S8x1024x64 ![] bcast_S_S8x1024x64 main_cst_2
  let main_v11 : IVec S8x1024x64 1 := cmpf .olt main_v9 main_v10
  let main_c_3 : IVec S_ 1 := constantI S_ 1 1#1
  let main_v12 : IVec S_ 1 := (fun x v => Host.reduce IntOp.andi x v reducesTo_S8x1024x64_S_d0_1_2 h_S_) main_v11 main_c_3
  let main_v13 : IVec S_ 1 := andi main_v8 main_v12
  let main_v14 : FVec F S8x1024x64x50 .f32 := Host.absf main_arg4
  let main_cst_4 : FVec F S_ .f32 := constant S_ .f32 0x7F800000#32
  let main_v15 : FVec F S8x1024x64x50 .f32 := broadcastInDim S8x1024x64x50 ![] bcast_S_S8x1024x64x50 main_cst_4
  let main_v16 : IVec S8x1024x64x50 1 := cmpf .olt main_v14 main_v15
  fn_part1 (F := F) main_arg2 main_arg5 main_arg6 main_arg7 main_arg8 main_arg9 main_arg10 main_arg11 main_arg12 main_arg13 main_v13 main_v16
-- ==== Kernel.lean ====
abbrev S8x1024x128 : Shape := ⟨3, ![8, 1024, 128]⟩
abbrev S8x1024x64 : Shape := ⟨3, ![8, 1024, 64]⟩
abbrev S8x1024x64x50 : Shape := ⟨4, ![8, 1024, 64, 50]⟩
abbrev S50x128 : Shape := ⟨2, ![50, 128]⟩
abbrev S128 : Shape := ⟨1, ![128]⟩
abbrev S128x128 : Shape := ⟨2, ![128, 128]⟩
abbrev S8192x128 : Shape := ⟨2, ![8192, 128]⟩
abbrev S1024x128 : Shape := ⟨2, ![1024, 128]⟩
abbrev S8x64x1024 : Shape := ⟨3, ![8, 64, 1024]⟩
abbrev S_ : Shape := ⟨0, ![]⟩
abbrev S8 : Shape := ⟨1, ![8]⟩
abbrev S8x1x1 : Shape := ⟨3, ![8, 1, 1]⟩
abbrev S8x50x64x1024 : Shape := ⟨4, ![8, 50, 64, 1024]⟩
abbrev S1x128 : Shape := ⟨2, ![1, 128]⟩
abbrev S8x16x1024 : Shape := ⟨3, ![8, 16, 1024]⟩
abbrev S32x32x128 : Shape := ⟨3, ![32, 32, 128]⟩
abbrev S131072x128 : Shape := ⟨2, ![131072, 128]⟩
abbrev S32x128 : Shape := ⟨2, ![32, 128]⟩
abbrev S1x32x128 : Shape := ⟨3, ![1, 32, 128]⟩
abbrev S1x50x8x1024 : Shape := ⟨4, ![1, 50, 8, 1024]⟩
abbrev S1x8x1024 : Shape := ⟨3, ![1, 8, 1024]⟩
abbrev S8x1024 : Shape := ⟨2, ![8, 1024]⟩
abbrev S1024x8 : Shape := ⟨2, ![1024, 8]⟩
abbrev S1x50x1x1024 : Shape := ⟨4, ![1, 50, 1, 1024]⟩
abbrev S50x1024 : Shape := ⟨2, ![50, 1024]⟩
abbrev S1024x1 : Shape := ⟨2, ![1024, 1]⟩

abbrev nBuf : Table → Nat
  | .hbm => 54
  | .local .tc .vmem => 71
  | .local .scVector .vmem => 20
  | _ => 0

abbrev bufTy : (tb : Table) → Fin (nBuf tb) → BufTy
  | .hbm, ⟨0, _⟩ => ⟨S8x1024x128, .f32⟩
  | .hbm, ⟨1, _⟩ => ⟨S8x1024x64, .f32⟩
  | .hbm, ⟨2, _⟩ => ⟨S8x1024x64, .i32⟩
  | .hbm, ⟨3, _⟩ => ⟨S8x1024x64, .f32⟩
  | .hbm, ⟨4, _⟩ => ⟨S8x1024x64x50, .f32⟩
  | .hbm, ⟨5, _⟩ => ⟨S50x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S8192x128, .f32⟩
  | .hbm, ⟨15, _⟩ => ⟨S8192x128, .f32⟩
  | .hbm, ⟨16, _⟩ => ⟨S8x64x1024, .i32⟩
  | .hbm, ⟨17, _⟩ => ⟨S8x64x1024, .f32⟩
  | .hbm, ⟨18, _⟩ => ⟨S_, .f32⟩
  | .hbm, ⟨19, _⟩ => ⟨S8x64x1024, .f32⟩
  | .hbm, ⟨20, _⟩ => ⟨S8x64x1024, .i1⟩
  | .hbm, ⟨21, _⟩ => ⟨S8x64x1024, .f32⟩
  | .hbm, ⟨22, _⟩ => ⟨S8x64x1024, .f32⟩
  | .hbm, ⟨23, _⟩ => ⟨S8x64x1024, .f32⟩
  | .hbm, ⟨24, _⟩ => ⟨S8, .i32⟩
  | .hbm, ⟨25, _⟩ => ⟨S_, .i32⟩
  | .hbm, ⟨26, _⟩ => ⟨S8, .i32⟩
  | .hbm, ⟨27, _⟩ => ⟨S8, .i32⟩
  | .hbm, ⟨28, _⟩ => ⟨S8x1x1, .i32⟩
  | .hbm, ⟨29, _⟩ => ⟨S8x64x1024, .i32⟩
  | .hbm, ⟨30, _⟩ => ⟨S8x64x1024, .i32⟩
  | .hbm, ⟨31, _⟩ => ⟨S8x50x64x1024, .f32⟩
  | .hbm, ⟨32, _⟩ => ⟨S1x128, .f32⟩
  | .hbm, ⟨33, _⟩ => ⟨S1x128, .f32⟩
  | .hbm, ⟨34, _⟩ => ⟨S8x16x1024, .i32⟩
  | .hbm, ⟨35, _⟩ => ⟨S32x32x128, .i32⟩
  | .hbm, ⟨36, _⟩ => ⟨S131072x128, .f32⟩
  | .hbm, ⟨37, _⟩ => ⟨S8192x128, .f32⟩
  | .hbm, ⟨38, _⟩ => ⟨S8x16x1024, .i32⟩
  | .hbm, ⟨39, _⟩ => ⟨S32x32x128, .i32⟩
  | .hbm, ⟨40, _⟩ => ⟨S131072x128, .f32⟩
  | .hbm, ⟨41, _⟩ => ⟨S8192x128, .f32⟩
  | .hbm, ⟨42, _⟩ => ⟨S8x16x1024, .i32⟩
  | .hbm, ⟨43, _⟩ => ⟨S32x32x128, .i32⟩
  | .hbm, ⟨44, _⟩ => ⟨S131072x128, .f32⟩
  | .hbm, ⟨45, _⟩ => ⟨S8192x128, .f32⟩
  | .hbm, ⟨46, _⟩ => ⟨S8x16x1024, .i32⟩
  | .hbm, ⟨47, _⟩ => ⟨S32x32x128, .i32⟩
  | .hbm, ⟨48, _⟩ => ⟨S131072x128, .f32⟩
  | .hbm, ⟨49, _⟩ => ⟨S8192x128, .f32⟩
  | .hbm, ⟨50, _⟩ => ⟨S1x128, .f32⟩
  | .hbm, ⟨51, _⟩ => ⟨S1x128, .f32⟩
  | .hbm, ⟨52, _⟩ => ⟨S8192x128, .f32⟩
  | .hbm, ⟨53, _⟩ => ⟨S8x1024x128, .f32⟩
  | .local .tc .vmem, ⟨0, _⟩ => ⟨S1024x128, .f32⟩
  | .local .tc .vmem, ⟨1, _⟩ => ⟨S1024x128, .f32⟩
  | .local .tc .vmem, ⟨2, _⟩ => ⟨S128x128, .f32⟩
  | .local .tc .vmem, ⟨3, _⟩ => ⟨S1024x128, .f32⟩
  | .local .tc .vmem, ⟨4, _⟩ => ⟨S1024x128, .f32⟩
  | .local .tc .vmem, ⟨5, _⟩ => ⟨S1x50x8x1024, .f32⟩
  | .local .tc .vmem, ⟨6, _⟩ => ⟨S1x50x8x1024, .f32⟩
  | .local .tc .vmem, ⟨7, _⟩ => ⟨S8192x128, .f32⟩
  | .local .tc .vmem, ⟨8, _⟩ => ⟨S8192x128, .f32⟩
  | .local .tc .vmem, ⟨9, _⟩ => ⟨S1x8x1024, .f32⟩
  | .local .tc .vmem, ⟨10, _⟩ => ⟨S1x8x1024, .f32⟩
  | .local .tc .vmem, ⟨11, _⟩ => ⟨S50x128, .f32⟩
  | .local .tc .vmem, ⟨12, _⟩ => ⟨S1x128, .f32⟩
  | .local .tc .vmem, ⟨13, _⟩ => ⟨S128x128, .f32⟩
  | .local .tc .vmem, ⟨14, _⟩ => ⟨S1x128, .f32⟩
  | .local .tc .vmem, ⟨15, _⟩ => ⟨S1024x128, .f32⟩
  | .local .tc .vmem, ⟨16, _⟩ => ⟨S1024x128, .f32⟩
  | .local .tc .vmem, ⟨17, _⟩ => ⟨S1024x128, .f32⟩
  | .local .tc .vmem, ⟨18, _⟩ => ⟨S1x50x8x1024, .f32⟩
  | .local .tc .vmem, ⟨19, _⟩ => ⟨S1x50x8x1024, .f32⟩
  | .local .tc .vmem, ⟨20, _⟩ => ⟨S8192x128, .f32⟩
  | .local .tc .vmem, ⟨21, _⟩ => ⟨S8192x128, .f32⟩
  | .local .tc .vmem, ⟨22, _⟩ => ⟨S1x8x1024, .f32⟩
  | .local .tc .vmem, ⟨23, _⟩ => ⟨S1x8x1024, .f32⟩
  | .local .tc .vmem, ⟨24, _⟩ => ⟨S50x128, .f32⟩
  | .local .tc .vmem, ⟨25, _⟩ => ⟨S1x128, .f32⟩
  | .local .tc .vmem, ⟨26, _⟩ => ⟨S128x128, .f32⟩
  | .local .tc .vmem, ⟨27, _⟩ => ⟨S1x128, .f32⟩
  | .local .tc .vmem, ⟨28, _⟩ => ⟨S1024x128, .f32⟩
  | .local .tc .vmem, ⟨29, _⟩ => ⟨S1024x128, .f32⟩
  | .local .tc .vmem, ⟨30, _⟩ => ⟨S1024x128, .f32⟩
  | .local .tc .vmem, ⟨31, _⟩ => ⟨S1x50x8x1024, .f32⟩
  | .local .tc .vmem, ⟨32, _⟩ => ⟨S1x50x8x1024, .f32⟩
  | .local .tc .vmem, ⟨33, _⟩ => ⟨S8192x128, .f32⟩
  | .local .tc .vmem, ⟨34, _⟩ => ⟨S8192x128, .f32⟩
  | .local .tc .vmem, ⟨35, _⟩ => ⟨S1x8x1024, .f32⟩
  | .local .tc .vmem, ⟨36, _⟩ => ⟨S1x8x1024, .f32⟩
  | .local .tc .vmem, ⟨37, _⟩ => ⟨S50x128, .f32⟩
  | .local .tc .vmem, ⟨38, _⟩ => ⟨S1x128, .f32⟩
  | .local .tc .vmem, ⟨39, _⟩ => ⟨S128x128, .f32⟩
  | .local .tc .vmem, ⟨40, _⟩ => ⟨S1x128, .f32⟩
  | .local .tc .vmem, ⟨41, _⟩ => ⟨S1024x128, .f32⟩
  | .local .tc .vmem, ⟨42, _⟩ => ⟨S1024x128, .f32⟩
  | .local .tc .vmem, ⟨43, _⟩ => ⟨S1024x128, .f32⟩
  | .local .tc .vmem, ⟨44, _⟩ => ⟨S1x50x8x1024, .f32⟩
  | .local .tc .vmem, ⟨45, _⟩ => ⟨S1x50x8x1024, .f32⟩
  | .local .tc .vmem, ⟨46, _⟩ => ⟨S8192x128, .f32⟩
  | .local .tc .vmem, ⟨47, _⟩ => ⟨S8192x128, .f32⟩
  | .local .tc .vmem, ⟨48, _⟩ => ⟨S1x8x1024, .f32⟩
  | .local .tc .vmem, ⟨49, _⟩ => ⟨S1x8x1024, .f32⟩
  | .local .tc .vmem, ⟨50, _⟩ => ⟨S50x128, .f32⟩
  | .local .tc .vmem, ⟨51, _⟩ => ⟨S1x128, .f32⟩
  | .local .tc .vmem, ⟨52, _⟩ => ⟨S128x128, .f32⟩
  | .local .tc .vmem, ⟨53, _⟩ => ⟨S1x128, .f32⟩
  | .local .tc .vmem, ⟨54, _⟩ => ⟨S1024x128, .f32⟩
  | .local .tc .vmem, ⟨55, _⟩ => ⟨S1024x128, .f32⟩
  | .local .tc .vmem, ⟨56, _⟩ => ⟨S1024x128, .f32⟩
  | .local .tc .vmem, ⟨57, _⟩ => ⟨S128x128, .f32⟩
  | .local .tc .vmem, ⟨58, _⟩ => ⟨S1x128, .f32⟩
  | .local .tc .vmem, ⟨59, _⟩ => ⟨S128x128, .f32⟩
  | .local .tc .vmem, ⟨60, _⟩ => ⟨S1x128, .f32⟩
  | .local .tc .vmem, ⟨61, _⟩ => ⟨S1024x128, .f32⟩
  | .local .tc .vmem, ⟨62, _⟩ => ⟨S1024x128, .f32⟩
  | .local .tc .vmem, ⟨63, _⟩ => ⟨S1024x128, .f32⟩
  | .local .tc .vmem, ⟨64, _⟩ => ⟨S1024x128, .f32⟩
  | .local .tc .vmem, ⟨65, _⟩ => ⟨S1024x128, .f32⟩
  | .local .tc .vmem, ⟨66, _⟩ => ⟨S1024x128, .f32⟩
  | .local .tc .vmem, ⟨67, _⟩ => ⟨S1024x128, .f32⟩
  | .local .tc .vmem, ⟨68, _⟩ => ⟨S1024x128, .f32⟩
  | .local .tc .vmem, ⟨69, _⟩ => ⟨S1024x128, .f32⟩
  | .local .tc .vmem, ⟨70, _⟩ => ⟨S1024x128, .f32⟩
  | .local .scVector .vmem, ⟨0, _⟩ => ⟨S32x128, .i32⟩
  | .local .scVector .vmem, ⟨1, _⟩ => ⟨S128x128, .f32⟩
  | .local .scVector .vmem, ⟨2, _⟩ => ⟨S128x128, .f32⟩
  | .local .scVector .vmem, ⟨3, _⟩ => ⟨S128x128, .f32⟩
  | .local .scVector .vmem, ⟨4, _⟩ => ⟨S128x128, .f32⟩
  | .local .scVector .vmem, ⟨5, _⟩ => ⟨S32x128, .i32⟩
  | .local .scVector .vmem, ⟨6, _⟩ => ⟨S128x128, .f32⟩
  | .local .scVector .vmem, ⟨7, _⟩ => ⟨S128x128, .f32⟩
  | .local .scVector .vmem, ⟨8, _⟩ => ⟨S128x128, .f32⟩
  | .local .scVector .vmem, ⟨9, _⟩ => ⟨S128x128, .f32⟩
  | .local .scVector .vmem, ⟨10, _⟩ => ⟨S32x128, .i32⟩
  | .local .scVector .vmem, ⟨11, _⟩ => ⟨S128x128, .f32⟩
  | .local .scVector .vmem, ⟨12, _⟩ => ⟨S128x128, .f32⟩
  | .local .scVector .vmem, ⟨13, _⟩ => ⟨S128x128, .f32⟩
  | .local .scVector .vmem, ⟨14, _⟩ => ⟨S128x128, .f32⟩
  | .local .scVector .vmem, ⟨15, _⟩ => ⟨S32x128, .i32⟩
  | .local .scVector .vmem, ⟨16, _⟩ => ⟨S128x128, .f32⟩
  | .local .scVector .vmem, ⟨17, _⟩ => ⟨S128x128, .f32⟩
  | .local .scVector .vmem, ⟨18, _⟩ => ⟨S128x128, .f32⟩
  | .local .scVector .vmem, ⟨19, _⟩ => ⟨S128x128, .f32⟩
  | _, _ => ⟨S8x1024x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 103 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => false
  | ⟨48, _⟩ => false
  | ⟨49, _⟩ => false
  | ⟨50, _⟩ => false
  | ⟨51, _⟩ => false
  | ⟨52, _⟩ => false
  | ⟨53, _⟩ => false
  | ⟨54, _⟩ => false
  | ⟨55, _⟩ => false
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => false
  | ⟨69, _⟩ => false
  | ⟨70, _⟩ => false
  | ⟨71, _⟩ => false
  | ⟨72, _⟩ => false
  | ⟨73, _⟩ => false
  | ⟨74, _⟩ => false
  | ⟨75, _⟩ => false
  | ⟨76, _⟩ => false
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | _ => false

abbrev sig : RefSig :=
  ofTables nBuf rfl bufTy 4 103 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v1_scv : Ref sig .scVector := ⟨.hbm, 15, rfl⟩
abbrev main_v19_scv : Ref sig .scVector := ⟨.hbm, 35, rfl⟩
abbrev main_v20_scv : Ref sig .scVector := ⟨.hbm, 36, rfl⟩
abbrev main_v23_scv : Ref sig .scVector := ⟨.hbm, 39, rfl⟩
abbrev main_v24_scv : Ref sig .scVector := ⟨.hbm, 40, rfl⟩
abbrev main_v27_scv : Ref sig .scVector := ⟨.hbm, 43, rfl⟩
abbrev main_v28_scv : Ref sig .scVector := ⟨.hbm, 44, rfl⟩
abbrev main_v31_scv : Ref sig .scVector := ⟨.hbm, 47, rfl⟩
abbrev main_v32_scv : Ref sig .scVector := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc2_stg0_0 : Ref sig .tc := ⟨.vmem, 5, rfl⟩
abbrev cc2_stg0_1 : Ref sig .tc := ⟨.vmem, 6, rfl⟩
abbrev cc2_stg1_0 : Ref sig .tc := ⟨.vmem, 7, rfl⟩
abbrev cc2_stg1_1 : Ref sig .tc := ⟨.vmem, 8, rfl⟩
abbrev cc2_stg2_0 : Ref sig .tc := ⟨.vmem, 9, rfl⟩
abbrev cc2_stg2_1 : Ref sig .tc := ⟨.vmem, 10, rfl⟩
abbrev cc2_stg3_0 : Ref sig .tc := ⟨.vmem, 11, rfl⟩
abbrev cc2_stg4_0 : Ref sig .tc := ⟨.vmem, 12, rfl⟩
abbrev cc2_stg5_0 : Ref sig .tc := ⟨.vmem, 13, rfl⟩
abbrev cc2_stg6_0 : Ref sig .tc := ⟨.vmem, 14, rfl⟩
abbrev cc2_stg7_0 : Ref sig .tc := ⟨.vmem, 15, rfl⟩
abbrev cc2_stg7_1 : Ref sig .tc := ⟨.vmem, 16, rfl⟩
abbrev cc2_scratch0 : Ref sig .tc := ⟨.vmem, 17, rfl⟩
abbrev cc4_stg0_0 : Ref sig .tc := ⟨.vmem, 18, rfl⟩
abbrev cc4_stg0_1 : Ref sig .tc := ⟨.vmem, 19, rfl⟩
abbrev cc4_stg1_0 : Ref sig .tc := ⟨.vmem, 20, rfl⟩
abbrev cc4_stg1_1 : Ref sig .tc := ⟨.vmem, 21, rfl⟩
abbrev cc4_stg2_0 : Ref sig .tc := ⟨.vmem, 22, rfl⟩
abbrev cc4_stg2_1 : Ref sig .tc := ⟨.vmem, 23, rfl⟩
abbrev cc4_stg3_0 : Ref sig .tc := ⟨.vmem, 24, rfl⟩
abbrev cc4_stg4_0 : Ref sig .tc := ⟨.vmem, 25, rfl⟩
abbrev cc4_stg5_0 : Ref sig .tc := ⟨.vmem, 26, rfl⟩
abbrev cc4_stg6_0 : Ref sig .tc := ⟨.vmem, 27, rfl⟩
abbrev cc4_stg7_0 : Ref sig .tc := ⟨.vmem, 28, rfl⟩
abbrev cc4_stg7_1 : Ref sig .tc := ⟨.vmem, 29, rfl⟩
abbrev cc4_scratch0 : Ref sig .tc := ⟨.vmem, 30, rfl⟩
abbrev cc6_stg0_0 : Ref sig .tc := ⟨.vmem, 31, rfl⟩
abbrev cc6_stg0_1 : Ref sig .tc := ⟨.vmem, 32, rfl⟩
abbrev cc6_stg1_0 : Ref sig .tc := ⟨.vmem, 33, rfl⟩
abbrev cc6_stg1_1 : Ref sig .tc := ⟨.vmem, 34, rfl⟩
abbrev cc6_stg2_0 : Ref sig .tc := ⟨.vmem, 35, rfl⟩
abbrev cc6_stg2_1 : Ref sig .tc := ⟨.vmem, 36, rfl⟩
abbrev cc6_stg3_0 : Ref sig .tc := ⟨.vmem, 37, rfl⟩
abbrev cc6_stg4_0 : Ref sig .tc := ⟨.vmem, 38, rfl⟩
abbrev cc6_stg5_0 : Ref sig .tc := ⟨.vmem, 39, rfl⟩
abbrev cc6_stg6_0 : Ref sig .tc := ⟨.vmem, 40, rfl⟩
abbrev cc6_stg7_0 : Ref sig .tc := ⟨.vmem, 41, rfl⟩
abbrev cc6_stg7_1 : Ref sig .tc := ⟨.vmem, 42, rfl⟩
abbrev cc6_scratch0 : Ref sig .tc := ⟨.vmem, 43, rfl⟩
abbrev cc8_stg0_0 : Ref sig .tc := ⟨.vmem, 44, rfl⟩
abbrev cc8_stg0_1 : Ref sig .tc := ⟨.vmem, 45, rfl⟩
abbrev cc8_stg1_0 : Ref sig .tc := ⟨.vmem, 46, rfl⟩
abbrev cc8_stg1_1 : Ref sig .tc := ⟨.vmem, 47, rfl⟩
abbrev cc8_stg2_0 : Ref sig .tc := ⟨.vmem, 48, rfl⟩
abbrev cc8_stg2_1 : Ref sig .tc := ⟨.vmem, 49, rfl⟩
abbrev cc8_stg3_0 : Ref sig .tc := ⟨.vmem, 50, rfl⟩
abbrev cc8_stg4_0 : Ref sig .tc := ⟨.vmem, 51, rfl⟩
abbrev cc8_stg5_0 : Ref sig .tc := ⟨.vmem, 52, rfl⟩
abbrev cc8_stg6_0 : Ref sig .tc := ⟨.vmem, 53, rfl⟩
abbrev cc8_stg7_0 : Ref sig .tc := ⟨.vmem, 54, rfl⟩
abbrev cc8_stg7_1 : Ref sig .tc := ⟨.vmem, 55, rfl⟩
abbrev cc8_scratch0 : Ref sig .tc := ⟨.vmem, 56, rfl⟩
abbrev cc9_stg0_0 : Ref sig .tc := ⟨.vmem, 57, rfl⟩
abbrev cc9_stg1_0 : Ref sig .tc := ⟨.vmem, 58, rfl⟩
abbrev cc9_stg2_0 : Ref sig .tc := ⟨.vmem, 59, rfl⟩
abbrev cc9_stg3_0 : Ref sig .tc := ⟨.vmem, 60, rfl⟩
abbrev cc9_stg4_0 : Ref sig .tc := ⟨.vmem, 61, rfl⟩
abbrev cc9_stg4_1 : Ref sig .tc := ⟨.vmem, 62, rfl⟩
abbrev cc9_stg5_0 : Ref sig .tc := ⟨.vmem, 63, rfl⟩
abbrev cc9_stg5_1 : Ref sig .tc := ⟨.vmem, 64, rfl⟩
abbrev cc9_stg6_0 : Ref sig .tc := ⟨.vmem, 65, rfl⟩
abbrev cc9_stg6_1 : Ref sig .tc := ⟨.vmem, 66, rfl⟩
abbrev cc9_stg7_0 : Ref sig .tc := ⟨.vmem, 67, rfl⟩
abbrev cc9_stg7_1 : Ref sig .tc := ⟨.vmem, 68, rfl⟩
abbrev cc9_stg8_0 : Ref sig .tc := ⟨.vmem, 69, rfl⟩
abbrev cc9_stg8_1 : Ref sig .tc := ⟨.vmem, 70, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc3_scratch0 : Ref sig .scVector := ⟨.vmem, 5, rfl⟩
abbrev cc3_scratch1 : Ref sig .scVector := ⟨.vmem, 6, rfl⟩
abbrev cc3_scratch2 : Ref sig .scVector := ⟨.vmem, 7, rfl⟩
abbrev cc3_scratch3 : Ref sig .scVector := ⟨.vmem, 8, rfl⟩
abbrev cc3_scratch4 : Ref sig .scVector := ⟨.vmem, 9, rfl⟩
abbrev cc5_scratch0 : Ref sig .scVector := ⟨.vmem, 10, rfl⟩
abbrev cc5_scratch1 : Ref sig .scVector := ⟨.vmem, 11, rfl⟩
abbrev cc5_scratch2 : Ref sig .scVector := ⟨.vmem, 12, rfl⟩
abbrev cc5_scratch3 : Ref sig .scVector := ⟨.vmem, 13, rfl⟩
abbrev cc5_scratch4 : Ref sig .scVector := ⟨.vmem, 14, rfl⟩
abbrev cc7_scratch0 : Ref sig .scVector := ⟨.vmem, 15, rfl⟩
abbrev cc7_scratch1 : Ref sig .scVector := ⟨.vmem, 16, rfl⟩
abbrev cc7_scratch2 : Ref sig .scVector := ⟨.vmem, 17, rfl⟩
abbrev cc7_scratch3 : Ref sig .scVector := ⟨.vmem, 18, rfl⟩
abbrev cc7_scratch4 : Ref sig .scVector := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem7_1 : DmaSem sig := 25
abbrev cc4_sem0_0 : DmaSem sig := 35
abbrev cc4_sem0_1 : DmaSem sig := 36
abbrev cc4_sem1_0 : DmaSem sig := 37
abbrev cc4_sem1_1 : DmaSem sig := 38
abbrev cc4_sem2_0 : DmaSem sig := 39
abbrev cc4_sem2_1 : DmaSem sig := 40
abbrev cc4_sem3_0 : DmaSem sig := 41
abbrev cc4_sem4_0 : DmaSem sig := 42
abbrev cc4_sem5_0 : DmaSem sig := 43
abbrev cc4_sem6_0 : DmaSem sig := 44
abbrev cc4_sem7_0 : DmaSem sig := 45
abbrev cc4_sem7_1 : DmaSem sig := 46
abbrev cc6_sem0_0 : DmaSem sig := 56
abbrev cc6_sem0_1 : DmaSem sig := 57
abbrev cc6_sem1_0 : DmaSem sig := 58
abbrev cc6_sem1_1 : DmaSem sig := 59
abbrev cc6_sem2_0 : DmaSem sig := 60
abbrev cc6_sem2_1 : DmaSem sig := 61
abbrev cc6_sem3_0 : DmaSem sig := 62
abbrev cc6_sem4_0 : DmaSem sig := 63
abbrev cc6_sem5_0 : DmaSem sig := 64
abbrev cc6_sem6_0 : DmaSem sig := 65
abbrev cc6_sem7_0 : DmaSem sig := 66
abbrev cc6_sem7_1 : DmaSem sig := 67
abbrev cc8_sem0_0 : DmaSem sig := 77
abbrev cc8_sem0_1 : DmaSem sig := 78
abbrev cc8_sem1_0 : DmaSem sig := 79
abbrev cc8_sem1_1 : DmaSem sig := 80
abbrev cc8_sem2_0 : DmaSem sig := 81
abbrev cc8_sem2_1 : DmaSem sig := 82
abbrev cc8_sem3_0 : DmaSem sig := 83
abbrev cc8_sem4_0 : DmaSem sig := 84
abbrev cc8_sem5_0 : DmaSem sig := 85
abbrev cc8_sem6_0 : DmaSem sig := 86
abbrev cc8_sem7_0 : DmaSem sig := 87
abbrev cc8_sem7_1 : DmaSem sig := 88
abbrev cc9_sem0_0 : DmaSem sig := 89
abbrev cc9_sem1_0 : DmaSem sig := 90
abbrev cc9_sem2_0 : DmaSem sig := 91
abbrev cc9_sem3_0 : DmaSem sig := 92
abbrev cc9_sem4_0 : DmaSem sig := 93
abbrev cc9_sem4_1 : DmaSem sig := 94
abbrev cc9_sem5_0 : DmaSem sig := 95
abbrev cc9_sem5_1 : DmaSem sig := 96
abbrev cc9_sem6_0 : DmaSem sig := 97
abbrev cc9_sem6_1 : DmaSem sig := 98
abbrev cc9_sem7_0 : DmaSem sig := 99
abbrev cc9_sem7_1 : DmaSem sig := 100
abbrev cc9_sem8_0 : DmaSem sig := 101
abbrev cc9_sem8_1 : DmaSem sig := 102
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_17_r0 : BitVec 32 := 0#32
  let c0_i32_18_r0 : BitVec 32 := 0#32
  ![v1.toNat, 0, 0]
@[reducible] def k1_t1_loop : Scf.Loop 32 :=
  let c0_i32_14 : BitVec 32 := 0#32
  let c8_i32 : BitVec 32 := 8#32
  let v14 : BitVec 32 := Scalar.addi c0_i32_14 c8_i32
  let c1_i32_15 : BitVec 32 := 1#32
  ⟨c0_i32_14, v14, c1_i32_15⟩
def k1_off2 (k1_t1 : Fin k1_t1_loop.trips) (c0_i32_17 : BitVec 32) : Fin 2 → Nat :=
  let c0_i32_14 : BitVec 32 := 0#32
  let c1_i32_15 : BitVec 32 := 1#32
  let arg18 : BitVec 32 := Scf.iv c0_i32_14 c1_i32_15 k1_t1
  let c4_i32 : BitVec 32 := 4#32
  let v15 : BitVec 32 := Scalar.muli arg18 c4_i32
  let v16 : BitVec 32 := Scalar.addi v15 c0_i32_17
  let c0_i32_18 : BitVec 32 := 0#32
  ![v16.toNat, 0]
def k1_off3 (i : grid1.Coords) (k1_t1 : Fin k1_t1_loop.trips) (c0_i32_17 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v17 : BitVec 32 := Scalar.muli v1 c32_i32
  let c0_i32_14 : BitVec 32 := 0#32
  let c1_i32_15 : BitVec 32 := 1#32
  let arg18 : BitVec 32 := Scf.iv c0_i32_14 c1_i32_15 k1_t1
  let c4_i32 : BitVec 32 := 4#32
  let v15 : BitVec 32 := Scalar.muli arg18 c4_i32
  let v16 : BitVec 32 := Scalar.addi v15 c0_i32_17
  let v18 : BitVec 32 := Scalar.addi v17 v16
  let c128_i32 : BitVec 32 := 128#32
  let v19 : BitVec 32 := Scalar.muli v18 c128_i32
  let c0_i32_21 : BitVec 32 := 0#32
  ![v19.toNat, 0]
def k1_cond1 (k1_t1 : Fin k1_t1_loop.trips) : BitVec 1 :=
  let c0_i32_14 : BitVec 32 := 0#32
  let c1_i32_15 : BitVec 32 := 1#32
  let arg18 : BitVec 32 := Scf.iv c0_i32_14 c1_i32_15 k1_t1
  let c4_i32 : BitVec 32 := 4#32
  let v15 : BitVec 32 := Scalar.muli arg18 c4_i32
  let c0_i32_17 : BitVec 32 := 0#32
  let v16 : BitVec 32 := Scalar.addi v15 c0_i32_17
  let c4_i32_23 : BitVec 32 := 4#32
  let v25 : BitVec 32 := Scalar.addi v16 c4_i32_23
  let c32_i32_24 : BitVec 32 := 32#32
  let v26 : BitVec 1 := Scalar.cmpi .slt v25 c32_i32_24
  let v27 : BitVec 32 := Scalar.extui v26
  let c0_i32_25 : BitVec 32 := 0#32
  let v28 : BitVec 1 := Scalar.cmpi .ne v27 c0_i32_25
  v28

def k1_off4 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v17 : BitVec 32 := Scalar.muli v1 c32_i32
  let c0_i32_14 : BitVec 32 := 0#32
  let c1_i32_15 : BitVec 32 := 1#32
  let arg18 : BitVec 32 := Scf.iv c0_i32_14 c1_i32_15 k1_t1
  let c4_i32 : BitVec 32 := 4#32
  let v15 : BitVec 32 := Scalar.muli arg18 c4_i32
  let c0_i32_17 : BitVec 32 := 0#32
  let v16 : BitVec 32 := Scalar.addi v15 c0_i32_17
  let v18 : BitVec 32 := Scalar.addi v17 v16
  let c128_i32 : BitVec 32 := 128#32
  let v19 : BitVec 32 := Scalar.muli v18 c128_i32
  let c0_i32_70 : BitVec 32 := 0#32
  ![v19.toNat, 0]
def k1_off5 (k1_t1 : Fin k1_t1_loop.trips) : Fin 2 → Nat :=
  let c0_i32_14 : BitVec 32 := 0#32
  let c1_i32_15 : BitVec 32 := 1#32
  let arg18 : BitVec 32 := Scf.iv c0_i32_14 c1_i32_15 k1_t1
  let c4_i32 : BitVec 32 := 4#32
  let v15 : BitVec 32 := Scalar.muli arg18 c4_i32
  let c0_i32_17 : BitVec 32 := 0#32
  let v16 : BitVec 32 := Scalar.addi v15 c0_i32_17
  let c4_i32_23 : BitVec 32 := 4#32
  let v25 : BitVec 32 := Scalar.addi v16 c4_i32_23
  let c0_i32_72 : BitVec 32 := 0#32
  ![v25.toNat, 0]
def k1_cond2 (k1_t1 : Fin k1_t1_loop.trips) : BitVec 1 :=
  let c0_i32_14 : BitVec 32 := 0#32
  let c1_i32_15 : BitVec 32 := 1#32
  let arg18 : BitVec 32 := Scf.iv c0_i32_14 c1_i32_15 k1_t1
  let c4_i32 : BitVec 32 := 4#32
  let v15 : BitVec 32 := Scalar.muli arg18 c4_i32
  let c0_i32_17 : BitVec 32 := 0#32
  let v16 : BitVec 32 := Scalar.addi v15 c0_i32_17
  let c4_i32_23 : BitVec 32 := 4#32
  let v25 : BitVec 32 := Scalar.addi v16 c4_i32_23
  let c32_i32_26 : BitVec 32 := 32#32
  let v29 : BitVec 1 := Scalar.cmpi .sge v25 c32_i32_26
  let v30 : BitVec 32 := Scalar.extui v29
  let c0_i32_27 : BitVec 32 := 0#32
  let v31 : BitVec 1 := Scalar.cmpi .ne v30 c0_i32_27
  v31

def k1_off6 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v17 : BitVec 32 := Scalar.muli v1 c32_i32
  let c0_i32_14 : BitVec 32 := 0#32
  let c1_i32_15 : BitVec 32 := 1#32
  let arg18 : BitVec 32 := Scf.iv c0_i32_14 c1_i32_15 k1_t1
  let c4_i32 : BitVec 32 := 4#32
  let v15 : BitVec 32 := Scalar.muli arg18 c4_i32
  let c0_i32_17 : BitVec 32 := 0#32
  let v16 : BitVec 32 := Scalar.addi v15 c0_i32_17
  let v18 : BitVec 32 := Scalar.addi v17 v16
  let c128_i32 : BitVec 32 := 128#32
  let v19 : BitVec 32 := Scalar.muli v18 c128_i32
  let c0_i32_70 : BitVec 32 := 0#32
  ![v19.toNat, 0]
def k1_cond3 (k1_t1 : Fin k1_t1_loop.trips) : BitVec 1 :=
  let c0_i32_14 : BitVec 32 := 0#32
  let c1_i32_15 : BitVec 32 := 1#32
  let arg18 : BitVec 32 := Scf.iv c0_i32_14 c1_i32_15 k1_t1
  let c4_i32_28 : BitVec 32 := 4#32
  let v32 : BitVec 32 := Scalar.muli arg18 c4_i32_28
  let c1_i32_29 : BitVec 32 := 1#32
  let v33 : BitVec 32 := Scalar.addi v32 c1_i32_29
  let c4_i32_37 : BitVec 32 := 4#32
  let v42 : BitVec 32 := Scalar.addi v33 c4_i32_37
  let c32_i32_38 : BitVec 32 := 32#32
  let v43 : BitVec 1 := Scalar.cmpi .slt v42 c32_i32_38
  let v44 : BitVec 32 := Scalar.extui v43
  let c0_i32_39 : BitVec 32 := 0#32
  let v45 : BitVec 1 := Scalar.cmpi .ne v44 c0_i32_39
  v45

def k1_off7 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_30 : BitVec 32 := 32#32
  let v34 : BitVec 32 := Scalar.muli v1 c32_i32_30
  let c0_i32_14 : BitVec 32 := 0#32
  let c1_i32_15 : BitVec 32 := 1#32
  let arg18 : BitVec 32 := Scf.iv c0_i32_14 c1_i32_15 k1_t1
  let c4_i32_28 : BitVec 32 := 4#32
  let v32 : BitVec 32 := Scalar.muli arg18 c4_i32_28
  let c1_i32_29 : BitVec 32 := 1#32
  let v33 : BitVec 32 := Scalar.addi v32 c1_i32_29
  let v35 : BitVec 32 := Scalar.addi v34 v33
  let c128_i32_31 : BitVec 32 := 128#32
  let v36 : BitVec 32 := Scalar.muli v35 c128_i32_31
  let c0_i32_70 : BitVec 32 := 0#32
  ![v36.toNat, 0]
def k1_off8 (k1_t1 : Fin k1_t1_loop.trips) : Fin 2 → Nat :=
  let c0_i32_14 : BitVec 32 := 0#32
  let c1_i32_15 : BitVec 32 := 1#32
  let arg18 : BitVec 32 := Scf.iv c0_i32_14 c1_i32_15 k1_t1
  let c4_i32_28 : BitVec 32 := 4#32
  let v32 : BitVec 32 := Scalar.muli arg18 c4_i32_28
  let c1_i32_29 : BitVec 32 := 1#32
  let v33 : BitVec 32 := Scalar.addi v32 c1_i32_29
  let c4_i32_37 : BitVec 32 := 4#32
  let v42 : BitVec 32 := Scalar.addi v33 c4_i32_37
  let c0_i32_72 : BitVec 32 := 0#32
  ![v42.toNat, 0]
def k1_cond4 (k1_t1 : Fin k1_t1_loop.trips) : BitVec 1 :=
  let c0_i32_14 : BitVec 32 := 0#32
  let c1_i32_15 : BitVec 32 := 1#32
  let arg18 : BitVec 32 := Scf.iv c0_i32_14 c1_i32_15 k1_t1
  let c4_i32_28 : BitVec 32 := 4#32
  let v32 : BitVec 32 := Scalar.muli arg18 c4_i32_28
  let c1_i32_29 : BitVec 32 := 1#32
  let v33 : BitVec 32 := Scalar.addi v32 c1_i32_29
  let c4_i32_37 : BitVec 32 := 4#32
  let v42 : BitVec 32 := Scalar.addi v33 c4_i32_37
  let c32_i32_40 : BitVec 32 := 32#32
  let v46 : BitVec 1 := Scalar.cmpi .sge v42 c32_i32_40
  let v47 : BitVec 32 := Scalar.extui v46
  let c0_i32_41 : BitVec 32 := 0#32
  let v48 : BitVec 1 := Scalar.cmpi .ne v47 c0_i32_41
  v48

def k1_off9 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_30 : BitVec 32 := 32#32
  let v34 : BitVec 32 := Scalar.muli v1 c32_i32_30
  let c0_i32_14 : BitVec 32 := 0#32
  let c1_i32_15 : BitVec 32 := 1#32
  let arg18 : BitVec 32 := Scf.iv c0_i32_14 c1_i32_15 k1_t1
  let c4_i32_28 : BitVec 32 := 4#32
  let v32 : BitVec 32 := Scalar.muli arg18 c4_i32_28
  let c1_i32_29 : BitVec 32 := 1#32
  let v33 : BitVec 32 := Scalar.addi v32 c1_i32_29
  let v35 : BitVec 32 := Scalar.addi v34 v33
  let c128_i32_31 : BitVec 32 := 128#32
  let v36 : BitVec 32 := Scalar.muli v35 c128_i32_31
  let c0_i32_70 : BitVec 32 := 0#32
  ![v36.toNat, 0]
def k1_cond5 (k1_t1 : Fin k1_t1_loop.trips) : BitVec 1 :=
  let c0_i32_14 : BitVec 32 := 0#32
  let c1_i32_15 : BitVec 32 := 1#32
  let arg18 : BitVec 32 := Scf.iv c0_i32_14 c1_i32_15 k1_t1
  let c4_i32_42 : BitVec 32 := 4#32
  let v49 : BitVec 32 := Scalar.muli arg18 c4_i32_42
  let c2_i32_43 : BitVec 32 := 2#32
  let v50 : BitVec 32 := Scalar.addi v49 c2_i32_43
  let c4_i32_51 : BitVec 32 := 4#32
  let v59 : BitVec 32 := Scalar.addi v50 c4_i32_51
  let c32_i32_52 : BitVec 32 := 32#32
  let v60 : BitVec 1 := Scalar.cmpi .slt v59 c32_i32_52
  let v61 : BitVec 32 := Scalar.extui v60
  let c0_i32_53 : BitVec 32 := 0#32
  let v62 : BitVec 1 := Scalar.cmpi .ne v61 c0_i32_53
  v62

def k1_off10 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_44 : BitVec 32 := 32#32
  let v51 : BitVec 32 := Scalar.muli v1 c32_i32_44
  let c0_i32_14 : BitVec 32 := 0#32
  let c1_i32_15 : BitVec 32 := 1#32
  let arg18 : BitVec 32 := Scf.iv c0_i32_14 c1_i32_15 k1_t1
  let c4_i32_42 : BitVec 32 := 4#32
  let v49 : BitVec 32 := Scalar.muli arg18 c4_i32_42
  let c2_i32_43 : BitVec 32 := 2#32
  let v50 : BitVec 32 := Scalar.addi v49 c2_i32_43
  let v52 : BitVec 32 := Scalar.addi v51 v50
  let c128_i32_45 : BitVec 32 := 128#32
  let v53 : BitVec 32 := Scalar.muli v52 c128_i32_45
  let c0_i32_70 : BitVec 32 := 0#32
  ![v53.toNat, 0]
def k1_off11 (k1_t1 : Fin k1_t1_loop.trips) : Fin 2 → Nat :=
  let c0_i32_14 : BitVec 32 := 0#32
  let c1_i32_15 : BitVec 32 := 1#32
  let arg18 : BitVec 32 := Scf.iv c0_i32_14 c1_i32_15 k1_t1
  let c4_i32_42 : BitVec 32 := 4#32
  let v49 : BitVec 32 := Scalar.muli arg18 c4_i32_42
  let c2_i32_43 : BitVec 32 := 2#32
  let v50 : BitVec 32 := Scalar.addi v49 c2_i32_43
  let c4_i32_51 : BitVec 32 := 4#32
  let v59 : BitVec 32 := Scalar.addi v50 c4_i32_51
  let c0_i32_72 : BitVec 32 := 0#32
  ![v59.toNat, 0]
def k1_cond6 (k1_t1 : Fin k1_t1_loop.trips) : BitVec 1 :=
  let c0_i32_14 : BitVec 32 := 0#32
  let c1_i32_15 : BitVec 32 := 1#32
  let arg18 : BitVec 32 := Scf.iv c0_i32_14 c1_i32_15 k1_t1
  let c4_i32_42 : BitVec 32 := 4#32
  let v49 : BitVec 32 := Scalar.muli arg18 c4_i32_42
  let c2_i32_43 : BitVec 32 := 2#32
  let v50 : BitVec 32 := Scalar.addi v49 c2_i32_43
  let c4_i32_51 : BitVec 32 := 4#32
  let v59 : BitVec 32 := Scalar.addi v50 c4_i32_51
  let c32_i32_54 : BitVec 32 := 32#32
  let v63 : BitVec 1 := Scalar.cmpi .sge v59 c32_i32_54
  let v64 : BitVec 32 := Scalar.extui v63
  let c0_i32_55 : BitVec 32 := 0#32
  let v65 : BitVec 1 := Scalar.cmpi .ne v64 c0_i32_55
  v65

def k1_off12 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_44 : BitVec 32 := 32#32
  let v51 : BitVec 32 := Scalar.muli v1 c32_i32_44
  let c0_i32_14 : BitVec 32 := 0#32
  let c1_i32_15 : BitVec 32 := 1#32
  let arg18 : BitVec 32 := Scf.iv c0_i32_14 c1_i32_15 k1_t1
  let c4_i32_42 : BitVec 32 := 4#32
  let v49 : BitVec 32 := Scalar.muli arg18 c4_i32_42
  let c2_i32_43 : BitVec 32 := 2#32
  let v50 : BitVec 32 := Scalar.addi v49 c2_i32_43
  let v52 : BitVec 32 := Scalar.addi v51 v50
  let c128_i32_45 : BitVec 32 := 128#32
  let v53 : BitVec 32 := Scalar.muli v52 c128_i32_45
  let c0_i32_70 : BitVec 32 := 0#32
  ![v53.toNat, 0]
def k1_cond7 (k1_t1 : Fin k1_t1_loop.trips) : BitVec 1 :=
  let c0_i32_14 : BitVec 32 := 0#32
  let c1_i32_15 : BitVec 32 := 1#32
  let arg18 : BitVec 32 := Scf.iv c0_i32_14 c1_i32_15 k1_t1
  let c4_i32_56 : BitVec 32 := 4#32
  let v66 : BitVec 32 := Scalar.muli arg18 c4_i32_56
  let c3_i32_57 : BitVec 32 := 3#32
  let v67 : BitVec 32 := Scalar.addi v66 c3_i32_57
  let c4_i32_65 : BitVec 32 := 4#32
  let v76 : BitVec 32 := Scalar.addi v67 c4_i32_65
  let c32_i32_66 : BitVec 32 := 32#32
  let v77 : BitVec 1 := Scalar.cmpi .slt v76 c32_i32_66
  let v78 : BitVec 32 := Scalar.extui v77
  let c0_i32_67 : BitVec 32 := 0#32
  let v79 : BitVec 1 := Scalar.cmpi .ne v78 c0_i32_67
  v79

def k1_off13 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_58 : BitVec 32 := 32#32
  let v68 : BitVec 32 := Scalar.muli v1 c32_i32_58
  let c0_i32_14 : BitVec 32 := 0#32
  let c1_i32_15 : BitVec 32 := 1#32
  let arg18 : BitVec 32 := Scf.iv c0_i32_14 c1_i32_15 k1_t1
  let c4_i32_56 : BitVec 32 := 4#32
  let v66 : BitVec 32 := Scalar.muli arg18 c4_i32_56
  let c3_i32_57 : BitVec 32 := 3#32
  let v67 : BitVec 32 := Scalar.addi v66 c3_i32_57
  let v69 : BitVec 32 := Scalar.addi v68 v67
  let c128_i32_59 : BitVec 32 := 128#32
  let v70 : BitVec 32 := Scalar.muli v69 c128_i32_59
  let c0_i32_70 : BitVec 32 := 0#32
  ![v70.toNat, 0]
def k1_off14 (k1_t1 : Fin k1_t1_loop.trips) : Fin 2 → Nat :=
  let c0_i32_14 : BitVec 32 := 0#32
  let c1_i32_15 : BitVec 32 := 1#32
  let arg18 : BitVec 32 := Scf.iv c0_i32_14 c1_i32_15 k1_t1
  let c4_i32_56 : BitVec 32 := 4#32
  let v66 : BitVec 32 := Scalar.muli arg18 c4_i32_56
  let c3_i32_57 : BitVec 32 := 3#32
  let v67 : BitVec 32 := Scalar.addi v66 c3_i32_57
  let c4_i32_65 : BitVec 32 := 4#32
  let v76 : BitVec 32 := Scalar.addi v67 c4_i32_65
  let c0_i32_72 : BitVec 32 := 0#32
  ![v76.toNat, 0]
def k1_cond8 (k1_t1 : Fin k1_t1_loop.trips) : BitVec 1 :=
  let c0_i32_14 : BitVec 32 := 0#32
  let c1_i32_15 : BitVec 32 := 1#32
  let arg18 : BitVec 32 := Scf.iv c0_i32_14 c1_i32_15 k1_t1
  let c4_i32_56 : BitVec 32 := 4#32
  let v66 : BitVec 32 := Scalar.muli arg18 c4_i32_56
  let c3_i32_57 : BitVec 32 := 3#32
  let v67 : BitVec 32 := Scalar.addi v66 c3_i32_57
  let c4_i32_65 : BitVec 32 := 4#32
  let v76 : BitVec 32 := Scalar.addi v67 c4_i32_65
  let c32_i32_68 : BitVec 32 := 32#32
  let v80 : BitVec 1 := Scalar.cmpi .sge v76 c32_i32_68
  let v81 : BitVec 32 := Scalar.extui v80
  let c0_i32_69 : BitVec 32 := 0#32
  let v82 : BitVec 1 := Scalar.cmpi .ne v81 c0_i32_69
  v82

def k1_off15 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_58 : BitVec 32 := 32#32
  let v68 : BitVec 32 := Scalar.muli v1 c32_i32_58
  let c0_i32_14 : BitVec 32 := 0#32
  let c1_i32_15 : BitVec 32 := 1#32
  let arg18 : BitVec 32 := Scf.iv c0_i32_14 c1_i32_15 k1_t1
  let c4_i32_56 : BitVec 32 := 4#32
  let v66 : BitVec 32 := Scalar.muli arg18 c4_i32_56
  let c3_i32_57 : BitVec 32 := 3#32
  let v67 : BitVec 32 := Scalar.addi v66 c3_i32_57
  let v69 : BitVec 32 := Scalar.addi v68 v67
  let c128_i32_59 : BitVec 32 := 128#32
  let v70 : BitVec 32 := Scalar.muli v69 c128_i32_59
  let c0_i32_70 : BitVec 32 := 0#32
  ![v70.toNat, 0]
abbrev grid2 : Pipeline.Grid := ⟨2, ![8, 2], ![false, false]⟩

def k2_cond3 (i : grid2.Coords) : BitVec 1 :=
  let arg1 : BitVec 32 := BitVec.ofNat 32 (i 1).val
  let c1_i32 : BitVec 32 := 1#32
  let v224 : BitVec 1 := Scalar.cmpi .eq arg1 c1_i32
  let v225 : BitVec 32 := Scalar.extui v224
  let c0_i32_134 : BitVec 32 := 0#32
  let v226 : BitVec 1 := Scalar.cmpi .ne v225 c0_i32_134
  v226

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![arg0.toNat, c0_i32_0.toNat, v0.toNat, c0_i32_1.toNat]

def cc2_transform_1 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, v0.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1x50x8x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S8192x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x8x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 1 → Memref sig .tc .vmem S50x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 2 → Memref sig .tc .vmem S1024x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]

abbrev grid3 : Pipeline.Grid := ⟨2, ![2, 16], ![false, false]⟩

def k3_off1 (i : grid3.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_17_r0 : BitVec 32 := 0#32
  let c0_i32_18_r0 : BitVec 32 := 0#32
  ![v1.toNat, 0, 0]
@[reducible] def k3_t1_loop : Scf.Loop 32 :=
  let c0_i32_14 : BitVec 32 := 0#32
  let c8_i32 : BitVec 32 := 8#32
  let v14 : BitVec 32 := Scalar.addi c0_i32_14 c8_i32
  let c1_i32_15 : BitVec 32 := 1#32
  ⟨c0_i32_14, v14, c1_i32_15⟩
def k3_off2 (k3_t1 : Fin k3_t1_loop.trips) (c0_i32_17 : BitVec 32) : Fin 2 → Nat :=
  let c0_i32_14 : BitVec 32 := 0#32
  let c1_i32_15 : BitVec 32 := 1#32
  let arg18 : BitVec 32 := Scf.iv c0_i32_14 c1_i32_15 k3_t1
  let c4_i32 : BitVec 32 := 4#32
  let v15 : BitVec 32 := Scalar.muli arg18 c4_i32
  let v16 : BitVec 32 := Scalar.addi v15 c0_i32_17
  let c0_i32_18 : BitVec 32 := 0#32
  ![v16.toNat, 0]
def k3_off3 (i : grid3.Coords) (k3_t1 : Fin k3_t1_loop.trips) (c0_i32_17 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v17 : BitVec 32 := Scalar.muli v1 c32_i32
  let c0_i32_14 : BitVec 32 := 0#32
  let c1_i32_15 : BitVec 32 := 1#32
  let arg18 : BitVec 32 := Scf.iv c0_i32_14 c1_i32_15 k3_t1
  let c4_i32 : BitVec 32 := 4#32
  let v15 : BitVec 32 := Scalar.muli arg18 c4_i32
  let v16 : BitVec 32 := Scalar.addi v15 c0_i32_17
  let v18 : BitVec 32 := Scalar.addi v17 v16
  let c128_i32 : BitVec 32 := 128#32
  let v19 : BitVec 32 := Scalar.muli v18 c128_i32
  let c0_i32_21 : BitVec 32 := 0#32
  ![v19.toNat, 0]
def k3_cond1 (k3_t1 : Fin k3_t1_loop.trips) : BitVec 1 :=
  let c0_i32_14 : BitVec 32 := 0#32
  let c1_i32_15 : BitVec 32 := 1#32
  let arg18 : BitVec 32 := Scf.iv c0_i32_14 c1_i32_15 k3_t1
  let c4_i32 : BitVec 32 := 4#32
  let v15 : BitVec 32 := Scalar.muli arg18 c4_i32
  let c0_i32_17 : BitVec 32 := 0#32
  let v16 : BitVec 32 := Scalar.addi v15 c0_i32_17
  let c4_i32_23 : BitVec 32 := 4#32
  let v25 : BitVec 32 := Scalar.addi v16 c4_i32_23
  let c32_i32_24 : BitVec 32 := 32#32
  let v26 : BitVec 1 := Scalar.cmpi .slt v25 c32_i32_24
  let v27 : BitVec 32 := Scalar.extui v26
  let c0_i32_25 : BitVec 32 := 0#32
  let v28 : BitVec 1 := Scalar.cmpi .ne v27 c0_i32_25
  v28

def k3_off4 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v17 : BitVec 32 := Scalar.muli v1 c32_i32
  let c0_i32_14 : BitVec 32 := 0#32
  let c1_i32_15 : BitVec 32 := 1#32
  let arg18 : BitVec 32 := Scf.iv c0_i32_14 c1_i32_15 k3_t1
  let c4_i32 : BitVec 32 := 4#32
  let v15 : BitVec 32 := Scalar.muli arg18 c4_i32
  let c0_i32_17 : BitVec 32 := 0#32
  let v16 : BitVec 32 := Scalar.addi v15 c0_i32_17
  let v18 : BitVec 32 := Scalar.addi v17 v16
  let c128_i32 : BitVec 32 := 128#32
  let v19 : BitVec 32 := Scalar.muli v18 c128_i32
  let c0_i32_70 : BitVec 32 := 0#32
  ![v19.toNat, 0]
def k3_off5 (k3_t1 : Fin k3_t1_loop.trips) : Fin 2 → Nat :=
  let c0_i32_14 : BitVec 32 := 0#32
  let c1_i32_15 : BitVec 32 := 1#32
  let arg18 : BitVec 32 := Scf.iv c0_i32_14 c1_i32_15 k3_t1
  let c4_i32 : BitVec 32 := 4#32
  let v15 : BitVec 32 := Scalar.muli arg18 c4_i32
  let c0_i32_17 : BitVec 32 := 0#32
  let v16 : BitVec 32 := Scalar.addi v15 c0_i32_17
  let c4_i32_23 : BitVec 32 := 4#32
  let v25 : BitVec 32 := Scalar.addi v16 c4_i32_23
  let c0_i32_72 : BitVec 32 := 0#32
  ![v25.toNat, 0]
def k3_cond2 (k3_t1 : Fin k3_t1_loop.trips) : BitVec 1 :=
  let c0_i32_14 : BitVec 32 := 0#32
  let c1_i32_15 : BitVec 32 := 1#32
  let arg18 : BitVec 32 := Scf.iv c0_i32_14 c1_i32_15 k3_t1
  let c4_i32 : BitVec 32 := 4#32
  let v15 : BitVec 32 := Scalar.muli arg18 c4_i32
  let c0_i32_17 : BitVec 32 := 0#32
  let v16 : BitVec 32 := Scalar.addi v15 c0_i32_17
  let c4_i32_23 : BitVec 32 := 4#32
  let v25 : BitVec 32 := Scalar.addi v16 c4_i32_23
  let c32_i32_26 : BitVec 32 := 32#32
  let v29 : BitVec 1 := Scalar.cmpi .sge v25 c32_i32_26
  let v30 : BitVec 32 := Scalar.extui v29
  let c0_i32_27 : BitVec 32 := 0#32
  let v31 : BitVec 1 := Scalar.cmpi .ne v30 c0_i32_27
  v31

def k3_off6 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v17 : BitVec 32 := Scalar.muli v1 c32_i32
  let c0_i32_14 : BitVec 32 := 0#32
  let c1_i32_15 : BitVec 32 := 1#32
  let arg18 : BitVec 32 := Scf.iv c0_i32_14 c1_i32_15 k3_t1
  let c4_i32 : BitVec 32 := 4#32
  let v15 : BitVec 32 := Scalar.muli arg18 c4_i32
  let c0_i32_17 : BitVec 32 := 0#32
  let v16 : BitVec 32 := Scalar.addi v15 c0_i32_17
  let v18 : BitVec 32 := Scalar.addi v17 v16
  let c128_i32 : BitVec 32 := 128#32
  let v19 : BitVec 32 := Scalar.muli v18 c128_i32
  let c0_i32_70 : BitVec 32 := 0#32
  ![v19.toNat, 0]
def k3_cond3 (k3_t1 : Fin k3_t1_loop.trips) : BitVec 1 :=
  let c0_i32_14 : BitVec 32 := 0#32
  let c1_i32_15 : BitVec 32 := 1#32
  let arg18 : BitVec 32 := Scf.iv c0_i32_14 c1_i32_15 k3_t1
  let c4_i32_28 : BitVec 32 := 4#32
  let v32 : BitVec 32 := Scalar.muli arg18 c4_i32_28
  let c1_i32_29 : BitVec 32 := 1#32
  let v33 : BitVec 32 := Scalar.addi v32 c1_i32_29
  let c4_i32_37 : BitVec 32 := 4#32
  let v42 : BitVec 32 := Scalar.addi v33 c4_i32_37
  let c32_i32_38 : BitVec 32 := 32#32
  let v43 : BitVec 1 := Scalar.cmpi .slt v42 c32_i32_38
  let v44 : BitVec 32 := Scalar.extui v43
  let c0_i32_39 : BitVec 32 := 0#32
  let v45 : BitVec 1 := Scalar.cmpi .ne v44 c0_i32_39
  v45

def k3_off7 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_30 : BitVec 32 := 32#32
  let v34 : BitVec 32 := Scalar.muli v1 c32_i32_30
  let c0_i32_14 : BitVec 32 := 0#32
  let c1_i32_15 : BitVec 32 := 1#32
  let arg18 : BitVec 32 := Scf.iv c0_i32_14 c1_i32_15 k3_t1
  let c4_i32_28 : BitVec 32 := 4#32
  let v32 : BitVec 32 := Scalar.muli arg18 c4_i32_28
  let c1_i32_29 : BitVec 32 := 1#32
  let v33 : BitVec 32 := Scalar.addi v32 c1_i32_29
  let v35 : BitVec 32 := Scalar.addi v34 v33
  let c128_i32_31 : BitVec 32 := 128#32
  let v36 : BitVec 32 := Scalar.muli v35 c128_i32_31
  let c0_i32_70 : BitVec 32 := 0#32
  ![v36.toNat, 0]
def k3_off8 (k3_t1 : Fin k3_t1_loop.trips) : Fin 2 → Nat :=
  let c0_i32_14 : BitVec 32 := 0#32
  let c1_i32_15 : BitVec 32 := 1#32
  let arg18 : BitVec 32 := Scf.iv c0_i32_14 c1_i32_15 k3_t1
  let c4_i32_28 : BitVec 32 := 4#32
  let v32 : BitVec 32 := Scalar.muli arg18 c4_i32_28
  let c1_i32_29 : BitVec 32 := 1#32
  let v33 : BitVec 32 := Scalar.addi v32 c1_i32_29
  let c4_i32_37 : BitVec 32 := 4#32
  let v42 : BitVec 32 := Scalar.addi v33 c4_i32_37
  let c0_i32_72 : BitVec 32 := 0#32
  ![v42.toNat, 0]
def k3_cond4 (k3_t1 : Fin k3_t1_loop.trips) : BitVec 1 :=
  let c0_i32_14 : BitVec 32 := 0#32
  let c1_i32_15 : BitVec 32 := 1#32
  let arg18 : BitVec 32 := Scf.iv c0_i32_14 c1_i32_15 k3_t1
  let c4_i32_28 : BitVec 32 := 4#32
  let v32 : BitVec 32 := Scalar.muli arg18 c4_i32_28
  let c1_i32_29 : BitVec 32 := 1#32
  let v33 : BitVec 32 := Scalar.addi v32 c1_i32_29
  let c4_i32_37 : BitVec 32 := 4#32
  let v42 : BitVec 32 := Scalar.addi v33 c4_i32_37
  let c32_i32_40 : BitVec 32 := 32#32
  let v46 : BitVec 1 := Scalar.cmpi .sge v42 c32_i32_40
  let v47 : BitVec 32 := Scalar.extui v46
  let c0_i32_41 : BitVec 32 := 0#32
  let v48 : BitVec 1 := Scalar.cmpi .ne v47 c0_i32_41
  v48

def k3_off9 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_30 : BitVec 32 := 32#32
  let v34 : BitVec 32 := Scalar.muli v1 c32_i32_30
  let c0_i32_14 : BitVec 32 := 0#32
  let c1_i32_15 : BitVec 32 := 1#32
  let arg18 : BitVec 32 := Scf.iv c0_i32_14 c1_i32_15 k3_t1
  let c4_i32_28 : BitVec 32 := 4#32
  let v32 : BitVec 32 := Scalar.muli arg18 c4_i32_28
  let c1_i32_29 : BitVec 32 := 1#32
  let v33 : BitVec 32 := Scalar.addi v32 c1_i32_29
  let v35 : BitVec 32 := Scalar.addi v34 v33
  let c128_i32_31 : BitVec 32 := 128#32
  let v36 : BitVec 32 := Scalar.muli v35 c128_i32_31
  let c0_i32_70 : BitVec 32 := 0#32
  ![v36.toNat, 0]
def k3_cond5 (k3_t1 : Fin k3_t1_loop.trips) : BitVec 1 :=
  let c0_i32_14 : BitVec 32 := 0#32
  let c1_i32_15 : BitVec 32 := 1#32
  let arg18 : BitVec 32 := Scf.iv c0_i32_14 c1_i32_15 k3_t1
  let c4_i32_42 : BitVec 32 := 4#32
  let v49 : BitVec 32 := Scalar.muli arg18 c4_i32_42
  let c2_i32_43 : BitVec 32 := 2#32
  let v50 : BitVec 32 := Scalar.addi v49 c2_i32_43
  let c4_i32_51 : BitVec 32 := 4#32
  let v59 : BitVec 32 := Scalar.addi v50 c4_i32_51
  let c32_i32_52 : BitVec 32 := 32#32
  let v60 : BitVec 1 := Scalar.cmpi .slt v59 c32_i32_52
  let v61 : BitVec 32 := Scalar.extui v60
  let c0_i32_53 : BitVec 32 := 0#32
  let v62 : BitVec 1 := Scalar.cmpi .ne v61 c0_i32_53
  v62

def k3_off10 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_44 : BitVec 32 := 32#32
  let v51 : BitVec 32 := Scalar.muli v1 c32_i32_44
  let c0_i32_14 : BitVec 32 := 0#32
  let c1_i32_15 : BitVec 32 := 1#32
  let arg18 : BitVec 32 := Scf.iv c0_i32_14 c1_i32_15 k3_t1
  let c4_i32_42 : BitVec 32 := 4#32
  let v49 : BitVec 32 := Scalar.muli arg18 c4_i32_42
  let c2_i32_43 : BitVec 32 := 2#32
  let v50 : BitVec 32 := Scalar.addi v49 c2_i32_43
  let v52 : BitVec 32 := Scalar.addi v51 v50
  let c128_i32_45 : BitVec 32 := 128#32
  let v53 : BitVec 32 := Scalar.muli v52 c128_i32_45
  let c0_i32_70 : BitVec 32 := 0#32
  ![v53.toNat, 0]
def k3_off11 (k3_t1 : Fin k3_t1_loop.trips) : Fin 2 → Nat :=
  let c0_i32_14 : BitVec 32 := 0#32
  let c1_i32_15 : BitVec 32 := 1#32
  let arg18 : BitVec 32 := Scf.iv c0_i32_14 c1_i32_15 k3_t1
  let c4_i32_42 : BitVec 32 := 4#32
  let v49 : BitVec 32 := Scalar.muli arg18 c4_i32_42
  let c2_i32_43 : BitVec 32 := 2#32
  let v50 : BitVec 32 := Scalar.addi v49 c2_i32_43
  let c4_i32_51 : BitVec 32 := 4#32
  let v59 : BitVec 32 := Scalar.addi v50 c4_i32_51
  let c0_i32_72 : BitVec 32 := 0#32
  ![v59.toNat, 0]
def k3_cond6 (k3_t1 : Fin k3_t1_loop.trips) : BitVec 1 :=
  let c0_i32_14 : BitVec 32 := 0#32
  let c1_i32_15 : BitVec 32 := 1#32
  let arg18 : BitVec 32 := Scf.iv c0_i32_14 c1_i32_15 k3_t1
  let c4_i32_42 : BitVec 32 := 4#32
  let v49 : BitVec 32 := Scalar.muli arg18 c4_i32_42
  let c2_i32_43 : BitVec 32 := 2#32
  let v50 : BitVec 32 := Scalar.addi v49 c2_i32_43
  let c4_i32_51 : BitVec 32 := 4#32
  let v59 : BitVec 32 := Scalar.addi v50 c4_i32_51
  let c32_i32_54 : BitVec 32 := 32#32
  let v63 : BitVec 1 := Scalar.cmpi .sge v59 c32_i32_54
  let v64 : BitVec 32 := Scalar.extui v63
  let c0_i32_55 : BitVec 32 := 0#32
  let v65 : BitVec 1 := Scalar.cmpi .ne v64 c0_i32_55
  v65

def k3_off12 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_44 : BitVec 32 := 32#32
  let v51 : BitVec 32 := Scalar.muli v1 c32_i32_44
  let c0_i32_14 : BitVec 32 := 0#32
  let c1_i32_15 : BitVec 32 := 1#32
  let arg18 : BitVec 32 := Scf.iv c0_i32_14 c1_i32_15 k3_t1
  let c4_i32_42 : BitVec 32 := 4#32
  let v49 : BitVec 32 := Scalar.muli arg18 c4_i32_42
  let c2_i32_43 : BitVec 32 := 2#32
  let v50 : BitVec 32 := Scalar.addi v49 c2_i32_43
  let v52 : BitVec 32 := Scalar.addi v51 v50
  let c128_i32_45 : BitVec 32 := 128#32
  let v53 : BitVec 32 := Scalar.muli v52 c128_i32_45
  let c0_i32_70 : BitVec 32 := 0#32
  ![v53.toNat, 0]
def k3_cond7 (k3_t1 : Fin k3_t1_loop.trips) : BitVec 1 :=
  let c0_i32_14 : BitVec 32 := 0#32
  let c1_i32_15 : BitVec 32 := 1#32
  let arg18 : BitVec 32 := Scf.iv c0_i32_14 c1_i32_15 k3_t1
  let c4_i32_56 : BitVec 32 := 4#32
  let v66 : BitVec 32 := Scalar.muli arg18 c4_i32_56
  let c3_i32_57 : BitVec 32 := 3#32
  let v67 : BitVec 32 := Scalar.addi v66 c3_i32_57
  let c4_i32_65 : BitVec 32 := 4#32
  let v76 : BitVec 32 := Scalar.addi v67 c4_i32_65
  let c32_i32_66 : BitVec 32 := 32#32
  let v77 : BitVec 1 := Scalar.cmpi .slt v76 c32_i32_66
  let v78 : BitVec 32 := Scalar.extui v77
  let c0_i32_67 : BitVec 32 := 0#32
  let v79 : BitVec 1 := Scalar.cmpi .ne v78 c0_i32_67
  v79

def k3_off13 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_58 : BitVec 32 := 32#32
  let v68 : BitVec 32 := Scalar.muli v1 c32_i32_58
  let c0_i32_14 : BitVec 32 := 0#32
  let c1_i32_15 : BitVec 32 := 1#32
  let arg18 : BitVec 32 := Scf.iv c0_i32_14 c1_i32_15 k3_t1
  let c4_i32_56 : BitVec 32 := 4#32
  let v66 : BitVec 32 := Scalar.muli arg18 c4_i32_56
  let c3_i32_57 : BitVec 32 := 3#32
  let v67 : BitVec 32 := Scalar.addi v66 c3_i32_57
  let v69 : BitVec 32 := Scalar.addi v68 v67
  let c128_i32_59 : BitVec 32 := 128#32
  let v70 : BitVec 32 := Scalar.muli v69 c128_i32_59
  let c0_i32_70 : BitVec 32 := 0#32
  ![v70.toNat, 0]
def k3_off14 (k3_t1 : Fin k3_t1_loop.trips) : Fin 2 → Nat :=
  let c0_i32_14 : BitVec 32 := 0#32
  let c1_i32_15 : BitVec 32 := 1#32
  let arg18 : BitVec 32 := Scf.iv c0_i32_14 c1_i32_15 k3_t1
  let c4_i32_56 : BitVec 32 := 4#32
  let v66 : BitVec 32 := Scalar.muli arg18 c4_i32_56
  let c3_i32_57 : BitVec 32 := 3#32
  let v67 : BitVec 32 := Scalar.addi v66 c3_i32_57
  let c4_i32_65 : BitVec 32 := 4#32
  let v76 : BitVec 32 := Scalar.addi v67 c4_i32_65
  let c0_i32_72 : BitVec 32 := 0#32
  ![v76.toNat, 0]
def k3_cond8 (k3_t1 : Fin k3_t1_loop.trips) : BitVec 1 :=
  let c0_i32_14 : BitVec 32 := 0#32
  let c1_i32_15 : BitVec 32 := 1#32
  let arg18 : BitVec 32 := Scf.iv c0_i32_14 c1_i32_15 k3_t1
  let c4_i32_56 : BitVec 32 := 4#32
  let v66 : BitVec 32 := Scalar.muli arg18 c4_i32_56
  let c3_i32_57 : BitVec 32 := 3#32
  let v67 : BitVec 32 := Scalar.addi v66 c3_i32_57
  let c4_i32_65 : BitVec 32 := 4#32
  let v76 : BitVec 32 := Scalar.addi v67 c4_i32_65
  let c32_i32_68 : BitVec 32 := 32#32
  let v80 : BitVec 1 := Scalar.cmpi .sge v76 c32_i32_68
  let v81 : BitVec 32 := Scalar.extui v80
  let c0_i32_69 : BitVec 32 := 0#32
  let v82 : BitVec 1 := Scalar.cmpi .ne v81 c0_i32_69
  v82

def k3_off15 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_58 : BitVec 32 := 32#32
  let v68 : BitVec 32 := Scalar.muli v1 c32_i32_58
  let c0_i32_14 : BitVec 32 := 0#32
  let c1_i32_15 : BitVec 32 := 1#32
  let arg18 : BitVec 32 := Scf.iv c0_i32_14 c1_i32_15 k3_t1
  let c4_i32_56 : BitVec 32 := 4#32
  let v66 : BitVec 32 := Scalar.muli arg18 c4_i32_56
  let c3_i32_57 : BitVec 32 := 3#32
  let v67 : BitVec 32 := Scalar.addi v66 c3_i32_57
  let v69 : BitVec 32 := Scalar.addi v68 v67
  let c128_i32_59 : BitVec 32 := 128#32
  let v70 : BitVec 32 := Scalar.muli v69 c128_i32_59
  let c0_i32_70 : BitVec 32 := 0#32
  ![v70.toNat, 0]
abbrev grid4 : Pipeline.Grid := ⟨2, ![8, 2], ![false, false]⟩

def k4_cond3 (i : grid4.Coords) : BitVec 1 :=
  let arg1 : BitVec 32 := BitVec.ofNat 32 (i 1).val
  let c1_i32 : BitVec 32 := 1#32
  let v224 : BitVec 1 := Scalar.cmpi .eq arg1 c1_i32
  let v225 : BitVec 32 := Scalar.extui v224
  let c0_i32_134 : BitVec 32 := 0#32
  let v226 : BitVec 1 := Scalar.cmpi .ne v225 c0_i32_134
  v226

def cc4_transform_0 (i : grid4.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  let c0_i32_1 : BitVec 32 := 0#32
  ![arg0.toNat, c0_i32.toNat, v0.toNat, c0_i32_0.toNat]

def cc4_transform_1 (i : grid4.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc4_transform_2 (i : grid4.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![arg0.toNat, v0.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1x50x8x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S8192x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S1x8x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 1 → Memref sig .tc .vmem S50x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false, false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false, false]

abbrev stage4_7 : Fin 2 → Memref sig .tc .vmem S1024x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true, false]

abbrev grid5 : Pipeline.Grid := ⟨2, ![2, 16], ![false, false]⟩

def k5_off1 (i : grid5.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_17_r0 : BitVec 32 := 0#32
  let c0_i32_18_r0 : BitVec 32 := 0#32
  ![v1.toNat, 0, 0]
@[reducible] def k5_t1_loop : Scf.Loop 32 :=
  let c0_i32_14 : BitVec 32 := 0#32
  let c8_i32 : BitVec 32 := 8#32
  let v14 : BitVec 32 := Scalar.addi c0_i32_14 c8_i32
  let c1_i32_15 : BitVec 32 := 1#32
  ⟨c0_i32_14, v14, c1_i32_15⟩
def k5_off2 (k5_t1 : Fin k5_t1_loop.trips) (c0_i32_17 : BitVec 32) : Fin 2 → Nat :=
  let c0_i32_14 : BitVec 32 := 0#32
  let c1_i32_15 : BitVec 32 := 1#32
  let arg18 : BitVec 32 := Scf.iv c0_i32_14 c1_i32_15 k5_t1
  let c4_i32 : BitVec 32 := 4#32
  let v15 : BitVec 32 := Scalar.muli arg18 c4_i32
  let v16 : BitVec 32 := Scalar.addi v15 c0_i32_17
  let c0_i32_18 : BitVec 32 := 0#32
  ![v16.toNat, 0]
def k5_off3 (i : grid5.Coords) (k5_t1 : Fin k5_t1_loop.trips) (c0_i32_17 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v17 : BitVec 32 := Scalar.muli v1 c32_i32
  let c0_i32_14 : BitVec 32 := 0#32
  let c1_i32_15 : BitVec 32 := 1#32
  let arg18 : BitVec 32 := Scf.iv c0_i32_14 c1_i32_15 k5_t1
  let c4_i32 : BitVec 32 := 4#32
  let v15 : BitVec 32 := Scalar.muli arg18 c4_i32
  let v16 : BitVec 32 := Scalar.addi v15 c0_i32_17
  let v18 : BitVec 32 := Scalar.addi v17 v16
  let c128_i32 : BitVec 32 := 128#32
  let v19 : BitVec 32 := Scalar.muli v18 c128_i32
  let c0_i32_21 : BitVec 32 := 0#32
  ![v19.toNat, 0]
def k5_cond1 (k5_t1 : Fin k5_t1_loop.trips) : BitVec 1 :=
  let c0_i32_14 : BitVec 32 := 0#32
  let c1_i32_15 : BitVec 32 := 1#32
  let arg18 : BitVec 32 := Scf.iv c0_i32_14 c1_i32_15 k5_t1
  let c4_i32 : BitVec 32 := 4#32
  let v15 : BitVec 32 := Scalar.muli arg18 c4_i32
  let c0_i32_17 : BitVec 32 := 0#32
  let v16 : BitVec 32 := Scalar.addi v15 c0_i32_17
  let c4_i32_23 : BitVec 32 := 4#32
  let v25 : BitVec 32 := Scalar.addi v16 c4_i32_23
  let c32_i32_24 : BitVec 32 := 32#32
  let v26 : BitVec 1 := Scalar.cmpi .slt v25 c32_i32_24
  let v27 : BitVec 32 := Scalar.extui v26
  let c0_i32_25 : BitVec 32 := 0#32
  let v28 : BitVec 1 := Scalar.cmpi .ne v27 c0_i32_25
  v28

def k5_off4 (i : grid5.Coords) (k5_t1 : Fin k5_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v17 : BitVec 32 := Scalar.muli v1 c32_i32
  let c0_i32_14 : BitVec 32 := 0#32
  let c1_i32_15 : BitVec 32 := 1#32
  let arg18 : BitVec 32 := Scf.iv c0_i32_14 c1_i32_15 k5_t1
  let c4_i32 : BitVec 32 := 4#32
  let v15 : BitVec 32 := Scalar.muli arg18 c4_i32
  let c0_i32_17 : BitVec 32 := 0#32
  let v16 : BitVec 32 := Scalar.addi v15 c0_i32_17
  let v18 : BitVec 32 := Scalar.addi v17 v16
  let c128_i32 : BitVec 32 := 128#32
  let v19 : BitVec 32 := Scalar.muli v18 c128_i32
  let c0_i32_70 : BitVec 32 := 0#32
  ![v19.toNat, 0]
def k5_off5 (k5_t1 : Fin k5_t1_loop.trips) : Fin 2 → Nat :=
  let c0_i32_14 : BitVec 32 := 0#32
  let c1_i32_15 : BitVec 32 := 1#32
  let arg18 : BitVec 32 := Scf.iv c0_i32_14 c1_i32_15 k5_t1
  let c4_i32 : BitVec 32 := 4#32
  let v15 : BitVec 32 := Scalar.muli arg18 c4_i32
  let c0_i32_17 : BitVec 32 := 0#32
  let v16 : BitVec 32 := Scalar.addi v15 c0_i32_17
  let c4_i32_23 : BitVec 32 := 4#32
  let v25 : BitVec 32 := Scalar.addi v16 c4_i32_23
  let c0_i32_72 : BitVec 32 := 0#32
  ![v25.toNat, 0]
def k5_cond2 (k5_t1 : Fin k5_t1_loop.trips) : BitVec 1 :=
  let c0_i32_14 : BitVec 32 := 0#32
  let c1_i32_15 : BitVec 32 := 1#32
  let arg18 : BitVec 32 := Scf.iv c0_i32_14 c1_i32_15 k5_t1
  let c4_i32 : BitVec 32 := 4#32
  let v15 : BitVec 32 := Scalar.muli arg18 c4_i32
  let c0_i32_17 : BitVec 32 := 0#32
  let v16 : BitVec 32 := Scalar.addi v15 c0_i32_17
  let c4_i32_23 : BitVec 32 := 4#32
  let v25 : BitVec 32 := Scalar.addi v16 c4_i32_23
  let c32_i32_26 : BitVec 32 := 32#32
  let v29 : BitVec 1 := Scalar.cmpi .sge v25 c32_i32_26
  let v30 : BitVec 32 := Scalar.extui v29
  let c0_i32_27 : BitVec 32 := 0#32
  let v31 : BitVec 1 := Scalar.cmpi .ne v30 c0_i32_27
  v31

def k5_off6 (i : grid5.Coords) (k5_t1 : Fin k5_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v17 : BitVec 32 := Scalar.muli v1 c32_i32
  let c0_i32_14 : BitVec 32 := 0#32
  let c1_i32_15 : BitVec 32 := 1#32
  let arg18 : BitVec 32 := Scf.iv c0_i32_14 c1_i32_15 k5_t1
  let c4_i32 : BitVec 32 := 4#32
  let v15 : BitVec 32 := Scalar.muli arg18 c4_i32
  let c0_i32_17 : BitVec 32 := 0#32
  let v16 : BitVec 32 := Scalar.addi v15 c0_i32_17
  let v18 : BitVec 32 := Scalar.addi v17 v16
  let c128_i32 : BitVec 32 := 128#32
  let v19 : BitVec 32 := Scalar.muli v18 c128_i32
  let c0_i32_70 : BitVec 32 := 0#32
  ![v19.toNat, 0]
def k5_cond3 (k5_t1 : Fin k5_t1_loop.trips) : BitVec 1 :=
  let c0_i32_14 : BitVec 32 := 0#32
  let c1_i32_15 : BitVec 32 := 1#32
  let arg18 : BitVec 32 := Scf.iv c0_i32_14 c1_i32_15 k5_t1
  let c4_i32_28 : BitVec 32 := 4#32
  let v32 : BitVec 32 := Scalar.muli arg18 c4_i32_28
  let c1_i32_29 : BitVec 32 := 1#32
  let v33 : BitVec 32 := Scalar.addi v32 c1_i32_29
  let c4_i32_37 : BitVec 32 := 4#32
  let v42 : BitVec 32 := Scalar.addi v33 c4_i32_37
  let c32_i32_38 : BitVec 32 := 32#32
  let v43 : BitVec 1 := Scalar.cmpi .slt v42 c32_i32_38
  let v44 : BitVec 32 := Scalar.extui v43
  let c0_i32_39 : BitVec 32 := 0#32
  let v45 : BitVec 1 := Scalar.cmpi .ne v44 c0_i32_39
  v45

def k5_off7 (i : grid5.Coords) (k5_t1 : Fin k5_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_30 : BitVec 32 := 32#32
  let v34 : BitVec 32 := Scalar.muli v1 c32_i32_30
  let c0_i32_14 : BitVec 32 := 0#32
  let c1_i32_15 : BitVec 32 := 1#32
  let arg18 : BitVec 32 := Scf.iv c0_i32_14 c1_i32_15 k5_t1
  let c4_i32_28 : BitVec 32 := 4#32
  let v32 : BitVec 32 := Scalar.muli arg18 c4_i32_28
  let c1_i32_29 : BitVec 32 := 1#32
  let v33 : BitVec 32 := Scalar.addi v32 c1_i32_29
  let v35 : BitVec 32 := Scalar.addi v34 v33
  let c128_i32_31 : BitVec 32 := 128#32
  let v36 : BitVec 32 := Scalar.muli v35 c128_i32_31
  let c0_i32_70 : BitVec 32 := 0#32
  ![v36.toNat, 0]
def k5_off8 (k5_t1 : Fin k5_t1_loop.trips) : Fin 2 → Nat :=
  let c0_i32_14 : BitVec 32 := 0#32
  let c1_i32_15 : BitVec 32 := 1#32
  let arg18 : BitVec 32 := Scf.iv c0_i32_14 c1_i32_15 k5_t1
  let c4_i32_28 : BitVec 32 := 4#32
  let v32 : BitVec 32 := Scalar.muli arg18 c4_i32_28
  let c1_i32_29 : BitVec 32 := 1#32
  let v33 : BitVec 32 := Scalar.addi v32 c1_i32_29
  let c4_i32_37 : BitVec 32 := 4#32
  let v42 : BitVec 32 := Scalar.addi v33 c4_i32_37
  let c0_i32_72 : BitVec 32 := 0#32
  ![v42.toNat, 0]
def k5_cond4 (k5_t1 : Fin k5_t1_loop.trips) : BitVec 1 :=
  let c0_i32_14 : BitVec 32 := 0#32
  let c1_i32_15 : BitVec 32 := 1#32
  let arg18 : BitVec 32 := Scf.iv c0_i32_14 c1_i32_15 k5_t1
  let c4_i32_28 : BitVec 32 := 4#32
  let v32 : BitVec 32 := Scalar.muli arg18 c4_i32_28
  let c1_i32_29 : BitVec 32 := 1#32
  let v33 : BitVec 32 := Scalar.addi v32 c1_i32_29
  let c4_i32_37 : BitVec 32 := 4#32
  let v42 : BitVec 32 := Scalar.addi v33 c4_i32_37
  let c32_i32_40 : BitVec 32 := 32#32
  let v46 : BitVec 1 := Scalar.cmpi .sge v42 c32_i32_40
  let v47 : BitVec 32 := Scalar.extui v46
  let c0_i32_41 : BitVec 32 := 0#32
  let v48 : BitVec 1 := Scalar.cmpi .ne v47 c0_i32_41
  v48

def k5_off9 (i : grid5.Coords) (k5_t1 : Fin k5_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_30 : BitVec 32 := 32#32
  let v34 : BitVec 32 := Scalar.muli v1 c32_i32_30
  let c0_i32_14 : BitVec 32 := 0#32
  let c1_i32_15 : BitVec 32 := 1#32
  let arg18 : BitVec 32 := Scf.iv c0_i32_14 c1_i32_15 k5_t1
  let c4_i32_28 : BitVec 32 := 4#32
  let v32 : BitVec 32 := Scalar.muli arg18 c4_i32_28
  let c1_i32_29 : BitVec 32 := 1#32
  let v33 : BitVec 32 := Scalar.addi v32 c1_i32_29
  let v35 : BitVec 32 := Scalar.addi v34 v33
  let c128_i32_31 : BitVec 32 := 128#32
  let v36 : BitVec 32 := Scalar.muli v35 c128_i32_31
  let c0_i32_70 : BitVec 32 := 0#32
  ![v36.toNat, 0]
def k5_cond5 (k5_t1 : Fin k5_t1_loop.trips) : BitVec 1 :=
  let c0_i32_14 : BitVec 32 := 0#32
  let c1_i32_15 : BitVec 32 := 1#32
  let arg18 : BitVec 32 := Scf.iv c0_i32_14 c1_i32_15 k5_t1
  let c4_i32_42 : BitVec 32 := 4#32
  let v49 : BitVec 32 := Scalar.muli arg18 c4_i32_42
  let c2_i32_43 : BitVec 32 := 2#32
  let v50 : BitVec 32 := Scalar.addi v49 c2_i32_43
  let c4_i32_51 : BitVec 32 := 4#32
  let v59 : BitVec 32 := Scalar.addi v50 c4_i32_51
  let c32_i32_52 : BitVec 32 := 32#32
  let v60 : BitVec 1 := Scalar.cmpi .slt v59 c32_i32_52
  let v61 : BitVec 32 := Scalar.extui v60
  let c0_i32_53 : BitVec 32 := 0#32
  let v62 : BitVec 1 := Scalar.cmpi .ne v61 c0_i32_53
  v62

def k5_off10 (i : grid5.Coords) (k5_t1 : Fin k5_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_44 : BitVec 32 := 32#32
  let v51 : BitVec 32 := Scalar.muli v1 c32_i32_44
  let c0_i32_14 : BitVec 32 := 0#32
  let c1_i32_15 : BitVec 32 := 1#32
  let arg18 : BitVec 32 := Scf.iv c0_i32_14 c1_i32_15 k5_t1
  let c4_i32_42 : BitVec 32 := 4#32
  let v49 : BitVec 32 := Scalar.muli arg18 c4_i32_42
  let c2_i32_43 : BitVec 32 := 2#32
  let v50 : BitVec 32 := Scalar.addi v49 c2_i32_43
  let v52 : BitVec 32 := Scalar.addi v51 v50
  let c128_i32_45 : BitVec 32 := 128#32
  let v53 : BitVec 32 := Scalar.muli v52 c128_i32_45
  let c0_i32_70 : BitVec 32 := 0#32
  ![v53.toNat, 0]
def k5_off11 (k5_t1 : Fin k5_t1_loop.trips) : Fin 2 → Nat :=
  let c0_i32_14 : BitVec 32 := 0#32
  let c1_i32_15 : BitVec 32 := 1#32
  let arg18 : BitVec 32 := Scf.iv c0_i32_14 c1_i32_15 k5_t1
  let c4_i32_42 : BitVec 32 := 4#32
  let v49 : BitVec 32 := Scalar.muli arg18 c4_i32_42
  let c2_i32_43 : BitVec 32 := 2#32
  let v50 : BitVec 32 := Scalar.addi v49 c2_i32_43
  let c4_i32_51 : BitVec 32 := 4#32
  let v59 : BitVec 32 := Scalar.addi v50 c4_i32_51
  let c0_i32_72 : BitVec 32 := 0#32
  ![v59.toNat, 0]
def k5_cond6 (k5_t1 : Fin k5_t1_loop.trips) : BitVec 1 :=
  let c0_i32_14 : BitVec 32 := 0#32
  let c1_i32_15 : BitVec 32 := 1#32
  let arg18 : BitVec 32 := Scf.iv c0_i32_14 c1_i32_15 k5_t1
  let c4_i32_42 : BitVec 32 := 4#32
  let v49 : BitVec 32 := Scalar.muli arg18 c4_i32_42
  let c2_i32_43 : BitVec 32 := 2#32
  let v50 : BitVec 32 := Scalar.addi v49 c2_i32_43
  let c4_i32_51 : BitVec 32 := 4#32
  let v59 : BitVec 32 := Scalar.addi v50 c4_i32_51
  let c32_i32_54 : BitVec 32 := 32#32
  let v63 : BitVec 1 := Scalar.cmpi .sge v59 c32_i32_54
  let v64 : BitVec 32 := Scalar.extui v63
  let c0_i32_55 : BitVec 32 := 0#32
  let v65 : BitVec 1 := Scalar.cmpi .ne v64 c0_i32_55
  v65

def k5_off12 (i : grid5.Coords) (k5_t1 : Fin k5_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_44 : BitVec 32 := 32#32
  let v51 : BitVec 32 := Scalar.muli v1 c32_i32_44
  let c0_i32_14 : BitVec 32 := 0#32
  let c1_i32_15 : BitVec 32 := 1#32
  let arg18 : BitVec 32 := Scf.iv c0_i32_14 c1_i32_15 k5_t1
  let c4_i32_42 : BitVec 32 := 4#32
  let v49 : BitVec 32 := Scalar.muli arg18 c4_i32_42
  let c2_i32_43 : BitVec 32 := 2#32
  let v50 : BitVec 32 := Scalar.addi v49 c2_i32_43
  let v52 : BitVec 32 := Scalar.addi v51 v50
  let c128_i32_45 : BitVec 32 := 128#32
  let v53 : BitVec 32 := Scalar.muli v52 c128_i32_45
  let c0_i32_70 : BitVec 32 := 0#32
  ![v53.toNat, 0]
def k5_cond7 (k5_t1 : Fin k5_t1_loop.trips) : BitVec 1 :=
  let c0_i32_14 : BitVec 32 := 0#32
  let c1_i32_15 : BitVec 32 := 1#32
  let arg18 : BitVec 32 := Scf.iv c0_i32_14 c1_i32_15 k5_t1
  let c4_i32_56 : BitVec 32 := 4#32
  let v66 : BitVec 32 := Scalar.muli arg18 c4_i32_56
  let c3_i32_57 : BitVec 32 := 3#32
  let v67 : BitVec 32 := Scalar.addi v66 c3_i32_57
  let c4_i32_65 : BitVec 32 := 4#32
  let v76 : BitVec 32 := Scalar.addi v67 c4_i32_65
  let c32_i32_66 : BitVec 32 := 32#32
  let v77 : BitVec 1 := Scalar.cmpi .slt v76 c32_i32_66
  let v78 : BitVec 32 := Scalar.extui v77
  let c0_i32_67 : BitVec 32 := 0#32
  let v79 : BitVec 1 := Scalar.cmpi .ne v78 c0_i32_67
  v79

def k5_off13 (i : grid5.Coords) (k5_t1 : Fin k5_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_58 : BitVec 32 := 32#32
  let v68 : BitVec 32 := Scalar.muli v1 c32_i32_58
  let c0_i32_14 : BitVec 32 := 0#32
  let c1_i32_15 : BitVec 32 := 1#32
  let arg18 : BitVec 32 := Scf.iv c0_i32_14 c1_i32_15 k5_t1
  let c4_i32_56 : BitVec 32 := 4#32
  let v66 : BitVec 32 := Scalar.muli arg18 c4_i32_56
  let c3_i32_57 : BitVec 32 := 3#32
  let v67 : BitVec 32 := Scalar.addi v66 c3_i32_57
  let v69 : BitVec 32 := Scalar.addi v68 v67
  let c128_i32_59 : BitVec 32 := 128#32
  let v70 : BitVec 32 := Scalar.muli v69 c128_i32_59
  let c0_i32_70 : BitVec 32 := 0#32
  ![v70.toNat, 0]
def k5_off14 (k5_t1 : Fin k5_t1_loop.trips) : Fin 2 → Nat :=
  let c0_i32_14 : BitVec 32 := 0#32
  let c1_i32_15 : BitVec 32 := 1#32
  let arg18 : BitVec 32 := Scf.iv c0_i32_14 c1_i32_15 k5_t1
  let c4_i32_56 : BitVec 32 := 4#32
  let v66 : BitVec 32 := Scalar.muli arg18 c4_i32_56
  let c3_i32_57 : BitVec 32 := 3#32
  let v67 : BitVec 32 := Scalar.addi v66 c3_i32_57
  let c4_i32_65 : BitVec 32 := 4#32
  let v76 : BitVec 32 := Scalar.addi v67 c4_i32_65
  let c0_i32_72 : BitVec 32 := 0#32
  ![v76.toNat, 0]
def k5_cond8 (k5_t1 : Fin k5_t1_loop.trips) : BitVec 1 :=
  let c0_i32_14 : BitVec 32 := 0#32
  let c1_i32_15 : BitVec 32 := 1#32
  let arg18 : BitVec 32 := Scf.iv c0_i32_14 c1_i32_15 k5_t1
  let c4_i32_56 : BitVec 32 := 4#32
  let v66 : BitVec 32 := Scalar.muli arg18 c4_i32_56
  let c3_i32_57 : BitVec 32 := 3#32
  let v67 : BitVec 32 := Scalar.addi v66 c3_i32_57
  let c4_i32_65 : BitVec 32 := 4#32
  let v76 : BitVec 32 := Scalar.addi v67 c4_i32_65
  let c32_i32_68 : BitVec 32 := 32#32
  let v80 : BitVec 1 := Scalar.cmpi .sge v76 c32_i32_68
  let v81 : BitVec 32 := Scalar.extui v80
  let c0_i32_69 : BitVec 32 := 0#32
  let v82 : BitVec 1 := Scalar.cmpi .ne v81 c0_i32_69
  v82

def k5_off15 (i : grid5.Coords) (k5_t1 : Fin k5_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_58 : BitVec 32 := 32#32
  let v68 : BitVec 32 := Scalar.muli v1 c32_i32_58
  let c0_i32_14 : BitVec 32 := 0#32
  let c1_i32_15 : BitVec 32 := 1#32
  let arg18 : BitVec 32 := Scf.iv c0_i32_14 c1_i32_15 k5_t1
  let c4_i32_56 : BitVec 32 := 4#32
  let v66 : BitVec 32 := Scalar.muli arg18 c4_i32_56
  let c3_i32_57 : BitVec 32 := 3#32
  let v67 : BitVec 32 := Scalar.addi v66 c3_i32_57
  let v69 : BitVec 32 := Scalar.addi v68 v67
  let c128_i32_59 : BitVec 32 := 128#32
  let v70 : BitVec 32 := Scalar.muli v69 c128_i32_59
  let c0_i32_70 : BitVec 32 := 0#32
  ![v70.toNat, 0]
abbrev grid6 : Pipeline.Grid := ⟨2, ![8, 2], ![false, false]⟩

def k6_cond3 (i : grid6.Coords) : BitVec 1 :=
  let arg1 : BitVec 32 := BitVec.ofNat 32 (i 1).val
  let c1_i32 : BitVec 32 := 1#32
  let v224 : BitVec 1 := Scalar.cmpi .eq arg1 c1_i32
  let v225 : BitVec 32 := Scalar.extui v224
  let c0_i32_134 : BitVec 32 := 0#32
  let v226 : BitVec 1 := Scalar.cmpi .ne v225 c0_i32_134
  v226

def cc6_transform_0 (i : grid6.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![arg0.toNat, c0_i32.toNat, v0.toNat, c0_i32_0.toNat]

def cc6_transform_1 (i : grid6.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc6_transform_2 (i : grid6.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, v0.toNat, c0_i32.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage6_0 : Fin 2 → Memref sig .tc .vmem S1x50x8x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S8192x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, true]

abbrev stage6_2 : Fin 2 → Memref sig .tc .vmem S1x8x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev stage6_3 : Fin 1 → Memref sig .tc .vmem S50x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false, false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false, false]

abbrev stage6_5 : Fin 1 → Memref sig .tc .vmem S128x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false, false]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false, false]

abbrev stage6_7 : Fin 2 → Memref sig .tc .vmem S1024x128 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true, false]

abbrev grid7 : Pipeline.Grid := ⟨2, ![2, 16], ![false, false]⟩

def k7_off1 (i : grid7.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_17_r0 : BitVec 32 := 0#32
  let c0_i32_18_r0 : BitVec 32 := 0#32
  ![v1.toNat, 0, 0]
@[reducible] def k7_t1_loop : Scf.Loop 32 :=
  let c0_i32_14 : BitVec 32 := 0#32
  let c8_i32 : BitVec 32 := 8#32
  let v14 : BitVec 32 := Scalar.addi c0_i32_14 c8_i32
  let c1_i32_15 : BitVec 32 := 1#32
  ⟨c0_i32_14, v14, c1_i32_15⟩
def k7_off2 (k7_t1 : Fin k7_t1_loop.trips) (c0_i32_17 : BitVec 32) : Fin 2 → Nat :=
  let c0_i32_14 : BitVec 32 := 0#32
  let c1_i32_15 : BitVec 32 := 1#32
  let arg18 : BitVec 32 := Scf.iv c0_i32_14 c1_i32_15 k7_t1
  let c4_i32 : BitVec 32 := 4#32
  let v15 : BitVec 32 := Scalar.muli arg18 c4_i32
  let v16 : BitVec 32 := Scalar.addi v15 c0_i32_17
  let c0_i32_18 : BitVec 32 := 0#32
  ![v16.toNat, 0]
def k7_off3 (i : grid7.Coords) (k7_t1 : Fin k7_t1_loop.trips) (c0_i32_17 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v17 : BitVec 32 := Scalar.muli v1 c32_i32
  let c0_i32_14 : BitVec 32 := 0#32
  let c1_i32_15 : BitVec 32 := 1#32
  let arg18 : BitVec 32 := Scf.iv c0_i32_14 c1_i32_15 k7_t1
  let c4_i32 : BitVec 32 := 4#32
  let v15 : BitVec 32 := Scalar.muli arg18 c4_i32
  let v16 : BitVec 32 := Scalar.addi v15 c0_i32_17
  let v18 : BitVec 32 := Scalar.addi v17 v16
  let c128_i32 : BitVec 32 := 128#32
  let v19 : BitVec 32 := Scalar.muli v18 c128_i32
  let c0_i32_21 : BitVec 32 := 0#32
  ![v19.toNat, 0]
def k7_cond1 (k7_t1 : Fin k7_t1_loop.trips) : BitVec 1 :=
  let c0_i32_14 : BitVec 32 := 0#32
  let c1_i32_15 : BitVec 32 := 1#32
  let arg18 : BitVec 32 := Scf.iv c0_i32_14 c1_i32_15 k7_t1
  let c4_i32 : BitVec 32 := 4#32
  let v15 : BitVec 32 := Scalar.muli arg18 c4_i32
  let c0_i32_17 : BitVec 32 := 0#32
  let v16 : BitVec 32 := Scalar.addi v15 c0_i32_17
  let c4_i32_23 : BitVec 32 := 4#32
  let v25 : BitVec 32 := Scalar.addi v16 c4_i32_23
  let c32_i32_24 : BitVec 32 := 32#32
  let v26 : BitVec 1 := Scalar.cmpi .slt v25 c32_i32_24
  let v27 : BitVec 32 := Scalar.extui v26
  let c0_i32_25 : BitVec 32 := 0#32
  let v28 : BitVec 1 := Scalar.cmpi .ne v27 c0_i32_25
  v28

def k7_off4 (i : grid7.Coords) (k7_t1 : Fin k7_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v17 : BitVec 32 := Scalar.muli v1 c32_i32
  let c0_i32_14 : BitVec 32 := 0#32
  let c1_i32_15 : BitVec 32 := 1#32
  let arg18 : BitVec 32 := Scf.iv c0_i32_14 c1_i32_15 k7_t1
  let c4_i32 : BitVec 32 := 4#32
  let v15 : BitVec 32 := Scalar.muli arg18 c4_i32
  let c0_i32_17 : BitVec 32 := 0#32
  let v16 : BitVec 32 := Scalar.addi v15 c0_i32_17
  let v18 : BitVec 32 := Scalar.addi v17 v16
  let c128_i32 : BitVec 32 := 128#32
  let v19 : BitVec 32 := Scalar.muli v18 c128_i32
  let c0_i32_70 : BitVec 32 := 0#32
  ![v19.toNat, 0]
def k7_off5 (k7_t1 : Fin k7_t1_loop.trips) : Fin 2 → Nat :=
  let c0_i32_14 : BitVec 32 := 0#32
  let c1_i32_15 : BitVec 32 := 1#32
  let arg18 : BitVec 32 := Scf.iv c0_i32_14 c1_i32_15 k7_t1
  let c4_i32 : BitVec 32 := 4#32
  let v15 : BitVec 32 := Scalar.muli arg18 c4_i32
  let c0_i32_17 : BitVec 32 := 0#32
  let v16 : BitVec 32 := Scalar.addi v15 c0_i32_17
  let c4_i32_23 : BitVec 32 := 4#32
  let v25 : BitVec 32 := Scalar.addi v16 c4_i32_23
  let c0_i32_72 : BitVec 32 := 0#32
  ![v25.toNat, 0]
def k7_cond2 (k7_t1 : Fin k7_t1_loop.trips) : BitVec 1 :=
  let c0_i32_14 : BitVec 32 := 0#32
  let c1_i32_15 : BitVec 32 := 1#32
  let arg18 : BitVec 32 := Scf.iv c0_i32_14 c1_i32_15 k7_t1
  let c4_i32 : BitVec 32 := 4#32
  let v15 : BitVec 32 := Scalar.muli arg18 c4_i32
  let c0_i32_17 : BitVec 32 := 0#32
  let v16 : BitVec 32 := Scalar.addi v15 c0_i32_17
  let c4_i32_23 : BitVec 32 := 4#32
  let v25 : BitVec 32 := Scalar.addi v16 c4_i32_23
  let c32_i32_26 : BitVec 32 := 32#32
  let v29 : BitVec 1 := Scalar.cmpi .sge v25 c32_i32_26
  let v30 : BitVec 32 := Scalar.extui v29
  let c0_i32_27 : BitVec 32 := 0#32
  let v31 : BitVec 1 := Scalar.cmpi .ne v30 c0_i32_27
  v31

def k7_off6 (i : grid7.Coords) (k7_t1 : Fin k7_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v17 : BitVec 32 := Scalar.muli v1 c32_i32
  let c0_i32_14 : BitVec 32 := 0#32
  let c1_i32_15 : BitVec 32 := 1#32
  let arg18 : BitVec 32 := Scf.iv c0_i32_14 c1_i32_15 k7_t1
  let c4_i32 : BitVec 32 := 4#32
  let v15 : BitVec 32 := Scalar.muli arg18 c4_i32
  let c0_i32_17 : BitVec 32 := 0#32
  let v16 : BitVec 32 := Scalar.addi v15 c0_i32_17
  let v18 : BitVec 32 := Scalar.addi v17 v16
  let c128_i32 : BitVec 32 := 128#32
  let v19 : BitVec 32 := Scalar.muli v18 c128_i32
  let c0_i32_70 : BitVec 32 := 0#32
  ![v19.toNat, 0]
def k7_cond3 (k7_t1 : Fin k7_t1_loop.trips) : BitVec 1 :=
  let c0_i32_14 : BitVec 32 := 0#32
  let c1_i32_15 : BitVec 32 := 1#32
  let arg18 : BitVec 32 := Scf.iv c0_i32_14 c1_i32_15 k7_t1
  let c4_i32_28 : BitVec 32 := 4#32
  let v32 : BitVec 32 := Scalar.muli arg18 c4_i32_28
  let c1_i32_29 : BitVec 32 := 1#32
  let v33 : BitVec 32 := Scalar.addi v32 c1_i32_29
  let c4_i32_37 : BitVec 32 := 4#32
  let v42 : BitVec 32 := Scalar.addi v33 c4_i32_37
  let c32_i32_38 : BitVec 32 := 32#32
  let v43 : BitVec 1 := Scalar.cmpi .slt v42 c32_i32_38
  let v44 : BitVec 32 := Scalar.extui v43
  let c0_i32_39 : BitVec 32 := 0#32
  let v45 : BitVec 1 := Scalar.cmpi .ne v44 c0_i32_39
  v45

def k7_off7 (i : grid7.Coords) (k7_t1 : Fin k7_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_30 : BitVec 32 := 32#32
  let v34 : BitVec 32 := Scalar.muli v1 c32_i32_30
  let c0_i32_14 : BitVec 32 := 0#32
  let c1_i32_15 : BitVec 32 := 1#32
  let arg18 : BitVec 32 := Scf.iv c0_i32_14 c1_i32_15 k7_t1
  let c4_i32_28 : BitVec 32 := 4#32
  let v32 : BitVec 32 := Scalar.muli arg18 c4_i32_28
  let c1_i32_29 : BitVec 32 := 1#32
  let v33 : BitVec 32 := Scalar.addi v32 c1_i32_29
  let v35 : BitVec 32 := Scalar.addi v34 v33
  let c128_i32_31 : BitVec 32 := 128#32
  let v36 : BitVec 32 := Scalar.muli v35 c128_i32_31
  let c0_i32_70 : BitVec 32 := 0#32
  ![v36.toNat, 0]
def k7_off8 (k7_t1 : Fin k7_t1_loop.trips) : Fin 2 → Nat :=
  let c0_i32_14 : BitVec 32 := 0#32
  let c1_i32_15 : BitVec 32 := 1#32
  let arg18 : BitVec 32 := Scf.iv c0_i32_14 c1_i32_15 k7_t1
  let c4_i32_28 : BitVec 32 := 4#32
  let v32 : BitVec 32 := Scalar.muli arg18 c4_i32_28
  let c1_i32_29 : BitVec 32 := 1#32
  let v33 : BitVec 32 := Scalar.addi v32 c1_i32_29
  let c4_i32_37 : BitVec 32 := 4#32
  let v42 : BitVec 32 := Scalar.addi v33 c4_i32_37
  let c0_i32_72 : BitVec 32 := 0#32
  ![v42.toNat, 0]
def k7_cond4 (k7_t1 : Fin k7_t1_loop.trips) : BitVec 1 :=
  let c0_i32_14 : BitVec 32 := 0#32
  let c1_i32_15 : BitVec 32 := 1#32
  let arg18 : BitVec 32 := Scf.iv c0_i32_14 c1_i32_15 k7_t1
  let c4_i32_28 : BitVec 32 := 4#32
  let v32 : BitVec 32 := Scalar.muli arg18 c4_i32_28
  let c1_i32_29 : BitVec 32 := 1#32
  let v33 : BitVec 32 := Scalar.addi v32 c1_i32_29
  let c4_i32_37 : BitVec 32 := 4#32
  let v42 : BitVec 32 := Scalar.addi v33 c4_i32_37
  let c32_i32_40 : BitVec 32 := 32#32
  let v46 : BitVec 1 := Scalar.cmpi .sge v42 c32_i32_40
  let v47 : BitVec 32 := Scalar.extui v46
  let c0_i32_41 : BitVec 32 := 0#32
  let v48 : BitVec 1 := Scalar.cmpi .ne v47 c0_i32_41
  v48

def k7_off9 (i : grid7.Coords) (k7_t1 : Fin k7_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_30 : BitVec 32 := 32#32
  let v34 : BitVec 32 := Scalar.muli v1 c32_i32_30
  let c0_i32_14 : BitVec 32 := 0#32
  let c1_i32_15 : BitVec 32 := 1#32
  let arg18 : BitVec 32 := Scf.iv c0_i32_14 c1_i32_15 k7_t1
  let c4_i32_28 : BitVec 32 := 4#32
  let v32 : BitVec 32 := Scalar.muli arg18 c4_i32_28
  let c1_i32_29 : BitVec 32 := 1#32
  let v33 : BitVec 32 := Scalar.addi v32 c1_i32_29
  let v35 : BitVec 32 := Scalar.addi v34 v33
  let c128_i32_31 : BitVec 32 := 128#32
  let v36 : BitVec 32 := Scalar.muli v35 c128_i32_31
  let c0_i32_70 : BitVec 32 := 0#32
  ![v36.toNat, 0]
def k7_cond5 (k7_t1 : Fin k7_t1_loop.trips) : BitVec 1 :=
  let c0_i32_14 : BitVec 32 := 0#32
  let c1_i32_15 : BitVec 32 := 1#32
  let arg18 : BitVec 32 := Scf.iv c0_i32_14 c1_i32_15 k7_t1
  let c4_i32_42 : BitVec 32 := 4#32
  let v49 : BitVec 32 := Scalar.muli arg18 c4_i32_42
  let c2_i32_43 : BitVec 32 := 2#32
  let v50 : BitVec 32 := Scalar.addi v49 c2_i32_43
  let c4_i32_51 : BitVec 32 := 4#32
  let v59 : BitVec 32 := Scalar.addi v50 c4_i32_51
  let c32_i32_52 : BitVec 32 := 32#32
  let v60 : BitVec 1 := Scalar.cmpi .slt v59 c32_i32_52
  let v61 : BitVec 32 := Scalar.extui v60
  let c0_i32_53 : BitVec 32 := 0#32
  let v62 : BitVec 1 := Scalar.cmpi .ne v61 c0_i32_53
  v62

def k7_off10 (i : grid7.Coords) (k7_t1 : Fin k7_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_44 : BitVec 32 := 32#32
  let v51 : BitVec 32 := Scalar.muli v1 c32_i32_44
  let c0_i32_14 : BitVec 32 := 0#32
  let c1_i32_15 : BitVec 32 := 1#32
  let arg18 : BitVec 32 := Scf.iv c0_i32_14 c1_i32_15 k7_t1
  let c4_i32_42 : BitVec 32 := 4#32
  let v49 : BitVec 32 := Scalar.muli arg18 c4_i32_42
  let c2_i32_43 : BitVec 32 := 2#32
  let v50 : BitVec 32 := Scalar.addi v49 c2_i32_43
  let v52 : BitVec 32 := Scalar.addi v51 v50
  let c128_i32_45 : BitVec 32 := 128#32
  let v53 : BitVec 32 := Scalar.muli v52 c128_i32_45
  let c0_i32_70 : BitVec 32 := 0#32
  ![v53.toNat, 0]
def k7_off11 (k7_t1 : Fin k7_t1_loop.trips) : Fin 2 → Nat :=
  let c0_i32_14 : BitVec 32 := 0#32
  let c1_i32_15 : BitVec 32 := 1#32
  let arg18 : BitVec 32 := Scf.iv c0_i32_14 c1_i32_15 k7_t1
  let c4_i32_42 : BitVec 32 := 4#32
  let v49 : BitVec 32 := Scalar.muli arg18 c4_i32_42
  let c2_i32_43 : BitVec 32 := 2#32
  let v50 : BitVec 32 := Scalar.addi v49 c2_i32_43
  let c4_i32_51 : BitVec 32 := 4#32
  let v59 : BitVec 32 := Scalar.addi v50 c4_i32_51
  let c0_i32_72 : BitVec 32 := 0#32
  ![v59.toNat, 0]
def k7_cond6 (k7_t1 : Fin k7_t1_loop.trips) : BitVec 1 :=
  let c0_i32_14 : BitVec 32 := 0#32
  let c1_i32_15 : BitVec 32 := 1#32
  let arg18 : BitVec 32 := Scf.iv c0_i32_14 c1_i32_15 k7_t1
  let c4_i32_42 : BitVec 32 := 4#32
  let v49 : BitVec 32 := Scalar.muli arg18 c4_i32_42
  let c2_i32_43 : BitVec 32 := 2#32
  let v50 : BitVec 32 := Scalar.addi v49 c2_i32_43
  let c4_i32_51 : BitVec 32 := 4#32
  let v59 : BitVec 32 := Scalar.addi v50 c4_i32_51
  let c32_i32_54 : BitVec 32 := 32#32
  let v63 : BitVec 1 := Scalar.cmpi .sge v59 c32_i32_54
  let v64 : BitVec 32 := Scalar.extui v63
  let c0_i32_55 : BitVec 32 := 0#32
  let v65 : BitVec 1 := Scalar.cmpi .ne v64 c0_i32_55
  v65

def k7_off12 (i : grid7.Coords) (k7_t1 : Fin k7_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_44 : BitVec 32 := 32#32
  let v51 : BitVec 32 := Scalar.muli v1 c32_i32_44
  let c0_i32_14 : BitVec 32 := 0#32
  let c1_i32_15 : BitVec 32 := 1#32
  let arg18 : BitVec 32 := Scf.iv c0_i32_14 c1_i32_15 k7_t1
  let c4_i32_42 : BitVec 32 := 4#32
  let v49 : BitVec 32 := Scalar.muli arg18 c4_i32_42
  let c2_i32_43 : BitVec 32 := 2#32
  let v50 : BitVec 32 := Scalar.addi v49 c2_i32_43
  let v52 : BitVec 32 := Scalar.addi v51 v50
  let c128_i32_45 : BitVec 32 := 128#32
  let v53 : BitVec 32 := Scalar.muli v52 c128_i32_45
  let c0_i32_70 : BitVec 32 := 0#32
  ![v53.toNat, 0]
def k7_cond7 (k7_t1 : Fin k7_t1_loop.trips) : BitVec 1 :=
  let c0_i32_14 : BitVec 32 := 0#32
  let c1_i32_15 : BitVec 32 := 1#32
  let arg18 : BitVec 32 := Scf.iv c0_i32_14 c1_i32_15 k7_t1
  let c4_i32_56 : BitVec 32 := 4#32
  let v66 : BitVec 32 := Scalar.muli arg18 c4_i32_56
  let c3_i32_57 : BitVec 32 := 3#32
  let v67 : BitVec 32 := Scalar.addi v66 c3_i32_57
  let c4_i32_65 : BitVec 32 := 4#32
  let v76 : BitVec 32 := Scalar.addi v67 c4_i32_65
  let c32_i32_66 : BitVec 32 := 32#32
  let v77 : BitVec 1 := Scalar.cmpi .slt v76 c32_i32_66
  let v78 : BitVec 32 := Scalar.extui v77
  let c0_i32_67 : BitVec 32 := 0#32
  let v79 : BitVec 1 := Scalar.cmpi .ne v78 c0_i32_67
  v79

def k7_off13 (i : grid7.Coords) (k7_t1 : Fin k7_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_58 : BitVec 32 := 32#32
  let v68 : BitVec 32 := Scalar.muli v1 c32_i32_58
  let c0_i32_14 : BitVec 32 := 0#32
  let c1_i32_15 : BitVec 32 := 1#32
  let arg18 : BitVec 32 := Scf.iv c0_i32_14 c1_i32_15 k7_t1
  let c4_i32_56 : BitVec 32 := 4#32
  let v66 : BitVec 32 := Scalar.muli arg18 c4_i32_56
  let c3_i32_57 : BitVec 32 := 3#32
  let v67 : BitVec 32 := Scalar.addi v66 c3_i32_57
  let v69 : BitVec 32 := Scalar.addi v68 v67
  let c128_i32_59 : BitVec 32 := 128#32
  let v70 : BitVec 32 := Scalar.muli v69 c128_i32_59
  let c0_i32_70 : BitVec 32 := 0#32
  ![v70.toNat, 0]
def k7_off14 (k7_t1 : Fin k7_t1_loop.trips) : Fin 2 → Nat :=
  let c0_i32_14 : BitVec 32 := 0#32
  let c1_i32_15 : BitVec 32 := 1#32
  let arg18 : BitVec 32 := Scf.iv c0_i32_14 c1_i32_15 k7_t1
  let c4_i32_56 : BitVec 32 := 4#32
  let v66 : BitVec 32 := Scalar.muli arg18 c4_i32_56
  let c3_i32_57 : BitVec 32 := 3#32
  let v67 : BitVec 32 := Scalar.addi v66 c3_i32_57
  let c4_i32_65 : BitVec 32 := 4#32
  let v76 : BitVec 32 := Scalar.addi v67 c4_i32_65
  let c0_i32_72 : BitVec 32 := 0#32
  ![v76.toNat, 0]
def k7_cond8 (k7_t1 : Fin k7_t1_loop.trips) : BitVec 1 :=
  let c0_i32_14 : BitVec 32 := 0#32
  let c1_i32_15 : BitVec 32 := 1#32
  let arg18 : BitVec 32 := Scf.iv c0_i32_14 c1_i32_15 k7_t1
  let c4_i32_56 : BitVec 32 := 4#32
  let v66 : BitVec 32 := Scalar.muli arg18 c4_i32_56
  let c3_i32_57 : BitVec 32 := 3#32
  let v67 : BitVec 32 := Scalar.addi v66 c3_i32_57
  let c4_i32_65 : BitVec 32 := 4#32
  let v76 : BitVec 32 := Scalar.addi v67 c4_i32_65
  let c32_i32_68 : BitVec 32 := 32#32
  let v80 : BitVec 1 := Scalar.cmpi .sge v76 c32_i32_68
  let v81 : BitVec 32 := Scalar.extui v80
  let c0_i32_69 : BitVec 32 := 0#32
  let v82 : BitVec 1 := Scalar.cmpi .ne v81 c0_i32_69
  v82

def k7_off15 (i : grid7.Coords) (k7_t1 : Fin k7_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_58 : BitVec 32 := 32#32
  let v68 : BitVec 32 := Scalar.muli v1 c32_i32_58
  let c0_i32_14 : BitVec 32 := 0#32
  let c1_i32_15 : BitVec 32 := 1#32
  let arg18 : BitVec 32 := Scf.iv c0_i32_14 c1_i32_15 k7_t1
  let c4_i32_56 : BitVec 32 := 4#32
  let v66 : BitVec 32 := Scalar.muli arg18 c4_i32_56
  let c3_i32_57 : BitVec 32 := 3#32
  let v67 : BitVec 32 := Scalar.addi v66 c3_i32_57
  let v69 : BitVec 32 := Scalar.addi v68 v67
  let c128_i32_59 : BitVec 32 := 128#32
  let v70 : BitVec 32 := Scalar.muli v69 c128_i32_59
  let c0_i32_70 : BitVec 32 := 0#32
  ![v70.toNat, 0]
abbrev grid8 : Pipeline.Grid := ⟨2, ![8, 2], ![false, false]⟩

def k8_cond3 (i : grid8.Coords) : BitVec 1 :=
  let arg1 : BitVec 32 := BitVec.ofNat 32 (i 1).val
  let c1_i32 : BitVec 32 := 1#32
  let v224 : BitVec 1 := Scalar.cmpi .eq arg1 c1_i32
  let v225 : BitVec 32 := Scalar.extui v224
  let c0_i32_134 : BitVec 32 := 0#32
  let v226 : BitVec 1 := Scalar.cmpi .ne v225 c0_i32_134
  v226

def cc8_transform_0 (i : grid8.Coords) : Fin 4 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  let c0_i32_1 : BitVec 32 := 0#32
  ![arg0.toNat, c0_i32.toNat, v0.toNat, c0_i32_0.toNat]

def cc8_transform_1 (i : grid8.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc8_transform_2 (i : grid8.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![arg0.toNat, v0.toNat, c0_i32.toNat]

def cc8_transform_3 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage8_0 : Fin 2 → Memref sig .tc .vmem S1x50x8x1024 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, true]

abbrev stage8_1 : Fin 2 → Memref sig .tc .vmem S8192x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true, true]

abbrev stage8_2 : Fin 2 → Memref sig .tc .vmem S1x8x1024 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true]

abbrev stage8_3 : Fin 1 → Memref sig .tc .vmem S50x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false, false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false, false]

abbrev stage8_5 : Fin 1 → Memref sig .tc .vmem S128x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false, false]

abbrev stage8_6 : Fin 1 → Memref sig .tc .vmem S1x128 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false, false]

abbrev stage8_7 : Fin 2 → Memref sig .tc .vmem S1024x128 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true, false]

abbrev grid9 : Pipeline.Grid := ⟨1, ![8], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_7 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_8 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 1 → Memref sig .tc .vmem S128x128 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![false]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S128x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S1024x128 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev stage9_5 : Fin 2 → Memref sig .tc .vmem S1024x128 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev stage9_6 : Fin 2 → Memref sig .tc .vmem S1024x128 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev stage9_7 : Fin 2 → Memref sig .tc .vmem S1024x128 .f32 := fun | 0 => Memref.whole cc9_stg7_0 | 1 => Memref.whole cc9_stg7_1 | ⟨_ + 2, h⟩ => absurd h (Nat.not_lt.2 (Nat.le_add_left _ _))
abbrev sem9_7 : Fin 2 → DmaSem sig := fun | 0 => cc9_sem7_0 | 1 => cc9_sem7_1 | ⟨_ + 2, h⟩ => absurd h (Nat.not_lt.2 (Nat.le_add_left _ _))
abbrev reads9_7 : Fin grid9.rank → Bool := ![true]

abbrev stage9_8 : Fin 2 → Memref sig .tc .vmem S1024x128 .f32 := fun | 0 => Memref.whole cc9_stg8_0 | 1 => Memref.whole cc9_stg8_1 | ⟨_ + 2, h⟩ => absurd h (Nat.not_lt.2 (Nat.le_add_left _ _))
abbrev sem9_8 : Fin 2 → DmaSem sig := fun | 0 => cc9_sem8_0 | 1 => cc9_sem8_1 | ⟨_ + 2, h⟩ => absurd h (Nat.not_lt.2 (Nat.le_add_left _ _))
abbrev reads9_8 : Fin grid9.rank → Bool := ![true]

abbrev scKind : Fin 4 → Kind := fun | 0 => .scVector | 1 => .scVector | 2 => .scVector | 3 => .scVector | ⟨_ + 4, h⟩ => absurd h (Nat.not_lt.2 (Nat.le_add_left _ _))
abbrev scNCore : Fin 4 → Nat := fun | 0 => 2 | 1 => 2 | 2 => 2 | 3 => 2 | ⟨_ + 4, h⟩ => absurd h (Nat.not_lt.2 (Nat.le_add_left _ _))
abbrev scNSub : Fin 4 → Nat := fun | 0 => 16 | 1 => 16 | 2 => 16 | 3 => 16 | ⟨_ + 4, h⟩ => absurd h (Nat.not_lt.2 (Nat.le_add_left _ _))

class Facts₀ : Prop where
  shapeCasts_S8x1024x128_S8192x128 : S8x1024x128.ShapeCasts S8192x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x128_S128x128_0_0 : ∀ a, (![0, 0] : Fin 2 → Nat) a + S128x128.size a ≤ S128x128.size a
  h_S128x128 : 0 < S128x128.numel
  transposes_S8x1024x64_S8x64x1024_0_2_1 : S8x1024x64.Transposes [0, 2, 1] S8x64x1024
  bcast_S_S8x64x1024 : S_.BroadcastsInDim S8x64x1024 (![] : Fin 0 → Fin S8x64x1024.rank)
  bcast_S_S8 : S_.BroadcastsInDim S8 (![] : Fin 0 → Fin S8.rank)
  bcast_S8_S8x1x1_0 : S8.BroadcastsInDim S8x1x1 (![0] : Fin 1 → Fin S8x1x1.rank)
  bcast_S8x1x1_S8x64x1024_0_1_2 : S8x1x1.BroadcastsInDim S8x64x1024 (![0, 1, 2] : Fin 3 → Fin S8x64x1024.rank)
  transposes_S8x1024x64x50_S8x50x64x1024_0_3_2_1 : S8x1024x64x50.Transposes [0, 3, 2, 1] S8x50x64x1024
  shapeCasts_S128_S1x128 : S128.ShapeCasts S1x128
  slices_S8x64x1024_S8x16x1024_0_0_0 : S8x64x1024.Slices ![0, 0, 0] S8x16x1024
  shapeCasts_S8x16x1024_S32x32x128 : S8x16x1024.ShapeCasts S32x32x128
  squeezes_S1x32x128_S32x128 : S1x32x128.Squeezes S32x128
  inb_S32x128_S1x128_0_0 : ∀ a, (![0, 0] : Fin 2 → Nat) a + S1x128.size a ≤ S32x128.size a
  squeezes_S1x128_S128 : S1x128.Squeezes S128
  inb_S8192x128_S8192x128_0_0 : ∀ a, (![0, 0] : Fin 2 → Nat) a + S8192x128.size a ≤ S8192x128.size a
  gathers_S8192x128_S128x128 : S8192x128.Gathers 0 S128x128
  inb_S32x128_S1x128_1_0 : ∀ a, (![1, 0] : Fin 2 → Nat) a + S1x128.size a ≤ S32x128.size a
  inb_S32x128_S1x128_2_0 : ∀ a, (![2, 0] : Fin 2 → Nat) a + S1x128.size a ≤ S32x128.size a
  inb_S32x128_S1x128_3_0 : ∀ a, (![3, 0] : Fin 2 → Nat) a + S1x128.size a ≤ S32x128.size a
  inb_S1x8x1024_S1x8x1024_0_0_0 : ∀ a, (![0, 0, 0] : Fin 3 → Nat) a + S1x8x1024.size a ≤ S1x8x1024.size a
  h_S1x8x1024 : 0 < S1x8x1024.numel
  shapeCasts_S1x8x1024_S8x1024 : S1x8x1024.ShapeCasts S8x1024
  transposes_S8x1024_p1_0_S1024x8 : S8x1024.Transposes [1, 0] S1024x8
  inb_S1x50x8x1024_S1x50x1x1024_0_0_0_0 : ∀ a, (![0, 0, 0, 0] : Fin 4 → Nat) a + S1x50x1x1024.size a ≤ S1x50x8x1024.size a
  h_S1x50x1x1024 : 0 < S1x50x1x1024.numel
  shapeCasts_S1x50x1x1024_S50x1024 : S1x50x1x1024.ShapeCasts S50x1024
  inb_S50x128_S50x128_0_0 : ∀ a, (![0, 0] : Fin 2 → Nat) a + S50x128.size a ≤ S50x128.size a
  h_S50x128 : 0 < S50x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  slices_S1024x8_o0_0_S1024x1 : S1024x8.Slices ![0, 0] S1024x1
  broadcasts_S1024x1_S1024x128 : S1024x1.Broadcasts S1024x128
  inb_S8192x128_S1024x128_0_0 : ∀ a, (![0, 0] : Fin 2 → Nat) a + S1024x128.size a ≤ S8192x128.size a
  inb_S1x50x8x1024_S1x50x1x1024_0_0_1_0 : ∀ a, (![0, 0, 1, 0] : Fin 4 → Nat) a + S1x50x1x1024.size a ≤ S1x50x8x1024.size a
  slices_S1024x8_o0_1_S1024x1 : S1024x8.Slices ![0, 1] S1024x1
  inb_S8192x128_S1024x128_1024_0 : ∀ a, (![1024, 0] : Fin 2 → Nat) a + S1024x128.size a ≤ S8192x128.size a
  inb_S1x50x8x1024_S1x50x1x1024_0_0_2_0 : ∀ a, (![0, 0, 2, 0] : Fin 4 → Nat) a + S1x50x1x1024.size a ≤ S1x50x8x1024.size a
  slices_S1024x8_o0_2_S1024x1 : S1024x8.Slices ![0, 2] S1024x1
  inb_S8192x128_S1024x128_2048_0 : ∀ a, (![2048, 0] : Fin 2 → Nat) a + S1024x128.size a ≤ S8192x128.size a
  inb_S1x50x8x1024_S1x50x1x1024_0_0_3_0 : ∀ a, (![0, 0, 3, 0] : Fin 4 → Nat) a + S1x50x1x1024.size a ≤ S1x50x8x1024.size a
  slices_S1024x8_o0_3_S1024x1 : S1024x8.Slices ![0, 3] S1024x1
  inb_S8192x128_S1024x128_3072_0 : ∀ a, (![3072, 0] : Fin 2 → Nat) a + S1024x128.size a ≤ S8192x128.size a
  inb_S1x50x8x1024_S1x50x1x1024_0_0_4_0 : ∀ a, (![0, 0, 4, 0] : Fin 4 → Nat) a + S1x50x1x1024.size a ≤ S1x50x8x1024.size a
  slices_S1024x8_o0_4_S1024x1 : S1024x8.Slices ![0, 4] S1024x1
  inb_S8192x128_S1024x128_4096_0 : ∀ a, (![4096, 0] : Fin 2 → Nat) a + S1024x128.size a ≤ S8192x128.size a
  inb_S1x50x8x1024_S1x50x1x1024_0_0_5_0 : ∀ a, (![0, 0, 5, 0] : Fin 4 → Nat) a + S1x50x1x1024.size a ≤ S1x50x8x1024.size a
  slices_S1024x8_o0_5_S1024x1 : S1024x8.Slices ![0, 5] S1024x1
  inb_S8192x128_S1024x128_5120_0 : ∀ a, (![5120, 0] : Fin 2 → Nat) a + S1024x128.size a ≤ S8192x128.size a
  inb_S1x50x8x1024_S1x50x1x1024_0_0_6_0 : ∀ a, (![0, 0, 6, 0] : Fin 4 → Nat) a + S1x50x1x1024.size a ≤ S1x50x8x1024.size a
  slices_S1024x8_o0_6_S1024x1 : S1024x8.Slices ![0, 6] S1024x1
  inb_S8192x128_S1024x128_6144_0 : ∀ a, (![6144, 0] : Fin 2 → Nat) a + S1024x128.size a ≤ S8192x128.size a
  inb_S1x50x8x1024_S1x50x1x1024_0_0_7_0 : ∀ a, (![0, 0, 7, 0] : Fin 4 → Nat) a + S1x50x1x1024.size a ≤ S1x50x8x1024.size a
  slices_S1024x8_o0_7_S1024x1 : S1024x8.Slices ![0, 7] S1024x1
  inb_S8192x128_S1024x128_7168_0 : ∀ a, (![7168, 0] : Fin 2 → Nat) a + S1024x128.size a ≤ S8192x128.size a
  slices_S8x64x1024_S8x16x1024_0_16_0 : S8x64x1024.Slices ![0, 16, 0] S8x16x1024
  slices_S8x64x1024_S8x16x1024_0_32_0 : S8x64x1024.Slices ![0, 32, 0] S8x16x1024
  slices_S8x64x1024_S8x16x1024_0_48_0 : S8x64x1024.Slices ![0, 48, 0] S8x16x1024
  shapeCasts_S8192x128_S8x1024x128 : S8192x128.ShapeCasts S8x1024x128
  dot_S1024x128_S128x128_S1024x128_1_0_0_1_n_n_wf : DotDims.WF S1024x128 S128x128 S1024x128 [1] [0] [0] [1] [] []
  dot_S50x1024_S50x128_S1024x128_0_0_1_1_n_n_wf : DotDims.WF S50x1024 S50x128 S1024x128 [0] [0] [1] [1] [] []
  hcc1_scratch5 : 5 + S_.numel ≤ 103
  hcc1_scratch6 : 6 + S_.numel ≤ 103
  hcc1_scratch7 : 7 + S_.numel ≤ 103
  hcc1_scratch8 : 8 + S_.numel ≤ 103
  hcc1_scratch9 : 9 + S_.numel ≤ 103
  hcc1_scratch10 : 10 + S_.numel ≤ 103
  hcc1_scratch11 : 11 + S_.numel ≤ 103
  hcc1_scratch12 : 12 + S_.numel ≤ 103
  hcc1_scoped0 : 13 + S_.numel ≤ 103
  hcc3_scratch5 : 26 + S_.numel ≤ 103
  hcc3_scratch6 : 27 + S_.numel ≤ 103
  hcc3_scratch7 : 28 + S_.numel ≤ 103
  hcc3_scratch8 : 29 + S_.numel ≤ 103
  hcc3_scratch9 : 30 + S_.numel ≤ 103
  hcc3_scratch10 : 31 + S_.numel ≤ 103
  hcc3_scratch11 : 32 + S_.numel ≤ 103
  hcc3_scratch12 : 33 + S_.numel ≤ 103
  hcc3_scoped0 : 34 + S_.numel ≤ 103
  hcc5_scratch5 : 47 + S_.numel ≤ 103
  hcc5_scratch6 : 48 + S_.numel ≤ 103
  hcc5_scratch7 : 49 + S_.numel ≤ 103
  hcc5_scratch8 : 50 + S_.numel ≤ 103
  hcc5_scratch9 : 51 + S_.numel ≤ 103
  hcc5_scratch10 : 52 + S_.numel ≤ 103
  hcc5_scratch11 : 53 + S_.numel ≤ 103
  hcc5_scratch12 : 54 + S_.numel ≤ 103
  hcc5_scoped0 : 55 + S_.numel ≤ 103
  hcc7_scratch5 : 68 + S_.numel ≤ 103
  hcc7_scratch6 : 69 + S_.numel ≤ 103
  hcc7_scratch7 : 70 + S_.numel ≤ 103
  hcc7_scratch8 : 71 + S_.numel ≤ 103
  hcc7_scratch9 : 72 + S_.numel ≤ 103
  hcc7_scratch10 : 73 + S_.numel ≤ 103
  hcc7_scratch11 : 74 + S_.numel ≤ 103
  hcc7_scratch12 : 75 + S_.numel ≤ 103
  hcc7_scoped0 : 76 + S_.numel ≤ 103
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .f32 = 32 ∨ (Rect.block (s := S8192x128) S1024x128.size (cc0_transform_2 i) (hinb0_2 i)).WholeWords (EltTy.packing .f32)
  hcore1 : grid1.bound 0 ≤ τ.nSC
  hsub1 : grid1.bound 1 ≤ τ.nSub
  k1_off1_inb : ∀ i : grid1.Coords, ∀ a, (k1_off1 i) a + S1x32x128.size a ≤ S32x32x128.size a
  k1_t1_ok : k1_t1_loop.OK
  k1_off2_inb : ∀ k1_t1 : Fin k1_t1_loop.trips, ∀ (r : Fin 4), ∀ a, (k1_off2 k1_t1 (BitVec.ofNat 32 r.val)) a + S1x128.size a ≤ S32x128.size a
  k1_off3_inb : ∀ (i : grid1.Coords) (k1_t1 : Fin k1_t1_loop.trips), ∀ (r : Fin 4), ∀ a, (k1_off3 i k1_t1 (BitVec.ofNat 32 r.val)) a + S128x128.size a ≤ S131072x128.size a
  k1_off4_inb : ∀ (i : grid1.Coords) (k1_t1 : Fin k1_t1_loop.trips), ∀ (k1_h1 : k1_cond1 k1_t1 = 1#1), ∀ a, (k1_off4 i k1_t1) a + S128x128.size a ≤ S131072x128.size a
  k1_off5_inb : ∀ k1_t1 : Fin k1_t1_loop.trips, ∀ (k1_h1 : k1_cond1 k1_t1 = 1#1), ∀ a, (k1_off5 k1_t1) a + S1x128.size a ≤ S32x128.size a
  k1_off6_inb : ∀ (i : grid1.Coords) (k1_t1 : Fin k1_t1_loop.trips), ∀ (k1_h2 : k1_cond2 k1_t1 = 1#1), ∀ a, (k1_off6 i k1_t1) a + S128x128.size a ≤ S131072x128.size a
  k1_off7_inb : ∀ (i : grid1.Coords) (k1_t1 : Fin k1_t1_loop.trips), ∀ (k1_h3 : k1_cond3 k1_t1 = 1#1), ∀ a, (k1_off7 i k1_t1) a + S128x128.size a ≤ S131072x128.size a
  k1_off8_inb : ∀ k1_t1 : Fin k1_t1_loop.trips, ∀ (k1_h3 : k1_cond3 k1_t1 = 1#1), ∀ a, (k1_off8 k1_t1) a + S1x128.size a ≤ S32x128.size a
  k1_off9_inb : ∀ (i : grid1.Coords) (k1_t1 : Fin k1_t1_loop.trips), ∀ (k1_h4 : k1_cond4 k1_t1 = 1#1), ∀ a, (k1_off9 i k1_t1) a + S128x128.size a ≤ S131072x128.size a
  k1_off10_inb : ∀ (i : grid1.Coords) (k1_t1 : Fin k1_t1_loop.trips), ∀ (k1_h5 : k1_cond5 k1_t1 = 1#1), ∀ a, (k1_off10 i k1_t1) a + S128x128.size a ≤ S131072x128.size a
  k1_off11_inb : ∀ k1_t1 : Fin k1_t1_loop.trips, ∀ (k1_h5 : k1_cond5 k1_t1 = 1#1), ∀ a, (k1_off11 k1_t1) a + S1x128.size a ≤ S32x128.size a
  k1_off12_inb : ∀ (i : grid1.Coords) (k1_t1 : Fin k1_t1_loop.trips), ∀ (k1_h6 : k1_cond6 k1_t1 = 1#1), ∀ a, (k1_off12 i k1_t1) a + S128x128.size a ≤ S131072x128.size a
  k1_off13_inb : ∀ (i : grid1.Coords) (k1_t1 : Fin k1_t1_loop.trips), ∀ (k1_h7 : k1_cond7 k1_t1 = 1#1), ∀ a, (k1_off13 i k1_t1) a + S128x128.size a ≤ S131072x128.size a
  k1_off14_inb : ∀ k1_t1 : Fin k1_t1_loop.trips, ∀ (k1_h7 : k1_cond7 k1_t1 = 1#1), ∀ a, (k1_off14 k1_t1) a + S1x128.size a ≤ S32x128.size a
  k1_off15_inb : ∀ (i : grid1.Coords) (k1_t1 : Fin k1_t1_loop.trips), ∀ (k1_h8 : k1_cond8 k1_t1 = 1#1), ∀ a, (k1_off15 i k1_t1) a + S128x128.size a ≤ S131072x128.size a
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x50x8x1024.size a ≤ S8x50x64x1024.size a
  hwx2_0 : ∀ i : grid2.Coords, EltTy.bits .f32 = 32 ∨ (Rect.block (s := S8x50x64x1024) S1x50x8x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8192x128.size a ≤ S131072x128.size a
  hwx2_1 : ∀ i : grid2.Coords, EltTy.bits .f32 = 32 ∨ (Rect.block (s := S131072x128) S8192x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x8x1024.size a ≤ S8x64x1024.size a
  hwx2_2 : ∀ i : grid2.Coords, EltTy.bits .f32 = 32 ∨ (Rect.block (s := S8x64x1024) S1x8x1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S50x128.size a ≤ S50x128.size a
  hwx2_3 : ∀ i : grid2.Coords, EltTy.bits .f32 = 32 ∨ (Rect.block (s := S50x128) S50x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1024x128.size a ≤ S8192x128.size a
  hwx2_7 : ∀ i : grid2.Coords, EltTy.bits .f32 = 32 ∨ (Rect.block (s := S8192x128) S1024x128.size (cc2_transform_7 i) (hinb2_7 i)).WholeWords (EltTy.packing .f32)
  hcore3 : grid3.bound 0 ≤ τ.nSC
  hsub3 : grid3.bound 1 ≤ τ.nSub
  k3_off1_inb : ∀ i : grid3.Coords, ∀ a, (k3_off1 i) a + S1x32x128.size a ≤ S32x32x128.size a
  k3_t1_ok : k3_t1_loop.OK
  k3_off2_inb : ∀ k3_t1 : Fin k3_t1_loop.trips, ∀ (r : Fin 4), ∀ a, (k3_off2 k3_t1 (BitVec.ofNat 32 r.val)) a + S1x128.size a ≤ S32x128.size a
  k3_off3_inb : ∀ (i : grid3.Coords) (k3_t1 : Fin k3_t1_loop.trips), ∀ (r : Fin 4), ∀ a, (k3_off3 i k3_t1 (BitVec.ofNat 32 r.val)) a + S128x128.size a ≤ S131072x128.size a
  k3_off4_inb : ∀ (i : grid3.Coords) (k3_t1 : Fin k3_t1_loop.trips), ∀ (k3_h1 : k3_cond1 k3_t1 = 1#1), ∀ a, (k3_off4 i k3_t1) a + S128x128.size a ≤ S131072x128.size a
  k3_off5_inb : ∀ k3_t1 : Fin k3_t1_loop.trips, ∀ (k3_h1 : k3_cond1 k3_t1 = 1#1), ∀ a, (k3_off5 k3_t1) a + S1x128.size a ≤ S32x128.size a
  k3_off6_inb : ∀ (i : grid3.Coords) (k3_t1 : Fin k3_t1_loop.trips), ∀ (k3_h2 : k3_cond2 k3_t1 = 1#1), ∀ a, (k3_off6 i k3_t1) a + S128x128.size a ≤ S131072x128.size a
  k3_off7_inb : ∀ (i : grid3.Coords) (k3_t1 : Fin k3_t1_loop.trips), ∀ (k3_h3 : k3_cond3 k3_t1 = 1#1), ∀ a, (k3_off7 i k3_t1) a + S128x128.size a ≤ S131072x128.size a
  k3_off8_inb : ∀ k3_t1 : Fin k3_t1_loop.trips, ∀ (k3_h3 : k3_cond3 k3_t1 = 1#1), ∀ a, (k3_off8 k3_t1) a + S1x128.size a ≤ S32x128.size a
  k3_off9_inb : ∀ (i : grid3.Coords) (k3_t1 : Fin k3_t1_loop.trips), ∀ (k3_h4 : k3_cond4 k3_t1 = 1#1), ∀ a, (k3_off9 i k3_t1) a + S128x128.size a ≤ S131072x128.size a
  k3_off10_inb : ∀ (i : grid3.Coords) (k3_t1 : Fin k3_t1_loop.trips), ∀ (k3_h5 : k3_cond5 k3_t1 = 1#1), ∀ a, (k3_off10 i k3_t1) a + S128x128.size a ≤ S131072x128.size a
  k3_off11_inb : ∀ k3_t1 : Fin k3_t1_loop.trips, ∀ (k3_h5 : k3_cond5 k3_t1 = 1#1), ∀ a, (k3_off11 k3_t1) a + S1x128.size a ≤ S32x128.size a
  k3_off12_inb : ∀ (i : grid3.Coords) (k3_t1 : Fin k3_t1_loop.trips), ∀ (k3_h6 : k3_cond6 k3_t1 = 1#1), ∀ a, (k3_off12 i k3_t1) a + S128x128.size a ≤ S131072x128.size a
  k3_off13_inb : ∀ (i : grid3.Coords) (k3_t1 : Fin k3_t1_loop.trips), ∀ (k3_h7 : k3_cond7 k3_t1 = 1#1), ∀ a, (k3_off13 i k3_t1) a + S128x128.size a ≤ S131072x128.size a
  k3_off14_inb : ∀ k3_t1 : Fin k3_t1_loop.trips, ∀ (k3_h7 : k3_cond7 k3_t1 = 1#1), ∀ a, (k3_off14 k3_t1) a + S1x128.size a ≤ S32x128.size a
  k3_off15_inb : ∀ (i : grid3.Coords) (k3_t1 : Fin k3_t1_loop.trips), ∀ (k3_h8 : k3_cond8 k3_t1 = 1#1), ∀ a, (k3_off15 i k3_t1) a + S128x128.size a ≤ S131072x128.size a
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x50x8x1024.size a ≤ S8x50x64x1024.size a
  hwx4_0 : ∀ i : grid4.Coords, EltTy.bits .f32 = 32 ∨ (Rect.block (s := S8x50x64x1024) S1x50x8x1024.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8192x128.size a ≤ S131072x128.size a
  hwx4_1 : ∀ i : grid4.Coords, EltTy.bits .f32 = 32 ∨ (Rect.block (s := S131072x128) S8192x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x8x1024.size a ≤ S8x64x1024.size a
  hwx4_2 : ∀ i : grid4.Coords, EltTy.bits .f32 = 32 ∨ (Rect.block (s := S8x64x1024) S1x8x1024.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S50x128.size a ≤ S50x128.size a
  hwx4_3 : ∀ i : grid4.Coords, EltTy.bits .f32 = 32 ∨ (Rect.block (s := S50x128) S50x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S1024x128.size a ≤ S8192x128.size a
  hwx4_7 : ∀ i : grid4.Coords, EltTy.bits .f32 = 32 ∨ (Rect.block (s := S8192x128) S1024x128.size (cc4_transform_7 i) (hinb4_7 i)).WholeWords (EltTy.packing .f32)
  hcore5 : grid5.bound 0 ≤ τ.nSC
  hsub5 : grid5.bound 1 ≤ τ.nSub
  k5_off1_inb : ∀ i : grid5.Coords, ∀ a, (k5_off1 i) a + S1x32x128.size a ≤ S32x32x128.size a
  k5_t1_ok : k5_t1_loop.OK
  k5_off2_inb : ∀ k5_t1 : Fin k5_t1_loop.trips, ∀ (r : Fin 4), ∀ a, (k5_off2 k5_t1 (BitVec.ofNat 32 r.val)) a + S1x128.size a ≤ S32x128.size a
  k5_off3_inb : ∀ (i : grid5.Coords) (k5_t1 : Fin k5_t1_loop.trips), ∀ (r : Fin 4), ∀ a, (k5_off3 i k5_t1 (BitVec.ofNat 32 r.val)) a + S128x128.size a ≤ S131072x128.size a
  k5_off4_inb : ∀ (i : grid5.Coords) (k5_t1 : Fin k5_t1_loop.trips), ∀ (k5_h1 : k5_cond1 k5_t1 = 1#1), ∀ a, (k5_off4 i k5_t1) a + S128x128.size a ≤ S131072x128.size a
  k5_off5_inb : ∀ k5_t1 : Fin k5_t1_loop.trips, ∀ (k5_h1 : k5_cond1 k5_t1 = 1#1), ∀ a, (k5_off5 k5_t1) a + S1x128.size a ≤ S32x128.size a
  k5_off6_inb : ∀ (i : grid5.Coords) (k5_t1 : Fin k5_t1_loop.trips), ∀ (k5_h2 : k5_cond2 k5_t1 = 1#1), ∀ a, (k5_off6 i k5_t1) a + S128x128.size a ≤ S131072x128.size a
  k5_off7_inb : ∀ (i : grid5.Coords) (k5_t1 : Fin k5_t1_loop.trips), ∀ (k5_h3 : k5_cond3 k5_t1 = 1#1), ∀ a, (k5_off7 i k5_t1) a + S128x128.size a ≤ S131072x128.size a
  k5_off8_inb : ∀ k5_t1 : Fin k5_t1_loop.trips, ∀ (k5_h3 : k5_cond3 k5_t1 = 1#1), ∀ a, (k5_off8 k5_t1) a + S1x128.size a ≤ S32x128.size a
  k5_off9_inb : ∀ (i : grid5.Coords) (k5_t1 : Fin k5_t1_loop.trips), ∀ (k5_h4 : k5_cond4 k5_t1 = 1#1), ∀ a, (k5_off9 i k5_t1) a + S128x128.size a ≤ S131072x128.size a
  k5_off10_inb : ∀ (i : grid5.Coords) (k5_t1 : Fin k5_t1_loop.trips), ∀ (k5_h5 : k5_cond5 k5_t1 = 1#1), ∀ a, (k5_off10 i k5_t1) a + S128x128.size a ≤ S131072x128.size a
  k5_off11_inb : ∀ k5_t1 : Fin k5_t1_loop.trips, ∀ (k5_h5 : k5_cond5 k5_t1 = 1#1), ∀ a, (k5_off11 k5_t1) a + S1x128.size a ≤ S32x128.size a
  k5_off12_inb : ∀ (i : grid5.Coords) (k5_t1 : Fin k5_t1_loop.trips), ∀ (k5_h6 : k5_cond6 k5_t1 = 1#1), ∀ a, (k5_off12 i k5_t1) a + S128x128.size a ≤ S131072x128.size a
  k5_off13_inb : ∀ (i : grid5.Coords) (k5_t1 : Fin k5_t1_loop.trips), ∀ (k5_h7 : k5_cond7 k5_t1 = 1#1), ∀ a, (k5_off13 i k5_t1) a + S128x128.size a ≤ S131072x128.size a
  k5_off14_inb : ∀ k5_t1 : Fin k5_t1_loop.trips, ∀ (k5_h7 : k5_cond7 k5_t1 = 1#1), ∀ a, (k5_off14 k5_t1) a + S1x128.size a ≤ S32x128.size a
  k5_off15_inb : ∀ (i : grid5.Coords) (k5_t1 : Fin k5_t1_loop.trips), ∀ (k5_h8 : k5_cond8 k5_t1 = 1#1), ∀ a, (k5_off15 i k5_t1) a + S128x128.size a ≤ S131072x128.size a
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1x50x8x1024.size a ≤ S8x50x64x1024.size a
  hwx6_0 : ∀ i : grid6.Coords, EltTy.bits .f32 = 32 ∨ (Rect.block (s := S8x50x64x1024) S1x50x8x1024.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S8192x128.size a ≤ S131072x128.size a
  hwx6_1 : ∀ i : grid6.Coords, EltTy.bits .f32 = 32 ∨ (Rect.block (s := S131072x128) S8192x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1x8x1024.size a ≤ S8x64x1024.size a
  hwx6_2 : ∀ i : grid6.Coords, EltTy.bits .f32 = 32 ∨ (Rect.block (s := S8x64x1024) S1x8x1024.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S50x128.size a ≤ S50x128.size a
  hwx6_3 : ∀ i : grid6.Coords, EltTy.bits .f32 = 32 ∨ (Rect.block (s := S50x128) S50x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x128.size a ≤ S128x128.size a
  hwx6_5 : ∀ i : grid6.Coords, EltTy.bits .f32 = 32 ∨ (Rect.block (s := S128x128) S128x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S1024x128.size a ≤ S8192x128.size a
  hwx6_7 : ∀ i : grid6.Coords, EltTy.bits .f32 = 32 ∨ (Rect.block (s := S8192x128) S1024x128.size (cc6_transform_7 i) (hinb6_7 i)).WholeWords (EltTy.packing .f32)
  hcore7 : grid7.bound 0 ≤ τ.nSC
  hsub7 : grid7.bound 1 ≤ τ.nSub
  k7_off1_inb : ∀ i : grid7.Coords, ∀ a, (k7_off1 i) a + S1x32x128.size a ≤ S32x32x128.size a
  k7_t1_ok : k7_t1_loop.OK
  k7_off2_inb : ∀ k7_t1 : Fin k7_t1_loop.trips, ∀ (r : Fin 4), ∀ a, (k7_off2 k7_t1 (BitVec.ofNat 32 r.val)) a + S1x128.size a ≤ S32x128.size a
  k7_off3_inb : ∀ (i : grid7.Coords) (k7_t1 : Fin k7_t1_loop.trips), ∀ (r : Fin 4), ∀ a, (k7_off3 i k7_t1 (BitVec.ofNat 32 r.val)) a + S128x128.size a ≤ S131072x128.size a
  k7_off4_inb : ∀ (i : grid7.Coords) (k7_t1 : Fin k7_t1_loop.trips), ∀ (k7_h1 : k7_cond1 k7_t1 = 1#1), ∀ a, (k7_off4 i k7_t1) a + S128x128.size a ≤ S131072x128.size a
  k7_off5_inb : ∀ k7_t1 : Fin k7_t1_loop.trips, ∀ (k7_h1 : k7_cond1 k7_t1 = 1#1), ∀ a, (k7_off5 k7_t1) a + S1x128.size a ≤ S32x128.size a
  k7_off6_inb : ∀ (i : grid7.Coords) (k7_t1 : Fin k7_t1_loop.trips), ∀ (k7_h2 : k7_cond2 k7_t1 = 1#1), ∀ a, (k7_off6 i k7_t1) a + S128x128.size a ≤ S131072x128.size a
  k7_off7_inb : ∀ (i : grid7.Coords) (k7_t1 : Fin k7_t1_loop.trips), ∀ (k7_h3 : k7_cond3 k7_t1 = 1#1), ∀ a, (k7_off7 i k7_t1) a + S128x128.size a ≤ S131072x128.size a
  k7_off8_inb : ∀ k7_t1 : Fin k7_t1_loop.trips, ∀ (k7_h3 : k7_cond3 k7_t1 = 1#1), ∀ a, (k7_off8 k7_t1) a + S1x128.size a ≤ S32x128.size a
  k7_off9_inb : ∀ (i : grid7.Coords) (k7_t1 : Fin k7_t1_loop.trips), ∀ (k7_h4 : k7_cond4 k7_t1 = 1#1), ∀ a, (k7_off9 i k7_t1) a + S128x128.size a ≤ S131072x128.size a
  k7_off10_inb : ∀ (i : grid7.Coords) (k7_t1 : Fin k7_t1_loop.trips), ∀ (k7_h5 : k7_cond5 k7_t1 = 1#1), ∀ a, (k7_off10 i k7_t1) a + S128x128.size a ≤ S131072x128.size a
  k7_off11_inb : ∀ k7_t1 : Fin k7_t1_loop.trips, ∀ (k7_h5 : k7_cond5 k7_t1 = 1#1), ∀ a, (k7_off11 k7_t1) a + S1x128.size a ≤ S32x128.size a
  k7_off12_inb : ∀ (i : grid7.Coords) (k7_t1 : Fin k7_t1_loop.trips), ∀ (k7_h6 : k7_cond6 k7_t1 = 1#1), ∀ a, (k7_off12 i k7_t1) a + S128x128.size a ≤ S131072x128.size a
  k7_off13_inb : ∀ (i : grid7.Coords) (k7_t1 : Fin k7_t1_loop.trips), ∀ (k7_h7 : k7_cond7 k7_t1 = 1#1), ∀ a, (k7_off13 i k7_t1) a + S128x128.size a ≤ S131072x128.size a
  k7_off14_inb : ∀ k7_t1 : Fin k7_t1_loop.trips, ∀ (k7_h7 : k7_cond7 k7_t1 = 1#1), ∀ a, (k7_off14 k7_t1) a + S1x128.size a ≤ S32x128.size a
  k7_off15_inb : ∀ (i : grid7.Coords) (k7_t1 : Fin k7_t1_loop.trips), ∀ (k7_h8 : k7_cond8 k7_t1 = 1#1), ∀ a, (k7_off15 i k7_t1) a + S128x128.size a ≤ S131072x128.size a
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1x50x8x1024.size a ≤ S8x50x64x1024.size a
  hwx8_0 : ∀ i : grid8.Coords, EltTy.bits .f32 = 32 ∨ (Rect.block (s := S8x50x64x1024) S1x50x8x1024.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S8192x128.size a ≤ S131072x128.size a
  hwx8_1 : ∀ i : grid8.Coords, EltTy.bits .f32 = 32 ∨ (Rect.block (s := S131072x128) S8192x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S1x8x1024.size a ≤ S8x64x1024.size a
  hwx8_2 : ∀ i : grid8.Coords, EltTy.bits .f32 = 32 ∨ (Rect.block (s := S8x64x1024) S1x8x1024.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S50x128.size a ≤ S50x128.size a
  hwx8_3 : ∀ i : grid8.Coords, EltTy.bits .f32 = 32 ∨ (Rect.block (s := S50x128) S50x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S128x128.size a ≤ S128x128.size a
  hwx8_5 : ∀ i : grid8.Coords, EltTy.bits .f32 = 32 ∨ (Rect.block (s := S128x128) S128x128.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x128.size a ≤ S1x128.size a
  hwx8_6 : ∀ i : grid8.Coords, EltTy.bits .f32 = 32 ∨ (Rect.block (s := S1x128) S1x128.size (cc8_transform_6 i) (hinb8_6 i)).WholeWords (EltTy.packing .f32)
  hstage8_7 : ∀ j, (stage8_7 j).IsWhole
  nbuf8_7 : grid8.bufCount reads8_7 false = 2
  hreads8_7 : ∀ i i' : grid8.Coords, (∀ a, reads8_7 a = true → i a = i' a) → cc8_transform_7 i = cc8_transform_7 i'
  hinb8_7 : ∀ (i : grid8.Coords) a, (cc8_transform_7 i a + 1) * S1024x128.size a ≤ S8192x128.size a
  hwx8_7 : ∀ i : grid8.Coords, EltTy.bits .f32 = 32 ∨ (Rect.block (s := S8192x128) S1024x128.size (cc8_transform_7 i) (hinb8_7 i)).WholeWords (EltTy.packing .f32)
  hrank9 : 0 < grid9.rank
  hstage9_0 : ∀ j, (stage9_0 j).IsWhole
  nbuf9_0 : grid9.bufCount reads9_0 true = 1
  hreads9_0 : ∀ i i' : grid9.Coords, (∀ a, reads9_0 a = true → i a = i' a) → cc9_transform_0 i = cc9_transform_0 i'
  hinb9_0 : ∀ (i : grid9.Coords) a, (cc9_transform_0 i a + 1) * S128x128.size a ≤ S128x128.size a
  hwx9_0 : ∀ i : grid9.Coords, EltTy.bits .f32 = 32 ∨ (Rect.block (s := S128x128) S128x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S128x128.size a ≤ S128x128.size a
  hwx9_2 : ∀ i : grid9.Coords, EltTy.bits .f32 = 32 ∨ (Rect.block (s := S128x128) S128x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S1024x128.size a ≤ S8192x128.size a
  hwx9_4 : ∀ i : grid9.Coords, EltTy.bits .f32 = 32 ∨ (Rect.block (s := S8192x128) S1024x128.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S1024x128.size a ≤ S8192x128.size a
  hwx9_5 : ∀ i : grid9.Coords, EltTy.bits .f32 = 32 ∨ (Rect.block (s := S8192x128) S1024x128.size (cc9_transform_5 i) (hinb9_5 i)).WholeWords (EltTy.packing .f32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S1024x128.size a ≤ S8192x128.size a
  hwx9_6 : ∀ i : grid9.Coords, EltTy.bits .f32 = 32 ∨ (Rect.block (s := S8192x128) S1024x128.size (cc9_transform_6 i) (hinb9_6 i)).WholeWords (EltTy.packing .f32)
  hstage9_7 : ∀ j, (stage9_7 j).IsWhole
  nbuf9_7 : grid9.bufCount reads9_7 false = 2
  hreads9_7 : ∀ i i' : grid9.Coords, (∀ a, reads9_7 a = true → i a = i' a) → cc9_transform_7 i = cc9_transform_7 i'
  hinb9_7 : ∀ (i : grid9.Coords) a, (cc9_transform_7 i a + 1) * S1024x128.size a ≤ S8192x128.size a
  hwx9_7 : ∀ i : grid9.Coords, EltTy.bits .f32 = 32 ∨ (Rect.block (s := S8192x128) S1024x128.size (cc9_transform_7 i) (hinb9_7 i)).WholeWords (EltTy.packing .f32)
  hstage9_8 : ∀ j, (stage9_8 j).IsWhole
  nbuf9_8 : grid9.bufCount reads9_8 false = 2
  hreads9_8 : ∀ i i' : grid9.Coords, (∀ a, reads9_8 a = true → i a = i' a) → cc9_transform_8 i = cc9_transform_8 i'
  hinb9_8 : ∀ (i : grid9.Coords) a, (cc9_transform_8 i a + 1) * S1024x128.size a ≤ S8192x128.size a
  hwx9_8 : ∀ i : grid9.Coords, EltTy.bits .f32 = 32 ∨ (Rect.block (s := S8192x128) S1024x128.size (cc9_transform_8 i) (hinb9_8 i)).WholeWords (EltTy.packing .f32)

variable [Facts₀]

abbrev cc1_scratch5 : DmaSems sig S_ := SemArray.consecutive 5 S_ hcc1_scratch5
abbrev cc1_scratch6 : DmaSems sig S_ := SemArray.consecutive 6 S_ hcc1_scratch6
abbrev cc1_scratch7 : DmaSems sig S_ := SemArray.consecutive 7 S_ hcc1_scratch7
abbrev cc1_scratch8 : DmaSems sig S_ := SemArray.consecutive 8 S_ hcc1_scratch8
abbrev cc1_scratch9 : DmaSems sig S_ := SemArray.consecutive 9 S_ hcc1_scratch9
abbrev cc1_scratch10 : DmaSems sig S_ := SemArray.consecutive 10 S_ hcc1_scratch10
abbrev cc1_scratch11 : DmaSems sig S_ := SemArray.consecutive 11 S_ hcc1_scratch11
abbrev cc1_scratch12 : DmaSems sig S_ := SemArray.consecutive 12 S_ hcc1_scratch12
abbrev cc1_scoped0 : DmaSems sig S_ := SemArray.consecutive 13 S_ hcc1_scoped0
abbrev cc3_scratch5 : DmaSems sig S_ := SemArray.consecutive 26 S_ hcc3_scratch5
abbrev cc3_scratch6 : DmaSems sig S_ := SemArray.consecutive 27 S_ hcc3_scratch6
abbrev cc3_scratch7 : DmaSems sig S_ := SemArray.consecutive 28 S_ hcc3_scratch7
abbrev cc3_scratch8 : DmaSems sig S_ := SemArray.consecutive 29 S_ hcc3_scratch8
abbrev cc3_scratch9 : DmaSems sig S_ := SemArray.consecutive 30 S_ hcc3_scratch9
abbrev cc3_scratch10 : DmaSems sig S_ := SemArray.consecutive 31 S_ hcc3_scratch10
abbrev cc3_scratch11 : DmaSems sig S_ := SemArray.consecutive 32 S_ hcc3_scratch11
abbrev cc3_scratch12 : DmaSems sig S_ := SemArray.consecutive 33 S_ hcc3_scratch12
abbrev cc3_scoped0 : DmaSems sig S_ := SemArray.consecutive 34 S_ hcc3_scoped0
abbrev cc5_scratch5 : DmaSems sig S_ := SemArray.consecutive 47 S_ hcc5_scratch5
abbrev cc5_scratch6 : DmaSems sig S_ := SemArray.consecutive 48 S_ hcc5_scratch6
abbrev cc5_scratch7 : DmaSems sig S_ := SemArray.consecutive 49 S_ hcc5_scratch7
abbrev cc5_scratch8 : DmaSems sig S_ := SemArray.consecutive 50 S_ hcc5_scratch8
abbrev cc5_scratch9 : DmaSems sig S_ := SemArray.consecutive 51 S_ hcc5_scratch9
abbrev cc5_scratch10 : DmaSems sig S_ := SemArray.consecutive 52 S_ hcc5_scratch10
abbrev cc5_scratch11 : DmaSems sig S_ := SemArray.consecutive 53 S_ hcc5_scratch11
abbrev cc5_scratch12 : DmaSems sig S_ := SemArray.consecutive 54 S_ hcc5_scratch12
abbrev cc5_scoped0 : DmaSems sig S_ := SemArray.consecutive 55 S_ hcc5_scoped0
abbrev cc7_scratch5 : DmaSems sig S_ := SemArray.consecutive 68 S_ hcc7_scratch5
abbrev cc7_scratch6 : DmaSems sig S_ := SemArray.consecutive 69 S_ hcc7_scratch6
abbrev cc7_scratch7 : DmaSems sig S_ := SemArray.consecutive 70 S_ hcc7_scratch7
abbrev cc7_scratch8 : DmaSems sig S_ := SemArray.consecutive 71 S_ hcc7_scratch8
abbrev cc7_scratch9 : DmaSems sig S_ := SemArray.consecutive 72 S_ hcc7_scratch9
abbrev cc7_scratch10 : DmaSems sig S_ := SemArray.consecutive 73 S_ hcc7_scratch10
abbrev cc7_scratch11 : DmaSems sig S_ := SemArray.consecutive 74 S_ hcc7_scratch11
abbrev cc7_scratch12 : DmaSems sig S_ := SemArray.consecutive 75 S_ hcc7_scratch12
abbrev cc7_scoped0 : DmaSems sig S_ := SemArray.consecutive 76 S_ hcc7_scoped0
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S50x1024_S50x128_S1024x128_0_0_1_1_n_n : DotDims S50x1024 S50x128 S1024x128 where
  lhsContracting := [0]
  rhsContracting := [0]
  lhsNonContracting := [1]
  rhsNonContracting := [1]
  lhsBatch := []
  rhsBatch := []
  wf := dot_S50x1024_S50x128_S1024x128_0_0_1_1_n_n_wf

abbrev win0_0 : Pipeline.Window sig grid0 :=
  Pipeline.Window.ofSpec (Memref.whole main_v0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg9) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win2_0 : Pipeline.Window sig grid2 :=
  Pipeline.Window.ofSpec (Memref.whole main_v15) S1x50x8x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S8192x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1x8x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg5) S50x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v16) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg7) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v17) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v21) S1024x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun _ => false | 7 => fun i => !(k2_cond3 i == 1#1) | ⟨_ + 8, h⟩ => absurd h (Nat.not_lt.2 (Nat.le_add_left _ _))

abbrev win4_0 : Pipeline.Window sig grid4 :=
  Pipeline.Window.ofSpec (Memref.whole main_v15) S1x50x8x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v24) S8192x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v8) S1x8x1024.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg5) S50x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v16) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg7) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v17) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v25) S1024x128.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev idle4 : Fin 8 → grid4.Coords → Bool := fun | 0 => fun _ => false | 1 => fun _ => false | 2 => fun _ => false | 3 => fun _ => false | 4 => fun _ => false | 5 => fun _ => false | 6 => fun _ => false | 7 => fun i => !(k4_cond3 i == 1#1) | ⟨_ + 8, h⟩ => absurd h (Nat.not_lt.2 (Nat.le_add_left _ _))

abbrev win6_0 : Pipeline.Window sig grid6 :=
  Pipeline.Window.ofSpec (Memref.whole main_v15) S1x50x8x1024.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v28) S8192x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v8) S1x8x1024.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_arg5) S50x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v16) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg7) S128x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v17) S1x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v29) S1024x128.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev idle6 : Fin 8 → grid6.Coords → Bool := fun | 0 => fun _ => false | 1 => fun _ => false | 2 => fun _ => false | 3 => fun _ => false | 4 => fun _ => false | 5 => fun _ => false | 6 => fun _ => false | 7 => fun i => !(k6_cond3 i == 1#1) | ⟨_ + 8, h⟩ => absurd h (Nat.not_lt.2 (Nat.le_add_left _ _))

abbrev win8_0 : Pipeline.Window sig grid8 :=
  Pipeline.Window.ofSpec (Memref.whole main_v15) S1x50x8x1024.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v32) S8192x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v8) S1x8x1024.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_arg5) S50x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v16) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_arg7) S128x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v17) S1x128.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v33) S1024x128.size cc8_transform_7 reads8_7 true false 2 stage8_7 sem8_7
    hrank8 hreads8_7 hinb8_7 nbuf8_7 (Memref.isWhole_whole _) hwx8_7 hstage8_7

abbrev win8 : Fin 8 → Pipeline.Window sig grid8 := fun | 0 => win8_0 | 1 => win8_1 | 2 => win8_2 | 3 => win8_3 | 4 => win8_4 | 5 => win8_5 | 6 => win8_6 | 7 => win8_7 | ⟨_ + 8, h⟩ => absurd h (Nat.not_lt.2 (Nat.le_add_left _ _))
abbrev spec8 : Fin 8 → Pipeline.WinSpec sig grid8.rank := fun w => (win8 w).toWinSpec

abbrev idle8 : Fin 8 → grid8.Coords → Bool := fun | 0 => fun _ => false | 1 => fun _ => false | 2 => fun _ => false | 3 => fun _ => false | 4 => fun _ => false | 5 => fun _ => false | 6 => fun _ => false | 7 => fun i => !(k8_cond3 i == 1#1) | ⟨_ + 8, h⟩ => absurd h (Nat.not_lt.2 (Nat.le_add_left _ _))

abbrev win9_0 : Pipeline.Window sig grid9 :=
  Pipeline.Window.ofSpec (Memref.whole main_arg10) S128x128.size cc9_transform_0 reads9_0 false true 1 stage9_0 sem9_0
    hrank9 hreads9_0 hinb9_0 nbuf9_0 (Memref.isWhole_whole _) hwx9_0 hstage9_0

abbrev win9_1 : Pipeline.Window sig grid9 :=
  Pipeline.Window.ofSpec (Memref.whole main_v34) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_arg12) S128x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v35) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v21) S1024x128.size cc9_transform_4 reads9_4 false false 2 stage9_4 sem9_4
    hrank9 hreads9_4 hinb9_4 nbuf9_4 (Memref.isWhole_whole _) hwx9_4 hstage9_4

abbrev win9_5 : Pipeline.Window sig grid9 :=
  Pipeline.Window.ofSpec (Memref.whole main_v25) S1024x128.size cc9_transform_5 reads9_5 false false 2 stage9_5 sem9_5
    hrank9 hreads9_5 hinb9_5 nbuf9_5 (Memref.isWhole_whole _) hwx9_5 hstage9_5

abbrev win9_6 : Pipeline.Window sig grid9 :=
  Pipeline.Window.ofSpec (Memref.whole main_v29) S1024x128.size cc9_transform_6 reads9_6 false false 2 stage9_6 sem9_6
    hrank9 hreads9_6 hinb9_6 nbuf9_6 (Memref.isWhole_whole _) hwx9_6 hstage9_6

abbrev win9_7 : Pipeline.Window sig grid9 :=
  Pipeline.Window.ofSpec (Memref.whole main_v33) S1024x128.size cc9_transform_7 reads9_7 false false 2 stage9_7 sem9_7
    hrank9 hreads9_7 hinb9_7 nbuf9_7 (Memref.isWhole_whole _) hwx9_7 hstage9_7

abbrev win9_8 : Pipeline.Window sig grid9 :=
  Pipeline.Window.ofSpec (Memref.whole main_v36) S1024x128.size cc9_transform_8 reads9_8 true false 2 stage9_8 sem9_8
    hrank9 hreads9_8 hinb9_8 nbuf9_8 (Memref.isWhole_whole _) hwx9_8 hstage9_8

abbrev win9 : Fin 9 → Pipeline.Window sig grid9 := fun | 0 => win9_0 | 1 => win9_1 | 2 => win9_2 | 3 => win9_3 | 4 => win9_4 | 5 => win9_5 | 6 => win9_6 | 7 => win9_7 | 8 => win9_8 | ⟨_ + 9, h⟩ => absurd h (Nat.not_lt.2 (Nat.le_add_left _ _))
abbrev spec9 : Fin 9 → Pipeline.WinSpec sig grid9.rank := fun w => (win9 w).toWinSpec

class Facts : Prop extends Facts₀ where

variable [Facts]
-- ==== ReferenceIdeal.lean ====
abbrev S8x1024x128 : Shape := ⟨3, ![8, 1024, 128]⟩
abbrev S8x1024x64 : Shape := ⟨3, ![8, 1024, 64]⟩
abbrev S8x1024x64x50 : Shape := ⟨4, ![8, 1024, 64, 50]⟩
abbrev S50x128 : Shape := ⟨2, ![50, 128]⟩
abbrev S128 : Shape := ⟨1, ![128]⟩
abbrev S128x128 : Shape := ⟨2, ![128, 128]⟩
abbrev S8x1024x64x128 : Shape := ⟨4, ![8, 1024, 64, 128]⟩
abbrev S1x1x1x128 : Shape := ⟨4, ![1, 1, 1, 128]⟩
abbrev S_ : Shape := ⟨0, ![]⟩
abbrev S8x1024x64x1 : Shape := ⟨4, ![8, 1024, 64, 1]⟩
abbrev S8x65536 : Shape := ⟨2, ![8, 65536]⟩
abbrev S8x65536x1 : Shape := ⟨3, ![8, 65536, 1]⟩
abbrev S1 : Shape := ⟨1, ![1]⟩
abbrev S1x1x1 : Shape := ⟨3, ![1, 1, 1]⟩
abbrev S8x65536x128 : Shape := ⟨3, ![8, 65536, 128]⟩
abbrev S1x1x128 : Shape := ⟨3, ![1, 1, 128]⟩

abbrev nBuf : Space → Nat
  | .hbm => 107
  | .vmem => 0
  | .smem => 0
  | _ => 0

abbrev bufTy : (tb : Table) → Fin (tcTables nBuf tb) → BufTy
  | .hbm, ⟨0, _⟩ => ⟨S8x1024x128, .f32⟩
  | .hbm, ⟨1, _⟩ => ⟨S8x1024x64, .f32⟩
  | .hbm, ⟨2, _⟩ => ⟨S8x1024x64, .i32⟩
  | .hbm, ⟨3, _⟩ => ⟨S8x1024x64, .f32⟩
  | .hbm, ⟨4, _⟩ => ⟨S8x1024x64x50, .f32⟩
  | .hbm, ⟨5, _⟩ => ⟨S50x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S8x1024x64x128, .f32⟩
  | .hbm, ⟨15, _⟩ => ⟨S1x1x1x128, .f32⟩
  | .hbm, ⟨16, _⟩ => ⟨S8x1024x64x128, .f32⟩
  | .hbm, ⟨17, _⟩ => ⟨S8x1024x64x128, .f32⟩
  | .hbm, ⟨18, _⟩ => ⟨S_, .f32⟩
  | .hbm, ⟨19, _⟩ => ⟨S8x1024x64x128, .f32⟩
  | .hbm, ⟨20, _⟩ => ⟨S8x1024x64x128, .f32⟩
  | .hbm, ⟨21, _⟩ => ⟨S8x1024x64x128, .f32⟩
  | .hbm, ⟨22, _⟩ => ⟨S8x1024x64x128, .f32⟩
  | .hbm, ⟨23, _⟩ => ⟨S8x1024x64x128, .i1⟩
  | .hbm, ⟨24, _⟩ => ⟨S8x1024x64x128, .f32⟩
  | .hbm, ⟨25, _⟩ => ⟨S8x1024x64x128, .f32⟩
  | .hbm, ⟨26, _⟩ => ⟨S8x1024x64x128, .f32⟩
  | .hbm, ⟨27, _⟩ => ⟨S8x1024x64x128, .f32⟩
  | .hbm, ⟨28, _⟩ => ⟨S8x1024x64x128, .f32⟩
  | .hbm, ⟨29, _⟩ => ⟨S8x1024x64x128, .f32⟩
  | .hbm, ⟨30, _⟩ => ⟨S8x1024x64x128, .f32⟩
  | .hbm, ⟨31, _⟩ => ⟨S8x1024x64x128, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S8x1024x64x128, .f32⟩
  | .hbm, ⟨36, _⟩ => ⟨S8x1024x64x128, .f32⟩
  | .hbm, ⟨37, _⟩ => ⟨S8x1024x64x128, .f32⟩
  | .hbm, ⟨38, _⟩ => ⟨S1x1x1x128, .f32⟩
  | .hbm, ⟨39, _⟩ => ⟨S8x1024x64x128, .f32⟩
  | .hbm, ⟨40, _⟩ => ⟨S8x1024x64x128, .f32⟩
  | .hbm, ⟨41, _⟩ => ⟨S_, .f32⟩
  | .hbm, ⟨42, _⟩ => ⟨S8x1024x64, .f32⟩
  | .hbm, ⟨43, _⟩ => ⟨S8x1024x64, .i1⟩
  | .hbm, ⟨44, _⟩ => ⟨S8x1024x64, .f32⟩
  | .hbm, ⟨45, _⟩ => ⟨S8x1024x64x1, .f32⟩
  | .hbm, ⟨46, _⟩ => ⟨S8x1024x64x128, .f32⟩
  | .hbm, ⟨47, _⟩ => ⟨S8x1024x64x128, .f32⟩
  | .hbm, ⟨48, _⟩ => ⟨S8x1024x128, .f32⟩
  | .hbm, ⟨49, _⟩ => ⟨S8x65536, .i32⟩
  | .hbm, ⟨50, _⟩ => ⟨S8x65536x1, .i32⟩
  | .hbm, ⟨51, _⟩ => ⟨S_, .i32⟩
  | .hbm, ⟨52, _⟩ => ⟨S8x65536x1, .i32⟩
  | .hbm, ⟨53, _⟩ => ⟨S8x65536x1, .i1⟩
  | .hbm, ⟨54, _⟩ => ⟨S_, .i32⟩
  | .hbm, ⟨55, _⟩ => ⟨S8x65536x1, .i32⟩
  | .hbm, ⟨56, _⟩ => ⟨S8x65536x1, .i32⟩
  | .hbm, ⟨57, _⟩ => ⟨S8x65536x1, .i32⟩
  | .hbm, ⟨58, _⟩ => ⟨S1, .i32⟩
  | .hbm, ⟨59, _⟩ => ⟨S_, .i32⟩
  | .hbm, ⟨60, _⟩ => ⟨S8x65536x1, .i32⟩
  | .hbm, ⟨61, _⟩ => ⟨S8x65536x1, .i1⟩
  | .hbm, ⟨62, _⟩ => ⟨S1x1x1, .i32⟩
  | .hbm, ⟨63, _⟩ => ⟨S8x65536x1, .i32⟩
  | .hbm, ⟨64, _⟩ => ⟨S8x65536x1, .i1⟩
  | .hbm, ⟨65, _⟩ => ⟨S8x65536x1, .i1⟩
  | .hbm, ⟨66, _⟩ => ⟨S_, .i1⟩
  | .hbm, ⟨67, _⟩ => ⟨S8x65536, .i1⟩
  | .hbm, ⟨68, _⟩ => ⟨S8x65536x128, .f32⟩
  | .hbm, ⟨69, _⟩ => ⟨S8x65536x128, .i1⟩
  | .hbm, ⟨70, _⟩ => ⟨S_, .f32⟩
  | .hbm, ⟨71, _⟩ => ⟨S8x65536x128, .f32⟩
  | .hbm, ⟨72, _⟩ => ⟨S8x65536x128, .f32⟩
  | .hbm, ⟨73, _⟩ => ⟨S8x1024x64x128, .f32⟩
  | .hbm, ⟨74, _⟩ => ⟨S8x1024x64x128, .f32⟩
  | .hbm, ⟨75, _⟩ => ⟨S8x1024x64x1, .f32⟩
  | .hbm, ⟨76, _⟩ => ⟨S8x1024x64x128, .f32⟩
  | .hbm, ⟨77, _⟩ => ⟨S8x1024x64x128, .f32⟩
  | .hbm, ⟨78, _⟩ => ⟨S_, .f32⟩
  | .hbm, ⟨79, _⟩ => ⟨S8x1024x128, .f32⟩
  | .hbm, ⟨80, _⟩ => ⟨S8x1024x128, .f32⟩
  | .hbm, ⟨81, _⟩ => ⟨S1x1x128, .f32⟩
  | .hbm, ⟨82, _⟩ => ⟨S8x1024x128, .f32⟩
  | .hbm, ⟨83, _⟩ => ⟨S8x1024x128, .f32⟩
  | .hbm, ⟨84, _⟩ => ⟨S_, .f32⟩
  | .hbm, ⟨85, _⟩ => ⟨S8x1024x128, .f32⟩
  | .hbm, ⟨86, _⟩ => ⟨S8x1024x128, .f32⟩
  | .hbm, ⟨87, _⟩ => ⟨S8x1024x128, .f32⟩
  | .hbm, ⟨88, _⟩ => ⟨S8x1024x128, .f32⟩
  | .hbm, ⟨89, _⟩ => ⟨S8x1024x128, .i1⟩
  | .hbm, ⟨90, _⟩ => ⟨S8x1024x128, .f32⟩
  | .hbm, ⟨91, _⟩ => ⟨S8x1024x128, .f32⟩
  | .hbm, ⟨92, _⟩ => ⟨S8x1024x128, .f32⟩
  | .hbm, ⟨93, _⟩ => ⟨S8x1024x128, .f32⟩
  | .hbm, ⟨94, _⟩ => ⟨S8x1024x128, .f32⟩
  | .hbm, ⟨95, _⟩ => ⟨S8x1024x128, .f32⟩
  | .hbm, ⟨96, _⟩ => ⟨S8x1024x128, .f32⟩
  | .hbm, ⟨97, _⟩ => ⟨S8x1024x128, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S8x1024x128, .f32⟩
  | .hbm, ⟨102, _⟩ => ⟨S8x1024x128, .f32⟩
  | .hbm, ⟨103, _⟩ => ⟨S8x1024x128, .f32⟩
  | .hbm, ⟨104, _⟩ => ⟨S1x1x128, .f32⟩
  | .hbm, ⟨105, _⟩ => ⟨S8x1024x128, .f32⟩
  | .hbm, ⟨106, _⟩ => ⟨S8x1024x128, .f32⟩
  | _, _ => ⟨S8x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_1 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_call0_c : Ref sig .tc := ⟨.hbm, 51, rfl⟩
abbrev main_call0_v0 : Ref sig .tc := ⟨.hbm, 52, rfl⟩
abbrev main_call0_v1 : Ref sig .tc := ⟨.hbm, 53, rfl⟩
abbrev main_call0_c_0 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_c_1 : Ref sig .tc := ⟨.hbm, 58, rfl⟩
abbrev main_call0_c_2 : Ref sig .tc := ⟨.hbm, 59, rfl⟩
abbrev main_call0_v5 : Ref sig .tc := ⟨.hbm, 60, rfl⟩
abbrev main_call0_v6 : Ref sig .tc := ⟨.hbm, 61, rfl⟩
abbrev main_call0_v7 : Ref sig .tc := ⟨.hbm, 62, rfl⟩
abbrev main_call0_v8 : Ref sig .tc := ⟨.hbm, 63, rfl⟩
abbrev main_call0_v9 : Ref sig .tc := ⟨.hbm, 64, rfl⟩
abbrev main_call0_v10 : Ref sig .tc := ⟨.hbm, 65, rfl⟩
abbrev main_call0_c_3 : Ref sig .tc := ⟨.hbm, 66, rfl⟩
abbrev main_call0_v11 : Ref sig .tc := ⟨.hbm, 67, rfl⟩
abbrev main_call0_v12 : Ref sig .tc := ⟨.hbm, 68, rfl⟩
abbrev main_call0_v13 : Ref sig .tc := ⟨.hbm, 69, rfl⟩
abbrev main_call0_cst : Ref sig .tc := ⟨.hbm, 70, rfl⟩
abbrev main_call0_v14 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_cst_2 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_cst_3 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_cst_4 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩

abbrev nD : Nat := 1
abbrev τ : Topo := Topo.v7x

variable {F : FTy → Type} [FloatOps F]

class Facts₀ : Prop where
  bcast_S128_S1x1x1x128_3 : S128.BroadcastsInDim S1x1x1x128 (![3] : Fin 1 → Fin S1x1x1x128.rank)
  bcast_S1x1x1x128_S8x1024x64x128_0_1_2_3 : S1x1x1x128.BroadcastsInDim S8x1024x64x128 (![0, 1, 2, 3] : Fin 4 → Fin S8x1024x64x128.rank)
  bcast_S_S8x1024x64x128 : S_.BroadcastsInDim S8x1024x64x128 (![] : Fin 0 → Fin S8x1024x64x128.rank)
  bcast_S_S8x1024x64 : S_.BroadcastsInDim S8x1024x64 (![] : Fin 0 → Fin S8x1024x64.rank)
  bcast_S8x1024x64_S8x1024x64x1_0_1_2 : S8x1024x64.BroadcastsInDim S8x1024x64x1 (![0, 1, 2] : Fin 3 → Fin S8x1024x64x1.rank)
  bcast_S8x1024x64x1_S8x1024x64x128_0_1_2_3 : S8x1024x64x1.BroadcastsInDim S8x1024x64x128 (![0, 1, 2, 3] : Fin 4 → Fin S8x1024x64x128.rank)
  shapeCasts_S8x1024x64_S8x65536 : S8x1024x64.ShapeCasts S8x65536
  bcast_S8x65536_S8x65536x1_0_1 : S8x65536.BroadcastsInDim S8x65536x1 (![0, 1] : Fin 2 → Fin S8x65536x1.rank)
  bcast_S_S8x65536x1 : S_.BroadcastsInDim S8x65536x1 (![] : Fin 0 → Fin S8x65536x1.rank)
  bcast_S1_S1x1x1_2 : S1.BroadcastsInDim S1x1x1 (![2] : Fin 1 → Fin S1x1x1.rank)
  bcast_S1x1x1_S8x65536x1_0_1_2 : S1x1x1.BroadcastsInDim S8x65536x1 (![0, 1, 2] : Fin 3 → Fin S8x65536x1.rank)
  reducesTo_S8x65536x1_S8x65536_d2 : S8x65536x1.ReducesTo [2] S8x65536
  h_S_ : 0 < S_.numel
  bcast_S8x65536_S8x65536x128_0_1 : S8x65536.BroadcastsInDim S8x65536x128 (![0, 1] : Fin 2 → Fin S8x65536x128.rank)
  bcast_S_S8x65536x128 : S_.BroadcastsInDim S8x65536x128 (![] : Fin 0 → Fin S8x65536x128.rank)
  shapeCasts_S8x65536x128_S8x1024x64x128 : S8x65536x128.ShapeCasts S8x1024x64x128
  reducesTo_S8x1024x64x128_S8x1024x128_d2 : S8x1024x64x128.ReducesTo [2] S8x1024x128
  bcast_S128_S1x1x128_2 : S128.BroadcastsInDim S1x1x128 (![2] : Fin 1 → Fin S1x1x128.rank)
  bcast_S1x1x128_S8x1024x128_0_1_2 : S1x1x128.BroadcastsInDim S8x1024x128 (![0, 1, 2] : Fin 3 → Fin S8x1024x128.rank)
  bcast_S_S8x1024x128 : S_.BroadcastsInDim S8x1024x128 (![] : Fin 0 → Fin S8x1024x128.rank)
  dot_S8x1024x64x50_S50x128_S8x1024x64x128_3_0_012_1_n_n_wf : DotDims.WF S8x1024x64x50 S50x128 S8x1024x64x128 [3] [0] [0, 1, 2] [1] [] []
  dot_S8x1024x64x128_S128x128_S8x1024x64x128_3_0_012_1_n_n_wf : DotDims.WF S8x1024x64x128 S128x128 S8x1024x64x128 [3] [0] [0, 1, 2] [1] [] []
  dot_S8x1024x128_S128x128_S8x1024x128_2_0_01_1_n_n_wf : DotDims.WF S8x1024x128 S128x128 S8x1024x128 [2] [0] [0, 1] [1] [] []
  gather_S8x1024x128_S8x65536x1_S8x65536x128_2_1_0_0_1_2_11128_wf : GatherDims.WF S8x1024x128 S8x65536x1 S8x65536x128 [2] [1] [0] [1] [0] 2 ![1, 1, 128]

variable [Facts₀]

def dot_S8x1024x64x50_S50x128_S8x1024x64x128_3_0_012_1_n_n : DotDims S8x1024x64x50 S50x128 S8x1024x64x128 where
  lhsContracting := [3]
  rhsContracting := [0]
  lhsNonContracting := [0, 1, 2]
  rhsNonContracting := [1]
  lhsBatch := []
  rhsBatch := []
  wf := dot_S8x1024x64x50_S50x128_S8x1024x64x128_3_0_012_1_n_n_wf
def dot_S8x1024x64x128_S128x128_S8x1024x64x128_3_0_012_1_n_n : DotDims S8x1024x64x128 S128x128 S8x1024x64x128 where
  lhsContracting := [3]
  rhsContracting := [0]
  lhsNonContracting := [0, 1, 2]
  rhsNonContracting := [1]
  lhsBatch := []
  rhsBatch := []
  wf := dot_S8x1024x64x128_S128x128_S8x1024x64x128_3_0_012_1_n_n_wf
def dot_S8x1024x128_S128x128_S8x1024x128_2_0_01_1_n_n : DotDims S8x1024x128 S128x128 S8x1024x128 where
  lhsContracting := [2]
  rhsContracting := [0]
  lhsNonContracting := [0, 1]
  rhsNonContracting := [1]
  lhsBatch := []
  rhsBatch := []
  wf := dot_S8x1024x128_S128x128_S8x1024x128_2_0_01_1_n_n_wf
def gather_S8x1024x128_S8x65536x1_S8x65536x128_2_1_0_0_1_2_11128 : GatherDims S8x1024x128 S8x65536x1 S8x65536x128 where
  offsetDims := [2]
  collapsedSliceDims := [1]
  operandBatchingDims := [0]
  startIndicesBatchingDims := [0]
  startIndexMap := [1]
  indexVectorDim := 2
  sliceSizes := ![1, 1, 128]
  wf := gather_S8x1024x128_S8x65536x1_S8x65536x128_2_1_0_0_1_2_11128_wf

class Facts : Prop extends Facts₀ where

variable [Facts]
-- ==== Proof.ScConfig.lean ====
/-
  The kernel program as the sparse-core launch theorem reads it: four calls, each a vector-subcore kernel on
  2 sparse cores × 16 tiles, over the body table of the six tensor-core regions. Stated for any float instance,
  so that the word-level program and the one over the extended reals are read the same way.

  The launch needs seven facts of the program's signature: the sequencer's two handshake cells are two, none of the
  four launch semaphores is scoped, no sparse core has a buffer of its own that is reassigned per task, and no call has
  a second body for the sequencer. Each is a finite check on the printed signature.
-/
import proofs.«215235_g2774548873965_cont_9to1_572_34_alg».proof.KernelIdeal
import proofs.«215235_g2774548873965_cont_9to1_572_34_alg».proof.Proof.Gen.KernelIdeal
import Idealize.ShloMosaic.Lib.SparseCore.Launch

noncomputable section

namespace Cert.KernelIdeal.Sc

open Cert.KernelIdeal Idealize.ShloMosaic Idealize.SL.Sem

variable {F : FTy → Type}

/-- The labels of the six tensor-core regions' bodies and pipelines. -/
abbrev ΛP : Labels := Pipeline.Sig Λ₀ (Fin 6) fun p => (pcfgs (F := F) p).Adm

/-- The four sparse-core calls. -/
abbrev K : SparseCore.Cfg τ sig (ΛP (F := F)) 4 := sc (F := F)

/-- The body table the sparse-core calls extend. -/
abbrev D [FloatOps F] : Defs nD τ sig (Elt F) (ΛP (F := F)) := Pipeline.defs pcfgs defs₀

theorem nCore_eq (q : Fin 4) : (K (F := F)).nCore q = 2 := by
  match q with | 0 => rfl | 1 => rfl | 2 => rfl | 3 => rfl

theorem nSub_eq (q : Fin 4) : (K (F := F)).nSub q = 16 := by
  match q with | 0 => rfl | 1 => rfl | 2 => rfl | 3 => rfl

theorem kind_eq (q : Fin 4) : (K (F := F)).kind q = Kind.scVector := by
  match q with | 0 => rfl | 1 => rfl | 2 => rfl | 3 => rfl

theorem facts : (K (F := F)).Facts where
  start_ne_taskDone := show sc_start ≠ sc_taskDone by decide
  start_unscoped := show (SemLoc.reg sc_start : SemLoc sig).isScoped .scScalar = false by decide
  taskDone_unscoped := show (SemLoc.reg sc_taskDone : SemLoc sig).isScoped .scScalar = false by decide
  go_unscoped := show (SemLoc.reg sc_go : SemLoc sig).isScoped .scVector = false by decide
  done_unscoped := show (SemLoc.reg sc_done : SemLoc sig).isScoped .tc = false by decide
  noTaskShared := show ∀ (b : DevRef τ sig) (c : Fin τ.nSC), b.owner = .sc c → sig.taskShared b.table b.idx = false by decide
  noSeq := fun _ => rfl

end Cert.KernelIdeal.Sc

end
-- ==== Proof.ScPay.lean ====
/-
  What the four sparse-core calls are handed and hand back.

  Call q (q = 0..3) reads the flat array y of 8192 rows, an index array of shape [32, 32, 128] and writes an output
  array of 131072 rows. Tile (c, i) of sparse core c is the w-th of 32 workers, w = 2·i + c: it reads slab w of the
  index array (32 lists of 128 row numbers), any row of y, and writes rows 4096·w … 4096·w + 4095 of the output.
  So a tile is handed: a 1/32 share of y (at contents not named: a frame needs none), its slab WITH the fact that every
  entry is a row number below 8192 (an entry out of range would leave the indexed copy, and its wait, without a step),
  and its 4096 output rows. It hands the same back, the output rows at whatever it wrote. What a core is handed is
  the product of its sixteen tiles' shares, so that splitting a core's share among its tiles is the identity, and the
  cutting of the three whole arrays into 32 pieces is done once, where @main meets the call.

  The ghost state has three parts side by side: the rounds of the six regions' staging cells, the rounds of the
  calls' four handshake cells, and the transfers' counters.
-/
import proofs.«215235_g2774548873965_cont_9to1_572_34_alg».proof.Proof.ScConfig
import Idealize.ShloMosaic.Lib.SparseCore.Launch
import Idealize.ShloMosaic.Lib.Transfers
import Idealize.ShloMosaic.Lib.Pipeline.Kit

noncomputable section

namespace Cert.KernelIdeal.Sc

open Cert.KernelIdeal
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The ghost state -/

/-- The handshake cells' rounds. -/
abbrev UH : Type := URounds (GSem nD τ sig) ℕ
/-- The regions' staging cells' rounds. -/
abbrev UP : Type := UR sig nD τ
abbrev UU : Type := UP × (UH × Counters)

local notation "𝕄" => MT nD τ sig (HIx 4) (Elt F) ℕ UU ℕ

/-- The staging cells' rounds sit on the left, -/
abbrev EP : Emb UP (MT nD τ sig (HIx 4) (Elt F) ℕ UU ℕ) := embL
/-- the handshakes' on the left of the right half. -/
abbrev EH : Emb UH (MT nD τ sig (HIx 4) (Elt F) ℕ UU ℕ) := (Emb.inl : Emb UH (UH × Counters)).trans embR

/-! ## The 32 workers, their slabs, their rows, their shares of y -/

/-- Worker number of tile i of core c: subcore-major, as the kernel computes it. -/
def wid (c : Fin 2) (i : Fin 16) : Fin 32 := ⟨i.val * 2 + c.val, by omega⟩

theorem wid_injective : Function.Injective fun p : Fin 2 × Fin 16 => wid p.1 p.2 := by
  rintro ⟨c, i⟩ ⟨c', i'⟩ h
  have := congrArg Fin.val h
  simp only [wid] at this
  ext <;> simp only <;> omega

theorem slabDiv : 32 ∣ S32x32x128.size 0 := ⟨1, rfl⟩
theorem rowsDiv : 32 ∣ S131072x128.size 0 := ⟨4096, rfl⟩

/-- Slab w of the index array: its w-th [32, 128] plane. -/
abbrev slabRect (w : Fin 32) : Rect S32x32x128 := Rect.part (s := S32x32x128) (a₀ := 0) slabDiv w
/-- Worker w's 4096 rows of the output. -/
abbrev rowsRect (w : Fin 32) : Rect S131072x128 := Rect.part (s := S131072x128) (a₀ := 0) rowsDiv w

/-- A share halved n times: the k-th of 2^n equal parts, read off k's binary digits from the top. -/
def shareAt : (n : ℕ) → PosShare TreeShare → Fin (2 ^ n) → PosShare TreeShare
  | 0, q, _ => q
  | n + 1, q, k => if h : k.val < 2 ^ n then shareAt n q.left ⟨k.val, h⟩ else shareAt n q.right ⟨k.val - 2 ^ n, by have h1 := k.isLt; have h2 : 2 ^ (n + 1) = 2 ^ n * 2 := pow_succ 2 n; omega⟩

/-- Worker w's share of y. -/
abbrev ysh (w : Fin 32) : PosShare TreeShare := shareAt 5 fullShare w

abbrev yLoc (d : Dev nD) : Loc nD τ sig := (SparseCore.T d).loc main_v1

/-! ## One tile's share, per call -/

abbrev ixLoc0 (d : Dev nD) : Loc nD τ sig := (SparseCore.T d).loc main_v19
abbrev oLoc0 (d : Dev nD) : Loc nD τ sig := (SparseCore.T d).loc main_v20
/-- What worker w of call 0 holds: its share of y, its slab with every entry a row number of y, its output rows. -/
def share0 (d : Dev nD) (w : Fin 32) : sProp 𝕄 :=
  iprop((∃ fy, yLoc d ↦{ysh w} fy)
    ∗ (∃ fi, (ixLoc0 d ↦[(slabRect w).set]{fullShare} fi) ∗ ⌜∀ j ∈ (slabRect w).set, (fi j).toNat < 8192⌝)
    ∗ ∃ fo, oLoc0 d ↦[(rowsRect w).set]{fullShare} fo)

abbrev ixLoc1 (d : Dev nD) : Loc nD τ sig := (SparseCore.T d).loc main_v23
abbrev oLoc1 (d : Dev nD) : Loc nD τ sig := (SparseCore.T d).loc main_v24
/-- What worker w of call 1 holds: its share of y, its slab with every entry a row number of y, its output rows. -/
def share1 (d : Dev nD) (w : Fin 32) : sProp 𝕄 :=
  iprop((∃ fy, yLoc d ↦{ysh w} fy)
    ∗ (∃ fi, (ixLoc1 d ↦[(slabRect w).set]{fullShare} fi) ∗ ⌜∀ j ∈ (slabRect w).set, (fi j).toNat < 8192⌝)
    ∗ ∃ fo, oLoc1 d ↦[(rowsRect w).set]{fullShare} fo)

abbrev ixLoc2 (d : Dev nD) : Loc nD τ sig := (SparseCore.T d).loc main_v27
abbrev oLoc2 (d : Dev nD) : Loc nD τ sig := (SparseCore.T d).loc main_v28
/-- What worker w of call 2 holds: its share of y, its slab with every entry a row number of y, its output rows. -/
def share2 (d : Dev nD) (w : Fin 32) : sProp 𝕄 :=
  iprop((∃ fy, yLoc d ↦{ysh w} fy)
    ∗ (∃ fi, (ixLoc2 d ↦[(slabRect w).set]{fullShare} fi) ∗ ⌜∀ j ∈ (slabRect w).set, (fi j).toNat < 8192⌝)
    ∗ ∃ fo, oLoc2 d ↦[(rowsRect w).set]{fullShare} fo)

abbrev ixLoc3 (d : Dev nD) : Loc nD τ sig := (SparseCore.T d).loc main_v31
abbrev oLoc3 (d : Dev nD) : Loc nD τ sig := (SparseCore.T d).loc main_v32
/-- What worker w of call 3 holds: its share of y, its slab with every entry a row number of y, its output rows. -/
def share3 (d : Dev nD) (w : Fin 32) : sProp 𝕄 :=
  iprop((∃ fy, yLoc d ↦{ysh w} fy)
    ∗ (∃ fi, (ixLoc3 d ↦[(slabRect w).set]{fullShare} fi) ∗ ⌜∀ j ∈ (slabRect w).set, (fi j).toNat < 8192⌝)
    ∗ ∃ fo, oLoc3 d ↦[(rowsRect w).set]{fullShare} fo)

/-- The same, by call. -/
def share : Fin 4 → Dev nD → Fin 32 → sProp 𝕄
  | 0 => share0 (F := F) | 1 => share1 (F := F) | 2 => share2 (F := F) | 3 => share3 (F := F)

/-- Tile i of core c, with the launch's own index types brought to 2 and 16. -/
def tileShare (q : Fin 4) (d : Dev nD) (c : Fin ((K (F := F)).nCore q)) (i : Fin ((K (F := F)).nSub q)) : sProp 𝕄 :=
  share (F := F) q d (wid (Fin.cast (nCore_eq q) c) (Fin.cast (nSub_eq q) i))

/-- The calls' payload: a core holds its tiles' shares, a tile its own, before and after alike. -/
def P : (K (F := F)).Pay (nD := nD) (Val := Elt F) (Name := ℕ) (U := UU) where
  st := fun q d c => bigSep Finset.univ fun i => tileShare (F := F) q d c i
  dn := fun q d c => bigSep Finset.univ fun i => tileShare (F := F) q d c i
  go := fun q d c i => tileShare (F := F) q d c i
  td := fun q d c i => tileShare (F := F) q d c i
  x := fun _ _ => iprop(emp)

end Cert.KernelIdeal.Sc

end
-- ==== Proof.ScLaunch.lean ====
/-
  The kernel program's run, reduced to three obligations by the sparse-core launch theorem.

  Every thread of the device — the tensor core running @main, the two sequencers, the 32 tiles — is covered by the
  launch theorem once it is given: (1) for each of the four calls, the proof of one tile's task from its share to its
  share (the same shape before and after: see the payload); (2) the proof of @main on the tensor core, which meets each
  call by handing over the 2 × 16 shares and taking them back, and each of the six regions and each host operation in
  between; (3) how the tensor core's final assertion reads the claim off the final memory.
  How a core's share splits among its tiles is the identity (a core's share IS the product of its tiles'), no call runs
  on a sequencer alone, and the launch element of the ghost state is the initial rounds of the regions' staging cells,
  the handshakes' initial rounds and the counters' unit: the calls' own protocols need no cells of their own, every
  tile working alone. The staging cells' part is dealt to each device's tensor core, region by region (G).
-/
import proofs.«215235_g2774548873965_cont_9to1_572_34_alg».proof.Proof.ScPay
import proofs.«215235_g2774548873965_cont_9to1_572_34_alg».proof.Proof.Gen.KernelIdeal.Launch

noncomputable section

namespace Cert.KernelIdeal.Sc

open Cert.KernelIdeal
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

abbrev 𝒱₀ : Variants := Variants.none
abbrev 𝒱 : Variants := 𝒱₀.lift
abbrev v₀ : 𝒱.V := Sum.inl none

/-! ## The payload can be stored in a handshake -/

set_option synthInstance.maxHeartbeats 400000 in
instance share0_storable (d : Dev nD) (w : Fin 32) : BI.Storable (upEmb : UEmb _ 𝕄) (share0 (F := F) d w) := by
  unfold share0; infer_instance
set_option synthInstance.maxHeartbeats 400000 in
instance share1_storable (d : Dev nD) (w : Fin 32) : BI.Storable (upEmb : UEmb _ 𝕄) (share1 (F := F) d w) := by
  unfold share1; infer_instance
set_option synthInstance.maxHeartbeats 400000 in
instance share2_storable (d : Dev nD) (w : Fin 32) : BI.Storable (upEmb : UEmb _ 𝕄) (share2 (F := F) d w) := by
  unfold share2; infer_instance
set_option synthInstance.maxHeartbeats 400000 in
instance share3_storable (d : Dev nD) (w : Fin 32) : BI.Storable (upEmb : UEmb _ 𝕄) (share3 (F := F) d w) := by
  unfold share3; infer_instance

instance share_storable (q : Fin 4) (d : Dev nD) (w : Fin 32) : BI.Storable (upEmb : UEmb _ 𝕄) (share (F := F) q d w) := by
  match q with
  | 0 => show BI.Storable _ (share0 (F := F) d w); infer_instance
  | 1 => show BI.Storable _ (share1 (F := F) d w); infer_instance
  | 2 => show BI.Storable _ (share2 (F := F) d w); infer_instance
  | 3 => show BI.Storable _ (share3 (F := F) d w); infer_instance

instance tileShare_storable (q : Fin 4) (d : Dev nD) (c : Fin ((K (F := F)).nCore q)) (i : Fin ((K (F := F)).nSub q)) :
    BI.Storable (upEmb : UEmb _ 𝕄) (tileShare (F := F) q d c i) := by
  unfold tileShare; infer_instance

instance P_storable : (P (F := F)).IsStorable where
  st q d c := by unfold P; dsimp only; infer_instance
  dn q d c := by unfold P; dsimp only; infer_instance
  go q d c i := by unfold P; dsimp only; infer_instance
  td q d c i := by unfold P; dsimp only; infer_instance

/-! ## A core's share among its tiles -/

theorem vecSplit (q : Fin 4) : (K (F := F)).VecSplit' (P (F := F)) q := by
  intro d c
  show (bigSep Finset.univ fun i => tileShare (F := F) q d c i)
    ⊢ |={Set.univ}=> iprop((bigSep Finset.univ fun i => tileShare (F := F) q d c i)
        ∗ ((bigSep Finset.univ fun i => tileShare (F := F) q d c i) -∗ bigSep Finset.univ fun i => tileShare (F := F) q d c i))
  iintro H
  imodintro
  isplitl [H]
  · iexact H
  · iintro H'; iexact H'

/-! ## The launch element -/

/-- A product of empty assertions is empty. -/
theorem bigSep_emp_eq {I : Type} (s : Finset I) : (bigSep s fun _ => iprop(emp)) = (iprop(emp) : sProp 𝕄) := bigSep_emp_const s

/-- What the tensor core of device d starts @main with beyond its buffers: for each of the six regions, its staging
    cells' ghost state and duty tokens, spent once at that region's entry. -/
abbrev G (d : Dev nD) : sProp 𝕄 :=
  bigSep Finset.univ fun p : Fin 6 => iprop(Pipeline.cellsGhost cfgs (EP (F := F)) p d ∗ Pipeline.toksInit cfgs (EP (F := F)) p d)

def u₀ : UU :=
  (initOf (Pipeline.cells (nD := nD) (τ := τ) cfgs Gen.cellOf_inj) (Pipeline.launchToks (nD := nD) (τ := τ) cfgs Gen.cellOf_inj),
    (initOf (K (F := F)).hsCells (K (F := F)).hsToks, 1))

theorem G_all : (bigSep Finset.univ fun d : Dev nD => G (F := F) d)
    = iprop((bigSep Finset.univ fun c : Dev nD => bigSep Finset.univ fun p : Fin 6 => Pipeline.cellsGhost cfgs (EP (F := F)) p c)
        ∗ (bigSep Finset.univ fun c : Dev nD => bigSep Finset.univ fun p : Fin 6 => (Pipeline.toksInit cfgs (EP (F := F)) p c : sProp 𝕄))) := by
  rw [← bigSep_sep']
  exact bigSep_congr fun d _ => bigSep_sep' _ _ _

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 4 => (P (F := F)).x q thr) := by
  unfold u₀
  iintro Hu
  ihave H := (ownU_pair (initOf (Pipeline.cells (nD := nD) (τ := τ) cfgs Gen.cellOf_inj) (Pipeline.launchToks (nD := nD) (τ := τ) cfgs Gen.cellOf_inj))
    ((initOf (K (F := F)).hsCells (K (F := F)).hsToks, (1 : Counters)) : UH × Counters)) $$ Hu
  icases H with ⟨HP, HR⟩
  ihave HR' := (own_pair_emb embR (initOf (K (F := F)).hsCells (K (F := F)).hsToks) (1 : Counters)) $$ HR
  icases HR' with ⟨HH, -⟩
  imod (Pipeline.fund_ghost cfgs (EP (F := F)) Gen.cellOf_inj) $$ HP with HG
  imodintro
  isplitl [HH]
  · iexact HH
  isplitl [HG]
  · rw [G_all]; iexact HG
  · rw [show (bigSep Finset.univ fun thr : Thread nD τ => bigSep Finset.univ fun q : Fin 4 => (P (F := F)).x q thr)
        = bigSep Finset.univ fun _ : Thread nD τ => (iprop(emp) : sProp 𝕄) from bigSep_congr fun _ _ => bigSep_emp_eq _, bigSep_emp_eq]
    iempintro

/-! ## The run, from the three obligations -/

variable [FloatOps F]

theorem run_of [∀ e, Nonempty (Elt F e)] (m : (ℓ : Loc nD τ sig) → Buf (Elt F) ℓ) (ρ : Dev nD → PrngReg)
    (FIN : Dev nD → sProp 𝕄) (fq : Dev nD → Phys nD τ sig (Elt F) → Prop) (Q' : PUnit × MemSt nD τ sig (Elt F) → Prop)
    (htile : ∀ q, (K (F := F)).TileObl (D (F := F)) 𝒱 (P (F := F)) v₀ q)
    (hmain : ∀ (κ : GSem nD τ sig → ℕ) (d : Dev nD),
      iprop((K (F := F)).ctx EH (P (F := F)) κ ∗ (K (F := F)).tcSt EH d 0 ∗ (K (F := F)).tcRes m ρ d ∗ G (F := F) d)
        ⊢ wp frame (wpE ((K (F := F)).defs (D (F := F))) 𝒱 (SparseCore.T d) none) Set.univ (main d)
            fun _ => iprop((K (F := F)).tcSt EH d 4 ∗ FIN d))
    (hfin : ∀ d s', iprop(FIN d ∗ SI s') ⊢ (⌜fq d s'⌝ : sProp 𝕄))
    (hQ : ∀ s', (∀ d, fq d s') → Q' (⟨⟩, s'.mem)) :
    θ_run (Cert.KernelIdeal.defs (F := F)) (Cert.KernelIdeal.threads (F := F)) ⟨m, fun _ => 0, ρ⟩ Q' :=
  SparseCore.Cfg.θ_run_sc (K := K (F := F)) (D := D (F := F)) (𝒱 := 𝒱) (EH := EH) (P := P (F := F)) facts v₀
    (fun q hq => absurd ((kind_eq q).symm.trans hq) (by decide))
    (fun q _ => htile q)
    (fun q _ => SparseCore.Cfg.VecSplit.of_plain (vecSplit q))
    m ρ main (fun d => G (F := F) d) FIN (u₀ (F := F)) (sep_elim_left.trans hu₀) hmain fq hfin Q' hQ

end Cert.KernelIdeal.Sc

end
-- ==== Proof.PreNbr.lean ====
/-
  The precondition's neighbour conjunct, decoded. The printed predicate `Cert.Pre_input_domain.fn` is one word: the
  conjunction, over all fourteen arguments, of "every entry of this array passes its test", each of them a reduction
  by `and` over the whole array into a rank-0 result. Its last conjunct tests the integer array of neighbour indices:
  every entry v satisfies 0 ≤ v and v ≤ 1023, both read as signed 32-bit integers. When the predicate is all ones,
  every entry of that array is therefore below 1024 as a natural number.
-/
import proofs.«215235_g2774548873965_cont_9to1_572_34_alg».proof.Pre_input_domain
import proofs.«215235_g2774548873965_cont_9to1_572_34_alg».proof.Proof.Gen.Pre_input_domain
import Idealize.ShloMosaic.Lib.ReduceAll
import Idealize.ShloMosaic.Lib.ValueIdx

noncomputable section

namespace Cert.PreNbr

open Idealize.ShloMosaic Cert.Pre_input_domain

/-- A rank-0 array has exactly one index: there is no axis to choose a coordinate on. -/
local instance : Subsingleton S_.Idx := ⟨fun a b => funext fun d => d.elim0⟩

/-- A 32-bit word v with 0 ≤ v and v ≤ 1023 as signed integers is below 1024 as a natural number: a nonnegative
    signed reading has the top bit clear, so the signed and unsigned readings are the same number. -/
theorem toNat_lt_of_signed_range (v : BitVec 32) (h0 : IntOp.cmpi .sge v 0#32 = 1#1)
    (h1 : IntOp.cmpi .sle v 1023#32 = 1#1) : v.toNat < 1024 := by
  rw [IntOp.cmpi_sge, show (0#32 : BitVec 32).toInt = 0 from by decide] at h0
  rw [IntOp.cmpi_sle, show (1023#32 : BitVec 32).toInt = 1023 from by decide] at h1
  have hv := v.isLt
  rw [BitVec.toInt_eq_toNat_cond] at h0 h1
  by_cases hc : 2 * v.toNat < 2 ^ 32
  · rw [if_pos hc] at h1
    omega
  · rw [if_neg hc] at h0
    omega

/-- THE NEIGHBOUR CONJUNCT: if the input-domain predicate of the fourteen argument arrays is all ones, every entry of
    the integer array (the third argument) is below 1024. The predicate at its one index is `and` of the earlier
    conjuncts with the all-reduction of (0 ≤ v) `and` (v ≤ 1023); a conjunction that is 1 has both sides 1, an
    all-reduction that is 1 met only 1s, and the two comparisons at an entry are the signed bounds of that entry. -/
theorem nbr_lt {F : FTy → Type} [FloatOps F] [Facts]
    (a0 : FVec F S8x1024x128 .f32) (a1 : FVec F S8x1024x64 .f32) (a2 : IVec S8x1024x64 32) (a3 : FVec F S8x1024x64 .f32)
    (a4 : FVec F S8x1024x64x50 .f32) (a5 : FVec F S50x128 .f32) (a6 : FVec F S128 .f32) (a7 : FVec F S128x128 .f32)
    (a8 : FVec F S128 .f32) (a9 : FVec F S128x128 .f32) (a10 : FVec F S128x128 .f32) (a11 : FVec F S128 .f32)
    (a12 : FVec F S128x128 .f32) (a13 : FVec F S128 .f32)
    (h : fn (F := F) a0 a1 a2 a3 a4 a5 a6 a7 a8 a9 a10 a11 a12 a13 = fun _ => 1#1) :
    ∀ j : S8x1024x64.Idx, (a2 j).toNat < 1024 := by
  intro j
  have e := congrFun h ValueIdx.ix0
  dsimp only [fn, fn_part1, fn_part2, fn_part3, fn_part4] at e
  have e2 := (IntOp.andi_eq_one.1 e).2
  have e3 := Host.reduce_andi_all _ _ _ _ _ e2 j
  have e4 := IntOp.andi_eq_one.1 e3
  exact toNat_lt_of_signed_range (a2 j) e4.1 e4.2

end Cert.PreNbr

end
-- ==== Proof.ScMain.lean ====
/-
  @main on the tensor core, and how its final assertion reads the claim.

  @main keeps the fourteen argument arrays from the first line to the last: it only reads them (the first region reads
  x and W_in, the host operations read r_ij, neighbors, neighbor_mask and f_ij, the four fused regions read W1, b1,
  W2, b2, the last region reads W_out, b_out, W_d, b_d) and writes only arrays of its own. So the assertion it ends
  with is: each argument array, whole, at the contents it was launched with. Holding an array whole at contents f
  beside the machine's state says the machine's memory there IS f; fourteen times over, that is the frame's post.
-/
import proofs.«215235_g2774548873965_cont_9to1_572_34_alg».proof.Proof.ScLaunch
import proofs.«215235_g2774548873965_cont_9to1_572_34_alg».proof.Proof.PreNbr

noncomputable section

namespace Cert.KernelIdeal.Sc

open Cert.KernelIdeal
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

variable (m : (ℓ : Loc nD τ sig) → Buf (Elt F) ℓ)

/-- An argument array of device d's tensor core, whole, as launched. -/
abbrev kept (d : Dev nD) (b : Ref sig .tc) : sProp 𝕄 := (SparseCore.T d).loc b ↦{fullShare} m ((SparseCore.T d).loc b)

/-- What @main ends with: the fourteen argument arrays as launched. -/
abbrev FIN (d : Dev nD) : sProp 𝕄 :=
  iprop(kept m d main_arg0 ∗ kept m d main_arg1 ∗ kept m d main_arg2 ∗ kept m d main_arg3 ∗ kept m d main_arg4 ∗ kept m d main_arg5 ∗ kept m d main_arg6 ∗ kept m d main_arg7 ∗ kept m d main_arg8 ∗ kept m d main_arg9 ∗ kept m d main_arg10 ∗ kept m d main_arg11 ∗ kept m d main_arg12 ∗ kept m d main_arg13)

/-- What the final memory must satisfy on device d. -/
def fq (d : Dev nD) (s' : Phys nD τ sig (Elt F)) : Prop :=
  s'.mem.mem ((SparseCore.T d).loc main_arg0) = m ((SparseCore.T d).loc main_arg0)
  ∧ s'.mem.mem ((SparseCore.T d).loc main_arg1) = m ((SparseCore.T d).loc main_arg1)
  ∧ s'.mem.mem ((SparseCore.T d).loc main_arg2) = m ((SparseCore.T d).loc main_arg2)
  ∧ s'.mem.mem ((SparseCore.T d).loc main_arg3) = m ((SparseCore.T d).loc main_arg3)
  ∧ s'.mem.mem ((SparseCore.T d).loc main_arg4) = m ((SparseCore.T d).loc main_arg4)
  ∧ s'.mem.mem ((SparseCore.T d).loc main_arg5) = m ((SparseCore.T d).loc main_arg5)
  ∧ s'.mem.mem ((SparseCore.T d).loc main_arg6) = m ((SparseCore.T d).loc main_arg6)
  ∧ s'.mem.mem ((SparseCore.T d).loc main_arg7) = m ((SparseCore.T d).loc main_arg7)
  ∧ s'.mem.mem ((SparseCore.T d).loc main_arg8) = m ((SparseCore.T d).loc main_arg8)
  ∧ s'.mem.mem ((SparseCore.T d).loc main_arg9) = m ((SparseCore.T d).loc main_arg9)
  ∧ s'.mem.mem ((SparseCore.T d).loc main_arg10) = m ((SparseCore.T d).loc main_arg10)
  ∧ s'.mem.mem ((SparseCore.T d).loc main_arg11) = m ((SparseCore.T d).loc main_arg11)
  ∧ s'.mem.mem ((SparseCore.T d).loc main_arg12) = m ((SparseCore.T d).loc main_arg12)
  ∧ s'.mem.mem ((SparseCore.T d).loc main_arg13) = m ((SparseCore.T d).loc main_arg13)

/-- An array held whole beside the machine's state: the memory there is the contents held, and the state is kept. -/
theorem agree_keep (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨Hp, HSI⟩
  ihave H := (persistent_entails_right (SI_pointsTo_agree (st := s') (ℓ := ℓ) (I := Finset.univ) (q := fullShare) (f := f))) $$ [HSI Hp]
  · isplitl [HSI] <;> iassumption
  icases H with ⟨%h, HSI, -⟩
  isplitr
  · ipureintro; exact funext fun i => h i (Finset.mem_univ i)
  · iexact HSI

set_option maxRecDepth 16384 in
theorem hfin (d : Dev nD) (s' : Phys nD τ sig (Elt F)) : iprop(FIN m d ∗ SI s') ⊢ (⌜fq m d s'⌝ : sProp 𝕄) := by
  iintro ⟨⟨H0, H1, H2, H3, H4, H5, H6, H7, H8, H9, H10, H11, H12, H13⟩, HSI⟩
  ihave X := (agree_keep (F := F) _ _ s') $$ [H0 HSI]
  · isplitl [H0] <;> iassumption
  icases X with ⟨%h0, HSI⟩
  ihave X := (agree_keep (F := F) _ _ s') $$ [H1 HSI]
  · isplitl [H1] <;> iassumption
  icases X with ⟨%h1, HSI⟩
  ihave X := (agree_keep (F := F) _ _ s') $$ [H2 HSI]
  · isplitl [H2] <;> iassumption
  icases X with ⟨%h2, HSI⟩
  ihave X := (agree_keep (F := F) _ _ s') $$ [H3 HSI]
  · isplitl [H3] <;> iassumption
  icases X with ⟨%h3, HSI⟩
  ihave X := (agree_keep (F := F) _ _ s') $$ [H4 HSI]
  · isplitl [H4] <;> iassumption
  icases X with ⟨%h4, HSI⟩
  ihave X := (agree_keep (F := F) _ _ s') $$ [H5 HSI]
  · isplitl [H5] <;> iassumption
  icases X with ⟨%h5, HSI⟩
  ihave X := (agree_keep (F := F) _ _ s') $$ [H6 HSI]
  · isplitl [H6] <;> iassumption
  icases X with ⟨%h6, HSI⟩
  ihave X := (agree_keep (F := F) _ _ s') $$ [H7 HSI]
  · isplitl [H7] <;> iassumption
  icases X with ⟨%h7, HSI⟩
  ihave X := (agree_keep (F := F) _ _ s') $$ [H8 HSI]
  · isplitl [H8] <;> iassumption
  icases X with ⟨%h8, HSI⟩
  ihave X := (agree_keep (F := F) _ _ s') $$ [H9 HSI]
  · isplitl [H9] <;> iassumption
  icases X with ⟨%h9, HSI⟩
  ihave X := (agree_keep (F := F) _ _ s') $$ [H10 HSI]
  · isplitl [H10] <;> iassumption
  icases X with ⟨%h10, HSI⟩
  ihave X := (agree_keep (F := F) _ _ s') $$ [H11 HSI]
  · isplitl [H11] <;> iassumption
  icases X with ⟨%h11, HSI⟩
  ihave X := (agree_keep (F := F) _ _ s') $$ [H12 HSI]
  · isplitl [H12] <;> iassumption
  icases X with ⟨%h12, HSI⟩
  ihave X := (agree_keep (F := F) _ _ s') $$ [H13 HSI]
  · isplitl [H13] <;> iassumption
  icases X with ⟨%h13, HSI⟩
  ipureintro
  exact ⟨h0, h1, h2, h3, h4, h5, h6, h7, h8, h9, h10, h11, h12, h13⟩

/-! ## What @main needs of the launch memory, and @main itself -/

/-- Every neighbour index, read as a natural number, is a row number 0..1023 of its molecule: what the precondition's
    `0 ≤ neighbors ≤ 1023` says word by word, and what puts every gathered row number b·1024 + nbr below 8192. -/
def NbrOK : Prop := ∀ (d : Dev nD) (j : S8x1024x64.Idx), (m ((SparseCore.T d).loc main_arg2) j).toNat < 1024

variable [FloatOps F] (ρ : Dev nD → PrngReg)

/-- The precondition, all ones on every device, says in particular that every neighbour index is in 0..1023. -/
theorem nbrOK_of_pre [Cert.Pre_input_domain.Facts]
    (h : ∀ c : Dev nD, Cert.Pre_input_domain.fn (F := F) (m ((SparseCore.T c).loc main_arg0)) (m ((SparseCore.T c).loc main_arg1))
      (m ((SparseCore.T c).loc main_arg2)) (m ((SparseCore.T c).loc main_arg3)) (m ((SparseCore.T c).loc main_arg4))
      (m ((SparseCore.T c).loc main_arg5)) (m ((SparseCore.T c).loc main_arg6)) (m ((SparseCore.T c).loc main_arg7))
      (m ((SparseCore.T c).loc main_arg8)) (m ((SparseCore.T c).loc main_arg9)) (m ((SparseCore.T c).loc main_arg10))
      (m ((SparseCore.T c).loc main_arg11)) (m ((SparseCore.T c).loc main_arg12)) (m ((SparseCore.T c).loc main_arg13))
      = fun _ => 1#1) : NbrOK m :=
  fun d j => Cert.PreNbr.nbr_lt (F := F) _ _ _ _ _ _ _ _ _ _ _ _ _ _ (h d) j

theorem pin_eq (a : (p : Fin 6) → (pcfgs (F := F) p).Adm) : Pipeline.pin (pcfgs (F := F)) a = cfgs :=
  funext fun p => by
    match p with
    | 0 => rfl
    | 1 => rfl
    | 2 => rfl
    | 3 => rfl
    | 4 => rfl
    | 5 => rfl

/-- The staging cells of the six regions are pairwise distinct, read at the regions as pinned. -/
theorem cellOf_pin_inj (a : (p : Fin 6) → (pcfgs (F := F) p).Adm) :
    Function.Injective (Pipeline.cellOf (nD := nD) (τ := τ) (Pipeline.pin (pcfgs (F := F)) a)) := by
  rw [pin_eq a]; exact Gen.cellOf_inj

/-- A wand into Y is a wand into Y under an update; the rest is carried along. -/
theorem wand_update (X Y Z : sProp 𝕄) :
    iprop((X -∗ Y) ∗ Z) ⊢ iprop((X -∗ |={Set.univ}[Idealize.ShloMosaic.frame]=> Y) ∗ Z) := by
  iintro ⟨H, HZ⟩
  isplitl [H]
  · iintro HX
    imodintro
    iapply H $$ HX
  · iexact HZ

set_option maxHeartbeats 1000000 in
theorem enter_region [∀ e, Nonempty (Elt F e)] {p : Fin 6} (a : (p : Fin 6) → (pcfgs (F := F) p).Adm)
    (pdats : (p : Fin 6) → (c : Dev nD) → Pipeline.Dat τ (Elt F) (HIx 4) ℕ UU ℕ (Pipeline.pin pcfgs a p) c) (ι : HIx 4)
    (L : GSem nD τ sig → Finset (HIx 4)) (lv : GSem nD τ sig → HIx 4 → ℕ)
    (R : Pipeline.RegionSeg pcfgs a pdats ι (defs₀ (F := F)) Variants.none L lv p) (d : Dev nD)
    {α : Type} (k : PUnit → Prog (TpuEff nD τ sig (Elt F) (SparseCore.Sig (ΛP (F := F)) 4) .tc) α) (Q : α → sProp 𝕄) :
    iprop((iprop(boundary (SparseCore.T d) ∗ R.post d)
              -∗ wp frame (wpE ((K (F := F)).defs (D (F := F))) 𝒱 (SparseCore.T d) none) Set.univ (k ⟨⟩) Q)
        ∗ boundary (SparseCore.T d) ∗ R.pre d ∗ levAts L lv
        ∗ Pipeline.cellsGhost (Pipeline.pin pcfgs a) (EP (F := F)) p d ∗ Pipeline.toksInit (Pipeline.pin pcfgs a) (EP (F := F)) p d)
      ⊢ wp frame (wpE ((K (F := F)).defs (D (F := F))) 𝒱 (SparseCore.T d) none) Set.univ
          (Prog.lift (.customCall (SparseCore.inner (Pipeline.entry p)) ()) >>= k) Q := by
  rw [wp_bind]
  -- the continuation's weakest precondition, as the post of the custom call
  let Φ : PUnit → sProp 𝕄 := fun r => wp frame (wpE ((K (F := F)).defs (D (F := F))) 𝒱 (SparseCore.T d) none) Set.univ (k r) Q
  -- the region rule, under the pipelines' own body table, with nothing after the call
  have h2 := Pipeline.RegionSeg.wp pcfgs a pdats ι (cellOf_pin_inj a) (EP (F := F)) (defs₀ (F := F)) Variants.none L lv R d none
    (fun _ h => (Option.not_mem_none _ h).elim) (fun _ => .ret ⟨⟩) Φ
  -- the custom call of @main is that call, lifted into the sparse-core program's signature
  have h1 := (K (F := F)).wp_liftProg (D (F := F)) 𝒱 (d.tc : Thread nD τ) Set.univ none
    (.op (.customCall (Pipeline.entry p) ()) (fun _ => .ret ⟨⟩)) Φ
  rw [wp_ret] at h2
  exact (wand_update _ _ _).trans (h2.trans h1)

end Cert.KernelIdeal.Sc

end
-- ==== Proof.MainSegs.lean ====
/-
  @main, read as seventeen segments.

  The tensor core's program is a straight line of host operations interrupted by ten kernel launches. Read in order it is:
  one reshape of x; region 0 (y = x·W_in); twenty host operations (the transposes of neighbors, r_ij, neighbor_mask and
  f_ij, the cutoff comparison times the mask, the row offsets b·1024 added to the neighbour indices, the biases
  reshaped, the first sixteen-slot slice of the indices reshaped for the 32 tiles); then four times: a sparse-core call,
  a fused region, and (but the last time) the next slice of the indices; two reshapes of the last biases; the last region;
  one reshape of the result. Grouping the host operations into lists changes nothing: a list run in order is the
  operations run in order.
-/
import proofs.«215235_g2774548873965_cont_9to1_572_34_alg».proof.Proof.ScConfig
import Idealize.ShloMosaic.Lib.StableHlo.Run
import Idealize.ShloMosaic.Lib.Pipeline.Frame

noncomputable section

namespace Cert.KernelIdeal.Sc

open Cert.KernelIdeal Idealize.ShloMosaic Idealize.ShloMosaic.TcCoe Idealize.SL.Sem Idealize.ShloMosaic.StableHlo
open Facts₀ Facts

variable {F : FTy → Type} [FloatOps F]

/-- Host stretch 0: 1 operation. -/
abbrev host0 : List (HloOp τ sig (Elt F)) :=
  [StableHlo.reshape main_arg0 main_v0 rfl shapeCasts_S8x1024x128_S8192x128]

/-- Host stretch 1: 20 operations. -/
abbrev host1 : List (HloOp τ sig (Elt F)) :=
  [StableHlo.unary main_arg2 main_v2 ((transpose S8x64x1024 [0, 2, 1] · transposes_S8x1024x64_S8x64x1024_0_2_1) : (⟨S8x1024x64, .i32⟩ : BufTy).Contents (Elt F) → (⟨S8x64x1024, .i32⟩ : BufTy).Contents (Elt F)),
   StableHlo.unary main_arg1 main_v3 ((transpose S8x64x1024 [0, 2, 1] · transposes_S8x1024x64_S8x64x1024_0_2_1) : (⟨S8x1024x64, .f32⟩ : BufTy).Contents (Elt F) → (⟨S8x64x1024, .f32⟩ : BufTy).Contents (Elt F)),
   StableHlo.nullary main_cst (constant S_ .f32 0x40A00000#32),
   StableHlo.unary main_cst main_v4 (broadcastInDim S8x64x1024 ![] bcast_S_S8x64x1024 : (⟨S_, .f32⟩ : BufTy).Contents (Elt F) → (⟨S8x64x1024, .f32⟩ : BufTy).Contents (Elt F)),
   StableHlo.binary main_v3 main_v4 main_v5 (cmpf .ole : (⟨S8x64x1024, .f32⟩ : BufTy).Contents (Elt F) → (⟨S8x64x1024, .f32⟩ : BufTy).Contents (Elt F) → (⟨S8x64x1024, .i1⟩ : BufTy).Contents (Elt F)),
   StableHlo.unary main_v5 main_v6 (uitofp .f32 : (⟨S8x64x1024, .i1⟩ : BufTy).Contents (Elt F) → (⟨S8x64x1024, .f32⟩ : BufTy).Contents (Elt F)),
   StableHlo.unary main_arg3 main_v7 ((transpose S8x64x1024 [0, 2, 1] · transposes_S8x1024x64_S8x64x1024_0_2_1) : (⟨S8x1024x64, .f32⟩ : BufTy).Contents (Elt F) → (⟨S8x64x1024, .f32⟩ : BufTy).Contents (Elt F)),
   StableHlo.binary main_v6 main_v7 main_v8 (mulf : (⟨S8x64x1024, .f32⟩ : BufTy).Contents (Elt F) → (⟨S8x64x1024, .f32⟩ : BufTy).Contents (Elt F) → (⟨S8x64x1024, .f32⟩ : BufTy).Contents (Elt F)),
   StableHlo.nullary main_v9 (iotaInDim S8 32 0),
   StableHlo.nullary main_c (constantI S_ 32 1024#32),
   StableHlo.unary main_c main_v10 (broadcastInDim S8 ![] bcast_S_S8 : (⟨S_, .i32⟩ : BufTy).Contents (Elt F) → (⟨S8, .i32⟩ : BufTy).Contents (Elt F)),
   StableHlo.binary main_v9 main_v10 main_v11 (muli : (⟨S8, .i32⟩ : BufTy).Contents (Elt F) → (⟨S8, .i32⟩ : BufTy).Contents (Elt F) → (⟨S8, .i32⟩ : BufTy).Contents (Elt F)),
   StableHlo.unary main_v11 main_v12 (broadcastInDim S8x1x1 ![0] bcast_S8_S8x1x1_0 : (⟨S8, .i32⟩ : BufTy).Contents (Elt F) → (⟨S8x1x1, .i32⟩ : BufTy).Contents (Elt F)),
   StableHlo.unary main_v12 main_v13 (broadcastInDim S8x64x1024 ![0, 1, 2] bcast_S8x1x1_S8x64x1024_0_1_2 : (⟨S8x1x1, .i32⟩ : BufTy).Contents (Elt F) → (⟨S8x64x1024, .i32⟩ : BufTy).Contents (Elt F)),
   StableHlo.binary main_v2 main_v13 main_v14 (addi : (⟨S8x64x1024, .i32⟩ : BufTy).Contents (Elt F) → (⟨S8x64x1024, .i32⟩ : BufTy).Contents (Elt F) → (⟨S8x64x1024, .i32⟩ : BufTy).Contents (Elt F)),
   StableHlo.unary main_arg4 main_v15 ((transpose S8x50x64x1024 [0, 3, 2, 1] · transposes_S8x1024x64x50_S8x50x64x1024_0_3_2_1) : (⟨S8x1024x64x50, .f32⟩ : BufTy).Contents (Elt F) → (⟨S8x50x64x1024, .f32⟩ : BufTy).Contents (Elt F)),
   StableHlo.reshape main_arg6 main_v16 rfl shapeCasts_S128_S1x128,
   StableHlo.reshape main_arg8 main_v17 rfl shapeCasts_S128_S1x128,
   StableHlo.unary main_v14 main_v18 ((extractStridedSlice S8x16x1024 ![0, 0, 0] · slices_S8x64x1024_S8x16x1024_0_0_0) : (⟨S8x64x1024, .i32⟩ : BufTy).Contents (Elt F) → (⟨S8x16x1024, .i32⟩ : BufTy).Contents (Elt F)),
   StableHlo.reshape main_v18 main_v19 rfl shapeCasts_S8x16x1024_S32x32x128]

/-- Host stretch 2: 0 operations. -/
abbrev host2 : List (HloOp τ sig (Elt F)) :=
  []

/-- Host stretch 3: 2 operations. -/
abbrev host3 : List (HloOp τ sig (Elt F)) :=
  [StableHlo.unary main_v14 main_v22 ((extractStridedSlice S8x16x1024 ![0, 16, 0] · slices_S8x64x1024_S8x16x1024_0_16_0) : (⟨S8x64x1024, .i32⟩ : BufTy).Contents (Elt F) → (⟨S8x16x1024, .i32⟩ : BufTy).Contents (Elt F)),
   StableHlo.reshape main_v22 main_v23 rfl shapeCasts_S8x16x1024_S32x32x128]

/-- Host stretch 4: 0 operations. -/
abbrev host4 : List (HloOp τ sig (Elt F)) :=
  []

/-- Host stretch 5: 2 operations. -/
abbrev host5 : List (HloOp τ sig (Elt F)) :=
  [StableHlo.unary main_v14 main_v26 ((extractStridedSlice S8x16x1024 ![0, 32, 0] · slices_S8x64x1024_S8x16x1024_0_32_0) : (⟨S8x64x1024, .i32⟩ : BufTy).Contents (Elt F) → (⟨S8x16x1024, .i32⟩ : BufTy).Contents (Elt F)),
   StableHlo.reshape main_v26 main_v27 rfl shapeCasts_S8x16x1024_S32x32x128]

/-- Host stretch 6: 0 operations. -/
abbrev host6 : List (HloOp τ sig (Elt F)) :=
  []

/-- Host stretch 7: 2 operations. -/
abbrev host7 : List (HloOp τ sig (Elt F)) :=
  [StableHlo.unary main_v14 main_v30 ((extractStridedSlice S8x16x1024 ![0, 48, 0] · slices_S8x64x1024_S8x16x1024_0_48_0) : (⟨S8x64x1024, .i32⟩ : BufTy).Contents (Elt F) → (⟨S8x16x1024, .i32⟩ : BufTy).Contents (Elt F)),
   StableHlo.reshape main_v30 main_v31 rfl shapeCasts_S8x16x1024_S32x32x128]

/-- Host stretch 8: 0 operations. -/
abbrev host8 : List (HloOp τ sig (Elt F)) :=
  []

/-- Host stretch 9: 2 operations. -/
abbrev host9 : List (HloOp τ sig (Elt F)) :=
  [StableHlo.reshape main_arg11 main_v34 rfl shapeCasts_S128_S1x128,
   StableHlo.reshape main_arg13 main_v35 rfl shapeCasts_S128_S1x128]

/-- Host stretch 10: 1 operation. -/
abbrev host10 : List (HloOp τ sig (Elt F)) :=
  [StableHlo.reshape main_v36 main_v37 rfl shapeCasts_S8192x128_S8x1024x128]

set_option maxRecDepth 16384 in
/-- @main is its segments in order. -/
theorem main_eq (d : Dev nD) : main (F := F) d =
    ((seq host0) >>= fun _ =>
    (Prog.lift (.customCall (SparseCore.inner (Pipeline.entry 0)) ())) >>= fun _ =>
    (seq host1) >>= fun _ =>
    (sc.run d 0) >>= fun _ =>
    (seq host2) >>= fun _ =>
    (Prog.lift (.customCall (SparseCore.inner (Pipeline.entry 1)) ())) >>= fun _ =>
    (seq host3) >>= fun _ =>
    (sc.run d 1) >>= fun _ =>
    (seq host4) >>= fun _ =>
    (Prog.lift (.customCall (SparseCore.inner (Pipeline.entry 2)) ())) >>= fun _ =>
    (seq host5) >>= fun _ =>
    (sc.run d 2) >>= fun _ =>
    (seq host6) >>= fun _ =>
    (Prog.lift (.customCall (SparseCore.inner (Pipeline.entry 3)) ())) >>= fun _ =>
    (seq host7) >>= fun _ =>
    (sc.run d 3) >>= fun _ =>
    (seq host8) >>= fun _ =>
    (Prog.lift (.customCall (SparseCore.inner (Pipeline.entry 4)) ())) >>= fun _ =>
    (seq host9) >>= fun _ =>
    (Prog.lift (.customCall (SparseCore.inner (Pipeline.entry 5)) ())) >>= fun _ =>
    (seq host10) >>= fun _ =>
    (pure ⟨⟩)) := rfl

/-! ## Each host stretch names only unscoped arrays of the tensor core and allocates nothing -/

theorem host0_sub : ∀ op ∈ (host0 : List (HloOp τ sig (Elt F))), op.bufs ⊆ Pipeline.ucRefs τ sig :=
  fun op h => Pipeline.sub_ucRefs op (List.forall_iff_forall_mem.mp (show (host0 : List (HloOp τ sig (Elt F))).Forall fun op => op.bufs ⊆ tcRefs τ sig from reshape_bufs_sub ..) op h)
theorem host0_fresh : ∀ op ∈ (host0 : List (HloOp τ sig (Elt F))), op.fresh = ∅ :=
  List.forall_iff_forall_mem.mp (show (host0 : List (HloOp τ sig (Elt F))).Forall fun op => op.fresh = ∅ from rfl)

theorem host1_sub : ∀ op ∈ (host1 : List (HloOp τ sig (Elt F))), op.bufs ⊆ Pipeline.ucRefs τ sig :=
  fun op h => Pipeline.sub_ucRefs op (List.forall_iff_forall_mem.mp (show (host1 : List (HloOp τ sig (Elt F))).Forall fun op => op.bufs ⊆ tcRefs τ sig from ⟨unary_bufs_sub .., unary_bufs_sub .., nullary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., unary_bufs_sub .., reshape_bufs_sub .., reshape_bufs_sub .., unary_bufs_sub .., reshape_bufs_sub ..⟩) op h)
theorem host1_fresh : ∀ op ∈ (host1 : List (HloOp τ sig (Elt F))), op.fresh = ∅ :=
  List.forall_iff_forall_mem.mp (show (host1 : List (HloOp τ sig (Elt F))).Forall fun op => op.fresh = ∅ from ⟨rfl, rfl, rfl, rfl, rfl, rfl, rfl, rfl, rfl, rfl, rfl, rfl, rfl, rfl, rfl, rfl, rfl, rfl, rfl, rfl⟩)

theorem host2_sub : ∀ op ∈ (host2 : List (HloOp τ sig (Elt F))), op.bufs ⊆ Pipeline.ucRefs τ sig :=
  fun op h => Pipeline.sub_ucRefs op (List.forall_iff_forall_mem.mp (show (host2 : List (HloOp τ sig (Elt F))).Forall fun op => op.bufs ⊆ tcRefs τ sig from trivial) op h)
theorem host2_fresh : ∀ op ∈ (host2 : List (HloOp τ sig (Elt F))), op.fresh = ∅ :=
  List.forall_iff_forall_mem.mp (show (host2 : List (HloOp τ sig (Elt F))).Forall fun op => op.fresh = ∅ from trivial)

theorem host3_sub : ∀ op ∈ (host3 : List (HloOp τ sig (Elt F))), op.bufs ⊆ Pipeline.ucRefs τ sig :=
  fun op h => Pipeline.sub_ucRefs op (List.forall_iff_forall_mem.mp (show (host3 : List (HloOp τ sig (Elt F))).Forall fun op => op.bufs ⊆ tcRefs τ sig from ⟨unary_bufs_sub .., reshape_bufs_sub ..⟩) op h)
theorem host3_fresh : ∀ op ∈ (host3 : List (HloOp τ sig (Elt F))), op.fresh = ∅ :=
  List.forall_iff_forall_mem.mp (show (host3 : List (HloOp τ sig (Elt F))).Forall fun op => op.fresh = ∅ from ⟨rfl, rfl⟩)

theorem host4_sub : ∀ op ∈ (host4 : List (HloOp τ sig (Elt F))), op.bufs ⊆ Pipeline.ucRefs τ sig :=
  fun op h => Pipeline.sub_ucRefs op (List.forall_iff_forall_mem.mp (show (host4 : List (HloOp τ sig (Elt F))).Forall fun op => op.bufs ⊆ tcRefs τ sig from trivial) op h)
theorem host4_fresh : ∀ op ∈ (host4 : List (HloOp τ sig (Elt F))), op.fresh = ∅ :=
  List.forall_iff_forall_mem.mp (show (host4 : List (HloOp τ sig (Elt F))).Forall fun op => op.fresh = ∅ from trivial)

theorem host5_sub : ∀ op ∈ (host5 : List (HloOp τ sig (Elt F))), op.bufs ⊆ Pipeline.ucRefs τ sig :=
  fun op h => Pipeline.sub_ucRefs op (List.forall_iff_forall_mem.mp (show (host5 : List (HloOp τ sig (Elt F))).Forall fun op => op.bufs ⊆ tcRefs τ sig from ⟨unary_bufs_sub .., reshape_bufs_sub ..⟩) op h)
theorem host5_fresh : ∀ op ∈ (host5 : List (HloOp τ sig (Elt F))), op.fresh = ∅ :=
  List.forall_iff_forall_mem.mp (show (host5 : List (HloOp τ sig (Elt F))).Forall fun op => op.fresh = ∅ from ⟨rfl, rfl⟩)

theorem host6_sub : ∀ op ∈ (host6 : List (HloOp τ sig (Elt F))), op.bufs ⊆ Pipeline.ucRefs τ sig :=
  fun op h => Pipeline.sub_ucRefs op (List.forall_iff_forall_mem.mp (show (host6 : List (HloOp τ sig (Elt F))).Forall fun op => op.bufs ⊆ tcRefs τ sig from trivial) op h)
theorem host6_fresh : ∀ op ∈ (host6 : List (HloOp τ sig (Elt F))), op.fresh = ∅ :=
  List.forall_iff_forall_mem.mp (show (host6 : List (HloOp τ sig (Elt F))).Forall fun op => op.fresh = ∅ from trivial)

theorem host7_sub : ∀ op ∈ (host7 : List (HloOp τ sig (Elt F))), op.bufs ⊆ Pipeline.ucRefs τ sig :=
  fun op h => Pipeline.sub_ucRefs op (List.forall_iff_forall_mem.mp (show (host7 : List (HloOp τ sig (Elt F))).Forall fun op => op.bufs ⊆ tcRefs τ sig from ⟨unary_bufs_sub .., reshape_bufs_sub ..⟩) op h)
theorem host7_fresh : ∀ op ∈ (host7 : List (HloOp τ sig (Elt F))), op.fresh = ∅ :=
  List.forall_iff_forall_mem.mp (show (host7 : List (HloOp τ sig (Elt F))).Forall fun op => op.fresh = ∅ from ⟨rfl, rfl⟩)

theorem host8_sub : ∀ op ∈ (host8 : List (HloOp τ sig (Elt F))), op.bufs ⊆ Pipeline.ucRefs τ sig :=
  fun op h => Pipeline.sub_ucRefs op (List.forall_iff_forall_mem.mp (show (host8 : List (HloOp τ sig (Elt F))).Forall fun op => op.bufs ⊆ tcRefs τ sig from trivial) op h)
theorem host8_fresh : ∀ op ∈ (host8 : List (HloOp τ sig (Elt F))), op.fresh = ∅ :=
  List.forall_iff_forall_mem.mp (show (host8 : List (HloOp τ sig (Elt F))).Forall fun op => op.fresh = ∅ from trivial)

theorem host9_sub : ∀ op ∈ (host9 : List (HloOp τ sig (Elt F))), op.bufs ⊆ Pipeline.ucRefs τ sig :=
  fun op h => Pipeline.sub_ucRefs op (List.forall_iff_forall_mem.mp (show (host9 : List (HloOp τ sig (Elt F))).Forall fun op => op.bufs ⊆ tcRefs τ sig from ⟨reshape_bufs_sub .., reshape_bufs_sub ..⟩) op h)
theorem host9_fresh : ∀ op ∈ (host9 : List (HloOp τ sig (Elt F))), op.fresh = ∅ :=
  List.forall_iff_forall_mem.mp (show (host9 : List (HloOp τ sig (Elt F))).Forall fun op => op.fresh = ∅ from ⟨rfl, rfl⟩)

theorem host10_sub : ∀ op ∈ (host10 : List (HloOp τ sig (Elt F))), op.bufs ⊆ Pipeline.ucRefs τ sig :=
  fun op h => Pipeline.sub_ucRefs op (List.forall_iff_forall_mem.mp (show (host10 : List (HloOp τ sig (Elt F))).Forall fun op => op.bufs ⊆ tcRefs τ sig from reshape_bufs_sub ..) op h)
theorem host10_fresh : ∀ op ∈ (host10 : List (HloOp τ sig (Elt F))), op.fresh = ∅ :=
  List.forall_iff_forall_mem.mp (show (host10 : List (HloOp τ sig (Elt F))).Forall fun op => op.fresh = ∅ from rfl)

end Cert.KernelIdeal.Sc

end
-- ==== Proof.ScState.lean ====
/-
  The tensor core between two lines of @main, and the host stretches.

  Between two lines the tensor core holds: the region boundary (its scoped storage at rest), every array of @main whole
  at some contents W, its handshake state before call n (what it still owes the later calls, its tokens), and the
  staging ghost state of the regions not yet entered. A stretch of host operations changes only W, to the operations'
  composed result; a region spends its own staging ghost state and changes W at its output array; a call moves n to
  n + 1 and changes W at the three arrays it is handed.
-/
import proofs.«215235_g2774548873965_cont_9to1_572_34_alg».proof.Proof.ScMain
import proofs.«215235_g2774548873965_cont_9to1_572_34_alg».proof.Proof.MainSegs
import Idealize.ShloMosaic.Lib.Pipeline.Frame

noncomputable section

namespace Cert.KernelIdeal.Sc

open Cert.KernelIdeal
open Idealize.ShloMosaic Idealize.ShloMosaic.StableHlo
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 4) (Elt F) ℕ UU ℕ

/-- The staging ghost state of the regions in Ps, on device d. -/
abbrev ghost (d : Dev nD) (Ps : Finset (Fin 6)) : sProp 𝕄 :=
  bigSep Ps fun p => iprop(Pipeline.cellsGhost cfgs (EP (F := F)) p d ∗ Pipeline.toksInit cfgs (EP (F := F)) p d)

/-- The tensor core of device d between two lines of @main, before call n, its arrays at W, the regions in Ps not yet entered. -/
abbrev TS (d : Dev nD) (n : ℕ) (W : Valuation τ sig (Elt F)) (Ps : Finset (Fin 6)) : sProp 𝕄 :=
  iprop(boundary (d.tc : Thread nD τ) ∗ held (d.tc : Thread nD τ) (Pipeline.ucRefs τ sig) W ∗ (K (F := F)).tcSt EH d n ∗ ghost (F := F) d Ps)

/-- A stretch of host operations, each naming only unscoped arrays and allocating nothing, runs to its end and leaves
    the arrays at the operations' composed result; nothing else of the tensor core's state is touched. -/
theorem seg_host (d : Dev nD) (n : ℕ) (W : Valuation τ sig (Elt F)) (Ps : Finset (Fin 6)) (ops : List (HloOp τ sig (Elt F)))
    (hS : ∀ op ∈ ops, op.bufs ⊆ Pipeline.ucRefs τ sig) (hf : ∀ op ∈ ops, op.fresh = ∅)
    {β : Type} (k : PUnit → Prog (TpuEff nD τ sig (Elt F) (SparseCore.Sig (ΛP (F := F)) 4) .tc) β) (Q : β → sProp 𝕄) :
    iprop(TS (F := F) d n W Ps ∗ (TS (F := F) d n (after ops W) Ps
          -∗ wp frame (wpE ((K (F := F)).defs (D (F := F))) 𝒱 (d.tc : Thread nD τ) none) Set.univ (k ⟨⟩) Q))
      ⊢ wp frame (wpE ((K (F := F)).defs (D (F := F))) 𝒱 (d.tc : Thread nD τ) none) Set.univ (seq ops >>= k) Q := by
  iintro ⟨⟨Hb, Hh, Hst, Hg⟩, Hk⟩
  iapply (wp_seq (defs := (K (F := F)).defs (D (F := F))) 𝒱 none Set.univ d (Pipeline.ucRefs τ sig) k ops hS hf W) $$ [Hb Hh]
  · isplitl [Hb]
    · iexact Hb
    · iexact Hh
  iintro ⟨Hb, Hh⟩
  iapply Hk
  isplitl [Hb]
  · iexact Hb
  isplitl [Hh]
  · iexact Hh
  isplitl [Hst]
  · iexact Hst
  · iexact Hg

/-- The segment of @main that is region p, entered before call n, whose output array is `out`: from the state between two
    lines with region p's staging ghost state unspent, the custom call runs the region and the continuation finds the
    same state at a valuation that differs from W at most at `out`, region p's ghost state spent. -/
def SegRegion (p : Fin 6) (n : ℕ) (out : DevRef τ sig) : Prop :=
  ∀ (κ : GSem nD τ sig → ℕ) (d : Dev nD) (W : Valuation τ sig (Elt F)) (Ps : Finset (Fin 6)), p ∈ Ps →
    ∀ {β : Type} (k : PUnit → Prog (TpuEff nD τ sig (Elt F) (SparseCore.Sig (ΛP (F := F)) 4) .tc) β) (Q : β → sProp 𝕄),
      iprop((K (F := F)).ctx EH (P (F := F)) κ ∗ TS (F := F) d n W Ps
          ∗ (∀ W' : Valuation τ sig (Elt F), ⌜∀ b, b ≠ out → W' b = W b⌝
              -∗ TS (F := F) d n W' (Ps.erase p) -∗ wp frame (wpE ((K (F := F)).defs (D (F := F))) 𝒱 (d.tc : Thread nD τ) none) Set.univ (k ⟨⟩) Q))
        ⊢ wp frame (wpE ((K (F := F)).defs (D (F := F))) 𝒱 (d.tc : Thread nD τ) none) Set.univ
            (Prog.lift (.customCall (SparseCore.inner (Pipeline.entry p)) ()) >>= k) Q

/-- The segment of @main that is call q, whose three arrays are y, `ix` and `o`: from the state before call q with every
    entry of the index array a row number of y, the call runs and the continuation finds the state before call q + 1 at a
    valuation that differs from W at most at those three. -/
def SegCall (q : Fin 4) (ix o : Ref sig .tc) (inRange : Valuation τ sig (Elt F) → Prop) : Prop :=
  ∀ (κ : GSem nD τ sig → ℕ) (d : Dev nD) (W : Valuation τ sig (Elt F)) (Ps : Finset (Fin 6)), inRange W →
    ∀ {β : Type} (k : PUnit → Prog (TpuEff nD τ sig (Elt F) (SparseCore.Sig (ΛP (F := F)) 4) .tc) β) (Q : β → sProp 𝕄),
      iprop((K (F := F)).ctx EH (P (F := F)) κ ∗ TS (F := F) d q.val W Ps
          ∗ (∀ W' : Valuation τ sig (Elt F), ⌜∀ b, b ∉ ({Proc.devRef .tc main_v1, Proc.devRef .tc ix, Proc.devRef .tc o} : Finset (DevRef τ sig)) → W' b = W b⌝
              -∗ TS (F := F) d (q.val + 1) W' Ps -∗ wp frame (wpE ((K (F := F)).defs (D (F := F))) 𝒱 (d.tc : Thread nD τ) none) Set.univ (k ⟨⟩) Q))
        ⊢ wp frame (wpE ((K (F := F)).defs (D (F := F))) 𝒱 (d.tc : Thread nD τ) none) Set.univ ((K (F := F)).run d q >>= k) Q

end Cert.KernelIdeal.Sc

end
-- ==== Proof.HostIdx.lean ====
/-
  The index arrays the program computes for its four sparse-core calls, and their range.

  From the integer argument nbr of shape [8, 1024, 64] (for batch b and node n, the 64 neighbour slots of n) the program
  computes, by host operations, one array of shape [8, 64, 1024]: entry (b, k, n) is nbr[b, n, k] + b·1024, the
  row of the flattened [8·1024, 128] array that holds node nbr[b, n, k] of batch b. The offsets b·1024 are an iota over
  the 8 batches times the constant 1024, broadcast along the other two axes. For call q it then takes the 16 slots
  16q … 16q + 15 and reads the [8, 16, 1024] block, in row-major order, as [32, 32, 128].
  If every neighbour is below 1024 then every entry is below 8·1024 = 8192, with no wrap-around in 32 bits: a slice and a
  reshape only pick entries, and an entry is nbr + b·1024 with nbr ≤ 1023 and b ≤ 7.
-/
import proofs.«215235_g2774548873965_cont_9to1_572_34_alg».proof.KernelIdeal
import proofs.«215235_g2774548873965_cont_9to1_572_34_alg».proof.Proof.Gen.KernelIdeal
import Idealize.ShloMosaic.Lib.ValueIdx

noncomputable section

namespace Cert.KernelIdeal.HostIdx

open Cert.KernelIdeal Idealize.ShloMosaic
open Facts₀ Facts

variable [Facts]

/-- The row numbers for all 64 slots: the neighbours with the last two axes exchanged, plus the batch offsets (an iota
    over the batches times 1024, broadcast to [8, 1, 1] and then to [8, 64, 1024]). Operation by operation as the
    program has them. -/
def rowsAll (a2 : IVec S8x1024x64 32) : IVec S8x64x1024 32 :=
  addi (transpose S8x64x1024 [0, 2, 1] a2 transposes_S8x1024x64_S8x64x1024_0_2_1)
    (broadcastInDim S8x64x1024 ![0, 1, 2] bcast_S8x1x1_S8x64x1024_0_1_2
      (broadcastInDim S8x1x1 ![0] bcast_S8_S8x1x1_0
        (muli (iotaInDim S8 32 0) (broadcastInDim S8 ![] bcast_S_S8 (constantI S_ 32 1024#32)))))

/-- The index array of call q: slots 16q … 16q + 15 of the row numbers, read as [32, 32, 128]. -/
def idxVal : Fin 4 → IVec S8x1024x64 32 → IVec S32x32x128 32
  | 0, a2 => shapeCast S32x32x128 (extractStridedSlice S8x16x1024 ![0, 0, 0] (rowsAll a2) slices_S8x64x1024_S8x16x1024_0_0_0)
      shapeCasts_S8x16x1024_S32x32x128
  | 1, a2 => shapeCast S32x32x128 (extractStridedSlice S8x16x1024 ![0, 16, 0] (rowsAll a2) slices_S8x64x1024_S8x16x1024_0_16_0)
      shapeCasts_S8x16x1024_S32x32x128
  | 2, a2 => shapeCast S32x32x128 (extractStridedSlice S8x16x1024 ![0, 32, 0] (rowsAll a2) slices_S8x64x1024_S8x16x1024_0_32_0)
      shapeCasts_S8x16x1024_S32x32x128
  | 3, a2 => shapeCast S32x32x128 (extractStridedSlice S8x16x1024 ![0, 48, 0] (rowsAll a2) slices_S8x64x1024_S8x16x1024_0_48_0)
      shapeCasts_S8x16x1024_S32x32x128

/-! ## The range -/

/-- A neighbour below 1024 plus the offset of one of the 8 batches is below 8192; nothing wraps around in 32 bits. -/
theorem entry_lt (x : BitVec 32) (b : Nat) (hx : x.toNat < 1024) (hb : b < 8) :
    (IntOp.addi x (IntOp.muli (BitVec.ofNat 32 b) 1024#32)).toNat < 8192 := by
  unfold IntOp.addi IntOp.muli
  rw [BitVec.toNat_add, BitVec.toNat_mul, BitVec.toNat_ofNat]
  have e : (1024#32 : BitVec 32).toNat = 1024 := by decide
  rw [e]
  omega

/-- Entry (b, k, n) of the row numbers is nbr[b, n, k] + b·1024. -/
theorem rowsAll_apply (a2 : IVec S8x1024x64 32) (k : S8x64x1024.Idx) :
    rowsAll a2 k = IntOp.addi (a2 (transposes_S8x1024x64_S8x64x1024_0_2_1.src k))
      (IntOp.muli (BitVec.ofNat 32 (k 0).val) 1024#32) := rfl

theorem rowsAll_lt (a2 : IVec S8x1024x64 32) (h : ∀ j, (a2 j).toNat < 1024) (k : S8x64x1024.Idx) :
    (rowsAll a2 k).toNat < 8192 := by
  rw [rowsAll_apply]
  exact entry_lt _ _ (h _) (k 0).isLt

/-- A slice and a reshape only pick entries: every entry of call q's index array is an entry of the row numbers. -/
theorem idxVal_mem (q : Fin 4) (a2 : IVec S8x1024x64 32) (j : S32x32x128.Idx) : ∃ k, idxVal q a2 j = rowsAll a2 k := by
  match q with
  | 0 => exact ⟨_, rfl⟩
  | 1 => exact ⟨_, rfl⟩
  | 2 => exact ⟨_, rfl⟩
  | 3 => exact ⟨_, rfl⟩

/-- THE RANGE: if every neighbour is below 1024, every entry of call q's index array is a row number below 8192. -/
theorem idxVal_lt (q : Fin 4) (a2 : IVec S8x1024x64 32) (h : ∀ j, (a2 j).toNat < 1024) :
    ∀ j, (idxVal q a2 j).toNat < 8192 := by
  intro j
  obtain ⟨k, hk⟩ := idxVal_mem q a2 j
  rw [hk]
  exact rowsAll_lt a2 h k

end Cert.KernelIdeal.HostIdx

end
-- ==== Proof.HostFacts.lean ====
/-
  Pure facts about the stretches of host operations between the kernel launches.

  Each stretch is a list of operations, each writing one array of its own from the whole contents of its operands. So
  (a) an array that none of a stretch's operations writes has the same contents after the stretch as before;
  (b) after the twenty operations before the first sparse-core call, the array of row numbers (all 64 neighbour slots)
      and the first call's index array are the functions of the neighbour argument written out in the module on the
      computed index arrays, hence in range when every neighbour is below 1024;
  (c) each later call's index array is a slice of the row numbers read in another shape: every entry of it is an entry of
      the row numbers, hence in range when those are.
-/
import proofs.«215235_g2774548873965_cont_9to1_572_34_alg».proof.Proof.MainSegs
import proofs.«215235_g2774548873965_cont_9to1_572_34_alg».proof.Proof.HostIdx

noncomputable section

namespace Cert.KernelIdeal.Sc

open Cert.KernelIdeal Idealize.ShloMosaic Idealize.ShloMosaic.TcCoe Idealize.SL.Sem Idealize.ShloMosaic.StableHlo
open Facts₀ Facts

variable {F : FTy → Type} [FloatOps F]

/-! ## (a) What a stretch does not write, it keeps -/

/-- An operation that writes the one array y writes inside any list of arrays that has y. -/
theorem wr {Wl : List (Ref sig .tc)} {y : Ref sig .tc} (h : y ∈ Wl) :
    ({Proc.devRef .tc y} : Finset (DevRef τ sig)) ⊆ (Wl.map (Proc.devRef (τ := τ) .tc)).toFinset :=
  Finset.singleton_subset_iff.mpr (List.mem_toFinset.mpr (List.mem_map_of_mem h))

/-- The arrays host stretch 0 writes, one per operation, in order. -/
abbrev host0_W : List (Ref sig .tc) := [main_v0]
theorem host0_writes : (host0 : List (HloOp τ sig (Elt F))).Forall fun op =>
    op.writes ⊆ (host0_W.map (Proc.devRef (τ := τ) .tc)).toFinset := by
  simp only [List.Forall]
  exact wr (by decide)
/-- An array host stretch 0 does not write keeps its contents through it. -/
theorem host0_keeps (W : Valuation τ sig (Elt F)) (b : Ref sig .tc) (hb : b ∉ host0_W) :
    after (host0 (F := F)) W (Proc.devRef .tc b) = W (Proc.devRef .tc b) :=
  after_of_writes_sub host0 W host0_writes hb

/-- The arrays host stretch 1 writes, one per operation, in order. -/
abbrev host1_W : List (Ref sig .tc) := [main_v2, main_v3, main_cst, main_v4, main_v5, main_v6, main_v7, main_v8, main_v9, main_c, main_v10, main_v11, main_v12, main_v13, main_v14, main_v15, main_v16, main_v17, main_v18, main_v19]
theorem host1_writes : (host1 : List (HloOp τ sig (Elt F))).Forall fun op =>
    op.writes ⊆ (host1_W.map (Proc.devRef (τ := τ) .tc)).toFinset := by
  simp only [List.Forall]
  exact ⟨wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide)⟩
/-- An array host stretch 1 does not write keeps its contents through it. -/
theorem host1_keeps (W : Valuation τ sig (Elt F)) (b : Ref sig .tc) (hb : b ∉ host1_W) :
    after (host1 (F := F)) W (Proc.devRef .tc b) = W (Proc.devRef .tc b) :=
  after_of_writes_sub host1 W host1_writes hb

/-- Host stretch 2 is empty: nothing changes. -/
theorem host2_keeps (W : Valuation τ sig (Elt F)) (b : Ref sig .tc) (hb : b ∉ ([] : List (Ref sig .tc))) :
    after (host2 (F := F)) W (Proc.devRef .tc b) = W (Proc.devRef .tc b) := rfl

/-- The arrays host stretch 3 writes, one per operation, in order. -/
abbrev host3_W : List (Ref sig .tc) := [main_v22, main_v23]
theorem host3_writes : (host3 : List (HloOp τ sig (Elt F))).Forall fun op =>
    op.writes ⊆ (host3_W.map (Proc.devRef (τ := τ) .tc)).toFinset := by
  simp only [List.Forall]
  exact ⟨wr (by decide), wr (by decide)⟩
/-- An array host stretch 3 does not write keeps its contents through it. -/
theorem host3_keeps (W : Valuation τ sig (Elt F)) (b : Ref sig .tc) (hb : b ∉ host3_W) :
    after (host3 (F := F)) W (Proc.devRef .tc b) = W (Proc.devRef .tc b) :=
  after_of_writes_sub host3 W host3_writes hb

/-- Host stretch 4 is empty: nothing changes. -/
theorem host4_keeps (W : Valuation τ sig (Elt F)) (b : Ref sig .tc) (hb : b ∉ ([] : List (Ref sig .tc))) :
    after (host4 (F := F)) W (Proc.devRef .tc b) = W (Proc.devRef .tc b) := rfl

/-- The arrays host stretch 5 writes, one per operation, in order. -/
abbrev host5_W : List (Ref sig .tc) := [main_v26, main_v27]
theorem host5_writes : (host5 : List (HloOp τ sig (Elt F))).Forall fun op =>
    op.writes ⊆ (host5_W.map (Proc.devRef (τ := τ) .tc)).toFinset := by
  simp only [List.Forall]
  exact ⟨wr (by decide), wr (by decide)⟩
/-- An array host stretch 5 does not write keeps its contents through it. -/
theorem host5_keeps (W : Valuation τ sig (Elt F)) (b : Ref sig .tc) (hb : b ∉ host5_W) :
    after (host5 (F := F)) W (Proc.devRef .tc b) = W (Proc.devRef .tc b) :=
  after_of_writes_sub host5 W host5_writes hb

/-- Host stretch 6 is empty: nothing changes. -/
theorem host6_keeps (W : Valuation τ sig (Elt F)) (b : Ref sig .tc) (hb : b ∉ ([] : List (Ref sig .tc))) :
    after (host6 (F := F)) W (Proc.devRef .tc b) = W (Proc.devRef .tc b) := rfl

/-- The arrays host stretch 7 writes, one per operation, in order. -/
abbrev host7_W : List (Ref sig .tc) := [main_v30, main_v31]
theorem host7_writes : (host7 : List (HloOp τ sig (Elt F))).Forall fun op =>
    op.writes ⊆ (host7_W.map (Proc.devRef (τ := τ) .tc)).toFinset := by
  simp only [List.Forall]
  exact ⟨wr (by decide), wr (by decide)⟩
/-- An array host stretch 7 does not write keeps its contents through it. -/
theorem host7_keeps (W : Valuation τ sig (Elt F)) (b : Ref sig .tc) (hb : b ∉ host7_W) :
    after (host7 (F := F)) W (Proc.devRef .tc b) = W (Proc.devRef .tc b) :=
  after_of_writes_sub host7 W host7_writes hb

/-- Host stretch 8 is empty: nothing changes. -/
theorem host8_keeps (W : Valuation τ sig (Elt F)) (b : Ref sig .tc) (hb : b ∉ ([] : List (Ref sig .tc))) :
    after (host8 (F := F)) W (Proc.devRef .tc b) = W (Proc.devRef .tc b) := rfl

/-- The arrays host stretch 9 writes, one per operation, in order. -/
abbrev host9_W : List (Ref sig .tc) := [main_v34, main_v35]
theorem host9_writes : (host9 : List (HloOp τ sig (Elt F))).Forall fun op =>
    op.writes ⊆ (host9_W.map (Proc.devRef (τ := τ) .tc)).toFinset := by
  simp only [List.Forall]
  exact ⟨wr (by decide), wr (by decide)⟩
/-- An array host stretch 9 does not write keeps its contents through it. -/
theorem host9_keeps (W : Valuation τ sig (Elt F)) (b : Ref sig .tc) (hb : b ∉ host9_W) :
    after (host9 (F := F)) W (Proc.devRef .tc b) = W (Proc.devRef .tc b) :=
  after_of_writes_sub host9 W host9_writes hb

/-- The arrays host stretch 10 writes, one per operation, in order. -/
abbrev host10_W : List (Ref sig .tc) := [main_v37]
theorem host10_writes : (host10 : List (HloOp τ sig (Elt F))).Forall fun op =>
    op.writes ⊆ (host10_W.map (Proc.devRef (τ := τ) .tc)).toFinset := by
  simp only [List.Forall]
  exact wr (by decide)
/-- An array host stretch 10 does not write keeps its contents through it. -/
theorem host10_keeps (W : Valuation τ sig (Elt F)) (b : Ref sig .tc) (hb : b ∉ host10_W) :
    after (host10 (F := F)) W (Proc.devRef .tc b) = W (Proc.devRef .tc b) :=
  after_of_writes_sub host10 W host10_writes hb

/-! ## (b) The row numbers and the first index array -/

/-- After the twenty operations, the array of row numbers is the module's function of the neighbour argument. -/
theorem host1_rowsAll (W : Valuation τ sig (Elt F)) :
    after (host1 (F := F)) W (Proc.devRef .tc main_v14) = HostIdx.rowsAll (W (Proc.devRef .tc main_arg2)) := by
  after_results
  rfl

/-- After the twenty operations, the first call's index array is the module's function of the neighbour argument. -/
theorem host1_idxVal (W : Valuation τ sig (Elt F)) :
    after (host1 (F := F)) W (Proc.devRef .tc main_v19) = HostIdx.idxVal 0 (W (Proc.devRef .tc main_arg2)) := by
  after_results
  rfl

/-- Both are in range when every neighbour is below 1024. -/
theorem host1_range (W : Valuation τ sig (Elt F)) (h : ∀ j, (W (Proc.devRef .tc main_arg2) j).toNat < 1024) :
    (∀ j, (after (host1 (F := F)) W (Proc.devRef .tc main_v14) j).toNat < 8192)
      ∧ (∀ j, (after (host1 (F := F)) W (Proc.devRef .tc main_v19) j).toNat < 8192) := by
  refine ⟨fun j => ?_, fun j => ?_⟩
  · rw [host1_rowsAll]
    exact HostIdx.rowsAll_lt _ h j
  · rw [host1_idxVal]
    exact HostIdx.idxVal_lt 0 _ h j

/-! ## (c) The later index arrays -/

/-- Every entry of the index array host stretch 3 computes is an entry of the row numbers. -/
theorem host3_mem (W : Valuation τ sig (Elt F)) (j : S32x32x128.Idx) :
    ∃ i, after (host3 (F := F)) W (Proc.devRef .tc main_v23) j = W (Proc.devRef .tc main_v14) i := by
  have e : after (host3 (F := F)) W (Proc.devRef .tc main_v23)
      = shapeCast S32x32x128 (extractStridedSlice S8x16x1024 ![0, 16, 0] (W (Proc.devRef .tc main_v14)) slices_S8x64x1024_S8x16x1024_0_16_0)
          shapeCasts_S8x16x1024_S32x32x128 := by
    after_results
    rfl
  rw [e]
  exact ⟨_, rfl⟩

/-- So it is in range when the row numbers are. -/
theorem host3_range (W : Valuation τ sig (Elt F)) (h : ∀ j, (W (Proc.devRef .tc main_v14) j).toNat < 8192) :
    ∀ j, (after (host3 (F := F)) W (Proc.devRef .tc main_v23) j).toNat < 8192 := by
  intro j
  obtain ⟨i, hi⟩ := host3_mem W j
  rw [hi]
  exact h i

/-- Every entry of the index array host stretch 5 computes is an entry of the row numbers. -/
theorem host5_mem (W : Valuation τ sig (Elt F)) (j : S32x32x128.Idx) :
    ∃ i, after (host5 (F := F)) W (Proc.devRef .tc main_v27) j = W (Proc.devRef .tc main_v14) i := by
  have e : after (host5 (F := F)) W (Proc.devRef .tc main_v27)
      = shapeCast S32x32x128 (extractStridedSlice S8x16x1024 ![0, 32, 0] (W (Proc.devRef .tc main_v14)) slices_S8x64x1024_S8x16x1024_0_32_0)
          shapeCasts_S8x16x1024_S32x32x128 := by
    after_results
    rfl
  rw [e]
  exact ⟨_, rfl⟩

/-- So it is in range when the row numbers are. -/
theorem host5_range (W : Valuation τ sig (Elt F)) (h : ∀ j, (W (Proc.devRef .tc main_v14) j).toNat < 8192) :
    ∀ j, (after (host5 (F := F)) W (Proc.devRef .tc main_v27) j).toNat < 8192 := by
  intro j
  obtain ⟨i, hi⟩ := host5_mem W j
  rw [hi]
  exact h i

/-- Every entry of the index array host stretch 7 computes is an entry of the row numbers. -/
theorem host7_mem (W : Valuation τ sig (Elt F)) (j : S32x32x128.Idx) :
    ∃ i, after (host7 (F := F)) W (Proc.devRef .tc main_v31) j = W (Proc.devRef .tc main_v14) i := by
  have e : after (host7 (F := F)) W (Proc.devRef .tc main_v31)
      = shapeCast S32x32x128 (extractStridedSlice S8x16x1024 ![0, 48, 0] (W (Proc.devRef .tc main_v14)) slices_S8x64x1024_S8x16x1024_0_48_0)
          shapeCasts_S8x16x1024_S32x32x128 := by
    after_results
    rfl
  rw [e]
  exact ⟨_, rfl⟩

/-- So it is in range when the row numbers are. -/
theorem host7_range (W : Valuation τ sig (Elt F)) (h : ∀ j, (W (Proc.devRef .tc main_v14) j).toNat < 8192) :
    ∀ j, (after (host7 (F := F)) W (Proc.devRef .tc main_v31) j).toNat < 8192 := by
  intro j
  obtain ⟨i, hi⟩ := host7_mem W j
  rw [hi]
  exact h i

end Cert.KernelIdeal.Sc

end
-- ==== Proof.ScFin.lean ====
/-
  The end of the walk: the fourteen argument arrays, read back out of everything the tensor core holds.

  At the end the tensor core holds every array of @main whole at a valuation W that agrees with the launch contents
  at the fourteen arguments (no segment wrote one). The fourteen are distinct unscoped arrays, so they come out of the
  held set as fourteen separate points-to assertions, each at its launch contents: the final assertion of @main.
-/
import proofs.«215235_g2774548873965_cont_9to1_572_34_alg».proof.Proof.ScState

noncomputable section

namespace Cert.KernelIdeal.Sc

open Cert.KernelIdeal
open Idealize.ShloMosaic Idealize.ShloMosaic.StableHlo
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

/-- The fourteen argument arrays, as device buffers. -/
abbrev argSet : Finset (DevRef τ sig) := ({Proc.devRef .tc main_arg0, Proc.devRef .tc main_arg1, Proc.devRef .tc main_arg2, Proc.devRef .tc main_arg3, Proc.devRef .tc main_arg4, Proc.devRef .tc main_arg5, Proc.devRef .tc main_arg6, Proc.devRef .tc main_arg7, Proc.devRef .tc main_arg8, Proc.devRef .tc main_arg9, Proc.devRef .tc main_arg10, Proc.devRef .tc main_arg11, Proc.devRef .tc main_arg12, Proc.devRef .tc main_arg13} : Finset (DevRef τ sig))

/-- The argument arrays, as references. -/
abbrev argList : List (Ref sig .tc) := [main_arg0, main_arg1, main_arg2, main_arg3, main_arg4, main_arg5, main_arg6, main_arg7, main_arg8, main_arg9, main_arg10, main_arg11, main_arg12, main_arg13]

theorem argSet_sub : (argSet : Finset (DevRef τ sig)) ⊆ Pipeline.ucRefs τ sig := by
  intro b hb
  simp only [argSet, Finset.mem_insert, Finset.mem_singleton] at hb
  unfold Pipeline.ucRefs
  rw [Finset.mem_filter]
  rcases hb with rfl | rfl | rfl | rfl | rfl | rfl | rfl | rfl | rfl | rfl | rfl | rfl | rfl | rfl
  · exact ⟨devRef_mem_tcRefs main_arg0, by decide⟩
  · exact ⟨devRef_mem_tcRefs main_arg1, by decide⟩
  · exact ⟨devRef_mem_tcRefs main_arg2, by decide⟩
  · exact ⟨devRef_mem_tcRefs main_arg3, by decide⟩
  · exact ⟨devRef_mem_tcRefs main_arg4, by decide⟩
  · exact ⟨devRef_mem_tcRefs main_arg5, by decide⟩
  · exact ⟨devRef_mem_tcRefs main_arg6, by decide⟩
  · exact ⟨devRef_mem_tcRefs main_arg7, by decide⟩
  · exact ⟨devRef_mem_tcRefs main_arg8, by decide⟩
  · exact ⟨devRef_mem_tcRefs main_arg9, by decide⟩
  · exact ⟨devRef_mem_tcRefs main_arg10, by decide⟩
  · exact ⟨devRef_mem_tcRefs main_arg11, by decide⟩
  · exact ⟨devRef_mem_tcRefs main_arg12, by decide⟩
  · exact ⟨devRef_mem_tcRefs main_arg13, by decide⟩

set_option maxRecDepth 16384 in
/-- The fourteen, held at W, are fourteen points-to assertions at W's contents. -/
theorem held_args (d : Dev nD) (W : Valuation τ sig (Elt F)) :
    (held (d.tc : Thread nD τ) argSet W : sProp 𝕄)
      = iprop(((SparseCore.T d).loc main_arg0 ↦{fullShare} W (Proc.devRef .tc main_arg0))
          ∗ ((SparseCore.T d).loc main_arg1 ↦{fullShare} W (Proc.devRef .tc main_arg1))
          ∗ ((SparseCore.T d).loc main_arg2 ↦{fullShare} W (Proc.devRef .tc main_arg2))
          ∗ ((SparseCore.T d).loc main_arg3 ↦{fullShare} W (Proc.devRef .tc main_arg3))
          ∗ ((SparseCore.T d).loc main_arg4 ↦{fullShare} W (Proc.devRef .tc main_arg4))
          ∗ ((SparseCore.T d).loc main_arg5 ↦{fullShare} W (Proc.devRef .tc main_arg5))
          ∗ ((SparseCore.T d).loc main_arg6 ↦{fullShare} W (Proc.devRef .tc main_arg6))
          ∗ ((SparseCore.T d).loc main_arg7 ↦{fullShare} W (Proc.devRef .tc main_arg7))
          ∗ ((SparseCore.T d).loc main_arg8 ↦{fullShare} W (Proc.devRef .tc main_arg8))
          ∗ ((SparseCore.T d).loc main_arg9 ↦{fullShare} W (Proc.devRef .tc main_arg9))
          ∗ ((SparseCore.T d).loc main_arg10 ↦{fullShare} W (Proc.devRef .tc main_arg10))
          ∗ ((SparseCore.T d).loc main_arg11 ↦{fullShare} W (Proc.devRef .tc main_arg11))
          ∗ ((SparseCore.T d).loc main_arg12 ↦{fullShare} W (Proc.devRef .tc main_arg12))
          ∗ ((SparseCore.T d).loc main_arg13 ↦{fullShare} W (Proc.devRef .tc main_arg13))) := by
  have h0 : (Proc.devRef (τ := τ) .tc main_arg0) ∉ ({Proc.devRef .tc main_arg1, Proc.devRef .tc main_arg2, Proc.devRef .tc main_arg3, Proc.devRef .tc main_arg4, Proc.devRef .tc main_arg5, Proc.devRef .tc main_arg6, Proc.devRef .tc main_arg7, Proc.devRef .tc main_arg8, Proc.devRef .tc main_arg9, Proc.devRef .tc main_arg10, Proc.devRef .tc main_arg11, Proc.devRef .tc main_arg12, Proc.devRef .tc main_arg13} : Finset (DevRef τ sig)) := by
    simp only [Finset.mem_insert, Finset.mem_singleton, not_or]
    exact ⟨devRef_ne_of_ne (by decide), devRef_ne_of_ne (by decide), devRef_ne_of_ne (by decide), devRef_ne_of_ne (by decide), devRef_ne_of_ne (by decide), devRef_ne_of_ne (by decide), devRef_ne_of_ne (by decide), devRef_ne_of_ne (by decide), devRef_ne_of_ne (by decide), devRef_ne_of_ne (by decide), devRef_ne_of_ne (by decide), devRef_ne_of_ne (by decide), devRef_ne_of_ne (by decide)⟩
  have h1 : (Proc.devRef (τ := τ) .tc main_arg1) ∉ ({Proc.devRef .tc main_arg2, Proc.devRef .tc main_arg3, Proc.devRef .tc main_arg4, Proc.devRef .tc main_arg5, Proc.devRef .tc main_arg6, Proc.devRef .tc main_arg7, Proc.devRef .tc main_arg8, Proc.devRef .tc main_arg9, Proc.devRef .tc main_arg10, Proc.devRef .tc main_arg11, Proc.devRef .tc main_arg12, Proc.devRef .tc main_arg13} : Finset (DevRef τ sig)) := by
    simp only [Finset.mem_insert, Finset.mem_singleton, not_or]
    exact ⟨devRef_ne_of_ne (by decide), devRef_ne_of_ne (by decide), devRef_ne_of_ne (by decide), devRef_ne_of_ne (by decide), devRef_ne_of_ne (by decide), devRef_ne_of_ne (by decide), devRef_ne_of_ne (by decide), devRef_ne_of_ne (by decide), devRef_ne_of_ne (by decide), devRef_ne_of_ne (by decide), devRef_ne_of_ne (by decide), devRef_ne_of_ne (by decide)⟩
  have h2 : (Proc.devRef (τ := τ) .tc main_arg2) ∉ ({Proc.devRef .tc main_arg3, Proc.devRef .tc main_arg4, Proc.devRef .tc main_arg5, Proc.devRef .tc main_arg6, Proc.devRef .tc main_arg7, Proc.devRef .tc main_arg8, Proc.devRef .tc main_arg9, Proc.devRef .tc main_arg10, Proc.devRef .tc main_arg11, Proc.devRef .tc main_arg12, Proc.devRef .tc main_arg13} : Finset (DevRef τ sig)) := by
    simp only [Finset.mem_insert, Finset.mem_singleton, not_or]
    exact ⟨devRef_ne_of_ne (by decide), devRef_ne_of_ne (by decide), devRef_ne_of_ne (by decide), devRef_ne_of_ne (by decide), devRef_ne_of_ne (by decide), devRef_ne_of_ne (by decide), devRef_ne_of_ne (by decide), devRef_ne_of_ne (by decide), devRef_ne_of_ne (by decide), devRef_ne_of_ne (by decide), devRef_ne_of_ne (by decide)⟩
  have h3 : (Proc.devRef (τ := τ) .tc main_arg3) ∉ ({Proc.devRef .tc main_arg4, Proc.devRef .tc main_arg5, Proc.devRef .tc main_arg6, Proc.devRef .tc main_arg7, Proc.devRef .tc main_arg8, Proc.devRef .tc main_arg9, Proc.devRef .tc main_arg10, Proc.devRef .tc main_arg11, Proc.devRef .tc main_arg12, Proc.devRef .tc main_arg13} : Finset (DevRef τ sig)) := by
    simp only [Finset.mem_insert, Finset.mem_singleton, not_or]
    exact ⟨devRef_ne_of_ne (by decide), devRef_ne_of_ne (by decide), devRef_ne_of_ne (by decide), devRef_ne_of_ne (by decide), devRef_ne_of_ne (by decide), devRef_ne_of_ne (by decide), devRef_ne_of_ne (by decide), devRef_ne_of_ne (by decide), devRef_ne_of_ne (by decide), devRef_ne_of_ne (by decide)⟩
  have h4 : (Proc.devRef (τ := τ) .tc main_arg4) ∉ ({Proc.devRef .tc main_arg5, Proc.devRef .tc main_arg6, Proc.devRef .tc main_arg7, Proc.devRef .tc main_arg8, Proc.devRef .tc main_arg9, Proc.devRef .tc main_arg10, Proc.devRef .tc main_arg11, Proc.devRef .tc main_arg12, Proc.devRef .tc main_arg13} : Finset (DevRef τ sig)) := by
    simp only [Finset.mem_insert, Finset.mem_singleton, not_or]
    exact ⟨devRef_ne_of_ne (by decide), devRef_ne_of_ne (by decide), devRef_ne_of_ne (by decide), devRef_ne_of_ne (by decide), devRef_ne_of_ne (by decide), devRef_ne_of_ne (by decide), devRef_ne_of_ne (by decide), devRef_ne_of_ne (by decide), devRef_ne_of_ne (by decide)⟩
  have h5 : (Proc.devRef (τ := τ) .tc main_arg5) ∉ ({Proc.devRef .tc main_arg6, Proc.devRef .tc main_arg7, Proc.devRef .tc main_arg8, Proc.devRef .tc main_arg9, Proc.devRef .tc main_arg10, Proc.devRef .tc main_arg11, Proc.devRef .tc main_arg12, Proc.devRef .tc main_arg13} : Finset (DevRef τ sig)) := by
    simp only [Finset.mem_insert, Finset.mem_singleton, not_or]
    exact ⟨devRef_ne_of_ne (by decide), devRef_ne_of_ne (by decide), devRef_ne_of_ne (by decide), devRef_ne_of_ne (by decide), devRef_ne_of_ne (by decide), devRef_ne_of_ne (by decide), devRef_ne_of_ne (by decide), devRef_ne_of_ne (by decide)⟩
  have h6 : (Proc.devRef (τ := τ) .tc main_arg6) ∉ ({Proc.devRef .tc main_arg7, Proc.devRef .tc main_arg8, Proc.devRef .tc main_arg9, Proc.devRef .tc main_arg10, Proc.devRef .tc main_arg11, Proc.devRef .tc main_arg12, Proc.devRef .tc main_arg13} : Finset (DevRef τ sig)) := by
    simp only [Finset.mem_insert, Finset.mem_singleton, not_or]
    exact ⟨devRef_ne_of_ne (by decide), devRef_ne_of_ne (by decide), devRef_ne_of_ne (by decide), devRef_ne_of_ne (by decide), devRef_ne_of_ne (by decide), devRef_ne_of_ne (by decide), devRef_ne_of_ne (by decide)⟩
  have h7 : (Proc.devRef (τ := τ) .tc main_arg7) ∉ ({Proc.devRef .tc main_arg8, Proc.devRef .tc main_arg9, Proc.devRef .tc main_arg10, Proc.devRef .tc main_arg11, Proc.devRef .tc main_arg12, Proc.devRef .tc main_arg13} : Finset (DevRef τ sig)) := by
    simp only [Finset.mem_insert, Finset.mem_singleton, not_or]
    exact ⟨devRef_ne_of_ne (by decide), devRef_ne_of_ne (by decide), devRef_ne_of_ne (by decide), devRef_ne_of_ne (by decide), devRef_ne_of_ne (by decide), devRef_ne_of_ne (by decide)⟩
  have h8 : (Proc.devRef (τ := τ) .tc main_arg8) ∉ ({Proc.devRef .tc main_arg9, Proc.devRef .tc main_arg10, Proc.devRef .tc main_arg11, Proc.devRef .tc main_arg12, Proc.devRef .tc main_arg13} : Finset (DevRef τ sig)) := by
    simp only [Finset.mem_insert, Finset.mem_singleton, not_or]
    exact ⟨devRef_ne_of_ne (by decide), devRef_ne_of_ne (by decide), devRef_ne_of_ne (by decide), devRef_ne_of_ne (by decide), devRef_ne_of_ne (by decide)⟩
  have h9 : (Proc.devRef (τ := τ) .tc main_arg9) ∉ ({Proc.devRef .tc main_arg10, Proc.devRef .tc main_arg11, Proc.devRef .tc main_arg12, Proc.devRef .tc main_arg13} : Finset (DevRef τ sig)) := by
    simp only [Finset.mem_insert, Finset.mem_singleton, not_or]
    exact ⟨devRef_ne_of_ne (by decide), devRef_ne_of_ne (by decide), devRef_ne_of_ne (by decide), devRef_ne_of_ne (by decide)⟩
  have h10 : (Proc.devRef (τ := τ) .tc main_arg10) ∉ ({Proc.devRef .tc main_arg11, Proc.devRef .tc main_arg12, Proc.devRef .tc main_arg13} : Finset (DevRef τ sig)) := by
    simp only [Finset.mem_insert, Finset.mem_singleton, not_or]
    exact ⟨devRef_ne_of_ne (by decide), devRef_ne_of_ne (by decide), devRef_ne_of_ne (by decide)⟩
  have h11 : (Proc.devRef (τ := τ) .tc main_arg11) ∉ ({Proc.devRef .tc main_arg12, Proc.devRef .tc main_arg13} : Finset (DevRef τ sig)) := by
    simp only [Finset.mem_insert, Finset.mem_singleton, not_or]
    exact ⟨devRef_ne_of_ne (by decide), devRef_ne_of_ne (by decide)⟩
  have h12 : (Proc.devRef (τ := τ) .tc main_arg12) ∉ ({Proc.devRef .tc main_arg13} : Finset (DevRef τ sig)) := by
    simp only [Finset.mem_insert, Finset.mem_singleton, not_or]
    exact devRef_ne_of_ne (by decide)
  unfold held argSet
  rw [bigSep_insert h0, bigSep_insert h1, bigSep_insert h2, bigSep_insert h3, bigSep_insert h4, bigSep_insert h5, bigSep_insert h6, bigSep_insert h7, bigSep_insert h8, bigSep_insert h9, bigSep_insert h10, bigSep_insert h11, bigSep_insert h12, bigSep_singleton]
  rfl

/-- From everything held at a valuation that agrees with the launch contents at the arguments, the final assertion. -/
theorem fin_of_held (m : (ℓ : Loc nD τ sig) → Buf (Elt F) ℓ) (d : Dev nD) (W : Valuation τ sig (Elt F))
    (hW : ∀ b ∈ argList, W (Proc.devRef .tc b) = launchContents m d (Proc.devRef .tc b)) :
    (held (d.tc : Thread nD τ) (Pipeline.ucRefs τ sig) W : sProp 𝕄) ⊢ FIN m d := by
  rw [held_sub_split (d.tc : Thread nD τ) argSet_sub W, held_args d W]
  rw [hW main_arg0 (by simp [argList])]
  rw [hW main_arg1 (by simp [argList])]
  rw [hW main_arg2 (by simp [argList])]
  rw [hW main_arg3 (by simp [argList])]
  rw [hW main_arg4 (by simp [argList])]
  rw [hW main_arg5 (by simp [argList])]
  rw [hW main_arg6 (by simp [argList])]
  rw [hW main_arg7 (by simp [argList])]
  rw [hW main_arg8 (by simp [argList])]
  rw [hW main_arg9 (by simp [argList])]
  rw [hW main_arg10 (by simp [argList])]
  rw [hW main_arg11 (by simp [argList])]
  rw [hW main_arg12 (by simp [argList])]
  rw [hW main_arg13 (by simp [argList])]
  exact sep_elim_left

end Cert.KernelIdeal.Sc

end
-- ==== Proof.ScWalk.lean ====
/-
  @main walked, relative to its ten launches.

  Given, for each of the six regions, that its custom call takes the tensor core's state between two lines to the same
  state with only the region's output array changed, and, for each of the four sparse-core calls, that the call takes
  the state before it (its index array's entries row numbers of y) to the state after it with only its three arrays
  changed — @main runs from what the launch deals the tensor core to the fourteen argument arrays as launched.
  Two facts are carried along the walk: no segment writes an argument array, so each is at its launch contents at the
  end; and the array of offset neighbour indices b·1024 + nbr, once the twenty host operations have computed it, is
  written by nothing afterwards and every entry of it is below 8192, so each sixteen-slot slice of it, reshaped for the
  32 tiles, has every entry below 8192 when its call comes.
-/
import proofs.«215235_g2774548873965_cont_9to1_572_34_alg».proof.Proof.ScState
import proofs.«215235_g2774548873965_cont_9to1_572_34_alg».proof.Proof.HostFacts
import proofs.«215235_g2774548873965_cont_9to1_572_34_alg».proof.Proof.ScFin

noncomputable section

namespace Cert.KernelIdeal.Sc

open Cert.KernelIdeal
open Idealize.ShloMosaic Idealize.ShloMosaic.StableHlo
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 4) (Elt F) ℕ UU ℕ

/-- An array other than the three a call is handed is not among them. -/
theorem notin_three {b y ix o : Ref sig .tc} (h1 : b ≠ y) (h2 : b ≠ ix) (h3 : b ≠ o) :
    (Proc.devRef (τ := τ) .tc b) ∉ ({Proc.devRef .tc y, Proc.devRef .tc ix, Proc.devRef .tc o} : Finset (DevRef τ sig)) := by
  simp only [Finset.mem_insert, Finset.mem_singleton, not_or]
  exact ⟨devRef_ne_of_ne h1, devRef_ne_of_ne h2, devRef_ne_of_ne h3⟩

set_option maxHeartbeats 4000000 in
set_option maxRecDepth 16384 in
theorem hmain_of
    (r0 : SegRegion (F := F) 0 0 (Proc.devRef .tc main_v1)) (r1 : SegRegion (F := F) 1 1 (Proc.devRef .tc main_v21))
    (r2 : SegRegion (F := F) 2 2 (Proc.devRef .tc main_v25)) (r3 : SegRegion (F := F) 3 3 (Proc.devRef .tc main_v29))
    (r4 : SegRegion (F := F) 4 4 (Proc.devRef .tc main_v33)) (r5 : SegRegion (F := F) 5 4 (Proc.devRef .tc main_v36))
    (c0 : SegCall (F := F) 0 main_v19 main_v20 (fun W => ∀ j, (W (Proc.devRef .tc main_v19) j).toNat < 8192))
    (c1 : SegCall (F := F) 1 main_v23 main_v24 (fun W => ∀ j, (W (Proc.devRef .tc main_v23) j).toNat < 8192))
    (c2 : SegCall (F := F) 2 main_v27 main_v28 (fun W => ∀ j, (W (Proc.devRef .tc main_v27) j).toNat < 8192))
    (c3 : SegCall (F := F) 3 main_v31 main_v32 (fun W => ∀ j, (W (Proc.devRef .tc main_v31) j).toNat < 8192))
    (m : (ℓ : Loc nD τ sig) → Buf (Elt F) ℓ) (ρ : Dev nD → PrngReg) (hok : NbrOK m) (κ : GSem nD τ sig → ℕ) (d : Dev nD) :
    iprop((K (F := F)).ctx EH (P (F := F)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 4 ∗ FIN m d) := by
  rw [main_eq]
  unfold SparseCore.Cfg.tcRes
  -- the launch's arrays are the held set at the launch valuation
  let W0 : Valuation τ sig (Elt F) := launchContents m d
  rw [show (unscopedBufs d (fun b => m ((SparseCore.T d).loc b)) : sProp 𝕄)
      = held (d.tc : Thread nD τ) (Pipeline.ucRefs τ sig) W0 from Pipeline.unscopedBufs_held d W0]
  iintro ⟨#Hctx, Hst, ⟨Hb, Hu, -, -⟩, HG⟩
  ihave HTS : TS (F := F) d 0 W0 Finset.univ $$ [Hb Hu Hst HG]
  · isplitl [Hb]
    · iexact Hb
    isplitl [Hu]
    · iexact Hu
    isplitl [Hst]
    · iexact Hst
    · iexact HG
  have hA : ∀ b ∈ argList, W0 (Proc.devRef .tc b) = launchContents m d (Proc.devRef .tc b) := fun _ _ => rfl
  have hA1 : ∀ b ∈ argList, (after host0 W0) (Proc.devRef .tc b) = launchContents m d (Proc.devRef .tc b) :=
    fun b hb => (host0_keeps (F := F) W0 b ((by decide : ∀ b ∈ argList, b ∉ host0_W) b hb)).trans (hA b hb)
  iapply (seg_host (F := F) d 0 W0 (Finset.univ) host0 host0_sub host0_fresh _ _)
  isplitl [HTS]
  · iexact HTS
  iintro HTS
  clear hA; have hA := hA1
  -- region 0
  iapply (r0 κ d (after host0 W0) (Finset.univ) (by decide) _ _)
  isplitr
  · iexact Hctx
  isplitl [HTS]
  · iexact HTS
  iintro %W2 %hW2 HTS
  have hA2 : ∀ b ∈ argList, W2 (Proc.devRef .tc b) = launchContents m d (Proc.devRef .tc b) :=
    fun b hb => (hW2 _ (devRef_ne_of_ne ((by decide : ∀ b ∈ argList, b ≠ main_v1) b hb))).trans (hA b hb)
  clear hA; have hA := hA2
  -- the neighbour indices, still at their launch contents, are below 1024
  have hnb3 : ∀ j, (W2 (Proc.devRef .tc main_arg2) j).toNat < 1024 := by
    rw [hA main_arg2 (by simp [argList])]; exact hok d
  obtain ⟨hJ3, hin0⟩ := host1_range (F := F) W2 hnb3
  have hA3 : ∀ b ∈ argList, (after host1 W2) (Proc.devRef .tc b) = launchContents m d (Proc.devRef .tc b) :=
    fun b hb => (host1_keeps (F := F) W2 b ((by decide : ∀ b ∈ argList, b ∉ host1_W) b hb)).trans (hA b hb)
  iapply (seg_host (F := F) d 0 W2 ((Finset.univ).erase 0) host1 host1_sub host1_fresh _ _)
  isplitl [HTS]
  · iexact HTS
  iintro HTS
  clear hA; have hA := hA3
  have hJ := hJ3
  -- call 0
  iapply (c0 κ d (after host1 W2) ((Finset.univ).erase 0) hin0 _ _)
  isplitr
  · iexact Hctx
  isplitl [HTS]
  · iexact HTS
  iintro %W4 %hW4 HTS
  have hA4 : ∀ b ∈ argList, W4 (Proc.devRef .tc b) = launchContents m d (Proc.devRef .tc b) :=
    fun b hb => (hW4 _ (notin_three ((by decide : ∀ b ∈ argList, b ≠ main_v1) b hb) ((by decide : ∀ b ∈ argList, b ≠ main_v19) b hb) ((by decide : ∀ b ∈ argList, b ≠ main_v20) b hb))).trans (hA b hb)
  clear hA; have hA := hA4
  have hJ4 : ∀ j, (W4 (Proc.devRef .tc main_v14) j).toNat < 8192 := by
    rw [hW4 _ (notin_three (by decide : main_v14 ≠ main_v1) (by decide : main_v14 ≠ main_v19) (by decide : main_v14 ≠ main_v20))]; exact hJ
  clear hJ; have hJ := hJ4
  have hA5 : ∀ b ∈ argList, (after host2 W4) (Proc.devRef .tc b) = launchContents m d (Proc.devRef .tc b) :=
    fun b hb => (host2_keeps (F := F) W4 b ((by decide : ∀ b ∈ argList, b ∉ ([] : List (Ref sig .tc))) b hb)).trans (hA b hb)
  have hJ5 : ∀ j, ((after host2 W4) (Proc.devRef .tc main_v14) j).toNat < 8192 := by
    rw [host2_keeps (F := F) W4 main_v14 (by decide)]; exact hJ
  iapply (seg_host (F := F) d 1 W4 ((Finset.univ).erase 0) host2 host2_sub host2_fresh _ _)
  isplitl [HTS]
  · iexact HTS
  iintro HTS
  clear hA; have hA := hA5
  clear hJ; have hJ := hJ5
  -- region 1
  iapply (r1 κ d (after host2 W4) ((Finset.univ).erase 0) (by decide) _ _)
  isplitr
  · iexact Hctx
  isplitl [HTS]
  · iexact HTS
  iintro %W6 %hW6 HTS
  have hA6 : ∀ b ∈ argList, W6 (Proc.devRef .tc b) = launchContents m d (Proc.devRef .tc b) :=
    fun b hb => (hW6 _ (devRef_ne_of_ne ((by decide : ∀ b ∈ argList, b ≠ main_v21) b hb))).trans (hA b hb)
  clear hA; have hA := hA6
  have hJ6 : ∀ j, (W6 (Proc.devRef .tc main_v14) j).toNat < 8192 := by
    rw [hW6 _ (devRef_ne_of_ne (by decide : main_v14 ≠ main_v21))]; exact hJ
  clear hJ; have hJ := hJ6
  have hin1 := host3_range (F := F) W6 hJ
  have hA7 : ∀ b ∈ argList, (after host3 W6) (Proc.devRef .tc b) = launchContents m d (Proc.devRef .tc b) :=
    fun b hb => (host3_keeps (F := F) W6 b ((by decide : ∀ b ∈ argList, b ∉ host3_W) b hb)).trans (hA b hb)
  have hJ7 : ∀ j, ((after host3 W6) (Proc.devRef .tc main_v14) j).toNat < 8192 := by
    rw [host3_keeps (F := F) W6 main_v14 (by decide)]; exact hJ
  iapply (seg_host (F := F) d 1 W6 (((Finset.univ).erase 0).erase 1) host3 host3_sub host3_fresh _ _)
  isplitl [HTS]
  · iexact HTS
  iintro HTS
  clear hA; have hA := hA7
  clear hJ; have hJ := hJ7
  -- call 1
  iapply (c1 κ d (after host3 W6) (((Finset.univ).erase 0).erase 1) hin1 _ _)
  isplitr
  · iexact Hctx
  isplitl [HTS]
  · iexact HTS
  iintro %W8 %hW8 HTS
  have hA8 : ∀ b ∈ argList, W8 (Proc.devRef .tc b) = launchContents m d (Proc.devRef .tc b) :=
    fun b hb => (hW8 _ (notin_three ((by decide : ∀ b ∈ argList, b ≠ main_v1) b hb) ((by decide : ∀ b ∈ argList, b ≠ main_v23) b hb) ((by decide : ∀ b ∈ argList, b ≠ main_v24) b hb))).trans (hA b hb)
  clear hA; have hA := hA8
  have hJ8 : ∀ j, (W8 (Proc.devRef .tc main_v14) j).toNat < 8192 := by
    rw [hW8 _ (notin_three (by decide : main_v14 ≠ main_v1) (by decide : main_v14 ≠ main_v23) (by decide : main_v14 ≠ main_v24))]; exact hJ
  clear hJ; have hJ := hJ8
  have hA9 : ∀ b ∈ argList, (after host4 W8) (Proc.devRef .tc b) = launchContents m d (Proc.devRef .tc b) :=
    fun b hb => (host4_keeps (F := F) W8 b ((by decide : ∀ b ∈ argList, b ∉ ([] : List (Ref sig .tc))) b hb)).trans (hA b hb)
  have hJ9 : ∀ j, ((after host4 W8) (Proc.devRef .tc main_v14) j).toNat < 8192 := by
    rw [host4_keeps (F := F) W8 main_v14 (by decide)]; exact hJ
  iapply (seg_host (F := F) d 2 W8 (((Finset.univ).erase 0).erase 1) host4 host4_sub host4_fresh _ _)
  isplitl [HTS]
  · iexact HTS
  iintro HTS
  clear hA; have hA := hA9
  clear hJ; have hJ := hJ9
  -- region 2
  iapply (r2 κ d (after host4 W8) (((Finset.univ).erase 0).erase 1) (by decide) _ _)
  isplitr
  · iexact Hctx
  isplitl [HTS]
  · iexact HTS
  iintro %W10 %hW10 HTS
  have hA10 : ∀ b ∈ argList, W10 (Proc.devRef .tc b) = launchContents m d (Proc.devRef .tc b) :=
    fun b hb => (hW10 _ (devRef_ne_of_ne ((by decide : ∀ b ∈ argList, b ≠ main_v25) b hb))).trans (hA b hb)
  clear hA; have hA := hA10
  have hJ10 : ∀ j, (W10 (Proc.devRef .tc main_v14) j).toNat < 8192 := by
    rw [hW10 _ (devRef_ne_of_ne (by decide : main_v14 ≠ main_v25))]; exact hJ
  clear hJ; have hJ := hJ10
  have hin2 := host5_range (F := F) W10 hJ
  have hA11 : ∀ b ∈ argList, (after host5 W10) (Proc.devRef .tc b) = launchContents m d (Proc.devRef .tc b) :=
    fun b hb => (host5_keeps (F := F) W10 b ((by decide : ∀ b ∈ argList, b ∉ host5_W) b hb)).trans (hA b hb)
  have hJ11 : ∀ j, ((after host5 W10) (Proc.devRef .tc main_v14) j).toNat < 8192 := by
    rw [host5_keeps (F := F) W10 main_v14 (by decide)]; exact hJ
  iapply (seg_host (F := F) d 2 W10 ((((Finset.univ).erase 0).erase 1).erase 2) host5 host5_sub host5_fresh _ _)
  isplitl [HTS]
  · iexact HTS
  iintro HTS
  clear hA; have hA := hA11
  clear hJ; have hJ := hJ11
  -- call 2
  iapply (c2 κ d (after host5 W10) ((((Finset.univ).erase 0).erase 1).erase 2) hin2 _ _)
  isplitr
  · iexact Hctx
  isplitl [HTS]
  · iexact HTS
  iintro %W12 %hW12 HTS
  have hA12 : ∀ b ∈ argList, W12 (Proc.devRef .tc b) = launchContents m d (Proc.devRef .tc b) :=
    fun b hb => (hW12 _ (notin_three ((by decide : ∀ b ∈ argList, b ≠ main_v1) b hb) ((by decide : ∀ b ∈ argList, b ≠ main_v27) b hb) ((by decide : ∀ b ∈ argList, b ≠ main_v28) b hb))).trans (hA b hb)
  clear hA; have hA := hA12
  have hJ12 : ∀ j, (W12 (Proc.devRef .tc main_v14) j).toNat < 8192 := by
    rw [hW12 _ (notin_three (by decide : main_v14 ≠ main_v1) (by decide : main_v14 ≠ main_v27) (by decide : main_v14 ≠ main_v28))]; exact hJ
  clear hJ; have hJ := hJ12
  have hA13 : ∀ b ∈ argList, (after host6 W12) (Proc.devRef .tc b) = launchContents m d (Proc.devRef .tc b) :=
    fun b hb => (host6_keeps (F := F) W12 b ((by decide : ∀ b ∈ argList, b ∉ ([] : List (Ref sig .tc))) b hb)).trans (hA b hb)
  have hJ13 : ∀ j, ((after host6 W12) (Proc.devRef .tc main_v14) j).toNat < 8192 := by
    rw [host6_keeps (F := F) W12 main_v14 (by decide)]; exact hJ
  iapply (seg_host (F := F) d 3 W12 ((((Finset.univ).erase 0).erase 1).erase 2) host6 host6_sub host6_fresh _ _)
  isplitl [HTS]
  · iexact HTS
  iintro HTS
  clear hA; have hA := hA13
  clear hJ; have hJ := hJ13
  -- region 3
  iapply (r3 κ d (after host6 W12) ((((Finset.univ).erase 0).erase 1).erase 2) (by decide) _ _)
  isplitr
  · iexact Hctx
  isplitl [HTS]
  · iexact HTS
  iintro %W14 %hW14 HTS
  have hA14 : ∀ b ∈ argList, W14 (Proc.devRef .tc b) = launchContents m d (Proc.devRef .tc b) :=
    fun b hb => (hW14 _ (devRef_ne_of_ne ((by decide : ∀ b ∈ argList, b ≠ main_v29) b hb))).trans (hA b hb)
  clear hA; have hA := hA14
  have hJ14 : ∀ j, (W14 (Proc.devRef .tc main_v14) j).toNat < 8192 := by
    rw [hW14 _ (devRef_ne_of_ne (by decide : main_v14 ≠ main_v29))]; exact hJ
  clear hJ; have hJ := hJ14
  have hin3 := host7_range (F := F) W14 hJ
  have hA15 : ∀ b ∈ argList, (after host7 W14) (Proc.devRef .tc b) = launchContents m d (Proc.devRef .tc b) :=
    fun b hb => (host7_keeps (F := F) W14 b ((by decide : ∀ b ∈ argList, b ∉ host7_W) b hb)).trans (hA b hb)
  have hJ15 : ∀ j, ((after host7 W14) (Proc.devRef .tc main_v14) j).toNat < 8192 := by
    rw [host7_keeps (F := F) W14 main_v14 (by decide)]; exact hJ
  iapply (seg_host (F := F) d 3 W14 (((((Finset.univ).erase 0).erase 1).erase 2).erase 3) host7 host7_sub host7_fresh _ _)
  isplitl [HTS]
  · iexact HTS
  iintro HTS
  clear hA; have hA := hA15
  clear hJ; have hJ := hJ15
  -- call 3
  iapply (c3 κ d (after host7 W14) (((((Finset.univ).erase 0).erase 1).erase 2).erase 3) hin3 _ _)
  isplitr
  · iexact Hctx
  isplitl [HTS]
  · iexact HTS
  iintro %W16 %hW16 HTS
  have hA16 : ∀ b ∈ argList, W16 (Proc.devRef .tc b) = launchContents m d (Proc.devRef .tc b) :=
    fun b hb => (hW16 _ (notin_three ((by decide : ∀ b ∈ argList, b ≠ main_v1) b hb) ((by decide : ∀ b ∈ argList, b ≠ main_v31) b hb) ((by decide : ∀ b ∈ argList, b ≠ main_v32) b hb))).trans (hA b hb)
  clear hA; have hA := hA16
  have hJ16 : ∀ j, (W16 (Proc.devRef .tc main_v14) j).toNat < 8192 := by
    rw [hW16 _ (notin_three (by decide : main_v14 ≠ main_v1) (by decide : main_v14 ≠ main_v31) (by decide : main_v14 ≠ main_v32))]; exact hJ
  clear hJ; have hJ := hJ16
  have hA17 : ∀ b ∈ argList, (after host8 W16) (Proc.devRef .tc b) = launchContents m d (Proc.devRef .tc b) :=
    fun b hb => (host8_keeps (F := F) W16 b ((by decide : ∀ b ∈ argList, b ∉ ([] : List (Ref sig .tc))) b hb)).trans (hA b hb)
  have hJ17 : ∀ j, ((after host8 W16) (Proc.devRef .tc main_v14) j).toNat < 8192 := by
    rw [host8_keeps (F := F) W16 main_v14 (by decide)]; exact hJ
  iapply (seg_host (F := F) d 4 W16 (((((Finset.univ).erase 0).erase 1).erase 2).erase 3) host8 host8_sub host8_fresh _ _)
  isplitl [HTS]
  · iexact HTS
  iintro HTS
  clear hA; have hA := hA17
  clear hJ; have hJ := hJ17
  -- region 4
  iapply (r4 κ d (after host8 W16) (((((Finset.univ).erase 0).erase 1).erase 2).erase 3) (by decide) _ _)
  isplitr
  · iexact Hctx
  isplitl [HTS]
  · iexact HTS
  iintro %W18 %hW18 HTS
  have hA18 : ∀ b ∈ argList, W18 (Proc.devRef .tc b) = launchContents m d (Proc.devRef .tc b) :=
    fun b hb => (hW18 _ (devRef_ne_of_ne ((by decide : ∀ b ∈ argList, b ≠ main_v33) b hb))).trans (hA b hb)
  clear hA; have hA := hA18
  have hJ18 : ∀ j, (W18 (Proc.devRef .tc main_v14) j).toNat < 8192 := by
    rw [hW18 _ (devRef_ne_of_ne (by decide : main_v14 ≠ main_v33))]; exact hJ
  clear hJ; have hJ := hJ18
  have hA19 : ∀ b ∈ argList, (after host9 W18) (Proc.devRef .tc b) = launchContents m d (Proc.devRef .tc b) :=
    fun b hb => (host9_keeps (F := F) W18 b ((by decide : ∀ b ∈ argList, b ∉ host9_W) b hb)).trans (hA b hb)
  have hJ19 : ∀ j, ((after host9 W18) (Proc.devRef .tc main_v14) j).toNat < 8192 := by
    rw [host9_keeps (F := F) W18 main_v14 (by decide)]; exact hJ
  iapply (seg_host (F := F) d 4 W18 ((((((Finset.univ).erase 0).erase 1).erase 2).erase 3).erase 4) host9 host9_sub host9_fresh _ _)
  isplitl [HTS]
  · iexact HTS
  iintro HTS
  clear hA; have hA := hA19
  clear hJ; have hJ := hJ19
  -- region 5
  iapply (r5 κ d (after host9 W18) ((((((Finset.univ).erase 0).erase 1).erase 2).erase 3).erase 4) (by decide) _ _)
  isplitr
  · iexact Hctx
  isplitl [HTS]
  · iexact HTS
  iintro %W20 %hW20 HTS
  have hA20 : ∀ b ∈ argList, W20 (Proc.devRef .tc b) = launchContents m d (Proc.devRef .tc b) :=
    fun b hb => (hW20 _ (devRef_ne_of_ne ((by decide : ∀ b ∈ argList, b ≠ main_v36) b hb))).trans (hA b hb)
  clear hA; have hA := hA20
  have hJ20 : ∀ j, (W20 (Proc.devRef .tc main_v14) j).toNat < 8192 := by
    rw [hW20 _ (devRef_ne_of_ne (by decide : main_v14 ≠ main_v36))]; exact hJ
  clear hJ; have hJ := hJ20
  have hA21 : ∀ b ∈ argList, (after host10 W20) (Proc.devRef .tc b) = launchContents m d (Proc.devRef .tc b) :=
    fun b hb => (host10_keeps (F := F) W20 b ((by decide : ∀ b ∈ argList, b ∉ host10_W) b hb)).trans (hA b hb)
  have hJ21 : ∀ j, ((after host10 W20) (Proc.devRef .tc main_v14) j).toNat < 8192 := by
    rw [host10_keeps (F := F) W20 main_v14 (by decide)]; exact hJ
  iapply (seg_host (F := F) d 4 W20 (((((((Finset.univ).erase 0).erase 1).erase 2).erase 3).erase 4).erase 5) host10 host10_sub host10_fresh _ _)
  isplitl [HTS]
  · iexact HTS
  iintro HTS
  clear hA; have hA := hA21
  clear hJ; have hJ := hJ21
  -- the end: nothing is left to run; the handshake state is the one asked, and the arguments come out of the held set
  rw [wp_pure]
  icases HTS with ⟨-, Hh, Hst, -⟩
  imodintro
  isplitl [Hst]
  · iexact Hst
  · iapply (fin_of_held m d _ hA) $$ Hh

end Cert.KernelIdeal.Sc

end
-- ==== Proof.ScSplit.lean ====
/-
  The cutting of the three whole arrays where the program meets a sparse-core call, and the gluing back after it.

  Before call q the program holds, whole and at the full share, the flat array y, the call's index array and the call's
  output array. The 32 workers (tile i of core c is worker 2·i + c) are each handed a 1/32 share of y, one slab of the
  index array and one block of 4096 output rows. So: a points-to at a share is the 32 points-tos at the shares got by
  halving it five times; a points-to of a whole array is the 32 points-tos of the pieces its leading axis is cut into,
  because the pieces are pairwise disjoint and cover the array; and (c, i) ↦ 2·i + c is a bijection from 2 × 16 onto 32,
  so a product over the workers is a product over the cores of products over their tiles. After the call the same
  three steps are read backwards; the only new point is that the 32 shares of y come back with contents named one
  by one, and two points-tos of the same elements agree on their contents, so one name does for all.
-/
import proofs.«215235_g2774548873965_cont_9to1_572_34_alg».proof.Proof.ScPay

noncomputable section

namespace Cert.KernelIdeal.Sc

open Cert.KernelIdeal
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

/-! ## A share halved n times -/

/-- The 2^(n+1) parts are the 2^n parts of the left half followed by the 2^n parts of the right half. -/
def halves (n : ℕ) : Fin (2 ^ n) ⊕ Fin (2 ^ n) ≃ Fin (2 ^ (n + 1)) :=
  finSumFinEquiv.trans (finCongr (by rw [pow_succ]; omega))

theorem halves_inl_val (n : ℕ) (k : Fin (2 ^ n)) : (halves n (Sum.inl k)).val = k.val := by
  simp [halves]

theorem halves_inr_val (n : ℕ) (k : Fin (2 ^ n)) : (halves n (Sum.inr k)).val = 2 ^ n + k.val := by
  simp [halves]
  exact Nat.add_comm _ _

/-- Part k of the left half. -/
theorem shareAt_inl (n : ℕ) (q : PosShare TreeShare) (k : Fin (2 ^ n)) :
    shareAt (n + 1) q (halves n (Sum.inl k)) = shareAt n q.left k := by
  have hlt : (halves n (Sum.inl k)).val < 2 ^ n := by rw [halves_inl_val]; exact k.isLt
  rw [shareAt, dif_pos hlt]
  exact congrArg (shareAt n q.left) (Fin.ext (halves_inl_val n k))

/-- Part k of the right half. -/
theorem shareAt_inr (n : ℕ) (q : PosShare TreeShare) (k : Fin (2 ^ n)) :
    shareAt (n + 1) q (halves n (Sum.inr k)) = shareAt n q.right k := by
  have hge : ¬(halves n (Sum.inr k)).val < 2 ^ n := by rw [halves_inr_val]; omega
  rw [shareAt, dif_neg hge]
  exact congrArg (shareAt n q.right) (Fin.ext (by simp only [halves_inr_val]; omega))

/-- A points-to at a share is the points-tos at its 2^n parts, together. -/
theorem pointsTo_shareAt {ℓ : Loc nD τ sig} (I : Finset (Idx ℓ)) (f : Buf (Elt F) ℓ) :
    ∀ (n : ℕ) (q : PosShare TreeShare),
      (ℓ ↦[I]{q} f : sProp 𝕄) = bigSep Finset.univ fun k : Fin (2 ^ n) => ℓ ↦[I]{shareAt n q k} f
  | 0, q => (bigSep_univ_of_subsingleton (0 : Fin 1) (Φ := fun k : Fin (2 ^ 0) => (ℓ ↦[I]{shareAt 0 q k} f : sProp 𝕄))).symm
  | n + 1, q => by
    have hq : (ℓ ↦[I]{q} f : sProp 𝕄) = iprop((ℓ ↦[I]{q.left} f) ∗ ℓ ↦[I]{q.right} f) :=
      BI.equiv_iff.mp ⟨(pointsTo_share (PosShare.mem_left_op_right q)).1, (pointsTo_share (PosShare.mem_left_op_right q)).2⟩
    rw [hq, pointsTo_shareAt I f n q.left, pointsTo_shareAt I f n q.right,
      bigSep_univ_equiv (halves n) (fun k : Fin (2 ^ (n + 1)) => (ℓ ↦[I]{shareAt (n + 1) q k} f : sProp 𝕄)), bigSep_univ_sum]
    congr 1
    · exact bigSep_congr fun k _ => by rw [shareAt_inl]
    · exact bigSep_congr fun k _ => by rw [shareAt_inr]

/-! ## The workers, core by core -/

/-- Every worker number is 2·i + c for one tile i of one core c. -/
theorem wid_surjective (w : Fin 32) : ∃ (c : Fin 2) (i : Fin 16), wid c i = w :=
  ⟨⟨w.val % 2, Nat.mod_lt _ (by decide)⟩, ⟨w.val / 2, by have := w.isLt; omega⟩, Fin.ext (by simp only [wid]; omega)⟩

/-- The tiles of the cores of call q, as the 32 workers. -/
def workers (q : Fin 4) : Fin ((K (F := F)).nCore q) × Fin ((K (F := F)).nSub q) ≃ Fin 32 :=
  Equiv.ofBijective (fun p => wid (Fin.cast (nCore_eq q) p.1) (Fin.cast (nSub_eq q) p.2))
    ⟨fun p p' h => by
        have h' := wid_injective (a₁ := (Fin.cast (nCore_eq (F := F) q) p.1, Fin.cast (nSub_eq (F := F) q) p.2))
          (a₂ := (Fin.cast (nCore_eq (F := F) q) p'.1, Fin.cast (nSub_eq (F := F) q) p'.2)) h
        have h1 : Fin.cast (nCore_eq (F := F) q) p.1 = Fin.cast (nCore_eq (F := F) q) p'.1 := congrArg Prod.fst h'
        have h2 : Fin.cast (nSub_eq (F := F) q) p.2 = Fin.cast (nSub_eq (F := F) q) p'.2 := congrArg Prod.snd h'
        exact Prod.ext (Fin.cast_injective _ h1) (Fin.cast_injective _ h2),
      fun w => by
        obtain ⟨c, i, h⟩ := wid_surjective w
        exact ⟨(Fin.cast (nCore_eq (F := F) q).symm c, Fin.cast (nSub_eq (F := F) q).symm i), h⟩⟩

/-- A product over the cores of products over their tiles is the product over the 32 workers. -/
theorem bigSep_workers (q : Fin 4) (Φ : Fin 32 → sProp 𝕄) :
    (bigSep Finset.univ fun c : Fin ((K (F := F)).nCore q) => bigSep Finset.univ fun i : Fin ((K (F := F)).nSub q) =>
        Φ (wid (Fin.cast (nCore_eq q) c) (Fin.cast (nSub_eq q) i)))
      = bigSep Finset.univ Φ := by
  rw [bigSep_univ_equiv (workers (F := F) q) Φ, bigSep_univ_prod]
  rfl

/-! ## The index array in 32 slabs, the output array in 32 row blocks -/

theorem slabs_disjoint : ∀ w ∈ (Finset.univ : Finset (Fin 32)), ∀ w' ∈ (Finset.univ : Finset (Fin 32)), w ≠ w' →
    Disjoint (slabRect w).set (slabRect w').set :=
  fun _ _ _ _ h => Rect.part_disjoint slabDiv h

theorem rows_disjoint : ∀ w ∈ (Finset.univ : Finset (Fin 32)), ∀ w' ∈ (Finset.univ : Finset (Fin 32)), w ≠ w' →
    Disjoint (rowsRect w).set (rowsRect w').set :=
  fun _ _ _ _ h => Rect.part_disjoint rowsDiv h

theorem slabs_cover : (Finset.univ : Finset (Fin 32)).biUnion (fun w => (slabRect w).set) = Finset.univ :=
  Rect.biUnion_part slabDiv

theorem rows_cover : (Finset.univ : Finset (Fin 32)).biUnion (fun w => (rowsRect w).set) = Finset.univ :=
  Rect.biUnion_part rowsDiv

/-! ## Gluing back -/

/-- Two points-tos of the same elements at the two halves of a share, contents named separately: they agree on those
    elements, so they are one points-to at the share, at the first contents. -/
theorem halves_join {ℓ : Loc nD τ sig} (I : Finset (Idx ℓ)) (q : PosShare TreeShare) (f g : Buf (Elt F) ℓ) :
    iprop((ℓ ↦[I]{q.left} f) ∗ ℓ ↦[I]{q.right} g) ⊢ (ℓ ↦[I]{q} f : sProp 𝕄) := by
  refine pure_elim _ pointsTo_agree fun hag => ?_
  have e : (ℓ ↦[I]{q.right} g : sProp 𝕄) = ℓ ↦[I]{q.right} f :=
    pointsTo_congr fun i hi => ((hag i (Finset.mem_inter.mpr ⟨hi, hi⟩)).1).symm
  rw [e]
  exact (pointsTo_share (PosShare.mem_left_op_right q)).2

/-- A product over the 2^(n+1) parts is the product over the left half's parts with the product over the right half's. -/
theorem bigSep_halves (n : ℕ) (Φ : Fin (2 ^ (n + 1)) → sProp 𝕄) :
    bigSep Finset.univ Φ
      = iprop((bigSep Finset.univ fun a : Fin (2 ^ n) => Φ (halves n (Sum.inl a))) ∗ bigSep Finset.univ fun a : Fin (2 ^ n) => Φ (halves n (Sum.inr a))) := by
  rw [bigSep_univ_equiv (halves n) Φ, bigSep_univ_sum]
  rfl

/-- The 2^n parts of a share, each with contents of its own, are one points-to at the share. -/
theorem shares_join {ℓ : Loc nD τ sig} (I : Finset (Idx ℓ)) :
    ∀ (n : ℕ) (q : PosShare TreeShare),
      (bigSep Finset.univ fun k : Fin (2 ^ n) => iprop(∃ f : Buf (Elt F) ℓ, ℓ ↦[I]{shareAt n q k} f))
        ⊢ (iprop(∃ f : Buf (Elt F) ℓ, ℓ ↦[I]{q} f) : sProp 𝕄)
  | 0, q => by
    rw [bigSep_univ_of_subsingleton (0 : Fin 1) (Φ := fun k : Fin (2 ^ 0) => iprop(∃ f : Buf (Elt F) ℓ, ℓ ↦[I]{shareAt 0 q k} f))]
    exact .refl
  | n + 1, q => by
    have hl : (bigSep Finset.univ fun a : Fin (2 ^ n) => iprop(∃ f : Buf (Elt F) ℓ, ℓ ↦[I]{shareAt (n + 1) q (halves n (Sum.inl a))} f))
        = (bigSep Finset.univ fun a : Fin (2 ^ n) => iprop(∃ f : Buf (Elt F) ℓ, ℓ ↦[I]{shareAt n q.left a} f) : sProp 𝕄) :=
      bigSep_congr fun a _ => by rw [shareAt_inl]
    have hr : (bigSep Finset.univ fun a : Fin (2 ^ n) => iprop(∃ f : Buf (Elt F) ℓ, ℓ ↦[I]{shareAt (n + 1) q (halves n (Sum.inr a))} f))
        = (bigSep Finset.univ fun a : Fin (2 ^ n) => iprop(∃ f : Buf (Elt F) ℓ, ℓ ↦[I]{shareAt n q.right a} f) : sProp 𝕄) :=
      bigSep_congr fun a _ => by rw [shareAt_inr]
    rw [bigSep_halves n (fun k : Fin (2 ^ (n + 1)) => iprop(∃ f : Buf (Elt F) ℓ, ℓ ↦[I]{shareAt (n + 1) q k} f)), hl, hr]
    iintro ⟨Hl, Hr⟩
    ihave Hl' := (shares_join I n q.left) $$ Hl
    ihave Hr' := (shares_join I n q.right) $$ Hr
    icases Hl' with ⟨%f, Hf⟩
    icases Hr' with ⟨%g, Hg⟩
    iexists f
    ihave H := (halves_join I q f g) $$ [Hf Hg]
    · isplitl [Hf]
      · iexact Hf
      · iexact Hg
    iexact H

/-- 32 pairwise disjoint pieces that cover an array, each with contents of its own, are the whole array at some
    contents. -/
theorem pieces_join {ℓ : Loc nD τ sig} (R : Fin 32 → Finset (Idx ℓ))
    (hd : ∀ w ∈ (Finset.univ : Finset (Fin 32)), ∀ w' ∈ (Finset.univ : Finset (Fin 32)), w ≠ w' → Disjoint (R w) (R w'))
    (hc : (Finset.univ : Finset (Fin 32)).biUnion R = Finset.univ) :
    (bigSep Finset.univ fun w : Fin 32 => iprop(∃ f : Buf (Elt F) ℓ, ℓ ↦[R w]{fullShare} f))
      ⊢ (iprop(∃ f : Buf (Elt F) ℓ, ℓ ↦{fullShare} f) : sProp 𝕄) := by
  -- piece 0 comes with contents: the array's contents type is inhabited
  refine pure_elim (Nonempty (Buf (Elt F) ℓ)) ?_ fun hne => ?_
  · rw [bigSep_univ_at (fun w : Fin 32 => iprop(∃ f : Buf (Elt F) ℓ, ℓ ↦[R w]{fullShare} f)) 0]
    iintro ⟨⟨%f0, -⟩, -⟩
    ipureintro
    exact ⟨f0⟩
  haveI : ∀ _ : Fin 32, Nonempty (Buf (Elt F) ℓ) := fun _ => hne
  refine (bigSep_exists_pi Finset.univ (fun w (f : Buf (Elt F) ℓ) => (ℓ ↦[R w]{fullShare} f : sProp 𝕄))).trans ?_
  iintro ⟨%fs, H⟩
  ihave H' := (pointsTo_biUnion_join (ℓ := ℓ) (q := fullShare) (Val := Elt F) Finset.univ R fs (fs 0) hd) $$ H
  icases H' with ⟨%g, -, Hg⟩
  rw [hc]
  iexists g
  iexact Hg

/-! ## Call 0 -/

/-- The whole index array of call 0 is its 32 slabs. -/
theorem ix0_slabs (d : Dev nD) (f : Buf (Elt F) (ixLoc0 d)) :
    (ixLoc0 d ↦{fullShare} f : sProp 𝕄) = bigSep Finset.univ fun w : Fin 32 => ixLoc0 d ↦[(slabRect w).set]{fullShare} f := by
  rw [← pointsTo_biUnion Finset.univ (ℓ := ixLoc0 d) (fun w => (slabRect w).set) slabs_disjoint, slabs_cover]

/-- The whole output array of call 0 is its 32 row blocks. -/
theorem o0_rows (d : Dev nD) (f : Buf (Elt F) (oLoc0 d)) :
    (oLoc0 d ↦{fullShare} f : sProp 𝕄) = bigSep Finset.univ fun w : Fin 32 => oLoc0 d ↦[(rowsRect w).set]{fullShare} f := by
  rw [← pointsTo_biUnion Finset.univ (ℓ := oLoc0 d) (fun w => (rowsRect w).set) rows_disjoint, rows_cover]

/-- One worker's three pieces of call 0 are its share. -/
theorem worker0 (d : Dev nD) (w : Fin 32) (fy : Buf (Elt F) (yLoc d)) (fi : Buf (Elt F) (ixLoc0 d)) (fo : Buf (Elt F) (oLoc0 d))
    (hin : ∀ j, (fi j).toNat < 8192) :
    iprop((yLoc d ↦{ysh w} fy) ∗ (ixLoc0 d ↦[(slabRect w).set]{fullShare} fi) ∗ (oLoc0 d ↦[(rowsRect w).set]{fullShare} fo))
      ⊢ (share0 (F := F) d w : sProp 𝕄) := by
  unfold share0
  iintro ⟨Hy, Hi, Ho⟩
  isplitl [Hy]
  · iexists fy; iexact Hy
  isplitl [Hi]
  · iexists fi
    isplitl [Hi]
    · iexact Hi
    · ipureintro; exact fun j _ => hin j
  · iexists fo; iexact Ho

/-- CUTTING, call 0: the three whole arrays, the index array's entries all row numbers of y, are the 32 workers'
    shares, core by core. -/
theorem split_call0 (d : Dev nD) (fy : Buf (Elt F) (yLoc d)) (fi : Buf (Elt F) (ixLoc0 d)) (fo : Buf (Elt F) (oLoc0 d))
    (hin : ∀ j, (fi j).toNat < 8192) :
    iprop((yLoc d ↦{fullShare} fy) ∗ (ixLoc0 d ↦{fullShare} fi) ∗ (oLoc0 d ↦{fullShare} fo))
      ⊢ (bigSep Finset.univ fun c : Fin ((K (F := F)).nCore 0) => (P (F := F)).st 0 d c : sProp 𝕄) := by
  show _ ⊢ (bigSep Finset.univ fun c : Fin ((K (F := F)).nCore 0) => bigSep Finset.univ fun i : Fin ((K (F := F)).nSub 0) =>
      share0 (F := F) d (wid (Fin.cast (nCore_eq 0) c) (Fin.cast (nSub_eq 0) i)) : sProp 𝕄)
  rw [bigSep_workers (F := F) 0 (fun w => share0 (F := F) d w),
    pointsTo_shareAt Finset.univ fy 5 fullShare, ix0_slabs d fi, o0_rows d fo, ← bigSep_sep', ← bigSep_sep']
  exact bigSep_mono fun w _ => worker0 d w fy fi fo hin

/-- A slab handed back with its entries' bound is, forgetting the bound, a slab at some contents. -/
theorem slab0_forget (d : Dev nD) (w : Fin 32) :
    iprop(∃ fi : Buf (Elt F) (ixLoc0 d), (ixLoc0 d ↦[(slabRect w).set]{fullShare} fi) ∗ ⌜∀ j ∈ (slabRect w).set, (fi j).toNat < 8192⌝)
      ⊢ (iprop(∃ fi : Buf (Elt F) (ixLoc0 d), ixLoc0 d ↦[(slabRect w).set]{fullShare} fi) : sProp 𝕄) := by
  iintro ⟨%fi, Hi, -⟩
  iexists fi
  iexact Hi

theorem slabs0_forget (d : Dev nD) :
    (bigSep Finset.univ fun w : Fin 32 =>
        iprop(∃ fi : Buf (Elt F) (ixLoc0 d), (ixLoc0 d ↦[(slabRect w).set]{fullShare} fi) ∗ ⌜∀ j ∈ (slabRect w).set, (fi j).toNat < 8192⌝))
      ⊢ (bigSep Finset.univ fun w : Fin 32 => iprop(∃ fi : Buf (Elt F) (ixLoc0 d), ixLoc0 d ↦[(slabRect w).set]{fullShare} fi) : sProp 𝕄) :=
  bigSep_mono fun w _ => slab0_forget d w

/-- GLUING, call 0: what the 32 workers hand back, core by core, is the three whole arrays again, each at some
    contents. -/
theorem join_call0 (d : Dev nD) :
    (bigSep Finset.univ fun c : Fin ((K (F := F)).nCore 0) => (P (F := F)).dn 0 d c : sProp 𝕄)
      ⊢ iprop((∃ fy, yLoc d ↦{fullShare} fy) ∗ (∃ fi, ixLoc0 d ↦{fullShare} fi) ∗ ∃ fo, oLoc0 d ↦{fullShare} fo) := by
  show (bigSep Finset.univ fun c : Fin ((K (F := F)).nCore 0) => bigSep Finset.univ fun i : Fin ((K (F := F)).nSub 0) =>
      share0 (F := F) d (wid (Fin.cast (nCore_eq 0) c) (Fin.cast (nSub_eq 0) i)) : sProp 𝕄) ⊢ _
  rw [bigSep_workers (F := F) 0 (fun w => share0 (F := F) d w)]
  unfold share0
  rw [bigSep_sep', bigSep_sep']
  iintro ⟨Hy, Hi, Ho⟩
  isplitl [Hy]
  · ihave H := (shares_join (F := F) (ℓ := yLoc d) Finset.univ 5 fullShare) $$ Hy
    iexact H
  isplitl [Hi]
  · ihave H := (slabs0_forget (F := F) d) $$ Hi
    ihave H' := (pieces_join (F := F) (ℓ := ixLoc0 d) (fun w => (slabRect w).set) slabs_disjoint slabs_cover) $$ H
    iexact H'
  · ihave H := (pieces_join (F := F) (ℓ := oLoc0 d) (fun w => (rowsRect w).set) rows_disjoint rows_cover) $$ Ho
    iexact H
/-! ## Call 1 -/

/-- The whole index array of call 1 is its 32 slabs. -/
theorem ix1_slabs (d : Dev nD) (f : Buf (Elt F) (ixLoc1 d)) :
    (ixLoc1 d ↦{fullShare} f : sProp 𝕄) = bigSep Finset.univ fun w : Fin 32 => ixLoc1 d ↦[(slabRect w).set]{fullShare} f := by
  rw [← pointsTo_biUnion Finset.univ (ℓ := ixLoc1 d) (fun w => (slabRect w).set) slabs_disjoint, slabs_cover]

/-- The whole output array of call 1 is its 32 row blocks. -/
theorem o1_rows (d : Dev nD) (f : Buf (Elt F) (oLoc1 d)) :
    (oLoc1 d ↦{fullShare} f : sProp 𝕄) = bigSep Finset.univ fun w : Fin 32 => oLoc1 d ↦[(rowsRect w).set]{fullShare} f := by
  rw [← pointsTo_biUnion Finset.univ (ℓ := oLoc1 d) (fun w => (rowsRect w).set) rows_disjoint, rows_cover]

/-- One worker's three pieces of call 1 are its share. -/
theorem worker1 (d : Dev nD) (w : Fin 32) (fy : Buf (Elt F) (yLoc d)) (fi : Buf (Elt F) (ixLoc1 d)) (fo : Buf (Elt F) (oLoc1 d))
    (hin : ∀ j, (fi j).toNat < 8192) :
    iprop((yLoc d ↦{ysh w} fy) ∗ (ixLoc1 d ↦[(slabRect w).set]{fullShare} fi) ∗ (oLoc1 d ↦[(rowsRect w).set]{fullShare} fo))
      ⊢ (share1 (F := F) d w : sProp 𝕄) := by
  unfold share1
  iintro ⟨Hy, Hi, Ho⟩
  isplitl [Hy]
  · iexists fy; iexact Hy
  isplitl [Hi]
  · iexists fi
    isplitl [Hi]
    · iexact Hi
    · ipureintro; exact fun j _ => hin j
  · iexists fo; iexact Ho

/-- CUTTING, call 1: the three whole arrays, the index array's entries all row numbers of y, are the 32 workers'
    shares, core by core. -/
theorem split_call1 (d : Dev nD) (fy : Buf (Elt F) (yLoc d)) (fi : Buf (Elt F) (ixLoc1 d)) (fo : Buf (Elt F) (oLoc1 d))
    (hin : ∀ j, (fi j).toNat < 8192) :
    iprop((yLoc d ↦{fullShare} fy) ∗ (ixLoc1 d ↦{fullShare} fi) ∗ (oLoc1 d ↦{fullShare} fo))
      ⊢ (bigSep Finset.univ fun c : Fin ((K (F := F)).nCore 1) => (P (F := F)).st 1 d c : sProp 𝕄) := by
  show _ ⊢ (bigSep Finset.univ fun c : Fin ((K (F := F)).nCore 1) => bigSep Finset.univ fun i : Fin ((K (F := F)).nSub 1) =>
      share1 (F := F) d (wid (Fin.cast (nCore_eq 1) c) (Fin.cast (nSub_eq 1) i)) : sProp 𝕄)
  rw [bigSep_workers (F := F) 1 (fun w => share1 (F := F) d w),
    pointsTo_shareAt Finset.univ fy 5 fullShare, ix1_slabs d fi, o1_rows d fo, ← bigSep_sep', ← bigSep_sep']
  exact bigSep_mono fun w _ => worker1 d w fy fi fo hin

/-- A slab handed back with its entries' bound is, forgetting the bound, a slab at some contents. -/
theorem slab1_forget (d : Dev nD) (w : Fin 32) :
    iprop(∃ fi : Buf (Elt F) (ixLoc1 d), (ixLoc1 d ↦[(slabRect w).set]{fullShare} fi) ∗ ⌜∀ j ∈ (slabRect w).set, (fi j).toNat < 8192⌝)
      ⊢ (iprop(∃ fi : Buf (Elt F) (ixLoc1 d), ixLoc1 d ↦[(slabRect w).set]{fullShare} fi) : sProp 𝕄) := by
  iintro ⟨%fi, Hi, -⟩
  iexists fi
  iexact Hi

theorem slabs1_forget (d : Dev nD) :
    (bigSep Finset.univ fun w : Fin 32 =>
        iprop(∃ fi : Buf (Elt F) (ixLoc1 d), (ixLoc1 d ↦[(slabRect w).set]{fullShare} fi) ∗ ⌜∀ j ∈ (slabRect w).set, (fi j).toNat < 8192⌝))
      ⊢ (bigSep Finset.univ fun w : Fin 32 => iprop(∃ fi : Buf (Elt F) (ixLoc1 d), ixLoc1 d ↦[(slabRect w).set]{fullShare} fi) : sProp 𝕄) :=
  bigSep_mono fun w _ => slab1_forget d w

/-- GLUING, call 1: what the 32 workers hand back, core by core, is the three whole arrays again, each at some
    contents. -/
theorem join_call1 (d : Dev nD) :
    (bigSep Finset.univ fun c : Fin ((K (F := F)).nCore 1) => (P (F := F)).dn 1 d c : sProp 𝕄)
      ⊢ iprop((∃ fy, yLoc d ↦{fullShare} fy) ∗ (∃ fi, ixLoc1 d ↦{fullShare} fi) ∗ ∃ fo, oLoc1 d ↦{fullShare} fo) := by
  show (bigSep Finset.univ fun c : Fin ((K (F := F)).nCore 1) => bigSep Finset.univ fun i : Fin ((K (F := F)).nSub 1) =>
      share1 (F := F) d (wid (Fin.cast (nCore_eq 1) c) (Fin.cast (nSub_eq 1) i)) : sProp 𝕄) ⊢ _
  rw [bigSep_workers (F := F) 1 (fun w => share1 (F := F) d w)]
  unfold share1
  rw [bigSep_sep', bigSep_sep']
  iintro ⟨Hy, Hi, Ho⟩
  isplitl [Hy]
  · ihave H := (shares_join (F := F) (ℓ := yLoc d) Finset.univ 5 fullShare) $$ Hy
    iexact H
  isplitl [Hi]
  · ihave H := (slabs1_forget (F := F) d) $$ Hi
    ihave H' := (pieces_join (F := F) (ℓ := ixLoc1 d) (fun w => (slabRect w).set) slabs_disjoint slabs_cover) $$ H
    iexact H'
  · ihave H := (pieces_join (F := F) (ℓ := oLoc1 d) (fun w => (rowsRect w).set) rows_disjoint rows_cover) $$ Ho
    iexact H
/-! ## Call 2 -/

/-- The whole index array of call 2 is its 32 slabs. -/
theorem ix2_slabs (d : Dev nD) (f : Buf (Elt F) (ixLoc2 d)) :
    (ixLoc2 d ↦{fullShare} f : sProp 𝕄) = bigSep Finset.univ fun w : Fin 32 => ixLoc2 d ↦[(slabRect w).set]{fullShare} f := by
  rw [← pointsTo_biUnion Finset.univ (ℓ := ixLoc2 d) (fun w => (slabRect w).set) slabs_disjoint, slabs_cover]

/-- The whole output array of call 2 is its 32 row blocks. -/
theorem o2_rows (d : Dev nD) (f : Buf (Elt F) (oLoc2 d)) :
    (oLoc2 d ↦{fullShare} f : sProp 𝕄) = bigSep Finset.univ fun w : Fin 32 => oLoc2 d ↦[(rowsRect w).set]{fullShare} f := by
  rw [← pointsTo_biUnion Finset.univ (ℓ := oLoc2 d) (fun w => (rowsRect w).set) rows_disjoint, rows_cover]

/-- One worker's three pieces of call 2 are its share. -/
theorem worker2 (d : Dev nD) (w : Fin 32) (fy : Buf (Elt F) (yLoc d)) (fi : Buf (Elt F) (ixLoc2 d)) (fo : Buf (Elt F) (oLoc2 d))
    (hin : ∀ j, (fi j).toNat < 8192) :
    iprop((yLoc d ↦{ysh w} fy) ∗ (ixLoc2 d ↦[(slabRect w).set]{fullShare} fi) ∗ (oLoc2 d ↦[(rowsRect w).set]{fullShare} fo))
      ⊢ (share2 (F := F) d w : sProp 𝕄) := by
  unfold share2
  iintro ⟨Hy, Hi, Ho⟩
  isplitl [Hy]
  · iexists fy; iexact Hy
  isplitl [Hi]
  · iexists fi
    isplitl [Hi]
    · iexact Hi
    · ipureintro; exact fun j _ => hin j
  · iexists fo; iexact Ho

/-- CUTTING, call 2: the three whole arrays, the index array's entries all row numbers of y, are the 32 workers'
    shares, core by core. -/
theorem split_call2 (d : Dev nD) (fy : Buf (Elt F) (yLoc d)) (fi : Buf (Elt F) (ixLoc2 d)) (fo : Buf (Elt F) (oLoc2 d))
    (hin : ∀ j, (fi j).toNat < 8192) :
    iprop((yLoc d ↦{fullShare} fy) ∗ (ixLoc2 d ↦{fullShare} fi) ∗ (oLoc2 d ↦{fullShare} fo))
      ⊢ (bigSep Finset.univ fun c : Fin ((K (F := F)).nCore 2) => (P (F := F)).st 2 d c : sProp 𝕄) := by
  show _ ⊢ (bigSep Finset.univ fun c : Fin ((K (F := F)).nCore 2) => bigSep Finset.univ fun i : Fin ((K (F := F)).nSub 2) =>
      share2 (F := F) d (wid (Fin.cast (nCore_eq 2) c) (Fin.cast (nSub_eq 2) i)) : sProp 𝕄)
  rw [bigSep_workers (F := F) 2 (fun w => share2 (F := F) d w),
    pointsTo_shareAt Finset.univ fy 5 fullShare, ix2_slabs d fi, o2_rows d fo, ← bigSep_sep', ← bigSep_sep']
  exact bigSep_mono fun w _ => worker2 d w fy fi fo hin

/-- A slab handed back with its entries' bound is, forgetting the bound, a slab at some contents. -/
theorem slab2_forget (d : Dev nD) (w : Fin 32) :
    iprop(∃ fi : Buf (Elt F) (ixLoc2 d), (ixLoc2 d ↦[(slabRect w).set]{fullShare} fi) ∗ ⌜∀ j ∈ (slabRect w).set, (fi j).toNat < 8192⌝)
      ⊢ (iprop(∃ fi : Buf (Elt F) (ixLoc2 d), ixLoc2 d ↦[(slabRect w).set]{fullShare} fi) : sProp 𝕄) := by
  iintro ⟨%fi, Hi, -⟩
  iexists fi
  iexact Hi

theorem slabs2_forget (d : Dev nD) :
    (bigSep Finset.univ fun w : Fin 32 =>
        iprop(∃ fi : Buf (Elt F) (ixLoc2 d), (ixLoc2 d ↦[(slabRect w).set]{fullShare} fi) ∗ ⌜∀ j ∈ (slabRect w).set, (fi j).toNat < 8192⌝))
      ⊢ (bigSep Finset.univ fun w : Fin 32 => iprop(∃ fi : Buf (Elt F) (ixLoc2 d), ixLoc2 d ↦[(slabRect w).set]{fullShare} fi) : sProp 𝕄) :=
  bigSep_mono fun w _ => slab2_forget d w

/-- GLUING, call 2: what the 32 workers hand back, core by core, is the three whole arrays again, each at some
    contents. -/
theorem join_call2 (d : Dev nD) :
    (bigSep Finset.univ fun c : Fin ((K (F := F)).nCore 2) => (P (F := F)).dn 2 d c : sProp 𝕄)
      ⊢ iprop((∃ fy, yLoc d ↦{fullShare} fy) ∗ (∃ fi, ixLoc2 d ↦{fullShare} fi) ∗ ∃ fo, oLoc2 d ↦{fullShare} fo) := by
  show (bigSep Finset.univ fun c : Fin ((K (F := F)).nCore 2) => bigSep Finset.univ fun i : Fin ((K (F := F)).nSub 2) =>
      share2 (F := F) d (wid (Fin.cast (nCore_eq 2) c) (Fin.cast (nSub_eq 2) i)) : sProp 𝕄) ⊢ _
  rw [bigSep_workers (F := F) 2 (fun w => share2 (F := F) d w)]
  unfold share2
  rw [bigSep_sep', bigSep_sep']
  iintro ⟨Hy, Hi, Ho⟩
  isplitl [Hy]
  · ihave H := (shares_join (F := F) (ℓ := yLoc d) Finset.univ 5 fullShare) $$ Hy
    iexact H
  isplitl [Hi]
  · ihave H := (slabs2_forget (F := F) d) $$ Hi
    ihave H' := (pieces_join (F := F) (ℓ := ixLoc2 d) (fun w => (slabRect w).set) slabs_disjoint slabs_cover) $$ H
    iexact H'
  · ihave H := (pieces_join (F := F) (ℓ := oLoc2 d) (fun w => (rowsRect w).set) rows_disjoint rows_cover) $$ Ho
    iexact H
/-! ## Call 3 -/

/-- The whole index array of call 3 is its 32 slabs. -/
theorem ix3_slabs (d : Dev nD) (f : Buf (Elt F) (ixLoc3 d)) :
    (ixLoc3 d ↦{fullShare} f : sProp 𝕄) = bigSep Finset.univ fun w : Fin 32 => ixLoc3 d ↦[(slabRect w).set]{fullShare} f := by
  rw [← pointsTo_biUnion Finset.univ (ℓ := ixLoc3 d) (fun w => (slabRect w).set) slabs_disjoint, slabs_cover]

/-- The whole output array of call 3 is its 32 row blocks. -/
theorem o3_rows (d : Dev nD) (f : Buf (Elt F) (oLoc3 d)) :
    (oLoc3 d ↦{fullShare} f : sProp 𝕄) = bigSep Finset.univ fun w : Fin 32 => oLoc3 d ↦[(rowsRect w).set]{fullShare} f := by
  rw [← pointsTo_biUnion Finset.univ (ℓ := oLoc3 d) (fun w => (rowsRect w).set) rows_disjoint, rows_cover]

/-- One worker's three pieces of call 3 are its share. -/
theorem worker3 (d : Dev nD) (w : Fin 32) (fy : Buf (Elt F) (yLoc d)) (fi : Buf (Elt F) (ixLoc3 d)) (fo : Buf (Elt F) (oLoc3 d))
    (hin : ∀ j, (fi j).toNat < 8192) :
    iprop((yLoc d ↦{ysh w} fy) ∗ (ixLoc3 d ↦[(slabRect w).set]{fullShare} fi) ∗ (oLoc3 d ↦[(rowsRect w).set]{fullShare} fo))
      ⊢ (share3 (F := F) d w : sProp 𝕄) := by
  unfold share3
  iintro ⟨Hy, Hi, Ho⟩
  isplitl [Hy]
  · iexists fy; iexact Hy
  isplitl [Hi]
  · iexists fi
    isplitl [Hi]
    · iexact Hi
    · ipureintro; exact fun j _ => hin j
  · iexists fo; iexact Ho

/-- CUTTING, call 3: the three whole arrays, the index array's entries all row numbers of y, are the 32 workers'
    shares, core by core. -/
theorem split_call3 (d : Dev nD) (fy : Buf (Elt F) (yLoc d)) (fi : Buf (Elt F) (ixLoc3 d)) (fo : Buf (Elt F) (oLoc3 d))
    (hin : ∀ j, (fi j).toNat < 8192) :
    iprop((yLoc d ↦{fullShare} fy) ∗ (ixLoc3 d ↦{fullShare} fi) ∗ (oLoc3 d ↦{fullShare} fo))
      ⊢ (bigSep Finset.univ fun c : Fin ((K (F := F)).nCore 3) => (P (F := F)).st 3 d c : sProp 𝕄) := by
  show _ ⊢ (bigSep Finset.univ fun c : Fin ((K (F := F)).nCore 3) => bigSep Finset.univ fun i : Fin ((K (F := F)).nSub 3) =>
      share3 (F := F) d (wid (Fin.cast (nCore_eq 3) c) (Fin.cast (nSub_eq 3) i)) : sProp 𝕄)
  rw [bigSep_workers (F := F) 3 (fun w => share3 (F := F) d w),
    pointsTo_shareAt Finset.univ fy 5 fullShare, ix3_slabs d fi, o3_rows d fo, ← bigSep_sep', ← bigSep_sep']
  exact bigSep_mono fun w _ => worker3 d w fy fi fo hin

/-- A slab handed back with its entries' bound is, forgetting the bound, a slab at some contents. -/
theorem slab3_forget (d : Dev nD) (w : Fin 32) :
    iprop(∃ fi : Buf (Elt F) (ixLoc3 d), (ixLoc3 d ↦[(slabRect w).set]{fullShare} fi) ∗ ⌜∀ j ∈ (slabRect w).set, (fi j).toNat < 8192⌝)
      ⊢ (iprop(∃ fi : Buf (Elt F) (ixLoc3 d), ixLoc3 d ↦[(slabRect w).set]{fullShare} fi) : sProp 𝕄) := by
  iintro ⟨%fi, Hi, -⟩
  iexists fi
  iexact Hi

theorem slabs3_forget (d : Dev nD) :
    (bigSep Finset.univ fun w : Fin 32 =>
        iprop(∃ fi : Buf (Elt F) (ixLoc3 d), (ixLoc3 d ↦[(slabRect w).set]{fullShare} fi) ∗ ⌜∀ j ∈ (slabRect w).set, (fi j).toNat < 8192⌝))
      ⊢ (bigSep Finset.univ fun w : Fin 32 => iprop(∃ fi : Buf (Elt F) (ixLoc3 d), ixLoc3 d ↦[(slabRect w).set]{fullShare} fi) : sProp 𝕄) :=
  bigSep_mono fun w _ => slab3_forget d w

/-- GLUING, call 3: what the 32 workers hand back, core by core, is the three whole arrays again, each at some
    contents. -/
theorem join_call3 (d : Dev nD) :
    (bigSep Finset.univ fun c : Fin ((K (F := F)).nCore 3) => (P (F := F)).dn 3 d c : sProp 𝕄)
      ⊢ iprop((∃ fy, yLoc d ↦{fullShare} fy) ∗ (∃ fi, ixLoc3 d ↦{fullShare} fi) ∗ ∃ fo, oLoc3 d ↦{fullShare} fo) := by
  show (bigSep Finset.univ fun c : Fin ((K (F := F)).nCore 3) => bigSep Finset.univ fun i : Fin ((K (F := F)).nSub 3) =>
      share3 (F := F) d (wid (Fin.cast (nCore_eq 3) c) (Fin.cast (nSub_eq 3) i)) : sProp 𝕄) ⊢ _
  rw [bigSep_workers (F := F) 3 (fun w => share3 (F := F) d w)]
  unfold share3
  rw [bigSep_sep', bigSep_sep']
  iintro ⟨Hy, Hi, Ho⟩
  isplitl [Hy]
  · ihave H := (shares_join (F := F) (ℓ := yLoc d) Finset.univ 5 fullShare) $$ Hy
    iexact H
  isplitl [Hi]
  · ihave H := (slabs3_forget (F := F) d) $$ Hi
    ihave H' := (pieces_join (F := F) (ℓ := ixLoc3 d) (fun w => (slabRect w).set) slabs_disjoint slabs_cover) $$ H
    iexact H'
  · ihave H := (pieces_join (F := F) (ℓ := oLoc3 d) (fun w => (rowsRect w).set) rows_disjoint rows_cover) $$ Ho
    iexact H

end Cert.KernelIdeal.Sc

end
-- ==== Proof.ScCall.lean ====
/-
  A sparse-core call as one step of the tensor core's walk through the program.

  Before call q the tensor core holds every array whole. The call is handed three of them: the flat array y, the
  call's index array and its output array. These are taken out of the set of whole arrays, cut among the 32 workers
  (the index array's entries being row numbers of y), the call runs, the workers' pieces are glued back into three
  whole arrays at some contents, and the three are put back. So the arrays end at a valuation that differs from the
  one before only at those three arrays, and the tensor core's handshake state has moved from before call q to
  before call q + 1.
-/
import proofs.«215235_g2774548873965_cont_9to1_572_34_alg».proof.Proof.ScState
import proofs.«215235_g2774548873965_cont_9to1_572_34_alg».proof.Proof.ScSplit

noncomputable section

namespace Cert.KernelIdeal.Sc

open Cert.KernelIdeal
open Idealize.ShloMosaic Idealize.ShloMosaic.StableHlo
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 4) (Elt F) ℕ UU ℕ

/-! ## Three arrays out of the whole set, and back -/

/-- The three arrays of a call, as a set of device buffers. -/
abbrev three (y ix o : Ref sig .tc) : Finset (DevRef τ sig) :=
  {Proc.devRef .tc y, Proc.devRef .tc ix, Proc.devRef .tc o}

/-- A valuation changed at three buffers. -/
def upd3 (W : Valuation τ sig (Elt F)) (y ix o : Ref sig .tc)
    (fy : (Proc.devRef (τ := τ) .tc y).ty.Contents (Elt F)) (fi : (Proc.devRef (τ := τ) .tc ix).ty.Contents (Elt F))
    (fo : (Proc.devRef (τ := τ) .tc o).ty.Contents (Elt F)) : Valuation τ sig (Elt F) :=
  Function.update (Function.update (Function.update W (Proc.devRef .tc y) fy) (Proc.devRef .tc ix) fi) (Proc.devRef .tc o) fo

/-- At its last buffer the changed valuation holds the new contents. -/
theorem upd3_o (W : Valuation τ sig (Elt F)) (y ix o : Ref sig .tc) (fy) (fi) (fo) :
    upd3 (F := F) W y ix o fy fi fo (Proc.devRef .tc o) = fo := by
  unfold upd3; rw [Function.update_self]

theorem upd3_ix (W : Valuation τ sig (Elt F)) (y ix o : Ref sig .tc) (hio : ix ≠ o) (fy) (fi) (fo) :
    upd3 (F := F) W y ix o fy fi fo (Proc.devRef .tc ix) = fi := by
  unfold upd3; rw [Function.update_of_ne (devRef_ne_of_ne hio), Function.update_self]

theorem upd3_y (W : Valuation τ sig (Elt F)) (y ix o : Ref sig .tc) (hyi : y ≠ ix) (hyo : y ≠ o) (fy) (fi) (fo) :
    upd3 (F := F) W y ix o fy fi fo (Proc.devRef .tc y) = fy := by
  unfold upd3; rw [Function.update_of_ne (devRef_ne_of_ne hyo), Function.update_of_ne (devRef_ne_of_ne hyi), Function.update_self]

/-- Off the three buffers nothing changed. -/
theorem upd3_off (W : Valuation τ sig (Elt F)) (y ix o : Ref sig .tc) (fy) (fi) (fo) (b : DevRef τ sig)
    (hb : b ∉ three y ix o) : upd3 (F := F) W y ix o fy fi fo b = W b := by
  have h := hb
  simp only [three, Finset.mem_insert, Finset.mem_singleton, not_or] at h
  unfold upd3
  rw [Function.update_of_ne h.2.2, Function.update_of_ne h.2.1, Function.update_of_ne h.1]

/-- Three distinct whole arrays of the tensor core, held together, are the three points-tos. -/
theorem held_three (d : Dev nD) (y ix o : Ref sig .tc) (hyi : y ≠ ix) (hyo : y ≠ o) (hio : ix ≠ o) (W : Valuation τ sig (Elt F)) :
    (held (d.tc : Thread nD τ) (three y ix o) W : sProp 𝕄)
      = iprop(((SparseCore.T d).loc y ↦{fullShare} W (Proc.devRef .tc y)) ∗ ((SparseCore.T d).loc ix ↦{fullShare} W (Proc.devRef .tc ix))
          ∗ ((SparseCore.T d).loc o ↦{fullShare} W (Proc.devRef .tc o))) := by
  have h1 : (Proc.devRef (τ := τ) .tc y) ∉ ({Proc.devRef .tc ix, Proc.devRef .tc o} : Finset (DevRef τ sig)) := by
    simp only [Finset.mem_insert, Finset.mem_singleton, not_or]
    exact ⟨devRef_ne_of_ne hyi, devRef_ne_of_ne hyo⟩
  have h2 : (Proc.devRef (τ := τ) .tc ix) ∉ ({Proc.devRef .tc o} : Finset (DevRef τ sig)) := by
    simp only [Finset.mem_singleton]
    exact devRef_ne_of_ne hio
  unfold held three
  rw [bigSep_insert h1, bigSep_insert h2, bigSep_singleton]
  rfl

/-- The three arrays are among the tensor core's whole arrays when none of them is scoped. -/
theorem three_sub (y ix o : Ref sig .tc) (hy : (Proc.devRef (τ := τ) .tc y).isScoped = false)
    (hi : (Proc.devRef (τ := τ) .tc ix).isScoped = false) (ho : (Proc.devRef (τ := τ) .tc o).isScoped = false) :
    three y ix o ⊆ Pipeline.ucRefs τ sig := by
  intro b hb
  simp only [three, Finset.mem_insert, Finset.mem_singleton] at hb
  unfold Pipeline.ucRefs
  rw [Finset.mem_filter]
  rcases hb with rfl | rfl | rfl
  · exact ⟨devRef_mem_tcRefs y, by rw [hy]; decide⟩
  · exact ⟨devRef_mem_tcRefs ix, by rw [hi]; decide⟩
  · exact ⟨devRef_mem_tcRefs o, by rw [ho]; decide⟩

/-! ## Call 0 -/

/-- THE CALL, as a step of the walk: from the state before call 0 with the index array's entries row numbers of y, the
    call runs, and what follows it runs from the state before call 1 at a valuation that differs from the one before
    only at the three arrays the call is handed. -/
theorem call0_step (κ : GSem nD τ sig → ℕ) (d : Dev nD) (W : Valuation τ sig (Elt F)) (Ps : Finset (Fin 6))
    (hin : ∀ j, (W (Proc.devRef .tc main_v19) j).toNat < 8192)
    {β : Type} (k : PUnit → Prog (TpuEff nD τ sig (Elt F) (SparseCore.Sig (ΛP (F := F)) 4) .tc) β) (Q : β → sProp 𝕄) :
    iprop((K (F := F)).ctx EH (P (F := F)) κ ∗ TS (F := F) d 0 W Ps
        ∗ (∀ W' : Valuation τ sig (Elt F), ⌜∀ b, b ∉ three main_v1 main_v19 main_v20 → W' b = W b⌝
            -∗ TS (F := F) d 1 W' Ps -∗ wp frame (wpE ((K (F := F)).defs (D (F := F))) 𝒱 (d.tc : Thread nD τ) none) Set.univ (k ⟨⟩) Q))
      ⊢ wp frame (wpE ((K (F := F)).defs (D (F := F))) 𝒱 (d.tc : Thread nD τ) none) Set.univ ((K (F := F)).run d 0 >>= k) Q := by
  have hsub : three main_v1 main_v19 main_v20 ⊆ Pipeline.ucRefs τ sig := three_sub _ _ _ (by decide) (by decide) (by decide)
  have hyi : main_v1 ≠ main_v19 := by decide
  have hyo : main_v1 ≠ main_v20 := by decide
  have hio : main_v19 ≠ main_v20 := by decide
  rw [wp_bind]
  unfold TS
  rw [held_sub_split (d.tc : Thread nD τ) hsub W, held_three d main_v1 main_v19 main_v20 hyi hyo hio W]
  iintro ⟨#Hctx, ⟨Hb, ⟨⟨Hy, Hi, Ho⟩, Hrest⟩, Hst, Hg⟩, Hk⟩
  iapply (SparseCore.Cfg.wp_run (K := K (F := F)) (D (F := F)) 𝒱 κ d 0)
  isplitr
  · iexact Hctx
  isplitl [Hst]
  · iexact Hst
  isplitl [Hy Hi Ho]
  · iapply (split_call0 (F := F) d _ _ _ hin)
    isplitl [Hy]
    · iexact Hy
    isplitl [Hi]
    · iexact Hi
    · iexact Ho
  iintro ⟨Hst', Hdn⟩
  ihave Hj := (join_call0 (F := F) d) $$ Hdn
  icases Hj with ⟨⟨%fy, Hy⟩, ⟨%fi, Hi⟩, ⟨%fo, Ho⟩⟩
  iapply Hk $$ %(upd3 (F := F) W main_v1 main_v19 main_v20 fy fi fo) %(fun b hb => upd3_off W main_v1 main_v19 main_v20 fy fi fo b hb) [Hb Hy Hi Ho Hrest Hst' Hg]
  rw [held_sub_split (d.tc : Thread nD τ) hsub (upd3 (F := F) W main_v1 main_v19 main_v20 fy fi fo),
    held_three d main_v1 main_v19 main_v20 hyi hyo hio (upd3 (F := F) W main_v1 main_v19 main_v20 fy fi fo),
    upd3_y W main_v1 main_v19 main_v20 hyi hyo fy fi fo, upd3_ix W main_v1 main_v19 main_v20 hio fy fi fo, upd3_o W main_v1 main_v19 main_v20 fy fi fo,
    held_congr (d.tc : Thread nD τ) (V := upd3 (F := F) W main_v1 main_v19 main_v20 fy fi fo) (V' := W)
      (fun b hb => upd3_off W main_v1 main_v19 main_v20 fy fi fo b (Finset.mem_sdiff.mp hb).2)]
  isplitl [Hb]
  · iexact Hb
  isplitl [Hy Hi Ho Hrest]
  · isplitl [Hy Hi Ho]
    · isplitl [Hy]
      · iexact Hy
      isplitl [Hi]
      · iexact Hi
      · iexact Ho
    · iexact Hrest
  isplitl [Hst']
  · iexact Hst'
  · iexact Hg

/-- The same, in the form the walk of the program cites. -/
theorem seg_call0 : SegCall (F := F) 0 main_v19 main_v20 (fun W => ∀ j, (W (Proc.devRef .tc main_v19) j).toNat < 8192) :=
  fun κ d W Ps hin _ k Q => call0_step κ d W Ps hin k Q

/-! ## Call 1 -/

/-- THE CALL, as a step of the walk: from the state before call 1 with the index array's entries row numbers of y, the
    call runs, and what follows it runs from the state before call 2 at a valuation that differs from the one before
    only at the three arrays the call is handed. -/
theorem call1_step (κ : GSem nD τ sig → ℕ) (d : Dev nD) (W : Valuation τ sig (Elt F)) (Ps : Finset (Fin 6))
    (hin : ∀ j, (W (Proc.devRef .tc main_v23) j).toNat < 8192)
    {β : Type} (k : PUnit → Prog (TpuEff nD τ sig (Elt F) (SparseCore.Sig (ΛP (F := F)) 4) .tc) β) (Q : β → sProp 𝕄) :
    iprop((K (F := F)).ctx EH (P (F := F)) κ ∗ TS (F := F) d 1 W Ps
        ∗ (∀ W' : Valuation τ sig (Elt F), ⌜∀ b, b ∉ three main_v1 main_v23 main_v24 → W' b = W b⌝
            -∗ TS (F := F) d 2 W' Ps -∗ wp frame (wpE ((K (F := F)).defs (D (F := F))) 𝒱 (d.tc : Thread nD τ) none) Set.univ (k ⟨⟩) Q))
      ⊢ wp frame (wpE ((K (F := F)).defs (D (F := F))) 𝒱 (d.tc : Thread nD τ) none) Set.univ ((K (F := F)).run d 1 >>= k) Q := by
  have hsub : three main_v1 main_v23 main_v24 ⊆ Pipeline.ucRefs τ sig := three_sub _ _ _ (by decide) (by decide) (by decide)
  have hyi : main_v1 ≠ main_v23 := by decide
  have hyo : main_v1 ≠ main_v24 := by decide
  have hio : main_v23 ≠ main_v24 := by decide
  rw [wp_bind]
  unfold TS
  rw [held_sub_split (d.tc : Thread nD τ) hsub W, held_three d main_v1 main_v23 main_v24 hyi hyo hio W]
  iintro ⟨#Hctx, ⟨Hb, ⟨⟨Hy, Hi, Ho⟩, Hrest⟩, Hst, Hg⟩, Hk⟩
  iapply (SparseCore.Cfg.wp_run (K := K (F := F)) (D (F := F)) 𝒱 κ d 1)
  isplitr
  · iexact Hctx
  isplitl [Hst]
  · iexact Hst
  isplitl [Hy Hi Ho]
  · iapply (split_call1 (F := F) d _ _ _ hin)
    isplitl [Hy]
    · iexact Hy
    isplitl [Hi]
    · iexact Hi
    · iexact Ho
  iintro ⟨Hst', Hdn⟩
  ihave Hj := (join_call1 (F := F) d) $$ Hdn
  icases Hj with ⟨⟨%fy, Hy⟩, ⟨%fi, Hi⟩, ⟨%fo, Ho⟩⟩
  iapply Hk $$ %(upd3 (F := F) W main_v1 main_v23 main_v24 fy fi fo) %(fun b hb => upd3_off W main_v1 main_v23 main_v24 fy fi fo b hb) [Hb Hy Hi Ho Hrest Hst' Hg]
  rw [held_sub_split (d.tc : Thread nD τ) hsub (upd3 (F := F) W main_v1 main_v23 main_v24 fy fi fo),
    held_three d main_v1 main_v23 main_v24 hyi hyo hio (upd3 (F := F) W main_v1 main_v23 main_v24 fy fi fo),
    upd3_y W main_v1 main_v23 main_v24 hyi hyo fy fi fo, upd3_ix W main_v1 main_v23 main_v24 hio fy fi fo, upd3_o W main_v1 main_v23 main_v24 fy fi fo,
    held_congr (d.tc : Thread nD τ) (V := upd3 (F := F) W main_v1 main_v23 main_v24 fy fi fo) (V' := W)
      (fun b hb => upd3_off W main_v1 main_v23 main_v24 fy fi fo b (Finset.mem_sdiff.mp hb).2)]
  isplitl [Hb]
  · iexact Hb
  isplitl [Hy Hi Ho Hrest]
  · isplitl [Hy Hi Ho]
    · isplitl [Hy]
      · iexact Hy
      isplitl [Hi]
      · iexact Hi
      · iexact Ho
    · iexact Hrest
  isplitl [Hst']
  · iexact Hst'
  · iexact Hg

/-- The same, in the form the walk of the program cites. -/
theorem seg_call1 : SegCall (F := F) 1 main_v23 main_v24 (fun W => ∀ j, (W (Proc.devRef .tc main_v23) j).toNat < 8192) :=
  fun κ d W Ps hin _ k Q => call1_step κ d W Ps hin k Q

/-! ## Call 2 -/

/-- THE CALL, as a step of the walk: from the state before call 2 with the index array's entries row numbers of y, the
    call runs, and what follows it runs from the state before call 3 at a valuation that differs from the one before
    only at the three arrays the call is handed. -/
theorem call2_step (κ : GSem nD τ sig → ℕ) (d : Dev nD) (W : Valuation τ sig (Elt F)) (Ps : Finset (Fin 6))
    (hin : ∀ j, (W (Proc.devRef .tc main_v27) j).toNat < 8192)
    {β : Type} (k : PUnit → Prog (TpuEff nD τ sig (Elt F) (SparseCore.Sig (ΛP (F := F)) 4) .tc) β) (Q : β → sProp 𝕄) :
    iprop((K (F := F)).ctx EH (P (F := F)) κ ∗ TS (F := F) d 2 W Ps
        ∗ (∀ W' : Valuation τ sig (Elt F), ⌜∀ b, b ∉ three main_v1 main_v27 main_v28 → W' b = W b⌝
            -∗ TS (F := F) d 3 W' Ps -∗ wp frame (wpE ((K (F := F)).defs (D (F := F))) 𝒱 (d.tc : Thread nD τ) none) Set.univ (k ⟨⟩) Q))
      ⊢ wp frame (wpE ((K (F := F)).defs (D (F := F))) 𝒱 (d.tc : Thread nD τ) none) Set.univ ((K (F := F)).run d 2 >>= k) Q := by
  have hsub : three main_v1 main_v27 main_v28 ⊆ Pipeline.ucRefs τ sig := three_sub _ _ _ (by decide) (by decide) (by decide)
  have hyi : main_v1 ≠ main_v27 := by decide
  have hyo : main_v1 ≠ main_v28 := by decide
  have hio : main_v27 ≠ main_v28 := by decide
  rw [wp_bind]
  unfold TS
  rw [held_sub_split (d.tc : Thread nD τ) hsub W, held_three d main_v1 main_v27 main_v28 hyi hyo hio W]
  iintro ⟨#Hctx, ⟨Hb, ⟨⟨Hy, Hi, Ho⟩, Hrest⟩, Hst, Hg⟩, Hk⟩
  iapply (SparseCore.Cfg.wp_run (K := K (F := F)) (D (F := F)) 𝒱 κ d 2)
  isplitr
  · iexact Hctx
  isplitl [Hst]
  · iexact Hst
  isplitl [Hy Hi Ho]
  · iapply (split_call2 (F := F) d _ _ _ hin)
    isplitl [Hy]
    · iexact Hy
    isplitl [Hi]
    · iexact Hi
    · iexact Ho
  iintro ⟨Hst', Hdn⟩
  ihave Hj := (join_call2 (F := F) d) $$ Hdn
  icases Hj with ⟨⟨%fy, Hy⟩, ⟨%fi, Hi⟩, ⟨%fo, Ho⟩⟩
  iapply Hk $$ %(upd3 (F := F) W main_v1 main_v27 main_v28 fy fi fo) %(fun b hb => upd3_off W main_v1 main_v27 main_v28 fy fi fo b hb) [Hb Hy Hi Ho Hrest Hst' Hg]
  rw [held_sub_split (d.tc : Thread nD τ) hsub (upd3 (F := F) W main_v1 main_v27 main_v28 fy fi fo),
    held_three d main_v1 main_v27 main_v28 hyi hyo hio (upd3 (F := F) W main_v1 main_v27 main_v28 fy fi fo),
    upd3_y W main_v1 main_v27 main_v28 hyi hyo fy fi fo, upd3_ix W main_v1 main_v27 main_v28 hio fy fi fo, upd3_o W main_v1 main_v27 main_v28 fy fi fo,
    held_congr (d.tc : Thread nD τ) (V := upd3 (F := F) W main_v1 main_v27 main_v28 fy fi fo) (V' := W)
      (fun b hb => upd3_off W main_v1 main_v27 main_v28 fy fi fo b (Finset.mem_sdiff.mp hb).2)]
  isplitl [Hb]
  · iexact Hb
  isplitl [Hy Hi Ho Hrest]
  · isplitl [Hy Hi Ho]
    · isplitl [Hy]
      · iexact Hy
      isplitl [Hi]
      · iexact Hi
      · iexact Ho
    · iexact Hrest
  isplitl [Hst']
  · iexact Hst'
  · iexact Hg

/-- The same, in the form the walk of the program cites. -/
theorem seg_call2 : SegCall (F := F) 2 main_v27 main_v28 (fun W => ∀ j, (W (Proc.devRef .tc main_v27) j).toNat < 8192) :=
  fun κ d W Ps hin _ k Q => call2_step κ d W Ps hin k Q

/-! ## Call 3 -/

/-- THE CALL, as a step of the walk: from the state before call 3 with the index array's entries row numbers of y, the
    call runs, and what follows it runs from the state before call 4 at a valuation that differs from the one before
    only at the three arrays the call is handed. -/
theorem call3_step (κ : GSem nD τ sig → ℕ) (d : Dev nD) (W : Valuation τ sig (Elt F)) (Ps : Finset (Fin 6))
    (hin : ∀ j, (W (Proc.devRef .tc main_v31) j).toNat < 8192)
    {β : Type} (k : PUnit → Prog (TpuEff nD τ sig (Elt F) (SparseCore.Sig (ΛP (F := F)) 4) .tc) β) (Q : β → sProp 𝕄) :
    iprop((K (F := F)).ctx EH (P (F := F)) κ ∗ TS (F := F) d 3 W Ps
        ∗ (∀ W' : Valuation τ sig (Elt F), ⌜∀ b, b ∉ three main_v1 main_v31 main_v32 → W' b = W b⌝
            -∗ TS (F := F) d 4 W' Ps -∗ wp frame (wpE ((K (F := F)).defs (D (F := F))) 𝒱 (d.tc : Thread nD τ) none) Set.univ (k ⟨⟩) Q))
      ⊢ wp frame (wpE ((K (F := F)).defs (D (F := F))) 𝒱 (d.tc : Thread nD τ) none) Set.univ ((K (F := F)).run d 3 >>= k) Q := by
  have hsub : three main_v1 main_v31 main_v32 ⊆ Pipeline.ucRefs τ sig := three_sub _ _ _ (by decide) (by decide) (by decide)
  have hyi : main_v1 ≠ main_v31 := by decide
  have hyo : main_v1 ≠ main_v32 := by decide
  have hio : main_v31 ≠ main_v32 := by decide
  rw [wp_bind]
  unfold TS
  rw [held_sub_split (d.tc : Thread nD τ) hsub W, held_three d main_v1 main_v31 main_v32 hyi hyo hio W]
  iintro ⟨#Hctx, ⟨Hb, ⟨⟨Hy, Hi, Ho⟩, Hrest⟩, Hst, Hg⟩, Hk⟩
  iapply (SparseCore.Cfg.wp_run (K := K (F := F)) (D (F := F)) 𝒱 κ d 3)
  isplitr
  · iexact Hctx
  isplitl [Hst]
  · iexact Hst
  isplitl [Hy Hi Ho]
  · iapply (split_call3 (F := F) d _ _ _ hin)
    isplitl [Hy]
    · iexact Hy
    isplitl [Hi]
    · iexact Hi
    · iexact Ho
  iintro ⟨Hst', Hdn⟩
  ihave Hj := (join_call3 (F := F) d) $$ Hdn
  icases Hj with ⟨⟨%fy, Hy⟩, ⟨%fi, Hi⟩, ⟨%fo, Ho⟩⟩
  iapply Hk $$ %(upd3 (F := F) W main_v1 main_v31 main_v32 fy fi fo) %(fun b hb => upd3_off W main_v1 main_v31 main_v32 fy fi fo b hb) [Hb Hy Hi Ho Hrest Hst' Hg]
  rw [held_sub_split (d.tc : Thread nD τ) hsub (upd3 (F := F) W main_v1 main_v31 main_v32 fy fi fo),
    held_three d main_v1 main_v31 main_v32 hyi hyo hio (upd3 (F := F) W main_v1 main_v31 main_v32 fy fi fo),
    upd3_y W main_v1 main_v31 main_v32 hyi hyo fy fi fo, upd3_ix W main_v1 main_v31 main_v32 hio fy fi fo, upd3_o W main_v1 main_v31 main_v32 fy fi fo,
    held_congr (d.tc : Thread nD τ) (V := upd3 (F := F) W main_v1 main_v31 main_v32 fy fi fo) (V' := W)
      (fun b hb => upd3_off W main_v1 main_v31 main_v32 fy fi fo b (Finset.mem_sdiff.mp hb).2)]
  isplitl [Hb]
  · iexact Hb
  isplitl [Hy Hi Ho Hrest]
  · isplitl [Hy Hi Ho]
    · isplitl [Hy]
      · iexact Hy
      isplitl [Hi]
      · iexact Hi
      · iexact Ho
    · iexact Hrest
  isplitl [Hst']
  · iexact Hst'
  · iexact Hg

/-- The same, in the form the walk of the program cites. -/
theorem seg_call3 : SegCall (F := F) 3 main_v31 main_v32 (fun W => ∀ j, (W (Proc.devRef .tc main_v31) j).toNat < 8192) :=
  fun κ d W Ps hin _ k Q => call3_step κ d W Ps hin k Q

end Cert.KernelIdeal.Sc

end
-- ==== Proof.ScFrame.lean ====
/-
  The kernel program's frame run, from what is owed for its ten launches.

  The launch theorem needs one tile's task per sparse-core call and the proof of @main. @main is walked (relative to
  its ten launches), and its four calls are proved; so what remains owed is: the six regions' segments, and the four
  tile tasks. From those, every thread of the device runs to its end, nothing faults, and the fourteen argument arrays
  end as launched.
-/
import proofs.«215235_g2774548873965_cont_9to1_572_34_alg».proof.Proof.ScWalk
import proofs.«215235_g2774548873965_cont_9to1_572_34_alg».proof.Proof.ScCall

noncomputable section

namespace Cert.KernelIdeal.Sc

open Cert.KernelIdeal
open Idealize.ShloMosaic Idealize.ShloMosaic.StableHlo
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 4) (Elt F) ℕ UU ℕ

/-- The frame's post on device d, of a final memory. -/
def keptIn (m : (ℓ : Loc nD τ sig) → Buf (Elt F) ℓ) (r : PUnit × MemSt nD τ sig (Elt F)) (d : Dev nD) : Prop :=
  r.2.mem ((SparseCore.T d).loc main_arg0) = m ((SparseCore.T d).loc main_arg0)
  ∧ r.2.mem ((SparseCore.T d).loc main_arg1) = m ((SparseCore.T d).loc main_arg1)
  ∧ r.2.mem ((SparseCore.T d).loc main_arg2) = m ((SparseCore.T d).loc main_arg2)
  ∧ r.2.mem ((SparseCore.T d).loc main_arg3) = m ((SparseCore.T d).loc main_arg3)
  ∧ r.2.mem ((SparseCore.T d).loc main_arg4) = m ((SparseCore.T d).loc main_arg4)
  ∧ r.2.mem ((SparseCore.T d).loc main_arg5) = m ((SparseCore.T d).loc main_arg5)
  ∧ r.2.mem ((SparseCore.T d).loc main_arg6) = m ((SparseCore.T d).loc main_arg6)
  ∧ r.2.mem ((SparseCore.T d).loc main_arg7) = m ((SparseCore.T d).loc main_arg7)
  ∧ r.2.mem ((SparseCore.T d).loc main_arg8) = m ((SparseCore.T d).loc main_arg8)
  ∧ r.2.mem ((SparseCore.T d).loc main_arg9) = m ((SparseCore.T d).loc main_arg9)
  ∧ r.2.mem ((SparseCore.T d).loc main_arg10) = m ((SparseCore.T d).loc main_arg10)
  ∧ r.2.mem ((SparseCore.T d).loc main_arg11) = m ((SparseCore.T d).loc main_arg11)
  ∧ r.2.mem ((SparseCore.T d).loc main_arg12) = m ((SparseCore.T d).loc main_arg12)
  ∧ r.2.mem ((SparseCore.T d).loc main_arg13) = m ((SparseCore.T d).loc main_arg13)

/-- Everything owed for the kernel program's frame: the six regions' segments of @main and the four tile tasks. -/
structure Owed : Prop where
  r0 : SegRegion (F := F) 0 0 (Proc.devRef .tc main_v1)
  r1 : SegRegion (F := F) 1 1 (Proc.devRef .tc main_v21)
  r2 : SegRegion (F := F) 2 2 (Proc.devRef .tc main_v25)
  r3 : SegRegion (F := F) 3 3 (Proc.devRef .tc main_v29)
  r4 : SegRegion (F := F) 4 4 (Proc.devRef .tc main_v33)
  r5 : SegRegion (F := F) 5 4 (Proc.devRef .tc main_v36)
  tile : ∀ q, (K (F := F)).TileObl (D (F := F)) 𝒱 (P (F := F)) v₀ q

/-- The kernel program's run: every thread ends, nothing faults, the fourteen argument arrays are as launched. -/
theorem run_frame_of [∀ e, Nonempty (Elt F e)] (h : Owed (F := F)) (m : (ℓ : Loc nD τ sig) → Buf (Elt F) ℓ) (ρ : Dev nD → PrngReg)
    (hok : NbrOK m) :
    θ_run (Cert.KernelIdeal.defs (F := F)) (Cert.KernelIdeal.threads (F := F)) ⟨m, fun _ => 0, ρ⟩ (fun r => ∀ d : Dev nD, keptIn m r d) :=
  run_of m ρ (FIN m) (fq m) (fun r => ∀ d : Dev nD, keptIn m r d) h.tile
    (hmain_of h.r0 h.r1 h.r2 h.r3 h.r4 h.r5 seg_call0 seg_call1 seg_call2 seg_call3 m ρ hok) (hfin m) (fun _ hh => hh)

end Cert.KernelIdeal.Sc

end
-- ==== Proof.Region0Body.lean ====
/-
  The first tensor-core region: y = x · W, one grid axis of 8 points. At point t the region stages rows
  1024·t … 1024·t + 1023 of x (a [1024,128] block), the whole [128,128] matrix W (its block index never moves), and
  an output block of the same rows of y. The body reads the two staged blocks whole, multiplies them, and overwrites
  the whole staged output block with the product.

  This file states that once, at a symbolic grid point, for any float instance and any ghost-state algebra, in the
  form the pipeline's region rule asks of a body: from the two input blocks staged (and the output buffer at
  anything) the body's label runs to the inputs unchanged and the output buffer at the product of the two blocks;
  whatever else the core holds (the invariant R, the tallies O it owes) passes through untouched.
-/
import proofs.«215235_g2774548873965_cont_9to1_572_34_alg».proof.KernelIdeal
import proofs.«215235_g2774548873965_cont_9to1_572_34_alg».proof.Proof.Gen.KernelIdeal
import proofs.«215235_g2774548873965_cont_9to1_572_34_alg».proof.Proof.Gen.KernelIdeal.Skeleton
import proofs.«215235_g2774548873965_cont_9to1_572_34_alg».proof.Proof.Gen.KernelIdeal.Launch
import proofs.«215235_g2774548873965_cont_9to1_572_34_alg».proof.Proof.Gen.KernelIdeal.Points
import Idealize.ShloMosaic.Lib.Pipeline.FrameBody
import Idealize.ShloMosaic.Lib.Tactic

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The three rectangles the body names: each is its buffer, whole -/

/-- All of a [1024,128] buffer: the staged block of x, and the staged block of y. -/
abbrev rBig : Rect S1024x128 := Rect.unit (s := S1024x128) ![0, 0] S1024x128.size inb_S1024x128_S1024x128_0_0
/-- All of the [128,128] buffer: the staged matrix W. -/
abbrev rSq : Rect S128x128 := Rect.unit (s := S128x128) ![0, 0] S128x128.size inb_S128x128_S128x128_0_0

/-! ## The product block -/

/-- What the body's one store leaves in the output buffer, as a function of the two input buffers' contents:
    the matrix product of the block of x by W (the printed multiply-accumulate from a zero accumulator), laid over
    the whole buffer. -/
def prodBlock (x : Vec F S1024x128 .f32) (w : Vec F S128x128 .f32) : Vec F S1024x128 .f32 :=
  View.canon [⟨rBig, k0_pay1 (View.ld x rBig) (View.ld w rSq)⟩]

/-- The one store's rectangle is the whole buffer, so every index of the buffer is under it. -/
theorem prod_covers (p : Vec F S1024x128 .f32) (y : S1024x128.Idx) :
    ∃ pc ∈ ([⟨rBig, p⟩] : List (View.Piece (Elt F) S1024x128 .f32)), y ∈ pc.1.set :=
  View.cover_of_tiled [⟨rBig, p⟩] S1024x128.size (by rfl) y

/-! ## The proof data -/

/-- Window w's block at point t, read off the array's contents at the region's entry. -/
def blockAt (c : Dev nD) (A : (w : Fin cfg0.W) → Buf (Elt F) ((cfg0.win w).arr.view.loc (c.tc : Thread nD τ)))
    (w : Fin cfg0.W) (t : Fin cfg0.N) : ((cfg0.win w).xblock (cfg0.grid.coords t)).Idx → Elt F (cfg0.win w).elt :=
  ((cfg0.win w).blk t).view.read (Elt F) (A w)

/-- The region's proof data on core c, for any entry contents A of the three arrays, any shares q of the two input
    arrays, any invariant R, any tallies O and any bound B on the pairs the core's waits have recorded: the body leaves
    each input buffer at its block and the output buffer at the product of the two blocks; R, O and B do not change from
    point to point. -/
def dat (c : Dev nD) (A : (w : Fin cfg0.W) → Buf (Elt F) ((cfg0.win w).arr.view.loc (c.tc : Thread nD τ)))
    (q : Fin cfg0.W → PosShare TreeShare) (R : sProp 𝕄) (O : CellTallies nD τ sig Ix) (B : Set (SemLoc sig × Ix)) :
    Dat τ (Elt F) Ix Name U Lvl cfg0 c where
  A := A
  after w t := match w with
    | ⟨0, _⟩ => blockAt c A 0 t
    | ⟨1, _⟩ => blockAt c A 1 t
    | ⟨2, _⟩ => prodBlock (blockAt c A 0 t) (blockAt c A 1 t)
  Φ _ := R
  q := q
  owed _ := O
  recorded _ := B

/-! ## The body on any three whole buffers -/

/-- The body, called on whole buffers holding x0, w0 and anything, returns them holding x0, w0 and the product. -/
theorem body_run (𝒱₀ : Variants) (c : Dev nD) (E : Set Name) (i : grid0.Coords)
    (a1 : Memref sig .tc .vmem S1024x128 .f32) (h1 : a1.IsWhole) (a2 : Memref sig .tc .vmem S128x128 .f32) (h2 : a2.IsWhole)
    (a3 : Memref sig .tc .vmem S1024x128 .f32) (h3 : a3.IsWhole)
    (x0 : Vec F S1024x128 .f32) (w0 : Vec F S128x128 .f32) (K : PUnit → sProp 𝕄) :
    iprop(owns (c : Thread nD τ) a1 fullShare x0 ∗ owns (c : Thread nD τ) a2 fullShare w0 ∗ (∃ d, owns (c : Thread nD τ) a3 fullShare d)
        ∗ (iprop(owns (c : Thread nD τ) a1 fullShare x0 ∗ owns (c : Thread nD τ) a2 fullShare w0
              ∗ owns (c : Thread nD τ) a3 fullShare (prodBlock x0 w0)) -∗ K ⟨⟩))
      ⊢ wp frame (wpE (defs₀ (F := F)) 𝒱₀ c none) E (cc0__in2f_kernel i a1 h1 a2 h2 a3 h3) K := by
  -- the printed function is its sequence of memory operations over the named product
  sl_unfold [cc0__in2f_kernel]
  unfold owns
  iintro ⟨⟨%f1, %e1, H1⟩, ⟨%f2, %e2, H2⟩, ⟨%d3, %f3, -, H3⟩, Hk⟩
  subst e1 e2
  -- two whole-buffer loads, the product (pure), a load of the output buffer nobody reads, the whole-buffer store
  sl_exec
  sl_step
  iapply Hk
  -- the inputs were only read
  isplitl [H1]
  · iexists f1; isplitr
    · ipureintro; rfl
    · iexact H1
  isplitl [H2]
  · iexists f2; isplitr
    · ipureintro; rfl
    · iexact H2
  -- the output buffer holds the one store's payload at every index, since that store's rectangle is the buffer
  iexists _
  isplitr
  rotate_left
  · iexact H3
  · ipureintro
    exact View.read_writes_eq_canon _ _ _ (prod_covers _)

/-! ## What the proof data says, window by window -/

section Facts

variable (c : Dev nD) (A : (w : Fin cfg0.W) → Buf (Elt F) ((cfg0.win w).arr.view.loc (c.tc : Thread nD τ)))
  (q : Fin cfg0.W → PosShare TreeShare) (O : CellTallies nD τ sig Ix) (B : Set (SemLoc sig × Ix))

/-- The body leaves the staged block of x as it is, -/
theorem after_x (R : sProp 𝕄) (t : Fin cfg0.N) :
    (dat (Name := Name) (Lvl := Lvl) c A q R O B).after 0 t = blockAt c A 0 t := by dsimp only [dat]
/-- the staged matrix as it is, -/
theorem after_w (R : sProp 𝕄) (t : Fin cfg0.N) :
    (dat (Name := Name) (Lvl := Lvl) c A q R O B).after 1 t = blockAt c A 1 t := by dsimp only [dat]
/-- and the output buffer at the product of the two. -/
theorem after_y (R : sProp 𝕄) (t : Fin cfg0.N) :
    (dat (Name := Name) (Lvl := Lvl) c A q R O B).after 2 t = prodBlock (blockAt c A 0 t) (blockAt c A 1 t) := by dsimp only [dat]

/-- The buffer staging x holds the point's block of x when the body starts: every point fetches it. (Stated through the
    general fact about an input the body does not change, which does not ask whether the point fetched.) -/
theorem before_x (R : sProp 𝕄) (t : Fin cfg0.N) (d) :
    (dat (Name := Name) (Lvl := Lvl) c A q R O B).before 0 t d = blockAt c A 0 t :=
  ((dat (Name := Name) (Lvl := Lvl) c A q R O B).before_in_eq_fetched 0 rfl (fun _ => rfl) (fun _ _ _ => rfl)
      (fun u => by rw [after_x]; rfl) t d).trans rfl

/-- The buffer staging W holds W at every point although only the first point fetches it: its block index never moves,
    and the body leaves it in place. -/
theorem before_w (R : sProp 𝕄) (t : Fin cfg0.N) (d) :
    (dat (Name := Name) (Lvl := Lvl) c A q R O B).before 1 t d = blockAt c A 1 t :=
  ((dat (Name := Name) (Lvl := Lvl) c A q R O B).before_in_eq_fetched 1 rfl (fun _ => rfl) (fun _ _ _ => rfl)
      (fun u => by rw [after_w]; rfl) t d).trans rfl

end Facts

/-! ## The obligation -/

/-- The body at a symbolic point t, the three windows written out: the inputs' buffers hold their blocks, so the run above
    applies; the invariant and what the core owes are the same before and after. -/
theorem at_point (𝒱₀ : Variants) (ι : Ix) (c : Dev nD)
    (A : (w : Fin cfg0.W) → Buf (Elt F) ((cfg0.win w).arr.view.loc (c.tc : Thread nD τ)))
    (q : Fin cfg0.W → PosShare TreeShare) (R : sProp 𝕄) (O : CellTallies nD τ sig Ix) (B : Set (SemLoc sig × Ix)) (t : Fin cfg0.N) :
    iprop((dat c A q R O B).Φ t.castSucc ∗ (dat c A q R O B).owesAt ι t.castSucc
        ∗ (∃ d, owns (c : Thread nD τ) (st0_0 t) fullShare ((dat c A q R O B).before 0 t d))
        ∗ (∃ d, owns (c : Thread nD τ) (st0_1 t) fullShare ((dat c A q R O B).before 1 t d))
        ∗ (∃ d, owns (c : Thread nD τ) (st0_2 t) fullShare ((dat c A q R O B).before 2 t d)))
      ⊢ wp frame (wpE (defs₀ (F := F)) 𝒱₀ c none) Set.univ (bodyAt0 t) fun _ =>
          iprop((dat c A q R O B).Φ t.succ ∗ (dat c A q R O B).owesAt ι t.succ
            ∗ owns (c : Thread nD τ) (st0_0 t) fullShare ((dat c A q R O B).after 0 t)
            ∗ owns (c : Thread nD τ) (st0_1 t) fullShare ((dat c A q R O B).after 1 t)
            ∗ owns (c : Thread nD τ) (st0_2 t) fullShare ((dat c A q R O B).after 2 t)) := by
  simp only [before_x, before_w]
  rw [show (dat c A q R O B).Φ t.succ = (dat c A q R O B).Φ t.castSucc from rfl,
    show (dat c A q R O B).owesAt ι t.succ = (dat c A q R O B).owesAt ι t.castSucc from rfl,
    after_x, after_w, after_y]
  iintro ⟨HR, HO, ⟨%d0, H0⟩, ⟨%d1, H1⟩, ⟨%d2, H2⟩⟩
  iapply (body_run 𝒱₀ c Set.univ _ _ _ _ _ _ _ (blockAt c A 0 t) (blockAt c A 1 t) _)
  isplitl [H0]; · iexact H0
  isplitl [H1]; · iexact H1
  isplitl [H2]; · iexists _; iexact H2
  iintro ⟨H0, H1, H2⟩
  isplitl [HR]; · iexact HR
  isplitl [HO]; · iexact HO
  isplitl [H0]; · iexact H0
  isplitl [H1]; · iexact H1
  iexact H2

/-- The region rule's hypothesis about the body, at every point of the grid. -/
theorem body_obligation (𝒱₀ : Variants) (ι : Ix) (c : Dev nD)
    (A : (w : Fin cfg0.W) → Buf (Elt F) ((cfg0.win w).arr.view.loc (c.tc : Thread nD τ)))
    (q : Fin cfg0.W → PosShare TreeShare) (R : sProp 𝕄) (O : CellTallies nD τ sig Ix) (B : Set (SemLoc sig × Ix)) :
    BodyObligation (dat c A q R O B) (defs₀ (F := F)) 𝒱₀ ι Set.univ := fun t => by
  rw [bigSep_W0, bigSep_W0]
  exact at_point 𝒱₀ ι c A q R O B t

/-! ## The region's record

What the region rule asks besides the body: the windows' layout, that the kernel has no semaphore of its own, the evidence
for the staging cells' waits (the caller's: it depends on what the core owes), and the region's protocol — what it is
entered with, what goes into the body's invariant, what comes back. Entered with the three arrays at contents A, the core
owing O with its recorded pairs within the bound, and anything else Z the caller holds, the region leaves the arrays at
what the eight write-backs made of them, the core still owing O within the same bound, and Z. -/

section Record

/-- A family over no index is the empty resource. -/
theorem bigSep_none {M : Type} [URA M] (Φ : Fin 0 → sProp M) : bigSep Finset.univ Φ = (BI.emp : sProp M) :=
  bigSep_univ_eq_bigSepL [] (by decide) (by decide) Φ

/-- The region has no prefetched table. -/
theorem no_tables (a : (p : Fin 6) → (pcfgs (F := F) p).Adm) (c : Dev nD) (q) (pf) :
    (Pipeline.prefHeld (Ix := Ix) (Name := Name) (U := U) (Lvl := Lvl) (Val := Elt F) (pcfgs (F := F) 0).pre c q pf : sProp 𝕄) = BI.emp :=
  bigSep_none _

/-- The invariant of this file's proof data is the same resource at every point. -/
theorem inv_eq (c : Dev nD) (A : (w : Fin cfg0.W) → Buf (Elt F) ((cfg0.win w).arr.view.loc (c.tc : Thread nD τ)))
    (q : Fin cfg0.W → PosShare TreeShare) (R : sProp 𝕄) (O : CellTallies nD τ sig Ix) (B : Set (SemLoc sig × Ix))
    (t : Fin (cfg0.N + 1)) : (dat (Name := Name) (Lvl := Lvl) c A q R O B).Φ t = R := rfl

/-- What the body may use and need not describe: the core's scoped buffers that stage nothing for this region. -/
def rest0 (a : (p : Fin 6) → (pcfgs (F := F) p).Adm) (c : Dev nD) : sProp 𝕄 :=
  Pipeline.scopedRest (Pipeline.pin (pcfgs (F := F)) a 0).spec c

/-- The record, for any proof data of the six pipelines whose first is this file's, on a core that owes the tallies
    `O c` throughout the region (the body neither pays nor takes on any unit), given the evidence that the region's
    own waits — on its staging cells — may be made while that much is owed. What the core owes is stated as the proof
    data states it (`owesAt`: some recorded set within the bound `B c` or the loop's own wait pairs). -/
def region0 (a : (p : Fin 6) → (pcfgs (F := F) p).Adm)
    (pdats : (p : Fin 6) → (c : Dev nD) → Dat τ (Elt F) Ix Name U Lvl (Pipeline.pin (pcfgs (F := F)) a p) c)
    (ι : Ix) (𝒱₀ : Variants) (L : GSem nD τ sig → Finset Ix) (lv : GSem nD τ sig → Ix → Lvl)
    (A : (c : Dev nD) → (w : Fin cfg0.W) → Buf (Elt F) ((cfg0.win w).arr.view.loc (c.tc : Thread nD τ)))
    (q : Fin cfg0.W → PosShare TreeShare) (O : Dev nD → CellTallies nD τ sig Ix) (B : Dev nD → Set (SemLoc sig × Ix))
    (h0 : ∀ c, pdats 0 c = dat c (A c) q (rest0 a c) (O c) (B c))
    (hw : ∀ c, (levAts L lv : sProp 𝕄) ⊢ Pipeline.cellsWaits (Pipeline.pin (pcfgs (F := F)) a) pdats ι 0 c)
    (Z : Dev nD → sProp 𝕄) :
    Pipeline.RegionSeg (pcfgs (F := F)) a pdats ι (defs₀ (F := F)) 𝒱₀ L lv 0 where
  win := (winFacts0.to₀ : Pipeline.WinFacts₀ spec0)
  block_pos := block_pos0
  stage_whole := stage_whole0
  K := PEmpty
  osem k := k.elim
  ho := Pipeline.OwnSemFacts.none _
  hbody c := by rw [h0 c]; exact (body_obligation 𝒱₀ ι c (A c) q (rest0 a c) (O c) (B c)).loose
  hwaits := hw
  pre c := iprop((pdats 0 c).arrays (fun w => (pdats 0 c).arrAt w 0) ∗ (pdats 0 c).owesAt ι 0 ∗ Z c)
  post c := iprop((pdats 0 c).arrays (fun w => (pdats 0 c).arrAt w cfg0.N) ∗ (pdats 0 c).owesAt ι (Fin.last cfg0.N) ∗ Z c)
  X _ := BI.emp
  Y _ := BI.emp
  Z := Z
  hentry c := by
    rw [no_tables a]
    iintro ⟨⟨HA, HO, HZ⟩, -, -⟩
    imodintro
    isplitl [HA]; · iexact HA
    isplitr; · iempintro
    isplitl [HO]; · iexact HO
    isplitr; · iempintro
    iexact HZ
  hin c := by
    rw [h0 c, inv_eq, rest0]
    iintro ⟨-, -, HS⟩; iexact HS
  hout c := by
    rw [h0 c, Pipeline.ownSems0_none, inv_eq, rest0]
    iintro HS
    isplitr; · iempintro
    isplitr; · iempintro
    iexact HS
  hexit c := by
    iintro ⟨HA, HO, -, HZ⟩
    imodintro
    isplitl [HA]; · iexact HA
    isplitl [HO]; · iexact HO
    iexact HZ

end Record

end Cert.KernelIdeal.Region0

end
-- ==== Proof.Region5Body.lean ====
/-
  The last tensor-core region: out = ssp((h₀ + h₁ + h₂ + h₃) · W₁ + b₁) · W₂ + b₂, one grid axis of 8 points, where
  ssp(v) = log(½ · exp v + ½). At point t the region stages W₁ and W₂ ([128,128] each) and the two bias rows b₁, b₂
  ([1,128] each) — their block index never moves, so only the first point fetches them —, rows 1024·t … 1024·t + 1023 of
  each of the four summands h₀ … h₃ ([1024,128] blocks, fetched at every point), and an output block of the same rows.
  The body reads the eight staged inputs whole, computes, and overwrites the whole staged output block.

  This file states that once, at a symbolic grid point, for any float instance and any ghost-state algebra, in the form
  the pipeline's region rule asks of a body: the inputs' buffers come back unchanged, the output buffer holds the value
  above of the eight input blocks, and whatever else the core holds (the invariant R, the tallies O it owes) passes
  through untouched.
-/
import proofs.«215235_g2774548873965_cont_9to1_572_34_alg».proof.KernelIdeal
import proofs.«215235_g2774548873965_cont_9to1_572_34_alg».proof.Proof.Gen.KernelIdeal
import proofs.«215235_g2774548873965_cont_9to1_572_34_alg».proof.Proof.Gen.KernelIdeal.Skeleton
import proofs.«215235_g2774548873965_cont_9to1_572_34_alg».proof.Proof.Gen.KernelIdeal.Launch
import proofs.«215235_g2774548873965_cont_9to1_572_34_alg».proof.Proof.Gen.KernelIdeal.Points
import Idealize.ShloMosaic.Lib.Pipeline.FrameBody
import Idealize.ShloMosaic.Lib.Tactic

noncomputable section

namespace Cert.KernelIdeal.Region5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The three rectangles the body names: each is its buffer, whole -/

/-- All of a [1024,128] buffer: a staged block of a summand, and the staged output block. -/
abbrev rBig : Rect S1024x128 := Rect.unit (s := S1024x128) ![0, 0] S1024x128.size inb_S1024x128_S1024x128_0_0
/-- All of a [128,128] buffer: a staged weight matrix. -/
abbrev rSq : Rect S128x128 := Rect.unit (s := S128x128) ![0, 0] S128x128.size inb_S128x128_S128x128_0_0
/-- All of a [1,128] buffer: a staged bias row. -/
abbrev rRow : Rect S1x128 := Rect.unit (s := S1x128) ![0, 0] S1x128.size inb_S1x128_S1x128_0_0

/-! ## The output block -/

/-- What the body's one store leaves in the output buffer, as a function of the eight input buffers' contents (the
    weights and biases first, then the four summands, in the windows' order): the printed value — the summands added,
    times W₁, plus b₁ along the rows, through log(½·exp + ½), times W₂, plus b₂ along the rows — laid over the whole
    buffer. -/
def tailBlock (w1 : Vec F S128x128 .f32) (b1 : Vec F S1x128 .f32) (w2 : Vec F S128x128 .f32) (b2 : Vec F S1x128 .f32)
    (h0 h1 h2 h3 : Vec F S1024x128 .f32) : Vec F S1024x128 .f32 :=
  View.canon [⟨rBig, k9_pay1 (View.ld h0 rBig) (View.ld h1 rBig) (View.ld h2 rBig) (View.ld h3 rBig)
    (View.ld w1 rSq) (View.ld b1 rRow) (View.ld w2 rSq) (View.ld b2 rRow)⟩]

/-- The one store's rectangle is the whole buffer, so every index of the buffer is under it. -/
theorem tail_covers (p : Vec F S1024x128 .f32) (y : S1024x128.Idx) :
    ∃ pc ∈ ([⟨rBig, p⟩] : List (View.Piece (Elt F) S1024x128 .f32)), y ∈ pc.1.set :=
  View.cover_of_tiled [⟨rBig, p⟩] S1024x128.size (by rfl) y

/-! ## The proof data -/

/-- Window w's block at point t, read off the array's contents at the region's entry. -/
def blockAt (c : Dev nD) (A : (w : Fin cfg9.W) → Buf (Elt F) ((cfg9.win w).arr.view.loc (c.tc : Thread nD τ)))
    (w : Fin cfg9.W) (t : Fin cfg9.N) : ((cfg9.win w).xblock (cfg9.grid.coords t)).Idx → Elt F (cfg9.win w).elt :=
  ((cfg9.win w).blk t).view.read (Elt F) (A w)

/-- The region's proof data on core c, for any entry contents A of the nine arrays, any shares q of the eight input
    arrays, any invariant R, any tallies O and any bound B on the pairs the core's waits have recorded: the body leaves
    each input buffer at its block and the output buffer at the value of the eight blocks; R, O and B do not change
    from point to point. -/
def dat (c : Dev nD) (A : (w : Fin cfg9.W) → Buf (Elt F) ((cfg9.win w).arr.view.loc (c.tc : Thread nD τ)))
    (q : Fin cfg9.W → PosShare TreeShare) (R : sProp 𝕄) (O : CellTallies nD τ sig Ix) (B : Set (SemLoc sig × Ix)) :
    Dat τ (Elt F) Ix Name U Lvl cfg9 c where
  A := A
  after w t := match w with
    | ⟨0, _⟩ => blockAt c A 0 t
    | ⟨1, _⟩ => blockAt c A 1 t
    | ⟨2, _⟩ => blockAt c A 2 t
    | ⟨3, _⟩ => blockAt c A 3 t
    | ⟨4, _⟩ => blockAt c A 4 t
    | ⟨5, _⟩ => blockAt c A 5 t
    | ⟨6, _⟩ => blockAt c A 6 t
    | ⟨7, _⟩ => blockAt c A 7 t
    | ⟨8, _⟩ => tailBlock (blockAt c A 0 t) (blockAt c A 1 t) (blockAt c A 2 t) (blockAt c A 3 t)
        (blockAt c A 4 t) (blockAt c A 5 t) (blockAt c A 6 t) (blockAt c A 7 t)
  Φ _ := R
  q := q
  owed _ := O
  recorded _ := B

/-! ## The body on any nine whole buffers -/

/-- The body, called on whole buffers holding the eight inputs and anything, returns them holding the eight inputs and
    the output value. -/
theorem body_run (𝒱₀ : Variants) (c : Dev nD) (E : Set Name) (i : grid9.Coords)
    (a1 : Memref sig .tc .vmem S128x128 .f32) (g1 : a1.IsWhole) (a2 : Memref sig .tc .vmem S1x128 .f32) (g2 : a2.IsWhole)
    (a3 : Memref sig .tc .vmem S128x128 .f32) (g3 : a3.IsWhole) (a4 : Memref sig .tc .vmem S1x128 .f32) (g4 : a4.IsWhole)
    (a5 : Memref sig .tc .vmem S1024x128 .f32) (g5 : a5.IsWhole) (a6 : Memref sig .tc .vmem S1024x128 .f32) (g6 : a6.IsWhole)
    (a7 : Memref sig .tc .vmem S1024x128 .f32) (g7 : a7.IsWhole) (a8 : Memref sig .tc .vmem S1024x128 .f32) (g8 : a8.IsWhole)
    (a9 : Memref sig .tc .vmem S1024x128 .f32) (g9 : a9.IsWhole)
    (w1 : Vec F S128x128 .f32) (b1 : Vec F S1x128 .f32) (w2 : Vec F S128x128 .f32) (b2 : Vec F S1x128 .f32)
    (h0 h1 h2 h3 : Vec F S1024x128 .f32) (K : PUnit → sProp 𝕄) :
    iprop(owns (c : Thread nD τ) a1 fullShare w1 ∗ owns (c : Thread nD τ) a2 fullShare b1
        ∗ owns (c : Thread nD τ) a3 fullShare w2 ∗ owns (c : Thread nD τ) a4 fullShare b2
        ∗ owns (c : Thread nD τ) a5 fullShare h0 ∗ owns (c : Thread nD τ) a6 fullShare h1
        ∗ owns (c : Thread nD τ) a7 fullShare h2 ∗ owns (c : Thread nD τ) a8 fullShare h3
        ∗ (∃ d, owns (c : Thread nD τ) a9 fullShare d)
        ∗ (iprop(owns (c : Thread nD τ) a1 fullShare w1 ∗ owns (c : Thread nD τ) a2 fullShare b1
              ∗ owns (c : Thread nD τ) a3 fullShare w2 ∗ owns (c : Thread nD τ) a4 fullShare b2
              ∗ owns (c : Thread nD τ) a5 fullShare h0 ∗ owns (c : Thread nD τ) a6 fullShare h1
              ∗ owns (c : Thread nD τ) a7 fullShare h2 ∗ owns (c : Thread nD τ) a8 fullShare h3
              ∗ owns (c : Thread nD τ) a9 fullShare (tailBlock w1 b1 w2 b2 h0 h1 h2 h3)) -∗ K ⟨⟩))
      ⊢ wp frame (wpE (defs₀ (F := F)) 𝒱₀ c none) E
          (cc9__tail_kernel i a1 g1 a2 g2 a3 g3 a4 g4 a5 g5 a6 g6 a7 g7 a8 g8 a9 g9) K := by
  -- the printed function is its sequence of memory operations over the named value
  sl_unfold [cc9__tail_kernel]
  unfold owns
  iintro ⟨⟨%f1, %e1, H1⟩, ⟨%f2, %e2, H2⟩, ⟨%f3, %e3, H3⟩, ⟨%f4, %e4, H4⟩, ⟨%f5, %e5, H5⟩, ⟨%f6, %e6, H6⟩,
    ⟨%f7, %e7, H7⟩, ⟨%f8, %e8, H8⟩, ⟨%d9, %f9, -, H9⟩, Hk⟩
  subst e1 e2 e3 e4 e5 e6 e7 e8
  -- eight whole-buffer loads, the value (pure), a load of the output buffer nobody reads, the whole-buffer store
  sl_exec
  sl_step
  iapply Hk
  -- the inputs were only read
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists f7; isplitr
    · ipureintro; rfl
    · iexact H7
  isplitl [H8]
  · iexists f8; isplitr
    · ipureintro; rfl
    · iexact H8
  -- the output buffer holds the one store's payload at every index, since that store's rectangle is the buffer
  iexists _
  isplitr
  rotate_left
  · iexact H9
  · ipureintro
    exact View.read_writes_eq_canon _ _ _ (tail_covers _)

/-! ## What the proof data says, window by window -/

section Facts

variable (c : Dev nD) (A : (w : Fin cfg9.W) → Buf (Elt F) ((cfg9.win w).arr.view.loc (c.tc : Thread nD τ)))
  (q : Fin cfg9.W → PosShare TreeShare) (O : CellTallies nD τ sig Ix) (B : Set (SemLoc sig × Ix))

/-- The body leaves each staged input as it is, -/
theorem after_in0 (R : sProp 𝕄) (t : Fin cfg9.N) : (dat (Name := Name) (Lvl := Lvl) c A q R O B).after 0 t = blockAt c A 0 t := by dsimp only [dat]
theorem after_in1 (R : sProp 𝕄) (t : Fin cfg9.N) : (dat (Name := Name) (Lvl := Lvl) c A q R O B).after 1 t = blockAt c A 1 t := by dsimp only [dat]
theorem after_in2 (R : sProp 𝕄) (t : Fin cfg9.N) : (dat (Name := Name) (Lvl := Lvl) c A q R O B).after 2 t = blockAt c A 2 t := by dsimp only [dat]
theorem after_in3 (R : sProp 𝕄) (t : Fin cfg9.N) : (dat (Name := Name) (Lvl := Lvl) c A q R O B).after 3 t = blockAt c A 3 t := by dsimp only [dat]
theorem after_in4 (R : sProp 𝕄) (t : Fin cfg9.N) : (dat (Name := Name) (Lvl := Lvl) c A q R O B).after 4 t = blockAt c A 4 t := by dsimp only [dat]
theorem after_in5 (R : sProp 𝕄) (t : Fin cfg9.N) : (dat (Name := Name) (Lvl := Lvl) c A q R O B).after 5 t = blockAt c A 5 t := by dsimp only [dat]
theorem after_in6 (R : sProp 𝕄) (t : Fin cfg9.N) : (dat (Name := Name) (Lvl := Lvl) c A q R O B).after 6 t = blockAt c A 6 t := by dsimp only [dat]
theorem after_in7 (R : sProp 𝕄) (t : Fin cfg9.N) : (dat (Name := Name) (Lvl := Lvl) c A q R O B).after 7 t = blockAt c A 7 t := by dsimp only [dat]
/-- and the output buffer at the value of the eight blocks. -/
theorem after_out (R : sProp 𝕄) (t : Fin cfg9.N) :
    (dat (Name := Name) (Lvl := Lvl) c A q R O B).after 8 t
      = tailBlock (blockAt c A 0 t) (blockAt c A 1 t) (blockAt c A 2 t) (blockAt c A 3 t)
          (blockAt c A 4 t) (blockAt c A 5 t) (blockAt c A 6 t) (blockAt c A 7 t) := by dsimp only [dat]

/-- Each input's staged buffer holds the point's block of its array when the body starts, whether or not the point
    fetched it: the weights' and biases' block index never moves and the body leaves them in place; the summands are
    fetched at every point. (One general fact about an input the body does not change covers both.) -/
theorem before_in0 (R : sProp 𝕄) (t : Fin cfg9.N) (d) : (dat (Name := Name) (Lvl := Lvl) c A q R O B).before 0 t d = blockAt c A 0 t :=
  ((dat (Name := Name) (Lvl := Lvl) c A q R O B).before_in_eq_fetched 0 rfl (fun _ => rfl) (fun _ _ _ => rfl) (fun u => by rw [after_in0]; rfl) t d).trans rfl
theorem before_in1 (R : sProp 𝕄) (t : Fin cfg9.N) (d) : (dat (Name := Name) (Lvl := Lvl) c A q R O B).before 1 t d = blockAt c A 1 t :=
  ((dat (Name := Name) (Lvl := Lvl) c A q R O B).before_in_eq_fetched 1 rfl (fun _ => rfl) (fun _ _ _ => rfl) (fun u => by rw [after_in1]; rfl) t d).trans rfl
theorem before_in2 (R : sProp 𝕄) (t : Fin cfg9.N) (d) : (dat (Name := Name) (Lvl := Lvl) c A q R O B).before 2 t d = blockAt c A 2 t :=
  ((dat (Name := Name) (Lvl := Lvl) c A q R O B).before_in_eq_fetched 2 rfl (fun _ => rfl) (fun _ _ _ => rfl) (fun u => by rw [after_in2]; rfl) t d).trans rfl
theorem before_in3 (R : sProp 𝕄) (t : Fin cfg9.N) (d) : (dat (Name := Name) (Lvl := Lvl) c A q R O B).before 3 t d = blockAt c A 3 t :=
  ((dat (Name := Name) (Lvl := Lvl) c A q R O B).before_in_eq_fetched 3 rfl (fun _ => rfl) (fun _ _ _ => rfl) (fun u => by rw [after_in3]; rfl) t d).trans rfl
theorem before_in4 (R : sProp 𝕄) (t : Fin cfg9.N) (d) : (dat (Name := Name) (Lvl := Lvl) c A q R O B).before 4 t d = blockAt c A 4 t :=
  ((dat (Name := Name) (Lvl := Lvl) c A q R O B).before_in_eq_fetched 4 rfl (fun _ => rfl) (fun _ _ _ => rfl) (fun u => by rw [after_in4]; rfl) t d).trans rfl
theorem before_in5 (R : sProp 𝕄) (t : Fin cfg9.N) (d) : (dat (Name := Name) (Lvl := Lvl) c A q R O B).before 5 t d = blockAt c A 5 t :=
  ((dat (Name := Name) (Lvl := Lvl) c A q R O B).before_in_eq_fetched 5 rfl (fun _ => rfl) (fun _ _ _ => rfl) (fun u => by rw [after_in5]; rfl) t d).trans rfl
theorem before_in6 (R : sProp 𝕄) (t : Fin cfg9.N) (d) : (dat (Name := Name) (Lvl := Lvl) c A q R O B).before 6 t d = blockAt c A 6 t :=
  ((dat (Name := Name) (Lvl := Lvl) c A q R O B).before_in_eq_fetched 6 rfl (fun _ => rfl) (fun _ _ _ => rfl) (fun u => by rw [after_in6]; rfl) t d).trans rfl
theorem before_in7 (R : sProp 𝕄) (t : Fin cfg9.N) (d) : (dat (Name := Name) (Lvl := Lvl) c A q R O B).before 7 t d = blockAt c A 7 t :=
  ((dat (Name := Name) (Lvl := Lvl) c A q R O B).before_in_eq_fetched 7 rfl (fun _ => rfl) (fun _ _ _ => rfl) (fun u => by rw [after_in7]; rfl) t d).trans rfl

end Facts

/-! ## The obligation -/

/-- The body at a symbolic point t, the nine windows written out: the inputs' buffers hold their blocks, so the run above
    applies; the invariant and what the core owes are the same before and after. -/
theorem at_point (𝒱₀ : Variants) (ι : Ix) (c : Dev nD) (A : (w : Fin cfg9.W) → Buf (Elt F) ((cfg9.win w).arr.view.loc (c.tc : Thread nD τ)))
    (q : Fin cfg9.W → PosShare TreeShare) (R : sProp 𝕄) (O : CellTallies nD τ sig Ix) (B : Set (SemLoc sig × Ix)) (t : Fin cfg9.N) :
    iprop((dat c A q R O B).Φ t.castSucc ∗ (dat c A q R O B).owesAt ι t.castSucc
        ∗ (∃ d, owns (c : Thread nD τ) (st9_0 t) fullShare ((dat c A q R O B).before 0 t d))
        ∗ (∃ d, owns (c : Thread nD τ) (st9_1 t) fullShare ((dat c A q R O B).before 1 t d))
        ∗ (∃ d, owns (c : Thread nD τ) (st9_2 t) fullShare ((dat c A q R O B).before 2 t d))
        ∗ (∃ d, owns (c : Thread nD τ) (st9_3 t) fullShare ((dat c A q R O B).before 3 t d))
        ∗ (∃ d, owns (c : Thread nD τ) (st9_4 t) fullShare ((dat c A q R O B).before 4 t d))
        ∗ (∃ d, owns (c : Thread nD τ) (st9_5 t) fullShare ((dat c A q R O B).before 5 t d))
        ∗ (∃ d, owns (c : Thread nD τ) (st9_6 t) fullShare ((dat c A q R O B).before 6 t d))
        ∗ (∃ d, owns (c : Thread nD τ) (st9_7 t) fullShare ((dat c A q R O B).before 7 t d))
        ∗ (∃ d, owns (c : Thread nD τ) (st9_8 t) fullShare ((dat c A q R O B).before 8 t d)))
      ⊢ wp frame (wpE (defs₀ (F := F)) 𝒱₀ c none) Set.univ (bodyAt9 t) fun _ =>
          iprop((dat c A q R O B).Φ t.succ ∗ (dat c A q R O B).owesAt ι t.succ
            ∗ owns (c : Thread nD τ) (st9_0 t) fullShare ((dat c A q R O B).after 0 t)
            ∗ owns (c : Thread nD τ) (st9_1 t) fullShare ((dat c A q R O B).after 1 t)
            ∗ owns (c : Thread nD τ) (st9_2 t) fullShare ((dat c A q R O B).after 2 t)
            ∗ owns (c : Thread nD τ) (st9_3 t) fullShare ((dat c A q R O B).after 3 t)
            ∗ owns (c : Thread nD τ) (st9_4 t) fullShare ((dat c A q R O B).after 4 t)
            ∗ owns (c : Thread nD τ) (st9_5 t) fullShare ((dat c A q R O B).after 5 t)
            ∗ owns (c : Thread nD τ) (st9_6 t) fullShare ((dat c A q R O B).after 6 t)
            ∗ owns (c : Thread nD τ) (st9_7 t) fullShare ((dat c A q R O B).after 7 t)
            ∗ owns (c : Thread nD τ) (st9_8 t) fullShare ((dat c A q R O B).after 8 t)) := by
  simp only [before_in0, before_in1, before_in2, before_in3, before_in4, before_in5, before_in6, before_in7]
  rw [show (dat c A q R O B).Φ t.succ = (dat c A q R O B).Φ t.castSucc from rfl,
    show (dat c A q R O B).owesAt ι t.succ = (dat c A q R O B).owesAt ι t.castSucc from rfl,
    after_in0, after_in1, after_in2, after_in3, after_in4, after_in5, after_in6, after_in7, after_out]
  iintro ⟨HR, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_run 𝒱₀ c Set.univ _ _ _ _ _ _ _ _ _ _ _ _ _ _ _ _ _ _ _
    (blockAt c A 0 t) (blockAt c A 1 t) (blockAt c A 2 t) (blockAt c A 3 t)
    (blockAt c A 4 t) (blockAt c A 5 t) (blockAt c A 6 t) (blockAt c A 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HR]; · iexact HR
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The region rule's hypothesis about the body, at every point of the grid. -/
theorem body_obligation (𝒱₀ : Variants) (ι : Ix) (c : Dev nD) (A : (w : Fin cfg9.W) → Buf (Elt F) ((cfg9.win w).arr.view.loc (c.tc : Thread nD τ)))
    (q : Fin cfg9.W → PosShare TreeShare) (R : sProp 𝕄) (O : CellTallies nD τ sig Ix) (B : Set (SemLoc sig × Ix)) :
    BodyObligation (dat c A q R O B) (defs₀ (F := F)) 𝒱₀ ι Set.univ := fun t => by
  rw [bigSep_W9, bigSep_W9]
  exact at_point 𝒱₀ ι c A q R O B t

/-! ## The region's record

What the region rule asks besides the body: the windows' layout, that the kernel has no semaphore of its own, the evidence
for the staging cells' waits (the caller's: it depends on what the core owes), and the region's protocol — what it is
entered with, what goes into the body's invariant, what comes back. Entered with the nine arrays at contents A, the core
owing O with its recorded pairs within the bound, and anything else Z the caller holds, the region leaves the arrays at
what the eight write-backs made of them, the core still owing O within the same bound, and Z. -/

section Record

/-- A family over no index is the empty resource. -/
theorem bigSep_none {M : Type} [URA M] (Φ : Fin 0 → sProp M) : bigSep Finset.univ Φ = (BI.emp : sProp M) :=
  bigSep_univ_eq_bigSepL [] (by decide) (by decide) Φ

/-- The region has no prefetched table. -/
theorem no_tables (a : (p : Fin 6) → (pcfgs (F := F) p).Adm) (c : Dev nD) (q) (pf) :
    (Pipeline.prefHeld (Ix := Ix) (Name := Name) (U := U) (Lvl := Lvl) (Val := Elt F) (pcfgs (F := F) 5).pre c q pf : sProp 𝕄) = BI.emp :=
  bigSep_none _

/-- The invariant of this file's proof data is the same resource at every point. -/
theorem inv_eq (c : Dev nD) (A : (w : Fin cfg9.W) → Buf (Elt F) ((cfg9.win w).arr.view.loc (c.tc : Thread nD τ)))
    (q : Fin cfg9.W → PosShare TreeShare) (R : sProp 𝕄) (O : CellTallies nD τ sig Ix) (B : Set (SemLoc sig × Ix))
    (t : Fin (cfg9.N + 1)) : (dat (Name := Name) (Lvl := Lvl) c A q R O B).Φ t = R := rfl

/-- What the body may use and need not describe: the core's scoped buffers that stage nothing for this region. -/
def rest5 (a : (p : Fin 6) → (pcfgs (F := F) p).Adm) (c : Dev nD) : sProp 𝕄 :=
  Pipeline.scopedRest (Pipeline.pin (pcfgs (F := F)) a 5).spec c

/-- The record, for any proof data of the six pipelines whose last is this file's, on a core that owes the tallies
    `O c` throughout the region (the body neither pays nor takes on any unit), given the evidence that the region's
    own waits — on its staging cells — may be made while that much is owed. What the core owes is stated as the proof
    data states it (`owesAt`: some recorded set within the bound `B c` or the loop's own wait pairs). -/
def region5 (a : (p : Fin 6) → (pcfgs (F := F) p).Adm)
    (pdats : (p : Fin 6) → (c : Dev nD) → Dat τ (Elt F) Ix Name U Lvl (Pipeline.pin (pcfgs (F := F)) a p) c)
    (ι : Ix) (𝒱₀ : Variants) (L : GSem nD τ sig → Finset Ix) (lv : GSem nD τ sig → Ix → Lvl)
    (A : (c : Dev nD) → (w : Fin cfg9.W) → Buf (Elt F) ((cfg9.win w).arr.view.loc (c.tc : Thread nD τ)))
    (q : Fin cfg9.W → PosShare TreeShare) (O : Dev nD → CellTallies nD τ sig Ix) (B : Dev nD → Set (SemLoc sig × Ix))
    (h5 : ∀ c, pdats 5 c = dat c (A c) q (rest5 a c) (O c) (B c))
    (hw : ∀ c, (levAts L lv : sProp 𝕄) ⊢ Pipeline.cellsWaits (Pipeline.pin (pcfgs (F := F)) a) pdats ι 5 c)
    (Z : Dev nD → sProp 𝕄) :
    Pipeline.RegionSeg (pcfgs (F := F)) a pdats ι (defs₀ (F := F)) 𝒱₀ L lv 5 where
  win := (winFacts9.to₀ : Pipeline.WinFacts₀ spec9)
  block_pos := block_pos9
  stage_whole := stage_whole9
  K := PEmpty
  osem k := k.elim
  ho := Pipeline.OwnSemFacts.none _
  hbody c := by rw [h5 c]; exact (body_obligation 𝒱₀ ι c (A c) q (rest5 a c) (O c) (B c)).loose
  hwaits := hw
  pre c := iprop((pdats 5 c).arrays (fun w => (pdats 5 c).arrAt w 0) ∗ (pdats 5 c).owesAt ι 0 ∗ Z c)
  post c := iprop((pdats 5 c).arrays (fun w => (pdats 5 c).arrAt w cfg9.N) ∗ (pdats 5 c).owesAt ι (Fin.last cfg9.N) ∗ Z c)
  X _ := BI.emp
  Y _ := BI.emp
  Z := Z
  hentry c := by
    rw [no_tables a]
    iintro ⟨⟨HA, HO, HZ⟩, -, -⟩
    imodintro
    isplitl [HA]; · iexact HA
    isplitr; · iempintro
    isplitl [HO]; · iexact HO
    isplitr; · iempintro
    iexact HZ
  hin c := by
    rw [h5 c, inv_eq, rest5]
    iintro ⟨-, -, HS⟩; iexact HS
  hout c := by
    rw [h5 c, Pipeline.ownSems0_none, inv_eq, rest5]
    iintro HS
    isplitr; · iempintro
    isplitr; · iempintro
    iexact HS
  hexit c := by
    iintro ⟨HA, HO, -, HZ⟩
    imodintro
    isplitl [HA]; · iexact HA
    isplitl [HO]; · iexact HO
    iexact HZ

end Record

end Cert.KernelIdeal.Region5

end
-- ==== Proof.Region1Rec.lean ====
/-
  The four fused regions (pipelines 1, 2, 3, 4 of the program: each a grid of 8 × 2 points over eight windows, the
  output block and a scratch accumulator carried across the second grid axis) as the region rule's records, with the
  body's proof LEFT AS A HYPOTHESIS.

  Nothing the rule asks of a region besides its body looks inside the proof data except at its two ends: what the core
  owes there — which the records below state in the proof data's own words, so that nothing need be known of it — and
  the body's invariant at the first and at the last point, which must be reachable from, and give back, the core's
  scoped buffers that stage nothing for the region (the accumulator among them). So one construction serves any pipeline of this program, all of which have
  neither a semaphore of their own nor a prefetched table; the four fused regions are its instances at their windows'
  layout facts.
-/
import proofs.«215235_g2774548873965_cont_9to1_572_34_alg».proof.KernelIdeal
import proofs.«215235_g2774548873965_cont_9to1_572_34_alg».proof.Proof.Gen.KernelIdeal
import proofs.«215235_g2774548873965_cont_9to1_572_34_alg».proof.Proof.Gen.KernelIdeal.Launch
import Idealize.ShloMosaic.Lib.Pipeline.Regions

noncomputable section

namespace Cert.KernelIdeal.Region1

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- A family over no index is the empty resource. -/
theorem bigSep_none {M : Type} [URA M] (Φ : Fin 0 → sProp M) : bigSep Finset.univ Φ = (BI.emp : sProp M) :=
  bigSep_univ_eq_bigSepL [] (by decide) (by decide) Φ

/-- No pipeline of the program has a prefetched table. -/
theorem no_tables (p : Fin 6) (c : Dev nD) (q) (pf) :
    (Pipeline.prefHeld (Ix := Ix) (Name := Name) (U := U) (Lvl := Lvl) (Val := Elt F) (pcfgs (F := F) p).pre c q pf : sProp 𝕄) = BI.emp :=
  bigSep_none _

/-- What the region rule asks of pipeline p's proof data besides the windows' layout — everything a certificate owes for
    the region: the body's proof (`body`, in the rule's own words); the evidence for the staging cells' waits (`waits`);
    and that the proof data's invariant at the first point follows from, and at the last point gives back, the core's
    scoped buffers that stage nothing for the region. -/
structure Ends (p : Fin 6) (a : (p : Fin 6) → (pcfgs (F := F) p).Adm)
    (pdats : (p : Fin 6) → (c : Dev nD) → Dat τ (Elt F) Ix Name U Lvl (Pipeline.pin (pcfgs (F := F)) a p) c)
    (ι : Ix) (𝒱₀ : Variants) (L : GSem nD τ sig → Finset Ix) (lv : GSem nD τ sig → Ix → Lvl) : Prop where
  body : ∀ c, Pipeline.BodyObligationLoose (pdats p c) (defs₀ (F := F)) 𝒱₀ ι Set.univ
  waits : ∀ c, (levAts L lv : sProp 𝕄) ⊢ Pipeline.cellsWaits (Pipeline.pin (pcfgs (F := F)) a) pdats ι p c
  inv_first : ∀ c, (Pipeline.scopedRest (Pipeline.pin (pcfgs (F := F)) a p).spec c : sProp 𝕄) ⊢ (pdats p c).Φ 0
  inv_last : ∀ c, (pdats p c).Φ (Fin.last (Pipeline.pin (pcfgs (F := F)) a p).N)
    ⊢ (Pipeline.scopedRest (Pipeline.pin (pcfgs (F := F)) a p).spec c : sProp 𝕄)

/-- The record of pipeline p, for ANY proof data of the six pipelines, given the windows' layout facts and `Ends`.
    Entered with the region's arrays at the proof data's entry contents, the core owing what the proof data says it owes
    before the first point, and anything else `Z c` the caller holds, the region leaves the arrays at what the
    write-backs made of them, the core owing what the proof data says it owes after the last point, and `Z c`. -/
def regionWith (p : Fin 6) (a : (p : Fin 6) → (pcfgs (F := F) p).Adm)
    (pdats : (p : Fin 6) → (c : Dev nD) → Dat τ (Elt F) Ix Name U Lvl (Pipeline.pin (pcfgs (F := F)) a p) c)
    (ι : Ix) (𝒱₀ : Variants) (L : GSem nD τ sig → Finset Ix) (lv : GSem nD τ sig → Ix → Lvl)
    (hwin : Pipeline.WinFacts₀ (pcfgs (F := F) p).spec)
    (hpos : ∀ w : Fin (Pipeline.pin (pcfgs (F := F)) a p).W, 0 < ((Pipeline.pin (pcfgs (F := F)) a p).spec w).block.numel)
    (hstage : ∀ (w : Fin (Pipeline.pin (pcfgs (F := F)) a p).W) (s : Fin ((Pipeline.pin (pcfgs (F := F)) a p).spec w).nbuf),
      (((Pipeline.pin (pcfgs (F := F)) a p).spec w).stage s).IsWhole)
    (h : Ends p a pdats ι 𝒱₀ L lv) (Z : Dev nD → sProp 𝕄) :
    Pipeline.RegionSeg (pcfgs (F := F)) a pdats ι (defs₀ (F := F)) 𝒱₀ L lv p where
  win := hwin
  block_pos := hpos
  stage_whole := hstage
  K := PEmpty
  osem k := k.elim
  ho := Pipeline.OwnSemFacts.none _
  hbody := h.body
  hwaits := h.waits
  pre c := iprop((pdats p c).arrays (fun w => (pdats p c).arrAt w 0) ∗ (pdats p c).owesAt ι 0 ∗ Z c)
  post c := iprop((pdats p c).arrays (fun w => (pdats p c).arrAt w (Pipeline.pin (pcfgs (F := F)) a p).N)
    ∗ (pdats p c).owesAt ι (Fin.last (Pipeline.pin (pcfgs (F := F)) a p).N) ∗ Z c)
  X _ := BI.emp
  Y _ := BI.emp
  Z := Z
  hentry c := by
    rw [no_tables p]
    iintro ⟨⟨HA, HO, HZ⟩, -, -⟩
    imodintro
    isplitl [HA]; · iexact HA
    isplitr; · iempintro
    isplitl [HO]; · iexact HO
    isplitr; · iempintro
    iexact HZ
  hin c := by
    iintro ⟨-, -, HS⟩; iapply (h.inv_first c); iexact HS
  hout c := by
    rw [Pipeline.ownSems0_none]
    iintro HΦ
    isplitr; · iempintro
    isplitr; · iempintro
    iapply (h.inv_last c); iexact HΦ
  hexit c := by
    iintro ⟨HA, HO, -, HZ⟩
    imodintro
    isplitl [HA]; · iexact HA
    isplitl [HO]; · iexact HO
    iexact HZ

/-! ## The four fused regions -/

section Fused

variable (a : (p : Fin 6) → (pcfgs (F := F) p).Adm)
  (pdats : (p : Fin 6) → (c : Dev nD) → Dat τ (Elt F) Ix Name U Lvl (Pipeline.pin (pcfgs (F := F)) a p) c)
  (ι : Ix) (𝒱₀ : Variants) (L : GSem nD τ sig → Finset Ix) (lv : GSem nD τ sig → Ix → Lvl)

/-- Pipeline 1: the first fused region (eight windows: main_v15, main_v20, main_v8, main_arg5, main_v16, main_arg7,
    main_v17 in; main_v21 out). -/
def region1 (h : Ends 1 a pdats ι 𝒱₀ L lv) (Z : Dev nD → sProp 𝕄) :
    Pipeline.RegionSeg (pcfgs (F := F)) a pdats ι (defs₀ (F := F)) 𝒱₀ L lv 1 :=
  regionWith 1 a pdats ι 𝒱₀ L lv (winFacts2.to₀ : Pipeline.WinFacts₀ spec2) block_pos2 stage_whole2 h Z

/-- Pipeline 2: the second fused region. -/
def region2 (h : Ends 2 a pdats ι 𝒱₀ L lv) (Z : Dev nD → sProp 𝕄) :
    Pipeline.RegionSeg (pcfgs (F := F)) a pdats ι (defs₀ (F := F)) 𝒱₀ L lv 2 :=
  regionWith 2 a pdats ι 𝒱₀ L lv (winFacts4.to₀ : Pipeline.WinFacts₀ spec4) block_pos4 stage_whole4 h Z

/-- Pipeline 3: the third fused region. -/
def region3 (h : Ends 3 a pdats ι 𝒱₀ L lv) (Z : Dev nD → sProp 𝕄) :
    Pipeline.RegionSeg (pcfgs (F := F)) a pdats ι (defs₀ (F := F)) 𝒱₀ L lv 3 :=
  regionWith 3 a pdats ι 𝒱₀ L lv (winFacts6.to₀ : Pipeline.WinFacts₀ spec6) block_pos6 stage_whole6 h Z

/-- Pipeline 4: the fourth fused region. -/
def region4 (h : Ends 4 a pdats ι 𝒱₀ L lv) (Z : Dev nD → sProp 𝕄) :
    Pipeline.RegionSeg (pcfgs (F := F)) a pdats ι (defs₀ (F := F)) 𝒱₀ L lv 4 :=
  regionWith 4 a pdats ι 𝒱₀ L lv (winFacts8.to₀ : Pipeline.WinFacts₀ spec8) block_pos8 stage_whole8 h Z

end Fused

end Cert.KernelIdeal.Region1

end
-- ==== Proof.ScRegion.lean ====
/-
  The tensor-core regions as segments of @main inside the sparse-core program: from the tensor core's state between two
  lines — the region boundary, every array whole at a valuation, its handshake state before call n, the staging ghost
  state of the regions not yet entered — the region's custom call runs the region, and the continuation finds the same
  state at a valuation that differs at most at the region's output array, the region's ghost state spent.

  Where the launch's handshake state meets the region rule: the tensor core enters a region still owing the start
  signals of the calls not yet made, all at a call's index, with every pair its waits have recorded at level at most 8n.
  The region's own waits are at the index of no call, whose level is zero: below everything owed, so they may be made;
  and at most 8n, so whatever the region's waits record keeps the bound.
-/
import proofs.«215235_g2774548873965_cont_9to1_572_34_alg».proof.Proof.ScState
import proofs.«215235_g2774548873965_cont_9to1_572_34_alg».proof.Proof.Region0Body
import proofs.«215235_g2774548873965_cont_9to1_572_34_alg».proof.Proof.Region5Body
import proofs.«215235_g2774548873965_cont_9to1_572_34_alg».proof.Proof.Region1Rec
import Idealize.ShloMosaic.Lib.Pipeline.RegionsLoop

noncomputable section

namespace Cert.KernelIdeal.Sc

open Cert.KernelIdeal
open Idealize.ShloMosaic Idealize.ShloMosaic.StableHlo Idealize.ShloMosaic.TcCoe
open Idealize.ShloMosaic.SparseCore (S T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F] [∀ e, Nonempty (Elt F e)]

local notation "𝕄" => MT nD τ sig (HIx 4) (Elt F) ℕ UU ℕ

/-! ## What is common to the six regions -/

/-- No region has a prefetched table: the one admissible choice. -/
abbrev adm : (p : Fin 6) → (pcfgs (F := F) p).Adm := fun p => (cfgs p).toPCfg_adm

/-- The (own semaphore, index) pairs at level at most 8n on device d's tensor core: the bound the handshake state keeps
    on the pairs the tensor core's waits have recorded before call n. -/
def below (d : Dev nD) (n : ℕ) : Set (SemLoc sig × HIx 4) := {p | (K (F := F)).lev (T d, p.1) p.2 ≤ 8 * n}

/-- What the tensor core owes before call n, as its handshake state holds it. -/
abbrev owing (d : Dev nD) (n : ℕ) : sProp 𝕄 :=
  iprop(∃ W, ⌜(K (F := F)).WBelow (T d) W (8 * n)⌝ ∗ owes (T d) ((K (F := F)).Otc d n) W)

/-- The handshake state is what the core owes and the rest; the rest takes what is owed back. -/
theorem tcSt_split (d : Dev nD) (n : ℕ) :
    (K (F := F)).tcSt EH d n ⊢ (iprop(owing (F := F) d n ∗ (owing (F := F) d n -∗ (K (F := F)).tcSt EH d n)) : sProp 𝕄) := by
  unfold SparseCore.Cfg.tcSt
  iintro ⟨Ho, Ht⟩
  isplitl [Ho]
  · iexact Ho
  · iintro Ho
    isplitl [Ho]
    · iexact Ho
    · iexact Ht

/-- Nothing is owed at the index of no call: every unit the tensor core owes is a later call's start signal. -/
theorem Otc_none (d : Dev nD) (n : ℕ) (g : GSem nD τ sig) : (K (F := F)).Otc d n g none = 0 := by
  by_contra h
  have h1 := (K (F := F)).lev_of_Otc_pos (Nat.pos_of_ne_zero h)
  rw [SparseCore.Cfg.lev_none] at h1
  omega

/-- What the core owes, as the handshake state holds it, is what proof data asks at a point where it owes those tallies
    and bounds the recorded pairs by those at level at most 8n, -/
theorem owing_in {cfg : Pipeline.Cfg sig Λ₀} {d : Dev nD} (dt : Dat τ (Elt F) (HIx 4) ℕ UU ℕ cfg d) (n : ℕ) (t : Fin (cfg.N + 1))
    (hO : dt.owed t = (K (F := F)).Otc d n) (hB : dt.recorded t = below (F := F) d n) :
    owing (F := F) d n ⊢ (dt.owesAt none t : sProp 𝕄) := by
  unfold Pipeline.Dat.owesAt Pipeline.owesWithin Pipeline.Dat.bound; rw [hO, hB]
  iintro ⟨%W, %hW, HO⟩; iexists W; isplitr
  · ipureintro; exact fun p hp => Or.inl (hW p (Finset.mem_coe.mp hp))
  · iexact HO

/-- and what it hands back is that again: a pair recorded by the region's own waits is at the index of no call, level 0. -/
theorem owing_out {cfg : Pipeline.Cfg sig Λ₀} {d : Dev nD} (dt : Dat τ (Elt F) (HIx 4) ℕ UU ℕ cfg d) (n : ℕ) (t : Fin (cfg.N + 1))
    (hO : dt.owed t = (K (F := F)).Otc d n) (hB : dt.recorded t = below (F := F) d n) :
    (dt.owesAt none t : sProp 𝕄) ⊢ owing (F := F) d n := by
  unfold Pipeline.Dat.owesAt Pipeline.owesWithin Pipeline.Dat.bound; rw [hO, hB]
  iintro ⟨%W, %hW, HO⟩; iexists W; isplitr
  · ipureintro
    intro p hp
    rcases hW (Finset.mem_coe.mpr hp) with h | ⟨w, s, rfl⟩
    · exact h
    · show (K (F := F)).lev (T d, _) none ≤ 8 * n
      rw [SparseCore.Cfg.lev_none]; exact Nat.zero_le _
  · iexact HO

/-- The staging ghost state of the regions in Ps is region p's and the others'. -/
theorem ghost_split {p : Fin 6} {Ps : Finset (Fin 6)} (hp : p ∈ Ps) (d : Dev nD) :
    (ghost (F := F) d Ps : sProp 𝕄)
      = iprop((Pipeline.cellsGhost (Pipeline.pin (pcfgs (F := F)) adm) (EP (F := F)) p d
          ∗ Pipeline.toksInit (Pipeline.pin (pcfgs (F := F)) adm) (EP (F := F)) p d) ∗ ghost (F := F) d (Ps.erase p)) := by
  rw [pin_eq (F := F) adm]; exact bigSep_erase hp

/-- A valuation read at the tensor core's own references. -/
abbrev valOn (W : Valuation τ sig (Elt F)) (c : Dev nD) : (b : Ref sig .tc) → Buf (Elt F) ((c.tc : Thread nD τ).loc b) := fun b => W b

/-- Proof data that says nothing, for the regions a segment does not enter. -/
def idleDat (cfg : Pipeline.Cfg sig Λ₀) (c : Dev nD) : Dat τ (Elt F) (HIx 4) ℕ UU ℕ cfg c where
  A _ := fun _ => Classical.arbitrary _
  after _ _ := fun _ => Classical.arbitrary _
  Φ _ := BI.emp
  q _ := fullShare
  owed _ := 0

/-! ## The first region -/

/-- The first region's arrays at a valuation. -/
def A0 (W : Valuation τ sig (Elt F)) (c : Dev nD) (w : Fin cfg0.W) : Buf (Elt F) ((cfg0.win w).arr.view.loc (c.tc : Thread nD τ)) :=
  valOn W c (Pipeline.arrRef spec0 w)

/-- The six regions' proof data for the segment that enters the first, before call n: the first region's at the
    valuation, owing what the tensor core owes before call n within the handshake state's bound; nothing said of the others. -/
def fam0 (n : ℕ) (W : Valuation τ sig (Elt F)) :
    (p : Fin 6) → (c : Dev nD) → Dat τ (Elt F) (HIx 4) ℕ UU ℕ (Pipeline.pin (pcfgs (F := F)) adm p) c
  | 0, c => Region0.dat c (A0 W c) (fun _ => fullShare) (Region0.rest0 adm c) ((K (F := F)).Otc c n) (below (F := F) c n)
  | 1, c => idleDat _ c
  | 2, c => idleDat _ c
  | 3, c => idleDat _ c
  | 4, c => idleDat _ c
  | 5, c => idleDat _ c

/-- The first region's own waits — on its staging cells, at the index of no call — may be made while the tensor core
    owes what it owes before call n: all of that is at a call's index. -/
theorem waits0 (n : ℕ) (W : Valuation τ sig (Elt F)) (c : Dev nD) :
    (levAts (K (F := F)).L (K (F := F)).lev : sProp 𝕄)
      ⊢ Pipeline.cellsWaits (Pipeline.pin (pcfgs (F := F)) adm) (fam0 (F := F) n W) none 0 c :=
  Pipeline.cellsWaits_intro _ _ none 0 c fun _ _ _ => (K (F := F)).mayWait_none _ fun g => Otc_none c n g

/-- What bypasses region p entered before call n with the arrays at W and the regions Ps not yet entered: the arrays
    that are none of the region's, the handshake state short of what the core owes (which the region carries), and the
    other regions' staging ghost state. -/
def bypass (p : Fin 6) (n : ℕ) (W : Valuation τ sig (Elt F)) (Ps : Finset (Fin 6)) (c : Dev nD) : sProp 𝕄 :=
  iprop(Pipeline.unscopedRest (Pipeline.pin (pcfgs (F := F)) adm p).spec c (valOn W c)
    ∗ (owing (F := F) c n -∗ (K (F := F)).tcSt EH c n) ∗ ghost (F := F) c (Ps.erase p))

/-- The first region's record for the segment. -/
def rec0 (n : ℕ) (W : Valuation τ sig (Elt F)) (Ps : Finset (Fin 6)) :
    Pipeline.RegionSeg (pcfgs (F := F)) adm (fam0 (F := F) n W) none (defs₀ (F := F)) Variants.none (K (F := F)).L (K (F := F)).lev 0 :=
  Region0.region0 adm (fam0 (F := F) n W) none Variants.none (K (F := F)).L (K (F := F)).lev (A0 W) (fun _ => fullShare)
    (fun c => (K (F := F)).Otc c n) (fun c => below (F := F) c n) (fun _ => rfl) (waits0 n W) (bypass 0 n W Ps)

theorem rec0_pre (n : ℕ) (W : Valuation τ sig (Elt F)) (Ps : Finset (Fin 6)) (d : Dev nD) :
    (rec0 (F := F) n W Ps).pre d = iprop((fam0 (F := F) n W 0 d).arrays (fun w => (fam0 (F := F) n W 0 d).arrAt w 0)
      ∗ (fam0 (F := F) n W 0 d).owesAt none 0 ∗ bypass 0 n W Ps d) := rfl

theorem rec0_post (n : ℕ) (W : Valuation τ sig (Elt F)) (Ps : Finset (Fin 6)) (d : Dev nD) :
    (rec0 (F := F) n W Ps).post d = iprop((fam0 (F := F) n W 0 d).arrays (fun w => (fam0 (F := F) n W 0 d).arrAt w cfg0.N)
      ∗ (fam0 (F := F) n W 0 d).owesAt none (Fin.last cfg0.N) ∗ bypass 0 n W Ps d) := rfl

/-- y after the first region: what the eight write-backs made of it. -/
def yAfter (n : ℕ) (W : Valuation τ sig (Elt F)) (d : Dev nD) : (Proc.devRef (τ := τ) (sig := sig) .tc main_v1).ty.Contents (Elt F) :=
  (fam0 (F := F) n W 0 d).arrAt 2 cfg0.N

/-- The valuation after the first region: W but for y. -/
def W0' (n : ℕ) (W : Valuation τ sig (Elt F)) (d : Dev nD) : Valuation τ sig (Elt F) :=
  Function.update W (Proc.devRef .tc main_v1) (yAfter n W d)

theorem W0'_y (n : ℕ) (W : Valuation τ sig (Elt F)) (d : Dev nD) : W0' n W d (Proc.devRef .tc main_v1) = yAfter n W d :=
  Function.update_self _ _ _

theorem W0'_off (n : ℕ) (W : Valuation τ sig (Elt F)) (d : Dev nD) (b : DevRef τ sig) (hb : b ≠ Proc.devRef .tc main_v1) :
    W0' n W d b = W b := Function.update_of_ne hb _ _

/-- After the region its three arrays are at the new valuation: x and W_in, never written, as before; y at what the
    write-backs made of it. -/
theorem arrs_after0 (n : ℕ) (W : Valuation τ sig (Elt F)) (d : Dev nD) (w : Fin 3) :
    (fam0 (F := F) n W 0 d).arrAt w cfg0.N = valOn (W0' n W d) d (Pipeline.arrRef spec0 w) := by
  match w with
  | 0 =>
    rw [Pipeline.Dat.arrAt_in _ 0 rfl]
    exact (W0'_off n W d (Proc.devRef .tc main_v0) (by decide)).symm
  | 1 =>
    rw [Pipeline.Dat.arrAt_in _ 1 rfl]
    exact (W0'_off n W d (Proc.devRef .tc main_arg9) (by decide)).symm
  | 2 => exact (W0'_y n W d).symm

/-- Off the region's arrays the new valuation is the old one. -/
theorem rest_after0 (n : ℕ) (W : Valuation τ sig (Elt F)) (d : Dev nD) (b : Ref sig .tc)
    (hb : b ∉ Finset.univ.image (Pipeline.arrRef spec0)) : valOn (W0' n W d) d b = valOn W d b := by
  refine W0'_off n W d _ (fun e => hb ?_)
  rw [Proc.devRef_injective _ e]
  exact Finset.mem_image.mpr ⟨2, Finset.mem_univ _, rfl⟩

/-- The first region, entered before call n, as a segment of @main: its output array is y. -/
theorem seg_region0_at (n : ℕ) : SegRegion (F := F) 0 n (Proc.devRef .tc main_v1) := by
  intro κ d W Ps hp β k Q
  refine .trans ?_ (enter_region adm (fam0 (F := F) n W) none _ _ (rec0 n W Ps) d k Q)
  rw [rec0_pre, rec0_post]
  unfold TS bypass
  rw [ghost_split hp d, ← Pipeline.unscopedBufs_held d W]
  iintro ⟨#Hctx, ⟨Hb, Hu, Hst, ⟨Hcg, Htk⟩, Hg⟩, Hk⟩
  -- the region's three arrays out of the tensor core's arrays
  ihave Ha := (Pipeline.arrays_of_unscopedBufs (pcfgs (F := F)) adm (fam0 (F := F) n W) (p := 0) Gen.winFacts0 Gen.arr_whole0 d
    (fun w => by unfold Pipeline.Dat.share; split <;> rfl) (valOn W d) (fun _ => rfl)) $$ Hu
  icases Ha with ⟨HA, Hur⟩
  -- what the core owes out of the handshake state
  ihave Hs := (tcSt_split (F := F) d n) $$ Hst
  icases Hs with ⟨Hown, Hwand⟩
  isplitl [Hk]
  · -- after the region
    iintro ⟨Hb', HA', HO', Hur', Hwand', Hg'⟩
    ispecialize Hk $$ %(W0' n W d) %(W0'_off n W d) [Hb' HA' HO' Hur' Hwand' Hg']
    · isplitl [Hb']; · iexact Hb'
      isplitl [HA' Hur']
      · rw [← Pipeline.unscopedBufs_held d (W0' n W d)]
        iapply (Pipeline.unscopedBufs_of_arrays (pcfgs (F := F)) adm (p := 0) Gen.winFacts0 Gen.arr_whole0 d (fam0 (F := F) n W)
          (fun w => by unfold Pipeline.Dat.share; split <;> rfl) (valOn W d) (valOn (W0' n W d) d)
          (fun w => (fam0 (F := F) n W 0 d).arrAt w cfg0.N) (arrs_after0 n W d) (rest_after0 n W d))
        isplitl [HA']; · iexact HA'
        iexact Hur'
      isplitl [HO' Hwand']
      · iapply Hwand'
        iapply (owing_out (fam0 (F := F) n W 0 d) n (Fin.last cfg0.N) rfl rfl); iexact HO'
      iexact Hg'
    iexact Hk
  isplitl [Hb]; · iexact Hb
  isplitl [HA Hown Hur Hwand Hg]
  · isplitl [HA]; · iexact HA
    isplitl [Hown]
    · iapply (owing_in (fam0 (F := F) n W 0 d) n 0 rfl rfl); iexact Hown
    isplitl [Hur]; · iexact Hur
    isplitl [Hwand]; · iexact Hwand
    iexact Hg
  isplitr
  · iapply (SparseCore.Cfg.ctx_levAts κ); iexact Hctx
  isplitl [Hcg]; · iexact Hcg
  iexact Htk

/-- The first region where @main enters it: before the first call. -/
theorem seg_region0 : SegRegion (F := F) 0 0 (Proc.devRef .tc main_v1) := seg_region0_at 0

/-! ## The last region -/

/-- The last region's arrays at a valuation. -/
def A5 (W : Valuation τ sig (Elt F)) (c : Dev nD) (w : Fin cfg9.W) : Buf (Elt F) ((cfg9.win w).arr.view.loc (c.tc : Thread nD τ)) :=
  valOn W c (Pipeline.arrRef spec9 w)

/-- The six regions' proof data for the segment that enters the last, before call n: the last region's at the
    valuation, owing what the tensor core owes before call n within the handshake state's bound; nothing said of the others. -/
def fam5 (n : ℕ) (W : Valuation τ sig (Elt F)) :
    (p : Fin 6) → (c : Dev nD) → Dat τ (Elt F) (HIx 4) ℕ UU ℕ (Pipeline.pin (pcfgs (F := F)) adm p) c
  | 0, c => idleDat _ c
  | 1, c => idleDat _ c
  | 2, c => idleDat _ c
  | 3, c => idleDat _ c
  | 4, c => idleDat _ c
  | 5, c => Region5.dat c (A5 W c) (fun _ => fullShare) (Region5.rest5 adm c) ((K (F := F)).Otc c n) (below (F := F) c n)

/-- The last region's own waits — on its staging cells, at the index of no call — may be made while the tensor core
    owes what it owes before call n: all of that is at a call's index. -/
theorem waits5 (n : ℕ) (W : Valuation τ sig (Elt F)) (c : Dev nD) :
    (levAts (K (F := F)).L (K (F := F)).lev : sProp 𝕄)
      ⊢ Pipeline.cellsWaits (Pipeline.pin (pcfgs (F := F)) adm) (fam5 (F := F) n W) none 5 c :=
  Pipeline.cellsWaits_intro _ _ none 5 c fun _ _ _ => (K (F := F)).mayWait_none _ fun g => Otc_none c n g

/-- The last region's record for the segment. -/
def rec5 (n : ℕ) (W : Valuation τ sig (Elt F)) (Ps : Finset (Fin 6)) :
    Pipeline.RegionSeg (pcfgs (F := F)) adm (fam5 (F := F) n W) none (defs₀ (F := F)) Variants.none (K (F := F)).L (K (F := F)).lev 5 :=
  Region5.region5 adm (fam5 (F := F) n W) none Variants.none (K (F := F)).L (K (F := F)).lev (A5 W) (fun _ => fullShare)
    (fun c => (K (F := F)).Otc c n) (fun c => below (F := F) c n) (fun _ => rfl) (waits5 n W) (bypass 5 n W Ps)

theorem rec5_pre (n : ℕ) (W : Valuation τ sig (Elt F)) (Ps : Finset (Fin 6)) (d : Dev nD) :
    (rec5 (F := F) n W Ps).pre d = iprop((fam5 (F := F) n W 5 d).arrays (fun w => (fam5 (F := F) n W 5 d).arrAt w 0)
      ∗ (fam5 (F := F) n W 5 d).owesAt none 0 ∗ bypass 5 n W Ps d) := rfl

theorem rec5_post (n : ℕ) (W : Valuation τ sig (Elt F)) (Ps : Finset (Fin 6)) (d : Dev nD) :
    (rec5 (F := F) n W Ps).post d = iprop((fam5 (F := F) n W 5 d).arrays (fun w => (fam5 (F := F) n W 5 d).arrAt w cfg9.N)
      ∗ (fam5 (F := F) n W 5 d).owesAt none (Fin.last cfg9.N) ∗ bypass 5 n W Ps d) := rfl

/-- The result array after the last region: what the eight write-backs made of it. -/
def outAfter (n : ℕ) (W : Valuation τ sig (Elt F)) (d : Dev nD) : (Proc.devRef (τ := τ) (sig := sig) .tc main_v36).ty.Contents (Elt F) :=
  (fam5 (F := F) n W 5 d).arrAt 8 cfg9.N

/-- The valuation after the last region: W but for the result array. -/
def W5' (n : ℕ) (W : Valuation τ sig (Elt F)) (d : Dev nD) : Valuation τ sig (Elt F) :=
  Function.update W (Proc.devRef .tc main_v36) (outAfter n W d)

theorem W5'_y (n : ℕ) (W : Valuation τ sig (Elt F)) (d : Dev nD) : W5' n W d (Proc.devRef .tc main_v36) = outAfter n W d :=
  Function.update_self _ _ _

theorem W5'_off (n : ℕ) (W : Valuation τ sig (Elt F)) (d : Dev nD) (b : DevRef τ sig) (hb : b ≠ Proc.devRef .tc main_v36) :
    W5' n W d b = W b := Function.update_of_ne hb _ _

/-- After the region its nine arrays are at the new valuation: the eight inputs, never written, as before; the result
    array at what the write-backs made of it. -/
theorem arrs_after5 (n : ℕ) (W : Valuation τ sig (Elt F)) (d : Dev nD) (w : Fin 9) :
    (fam5 (F := F) n W 5 d).arrAt w cfg9.N = valOn (W5' n W d) d (Pipeline.arrRef spec9 w) := by
  match w with
  | 0 =>
    rw [Pipeline.Dat.arrAt_in _ 0 rfl]
    exact (W5'_off n W d (Proc.devRef .tc main_arg10) (by decide)).symm
  | 1 =>
    rw [Pipeline.Dat.arrAt_in _ 1 rfl]
    exact (W5'_off n W d (Proc.devRef .tc main_v34) (by decide)).symm
  | 2 =>
    rw [Pipeline.Dat.arrAt_in _ 2 rfl]
    exact (W5'_off n W d (Proc.devRef .tc main_arg12) (by decide)).symm
  | 3 =>
    rw [Pipeline.Dat.arrAt_in _ 3 rfl]
    exact (W5'_off n W d (Proc.devRef .tc main_v35) (by decide)).symm
  | 4 =>
    rw [Pipeline.Dat.arrAt_in _ 4 rfl]
    exact (W5'_off n W d (Proc.devRef .tc main_v21) (by decide)).symm
  | 5 =>
    rw [Pipeline.Dat.arrAt_in _ 5 rfl]
    exact (W5'_off n W d (Proc.devRef .tc main_v25) (by decide)).symm
  | 6 =>
    rw [Pipeline.Dat.arrAt_in _ 6 rfl]
    exact (W5'_off n W d (Proc.devRef .tc main_v29) (by decide)).symm
  | 7 =>
    rw [Pipeline.Dat.arrAt_in _ 7 rfl]
    exact (W5'_off n W d (Proc.devRef .tc main_v33) (by decide)).symm
  | 8 => exact (W5'_y n W d).symm

/-- Off the region's arrays the new valuation is the old one. -/
theorem rest_after5 (n : ℕ) (W : Valuation τ sig (Elt F)) (d : Dev nD) (b : Ref sig .tc)
    (hb : b ∉ Finset.univ.image (Pipeline.arrRef spec9)) : valOn (W5' n W d) d b = valOn W d b := by
  refine W5'_off n W d _ (fun e => hb ?_)
  rw [Proc.devRef_injective _ e]
  exact Finset.mem_image.mpr ⟨8, Finset.mem_univ _, rfl⟩

/-- The last region, entered before call n, as a segment of @main: its output array is the program's result. -/
theorem seg_region5_at (n : ℕ) : SegRegion (F := F) 5 n (Proc.devRef .tc main_v36) := by
  intro κ d W Ps hp β k Q
  refine .trans ?_ (enter_region adm (fam5 (F := F) n W) none _ _ (rec5 n W Ps) d k Q)
  rw [rec5_pre, rec5_post]
  unfold TS bypass
  rw [ghost_split hp d, ← Pipeline.unscopedBufs_held d W]
  iintro ⟨#Hctx, ⟨Hb, Hu, Hst, ⟨Hcg, Htk⟩, Hg⟩, Hk⟩
  -- the region's three arrays out of the tensor core's arrays
  ihave Ha := (Pipeline.arrays_of_unscopedBufs (pcfgs (F := F)) adm (fam5 (F := F) n W) (p := 5) Gen.winFacts9 Gen.arr_whole9 d
    (fun w => by unfold Pipeline.Dat.share; split <;> rfl) (valOn W d) (fun _ => rfl)) $$ Hu
  icases Ha with ⟨HA, Hur⟩
  -- what the core owes out of the handshake state
  ihave Hs := (tcSt_split (F := F) d n) $$ Hst
  icases Hs with ⟨Hown, Hwand⟩
  isplitl [Hk]
  · -- after the region
    iintro ⟨Hb', HA', HO', Hur', Hwand', Hg'⟩
    ispecialize Hk $$ %(W5' n W d) %(W5'_off n W d) [Hb' HA' HO' Hur' Hwand' Hg']
    · isplitl [Hb']; · iexact Hb'
      isplitl [HA' Hur']
      · rw [← Pipeline.unscopedBufs_held d (W5' n W d)]
        iapply (Pipeline.unscopedBufs_of_arrays (pcfgs (F := F)) adm (p := 5) Gen.winFacts9 Gen.arr_whole9 d (fam5 (F := F) n W)
          (fun w => by unfold Pipeline.Dat.share; split <;> rfl) (valOn W d) (valOn (W5' n W d) d)
          (fun w => (fam5 (F := F) n W 5 d).arrAt w cfg9.N) (arrs_after5 n W d) (rest_after5 n W d))
        isplitl [HA']; · iexact HA'
        iexact Hur'
      isplitl [HO' Hwand']
      · iapply Hwand'
        iapply (owing_out (fam5 (F := F) n W 5 d) n (Fin.last cfg9.N) rfl rfl); iexact HO'
      iexact Hg'
    iexact Hk
  isplitl [Hb]; · iexact Hb
  isplitl [HA Hown Hur Hwand Hg]
  · isplitl [HA]; · iexact HA
    isplitl [Hown]
    · iapply (owing_in (fam5 (F := F) n W 5 d) n 0 rfl rfl); iexact Hown
    isplitl [Hur]; · iexact Hur
    isplitl [Hwand]; · iexact Hwand
    iexact Hg
  isplitr
  · iapply (SparseCore.Cfg.ctx_levAts κ); iexact Hctx
  isplitl [Hcg]; · iexact Hcg
  iexact Htk

/-- Where @main enters it: after the four calls. -/
theorem seg_region5 : SegRegion (F := F) 5 4 (Proc.devRef .tc main_v36) := seg_region5_at 4

/-! ## Any region, from its proof data

The same argument for any of the six regions, from proof data given as a function of the valuation the region is
entered at: what is asked of it is what the first region's has by definition — the arrays' entry contents read off the
valuation, full shares, the tallies and the bound of the handshake state at every point, an invariant that starts from
and ends at the scoped rest (stated at an index known to be the first, or the last) — and the body's proof. -/

/-- Pipeline p's proof data as given, nothing said of the others. -/
def famOf (p : Fin 6) (dt : (c : Dev nD) → Dat τ (Elt F) (HIx 4) ℕ UU ℕ (Pipeline.pin (pcfgs (F := F)) adm p) c) :
    (p' : Fin 6) → (c : Dev nD) → Dat τ (Elt F) (HIx 4) ℕ UU ℕ (Pipeline.pin (pcfgs (F := F)) adm p') c :=
  fun p' c => if e : p' = p then e ▸ dt c else idleDat _ c

theorem famOf_self (p : Fin 6) (dt : (c : Dev nD) → Dat τ (Elt F) (HIx 4) ℕ UU ℕ (Pipeline.pin (pcfgs (F := F)) adm p) c)
    (c : Dev nD) : famOf p dt p c = dt c := by
  unfold famOf; rw [dif_pos rfl]

/-- What a segment asks of region p's proof data, given per valuation, for a region entered before call n. All but
    `body` hold by definition for proof data written like the first region's. -/
structure RegionData (p : Fin 6) (n : ℕ)
    (dt : Valuation τ sig (Elt F) → (c : Dev nD) → Dat τ (Elt F) (HIx 4) ℕ UU ℕ (Pipeline.pin (pcfgs (F := F)) adm p) c) : Prop where
  body : ∀ W c, Pipeline.BodyObligationLoose (dt W c) (defs₀ (F := F)) Variants.none none Set.univ
  arrays : ∀ W c w, (dt W c).A w = valOn W c (Pipeline.arrRef (Pipeline.pin (pcfgs (F := F)) adm p).spec w)
  shares : ∀ W c w, (dt W c).share w = fullShare
  owed : ∀ W c t, (dt W c).owed t = (K (F := F)).Otc c n
  recorded : ∀ W c t, (dt W c).recorded t = below (F := F) c n
  inv_first : ∀ W c (t : Fin ((Pipeline.pin (pcfgs (F := F)) adm p).N + 1)), t.val = 0 →
    (Pipeline.scopedRest (Pipeline.pin (pcfgs (F := F)) adm p).spec c : sProp 𝕄) ⊢ (dt W c).Φ t
  inv_last : ∀ W c (t : Fin ((Pipeline.pin (pcfgs (F := F)) adm p).N + 1)), t.val = (Pipeline.pin (pcfgs (F := F)) adm p).N →
    (dt W c).Φ t ⊢ (Pipeline.scopedRest (Pipeline.pin (pcfgs (F := F)) adm p).spec c : sProp 𝕄)

section Generic

variable {p : Fin 6} (n : ℕ)
  (dt : Valuation τ sig (Elt F) → (c : Dev nD) → Dat τ (Elt F) (HIx 4) ℕ UU ℕ (Pipeline.pin (pcfgs (F := F)) adm p) c)
  (h : RegionData (F := F) p n dt)

include h in
/-- What the region rule asks of the proof data, from what the segment asks. -/
theorem ends_of (W : Valuation τ sig (Elt F)) :
    Region1.Ends p adm (famOf p (dt W)) none Variants.none (K (F := F)).L (K (F := F)).lev where
  body c := by rw [famOf_self]; exact h.body W c
  waits c := Pipeline.cellsWaits_intro _ _ none p c fun _ _ t =>
    (K (F := F)).mayWait_none _ fun g => by rw [famOf_self, h.owed W c t]; exact Otc_none c n g
  inv_first c := by rw [famOf_self]; exact h.inv_first W c 0 rfl
  inv_last c := by rw [famOf_self]; exact h.inv_last W c (Fin.last _) rfl

/-- The region's record for the segment. -/
def recOf (hwf : Pipeline.WinFacts (Pipeline.pin (pcfgs (F := F)) adm p).spec)
    (hpos : ∀ w : Fin (Pipeline.pin (pcfgs (F := F)) adm p).W, 0 < ((Pipeline.pin (pcfgs (F := F)) adm p).spec w).block.numel)
    (hstage : ∀ (w : Fin (Pipeline.pin (pcfgs (F := F)) adm p).W) (s : Fin ((Pipeline.pin (pcfgs (F := F)) adm p).spec w).nbuf),
      (((Pipeline.pin (pcfgs (F := F)) adm p).spec w).stage s).IsWhole)
    (W : Valuation τ sig (Elt F)) (Ps : Finset (Fin 6)) :
    Pipeline.RegionSeg (pcfgs (F := F)) adm (famOf p (dt W)) none (defs₀ (F := F)) Variants.none (K (F := F)).L (K (F := F)).lev p :=
  Region1.regionWith p adm (famOf p (dt W)) none Variants.none (K (F := F)).L (K (F := F)).lev hwf.to₀ hpos hstage
    (ends_of n dt h W) (bypass p n W Ps)

/-- The valuation after the region: W but for the output array, at what the write-backs made of it. -/
def valAfter (wout : Fin (Pipeline.pin (pcfgs (F := F)) adm p).W) (W : Valuation τ sig (Elt F)) (d : Dev nD) : Valuation τ sig (Elt F) :=
  Function.update W (Proc.devRef .tc (Pipeline.arrRef (Pipeline.pin (pcfgs (F := F)) adm p).spec wout))
    ((famOf p (dt W) p d).arrAt wout (Pipeline.pin (pcfgs (F := F)) adm p).N)

/-- The new valuation at the output array, -/
theorem valAfter_out (wout : Fin (Pipeline.pin (pcfgs (F := F)) adm p).W) (W : Valuation τ sig (Elt F)) (d : Dev nD) :
    valAfter dt wout W d (Proc.devRef .tc (Pipeline.arrRef (Pipeline.pin (pcfgs (F := F)) adm p).spec wout))
      = (famOf p (dt W) p d).arrAt wout (Pipeline.pin (pcfgs (F := F)) adm p).N := Function.update_self _ _ _

/-- and off it. -/
theorem valAfter_off (wout : Fin (Pipeline.pin (pcfgs (F := F)) adm p).W) (W : Valuation τ sig (Elt F)) (d : Dev nD)
    (b : DevRef τ sig) (hb : b ≠ Proc.devRef .tc (Pipeline.arrRef (Pipeline.pin (pcfgs (F := F)) adm p).spec wout)) :
    valAfter dt wout W d b = W b := Function.update_of_ne hb _ _

include h in
/-- Region p, entered before call n, as a segment of @main: its output array is window `wout`'s, its other windows are
    inputs. -/
theorem seg_of_data (wout : Fin (Pipeline.pin (pcfgs (F := F)) adm p).W)
    (hwf : Pipeline.WinFacts (Pipeline.pin (pcfgs (F := F)) adm p).spec)
    (hpos : ∀ w : Fin (Pipeline.pin (pcfgs (F := F)) adm p).W, 0 < ((Pipeline.pin (pcfgs (F := F)) adm p).spec w).block.numel)
    (hstage : ∀ (w : Fin (Pipeline.pin (pcfgs (F := F)) adm p).W) (s : Fin ((Pipeline.pin (pcfgs (F := F)) adm p).spec w).nbuf),
      (((Pipeline.pin (pcfgs (F := F)) adm p).spec w).stage s).IsWhole)
    (harr : ∀ w, ((Pipeline.pin (pcfgs (F := F)) adm p).spec w).arr.IsWhole)
    (hin : ∀ w, w ≠ wout → ((Pipeline.pin (pcfgs (F := F)) adm p).win w).isOut = false) :
    SegRegion (F := F) p n (Proc.devRef .tc (Pipeline.arrRef (Pipeline.pin (pcfgs (F := F)) adm p).spec wout)) := by
  intro κ d W Ps hp β k Q
  refine .trans ?_ (enter_region adm (famOf p (dt W)) none _ _ (recOf n dt h hwf hpos hstage W Ps) d k Q)
  rw [show (recOf n dt h hwf hpos hstage W Ps).pre d
        = iprop((famOf p (dt W) p d).arrays (fun w => (famOf p (dt W) p d).arrAt w 0)
            ∗ (famOf p (dt W) p d).owesAt none 0 ∗ bypass p n W Ps d) from rfl,
    show (recOf n dt h hwf hpos hstage W Ps).post d
        = iprop((famOf p (dt W) p d).arrays (fun w => (famOf p (dt W) p d).arrAt w (Pipeline.pin (pcfgs (F := F)) adm p).N)
            ∗ (famOf p (dt W) p d).owesAt none (Fin.last (Pipeline.pin (pcfgs (F := F)) adm p).N) ∗ bypass p n W Ps d) from rfl]
  unfold TS bypass
  rw [ghost_split hp d, ← Pipeline.unscopedBufs_held d W]
  -- the facts about the proof data, at the family
  have hshare : ∀ w, (famOf p (dt W) p d).share w = fullShare := fun w => by rw [famOf_self]; exact h.shares W d w
  have hA : ∀ w, (famOf p (dt W) p d).A w = valOn W d (Pipeline.arrRef (Pipeline.pin (pcfgs (F := F)) adm p).spec w) :=
    fun w => by rw [famOf_self]; exact h.arrays W d w
  have hO : ∀ t, (famOf p (dt W) p d).owed t = (K (F := F)).Otc d n := fun t => by rw [famOf_self]; exact h.owed W d t
  have hB : ∀ t, (famOf p (dt W) p d).recorded t = below (F := F) d n := fun t => by rw [famOf_self]; exact h.recorded W d t
  -- after the region the arrays are at the new valuation
  have hF : ∀ w, (famOf p (dt W) p d).arrAt w (Pipeline.pin (pcfgs (F := F)) adm p).N
      = valOn (valAfter dt wout W d) d (Pipeline.arrRef (Pipeline.pin (pcfgs (F := F)) adm p).spec w) := fun w => by
    by_cases e : w = wout
    · subst e; exact (valAfter_out dt w W d).symm
    · rw [Pipeline.Dat.arrAt_in _ w (hin w e), hA w]
      exact (valAfter_off dt wout W d _ (fun e' => e (hwf.arr_inj (Proc.devRef_injective _ e')))).symm
  have hrest : ∀ b : Ref sig .tc, b ∉ Finset.univ.image (Pipeline.arrRef (Pipeline.pin (pcfgs (F := F)) adm p).spec) →
      valOn (valAfter dt wout W d) d b = valOn W d b := fun b hb =>
    valAfter_off dt wout W d _ (fun e' => hb (by rw [Proc.devRef_injective _ e']; exact Finset.mem_image.mpr ⟨wout, Finset.mem_univ _, rfl⟩))
  iintro ⟨#Hctx, ⟨Hb, Hu, Hst, ⟨Hcg, Htk⟩, Hg⟩, Hk⟩
  ihave Ha := (Pipeline.arrays_of_unscopedBufs (pcfgs (F := F)) adm (famOf p (dt W)) (p := p) hwf harr d hshare (valOn W d) hA) $$ Hu
  icases Ha with ⟨HA, Hur⟩
  ihave Hs := (tcSt_split (F := F) d n) $$ Hst
  icases Hs with ⟨Hown, Hwand⟩
  isplitl [Hk]
  · iintro ⟨Hb', HA', HO', Hur', Hwand', Hg'⟩
    ispecialize Hk $$ %(valAfter dt wout W d) %(valAfter_off dt wout W d) [Hb' HA' HO' Hur' Hwand' Hg']
    · isplitl [Hb']; · iexact Hb'
      isplitl [HA' Hur']
      · rw [← Pipeline.unscopedBufs_held d (valAfter dt wout W d)]
        iapply (Pipeline.unscopedBufs_of_arrays (pcfgs (F := F)) adm (p := p) hwf harr d (famOf p (dt W)) hshare (valOn W d)
          (valOn (valAfter dt wout W d) d) (fun w => (famOf p (dt W) p d).arrAt w (Pipeline.pin (pcfgs (F := F)) adm p).N) hF hrest)
        isplitl [HA']; · iexact HA'
        iexact Hur'
      isplitl [HO' Hwand']
      · iapply Hwand'
        iapply (owing_out (famOf p (dt W) p d) n (Fin.last _) (hO _) (hB _)); iexact HO'
      iexact Hg'
    iexact Hk
  isplitl [Hb]; · iexact Hb
  isplitl [HA Hown Hur Hwand Hg]
  · isplitl [HA]; · iexact HA
    isplitl [Hown]
    · iapply (owing_in (famOf p (dt W) p d) n 0 (hO _) (hB _)); iexact Hown
    isplitl [Hur]; · iexact Hur
    isplitl [Hwand]; · iexact Hwand
    iexact Hg
  isplitr
  · iapply (SparseCore.Cfg.ctx_levAts κ); iexact Hctx
  isplitl [Hcg]; · iexact Hcg
  iexact Htk

end Generic

/-! ## The four fused regions, relative to their proof data -/

/-- The first fused region (pipeline 1), entered before call n, given its proof data per valuation — the body's proof
    among its fields. Its output array is window 7's. -/
theorem seg_region1_at (n : ℕ)
    (dt : Valuation τ sig (Elt F) → (c : Dev nD) → Dat τ (Elt F) (HIx 4) ℕ UU ℕ (Pipeline.pin (pcfgs (F := F)) adm 1) c)
    (h : RegionData (F := F) 1 n dt) : SegRegion (F := F) 1 n (Proc.devRef .tc main_v21) :=
  seg_of_data (p := 1) n dt h 7 Gen.winFacts2 Gen.block_pos2 Gen.stage_whole2 Gen.arr_whole2
    (show ∀ w : Fin 8, w ≠ 7 → (win2 w).isOut = false by decide)

/-- The second (pipeline 2). -/
theorem seg_region2_at (n : ℕ)
    (dt : Valuation τ sig (Elt F) → (c : Dev nD) → Dat τ (Elt F) (HIx 4) ℕ UU ℕ (Pipeline.pin (pcfgs (F := F)) adm 2) c)
    (h : RegionData (F := F) 2 n dt) : SegRegion (F := F) 2 n (Proc.devRef .tc main_v25) :=
  seg_of_data (p := 2) n dt h 7 Gen.winFacts4 Gen.block_pos4 Gen.stage_whole4 Gen.arr_whole4
    (show ∀ w : Fin 8, w ≠ 7 → (win4 w).isOut = false by decide)

/-- The third (pipeline 3). -/
theorem seg_region3_at (n : ℕ)
    (dt : Valuation τ sig (Elt F) → (c : Dev nD) → Dat τ (Elt F) (HIx 4) ℕ UU ℕ (Pipeline.pin (pcfgs (F := F)) adm 3) c)
    (h : RegionData (F := F) 3 n dt) : SegRegion (F := F) 3 n (Proc.devRef .tc main_v29) :=
  seg_of_data (p := 3) n dt h 7 Gen.winFacts6 Gen.block_pos6 Gen.stage_whole6 Gen.arr_whole6
    (show ∀ w : Fin 8, w ≠ 7 → (win6 w).isOut = false by decide)

/-- The fourth (pipeline 4). -/
theorem seg_region4_at (n : ℕ)
    (dt : Valuation τ sig (Elt F) → (c : Dev nD) → Dat τ (Elt F) (HIx 4) ℕ UU ℕ (Pipeline.pin (pcfgs (F := F)) adm 4) c)
    (h : RegionData (F := F) 4 n dt) : SegRegion (F := F) 4 n (Proc.devRef .tc main_v33) :=
  seg_of_data (p := 4) n dt h 7 Gen.winFacts8 Gen.block_pos8 Gen.stage_whole8 Gen.arr_whole8
    (show ∀ w : Fin 8, w ≠ 7 → (win8 w).isOut = false by decide)

end Cert.KernelIdeal.Sc

end
-- ==== Proof.GatherBody.lean ====
/-
  The body of the sparse-core gather kernel of the first call, once, at a symbolic tile, for any float instance.

  Tile (c, s) is worker w = 2·s + c of 32. It copies slab w of the index array (32 lists of 128 row numbers) into its
  local index buffer, waits for the copy, and issues four indexed copies: rows idx[b][·] of y into row buffer b, on
  gather semaphore b (b = 0..3). Then eight trips; in trip g, for each slot b with j = 4g + b: wait for gather b (row
  buffer b holds the 128 rows list j names); copy row buffer b to output rows (32w + j)·128 … + 127 on write semaphore
  b; wait for it; and, when j + 4 < 32, issue the indexed copy of list j + 4 into row buffer b. One copy is outstanding
  per semaphore at any time, and nothing touches a copy's source or destination between its issue and its wait.
-/
import proofs.«215235_g2774548873965_cont_9to1_572_34_alg».proof.Proof.ScPay
import Idealize.ShloMosaic.Lib.SparseCore.Launch
import Idealize.ShloMosaic.Lib.SparseCore.Ops
import Idealize.ShloMosaic.Lib.SparseCore.Stream
import Idealize.ShloMosaic.Lib.Transfers
import Idealize.ShloMosaic.Lib.Pipeline.Kit
import Idealize.ShloMosaic.Lib.Tactic
import proofs.«215235_g2774548873965_cont_9to1_572_34_alg».proof.Proof.Gen.KernelIdeal.Skeleton

noncomputable section

namespace Cert.KernelIdeal.Sc.Gather0

open Cert.KernelIdeal
open Cert.KernelIdeal.Facts₀ Cert.KernelIdeal.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

/-! ## The tile and the buffers, as the program names them -/

abbrev cV (L : grid1.Coords) : Fin τ.nSC := (L 0).castLE hcore1
abbrev jV (L : grid1.Coords) : Fin τ.nSub := (L 1).castLE hsub1
abbrev thrV (d : Dev nD) (L : grid1.Coords) : Thread nD τ := V d (cV L) (jV L)

local notation "yV" => (Memref.whole Cert.KernelIdeal.main_v1_scv : Memref Cert.KernelIdeal.sig Kind.scVector Space.hbm Cert.KernelIdeal.S8192x128 EltTy.f32)
local notation "ixV" => (Memref.whole Cert.KernelIdeal.main_v19_scv : Memref Cert.KernelIdeal.sig Kind.scVector Space.hbm Cert.KernelIdeal.S32x32x128 EltTy.i32)
local notation "oV" => (Memref.whole Cert.KernelIdeal.main_v20_scv : Memref Cert.KernelIdeal.sig Kind.scVector Space.hbm Cert.KernelIdeal.S131072x128 EltTy.f32)
local notation "ivV" => (Memref.whole Cert.KernelIdeal.cc1_scratch0 : Memref Cert.KernelIdeal.sig Kind.scVector Space.vmem Cert.KernelIdeal.S32x128 EltTy.i32)
local notation "r0V" => (Memref.whole Cert.KernelIdeal.cc1_scratch1 : Memref Cert.KernelIdeal.sig Kind.scVector Space.vmem Cert.KernelIdeal.S128x128 EltTy.f32)
local notation "r1V" => (Memref.whole Cert.KernelIdeal.cc1_scratch2 : Memref Cert.KernelIdeal.sig Kind.scVector Space.vmem Cert.KernelIdeal.S128x128 EltTy.f32)
local notation "r2V" => (Memref.whole Cert.KernelIdeal.cc1_scratch3 : Memref Cert.KernelIdeal.sig Kind.scVector Space.vmem Cert.KernelIdeal.S128x128 EltTy.f32)
local notation "r3V" => (Memref.whole Cert.KernelIdeal.cc1_scratch4 : Memref Cert.KernelIdeal.sig Kind.scVector Space.vmem Cert.KernelIdeal.S128x128 EltTy.f32)

/-- The tile's slab of the index array, squeezed to its [32, 128] plane, as the program slices it. -/
abbrev slabK (L : grid1.Coords) : Memref sig .scVector .hbm S32x128 .i32 :=
  ((ixV).slice (Rect.unit (s := S32x32x128) (k1_off1 L) S1x32x128.size (k1_off1_inb L)) (fun _ => rfl)).squeeze S32x128 squeezes_S1x32x128_S32x128

/-- Output chunk 4t + b of the tile, as the program slices it (one abbreviation per slot: the slot is a literal word). -/
abbrev outK0 (L : grid1.Coords) (t : Fin k1_t1_loop.trips) : Memref sig .scVector .hbm S128x128 .f32 :=
  (oV).slice (Rect.unit (s := S131072x128) (k1_off3 L t 0#32) S128x128.size (k1_off3_inb L t 0)) (fun _ => rfl)
abbrev outK1 (L : grid1.Coords) (t : Fin k1_t1_loop.trips) : Memref sig .scVector .hbm S128x128 .f32 :=
  (oV).slice (Rect.unit (s := S131072x128) (k1_off3 L t 1#32) S128x128.size (k1_off3_inb L t 1)) (fun _ => rfl)
abbrev outK2 (L : grid1.Coords) (t : Fin k1_t1_loop.trips) : Memref sig .scVector .hbm S128x128 .f32 :=
  (oV).slice (Rect.unit (s := S131072x128) (k1_off3 L t 2#32) S128x128.size (k1_off3_inb L t 2)) (fun _ => rfl)
abbrev outK3 (L : grid1.Coords) (t : Fin k1_t1_loop.trips) : Memref sig .scVector .hbm S128x128 .f32 :=
  (oV).slice (Rect.unit (s := S131072x128) (k1_off3 L t 3#32) S128x128.size (k1_off3_inb L t 3)) (fun _ => rfl)

/-- List `off 0` of the local index buffer, as the program slices it. -/
abbrev idxRowAt (off : Fin 2 → ℕ) (hk : ∀ a, off a + S1x128.size a ≤ S32x128.size a) : Memref sig .scVector .vmem S128 .i32 :=
  ((ivV).slice (Rect.unit (s := S32x128) off S1x128.size hk) (fun _ => rfl)).squeeze S128 squeezes_S1x128_S128

/-- All of y, as the program slices it for a gather. -/
local notation "yAllK" => (Memref.slice (Memref.whole Cert.KernelIdeal.main_v1_scv : Memref Cert.KernelIdeal.sig Kind.scVector Space.hbm Cert.KernelIdeal.S8192x128 EltTy.f32) (Rect.unit (s := Cert.KernelIdeal.S8192x128) ![0, 0] Cert.KernelIdeal.S8192x128.size Cert.KernelIdeal.Facts₀.inb_S8192x128_S8192x128_0_0) (fun _ => rfl))

variable [FloatOps F]

abbrev 𝒱₀ : Variants := Variants.none

/-- A buffer the tile holds whole, by its own elements. -/
abbrev heldW {sp : Space} {s : Shape} {e : EltTy} (d : Dev nD) (L : grid1.Coords) (M : Memref sig .scVector sp s e) (q : PosShare TreeShare)
    (f : Buf (Elt F) (M.view.loc (thrV d L))) : sProp 𝕄 :=
  M.view.loc (thrV d L) ↦[M.view.set]{q} f

abbrev cellZ (d : Dev nD) (L : grid1.Coords) (a : DmaSems sig S_) : sProp 𝕄 := semVal ((thrV d L, SemLoc.dma a.sem) : GSem nD τ sig) 0

/-! ## The local index buffer as its 32 lists -/

omit [FloatOps F] in
theorem row_inb (j : Fin 32) : ∀ a, (![j.val, 0] : Fin 2 → ℕ) a + S1x128.size a ≤ S32x128.size a := by
  intro a
  match a with
  | 0 => have := j.isLt; show j.val + 1 ≤ 32; omega
  | 1 => show 0 + 128 ≤ 128; omega

/-- List j of the local index buffer. -/
abbrev idxRow (j : Fin 32) : Memref sig .scVector .vmem S128 .i32 := idxRowAt ![j.val, 0] (row_inb j)

/-- Two unit-stride rectangles at equal offsets and sizes are one. -/
theorem Rect.unit_congr {s : Shape} {off off' size size' : Fin s.rank → ℕ} (h1 : off = off') (h2 : size = size') (hk) (hk') :
    Rect.unit (s := s) off size hk = Rect.unit (s := s) off' size' hk' := by
  subst h1 h2; rfl

omit [FloatOps F] in
/-- The same list at another spelling of its offsets. -/
theorem idxRowAt_congr {off off' : Fin 2 → ℕ} (h : off = off') (hk) (hk') : idxRowAt off hk = idxRowAt off' hk' := by
  subst h; rfl

omit [FloatOps F] in
theorem set_idxRow (j : Fin 32) : (idxRow j).view.set = ((ivV).view.slice (S32x128.rowRect 0 j)).set := by
  show ((((ivV).view.slice (Rect.unit (s := S32x128) ![j.val, 0] S1x128.size (row_inb j)))).reshape S128 squeezes_S1x128_S128.numel_eq).set = _
  rw [View.set_reshape, View.set_slice, View.set_slice]
  refine congrArg (fun r : Rect S32x128 => r.set.map (ivV).view.emb) (Rect.unit_congr ?_ ?_ _ _)
  · funext a; match a with
    | 0 => rfl
    | 1 => rfl
  · funext a; match a with
    | 0 => rfl
    | 1 => rfl

/-- A list of the local index buffer, held whole by the tile. -/
abbrev rowPts (d : Dev nD) (L : grid1.Coords) (j : Fin 32) (f : Buf (Elt F) ((ivV).view.loc (thrV d L))) : sProp 𝕄 :=
  (idxRow j).view.loc (thrV d L) ↦[(idxRow j).view.set]{fullShare} f

omit [FloatOps F] in
/-- The local index buffer held whole is its 32 lists held each. -/
theorem iv_rows (d : Dev nD) (L : grid1.Coords) (f : Buf (Elt F) ((ivV).view.loc (thrV d L))) :
    ((ivV).view.loc (thrV d L) ↦[(ivV).view.set]{fullShare} f : sProp 𝕄) = bigSep Finset.univ fun j : Fin 32 => rowPts d L j f := by
  rw [pointsTo_rows (thrV d L) (ivV).view 0 fullShare f]
  refine bigSep_congr fun (j : Fin 32) _ => ?_
  show _ = ((idxRow j).view.loc (thrV d L) ↦[(idxRow j).view.set]{fullShare} f : sProp 𝕄)
  rw [set_idxRow]

/-! ## The lists' words are row numbers of y -/

omit [FloatOps F] in
/-- Whatever the local index buffer held before, once the slab has landed in it whole every word of every list is
    a word of the slab. -/
theorem hin_rows (d : Dev nD) (L : grid1.Coords) (fi : Buf (Elt F) ((slabK L).view.loc (thrV d L)))
    (hin : ∀ x, ((slabK L).view.read (Elt F) fi x).toNat < 8192)
    (g : Buf (Elt F) ((ivV).view.loc (thrV d L))) (pay : S32x128.Idx → Elt F .i32) (hpay : pay = (slabK L).view.read (Elt F) fi)
    (off : Fin 2 → ℕ) (hk : ∀ a, off a + S1x128.size a ≤ S32x128.size a) :
    ∀ x, (View.read (Elt F) (idxRowAt off hk).view
      ((ivV).view.writes (Elt F) g [⟨Rect.whole cc1_scratch0.ty.shape, pay⟩]) x).toNat < 8192 := by
  subst hpay; intro x
  have e : View.read (Elt F) (idxRowAt off hk).view ((ivV).view.writes (Elt F) g [⟨Rect.whole cc1_scratch0.ty.shape, (slabK L).view.read (Elt F) fi⟩]) x
      = View.read (Elt F) (ivV).view ((ivV).view.writes (Elt F) g [⟨Rect.whole cc1_scratch0.ty.shape, (slabK L).view.read (Elt F) fi⟩])
          ((Rect.unit (s := S32x128) off S1x128.size hk).emb ((Shape.reshapeEquiv squeezes_S1x128_S128.numel_eq) x)) := by
    rw [View.read_apply, View.read_apply]; rfl
  rw [e, View.read_writes_whole]
  exact hin _

omit [FloatOps F] in
/-- A list held, at another spelling of its offsets. -/
theorem rowPts_at (d : Dev nD) (L : grid1.Coords) (j : Fin 32) (off : Fin 2 → ℕ) (hk : ∀ a, off a + S1x128.size a ≤ S32x128.size a)
    (h : off = ![j.val, 0]) (f : Buf (Elt F) ((ivV).view.loc (thrV d L))) :
    rowPts d L j f = ((idxRowAt off hk).view.loc (thrV d L) ↦[(idxRowAt off hk).view.set]{fullShare} f : sProp 𝕄) := by
  subst h; rfl

/-! ## The loop's conditions, by trip -/

omit [FloatOps F] in
/-- In every trip but the last each slot issues its next gather; in the last none does. -/
theorem conds : ∀ k : Fin k1_t1_loop.trips,
    (k1_cond1 k = 1#1 ↔ k.val < 7) ∧ (k1_cond2 k = 1#1 ↔ ¬ k.val < 7) ∧ (k1_cond3 k = 1#1 ↔ k.val < 7) ∧ (k1_cond4 k = 1#1 ↔ ¬ k.val < 7)
    ∧ (k1_cond5 k = 1#1 ↔ k.val < 7) ∧ (k1_cond6 k = 1#1 ↔ ¬ k.val < 7) ∧ (k1_cond7 k = 1#1 ↔ k.val < 7) ∧ (k1_cond8 k = 1#1 ↔ ¬ k.val < 7) := by
  decide +kernel

/-! ## What the loop holds before trip k -/

omit [FloatOps F] in
theorem rowsInb (n : ℕ) (h : n < 32) : ∀ a, (![n, 0] : Fin 2 → ℕ) a + S1x128.size a ≤ S32x128.size a := by
  intro a
  match a with
  | 0 => show n + 1 ≤ 32; omega
  | 1 => show 0 + 128 ≤ 128; omega

/-- The lists no gather holds before trip k: all but lists 4k … 4k + 3. -/
def idle (k : ℕ) : Finset (Fin 32) := Finset.univ.filter fun j => j.val < 4 * k ∨ 4 * k + 4 ≤ j.val

/-- The tile's four output chunks of trip t, at some contents. -/
abbrev outTrip (d : Dev nD) (L : grid1.Coords) (t : Fin k1_t1_loop.trips) : sProp 𝕄 :=
  iprop((∃ f, heldW d L (outK0 L t) fullShare f) ∗ (∃ f, heldW d L (outK1 L t) fullShare f)
    ∗ (∃ f, heldW d L (outK2 L t) fullShare f) ∗ (∃ f, heldW d L (outK3 L t) fullShare f))

/-- A gather in flight on a slot: it will hand back the slot's row buffer written, the list it reads, and the share
    of y it reads. -/
abbrev gFlight (d : Dev nD) (L : grid1.Coords) (q : PosShare TreeShare) (sem : DmaSems sig S_) (n : ℕ)
    (rV : Memref sig .scVector .vmem S128x128 .f32) (off : Fin 2 → ℕ) (hk : ∀ a, off a + S1x128.size a ≤ S32x128.size a)
    (fr : Buf (Elt F) (rV.view.loc (thrV d L))) (fvc : Buf (Elt F) ((ivV).view.loc (thrV d L)))
    (fy : Buf (Elt F) ((yV).view.loc (thrV d L))) : sProp 𝕄 :=
  Transfers.Flight countersEmb (thrV d L) (SemLoc.dma sem.sem) (default : HIx 4) 524288
    iprop(((rV.view.loc (thrV d L) ↦[rV.view.set]{fullShare} fr)
        ∗ ((idxRowAt off hk).view.loc (thrV d L) ↦[(idxRowAt off hk).view.set]{fullShare} fvc))
      ∗ ((yV).view.loc (thrV d L) ↦[(yAllK).view.set]{Transfers.shareTokN q n} fy))

/-- What a gather leaves with the tile of the share of y it reads: nothing of y's elements. -/
abbrev yRest (d : Dev nD) (L : grid1.Coords) (q : PosShare TreeShare) (n : ℕ) (fy : Buf (Elt F) ((yV).view.loc (thrV d L))) : sProp 𝕄 :=
  (yV).view.loc (thrV d L) ↦[(yV).view.set \ (yAllK).view.set]{Transfers.shareTokN q n} fy

/-- Before trip k < 8: the four gathers of lists 4k … 4k + 3 in flight, every other list idle, the write semaphores at
    zero, the 32 output chunks at some contents. -/
def invA (d : Dev nD) (L : grid1.Coords) (q : PosShare TreeShare) (O : CellTallies nD τ sig (HIx 4)) (W : Waits sig (HIx 4))
    (fy : Buf (Elt F) ((yV).view.loc (thrV d L))) (fvc : Buf (Elt F) ((ivV).view.loc (thrV d L))) (k : ℕ) (hk8 : k < 8) : sProp 𝕄 :=
  iprop(Transfers.MayWaits (thrV d L) (default : HIx 4) O
    ∗ (∃ W', ⌜∀ p ∈ W', p ∈ W ∨ p.2 = none⌝ ∗ owes (thrV d L) O W')
    ∗ (cellZ d L cc1_scratch9 ∗ cellZ d L cc1_scratch10 ∗ cellZ d L cc1_scratch11 ∗ cellZ d L cc1_scratch12)
    ∗ bigSep Finset.univ (outTrip d L)
    ∗ bigSep (idle k) (fun j => rowPts d L j fvc)
    ∗ ((∃ fr, gFlight d L q cc1_scratch5 5 r0V ![4 * k + 0, 0] (rowsInb _ (by omega)) fr fvc fy) ∗ yRest d L q 5 fy)
    ∗ ((∃ fr, gFlight d L q cc1_scratch6 6 r1V ![4 * k + 1, 0] (rowsInb _ (by omega)) fr fvc fy) ∗ yRest d L q 6 fy)
    ∗ ((∃ fr, gFlight d L q cc1_scratch7 7 r2V ![4 * k + 2, 0] (rowsInb _ (by omega)) fr fvc fy) ∗ yRest d L q 7 fy)
    ∗ ((∃ fr, gFlight d L q cc1_scratch8 8 r3V ![4 * k + 3, 0] (rowsInb _ (by omega)) fr fvc fy) ∗ yRest d L q 8 fy))

omit [FloatOps F] in
theorem mem_idle_next (k : ℕ) (hk : k < 7) (b : ℕ) (hb : b < 4) : (⟨4 * k + 4 + b, by omega⟩ : Fin 32) ∈ idle k :=
  Finset.mem_filter.mpr ⟨Finset.mem_univ _, Or.inr (by show 4 * k + 4 ≤ 4 * k + 4 + b; omega)⟩

omit [FloatOps F] in
/-- The same gather at another spelling of its list's offsets. -/
theorem gFlight_off (d : Dev nD) (L : grid1.Coords) (q : PosShare TreeShare) (sem : DmaSems sig S_) (n : ℕ)
    (rV : Memref sig .scVector .vmem S128x128 .f32) {off off' : Fin 2 → ℕ} (h : off = off') (hk) (hk')
    (fr : Buf (Elt F) (rV.view.loc (thrV d L))) (fvc : Buf (Elt F) ((ivV).view.loc (thrV d L)))
    (fy : Buf (Elt F) ((yV).view.loc (thrV d L))) :
    gFlight d L q sem n rV off hk fr fvc fy = gFlight d L q sem n rV off' hk' fr fvc fy := by
  subst h; rfl

omit [FloatOps F] in
/-- A wait recorded at the default index keeps the waits among the earlier ones and those at no index. -/
theorem waits_ins {W W' : Waits sig (HIx 4)} (h : ∀ p ∈ W', p ∈ W ∨ p.2 = none) (s : SemLoc sig) :
    ∀ p ∈ insert (s, (default : HIx 4)) W', p ∈ W ∨ p.2 = none := by
  intro p hp
  rcases Finset.mem_insert.mp hp with hp | hp
  · exact .inr (hp ▸ rfl)
  · exact h p hp

omit [FloatOps F] in
/-- After trip k < 7 the idle lists are: those idle before but the four just lent, and the four just handed back. -/
theorem idle_step (k : ℕ) (hk : k < 7) (Φ : Fin 32 → sProp 𝕄)
    (h0 : 4 * k + 0 < 32) (h1 : 4 * k + 1 < 32) (h2 : 4 * k + 2 < 32) (h3 : 4 * k + 3 < 32)
    (h4 : 4 * k + 4 + 0 < 32) (h5 : 4 * k + 4 + 1 < 32) (h6 : 4 * k + 4 + 2 < 32) (h7 : 4 * k + 4 + 3 < 32) :
    iprop(bigSep (((((idle k).erase ⟨4 * k + 4 + 0, h4⟩).erase ⟨4 * k + 4 + 1, h5⟩).erase ⟨4 * k + 4 + 2, h6⟩).erase ⟨4 * k + 4 + 3, h7⟩) Φ
        ∗ Φ ⟨4 * k + 0, h0⟩ ∗ Φ ⟨4 * k + 1, h1⟩ ∗ Φ ⟨4 * k + 2, h2⟩ ∗ Φ ⟨4 * k + 3, h3⟩)
      ⊢ bigSep (idle (k + 1)) Φ := by
  have e : ((((idle (k + 1)).erase (⟨4 * k + 0, h0⟩ : Fin 32)).erase ⟨4 * k + 1, h1⟩).erase ⟨4 * k + 2, h2⟩).erase ⟨4 * k + 3, h3⟩
      = ((((idle k).erase (⟨4 * k + 4 + 0, h4⟩ : Fin 32)).erase ⟨4 * k + 4 + 1, h5⟩).erase ⟨4 * k + 4 + 2, h6⟩).erase ⟨4 * k + 4 + 3, h7⟩ := by
    ext j
    simp only [idle, Finset.mem_erase, Finset.mem_filter, Finset.mem_univ, true_and, ne_eq, Fin.ext_iff]
    omega
  have m0 : (⟨4 * k + 0, h0⟩ : Fin 32) ∈ idle (k + 1) := Finset.mem_filter.mpr ⟨Finset.mem_univ _, Or.inl (show 4 * k + 0 < 4 * (k + 1) by omega)⟩
  have m1 : (⟨4 * k + 1, h1⟩ : Fin 32) ∈ idle (k + 1) := Finset.mem_filter.mpr ⟨Finset.mem_univ _, Or.inl (show 4 * k + 1 < 4 * (k + 1) by omega)⟩
  have m2 : (⟨4 * k + 2, h2⟩ : Fin 32) ∈ idle (k + 1) := Finset.mem_filter.mpr ⟨Finset.mem_univ _, Or.inl (show 4 * k + 2 < 4 * (k + 1) by omega)⟩
  have m3 : (⟨4 * k + 3, h3⟩ : Fin 32) ∈ idle (k + 1) := Finset.mem_filter.mpr ⟨Finset.mem_univ _, Or.inl (show 4 * k + 3 < 4 * (k + 1) by omega)⟩
  rw [SparseCore.bigSep_erase' m0,
    SparseCore.bigSep_erase' (Finset.mem_erase.mpr ⟨by simp [Fin.ext_iff], m1⟩),
    SparseCore.bigSep_erase' (Finset.mem_erase.mpr ⟨by simp [Fin.ext_iff], Finset.mem_erase.mpr ⟨by simp [Fin.ext_iff], m2⟩⟩),
    SparseCore.bigSep_erase' (Finset.mem_erase.mpr ⟨by simp [Fin.ext_iff], Finset.mem_erase.mpr ⟨by simp [Fin.ext_iff], Finset.mem_erase.mpr ⟨by simp [Fin.ext_iff], m3⟩⟩⟩), e]
  iintro ⟨H, H0, H1, H2, H3⟩
  isplitl [H0]; · iexact H0
  isplitl [H1]; · iexact H1
  isplitl [H2]; · iexact H2
  isplitl [H3]; · iexact H3
  iexact H

set_option maxHeartbeats 4000000 in
theorem gk_tripA (d : Dev nD) (L : grid1.Coords) (q : PosShare TreeShare) (O : CellTallies nD τ sig (HIx 4)) (W : Waits sig (HIx 4))
    (fy : Buf (Elt F) ((yV).view.loc (thrV d L))) (fvc : Buf (Elt F) ((ivV).view.loc (thrV d L)))
    (hrowc : ∀ (off : Fin 2 → ℕ) (hk : ∀ a, off a + S1x128.size a ≤ S32x128.size a) (x : S128.Idx),
      (View.read (Elt F) (idxRowAt off hk).view fvc x).toNat < 8192)
    (v1 c0 c1 : BitVec 32) (k : Fin k1_t1_loop.trips) (hk : k.val < 7) (acc : Unit) :
    invA d L q O W fy fvc k.val (by omega)
      ⊢ wp frame (wpE (defs₀ (F := F)) 𝒱₀ (thrV d L) none) Set.univ
          (Gen.k1_t1_body L yV (Memref.isWhole_whole _) ixV (Memref.isWhole_whole _) oV (Memref.isWhole_whole _)
            ivV (Memref.isWhole_whole _) r0V (Memref.isWhole_whole _) r1V (Memref.isWhole_whole _)
            r2V (Memref.isWhole_whole _) r3V (Memref.isWhole_whole _)
            cc1_scratch5 cc1_scratch6 cc1_scratch7 cc1_scratch8 cc1_scratch9 cc1_scratch10 cc1_scratch11 cc1_scratch12 cc1_scoped0
            v1 c0 c1 k acc)
          fun _ => invA d L q O W fy fvc (k.val + 1) (by omega) := by
  obtain ⟨c1', c2', c3', c4', c5', c6', c7', c8'⟩ := conds k
  have hc1 : k1_cond1 k = 1#1 := c1'.mpr hk
  have hc2 : ¬ k1_cond2 k = 1#1 := fun h => (c2'.mp h) hk
  have hc3 : k1_cond3 k = 1#1 := c3'.mpr hk
  have hc4 : ¬ k1_cond4 k = 1#1 := fun h => (c4'.mp h) hk
  have hc5 : k1_cond5 k = 1#1 := c5'.mpr hk
  have hc6 : ¬ k1_cond6 k = 1#1 := fun h => (c6'.mp h) hk
  have hc7 : k1_cond7 k = 1#1 := c7'.mpr hk
  have hc8 : ¬ k1_cond8 k = 1#1 := fun h => (c8'.mp h) hk
  unfold invA gFlight yRest
  iintro ⟨#Hmw, ⟨%W', %hW', HO⟩, ⟨HW0, HW1, HW2, HW3⟩, Hout, Hrows, ⟨⟨%fr0, HG0⟩, HY0⟩, ⟨⟨%fr1, HG1⟩, HY1⟩, ⟨⟨%fr2, HG2⟩, HY2⟩, ⟨⟨%fr3, HG3⟩, HY3⟩⟩
  -- the four output chunks of this trip
  ihave Hx := (Entails.of_eq (SparseCore.bigSep_erase' (i := k) (Finset.mem_univ _))) $$ Hout
  icases Hx with ⟨⟨⟨%fo0, HO0⟩, ⟨%fo1, HO1⟩, ⟨%fo2, HO2⟩, ⟨%fo3, HO3⟩⟩, Hout⟩
  -- the four lists the trip's gathers will read
  ihave Hx := (Entails.of_eq (SparseCore.bigSep_erase' (i := (⟨4 * k.val + 4 + 0, by omega⟩ : Fin 32)) (mem_idle_next k.val hk 0 (by omega)))) $$ Hrows
  icases Hx with ⟨Hl0, Hrows⟩
  ihave Hx := (Entails.of_eq (SparseCore.bigSep_erase' (i := (⟨4 * k.val + 4 + 1, by omega⟩ : Fin 32))
    (Finset.mem_erase.mpr ⟨by simp [Fin.ext_iff], mem_idle_next k.val hk 1 (by omega)⟩))) $$ Hrows
  icases Hx with ⟨Hl1, Hrows⟩
  ihave Hx := (Entails.of_eq (SparseCore.bigSep_erase' (i := (⟨4 * k.val + 4 + 2, by omega⟩ : Fin 32))
    (Finset.mem_erase.mpr ⟨by simp [Fin.ext_iff], Finset.mem_erase.mpr ⟨by simp [Fin.ext_iff], mem_idle_next k.val hk 2 (by omega)⟩⟩))) $$ Hrows
  icases Hx with ⟨Hl2, Hrows⟩
  ihave Hx := (Entails.of_eq (SparseCore.bigSep_erase' (i := (⟨4 * k.val + 4 + 3, by omega⟩ : Fin 32))
    (Finset.mem_erase.mpr ⟨by simp [Fin.ext_iff], Finset.mem_erase.mpr ⟨by simp [Fin.ext_iff], Finset.mem_erase.mpr ⟨by simp [Fin.ext_iff], mem_idle_next k.val hk 3 (by omega)⟩⟩⟩))) $$ Hrows
  icases Hx with ⟨Hl3, Hrows⟩
  ihave Hl0' := (Entails.of_eq (rowPts_at (F := F) d L _ (k1_off5 k) (k1_off5_inb k hc1) (Gen.k1_off5_eq k) _)) $$ Hl0
  ihave Hl1' := (Entails.of_eq (rowPts_at (F := F) d L _ (k1_off8 k) (k1_off8_inb k hc3) (Gen.k1_off8_eq k) _)) $$ Hl1
  ihave Hl2' := (Entails.of_eq (rowPts_at (F := F) d L _ (k1_off11 k) (k1_off11_inb k hc5) (Gen.k1_off11_eq k) _)) $$ Hl2
  ihave Hl3' := (Entails.of_eq (rowPts_at (F := F) d L _ (k1_off14 k) (k1_off14_inb k hc7) (Gen.k1_off14_eq k) _)) $$ Hl3
  sl_unfold [Gen.k1_t1_body]
  sl_exec (disch := first | sl_exact hc1 | sl_exact hc2 | sl_exact hc3 | sl_exact hc4 | sl_exact hc5 | sl_exact hc6 | sl_exact hc7 | sl_exact hc8)
  sl_step
  isplitr; · iexact Hmw
  isplitl [HO]
  · iexists _; isplitr
    swap; · iexact HO
    ipureintro
    exact waits_ins (waits_ins (waits_ins (waits_ins (waits_ins (waits_ins (waits_ins (waits_ins hW' _) _) _) _) _) _) _) _
  isplitl [HW0 HW1 HW2 HW3]
  · isplitl [HW0]; · iexact HW0
    isplitl [HW1]; · iexact HW1
    isplitl [HW2]; · iexact HW2
    iexact HW3
  isplitl [Hout HO0 HO1 HO2 HO3]
  · iapply (Entails.of_eq (SparseCore.bigSep_erase' (i := k) (Finset.mem_univ _)).symm)
    isplitl [HO0 HO1 HO2 HO3]
    · isplitl [HO0]; · iexists _; iexact HO0
      isplitl [HO1]; · iexists _; iexact HO1
      isplitl [HO2]; · iexists _; iexact HO2
      iexists _; iexact HO3
    iexact Hout
  isplitl [Hrows HG0_dst_and HG1_dst_and HG2_dst_and HG3_dst_and]
  · iapply (idle_step (F := F) k.val hk (fun j => rowPts d L j fvc) (by omega) (by omega) (by omega) (by omega) (by omega) (by omega) (by omega) (by omega))
    isplitl [Hrows]; · iexact Hrows
    isplitl [HG0_dst_and]; · iexact HG0_dst_and
    isplitl [HG1_dst_and]; · iexact HG1_dst_and
    isplitl [HG2_dst_and]; · iexact HG2_dst_and
    iexact HG3_dst_and
  isplitl [HG0 HY0]
  · isplitl [HG0]
    · iexists _
      iapply (Entails.of_eq (gFlight_off (F := F) d L q cc1_scratch5 5 r0V ((Gen.k1_off5_eq k).trans (by rw [show 4 * (k.val + 1) + 0 = 4 * k.val + 4 by omega])) (k1_off5_inb k hc1) _ _ fvc fy))
      iexact HG0
    iexact HY0
  isplitl [HG1 HY1]
  · isplitl [HG1]
    · iexists _
      iapply (Entails.of_eq (gFlight_off (F := F) d L q cc1_scratch6 6 r1V ((Gen.k1_off8_eq k).trans (by rw [show 4 * (k.val + 1) + 1 = 4 * k.val + 5 by omega])) (k1_off8_inb k hc3) _ _ fvc fy))
      iexact HG1
    iexact HY1
  isplitl [HG2 HY2]
  · isplitl [HG2]
    · iexists _
      iapply (Entails.of_eq (gFlight_off (F := F) d L q cc1_scratch7 7 r2V ((Gen.k1_off11_eq k).trans (by rw [show 4 * (k.val + 1) + 2 = 4 * k.val + 6 by omega])) (k1_off11_inb k hc5) _ _ fvc fy))
      iexact HG2
    iexact HY2
  isplitl [HG3]
  · iexists _
    iapply (Entails.of_eq (gFlight_off (F := F) d L q cc1_scratch8 8 r3V ((Gen.k1_off14_eq k).trans (by rw [show 4 * (k.val + 1) + 3 = 4 * k.val + 7 by omega])) (k1_off14_inb k hc7) _ _ fvc fy))
    iexact HG3
  iexact HY3

omit [FloatOps F] in
/-- After the last trip every list is idle. -/
theorem idle_last (k : ℕ) (hk : k = 7) (Φ : Fin 32 → sProp 𝕄)
    (h0 : 4 * k + 0 < 32) (h1 : 4 * k + 1 < 32) (h2 : 4 * k + 2 < 32) (h3 : 4 * k + 3 < 32) :
    iprop(bigSep (idle k) Φ ∗ Φ ⟨4 * k + 0, h0⟩ ∗ Φ ⟨4 * k + 1, h1⟩ ∗ Φ ⟨4 * k + 2, h2⟩ ∗ Φ ⟨4 * k + 3, h3⟩)
      ⊢ bigSep Finset.univ Φ := by
  subst hk
  have e : ((((Finset.univ : Finset (Fin 32)).erase (⟨4 * 7 + 0, h0⟩ : Fin 32)).erase ⟨4 * 7 + 1, h1⟩).erase ⟨4 * 7 + 2, h2⟩).erase ⟨4 * 7 + 3, h3⟩ = idle 7 := by
    ext j
    simp only [idle, Finset.mem_erase, Finset.mem_filter, Finset.mem_univ, true_and, and_true, ne_eq, Fin.ext_iff]
    omega
  rw [SparseCore.bigSep_erase' (Finset.mem_univ (⟨4 * 7 + 0, h0⟩ : Fin 32)),
    SparseCore.bigSep_erase' (i := (⟨4 * 7 + 1, h1⟩ : Fin 32)) (Finset.mem_erase.mpr ⟨by simp [Fin.ext_iff], Finset.mem_univ _⟩),
    SparseCore.bigSep_erase' (i := (⟨4 * 7 + 2, h2⟩ : Fin 32)) (Finset.mem_erase.mpr ⟨by simp [Fin.ext_iff], Finset.mem_erase.mpr ⟨by simp [Fin.ext_iff], Finset.mem_univ _⟩⟩),
    SparseCore.bigSep_erase' (i := (⟨4 * 7 + 3, h3⟩ : Fin 32)) (Finset.mem_erase.mpr ⟨by simp [Fin.ext_iff], Finset.mem_erase.mpr ⟨by simp [Fin.ext_iff], Finset.mem_erase.mpr ⟨by simp [Fin.ext_iff], Finset.mem_univ _⟩⟩⟩), e]
  iintro ⟨H, H0, H1, H2, H3⟩
  isplitl [H0]; · iexact H0
  isplitl [H1]; · iexact H1
  isplitl [H2]; · iexact H2
  isplitl [H3]; · iexact H3
  iexact H

omit [FloatOps F] in
/-- Before the first trip lists 0 … 3 are lent. -/
theorem idle_zero : idle 0 = ((((Finset.univ : Finset (Fin 32)).erase 0).erase 1).erase 2).erase 3 := by
  ext j
  simp only [idle, Finset.mem_erase, Finset.mem_filter, Finset.mem_univ, true_and, and_true, ne_eq, Fin.ext_iff]
  show j.val < 4 * 0 ∨ 4 * 0 + 4 ≤ j.val ↔ ¬ j.val = 3 ∧ ¬ j.val = 2 ∧ ¬ j.val = 1 ∧ ¬ j.val = 0
  omega

/-- After the last trip: nothing in flight; every list idle, the row buffers at some contents, every semaphore at
    zero, the four shares of y whole again, the 32 output chunks at some contents. -/
def invEnd (d : Dev nD) (L : grid1.Coords) (q : PosShare TreeShare) (O : CellTallies nD τ sig (HIx 4)) (W : Waits sig (HIx 4))
    (fy : Buf (Elt F) ((yV).view.loc (thrV d L))) (fvc : Buf (Elt F) ((ivV).view.loc (thrV d L))) : sProp 𝕄 :=
  iprop(Transfers.MayWaits (thrV d L) (default : HIx 4) O
    ∗ (∃ W', ⌜∀ p ∈ W', p ∈ W ∨ p.2 = none⌝ ∗ owes (thrV d L) O W')
    ∗ (cellZ d L cc1_scratch9 ∗ cellZ d L cc1_scratch10 ∗ cellZ d L cc1_scratch11 ∗ cellZ d L cc1_scratch12)
    ∗ bigSep Finset.univ (outTrip d L)
    ∗ bigSep Finset.univ (fun j => rowPts d L j fvc)
    ∗ ((∃ fr, heldW d L r0V fullShare fr) ∗ cellZ d L cc1_scratch5 ∗ heldW d L yV (Transfers.shareTokN q 5) fy)
    ∗ ((∃ fr, heldW d L r1V fullShare fr) ∗ cellZ d L cc1_scratch6 ∗ heldW d L yV (Transfers.shareTokN q 6) fy)
    ∗ ((∃ fr, heldW d L r2V fullShare fr) ∗ cellZ d L cc1_scratch7 ∗ heldW d L yV (Transfers.shareTokN q 7) fy)
    ∗ ((∃ fr, heldW d L r3V fullShare fr) ∗ cellZ d L cc1_scratch8 ∗ heldW d L yV (Transfers.shareTokN q 8) fy))

set_option maxHeartbeats 4000000 in
theorem gk_tripB (d : Dev nD) (L : grid1.Coords) (q : PosShare TreeShare) (O : CellTallies nD τ sig (HIx 4)) (W : Waits sig (HIx 4))
    (fy : Buf (Elt F) ((yV).view.loc (thrV d L))) (fvc : Buf (Elt F) ((ivV).view.loc (thrV d L)))
    (hrowc : ∀ (off : Fin 2 → ℕ) (hk : ∀ a, off a + S1x128.size a ≤ S32x128.size a) (x : S128.Idx),
      (View.read (Elt F) (idxRowAt off hk).view fvc x).toNat < 8192)
    (v1 c0 c1 : BitVec 32) (k : Fin k1_t1_loop.trips) (hk : k.val = 7) (acc : Unit) :
    invA d L q O W fy fvc k.val (by omega)
      ⊢ wp frame (wpE (defs₀ (F := F)) 𝒱₀ (thrV d L) none) Set.univ
          (Gen.k1_t1_body L yV (Memref.isWhole_whole _) ixV (Memref.isWhole_whole _) oV (Memref.isWhole_whole _)
            ivV (Memref.isWhole_whole _) r0V (Memref.isWhole_whole _) r1V (Memref.isWhole_whole _)
            r2V (Memref.isWhole_whole _) r3V (Memref.isWhole_whole _)
            cc1_scratch5 cc1_scratch6 cc1_scratch7 cc1_scratch8 cc1_scratch9 cc1_scratch10 cc1_scratch11 cc1_scratch12 cc1_scoped0
            v1 c0 c1 k acc)
          fun _ => invEnd d L q O W fy fvc := by
  obtain ⟨c1', c2', c3', c4', c5', c6', c7', c8'⟩ := conds k
  have hn : ¬ k.val < 7 := by omega
  have hc1 : ¬ k1_cond1 k = 1#1 := fun h => hn (c1'.mp h)
  have hc2 : k1_cond2 k = 1#1 := c2'.mpr hn
  have hc3 : ¬ k1_cond3 k = 1#1 := fun h => hn (c3'.mp h)
  have hc4 : k1_cond4 k = 1#1 := c4'.mpr hn
  have hc5 : ¬ k1_cond5 k = 1#1 := fun h => hn (c5'.mp h)
  have hc6 : k1_cond6 k = 1#1 := c6'.mpr hn
  have hc7 : ¬ k1_cond7 k = 1#1 := fun h => hn (c7'.mp h)
  have hc8 : k1_cond8 k = 1#1 := c8'.mpr hn
  unfold invA invEnd gFlight yRest
  iintro ⟨#Hmw, ⟨%W', %hW', HO⟩, ⟨HW0, HW1, HW2, HW3⟩, Hout, Hrows, ⟨⟨%fr0, HG0⟩, HY0⟩, ⟨⟨%fr1, HG1⟩, HY1⟩, ⟨⟨%fr2, HG2⟩, HY2⟩, ⟨⟨%fr3, HG3⟩, HY3⟩⟩
  ihave Hx := (Entails.of_eq (SparseCore.bigSep_erase' (i := k) (Finset.mem_univ _))) $$ Hout
  icases Hx with ⟨⟨⟨%fo0, HO0⟩, ⟨%fo1, HO1⟩, ⟨%fo2, HO2⟩, ⟨%fo3, HO3⟩⟩, Hout⟩
  sl_unfold [Gen.k1_t1_body]
  sl_exec (disch := first | sl_exact hc1 | sl_exact hc2 | sl_exact hc3 | sl_exact hc4 | sl_exact hc5 | sl_exact hc6 | sl_exact hc7 | sl_exact hc8)
  sl_step
  isplitr; · iexact Hmw
  isplitl [HO]
  · iexists _; isplitr
    swap; · iexact HO
    ipureintro
    exact waits_ins (waits_ins (waits_ins (waits_ins (waits_ins (waits_ins (waits_ins (waits_ins hW' _) _) _) _) _) _) _) _
  isplitl [HW0 HW1 HW2 HW3]
  · isplitl [HW0]; · iexact HW0
    isplitl [HW1]; · iexact HW1
    isplitl [HW2]; · iexact HW2
    iexact HW3
  isplitl [Hout HO0 HO1 HO2 HO3]
  · iapply (Entails.of_eq (SparseCore.bigSep_erase' (i := k) (Finset.mem_univ _)).symm)
    isplitl [HO0 HO1 HO2 HO3]
    · isplitl [HO0]; · iexists _; iexact HO0
      isplitl [HO1]; · iexists _; iexact HO1
      isplitl [HO2]; · iexists _; iexact HO2
      iexists _; iexact HO3
    iexact Hout
  isplitl [Hrows HG0_dst_and HG1_dst_and HG2_dst_and HG3_dst_and]
  · iapply (idle_last (F := F) k.val hk (fun j => rowPts d L j fvc) (by omega) (by omega) (by omega) (by omega))
    isplitl [Hrows]; · iexact Hrows
    isplitl [HG0_dst_and]; · iexact HG0_dst_and
    isplitl [HG1_dst_and]; · iexact HG1_dst_and
    isplitl [HG2_dst_and]; · iexact HG2_dst_and
    iexact HG3_dst_and
  isplitl [HG0_dst HG0 HY0]
  · isplitl [HG0_dst]; · iexists _; iexact HG0_dst
    isplitl [HG0]; · iexact HG0
    iexact HY0
  isplitl [HG1_dst HG1 HY1]
  · isplitl [HG1_dst]; · iexists _; iexact HG1_dst
    isplitl [HG1]; · iexact HG1
    iexact HY1
  isplitl [HG2_dst HG2 HY2]
  · isplitl [HG2_dst]; · iexists _; iexact HG2_dst
    isplitl [HG2]; · iexact HG2
    iexact HY2
  isplitl [HG3_dst]; · iexists _; iexact HG3_dst
  isplitl [HG3]; · iexact HG3
  iexact HY3

/-! ## The loop's invariant, and the whole body -/

/-- What the loop holds before trip k: the gathers of trip k in flight while there is a trip k, nothing after. -/
def inv (d : Dev nD) (L : grid1.Coords) (q : PosShare TreeShare) (O : CellTallies nD τ sig (HIx 4)) (W : Waits sig (HIx 4))
    (fy : Buf (Elt F) ((yV).view.loc (thrV d L))) (fvc : Buf (Elt F) ((ivV).view.loc (thrV d L))) (k : ℕ) : Unit → sProp 𝕄 :=
  fun _ => if h : k < 8 then invA d L q O W fy fvc k h else invEnd d L q O W fy fvc

theorem inv_lt (d : Dev nD) (L : grid1.Coords) (q : PosShare TreeShare) (O : CellTallies nD τ sig (HIx 4)) (W : Waits sig (HIx 4))
    (fy : Buf (Elt F) ((yV).view.loc (thrV d L))) (fvc : Buf (Elt F) ((ivV).view.loc (thrV d L))) (k : ℕ) (h : k < 8) :
    inv d L q O W fy fvc k = fun _ => invA d L q O W fy fvc k h := by
  funext _; exact dif_pos h

theorem inv_ge (d : Dev nD) (L : grid1.Coords) (q : PosShare TreeShare) (O : CellTallies nD τ sig (HIx 4)) (W : Waits sig (HIx 4))
    (fy : Buf (Elt F) ((yV).view.loc (thrV d L))) (fvc : Buf (Elt F) ((ivV).view.loc (thrV d L))) (k : ℕ) (h : ¬ k < 8) :
    inv d L q O W fy fvc k = fun _ => invEnd d L q O W fy fvc := by
  funext _; exact dif_neg h

omit [FloatOps F] in
theorem trips_eq : k1_t1_loop.trips = 8 := by decide

theorem inv_end (d : Dev nD) (L : grid1.Coords) (q : PosShare TreeShare) (O : CellTallies nD τ sig (HIx 4)) (W : Waits sig (HIx 4))
    (fy : Buf (Elt F) ((yV).view.loc (thrV d L))) (fvc : Buf (Elt F) ((ivV).view.loc (thrV d L))) :
    inv d L q O W fy fvc (Scf.trips k1_t1_loop.lb k1_t1_loop.ub k1_t1_loop.st) = fun _ => invEnd d L q O W fy fvc :=
  inv_ge d L q O W fy fvc _ (by decide)

set_option maxHeartbeats 4000000 in
/-- The body on tile (L 0, L 1) of device d, from the tile's own spellings of what it holds: four read shares of y, its
    slab of the index array with every word a row number of y, its 32 output chunks, its local index buffer, its four
    row buffers, its nine semaphores at zero. It ends with the same, the output chunks, the local buffers at some
    contents. -/
theorem gk_core (d : Dev nD) (L : grid1.Coords) (q : PosShare TreeShare)
    (O : CellTallies nD τ sig (HIx 4)) (W : Waits sig (HIx 4))
    (fy : Buf (Elt F) ((yV).view.loc (thrV d L))) (fi : Buf (Elt F) ((slabK L).view.loc (thrV d L)))
    (fv : Buf (Elt F) ((ivV).view.loc (thrV d L)))
    (f0 : Buf (Elt F) ((r0V).view.loc (thrV d L))) (f1 : Buf (Elt F) ((r1V).view.loc (thrV d L)))
    (f2 : Buf (Elt F) ((r2V).view.loc (thrV d L))) (f3 : Buf (Elt F) ((r3V).view.loc (thrV d L)))
    (hin : ∀ x, ((slabK L).view.read (Elt F) fi x).toNat < 8192) :
    (iprop(Transfers.MayWaits (thrV d L) (default : HIx 4) O
        ∗ heldW d L yV (Transfers.shareTokN q 5) fy ∗ heldW d L yV (Transfers.shareTokN q 6) fy
        ∗ heldW d L yV (Transfers.shareTokN q 7) fy ∗ heldW d L yV (Transfers.shareTokN q 8) fy
        ∗ heldW d L (slabK L) fullShare fi
        ∗ heldW d L ivV fullShare fv
        ∗ heldW d L r0V fullShare f0 ∗ heldW d L r1V fullShare f1 ∗ heldW d L r2V fullShare f2 ∗ heldW d L r3V fullShare f3
        ∗ cellZ d L cc1_scratch5 ∗ cellZ d L cc1_scratch6 ∗ cellZ d L cc1_scratch7 ∗ cellZ d L cc1_scratch8
        ∗ cellZ d L cc1_scratch9 ∗ cellZ d L cc1_scratch10 ∗ cellZ d L cc1_scratch11 ∗ cellZ d L cc1_scratch12
        ∗ cellZ d L cc1_scoped0
        ∗ bigSep Finset.univ (outTrip d L)
        ∗ owes (thrV d L) O W) : sProp 𝕄)
      ⊢ wp frame (wpE (defs₀ (F := F)) 𝒱₀ (thrV d L) none) Set.univ
          (cc1_gk L yV (Memref.isWhole_whole _) ixV (Memref.isWhole_whole _) oV (Memref.isWhole_whole _)
            ivV (Memref.isWhole_whole _) r0V (Memref.isWhole_whole _) r1V (Memref.isWhole_whole _)
            r2V (Memref.isWhole_whole _) r3V (Memref.isWhole_whole _)
            cc1_scratch5 cc1_scratch6 cc1_scratch7 cc1_scratch8 cc1_scratch9 cc1_scratch10 cc1_scratch11 cc1_scratch12 cc1_scoped0)
          fun _ => iprop(heldW d L yV (Transfers.shareTokN q 5) fy ∗ heldW d L yV (Transfers.shareTokN q 6) fy
            ∗ heldW d L yV (Transfers.shareTokN q 7) fy ∗ heldW d L yV (Transfers.shareTokN q 8) fy
            ∗ heldW d L (slabK L) fullShare fi
            ∗ (∃ f, heldW d L ivV fullShare f)
            ∗ (∃ f, heldW d L r0V fullShare f) ∗ (∃ f, heldW d L r1V fullShare f) ∗ (∃ f, heldW d L r2V fullShare f) ∗ (∃ f, heldW d L r3V fullShare f)
            ∗ cellZ d L cc1_scratch5 ∗ cellZ d L cc1_scratch6 ∗ cellZ d L cc1_scratch7 ∗ cellZ d L cc1_scratch8
            ∗ cellZ d L cc1_scratch9 ∗ cellZ d L cc1_scratch10 ∗ cellZ d L cc1_scratch11 ∗ cellZ d L cc1_scratch12
            ∗ cellZ d L cc1_scoped0
            ∗ bigSep Finset.univ (outTrip d L)
            ∗ ∃ W', ⌜∀ p ∈ W', p ∈ W ∨ p.2 = none⌝ ∗ owes (thrV d L) O W') := by
  rw [Gen.cc1_gk_eq_skeleton]
  iintro ⟨#Hmw, HY0, HY1, HY2, HY3, HI, HV, HR0, HR1, HR2, HR3, HG0, HG1, HG2, HG3, HW0, HW1, HW2, HW3, HS, Hout, HO⟩
  sl_unfold [Gen.cc1_gk_skel, k1_part3]
  -- the slab lands in the local index buffer (one copy, awaited); the run stops before the first gather
  sl_exec
  -- whatever the buffer held before, every word of every list is now a word of the slab
  have hrow := fun g off hk => hin_rows d L fi hin g (gk_core.sl.dma0 d L fi) rfl off hk
  -- the buffer as its 32 lists; lists 0 … 3, spelt as the first four gathers slice them
  ihave Hrows := (Entails.of_eq (iv_rows (F := F) d L _)) $$ HV
  ihave Hx := (Entails.of_eq (SparseCore.bigSep_erase' (s := Finset.univ) (i := (0 : Fin 32)) (Finset.mem_univ _))) $$ Hrows
  icases Hx with ⟨Hl0, Hrows⟩
  ihave Hx := (Entails.of_eq (SparseCore.bigSep_erase' (i := (1 : Fin 32)) (by decide))) $$ Hrows
  icases Hx with ⟨Hl1, Hrows⟩
  ihave Hx := (Entails.of_eq (SparseCore.bigSep_erase' (i := (2 : Fin 32)) (by decide))) $$ Hrows
  icases Hx with ⟨Hl2, Hrows⟩
  ihave Hx := (Entails.of_eq (SparseCore.bigSep_erase' (i := (3 : Fin 32)) (by decide))) $$ Hrows
  icases Hx with ⟨Hl3, Hrows⟩
  ihave Hl0' := (Entails.of_eq (rowPts_at (F := F) d L 0 ![0, 0] inb_S32x128_S1x128_0_0 rfl _)) $$ Hl0
  ihave Hl1' := (Entails.of_eq (rowPts_at (F := F) d L 1 ![1, 0] inb_S32x128_S1x128_1_0 rfl _)) $$ Hl1
  ihave Hl2' := (Entails.of_eq (rowPts_at (F := F) d L 2 ![2, 0] inb_S32x128_S1x128_2_0 rfl _)) $$ Hl2
  ihave Hl3' := (Entails.of_eq (rowPts_at (F := F) d L 3 ![3, 0] inb_S32x128_S1x128_3_0 rfl _)) $$ Hl3
  -- the four gathers issue; the run stops at the loop
  sl_exec
  sl_for (inv d L q O W fy ((ivV).view.writes (Elt F) (ivV).view.junk [⟨Rect.whole cc1_scratch0.ty.shape, gk_core.sl.dma0 d L fi⟩]))
    $$ [HO HW0 HW1 HW2 HW3 Hout Hrows HG0 HY0 HG1 HY1 HG2 HY2 HG3 HY3]
  · -- one trip
    intro k acc
    have hk8 : k.val < 8 := trips_eq ▸ k.isLt
    rcases Nat.lt_or_ge k.val 7 with h7 | h7
    · rw [inv_lt (h := hk8), inv_lt (k := k.val + 1) (h := by omega)]
      exact gk_tripA d L q O W fy _ (hrow _) _ _ _ k h7 acc
    · rw [inv_lt (h := hk8), inv_ge (k := k.val + 1) (h := by omega)]
      exact gk_tripB d L q O W fy _ (hrow _) _ _ _ k (by omega) acc
  · -- the invariant before the first trip
    rw [inv_lt (k := 0) (h := by omega)]
    beta_reduce
    unfold invA gFlight yRest
    isplitr; · iexact Hmw
    isplitl [HO]
    · iexists _; isplitr
      swap; · iexact HO
      ipureintro
      exact waits_ins (fun p hp => .inl hp) _
    isplitl [HW0 HW1 HW2 HW3]
    · isplitl [HW0]; · iexact HW0
      isplitl [HW1]; · iexact HW1
      isplitl [HW2]; · iexact HW2
      iexact HW3
    isplitl [Hout]; · iexact Hout
    isplitl [Hrows]; · rw [idle_zero]; iexact Hrows
    isplitl [HG0 HY0]
    · isplitl [HG0]; · iexists _; iexact HG0
      iexact HY0
    isplitl [HG1 HY1]
    · isplitl [HG1]; · iexists _; iexact HG1
      iexact HY1
    isplitl [HG2 HY2]
    · isplitl [HG2]; · iexists _; iexact HG2
      iexact HY2
    isplitl [HG3]; · iexists _; iexact HG3
    iexact HY3
  -- after the loop
  iintro %acc HL
  rw [inv_end]
  beta_reduce
  unfold invEnd
  icases HL with ⟨-, ⟨%W', %hW', HO⟩, ⟨HW0, HW1, HW2, HW3⟩, Hout, Hrows, ⟨⟨%fr0, HR0⟩, HG0, HY0⟩, ⟨⟨%fr1, HR1⟩, HG1, HY1⟩, ⟨⟨%fr2, HR2⟩, HG2, HY2⟩, ⟨⟨%fr3, HR3⟩, HG3, HY3⟩⟩
  sl_exec
  sl_step
  isplitl [HY0]; · iexact HY0
  isplitl [HY1]; · iexact HY1
  isplitl [HY2]; · iexact HY2
  isplitl [HY3]; · iexact HY3
  isplitl [HI]; · iexact HI
  isplitl [Hrows]
  · iexists _
    iapply (Entails.of_eq (iv_rows (F := F) d L _).symm)
    iexact Hrows
  isplitl [HR0]; · iexists _; iexact HR0
  isplitl [HR1]; · iexists _; iexact HR1
  isplitl [HR2]; · iexists _; iexact HR2
  isplitl [HR3]; · iexists _; iexact HR3
  isplitl [HG0]; · iexact HG0
  isplitl [HG1]; · iexact HG1
  isplitl [HG2]; · iexact HG2
  isplitl [HG3]; · iexact HG3
  isplitl [HW0]; · iexact HW0
  isplitl [HW1]; · iexact HW1
  isplitl [HW2]; · iexact HW2
  isplitl [HW3]; · iexact HW3
  isplitl [HS]; · iexact HS
  isplitl [Hout]; · iexact Hout
  iexists _; isplitr
  swap; · iexact HO
  ipureintro; exact hW'

/-! ## The tile's spellings against the launch's: the worker number, the slab, the share of y -/

omit [FloatOps F] in
theorem L0_lt (L : grid1.Coords) : (L 0).val < 2 := (L 0).isLt
omit [FloatOps F] in
theorem L1_lt (L : grid1.Coords) : (L 1).val < 16 := (L 1).isLt

/-- The tile's worker number: subcore-major, as the kernel computes it. -/
def widL (L : grid1.Coords) : Fin 32 := ⟨(L 1).val * 2 + (L 0).val, by have := L0_lt L; have := L1_lt L; omega⟩

omit [FloatOps F] in
/-- The slab the program slices is the worker's part of the index array. -/
theorem slab_rect (L : grid1.Coords) :
    Rect.unit (s := S32x32x128) (k1_off1 L) S1x32x128.size (k1_off1_inb L) = slabRect (widL L) := by
  unfold slabRect Rect.part Rect.block
  refine Rect.unit_congr ?_ ?_ _ _
  · rw [Gen.k1_off1_eq]
    funext a
    match a with
    | 0 => show 2 * (L 1).val + (L 0).val = ((L 1).val * 2 + (L 0).val) * (32 / 32); omega
    | 1 => rfl
    | 2 => rfl
  · funext a
    match a with
    | 0 => rfl
    | 1 => rfl
    | 2 => rfl

omit [FloatOps F] in
theorem set_slabK (L : grid1.Coords) : (slabK L).view.set = (slabRect (widL L)).set := by
  show (((ixV).view.slice (Rect.unit (s := S32x32x128) (k1_off1 L) S1x32x128.size (k1_off1_inb L))).reshape S32x128 squeezes_S1x32x128_S32x128.numel_eq).set = _
  rw [View.set_reshape]
  exact (View.set_slice_whole _ _).trans (congrArg (fun r : Rect S32x32x128 => r.set) (slab_rect L))

omit [FloatOps F] in
/-- The slab held, in the tile's spelling and in the launch's. -/
theorem pts_slabK (d : Dev nD) (L : grid1.Coords) (f : Buf (Elt F) (ixLoc0 d)) :
    (heldW d L (slabK L) fullShare f : sProp 𝕄) = (ixLoc0 d ↦[(slabRect (widL L)).set]{fullShare} f) := by
  unfold heldW
  rw [set_slabK]

omit [FloatOps F] in
/-- Every word of the slab is a row number of y, in the tile's reading of it. -/
theorem hin_slabK (d : Dev nD) (L : grid1.Coords) (f : Buf (Elt F) (ixLoc0 d))
    (h : ∀ j ∈ (slabRect (widL L)).set, (f j).toNat < 8192) :
    ∀ x, ((slabK L).view.read (Elt F) f x).toNat < 8192 := by
  intro x
  rw [View.read_apply]
  refine h _ ?_
  rw [← set_slabK]
  exact Finset.mem_map_of_mem _ (Finset.mem_univ x)

omit [FloatOps F] in
/-- All of y held at a share, in the tile's spelling and in the launch's. -/
theorem pts_yV (d : Dev nD) (L : grid1.Coords) (s : PosShare TreeShare) (f : Buf (Elt F) (yLoc d)) :
    (heldW d L yV s f : sProp 𝕄) = (yLoc d ↦{s} f) := by
  unfold heldW
  rw [show (yV).view.set = Finset.univ from View.set_whole _]

/-! ## The tile's 32 output chunks are the worker's 4096 rows of the output -/

abbrev oLocV (d : Dev nD) (L : grid1.Coords) : Loc nD τ sig := (oV).view.loc (thrV d L)

omit [FloatOps F] in
theorem mem_rowsRect (L : grid1.Coords) (i : S131072x128.Idx) :
    i ∈ (rowsRect (widL L)).set ↔ 4096 * (widL L).val ≤ (i 0).val ∧ (i 0).val < 4096 * (widL L).val + 4096 := by
  unfold rowsRect Rect.part Rect.block
  rw [Rect.mem_set_unit, Fin.forall_fin_two]
  have h1 : (i 1).val < 128 := (i 1).isLt
  show ((widL L).val * (131072 / 32) ≤ (i 0).val ∧ (i 0).val < (widL L).val * (131072 / 32) + 131072 / 32)
      ∧ (0 * 128 ≤ (i 1).val ∧ (i 1).val < 0 * 128 + 128) ↔ _
  omega

omit [FloatOps F] in
theorem mem_chunk (L : grid1.Coords) (t : Fin k1_t1_loop.trips) (r : Fin 4) (i : S131072x128.Idx) :
    i ∈ (Rect.unit (s := S131072x128) (k1_off3 L t (BitVec.ofNat 32 r.val)) S128x128.size (k1_off3_inb L t r)).set
      ↔ 4096 * (widL L).val + 512 * t.val + 128 * r.val ≤ (i 0).val ∧ (i 0).val < 4096 * (widL L).val + 512 * t.val + 128 * r.val + 128 := by
  rw [Rect.mem_set_unit, Gen.k1_off3_eq, Fin.forall_fin_two]
  have h1 : (i 1).val < 128 := (i 1).isLt
  show ((8192 * (L 1).val + 4096 * (L 0).val + 512 * t.val + 128 * r.val ≤ (i 0).val
        ∧ (i 0).val < 8192 * (L 1).val + 4096 * (L 0).val + 512 * t.val + 128 * r.val + 128)
      ∧ (0 ≤ (i 1).val ∧ (i 1).val < 0 + 128))
    ↔ 4096 * ((L 1).val * 2 + (L 0).val) + 512 * t.val + 128 * r.val ≤ (i 0).val
      ∧ (i 0).val < 4096 * ((L 1).val * 2 + (L 0).val) + 512 * t.val + 128 * r.val + 128
  omega

/-- The elements of output chunk 4t + r of the tile. -/
abbrev chunkSet (L : grid1.Coords) (t : Fin k1_t1_loop.trips) (r : Fin 4) : Finset S131072x128.Idx :=
  (Rect.unit (s := S131072x128) (k1_off3 L t (BitVec.ofNat 32 r.val)) S128x128.size (k1_off3_inb L t r)).set

/-- The elements of the four chunks of trip t. -/
abbrev tripSet (L : grid1.Coords) (t : Fin k1_t1_loop.trips) : Finset S131072x128.Idx :=
  chunkSet L t 0 ∪ (chunkSet L t 1 ∪ (chunkSet L t 2 ∪ chunkSet L t 3))

omit [FloatOps F] in
theorem chunk_disjoint (L : grid1.Coords) (t : Fin k1_t1_loop.trips) {r r' : Fin 4} (h : r ≠ r') : Disjoint (chunkSet L t r) (chunkSet L t r') := by
  refine Finset.disjoint_left.mpr fun i hi hi' => h (Fin.ext ?_)
  rw [mem_chunk] at hi hi'
  omega

omit [FloatOps F] in
theorem mem_tripSet (L : grid1.Coords) (t : Fin k1_t1_loop.trips) (i : S131072x128.Idx) :
    i ∈ tripSet L t ↔ 4096 * (widL L).val + 512 * t.val ≤ (i 0).val ∧ (i 0).val < 4096 * (widL L).val + 512 * t.val + 512 := by
  simp only [tripSet, Finset.mem_union, mem_chunk]
  show _ ↔ _
  have e0 : ((0 : Fin 4) : ℕ) = 0 := rfl
  have e1 : ((1 : Fin 4) : ℕ) = 1 := rfl
  have e2 : ((2 : Fin 4) : ℕ) = 2 := rfl
  have e3 : ((3 : Fin 4) : ℕ) = 3 := rfl
  rw [e0, e1, e2, e3]
  omega

omit [FloatOps F] in
theorem trip_disjoint (L : grid1.Coords) {t t' : Fin k1_t1_loop.trips} (h : t ≠ t') : Disjoint (tripSet L t) (tripSet L t') := by
  refine Finset.disjoint_left.mpr fun i hi hi' => h (Fin.ext ?_)
  rw [mem_tripSet] at hi hi'
  omega

omit [FloatOps F] in
/-- The worker's 4096 rows are the eight trips' chunks. -/
theorem rows_cover (L : grid1.Coords) : (rowsRect (widL L)).set = Finset.univ.biUnion (tripSet L) := by
  ext i
  rw [mem_rowsRect, Finset.mem_biUnion]
  constructor
  · intro h
    have h8 : ((i 0).val - 4096 * (widL L).val) / 512 < k1_t1_loop.trips := by rw [trips_eq]; omega
    refine ⟨⟨((i 0).val - 4096 * (widL L).val) / 512, h8⟩, Finset.mem_univ _, ?_⟩
    rw [mem_tripSet]
    show 4096 * (widL L).val + 512 * (((i 0).val - 4096 * (widL L).val) / 512) ≤ (i 0).val
      ∧ (i 0).val < 4096 * (widL L).val + 512 * (((i 0).val - 4096 * (widL L).val) / 512) + 512
    omega
  · rintro ⟨t, -, ht⟩
    rw [mem_tripSet] at ht
    have ht8 : t.val < 8 := trips_eq ▸ t.isLt
    omega

omit [FloatOps F] in
theorem set_outK0 (L : grid1.Coords) (t : Fin k1_t1_loop.trips) : (outK0 L t).view.set = chunkSet L t 0 := View.set_slice_whole _ _
omit [FloatOps F] in
theorem set_outK1 (L : grid1.Coords) (t : Fin k1_t1_loop.trips) : (outK1 L t).view.set = chunkSet L t 1 := View.set_slice_whole _ _
omit [FloatOps F] in
theorem set_outK2 (L : grid1.Coords) (t : Fin k1_t1_loop.trips) : (outK2 L t).view.set = chunkSet L t 2 := View.set_slice_whole _ _
omit [FloatOps F] in
theorem set_outK3 (L : grid1.Coords) (t : Fin k1_t1_loop.trips) : (outK3 L t).view.set = chunkSet L t 3 := View.set_slice_whole _ _

omit [FloatOps F] in
theorem pts_outK0 (d : Dev nD) (L : grid1.Coords) (t : Fin k1_t1_loop.trips) (f : Buf (Elt F) (oLoc0 d)) :
    (heldW d L (outK0 L t) fullShare f : sProp 𝕄) = (oLoc0 d ↦[chunkSet L t 0]{fullShare} f) := by
  unfold heldW; rw [set_outK0]
omit [FloatOps F] in
theorem pts_outK1 (d : Dev nD) (L : grid1.Coords) (t : Fin k1_t1_loop.trips) (f : Buf (Elt F) (oLoc0 d)) :
    (heldW d L (outK1 L t) fullShare f : sProp 𝕄) = (oLoc0 d ↦[chunkSet L t 1]{fullShare} f) := by
  unfold heldW; rw [set_outK1]
omit [FloatOps F] in
theorem pts_outK2 (d : Dev nD) (L : grid1.Coords) (t : Fin k1_t1_loop.trips) (f : Buf (Elt F) (oLoc0 d)) :
    (heldW d L (outK2 L t) fullShare f : sProp 𝕄) = (oLoc0 d ↦[chunkSet L t 2]{fullShare} f) := by
  unfold heldW; rw [set_outK2]
omit [FloatOps F] in
theorem pts_outK3 (d : Dev nD) (L : grid1.Coords) (t : Fin k1_t1_loop.trips) (f : Buf (Elt F) (oLoc0 d)) :
    (heldW d L (outK3 L t) fullShare f : sProp 𝕄) = (oLoc0 d ↦[chunkSet L t 3]{fullShare} f) := by
  unfold heldW; rw [set_outK3]

omit [FloatOps F] in
theorem d23 (L : grid1.Coords) (t : Fin k1_t1_loop.trips) : Disjoint (chunkSet L t 2) (chunkSet L t 3) := chunk_disjoint L t (by decide)
omit [FloatOps F] in
theorem d1_23 (L : grid1.Coords) (t : Fin k1_t1_loop.trips) : Disjoint (chunkSet L t 1) (chunkSet L t 2 ∪ chunkSet L t 3) :=
  Finset.disjoint_union_right.mpr ⟨chunk_disjoint L t (by decide), chunk_disjoint L t (by decide)⟩
omit [FloatOps F] in
theorem d0_123 (L : grid1.Coords) (t : Fin k1_t1_loop.trips) : Disjoint (chunkSet L t 0) (chunkSet L t 1 ∪ (chunkSet L t 2 ∪ chunkSet L t 3)) :=
  Finset.disjoint_union_right.mpr ⟨chunk_disjoint L t (by decide),
    Finset.disjoint_union_right.mpr ⟨chunk_disjoint L t (by decide), chunk_disjoint L t (by decide)⟩⟩

omit [FloatOps F] in
/-- The worker's rows of the output, held at some contents, are its 32 chunks held each. -/
theorem out_split (d : Dev nD) (L : grid1.Coords) (fo : Buf (Elt F) (oLoc0 d)) :
    (oLoc0 d ↦[(rowsRect (widL L)).set]{fullShare} fo : sProp 𝕄) ⊢ bigSep Finset.univ (outTrip d L) := by
  have step : ∀ t, (oLoc0 d ↦[tripSet L t]{fullShare} fo : sProp 𝕄) ⊢ outTrip d L t := by
    intro t
    iintro H
    ihave H := (pointsTo_union (ℓ := oLoc0 d) (d0_123 L t)).1 $$ H
    icases H with ⟨H0, H⟩
    ihave H := (pointsTo_union (ℓ := oLoc0 d) (d1_23 L t)).1 $$ H
    icases H with ⟨H1, H⟩
    ihave H := (pointsTo_union (ℓ := oLoc0 d) (d23 L t)).1 $$ H
    icases H with ⟨H2, H3⟩
    isplitl [H0]; · iexists fo; iapply (Entails.of_eq (pts_outK0 (F := F) d L t fo).symm); iexact H0
    isplitl [H1]; · iexists fo; iapply (Entails.of_eq (pts_outK1 (F := F) d L t fo).symm); iexact H1
    isplitl [H2]; · iexists fo; iapply (Entails.of_eq (pts_outK2 (F := F) d L t fo).symm); iexact H2
    iexists fo; iapply (Entails.of_eq (pts_outK3 (F := F) d L t fo).symm); iexact H3
  rw [rows_cover]
  refine (Entails.of_eq (pointsTo_biUnion (ℓ := oLoc0 d) (q := fullShare) (f := fo) Finset.univ (tripSet L) (fun t _ t' _ h => trip_disjoint L h))).trans ?_
  exact bigSep_mono fun t _ => step t

/-- and back: the 32 chunks at some contents each are the worker's rows at some contents. -/
theorem out_join (d : Dev nD) (L : grid1.Coords) :
    bigSep Finset.univ (outTrip d L) ⊢ (iprop(∃ fo, oLoc0 d ↦[(rowsRect (widL L)).set]{fullShare} fo) : sProp 𝕄) := by
  have step : ∀ t, outTrip d L t ⊢ (iprop(∃ g, oLoc0 d ↦[tripSet L t]{fullShare} g) : sProp 𝕄) := by
    intro t
    iintro ⟨⟨%g0, H0⟩, ⟨%g1, H1⟩, ⟨%g2, H2⟩, ⟨%g3, H3⟩⟩
    ihave K0 := (Entails.of_eq (pts_outK0 (F := F) d L t g0)) $$ H0
    ihave K1 := (Entails.of_eq (pts_outK1 (F := F) d L t g1)) $$ H1
    ihave K2 := (Entails.of_eq (pts_outK2 (F := F) d L t g2)) $$ H2
    ihave K3 := (Entails.of_eq (pts_outK3 (F := F) d L t g3)) $$ H3
    ihave H23 := (pointsTo_join (ℓ := oLoc0 d) (d23 L t)) $$ [K2 K3]
    · isplitl [K2]; · iexact K2
      iexact K3
    ihave H123 := (pointsTo_join (ℓ := oLoc0 d) (d1_23 L t)) $$ [K1 H23]
    · isplitl [K1]; · iexact K1
      iexact H23
    ihave H0123 := (pointsTo_join (ℓ := oLoc0 d) (d0_123 L t)) $$ [K0 H123]
    · isplitl [K0]; · iexact K0
      iexact H123
    iexists _; iexact H0123
  refine (bigSep_mono fun t _ => step t).trans ?_
  refine (bigSep_exists_pi Finset.univ (fun t (g : Buf (Elt F) (oLoc0 d)) => (oLoc0 d ↦[tripSet L t]{fullShare} g : sProp 𝕄))).trans ?_
  iintro ⟨%gs, H⟩
  ihave H' := (pointsTo_biUnion_join (ℓ := oLoc0 d) (q := fullShare) (Val := Elt F) Finset.univ (tripSet L) gs (gs ⟨0, by rw [trips_eq]; omega⟩)
    (fun t _ t' _ h => trip_disjoint L h)) $$ H
  icases H' with ⟨%g, -, Hg⟩
  rw [rows_cover]
  iexists g; iexact Hg

/-! ## The tile's scoped storage: its five buffers and nine semaphores among all it owns -/

abbrev cellOf (d : Dev nD) (L : grid1.Coords) (a : DmaSems sig S_) : GSem nD τ sig := (thrV d L, SemLoc.dma a.sem)
abbrev bufOf (L : grid1.Coords) (b : Ref sig .scVector) : DevRef τ sig := (Proc.scVector (cV L) (jV L)).devRef b

omit [FloatOps F] in
theorem cell_ne (thr : Thread nD τ) {a b : SemLoc sig} (h : a ≠ b) : ((thr, a) : GSem nD τ sig) ≠ (thr, b) := fun e => h (congrArg Prod.snd e)
omit [FloatOps F] in
theorem buf_ne (L : grid1.Coords) {a b : Ref sig .scVector} (h : a ≠ b) : bufOf L a ≠ bufOf L b := fun e => h (Proc.devRef_injective _ e)

/-- The scoped semaphores of the tile other than the nine the body uses. -/
abbrev restCells (d : Dev nD) (L : grid1.Coords) : Finset (GSem nD τ sig) :=
  ((((((((((ownCells (thrV d L)).erase (cellOf d L cc1_scratch5)).erase (cellOf d L cc1_scratch6)).erase (cellOf d L cc1_scratch7)).erase (cellOf d L cc1_scratch8)).erase (cellOf d L cc1_scratch9)).erase (cellOf d L cc1_scratch10)).erase (cellOf d L cc1_scratch11)).erase (cellOf d L cc1_scratch12)).erase (cellOf d L cc1_scoped0))

/-- The buffers of the tile other than the five the body uses. -/
abbrev restRefs (L : grid1.Coords) : Finset (DevRef τ sig) :=
  ((((((ownRefs (τ := τ) (.scVector (cV L) (jV L))).erase (bufOf L cc1_scratch0)).erase (bufOf L cc1_scratch1)).erase (bufOf L cc1_scratch2)).erase (bufOf L cc1_scratch3)).erase (bufOf L cc1_scratch4))

omit [FloatOps F] in
theorem tile_sems (d : Dev nD) (L : grid1.Coords) :
    (ownSems0 (thrV d L) : sProp 𝕄)
      = iprop(cellZ d L cc1_scratch5 ∗ cellZ d L cc1_scratch6 ∗ cellZ d L cc1_scratch7 ∗ cellZ d L cc1_scratch8
          ∗ cellZ d L cc1_scratch9 ∗ cellZ d L cc1_scratch10 ∗ cellZ d L cc1_scratch11 ∗ cellZ d L cc1_scratch12
          ∗ cellZ d L cc1_scoped0 ∗ bigSep (restCells d L) fun g => semVal g 0) := by
  unfold SparseCore.Cfg.ownSems0
  rw [SparseCore.bigSep_erase' ((mem_ownCells (g := (cellOf d L cc1_scratch5))).mpr ⟨rfl, by show (SemLoc.dma cc1_scratch5.sem : SemLoc sig).isScoped .scVector = true; decide⟩),
    SparseCore.bigSep_erase' (Finset.mem_erase.mpr ⟨cell_ne (thrV d L) (by decide : (SemLoc.dma cc1_scratch6.sem : SemLoc sig) ≠ SemLoc.dma cc1_scratch5.sem), ((mem_ownCells (g := (cellOf d L cc1_scratch6))).mpr ⟨rfl, by show (SemLoc.dma cc1_scratch6.sem : SemLoc sig).isScoped .scVector = true; decide⟩)⟩),
    SparseCore.bigSep_erase' (Finset.mem_erase.mpr ⟨cell_ne (thrV d L) (by decide : (SemLoc.dma cc1_scratch7.sem : SemLoc sig) ≠ SemLoc.dma cc1_scratch6.sem), (Finset.mem_erase.mpr ⟨cell_ne (thrV d L) (by decide : (SemLoc.dma cc1_scratch7.sem : SemLoc sig) ≠ SemLoc.dma cc1_scratch5.sem), ((mem_ownCells (g := (cellOf d L cc1_scratch7))).mpr ⟨rfl, by show (SemLoc.dma cc1_scratch7.sem : SemLoc sig).isScoped .scVector = true; decide⟩)⟩)⟩),
    SparseCore.bigSep_erase' (Finset.mem_erase.mpr ⟨cell_ne (thrV d L) (by decide : (SemLoc.dma cc1_scratch8.sem : SemLoc sig) ≠ SemLoc.dma cc1_scratch7.sem), (Finset.mem_erase.mpr ⟨cell_ne (thrV d L) (by decide : (SemLoc.dma cc1_scratch8.sem : SemLoc sig) ≠ SemLoc.dma cc1_scratch6.sem), (Finset.mem_erase.mpr ⟨cell_ne (thrV d L) (by decide : (SemLoc.dma cc1_scratch8.sem : SemLoc sig) ≠ SemLoc.dma cc1_scratch5.sem), ((mem_ownCells (g := (cellOf d L cc1_scratch8))).mpr ⟨rfl, by show (SemLoc.dma cc1_scratch8.sem : SemLoc sig).isScoped .scVector = true; decide⟩)⟩)⟩)⟩),
    SparseCore.bigSep_erase' (Finset.mem_erase.mpr ⟨cell_ne (thrV d L) (by decide : (SemLoc.dma cc1_scratch9.sem : SemLoc sig) ≠ SemLoc.dma cc1_scratch8.sem), (Finset.mem_erase.mpr ⟨cell_ne (thrV d L) (by decide : (SemLoc.dma cc1_scratch9.sem : SemLoc sig) ≠ SemLoc.dma cc1_scratch7.sem), (Finset.mem_erase.mpr ⟨cell_ne (thrV d L) (by decide : (SemLoc.dma cc1_scratch9.sem : SemLoc sig) ≠ SemLoc.dma cc1_scratch6.sem), (Finset.mem_erase.mpr ⟨cell_ne (thrV d L) (by decide : (SemLoc.dma cc1_scratch9.sem : SemLoc sig) ≠ SemLoc.dma cc1_scratch5.sem), ((mem_ownCells (g := (cellOf d L cc1_scratch9))).mpr ⟨rfl, by show (SemLoc.dma cc1_scratch9.sem : SemLoc sig).isScoped .scVector = true; decide⟩)⟩)⟩)⟩)⟩),
    SparseCore.bigSep_erase' (Finset.mem_erase.mpr ⟨cell_ne (thrV d L) (by decide : (SemLoc.dma cc1_scratch10.sem : SemLoc sig) ≠ SemLoc.dma cc1_scratch9.sem), (Finset.mem_erase.mpr ⟨cell_ne (thrV d L) (by decide : (SemLoc.dma cc1_scratch10.sem : SemLoc sig) ≠ SemLoc.dma cc1_scratch8.sem), (Finset.mem_erase.mpr ⟨cell_ne (thrV d L) (by decide : (SemLoc.dma cc1_scratch10.sem : SemLoc sig) ≠ SemLoc.dma cc1_scratch7.sem), (Finset.mem_erase.mpr ⟨cell_ne (thrV d L) (by decide : (SemLoc.dma cc1_scratch10.sem : SemLoc sig) ≠ SemLoc.dma cc1_scratch6.sem), (Finset.mem_erase.mpr ⟨cell_ne (thrV d L) (by decide : (SemLoc.dma cc1_scratch10.sem : SemLoc sig) ≠ SemLoc.dma cc1_scratch5.sem), ((mem_ownCells (g := (cellOf d L cc1_scratch10))).mpr ⟨rfl, by show (SemLoc.dma cc1_scratch10.sem : SemLoc sig).isScoped .scVector = true; decide⟩)⟩)⟩)⟩)⟩)⟩),
    SparseCore.bigSep_erase' (Finset.mem_erase.mpr ⟨cell_ne (thrV d L) (by decide : (SemLoc.dma cc1_scratch11.sem : SemLoc sig) ≠ SemLoc.dma cc1_scratch10.sem), (Finset.mem_erase.mpr ⟨cell_ne (thrV d L) (by decide : (SemLoc.dma cc1_scratch11.sem : SemLoc sig) ≠ SemLoc.dma cc1_scratch9.sem), (Finset.mem_erase.mpr ⟨cell_ne (thrV d L) (by decide : (SemLoc.dma cc1_scratch11.sem : SemLoc sig) ≠ SemLoc.dma cc1_scratch8.sem), (Finset.mem_erase.mpr ⟨cell_ne (thrV d L) (by decide : (SemLoc.dma cc1_scratch11.sem : SemLoc sig) ≠ SemLoc.dma cc1_scratch7.sem), (Finset.mem_erase.mpr ⟨cell_ne (thrV d L) (by decide : (SemLoc.dma cc1_scratch11.sem : SemLoc sig) ≠ SemLoc.dma cc1_scratch6.sem), (Finset.mem_erase.mpr ⟨cell_ne (thrV d L) (by decide : (SemLoc.dma cc1_scratch11.sem : SemLoc sig) ≠ SemLoc.dma cc1_scratch5.sem), ((mem_ownCells (g := (cellOf d L cc1_scratch11))).mpr ⟨rfl, by show (SemLoc.dma cc1_scratch11.sem : SemLoc sig).isScoped .scVector = true; decide⟩)⟩)⟩)⟩)⟩)⟩)⟩),
    SparseCore.bigSep_erase' (Finset.mem_erase.mpr ⟨cell_ne (thrV d L) (by decide : (SemLoc.dma cc1_scratch12.sem : SemLoc sig) ≠ SemLoc.dma cc1_scratch11.sem), (Finset.mem_erase.mpr ⟨cell_ne (thrV d L) (by decide : (SemLoc.dma cc1_scratch12.sem : SemLoc sig) ≠ SemLoc.dma cc1_scratch10.sem), (Finset.mem_erase.mpr ⟨cell_ne (thrV d L) (by decide : (SemLoc.dma cc1_scratch12.sem : SemLoc sig) ≠ SemLoc.dma cc1_scratch9.sem), (Finset.mem_erase.mpr ⟨cell_ne (thrV d L) (by decide : (SemLoc.dma cc1_scratch12.sem : SemLoc sig) ≠ SemLoc.dma cc1_scratch8.sem), (Finset.mem_erase.mpr ⟨cell_ne (thrV d L) (by decide : (SemLoc.dma cc1_scratch12.sem : SemLoc sig) ≠ SemLoc.dma cc1_scratch7.sem), (Finset.mem_erase.mpr ⟨cell_ne (thrV d L) (by decide : (SemLoc.dma cc1_scratch12.sem : SemLoc sig) ≠ SemLoc.dma cc1_scratch6.sem), (Finset.mem_erase.mpr ⟨cell_ne (thrV d L) (by decide : (SemLoc.dma cc1_scratch12.sem : SemLoc sig) ≠ SemLoc.dma cc1_scratch5.sem), ((mem_ownCells (g := (cellOf d L cc1_scratch12))).mpr ⟨rfl, by show (SemLoc.dma cc1_scratch12.sem : SemLoc sig).isScoped .scVector = true; decide⟩)⟩)⟩)⟩)⟩)⟩)⟩)⟩),
    SparseCore.bigSep_erase' (Finset.mem_erase.mpr ⟨cell_ne (thrV d L) (by decide : (SemLoc.dma cc1_scoped0.sem : SemLoc sig) ≠ SemLoc.dma cc1_scratch12.sem), (Finset.mem_erase.mpr ⟨cell_ne (thrV d L) (by decide : (SemLoc.dma cc1_scoped0.sem : SemLoc sig) ≠ SemLoc.dma cc1_scratch11.sem), (Finset.mem_erase.mpr ⟨cell_ne (thrV d L) (by decide : (SemLoc.dma cc1_scoped0.sem : SemLoc sig) ≠ SemLoc.dma cc1_scratch10.sem), (Finset.mem_erase.mpr ⟨cell_ne (thrV d L) (by decide : (SemLoc.dma cc1_scoped0.sem : SemLoc sig) ≠ SemLoc.dma cc1_scratch9.sem), (Finset.mem_erase.mpr ⟨cell_ne (thrV d L) (by decide : (SemLoc.dma cc1_scoped0.sem : SemLoc sig) ≠ SemLoc.dma cc1_scratch8.sem), (Finset.mem_erase.mpr ⟨cell_ne (thrV d L) (by decide : (SemLoc.dma cc1_scoped0.sem : SemLoc sig) ≠ SemLoc.dma cc1_scratch7.sem), (Finset.mem_erase.mpr ⟨cell_ne (thrV d L) (by decide : (SemLoc.dma cc1_scoped0.sem : SemLoc sig) ≠ SemLoc.dma cc1_scratch6.sem), (Finset.mem_erase.mpr ⟨cell_ne (thrV d L) (by decide : (SemLoc.dma cc1_scoped0.sem : SemLoc sig) ≠ SemLoc.dma cc1_scratch5.sem), ((mem_ownCells (g := (cellOf d L cc1_scoped0))).mpr ⟨rfl, by show (SemLoc.dma cc1_scoped0.sem : SemLoc sig).isScoped .scVector = true; decide⟩)⟩)⟩)⟩)⟩)⟩)⟩)⟩)⟩)]

omit [FloatOps F] in
theorem tile_bufs (d : Dev nD) (L : grid1.Coords) :
    (ownBufs (thrV d L) : sProp 𝕄)
      = iprop((∃ f, (thrV d L).loc cc1_scratch0 ↦{fullShare} f) ∗ (∃ f, (thrV d L).loc cc1_scratch1 ↦{fullShare} f)
          ∗ (∃ f, (thrV d L).loc cc1_scratch2 ↦{fullShare} f) ∗ (∃ f, (thrV d L).loc cc1_scratch3 ↦{fullShare} f)
          ∗ (∃ f, (thrV d L).loc cc1_scratch4 ↦{fullShare} f)
          ∗ bigSep (restRefs L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (bufOf L cc1_scratch0)) rfl)).trans ?_
  rw [SparseCore.bigSep_erase' (Finset.mem_erase.mpr ⟨buf_ne L (by decide : (cc1_scratch1 : Ref sig .scVector) ≠ cc1_scratch0), (SparseCore.Cfg.mem_ownRefs_of_owner (p := Proc.scVector (cV L) (jV L)) (b := (bufOf L cc1_scratch1)) rfl)⟩),
    SparseCore.bigSep_erase' (Finset.mem_erase.mpr ⟨buf_ne L (by decide : (cc1_scratch2 : Ref sig .scVector) ≠ cc1_scratch1), (Finset.mem_erase.mpr ⟨buf_ne L (by decide : (cc1_scratch2 : Ref sig .scVector) ≠ cc1_scratch0), (SparseCore.Cfg.mem_ownRefs_of_owner (p := Proc.scVector (cV L) (jV L)) (b := (bufOf L cc1_scratch2)) rfl)⟩)⟩),
    SparseCore.bigSep_erase' (Finset.mem_erase.mpr ⟨buf_ne L (by decide : (cc1_scratch3 : Ref sig .scVector) ≠ cc1_scratch2), (Finset.mem_erase.mpr ⟨buf_ne L (by decide : (cc1_scratch3 : Ref sig .scVector) ≠ cc1_scratch1), (Finset.mem_erase.mpr ⟨buf_ne L (by decide : (cc1_scratch3 : Ref sig .scVector) ≠ cc1_scratch0), (SparseCore.Cfg.mem_ownRefs_of_owner (p := Proc.scVector (cV L) (jV L)) (b := (bufOf L cc1_scratch3)) rfl)⟩)⟩)⟩),
    SparseCore.bigSep_erase' (Finset.mem_erase.mpr ⟨buf_ne L (by decide : (cc1_scratch4 : Ref sig .scVector) ≠ cc1_scratch3), (Finset.mem_erase.mpr ⟨buf_ne L (by decide : (cc1_scratch4 : Ref sig .scVector) ≠ cc1_scratch2), (Finset.mem_erase.mpr ⟨buf_ne L (by decide : (cc1_scratch4 : Ref sig .scVector) ≠ cc1_scratch1), (Finset.mem_erase.mpr ⟨buf_ne L (by decide : (cc1_scratch4 : Ref sig .scVector) ≠ cc1_scratch0), (SparseCore.Cfg.mem_ownRefs_of_owner (p := Proc.scVector (cV L) (jV L)) (b := (bufOf L cc1_scratch4)) rfl)⟩)⟩)⟩)⟩)]

omit [FloatOps F] in
/-- A whole buffer held by the tile, in the two spellings. -/
theorem pts_whole (d : Dev nD) (L : grid1.Coords) (b : Ref sig .scVector) (s : PosShare TreeShare) (f : Buf (Elt F) ((thrV d L).loc b)) :
    ((Memref.whole b).view.loc (thrV d L) ↦[(Memref.whole b).view.set]{s} f : sProp 𝕄) = ((thrV d L).loc b ↦{s} f) := by
  rw [show (Memref.whole b).view.set = Finset.univ from View.set_whole _]

/-! ## The tile's share of y as four read shares, one per gather semaphore, and what is kept aside -/

/-- What is kept aside of a share of y while the four gathers hold theirs. -/
abbrev yKeep (ℓ : Loc nD τ sig) (q : PosShare TreeShare) (f : Buf (Elt F) ℓ) : sProp 𝕄 :=
  iprop((ℓ ↦{Transfers.shareDrop q 9} f)
    ∗ bigSep (((((Finset.range 9).erase 5).erase 6).erase 7).erase 8) (fun i => (ℓ ↦{Transfers.shareTokN q i} f : sProp 𝕄)))

omit [FloatOps F] in
theorem y_toks (ℓ : Loc nD τ sig) (q : PosShare TreeShare) (f : Buf (Elt F) ℓ) :
    (ℓ ↦{q} f : sProp 𝕄) ⊣⊢ iprop((ℓ ↦{Transfers.shareTokN q 5} f) ∗ (ℓ ↦{Transfers.shareTokN q 6} f)
      ∗ (ℓ ↦{Transfers.shareTokN q 7} f) ∗ (ℓ ↦{Transfers.shareTokN q 8} f) ∗ yKeep ℓ q f) := by
  have h := Transfers.pointsTo_toks_range (Ix := HIx 4) (Name := ℕ) (U := UU) (Lvl := ℕ) (ℓ := ℓ) (S := Finset.univ) (f := f) q 9
  have e : bigSep (Finset.range 9) (fun i => (ℓ ↦{Transfers.shareTokN q i} f : sProp 𝕄))
      = iprop((ℓ ↦{Transfers.shareTokN q 5} f) ∗ (ℓ ↦{Transfers.shareTokN q 6} f) ∗ (ℓ ↦{Transfers.shareTokN q 7} f) ∗ (ℓ ↦{Transfers.shareTokN q 8} f)
          ∗ bigSep (((((Finset.range 9).erase 5).erase 6).erase 7).erase 8) (fun i => (ℓ ↦{Transfers.shareTokN q i} f : sProp 𝕄))) := by
    rw [SparseCore.bigSep_erase' (by decide : 5 ∈ Finset.range 9), SparseCore.bigSep_erase' (by decide : 6 ∈ (Finset.range 9).erase 5),
      SparseCore.bigSep_erase' (by decide : 7 ∈ ((Finset.range 9).erase 5).erase 6),
      SparseCore.bigSep_erase' (by decide : 8 ∈ (((Finset.range 9).erase 5).erase 6).erase 7)]
  constructor
  · refine h.1.trans ?_
    rw [e]
    iintro ⟨Hd, H5, H6, H7, H8, Hr⟩
    isplitl [H5]; · iexact H5
    isplitl [H6]; · iexact H6
    isplitl [H7]; · iexact H7
    isplitl [H8]; · iexact H8
    isplitl [Hd]; · iexact Hd
    iexact Hr
  · refine BIBase.Entails.trans ?_ h.2
    rw [e]
    iintro ⟨H5, H6, H7, H8, Hd, Hr⟩
    isplitl [Hd]; · iexact Hd
    isplitl [H5]; · iexact H5
    isplitl [H6]; · iexact H6
    isplitl [H7]; · iexact H7
    isplitl [H8]; · iexact H8
    iexact Hr

/-! ## The body from what the launch hands the tile -/

set_option maxHeartbeats 4000000 in
/-- The body on tile (L 0, L 1) of device d from the worker's share as the launch states it — a share of y, its slab of
    the index array with every word a row number of y, its 4096 rows of the output — and the tile's scoped storage;
    it hands the same back, the output rows and the local buffers at some contents, owing what it owed. -/
theorem gk_body (hF : (K (F := F)).Facts) (d : Dev nD) (L : grid1.Coords)
    (O : CellTallies nD τ sig (HIx 4)) (W : Waits sig (HIx 4)) (hO : ∀ g, O g none = 0) :
    (iprop(levAts (K (F := F)).L (K (F := F)).lev ∗ share0 (F := F) d (widL L)
        ∗ scopedBufs (thrV d L) ∗ scopedSems0 (thrV d L) ∗ owes (thrV d L) O W) : sProp 𝕄)
      ⊢ wp frame (wpE (defs₀ (F := F)) 𝒱₀ (thrV d L) none) Set.univ
          (cc1_gk L yV (Memref.isWhole_whole _) ixV (Memref.isWhole_whole _) oV (Memref.isWhole_whole _)
            ivV (Memref.isWhole_whole _) r0V (Memref.isWhole_whole _) r1V (Memref.isWhole_whole _)
            r2V (Memref.isWhole_whole _) r3V (Memref.isWhole_whole _)
            cc1_scratch5 cc1_scratch6 cc1_scratch7 cc1_scratch8 cc1_scratch9 cc1_scratch10 cc1_scratch11 cc1_scratch12 cc1_scoped0)
          fun _ => iprop(share0 (F := F) d (widL L) ∗ scopedBufs (thrV d L) ∗ scopedSems0 (thrV d L)
            ∗ ∃ W', ⌜∀ p ∈ W', p ∈ W ∨ p.2 = none⌝ ∗ owes (thrV d L) O W') := by
  rw [(K (F := F)).scopedBufs_V hF d (cV L) (jV L), SparseCore.Cfg.scopedSems0_V (Val := Elt F) d (cV L) (jV L), tile_sems, tile_bufs]
  unfold share0
  iintro ⟨#Hlv, ⟨⟨%fy, HY⟩, ⟨%fi, HI, %hfi⟩, ⟨%fo, HOut⟩⟩, ⟨⟨%fv, HV⟩, ⟨%f0, HR0⟩, ⟨%f1, HR1⟩, ⟨%f2, HR2⟩, ⟨%f3, HR3⟩, Hbufs⟩, ⟨HG0, HG1, HG2, HG3, HW0, HW1, HW2, HW3, HS, Hsems⟩, HO⟩
  ihave Hmw := (show levAts (K (F := F)).L (K (F := F)).lev ⊢ Transfers.MayWaits (thrV d L) (default : HIx 4) O from
    (K (F := F)).mayWaits_none (thr := thrV d L) hO) $$ Hlv
  -- the share of y as the four gathers' read shares and the rest
  ihave HYs := (y_toks (F := F) (yLoc d) (ysh (widL L)) fy).1 $$ HY
  icases HYs with ⟨HY0, HY1, HY2, HY3, Hkeep⟩
  ihave KY0 := (Entails.of_eq (pts_yV (F := F) d L _ fy).symm) $$ HY0
  ihave KY1 := (Entails.of_eq (pts_yV (F := F) d L _ fy).symm) $$ HY1
  ihave KY2 := (Entails.of_eq (pts_yV (F := F) d L _ fy).symm) $$ HY2
  ihave KY3 := (Entails.of_eq (pts_yV (F := F) d L _ fy).symm) $$ HY3
  -- the slab, the output rows as 32 chunks, the five local buffers, in the tile's spellings
  ihave KI := (Entails.of_eq (pts_slabK (F := F) d L fi).symm) $$ HI
  ihave KOut := (out_split (F := F) d L fo) $$ HOut
  ihave KV := (Entails.of_eq (pts_whole (F := F) d L cc1_scratch0 fullShare fv).symm) $$ HV
  ihave KR0 := (Entails.of_eq (pts_whole (F := F) d L cc1_scratch1 fullShare f0).symm) $$ HR0
  ihave KR1 := (Entails.of_eq (pts_whole (F := F) d L cc1_scratch2 fullShare f1).symm) $$ HR1
  ihave KR2 := (Entails.of_eq (pts_whole (F := F) d L cc1_scratch3 fullShare f2).symm) $$ HR2
  ihave KR3 := (Entails.of_eq (pts_whole (F := F) d L cc1_scratch4 fullShare f3).symm) $$ HR3
  iapply (wp_wand_r frame (wpE (defs₀ (F := F)) 𝒱₀ (thrV d L) none) Set.univ)
  isplitl [Hmw KY0 KY1 KY2 KY3 KI KV KR0 KR1 KR2 KR3 HG0 HG1 HG2 HG3 HW0 HW1 HW2 HW3 HS KOut HO]
  · iapply (gk_core d L (ysh (widL L)) O W fy fi fv f0 f1 f2 f3 (hin_slabK d L fi hfi))
    isplitl [Hmw]; · iexact Hmw
    isplitl [KY0]; · iexact KY0
    isplitl [KY1]; · iexact KY1
    isplitl [KY2]; · iexact KY2
    isplitl [KY3]; · iexact KY3
    isplitl [KI]; · iexact KI
    isplitl [KV]; · iexact KV
    isplitl [KR0]; · iexact KR0
    isplitl [KR1]; · iexact KR1
    isplitl [KR2]; · iexact KR2
    isplitl [KR3]; · iexact KR3
    isplitl [HG0]; · iexact HG0
    isplitl [HG1]; · iexact HG1
    isplitl [HG2]; · iexact HG2
    isplitl [HG3]; · iexact HG3
    isplitl [HW0]; · iexact HW0
    isplitl [HW1]; · iexact HW1
    isplitl [HW2]; · iexact HW2
    isplitl [HW3]; · iexact HW3
    isplitl [HS]; · iexact HS
    isplitl [KOut]; · iexact KOut
    iexact HO
  iintro %a ⟨HY0, HY1, HY2, HY3, HI, ⟨%gv, HV⟩, ⟨%g0, HR0⟩, ⟨%g1, HR1⟩, ⟨%g2, HR2⟩, ⟨%g3, HR3⟩, HG0, HG1, HG2, HG3, HW0, HW1, HW2, HW3, HS, HOut, HO⟩
  isplitl [HY0 HY1 HY2 HY3 Hkeep HI HOut]
  · isplitl [HY0 HY1 HY2 HY3 Hkeep]
    · iexists fy
      iapply (y_toks (F := F) (yLoc d) (ysh (widL L)) fy).2
      isplitl [HY0]; · iapply (Entails.of_eq (pts_yV (F := F) d L _ fy)); iexact HY0
      isplitl [HY1]; · iapply (Entails.of_eq (pts_yV (F := F) d L _ fy)); iexact HY1
      isplitl [HY2]; · iapply (Entails.of_eq (pts_yV (F := F) d L _ fy)); iexact HY2
      isplitl [HY3]; · iapply (Entails.of_eq (pts_yV (F := F) d L _ fy)); iexact HY3
      iexact Hkeep
    isplitl [HI]
    · iexists fi
      isplitl [HI]; · iapply (Entails.of_eq (pts_slabK (F := F) d L fi)); iexact HI
      ipureintro; exact hfi
    iapply (out_join (F := F) d L); iexact HOut
  isplitl [HV HR0 HR1 HR2 HR3 Hbufs]
  · isplitl [HV]; · iexists gv; iapply (Entails.of_eq (pts_whole (F := F) d L cc1_scratch0 fullShare gv)); iexact HV
    isplitl [HR0]; · iexists g0; iapply (Entails.of_eq (pts_whole (F := F) d L cc1_scratch1 fullShare g0)); iexact HR0
    isplitl [HR1]; · iexists g1; iapply (Entails.of_eq (pts_whole (F := F) d L cc1_scratch2 fullShare g1)); iexact HR1
    isplitl [HR2]; · iexists g2; iapply (Entails.of_eq (pts_whole (F := F) d L cc1_scratch3 fullShare g2)); iexact HR2
    isplitl [HR3]; · iexists g3; iapply (Entails.of_eq (pts_whole (F := F) d L cc1_scratch4 fullShare g3)); iexact HR3
    iexact Hbufs
  isplitl [HG0 HG1 HG2 HG3 HW0 HW1 HW2 HW3 HS Hsems]
  · isplitl [HG0]; · iexact HG0
    isplitl [HG1]; · iexact HG1
    isplitl [HG2]; · iexact HG2
    isplitl [HG3]; · iexact HG3
    isplitl [HW0]; · iexact HW0
    isplitl [HW1]; · iexact HW1
    isplitl [HW2]; · iexact HW2
    isplitl [HW3]; · iexact HW3
    isplitl [HS]; · iexact HS
    iexact Hsems
  iexact HO

/-! ## The launch theorem's obligation for the first call's tiles -/

/-- The grid coordinates of tile s of core c. -/
def coordsV (c : Fin (grid1.bound 0)) (s : Fin (grid1.bound 1)) : grid1.Coords :=
  fun | 0 => c | 1 => s | ⟨_ + 2, h⟩ => absurd h (Nat.not_lt.2 (Nat.le_add_left _ _))

/-- The body table's row for the first call on a vector subcore. -/
theorem defs₀_vec1 (c : Fin τ.nSC) (s : Fin τ.nSub) :
    defs₀ (F := F) (.scVector c s) 1 ()
      = SparseCore.onTile hcore1 hsub1 (fun c s => cc1_gk (coordsV c s)
          yV (Memref.isWhole_whole _) ixV (Memref.isWhole_whole _) oV (Memref.isWhole_whole _)
          ivV (Memref.isWhole_whole _) r0V (Memref.isWhole_whole _) r1V (Memref.isWhole_whole _)
          r2V (Memref.isWhole_whole _) r3V (Memref.isWhole_whole _)
          cc1_scratch5 cc1_scratch6 cc1_scratch7 cc1_scratch8 cc1_scratch9 cc1_scratch10 cc1_scratch11 cc1_scratch12 cc1_scoped0) ⟨⟩ c s := rfl

omit [FloatOps F] in
/-- A post over the waits already recorded or at no index is one over those or at the call's index. -/
theorem post_weaken {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The first call's share of tile i of core c is the share of the worker the tile's coordinates name. -/
theorem go_eq0 (d : Dev nD) (c : Fin ((K (F := F)).nCore 0)) (i : Fin ((K (F := F)).nSub 0))
    (h0 : ((K (F := F)).core 0 c).val < grid1.bound 0) (h1 : ((K (F := F)).sub 0 i).val < grid1.bound 1) :
    (P (F := F)).go 0 d c i = share0 (F := F) d (widL (coordsV ⟨((K (F := F)).core 0 c).val, h0⟩ ⟨((K (F := F)).sub 0 i).val, h1⟩)) := by
  show share0 (F := F) d (wid (Fin.cast (nCore_eq 0) c) (Fin.cast (nSub_eq 0) i)) = _
  congr 1

theorem td_eq0 (d : Dev nD) (c : Fin ((K (F := F)).nCore 0)) (i : Fin ((K (F := F)).nSub 0))
    (h0 : ((K (F := F)).core 0 c).val < grid1.bound 0) (h1 : ((K (F := F)).sub 0 i).val < grid1.bound 1) :
    (P (F := F)).td 0 d c i = share0 (F := F) d (widL (coordsV ⟨((K (F := F)).core 0 c).val, h0⟩ ⟨((K (F := F)).sub 0 i).val, h1⟩)) :=
  go_eq0 d c i h0 h1

set_option maxRecDepth 16384 in
/-- Every tile of the first call runs its body from its worker's share to its worker's share. -/
theorem tileObl0 (hF : (K (F := F)).Facts) : (K (F := F)).TileObl (D (F := F)) 𝒱₀.lift (P (F := F)) (Sum.inl none) 0 := by
  intro d c i O W hO _ _
  simp only [show (P (F := F)).ox = fun _ _ => 0 from rfl, add_zero]
  have hci : ((K (F := F)).core 0 c).val < grid1.bound 0 ∧ ((K (F := F)).sub 0 i).val < grid1.bound 1 := ⟨c.isLt, i.isLt⟩
  rw [go_eq0 d c i hci.1 hci.2, td_eq0 d c i hci.1 hci.2]
  change _ ⊢ wp _ _ _ (Pipeline.liftProg (defs₀ (F := F) (.scVector ((K (F := F)).core 0 c) ((K (F := F)).sub 0 i)) 1 ())) _
  refine BIBase.Entails.trans ?_ (Pipeline.wp_liftProg (D (F := F)) (Pipeline.defs_kernel pcfgs defs₀) 𝒱₀ _ Set.univ none _ _)
  rw [defs₀_vec1]; simp only [SparseCore.onTile, hci, and_self, ↓reduceDIte]
  refine BIBase.Entails.trans ?_ ((gk_body hF d (coordsV ⟨_, hci.1⟩ ⟨_, hci.2⟩) O W hO).trans (wp_mono frame _ _ fun _ => post_weaken))
  iintro ⟨Hlv, -, Hgo, Hb, Hs, HO⟩
  isplitl [Hlv]; · iexact Hlv
  isplitl [Hgo]; · iexact Hgo
  isplitl [Hb]; · iexact Hb
  isplitl [Hs]; · iexact Hs
  iexact HO

end Cert.KernelIdeal.Sc.Gather0

end
-- ==== Proof.GatherBody3.lean ====
/-
  The body of the sparse-core gather kernel of the second call, once, at a symbolic tile, for any float instance.

  Tile (c, s) is worker w = 2·s + c of 32. It copies slab w of the index array (32 lists of 128 row numbers) into its
  local index buffer, waits for the copy, and issues four indexed copies: rows idx[b][·] of y into row buffer b, on
  gather semaphore b (b = 0..3). Then eight trips; in trip g, for each slot b with j = 4g + b: wait for gather b (row
  buffer b holds the 128 rows list j names); copy row buffer b to output rows (32w + j)·128 … + 127 on write semaphore
  b; wait for it; and, when j + 4 < 32, issue the indexed copy of list j + 4 into row buffer b. One copy is outstanding
  per semaphore at any time, and nothing touches a copy's source or destination between its issue and its wait.
-/
import proofs.«215235_g2774548873965_cont_9to1_572_34_alg».proof.Proof.ScPay
import Idealize.ShloMosaic.Lib.SparseCore.Launch
import Idealize.ShloMosaic.Lib.SparseCore.Ops
import Idealize.ShloMosaic.Lib.SparseCore.Stream
import Idealize.ShloMosaic.Lib.Transfers
import Idealize.ShloMosaic.Lib.Pipeline.Kit
import Idealize.ShloMosaic.Lib.Tactic
import proofs.«215235_g2774548873965_cont_9to1_572_34_alg».proof.Proof.Gen.KernelIdeal.Skeleton

noncomputable section

namespace Cert.KernelIdeal.Sc.Gather1

open Cert.KernelIdeal
open Cert.KernelIdeal.Facts₀ Cert.KernelIdeal.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

/-! ## The tile and the buffers, as the program names them -/

abbrev cV (L : grid3.Coords) : Fin τ.nSC := (L 0).castLE hcore3
abbrev jV (L : grid3.Coords) : Fin τ.nSub := (L 1).castLE hsub3
abbrev thrV (d : Dev nD) (L : grid3.Coords) : Thread nD τ := V d (cV L) (jV L)

local notation "yV" => (Memref.whole Cert.KernelIdeal.main_v1_scv : Memref Cert.KernelIdeal.sig Kind.scVector Space.hbm Cert.KernelIdeal.S8192x128 EltTy.f32)
local notation "ixV" => (Memref.whole Cert.KernelIdeal.main_v23_scv : Memref Cert.KernelIdeal.sig Kind.scVector Space.hbm Cert.KernelIdeal.S32x32x128 EltTy.i32)
local notation "oV" => (Memref.whole Cert.KernelIdeal.main_v24_scv : Memref Cert.KernelIdeal.sig Kind.scVector Space.hbm Cert.KernelIdeal.S131072x128 EltTy.f32)
local notation "ivV" => (Memref.whole Cert.KernelIdeal.cc3_scratch0 : Memref Cert.KernelIdeal.sig Kind.scVector Space.vmem Cert.KernelIdeal.S32x128 EltTy.i32)
local notation "r0V" => (Memref.whole Cert.KernelIdeal.cc3_scratch1 : Memref Cert.KernelIdeal.sig Kind.scVector Space.vmem Cert.KernelIdeal.S128x128 EltTy.f32)
local notation "r1V" => (Memref.whole Cert.KernelIdeal.cc3_scratch2 : Memref Cert.KernelIdeal.sig Kind.scVector Space.vmem Cert.KernelIdeal.S128x128 EltTy.f32)
local notation "r2V" => (Memref.whole Cert.KernelIdeal.cc3_scratch3 : Memref Cert.KernelIdeal.sig Kind.scVector Space.vmem Cert.KernelIdeal.S128x128 EltTy.f32)
local notation "r3V" => (Memref.whole Cert.KernelIdeal.cc3_scratch4 : Memref Cert.KernelIdeal.sig Kind.scVector Space.vmem Cert.KernelIdeal.S128x128 EltTy.f32)

/-- The tile's slab of the index array, squeezed to its [32, 128] plane, as the program slices it. -/
abbrev slabK (L : grid3.Coords) : Memref sig .scVector .hbm S32x128 .i32 :=
  ((ixV).slice (Rect.unit (s := S32x32x128) (k3_off1 L) S1x32x128.size (k3_off1_inb L)) (fun _ => rfl)).squeeze S32x128 squeezes_S1x32x128_S32x128

/-- Output chunk 4t + b of the tile, as the program slices it (one abbreviation per slot: the slot is a literal word). -/
abbrev outK0 (L : grid3.Coords) (t : Fin k3_t1_loop.trips) : Memref sig .scVector .hbm S128x128 .f32 :=
  (oV).slice (Rect.unit (s := S131072x128) (k3_off3 L t 0#32) S128x128.size (k3_off3_inb L t 0)) (fun _ => rfl)
abbrev outK1 (L : grid3.Coords) (t : Fin k3_t1_loop.trips) : Memref sig .scVector .hbm S128x128 .f32 :=
  (oV).slice (Rect.unit (s := S131072x128) (k3_off3 L t 1#32) S128x128.size (k3_off3_inb L t 1)) (fun _ => rfl)
abbrev outK2 (L : grid3.Coords) (t : Fin k3_t1_loop.trips) : Memref sig .scVector .hbm S128x128 .f32 :=
  (oV).slice (Rect.unit (s := S131072x128) (k3_off3 L t 2#32) S128x128.size (k3_off3_inb L t 2)) (fun _ => rfl)
abbrev outK3 (L : grid3.Coords) (t : Fin k3_t1_loop.trips) : Memref sig .scVector .hbm S128x128 .f32 :=
  (oV).slice (Rect.unit (s := S131072x128) (k3_off3 L t 3#32) S128x128.size (k3_off3_inb L t 3)) (fun _ => rfl)

/-- List `off 0` of the local index buffer, as the program slices it. -/
abbrev idxRowAt (off : Fin 2 → ℕ) (hk : ∀ a, off a + S1x128.size a ≤ S32x128.size a) : Memref sig .scVector .vmem S128 .i32 :=
  ((ivV).slice (Rect.unit (s := S32x128) off S1x128.size hk) (fun _ => rfl)).squeeze S128 squeezes_S1x128_S128

/-- All of y, as the program slices it for a gather. -/
local notation "yAllK" => (Memref.slice (Memref.whole Cert.KernelIdeal.main_v1_scv : Memref Cert.KernelIdeal.sig Kind.scVector Space.hbm Cert.KernelIdeal.S8192x128 EltTy.f32) (Rect.unit (s := Cert.KernelIdeal.S8192x128) ![0, 0] Cert.KernelIdeal.S8192x128.size Cert.KernelIdeal.Facts₀.inb_S8192x128_S8192x128_0_0) (fun _ => rfl))

variable [FloatOps F]

abbrev 𝒱₀ : Variants := Variants.none

/-- A buffer the tile holds whole, by its own elements. -/
abbrev heldW {sp : Space} {s : Shape} {e : EltTy} (d : Dev nD) (L : grid3.Coords) (M : Memref sig .scVector sp s e) (q : PosShare TreeShare)
    (f : Buf (Elt F) (M.view.loc (thrV d L))) : sProp 𝕄 :=
  M.view.loc (thrV d L) ↦[M.view.set]{q} f

abbrev cellZ (d : Dev nD) (L : grid3.Coords) (a : DmaSems sig S_) : sProp 𝕄 := semVal ((thrV d L, SemLoc.dma a.sem) : GSem nD τ sig) 0

/-! ## The local index buffer as its 32 lists -/

omit [FloatOps F] in
theorem row_inb (j : Fin 32) : ∀ a, (![j.val, 0] : Fin 2 → ℕ) a + S1x128.size a ≤ S32x128.size a := by
  intro a
  match a with
  | 0 => have := j.isLt; show j.val + 1 ≤ 32; omega
  | 1 => show 0 + 128 ≤ 128; omega

/-- List j of the local index buffer. -/
abbrev idxRow (j : Fin 32) : Memref sig .scVector .vmem S128 .i32 := idxRowAt ![j.val, 0] (row_inb j)

/-- Two unit-stride rectangles at equal offsets and sizes are one. -/
theorem Rect.unit_congr {s : Shape} {off off' size size' : Fin s.rank → ℕ} (h1 : off = off') (h2 : size = size') (hk) (hk') :
    Rect.unit (s := s) off size hk = Rect.unit (s := s) off' size' hk' := by
  subst h1 h2; rfl

omit [FloatOps F] in
/-- The same list at another spelling of its offsets. -/
theorem idxRowAt_congr {off off' : Fin 2 → ℕ} (h : off = off') (hk) (hk') : idxRowAt off hk = idxRowAt off' hk' := by
  subst h; rfl

omit [FloatOps F] in
theorem set_idxRow (j : Fin 32) : (idxRow j).view.set = ((ivV).view.slice (S32x128.rowRect 0 j)).set := by
  show ((((ivV).view.slice (Rect.unit (s := S32x128) ![j.val, 0] S1x128.size (row_inb j)))).reshape S128 squeezes_S1x128_S128.numel_eq).set = _
  rw [View.set_reshape, View.set_slice, View.set_slice]
  refine congrArg (fun r : Rect S32x128 => r.set.map (ivV).view.emb) (Rect.unit_congr ?_ ?_ _ _)
  · funext a; match a with
    | 0 => rfl
    | 1 => rfl
  · funext a; match a with
    | 0 => rfl
    | 1 => rfl

/-- A list of the local index buffer, held whole by the tile. -/
abbrev rowPts (d : Dev nD) (L : grid3.Coords) (j : Fin 32) (f : Buf (Elt F) ((ivV).view.loc (thrV d L))) : sProp 𝕄 :=
  (idxRow j).view.loc (thrV d L) ↦[(idxRow j).view.set]{fullShare} f

omit [FloatOps F] in
/-- The local index buffer held whole is its 32 lists held each. -/
theorem iv_rows (d : Dev nD) (L : grid3.Coords) (f : Buf (Elt F) ((ivV).view.loc (thrV d L))) :
    ((ivV).view.loc (thrV d L) ↦[(ivV).view.set]{fullShare} f : sProp 𝕄) = bigSep Finset.univ fun j : Fin 32 => rowPts d L j f := by
  rw [pointsTo_rows (thrV d L) (ivV).view 0 fullShare f]
  refine bigSep_congr fun (j : Fin 32) _ => ?_
  show _ = ((idxRow j).view.loc (thrV d L) ↦[(idxRow j).view.set]{fullShare} f : sProp 𝕄)
  rw [set_idxRow]

/-! ## The lists' words are row numbers of y -/

omit [FloatOps F] in
/-- Whatever the local index buffer held before, once the slab has landed in it whole every word of every list is
    a word of the slab. -/
theorem hin_rows (d : Dev nD) (L : grid3.Coords) (fi : Buf (Elt F) ((slabK L).view.loc (thrV d L)))
    (hin : ∀ x, ((slabK L).view.read (Elt F) fi x).toNat < 8192)
    (g : Buf (Elt F) ((ivV).view.loc (thrV d L))) (pay : S32x128.Idx → Elt F .i32) (hpay : pay = (slabK L).view.read (Elt F) fi)
    (off : Fin 2 → ℕ) (hk : ∀ a, off a + S1x128.size a ≤ S32x128.size a) :
    ∀ x, (View.read (Elt F) (idxRowAt off hk).view
      ((ivV).view.writes (Elt F) g [⟨Rect.whole cc3_scratch0.ty.shape, pay⟩]) x).toNat < 8192 := by
  subst hpay; intro x
  have e : View.read (Elt F) (idxRowAt off hk).view ((ivV).view.writes (Elt F) g [⟨Rect.whole cc3_scratch0.ty.shape, (slabK L).view.read (Elt F) fi⟩]) x
      = View.read (Elt F) (ivV).view ((ivV).view.writes (Elt F) g [⟨Rect.whole cc3_scratch0.ty.shape, (slabK L).view.read (Elt F) fi⟩])
          ((Rect.unit (s := S32x128) off S1x128.size hk).emb ((Shape.reshapeEquiv squeezes_S1x128_S128.numel_eq) x)) := by
    rw [View.read_apply, View.read_apply]; rfl
  rw [e, View.read_writes_whole]
  exact hin _

omit [FloatOps F] in
/-- A list held, at another spelling of its offsets. -/
theorem rowPts_at (d : Dev nD) (L : grid3.Coords) (j : Fin 32) (off : Fin 2 → ℕ) (hk : ∀ a, off a + S1x128.size a ≤ S32x128.size a)
    (h : off = ![j.val, 0]) (f : Buf (Elt F) ((ivV).view.loc (thrV d L))) :
    rowPts d L j f = ((idxRowAt off hk).view.loc (thrV d L) ↦[(idxRowAt off hk).view.set]{fullShare} f : sProp 𝕄) := by
  subst h; rfl

/-! ## The loop's conditions, by trip -/

omit [FloatOps F] in
/-- In every trip but the last each slot issues its next gather; in the last none does. -/
theorem conds : ∀ k : Fin k3_t1_loop.trips,
    (k3_cond1 k = 1#1 ↔ k.val < 7) ∧ (k3_cond2 k = 1#1 ↔ ¬ k.val < 7) ∧ (k3_cond3 k = 1#1 ↔ k.val < 7) ∧ (k3_cond4 k = 1#1 ↔ ¬ k.val < 7)
    ∧ (k3_cond5 k = 1#1 ↔ k.val < 7) ∧ (k3_cond6 k = 1#1 ↔ ¬ k.val < 7) ∧ (k3_cond7 k = 1#1 ↔ k.val < 7) ∧ (k3_cond8 k = 1#1 ↔ ¬ k.val < 7) := by
  decide +kernel

/-! ## What the loop holds before trip k -/

omit [FloatOps F] in
theorem rowsInb (n : ℕ) (h : n < 32) : ∀ a, (![n, 0] : Fin 2 → ℕ) a + S1x128.size a ≤ S32x128.size a := by
  intro a
  match a with
  | 0 => show n + 1 ≤ 32; omega
  | 1 => show 0 + 128 ≤ 128; omega

/-- The lists no gather holds before trip k: all but lists 4k … 4k + 3. -/
def idle (k : ℕ) : Finset (Fin 32) := Finset.univ.filter fun j => j.val < 4 * k ∨ 4 * k + 4 ≤ j.val

/-- The tile's four output chunks of trip t, at some contents. -/
abbrev outTrip (d : Dev nD) (L : grid3.Coords) (t : Fin k3_t1_loop.trips) : sProp 𝕄 :=
  iprop((∃ f, heldW d L (outK0 L t) fullShare f) ∗ (∃ f, heldW d L (outK1 L t) fullShare f)
    ∗ (∃ f, heldW d L (outK2 L t) fullShare f) ∗ (∃ f, heldW d L (outK3 L t) fullShare f))

/-- A gather in flight on a slot: it will hand back the slot's row buffer written, the list it reads, and the share
    of y it reads. -/
abbrev gFlight (d : Dev nD) (L : grid3.Coords) (q : PosShare TreeShare) (sem : DmaSems sig S_) (n : ℕ)
    (rV : Memref sig .scVector .vmem S128x128 .f32) (off : Fin 2 → ℕ) (hk : ∀ a, off a + S1x128.size a ≤ S32x128.size a)
    (fr : Buf (Elt F) (rV.view.loc (thrV d L))) (fvc : Buf (Elt F) ((ivV).view.loc (thrV d L)))
    (fy : Buf (Elt F) ((yV).view.loc (thrV d L))) : sProp 𝕄 :=
  Transfers.Flight countersEmb (thrV d L) (SemLoc.dma sem.sem) (default : HIx 4) 524288
    iprop(((rV.view.loc (thrV d L) ↦[rV.view.set]{fullShare} fr)
        ∗ ((idxRowAt off hk).view.loc (thrV d L) ↦[(idxRowAt off hk).view.set]{fullShare} fvc))
      ∗ ((yV).view.loc (thrV d L) ↦[(yAllK).view.set]{Transfers.shareTokN q n} fy))

/-- What a gather leaves with the tile of the share of y it reads: nothing of y's elements. -/
abbrev yRest (d : Dev nD) (L : grid3.Coords) (q : PosShare TreeShare) (n : ℕ) (fy : Buf (Elt F) ((yV).view.loc (thrV d L))) : sProp 𝕄 :=
  (yV).view.loc (thrV d L) ↦[(yV).view.set \ (yAllK).view.set]{Transfers.shareTokN q n} fy

/-- Before trip k < 8: the four gathers of lists 4k … 4k + 3 in flight, every other list idle, the write semaphores at
    zero, the 32 output chunks at some contents. -/
def invA (d : Dev nD) (L : grid3.Coords) (q : PosShare TreeShare) (O : CellTallies nD τ sig (HIx 4)) (W : Waits sig (HIx 4))
    (fy : Buf (Elt F) ((yV).view.loc (thrV d L))) (fvc : Buf (Elt F) ((ivV).view.loc (thrV d L))) (k : ℕ) (hk8 : k < 8) : sProp 𝕄 :=
  iprop(Transfers.MayWaits (thrV d L) (default : HIx 4) O
    ∗ (∃ W', ⌜∀ p ∈ W', p ∈ W ∨ p.2 = none⌝ ∗ owes (thrV d L) O W')
    ∗ (cellZ d L cc3_scratch9 ∗ cellZ d L cc3_scratch10 ∗ cellZ d L cc3_scratch11 ∗ cellZ d L cc3_scratch12)
    ∗ bigSep Finset.univ (outTrip d L)
    ∗ bigSep (idle k) (fun j => rowPts d L j fvc)
    ∗ ((∃ fr, gFlight d L q cc3_scratch5 26 r0V ![4 * k + 0, 0] (rowsInb _ (by omega)) fr fvc fy) ∗ yRest d L q 26 fy)
    ∗ ((∃ fr, gFlight d L q cc3_scratch6 27 r1V ![4 * k + 1, 0] (rowsInb _ (by omega)) fr fvc fy) ∗ yRest d L q 27 fy)
    ∗ ((∃ fr, gFlight d L q cc3_scratch7 28 r2V ![4 * k + 2, 0] (rowsInb _ (by omega)) fr fvc fy) ∗ yRest d L q 28 fy)
    ∗ ((∃ fr, gFlight d L q cc3_scratch8 29 r3V ![4 * k + 3, 0] (rowsInb _ (by omega)) fr fvc fy) ∗ yRest d L q 29 fy))

omit [FloatOps F] in
theorem mem_idle_next (k : ℕ) (hk : k < 7) (b : ℕ) (hb : b < 4) : (⟨4 * k + 4 + b, by omega⟩ : Fin 32) ∈ idle k :=
  Finset.mem_filter.mpr ⟨Finset.mem_univ _, Or.inr (by show 4 * k + 4 ≤ 4 * k + 4 + b; omega)⟩

omit [FloatOps F] in
/-- The same gather at another spelling of its list's offsets. -/
theorem gFlight_off (d : Dev nD) (L : grid3.Coords) (q : PosShare TreeShare) (sem : DmaSems sig S_) (n : ℕ)
    (rV : Memref sig .scVector .vmem S128x128 .f32) {off off' : Fin 2 → ℕ} (h : off = off') (hk) (hk')
    (fr : Buf (Elt F) (rV.view.loc (thrV d L))) (fvc : Buf (Elt F) ((ivV).view.loc (thrV d L)))
    (fy : Buf (Elt F) ((yV).view.loc (thrV d L))) :
    gFlight d L q sem n rV off hk fr fvc fy = gFlight d L q sem n rV off' hk' fr fvc fy := by
  subst h; rfl

omit [FloatOps F] in
/-- A wait recorded at the default index keeps the waits among the earlier ones and those at no index. -/
theorem waits_ins {W W' : Waits sig (HIx 4)} (h : ∀ p ∈ W', p ∈ W ∨ p.2 = none) (s : SemLoc sig) :
    ∀ p ∈ insert (s, (default : HIx 4)) W', p ∈ W ∨ p.2 = none := by
  intro p hp
  rcases Finset.mem_insert.mp hp with hp | hp
  · exact .inr (hp ▸ rfl)
  · exact h p hp

omit [FloatOps F] in
/-- After trip k < 7 the idle lists are: those idle before but the four just lent, and the four just handed back. -/
theorem idle_step (k : ℕ) (hk : k < 7) (Φ : Fin 32 → sProp 𝕄)
    (h0 : 4 * k + 0 < 32) (h1 : 4 * k + 1 < 32) (h2 : 4 * k + 2 < 32) (h3 : 4 * k + 3 < 32)
    (h4 : 4 * k + 4 + 0 < 32) (h5 : 4 * k + 4 + 1 < 32) (h6 : 4 * k + 4 + 2 < 32) (h7 : 4 * k + 4 + 3 < 32) :
    iprop(bigSep (((((idle k).erase ⟨4 * k + 4 + 0, h4⟩).erase ⟨4 * k + 4 + 1, h5⟩).erase ⟨4 * k + 4 + 2, h6⟩).erase ⟨4 * k + 4 + 3, h7⟩) Φ
        ∗ Φ ⟨4 * k + 0, h0⟩ ∗ Φ ⟨4 * k + 1, h1⟩ ∗ Φ ⟨4 * k + 2, h2⟩ ∗ Φ ⟨4 * k + 3, h3⟩)
      ⊢ bigSep (idle (k + 1)) Φ := by
  have e : ((((idle (k + 1)).erase (⟨4 * k + 0, h0⟩ : Fin 32)).erase ⟨4 * k + 1, h1⟩).erase ⟨4 * k + 2, h2⟩).erase ⟨4 * k + 3, h3⟩
      = ((((idle k).erase (⟨4 * k + 4 + 0, h4⟩ : Fin 32)).erase ⟨4 * k + 4 + 1, h5⟩).erase ⟨4 * k + 4 + 2, h6⟩).erase ⟨4 * k + 4 + 3, h7⟩ := by
    ext j
    simp only [idle, Finset.mem_erase, Finset.mem_filter, Finset.mem_univ, true_and, ne_eq, Fin.ext_iff]
    omega
  have m0 : (⟨4 * k + 0, h0⟩ : Fin 32) ∈ idle (k + 1) := Finset.mem_filter.mpr ⟨Finset.mem_univ _, Or.inl (show 4 * k + 0 < 4 * (k + 1) by omega)⟩
  have m1 : (⟨4 * k + 1, h1⟩ : Fin 32) ∈ idle (k + 1) := Finset.mem_filter.mpr ⟨Finset.mem_univ _, Or.inl (show 4 * k + 1 < 4 * (k + 1) by omega)⟩
  have m2 : (⟨4 * k + 2, h2⟩ : Fin 32) ∈ idle (k + 1) := Finset.mem_filter.mpr ⟨Finset.mem_univ _, Or.inl (show 4 * k + 2 < 4 * (k + 1) by omega)⟩
  have m3 : (⟨4 * k + 3, h3⟩ : Fin 32) ∈ idle (k + 1) := Finset.mem_filter.mpr ⟨Finset.mem_univ _, Or.inl (show 4 * k + 3 < 4 * (k + 1) by omega)⟩
  rw [SparseCore.bigSep_erase' m0,
    SparseCore.bigSep_erase' (Finset.mem_erase.mpr ⟨by simp [Fin.ext_iff], m1⟩),
    SparseCore.bigSep_erase' (Finset.mem_erase.mpr ⟨by simp [Fin.ext_iff], Finset.mem_erase.mpr ⟨by simp [Fin.ext_iff], m2⟩⟩),
    SparseCore.bigSep_erase' (Finset.mem_erase.mpr ⟨by simp [Fin.ext_iff], Finset.mem_erase.mpr ⟨by simp [Fin.ext_iff], Finset.mem_erase.mpr ⟨by simp [Fin.ext_iff], m3⟩⟩⟩), e]
  iintro ⟨H, H0, H1, H2, H3⟩
  isplitl [H0]; · iexact H0
  isplitl [H1]; · iexact H1
  isplitl [H2]; · iexact H2
  isplitl [H3]; · iexact H3
  iexact H

set_option maxHeartbeats 4000000 in
theorem gk_tripA (d : Dev nD) (L : grid3.Coords) (q : PosShare TreeShare) (O : CellTallies nD τ sig (HIx 4)) (W : Waits sig (HIx 4))
    (fy : Buf (Elt F) ((yV).view.loc (thrV d L))) (fvc : Buf (Elt F) ((ivV).view.loc (thrV d L)))
    (hrowc : ∀ (off : Fin 2 → ℕ) (hk : ∀ a, off a + S1x128.size a ≤ S32x128.size a) (x : S128.Idx),
      (View.read (Elt F) (idxRowAt off hk).view fvc x).toNat < 8192)
    (v1 c0 c1 : BitVec 32) (k : Fin k3_t1_loop.trips) (hk : k.val < 7) (acc : Unit) :
    invA d L q O W fy fvc k.val (by omega)
      ⊢ wp frame (wpE (defs₀ (F := F)) 𝒱₀ (thrV d L) none) Set.univ
          (Gen.k3_t1_body L yV (Memref.isWhole_whole _) ixV (Memref.isWhole_whole _) oV (Memref.isWhole_whole _)
            ivV (Memref.isWhole_whole _) r0V (Memref.isWhole_whole _) r1V (Memref.isWhole_whole _)
            r2V (Memref.isWhole_whole _) r3V (Memref.isWhole_whole _)
            cc3_scratch5 cc3_scratch6 cc3_scratch7 cc3_scratch8 cc3_scratch9 cc3_scratch10 cc3_scratch11 cc3_scratch12 cc3_scoped0
            v1 c0 c1 k acc)
          fun _ => invA d L q O W fy fvc (k.val + 1) (by omega) := by
  obtain ⟨c1', c2', c3', c4', c5', c6', c7', c8'⟩ := conds k
  have hc1 : k3_cond1 k = 1#1 := c1'.mpr hk
  have hc2 : ¬ k3_cond2 k = 1#1 := fun h => (c2'.mp h) hk
  have hc3 : k3_cond3 k = 1#1 := c3'.mpr hk
  have hc4 : ¬ k3_cond4 k = 1#1 := fun h => (c4'.mp h) hk
  have hc5 : k3_cond5 k = 1#1 := c5'.mpr hk
  have hc6 : ¬ k3_cond6 k = 1#1 := fun h => (c6'.mp h) hk
  have hc7 : k3_cond7 k = 1#1 := c7'.mpr hk
  have hc8 : ¬ k3_cond8 k = 1#1 := fun h => (c8'.mp h) hk
  unfold invA gFlight yRest
  iintro ⟨#Hmw, ⟨%W', %hW', HO⟩, ⟨HW0, HW1, HW2, HW3⟩, Hout, Hrows, ⟨⟨%fr0, HG0⟩, HY0⟩, ⟨⟨%fr1, HG1⟩, HY1⟩, ⟨⟨%fr2, HG2⟩, HY2⟩, ⟨⟨%fr3, HG3⟩, HY3⟩⟩
  -- the four output chunks of this trip
  ihave Hx := (Entails.of_eq (SparseCore.bigSep_erase' (i := k) (Finset.mem_univ _))) $$ Hout
  icases Hx with ⟨⟨⟨%fo0, HO0⟩, ⟨%fo1, HO1⟩, ⟨%fo2, HO2⟩, ⟨%fo3, HO3⟩⟩, Hout⟩
  -- the four lists the trip's gathers will read
  ihave Hx := (Entails.of_eq (SparseCore.bigSep_erase' (i := (⟨4 * k.val + 4 + 0, by omega⟩ : Fin 32)) (mem_idle_next k.val hk 0 (by omega)))) $$ Hrows
  icases Hx with ⟨Hl0, Hrows⟩
  ihave Hx := (Entails.of_eq (SparseCore.bigSep_erase' (i := (⟨4 * k.val + 4 + 1, by omega⟩ : Fin 32))
    (Finset.mem_erase.mpr ⟨by simp [Fin.ext_iff], mem_idle_next k.val hk 1 (by omega)⟩))) $$ Hrows
  icases Hx with ⟨Hl1, Hrows⟩
  ihave Hx := (Entails.of_eq (SparseCore.bigSep_erase' (i := (⟨4 * k.val + 4 + 2, by omega⟩ : Fin 32))
    (Finset.mem_erase.mpr ⟨by simp [Fin.ext_iff], Finset.mem_erase.mpr ⟨by simp [Fin.ext_iff], mem_idle_next k.val hk 2 (by omega)⟩⟩))) $$ Hrows
  icases Hx with ⟨Hl2, Hrows⟩
  ihave Hx := (Entails.of_eq (SparseCore.bigSep_erase' (i := (⟨4 * k.val + 4 + 3, by omega⟩ : Fin 32))
    (Finset.mem_erase.mpr ⟨by simp [Fin.ext_iff], Finset.mem_erase.mpr ⟨by simp [Fin.ext_iff], Finset.mem_erase.mpr ⟨by simp [Fin.ext_iff], mem_idle_next k.val hk 3 (by omega)⟩⟩⟩))) $$ Hrows
  icases Hx with ⟨Hl3, Hrows⟩
  ihave Hl0' := (Entails.of_eq (rowPts_at (F := F) d L _ (k3_off5 k) (k3_off5_inb k hc1) (Gen.k3_off5_eq k) _)) $$ Hl0
  ihave Hl1' := (Entails.of_eq (rowPts_at (F := F) d L _ (k3_off8 k) (k3_off8_inb k hc3) (Gen.k3_off8_eq k) _)) $$ Hl1
  ihave Hl2' := (Entails.of_eq (rowPts_at (F := F) d L _ (k3_off11 k) (k3_off11_inb k hc5) (Gen.k3_off11_eq k) _)) $$ Hl2
  ihave Hl3' := (Entails.of_eq (rowPts_at (F := F) d L _ (k3_off14 k) (k3_off14_inb k hc7) (Gen.k3_off14_eq k) _)) $$ Hl3
  sl_unfold [Gen.k3_t1_body]
  sl_exec (disch := first | sl_exact hc1 | sl_exact hc2 | sl_exact hc3 | sl_exact hc4 | sl_exact hc5 | sl_exact hc6 | sl_exact hc7 | sl_exact hc8)
  sl_step
  isplitr; · iexact Hmw
  isplitl [HO]
  · iexists _; isplitr
    swap; · iexact HO
    ipureintro
    exact waits_ins (waits_ins (waits_ins (waits_ins (waits_ins (waits_ins (waits_ins (waits_ins hW' _) _) _) _) _) _) _) _
  isplitl [HW0 HW1 HW2 HW3]
  · isplitl [HW0]; · iexact HW0
    isplitl [HW1]; · iexact HW1
    isplitl [HW2]; · iexact HW2
    iexact HW3
  isplitl [Hout HO0 HO1 HO2 HO3]
  · iapply (Entails.of_eq (SparseCore.bigSep_erase' (i := k) (Finset.mem_univ _)).symm)
    isplitl [HO0 HO1 HO2 HO3]
    · isplitl [HO0]; · iexists _; iexact HO0
      isplitl [HO1]; · iexists _; iexact HO1
      isplitl [HO2]; · iexists _; iexact HO2
      iexists _; iexact HO3
    iexact Hout
  isplitl [Hrows HG0_dst_and HG1_dst_and HG2_dst_and HG3_dst_and]
  · iapply (idle_step (F := F) k.val hk (fun j => rowPts d L j fvc) (by omega) (by omega) (by omega) (by omega) (by omega) (by omega) (by omega) (by omega))
    isplitl [Hrows]; · iexact Hrows
    isplitl [HG0_dst_and]; · iexact HG0_dst_and
    isplitl [HG1_dst_and]; · iexact HG1_dst_and
    isplitl [HG2_dst_and]; · iexact HG2_dst_and
    iexact HG3_dst_and
  isplitl [HG0 HY0]
  · isplitl [HG0]
    · iexists _
      iapply (Entails.of_eq (gFlight_off (F := F) d L q cc3_scratch5 26 r0V ((Gen.k3_off5_eq k).trans (by rw [show 4 * (k.val + 1) + 0 = 4 * k.val + 4 by omega])) (k3_off5_inb k hc1) _ _ fvc fy))
      iexact HG0
    iexact HY0
  isplitl [HG1 HY1]
  · isplitl [HG1]
    · iexists _
      iapply (Entails.of_eq (gFlight_off (F := F) d L q cc3_scratch6 27 r1V ((Gen.k3_off8_eq k).trans (by rw [show 4 * (k.val + 1) + 1 = 4 * k.val + 5 by omega])) (k3_off8_inb k hc3) _ _ fvc fy))
      iexact HG1
    iexact HY1
  isplitl [HG2 HY2]
  · isplitl [HG2]
    · iexists _
      iapply (Entails.of_eq (gFlight_off (F := F) d L q cc3_scratch7 28 r2V ((Gen.k3_off11_eq k).trans (by rw [show 4 * (k.val + 1) + 2 = 4 * k.val + 6 by omega])) (k3_off11_inb k hc5) _ _ fvc fy))
      iexact HG2
    iexact HY2
  isplitl [HG3]
  · iexists _
    iapply (Entails.of_eq (gFlight_off (F := F) d L q cc3_scratch8 29 r3V ((Gen.k3_off14_eq k).trans (by rw [show 4 * (k.val + 1) + 3 = 4 * k.val + 7 by omega])) (k3_off14_inb k hc7) _ _ fvc fy))
    iexact HG3
  iexact HY3

omit [FloatOps F] in
/-- After the last trip every list is idle. -/
theorem idle_last (k : ℕ) (hk : k = 7) (Φ : Fin 32 → sProp 𝕄)
    (h0 : 4 * k + 0 < 32) (h1 : 4 * k + 1 < 32) (h2 : 4 * k + 2 < 32) (h3 : 4 * k + 3 < 32) :
    iprop(bigSep (idle k) Φ ∗ Φ ⟨4 * k + 0, h0⟩ ∗ Φ ⟨4 * k + 1, h1⟩ ∗ Φ ⟨4 * k + 2, h2⟩ ∗ Φ ⟨4 * k + 3, h3⟩)
      ⊢ bigSep Finset.univ Φ := by
  subst hk
  have e : ((((Finset.univ : Finset (Fin 32)).erase (⟨4 * 7 + 0, h0⟩ : Fin 32)).erase ⟨4 * 7 + 1, h1⟩).erase ⟨4 * 7 + 2, h2⟩).erase ⟨4 * 7 + 3, h3⟩ = idle 7 := by
    ext j
    simp only [idle, Finset.mem_erase, Finset.mem_filter, Finset.mem_univ, true_and, and_true, ne_eq, Fin.ext_iff]
    omega
  rw [SparseCore.bigSep_erase' (Finset.mem_univ (⟨4 * 7 + 0, h0⟩ : Fin 32)),
    SparseCore.bigSep_erase' (i := (⟨4 * 7 + 1, h1⟩ : Fin 32)) (Finset.mem_erase.mpr ⟨by simp [Fin.ext_iff], Finset.mem_univ _⟩),
    SparseCore.bigSep_erase' (i := (⟨4 * 7 + 2, h2⟩ : Fin 32)) (Finset.mem_erase.mpr ⟨by simp [Fin.ext_iff], Finset.mem_erase.mpr ⟨by simp [Fin.ext_iff], Finset.mem_univ _⟩⟩),
    SparseCore.bigSep_erase' (i := (⟨4 * 7 + 3, h3⟩ : Fin 32)) (Finset.mem_erase.mpr ⟨by simp [Fin.ext_iff], Finset.mem_erase.mpr ⟨by simp [Fin.ext_iff], Finset.mem_erase.mpr ⟨by simp [Fin.ext_iff], Finset.mem_univ _⟩⟩⟩), e]
  iintro ⟨H, H0, H1, H2, H3⟩
  isplitl [H0]; · iexact H0
  isplitl [H1]; · iexact H1
  isplitl [H2]; · iexact H2
  isplitl [H3]; · iexact H3
  iexact H

omit [FloatOps F] in
/-- Before the first trip lists 0 … 3 are lent. -/
theorem idle_zero : idle 0 = ((((Finset.univ : Finset (Fin 32)).erase 0).erase 1).erase 2).erase 3 := by
  ext j
  simp only [idle, Finset.mem_erase, Finset.mem_filter, Finset.mem_univ, true_and, and_true, ne_eq, Fin.ext_iff]
  show j.val < 4 * 0 ∨ 4 * 0 + 4 ≤ j.val ↔ ¬ j.val = 3 ∧ ¬ j.val = 2 ∧ ¬ j.val = 1 ∧ ¬ j.val = 0
  omega

/-- After the last trip: nothing in flight; every list idle, the row buffers at some contents, every semaphore at
    zero, the four shares of y whole again, the 32 output chunks at some contents. -/
def invEnd (d : Dev nD) (L : grid3.Coords) (q : PosShare TreeShare) (O : CellTallies nD τ sig (HIx 4)) (W : Waits sig (HIx 4))
    (fy : Buf (Elt F) ((yV).view.loc (thrV d L))) (fvc : Buf (Elt F) ((ivV).view.loc (thrV d L))) : sProp 𝕄 :=
  iprop(Transfers.MayWaits (thrV d L) (default : HIx 4) O
    ∗ (∃ W', ⌜∀ p ∈ W', p ∈ W ∨ p.2 = none⌝ ∗ owes (thrV d L) O W')
    ∗ (cellZ d L cc3_scratch9 ∗ cellZ d L cc3_scratch10 ∗ cellZ d L cc3_scratch11 ∗ cellZ d L cc3_scratch12)
    ∗ bigSep Finset.univ (outTrip d L)
    ∗ bigSep Finset.univ (fun j => rowPts d L j fvc)
    ∗ ((∃ fr, heldW d L r0V fullShare fr) ∗ cellZ d L cc3_scratch5 ∗ heldW d L yV (Transfers.shareTokN q 26) fy)
    ∗ ((∃ fr, heldW d L r1V fullShare fr) ∗ cellZ d L cc3_scratch6 ∗ heldW d L yV (Transfers.shareTokN q 27) fy)
    ∗ ((∃ fr, heldW d L r2V fullShare fr) ∗ cellZ d L cc3_scratch7 ∗ heldW d L yV (Transfers.shareTokN q 28) fy)
    ∗ ((∃ fr, heldW d L r3V fullShare fr) ∗ cellZ d L cc3_scratch8 ∗ heldW d L yV (Transfers.shareTokN q 29) fy))

set_option maxHeartbeats 4000000 in
theorem gk_tripB (d : Dev nD) (L : grid3.Coords) (q : PosShare TreeShare) (O : CellTallies nD τ sig (HIx 4)) (W : Waits sig (HIx 4))
    (fy : Buf (Elt F) ((yV).view.loc (thrV d L))) (fvc : Buf (Elt F) ((ivV).view.loc (thrV d L)))
    (hrowc : ∀ (off : Fin 2 → ℕ) (hk : ∀ a, off a + S1x128.size a ≤ S32x128.size a) (x : S128.Idx),
      (View.read (Elt F) (idxRowAt off hk).view fvc x).toNat < 8192)
    (v1 c0 c1 : BitVec 32) (k : Fin k3_t1_loop.trips) (hk : k.val = 7) (acc : Unit) :
    invA d L q O W fy fvc k.val (by omega)
      ⊢ wp frame (wpE (defs₀ (F := F)) 𝒱₀ (thrV d L) none) Set.univ
          (Gen.k3_t1_body L yV (Memref.isWhole_whole _) ixV (Memref.isWhole_whole _) oV (Memref.isWhole_whole _)
            ivV (Memref.isWhole_whole _) r0V (Memref.isWhole_whole _) r1V (Memref.isWhole_whole _)
            r2V (Memref.isWhole_whole _) r3V (Memref.isWhole_whole _)
            cc3_scratch5 cc3_scratch6 cc3_scratch7 cc3_scratch8 cc3_scratch9 cc3_scratch10 cc3_scratch11 cc3_scratch12 cc3_scoped0
            v1 c0 c1 k acc)
          fun _ => invEnd d L q O W fy fvc := by
  obtain ⟨c1', c2', c3', c4', c5', c6', c7', c8'⟩ := conds k
  have hn : ¬ k.val < 7 := by omega
  have hc1 : ¬ k3_cond1 k = 1#1 := fun h => hn (c1'.mp h)
  have hc2 : k3_cond2 k = 1#1 := c2'.mpr hn
  have hc3 : ¬ k3_cond3 k = 1#1 := fun h => hn (c3'.mp h)
  have hc4 : k3_cond4 k = 1#1 := c4'.mpr hn
  have hc5 : ¬ k3_cond5 k = 1#1 := fun h => hn (c5'.mp h)
  have hc6 : k3_cond6 k = 1#1 := c6'.mpr hn
  have hc7 : ¬ k3_cond7 k = 1#1 := fun h => hn (c7'.mp h)
  have hc8 : k3_cond8 k = 1#1 := c8'.mpr hn
  unfold invA invEnd gFlight yRest
  iintro ⟨#Hmw, ⟨%W', %hW', HO⟩, ⟨HW0, HW1, HW2, HW3⟩, Hout, Hrows, ⟨⟨%fr0, HG0⟩, HY0⟩, ⟨⟨%fr1, HG1⟩, HY1⟩, ⟨⟨%fr2, HG2⟩, HY2⟩, ⟨⟨%fr3, HG3⟩, HY3⟩⟩
  ihave Hx := (Entails.of_eq (SparseCore.bigSep_erase' (i := k) (Finset.mem_univ _))) $$ Hout
  icases Hx with ⟨⟨⟨%fo0, HO0⟩, ⟨%fo1, HO1⟩, ⟨%fo2, HO2⟩, ⟨%fo3, HO3⟩⟩, Hout⟩
  sl_unfold [Gen.k3_t1_body]
  sl_exec (disch := first | sl_exact hc1 | sl_exact hc2 | sl_exact hc3 | sl_exact hc4 | sl_exact hc5 | sl_exact hc6 | sl_exact hc7 | sl_exact hc8)
  sl_step
  isplitr; · iexact Hmw
  isplitl [HO]
  · iexists _; isplitr
    swap; · iexact HO
    ipureintro
    exact waits_ins (waits_ins (waits_ins (waits_ins (waits_ins (waits_ins (waits_ins (waits_ins hW' _) _) _) _) _) _) _) _
  isplitl [HW0 HW1 HW2 HW3]
  · isplitl [HW0]; · iexact HW0
    isplitl [HW1]; · iexact HW1
    isplitl [HW2]; · iexact HW2
    iexact HW3
  isplitl [Hout HO0 HO1 HO2 HO3]
  · iapply (Entails.of_eq (SparseCore.bigSep_erase' (i := k) (Finset.mem_univ _)).symm)
    isplitl [HO0 HO1 HO2 HO3]
    · isplitl [HO0]; · iexists _; iexact HO0
      isplitl [HO1]; · iexists _; iexact HO1
      isplitl [HO2]; · iexists _; iexact HO2
      iexists _; iexact HO3
    iexact Hout
  isplitl [Hrows HG0_dst_and HG1_dst_and HG2_dst_and HG3_dst_and]
  · iapply (idle_last (F := F) k.val hk (fun j => rowPts d L j fvc) (by omega) (by omega) (by omega) (by omega))
    isplitl [Hrows]; · iexact Hrows
    isplitl [HG0_dst_and]; · iexact HG0_dst_and
    isplitl [HG1_dst_and]; · iexact HG1_dst_and
    isplitl [HG2_dst_and]; · iexact HG2_dst_and
    iexact HG3_dst_and
  isplitl [HG0_dst HG0 HY0]
  · isplitl [HG0_dst]; · iexists _; iexact HG0_dst
    isplitl [HG0]; · iexact HG0
    iexact HY0
  isplitl [HG1_dst HG1 HY1]
  · isplitl [HG1_dst]; · iexists _; iexact HG1_dst
    isplitl [HG1]; · iexact HG1
    iexact HY1
  isplitl [HG2_dst HG2 HY2]
  · isplitl [HG2_dst]; · iexists _; iexact HG2_dst
    isplitl [HG2]; · iexact HG2
    iexact HY2
  isplitl [HG3_dst]; · iexists _; iexact HG3_dst
  isplitl [HG3]; · iexact HG3
  iexact HY3

/-! ## The loop's invariant, and the whole body -/

/-- What the loop holds before trip k: the gathers of trip k in flight while there is a trip k, nothing after. -/
def inv (d : Dev nD) (L : grid3.Coords) (q : PosShare TreeShare) (O : CellTallies nD τ sig (HIx 4)) (W : Waits sig (HIx 4))
    (fy : Buf (Elt F) ((yV).view.loc (thrV d L))) (fvc : Buf (Elt F) ((ivV).view.loc (thrV d L))) (k : ℕ) : Unit → sProp 𝕄 :=
  fun _ => if h : k < 8 then invA d L q O W fy fvc k h else invEnd d L q O W fy fvc

theorem inv_lt (d : Dev nD) (L : grid3.Coords) (q : PosShare TreeShare) (O : CellTallies nD τ sig (HIx 4)) (W : Waits sig (HIx 4))
    (fy : Buf (Elt F) ((yV).view.loc (thrV d L))) (fvc : Buf (Elt F) ((ivV).view.loc (thrV d L))) (k : ℕ) (h : k < 8) :
    inv d L q O W fy fvc k = fun _ => invA d L q O W fy fvc k h := by
  funext _; exact dif_pos h

theorem inv_ge (d : Dev nD) (L : grid3.Coords) (q : PosShare TreeShare) (O : CellTallies nD τ sig (HIx 4)) (W : Waits sig (HIx 4))
    (fy : Buf (Elt F) ((yV).view.loc (thrV d L))) (fvc : Buf (Elt F) ((ivV).view.loc (thrV d L))) (k : ℕ) (h : ¬ k < 8) :
    inv d L q O W fy fvc k = fun _ => invEnd d L q O W fy fvc := by
  funext _; exact dif_neg h

omit [FloatOps F] in
theorem trips_eq : k3_t1_loop.trips = 8 := by decide

theorem inv_end (d : Dev nD) (L : grid3.Coords) (q : PosShare TreeShare) (O : CellTallies nD τ sig (HIx 4)) (W : Waits sig (HIx 4))
    (fy : Buf (Elt F) ((yV).view.loc (thrV d L))) (fvc : Buf (Elt F) ((ivV).view.loc (thrV d L))) :
    inv d L q O W fy fvc (Scf.trips k3_t1_loop.lb k3_t1_loop.ub k3_t1_loop.st) = fun _ => invEnd d L q O W fy fvc :=
  inv_ge d L q O W fy fvc _ (by decide)

set_option maxHeartbeats 4000000 in
/-- The body on tile (L 0, L 1) of device d, from the tile's own spellings of what it holds: four read shares of y, its
    slab of the index array with every word a row number of y, its 32 output chunks, its local index buffer, its four
    row buffers, its nine semaphores at zero. It ends with the same, the output chunks, the local buffers at some
    contents. -/
theorem gk_core (d : Dev nD) (L : grid3.Coords) (q : PosShare TreeShare)
    (O : CellTallies nD τ sig (HIx 4)) (W : Waits sig (HIx 4))
    (fy : Buf (Elt F) ((yV).view.loc (thrV d L))) (fi : Buf (Elt F) ((slabK L).view.loc (thrV d L)))
    (fv : Buf (Elt F) ((ivV).view.loc (thrV d L)))
    (f0 : Buf (Elt F) ((r0V).view.loc (thrV d L))) (f1 : Buf (Elt F) ((r1V).view.loc (thrV d L)))
    (f2 : Buf (Elt F) ((r2V).view.loc (thrV d L))) (f3 : Buf (Elt F) ((r3V).view.loc (thrV d L)))
    (hin : ∀ x, ((slabK L).view.read (Elt F) fi x).toNat < 8192) :
    (iprop(Transfers.MayWaits (thrV d L) (default : HIx 4) O
        ∗ heldW d L yV (Transfers.shareTokN q 26) fy ∗ heldW d L yV (Transfers.shareTokN q 27) fy
        ∗ heldW d L yV (Transfers.shareTokN q 28) fy ∗ heldW d L yV (Transfers.shareTokN q 29) fy
        ∗ heldW d L (slabK L) fullShare fi
        ∗ heldW d L ivV fullShare fv
        ∗ heldW d L r0V fullShare f0 ∗ heldW d L r1V fullShare f1 ∗ heldW d L r2V fullShare f2 ∗ heldW d L r3V fullShare f3
        ∗ cellZ d L cc3_scratch5 ∗ cellZ d L cc3_scratch6 ∗ cellZ d L cc3_scratch7 ∗ cellZ d L cc3_scratch8
        ∗ cellZ d L cc3_scratch9 ∗ cellZ d L cc3_scratch10 ∗ cellZ d L cc3_scratch11 ∗ cellZ d L cc3_scratch12
        ∗ cellZ d L cc3_scoped0
        ∗ bigSep Finset.univ (outTrip d L)
        ∗ owes (thrV d L) O W) : sProp 𝕄)
      ⊢ wp frame (wpE (defs₀ (F := F)) 𝒱₀ (thrV d L) none) Set.univ
          (cc3_gk L yV (Memref.isWhole_whole _) ixV (Memref.isWhole_whole _) oV (Memref.isWhole_whole _)
            ivV (Memref.isWhole_whole _) r0V (Memref.isWhole_whole _) r1V (Memref.isWhole_whole _)
            r2V (Memref.isWhole_whole _) r3V (Memref.isWhole_whole _)
            cc3_scratch5 cc3_scratch6 cc3_scratch7 cc3_scratch8 cc3_scratch9 cc3_scratch10 cc3_scratch11 cc3_scratch12 cc3_scoped0)
          fun _ => iprop(heldW d L yV (Transfers.shareTokN q 26) fy ∗ heldW d L yV (Transfers.shareTokN q 27) fy
            ∗ heldW d L yV (Transfers.shareTokN q 28) fy ∗ heldW d L yV (Transfers.shareTokN q 29) fy
            ∗ heldW d L (slabK L) fullShare fi
            ∗ (∃ f, heldW d L ivV fullShare f)
            ∗ (∃ f, heldW d L r0V fullShare f) ∗ (∃ f, heldW d L r1V fullShare f) ∗ (∃ f, heldW d L r2V fullShare f) ∗ (∃ f, heldW d L r3V fullShare f)
            ∗ cellZ d L cc3_scratch5 ∗ cellZ d L cc3_scratch6 ∗ cellZ d L cc3_scratch7 ∗ cellZ d L cc3_scratch8
            ∗ cellZ d L cc3_scratch9 ∗ cellZ d L cc3_scratch10 ∗ cellZ d L cc3_scratch11 ∗ cellZ d L cc3_scratch12
            ∗ cellZ d L cc3_scoped0
            ∗ bigSep Finset.univ (outTrip d L)
            ∗ ∃ W', ⌜∀ p ∈ W', p ∈ W ∨ p.2 = none⌝ ∗ owes (thrV d L) O W') := by
  rw [Gen.cc3_gk_eq_skeleton]
  iintro ⟨#Hmw, HY0, HY1, HY2, HY3, HI, HV, HR0, HR1, HR2, HR3, HG0, HG1, HG2, HG3, HW0, HW1, HW2, HW3, HS, Hout, HO⟩
  sl_unfold [Gen.cc3_gk_skel, k3_part3]
  -- the slab lands in the local index buffer (one copy, awaited); the run stops before the first gather
  sl_exec
  -- whatever the buffer held before, every word of every list is now a word of the slab
  have hrow := fun g off hk => hin_rows d L fi hin g (gk_core.sl.dma0 d L fi) rfl off hk
  -- the buffer as its 32 lists; lists 0 … 3, spelt as the first four gathers slice them
  ihave Hrows := (Entails.of_eq (iv_rows (F := F) d L _)) $$ HV
  ihave Hx := (Entails.of_eq (SparseCore.bigSep_erase' (s := Finset.univ) (i := (0 : Fin 32)) (Finset.mem_univ _))) $$ Hrows
  icases Hx with ⟨Hl0, Hrows⟩
  ihave Hx := (Entails.of_eq (SparseCore.bigSep_erase' (i := (1 : Fin 32)) (by decide))) $$ Hrows
  icases Hx with ⟨Hl1, Hrows⟩
  ihave Hx := (Entails.of_eq (SparseCore.bigSep_erase' (i := (2 : Fin 32)) (by decide))) $$ Hrows
  icases Hx with ⟨Hl2, Hrows⟩
  ihave Hx := (Entails.of_eq (SparseCore.bigSep_erase' (i := (3 : Fin 32)) (by decide))) $$ Hrows
  icases Hx with ⟨Hl3, Hrows⟩
  ihave Hl0' := (Entails.of_eq (rowPts_at (F := F) d L 0 ![0, 0] inb_S32x128_S1x128_0_0 rfl _)) $$ Hl0
  ihave Hl1' := (Entails.of_eq (rowPts_at (F := F) d L 1 ![1, 0] inb_S32x128_S1x128_1_0 rfl _)) $$ Hl1
  ihave Hl2' := (Entails.of_eq (rowPts_at (F := F) d L 2 ![2, 0] inb_S32x128_S1x128_2_0 rfl _)) $$ Hl2
  ihave Hl3' := (Entails.of_eq (rowPts_at (F := F) d L 3 ![3, 0] inb_S32x128_S1x128_3_0 rfl _)) $$ Hl3
  -- the four gathers issue; the run stops at the loop
  sl_exec
  sl_for (inv d L q O W fy ((ivV).view.writes (Elt F) (ivV).view.junk [⟨Rect.whole cc3_scratch0.ty.shape, gk_core.sl.dma0 d L fi⟩]))
    $$ [HO HW0 HW1 HW2 HW3 Hout Hrows HG0 HY0 HG1 HY1 HG2 HY2 HG3 HY3]
  · -- one trip
    intro k acc
    have hk8 : k.val < 8 := trips_eq ▸ k.isLt
    rcases Nat.lt_or_ge k.val 7 with h7 | h7
    · rw [inv_lt (h := hk8), inv_lt (k := k.val + 1) (h := by omega)]
      exact gk_tripA d L q O W fy _ (hrow _) _ _ _ k h7 acc
    · rw [inv_lt (h := hk8), inv_ge (k := k.val + 1) (h := by omega)]
      exact gk_tripB d L q O W fy _ (hrow _) _ _ _ k (by omega) acc
  · -- the invariant before the first trip
    rw [inv_lt (k := 0) (h := by omega)]
    beta_reduce
    unfold invA gFlight yRest
    isplitr; · iexact Hmw
    isplitl [HO]
    · iexists _; isplitr
      swap; · iexact HO
      ipureintro
      exact waits_ins (fun p hp => .inl hp) _
    isplitl [HW0 HW1 HW2 HW3]
    · isplitl [HW0]; · iexact HW0
      isplitl [HW1]; · iexact HW1
      isplitl [HW2]; · iexact HW2
      iexact HW3
    isplitl [Hout]; · iexact Hout
    isplitl [Hrows]; · rw [idle_zero]; iexact Hrows
    isplitl [HG0 HY0]
    · isplitl [HG0]; · iexists _; iexact HG0
      iexact HY0
    isplitl [HG1 HY1]
    · isplitl [HG1]; · iexists _; iexact HG1
      iexact HY1
    isplitl [HG2 HY2]
    · isplitl [HG2]; · iexists _; iexact HG2
      iexact HY2
    isplitl [HG3]; · iexists _; iexact HG3
    iexact HY3
  -- after the loop
  iintro %acc HL
  rw [inv_end]
  beta_reduce
  unfold invEnd
  icases HL with ⟨-, ⟨%W', %hW', HO⟩, ⟨HW0, HW1, HW2, HW3⟩, Hout, Hrows, ⟨⟨%fr0, HR0⟩, HG0, HY0⟩, ⟨⟨%fr1, HR1⟩, HG1, HY1⟩, ⟨⟨%fr2, HR2⟩, HG2, HY2⟩, ⟨⟨%fr3, HR3⟩, HG3, HY3⟩⟩
  sl_exec
  sl_step
  isplitl [HY0]; · iexact HY0
  isplitl [HY1]; · iexact HY1
  isplitl [HY2]; · iexact HY2
  isplitl [HY3]; · iexact HY3
  isplitl [HI]; · iexact HI
  isplitl [Hrows]
  · iexists _
    iapply (Entails.of_eq (iv_rows (F := F) d L _).symm)
    iexact Hrows
  isplitl [HR0]; · iexists _; iexact HR0
  isplitl [HR1]; · iexists _; iexact HR1
  isplitl [HR2]; · iexists _; iexact HR2
  isplitl [HR3]; · iexists _; iexact HR3
  isplitl [HG0]; · iexact HG0
  isplitl [HG1]; · iexact HG1
  isplitl [HG2]; · iexact HG2
  isplitl [HG3]; · iexact HG3
  isplitl [HW0]; · iexact HW0
  isplitl [HW1]; · iexact HW1
  isplitl [HW2]; · iexact HW2
  isplitl [HW3]; · iexact HW3
  isplitl [HS]; · iexact HS
  isplitl [Hout]; · iexact Hout
  iexists _; isplitr
  swap; · iexact HO
  ipureintro; exact hW'

/-! ## The tile's spellings against the launch's: the worker number, the slab, the share of y -/

omit [FloatOps F] in
theorem L0_lt (L : grid3.Coords) : (L 0).val < 2 := (L 0).isLt
omit [FloatOps F] in
theorem L1_lt (L : grid3.Coords) : (L 1).val < 16 := (L 1).isLt

/-- The tile's worker number: subcore-major, as the kernel computes it. -/
def widL (L : grid3.Coords) : Fin 32 := ⟨(L 1).val * 2 + (L 0).val, by have := L0_lt L; have := L1_lt L; omega⟩

omit [FloatOps F] in
/-- The slab the program slices is the worker's part of the index array. -/
theorem slab_rect (L : grid3.Coords) :
    Rect.unit (s := S32x32x128) (k3_off1 L) S1x32x128.size (k3_off1_inb L) = slabRect (widL L) := by
  unfold slabRect Rect.part Rect.block
  refine Rect.unit_congr ?_ ?_ _ _
  · rw [Gen.k3_off1_eq]
    funext a
    match a with
    | 0 => show 2 * (L 1).val + (L 0).val = ((L 1).val * 2 + (L 0).val) * (32 / 32); omega
    | 1 => rfl
    | 2 => rfl
  · funext a
    match a with
    | 0 => rfl
    | 1 => rfl
    | 2 => rfl

omit [FloatOps F] in
theorem set_slabK (L : grid3.Coords) : (slabK L).view.set = (slabRect (widL L)).set := by
  show (((ixV).view.slice (Rect.unit (s := S32x32x128) (k3_off1 L) S1x32x128.size (k3_off1_inb L))).reshape S32x128 squeezes_S1x32x128_S32x128.numel_eq).set = _
  rw [View.set_reshape]
  exact (View.set_slice_whole _ _).trans (congrArg (fun r : Rect S32x32x128 => r.set) (slab_rect L))

omit [FloatOps F] in
/-- The slab held, in the tile's spelling and in the launch's. -/
theorem pts_slabK (d : Dev nD) (L : grid3.Coords) (f : Buf (Elt F) (ixLoc1 d)) :
    (heldW d L (slabK L) fullShare f : sProp 𝕄) = (ixLoc1 d ↦[(slabRect (widL L)).set]{fullShare} f) := by
  unfold heldW
  rw [set_slabK]

omit [FloatOps F] in
/-- Every word of the slab is a row number of y, in the tile's reading of it. -/
theorem hin_slabK (d : Dev nD) (L : grid3.Coords) (f : Buf (Elt F) (ixLoc1 d))
    (h : ∀ j ∈ (slabRect (widL L)).set, (f j).toNat < 8192) :
    ∀ x, ((slabK L).view.read (Elt F) f x).toNat < 8192 := by
  intro x
  rw [View.read_apply]
  refine h _ ?_
  rw [← set_slabK]
  exact Finset.mem_map_of_mem _ (Finset.mem_univ x)

omit [FloatOps F] in
/-- All of y held at a share, in the tile's spelling and in the launch's. -/
theorem pts_yV (d : Dev nD) (L : grid3.Coords) (s : PosShare TreeShare) (f : Buf (Elt F) (yLoc d)) :
    (heldW d L yV s f : sProp 𝕄) = (yLoc d ↦{s} f) := by
  unfold heldW
  rw [show (yV).view.set = Finset.univ from View.set_whole _]

/-! ## The tile's 32 output chunks are the worker's 4096 rows of the output -/

abbrev oLocV (d : Dev nD) (L : grid3.Coords) : Loc nD τ sig := (oV).view.loc (thrV d L)

omit [FloatOps F] in
theorem mem_rowsRect (L : grid3.Coords) (i : S131072x128.Idx) :
    i ∈ (rowsRect (widL L)).set ↔ 4096 * (widL L).val ≤ (i 0).val ∧ (i 0).val < 4096 * (widL L).val + 4096 := by
  unfold rowsRect Rect.part Rect.block
  rw [Rect.mem_set_unit, Fin.forall_fin_two]
  have h1 : (i 1).val < 128 := (i 1).isLt
  show ((widL L).val * (131072 / 32) ≤ (i 0).val ∧ (i 0).val < (widL L).val * (131072 / 32) + 131072 / 32)
      ∧ (0 * 128 ≤ (i 1).val ∧ (i 1).val < 0 * 128 + 128) ↔ _
  omega

omit [FloatOps F] in
theorem mem_chunk (L : grid3.Coords) (t : Fin k3_t1_loop.trips) (r : Fin 4) (i : S131072x128.Idx) :
    i ∈ (Rect.unit (s := S131072x128) (k3_off3 L t (BitVec.ofNat 32 r.val)) S128x128.size (k3_off3_inb L t r)).set
      ↔ 4096 * (widL L).val + 512 * t.val + 128 * r.val ≤ (i 0).val ∧ (i 0).val < 4096 * (widL L).val + 512 * t.val + 128 * r.val + 128 := by
  rw [Rect.mem_set_unit, Gen.k3_off3_eq, Fin.forall_fin_two]
  have h1 : (i 1).val < 128 := (i 1).isLt
  show ((8192 * (L 1).val + 4096 * (L 0).val + 512 * t.val + 128 * r.val ≤ (i 0).val
        ∧ (i 0).val < 8192 * (L 1).val + 4096 * (L 0).val + 512 * t.val + 128 * r.val + 128)
      ∧ (0 ≤ (i 1).val ∧ (i 1).val < 0 + 128))
    ↔ 4096 * ((L 1).val * 2 + (L 0).val) + 512 * t.val + 128 * r.val ≤ (i 0).val
      ∧ (i 0).val < 4096 * ((L 1).val * 2 + (L 0).val) + 512 * t.val + 128 * r.val + 128
  omega

/-- The elements of output chunk 4t + r of the tile. -/
abbrev chunkSet (L : grid3.Coords) (t : Fin k3_t1_loop.trips) (r : Fin 4) : Finset S131072x128.Idx :=
  (Rect.unit (s := S131072x128) (k3_off3 L t (BitVec.ofNat 32 r.val)) S128x128.size (k3_off3_inb L t r)).set

/-- The elements of the four chunks of trip t. -/
abbrev tripSet (L : grid3.Coords) (t : Fin k3_t1_loop.trips) : Finset S131072x128.Idx :=
  chunkSet L t 0 ∪ (chunkSet L t 1 ∪ (chunkSet L t 2 ∪ chunkSet L t 3))

omit [FloatOps F] in
theorem chunk_disjoint (L : grid3.Coords) (t : Fin k3_t1_loop.trips) {r r' : Fin 4} (h : r ≠ r') : Disjoint (chunkSet L t r) (chunkSet L t r') := by
  refine Finset.disjoint_left.mpr fun i hi hi' => h (Fin.ext ?_)
  rw [mem_chunk] at hi hi'
  omega

omit [FloatOps F] in
theorem mem_tripSet (L : grid3.Coords) (t : Fin k3_t1_loop.trips) (i : S131072x128.Idx) :
    i ∈ tripSet L t ↔ 4096 * (widL L).val + 512 * t.val ≤ (i 0).val ∧ (i 0).val < 4096 * (widL L).val + 512 * t.val + 512 := by
  simp only [tripSet, Finset.mem_union, mem_chunk]
  show _ ↔ _
  have e0 : ((0 : Fin 4) : ℕ) = 0 := rfl
  have e1 : ((1 : Fin 4) : ℕ) = 1 := rfl
  have e2 : ((2 : Fin 4) : ℕ) = 2 := rfl
  have e3 : ((3 : Fin 4) : ℕ) = 3 := rfl
  rw [e0, e1, e2, e3]
  omega

omit [FloatOps F] in
theorem trip_disjoint (L : grid3.Coords) {t t' : Fin k3_t1_loop.trips} (h : t ≠ t') : Disjoint (tripSet L t) (tripSet L t') := by
  refine Finset.disjoint_left.mpr fun i hi hi' => h (Fin.ext ?_)
  rw [mem_tripSet] at hi hi'
  omega

omit [FloatOps F] in
/-- The worker's 4096 rows are the eight trips' chunks. -/
theorem rows_cover (L : grid3.Coords) : (rowsRect (widL L)).set = Finset.univ.biUnion (tripSet L) := by
  ext i
  rw [mem_rowsRect, Finset.mem_biUnion]
  constructor
  · intro h
    have h8 : ((i 0).val - 4096 * (widL L).val) / 512 < k3_t1_loop.trips := by rw [trips_eq]; omega
    refine ⟨⟨((i 0).val - 4096 * (widL L).val) / 512, h8⟩, Finset.mem_univ _, ?_⟩
    rw [mem_tripSet]
    show 4096 * (widL L).val + 512 * (((i 0).val - 4096 * (widL L).val) / 512) ≤ (i 0).val
      ∧ (i 0).val < 4096 * (widL L).val + 512 * (((i 0).val - 4096 * (widL L).val) / 512) + 512
    omega
  · rintro ⟨t, -, ht⟩
    rw [mem_tripSet] at ht
    have ht8 : t.val < 8 := trips_eq ▸ t.isLt
    omega

omit [FloatOps F] in
theorem set_outK0 (L : grid3.Coords) (t : Fin k3_t1_loop.trips) : (outK0 L t).view.set = chunkSet L t 0 := View.set_slice_whole _ _
omit [FloatOps F] in
theorem set_outK1 (L : grid3.Coords) (t : Fin k3_t1_loop.trips) : (outK1 L t).view.set = chunkSet L t 1 := View.set_slice_whole _ _
omit [FloatOps F] in
theorem set_outK2 (L : grid3.Coords) (t : Fin k3_t1_loop.trips) : (outK2 L t).view.set = chunkSet L t 2 := View.set_slice_whole _ _
omit [FloatOps F] in
theorem set_outK3 (L : grid3.Coords) (t : Fin k3_t1_loop.trips) : (outK3 L t).view.set = chunkSet L t 3 := View.set_slice_whole _ _

omit [FloatOps F] in
theorem pts_outK0 (d : Dev nD) (L : grid3.Coords) (t : Fin k3_t1_loop.trips) (f : Buf (Elt F) (oLoc1 d)) :
    (heldW d L (outK0 L t) fullShare f : sProp 𝕄) = (oLoc1 d ↦[chunkSet L t 0]{fullShare} f) := by
  unfold heldW; rw [set_outK0]
omit [FloatOps F] in
theorem pts_outK1 (d : Dev nD) (L : grid3.Coords) (t : Fin k3_t1_loop.trips) (f : Buf (Elt F) (oLoc1 d)) :
    (heldW d L (outK1 L t) fullShare f : sProp 𝕄) = (oLoc1 d ↦[chunkSet L t 1]{fullShare} f) := by
  unfold heldW; rw [set_outK1]
omit [FloatOps F] in
theorem pts_outK2 (d : Dev nD) (L : grid3.Coords) (t : Fin k3_t1_loop.trips) (f : Buf (Elt F) (oLoc1 d)) :
    (heldW d L (outK2 L t) fullShare f : sProp 𝕄) = (oLoc1 d ↦[chunkSet L t 2]{fullShare} f) := by
  unfold heldW; rw [set_outK2]
omit [FloatOps F] in
theorem pts_outK3 (d : Dev nD) (L : grid3.Coords) (t : Fin k3_t1_loop.trips) (f : Buf (Elt F) (oLoc1 d)) :
    (heldW d L (outK3 L t) fullShare f : sProp 𝕄) = (oLoc1 d ↦[chunkSet L t 3]{fullShare} f) := by
  unfold heldW; rw [set_outK3]

omit [FloatOps F] in
theorem d23 (L : grid3.Coords) (t : Fin k3_t1_loop.trips) : Disjoint (chunkSet L t 2) (chunkSet L t 3) := chunk_disjoint L t (by decide)
omit [FloatOps F] in
theorem d1_23 (L : grid3.Coords) (t : Fin k3_t1_loop.trips) : Disjoint (chunkSet L t 1) (chunkSet L t 2 ∪ chunkSet L t 3) :=
  Finset.disjoint_union_right.mpr ⟨chunk_disjoint L t (by decide), chunk_disjoint L t (by decide)⟩
omit [FloatOps F] in
theorem d0_123 (L : grid3.Coords) (t : Fin k3_t1_loop.trips) : Disjoint (chunkSet L t 0) (chunkSet L t 1 ∪ (chunkSet L t 2 ∪ chunkSet L t 3)) :=
  Finset.disjoint_union_right.mpr ⟨chunk_disjoint L t (by decide),
    Finset.disjoint_union_right.mpr ⟨chunk_disjoint L t (by decide), chunk_disjoint L t (by decide)⟩⟩

omit [FloatOps F] in
/-- The worker's rows of the output, held at some contents, are its 32 chunks held each. -/
theorem out_split (d : Dev nD) (L : grid3.Coords) (fo : Buf (Elt F) (oLoc1 d)) :
    (oLoc1 d ↦[(rowsRect (widL L)).set]{fullShare} fo : sProp 𝕄) ⊢ bigSep Finset.univ (outTrip d L) := by
  have step : ∀ t, (oLoc1 d ↦[tripSet L t]{fullShare} fo : sProp 𝕄) ⊢ outTrip d L t := by
    intro t
    iintro H
    ihave H := (pointsTo_union (ℓ := oLoc1 d) (d0_123 L t)).1 $$ H
    icases H with ⟨H0, H⟩
    ihave H := (pointsTo_union (ℓ := oLoc1 d) (d1_23 L t)).1 $$ H
    icases H with ⟨H1, H⟩
    ihave H := (pointsTo_union (ℓ := oLoc1 d) (d23 L t)).1 $$ H
    icases H with ⟨H2, H3⟩
    isplitl [H0]; · iexists fo; iapply (Entails.of_eq (pts_outK0 (F := F) d L t fo).symm); iexact H0
    isplitl [H1]; · iexists fo; iapply (Entails.of_eq (pts_outK1 (F := F) d L t fo).symm); iexact H1
    isplitl [H2]; · iexists fo; iapply (Entails.of_eq (pts_outK2 (F := F) d L t fo).symm); iexact H2
    iexists fo; iapply (Entails.of_eq (pts_outK3 (F := F) d L t fo).symm); iexact H3
  rw [rows_cover]
  refine (Entails.of_eq (pointsTo_biUnion (ℓ := oLoc1 d) (q := fullShare) (f := fo) Finset.univ (tripSet L) (fun t _ t' _ h => trip_disjoint L h))).trans ?_
  exact bigSep_mono fun t _ => step t

/-- and back: the 32 chunks at some contents each are the worker's rows at some contents. -/
theorem out_join (d : Dev nD) (L : grid3.Coords) :
    bigSep Finset.univ (outTrip d L) ⊢ (iprop(∃ fo, oLoc1 d ↦[(rowsRect (widL L)).set]{fullShare} fo) : sProp 𝕄) := by
  have step : ∀ t, outTrip d L t ⊢ (iprop(∃ g, oLoc1 d ↦[tripSet L t]{fullShare} g) : sProp 𝕄) := by
    intro t
    iintro ⟨⟨%g0, H0⟩, ⟨%g1, H1⟩, ⟨%g2, H2⟩, ⟨%g3, H3⟩⟩
    ihave K0 := (Entails.of_eq (pts_outK0 (F := F) d L t g0)) $$ H0
    ihave K1 := (Entails.of_eq (pts_outK1 (F := F) d L t g1)) $$ H1
    ihave K2 := (Entails.of_eq (pts_outK2 (F := F) d L t g2)) $$ H2
    ihave K3 := (Entails.of_eq (pts_outK3 (F := F) d L t g3)) $$ H3
    ihave H23 := (pointsTo_join (ℓ := oLoc1 d) (d23 L t)) $$ [K2 K3]
    · isplitl [K2]; · iexact K2
      iexact K3
    ihave H123 := (pointsTo_join (ℓ := oLoc1 d) (d1_23 L t)) $$ [K1 H23]
    · isplitl [K1]; · iexact K1
      iexact H23
    ihave H0123 := (pointsTo_join (ℓ := oLoc1 d) (d0_123 L t)) $$ [K0 H123]
    · isplitl [K0]; · iexact K0
      iexact H123
    iexists _; iexact H0123
  refine (bigSep_mono fun t _ => step t).trans ?_
  refine (bigSep_exists_pi Finset.univ (fun t (g : Buf (Elt F) (oLoc1 d)) => (oLoc1 d ↦[tripSet L t]{fullShare} g : sProp 𝕄))).trans ?_
  iintro ⟨%gs, H⟩
  ihave H' := (pointsTo_biUnion_join (ℓ := oLoc1 d) (q := fullShare) (Val := Elt F) Finset.univ (tripSet L) gs (gs ⟨0, by rw [trips_eq]; omega⟩)
    (fun t _ t' _ h => trip_disjoint L h)) $$ H
  icases H' with ⟨%g, -, Hg⟩
  rw [rows_cover]
  iexists g; iexact Hg

/-! ## The tile's scoped storage: its five buffers and nine semaphores among all it owns -/

abbrev cellOf (d : Dev nD) (L : grid3.Coords) (a : DmaSems sig S_) : GSem nD τ sig := (thrV d L, SemLoc.dma a.sem)
abbrev bufOf (L : grid3.Coords) (b : Ref sig .scVector) : DevRef τ sig := (Proc.scVector (cV L) (jV L)).devRef b

omit [FloatOps F] in
theorem cell_ne (thr : Thread nD τ) {a b : SemLoc sig} (h : a ≠ b) : ((thr, a) : GSem nD τ sig) ≠ (thr, b) := fun e => h (congrArg Prod.snd e)
omit [FloatOps F] in
theorem buf_ne (L : grid3.Coords) {a b : Ref sig .scVector} (h : a ≠ b) : bufOf L a ≠ bufOf L b := fun e => h (Proc.devRef_injective _ e)

/-- The scoped semaphores of the tile other than the nine the body uses. -/
abbrev restCells (d : Dev nD) (L : grid3.Coords) : Finset (GSem nD τ sig) :=
  ((((((((((ownCells (thrV d L)).erase (cellOf d L cc3_scratch5)).erase (cellOf d L cc3_scratch6)).erase (cellOf d L cc3_scratch7)).erase (cellOf d L cc3_scratch8)).erase (cellOf d L cc3_scratch9)).erase (cellOf d L cc3_scratch10)).erase (cellOf d L cc3_scratch11)).erase (cellOf d L cc3_scratch12)).erase (cellOf d L cc3_scoped0))

/-- The buffers of the tile other than the five the body uses. -/
abbrev restRefs (L : grid3.Coords) : Finset (DevRef τ sig) :=
  ((((((ownRefs (τ := τ) (.scVector (cV L) (jV L))).erase (bufOf L cc3_scratch0)).erase (bufOf L cc3_scratch1)).erase (bufOf L cc3_scratch2)).erase (bufOf L cc3_scratch3)).erase (bufOf L cc3_scratch4))

omit [FloatOps F] in
theorem tile_sems (d : Dev nD) (L : grid3.Coords) :
    (ownSems0 (thrV d L) : sProp 𝕄)
      = iprop(cellZ d L cc3_scratch5 ∗ cellZ d L cc3_scratch6 ∗ cellZ d L cc3_scratch7 ∗ cellZ d L cc3_scratch8
          ∗ cellZ d L cc3_scratch9 ∗ cellZ d L cc3_scratch10 ∗ cellZ d L cc3_scratch11 ∗ cellZ d L cc3_scratch12
          ∗ cellZ d L cc3_scoped0 ∗ bigSep (restCells d L) fun g => semVal g 0) := by
  unfold SparseCore.Cfg.ownSems0
  rw [SparseCore.bigSep_erase' ((mem_ownCells (g := (cellOf d L cc3_scratch5))).mpr ⟨rfl, by show (SemLoc.dma cc3_scratch5.sem : SemLoc sig).isScoped .scVector = true; decide⟩),
    SparseCore.bigSep_erase' (Finset.mem_erase.mpr ⟨cell_ne (thrV d L) (by decide : (SemLoc.dma cc3_scratch6.sem : SemLoc sig) ≠ SemLoc.dma cc3_scratch5.sem), ((mem_ownCells (g := (cellOf d L cc3_scratch6))).mpr ⟨rfl, by show (SemLoc.dma cc3_scratch6.sem : SemLoc sig).isScoped .scVector = true; decide⟩)⟩),
    SparseCore.bigSep_erase' (Finset.mem_erase.mpr ⟨cell_ne (thrV d L) (by decide : (SemLoc.dma cc3_scratch7.sem : SemLoc sig) ≠ SemLoc.dma cc3_scratch6.sem), (Finset.mem_erase.mpr ⟨cell_ne (thrV d L) (by decide : (SemLoc.dma cc3_scratch7.sem : SemLoc sig) ≠ SemLoc.dma cc3_scratch5.sem), ((mem_ownCells (g := (cellOf d L cc3_scratch7))).mpr ⟨rfl, by show (SemLoc.dma cc3_scratch7.sem : SemLoc sig).isScoped .scVector = true; decide⟩)⟩)⟩),
    SparseCore.bigSep_erase' (Finset.mem_erase.mpr ⟨cell_ne (thrV d L) (by decide : (SemLoc.dma cc3_scratch8.sem : SemLoc sig) ≠ SemLoc.dma cc3_scratch7.sem), (Finset.mem_erase.mpr ⟨cell_ne (thrV d L) (by decide : (SemLoc.dma cc3_scratch8.sem : SemLoc sig) ≠ SemLoc.dma cc3_scratch6.sem), (Finset.mem_erase.mpr ⟨cell_ne (thrV d L) (by decide : (SemLoc.dma cc3_scratch8.sem : SemLoc sig) ≠ SemLoc.dma cc3_scratch5.sem), ((mem_ownCells (g := (cellOf d L cc3_scratch8))).mpr ⟨rfl, by show (SemLoc.dma cc3_scratch8.sem : SemLoc sig).isScoped .scVector = true; decide⟩)⟩)⟩)⟩),
    SparseCore.bigSep_erase' (Finset.mem_erase.mpr ⟨cell_ne (thrV d L) (by decide : (SemLoc.dma cc3_scratch9.sem : SemLoc sig) ≠ SemLoc.dma cc3_scratch8.sem), (Finset.mem_erase.mpr ⟨cell_ne (thrV d L) (by decide : (SemLoc.dma cc3_scratch9.sem : SemLoc sig) ≠ SemLoc.dma cc3_scratch7.sem), (Finset.mem_erase.mpr ⟨cell_ne (thrV d L) (by decide : (SemLoc.dma cc3_scratch9.sem : SemLoc sig) ≠ SemLoc.dma cc3_scratch6.sem), (Finset.mem_erase.mpr ⟨cell_ne (thrV d L) (by decide : (SemLoc.dma cc3_scratch9.sem : SemLoc sig) ≠ SemLoc.dma cc3_scratch5.sem), ((mem_ownCells (g := (cellOf d L cc3_scratch9))).mpr ⟨rfl, by show (SemLoc.dma cc3_scratch9.sem : SemLoc sig).isScoped .scVector = true; decide⟩)⟩)⟩)⟩)⟩),
    SparseCore.bigSep_erase' (Finset.mem_erase.mpr ⟨cell_ne (thrV d L) (by decide : (SemLoc.dma cc3_scratch10.sem : SemLoc sig) ≠ SemLoc.dma cc3_scratch9.sem), (Finset.mem_erase.mpr ⟨cell_ne (thrV d L) (by decide : (SemLoc.dma cc3_scratch10.sem : SemLoc sig) ≠ SemLoc.dma cc3_scratch8.sem), (Finset.mem_erase.mpr ⟨cell_ne (thrV d L) (by decide : (SemLoc.dma cc3_scratch10.sem : SemLoc sig) ≠ SemLoc.dma cc3_scratch7.sem), (Finset.mem_erase.mpr ⟨cell_ne (thrV d L) (by decide : (SemLoc.dma cc3_scratch10.sem : SemLoc sig) ≠ SemLoc.dma cc3_scratch6.sem), (Finset.mem_erase.mpr ⟨cell_ne (thrV d L) (by decide : (SemLoc.dma cc3_scratch10.sem : SemLoc sig) ≠ SemLoc.dma cc3_scratch5.sem), ((mem_ownCells (g := (cellOf d L cc3_scratch10))).mpr ⟨rfl, by show (SemLoc.dma cc3_scratch10.sem : SemLoc sig).isScoped .scVector = true; decide⟩)⟩)⟩)⟩)⟩)⟩),
    SparseCore.bigSep_erase' (Finset.mem_erase.mpr ⟨cell_ne (thrV d L) (by decide : (SemLoc.dma cc3_scratch11.sem : SemLoc sig) ≠ SemLoc.dma cc3_scratch10.sem), (Finset.mem_erase.mpr ⟨cell_ne (thrV d L) (by decide : (SemLoc.dma cc3_scratch11.sem : SemLoc sig) ≠ SemLoc.dma cc3_scratch9.sem), (Finset.mem_erase.mpr ⟨cell_ne (thrV d L) (by decide : (SemLoc.dma cc3_scratch11.sem : SemLoc sig) ≠ SemLoc.dma cc3_scratch8.sem), (Finset.mem_erase.mpr ⟨cell_ne (thrV d L) (by decide : (SemLoc.dma cc3_scratch11.sem : SemLoc sig) ≠ SemLoc.dma cc3_scratch7.sem), (Finset.mem_erase.mpr ⟨cell_ne (thrV d L) (by decide : (SemLoc.dma cc3_scratch11.sem : SemLoc sig) ≠ SemLoc.dma cc3_scratch6.sem), (Finset.mem_erase.mpr ⟨cell_ne (thrV d L) (by decide : (SemLoc.dma cc3_scratch11.sem : SemLoc sig) ≠ SemLoc.dma cc3_scratch5.sem), ((mem_ownCells (g := (cellOf d L cc3_scratch11))).mpr ⟨rfl, by show (SemLoc.dma cc3_scratch11.sem : SemLoc sig).isScoped .scVector = true; decide⟩)⟩)⟩)⟩)⟩)⟩)⟩),
    SparseCore.bigSep_erase' (Finset.mem_erase.mpr ⟨cell_ne (thrV d L) (by decide : (SemLoc.dma cc3_scratch12.sem : SemLoc sig) ≠ SemLoc.dma cc3_scratch11.sem), (Finset.mem_erase.mpr ⟨cell_ne (thrV d L) (by decide : (SemLoc.dma cc3_scratch12.sem : SemLoc sig) ≠ SemLoc.dma cc3_scratch10.sem), (Finset.mem_erase.mpr ⟨cell_ne (thrV d L) (by decide : (SemLoc.dma cc3_scratch12.sem : SemLoc sig) ≠ SemLoc.dma cc3_scratch9.sem), (Finset.mem_erase.mpr ⟨cell_ne (thrV d L) (by decide : (SemLoc.dma cc3_scratch12.sem : SemLoc sig) ≠ SemLoc.dma cc3_scratch8.sem), (Finset.mem_erase.mpr ⟨cell_ne (thrV d L) (by decide : (SemLoc.dma cc3_scratch12.sem : SemLoc sig) ≠ SemLoc.dma cc3_scratch7.sem), (Finset.mem_erase.mpr ⟨cell_ne (thrV d L) (by decide : (SemLoc.dma cc3_scratch12.sem : SemLoc sig) ≠ SemLoc.dma cc3_scratch6.sem), (Finset.mem_erase.mpr ⟨cell_ne (thrV d L) (by decide : (SemLoc.dma cc3_scratch12.sem : SemLoc sig) ≠ SemLoc.dma cc3_scratch5.sem), ((mem_ownCells (g := (cellOf d L cc3_scratch12))).mpr ⟨rfl, by show (SemLoc.dma cc3_scratch12.sem : SemLoc sig).isScoped .scVector = true; decide⟩)⟩)⟩)⟩)⟩)⟩)⟩)⟩),
    SparseCore.bigSep_erase' (Finset.mem_erase.mpr ⟨cell_ne (thrV d L) (by decide : (SemLoc.dma cc3_scoped0.sem : SemLoc sig) ≠ SemLoc.dma cc3_scratch12.sem), (Finset.mem_erase.mpr ⟨cell_ne (thrV d L) (by decide : (SemLoc.dma cc3_scoped0.sem : SemLoc sig) ≠ SemLoc.dma cc3_scratch11.sem), (Finset.mem_erase.mpr ⟨cell_ne (thrV d L) (by decide : (SemLoc.dma cc3_scoped0.sem : SemLoc sig) ≠ SemLoc.dma cc3_scratch10.sem), (Finset.mem_erase.mpr ⟨cell_ne (thrV d L) (by decide : (SemLoc.dma cc3_scoped0.sem : SemLoc sig) ≠ SemLoc.dma cc3_scratch9.sem), (Finset.mem_erase.mpr ⟨cell_ne (thrV d L) (by decide : (SemLoc.dma cc3_scoped0.sem : SemLoc sig) ≠ SemLoc.dma cc3_scratch8.sem), (Finset.mem_erase.mpr ⟨cell_ne (thrV d L) (by decide : (SemLoc.dma cc3_scoped0.sem : SemLoc sig) ≠ SemLoc.dma cc3_scratch7.sem), (Finset.mem_erase.mpr ⟨cell_ne (thrV d L) (by decide : (SemLoc.dma cc3_scoped0.sem : SemLoc sig) ≠ SemLoc.dma cc3_scratch6.sem), (Finset.mem_erase.mpr ⟨cell_ne (thrV d L) (by decide : (SemLoc.dma cc3_scoped0.sem : SemLoc sig) ≠ SemLoc.dma cc3_scratch5.sem), ((mem_ownCells (g := (cellOf d L cc3_scoped0))).mpr ⟨rfl, by show (SemLoc.dma cc3_scoped0.sem : SemLoc sig).isScoped .scVector = true; decide⟩)⟩)⟩)⟩)⟩)⟩)⟩)⟩)⟩)]

omit [FloatOps F] in
theorem tile_bufs (d : Dev nD) (L : grid3.Coords) :
    (ownBufs (thrV d L) : sProp 𝕄)
      = iprop((∃ f, (thrV d L).loc cc3_scratch0 ↦{fullShare} f) ∗ (∃ f, (thrV d L).loc cc3_scratch1 ↦{fullShare} f)
          ∗ (∃ f, (thrV d L).loc cc3_scratch2 ↦{fullShare} f) ∗ (∃ f, (thrV d L).loc cc3_scratch3 ↦{fullShare} f)
          ∗ (∃ f, (thrV d L).loc cc3_scratch4 ↦{fullShare} f)
          ∗ bigSep (restRefs L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (bufOf L cc3_scratch0)) rfl)).trans ?_
  rw [SparseCore.bigSep_erase' (Finset.mem_erase.mpr ⟨buf_ne L (by decide : (cc3_scratch1 : Ref sig .scVector) ≠ cc3_scratch0), (SparseCore.Cfg.mem_ownRefs_of_owner (p := Proc.scVector (cV L) (jV L)) (b := (bufOf L cc3_scratch1)) rfl)⟩),
    SparseCore.bigSep_erase' (Finset.mem_erase.mpr ⟨buf_ne L (by decide : (cc3_scratch2 : Ref sig .scVector) ≠ cc3_scratch1), (Finset.mem_erase.mpr ⟨buf_ne L (by decide : (cc3_scratch2 : Ref sig .scVector) ≠ cc3_scratch0), (SparseCore.Cfg.mem_ownRefs_of_owner (p := Proc.scVector (cV L) (jV L)) (b := (bufOf L cc3_scratch2)) rfl)⟩)⟩),
    SparseCore.bigSep_erase' (Finset.mem_erase.mpr ⟨buf_ne L (by decide : (cc3_scratch3 : Ref sig .scVector) ≠ cc3_scratch2), (Finset.mem_erase.mpr ⟨buf_ne L (by decide : (cc3_scratch3 : Ref sig .scVector) ≠ cc3_scratch1), (Finset.mem_erase.mpr ⟨buf_ne L (by decide : (cc3_scratch3 : Ref sig .scVector) ≠ cc3_scratch0), (SparseCore.Cfg.mem_ownRefs_of_owner (p := Proc.scVector (cV L) (jV L)) (b := (bufOf L cc3_scratch3)) rfl)⟩)⟩)⟩),
    SparseCore.bigSep_erase' (Finset.mem_erase.mpr ⟨buf_ne L (by decide : (cc3_scratch4 : Ref sig .scVector) ≠ cc3_scratch3), (Finset.mem_erase.mpr ⟨buf_ne L (by decide : (cc3_scratch4 : Ref sig .scVector) ≠ cc3_scratch2), (Finset.mem_erase.mpr ⟨buf_ne L (by decide : (cc3_scratch4 : Ref sig .scVector) ≠ cc3_scratch1), (Finset.mem_erase.mpr ⟨buf_ne L (by decide : (cc3_scratch4 : Ref sig .scVector) ≠ cc3_scratch0), (SparseCore.Cfg.mem_ownRefs_of_owner (p := Proc.scVector (cV L) (jV L)) (b := (bufOf L cc3_scratch4)) rfl)⟩)⟩)⟩)⟩)]

omit [FloatOps F] in
/-- A whole buffer held by the tile, in the two spellings. -/
theorem pts_whole (d : Dev nD) (L : grid3.Coords) (b : Ref sig .scVector) (s : PosShare TreeShare) (f : Buf (Elt F) ((thrV d L).loc b)) :
    ((Memref.whole b).view.loc (thrV d L) ↦[(Memref.whole b).view.set]{s} f : sProp 𝕄) = ((thrV d L).loc b ↦{s} f) := by
  rw [show (Memref.whole b).view.set = Finset.univ from View.set_whole _]

/-! ## The tile's share of y as four read shares, one per gather semaphore, and what is kept aside -/

/-- What is kept aside of a share of y while the four gathers hold theirs. -/
abbrev yKeep (ℓ : Loc nD τ sig) (q : PosShare TreeShare) (f : Buf (Elt F) ℓ) : sProp 𝕄 :=
  iprop((ℓ ↦{Transfers.shareDrop q 30} f)
    ∗ bigSep (((((Finset.range 30).erase 26).erase 27).erase 28).erase 29) (fun i => (ℓ ↦{Transfers.shareTokN q i} f : sProp 𝕄)))

omit [FloatOps F] in
theorem y_toks (ℓ : Loc nD τ sig) (q : PosShare TreeShare) (f : Buf (Elt F) ℓ) :
    (ℓ ↦{q} f : sProp 𝕄) ⊣⊢ iprop((ℓ ↦{Transfers.shareTokN q 26} f) ∗ (ℓ ↦{Transfers.shareTokN q 27} f)
      ∗ (ℓ ↦{Transfers.shareTokN q 28} f) ∗ (ℓ ↦{Transfers.shareTokN q 29} f) ∗ yKeep ℓ q f) := by
  have h := Transfers.pointsTo_toks_range (Ix := HIx 4) (Name := ℕ) (U := UU) (Lvl := ℕ) (ℓ := ℓ) (S := Finset.univ) (f := f) q 30
  have e : bigSep (Finset.range 30) (fun i => (ℓ ↦{Transfers.shareTokN q i} f : sProp 𝕄))
      = iprop((ℓ ↦{Transfers.shareTokN q 26} f) ∗ (ℓ ↦{Transfers.shareTokN q 27} f) ∗ (ℓ ↦{Transfers.shareTokN q 28} f) ∗ (ℓ ↦{Transfers.shareTokN q 29} f)
          ∗ bigSep (((((Finset.range 30).erase 26).erase 27).erase 28).erase 29) (fun i => (ℓ ↦{Transfers.shareTokN q i} f : sProp 𝕄))) := by
    rw [SparseCore.bigSep_erase' (by decide : 26 ∈ Finset.range 30), SparseCore.bigSep_erase' (by decide : 27 ∈ (Finset.range 30).erase 26),
      SparseCore.bigSep_erase' (by decide : 28 ∈ ((Finset.range 30).erase 26).erase 27),
      SparseCore.bigSep_erase' (by decide : 29 ∈ (((Finset.range 30).erase 26).erase 27).erase 28)]
  constructor
  · refine h.1.trans ?_
    rw [e]
    iintro ⟨Hd, H5, H6, H7, H8, Hr⟩
    isplitl [H5]; · iexact H5
    isplitl [H6]; · iexact H6
    isplitl [H7]; · iexact H7
    isplitl [H8]; · iexact H8
    isplitl [Hd]; · iexact Hd
    iexact Hr
  · refine BIBase.Entails.trans ?_ h.2
    rw [e]
    iintro ⟨H5, H6, H7, H8, Hd, Hr⟩
    isplitl [Hd]; · iexact Hd
    isplitl [H5]; · iexact H5
    isplitl [H6]; · iexact H6
    isplitl [H7]; · iexact H7
    isplitl [H8]; · iexact H8
    iexact Hr

/-! ## The body from what the launch hands the tile -/

set_option maxHeartbeats 4000000 in
/-- The body on tile (L 0, L 1) of device d from the worker's share as the launch states it — a share of y, its slab of
    the index array with every word a row number of y, its 4096 rows of the output — and the tile's scoped storage;
    it hands the same back, the output rows and the local buffers at some contents, owing what it owed. -/
theorem gk_body (hF : (K (F := F)).Facts) (d : Dev nD) (L : grid3.Coords)
    (O : CellTallies nD τ sig (HIx 4)) (W : Waits sig (HIx 4)) (hO : ∀ g, O g none = 0) :
    (iprop(levAts (K (F := F)).L (K (F := F)).lev ∗ share1 (F := F) d (widL L)
        ∗ scopedBufs (thrV d L) ∗ scopedSems0 (thrV d L) ∗ owes (thrV d L) O W) : sProp 𝕄)
      ⊢ wp frame (wpE (defs₀ (F := F)) 𝒱₀ (thrV d L) none) Set.univ
          (cc3_gk L yV (Memref.isWhole_whole _) ixV (Memref.isWhole_whole _) oV (Memref.isWhole_whole _)
            ivV (Memref.isWhole_whole _) r0V (Memref.isWhole_whole _) r1V (Memref.isWhole_whole _)
            r2V (Memref.isWhole_whole _) r3V (Memref.isWhole_whole _)
            cc3_scratch5 cc3_scratch6 cc3_scratch7 cc3_scratch8 cc3_scratch9 cc3_scratch10 cc3_scratch11 cc3_scratch12 cc3_scoped0)
          fun _ => iprop(share1 (F := F) d (widL L) ∗ scopedBufs (thrV d L) ∗ scopedSems0 (thrV d L)
            ∗ ∃ W', ⌜∀ p ∈ W', p ∈ W ∨ p.2 = none⌝ ∗ owes (thrV d L) O W') := by
  rw [(K (F := F)).scopedBufs_V hF d (cV L) (jV L), SparseCore.Cfg.scopedSems0_V (Val := Elt F) d (cV L) (jV L), tile_sems, tile_bufs]
  unfold share1
  iintro ⟨#Hlv, ⟨⟨%fy, HY⟩, ⟨%fi, HI, %hfi⟩, ⟨%fo, HOut⟩⟩, ⟨⟨%fv, HV⟩, ⟨%f0, HR0⟩, ⟨%f1, HR1⟩, ⟨%f2, HR2⟩, ⟨%f3, HR3⟩, Hbufs⟩, ⟨HG0, HG1, HG2, HG3, HW0, HW1, HW2, HW3, HS, Hsems⟩, HO⟩
  ihave Hmw := (show levAts (K (F := F)).L (K (F := F)).lev ⊢ Transfers.MayWaits (thrV d L) (default : HIx 4) O from
    (K (F := F)).mayWaits_none (thr := thrV d L) hO) $$ Hlv
  -- the share of y as the four gathers' read shares and the rest
  ihave HYs := (y_toks (F := F) (yLoc d) (ysh (widL L)) fy).1 $$ HY
  icases HYs with ⟨HY0, HY1, HY2, HY3, Hkeep⟩
  ihave KY0 := (Entails.of_eq (pts_yV (F := F) d L _ fy).symm) $$ HY0
  ihave KY1 := (Entails.of_eq (pts_yV (F := F) d L _ fy).symm) $$ HY1
  ihave KY2 := (Entails.of_eq (pts_yV (F := F) d L _ fy).symm) $$ HY2
  ihave KY3 := (Entails.of_eq (pts_yV (F := F) d L _ fy).symm) $$ HY3
  -- the slab, the output rows as 32 chunks, the five local buffers, in the tile's spellings
  ihave KI := (Entails.of_eq (pts_slabK (F := F) d L fi).symm) $$ HI
  ihave KOut := (out_split (F := F) d L fo) $$ HOut
  ihave KV := (Entails.of_eq (pts_whole (F := F) d L cc3_scratch0 fullShare fv).symm) $$ HV
  ihave KR0 := (Entails.of_eq (pts_whole (F := F) d L cc3_scratch1 fullShare f0).symm) $$ HR0
  ihave KR1 := (Entails.of_eq (pts_whole (F := F) d L cc3_scratch2 fullShare f1).symm) $$ HR1
  ihave KR2 := (Entails.of_eq (pts_whole (F := F) d L cc3_scratch3 fullShare f2).symm) $$ HR2
  ihave KR3 := (Entails.of_eq (pts_whole (F := F) d L cc3_scratch4 fullShare f3).symm) $$ HR3
  iapply (wp_wand_r frame (wpE (defs₀ (F := F)) 𝒱₀ (thrV d L) none) Set.univ)
  isplitl [Hmw KY0 KY1 KY2 KY3 KI KV KR0 KR1 KR2 KR3 HG0 HG1 HG2 HG3 HW0 HW1 HW2 HW3 HS KOut HO]
  · iapply (gk_core d L (ysh (widL L)) O W fy fi fv f0 f1 f2 f3 (hin_slabK d L fi hfi))
    isplitl [Hmw]; · iexact Hmw
    isplitl [KY0]; · iexact KY0
    isplitl [KY1]; · iexact KY1
    isplitl [KY2]; · iexact KY2
    isplitl [KY3]; · iexact KY3
    isplitl [KI]; · iexact KI
    isplitl [KV]; · iexact KV
    isplitl [KR0]; · iexact KR0
    isplitl [KR1]; · iexact KR1
    isplitl [KR2]; · iexact KR2
    isplitl [KR3]; · iexact KR3
    isplitl [HG0]; · iexact HG0
    isplitl [HG1]; · iexact HG1
    isplitl [HG2]; · iexact HG2
    isplitl [HG3]; · iexact HG3
    isplitl [HW0]; · iexact HW0
    isplitl [HW1]; · iexact HW1
    isplitl [HW2]; · iexact HW2
    isplitl [HW3]; · iexact HW3
    isplitl [HS]; · iexact HS
    isplitl [KOut]; · iexact KOut
    iexact HO
  iintro %a ⟨HY0, HY1, HY2, HY3, HI, ⟨%gv, HV⟩, ⟨%g0, HR0⟩, ⟨%g1, HR1⟩, ⟨%g2, HR2⟩, ⟨%g3, HR3⟩, HG0, HG1, HG2, HG3, HW0, HW1, HW2, HW3, HS, HOut, HO⟩
  isplitl [HY0 HY1 HY2 HY3 Hkeep HI HOut]
  · isplitl [HY0 HY1 HY2 HY3 Hkeep]
    · iexists fy
      iapply (y_toks (F := F) (yLoc d) (ysh (widL L)) fy).2
      isplitl [HY0]; · iapply (Entails.of_eq (pts_yV (F := F) d L _ fy)); iexact HY0
      isplitl [HY1]; · iapply (Entails.of_eq (pts_yV (F := F) d L _ fy)); iexact HY1
      isplitl [HY2]; · iapply (Entails.of_eq (pts_yV (F := F) d L _ fy)); iexact HY2
      isplitl [HY3]; · iapply (Entails.of_eq (pts_yV (F := F) d L _ fy)); iexact HY3
      iexact Hkeep
    isplitl [HI]
    · iexists fi
      isplitl [HI]; · iapply (Entails.of_eq (pts_slabK (F := F) d L fi)); iexact HI
      ipureintro; exact hfi
    iapply (out_join (F := F) d L); iexact HOut
  isplitl [HV HR0 HR1 HR2 HR3 Hbufs]
  · isplitl [HV]; · iexists gv; iapply (Entails.of_eq (pts_whole (F := F) d L cc3_scratch0 fullShare gv)); iexact HV
    isplitl [HR0]; · iexists g0; iapply (Entails.of_eq (pts_whole (F := F) d L cc3_scratch1 fullShare g0)); iexact HR0
    isplitl [HR1]; · iexists g1; iapply (Entails.of_eq (pts_whole (F := F) d L cc3_scratch2 fullShare g1)); iexact HR1
    isplitl [HR2]; · iexists g2; iapply (Entails.of_eq (pts_whole (F := F) d L cc3_scratch3 fullShare g2)); iexact HR2
    isplitl [HR3]; · iexists g3; iapply (Entails.of_eq (pts_whole (F := F) d L cc3_scratch4 fullShare g3)); iexact HR3
    iexact Hbufs
  isplitl [HG0 HG1 HG2 HG3 HW0 HW1 HW2 HW3 HS Hsems]
  · isplitl [HG0]; · iexact HG0
    isplitl [HG1]; · iexact HG1
    isplitl [HG2]; · iexact HG2
    isplitl [HG3]; · iexact HG3
    isplitl [HW0]; · iexact HW0
    isplitl [HW1]; · iexact HW1
    isplitl [HW2]; · iexact HW2
    isplitl [HW3]; · iexact HW3
    isplitl [HS]; · iexact HS
    iexact Hsems
  iexact HO

/-! ## The launch theorem's obligation for the second call's tiles -/

/-- The grid coordinates of tile s of core c. -/
def coordsV (c : Fin (grid3.bound 0)) (s : Fin (grid3.bound 1)) : grid3.Coords :=
  fun | 0 => c | 1 => s | ⟨_ + 2, h⟩ => absurd h (Nat.not_lt.2 (Nat.le_add_left _ _))

/-- The body table's row for the second call on a vector subcore. -/
theorem defs₀_vec3 (c : Fin τ.nSC) (s : Fin τ.nSub) :
    defs₀ (F := F) (.scVector c s) 3 ()
      = SparseCore.onTile hcore3 hsub3 (fun c s => cc3_gk (coordsV c s)
          yV (Memref.isWhole_whole _) ixV (Memref.isWhole_whole _) oV (Memref.isWhole_whole _)
          ivV (Memref.isWhole_whole _) r0V (Memref.isWhole_whole _) r1V (Memref.isWhole_whole _)
          r2V (Memref.isWhole_whole _) r3V (Memref.isWhole_whole _)
          cc3_scratch5 cc3_scratch6 cc3_scratch7 cc3_scratch8 cc3_scratch9 cc3_scratch10 cc3_scratch11 cc3_scratch12 cc3_scoped0) ⟨⟩ c s := rfl

omit [FloatOps F] in
/-- A post over the waits already recorded or at no index is one over those or at the call's index. -/
theorem post_weaken {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The second call's share of tile i of core c is the share of the worker the tile's coordinates name. -/
theorem go_eq1 (d : Dev nD) (c : Fin ((K (F := F)).nCore 1)) (i : Fin ((K (F := F)).nSub 1))
    (h0 : ((K (F := F)).core 1 c).val < grid3.bound 0) (h1 : ((K (F := F)).sub 1 i).val < grid3.bound 1) :
    (P (F := F)).go 1 d c i = share1 (F := F) d (widL (coordsV ⟨((K (F := F)).core 1 c).val, h0⟩ ⟨((K (F := F)).sub 1 i).val, h1⟩)) := by
  show share1 (F := F) d (wid (Fin.cast (nCore_eq 1) c) (Fin.cast (nSub_eq 1) i)) = _
  congr 1

theorem td_eq1 (d : Dev nD) (c : Fin ((K (F := F)).nCore 1)) (i : Fin ((K (F := F)).nSub 1))
    (h0 : ((K (F := F)).core 1 c).val < grid3.bound 0) (h1 : ((K (F := F)).sub 1 i).val < grid3.bound 1) :
    (P (F := F)).td 1 d c i = share1 (F := F) d (widL (coordsV ⟨((K (F := F)).core 1 c).val, h0⟩ ⟨((K (F := F)).sub 1 i).val, h1⟩)) :=
  go_eq1 d c i h0 h1

set_option maxRecDepth 16384 in
/-- Every tile of the second call runs its body from its worker's share to its worker's share. -/
theorem tileObl1 (hF : (K (F := F)).Facts) : (K (F := F)).TileObl (D (F := F)) 𝒱₀.lift (P (F := F)) (Sum.inl none) 1 := by
  intro d c i O W hO _ _
  simp only [show (P (F := F)).ox = fun _ _ => 0 from rfl, add_zero]
  have hci : ((K (F := F)).core 1 c).val < grid3.bound 0 ∧ ((K (F := F)).sub 1 i).val < grid3.bound 1 := ⟨c.isLt, i.isLt⟩
  rw [go_eq1 d c i hci.1 hci.2, td_eq1 d c i hci.1 hci.2]
  change _ ⊢ wp _ _ _ (Pipeline.liftProg (defs₀ (F := F) (.scVector ((K (F := F)).core 1 c) ((K (F := F)).sub 1 i)) 3 ())) _
  refine BIBase.Entails.trans ?_ (Pipeline.wp_liftProg (D (F := F)) (Pipeline.defs_kernel pcfgs defs₀) 𝒱₀ _ Set.univ none _ _)
  rw [defs₀_vec3]; simp only [SparseCore.onTile, hci, and_self, ↓reduceDIte]
  refine BIBase.Entails.trans ?_ ((gk_body hF d (coordsV ⟨_, hci.1⟩ ⟨_, hci.2⟩) O W hO).trans (wp_mono frame _ _ fun _ => post_weaken))
  iintro ⟨Hlv, -, Hgo, Hb, Hs, HO⟩
  isplitl [Hlv]; · iexact Hlv
  isplitl [Hgo]; · iexact Hgo
  isplitl [Hb]; · iexact Hb
  isplitl [Hs]; · iexact Hs
  iexact HO

end Cert.KernelIdeal.Sc.Gather1

end
-- ==== Proof.GatherBody5.lean ====
/-
  The body of the sparse-core gather kernel of the third call, once, at a symbolic tile, for any float instance.

  Tile (c, s) is worker w = 2·s + c of 32. It copies slab w of the index array (32 lists of 128 row numbers) into its
  local index buffer, waits for the copy, and issues four indexed copies: rows idx[b][·] of y into row buffer b, on
  gather semaphore b (b = 0..3). Then eight trips; in trip g, for each slot b with j = 4g + b: wait for gather b (row
  buffer b holds the 128 rows list j names); copy row buffer b to output rows (32w + j)·128 … + 127 on write semaphore
  b; wait for it; and, when j + 4 < 32, issue the indexed copy of list j + 4 into row buffer b. One copy is outstanding
  per semaphore at any time, and nothing touches a copy's source or destination between its issue and its wait.
-/
import proofs.«215235_g2774548873965_cont_9to1_572_34_alg».proof.Proof.ScPay
import Idealize.ShloMosaic.Lib.SparseCore.Launch
import Idealize.ShloMosaic.Lib.SparseCore.Ops
import Idealize.ShloMosaic.Lib.SparseCore.Stream
import Idealize.ShloMosaic.Lib.Transfers
import Idealize.ShloMosaic.Lib.Pipeline.Kit
import Idealize.ShloMosaic.Lib.Tactic
import proofs.«215235_g2774548873965_cont_9to1_572_34_alg».proof.Proof.Gen.KernelIdeal.Skeleton

noncomputable section

namespace Cert.KernelIdeal.Sc.Gather2

open Cert.KernelIdeal
open Cert.KernelIdeal.Facts₀ Cert.KernelIdeal.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

/-! ## The tile and the buffers, as the program names them -/

abbrev cV (L : grid5.Coords) : Fin τ.nSC := (L 0).castLE hcore5
abbrev jV (L : grid5.Coords) : Fin τ.nSub := (L 1).castLE hsub5
abbrev thrV (d : Dev nD) (L : grid5.Coords) : Thread nD τ := V d (cV L) (jV L)

local notation "yV" => (Memref.whole Cert.KernelIdeal.main_v1_scv : Memref Cert.KernelIdeal.sig Kind.scVector Space.hbm Cert.KernelIdeal.S8192x128 EltTy.f32)
local notation "ixV" => (Memref.whole Cert.KernelIdeal.main_v27_scv : Memref Cert.KernelIdeal.sig Kind.scVector Space.hbm Cert.KernelIdeal.S32x32x128 EltTy.i32)
local notation "oV" => (Memref.whole Cert.KernelIdeal.main_v28_scv : Memref Cert.KernelIdeal.sig Kind.scVector Space.hbm Cert.KernelIdeal.S131072x128 EltTy.f32)
local notation "ivV" => (Memref.whole Cert.KernelIdeal.cc5_scratch0 : Memref Cert.KernelIdeal.sig Kind.scVector Space.vmem Cert.KernelIdeal.S32x128 EltTy.i32)
local notation "r0V" => (Memref.whole Cert.KernelIdeal.cc5_scratch1 : Memref Cert.KernelIdeal.sig Kind.scVector Space.vmem Cert.KernelIdeal.S128x128 EltTy.f32)
local notation "r1V" => (Memref.whole Cert.KernelIdeal.cc5_scratch2 : Memref Cert.KernelIdeal.sig Kind.scVector Space.vmem Cert.KernelIdeal.S128x128 EltTy.f32)
local notation "r2V" => (Memref.whole Cert.KernelIdeal.cc5_scratch3 : Memref Cert.KernelIdeal.sig Kind.scVector Space.vmem Cert.KernelIdeal.S128x128 EltTy.f32)
local notation "r3V" => (Memref.whole Cert.KernelIdeal.cc5_scratch4 : Memref Cert.KernelIdeal.sig Kind.scVector Space.vmem Cert.KernelIdeal.S128x128 EltTy.f32)

/-- The tile's slab of the index array, squeezed to its [32, 128] plane, as the program slices it. -/
abbrev slabK (L : grid5.Coords) : Memref sig .scVector .hbm S32x128 .i32 :=
  ((ixV).slice (Rect.unit (s := S32x32x128) (k5_off1 L) S1x32x128.size (k5_off1_inb L)) (fun _ => rfl)).squeeze S32x128 squeezes_S1x32x128_S32x128

/-- Output chunk 4t + b of the tile, as the program slices it (one abbreviation per slot: the slot is a literal word). -/
abbrev outK0 (L : grid5.Coords) (t : Fin k5_t1_loop.trips) : Memref sig .scVector .hbm S128x128 .f32 :=
  (oV).slice (Rect.unit (s := S131072x128) (k5_off3 L t 0#32) S128x128.size (k5_off3_inb L t 0)) (fun _ => rfl)
abbrev outK1 (L : grid5.Coords) (t : Fin k5_t1_loop.trips) : Memref sig .scVector .hbm S128x128 .f32 :=
  (oV).slice (Rect.unit (s := S131072x128) (k5_off3 L t 1#32) S128x128.size (k5_off3_inb L t 1)) (fun _ => rfl)
abbrev outK2 (L : grid5.Coords) (t : Fin k5_t1_loop.trips) : Memref sig .scVector .hbm S128x128 .f32 :=
  (oV).slice (Rect.unit (s := S131072x128) (k5_off3 L t 2#32) S128x128.size (k5_off3_inb L t 2)) (fun _ => rfl)
abbrev outK3 (L : grid5.Coords) (t : Fin k5_t1_loop.trips) : Memref sig .scVector .hbm S128x128 .f32 :=
  (oV).slice (Rect.unit (s := S131072x128) (k5_off3 L t 3#32) S128x128.size (k5_off3_inb L t 3)) (fun _ => rfl)

/-- List `off 0` of the local index buffer, as the program slices it. -/
abbrev idxRowAt (off : Fin 2 → ℕ) (hk : ∀ a, off a + S1x128.size a ≤ S32x128.size a) : Memref sig .scVector .vmem S128 .i32 :=
  ((ivV).slice (Rect.unit (s := S32x128) off S1x128.size hk) (fun _ => rfl)).squeeze S128 squeezes_S1x128_S128

/-- All of y, as the program slices it for a gather. -/
local notation "yAllK" => (Memref.slice (Memref.whole Cert.KernelIdeal.main_v1_scv : Memref Cert.KernelIdeal.sig Kind.scVector Space.hbm Cert.KernelIdeal.S8192x128 EltTy.f32) (Rect.unit (s := Cert.KernelIdeal.S8192x128) ![0, 0] Cert.KernelIdeal.S8192x128.size Cert.KernelIdeal.Facts₀.inb_S8192x128_S8192x128_0_0) (fun _ => rfl))

variable [FloatOps F]

abbrev 𝒱₀ : Variants := Variants.none

/-- A buffer the tile holds whole, by its own elements. -/
abbrev heldW {sp : Space} {s : Shape} {e : EltTy} (d : Dev nD) (L : grid5.Coords) (M : Memref sig .scVector sp s e) (q : PosShare TreeShare)
    (f : Buf (Elt F) (M.view.loc (thrV d L))) : sProp 𝕄 :=
  M.view.loc (thrV d L) ↦[M.view.set]{q} f

abbrev cellZ (d : Dev nD) (L : grid5.Coords) (a : DmaSems sig S_) : sProp 𝕄 := semVal ((thrV d L, SemLoc.dma a.sem) : GSem nD τ sig) 0

/-! ## The local index buffer as its 32 lists -/

omit [FloatOps F] in
theorem row_inb (j : Fin 32) : ∀ a, (![j.val, 0] : Fin 2 → ℕ) a + S1x128.size a ≤ S32x128.size a := by
  intro a
  match a with
  | 0 => have := j.isLt; show j.val + 1 ≤ 32; omega
  | 1 => show 0 + 128 ≤ 128; omega

/-- List j of the local index buffer. -/
abbrev idxRow (j : Fin 32) : Memref sig .scVector .vmem S128 .i32 := idxRowAt ![j.val, 0] (row_inb j)

/-- Two unit-stride rectangles at equal offsets and sizes are one. -/
theorem Rect.unit_congr {s : Shape} {off off' size size' : Fin s.rank → ℕ} (h1 : off = off') (h2 : size = size') (hk) (hk') :
    Rect.unit (s := s) off size hk = Rect.unit (s := s) off' size' hk' := by
  subst h1 h2; rfl

omit [FloatOps F] in
/-- The same list at another spelling of its offsets. -/
theorem idxRowAt_congr {off off' : Fin 2 → ℕ} (h : off = off') (hk) (hk') : idxRowAt off hk = idxRowAt off' hk' := by
  subst h; rfl

omit [FloatOps F] in
theorem set_idxRow (j : Fin 32) : (idxRow j).view.set = ((ivV).view.slice (S32x128.rowRect 0 j)).set := by
  show ((((ivV).view.slice (Rect.unit (s := S32x128) ![j.val, 0] S1x128.size (row_inb j)))).reshape S128 squeezes_S1x128_S128.numel_eq).set = _
  rw [View.set_reshape, View.set_slice, View.set_slice]
  refine congrArg (fun r : Rect S32x128 => r.set.map (ivV).view.emb) (Rect.unit_congr ?_ ?_ _ _)
  · funext a; match a with
    | 0 => rfl
    | 1 => rfl
  · funext a; match a with
    | 0 => rfl
    | 1 => rfl

/-- A list of the local index buffer, held whole by the tile. -/
abbrev rowPts (d : Dev nD) (L : grid5.Coords) (j : Fin 32) (f : Buf (Elt F) ((ivV).view.loc (thrV d L))) : sProp 𝕄 :=
  (idxRow j).view.loc (thrV d L) ↦[(idxRow j).view.set]{fullShare} f

omit [FloatOps F] in
/-- The local index buffer held whole is its 32 lists held each. -/
theorem iv_rows (d : Dev nD) (L : grid5.Coords) (f : Buf (Elt F) ((ivV).view.loc (thrV d L))) :
    ((ivV).view.loc (thrV d L) ↦[(ivV).view.set]{fullShare} f : sProp 𝕄) = bigSep Finset.univ fun j : Fin 32 => rowPts d L j f := by
  rw [pointsTo_rows (thrV d L) (ivV).view 0 fullShare f]
  refine bigSep_congr fun (j : Fin 32) _ => ?_
  show _ = ((idxRow j).view.loc (thrV d L) ↦[(idxRow j).view.set]{fullShare} f : sProp 𝕄)
  rw [set_idxRow]

/-! ## The lists' words are row numbers of y -/

omit [FloatOps F] in
/-- Whatever the local index buffer held before, once the slab has landed in it whole every word of every list is
    a word of the slab. -/
theorem hin_rows (d : Dev nD) (L : grid5.Coords) (fi : Buf (Elt F) ((slabK L).view.loc (thrV d L)))
    (hin : ∀ x, ((slabK L).view.read (Elt F) fi x).toNat < 8192)
    (g : Buf (Elt F) ((ivV).view.loc (thrV d L))) (pay : S32x128.Idx → Elt F .i32) (hpay : pay = (slabK L).view.read (Elt F) fi)
    (off : Fin 2 → ℕ) (hk : ∀ a, off a + S1x128.size a ≤ S32x128.size a) :
    ∀ x, (View.read (Elt F) (idxRowAt off hk).view
      ((ivV).view.writes (Elt F) g [⟨Rect.whole cc5_scratch0.ty.shape, pay⟩]) x).toNat < 8192 := by
  subst hpay; intro x
  have e : View.read (Elt F) (idxRowAt off hk).view ((ivV).view.writes (Elt F) g [⟨Rect.whole cc5_scratch0.ty.shape, (slabK L).view.read (Elt F) fi⟩]) x
      = View.read (Elt F) (ivV).view ((ivV).view.writes (Elt F) g [⟨Rect.whole cc5_scratch0.ty.shape, (slabK L).view.read (Elt F) fi⟩])
          ((Rect.unit (s := S32x128) off S1x128.size hk).emb ((Shape.reshapeEquiv squeezes_S1x128_S128.numel_eq) x)) := by
    rw [View.read_apply, View.read_apply]; rfl
  rw [e, View.read_writes_whole]
  exact hin _

omit [FloatOps F] in
/-- A list held, at another spelling of its offsets. -/
theorem rowPts_at (d : Dev nD) (L : grid5.Coords) (j : Fin 32) (off : Fin 2 → ℕ) (hk : ∀ a, off a + S1x128.size a ≤ S32x128.size a)
    (h : off = ![j.val, 0]) (f : Buf (Elt F) ((ivV).view.loc (thrV d L))) :
    rowPts d L j f = ((idxRowAt off hk).view.loc (thrV d L) ↦[(idxRowAt off hk).view.set]{fullShare} f : sProp 𝕄) := by
  subst h; rfl

/-! ## The loop's conditions, by trip -/

omit [FloatOps F] in
/-- In every trip but the last each slot issues its next gather; in the last none does. -/
theorem conds : ∀ k : Fin k5_t1_loop.trips,
    (k5_cond1 k = 1#1 ↔ k.val < 7) ∧ (k5_cond2 k = 1#1 ↔ ¬ k.val < 7) ∧ (k5_cond3 k = 1#1 ↔ k.val < 7) ∧ (k5_cond4 k = 1#1 ↔ ¬ k.val < 7)
    ∧ (k5_cond5 k = 1#1 ↔ k.val < 7) ∧ (k5_cond6 k = 1#1 ↔ ¬ k.val < 7) ∧ (k5_cond7 k = 1#1 ↔ k.val < 7) ∧ (k5_cond8 k = 1#1 ↔ ¬ k.val < 7) := by
  decide +kernel

/-! ## What the loop holds before trip k -/

omit [FloatOps F] in
theorem rowsInb (n : ℕ) (h : n < 32) : ∀ a, (![n, 0] : Fin 2 → ℕ) a + S1x128.size a ≤ S32x128.size a := by
  intro a
  match a with
  | 0 => show n + 1 ≤ 32; omega
  | 1 => show 0 + 128 ≤ 128; omega

/-- The lists no gather holds before trip k: all but lists 4k … 4k + 3. -/
def idle (k : ℕ) : Finset (Fin 32) := Finset.univ.filter fun j => j.val < 4 * k ∨ 4 * k + 4 ≤ j.val

/-- The tile's four output chunks of trip t, at some contents. -/
abbrev outTrip (d : Dev nD) (L : grid5.Coords) (t : Fin k5_t1_loop.trips) : sProp 𝕄 :=
  iprop((∃ f, heldW d L (outK0 L t) fullShare f) ∗ (∃ f, heldW d L (outK1 L t) fullShare f)
    ∗ (∃ f, heldW d L (outK2 L t) fullShare f) ∗ (∃ f, heldW d L (outK3 L t) fullShare f))

/-- A gather in flight on a slot: it will hand back the slot's row buffer written, the list it reads, and the share
    of y it reads. -/
abbrev gFlight (d : Dev nD) (L : grid5.Coords) (q : PosShare TreeShare) (sem : DmaSems sig S_) (n : ℕ)
    (rV : Memref sig .scVector .vmem S128x128 .f32) (off : Fin 2 → ℕ) (hk : ∀ a, off a + S1x128.size a ≤ S32x128.size a)
    (fr : Buf (Elt F) (rV.view.loc (thrV d L))) (fvc : Buf (Elt F) ((ivV).view.loc (thrV d L)))
    (fy : Buf (Elt F) ((yV).view.loc (thrV d L))) : sProp 𝕄 :=
  Transfers.Flight countersEmb (thrV d L) (SemLoc.dma sem.sem) (default : HIx 4) 524288
    iprop(((rV.view.loc (thrV d L) ↦[rV.view.set]{fullShare} fr)
        ∗ ((idxRowAt off hk).view.loc (thrV d L) ↦[(idxRowAt off hk).view.set]{fullShare} fvc))
      ∗ ((yV).view.loc (thrV d L) ↦[(yAllK).view.set]{Transfers.shareTokN q n} fy))

/-- What a gather leaves with the tile of the share of y it reads: nothing of y's elements. -/
abbrev yRest (d : Dev nD) (L : grid5.Coords) (q : PosShare TreeShare) (n : ℕ) (fy : Buf (Elt F) ((yV).view.loc (thrV d L))) : sProp 𝕄 :=
  (yV).view.loc (thrV d L) ↦[(yV).view.set \ (yAllK).view.set]{Transfers.shareTokN q n} fy

/-- Before trip k < 8: the four gathers of lists 4k … 4k + 3 in flight, every other list idle, the write semaphores at
    zero, the 32 output chunks at some contents. -/
def invA (d : Dev nD) (L : grid5.Coords) (q : PosShare TreeShare) (O : CellTallies nD τ sig (HIx 4)) (W : Waits sig (HIx 4))
    (fy : Buf (Elt F) ((yV).view.loc (thrV d L))) (fvc : Buf (Elt F) ((ivV).view.loc (thrV d L))) (k : ℕ) (hk8 : k < 8) : sProp 𝕄 :=
  iprop(Transfers.MayWaits (thrV d L) (default : HIx 4) O
    ∗ (∃ W', ⌜∀ p ∈ W', p ∈ W ∨ p.2 = none⌝ ∗ owes (thrV d L) O W')
    ∗ (cellZ d L cc5_scratch9 ∗ cellZ d L cc5_scratch10 ∗ cellZ d L cc5_scratch11 ∗ cellZ d L cc5_scratch12)
    ∗ bigSep Finset.univ (outTrip d L)
    ∗ bigSep (idle k) (fun j => rowPts d L j fvc)
    ∗ ((∃ fr, gFlight d L q cc5_scratch5 47 r0V ![4 * k + 0, 0] (rowsInb _ (by omega)) fr fvc fy) ∗ yRest d L q 47 fy)
    ∗ ((∃ fr, gFlight d L q cc5_scratch6 48 r1V ![4 * k + 1, 0] (rowsInb _ (by omega)) fr fvc fy) ∗ yRest d L q 48 fy)
    ∗ ((∃ fr, gFlight d L q cc5_scratch7 49 r2V ![4 * k + 2, 0] (rowsInb _ (by omega)) fr fvc fy) ∗ yRest d L q 49 fy)
    ∗ ((∃ fr, gFlight d L q cc5_scratch8 50 r3V ![4 * k + 3, 0] (rowsInb _ (by omega)) fr fvc fy) ∗ yRest d L q 50 fy))

omit [FloatOps F] in
theorem mem_idle_next (k : ℕ) (hk : k < 7) (b : ℕ) (hb : b < 4) : (⟨4 * k + 4 + b, by omega⟩ : Fin 32) ∈ idle k :=
  Finset.mem_filter.mpr ⟨Finset.mem_univ _, Or.inr (by show 4 * k + 4 ≤ 4 * k + 4 + b; omega)⟩

omit [FloatOps F] in
/-- The same gather at another spelling of its list's offsets. -/
theorem gFlight_off (d : Dev nD) (L : grid5.Coords) (q : PosShare TreeShare) (sem : DmaSems sig S_) (n : ℕ)
    (rV : Memref sig .scVector .vmem S128x128 .f32) {off off' : Fin 2 → ℕ} (h : off = off') (hk) (hk')
    (fr : Buf (Elt F) (rV.view.loc (thrV d L))) (fvc : Buf (Elt F) ((ivV).view.loc (thrV d L)))
    (fy : Buf (Elt F) ((yV).view.loc (thrV d L))) :
    gFlight d L q sem n rV off hk fr fvc fy = gFlight d L q sem n rV off' hk' fr fvc fy := by
  subst h; rfl

omit [FloatOps F] in
/-- A wait recorded at the default index keeps the waits among the earlier ones and those at no index. -/
theorem waits_ins {W W' : Waits sig (HIx 4)} (h : ∀ p ∈ W', p ∈ W ∨ p.2 = none) (s : SemLoc sig) :
    ∀ p ∈ insert (s, (default : HIx 4)) W', p ∈ W ∨ p.2 = none := by
  intro p hp
  rcases Finset.mem_insert.mp hp with hp | hp
  · exact .inr (hp ▸ rfl)
  · exact h p hp

omit [FloatOps F] in
/-- After trip k < 7 the idle lists are: those idle before but the four just lent, and the four just handed back. -/
theorem idle_step (k : ℕ) (hk : k < 7) (Φ : Fin 32 → sProp 𝕄)
    (h0 : 4 * k + 0 < 32) (h1 : 4 * k + 1 < 32) (h2 : 4 * k + 2 < 32) (h3 : 4 * k + 3 < 32)
    (h4 : 4 * k + 4 + 0 < 32) (h5 : 4 * k + 4 + 1 < 32) (h6 : 4 * k + 4 + 2 < 32) (h7 : 4 * k + 4 + 3 < 32) :
    iprop(bigSep (((((idle k).erase ⟨4 * k + 4 + 0, h4⟩).erase ⟨4 * k + 4 + 1, h5⟩).erase ⟨4 * k + 4 + 2, h6⟩).erase ⟨4 * k + 4 + 3, h7⟩) Φ
        ∗ Φ ⟨4 * k + 0, h0⟩ ∗ Φ ⟨4 * k + 1, h1⟩ ∗ Φ ⟨4 * k + 2, h2⟩ ∗ Φ ⟨4 * k + 3, h3⟩)
      ⊢ bigSep (idle (k + 1)) Φ := by
  have e : ((((idle (k + 1)).erase (⟨4 * k + 0, h0⟩ : Fin 32)).erase ⟨4 * k + 1, h1⟩).erase ⟨4 * k + 2, h2⟩).erase ⟨4 * k + 3, h3⟩
      = ((((idle k).erase (⟨4 * k + 4 + 0, h4⟩ : Fin 32)).erase ⟨4 * k + 4 + 1, h5⟩).erase ⟨4 * k + 4 + 2, h6⟩).erase ⟨4 * k + 4 + 3, h7⟩ := by
    ext j
    simp only [idle, Finset.mem_erase, Finset.mem_filter, Finset.mem_univ, true_and, ne_eq, Fin.ext_iff]
    omega
  have m0 : (⟨4 * k + 0, h0⟩ : Fin 32) ∈ idle (k + 1) := Finset.mem_filter.mpr ⟨Finset.mem_univ _, Or.inl (show 4 * k + 0 < 4 * (k + 1) by omega)⟩
  have m1 : (⟨4 * k + 1, h1⟩ : Fin 32) ∈ idle (k + 1) := Finset.mem_filter.mpr ⟨Finset.mem_univ _, Or.inl (show 4 * k + 1 < 4 * (k + 1) by omega)⟩
  have m2 : (⟨4 * k + 2, h2⟩ : Fin 32) ∈ idle (k + 1) := Finset.mem_filter.mpr ⟨Finset.mem_univ _, Or.inl (show 4 * k + 2 < 4 * (k + 1) by omega)⟩
  have m3 : (⟨4 * k + 3, h3⟩ : Fin 32) ∈ idle (k + 1) := Finset.mem_filter.mpr ⟨Finset.mem_univ _, Or.inl (show 4 * k + 3 < 4 * (k + 1) by omega)⟩
  rw [SparseCore.bigSep_erase' m0,
    SparseCore.bigSep_erase' (Finset.mem_erase.mpr ⟨by simp [Fin.ext_iff], m1⟩),
    SparseCore.bigSep_erase' (Finset.mem_erase.mpr ⟨by simp [Fin.ext_iff], Finset.mem_erase.mpr ⟨by simp [Fin.ext_iff], m2⟩⟩),
    SparseCore.bigSep_erase' (Finset.mem_erase.mpr ⟨by simp [Fin.ext_iff], Finset.mem_erase.mpr ⟨by simp [Fin.ext_iff], Finset.mem_erase.mpr ⟨by simp [Fin.ext_iff], m3⟩⟩⟩), e]
  iintro ⟨H, H0, H1, H2, H3⟩
  isplitl [H0]; · iexact H0
  isplitl [H1]; · iexact H1
  isplitl [H2]; · iexact H2
  isplitl [H3]; · iexact H3
  iexact H

set_option maxHeartbeats 4000000 in
theorem gk_tripA (d : Dev nD) (L : grid5.Coords) (q : PosShare TreeShare) (O : CellTallies nD τ sig (HIx 4)) (W : Waits sig (HIx 4))
    (fy : Buf (Elt F) ((yV).view.loc (thrV d L))) (fvc : Buf (Elt F) ((ivV).view.loc (thrV d L)))
    (hrowc : ∀ (off : Fin 2 → ℕ) (hk : ∀ a, off a + S1x128.size a ≤ S32x128.size a) (x : S128.Idx),
      (View.read (Elt F) (idxRowAt off hk).view fvc x).toNat < 8192)
    (v1 c0 c1 : BitVec 32) (k : Fin k5_t1_loop.trips) (hk : k.val < 7) (acc : Unit) :
    invA d L q O W fy fvc k.val (by omega)
      ⊢ wp frame (wpE (defs₀ (F := F)) 𝒱₀ (thrV d L) none) Set.univ
          (Gen.k5_t1_body L yV (Memref.isWhole_whole _) ixV (Memref.isWhole_whole _) oV (Memref.isWhole_whole _)
            ivV (Memref.isWhole_whole _) r0V (Memref.isWhole_whole _) r1V (Memref.isWhole_whole _)
            r2V (Memref.isWhole_whole _) r3V (Memref.isWhole_whole _)
            cc5_scratch5 cc5_scratch6 cc5_scratch7 cc5_scratch8 cc5_scratch9 cc5_scratch10 cc5_scratch11 cc5_scratch12 cc5_scoped0
            v1 c0 c1 k acc)
          fun _ => invA d L q O W fy fvc (k.val + 1) (by omega) := by
  obtain ⟨c1', c2', c3', c4', c5', c6', c7', c8'⟩ := conds k
  have hc1 : k5_cond1 k = 1#1 := c1'.mpr hk
  have hc2 : ¬ k5_cond2 k = 1#1 := fun h => (c2'.mp h) hk
  have hc3 : k5_cond3 k = 1#1 := c3'.mpr hk
  have hc4 : ¬ k5_cond4 k = 1#1 := fun h => (c4'.mp h) hk
  have hc5 : k5_cond5 k = 1#1 := c5'.mpr hk
  have hc6 : ¬ k5_cond6 k = 1#1 := fun h => (c6'.mp h) hk
  have hc7 : k5_cond7 k = 1#1 := c7'.mpr hk
  have hc8 : ¬ k5_cond8 k = 1#1 := fun h => (c8'.mp h) hk
  unfold invA gFlight yRest
  iintro ⟨#Hmw, ⟨%W', %hW', HO⟩, ⟨HW0, HW1, HW2, HW3⟩, Hout, Hrows, ⟨⟨%fr0, HG0⟩, HY0⟩, ⟨⟨%fr1, HG1⟩, HY1⟩, ⟨⟨%fr2, HG2⟩, HY2⟩, ⟨⟨%fr3, HG3⟩, HY3⟩⟩
  -- the four output chunks of this trip
  ihave Hx := (Entails.of_eq (SparseCore.bigSep_erase' (i := k) (Finset.mem_univ _))) $$ Hout
  icases Hx with ⟨⟨⟨%fo0, HO0⟩, ⟨%fo1, HO1⟩, ⟨%fo2, HO2⟩, ⟨%fo3, HO3⟩⟩, Hout⟩
  -- the four lists the trip's gathers will read
  ihave Hx := (Entails.of_eq (SparseCore.bigSep_erase' (i := (⟨4 * k.val + 4 + 0, by omega⟩ : Fin 32)) (mem_idle_next k.val hk 0 (by omega)))) $$ Hrows
  icases Hx with ⟨Hl0, Hrows⟩
  ihave Hx := (Entails.of_eq (SparseCore.bigSep_erase' (i := (⟨4 * k.val + 4 + 1, by omega⟩ : Fin 32))
    (Finset.mem_erase.mpr ⟨by simp [Fin.ext_iff], mem_idle_next k.val hk 1 (by omega)⟩))) $$ Hrows
  icases Hx with ⟨Hl1, Hrows⟩
  ihave Hx := (Entails.of_eq (SparseCore.bigSep_erase' (i := (⟨4 * k.val + 4 + 2, by omega⟩ : Fin 32))
    (Finset.mem_erase.mpr ⟨by simp [Fin.ext_iff], Finset.mem_erase.mpr ⟨by simp [Fin.ext_iff], mem_idle_next k.val hk 2 (by omega)⟩⟩))) $$ Hrows
  icases Hx with ⟨Hl2, Hrows⟩
  ihave Hx := (Entails.of_eq (SparseCore.bigSep_erase' (i := (⟨4 * k.val + 4 + 3, by omega⟩ : Fin 32))
    (Finset.mem_erase.mpr ⟨by simp [Fin.ext_iff], Finset.mem_erase.mpr ⟨by simp [Fin.ext_iff], Finset.mem_erase.mpr ⟨by simp [Fin.ext_iff], mem_idle_next k.val hk 3 (by omega)⟩⟩⟩))) $$ Hrows
  icases Hx with ⟨Hl3, Hrows⟩
  ihave Hl0' := (Entails.of_eq (rowPts_at (F := F) d L _ (k5_off5 k) (k5_off5_inb k hc1) (Gen.k5_off5_eq k) _)) $$ Hl0
  ihave Hl1' := (Entails.of_eq (rowPts_at (F := F) d L _ (k5_off8 k) (k5_off8_inb k hc3) (Gen.k5_off8_eq k) _)) $$ Hl1
  ihave Hl2' := (Entails.of_eq (rowPts_at (F := F) d L _ (k5_off11 k) (k5_off11_inb k hc5) (Gen.k5_off11_eq k) _)) $$ Hl2
  ihave Hl3' := (Entails.of_eq (rowPts_at (F := F) d L _ (k5_off14 k) (k5_off14_inb k hc7) (Gen.k5_off14_eq k) _)) $$ Hl3
  sl_unfold [Gen.k5_t1_body]
  sl_exec (disch := first | sl_exact hc1 | sl_exact hc2 | sl_exact hc3 | sl_exact hc4 | sl_exact hc5 | sl_exact hc6 | sl_exact hc7 | sl_exact hc8)
  sl_step
  isplitr; · iexact Hmw
  isplitl [HO]
  · iexists _; isplitr
    swap; · iexact HO
    ipureintro
    exact waits_ins (waits_ins (waits_ins (waits_ins (waits_ins (waits_ins (waits_ins (waits_ins hW' _) _) _) _) _) _) _) _
  isplitl [HW0 HW1 HW2 HW3]
  · isplitl [HW0]; · iexact HW0
    isplitl [HW1]; · iexact HW1
    isplitl [HW2]; · iexact HW2
    iexact HW3
  isplitl [Hout HO0 HO1 HO2 HO3]
  · iapply (Entails.of_eq (SparseCore.bigSep_erase' (i := k) (Finset.mem_univ _)).symm)
    isplitl [HO0 HO1 HO2 HO3]
    · isplitl [HO0]; · iexists _; iexact HO0
      isplitl [HO1]; · iexists _; iexact HO1
      isplitl [HO2]; · iexists _; iexact HO2
      iexists _; iexact HO3
    iexact Hout
  isplitl [Hrows HG0_dst_and HG1_dst_and HG2_dst_and HG3_dst_and]
  · iapply (idle_step (F := F) k.val hk (fun j => rowPts d L j fvc) (by omega) (by omega) (by omega) (by omega) (by omega) (by omega) (by omega) (by omega))
    isplitl [Hrows]; · iexact Hrows
    isplitl [HG0_dst_and]; · iexact HG0_dst_and
    isplitl [HG1_dst_and]; · iexact HG1_dst_and
    isplitl [HG2_dst_and]; · iexact HG2_dst_and
    iexact HG3_dst_and
  isplitl [HG0 HY0]
  · isplitl [HG0]
    · iexists _
      iapply (Entails.of_eq (gFlight_off (F := F) d L q cc5_scratch5 47 r0V ((Gen.k5_off5_eq k).trans (by rw [show 4 * (k.val + 1) + 0 = 4 * k.val + 4 by omega])) (k5_off5_inb k hc1) _ _ fvc fy))
      iexact HG0
    iexact HY0
  isplitl [HG1 HY1]
  · isplitl [HG1]
    · iexists _
      iapply (Entails.of_eq (gFlight_off (F := F) d L q cc5_scratch6 48 r1V ((Gen.k5_off8_eq k).trans (by rw [show 4 * (k.val + 1) + 1 = 4 * k.val + 5 by omega])) (k5_off8_inb k hc3) _ _ fvc fy))
      iexact HG1
    iexact HY1
  isplitl [HG2 HY2]
  · isplitl [HG2]
    · iexists _
      iapply (Entails.of_eq (gFlight_off (F := F) d L q cc5_scratch7 49 r2V ((Gen.k5_off11_eq k).trans (by rw [show 4 * (k.val + 1) + 2 = 4 * k.val + 6 by omega])) (k5_off11_inb k hc5) _ _ fvc fy))
      iexact HG2
    iexact HY2
  isplitl [HG3]
  · iexists _
    iapply (Entails.of_eq (gFlight_off (F := F) d L q cc5_scratch8 50 r3V ((Gen.k5_off14_eq k).trans (by rw [show 4 * (k.val + 1) + 3 = 4 * k.val + 7 by omega])) (k5_off14_inb k hc7) _ _ fvc fy))
    iexact HG3
  iexact HY3

omit [FloatOps F] in
/-- After the last trip every list is idle. -/
theorem idle_last (k : ℕ) (hk : k = 7) (Φ : Fin 32 → sProp 𝕄)
    (h0 : 4 * k + 0 < 32) (h1 : 4 * k + 1 < 32) (h2 : 4 * k + 2 < 32) (h3 : 4 * k + 3 < 32) :
    iprop(bigSep (idle k) Φ ∗ Φ ⟨4 * k + 0, h0⟩ ∗ Φ ⟨4 * k + 1, h1⟩ ∗ Φ ⟨4 * k + 2, h2⟩ ∗ Φ ⟨4 * k + 3, h3⟩)
      ⊢ bigSep Finset.univ Φ := by
  subst hk
  have e : ((((Finset.univ : Finset (Fin 32)).erase (⟨4 * 7 + 0, h0⟩ : Fin 32)).erase ⟨4 * 7 + 1, h1⟩).erase ⟨4 * 7 + 2, h2⟩).erase ⟨4 * 7 + 3, h3⟩ = idle 7 := by
    ext j
    simp only [idle, Finset.mem_erase, Finset.mem_filter, Finset.mem_univ, true_and, and_true, ne_eq, Fin.ext_iff]
    omega
  rw [SparseCore.bigSep_erase' (Finset.mem_univ (⟨4 * 7 + 0, h0⟩ : Fin 32)),
    SparseCore.bigSep_erase' (i := (⟨4 * 7 + 1, h1⟩ : Fin 32)) (Finset.mem_erase.mpr ⟨by simp [Fin.ext_iff], Finset.mem_univ _⟩),
    SparseCore.bigSep_erase' (i := (⟨4 * 7 + 2, h2⟩ : Fin 32)) (Finset.mem_erase.mpr ⟨by simp [Fin.ext_iff], Finset.mem_erase.mpr ⟨by simp [Fin.ext_iff], Finset.mem_univ _⟩⟩),
    SparseCore.bigSep_erase' (i := (⟨4 * 7 + 3, h3⟩ : Fin 32)) (Finset.mem_erase.mpr ⟨by simp [Fin.ext_iff], Finset.mem_erase.mpr ⟨by simp [Fin.ext_iff], Finset.mem_erase.mpr ⟨by simp [Fin.ext_iff], Finset.mem_univ _⟩⟩⟩), e]
  iintro ⟨H, H0, H1, H2, H3⟩
  isplitl [H0]; · iexact H0
  isplitl [H1]; · iexact H1
  isplitl [H2]; · iexact H2
  isplitl [H3]; · iexact H3
  iexact H

omit [FloatOps F] in
/-- Before the first trip lists 0 … 3 are lent. -/
theorem idle_zero : idle 0 = ((((Finset.univ : Finset (Fin 32)).erase 0).erase 1).erase 2).erase 3 := by
  ext j
  simp only [idle, Finset.mem_erase, Finset.mem_filter, Finset.mem_univ, true_and, and_true, ne_eq, Fin.ext_iff]
  show j.val < 4 * 0 ∨ 4 * 0 + 4 ≤ j.val ↔ ¬ j.val = 3 ∧ ¬ j.val = 2 ∧ ¬ j.val = 1 ∧ ¬ j.val = 0
  omega

/-- After the last trip: nothing in flight; every list idle, the row buffers at some contents, every semaphore at
    zero, the four shares of y whole again, the 32 output chunks at some contents. -/
def invEnd (d : Dev nD) (L : grid5.Coords) (q : PosShare TreeShare) (O : CellTallies nD τ sig (HIx 4)) (W : Waits sig (HIx 4))
    (fy : Buf (Elt F) ((yV).view.loc (thrV d L))) (fvc : Buf (Elt F) ((ivV).view.loc (thrV d L))) : sProp 𝕄 :=
  iprop(Transfers.MayWaits (thrV d L) (default : HIx 4) O
    ∗ (∃ W', ⌜∀ p ∈ W', p ∈ W ∨ p.2 = none⌝ ∗ owes (thrV d L) O W')
    ∗ (cellZ d L cc5_scratch9 ∗ cellZ d L cc5_scratch10 ∗ cellZ d L cc5_scratch11 ∗ cellZ d L cc5_scratch12)
    ∗ bigSep Finset.univ (outTrip d L)
    ∗ bigSep Finset.univ (fun j => rowPts d L j fvc)
    ∗ ((∃ fr, heldW d L r0V fullShare fr) ∗ cellZ d L cc5_scratch5 ∗ heldW d L yV (Transfers.shareTokN q 47) fy)
    ∗ ((∃ fr, heldW d L r1V fullShare fr) ∗ cellZ d L cc5_scratch6 ∗ heldW d L yV (Transfers.shareTokN q 48) fy)
    ∗ ((∃ fr, heldW d L r2V fullShare fr) ∗ cellZ d L cc5_scratch7 ∗ heldW d L yV (Transfers.shareTokN q 49) fy)
    ∗ ((∃ fr, heldW d L r3V fullShare fr) ∗ cellZ d L cc5_scratch8 ∗ heldW d L yV (Transfers.shareTokN q 50) fy))

set_option maxHeartbeats 4000000 in
theorem gk_tripB (d : Dev nD) (L : grid5.Coords) (q : PosShare TreeShare) (O : CellTallies nD τ sig (HIx 4)) (W : Waits sig (HIx 4))
    (fy : Buf (Elt F) ((yV).view.loc (thrV d L))) (fvc : Buf (Elt F) ((ivV).view.loc (thrV d L)))
    (hrowc : ∀ (off : Fin 2 → ℕ) (hk : ∀ a, off a + S1x128.size a ≤ S32x128.size a) (x : S128.Idx),
      (View.read (Elt F) (idxRowAt off hk).view fvc x).toNat < 8192)
    (v1 c0 c1 : BitVec 32) (k : Fin k5_t1_loop.trips) (hk : k.val = 7) (acc : Unit) :
    invA d L q O W fy fvc k.val (by omega)
      ⊢ wp frame (wpE (defs₀ (F := F)) 𝒱₀ (thrV d L) none) Set.univ
          (Gen.k5_t1_body L yV (Memref.isWhole_whole _) ixV (Memref.isWhole_whole _) oV (Memref.isWhole_whole _)
            ivV (Memref.isWhole_whole _) r0V (Memref.isWhole_whole _) r1V (Memref.isWhole_whole _)
            r2V (Memref.isWhole_whole _) r3V (Memref.isWhole_whole _)
            cc5_scratch5 cc5_scratch6 cc5_scratch7 cc5_scratch8 cc5_scratch9 cc5_scratch10 cc5_scratch11 cc5_scratch12 cc5_scoped0
            v1 c0 c1 k acc)
          fun _ => invEnd d L q O W fy fvc := by
  obtain ⟨c1', c2', c3', c4', c5', c6', c7', c8'⟩ := conds k
  have hn : ¬ k.val < 7 := by omega
  have hc1 : ¬ k5_cond1 k = 1#1 := fun h => hn (c1'.mp h)
  have hc2 : k5_cond2 k = 1#1 := c2'.mpr hn
  have hc3 : ¬ k5_cond3 k = 1#1 := fun h => hn (c3'.mp h)
  have hc4 : k5_cond4 k = 1#1 := c4'.mpr hn
  have hc5 : ¬ k5_cond5 k = 1#1 := fun h => hn (c5'.mp h)
  have hc6 : k5_cond6 k = 1#1 := c6'.mpr hn
  have hc7 : ¬ k5_cond7 k = 1#1 := fun h => hn (c7'.mp h)
  have hc8 : k5_cond8 k = 1#1 := c8'.mpr hn
  unfold invA invEnd gFlight yRest
  iintro ⟨#Hmw, ⟨%W', %hW', HO⟩, ⟨HW0, HW1, HW2, HW3⟩, Hout, Hrows, ⟨⟨%fr0, HG0⟩, HY0⟩, ⟨⟨%fr1, HG1⟩, HY1⟩, ⟨⟨%fr2, HG2⟩, HY2⟩, ⟨⟨%fr3, HG3⟩, HY3⟩⟩
  ihave Hx := (Entails.of_eq (SparseCore.bigSep_erase' (i := k) (Finset.mem_univ _))) $$ Hout
  icases Hx with ⟨⟨⟨%fo0, HO0⟩, ⟨%fo1, HO1⟩, ⟨%fo2, HO2⟩, ⟨%fo3, HO3⟩⟩, Hout⟩
  sl_unfold [Gen.k5_t1_body]
  sl_exec (disch := first | sl_exact hc1 | sl_exact hc2 | sl_exact hc3 | sl_exact hc4 | sl_exact hc5 | sl_exact hc6 | sl_exact hc7 | sl_exact hc8)
  sl_step
  isplitr; · iexact Hmw
  isplitl [HO]
  · iexists _; isplitr
    swap; · iexact HO
    ipureintro
    exact waits_ins (waits_ins (waits_ins (waits_ins (waits_ins (waits_ins (waits_ins (waits_ins hW' _) _) _) _) _) _) _) _
  isplitl [HW0 HW1 HW2 HW3]
  · isplitl [HW0]; · iexact HW0
    isplitl [HW1]; · iexact HW1
    isplitl [HW2]; · iexact HW2
    iexact HW3
  isplitl [Hout HO0 HO1 HO2 HO3]
  · iapply (Entails.of_eq (SparseCore.bigSep_erase' (i := k) (Finset.mem_univ _)).symm)
    isplitl [HO0 HO1 HO2 HO3]
    · isplitl [HO0]; · iexists _; iexact HO0
      isplitl [HO1]; · iexists _; iexact HO1
      isplitl [HO2]; · iexists _; iexact HO2
      iexists _; iexact HO3
    iexact Hout
  isplitl [Hrows HG0_dst_and HG1_dst_and HG2_dst_and HG3_dst_and]
  · iapply (idle_last (F := F) k.val hk (fun j => rowPts d L j fvc) (by omega) (by omega) (by omega) (by omega))
    isplitl [Hrows]; · iexact Hrows
    isplitl [HG0_dst_and]; · iexact HG0_dst_and
    isplitl [HG1_dst_and]; · iexact HG1_dst_and
    isplitl [HG2_dst_and]; · iexact HG2_dst_and
    iexact HG3_dst_and
  isplitl [HG0_dst HG0 HY0]
  · isplitl [HG0_dst]; · iexists _; iexact HG0_dst
    isplitl [HG0]; · iexact HG0
    iexact HY0
  isplitl [HG1_dst HG1 HY1]
  · isplitl [HG1_dst]; · iexists _; iexact HG1_dst
    isplitl [HG1]; · iexact HG1
    iexact HY1
  isplitl [HG2_dst HG2 HY2]
  · isplitl [HG2_dst]; · iexists _; iexact HG2_dst
    isplitl [HG2]; · iexact HG2
    iexact HY2
  isplitl [HG3_dst]; · iexists _; iexact HG3_dst
  isplitl [HG3]; · iexact HG3
  iexact HY3

/-! ## The loop's invariant, and the whole body -/

/-- What the loop holds before trip k: the gathers of trip k in flight while there is a trip k, nothing after. -/
def inv (d : Dev nD) (L : grid5.Coords) (q : PosShare TreeShare) (O : CellTallies nD τ sig (HIx 4)) (W : Waits sig (HIx 4))
    (fy : Buf (Elt F) ((yV).view.loc (thrV d L))) (fvc : Buf (Elt F) ((ivV).view.loc (thrV d L))) (k : ℕ) : Unit → sProp 𝕄 :=
  fun _ => if h : k < 8 then invA d L q O W fy fvc k h else invEnd d L q O W fy fvc

theorem inv_lt (d : Dev nD) (L : grid5.Coords) (q : PosShare TreeShare) (O : CellTallies nD τ sig (HIx 4)) (W : Waits sig (HIx 4))
    (fy : Buf (Elt F) ((yV).view.loc (thrV d L))) (fvc : Buf (Elt F) ((ivV).view.loc (thrV d L))) (k : ℕ) (h : k < 8) :
    inv d L q O W fy fvc k = fun _ => invA d L q O W fy fvc k h := by
  funext _; exact dif_pos h

theorem inv_ge (d : Dev nD) (L : grid5.Coords) (q : PosShare TreeShare) (O : CellTallies nD τ sig (HIx 4)) (W : Waits sig (HIx 4))
    (fy : Buf (Elt F) ((yV).view.loc (thrV d L))) (fvc : Buf (Elt F) ((ivV).view.loc (thrV d L))) (k : ℕ) (h : ¬ k < 8) :
    inv d L q O W fy fvc k = fun _ => invEnd d L q O W fy fvc := by
  funext _; exact dif_neg h

omit [FloatOps F] in
theorem trips_eq : k5_t1_loop.trips = 8 := by decide

theorem inv_end (d : Dev nD) (L : grid5.Coords) (q : PosShare TreeShare) (O : CellTallies nD τ sig (HIx 4)) (W : Waits sig (HIx 4))
    (fy : Buf (Elt F) ((yV).view.loc (thrV d L))) (fvc : Buf (Elt F) ((ivV).view.loc (thrV d L))) :
    inv d L q O W fy fvc (Scf.trips k5_t1_loop.lb k5_t1_loop.ub k5_t1_loop.st) = fun _ => invEnd d L q O W fy fvc :=
  inv_ge d L q O W fy fvc _ (by decide)

set_option maxHeartbeats 4000000 in
/-- The body on tile (L 0, L 1) of device d, from the tile's own spellings of what it holds: four read shares of y, its
    slab of the index array with every word a row number of y, its 32 output chunks, its local index buffer, its four
    row buffers, its nine semaphores at zero. It ends with the same, the output chunks, the local buffers at some
    contents. -/
theorem gk_core (d : Dev nD) (L : grid5.Coords) (q : PosShare TreeShare)
    (O : CellTallies nD τ sig (HIx 4)) (W : Waits sig (HIx 4))
    (fy : Buf (Elt F) ((yV).view.loc (thrV d L))) (fi : Buf (Elt F) ((slabK L).view.loc (thrV d L)))
    (fv : Buf (Elt F) ((ivV).view.loc (thrV d L)))
    (f0 : Buf (Elt F) ((r0V).view.loc (thrV d L))) (f1 : Buf (Elt F) ((r1V).view.loc (thrV d L)))
    (f2 : Buf (Elt F) ((r2V).view.loc (thrV d L))) (f3 : Buf (Elt F) ((r3V).view.loc (thrV d L)))
    (hin : ∀ x, ((slabK L).view.read (Elt F) fi x).toNat < 8192) :
    (iprop(Transfers.MayWaits (thrV d L) (default : HIx 4) O
        ∗ heldW d L yV (Transfers.shareTokN q 47) fy ∗ heldW d L yV (Transfers.shareTokN q 48) fy
        ∗ heldW d L yV (Transfers.shareTokN q 49) fy ∗ heldW d L yV (Transfers.shareTokN q 50) fy
        ∗ heldW d L (slabK L) fullShare fi
        ∗ heldW d L ivV fullShare fv
        ∗ heldW d L r0V fullShare f0 ∗ heldW d L r1V fullShare f1 ∗ heldW d L r2V fullShare f2 ∗ heldW d L r3V fullShare f3
        ∗ cellZ d L cc5_scratch5 ∗ cellZ d L cc5_scratch6 ∗ cellZ d L cc5_scratch7 ∗ cellZ d L cc5_scratch8
        ∗ cellZ d L cc5_scratch9 ∗ cellZ d L cc5_scratch10 ∗ cellZ d L cc5_scratch11 ∗ cellZ d L cc5_scratch12
        ∗ cellZ d L cc5_scoped0
        ∗ bigSep Finset.univ (outTrip d L)
        ∗ owes (thrV d L) O W) : sProp 𝕄)
      ⊢ wp frame (wpE (defs₀ (F := F)) 𝒱₀ (thrV d L) none) Set.univ
          (cc5_gk L yV (Memref.isWhole_whole _) ixV (Memref.isWhole_whole _) oV (Memref.isWhole_whole _)
            ivV (Memref.isWhole_whole _) r0V (Memref.isWhole_whole _) r1V (Memref.isWhole_whole _)
            r2V (Memref.isWhole_whole _) r3V (Memref.isWhole_whole _)
            cc5_scratch5 cc5_scratch6 cc5_scratch7 cc5_scratch8 cc5_scratch9 cc5_scratch10 cc5_scratch11 cc5_scratch12 cc5_scoped0)
          fun _ => iprop(heldW d L yV (Transfers.shareTokN q 47) fy ∗ heldW d L yV (Transfers.shareTokN q 48) fy
            ∗ heldW d L yV (Transfers.shareTokN q 49) fy ∗ heldW d L yV (Transfers.shareTokN q 50) fy
            ∗ heldW d L (slabK L) fullShare fi
            ∗ (∃ f, heldW d L ivV fullShare f)
            ∗ (∃ f, heldW d L r0V fullShare f) ∗ (∃ f, heldW d L r1V fullShare f) ∗ (∃ f, heldW d L r2V fullShare f) ∗ (∃ f, heldW d L r3V fullShare f)
            ∗ cellZ d L cc5_scratch5 ∗ cellZ d L cc5_scratch6 ∗ cellZ d L cc5_scratch7 ∗ cellZ d L cc5_scratch8
            ∗ cellZ d L cc5_scratch9 ∗ cellZ d L cc5_scratch10 ∗ cellZ d L cc5_scratch11 ∗ cellZ d L cc5_scratch12
            ∗ cellZ d L cc5_scoped0
            ∗ bigSep Finset.univ (outTrip d L)
            ∗ ∃ W', ⌜∀ p ∈ W', p ∈ W ∨ p.2 = none⌝ ∗ owes (thrV d L) O W') := by
  rw [Gen.cc5_gk_eq_skeleton]
  iintro ⟨#Hmw, HY0, HY1, HY2, HY3, HI, HV, HR0, HR1, HR2, HR3, HG0, HG1, HG2, HG3, HW0, HW1, HW2, HW3, HS, Hout, HO⟩
  sl_unfold [Gen.cc5_gk_skel, k5_part3]
  -- the slab lands in the local index buffer (one copy, awaited); the run stops before the first gather
  sl_exec
  -- whatever the buffer held before, every word of every list is now a word of the slab
  have hrow := fun g off hk => hin_rows d L fi hin g (gk_core.sl.dma0 d L fi) rfl off hk
  -- the buffer as its 32 lists; lists 0 … 3, spelt as the first four gathers slice them
  ihave Hrows := (Entails.of_eq (iv_rows (F := F) d L _)) $$ HV
  ihave Hx := (Entails.of_eq (SparseCore.bigSep_erase' (s := Finset.univ) (i := (0 : Fin 32)) (Finset.mem_univ _))) $$ Hrows
  icases Hx with ⟨Hl0, Hrows⟩
  ihave Hx := (Entails.of_eq (SparseCore.bigSep_erase' (i := (1 : Fin 32)) (by decide))) $$ Hrows
  icases Hx with ⟨Hl1, Hrows⟩
  ihave Hx := (Entails.of_eq (SparseCore.bigSep_erase' (i := (2 : Fin 32)) (by decide))) $$ Hrows
  icases Hx with ⟨Hl2, Hrows⟩
  ihave Hx := (Entails.of_eq (SparseCore.bigSep_erase' (i := (3 : Fin 32)) (by decide))) $$ Hrows
  icases Hx with ⟨Hl3, Hrows⟩
  ihave Hl0' := (Entails.of_eq (rowPts_at (F := F) d L 0 ![0, 0] inb_S32x128_S1x128_0_0 rfl _)) $$ Hl0
  ihave Hl1' := (Entails.of_eq (rowPts_at (F := F) d L 1 ![1, 0] inb_S32x128_S1x128_1_0 rfl _)) $$ Hl1
  ihave Hl2' := (Entails.of_eq (rowPts_at (F := F) d L 2 ![2, 0] inb_S32x128_S1x128_2_0 rfl _)) $$ Hl2
  ihave Hl3' := (Entails.of_eq (rowPts_at (F := F) d L 3 ![3, 0] inb_S32x128_S1x128_3_0 rfl _)) $$ Hl3
  -- the four gathers issue; the run stops at the loop
  sl_exec
  sl_for (inv d L q O W fy ((ivV).view.writes (Elt F) (ivV).view.junk [⟨Rect.whole cc5_scratch0.ty.shape, gk_core.sl.dma0 d L fi⟩]))
    $$ [HO HW0 HW1 HW2 HW3 Hout Hrows HG0 HY0 HG1 HY1 HG2 HY2 HG3 HY3]
  · -- one trip
    intro k acc
    have hk8 : k.val < 8 := trips_eq ▸ k.isLt
    rcases Nat.lt_or_ge k.val 7 with h7 | h7
    · rw [inv_lt (h := hk8), inv_lt (k := k.val + 1) (h := by omega)]
      exact gk_tripA d L q O W fy _ (hrow _) _ _ _ k h7 acc
    · rw [inv_lt (h := hk8), inv_ge (k := k.val + 1) (h := by omega)]
      exact gk_tripB d L q O W fy _ (hrow _) _ _ _ k (by omega) acc
  · -- the invariant before the first trip
    rw [inv_lt (k := 0) (h := by omega)]
    beta_reduce
    unfold invA gFlight yRest
    isplitr; · iexact Hmw
    isplitl [HO]
    · iexists _; isplitr
      swap; · iexact HO
      ipureintro
      exact waits_ins (fun p hp => .inl hp) _
    isplitl [HW0 HW1 HW2 HW3]
    · isplitl [HW0]; · iexact HW0
      isplitl [HW1]; · iexact HW1
      isplitl [HW2]; · iexact HW2
      iexact HW3
    isplitl [Hout]; · iexact Hout
    isplitl [Hrows]; · rw [idle_zero]; iexact Hrows
    isplitl [HG0 HY0]
    · isplitl [HG0]; · iexists _; iexact HG0
      iexact HY0
    isplitl [HG1 HY1]
    · isplitl [HG1]; · iexists _; iexact HG1
      iexact HY1
    isplitl [HG2 HY2]
    · isplitl [HG2]; · iexists _; iexact HG2
      iexact HY2
    isplitl [HG3]; · iexists _; iexact HG3
    iexact HY3
  -- after the loop
  iintro %acc HL
  rw [inv_end]
  beta_reduce
  unfold invEnd
  icases HL with ⟨-, ⟨%W', %hW', HO⟩, ⟨HW0, HW1, HW2, HW3⟩, Hout, Hrows, ⟨⟨%fr0, HR0⟩, HG0, HY0⟩, ⟨⟨%fr1, HR1⟩, HG1, HY1⟩, ⟨⟨%fr2, HR2⟩, HG2, HY2⟩, ⟨⟨%fr3, HR3⟩, HG3, HY3⟩⟩
  sl_exec
  sl_step
  isplitl [HY0]; · iexact HY0
  isplitl [HY1]; · iexact HY1
  isplitl [HY2]; · iexact HY2
  isplitl [HY3]; · iexact HY3
  isplitl [HI]; · iexact HI
  isplitl [Hrows]
  · iexists _
    iapply (Entails.of_eq (iv_rows (F := F) d L _).symm)
    iexact Hrows
  isplitl [HR0]; · iexists _; iexact HR0
  isplitl [HR1]; · iexists _; iexact HR1
  isplitl [HR2]; · iexists _; iexact HR2
  isplitl [HR3]; · iexists _; iexact HR3
  isplitl [HG0]; · iexact HG0
  isplitl [HG1]; · iexact HG1
  isplitl [HG2]; · iexact HG2
  isplitl [HG3]; · iexact HG3
  isplitl [HW0]; · iexact HW0
  isplitl [HW1]; · iexact HW1
  isplitl [HW2]; · iexact HW2
  isplitl [HW3]; · iexact HW3
  isplitl [HS]; · iexact HS
  isplitl [Hout]; · iexact Hout
  iexists _; isplitr
  swap; · iexact HO
  ipureintro; exact hW'

/-! ## The tile's spellings against the launch's: the worker number, the slab, the share of y -/

omit [FloatOps F] in
theorem L0_lt (L : grid5.Coords) : (L 0).val < 2 := (L 0).isLt
omit [FloatOps F] in
theorem L1_lt (L : grid5.Coords) : (L 1).val < 16 := (L 1).isLt

/-- The tile's worker number: subcore-major, as the kernel computes it. -/
def widL (L : grid5.Coords) : Fin 32 := ⟨(L 1).val * 2 + (L 0).val, by have := L0_lt L; have := L1_lt L; omega⟩

omit [FloatOps F] in
/-- The slab the program slices is the worker's part of the index array. -/
theorem slab_rect (L : grid5.Coords) :
    Rect.unit (s := S32x32x128) (k5_off1 L) S1x32x128.size (k5_off1_inb L) = slabRect (widL L) := by
  unfold slabRect Rect.part Rect.block
  refine Rect.unit_congr ?_ ?_ _ _
  · rw [Gen.k5_off1_eq]
    funext a
    match a with
    | 0 => show 2 * (L 1).val + (L 0).val = ((L 1).val * 2 + (L 0).val) * (32 / 32); omega
    | 1 => rfl
    | 2 => rfl
  · funext a
    match a with
    | 0 => rfl
    | 1 => rfl
    | 2 => rfl

omit [FloatOps F] in
theorem set_slabK (L : grid5.Coords) : (slabK L).view.set = (slabRect (widL L)).set := by
  show (((ixV).view.slice (Rect.unit (s := S32x32x128) (k5_off1 L) S1x32x128.size (k5_off1_inb L))).reshape S32x128 squeezes_S1x32x128_S32x128.numel_eq).set = _
  rw [View.set_reshape]
  exact (View.set_slice_whole _ _).trans (congrArg (fun r : Rect S32x32x128 => r.set) (slab_rect L))

omit [FloatOps F] in
/-- The slab held, in the tile's spelling and in the launch's. -/
theorem pts_slabK (d : Dev nD) (L : grid5.Coords) (f : Buf (Elt F) (ixLoc2 d)) :
    (heldW d L (slabK L) fullShare f : sProp 𝕄) = (ixLoc2 d ↦[(slabRect (widL L)).set]{fullShare} f) := by
  unfold heldW
  rw [set_slabK]

omit [FloatOps F] in
/-- Every word of the slab is a row number of y, in the tile's reading of it. -/
theorem hin_slabK (d : Dev nD) (L : grid5.Coords) (f : Buf (Elt F) (ixLoc2 d))
    (h : ∀ j ∈ (slabRect (widL L)).set, (f j).toNat < 8192) :
    ∀ x, ((slabK L).view.read (Elt F) f x).toNat < 8192 := by
  intro x
  rw [View.read_apply]
  refine h _ ?_
  rw [← set_slabK]
  exact Finset.mem_map_of_mem _ (Finset.mem_univ x)

omit [FloatOps F] in
/-- All of y held at a share, in the tile's spelling and in the launch's. -/
theorem pts_yV (d : Dev nD) (L : grid5.Coords) (s : PosShare TreeShare) (f : Buf (Elt F) (yLoc d)) :
    (heldW d L yV s f : sProp 𝕄) = (yLoc d ↦{s} f) := by
  unfold heldW
  rw [show (yV).view.set = Finset.univ from View.set_whole _]

/-! ## The tile's 32 output chunks are the worker's 4096 rows of the output -/

abbrev oLocV (d : Dev nD) (L : grid5.Coords) : Loc nD τ sig := (oV).view.loc (thrV d L)

omit [FloatOps F] in
theorem mem_rowsRect (L : grid5.Coords) (i : S131072x128.Idx) :
    i ∈ (rowsRect (widL L)).set ↔ 4096 * (widL L).val ≤ (i 0).val ∧ (i 0).val < 4096 * (widL L).val + 4096 := by
  unfold rowsRect Rect.part Rect.block
  rw [Rect.mem_set_unit, Fin.forall_fin_two]
  have h1 : (i 1).val < 128 := (i 1).isLt
  show ((widL L).val * (131072 / 32) ≤ (i 0).val ∧ (i 0).val < (widL L).val * (131072 / 32) + 131072 / 32)
      ∧ (0 * 128 ≤ (i 1).val ∧ (i 1).val < 0 * 128 + 128) ↔ _
  omega

omit [FloatOps F] in
theorem mem_chunk (L : grid5.Coords) (t : Fin k5_t1_loop.trips) (r : Fin 4) (i : S131072x128.Idx) :
    i ∈ (Rect.unit (s := S131072x128) (k5_off3 L t (BitVec.ofNat 32 r.val)) S128x128.size (k5_off3_inb L t r)).set
      ↔ 4096 * (widL L).val + 512 * t.val + 128 * r.val ≤ (i 0).val ∧ (i 0).val < 4096 * (widL L).val + 512 * t.val + 128 * r.val + 128 := by
  rw [Rect.mem_set_unit, Gen.k5_off3_eq, Fin.forall_fin_two]
  have h1 : (i 1).val < 128 := (i 1).isLt
  show ((8192 * (L 1).val + 4096 * (L 0).val + 512 * t.val + 128 * r.val ≤ (i 0).val
        ∧ (i 0).val < 8192 * (L 1).val + 4096 * (L 0).val + 512 * t.val + 128 * r.val + 128)
      ∧ (0 ≤ (i 1).val ∧ (i 1).val < 0 + 128))
    ↔ 4096 * ((L 1).val * 2 + (L 0).val) + 512 * t.val + 128 * r.val ≤ (i 0).val
      ∧ (i 0).val < 4096 * ((L 1).val * 2 + (L 0).val) + 512 * t.val + 128 * r.val + 128
  omega

/-- The elements of output chunk 4t + r of the tile. -/
abbrev chunkSet (L : grid5.Coords) (t : Fin k5_t1_loop.trips) (r : Fin 4) : Finset S131072x128.Idx :=
  (Rect.unit (s := S131072x128) (k5_off3 L t (BitVec.ofNat 32 r.val)) S128x128.size (k5_off3_inb L t r)).set

/-- The elements of the four chunks of trip t. -/
abbrev tripSet (L : grid5.Coords) (t : Fin k5_t1_loop.trips) : Finset S131072x128.Idx :=
  chunkSet L t 0 ∪ (chunkSet L t 1 ∪ (chunkSet L t 2 ∪ chunkSet L t 3))

omit [FloatOps F] in
theorem chunk_disjoint (L : grid5.Coords) (t : Fin k5_t1_loop.trips) {r r' : Fin 4} (h : r ≠ r') : Disjoint (chunkSet L t r) (chunkSet L t r') := by
  refine Finset.disjoint_left.mpr fun i hi hi' => h (Fin.ext ?_)
  rw [mem_chunk] at hi hi'
  omega

omit [FloatOps F] in
theorem mem_tripSet (L : grid5.Coords) (t : Fin k5_t1_loop.trips) (i : S131072x128.Idx) :
    i ∈ tripSet L t ↔ 4096 * (widL L).val + 512 * t.val ≤ (i 0).val ∧ (i 0).val < 4096 * (widL L).val + 512 * t.val + 512 := by
  simp only [tripSet, Finset.mem_union, mem_chunk]
  show _ ↔ _
  have e0 : ((0 : Fin 4) : ℕ) = 0 := rfl
  have e1 : ((1 : Fin 4) : ℕ) = 1 := rfl
  have e2 : ((2 : Fin 4) : ℕ) = 2 := rfl
  have e3 : ((3 : Fin 4) : ℕ) = 3 := rfl
  rw [e0, e1, e2, e3]
  omega

omit [FloatOps F] in
theorem trip_disjoint (L : grid5.Coords) {t t' : Fin k5_t1_loop.trips} (h : t ≠ t') : Disjoint (tripSet L t) (tripSet L t') := by
  refine Finset.disjoint_left.mpr fun i hi hi' => h (Fin.ext ?_)
  rw [mem_tripSet] at hi hi'
  omega

omit [FloatOps F] in
/-- The worker's 4096 rows are the eight trips' chunks. -/
theorem rows_cover (L : grid5.Coords) : (rowsRect (widL L)).set = Finset.univ.biUnion (tripSet L) := by
  ext i
  rw [mem_rowsRect, Finset.mem_biUnion]
  constructor
  · intro h
    have h8 : ((i 0).val - 4096 * (widL L).val) / 512 < k5_t1_loop.trips := by rw [trips_eq]; omega
    refine ⟨⟨((i 0).val - 4096 * (widL L).val) / 512, h8⟩, Finset.mem_univ _, ?_⟩
    rw [mem_tripSet]
    show 4096 * (widL L).val + 512 * (((i 0).val - 4096 * (widL L).val) / 512) ≤ (i 0).val
      ∧ (i 0).val < 4096 * (widL L).val + 512 * (((i 0).val - 4096 * (widL L).val) / 512) + 512
    omega
  · rintro ⟨t, -, ht⟩
    rw [mem_tripSet] at ht
    have ht8 : t.val < 8 := trips_eq ▸ t.isLt
    omega

omit [FloatOps F] in
theorem set_outK0 (L : grid5.Coords) (t : Fin k5_t1_loop.trips) : (outK0 L t).view.set = chunkSet L t 0 := View.set_slice_whole _ _
omit [FloatOps F] in
theorem set_outK1 (L : grid5.Coords) (t : Fin k5_t1_loop.trips) : (outK1 L t).view.set = chunkSet L t 1 := View.set_slice_whole _ _
omit [FloatOps F] in
theorem set_outK2 (L : grid5.Coords) (t : Fin k5_t1_loop.trips) : (outK2 L t).view.set = chunkSet L t 2 := View.set_slice_whole _ _
omit [FloatOps F] in
theorem set_outK3 (L : grid5.Coords) (t : Fin k5_t1_loop.trips) : (outK3 L t).view.set = chunkSet L t 3 := View.set_slice_whole _ _

omit [FloatOps F] in
theorem pts_outK0 (d : Dev nD) (L : grid5.Coords) (t : Fin k5_t1_loop.trips) (f : Buf (Elt F) (oLoc2 d)) :
    (heldW d L (outK0 L t) fullShare f : sProp 𝕄) = (oLoc2 d ↦[chunkSet L t 0]{fullShare} f) := by
  unfold heldW; rw [set_outK0]
omit [FloatOps F] in
theorem pts_outK1 (d : Dev nD) (L : grid5.Coords) (t : Fin k5_t1_loop.trips) (f : Buf (Elt F) (oLoc2 d)) :
    (heldW d L (outK1 L t) fullShare f : sProp 𝕄) = (oLoc2 d ↦[chunkSet L t 1]{fullShare} f) := by
  unfold heldW; rw [set_outK1]
omit [FloatOps F] in
theorem pts_outK2 (d : Dev nD) (L : grid5.Coords) (t : Fin k5_t1_loop.trips) (f : Buf (Elt F) (oLoc2 d)) :
    (heldW d L (outK2 L t) fullShare f : sProp 𝕄) = (oLoc2 d ↦[chunkSet L t 2]{fullShare} f) := by
  unfold heldW; rw [set_outK2]
omit [FloatOps F] in
theorem pts_outK3 (d : Dev nD) (L : grid5.Coords) (t : Fin k5_t1_loop.trips) (f : Buf (Elt F) (oLoc2 d)) :
    (heldW d L (outK3 L t) fullShare f : sProp 𝕄) = (oLoc2 d ↦[chunkSet L t 3]{fullShare} f) := by
  unfold heldW; rw [set_outK3]

omit [FloatOps F] in
theorem d23 (L : grid5.Coords) (t : Fin k5_t1_loop.trips) : Disjoint (chunkSet L t 2) (chunkSet L t 3) := chunk_disjoint L t (by decide)
omit [FloatOps F] in
theorem d1_23 (L : grid5.Coords) (t : Fin k5_t1_loop.trips) : Disjoint (chunkSet L t 1) (chunkSet L t 2 ∪ chunkSet L t 3) :=
  Finset.disjoint_union_right.mpr ⟨chunk_disjoint L t (by decide), chunk_disjoint L t (by decide)⟩
omit [FloatOps F] in
theorem d0_123 (L : grid5.Coords) (t : Fin k5_t1_loop.trips) : Disjoint (chunkSet L t 0) (chunkSet L t 1 ∪ (chunkSet L t 2 ∪ chunkSet L t 3)) :=
  Finset.disjoint_union_right.mpr ⟨chunk_disjoint L t (by decide),
    Finset.disjoint_union_right.mpr ⟨chunk_disjoint L t (by decide), chunk_disjoint L t (by decide)⟩⟩

omit [FloatOps F] in
/-- The worker's rows of the output, held at some contents, are its 32 chunks held each. -/
theorem out_split (d : Dev nD) (L : grid5.Coords) (fo : Buf (Elt F) (oLoc2 d)) :
    (oLoc2 d ↦[(rowsRect (widL L)).set]{fullShare} fo : sProp 𝕄) ⊢ bigSep Finset.univ (outTrip d L) := by
  have step : ∀ t, (oLoc2 d ↦[tripSet L t]{fullShare} fo : sProp 𝕄) ⊢ outTrip d L t := by
    intro t
    iintro H
    ihave H := (pointsTo_union (ℓ := oLoc2 d) (d0_123 L t)).1 $$ H
    icases H with ⟨H0, H⟩
    ihave H := (pointsTo_union (ℓ := oLoc2 d) (d1_23 L t)).1 $$ H
    icases H with ⟨H1, H⟩
    ihave H := (pointsTo_union (ℓ := oLoc2 d) (d23 L t)).1 $$ H
    icases H with ⟨H2, H3⟩
    isplitl [H0]; · iexists fo; iapply (Entails.of_eq (pts_outK0 (F := F) d L t fo).symm); iexact H0
    isplitl [H1]; · iexists fo; iapply (Entails.of_eq (pts_outK1 (F := F) d L t fo).symm); iexact H1
    isplitl [H2]; · iexists fo; iapply (Entails.of_eq (pts_outK2 (F := F) d L t fo).symm); iexact H2
    iexists fo; iapply (Entails.of_eq (pts_outK3 (F := F) d L t fo).symm); iexact H3
  rw [rows_cover]
  refine (Entails.of_eq (pointsTo_biUnion (ℓ := oLoc2 d) (q := fullShare) (f := fo) Finset.univ (tripSet L) (fun t _ t' _ h => trip_disjoint L h))).trans ?_
  exact bigSep_mono fun t _ => step t

/-- and back: the 32 chunks at some contents each are the worker's rows at some contents. -/
theorem out_join (d : Dev nD) (L : grid5.Coords) :
    bigSep Finset.univ (outTrip d L) ⊢ (iprop(∃ fo, oLoc2 d ↦[(rowsRect (widL L)).set]{fullShare} fo) : sProp 𝕄) := by
  have step : ∀ t, outTrip d L t ⊢ (iprop(∃ g, oLoc2 d ↦[tripSet L t]{fullShare} g) : sProp 𝕄) := by
    intro t
    iintro ⟨⟨%g0, H0⟩, ⟨%g1, H1⟩, ⟨%g2, H2⟩, ⟨%g3, H3⟩⟩
    ihave K0 := (Entails.of_eq (pts_outK0 (F := F) d L t g0)) $$ H0
    ihave K1 := (Entails.of_eq (pts_outK1 (F := F) d L t g1)) $$ H1
    ihave K2 := (Entails.of_eq (pts_outK2 (F := F) d L t g2)) $$ H2
    ihave K3 := (Entails.of_eq (pts_outK3 (F := F) d L t g3)) $$ H3
    ihave H23 := (pointsTo_join (ℓ := oLoc2 d) (d23 L t)) $$ [K2 K3]
    · isplitl [K2]; · iexact K2
      iexact K3
    ihave H123 := (pointsTo_join (ℓ := oLoc2 d) (d1_23 L t)) $$ [K1 H23]
    · isplitl [K1]; · iexact K1
      iexact H23
    ihave H0123 := (pointsTo_join (ℓ := oLoc2 d) (d0_123 L t)) $$ [K0 H123]
    · isplitl [K0]; · iexact K0
      iexact H123
    iexists _; iexact H0123
  refine (bigSep_mono fun t _ => step t).trans ?_
  refine (bigSep_exists_pi Finset.univ (fun t (g : Buf (Elt F) (oLoc2 d)) => (oLoc2 d ↦[tripSet L t]{fullShare} g : sProp 𝕄))).trans ?_
  iintro ⟨%gs, H⟩
  ihave H' := (pointsTo_biUnion_join (ℓ := oLoc2 d) (q := fullShare) (Val := Elt F) Finset.univ (tripSet L) gs (gs ⟨0, by rw [trips_eq]; omega⟩)
    (fun t _ t' _ h => trip_disjoint L h)) $$ H
  icases H' with ⟨%g, -, Hg⟩
  rw [rows_cover]
  iexists g; iexact Hg

/-! ## The tile's scoped storage: its five buffers and nine semaphores among all it owns -/

abbrev cellOf (d : Dev nD) (L : grid5.Coords) (a : DmaSems sig S_) : GSem nD τ sig := (thrV d L, SemLoc.dma a.sem)
abbrev bufOf (L : grid5.Coords) (b : Ref sig .scVector) : DevRef τ sig := (Proc.scVector (cV L) (jV L)).devRef b

omit [FloatOps F] in
theorem cell_ne (thr : Thread nD τ) {a b : SemLoc sig} (h : a ≠ b) : ((thr, a) : GSem nD τ sig) ≠ (thr, b) := fun e => h (congrArg Prod.snd e)
omit [FloatOps F] in
theorem buf_ne (L : grid5.Coords) {a b : Ref sig .scVector} (h : a ≠ b) : bufOf L a ≠ bufOf L b := fun e => h (Proc.devRef_injective _ e)

/-- The scoped semaphores of the tile other than the nine the body uses. -/
abbrev restCells (d : Dev nD) (L : grid5.Coords) : Finset (GSem nD τ sig) :=
  ((((((((((ownCells (thrV d L)).erase (cellOf d L cc5_scratch5)).erase (cellOf d L cc5_scratch6)).erase (cellOf d L cc5_scratch7)).erase (cellOf d L cc5_scratch8)).erase (cellOf d L cc5_scratch9)).erase (cellOf d L cc5_scratch10)).erase (cellOf d L cc5_scratch11)).erase (cellOf d L cc5_scratch12)).erase (cellOf d L cc5_scoped0))

/-- The buffers of the tile other than the five the body uses. -/
abbrev restRefs (L : grid5.Coords) : Finset (DevRef τ sig) :=
  ((((((ownRefs (τ := τ) (.scVector (cV L) (jV L))).erase (bufOf L cc5_scratch0)).erase (bufOf L cc5_scratch1)).erase (bufOf L cc5_scratch2)).erase (bufOf L cc5_scratch3)).erase (bufOf L cc5_scratch4))

omit [FloatOps F] in
theorem tile_sems (d : Dev nD) (L : grid5.Coords) :
    (ownSems0 (thrV d L) : sProp 𝕄)
      = iprop(cellZ d L cc5_scratch5 ∗ cellZ d L cc5_scratch6 ∗ cellZ d L cc5_scratch7 ∗ cellZ d L cc5_scratch8
          ∗ cellZ d L cc5_scratch9 ∗ cellZ d L cc5_scratch10 ∗ cellZ d L cc5_scratch11 ∗ cellZ d L cc5_scratch12
          ∗ cellZ d L cc5_scoped0 ∗ bigSep (restCells d L) fun g => semVal g 0) := by
  unfold SparseCore.Cfg.ownSems0
  rw [SparseCore.bigSep_erase' ((mem_ownCells (g := (cellOf d L cc5_scratch5))).mpr ⟨rfl, by show (SemLoc.dma cc5_scratch5.sem : SemLoc sig).isScoped .scVector = true; decide⟩),
    SparseCore.bigSep_erase' (Finset.mem_erase.mpr ⟨cell_ne (thrV d L) (by decide : (SemLoc.dma cc5_scratch6.sem : SemLoc sig) ≠ SemLoc.dma cc5_scratch5.sem), ((mem_ownCells (g := (cellOf d L cc5_scratch6))).mpr ⟨rfl, by show (SemLoc.dma cc5_scratch6.sem : SemLoc sig).isScoped .scVector = true; decide⟩)⟩),
    SparseCore.bigSep_erase' (Finset.mem_erase.mpr ⟨cell_ne (thrV d L) (by decide : (SemLoc.dma cc5_scratch7.sem : SemLoc sig) ≠ SemLoc.dma cc5_scratch6.sem), (Finset.mem_erase.mpr ⟨cell_ne (thrV d L) (by decide : (SemLoc.dma cc5_scratch7.sem : SemLoc sig) ≠ SemLoc.dma cc5_scratch5.sem), ((mem_ownCells (g := (cellOf d L cc5_scratch7))).mpr ⟨rfl, by show (SemLoc.dma cc5_scratch7.sem : SemLoc sig).isScoped .scVector = true; decide⟩)⟩)⟩),
    SparseCore.bigSep_erase' (Finset.mem_erase.mpr ⟨cell_ne (thrV d L) (by decide : (SemLoc.dma cc5_scratch8.sem : SemLoc sig) ≠ SemLoc.dma cc5_scratch7.sem), (Finset.mem_erase.mpr ⟨cell_ne (thrV d L) (by decide : (SemLoc.dma cc5_scratch8.sem : SemLoc sig) ≠ SemLoc.dma cc5_scratch6.sem), (Finset.mem_erase.mpr ⟨cell_ne (thrV d L) (by decide : (SemLoc.dma cc5_scratch8.sem : SemLoc sig) ≠ SemLoc.dma cc5_scratch5.sem), ((mem_ownCells (g := (cellOf d L cc5_scratch8))).mpr ⟨rfl, by show (SemLoc.dma cc5_scratch8.sem : SemLoc sig).isScoped .scVector = true; decide⟩)⟩)⟩)⟩),
    SparseCore.bigSep_erase' (Finset.mem_erase.mpr ⟨cell_ne (thrV d L) (by decide : (SemLoc.dma cc5_scratch9.sem : SemLoc sig) ≠ SemLoc.dma cc5_scratch8.sem), (Finset.mem_erase.mpr ⟨cell_ne (thrV d L) (by decide : (SemLoc.dma cc5_scratch9.sem : SemLoc sig) ≠ SemLoc.dma cc5_scratch7.sem), (Finset.mem_erase.mpr ⟨cell_ne (thrV d L) (by decide : (SemLoc.dma cc5_scratch9.sem : SemLoc sig) ≠ SemLoc.dma cc5_scratch6.sem), (Finset.mem_erase.mpr ⟨cell_ne (thrV d L) (by decide : (SemLoc.dma cc5_scratch9.sem : SemLoc sig) ≠ SemLoc.dma cc5_scratch5.sem), ((mem_ownCells (g := (cellOf d L cc5_scratch9))).mpr ⟨rfl, by show (SemLoc.dma cc5_scratch9.sem : SemLoc sig).isScoped .scVector = true; decide⟩)⟩)⟩)⟩)⟩),
    SparseCore.bigSep_erase' (Finset.mem_erase.mpr ⟨cell_ne (thrV d L) (by decide : (SemLoc.dma cc5_scratch10.sem : SemLoc sig) ≠ SemLoc.dma cc5_scratch9.sem), (Finset.mem_erase.mpr ⟨cell_ne (thrV d L) (by decide : (SemLoc.dma cc5_scratch10.sem : SemLoc sig) ≠ SemLoc.dma cc5_scratch8.sem), (Finset.mem_erase.mpr ⟨cell_ne (thrV d L) (by decide : (SemLoc.dma cc5_scratch10.sem : SemLoc sig) ≠ SemLoc.dma cc5_scratch7.sem), (Finset.mem_erase.mpr ⟨cell_ne (thrV d L) (by decide : (SemLoc.dma cc5_scratch10.sem : SemLoc sig) ≠ SemLoc.dma cc5_scratch6.sem), (Finset.mem_erase.mpr ⟨cell_ne (thrV d L) (by decide : (SemLoc.dma cc5_scratch10.sem : SemLoc sig) ≠ SemLoc.dma cc5_scratch5.sem), ((mem_ownCells (g := (cellOf d L cc5_scratch10))).mpr ⟨rfl, by show (SemLoc.dma cc5_scratch10.sem : SemLoc sig).isScoped .scVector = true; decide⟩)⟩)⟩)⟩)⟩)⟩),
    SparseCore.bigSep_erase' (Finset.mem_erase.mpr ⟨cell_ne (thrV d L) (by decide : (SemLoc.dma cc5_scratch11.sem : SemLoc sig) ≠ SemLoc.dma cc5_scratch10.sem), (Finset.mem_erase.mpr ⟨cell_ne (thrV d L) (by decide : (SemLoc.dma cc5_scratch11.sem : SemLoc sig) ≠ SemLoc.dma cc5_scratch9.sem), (Finset.mem_erase.mpr ⟨cell_ne (thrV d L) (by decide : (SemLoc.dma cc5_scratch11.sem : SemLoc sig) ≠ SemLoc.dma cc5_scratch8.sem), (Finset.mem_erase.mpr ⟨cell_ne (thrV d L) (by decide : (SemLoc.dma cc5_scratch11.sem : SemLoc sig) ≠ SemLoc.dma cc5_scratch7.sem), (Finset.mem_erase.mpr ⟨cell_ne (thrV d L) (by decide : (SemLoc.dma cc5_scratch11.sem : SemLoc sig) ≠ SemLoc.dma cc5_scratch6.sem), (Finset.mem_erase.mpr ⟨cell_ne (thrV d L) (by decide : (SemLoc.dma cc5_scratch11.sem : SemLoc sig) ≠ SemLoc.dma cc5_scratch5.sem), ((mem_ownCells (g := (cellOf d L cc5_scratch11))).mpr ⟨rfl, by show (SemLoc.dma cc5_scratch11.sem : SemLoc sig).isScoped .scVector = true; decide⟩)⟩)⟩)⟩)⟩)⟩)⟩),
    SparseCore.bigSep_erase' (Finset.mem_erase.mpr ⟨cell_ne (thrV d L) (by decide : (SemLoc.dma cc5_scratch12.sem : SemLoc sig) ≠ SemLoc.dma cc5_scratch11.sem), (Finset.mem_erase.mpr ⟨cell_ne (thrV d L) (by decide : (SemLoc.dma cc5_scratch12.sem : SemLoc sig) ≠ SemLoc.dma cc5_scratch10.sem), (Finset.mem_erase.mpr ⟨cell_ne (thrV d L) (by decide : (SemLoc.dma cc5_scratch12.sem : SemLoc sig) ≠ SemLoc.dma cc5_scratch9.sem), (Finset.mem_erase.mpr ⟨cell_ne (thrV d L) (by decide : (SemLoc.dma cc5_scratch12.sem : SemLoc sig) ≠ SemLoc.dma cc5_scratch8.sem), (Finset.mem_erase.mpr ⟨cell_ne (thrV d L) (by decide : (SemLoc.dma cc5_scratch12.sem : SemLoc sig) ≠ SemLoc.dma cc5_scratch7.sem), (Finset.mem_erase.mpr ⟨cell_ne (thrV d L) (by decide : (SemLoc.dma cc5_scratch12.sem : SemLoc sig) ≠ SemLoc.dma cc5_scratch6.sem), (Finset.mem_erase.mpr ⟨cell_ne (thrV d L) (by decide : (SemLoc.dma cc5_scratch12.sem : SemLoc sig) ≠ SemLoc.dma cc5_scratch5.sem), ((mem_ownCells (g := (cellOf d L cc5_scratch12))).mpr ⟨rfl, by show (SemLoc.dma cc5_scratch12.sem : SemLoc sig).isScoped .scVector = true; decide⟩)⟩)⟩)⟩)⟩)⟩)⟩)⟩),
    SparseCore.bigSep_erase' (Finset.mem_erase.mpr ⟨cell_ne (thrV d L) (by decide : (SemLoc.dma cc5_scoped0.sem : SemLoc sig) ≠ SemLoc.dma cc5_scratch12.sem), (Finset.mem_erase.mpr ⟨cell_ne (thrV d L) (by decide : (SemLoc.dma cc5_scoped0.sem : SemLoc sig) ≠ SemLoc.dma cc5_scratch11.sem), (Finset.mem_erase.mpr ⟨cell_ne (thrV d L) (by decide : (SemLoc.dma cc5_scoped0.sem : SemLoc sig) ≠ SemLoc.dma cc5_scratch10.sem), (Finset.mem_erase.mpr ⟨cell_ne (thrV d L) (by decide : (SemLoc.dma cc5_scoped0.sem : SemLoc sig) ≠ SemLoc.dma cc5_scratch9.sem), (Finset.mem_erase.mpr ⟨cell_ne (thrV d L) (by decide : (SemLoc.dma cc5_scoped0.sem : SemLoc sig) ≠ SemLoc.dma cc5_scratch8.sem), (Finset.mem_erase.mpr ⟨cell_ne (thrV d L) (by decide : (SemLoc.dma cc5_scoped0.sem : SemLoc sig) ≠ SemLoc.dma cc5_scratch7.sem), (Finset.mem_erase.mpr ⟨cell_ne (thrV d L) (by decide : (SemLoc.dma cc5_scoped0.sem : SemLoc sig) ≠ SemLoc.dma cc5_scratch6.sem), (Finset.mem_erase.mpr ⟨cell_ne (thrV d L) (by decide : (SemLoc.dma cc5_scoped0.sem : SemLoc sig) ≠ SemLoc.dma cc5_scratch5.sem), ((mem_ownCells (g := (cellOf d L cc5_scoped0))).mpr ⟨rfl, by show (SemLoc.dma cc5_scoped0.sem : SemLoc sig).isScoped .scVector = true; decide⟩)⟩)⟩)⟩)⟩)⟩)⟩)⟩)⟩)]

omit [FloatOps F] in
theorem tile_bufs (d : Dev nD) (L : grid5.Coords) :
    (ownBufs (thrV d L) : sProp 𝕄)
      = iprop((∃ f, (thrV d L).loc cc5_scratch0 ↦{fullShare} f) ∗ (∃ f, (thrV d L).loc cc5_scratch1 ↦{fullShare} f)
          ∗ (∃ f, (thrV d L).loc cc5_scratch2 ↦{fullShare} f) ∗ (∃ f, (thrV d L).loc cc5_scratch3 ↦{fullShare} f)
          ∗ (∃ f, (thrV d L).loc cc5_scratch4 ↦{fullShare} f)
          ∗ bigSep (restRefs L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (bufOf L cc5_scratch0)) rfl)).trans ?_
  rw [SparseCore.bigSep_erase' (Finset.mem_erase.mpr ⟨buf_ne L (by decide : (cc5_scratch1 : Ref sig .scVector) ≠ cc5_scratch0), (SparseCore.Cfg.mem_ownRefs_of_owner (p := Proc.scVector (cV L) (jV L)) (b := (bufOf L cc5_scratch1)) rfl)⟩),
    SparseCore.bigSep_erase' (Finset.mem_erase.mpr ⟨buf_ne L (by decide : (cc5_scratch2 : Ref sig .scVector) ≠ cc5_scratch1), (Finset.mem_erase.mpr ⟨buf_ne L (by decide : (cc5_scratch2 : Ref sig .scVector) ≠ cc5_scratch0), (SparseCore.Cfg.mem_ownRefs_of_owner (p := Proc.scVector (cV L) (jV L)) (b := (bufOf L cc5_scratch2)) rfl)⟩)⟩),
    SparseCore.bigSep_erase' (Finset.mem_erase.mpr ⟨buf_ne L (by decide : (cc5_scratch3 : Ref sig .scVector) ≠ cc5_scratch2), (Finset.mem_erase.mpr ⟨buf_ne L (by decide : (cc5_scratch3 : Ref sig .scVector) ≠ cc5_scratch1), (Finset.mem_erase.mpr ⟨buf_ne L (by decide : (cc5_scratch3 : Ref sig .scVector) ≠ cc5_scratch0), (SparseCore.Cfg.mem_ownRefs_of_owner (p := Proc.scVector (cV L) (jV L)) (b := (bufOf L cc5_scratch3)) rfl)⟩)⟩)⟩),
    SparseCore.bigSep_erase' (Finset.mem_erase.mpr ⟨buf_ne L (by decide : (cc5_scratch4 : Ref sig .scVector) ≠ cc5_scratch3), (Finset.mem_erase.mpr ⟨buf_ne L (by decide : (cc5_scratch4 : Ref sig .scVector) ≠ cc5_scratch2), (Finset.mem_erase.mpr ⟨buf_ne L (by decide : (cc5_scratch4 : Ref sig .scVector) ≠ cc5_scratch1), (Finset.mem_erase.mpr ⟨buf_ne L (by decide : (cc5_scratch4 : Ref sig .scVector) ≠ cc5_scratch0), (SparseCore.Cfg.mem_ownRefs_of_owner (p := Proc.scVector (cV L) (jV L)) (b := (bufOf L cc5_scratch4)) rfl)⟩)⟩)⟩)⟩)]

omit [FloatOps F] in
/-- A whole buffer held by the tile, in the two spellings. -/
theorem pts_whole (d : Dev nD) (L : grid5.Coords) (b : Ref sig .scVector) (s : PosShare TreeShare) (f : Buf (Elt F) ((thrV d L).loc b)) :
    ((Memref.whole b).view.loc (thrV d L) ↦[(Memref.whole b).view.set]{s} f : sProp 𝕄) = ((thrV d L).loc b ↦{s} f) := by
  rw [show (Memref.whole b).view.set = Finset.univ from View.set_whole _]

/-! ## The tile's share of y as four read shares, one per gather semaphore, and what is kept aside -/

/-- What is kept aside of a share of y while the four gathers hold theirs. -/
abbrev yKeep (ℓ : Loc nD τ sig) (q : PosShare TreeShare) (f : Buf (Elt F) ℓ) : sProp 𝕄 :=
  iprop((ℓ ↦{Transfers.shareDrop q 51} f)
    ∗ bigSep (((((Finset.range 51).erase 47).erase 48).erase 49).erase 50) (fun i => (ℓ ↦{Transfers.shareTokN q i} f : sProp 𝕄)))

omit [FloatOps F] in
theorem y_toks (ℓ : Loc nD τ sig) (q : PosShare TreeShare) (f : Buf (Elt F) ℓ) :
    (ℓ ↦{q} f : sProp 𝕄) ⊣⊢ iprop((ℓ ↦{Transfers.shareTokN q 47} f) ∗ (ℓ ↦{Transfers.shareTokN q 48} f)
      ∗ (ℓ ↦{Transfers.shareTokN q 49} f) ∗ (ℓ ↦{Transfers.shareTokN q 50} f) ∗ yKeep ℓ q f) := by
  have h := Transfers.pointsTo_toks_range (Ix := HIx 4) (Name := ℕ) (U := UU) (Lvl := ℕ) (ℓ := ℓ) (S := Finset.univ) (f := f) q 51
  have e : bigSep (Finset.range 51) (fun i => (ℓ ↦{Transfers.shareTokN q i} f : sProp 𝕄))
      = iprop((ℓ ↦{Transfers.shareTokN q 47} f) ∗ (ℓ ↦{Transfers.shareTokN q 48} f) ∗ (ℓ ↦{Transfers.shareTokN q 49} f) ∗ (ℓ ↦{Transfers.shareTokN q 50} f)
          ∗ bigSep (((((Finset.range 51).erase 47).erase 48).erase 49).erase 50) (fun i => (ℓ ↦{Transfers.shareTokN q i} f : sProp 𝕄))) := by
    rw [SparseCore.bigSep_erase' (by decide : 47 ∈ Finset.range 51), SparseCore.bigSep_erase' (by decide : 48 ∈ (Finset.range 51).erase 47),
      SparseCore.bigSep_erase' (by decide : 49 ∈ ((Finset.range 51).erase 47).erase 48),
      SparseCore.bigSep_erase' (by decide : 50 ∈ (((Finset.range 51).erase 47).erase 48).erase 49)]
  constructor
  · refine h.1.trans ?_
    rw [e]
    iintro ⟨Hd, H5, H6, H7, H8, Hr⟩
    isplitl [H5]; · iexact H5
    isplitl [H6]; · iexact H6
    isplitl [H7]; · iexact H7
    isplitl [H8]; · iexact H8
    isplitl [Hd]; · iexact Hd
    iexact Hr
  · refine BIBase.Entails.trans ?_ h.2
    rw [e]
    iintro ⟨H5, H6, H7, H8, Hd, Hr⟩
    isplitl [Hd]; · iexact Hd
    isplitl [H5]; · iexact H5
    isplitl [H6]; · iexact H6
    isplitl [H7]; · iexact H7
    isplitl [H8]; · iexact H8
    iexact Hr

/-! ## The body from what the launch hands the tile -/

set_option maxHeartbeats 4000000 in
/-- The body on tile (L 0, L 1) of device d from the worker's share as the launch states it — a share of y, its slab of
    the index array with every word a row number of y, its 4096 rows of the output — and the tile's scoped storage;
    it hands the same back, the output rows and the local buffers at some contents, owing what it owed. -/
theorem gk_body (hF : (K (F := F)).Facts) (d : Dev nD) (L : grid5.Coords)
    (O : CellTallies nD τ sig (HIx 4)) (W : Waits sig (HIx 4)) (hO : ∀ g, O g none = 0) :
    (iprop(levAts (K (F := F)).L (K (F := F)).lev ∗ share2 (F := F) d (widL L)
        ∗ scopedBufs (thrV d L) ∗ scopedSems0 (thrV d L) ∗ owes (thrV d L) O W) : sProp 𝕄)
      ⊢ wp frame (wpE (defs₀ (F := F)) 𝒱₀ (thrV d L) none) Set.univ
          (cc5_gk L yV (Memref.isWhole_whole _) ixV (Memref.isWhole_whole _) oV (Memref.isWhole_whole _)
            ivV (Memref.isWhole_whole _) r0V (Memref.isWhole_whole _) r1V (Memref.isWhole_whole _)
            r2V (Memref.isWhole_whole _) r3V (Memref.isWhole_whole _)
            cc5_scratch5 cc5_scratch6 cc5_scratch7 cc5_scratch8 cc5_scratch9 cc5_scratch10 cc5_scratch11 cc5_scratch12 cc5_scoped0)
          fun _ => iprop(share2 (F := F) d (widL L) ∗ scopedBufs (thrV d L) ∗ scopedSems0 (thrV d L)
            ∗ ∃ W', ⌜∀ p ∈ W', p ∈ W ∨ p.2 = none⌝ ∗ owes (thrV d L) O W') := by
  rw [(K (F := F)).scopedBufs_V hF d (cV L) (jV L), SparseCore.Cfg.scopedSems0_V (Val := Elt F) d (cV L) (jV L), tile_sems, tile_bufs]
  unfold share2
  iintro ⟨#Hlv, ⟨⟨%fy, HY⟩, ⟨%fi, HI, %hfi⟩, ⟨%fo, HOut⟩⟩, ⟨⟨%fv, HV⟩, ⟨%f0, HR0⟩, ⟨%f1, HR1⟩, ⟨%f2, HR2⟩, ⟨%f3, HR3⟩, Hbufs⟩, ⟨HG0, HG1, HG2, HG3, HW0, HW1, HW2, HW3, HS, Hsems⟩, HO⟩
  ihave Hmw := (show levAts (K (F := F)).L (K (F := F)).lev ⊢ Transfers.MayWaits (thrV d L) (default : HIx 4) O from
    (K (F := F)).mayWaits_none (thr := thrV d L) hO) $$ Hlv
  -- the share of y as the four gathers' read shares and the rest
  ihave HYs := (y_toks (F := F) (yLoc d) (ysh (widL L)) fy).1 $$ HY
  icases HYs with ⟨HY0, HY1, HY2, HY3, Hkeep⟩
  ihave KY0 := (Entails.of_eq (pts_yV (F := F) d L _ fy).symm) $$ HY0
  ihave KY1 := (Entails.of_eq (pts_yV (F := F) d L _ fy).symm) $$ HY1
  ihave KY2 := (Entails.of_eq (pts_yV (F := F) d L _ fy).symm) $$ HY2
  ihave KY3 := (Entails.of_eq (pts_yV (F := F) d L _ fy).symm) $$ HY3
  -- the slab, the output rows as 32 chunks, the five local buffers, in the tile's spellings
  ihave KI := (Entails.of_eq (pts_slabK (F := F) d L fi).symm) $$ HI
  ihave KOut := (out_split (F := F) d L fo) $$ HOut
  ihave KV := (Entails.of_eq (pts_whole (F := F) d L cc5_scratch0 fullShare fv).symm) $$ HV
  ihave KR0 := (Entails.of_eq (pts_whole (F := F) d L cc5_scratch1 fullShare f0).symm) $$ HR0
  ihave KR1 := (Entails.of_eq (pts_whole (F := F) d L cc5_scratch2 fullShare f1).symm) $$ HR1
  ihave KR2 := (Entails.of_eq (pts_whole (F := F) d L cc5_scratch3 fullShare f2).symm) $$ HR2
  ihave KR3 := (Entails.of_eq (pts_whole (F := F) d L cc5_scratch4 fullShare f3).symm) $$ HR3
  iapply (wp_wand_r frame (wpE (defs₀ (F := F)) 𝒱₀ (thrV d L) none) Set.univ)
  isplitl [Hmw KY0 KY1 KY2 KY3 KI KV KR0 KR1 KR2 KR3 HG0 HG1 HG2 HG3 HW0 HW1 HW2 HW3 HS KOut HO]
  · iapply (gk_core d L (ysh (widL L)) O W fy fi fv f0 f1 f2 f3 (hin_slabK d L fi hfi))
    isplitl [Hmw]; · iexact Hmw
    isplitl [KY0]; · iexact KY0
    isplitl [KY1]; · iexact KY1
    isplitl [KY2]; · iexact KY2
    isplitl [KY3]; · iexact KY3
    isplitl [KI]; · iexact KI
    isplitl [KV]; · iexact KV
    isplitl [KR0]; · iexact KR0
    isplitl [KR1]; · iexact KR1
    isplitl [KR2]; · iexact KR2
    isplitl [KR3]; · iexact KR3
    isplitl [HG0]; · iexact HG0
    isplitl [HG1]; · iexact HG1
    isplitl [HG2]; · iexact HG2
    isplitl [HG3]; · iexact HG3
    isplitl [HW0]; · iexact HW0
    isplitl [HW1]; · iexact HW1
    isplitl [HW2]; · iexact HW2
    isplitl [HW3]; · iexact HW3
    isplitl [HS]; · iexact HS
    isplitl [KOut]; · iexact KOut
    iexact HO
  iintro %a ⟨HY0, HY1, HY2, HY3, HI, ⟨%gv, HV⟩, ⟨%g0, HR0⟩, ⟨%g1, HR1⟩, ⟨%g2, HR2⟩, ⟨%g3, HR3⟩, HG0, HG1, HG2, HG3, HW0, HW1, HW2, HW3, HS, HOut, HO⟩
  isplitl [HY0 HY1 HY2 HY3 Hkeep HI HOut]
  · isplitl [HY0 HY1 HY2 HY3 Hkeep]
    · iexists fy
      iapply (y_toks (F := F) (yLoc d) (ysh (widL L)) fy).2
      isplitl [HY0]; · iapply (Entails.of_eq (pts_yV (F := F) d L _ fy)); iexact HY0
      isplitl [HY1]; · iapply (Entails.of_eq (pts_yV (F := F) d L _ fy)); iexact HY1
      isplitl [HY2]; · iapply (Entails.of_eq (pts_yV (F := F) d L _ fy)); iexact HY2
      isplitl [HY3]; · iapply (Entails.of_eq (pts_yV (F := F) d L _ fy)); iexact HY3
      iexact Hkeep
    isplitl [HI]
    · iexists fi
      isplitl [HI]; · iapply (Entails.of_eq (pts_slabK (F := F) d L fi)); iexact HI
      ipureintro; exact hfi
    iapply (out_join (F := F) d L); iexact HOut
  isplitl [HV HR0 HR1 HR2 HR3 Hbufs]
  · isplitl [HV]; · iexists gv; iapply (Entails.of_eq (pts_whole (F := F) d L cc5_scratch0 fullShare gv)); iexact HV
    isplitl [HR0]; · iexists g0; iapply (Entails.of_eq (pts_whole (F := F) d L cc5_scratch1 fullShare g0)); iexact HR0
    isplitl [HR1]; · iexists g1; iapply (Entails.of_eq (pts_whole (F := F) d L cc5_scratch2 fullShare g1)); iexact HR1
    isplitl [HR2]; · iexists g2; iapply (Entails.of_eq (pts_whole (F := F) d L cc5_scratch3 fullShare g2)); iexact HR2
    isplitl [HR3]; · iexists g3; iapply (Entails.of_eq (pts_whole (F := F) d L cc5_scratch4 fullShare g3)); iexact HR3
    iexact Hbufs
  isplitl [HG0 HG1 HG2 HG3 HW0 HW1 HW2 HW3 HS Hsems]
  · isplitl [HG0]; · iexact HG0
    isplitl [HG1]; · iexact HG1
    isplitl [HG2]; · iexact HG2
    isplitl [HG3]; · iexact HG3
    isplitl [HW0]; · iexact HW0
    isplitl [HW1]; · iexact HW1
    isplitl [HW2]; · iexact HW2
    isplitl [HW3]; · iexact HW3
    isplitl [HS]; · iexact HS
    iexact Hsems
  iexact HO

/-! ## The launch theorem's obligation for the third call's tiles -/

/-- The grid coordinates of tile s of core c. -/
def coordsV (c : Fin (grid5.bound 0)) (s : Fin (grid5.bound 1)) : grid5.Coords :=
  fun | 0 => c | 1 => s | ⟨_ + 2, h⟩ => absurd h (Nat.not_lt.2 (Nat.le_add_left _ _))

/-- The body table's row for the third call on a vector subcore. -/
theorem defs₀_vec5 (c : Fin τ.nSC) (s : Fin τ.nSub) :
    defs₀ (F := F) (.scVector c s) 5 ()
      = SparseCore.onTile hcore5 hsub5 (fun c s => cc5_gk (coordsV c s)
          yV (Memref.isWhole_whole _) ixV (Memref.isWhole_whole _) oV (Memref.isWhole_whole _)
          ivV (Memref.isWhole_whole _) r0V (Memref.isWhole_whole _) r1V (Memref.isWhole_whole _)
          r2V (Memref.isWhole_whole _) r3V (Memref.isWhole_whole _)
          cc5_scratch5 cc5_scratch6 cc5_scratch7 cc5_scratch8 cc5_scratch9 cc5_scratch10 cc5_scratch11 cc5_scratch12 cc5_scoped0) ⟨⟩ c s := rfl

omit [FloatOps F] in
/-- A post over the waits already recorded or at no index is one over those or at the call's index. -/
theorem post_weaken {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The third call's share of tile i of core c is the share of the worker the tile's coordinates name. -/
theorem go_eq2 (d : Dev nD) (c : Fin ((K (F := F)).nCore 2)) (i : Fin ((K (F := F)).nSub 2))
    (h0 : ((K (F := F)).core 2 c).val < grid5.bound 0) (h1 : ((K (F := F)).sub 2 i).val < grid5.bound 1) :
    (P (F := F)).go 2 d c i = share2 (F := F) d (widL (coordsV ⟨((K (F := F)).core 2 c).val, h0⟩ ⟨((K (F := F)).sub 2 i).val, h1⟩)) := by
  show share2 (F := F) d (wid (Fin.cast (nCore_eq 2) c) (Fin.cast (nSub_eq 2) i)) = _
  congr 1

theorem td_eq2 (d : Dev nD) (c : Fin ((K (F := F)).nCore 2)) (i : Fin ((K (F := F)).nSub 2))
    (h0 : ((K (F := F)).core 2 c).val < grid5.bound 0) (h1 : ((K (F := F)).sub 2 i).val < grid5.bound 1) :
    (P (F := F)).td 2 d c i = share2 (F := F) d (widL (coordsV ⟨((K (F := F)).core 2 c).val, h0⟩ ⟨((K (F := F)).sub 2 i).val, h1⟩)) :=
  go_eq2 d c i h0 h1

set_option maxRecDepth 16384 in
/-- Every tile of the third call runs its body from its worker's share to its worker's share. -/
theorem tileObl2 (hF : (K (F := F)).Facts) : (K (F := F)).TileObl (D (F := F)) 𝒱₀.lift (P (F := F)) (Sum.inl none) 2 := by
  intro d c i O W hO _ _
  simp only [show (P (F := F)).ox = fun _ _ => 0 from rfl, add_zero]
  have hci : ((K (F := F)).core 2 c).val < grid5.bound 0 ∧ ((K (F := F)).sub 2 i).val < grid5.bound 1 := ⟨c.isLt, i.isLt⟩
  rw [go_eq2 d c i hci.1 hci.2, td_eq2 d c i hci.1 hci.2]
  change _ ⊢ wp _ _ _ (Pipeline.liftProg (defs₀ (F := F) (.scVector ((K (F := F)).core 2 c) ((K (F := F)).sub 2 i)) 5 ())) _
  refine BIBase.Entails.trans ?_ (Pipeline.wp_liftProg (D (F := F)) (Pipeline.defs_kernel pcfgs defs₀) 𝒱₀ _ Set.univ none _ _)
  rw [defs₀_vec5]; simp only [SparseCore.onTile, hci, and_self, ↓reduceDIte]
  refine BIBase.Entails.trans ?_ ((gk_body hF d (coordsV ⟨_, hci.1⟩ ⟨_, hci.2⟩) O W hO).trans (wp_mono frame _ _ fun _ => post_weaken))
  iintro ⟨Hlv, -, Hgo, Hb, Hs, HO⟩
  isplitl [Hlv]; · iexact Hlv
  isplitl [Hgo]; · iexact Hgo
  isplitl [Hb]; · iexact Hb
  isplitl [Hs]; · iexact Hs
  iexact HO

end Cert.KernelIdeal.Sc.Gather2

end
-- ==== Proof.GatherBody7.lean ====
/-
  The body of the sparse-core gather kernel of the fourth call, once, at a symbolic tile, for any float instance.

  Tile (c, s) is worker w = 2·s + c of 32. It copies slab w of the index array (32 lists of 128 row numbers) into its
  local index buffer, waits for the copy, and issues four indexed copies: rows idx[b][·] of y into row buffer b, on
  gather semaphore b (b = 0..3). Then eight trips; in trip g, for each slot b with j = 4g + b: wait for gather b (row
  buffer b holds the 128 rows list j names); copy row buffer b to output rows (32w + j)·128 … + 127 on write semaphore
  b; wait for it; and, when j + 4 < 32, issue the indexed copy of list j + 4 into row buffer b. One copy is outstanding
  per semaphore at any time, and nothing touches a copy's source or destination between its issue and its wait.
-/
import proofs.«215235_g2774548873965_cont_9to1_572_34_alg».proof.Proof.ScPay
import Idealize.ShloMosaic.Lib.SparseCore.Launch
import Idealize.ShloMosaic.Lib.SparseCore.Ops
import Idealize.ShloMosaic.Lib.SparseCore.Stream
import Idealize.ShloMosaic.Lib.Transfers
import Idealize.ShloMosaic.Lib.Pipeline.Kit
import Idealize.ShloMosaic.Lib.Tactic
import proofs.«215235_g2774548873965_cont_9to1_572_34_alg».proof.Proof.Gen.KernelIdeal.Skeleton

noncomputable section

namespace Cert.KernelIdeal.Sc.Gather3

open Cert.KernelIdeal
open Cert.KernelIdeal.Facts₀ Cert.KernelIdeal.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

/-! ## The tile and the buffers, as the program names them -/

abbrev cV (L : grid7.Coords) : Fin τ.nSC := (L 0).castLE hcore7
abbrev jV (L : grid7.Coords) : Fin τ.nSub := (L 1).castLE hsub7
abbrev thrV (d : Dev nD) (L : grid7.Coords) : Thread nD τ := V d (cV L) (jV L)

local notation "yV" => (Memref.whole Cert.KernelIdeal.main_v1_scv : Memref Cert.KernelIdeal.sig Kind.scVector Space.hbm Cert.KernelIdeal.S8192x128 EltTy.f32)
local notation "ixV" => (Memref.whole Cert.KernelIdeal.main_v31_scv : Memref Cert.KernelIdeal.sig Kind.scVector Space.hbm Cert.KernelIdeal.S32x32x128 EltTy.i32)
local notation "oV" => (Memref.whole Cert.KernelIdeal.main_v32_scv : Memref Cert.KernelIdeal.sig Kind.scVector Space.hbm Cert.KernelIdeal.S131072x128 EltTy.f32)
local notation "ivV" => (Memref.whole Cert.KernelIdeal.cc7_scratch0 : Memref Cert.KernelIdeal.sig Kind.scVector Space.vmem Cert.KernelIdeal.S32x128 EltTy.i32)
local notation "r0V" => (Memref.whole Cert.KernelIdeal.cc7_scratch1 : Memref Cert.KernelIdeal.sig Kind.scVector Space.vmem Cert.KernelIdeal.S128x128 EltTy.f32)
local notation "r1V" => (Memref.whole Cert.KernelIdeal.cc7_scratch2 : Memref Cert.KernelIdeal.sig Kind.scVector Space.vmem Cert.KernelIdeal.S128x128 EltTy.f32)
local notation "r2V" => (Memref.whole Cert.KernelIdeal.cc7_scratch3 : Memref Cert.KernelIdeal.sig Kind.scVector Space.vmem Cert.KernelIdeal.S128x128 EltTy.f32)
local notation "r3V" => (Memref.whole Cert.KernelIdeal.cc7_scratch4 : Memref Cert.KernelIdeal.sig Kind.scVector Space.vmem Cert.KernelIdeal.S128x128 EltTy.f32)

/-- The tile's slab of the index array, squeezed to its [32, 128] plane, as the program slices it. -/
abbrev slabK (L : grid7.Coords) : Memref sig .scVector .hbm S32x128 .i32 :=
  ((ixV).slice (Rect.unit (s := S32x32x128) (k7_off1 L) S1x32x128.size (k7_off1_inb L)) (fun _ => rfl)).squeeze S32x128 squeezes_S1x32x128_S32x128

/-- Output chunk 4t + b of the tile, as the program slices it (one abbreviation per slot: the slot is a literal word). -/
abbrev outK0 (L : grid7.Coords) (t : Fin k7_t1_loop.trips) : Memref sig .scVector .hbm S128x128 .f32 :=
  (oV).slice (Rect.unit (s := S131072x128) (k7_off3 L t 0#32) S128x128.size (k7_off3_inb L t 0)) (fun _ => rfl)
abbrev outK1 (L : grid7.Coords) (t : Fin k7_t1_loop.trips) : Memref sig .scVector .hbm S128x128 .f32 :=
  (oV).slice (Rect.unit (s := S131072x128) (k7_off3 L t 1#32) S128x128.size (k7_off3_inb L t 1)) (fun _ => rfl)
abbrev outK2 (L : grid7.Coords) (t : Fin k7_t1_loop.trips) : Memref sig .scVector .hbm S128x128 .f32 :=
  (oV).slice (Rect.unit (s := S131072x128) (k7_off3 L t 2#32) S128x128.size (k7_off3_inb L t 2)) (fun _ => rfl)
abbrev outK3 (L : grid7.Coords) (t : Fin k7_t1_loop.trips) : Memref sig .scVector .hbm S128x128 .f32 :=
  (oV).slice (Rect.unit (s := S131072x128) (k7_off3 L t 3#32) S128x128.size (k7_off3_inb L t 3)) (fun _ => rfl)

/-- List `off 0` of the local index buffer, as the program slices it. -/
abbrev idxRowAt (off : Fin 2 → ℕ) (hk : ∀ a, off a + S1x128.size a ≤ S32x128.size a) : Memref sig .scVector .vmem S128 .i32 :=
  ((ivV).slice (Rect.unit (s := S32x128) off S1x128.size hk) (fun _ => rfl)).squeeze S128 squeezes_S1x128_S128

/-- All of y, as the program slices it for a gather. -/
local notation "yAllK" => (Memref.slice (Memref.whole Cert.KernelIdeal.main_v1_scv : Memref Cert.KernelIdeal.sig Kind.scVector Space.hbm Cert.KernelIdeal.S8192x128 EltTy.f32) (Rect.unit (s := Cert.KernelIdeal.S8192x128) ![0, 0] Cert.KernelIdeal.S8192x128.size Cert.KernelIdeal.Facts₀.inb_S8192x128_S8192x128_0_0) (fun _ => rfl))

variable [FloatOps F]

abbrev 𝒱₀ : Variants := Variants.none

/-- A buffer the tile holds whole, by its own elements. -/
abbrev heldW {sp : Space} {s : Shape} {e : EltTy} (d : Dev nD) (L : grid7.Coords) (M : Memref sig .scVector sp s e) (q : PosShare TreeShare)
    (f : Buf (Elt F) (M.view.loc (thrV d L))) : sProp 𝕄 :=
  M.view.loc (thrV d L) ↦[M.view.set]{q} f

abbrev cellZ (d : Dev nD) (L : grid7.Coords) (a : DmaSems sig S_) : sProp 𝕄 := semVal ((thrV d L, SemLoc.dma a.sem) : GSem nD τ sig) 0

/-! ## The local index buffer as its 32 lists -/

omit [FloatOps F] in
theorem row_inb (j : Fin 32) : ∀ a, (![j.val, 0] : Fin 2 → ℕ) a + S1x128.size a ≤ S32x128.size a := by
  intro a
  match a with
  | 0 => have := j.isLt; show j.val + 1 ≤ 32; omega
  | 1 => show 0 + 128 ≤ 128; omega

/-- List j of the local index buffer. -/
abbrev idxRow (j : Fin 32) : Memref sig .scVector .vmem S128 .i32 := idxRowAt ![j.val, 0] (row_inb j)

/-- Two unit-stride rectangles at equal offsets and sizes are one. -/
theorem Rect.unit_congr {s : Shape} {off off' size size' : Fin s.rank → ℕ} (h1 : off = off') (h2 : size = size') (hk) (hk') :
    Rect.unit (s := s) off size hk = Rect.unit (s := s) off' size' hk' := by
  subst h1 h2; rfl

omit [FloatOps F] in
/-- The same list at another spelling of its offsets. -/
theorem idxRowAt_congr {off off' : Fin 2 → ℕ} (h : off = off') (hk) (hk') : idxRowAt off hk = idxRowAt off' hk' := by
  subst h; rfl

omit [FloatOps F] in
theorem set_idxRow (j : Fin 32) : (idxRow j).view.set = ((ivV).view.slice (S32x128.rowRect 0 j)).set := by
  show ((((ivV).view.slice (Rect.unit (s := S32x128) ![j.val, 0] S1x128.size (row_inb j)))).reshape S128 squeezes_S1x128_S128.numel_eq).set = _
  rw [View.set_reshape, View.set_slice, View.set_slice]
  refine congrArg (fun r : Rect S32x128 => r.set.map (ivV).view.emb) (Rect.unit_congr ?_ ?_ _ _)
  · funext a; match a with
    | 0 => rfl
    | 1 => rfl
  · funext a; match a with
    | 0 => rfl
    | 1 => rfl

/-- A list of the local index buffer, held whole by the tile. -/
abbrev rowPts (d : Dev nD) (L : grid7.Coords) (j : Fin 32) (f : Buf (Elt F) ((ivV).view.loc (thrV d L))) : sProp 𝕄 :=
  (idxRow j).view.loc (thrV d L) ↦[(idxRow j).view.set]{fullShare} f

omit [FloatOps F] in
/-- The local index buffer held whole is its 32 lists held each. -/
theorem iv_rows (d : Dev nD) (L : grid7.Coords) (f : Buf (Elt F) ((ivV).view.loc (thrV d L))) :
    ((ivV).view.loc (thrV d L) ↦[(ivV).view.set]{fullShare} f : sProp 𝕄) = bigSep Finset.univ fun j : Fin 32 => rowPts d L j f := by
  rw [pointsTo_rows (thrV d L) (ivV).view 0 fullShare f]
  refine bigSep_congr fun (j : Fin 32) _ => ?_
  show _ = ((idxRow j).view.loc (thrV d L) ↦[(idxRow j).view.set]{fullShare} f : sProp 𝕄)
  rw [set_idxRow]

/-! ## The lists' words are row numbers of y -/

omit [FloatOps F] in
/-- Whatever the local index buffer held before, once the slab has landed in it whole every word of every list is
    a word of the slab. -/
theorem hin_rows (d : Dev nD) (L : grid7.Coords) (fi : Buf (Elt F) ((slabK L).view.loc (thrV d L)))
    (hin : ∀ x, ((slabK L).view.read (Elt F) fi x).toNat < 8192)
    (g : Buf (Elt F) ((ivV).view.loc (thrV d L))) (pay : S32x128.Idx → Elt F .i32) (hpay : pay = (slabK L).view.read (Elt F) fi)
    (off : Fin 2 → ℕ) (hk : ∀ a, off a + S1x128.size a ≤ S32x128.size a) :
    ∀ x, (View.read (Elt F) (idxRowAt off hk).view
      ((ivV).view.writes (Elt F) g [⟨Rect.whole cc7_scratch0.ty.shape, pay⟩]) x).toNat < 8192 := by
  subst hpay; intro x
  have e : View.read (Elt F) (idxRowAt off hk).view ((ivV).view.writes (Elt F) g [⟨Rect.whole cc7_scratch0.ty.shape, (slabK L).view.read (Elt F) fi⟩]) x
      = View.read (Elt F) (ivV).view ((ivV).view.writes (Elt F) g [⟨Rect.whole cc7_scratch0.ty.shape, (slabK L).view.read (Elt F) fi⟩])
          ((Rect.unit (s := S32x128) off S1x128.size hk).emb ((Shape.reshapeEquiv squeezes_S1x128_S128.numel_eq) x)) := by
    rw [View.read_apply, View.read_apply]; rfl
  rw [e, View.read_writes_whole]
  exact hin _

omit [FloatOps F] in
/-- A list held, at another spelling of its offsets. -/
theorem rowPts_at (d : Dev nD) (L : grid7.Coords) (j : Fin 32) (off : Fin 2 → ℕ) (hk : ∀ a, off a + S1x128.size a ≤ S32x128.size a)
    (h : off = ![j.val, 0]) (f : Buf (Elt F) ((ivV).view.loc (thrV d L))) :
    rowPts d L j f = ((idxRowAt off hk).view.loc (thrV d L) ↦[(idxRowAt off hk).view.set]{fullShare} f : sProp 𝕄) := by
  subst h; rfl

/-! ## The loop's conditions, by trip -/

omit [FloatOps F] in
/-- In every trip but the last each slot issues its next gather; in the last none does. -/
theorem conds : ∀ k : Fin k7_t1_loop.trips,
    (k7_cond1 k = 1#1 ↔ k.val < 7) ∧ (k7_cond2 k = 1#1 ↔ ¬ k.val < 7) ∧ (k7_cond3 k = 1#1 ↔ k.val < 7) ∧ (k7_cond4 k = 1#1 ↔ ¬ k.val < 7)
    ∧ (k7_cond5 k = 1#1 ↔ k.val < 7) ∧ (k7_cond6 k = 1#1 ↔ ¬ k.val < 7) ∧ (k7_cond7 k = 1#1 ↔ k.val < 7) ∧ (k7_cond8 k = 1#1 ↔ ¬ k.val < 7) := by
  decide +kernel

/-! ## What the loop holds before trip k -/

omit [FloatOps F] in
theorem rowsInb (n : ℕ) (h : n < 32) : ∀ a, (![n, 0] : Fin 2 → ℕ) a + S1x128.size a ≤ S32x128.size a := by
  intro a
  match a with
  | 0 => show n + 1 ≤ 32; omega
  | 1 => show 0 + 128 ≤ 128; omega

/-- The lists no gather holds before trip k: all but lists 4k … 4k + 3. -/
def idle (k : ℕ) : Finset (Fin 32) := Finset.univ.filter fun j => j.val < 4 * k ∨ 4 * k + 4 ≤ j.val

/-- The tile's four output chunks of trip t, at some contents. -/
abbrev outTrip (d : Dev nD) (L : grid7.Coords) (t : Fin k7_t1_loop.trips) : sProp 𝕄 :=
  iprop((∃ f, heldW d L (outK0 L t) fullShare f) ∗ (∃ f, heldW d L (outK1 L t) fullShare f)
    ∗ (∃ f, heldW d L (outK2 L t) fullShare f) ∗ (∃ f, heldW d L (outK3 L t) fullShare f))

/-- A gather in flight on a slot: it will hand back the slot's row buffer written, the list it reads, and the share
    of y it reads. -/
abbrev gFlight (d : Dev nD) (L : grid7.Coords) (q : PosShare TreeShare) (sem : DmaSems sig S_) (n : ℕ)
    (rV : Memref sig .scVector .vmem S128x128 .f32) (off : Fin 2 → ℕ) (hk : ∀ a, off a + S1x128.size a ≤ S32x128.size a)
    (fr : Buf (Elt F) (rV.view.loc (thrV d L))) (fvc : Buf (Elt F) ((ivV).view.loc (thrV d L)))
    (fy : Buf (Elt F) ((yV).view.loc (thrV d L))) : sProp 𝕄 :=
  Transfers.Flight countersEmb (thrV d L) (SemLoc.dma sem.sem) (default : HIx 4) 524288
    iprop(((rV.view.loc (thrV d L) ↦[rV.view.set]{fullShare} fr)
        ∗ ((idxRowAt off hk).view.loc (thrV d L) ↦[(idxRowAt off hk).view.set]{fullShare} fvc))
      ∗ ((yV).view.loc (thrV d L) ↦[(yAllK).view.set]{Transfers.shareTokN q n} fy))

/-- What a gather leaves with the tile of the share of y it reads: nothing of y's elements. -/
abbrev yRest (d : Dev nD) (L : grid7.Coords) (q : PosShare TreeShare) (n : ℕ) (fy : Buf (Elt F) ((yV).view.loc (thrV d L))) : sProp 𝕄 :=
  (yV).view.loc (thrV d L) ↦[(yV).view.set \ (yAllK).view.set]{Transfers.shareTokN q n} fy

/-- Before trip k < 8: the four gathers of lists 4k … 4k + 3 in flight, every other list idle, the write semaphores at
    zero, the 32 output chunks at some contents. -/
def invA (d : Dev nD) (L : grid7.Coords) (q : PosShare TreeShare) (O : CellTallies nD τ sig (HIx 4)) (W : Waits sig (HIx 4))
    (fy : Buf (Elt F) ((yV).view.loc (thrV d L))) (fvc : Buf (Elt F) ((ivV).view.loc (thrV d L))) (k : ℕ) (hk8 : k < 8) : sProp 𝕄 :=
  iprop(Transfers.MayWaits (thrV d L) (default : HIx 4) O
    ∗ (∃ W', ⌜∀ p ∈ W', p ∈ W ∨ p.2 = none⌝ ∗ owes (thrV d L) O W')
    ∗ (cellZ d L cc7_scratch9 ∗ cellZ d L cc7_scratch10 ∗ cellZ d L cc7_scratch11 ∗ cellZ d L cc7_scratch12)
    ∗ bigSep Finset.univ (outTrip d L)
    ∗ bigSep (idle k) (fun j => rowPts d L j fvc)
    ∗ ((∃ fr, gFlight d L q cc7_scratch5 68 r0V ![4 * k + 0, 0] (rowsInb _ (by omega)) fr fvc fy) ∗ yRest d L q 68 fy)
    ∗ ((∃ fr, gFlight d L q cc7_scratch6 69 r1V ![4 * k + 1, 0] (rowsInb _ (by omega)) fr fvc fy) ∗ yRest d L q 69 fy)
    ∗ ((∃ fr, gFlight d L q cc7_scratch7 70 r2V ![4 * k + 2, 0] (rowsInb _ (by omega)) fr fvc fy) ∗ yRest d L q 70 fy)
    ∗ ((∃ fr, gFlight d L q cc7_scratch8 71 r3V ![4 * k + 3, 0] (rowsInb _ (by omega)) fr fvc fy) ∗ yRest d L q 71 fy))

omit [FloatOps F] in
theorem mem_idle_next (k : ℕ) (hk : k < 7) (b : ℕ) (hb : b < 4) : (⟨4 * k + 4 + b, by omega⟩ : Fin 32) ∈ idle k :=
  Finset.mem_filter.mpr ⟨Finset.mem_univ _, Or.inr (by show 4 * k + 4 ≤ 4 * k + 4 + b; omega)⟩

omit [FloatOps F] in
/-- The same gather at another spelling of its list's offsets. -/
theorem gFlight_off (d : Dev nD) (L : grid7.Coords) (q : PosShare TreeShare) (sem : DmaSems sig S_) (n : ℕ)
    (rV : Memref sig .scVector .vmem S128x128 .f32) {off off' : Fin 2 → ℕ} (h : off = off') (hk) (hk')
    (fr : Buf (Elt F) (rV.view.loc (thrV d L))) (fvc : Buf (Elt F) ((ivV).view.loc (thrV d L)))
    (fy : Buf (Elt F) ((yV).view.loc (thrV d L))) :
    gFlight d L q sem n rV off hk fr fvc fy = gFlight d L q sem n rV off' hk' fr fvc fy := by
  subst h; rfl

omit [FloatOps F] in
/-- A wait recorded at the default index keeps the waits among the earlier ones and those at no index. -/
theorem waits_ins {W W' : Waits sig (HIx 4)} (h : ∀ p ∈ W', p ∈ W ∨ p.2 = none) (s : SemLoc sig) :
    ∀ p ∈ insert (s, (default : HIx 4)) W', p ∈ W ∨ p.2 = none := by
  intro p hp
  rcases Finset.mem_insert.mp hp with hp | hp
  · exact .inr (hp ▸ rfl)
  · exact h p hp

omit [FloatOps F] in
/-- After trip k < 7 the idle lists are: those idle before but the four just lent, and the four just handed back. -/
theorem idle_step (k : ℕ) (hk : k < 7) (Φ : Fin 32 → sProp 𝕄)
    (h0 : 4 * k + 0 < 32) (h1 : 4 * k + 1 < 32) (h2 : 4 * k + 2 < 32) (h3 : 4 * k + 3 < 32)
    (h4 : 4 * k + 4 + 0 < 32) (h5 : 4 * k + 4 + 1 < 32) (h6 : 4 * k + 4 + 2 < 32) (h7 : 4 * k + 4 + 3 < 32) :
    iprop(bigSep (((((idle k).erase ⟨4 * k + 4 + 0, h4⟩).erase ⟨4 * k + 4 + 1, h5⟩).erase ⟨4 * k + 4 + 2, h6⟩).erase ⟨4 * k + 4 + 3, h7⟩) Φ
        ∗ Φ ⟨4 * k + 0, h0⟩ ∗ Φ ⟨4 * k + 1, h1⟩ ∗ Φ ⟨4 * k + 2, h2⟩ ∗ Φ ⟨4 * k + 3, h3⟩)
      ⊢ bigSep (idle (k + 1)) Φ := by
  have e : ((((idle (k + 1)).erase (⟨4 * k + 0, h0⟩ : Fin 32)).erase ⟨4 * k + 1, h1⟩).erase ⟨4 * k + 2, h2⟩).erase ⟨4 * k + 3, h3⟩
      = ((((idle k).erase (⟨4 * k + 4 + 0, h4⟩ : Fin 32)).erase ⟨4 * k + 4 + 1, h5⟩).erase ⟨4 * k + 4 + 2, h6⟩).erase ⟨4 * k + 4 + 3, h7⟩ := by
    ext j
    simp only [idle, Finset.mem_erase, Finset.mem_filter, Finset.mem_univ, true_and, ne_eq, Fin.ext_iff]
    omega
  have m0 : (⟨4 * k + 0, h0⟩ : Fin 32) ∈ idle (k + 1) := Finset.mem_filter.mpr ⟨Finset.mem_univ _, Or.inl (show 4 * k + 0 < 4 * (k + 1) by omega)⟩
  have m1 : (⟨4 * k + 1, h1⟩ : Fin 32) ∈ idle (k + 1) := Finset.mem_filter.mpr ⟨Finset.mem_univ _, Or.inl (show 4 * k + 1 < 4 * (k + 1) by omega)⟩
  have m2 : (⟨4 * k + 2, h2⟩ : Fin 32) ∈ idle (k + 1) := Finset.mem_filter.mpr ⟨Finset.mem_univ _, Or.inl (show 4 * k + 2 < 4 * (k + 1) by omega)⟩
  have m3 : (⟨4 * k + 3, h3⟩ : Fin 32) ∈ idle (k + 1) := Finset.mem_filter.mpr ⟨Finset.mem_univ _, Or.inl (show 4 * k + 3 < 4 * (k + 1) by omega)⟩
  rw [SparseCore.bigSep_erase' m0,
    SparseCore.bigSep_erase' (Finset.mem_erase.mpr ⟨by simp [Fin.ext_iff], m1⟩),
    SparseCore.bigSep_erase' (Finset.mem_erase.mpr ⟨by simp [Fin.ext_iff], Finset.mem_erase.mpr ⟨by simp [Fin.ext_iff], m2⟩⟩),
    SparseCore.bigSep_erase' (Finset.mem_erase.mpr ⟨by simp [Fin.ext_iff], Finset.mem_erase.mpr ⟨by simp [Fin.ext_iff], Finset.mem_erase.mpr ⟨by simp [Fin.ext_iff], m3⟩⟩⟩), e]
  iintro ⟨H, H0, H1, H2, H3⟩
  isplitl [H0]; · iexact H0
  isplitl [H1]; · iexact H1
  isplitl [H2]; · iexact H2
  isplitl [H3]; · iexact H3
  iexact H

set_option maxHeartbeats 4000000 in
theorem gk_tripA (d : Dev nD) (L : grid7.Coords) (q : PosShare TreeShare) (O : CellTallies nD τ sig (HIx 4)) (W : Waits sig (HIx 4))
    (fy : Buf (Elt F) ((yV).view.loc (thrV d L))) (fvc : Buf (Elt F) ((ivV).view.loc (thrV d L)))
    (hrowc : ∀ (off : Fin 2 → ℕ) (hk : ∀ a, off a + S1x128.size a ≤ S32x128.size a) (x : S128.Idx),
      (View.read (Elt F) (idxRowAt off hk).view fvc x).toNat < 8192)
    (v1 c0 c1 : BitVec 32) (k : Fin k7_t1_loop.trips) (hk : k.val < 7) (acc : Unit) :
    invA d L q O W fy fvc k.val (by omega)
      ⊢ wp frame (wpE (defs₀ (F := F)) 𝒱₀ (thrV d L) none) Set.univ
          (Gen.k7_t1_body L yV (Memref.isWhole_whole _) ixV (Memref.isWhole_whole _) oV (Memref.isWhole_whole _)
            ivV (Memref.isWhole_whole _) r0V (Memref.isWhole_whole _) r1V (Memref.isWhole_whole _)
            r2V (Memref.isWhole_whole _) r3V (Memref.isWhole_whole _)
            cc7_scratch5 cc7_scratch6 cc7_scratch7 cc7_scratch8 cc7_scratch9 cc7_scratch10 cc7_scratch11 cc7_scratch12 cc7_scoped0
            v1 c0 c1 k acc)
          fun _ => invA d L q O W fy fvc (k.val + 1) (by omega) := by
  obtain ⟨c1', c2', c3', c4', c5', c6', c7', c8'⟩ := conds k
  have hc1 : k7_cond1 k = 1#1 := c1'.mpr hk
  have hc2 : ¬ k7_cond2 k = 1#1 := fun h => (c2'.mp h) hk
  have hc3 : k7_cond3 k = 1#1 := c3'.mpr hk
  have hc4 : ¬ k7_cond4 k = 1#1 := fun h => (c4'.mp h) hk
  have hc5 : k7_cond5 k = 1#1 := c5'.mpr hk
  have hc6 : ¬ k7_cond6 k = 1#1 := fun h => (c6'.mp h) hk
  have hc7 : k7_cond7 k = 1#1 := c7'.mpr hk
  have hc8 : ¬ k7_cond8 k = 1#1 := fun h => (c8'.mp h) hk
  unfold invA gFlight yRest
  iintro ⟨#Hmw, ⟨%W', %hW', HO⟩, ⟨HW0, HW1, HW2, HW3⟩, Hout, Hrows, ⟨⟨%fr0, HG0⟩, HY0⟩, ⟨⟨%fr1, HG1⟩, HY1⟩, ⟨⟨%fr2, HG2⟩, HY2⟩, ⟨⟨%fr3, HG3⟩, HY3⟩⟩
  -- the four output chunks of this trip
  ihave Hx := (Entails.of_eq (SparseCore.bigSep_erase' (i := k) (Finset.mem_univ _))) $$ Hout
  icases Hx with ⟨⟨⟨%fo0, HO0⟩, ⟨%fo1, HO1⟩, ⟨%fo2, HO2⟩, ⟨%fo3, HO3⟩⟩, Hout⟩
  -- the four lists the trip's gathers will read
  ihave Hx := (Entails.of_eq (SparseCore.bigSep_erase' (i := (⟨4 * k.val + 4 + 0, by omega⟩ : Fin 32)) (mem_idle_next k.val hk 0 (by omega)))) $$ Hrows
  icases Hx with ⟨Hl0, Hrows⟩
  ihave Hx := (Entails.of_eq (SparseCore.bigSep_erase' (i := (⟨4 * k.val + 4 + 1, by omega⟩ : Fin 32))
    (Finset.mem_erase.mpr ⟨by simp [Fin.ext_iff], mem_idle_next k.val hk 1 (by omega)⟩))) $$ Hrows
  icases Hx with ⟨Hl1, Hrows⟩
  ihave Hx := (Entails.of_eq (SparseCore.bigSep_erase' (i := (⟨4 * k.val + 4 + 2, by omega⟩ : Fin 32))
    (Finset.mem_erase.mpr ⟨by simp [Fin.ext_iff], Finset.mem_erase.mpr ⟨by simp [Fin.ext_iff], mem_idle_next k.val hk 2 (by omega)⟩⟩))) $$ Hrows
  icases Hx with ⟨Hl2, Hrows⟩
  ihave Hx := (Entails.of_eq (SparseCore.bigSep_erase' (i := (⟨4 * k.val + 4 + 3, by omega⟩ : Fin 32))
    (Finset.mem_erase.mpr ⟨by simp [Fin.ext_iff], Finset.mem_erase.mpr ⟨by simp [Fin.ext_iff], Finset.mem_erase.mpr ⟨by simp [Fin.ext_iff], mem_idle_next k.val hk 3 (by omega)⟩⟩⟩))) $$ Hrows
  icases Hx with ⟨Hl3, Hrows⟩
  ihave Hl0' := (Entails.of_eq (rowPts_at (F := F) d L _ (k7_off5 k) (k7_off5_inb k hc1) (Gen.k7_off5_eq k) _)) $$ Hl0
  ihave Hl1' := (Entails.of_eq (rowPts_at (F := F) d L _ (k7_off8 k) (k7_off8_inb k hc3) (Gen.k7_off8_eq k) _)) $$ Hl1
  ihave Hl2' := (Entails.of_eq (rowPts_at (F := F) d L _ (k7_off11 k) (k7_off11_inb k hc5) (Gen.k7_off11_eq k) _)) $$ Hl2
  ihave Hl3' := (Entails.of_eq (rowPts_at (F := F) d L _ (k7_off14 k) (k7_off14_inb k hc7) (Gen.k7_off14_eq k) _)) $$ Hl3
  sl_unfold [Gen.k7_t1_body]
  sl_exec (disch := first | sl_exact hc1 | sl_exact hc2 | sl_exact hc3 | sl_exact hc4 | sl_exact hc5 | sl_exact hc6 | sl_exact hc7 | sl_exact hc8)
  sl_step
  isplitr; · iexact Hmw
  isplitl [HO]
  · iexists _; isplitr
    swap; · iexact HO
    ipureintro
    exact waits_ins (waits_ins (waits_ins (waits_ins (waits_ins (waits_ins (waits_ins (waits_ins hW' _) _) _) _) _) _) _) _
  isplitl [HW0 HW1 HW2 HW3]
  · isplitl [HW0]; · iexact HW0
    isplitl [HW1]; · iexact HW1
    isplitl [HW2]; · iexact HW2
    iexact HW3
  isplitl [Hout HO0 HO1 HO2 HO3]
  · iapply (Entails.of_eq (SparseCore.bigSep_erase' (i := k) (Finset.mem_univ _)).symm)
    isplitl [HO0 HO1 HO2 HO3]
    · isplitl [HO0]; · iexists _; iexact HO0
      isplitl [HO1]; · iexists _; iexact HO1
      isplitl [HO2]; · iexists _; iexact HO2
      iexists _; iexact HO3
    iexact Hout
  isplitl [Hrows HG0_dst_and HG1_dst_and HG2_dst_and HG3_dst_and]
  · iapply (idle_step (F := F) k.val hk (fun j => rowPts d L j fvc) (by omega) (by omega) (by omega) (by omega) (by omega) (by omega) (by omega) (by omega))
    isplitl [Hrows]; · iexact Hrows
    isplitl [HG0_dst_and]; · iexact HG0_dst_and
    isplitl [HG1_dst_and]; · iexact HG1_dst_and
    isplitl [HG2_dst_and]; · iexact HG2_dst_and
    iexact HG3_dst_and
  isplitl [HG0 HY0]
  · isplitl [HG0]
    · iexists _
      iapply (Entails.of_eq (gFlight_off (F := F) d L q cc7_scratch5 68 r0V ((Gen.k7_off5_eq k).trans (by rw [show 4 * (k.val + 1) + 0 = 4 * k.val + 4 by omega])) (k7_off5_inb k hc1) _ _ fvc fy))
      iexact HG0
    iexact HY0
  isplitl [HG1 HY1]
  · isplitl [HG1]
    · iexists _
      iapply (Entails.of_eq (gFlight_off (F := F) d L q cc7_scratch6 69 r1V ((Gen.k7_off8_eq k).trans (by rw [show 4 * (k.val + 1) + 1 = 4 * k.val + 5 by omega])) (k7_off8_inb k hc3) _ _ fvc fy))
      iexact HG1
    iexact HY1
  isplitl [HG2 HY2]
  · isplitl [HG2]
    · iexists _
      iapply (Entails.of_eq (gFlight_off (F := F) d L q cc7_scratch7 70 r2V ((Gen.k7_off11_eq k).trans (by rw [show 4 * (k.val + 1) + 2 = 4 * k.val + 6 by omega])) (k7_off11_inb k hc5) _ _ fvc fy))
      iexact HG2
    iexact HY2
  isplitl [HG3]
  · iexists _
    iapply (Entails.of_eq (gFlight_off (F := F) d L q cc7_scratch8 71 r3V ((Gen.k7_off14_eq k).trans (by rw [show 4 * (k.val + 1) + 3 = 4 * k.val + 7 by omega])) (k7_off14_inb k hc7) _ _ fvc fy))
    iexact HG3
  iexact HY3

omit [FloatOps F] in
/-- After the last trip every list is idle. -/
theorem idle_last (k : ℕ) (hk : k = 7) (Φ : Fin 32 → sProp 𝕄)
    (h0 : 4 * k + 0 < 32) (h1 : 4 * k + 1 < 32) (h2 : 4 * k + 2 < 32) (h3 : 4 * k + 3 < 32) :
    iprop(bigSep (idle k) Φ ∗ Φ ⟨4 * k + 0, h0⟩ ∗ Φ ⟨4 * k + 1, h1⟩ ∗ Φ ⟨4 * k + 2, h2⟩ ∗ Φ ⟨4 * k + 3, h3⟩)
      ⊢ bigSep Finset.univ Φ := by
  subst hk
  have e : ((((Finset.univ : Finset (Fin 32)).erase (⟨4 * 7 + 0, h0⟩ : Fin 32)).erase ⟨4 * 7 + 1, h1⟩).erase ⟨4 * 7 + 2, h2⟩).erase ⟨4 * 7 + 3, h3⟩ = idle 7 := by
    ext j
    simp only [idle, Finset.mem_erase, Finset.mem_filter, Finset.mem_univ, true_and, and_true, ne_eq, Fin.ext_iff]
    omega
  rw [SparseCore.bigSep_erase' (Finset.mem_univ (⟨4 * 7 + 0, h0⟩ : Fin 32)),
    SparseCore.bigSep_erase' (i := (⟨4 * 7 + 1, h1⟩ : Fin 32)) (Finset.mem_erase.mpr ⟨by simp [Fin.ext_iff], Finset.mem_univ _⟩),
    SparseCore.bigSep_erase' (i := (⟨4 * 7 + 2, h2⟩ : Fin 32)) (Finset.mem_erase.mpr ⟨by simp [Fin.ext_iff], Finset.mem_erase.mpr ⟨by simp [Fin.ext_iff], Finset.mem_univ _⟩⟩),
    SparseCore.bigSep_erase' (i := (⟨4 * 7 + 3, h3⟩ : Fin 32)) (Finset.mem_erase.mpr ⟨by simp [Fin.ext_iff], Finset.mem_erase.mpr ⟨by simp [Fin.ext_iff], Finset.mem_erase.mpr ⟨by simp [Fin.ext_iff], Finset.mem_univ _⟩⟩⟩), e]
  iintro ⟨H, H0, H1, H2, H3⟩
  isplitl [H0]; · iexact H0
  isplitl [H1]; · iexact H1
  isplitl [H2]; · iexact H2
  isplitl [H3]; · iexact H3
  iexact H

omit [FloatOps F] in
/-- Before the first trip lists 0 … 3 are lent. -/
theorem idle_zero : idle 0 = ((((Finset.univ : Finset (Fin 32)).erase 0).erase 1).erase 2).erase 3 := by
  ext j
  simp only [idle, Finset.mem_erase, Finset.mem_filter, Finset.mem_univ, true_and, and_true, ne_eq, Fin.ext_iff]
  show j.val < 4 * 0 ∨ 4 * 0 + 4 ≤ j.val ↔ ¬ j.val = 3 ∧ ¬ j.val = 2 ∧ ¬ j.val = 1 ∧ ¬ j.val = 0
  omega

/-- After the last trip: nothing in flight; every list idle, the row buffers at some contents, every semaphore at
    zero, the four shares of y whole again, the 32 output chunks at some contents. -/
def invEnd (d : Dev nD) (L : grid7.Coords) (q : PosShare TreeShare) (O : CellTallies nD τ sig (HIx 4)) (W : Waits sig (HIx 4))
    (fy : Buf (Elt F) ((yV).view.loc (thrV d L))) (fvc : Buf (Elt F) ((ivV).view.loc (thrV d L))) : sProp 𝕄 :=
  iprop(Transfers.MayWaits (thrV d L) (default : HIx 4) O
    ∗ (∃ W', ⌜∀ p ∈ W', p ∈ W ∨ p.2 = none⌝ ∗ owes (thrV d L) O W')
    ∗ (cellZ d L cc7_scratch9 ∗ cellZ d L cc7_scratch10 ∗ cellZ d L cc7_scratch11 ∗ cellZ d L cc7_scratch12)
    ∗ bigSep Finset.univ (outTrip d L)
    ∗ bigSep Finset.univ (fun j => rowPts d L j fvc)
    ∗ ((∃ fr, heldW d L r0V fullShare fr) ∗ cellZ d L cc7_scratch5 ∗ heldW d L yV (Transfers.shareTokN q 68) fy)
    ∗ ((∃ fr, heldW d L r1V fullShare fr) ∗ cellZ d L cc7_scratch6 ∗ heldW d L yV (Transfers.shareTokN q 69) fy)
    ∗ ((∃ fr, heldW d L r2V fullShare fr) ∗ cellZ d L cc7_scratch7 ∗ heldW d L yV (Transfers.shareTokN q 70) fy)
    ∗ ((∃ fr, heldW d L r3V fullShare fr) ∗ cellZ d L cc7_scratch8 ∗ heldW d L yV (Transfers.shareTokN q 71) fy))

set_option maxHeartbeats 4000000 in
theorem gk_tripB (d : Dev nD) (L : grid7.Coords) (q : PosShare TreeShare) (O : CellTallies nD τ sig (HIx 4)) (W : Waits sig (HIx 4))
    (fy : Buf (Elt F) ((yV).view.loc (thrV d L))) (fvc : Buf (Elt F) ((ivV).view.loc (thrV d L)))
    (hrowc : ∀ (off : Fin 2 → ℕ) (hk : ∀ a, off a + S1x128.size a ≤ S32x128.size a) (x : S128.Idx),
      (View.read (Elt F) (idxRowAt off hk).view fvc x).toNat < 8192)
    (v1 c0 c1 : BitVec 32) (k : Fin k7_t1_loop.trips) (hk : k.val = 7) (acc : Unit) :
    invA d L q O W fy fvc k.val (by omega)
      ⊢ wp frame (wpE (defs₀ (F := F)) 𝒱₀ (thrV d L) none) Set.univ
          (Gen.k7_t1_body L yV (Memref.isWhole_whole _) ixV (Memref.isWhole_whole _) oV (Memref.isWhole_whole _)
            ivV (Memref.isWhole_whole _) r0V (Memref.isWhole_whole _) r1V (Memref.isWhole_whole _)
            r2V (Memref.isWhole_whole _) r3V (Memref.isWhole_whole _)
            cc7_scratch5 cc7_scratch6 cc7_scratch7 cc7_scratch8 cc7_scratch9 cc7_scratch10 cc7_scratch11 cc7_scratch12 cc7_scoped0
            v1 c0 c1 k acc)
          fun _ => invEnd d L q O W fy fvc := by
  obtain ⟨c1', c2', c3', c4', c5', c6', c7', c8'⟩ := conds k
  have hn : ¬ k.val < 7 := by omega
  have hc1 : ¬ k7_cond1 k = 1#1 := fun h => hn (c1'.mp h)
  have hc2 : k7_cond2 k = 1#1 := c2'.mpr hn
  have hc3 : ¬ k7_cond3 k = 1#1 := fun h => hn (c3'.mp h)
  have hc4 : k7_cond4 k = 1#1 := c4'.mpr hn
  have hc5 : ¬ k7_cond5 k = 1#1 := fun h => hn (c5'.mp h)
  have hc6 : k7_cond6 k = 1#1 := c6'.mpr hn
  have hc7 : ¬ k7_cond7 k = 1#1 := fun h => hn (c7'.mp h)
  have hc8 : k7_cond8 k = 1#1 := c8'.mpr hn
  unfold invA invEnd gFlight yRest
  iintro ⟨#Hmw, ⟨%W', %hW', HO⟩, ⟨HW0, HW1, HW2, HW3⟩, Hout, Hrows, ⟨⟨%fr0, HG0⟩, HY0⟩, ⟨⟨%fr1, HG1⟩, HY1⟩, ⟨⟨%fr2, HG2⟩, HY2⟩, ⟨⟨%fr3, HG3⟩, HY3⟩⟩
  ihave Hx := (Entails.of_eq (SparseCore.bigSep_erase' (i := k) (Finset.mem_univ _))) $$ Hout
  icases Hx with ⟨⟨⟨%fo0, HO0⟩, ⟨%fo1, HO1⟩, ⟨%fo2, HO2⟩, ⟨%fo3, HO3⟩⟩, Hout⟩
  sl_unfold [Gen.k7_t1_body]
  sl_exec (disch := first | sl_exact hc1 | sl_exact hc2 | sl_exact hc3 | sl_exact hc4 | sl_exact hc5 | sl_exact hc6 | sl_exact hc7 | sl_exact hc8)
  sl_step
  isplitr; · iexact Hmw
  isplitl [HO]
  · iexists _; isplitr
    swap; · iexact HO
    ipureintro
    exact waits_ins (waits_ins (waits_ins (waits_ins (waits_ins (waits_ins (waits_ins (waits_ins hW' _) _) _) _) _) _) _) _
  isplitl [HW0 HW1 HW2 HW3]
  · isplitl [HW0]; · iexact HW0
    isplitl [HW1]; · iexact HW1
    isplitl [HW2]; · iexact HW2
    iexact HW3
  isplitl [Hout HO0 HO1 HO2 HO3]
  · iapply (Entails.of_eq (SparseCore.bigSep_erase' (i := k) (Finset.mem_univ _)).symm)
    isplitl [HO0 HO1 HO2 HO3]
    · isplitl [HO0]; · iexists _; iexact HO0
      isplitl [HO1]; · iexists _; iexact HO1
      isplitl [HO2]; · iexists _; iexact HO2
      iexists _; iexact HO3
    iexact Hout
  isplitl [Hrows HG0_dst_and HG1_dst_and HG2_dst_and HG3_dst_and]
  · iapply (idle_last (F := F) k.val hk (fun j => rowPts d L j fvc) (by omega) (by omega) (by omega) (by omega))
    isplitl [Hrows]; · iexact Hrows
    isplitl [HG0_dst_and]; · iexact HG0_dst_and
    isplitl [HG1_dst_and]; · iexact HG1_dst_and
    isplitl [HG2_dst_and]; · iexact HG2_dst_and
    iexact HG3_dst_and
  isplitl [HG0_dst HG0 HY0]
  · isplitl [HG0_dst]; · iexists _; iexact HG0_dst
    isplitl [HG0]; · iexact HG0
    iexact HY0
  isplitl [HG1_dst HG1 HY1]
  · isplitl [HG1_dst]; · iexists _; iexact HG1_dst
    isplitl [HG1]; · iexact HG1
    iexact HY1
  isplitl [HG2_dst HG2 HY2]
  · isplitl [HG2_dst]; · iexists _; iexact HG2_dst
    isplitl [HG2]; · iexact HG2
    iexact HY2
  isplitl [HG3_dst]; · iexists _; iexact HG3_dst
  isplitl [HG3]; · iexact HG3
  iexact HY3

/-! ## The loop's invariant, and the whole body -/

/-- What the loop holds before trip k: the gathers of trip k in flight while there is a trip k, nothing after. -/
def inv (d : Dev nD) (L : grid7.Coords) (q : PosShare TreeShare) (O : CellTallies nD τ sig (HIx 4)) (W : Waits sig (HIx 4))
    (fy : Buf (Elt F) ((yV).view.loc (thrV d L))) (fvc : Buf (Elt F) ((ivV).view.loc (thrV d L))) (k : ℕ) : Unit → sProp 𝕄 :=
  fun _ => if h : k < 8 then invA d L q O W fy fvc k h else invEnd d L q O W fy fvc

theorem inv_lt (d : Dev nD) (L : grid7.Coords) (q : PosShare TreeShare) (O : CellTallies nD τ sig (HIx 4)) (W : Waits sig (HIx 4))
    (fy : Buf (Elt F) ((yV).view.loc (thrV d L))) (fvc : Buf (Elt F) ((ivV).view.loc (thrV d L))) (k : ℕ) (h : k < 8) :
    inv d L q O W fy fvc k = fun _ => invA d L q O W fy fvc k h := by
  funext _; exact dif_pos h

theorem inv_ge (d : Dev nD) (L : grid7.Coords) (q : PosShare TreeShare) (O : CellTallies nD τ sig (HIx 4)) (W : Waits sig (HIx 4))
    (fy : Buf (Elt F) ((yV).view.loc (thrV d L))) (fvc : Buf (Elt F) ((ivV).view.loc (thrV d L))) (k : ℕ) (h : ¬ k < 8) :
    inv d L q O W fy fvc k = fun _ => invEnd d L q O W fy fvc := by
  funext _; exact dif_neg h

omit [FloatOps F] in
theorem trips_eq : k7_t1_loop.trips = 8 := by decide

theorem inv_end (d : Dev nD) (L : grid7.Coords) (q : PosShare TreeShare) (O : CellTallies nD τ sig (HIx 4)) (W : Waits sig (HIx 4))
    (fy : Buf (Elt F) ((yV).view.loc (thrV d L))) (fvc : Buf (Elt F) ((ivV).view.loc (thrV d L))) :
    inv d L q O W fy fvc (Scf.trips k7_t1_loop.lb k7_t1_loop.ub k7_t1_loop.st) = fun _ => invEnd d L q O W fy fvc :=
  inv_ge d L q O W fy fvc _ (by decide)

set_option maxHeartbeats 4000000 in
/-- The body on tile (L 0, L 1) of device d, from the tile's own spellings of what it holds: four read shares of y, its
    slab of the index array with every word a row number of y, its 32 output chunks, its local index buffer, its four
    row buffers, its nine semaphores at zero. It ends with the same, the output chunks, the local buffers at some
    contents. -/
theorem gk_core (d : Dev nD) (L : grid7.Coords) (q : PosShare TreeShare)
    (O : CellTallies nD τ sig (HIx 4)) (W : Waits sig (HIx 4))
    (fy : Buf (Elt F) ((yV).view.loc (thrV d L))) (fi : Buf (Elt F) ((slabK L).view.loc (thrV d L)))
    (fv : Buf (Elt F) ((ivV).view.loc (thrV d L)))
    (f0 : Buf (Elt F) ((r0V).view.loc (thrV d L))) (f1 : Buf (Elt F) ((r1V).view.loc (thrV d L)))
    (f2 : Buf (Elt F) ((r2V).view.loc (thrV d L))) (f3 : Buf (Elt F) ((r3V).view.loc (thrV d L)))
    (hin : ∀ x, ((slabK L).view.read (Elt F) fi x).toNat < 8192) :
    (iprop(Transfers.MayWaits (thrV d L) (default : HIx 4) O
        ∗ heldW d L yV (Transfers.shareTokN q 68) fy ∗ heldW d L yV (Transfers.shareTokN q 69) fy
        ∗ heldW d L yV (Transfers.shareTokN q 70) fy ∗ heldW d L yV (Transfers.shareTokN q 71) fy
        ∗ heldW d L (slabK L) fullShare fi
        ∗ heldW d L ivV fullShare fv
        ∗ heldW d L r0V fullShare f0 ∗ heldW d L r1V fullShare f1 ∗ heldW d L r2V fullShare f2 ∗ heldW d L r3V fullShare f3
        ∗ cellZ d L cc7_scratch5 ∗ cellZ d L cc7_scratch6 ∗ cellZ d L cc7_scratch7 ∗ cellZ d L cc7_scratch8
        ∗ cellZ d L cc7_scratch9 ∗ cellZ d L cc7_scratch10 ∗ cellZ d L cc7_scratch11 ∗ cellZ d L cc7_scratch12
        ∗ cellZ d L cc7_scoped0
        ∗ bigSep Finset.univ (outTrip d L)
        ∗ owes (thrV d L) O W) : sProp 𝕄)
      ⊢ wp frame (wpE (defs₀ (F := F)) 𝒱₀ (thrV d L) none) Set.univ
          (cc7_gk L yV (Memref.isWhole_whole _) ixV (Memref.isWhole_whole _) oV (Memref.isWhole_whole _)
            ivV (Memref.isWhole_whole _) r0V (Memref.isWhole_whole _) r1V (Memref.isWhole_whole _)
            r2V (Memref.isWhole_whole _) r3V (Memref.isWhole_whole _)
            cc7_scratch5 cc7_scratch6 cc7_scratch7 cc7_scratch8 cc7_scratch9 cc7_scratch10 cc7_scratch11 cc7_scratch12 cc7_scoped0)
          fun _ => iprop(heldW d L yV (Transfers.shareTokN q 68) fy ∗ heldW d L yV (Transfers.shareTokN q 69) fy
            ∗ heldW d L yV (Transfers.shareTokN q 70) fy ∗ heldW d L yV (Transfers.shareTokN q 71) fy
            ∗ heldW d L (slabK L) fullShare fi
            ∗ (∃ f, heldW d L ivV fullShare f)
            ∗ (∃ f, heldW d L r0V fullShare f) ∗ (∃ f, heldW d L r1V fullShare f) ∗ (∃ f, heldW d L r2V fullShare f) ∗ (∃ f, heldW d L r3V fullShare f)
            ∗ cellZ d L cc7_scratch5 ∗ cellZ d L cc7_scratch6 ∗ cellZ d L cc7_scratch7 ∗ cellZ d L cc7_scratch8
            ∗ cellZ d L cc7_scratch9 ∗ cellZ d L cc7_scratch10 ∗ cellZ d L cc7_scratch11 ∗ cellZ d L cc7_scratch12
            ∗ cellZ d L cc7_scoped0
            ∗ bigSep Finset.univ (outTrip d L)
            ∗ ∃ W', ⌜∀ p ∈ W', p ∈ W ∨ p.2 = none⌝ ∗ owes (thrV d L) O W') := by
  rw [Gen.cc7_gk_eq_skeleton]
  iintro ⟨#Hmw, HY0, HY1, HY2, HY3, HI, HV, HR0, HR1, HR2, HR3, HG0, HG1, HG2, HG3, HW0, HW1, HW2, HW3, HS, Hout, HO⟩
  sl_unfold [Gen.cc7_gk_skel, k7_part3]
  -- the slab lands in the local index buffer (one copy, awaited); the run stops before the first gather
  sl_exec
  -- whatever the buffer held before, every word of every list is now a word of the slab
  have hrow := fun g off hk => hin_rows d L fi hin g (gk_core.sl.dma0 d L fi) rfl off hk
  -- the buffer as its 32 lists; lists 0 … 3, spelt as the first four gathers slice them
  ihave Hrows := (Entails.of_eq (iv_rows (F := F) d L _)) $$ HV
  ihave Hx := (Entails.of_eq (SparseCore.bigSep_erase' (s := Finset.univ) (i := (0 : Fin 32)) (Finset.mem_univ _))) $$ Hrows
  icases Hx with ⟨Hl0, Hrows⟩
  ihave Hx := (Entails.of_eq (SparseCore.bigSep_erase' (i := (1 : Fin 32)) (by decide))) $$ Hrows
  icases Hx with ⟨Hl1, Hrows⟩
  ihave Hx := (Entails.of_eq (SparseCore.bigSep_erase' (i := (2 : Fin 32)) (by decide))) $$ Hrows
  icases Hx with ⟨Hl2, Hrows⟩
  ihave Hx := (Entails.of_eq (SparseCore.bigSep_erase' (i := (3 : Fin 32)) (by decide))) $$ Hrows
  icases Hx with ⟨Hl3, Hrows⟩
  ihave Hl0' := (Entails.of_eq (rowPts_at (F := F) d L 0 ![0, 0] inb_S32x128_S1x128_0_0 rfl _)) $$ Hl0
  ihave Hl1' := (Entails.of_eq (rowPts_at (F := F) d L 1 ![1, 0] inb_S32x128_S1x128_1_0 rfl _)) $$ Hl1
  ihave Hl2' := (Entails.of_eq (rowPts_at (F := F) d L 2 ![2, 0] inb_S32x128_S1x128_2_0 rfl _)) $$ Hl2
  ihave Hl3' := (Entails.of_eq (rowPts_at (F := F) d L 3 ![3, 0] inb_S32x128_S1x128_3_0 rfl _)) $$ Hl3
  -- the four gathers issue; the run stops at the loop
  sl_exec
  sl_for (inv d L q O W fy ((ivV).view.writes (Elt F) (ivV).view.junk [⟨Rect.whole cc7_scratch0.ty.shape, gk_core.sl.dma0 d L fi⟩]))
    $$ [HO HW0 HW1 HW2 HW3 Hout Hrows HG0 HY0 HG1 HY1 HG2 HY2 HG3 HY3]
  · -- one trip
    intro k acc
    have hk8 : k.val < 8 := trips_eq ▸ k.isLt
    rcases Nat.lt_or_ge k.val 7 with h7 | h7
    · rw [inv_lt (h := hk8), inv_lt (k := k.val + 1) (h := by omega)]
      exact gk_tripA d L q O W fy _ (hrow _) _ _ _ k h7 acc
    · rw [inv_lt (h := hk8), inv_ge (k := k.val + 1) (h := by omega)]
      exact gk_tripB d L q O W fy _ (hrow _) _ _ _ k (by omega) acc
  · -- the invariant before the first trip
    rw [inv_lt (k := 0) (h := by omega)]
    beta_reduce
    unfold invA gFlight yRest
    isplitr; · iexact Hmw
    isplitl [HO]
    · iexists _; isplitr
      swap; · iexact HO
      ipureintro
      exact waits_ins (fun p hp => .inl hp) _
    isplitl [HW0 HW1 HW2 HW3]
    · isplitl [HW0]; · iexact HW0
      isplitl [HW1]; · iexact HW1
      isplitl [HW2]; · iexact HW2
      iexact HW3
    isplitl [Hout]; · iexact Hout
    isplitl [Hrows]; · rw [idle_zero]; iexact Hrows
    isplitl [HG0 HY0]
    · isplitl [HG0]; · iexists _; iexact HG0
      iexact HY0
    isplitl [HG1 HY1]
    · isplitl [HG1]; · iexists _; iexact HG1
      iexact HY1
    isplitl [HG2 HY2]
    · isplitl [HG2]; · iexists _; iexact HG2
      iexact HY2
    isplitl [HG3]; · iexists _; iexact HG3
    iexact HY3
  -- after the loop
  iintro %acc HL
  rw [inv_end]
  beta_reduce
  unfold invEnd
  icases HL with ⟨-, ⟨%W', %hW', HO⟩, ⟨HW0, HW1, HW2, HW3⟩, Hout, Hrows, ⟨⟨%fr0, HR0⟩, HG0, HY0⟩, ⟨⟨%fr1, HR1⟩, HG1, HY1⟩, ⟨⟨%fr2, HR2⟩, HG2, HY2⟩, ⟨⟨%fr3, HR3⟩, HG3, HY3⟩⟩
  sl_exec
  sl_step
  isplitl [HY0]; · iexact HY0
  isplitl [HY1]; · iexact HY1
  isplitl [HY2]; · iexact HY2
  isplitl [HY3]; · iexact HY3
  isplitl [HI]; · iexact HI
  isplitl [Hrows]
  · iexists _
    iapply (Entails.of_eq (iv_rows (F := F) d L _).symm)
    iexact Hrows
  isplitl [HR0]; · iexists _; iexact HR0
  isplitl [HR1]; · iexists _; iexact HR1
  isplitl [HR2]; · iexists _; iexact HR2
  isplitl [HR3]; · iexists _; iexact HR3
  isplitl [HG0]; · iexact HG0
  isplitl [HG1]; · iexact HG1
  isplitl [HG2]; · iexact HG2
  isplitl [HG3]; · iexact HG3
  isplitl [HW0]; · iexact HW0
  isplitl [HW1]; · iexact HW1
  isplitl [HW2]; · iexact HW2
  isplitl [HW3]; · iexact HW3
  isplitl [HS]; · iexact HS
  isplitl [Hout]; · iexact Hout
  iexists _; isplitr
  swap; · iexact HO
  ipureintro; exact hW'

/-! ## The tile's spellings against the launch's: the worker number, the slab, the share of y -/

omit [FloatOps F] in
theorem L0_lt (L : grid7.Coords) : (L 0).val < 2 := (L 0).isLt
omit [FloatOps F] in
theorem L1_lt (L : grid7.Coords) : (L 1).val < 16 := (L 1).isLt

/-- The tile's worker number: subcore-major, as the kernel computes it. -/
def widL (L : grid7.Coords) : Fin 32 := ⟨(L 1).val * 2 + (L 0).val, by have := L0_lt L; have := L1_lt L; omega⟩

omit [FloatOps F] in
/-- The slab the program slices is the worker's part of the index array. -/
theorem slab_rect (L : grid7.Coords) :
    Rect.unit (s := S32x32x128) (k7_off1 L) S1x32x128.size (k7_off1_inb L) = slabRect (widL L) := by
  unfold slabRect Rect.part Rect.block
  refine Rect.unit_congr ?_ ?_ _ _
  · rw [Gen.k7_off1_eq]
    funext a
    match a with
    | 0 => show 2 * (L 1).val + (L 0).val = ((L 1).val * 2 + (L 0).val) * (32 / 32); omega
    | 1 => rfl
    | 2 => rfl
  · funext a
    match a with
    | 0 => rfl
    | 1 => rfl
    | 2 => rfl

omit [FloatOps F] in
theorem set_slabK (L : grid7.Coords) : (slabK L).view.set = (slabRect (widL L)).set := by
  show (((ixV).view.slice (Rect.unit (s := S32x32x128) (k7_off1 L) S1x32x128.size (k7_off1_inb L))).reshape S32x128 squeezes_S1x32x128_S32x128.numel_eq).set = _
  rw [View.set_reshape]
  exact (View.set_slice_whole _ _).trans (congrArg (fun r : Rect S32x32x128 => r.set) (slab_rect L))

omit [FloatOps F] in
/-- The slab held, in the tile's spelling and in the launch's. -/
theorem pts_slabK (d : Dev nD) (L : grid7.Coords) (f : Buf (Elt F) (ixLoc3 d)) :
    (heldW d L (slabK L) fullShare f : sProp 𝕄) = (ixLoc3 d ↦[(slabRect (widL L)).set]{fullShare} f) := by
  unfold heldW
  rw [set_slabK]

omit [FloatOps F] in
/-- Every word of the slab is a row number of y, in the tile's reading of it. -/
theorem hin_slabK (d : Dev nD) (L : grid7.Coords) (f : Buf (Elt F) (ixLoc3 d))
    (h : ∀ j ∈ (slabRect (widL L)).set, (f j).toNat < 8192) :
    ∀ x, ((slabK L).view.read (Elt F) f x).toNat < 8192 := by
  intro x
  rw [View.read_apply]
  refine h _ ?_
  rw [← set_slabK]
  exact Finset.mem_map_of_mem _ (Finset.mem_univ x)

omit [FloatOps F] in
/-- All of y held at a share, in the tile's spelling and in the launch's. -/
theorem pts_yV (d : Dev nD) (L : grid7.Coords) (s : PosShare TreeShare) (f : Buf (Elt F) (yLoc d)) :
    (heldW d L yV s f : sProp 𝕄) = (yLoc d ↦{s} f) := by
  unfold heldW
  rw [show (yV).view.set = Finset.univ from View.set_whole _]

/-! ## The tile's 32 output chunks are the worker's 4096 rows of the output -/

abbrev oLocV (d : Dev nD) (L : grid7.Coords) : Loc nD τ sig := (oV).view.loc (thrV d L)

omit [FloatOps F] in
theorem mem_rowsRect (L : grid7.Coords) (i : S131072x128.Idx) :
    i ∈ (rowsRect (widL L)).set ↔ 4096 * (widL L).val ≤ (i 0).val ∧ (i 0).val < 4096 * (widL L).val + 4096 := by
  unfold rowsRect Rect.part Rect.block
  rw [Rect.mem_set_unit, Fin.forall_fin_two]
  have h1 : (i 1).val < 128 := (i 1).isLt
  show ((widL L).val * (131072 / 32) ≤ (i 0).val ∧ (i 0).val < (widL L).val * (131072 / 32) + 131072 / 32)
      ∧ (0 * 128 ≤ (i 1).val ∧ (i 1).val < 0 * 128 + 128) ↔ _
  omega

omit [FloatOps F] in
theorem mem_chunk (L : grid7.Coords) (t : Fin k7_t1_loop.trips) (r : Fin 4) (i : S131072x128.Idx) :
    i ∈ (Rect.unit (s := S131072x128) (k7_off3 L t (BitVec.ofNat 32 r.val)) S128x128.size (k7_off3_inb L t r)).set
      ↔ 4096 * (widL L).val + 512 * t.val + 128 * r.val ≤ (i 0).val ∧ (i 0).val < 4096 * (widL L).val + 512 * t.val + 128 * r.val + 128 := by
  rw [Rect.mem_set_unit, Gen.k7_off3_eq, Fin.forall_fin_two]
  have h1 : (i 1).val < 128 := (i 1).isLt
  show ((8192 * (L 1).val + 4096 * (L 0).val + 512 * t.val + 128 * r.val ≤ (i 0).val
        ∧ (i 0).val < 8192 * (L 1).val + 4096 * (L 0).val + 512 * t.val + 128 * r.val + 128)
      ∧ (0 ≤ (i 1).val ∧ (i 1).val < 0 + 128))
    ↔ 4096 * ((L 1).val * 2 + (L 0).val) + 512 * t.val + 128 * r.val ≤ (i 0).val
      ∧ (i 0).val < 4096 * ((L 1).val * 2 + (L 0).val) + 512 * t.val + 128 * r.val + 128
  omega

/-- The elements of output chunk 4t + r of the tile. -/
abbrev chunkSet (L : grid7.Coords) (t : Fin k7_t1_loop.trips) (r : Fin 4) : Finset S131072x128.Idx :=
  (Rect.unit (s := S131072x128) (k7_off3 L t (BitVec.ofNat 32 r.val)) S128x128.size (k7_off3_inb L t r)).set

/-- The elements of the four chunks of trip t. -/
abbrev tripSet (L : grid7.Coords) (t : Fin k7_t1_loop.trips) : Finset S131072x128.Idx :=
  chunkSet L t 0 ∪ (chunkSet L t 1 ∪ (chunkSet L t 2 ∪ chunkSet L t 3))

omit [FloatOps F] in
theorem chunk_disjoint (L : grid7.Coords) (t : Fin k7_t1_loop.trips) {r r' : Fin 4} (h : r ≠ r') : Disjoint (chunkSet L t r) (chunkSet L t r') := by
  refine Finset.disjoint_left.mpr fun i hi hi' => h (Fin.ext ?_)
  rw [mem_chunk] at hi hi'
  omega

omit [FloatOps F] in
theorem mem_tripSet (L : grid7.Coords) (t : Fin k7_t1_loop.trips) (i : S131072x128.Idx) :
    i ∈ tripSet L t ↔ 4096 * (widL L).val + 512 * t.val ≤ (i 0).val ∧ (i 0).val < 4096 * (widL L).val + 512 * t.val + 512 := by
  simp only [tripSet, Finset.mem_union, mem_chunk]
  show _ ↔ _
  have e0 : ((0 : Fin 4) : ℕ) = 0 := rfl
  have e1 : ((1 : Fin 4) : ℕ) = 1 := rfl
  have e2 : ((2 : Fin 4) : ℕ) = 2 := rfl
  have e3 : ((3 : Fin 4) : ℕ) = 3 := rfl
  rw [e0, e1, e2, e3]
  omega

omit [FloatOps F] in
theorem trip_disjoint (L : grid7.Coords) {t t' : Fin k7_t1_loop.trips} (h : t ≠ t') : Disjoint (tripSet L t) (tripSet L t') := by
  refine Finset.disjoint_left.mpr fun i hi hi' => h (Fin.ext ?_)
  rw [mem_tripSet] at hi hi'
  omega

omit [FloatOps F] in
/-- The worker's 4096 rows are the eight trips' chunks. -/
theorem rows_cover (L : grid7.Coords) : (rowsRect (widL L)).set = Finset.univ.biUnion (tripSet L) := by
  ext i
  rw [mem_rowsRect, Finset.mem_biUnion]
  constructor
  · intro h
    have h8 : ((i 0).val - 4096 * (widL L).val) / 512 < k7_t1_loop.trips := by rw [trips_eq]; omega
    refine ⟨⟨((i 0).val - 4096 * (widL L).val) / 512, h8⟩, Finset.mem_univ _, ?_⟩
    rw [mem_tripSet]
    show 4096 * (widL L).val + 512 * (((i 0).val - 4096 * (widL L).val) / 512) ≤ (i 0).val
      ∧ (i 0).val < 4096 * (widL L).val + 512 * (((i 0).val - 4096 * (widL L).val) / 512) + 512
    omega
  · rintro ⟨t, -, ht⟩
    rw [mem_tripSet] at ht
    have ht8 : t.val < 8 := trips_eq ▸ t.isLt
    omega

omit [FloatOps F] in
theorem set_outK0 (L : grid7.Coords) (t : Fin k7_t1_loop.trips) : (outK0 L t).view.set = chunkSet L t 0 := View.set_slice_whole _ _
omit [FloatOps F] in
theorem set_outK1 (L : grid7.Coords) (t : Fin k7_t1_loop.trips) : (outK1 L t).view.set = chunkSet L t 1 := View.set_slice_whole _ _
omit [FloatOps F] in
theorem set_outK2 (L : grid7.Coords) (t : Fin k7_t1_loop.trips) : (outK2 L t).view.set = chunkSet L t 2 := View.set_slice_whole _ _
omit [FloatOps F] in
theorem set_outK3 (L : grid7.Coords) (t : Fin k7_t1_loop.trips) : (outK3 L t).view.set = chunkSet L t 3 := View.set_slice_whole _ _

omit [FloatOps F] in
theorem pts_outK0 (d : Dev nD) (L : grid7.Coords) (t : Fin k7_t1_loop.trips) (f : Buf (Elt F) (oLoc3 d)) :
    (heldW d L (outK0 L t) fullShare f : sProp 𝕄) = (oLoc3 d ↦[chunkSet L t 0]{fullShare} f) := by
  unfold heldW; rw [set_outK0]
omit [FloatOps F] in
theorem pts_outK1 (d : Dev nD) (L : grid7.Coords) (t : Fin k7_t1_loop.trips) (f : Buf (Elt F) (oLoc3 d)) :
    (heldW d L (outK1 L t) fullShare f : sProp 𝕄) = (oLoc3 d ↦[chunkSet L t 1]{fullShare} f) := by
  unfold heldW; rw [set_outK1]
omit [FloatOps F] in
theorem pts_outK2 (d : Dev nD) (L : grid7.Coords) (t : Fin k7_t1_loop.trips) (f : Buf (Elt F) (oLoc3 d)) :
    (heldW d L (outK2 L t) fullShare f : sProp 𝕄) = (oLoc3 d ↦[chunkSet L t 2]{fullShare} f) := by
  unfold heldW; rw [set_outK2]
omit [FloatOps F] in
theorem pts_outK3 (d : Dev nD) (L : grid7.Coords) (t : Fin k7_t1_loop.trips) (f : Buf (Elt F) (oLoc3 d)) :
    (heldW d L (outK3 L t) fullShare f : sProp 𝕄) = (oLoc3 d ↦[chunkSet L t 3]{fullShare} f) := by
  unfold heldW; rw [set_outK3]

omit [FloatOps F] in
theorem d23 (L : grid7.Coords) (t : Fin k7_t1_loop.trips) : Disjoint (chunkSet L t 2) (chunkSet L t 3) := chunk_disjoint L t (by decide)
omit [FloatOps F] in
theorem d1_23 (L : grid7.Coords) (t : Fin k7_t1_loop.trips) : Disjoint (chunkSet L t 1) (chunkSet L t 2 ∪ chunkSet L t 3) :=
  Finset.disjoint_union_right.mpr ⟨chunk_disjoint L t (by decide), chunk_disjoint L t (by decide)⟩
omit [FloatOps F] in
theorem d0_123 (L : grid7.Coords) (t : Fin k7_t1_loop.trips) : Disjoint (chunkSet L t 0) (chunkSet L t 1 ∪ (chunkSet L t 2 ∪ chunkSet L t 3)) :=
  Finset.disjoint_union_right.mpr ⟨chunk_disjoint L t (by decide),
    Finset.disjoint_union_right.mpr ⟨chunk_disjoint L t (by decide), chunk_disjoint L t (by decide)⟩⟩

omit [FloatOps F] in
/-- The worker's rows of the output, held at some contents, are its 32 chunks held each. -/
theorem out_split (d : Dev nD) (L : grid7.Coords) (fo : Buf (Elt F) (oLoc3 d)) :
    (oLoc3 d ↦[(rowsRect (widL L)).set]{fullShare} fo : sProp 𝕄) ⊢ bigSep Finset.univ (outTrip d L) := by
  have step : ∀ t, (oLoc3 d ↦[tripSet L t]{fullShare} fo : sProp 𝕄) ⊢ outTrip d L t := by
    intro t
    iintro H
    ihave H := (pointsTo_union (ℓ := oLoc3 d) (d0_123 L t)).1 $$ H
    icases H with ⟨H0, H⟩
    ihave H := (pointsTo_union (ℓ := oLoc3 d) (d1_23 L t)).1 $$ H
    icases H with ⟨H1, H⟩
    ihave H := (pointsTo_union (ℓ := oLoc3 d) (d23 L t)).1 $$ H
    icases H with ⟨H2, H3⟩
    isplitl [H0]; · iexists fo; iapply (Entails.of_eq (pts_outK0 (F := F) d L t fo).symm); iexact H0
    isplitl [H1]; · iexists fo; iapply (Entails.of_eq (pts_outK1 (F := F) d L t fo).symm); iexact H1
    isplitl [H2]; · iexists fo; iapply (Entails.of_eq (pts_outK2 (F := F) d L t fo).symm); iexact H2
    iexists fo; iapply (Entails.of_eq (pts_outK3 (F := F) d L t fo).symm); iexact H3
  rw [rows_cover]
  refine (Entails.of_eq (pointsTo_biUnion (ℓ := oLoc3 d) (q := fullShare) (f := fo) Finset.univ (tripSet L) (fun t _ t' _ h => trip_disjoint L h))).trans ?_
  exact bigSep_mono fun t _ => step t

/-- and back: the 32 chunks at some contents each are the worker's rows at some contents. -/
theorem out_join (d : Dev nD) (L : grid7.Coords) :
    bigSep Finset.univ (outTrip d L) ⊢ (iprop(∃ fo, oLoc3 d ↦[(rowsRect (widL L)).set]{fullShare} fo) : sProp 𝕄) := by
  have step : ∀ t, outTrip d L t ⊢ (iprop(∃ g, oLoc3 d ↦[tripSet L t]{fullShare} g) : sProp 𝕄) := by
    intro t
    iintro ⟨⟨%g0, H0⟩, ⟨%g1, H1⟩, ⟨%g2, H2⟩, ⟨%g3, H3⟩⟩
    ihave K0 := (Entails.of_eq (pts_outK0 (F := F) d L t g0)) $$ H0
    ihave K1 := (Entails.of_eq (pts_outK1 (F := F) d L t g1)) $$ H1
    ihave K2 := (Entails.of_eq (pts_outK2 (F := F) d L t g2)) $$ H2
    ihave K3 := (Entails.of_eq (pts_outK3 (F := F) d L t g3)) $$ H3
    ihave H23 := (pointsTo_join (ℓ := oLoc3 d) (d23 L t)) $$ [K2 K3]
    · isplitl [K2]; · iexact K2
      iexact K3
    ihave H123 := (pointsTo_join (ℓ := oLoc3 d) (d1_23 L t)) $$ [K1 H23]
    · isplitl [K1]; · iexact K1
      iexact H23
    ihave H0123 := (pointsTo_join (ℓ := oLoc3 d) (d0_123 L t)) $$ [K0 H123]
    · isplitl [K0]; · iexact K0
      iexact H123
    iexists _; iexact H0123
  refine (bigSep_mono fun t _ => step t).trans ?_
  refine (bigSep_exists_pi Finset.univ (fun t (g : Buf (Elt F) (oLoc3 d)) => (oLoc3 d ↦[tripSet L t]{fullShare} g : sProp 𝕄))).trans ?_
  iintro ⟨%gs, H⟩
  ihave H' := (pointsTo_biUnion_join (ℓ := oLoc3 d) (q := fullShare) (Val := Elt F) Finset.univ (tripSet L) gs (gs ⟨0, by rw [trips_eq]; omega⟩)
    (fun t _ t' _ h => trip_disjoint L h)) $$ H
  icases H' with ⟨%g, -, Hg⟩
  rw [rows_cover]
  iexists g; iexact Hg

/-! ## The tile's scoped storage: its five buffers and nine semaphores among all it owns -/

abbrev cellOf (d : Dev nD) (L : grid7.Coords) (a : DmaSems sig S_) : GSem nD τ sig := (thrV d L, SemLoc.dma a.sem)
abbrev bufOf (L : grid7.Coords) (b : Ref sig .scVector) : DevRef τ sig := (Proc.scVector (cV L) (jV L)).devRef b

omit [FloatOps F] in
theorem cell_ne (thr : Thread nD τ) {a b : SemLoc sig} (h : a ≠ b) : ((thr, a) : GSem nD τ sig) ≠ (thr, b) := fun e => h (congrArg Prod.snd e)
omit [FloatOps F] in
theorem buf_ne (L : grid7.Coords) {a b : Ref sig .scVector} (h : a ≠ b) : bufOf L a ≠ bufOf L b := fun e => h (Proc.devRef_injective _ e)

/-- The scoped semaphores of the tile other than the nine the body uses. -/
abbrev restCells (d : Dev nD) (L : grid7.Coords) : Finset (GSem nD τ sig) :=
  ((((((((((ownCells (thrV d L)).erase (cellOf d L cc7_scratch5)).erase (cellOf d L cc7_scratch6)).erase (cellOf d L cc7_scratch7)).erase (cellOf d L cc7_scratch8)).erase (cellOf d L cc7_scratch9)).erase (cellOf d L cc7_scratch10)).erase (cellOf d L cc7_scratch11)).erase (cellOf d L cc7_scratch12)).erase (cellOf d L cc7_scoped0))

/-- The buffers of the tile other than the five the body uses. -/
abbrev restRefs (L : grid7.Coords) : Finset (DevRef τ sig) :=
  ((((((ownRefs (τ := τ) (.scVector (cV L) (jV L))).erase (bufOf L cc7_scratch0)).erase (bufOf L cc7_scratch1)).erase (bufOf L cc7_scratch2)).erase (bufOf L cc7_scratch3)).erase (bufOf L cc7_scratch4))

omit [FloatOps F] in
theorem tile_sems (d : Dev nD) (L : grid7.Coords) :
    (ownSems0 (thrV d L) : sProp 𝕄)
      = iprop(cellZ d L cc7_scratch5 ∗ cellZ d L cc7_scratch6 ∗ cellZ d L cc7_scratch7 ∗ cellZ d L cc7_scratch8
          ∗ cellZ d L cc7_scratch9 ∗ cellZ d L cc7_scratch10 ∗ cellZ d L cc7_scratch11 ∗ cellZ d L cc7_scratch12
          ∗ cellZ d L cc7_scoped0 ∗ bigSep (restCells d L) fun g => semVal g 0) := by
  unfold SparseCore.Cfg.ownSems0
  rw [SparseCore.bigSep_erase' ((mem_ownCells (g := (cellOf d L cc7_scratch5))).mpr ⟨rfl, by show (SemLoc.dma cc7_scratch5.sem : SemLoc sig).isScoped .scVector = true; decide⟩),
    SparseCore.bigSep_erase' (Finset.mem_erase.mpr ⟨cell_ne (thrV d L) (by decide : (SemLoc.dma cc7_scratch6.sem : SemLoc sig) ≠ SemLoc.dma cc7_scratch5.sem), ((mem_ownCells (g := (cellOf d L cc7_scratch6))).mpr ⟨rfl, by show (SemLoc.dma cc7_scratch6.sem : SemLoc sig).isScoped .scVector = true; decide⟩)⟩),
    SparseCore.bigSep_erase' (Finset.mem_erase.mpr ⟨cell_ne (thrV d L) (by decide : (SemLoc.dma cc7_scratch7.sem : SemLoc sig) ≠ SemLoc.dma cc7_scratch6.sem), (Finset.mem_erase.mpr ⟨cell_ne (thrV d L) (by decide : (SemLoc.dma cc7_scratch7.sem : SemLoc sig) ≠ SemLoc.dma cc7_scratch5.sem), ((mem_ownCells (g := (cellOf d L cc7_scratch7))).mpr ⟨rfl, by show (SemLoc.dma cc7_scratch7.sem : SemLoc sig).isScoped .scVector = true; decide⟩)⟩)⟩),
    SparseCore.bigSep_erase' (Finset.mem_erase.mpr ⟨cell_ne (thrV d L) (by decide : (SemLoc.dma cc7_scratch8.sem : SemLoc sig) ≠ SemLoc.dma cc7_scratch7.sem), (Finset.mem_erase.mpr ⟨cell_ne (thrV d L) (by decide : (SemLoc.dma cc7_scratch8.sem : SemLoc sig) ≠ SemLoc.dma cc7_scratch6.sem), (Finset.mem_erase.mpr ⟨cell_ne (thrV d L) (by decide : (SemLoc.dma cc7_scratch8.sem : SemLoc sig) ≠ SemLoc.dma cc7_scratch5.sem), ((mem_ownCells (g := (cellOf d L cc7_scratch8))).mpr ⟨rfl, by show (SemLoc.dma cc7_scratch8.sem : SemLoc sig).isScoped .scVector = true; decide⟩)⟩)⟩)⟩),
    SparseCore.bigSep_erase' (Finset.mem_erase.mpr ⟨cell_ne (thrV d L) (by decide : (SemLoc.dma cc7_scratch9.sem : SemLoc sig) ≠ SemLoc.dma cc7_scratch8.sem), (Finset.mem_erase.mpr ⟨cell_ne (thrV d L) (by decide : (SemLoc.dma cc7_scratch9.sem : SemLoc sig) ≠ SemLoc.dma cc7_scratch7.sem), (Finset.mem_erase.mpr ⟨cell_ne (thrV d L) (by decide : (SemLoc.dma cc7_scratch9.sem : SemLoc sig) ≠ SemLoc.dma cc7_scratch6.sem), (Finset.mem_erase.mpr ⟨cell_ne (thrV d L) (by decide : (SemLoc.dma cc7_scratch9.sem : SemLoc sig) ≠ SemLoc.dma cc7_scratch5.sem), ((mem_ownCells (g := (cellOf d L cc7_scratch9))).mpr ⟨rfl, by show (SemLoc.dma cc7_scratch9.sem : SemLoc sig).isScoped .scVector = true; decide⟩)⟩)⟩)⟩)⟩),
    SparseCore.bigSep_erase' (Finset.mem_erase.mpr ⟨cell_ne (thrV d L) (by decide : (SemLoc.dma cc7_scratch10.sem : SemLoc sig) ≠ SemLoc.dma cc7_scratch9.sem), (Finset.mem_erase.mpr ⟨cell_ne (thrV d L) (by decide : (SemLoc.dma cc7_scratch10.sem : SemLoc sig) ≠ SemLoc.dma cc7_scratch8.sem), (Finset.mem_erase.mpr ⟨cell_ne (thrV d L) (by decide : (SemLoc.dma cc7_scratch10.sem : SemLoc sig) ≠ SemLoc.dma cc7_scratch7.sem), (Finset.mem_erase.mpr ⟨cell_ne (thrV d L) (by decide : (SemLoc.dma cc7_scratch10.sem : SemLoc sig) ≠ SemLoc.dma cc7_scratch6.sem), (Finset.mem_erase.mpr ⟨cell_ne (thrV d L) (by decide : (SemLoc.dma cc7_scratch10.sem : SemLoc sig) ≠ SemLoc.dma cc7_scratch5.sem), ((mem_ownCells (g := (cellOf d L cc7_scratch10))).mpr ⟨rfl, by show (SemLoc.dma cc7_scratch10.sem : SemLoc sig).isScoped .scVector = true; decide⟩)⟩)⟩)⟩)⟩)⟩),
    SparseCore.bigSep_erase' (Finset.mem_erase.mpr ⟨cell_ne (thrV d L) (by decide : (SemLoc.dma cc7_scratch11.sem : SemLoc sig) ≠ SemLoc.dma cc7_scratch10.sem), (Finset.mem_erase.mpr ⟨cell_ne (thrV d L) (by decide : (SemLoc.dma cc7_scratch11.sem : SemLoc sig) ≠ SemLoc.dma cc7_scratch9.sem), (Finset.mem_erase.mpr ⟨cell_ne (thrV d L) (by decide : (SemLoc.dma cc7_scratch11.sem : SemLoc sig) ≠ SemLoc.dma cc7_scratch8.sem), (Finset.mem_erase.mpr ⟨cell_ne (thrV d L) (by decide : (SemLoc.dma cc7_scratch11.sem : SemLoc sig) ≠ SemLoc.dma cc7_scratch7.sem), (Finset.mem_erase.mpr ⟨cell_ne (thrV d L) (by decide : (SemLoc.dma cc7_scratch11.sem : SemLoc sig) ≠ SemLoc.dma cc7_scratch6.sem), (Finset.mem_erase.mpr ⟨cell_ne (thrV d L) (by decide : (SemLoc.dma cc7_scratch11.sem : SemLoc sig) ≠ SemLoc.dma cc7_scratch5.sem), ((mem_ownCells (g := (cellOf d L cc7_scratch11))).mpr ⟨rfl, by show (SemLoc.dma cc7_scratch11.sem : SemLoc sig).isScoped .scVector = true; decide⟩)⟩)⟩)⟩)⟩)⟩)⟩),
    SparseCore.bigSep_erase' (Finset.mem_erase.mpr ⟨cell_ne (thrV d L) (by decide : (SemLoc.dma cc7_scratch12.sem : SemLoc sig) ≠ SemLoc.dma cc7_scratch11.sem), (Finset.mem_erase.mpr ⟨cell_ne (thrV d L) (by decide : (SemLoc.dma cc7_scratch12.sem : SemLoc sig) ≠ SemLoc.dma cc7_scratch10.sem), (Finset.mem_erase.mpr ⟨cell_ne (thrV d L) (by decide : (SemLoc.dma cc7_scratch12.sem : SemLoc sig) ≠ SemLoc.dma cc7_scratch9.sem), (Finset.mem_erase.mpr ⟨cell_ne (thrV d L) (by decide : (SemLoc.dma cc7_scratch12.sem : SemLoc sig) ≠ SemLoc.dma cc7_scratch8.sem), (Finset.mem_erase.mpr ⟨cell_ne (thrV d L) (by decide : (SemLoc.dma cc7_scratch12.sem : SemLoc sig) ≠ SemLoc.dma cc7_scratch7.sem), (Finset.mem_erase.mpr ⟨cell_ne (thrV d L) (by decide : (SemLoc.dma cc7_scratch12.sem : SemLoc sig) ≠ SemLoc.dma cc7_scratch6.sem), (Finset.mem_erase.mpr ⟨cell_ne (thrV d L) (by decide : (SemLoc.dma cc7_scratch12.sem : SemLoc sig) ≠ SemLoc.dma cc7_scratch5.sem), ((mem_ownCells (g := (cellOf d L cc7_scratch12))).mpr ⟨rfl, by show (SemLoc.dma cc7_scratch12.sem : SemLoc sig).isScoped .scVector = true; decide⟩)⟩)⟩)⟩)⟩)⟩)⟩)⟩),
    SparseCore.bigSep_erase' (Finset.mem_erase.mpr ⟨cell_ne (thrV d L) (by decide : (SemLoc.dma cc7_scoped0.sem : SemLoc sig) ≠ SemLoc.dma cc7_scratch12.sem), (Finset.mem_erase.mpr ⟨cell_ne (thrV d L) (by decide : (SemLoc.dma cc7_scoped0.sem : SemLoc sig) ≠ SemLoc.dma cc7_scratch11.sem), (Finset.mem_erase.mpr ⟨cell_ne (thrV d L) (by decide : (SemLoc.dma cc7_scoped0.sem : SemLoc sig) ≠ SemLoc.dma cc7_scratch10.sem), (Finset.mem_erase.mpr ⟨cell_ne (thrV d L) (by decide : (SemLoc.dma cc7_scoped0.sem : SemLoc sig) ≠ SemLoc.dma cc7_scratch9.sem), (Finset.mem_erase.mpr ⟨cell_ne (thrV d L) (by decide : (SemLoc.dma cc7_scoped0.sem : SemLoc sig) ≠ SemLoc.dma cc7_scratch8.sem), (Finset.mem_erase.mpr ⟨cell_ne (thrV d L) (by decide : (SemLoc.dma cc7_scoped0.sem : SemLoc sig) ≠ SemLoc.dma cc7_scratch7.sem), (Finset.mem_erase.mpr ⟨cell_ne (thrV d L) (by decide : (SemLoc.dma cc7_scoped0.sem : SemLoc sig) ≠ SemLoc.dma cc7_scratch6.sem), (Finset.mem_erase.mpr ⟨cell_ne (thrV d L) (by decide : (SemLoc.dma cc7_scoped0.sem : SemLoc sig) ≠ SemLoc.dma cc7_scratch5.sem), ((mem_ownCells (g := (cellOf d L cc7_scoped0))).mpr ⟨rfl, by show (SemLoc.dma cc7_scoped0.sem : SemLoc sig).isScoped .scVector = true; decide⟩)⟩)⟩)⟩)⟩)⟩)⟩)⟩)⟩)]

omit [FloatOps F] in
theorem tile_bufs (d : Dev nD) (L : grid7.Coords) :
    (ownBufs (thrV d L) : sProp 𝕄)
      = iprop((∃ f, (thrV d L).loc cc7_scratch0 ↦{fullShare} f) ∗ (∃ f, (thrV d L).loc cc7_scratch1 ↦{fullShare} f)
          ∗ (∃ f, (thrV d L).loc cc7_scratch2 ↦{fullShare} f) ∗ (∃ f, (thrV d L).loc cc7_scratch3 ↦{fullShare} f)
          ∗ (∃ f, (thrV d L).loc cc7_scratch4 ↦{fullShare} f)
          ∗ bigSep (restRefs L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (bufOf L cc7_scratch0)) rfl)).trans ?_
  rw [SparseCore.bigSep_erase' (Finset.mem_erase.mpr ⟨buf_ne L (by decide : (cc7_scratch1 : Ref sig .scVector) ≠ cc7_scratch0), (SparseCore.Cfg.mem_ownRefs_of_owner (p := Proc.scVector (cV L) (jV L)) (b := (bufOf L cc7_scratch1)) rfl)⟩),
    SparseCore.bigSep_erase' (Finset.mem_erase.mpr ⟨buf_ne L (by decide : (cc7_scratch2 : Ref sig .scVector) ≠ cc7_scratch1), (Finset.mem_erase.mpr ⟨buf_ne L (by decide : (cc7_scratch2 : Ref sig .scVector) ≠ cc7_scratch0), (SparseCore.Cfg.mem_ownRefs_of_owner (p := Proc.scVector (cV L) (jV L)) (b := (bufOf L cc7_scratch2)) rfl)⟩)⟩),
    SparseCore.bigSep_erase' (Finset.mem_erase.mpr ⟨buf_ne L (by decide : (cc7_scratch3 : Ref sig .scVector) ≠ cc7_scratch2), (Finset.mem_erase.mpr ⟨buf_ne L (by decide : (cc7_scratch3 : Ref sig .scVector) ≠ cc7_scratch1), (Finset.mem_erase.mpr ⟨buf_ne L (by decide : (cc7_scratch3 : Ref sig .scVector) ≠ cc7_scratch0), (SparseCore.Cfg.mem_ownRefs_of_owner (p := Proc.scVector (cV L) (jV L)) (b := (bufOf L cc7_scratch3)) rfl)⟩)⟩)⟩),
    SparseCore.bigSep_erase' (Finset.mem_erase.mpr ⟨buf_ne L (by decide : (cc7_scratch4 : Ref sig .scVector) ≠ cc7_scratch3), (Finset.mem_erase.mpr ⟨buf_ne L (by decide : (cc7_scratch4 : Ref sig .scVector) ≠ cc7_scratch2), (Finset.mem_erase.mpr ⟨buf_ne L (by decide : (cc7_scratch4 : Ref sig .scVector) ≠ cc7_scratch1), (Finset.mem_erase.mpr ⟨buf_ne L (by decide : (cc7_scratch4 : Ref sig .scVector) ≠ cc7_scratch0), (SparseCore.Cfg.mem_ownRefs_of_owner (p := Proc.scVector (cV L) (jV L)) (b := (bufOf L cc7_scratch4)) rfl)⟩)⟩)⟩)⟩)]

omit [FloatOps F] in
/-- A whole buffer held by the tile, in the two spellings. -/
theorem pts_whole (d : Dev nD) (L : grid7.Coords) (b : Ref sig .scVector) (s : PosShare TreeShare) (f : Buf (Elt F) ((thrV d L).loc b)) :
    ((Memref.whole b).view.loc (thrV d L) ↦[(Memref.whole b).view.set]{s} f : sProp 𝕄) = ((thrV d L).loc b ↦{s} f) := by
  rw [show (Memref.whole b).view.set = Finset.univ from View.set_whole _]

/-! ## The tile's share of y as four read shares, one per gather semaphore, and what is kept aside -/

/-- What is kept aside of a share of y while the four gathers hold theirs. -/
abbrev yKeep (ℓ : Loc nD τ sig) (q : PosShare TreeShare) (f : Buf (Elt F) ℓ) : sProp 𝕄 :=
  iprop((ℓ ↦{Transfers.shareDrop q 72} f)
    ∗ bigSep (((((Finset.range 72).erase 68).erase 69).erase 70).erase 71) (fun i => (ℓ ↦{Transfers.shareTokN q i} f : sProp 𝕄)))

omit [FloatOps F] in
theorem y_toks (ℓ : Loc nD τ sig) (q : PosShare TreeShare) (f : Buf (Elt F) ℓ) :
    (ℓ ↦{q} f : sProp 𝕄) ⊣⊢ iprop((ℓ ↦{Transfers.shareTokN q 68} f) ∗ (ℓ ↦{Transfers.shareTokN q 69} f)
      ∗ (ℓ ↦{Transfers.shareTokN q 70} f) ∗ (ℓ ↦{Transfers.shareTokN q 71} f) ∗ yKeep ℓ q f) := by
  have h := Transfers.pointsTo_toks_range (Ix := HIx 4) (Name := ℕ) (U := UU) (Lvl := ℕ) (ℓ := ℓ) (S := Finset.univ) (f := f) q 72
  have e : bigSep (Finset.range 72) (fun i => (ℓ ↦{Transfers.shareTokN q i} f : sProp 𝕄))
      = iprop((ℓ ↦{Transfers.shareTokN q 68} f) ∗ (ℓ ↦{Transfers.shareTokN q 69} f) ∗ (ℓ ↦{Transfers.shareTokN q 70} f) ∗ (ℓ ↦{Transfers.shareTokN q 71} f)
          ∗ bigSep (((((Finset.range 72).erase 68).erase 69).erase 70).erase 71) (fun i => (ℓ ↦{Transfers.shareTokN q i} f : sProp 𝕄))) := by
    rw [SparseCore.bigSep_erase' (by decide : 68 ∈ Finset.range 72), SparseCore.bigSep_erase' (by decide : 69 ∈ (Finset.range 72).erase 68),
      SparseCore.bigSep_erase' (by decide : 70 ∈ ((Finset.range 72).erase 68).erase 69),
      SparseCore.bigSep_erase' (by decide : 71 ∈ (((Finset.range 72).erase 68).erase 69).erase 70)]
  constructor
  · refine h.1.trans ?_
    rw [e]
    iintro ⟨Hd, H5, H6, H7, H8, Hr⟩
    isplitl [H5]; · iexact H5
    isplitl [H6]; · iexact H6
    isplitl [H7]; · iexact H7
    isplitl [H8]; · iexact H8
    isplitl [Hd]; · iexact Hd
    iexact Hr
  · refine BIBase.Entails.trans ?_ h.2
    rw [e]
    iintro ⟨H5, H6, H7, H8, Hd, Hr⟩
    isplitl [Hd]; · iexact Hd
    isplitl [H5]; · iexact H5
    isplitl [H6]; · iexact H6
    isplitl [H7]; · iexact H7
    isplitl [H8]; · iexact H8
    iexact Hr

/-! ## The body from what the launch hands the tile -/

set_option maxHeartbeats 4000000 in
/-- The body on tile (L 0, L 1) of device d from the worker's share as the launch states it — a share of y, its slab of
    the index array with every word a row number of y, its 4096 rows of the output — and the tile's scoped storage;
    it hands the same back, the output rows and the local buffers at some contents, owing what it owed. -/
theorem gk_body (hF : (K (F := F)).Facts) (d : Dev nD) (L : grid7.Coords)
    (O : CellTallies nD τ sig (HIx 4)) (W : Waits sig (HIx 4)) (hO : ∀ g, O g none = 0) :
    (iprop(levAts (K (F := F)).L (K (F := F)).lev ∗ share3 (F := F) d (widL L)
        ∗ scopedBufs (thrV d L) ∗ scopedSems0 (thrV d L) ∗ owes (thrV d L) O W) : sProp 𝕄)
      ⊢ wp frame (wpE (defs₀ (F := F)) 𝒱₀ (thrV d L) none) Set.univ
          (cc7_gk L yV (Memref.isWhole_whole _) ixV (Memref.isWhole_whole _) oV (Memref.isWhole_whole _)
            ivV (Memref.isWhole_whole _) r0V (Memref.isWhole_whole _) r1V (Memref.isWhole_whole _)
            r2V (Memref.isWhole_whole _) r3V (Memref.isWhole_whole _)
            cc7_scratch5 cc7_scratch6 cc7_scratch7 cc7_scratch8 cc7_scratch9 cc7_scratch10 cc7_scratch11 cc7_scratch12 cc7_scoped0)
          fun _ => iprop(share3 (F := F) d (widL L) ∗ scopedBufs (thrV d L) ∗ scopedSems0 (thrV d L)
            ∗ ∃ W', ⌜∀ p ∈ W', p ∈ W ∨ p.2 = none⌝ ∗ owes (thrV d L) O W') := by
  rw [(K (F := F)).scopedBufs_V hF d (cV L) (jV L), SparseCore.Cfg.scopedSems0_V (Val := Elt F) d (cV L) (jV L), tile_sems, tile_bufs]
  unfold share3
  iintro ⟨#Hlv, ⟨⟨%fy, HY⟩, ⟨%fi, HI, %hfi⟩, ⟨%fo, HOut⟩⟩, ⟨⟨%fv, HV⟩, ⟨%f0, HR0⟩, ⟨%f1, HR1⟩, ⟨%f2, HR2⟩, ⟨%f3, HR3⟩, Hbufs⟩, ⟨HG0, HG1, HG2, HG3, HW0, HW1, HW2, HW3, HS, Hsems⟩, HO⟩
  ihave Hmw := (show levAts (K (F := F)).L (K (F := F)).lev ⊢ Transfers.MayWaits (thrV d L) (default : HIx 4) O from
    (K (F := F)).mayWaits_none (thr := thrV d L) hO) $$ Hlv
  -- the share of y as the four gathers' read shares and the rest
  ihave HYs := (y_toks (F := F) (yLoc d) (ysh (widL L)) fy).1 $$ HY
  icases HYs with ⟨HY0, HY1, HY2, HY3, Hkeep⟩
  ihave KY0 := (Entails.of_eq (pts_yV (F := F) d L _ fy).symm) $$ HY0
  ihave KY1 := (Entails.of_eq (pts_yV (F := F) d L _ fy).symm) $$ HY1
  ihave KY2 := (Entails.of_eq (pts_yV (F := F) d L _ fy).symm) $$ HY2
  ihave KY3 := (Entails.of_eq (pts_yV (F := F) d L _ fy).symm) $$ HY3
  -- the slab, the output rows as 32 chunks, the five local buffers, in the tile's spellings
  ihave KI := (Entails.of_eq (pts_slabK (F := F) d L fi).symm) $$ HI
  ihave KOut := (out_split (F := F) d L fo) $$ HOut
  ihave KV := (Entails.of_eq (pts_whole (F := F) d L cc7_scratch0 fullShare fv).symm) $$ HV
  ihave KR0 := (Entails.of_eq (pts_whole (F := F) d L cc7_scratch1 fullShare f0).symm) $$ HR0
  ihave KR1 := (Entails.of_eq (pts_whole (F := F) d L cc7_scratch2 fullShare f1).symm) $$ HR1
  ihave KR2 := (Entails.of_eq (pts_whole (F := F) d L cc7_scratch3 fullShare f2).symm) $$ HR2
  ihave KR3 := (Entails.of_eq (pts_whole (F := F) d L cc7_scratch4 fullShare f3).symm) $$ HR3
  iapply (wp_wand_r frame (wpE (defs₀ (F := F)) 𝒱₀ (thrV d L) none) Set.univ)
  isplitl [Hmw KY0 KY1 KY2 KY3 KI KV KR0 KR1 KR2 KR3 HG0 HG1 HG2 HG3 HW0 HW1 HW2 HW3 HS KOut HO]
  · iapply (gk_core d L (ysh (widL L)) O W fy fi fv f0 f1 f2 f3 (hin_slabK d L fi hfi))
    isplitl [Hmw]; · iexact Hmw
    isplitl [KY0]; · iexact KY0
    isplitl [KY1]; · iexact KY1
    isplitl [KY2]; · iexact KY2
    isplitl [KY3]; · iexact KY3
    isplitl [KI]; · iexact KI
    isplitl [KV]; · iexact KV
    isplitl [KR0]; · iexact KR0
    isplitl [KR1]; · iexact KR1
    isplitl [KR2]; · iexact KR2
    isplitl [KR3]; · iexact KR3
    isplitl [HG0]; · iexact HG0
    isplitl [HG1]; · iexact HG1
    isplitl [HG2]; · iexact HG2
    isplitl [HG3]; · iexact HG3
    isplitl [HW0]; · iexact HW0
    isplitl [HW1]; · iexact HW1
    isplitl [HW2]; · iexact HW2
    isplitl [HW3]; · iexact HW3
    isplitl [HS]; · iexact HS
    isplitl [KOut]; · iexact KOut
    iexact HO
  iintro %a ⟨HY0, HY1, HY2, HY3, HI, ⟨%gv, HV⟩, ⟨%g0, HR0⟩, ⟨%g1, HR1⟩, ⟨%g2, HR2⟩, ⟨%g3, HR3⟩, HG0, HG1, HG2, HG3, HW0, HW1, HW2, HW3, HS, HOut, HO⟩
  isplitl [HY0 HY1 HY2 HY3 Hkeep HI HOut]
  · isplitl [HY0 HY1 HY2 HY3 Hkeep]
    · iexists fy
      iapply (y_toks (F := F) (yLoc d) (ysh (widL L)) fy).2
      isplitl [HY0]; · iapply (Entails.of_eq (pts_yV (F := F) d L _ fy)); iexact HY0
      isplitl [HY1]; · iapply (Entails.of_eq (pts_yV (F := F) d L _ fy)); iexact HY1
      isplitl [HY2]; · iapply (Entails.of_eq (pts_yV (F := F) d L _ fy)); iexact HY2
      isplitl [HY3]; · iapply (Entails.of_eq (pts_yV (F := F) d L _ fy)); iexact HY3
      iexact Hkeep
    isplitl [HI]
    · iexists fi
      isplitl [HI]; · iapply (Entails.of_eq (pts_slabK (F := F) d L fi)); iexact HI
      ipureintro; exact hfi
    iapply (out_join (F := F) d L); iexact HOut
  isplitl [HV HR0 HR1 HR2 HR3 Hbufs]
  · isplitl [HV]; · iexists gv; iapply (Entails.of_eq (pts_whole (F := F) d L cc7_scratch0 fullShare gv)); iexact HV
    isplitl [HR0]; · iexists g0; iapply (Entails.of_eq (pts_whole (F := F) d L cc7_scratch1 fullShare g0)); iexact HR0
    isplitl [HR1]; · iexists g1; iapply (Entails.of_eq (pts_whole (F := F) d L cc7_scratch2 fullShare g1)); iexact HR1
    isplitl [HR2]; · iexists g2; iapply (Entails.of_eq (pts_whole (F := F) d L cc7_scratch3 fullShare g2)); iexact HR2
    isplitl [HR3]; · iexists g3; iapply (Entails.of_eq (pts_whole (F := F) d L cc7_scratch4 fullShare g3)); iexact HR3
    iexact Hbufs
  isplitl [HG0 HG1 HG2 HG3 HW0 HW1 HW2 HW3 HS Hsems]
  · isplitl [HG0]; · iexact HG0
    isplitl [HG1]; · iexact HG1
    isplitl [HG2]; · iexact HG2
    isplitl [HG3]; · iexact HG3
    isplitl [HW0]; · iexact HW0
    isplitl [HW1]; · iexact HW1
    isplitl [HW2]; · iexact HW2
    isplitl [HW3]; · iexact HW3
    isplitl [HS]; · iexact HS
    iexact Hsems
  iexact HO

/-! ## The launch theorem's obligation for the fourth call's tiles -/

/-- The grid coordinates of tile s of core c. -/
def coordsV (c : Fin (grid7.bound 0)) (s : Fin (grid7.bound 1)) : grid7.Coords :=
  fun | 0 => c | 1 => s | ⟨_ + 2, h⟩ => absurd h (Nat.not_lt.2 (Nat.le_add_left _ _))

/-- The body table's row for the fourth call on a vector subcore. -/
theorem defs₀_vec7 (c : Fin τ.nSC) (s : Fin τ.nSub) :
    defs₀ (F := F) (.scVector c s) 7 ()
      = SparseCore.onTile hcore7 hsub7 (fun c s => cc7_gk (coordsV c s)
          yV (Memref.isWhole_whole _) ixV (Memref.isWhole_whole _) oV (Memref.isWhole_whole _)
          ivV (Memref.isWhole_whole _) r0V (Memref.isWhole_whole _) r1V (Memref.isWhole_whole _)
          r2V (Memref.isWhole_whole _) r3V (Memref.isWhole_whole _)
          cc7_scratch5 cc7_scratch6 cc7_scratch7 cc7_scratch8 cc7_scratch9 cc7_scratch10 cc7_scratch11 cc7_scratch12 cc7_scoped0) ⟨⟩ c s := rfl

omit [FloatOps F] in
/-- A post over the waits already recorded or at no index is one over those or at the call's index. -/
theorem post_weaken {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The fourth call's share of tile i of core c is the share of the worker the tile's coordinates name. -/
theorem go_eq3 (d : Dev nD) (c : Fin ((K (F := F)).nCore 3)) (i : Fin ((K (F := F)).nSub 3))
    (h0 : ((K (F := F)).core 3 c).val < grid7.bound 0) (h1 : ((K (F := F)).sub 3 i).val < grid7.bound 1) :
    (P (F := F)).go 3 d c i = share3 (F := F) d (widL (coordsV ⟨((K (F := F)).core 3 c).val, h0⟩ ⟨((K (F := F)).sub 3 i).val, h1⟩)) := by
  show share3 (F := F) d (wid (Fin.cast (nCore_eq 3) c) (Fin.cast (nSub_eq 3) i)) = _
  congr 1

theorem td_eq3 (d : Dev nD) (c : Fin ((K (F := F)).nCore 3)) (i : Fin ((K (F := F)).nSub 3))
    (h0 : ((K (F := F)).core 3 c).val < grid7.bound 0) (h1 : ((K (F := F)).sub 3 i).val < grid7.bound 1) :
    (P (F := F)).td 3 d c i = share3 (F := F) d (widL (coordsV ⟨((K (F := F)).core 3 c).val, h0⟩ ⟨((K (F := F)).sub 3 i).val, h1⟩)) :=
  go_eq3 d c i h0 h1

set_option maxRecDepth 16384 in
/-- Every tile of the fourth call runs its body from its worker's share to its worker's share. -/
theorem tileObl3 (hF : (K (F := F)).Facts) : (K (F := F)).TileObl (D (F := F)) 𝒱₀.lift (P (F := F)) (Sum.inl none) 3 := by
  intro d c i O W hO _ _
  simp only [show (P (F := F)).ox = fun _ _ => 0 from rfl, add_zero]
  have hci : ((K (F := F)).core 3 c).val < grid7.bound 0 ∧ ((K (F := F)).sub 3 i).val < grid7.bound 1 := ⟨c.isLt, i.isLt⟩
  rw [go_eq3 d c i hci.1 hci.2, td_eq3 d c i hci.1 hci.2]
  change _ ⊢ wp _ _ _ (Pipeline.liftProg (defs₀ (F := F) (.scVector ((K (F := F)).core 3 c) ((K (F := F)).sub 3 i)) 7 ())) _
  refine BIBase.Entails.trans ?_ (Pipeline.wp_liftProg (D (F := F)) (Pipeline.defs_kernel pcfgs defs₀) 𝒱₀ _ Set.univ none _ _)
  rw [defs₀_vec7]; simp only [SparseCore.onTile, hci, and_self, ↓reduceDIte]
  refine BIBase.Entails.trans ?_ ((gk_body hF d (coordsV ⟨_, hci.1⟩ ⟨_, hci.2⟩) O W hO).trans (wp_mono frame _ _ fun _ => post_weaken))
  iintro ⟨Hlv, -, Hgo, Hb, Hs, HO⟩
  isplitl [Hlv]; · iexact Hlv
  isplitl [Hgo]; · iexact Hgo
  isplitl [Hb]; · iexact Hb
  isplitl [Hs]; · iexact Hs
  iexact HO

end Cert.KernelIdeal.Sc.Gather3

end
-- ==== Proof.GatherAll.lean ====
/-
  Every tile of every sparse-core call runs its body from its worker's share to its worker's share: the four calls'
  obligations toward the launch, gathered by call. The four bodies are one text under four sets of names.
-/
import proofs.«215235_g2774548873965_cont_9to1_572_34_alg».proof.Proof.GatherBody
import proofs.«215235_g2774548873965_cont_9to1_572_34_alg».proof.Proof.GatherBody3
import proofs.«215235_g2774548873965_cont_9to1_572_34_alg».proof.Proof.GatherBody5
import proofs.«215235_g2774548873965_cont_9to1_572_34_alg».proof.Proof.GatherBody7

noncomputable section

namespace Cert.KernelIdeal.Sc

open Cert.KernelIdeal Idealize.ShloMosaic

variable {F : FTy → Type} [FloatOps F]

/-- The tiles' obligation, at every call. -/
theorem tileObl_all (hF : (K (F := F)).Facts) :
    ∀ q, (K (F := F)).TileObl (D (F := F)) Variants.none.lift (P (F := F)) (Sum.inl none) q
  | 0 => Gather0.tileObl0 hF
  | 1 => Gather1.tileObl1 hF
  | 2 => Gather2.tileObl2 hF
  | 3 => Gather3.tileObl3 hF

end Cert.KernelIdeal.Sc

end
-- ==== Proof.Region1Body.lean ====
/-
  A fused tensor-core region: for 8 neighbour slots j, filt_j = ssp(f_j · W₁ + b₁) · W₂ + b₂ (ssp v = log(½·exp v + ½)),
  times the cutoff-and-mask column of slot j, times the gathered rows of slot j; the eight products added. The grid
  is 8 × 2: point (b, g) stages slots 8g … 8g + 7 of batch b. The region keeps a scratch accumulator across the second
  axis: at g = 0 it is set to the point's sum, at g = 1 the point's sum is added to it and the result is copied to the
  staged output block, which is written back to rows 1024·b … of the output array.

  At a point the body reads seven staged inputs (the filters' inputs f [1,50,8,1024], the gathered rows [8192,128], the
  cutoff-and-mask columns [1,8,1024], W₁ [50,128], b₁ [1,128], W₂ [128,128], b₂ [1,128]); it leaves them unchanged.
  What it leaves in the accumulator and in the output block is written out below as pure terms of the staged inputs.
-/
import proofs.«215235_g2774548873965_cont_9to1_572_34_alg».proof.KernelIdeal
import proofs.«215235_g2774548873965_cont_9to1_572_34_alg».proof.Proof.Gen.KernelIdeal
import proofs.«215235_g2774548873965_cont_9to1_572_34_alg».proof.Proof.Gen.KernelIdeal.Skeleton
import proofs.«215235_g2774548873965_cont_9to1_572_34_alg».proof.Proof.Gen.KernelIdeal.Launch
import proofs.«215235_g2774548873965_cont_9to1_572_34_alg».proof.Proof.Gen.KernelIdeal.Points
import Idealize.ShloMosaic.Lib.Pipeline.FrameBody
import Idealize.ShloMosaic.Lib.Tactic

noncomputable section

namespace Cert.KernelIdeal.Region1B

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The rectangles the body names -/

/-- All of a [1024,128] buffer: the accumulator, the staged output block. -/
abbrev rBig : Rect S1024x128 := Rect.unit (s := S1024x128) ![0, 0] S1024x128.size inb_S1024x128_S1024x128_0_0
abbrev rW1 : Rect S50x128 := Rect.unit (s := S50x128) ![0, 0] S50x128.size inb_S50x128_S50x128_0_0
abbrev rRow : Rect S1x128 := Rect.unit (s := S1x128) ![0, 0] S1x128.size inb_S1x128_S1x128_0_0
abbrev rSq : Rect S128x128 := Rect.unit (s := S128x128) ![0, 0] S128x128.size inb_S128x128_S128x128_0_0
abbrev rCut : Rect S1x8x1024 := Rect.unit (s := S1x8x1024) ![0, 0, 0] S1x8x1024.size inb_S1x8x1024_S1x8x1024_0_0_0
/-- Slot j of the staged filter inputs. -/
abbrev rF0 : Rect S1x50x8x1024 := Rect.unit (s := S1x50x8x1024) ![0, 0, 0, 0] S1x50x1x1024.size inb_S1x50x8x1024_S1x50x1x1024_0_0_0_0
abbrev rF1 : Rect S1x50x8x1024 := Rect.unit (s := S1x50x8x1024) ![0, 0, 1, 0] S1x50x1x1024.size inb_S1x50x8x1024_S1x50x1x1024_0_0_1_0
abbrev rF2 : Rect S1x50x8x1024 := Rect.unit (s := S1x50x8x1024) ![0, 0, 2, 0] S1x50x1x1024.size inb_S1x50x8x1024_S1x50x1x1024_0_0_2_0
abbrev rF3 : Rect S1x50x8x1024 := Rect.unit (s := S1x50x8x1024) ![0, 0, 3, 0] S1x50x1x1024.size inb_S1x50x8x1024_S1x50x1x1024_0_0_3_0
abbrev rF4 : Rect S1x50x8x1024 := Rect.unit (s := S1x50x8x1024) ![0, 0, 4, 0] S1x50x1x1024.size inb_S1x50x8x1024_S1x50x1x1024_0_0_4_0
abbrev rF5 : Rect S1x50x8x1024 := Rect.unit (s := S1x50x8x1024) ![0, 0, 5, 0] S1x50x1x1024.size inb_S1x50x8x1024_S1x50x1x1024_0_0_5_0
abbrev rF6 : Rect S1x50x8x1024 := Rect.unit (s := S1x50x8x1024) ![0, 0, 6, 0] S1x50x1x1024.size inb_S1x50x8x1024_S1x50x1x1024_0_0_6_0
abbrev rF7 : Rect S1x50x8x1024 := Rect.unit (s := S1x50x8x1024) ![0, 0, 7, 0] S1x50x1x1024.size inb_S1x50x8x1024_S1x50x1x1024_0_0_7_0
/-- Slot j of the staged gathered rows: rows 1024·j … 1024·j + 1023. -/
abbrev rG0 : Rect S8192x128 := Rect.unit (s := S8192x128) ![0, 0] S1024x128.size inb_S8192x128_S1024x128_0_0
abbrev rG1 : Rect S8192x128 := Rect.unit (s := S8192x128) ![1024, 0] S1024x128.size inb_S8192x128_S1024x128_1024_0
abbrev rG2 : Rect S8192x128 := Rect.unit (s := S8192x128) ![2048, 0] S1024x128.size inb_S8192x128_S1024x128_2048_0
abbrev rG3 : Rect S8192x128 := Rect.unit (s := S8192x128) ![3072, 0] S1024x128.size inb_S8192x128_S1024x128_3072_0
abbrev rG4 : Rect S8192x128 := Rect.unit (s := S8192x128) ![4096, 0] S1024x128.size inb_S8192x128_S1024x128_4096_0
abbrev rG5 : Rect S8192x128 := Rect.unit (s := S8192x128) ![5120, 0] S1024x128.size inb_S8192x128_S1024x128_5120_0
abbrev rG6 : Rect S8192x128 := Rect.unit (s := S8192x128) ![6144, 0] S1024x128.size inb_S8192x128_S1024x128_6144_0
abbrev rG7 : Rect S8192x128 := Rect.unit (s := S8192x128) ![7168, 0] S1024x128.size inb_S8192x128_S1024x128_7168_0

/-! ## The point's sum, as the body computes it -/

/-- The seven staged inputs of a point. -/
structure Ins (F : FTy → Type) where
  f : Vec F S1x50x8x1024 .f32
  g : Vec F S8192x128 .f32
  cut : Vec F S1x8x1024 .f32
  w1 : Vec F S50x128 .f32
  b1 : Vec F S1x128 .f32
  w2 : Vec F S128x128 .f32
  b2 : Vec F S1x128 .f32

/-- The running sum after slots 0 … 6, the last slot's filter and its column, in the order the body computes them:
    each line is one of the body's named values over what was read before it. -/
def upto6 (x : Ins F) : FVec F S1024x128 .f32 × FVec F S1024x128 .f32 × FVec F S1024x128 .f32 :=
  let cw := View.ld x.cut rCut
  let w1 := View.ld x.w1 rW1
  let b1 := View.ld x.b1 rRow
  let w2 := View.ld x.w2 rSq
  let b2 := View.ld x.b2 rRow
  let v2 := k2_pay4 cw
  let v28 := k2_pay5 cw (View.ld x.f rF0) w1 b1 w2 b2 (View.ld x.g rG0)
  let v30 := k2_pay6 (View.ld x.f rF1)
  let v55 := k2_pay7 v2 v28 v30 w1 b1 w2 b2 (View.ld x.g rG1)
  let v66 := k2_pay8 (View.ld x.f rF2) w1 b1
  let v82 := k2_pay10 v2 v55 v66 (k2_pay9 (F := F)) w2 b2 (View.ld x.g rG2)
  let v102 := k2_pay11 (View.ld x.f rF3) w1 b1 w2 b2
  let v136 := k2_pay13 v2 v82 v102 (k2_pay12 v2) (View.ld x.g rG3) (View.ld x.f rF4) w1 b1 w2 b2 (View.ld x.g rG4)
  let v138 := k2_pay14 (View.ld x.f rF5)
  let v163 := k2_pay15 v2 v136 v138 w1 b1 w2 b2 (View.ld x.g rG5)
  let v174 := k2_pay16 (View.ld x.f rF6) w1 b1
  let v190 := k2_pay18 v2 v163 v174 (k2_pay17 (F := F)) w2 b2 (View.ld x.g rG6)
  (v190, k2_pay19 (View.ld x.f rF7) w1 b1 w2 b2, k2_pay20 v2)

/-- What the first point of a pair stores in the accumulator. -/
def first (x : Ins F) : FVec F S1024x128 .f32 :=
  k2_pay2 (upto6 x).1 (upto6 x).2.1 (upto6 x).2.2 (View.ld x.g rG7)

/-- What the second point of a pair stores in the accumulator, the accumulator read as acc. -/
def second (x : Ins F) (acc : Vec F S1024x128 .f32) : FVec F S1024x128 .f32 :=
  k2_pay3 (upto6 x).1 (upto6 x).2.1 (upto6 x).2.2 (View.ld x.g rG7) acc

/-- A whole [1024,128] buffer overwritten by one store of p. -/
def whole (p : FVec F S1024x128 .f32) : Vec F S1024x128 .f32 := View.canon [⟨rBig, p⟩]

theorem whole_covers (p : Vec F S1024x128 .f32) (y : S1024x128.Idx) :
    ∃ pc ∈ ([⟨rBig, p⟩] : List (View.Piece (Elt F) S1024x128 .f32)), y ∈ pc.1.set :=
  View.cover_of_tiled [⟨rBig, p⟩] S1024x128.size (by rfl) y

/-! ## The body at the first point of a pair -/

set_option maxHeartbeats 4000000 in
/-- At a point whose second coordinate is 0 the body, called on whole buffers holding the seven inputs, an output block
    and an accumulator, returns the inputs and the output block as they were and the accumulator at the point's sum. -/
theorem body_run0 (𝒱₀ : Variants) (c : Dev nD) (E : Set Name) (i : grid2.Coords) (hi : (i 1).val = 0)
    (a2 : Memref sig .tc .vmem S1x50x8x1024 .f32) (g2 : a2.IsWhole) (a3 : Memref sig .tc .vmem S8192x128 .f32) (g3 : a3.IsWhole)
    (a4 : Memref sig .tc .vmem S1x8x1024 .f32) (g4 : a4.IsWhole) (a5 : Memref sig .tc .vmem S50x128 .f32) (g5 : a5.IsWhole)
    (a6 : Memref sig .tc .vmem S1x128 .f32) (g6 : a6.IsWhole) (a7 : Memref sig .tc .vmem S128x128 .f32) (g7 : a7.IsWhole)
    (a8 : Memref sig .tc .vmem S1x128 .f32) (g8 : a8.IsWhole) (a9 : Memref sig .tc .vmem S1024x128 .f32) (g9 : a9.IsWhole)
    (a10 : Memref sig .tc .vmem S1024x128 .f32) (g10 : a10.IsWhole)
    (xf : Vec F S1x50x8x1024 .f32) (xg : Vec F S8192x128 .f32) (xc : Vec F S1x8x1024 .f32) (xw1 : Vec F S50x128 .f32)
    (xb1 : Vec F S1x128 .f32) (xw2 : Vec F S128x128 .f32) (xb2 : Vec F S1x128 .f32) (o : Vec F S1024x128 .f32) (K : PUnit → sProp 𝕄) :
    iprop(owns (c : Thread nD τ) a2 fullShare xf ∗ owns (c : Thread nD τ) a3 fullShare xg ∗ owns (c : Thread nD τ) a4 fullShare xc
        ∗ owns (c : Thread nD τ) a5 fullShare xw1 ∗ owns (c : Thread nD τ) a6 fullShare xb1 ∗ owns (c : Thread nD τ) a7 fullShare xw2
        ∗ owns (c : Thread nD τ) a8 fullShare xb2
        ∗ owns (c : Thread nD τ) a9 fullShare o ∗ (∃ d, owns (c : Thread nD τ) a10 fullShare d)
        ∗ (iprop(owns (c : Thread nD τ) a2 fullShare xf ∗ owns (c : Thread nD τ) a3 fullShare xg ∗ owns (c : Thread nD τ) a4 fullShare xc
        ∗ owns (c : Thread nD τ) a5 fullShare xw1 ∗ owns (c : Thread nD τ) a6 fullShare xb1 ∗ owns (c : Thread nD τ) a7 fullShare xw2
        ∗ owns (c : Thread nD τ) a8 fullShare xb2
              ∗ owns (c : Thread nD τ) a9 fullShare o
              ∗ owns (c : Thread nD τ) a10 fullShare (whole (first ⟨xf, xg, xc, xw1, xb1, xw2, xb2⟩))) -∗ K ⟨⟩))
      ⊢ wp frame (wpE (defs₀ (F := F)) 𝒱₀ c none) E
          (cc2__fused_kernel i a2 g2 a3 g3 a4 g4 a5 g5 a6 g6 a7 g7 a8 g8 a9 g9 a10 g10) K := by
  have h1 : Scalar.cmpi .ne (Scalar.extui (Scalar.cmpi .eq (BitVec.ofNat 32 (i 1).val) 0#32)) 0#32 = 1#1 := by rw [hi]; decide
  have h2 : ¬ Scalar.cmpi .ne (Scalar.extui (Scalar.cmpi .sgt (BitVec.ofNat 32 (i 1).val) 0#32)) 0#32 = 1#1 := by rw [hi]; decide
  have h3 : ¬ k2_cond3 i = 1#1 := by unfold k2_cond3; rw [hi]; decide
  sl_unfold [cc2__fused_kernel]
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩,
    ⟨%f9, %e9, H9⟩, ⟨%d10, %f10, -, H10⟩, Hk⟩
  subst e2 e3 e4 e5 e6 e7 e8 e9
  -- the loads, the sum (pure), the accumulator's overwrite; the other two cases are not taken
  sl_exec
  sl_step
  iapply Hk
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists f7; isplitr
    · ipureintro; rfl
    · iexact H7
  isplitl [H8]
  · iexists f8; isplitr
    · ipureintro; rfl
    · iexact H8
  isplitl [H9]
  · iexists f9; isplitr
    · ipureintro; rfl
    · iexact H9
  iexists _
  isplitr
  rotate_left
  · iexact H10
  · ipureintro
    exact View.read_writes_eq_canon _ _ _ (whole_covers (F := F) _)

set_option maxHeartbeats 4000000 in
/-- At a point whose second coordinate is 1 the body, called on whole buffers holding the seven inputs, an output block
    and the accumulator at acc, returns the inputs as they were the accumulator at acc plus the point's sum, and the
    output block at the accumulator's new contents read back whole. -/
theorem body_run1 (𝒱₀ : Variants) (c : Dev nD) (E : Set Name) (i : grid2.Coords) (hi : (i 1).val = 1)
    (a2 : Memref sig .tc .vmem S1x50x8x1024 .f32) (g2 : a2.IsWhole) (a3 : Memref sig .tc .vmem S8192x128 .f32) (g3 : a3.IsWhole)
    (a4 : Memref sig .tc .vmem S1x8x1024 .f32) (g4 : a4.IsWhole) (a5 : Memref sig .tc .vmem S50x128 .f32) (g5 : a5.IsWhole)
    (a6 : Memref sig .tc .vmem S1x128 .f32) (g6 : a6.IsWhole) (a7 : Memref sig .tc .vmem S128x128 .f32) (g7 : a7.IsWhole)
    (a8 : Memref sig .tc .vmem S1x128 .f32) (g8 : a8.IsWhole) (a9 : Memref sig .tc .vmem S1024x128 .f32) (g9 : a9.IsWhole)
    (a10 : Memref sig .tc .vmem S1024x128 .f32) (g10 : a10.IsWhole)
    (xf : Vec F S1x50x8x1024 .f32) (xg : Vec F S8192x128 .f32) (xc : Vec F S1x8x1024 .f32) (xw1 : Vec F S50x128 .f32)
    (xb1 : Vec F S1x128 .f32) (xw2 : Vec F S128x128 .f32) (xb2 : Vec F S1x128 .f32) (acc : Vec F S1024x128 .f32) (K : PUnit → sProp 𝕄) :
    iprop(owns (c : Thread nD τ) a2 fullShare xf ∗ owns (c : Thread nD τ) a3 fullShare xg ∗ owns (c : Thread nD τ) a4 fullShare xc
        ∗ owns (c : Thread nD τ) a5 fullShare xw1 ∗ owns (c : Thread nD τ) a6 fullShare xb1 ∗ owns (c : Thread nD τ) a7 fullShare xw2
        ∗ owns (c : Thread nD τ) a8 fullShare xb2
        ∗ (∃ d, owns (c : Thread nD τ) a9 fullShare d) ∗ owns (c : Thread nD τ) a10 fullShare acc
        ∗ (iprop(owns (c : Thread nD τ) a2 fullShare xf ∗ owns (c : Thread nD τ) a3 fullShare xg ∗ owns (c : Thread nD τ) a4 fullShare xc
        ∗ owns (c : Thread nD τ) a5 fullShare xw1 ∗ owns (c : Thread nD τ) a6 fullShare xb1 ∗ owns (c : Thread nD τ) a7 fullShare xw2
        ∗ owns (c : Thread nD τ) a8 fullShare xb2
              ∗ owns (c : Thread nD τ) a9 fullShare (whole (View.ld (whole (second ⟨xf, xg, xc, xw1, xb1, xw2, xb2⟩ (View.ld acc rBig))) rBig))
              ∗ owns (c : Thread nD τ) a10 fullShare (whole (second ⟨xf, xg, xc, xw1, xb1, xw2, xb2⟩ (View.ld acc rBig)))) -∗ K ⟨⟩))
      ⊢ wp frame (wpE (defs₀ (F := F)) 𝒱₀ c none) E
          (cc2__fused_kernel i a2 g2 a3 g3 a4 g4 a5 g5 a6 g6 a7 g7 a8 g8 a9 g9 a10 g10) K := by
  have h1 : ¬ Scalar.cmpi .ne (Scalar.extui (Scalar.cmpi .eq (BitVec.ofNat 32 (i 1).val) 0#32)) 0#32 = 1#1 := by rw [hi]; decide
  have h2 : Scalar.cmpi .ne (Scalar.extui (Scalar.cmpi .sgt (BitVec.ofNat 32 (i 1).val) 0#32)) 0#32 = 1#1 := by rw [hi]; decide
  have h3 : k2_cond3 i = 1#1 := by unfold k2_cond3; rw [hi]; decide
  sl_unfold [cc2__fused_kernel]
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩,
    ⟨%d9, %f9, -, H9⟩, ⟨%f10, %e10, H10⟩, Hk⟩
  subst e2 e3 e4 e5 e6 e7 e8 e10
  -- the loads, the sum (pure), the accumulator read, added to and overwritten, then copied to the output block
  sl_exec
  sl_step
  iapply Hk
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists f7; isplitr
    · ipureintro; rfl
    · iexact H7
  isplitl [H8]
  · iexists f8; isplitr
    · ipureintro; rfl
    · iexact H8
  isplitl [H9]
  · iexists _
    isplitr
    rotate_left
    · iexact H9
    · ipureintro
      -- the output block's one store is of the accumulator read back, whole, after its own overwrite
      rw [View.read_writes_eq_canon _ _ _ (whole_covers (F := F) _)]
      exact congrArg (fun p => View.canon [(⟨rBig, p⟩ : View.Piece (Elt F) S1024x128 .f32)])
        (View.readCov_eq_canon_ld _ _ rBig (whole_covers (F := F) _))
  iexists _
  isplitr
  rotate_left
  · iexact H10
  · ipureintro
    exact View.read_writes_eq_canon _ _ _ (whole_covers (F := F) _)

/-! ## The proof data -/

/-- Window w's block at point t, read off the array's contents at the region's entry. -/
def blockAt (c : Dev nD) (A : (w : Fin cfg2.W) → Buf (Elt F) ((cfg2.win w).arr.view.loc (c.tc : Thread nD τ)))
    (w : Fin cfg2.W) (t : Fin cfg2.N) : ((cfg2.win w).xblock (cfg2.grid.coords t)).Idx → Elt F (cfg2.win w).elt :=
  ((cfg2.win w).blk t).view.read (Elt F) (A w)

/-- The seven staged inputs of point t. -/
def insAt (c : Dev nD) (A : (w : Fin cfg2.W) → Buf (Elt F) ((cfg2.win w).arr.view.loc (c.tc : Thread nD τ))) (t : Fin cfg2.N) : Ins F :=
  ⟨blockAt c A 0 t, blockAt c A 1 t, blockAt c A 2 t, blockAt c A 3 t, blockAt c A 4 t, blockAt c A 5 t, blockAt c A 6 t⟩

/-- The point before t (t itself at the first point, where it is not used). -/
def prev (t : Fin cfg2.N) : Fin cfg2.N := ⟨t.val - 1, Nat.lt_of_le_of_lt (Nat.sub_le _ _) t.isLt⟩

/-- The accumulator after the first point of a pair: that point's sum. -/
def accFirst (c : Dev nD) (A : (w : Fin cfg2.W) → Buf (Elt F) ((cfg2.win w).arr.view.loc (c.tc : Thread nD τ))) (t : Fin cfg2.N) :
    Vec F S1024x128 .f32 := whole (first (insAt c A t))

/-- The accumulator after the second point t of a pair: the first point's sum plus this point's. -/
def accSecond (c : Dev nD) (A : (w : Fin cfg2.W) → Buf (Elt F) ((cfg2.win w).arr.view.loc (c.tc : Thread nD τ))) (t : Fin cfg2.N) :
    Vec F S1024x128 .f32 := whole (second (insAt c A t) (View.ld (accFirst c A (prev t)) rBig))

/-- The accumulator, as a whole buffer of the core. -/
abbrev accRef : Memref sig .tc .vmem S1024x128 .f32 := Memref.whole cc2_scratch0

/-- The region's proof data on core c: entry contents A of the eight arrays, shares q, the tallies O and the bound B as
    they are throughout. The invariant is R before the first point of a pair (R: what the core holds besides the
    windows, the accumulator among it at contents nobody names) and, between the two points of a pair, Rm (the same
    without the accumulator) with the accumulator at the first point's sum. The body leaves each input at its block;
    at the second point of a pair it leaves the output block at the accumulator read back. -/
def dat (c : Dev nD) (A : (w : Fin cfg2.W) → Buf (Elt F) ((cfg2.win w).arr.view.loc (c.tc : Thread nD τ)))
    (q : Fin cfg2.W → PosShare TreeShare) (R Rm : sProp 𝕄) (O : CellTallies nD τ sig Ix) (B : Set (SemLoc sig × Ix)) :
    Dat τ (Elt F) Ix Name U Lvl cfg2 c where
  A := A
  after w t := match w with
    | ⟨0, _⟩ => blockAt c A 0 t
    | ⟨1, _⟩ => blockAt c A 1 t
    | ⟨2, _⟩ => blockAt c A 2 t
    | ⟨3, _⟩ => blockAt c A 3 t
    | ⟨4, _⟩ => blockAt c A 4 t
    | ⟨5, _⟩ => blockAt c A 5 t
    | ⟨6, _⟩ => blockAt c A 6 t
    | ⟨7, _⟩ => whole (View.ld (accSecond c A t) rBig)
  Φ t := if h : t.val % 2 = 1 then
      iprop(Rm ∗ owns (c : Thread nD τ) accRef fullShare (accFirst c A ⟨t.val - 1, by have := t.isLt; omega⟩))
    else R
  q := q
  owed _ := O
  recorded _ := B

/-! ## What the proof data says -/

/-- The second grid coordinate of point t is t modulo 2. -/
theorem coord1 : ∀ t : Fin grid2.N, ((grid2.coords t) 1).val = t.val % 2 := by decide +kernel

/-- The output window rests (is neither stored to nor written back) exactly at the first point of a pair. -/
theorem idle7 : ∀ t : Fin grid2.N, cfg2.idle 7 (cfg2.grid.coords t) = decide (t.val % 2 = 0) := by decide +kernel
theorem flush7 : ∀ t : Fin grid2.N, (cfg2.win 7).flush t = decide (t.val % 2 = 1) := by decide +kernel

section Facts

variable (c : Dev nD) (A : (w : Fin cfg2.W) → Buf (Elt F) ((cfg2.win w).arr.view.loc (c.tc : Thread nD τ)))
  (q : Fin cfg2.W → PosShare TreeShare) (O : CellTallies nD τ sig Ix) (B : Set (SemLoc sig × Ix))

theorem after_in0 (R Rm : sProp 𝕄) (t : Fin cfg2.N) : (dat (Name := Name) (Lvl := Lvl) c A q R Rm O B).after 0 t = blockAt c A 0 t := by dsimp only [dat]
theorem after_in1 (R Rm : sProp 𝕄) (t : Fin cfg2.N) : (dat (Name := Name) (Lvl := Lvl) c A q R Rm O B).after 1 t = blockAt c A 1 t := by dsimp only [dat]
theorem after_in2 (R Rm : sProp 𝕄) (t : Fin cfg2.N) : (dat (Name := Name) (Lvl := Lvl) c A q R Rm O B).after 2 t = blockAt c A 2 t := by dsimp only [dat]
theorem after_in3 (R Rm : sProp 𝕄) (t : Fin cfg2.N) : (dat (Name := Name) (Lvl := Lvl) c A q R Rm O B).after 3 t = blockAt c A 3 t := by dsimp only [dat]
theorem after_in4 (R Rm : sProp 𝕄) (t : Fin cfg2.N) : (dat (Name := Name) (Lvl := Lvl) c A q R Rm O B).after 4 t = blockAt c A 4 t := by dsimp only [dat]
theorem after_in5 (R Rm : sProp 𝕄) (t : Fin cfg2.N) : (dat (Name := Name) (Lvl := Lvl) c A q R Rm O B).after 5 t = blockAt c A 5 t := by dsimp only [dat]
theorem after_in6 (R Rm : sProp 𝕄) (t : Fin cfg2.N) : (dat (Name := Name) (Lvl := Lvl) c A q R Rm O B).after 6 t = blockAt c A 6 t := by dsimp only [dat]
theorem after_out (R Rm : sProp 𝕄) (t : Fin cfg2.N) : (dat (Name := Name) (Lvl := Lvl) c A q R Rm O B).after 7 t = whole (View.ld (accSecond c A t) rBig) := by dsimp only [dat]

theorem before_in0 (R Rm : sProp 𝕄) (t : Fin cfg2.N) (d) : (dat (Name := Name) (Lvl := Lvl) c A q R Rm O B).before 0 t d = blockAt c A 0 t :=
  ((dat (Name := Name) (Lvl := Lvl) c A q R Rm O B).before_in_eq_fetched 0 rfl (fun _ => rfl) (fun _ _ _ => rfl) (fun u => by rw [after_in0]; rfl) t d).trans rfl
theorem before_in1 (R Rm : sProp 𝕄) (t : Fin cfg2.N) (d) : (dat (Name := Name) (Lvl := Lvl) c A q R Rm O B).before 1 t d = blockAt c A 1 t :=
  ((dat (Name := Name) (Lvl := Lvl) c A q R Rm O B).before_in_eq_fetched 1 rfl (fun _ => rfl) (fun _ _ _ => rfl) (fun u => by rw [after_in1]; rfl) t d).trans rfl
theorem before_in2 (R Rm : sProp 𝕄) (t : Fin cfg2.N) (d) : (dat (Name := Name) (Lvl := Lvl) c A q R Rm O B).before 2 t d = blockAt c A 2 t :=
  ((dat (Name := Name) (Lvl := Lvl) c A q R Rm O B).before_in_eq_fetched 2 rfl (fun _ => rfl) (fun _ _ _ => rfl) (fun u => by rw [after_in2]; rfl) t d).trans rfl
theorem before_in3 (R Rm : sProp 𝕄) (t : Fin cfg2.N) (d) : (dat (Name := Name) (Lvl := Lvl) c A q R Rm O B).before 3 t d = blockAt c A 3 t :=
  ((dat (Name := Name) (Lvl := Lvl) c A q R Rm O B).before_in_eq_fetched 3 rfl (fun _ => rfl) (fun _ _ _ => rfl) (fun u => by rw [after_in3]; rfl) t d).trans rfl
theorem before_in4 (R Rm : sProp 𝕄) (t : Fin cfg2.N) (d) : (dat (Name := Name) (Lvl := Lvl) c A q R Rm O B).before 4 t d = blockAt c A 4 t :=
  ((dat (Name := Name) (Lvl := Lvl) c A q R Rm O B).before_in_eq_fetched 4 rfl (fun _ => rfl) (fun _ _ _ => rfl) (fun u => by rw [after_in4]; rfl) t d).trans rfl
theorem before_in5 (R Rm : sProp 𝕄) (t : Fin cfg2.N) (d) : (dat (Name := Name) (Lvl := Lvl) c A q R Rm O B).before 5 t d = blockAt c A 5 t :=
  ((dat (Name := Name) (Lvl := Lvl) c A q R Rm O B).before_in_eq_fetched 5 rfl (fun _ => rfl) (fun _ _ _ => rfl) (fun u => by rw [after_in5]; rfl) t d).trans rfl
theorem before_in6 (R Rm : sProp 𝕄) (t : Fin cfg2.N) (d) : (dat (Name := Name) (Lvl := Lvl) c A q R Rm O B).before 6 t d = blockAt c A 6 t :=
  ((dat (Name := Name) (Lvl := Lvl) c A q R Rm O B).before_in_eq_fetched 6 rfl (fun _ => rfl) (fun _ _ _ => rfl) (fun u => by rw [after_in6]; rfl) t d).trans rfl

/-- Before the first point of a pair the invariant is R; -/
theorem inv_first (R Rm : sProp 𝕄) (t : Fin cfg2.N) (h : t.val % 2 = 0) : (dat (Name := Name) (Lvl := Lvl) c A q R Rm O B).Φ t.castSucc = R := by
  have h' : ¬ (t.castSucc : Fin (cfg2.N + 1)).val % 2 = 1 := by rw [Fin.val_castSucc]; omega
  dsimp only [dat]
  rw [dif_neg h']

/-- after it, Rm and the accumulator at the point's sum; -/
theorem inv_mid (R Rm : sProp 𝕄) (t : Fin cfg2.N) (h : t.val % 2 = 0) :
    (dat (Name := Name) (Lvl := Lvl) c A q R Rm O B).Φ t.succ = iprop(Rm ∗ owns (c : Thread nD τ) accRef fullShare (accFirst c A t)) := by
  have h' : (t.succ : Fin (cfg2.N + 1)).val % 2 = 1 := by rw [Fin.val_succ]; omega
  dsimp only [dat]
  rw [dif_pos h']
  rfl

/-- the same before the second point of a pair, -/
theorem inv_mid' (R Rm : sProp 𝕄) (t : Fin cfg2.N) (h : t.val % 2 = 1) :
    (dat (Name := Name) (Lvl := Lvl) c A q R Rm O B).Φ t.castSucc = iprop(Rm ∗ owns (c : Thread nD τ) accRef fullShare (accFirst c A (prev t))) := by
  have h' : (t.castSucc : Fin (cfg2.N + 1)).val % 2 = 1 := by rw [Fin.val_castSucc]; exact h
  dsimp only [dat]
  rw [dif_pos h']
  rfl

/-- and R again after it. -/
theorem inv_last (R Rm : sProp 𝕄) (t : Fin cfg2.N) (h : t.val % 2 = 1) : (dat (Name := Name) (Lvl := Lvl) c A q R Rm O B).Φ t.succ = R := by
  have h' : ¬ (t.succ : Fin (cfg2.N + 1)).val % 2 = 1 := by rw [Fin.val_succ]; omega
  dsimp only [dat]
  rw [dif_neg h']

/-- At an even position (before the first point of a pair, after the second, at the region's two ends) the invariant
    is R, -/
theorem Phi_even (R Rm : sProp 𝕄) (t : Fin (cfg2.N + 1)) (ht : t.val % 2 = 0) : (dat (Name := Name) (Lvl := Lvl) c A q R Rm O B).Φ t = R := by
  have h' : ¬ t.val % 2 = 1 := by omega
  dsimp only [dat]
  rw [dif_neg h']

/-- at an odd one, Rm with the accumulator at the sum of the point just run. -/
theorem Phi_odd (R Rm : sProp 𝕄) (t : Fin (cfg2.N + 1)) (ht : t.val % 2 = 1) :
    (dat (Name := Name) (Lvl := Lvl) c A q R Rm O B).Φ t = iprop(Rm ∗ owns (c : Thread nD τ) accRef fullShare (accFirst c A ⟨t.val - 1, by have := t.isLt; omega⟩)) := by
  dsimp only [dat]
  rw [dif_pos ht]

theorem A_eq (R Rm : sProp 𝕄) : (dat (Name := Name) (Lvl := Lvl) c A q R Rm O B).A = A := rfl
theorem q_eq (R Rm : sProp 𝕄) : (dat (Name := Name) (Lvl := Lvl) c A q R Rm O B).q = q := rfl
theorem owed_eq (R Rm : sProp 𝕄) (t : Fin (cfg2.N + 1)) : (dat (Name := Name) (Lvl := Lvl) c A q R Rm O B).owed t = O := rfl
theorem recorded_eq (R Rm : sProp 𝕄) (t : Fin (cfg2.N + 1)) : (dat (Name := Name) (Lvl := Lvl) c A q R Rm O B).recorded t = B := rfl

end Facts

/-! ## The obligation -/

/-- The body at the first point t of a pair: the accumulator is taken out of R, set to the point's sum, and kept with Rm;
    the output block is not touched. -/
theorem at_even (𝒱₀ : Variants) (ι : Ix) (c : Dev nD) (A : (w : Fin cfg2.W) → Buf (Elt F) ((cfg2.win w).arr.view.loc (c.tc : Thread nD τ)))
    (q : Fin cfg2.W → PosShare TreeShare) (R Rm : sProp 𝕄) (O : CellTallies nD τ sig Ix) (B : Set (SemLoc sig × Ix))
    (hsplit : R ⊢ iprop(Rm ∗ ∃ d, owns (c : Thread nD τ) accRef fullShare d)) (t : Fin cfg2.N) (h : t.val % 2 = 0) :
    iprop((dat c A q R Rm O B).Φ t.castSucc ∗ (dat c A q R Rm O B).owesAt ι t.castSucc
        ∗ (∃ d, owns (c : Thread nD τ) (st2_0 t) fullShare ((dat c A q R Rm O B).before 0 t d))
        ∗ (∃ d, owns (c : Thread nD τ) (st2_1 t) fullShare ((dat c A q R Rm O B).before 1 t d))
        ∗ (∃ d, owns (c : Thread nD τ) (st2_2 t) fullShare ((dat c A q R Rm O B).before 2 t d))
        ∗ (∃ d, owns (c : Thread nD τ) (st2_3 t) fullShare ((dat c A q R Rm O B).before 3 t d))
        ∗ (∃ d, owns (c : Thread nD τ) (st2_4 t) fullShare ((dat c A q R Rm O B).before 4 t d))
        ∗ (∃ d, owns (c : Thread nD τ) (st2_5 t) fullShare ((dat c A q R Rm O B).before 5 t d))
        ∗ (∃ d, owns (c : Thread nD τ) (st2_6 t) fullShare ((dat c A q R Rm O B).before 6 t d))
        ∗ (∃ d, owns (c : Thread nD τ) (st2_7 t) fullShare ((dat c A q R Rm O B).before 7 t d)))
      ⊢ wp frame (wpE (defs₀ (F := F)) 𝒱₀ c none) Set.univ (bodyAt2 t) fun _ =>
          iprop((dat c A q R Rm O B).Φ t.succ ∗ (dat c A q R Rm O B).owesAt ι t.succ
            ∗ owns (c : Thread nD τ) (st2_0 t) fullShare ((dat c A q R Rm O B).after 0 t)
            ∗ owns (c : Thread nD τ) (st2_1 t) fullShare ((dat c A q R Rm O B).after 1 t)
            ∗ owns (c : Thread nD τ) (st2_2 t) fullShare ((dat c A q R Rm O B).after 2 t)
            ∗ owns (c : Thread nD τ) (st2_3 t) fullShare ((dat c A q R Rm O B).after 3 t)
            ∗ owns (c : Thread nD τ) (st2_4 t) fullShare ((dat c A q R Rm O B).after 4 t)
            ∗ owns (c : Thread nD τ) (st2_5 t) fullShare ((dat c A q R Rm O B).after 5 t)
            ∗ owns (c : Thread nD τ) (st2_6 t) fullShare ((dat c A q R Rm O B).after 6 t)
            ∗ (∃ d, owns (c : Thread nD τ) (st2_7 t) fullShare ((dat c A q R Rm O B).before 7 t d))) := by
  simp only [before_in0, before_in1, before_in2, before_in3, before_in4, before_in5, before_in6]
  rw [inv_first c A q O B R Rm t h, inv_mid c A q O B R Rm t h,
    show (dat c A q R Rm O B).owesAt ι t.succ = (dat c A q R Rm O B).owesAt ι t.castSucc from rfl,
    after_in0, after_in1, after_in2, after_in3, after_in4, after_in5, after_in6]
  iintro ⟨HR, HO, ⟨%d0, H0⟩, ⟨%d1, H1⟩, ⟨%d2, H2⟩, ⟨%d3, H3⟩, ⟨%d4, H4⟩, ⟨%d5, H5⟩, ⟨%d6, H6⟩, ⟨%d7, H7⟩⟩
  ihave HR' := hsplit $$ HR
  icases HR' with ⟨HRm, Hacc⟩
  iapply (body_run0 𝒱₀ c Set.univ (grid2.coords t) ((coord1 t).trans h) _ _ _ _ _ _ _ _ _ _ _ _ _ _ _ _ _ _
    (blockAt c A 0 t) (blockAt c A 1 t) (blockAt c A 2 t) (blockAt c A 3 t) (blockAt c A 4 t) (blockAt c A 5 t) (blockAt c A 6 t)
    ((dat c A q R Rm O B).before 7 t d7) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hacc]; · iexact Hacc
  iintro ⟨H0, H1, H2, H3, H4, H5, H6, H7, Hacc⟩
  isplitl [HRm Hacc]
  · isplitl [HRm]; · iexact HRm
    iexact Hacc
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexists d7; iexact H7

/-- The body at the second point t of a pair: the accumulator, at the first point's sum, gets this point's sum added
    and is copied to the output block; it goes back into R at contents no longer named. -/
theorem at_odd (𝒱₀ : Variants) (ι : Ix) (c : Dev nD) (A : (w : Fin cfg2.W) → Buf (Elt F) ((cfg2.win w).arr.view.loc (c.tc : Thread nD τ)))
    (q : Fin cfg2.W → PosShare TreeShare) (R Rm : sProp 𝕄) (O : CellTallies nD τ sig Ix) (B : Set (SemLoc sig × Ix))
    (hjoin : iprop(Rm ∗ ∃ d, owns (c : Thread nD τ) accRef fullShare d) ⊢ R) (t : Fin cfg2.N) (h : t.val % 2 = 1) :
    iprop((dat c A q R Rm O B).Φ t.castSucc ∗ (dat c A q R Rm O B).owesAt ι t.castSucc
        ∗ (∃ d, owns (c : Thread nD τ) (st2_0 t) fullShare ((dat c A q R Rm O B).before 0 t d))
        ∗ (∃ d, owns (c : Thread nD τ) (st2_1 t) fullShare ((dat c A q R Rm O B).before 1 t d))
        ∗ (∃ d, owns (c : Thread nD τ) (st2_2 t) fullShare ((dat c A q R Rm O B).before 2 t d))
        ∗ (∃ d, owns (c : Thread nD τ) (st2_3 t) fullShare ((dat c A q R Rm O B).before 3 t d))
        ∗ (∃ d, owns (c : Thread nD τ) (st2_4 t) fullShare ((dat c A q R Rm O B).before 4 t d))
        ∗ (∃ d, owns (c : Thread nD τ) (st2_5 t) fullShare ((dat c A q R Rm O B).before 5 t d))
        ∗ (∃ d, owns (c : Thread nD τ) (st2_6 t) fullShare ((dat c A q R Rm O B).before 6 t d))
        ∗ (∃ d, owns (c : Thread nD τ) (st2_7 t) fullShare ((dat c A q R Rm O B).before 7 t d)))
      ⊢ wp frame (wpE (defs₀ (F := F)) 𝒱₀ c none) Set.univ (bodyAt2 t) fun _ =>
          iprop((dat c A q R Rm O B).Φ t.succ ∗ (dat c A q R Rm O B).owesAt ι t.succ
            ∗ owns (c : Thread nD τ) (st2_0 t) fullShare ((dat c A q R Rm O B).after 0 t)
            ∗ owns (c : Thread nD τ) (st2_1 t) fullShare ((dat c A q R Rm O B).after 1 t)
            ∗ owns (c : Thread nD τ) (st2_2 t) fullShare ((dat c A q R Rm O B).after 2 t)
            ∗ owns (c : Thread nD τ) (st2_3 t) fullShare ((dat c A q R Rm O B).after 3 t)
            ∗ owns (c : Thread nD τ) (st2_4 t) fullShare ((dat c A q R Rm O B).after 4 t)
            ∗ owns (c : Thread nD τ) (st2_5 t) fullShare ((dat c A q R Rm O B).after 5 t)
            ∗ owns (c : Thread nD τ) (st2_6 t) fullShare ((dat c A q R Rm O B).after 6 t)
            ∗ owns (c : Thread nD τ) (st2_7 t) fullShare ((dat c A q R Rm O B).after 7 t)) := by
  simp only [before_in0, before_in1, before_in2, before_in3, before_in4, before_in5, before_in6]
  rw [inv_mid' c A q O B R Rm t h, inv_last c A q O B R Rm t h,
    show (dat c A q R Rm O B).owesAt ι t.succ = (dat c A q R Rm O B).owesAt ι t.castSucc from rfl,
    after_in0, after_in1, after_in2, after_in3, after_in4, after_in5, after_in6, after_out]
  iintro ⟨⟨HRm, Hacc⟩, HO, ⟨%d0, H0⟩, ⟨%d1, H1⟩, ⟨%d2, H2⟩, ⟨%d3, H3⟩, ⟨%d4, H4⟩, ⟨%d5, H5⟩, ⟨%d6, H6⟩, ⟨%d7, H7⟩⟩
  iapply (body_run1 𝒱₀ c Set.univ (grid2.coords t) ((coord1 t).trans h) _ _ _ _ _ _ _ _ _ _ _ _ _ _ _ _ _ _
    (blockAt c A 0 t) (blockAt c A 1 t) (blockAt c A 2 t) (blockAt c A 3 t) (blockAt c A 4 t) (blockAt c A 5 t) (blockAt c A 6 t)
    (accFirst c A (prev t)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [Hacc]; · iexact Hacc
  iintro ⟨H0, H1, H2, H3, H4, H5, H6, H7, Hacc⟩
  isplitl [HRm Hacc]
  · iapply hjoin
    isplitl [HRm]; · iexact HRm
    iexists _; iexact Hacc
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body at any point t, the eight windows written out; the output window's clause is the rule's own: what the
    window held, where it rests and is not written back; what the body leaves, elsewhere. -/
theorem at_point (𝒱₀ : Variants) (ι : Ix) (c : Dev nD) (A : (w : Fin cfg2.W) → Buf (Elt F) ((cfg2.win w).arr.view.loc (c.tc : Thread nD τ)))
    (q : Fin cfg2.W → PosShare TreeShare) (R Rm : sProp 𝕄) (O : CellTallies nD τ sig Ix) (B : Set (SemLoc sig × Ix))
    (hsplit : R ⊢ iprop(Rm ∗ ∃ d, owns (c : Thread nD τ) accRef fullShare d))
    (hjoin : iprop(Rm ∗ ∃ d, owns (c : Thread nD τ) accRef fullShare d) ⊢ R) (t : Fin cfg2.N) :
    iprop((dat c A q R Rm O B).Φ t.castSucc ∗ (dat c A q R Rm O B).owesAt ι t.castSucc
        ∗ (∃ d, owns (c : Thread nD τ) (st2_0 t) fullShare ((dat c A q R Rm O B).before 0 t d))
        ∗ (∃ d, owns (c : Thread nD τ) (st2_1 t) fullShare ((dat c A q R Rm O B).before 1 t d))
        ∗ (∃ d, owns (c : Thread nD τ) (st2_2 t) fullShare ((dat c A q R Rm O B).before 2 t d))
        ∗ (∃ d, owns (c : Thread nD τ) (st2_3 t) fullShare ((dat c A q R Rm O B).before 3 t d))
        ∗ (∃ d, owns (c : Thread nD τ) (st2_4 t) fullShare ((dat c A q R Rm O B).before 4 t d))
        ∗ (∃ d, owns (c : Thread nD τ) (st2_5 t) fullShare ((dat c A q R Rm O B).before 5 t d))
        ∗ (∃ d, owns (c : Thread nD τ) (st2_6 t) fullShare ((dat c A q R Rm O B).before 6 t d))
        ∗ (∃ d, owns (c : Thread nD τ) (st2_7 t) fullShare ((dat c A q R Rm O B).before 7 t d)))
      ⊢ wp frame (wpE (defs₀ (F := F)) 𝒱₀ c none) Set.univ (bodyAt2 t) fun _ =>
          iprop((dat c A q R Rm O B).Φ t.succ ∗ (dat c A q R Rm O B).owesAt ι t.succ
            ∗ owns (c : Thread nD τ) (st2_0 t) fullShare ((dat c A q R Rm O B).after 0 t)
            ∗ owns (c : Thread nD τ) (st2_1 t) fullShare ((dat c A q R Rm O B).after 1 t)
            ∗ owns (c : Thread nD τ) (st2_2 t) fullShare ((dat c A q R Rm O B).after 2 t)
            ∗ owns (c : Thread nD τ) (st2_3 t) fullShare ((dat c A q R Rm O B).after 3 t)
            ∗ owns (c : Thread nD τ) (st2_4 t) fullShare ((dat c A q R Rm O B).after 4 t)
            ∗ owns (c : Thread nD τ) (st2_5 t) fullShare ((dat c A q R Rm O B).after 5 t)
            ∗ owns (c : Thread nD τ) (st2_6 t) fullShare ((dat c A q R Rm O B).after 6 t)
            ∗ (match cfg2.idle 7 (cfg2.grid.coords t) with
              | true =>
                match (cfg2.win 7).flush t with
                | false => iprop(∃ d, owns (c : Thread nD τ) (st2_7 t) fullShare ((dat c A q R Rm O B).before 7 t d))
                | true => owns (c : Thread nD τ) (st2_7 t) fullShare ((dat c A q R Rm O B).after 7 t)
              | false => owns (c : Thread nD τ) (st2_7 t) fullShare ((dat c A q R Rm O B).after 7 t))) := by
  rcases Nat.mod_two_eq_zero_or_one t.val with h | h
  · have e1 : cfg2.idle 7 (cfg2.grid.coords t) = true := by rw [idle7 t]; exact decide_eq_true h
    have e2 : (cfg2.win 7).flush t = false := by rw [flush7 t]; exact decide_eq_false (by omega)
    rw [e1, e2]
    exact at_even 𝒱₀ ι c A q R Rm O B hsplit t h
  · have e1 : cfg2.idle 7 (cfg2.grid.coords t) = false := by rw [idle7 t]; exact decide_eq_false (by omega)
    rw [e1]
    exact at_odd 𝒱₀ ι c A q R Rm O B hjoin t h

/-- The region rule's hypothesis about the body, at every point of the grid, given that the accumulator can be taken out of
    R and put back. -/
theorem body_obligation (𝒱₀ : Variants) (ι : Ix) (c : Dev nD) (A : (w : Fin cfg2.W) → Buf (Elt F) ((cfg2.win w).arr.view.loc (c.tc : Thread nD τ)))
    (q : Fin cfg2.W → PosShare TreeShare) (R Rm : sProp 𝕄) (O : CellTallies nD τ sig Ix) (B : Set (SemLoc sig × Ix))
    (hsplit : R ⊢ iprop(Rm ∗ ∃ d, owns (c : Thread nD τ) accRef fullShare d))
    (hjoin : iprop(Rm ∗ ∃ d, owns (c : Thread nD τ) accRef fullShare d) ⊢ R) :
    BodyObligation (dat c A q R Rm O B) (defs₀ (F := F)) 𝒱₀ ι Set.univ := fun t => by
  rw [bigSep_W2, bigSep_W2]
  exact at_point 𝒱₀ ι c A q R Rm O B hsplit hjoin t

end Cert.KernelIdeal.Region1B

end
-- ==== Proof.Region1Rest.lean ====
/-
  The fused regions' scratch accumulator among the tensor core's scoped buffers.

  A fused region (pipelines 1 … 4) is entered holding every scoped buffer of the core that stages nothing for it, each
  whole at contents not named. One of them is the region's accumulator, which the body sets at the first point of a
  pair and reads at the second: between the two the invariant names its contents. So the buffers split as the
  accumulator, owned whole at some contents, and the others unopened; and they join back.
-/
import proofs.«215235_g2774548873965_cont_9to1_572_34_alg».proof.KernelIdeal
import proofs.«215235_g2774548873965_cont_9to1_572_34_alg».proof.Proof.Gen.KernelIdeal
import proofs.«215235_g2774548873965_cont_9to1_572_34_alg».proof.Proof.Gen.KernelIdeal.Launch
import Idealize.ShloMosaic.Lib.Pipeline.Kit
import Idealize.ShloMosaic.Lib.Pipeline.FrameBody
import Idealize.ShloMosaic.Lib.Tactic

noncomputable section

namespace Cert.KernelIdeal.Region1B

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- A whole buffer of the core at some contents, as the scoped rest holds it and as a body owns it. -/
theorem whole_owned (c : Dev nD) (b : Ref sig .tc) :
    (iprop(∃ d, owns (c : Thread nD τ) (Memref.whole b) fullShare d) : sProp 𝕄)
      ⊣⊢ iprop(∃ f : Buf (Elt F) ((c : Thread nD τ).loc b), ((c : Thread nD τ).loc b) ↦{fullShare} f) := by
  have hs : (Memref.whole b : Memref sig .tc _ _ _).view.set = Finset.univ := View.set_whole _
  constructor
  · unfold owns
    iintro ⟨%d, %f, -, H⟩
    iexists f
    rw [hs]
    iexact H
  · iintro ⟨%f, H⟩
    iexists ((Memref.whole b).view.read (Elt F) f)
    unfold owns
    iexists f
    isplitr
    · ipureintro; rfl
    · rw [hs]; iexact H

/-! ## Pipeline 1 -/

/-- The core's scoped buffers that stage nothing for pipeline 1, each whole at some contents. -/
def rest1 (a : (p : Fin 6) → (pcfgs (F := F) p).Adm) (c : Dev nD) : sProp 𝕄 :=
  Pipeline.scopedRest (Pipeline.pin (pcfgs (F := F)) a 1).spec c

/-- The same but the region's accumulator. -/
def restNoAcc1 (c : Dev nD) : sProp 𝕄 :=
  Pipeline.scopedRestBut (Ix := Ix) (Name := Name) (U := U) (Lvl := Lvl) (Val := Elt F) spec2 c [cc2_scratch0]

/-- The accumulator taken out of the scoped rest, owned whole at some contents; -/
theorem acc_split1 (a : (p : Fin 6) → (pcfgs (F := F) p).Adm) (c : Dev nD) :
    (rest1 (Ix := Ix) (Name := Name) (U := U) (Lvl := Lvl) a c : sProp 𝕄)
      ⊢ iprop(restNoAcc1 c ∗ ∃ d, owns (c : Thread nD τ) (Memref.whole cc2_scratch0) fullShare d) := by
  rw [show rest1 (Ix := Ix) (Name := Name) (U := U) (Lvl := Lvl) a c
      = (Pipeline.scopedRest (Ix := Ix) (Name := Name) (U := U) (Lvl := Lvl) (Val := Elt F) spec2 c : sProp 𝕄) from rfl, scopedRest2_split]
  unfold restNoAcc1
  iintro ⟨Ha, Hm⟩
  isplitl [Hm]; · iexact Hm
  iapply (whole_owned (F := F) c cc2_scratch0).2
  iexact Ha

/-- and put back. -/
theorem acc_join1 (a : (p : Fin 6) → (pcfgs (F := F) p).Adm) (c : Dev nD) :
    (iprop(restNoAcc1 c ∗ ∃ d, owns (c : Thread nD τ) (Memref.whole cc2_scratch0) fullShare d) : sProp 𝕄)
      ⊢ rest1 (Ix := Ix) (Name := Name) (U := U) (Lvl := Lvl) a c := by
  rw [show rest1 (Ix := Ix) (Name := Name) (U := U) (Lvl := Lvl) a c
      = (Pipeline.scopedRest (Ix := Ix) (Name := Name) (U := U) (Lvl := Lvl) (Val := Elt F) spec2 c : sProp 𝕄) from rfl, scopedRest2_split]
  unfold restNoAcc1
  iintro ⟨Hm, Ha⟩
  isplitl [Ha]
  · iapply (whole_owned (F := F) c cc2_scratch0).1
    iexact Ha
  iexact Hm

/-! ## Pipeline 2 -/

/-- The core's scoped buffers that stage nothing for pipeline 2, each whole at some contents. -/
def rest2 (a : (p : Fin 6) → (pcfgs (F := F) p).Adm) (c : Dev nD) : sProp 𝕄 :=
  Pipeline.scopedRest (Pipeline.pin (pcfgs (F := F)) a 2).spec c

/-- The same but the region's accumulator. -/
def restNoAcc2 (c : Dev nD) : sProp 𝕄 :=
  Pipeline.scopedRestBut (Ix := Ix) (Name := Name) (U := U) (Lvl := Lvl) (Val := Elt F) spec4 c [cc4_scratch0]

/-- The accumulator taken out of the scoped rest, owned whole at some contents; -/
theorem acc_split2 (a : (p : Fin 6) → (pcfgs (F := F) p).Adm) (c : Dev nD) :
    (rest2 (Ix := Ix) (Name := Name) (U := U) (Lvl := Lvl) a c : sProp 𝕄)
      ⊢ iprop(restNoAcc2 c ∗ ∃ d, owns (c : Thread nD τ) (Memref.whole cc4_scratch0) fullShare d) := by
  rw [show rest2 (Ix := Ix) (Name := Name) (U := U) (Lvl := Lvl) a c
      = (Pipeline.scopedRest (Ix := Ix) (Name := Name) (U := U) (Lvl := Lvl) (Val := Elt F) spec4 c : sProp 𝕄) from rfl, scopedRest4_split]
  unfold restNoAcc2
  iintro ⟨Ha, Hm⟩
  isplitl [Hm]; · iexact Hm
  iapply (whole_owned (F := F) c cc4_scratch0).2
  iexact Ha

/-- and put back. -/
theorem acc_join2 (a : (p : Fin 6) → (pcfgs (F := F) p).Adm) (c : Dev nD) :
    (iprop(restNoAcc2 c ∗ ∃ d, owns (c : Thread nD τ) (Memref.whole cc4_scratch0) fullShare d) : sProp 𝕄)
      ⊢ rest2 (Ix := Ix) (Name := Name) (U := U) (Lvl := Lvl) a c := by
  rw [show rest2 (Ix := Ix) (Name := Name) (U := U) (Lvl := Lvl) a c
      = (Pipeline.scopedRest (Ix := Ix) (Name := Name) (U := U) (Lvl := Lvl) (Val := Elt F) spec4 c : sProp 𝕄) from rfl, scopedRest4_split]
  unfold restNoAcc2
  iintro ⟨Hm, Ha⟩
  isplitl [Ha]
  · iapply (whole_owned (F := F) c cc4_scratch0).1
    iexact Ha
  iexact Hm

/-! ## Pipeline 3 -/

/-- The core's scoped buffers that stage nothing for pipeline 3, each whole at some contents. -/
def rest3 (a : (p : Fin 6) → (pcfgs (F := F) p).Adm) (c : Dev nD) : sProp 𝕄 :=
  Pipeline.scopedRest (Pipeline.pin (pcfgs (F := F)) a 3).spec c

/-- The same but the region's accumulator. -/
def restNoAcc3 (c : Dev nD) : sProp 𝕄 :=
  Pipeline.scopedRestBut (Ix := Ix) (Name := Name) (U := U) (Lvl := Lvl) (Val := Elt F) spec6 c [cc6_scratch0]

/-- The accumulator taken out of the scoped rest, owned whole at some contents; -/
theorem acc_split3 (a : (p : Fin 6) → (pcfgs (F := F) p).Adm) (c : Dev nD) :
    (rest3 (Ix := Ix) (Name := Name) (U := U) (Lvl := Lvl) a c : sProp 𝕄)
      ⊢ iprop(restNoAcc3 c ∗ ∃ d, owns (c : Thread nD τ) (Memref.whole cc6_scratch0) fullShare d) := by
  rw [show rest3 (Ix := Ix) (Name := Name) (U := U) (Lvl := Lvl) a c
      = (Pipeline.scopedRest (Ix := Ix) (Name := Name) (U := U) (Lvl := Lvl) (Val := Elt F) spec6 c : sProp 𝕄) from rfl, scopedRest6_split]
  unfold restNoAcc3
  iintro ⟨Ha, Hm⟩
  isplitl [Hm]; · iexact Hm
  iapply (whole_owned (F := F) c cc6_scratch0).2
  iexact Ha

/-- and put back. -/
theorem acc_join3 (a : (p : Fin 6) → (pcfgs (F := F) p).Adm) (c : Dev nD) :
    (iprop(restNoAcc3 c ∗ ∃ d, owns (c : Thread nD τ) (Memref.whole cc6_scratch0) fullShare d) : sProp 𝕄)
      ⊢ rest3 (Ix := Ix) (Name := Name) (U := U) (Lvl := Lvl) a c := by
  rw [show rest3 (Ix := Ix) (Name := Name) (U := U) (Lvl := Lvl) a c
      = (Pipeline.scopedRest (Ix := Ix) (Name := Name) (U := U) (Lvl := Lvl) (Val := Elt F) spec6 c : sProp 𝕄) from rfl, scopedRest6_split]
  unfold restNoAcc3
  iintro ⟨Hm, Ha⟩
  isplitl [Ha]
  · iapply (whole_owned (F := F) c cc6_scratch0).1
    iexact Ha
  iexact Hm

/-! ## Pipeline 4 -/

/-- The core's scoped buffers that stage nothing for pipeline 4, each whole at some contents. -/
def rest4 (a : (p : Fin 6) → (pcfgs (F := F) p).Adm) (c : Dev nD) : sProp 𝕄 :=
  Pipeline.scopedRest (Pipeline.pin (pcfgs (F := F)) a 4).spec c

/-- The same but the region's accumulator. -/
def restNoAcc4 (c : Dev nD) : sProp 𝕄 :=
  Pipeline.scopedRestBut (Ix := Ix) (Name := Name) (U := U) (Lvl := Lvl) (Val := Elt F) spec8 c [cc8_scratch0]

/-- The accumulator taken out of the scoped rest, owned whole at some contents; -/
theorem acc_split4 (a : (p : Fin 6) → (pcfgs (F := F) p).Adm) (c : Dev nD) :
    (rest4 (Ix := Ix) (Name := Name) (U := U) (Lvl := Lvl) a c : sProp 𝕄)
      ⊢ iprop(restNoAcc4 c ∗ ∃ d, owns (c : Thread nD τ) (Memref.whole cc8_scratch0) fullShare d) := by
  rw [show rest4 (Ix := Ix) (Name := Name) (U := U) (Lvl := Lvl) a c
      = (Pipeline.scopedRest (Ix := Ix) (Name := Name) (U := U) (Lvl := Lvl) (Val := Elt F) spec8 c : sProp 𝕄) from rfl, scopedRest8_split]
  unfold restNoAcc4
  iintro ⟨Ha, Hm⟩
  isplitl [Hm]; · iexact Hm
  iapply (whole_owned (F := F) c cc8_scratch0).2
  iexact Ha

/-- and put back. -/
theorem acc_join4 (a : (p : Fin 6) → (pcfgs (F := F) p).Adm) (c : Dev nD) :
    (iprop(restNoAcc4 c ∗ ∃ d, owns (c : Thread nD τ) (Memref.whole cc8_scratch0) fullShare d) : sProp 𝕄)
      ⊢ rest4 (Ix := Ix) (Name := Name) (U := U) (Lvl := Lvl) a c := by
  rw [show rest4 (Ix := Ix) (Name := Name) (U := U) (Lvl := Lvl) a c
      = (Pipeline.scopedRest (Ix := Ix) (Name := Name) (U := U) (Lvl := Lvl) (Val := Elt F) spec8 c : sProp 𝕄) from rfl, scopedRest8_split]
  unfold restNoAcc4
  iintro ⟨Hm, Ha⟩
  isplitl [Ha]
  · iapply (whole_owned (F := F) c cc8_scratch0).1
    iexact Ha
  iexact Hm

end Cert.KernelIdeal.Region1B

end
-- ==== Proof.Region1Data.lean ====
/-
  The first fused region as a segment of @main: its proof data for a segment, read off the valuation the region is
  entered at, meets what a segment asks — the arrays' entry contents are the valuation's, full shares, the tallies and
  the bound of the handshake state at every point, and an invariant that is the scoped rest at every even point, in
  particular at the first and at the last (the accumulator, one of the scoped rest's buffers, is named apart only
  between the two halves of a row of the grid) — and the body's proof is the body file's.
-/
import proofs.«215235_g2774548873965_cont_9to1_572_34_alg».proof.Proof.ScRegion
import proofs.«215235_g2774548873965_cont_9to1_572_34_alg».proof.Proof.Region1Body
import proofs.«215235_g2774548873965_cont_9to1_572_34_alg».proof.Proof.Region1Rest

noncomputable section

namespace Cert.KernelIdeal.Sc

open Cert.KernelIdeal
open Idealize.ShloMosaic Idealize.ShloMosaic.StableHlo Idealize.ShloMosaic.TcCoe
open Idealize.ShloMosaic.SparseCore (S T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F] [∀ e, Nonempty (Elt F e)]

local notation "𝕄" => MT nD τ sig (HIx 4) (Elt F) ℕ UU ℕ

/-- The pipeline this file is about. -/
abbrev pix : Fin 6 := 1

/-- The region's arrays at a valuation. -/
def A1 (W : Valuation τ sig (Elt F)) (c : Dev nD) (w : Fin cfg2.W) : Buf (Elt F) ((cfg2.win w).arr.view.loc (c.tc : Thread nD τ)) :=
  valOn W c (Pipeline.arrRef spec2 w)

/-- Its proof data for a segment entered before call n, at a valuation. -/
def dt1 (n : ℕ) (W : Valuation τ sig (Elt F)) (c : Dev nD) : Dat τ (Elt F) (HIx 4) ℕ UU ℕ (Pipeline.pin (pcfgs (F := F)) adm pix) c :=
  Region1B.dat c (A1 W c) (fun _ => fullShare) (Region1B.rest1 adm c) (Region1B.restNoAcc1 c) ((K (F := F)).Otc c n) (below (F := F) c n)

/-- The grid has an even number of points. -/
theorem N1_even : (Pipeline.pin (pcfgs (F := F)) adm pix).N % 2 = 0 := by
  show grid2.N % 2 = 0
  rw [Gen.N_2]

/-- What a segment asks of the region's proof data. (The facts about the scoped rest are matched in the proof mode, not by
    unfolding: the accumulator's split and join are restated in the body's own words first.) -/
theorem data1 (n : ℕ) : RegionData (F := F) pix n (dt1 n) where
  body W c := by
    have hs : (Region1B.rest1 adm c : sProp 𝕄)
        ⊢ iprop(Region1B.restNoAcc1 c ∗ ∃ d, owns (c : Thread nD τ) Region1B.accRef fullShare d) := by
      with_reducible_and_instances exact Region1B.acc_split1 adm c
    have hj : (iprop(Region1B.restNoAcc1 c ∗ ∃ d, owns (c : Thread nD τ) Region1B.accRef fullShare d) : sProp 𝕄)
        ⊢ Region1B.rest1 adm c := by
      with_reducible_and_instances exact Region1B.acc_join1 adm c
    have hb : Pipeline.BodyObligation (dt1 (F := F) n W c) (defs₀ (F := F)) Variants.none none Set.univ := by
      unfold dt1
      with_reducible_and_instances
        exact Region1B.body_obligation Variants.none none c (A1 W c) (fun _ => fullShare) (Region1B.rest1 adm c) (Region1B.restNoAcc1 c)
          ((K (F := F)).Otc c n) (below (F := F) c n) hs hj
    exact hb.loose
  arrays _ _ _ := rfl
  shares _ _ w := by unfold Pipeline.Dat.share; split <;> rfl
  owed _ _ _ := rfl
  recorded _ _ _ := rfl
  inv_first W c t ht := by
    unfold dt1
    rewrite [Region1B.Phi_even _ _ _ _ _ _ _ t (by omega), Region1B.rest1]
    iintro H; iexact H
  inv_last W c t ht := by
    unfold dt1
    rewrite [Region1B.Phi_even _ _ _ _ _ _ _ t (by rw [ht]; exact N1_even), Region1B.rest1]
    iintro H; iexact H

/-- The region, entered before call n, as a segment of @main. -/
theorem seg_region1_n (n : ℕ) : SegRegion (F := F) pix n (Proc.devRef .tc main_v21) := seg_region1_at n _ (data1 n)

/-- Where @main enters it. -/
theorem seg_region1 : SegRegion (F := F) pix 1 (Proc.devRef .tc main_v21) := seg_region1_n 1

end Cert.KernelIdeal.Sc

end
-- ==== Proof.Region2Body.lean ====
/-
  A fused tensor-core region: for 8 neighbour slots j, filt_j = ssp(f_j · W₁ + b₁) · W₂ + b₂ (ssp v = log(½·exp v + ½)),
  times the cutoff-and-mask column of slot j, times the gathered rows of slot j; the eight products added. The grid
  is 8 × 2: point (b, g) stages slots 8g … 8g + 7 of batch b. The region keeps a scratch accumulator across the second
  axis: at g = 0 it is set to the point's sum, at g = 1 the point's sum is added to it and the result is copied to the
  staged output block, which is written back to rows 1024·b … of the output array.

  At a point the body reads seven staged inputs (the filters' inputs f [1,50,8,1024], the gathered rows [8192,128], the
  cutoff-and-mask columns [1,8,1024], W₁ [50,128], b₁ [1,128], W₂ [128,128], b₂ [1,128]); it leaves them unchanged.
  What it leaves in the accumulator and in the output block is written out below as pure terms of the staged inputs.
-/
import proofs.«215235_g2774548873965_cont_9to1_572_34_alg».proof.KernelIdeal
import proofs.«215235_g2774548873965_cont_9to1_572_34_alg».proof.Proof.Gen.KernelIdeal
import proofs.«215235_g2774548873965_cont_9to1_572_34_alg».proof.Proof.Gen.KernelIdeal.Skeleton
import proofs.«215235_g2774548873965_cont_9to1_572_34_alg».proof.Proof.Gen.KernelIdeal.Launch
import proofs.«215235_g2774548873965_cont_9to1_572_34_alg».proof.Proof.Gen.KernelIdeal.Points
import Idealize.ShloMosaic.Lib.Pipeline.FrameBody
import Idealize.ShloMosaic.Lib.Tactic

noncomputable section

namespace Cert.KernelIdeal.Region2B

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The rectangles the body names -/

/-- All of a [1024,128] buffer: the accumulator, the staged output block. -/
abbrev rBig : Rect S1024x128 := Rect.unit (s := S1024x128) ![0, 0] S1024x128.size inb_S1024x128_S1024x128_0_0
abbrev rW1 : Rect S50x128 := Rect.unit (s := S50x128) ![0, 0] S50x128.size inb_S50x128_S50x128_0_0
abbrev rRow : Rect S1x128 := Rect.unit (s := S1x128) ![0, 0] S1x128.size inb_S1x128_S1x128_0_0
abbrev rSq : Rect S128x128 := Rect.unit (s := S128x128) ![0, 0] S128x128.size inb_S128x128_S128x128_0_0
abbrev rCut : Rect S1x8x1024 := Rect.unit (s := S1x8x1024) ![0, 0, 0] S1x8x1024.size inb_S1x8x1024_S1x8x1024_0_0_0
/-- Slot j of the staged filter inputs. -/
abbrev rF0 : Rect S1x50x8x1024 := Rect.unit (s := S1x50x8x1024) ![0, 0, 0, 0] S1x50x1x1024.size inb_S1x50x8x1024_S1x50x1x1024_0_0_0_0
abbrev rF1 : Rect S1x50x8x1024 := Rect.unit (s := S1x50x8x1024) ![0, 0, 1, 0] S1x50x1x1024.size inb_S1x50x8x1024_S1x50x1x1024_0_0_1_0
abbrev rF2 : Rect S1x50x8x1024 := Rect.unit (s := S1x50x8x1024) ![0, 0, 2, 0] S1x50x1x1024.size inb_S1x50x8x1024_S1x50x1x1024_0_0_2_0
abbrev rF3 : Rect S1x50x8x1024 := Rect.unit (s := S1x50x8x1024) ![0, 0, 3, 0] S1x50x1x1024.size inb_S1x50x8x1024_S1x50x1x1024_0_0_3_0
abbrev rF4 : Rect S1x50x8x1024 := Rect.unit (s := S1x50x8x1024) ![0, 0, 4, 0] S1x50x1x1024.size inb_S1x50x8x1024_S1x50x1x1024_0_0_4_0
abbrev rF5 : Rect S1x50x8x1024 := Rect.unit (s := S1x50x8x1024) ![0, 0, 5, 0] S1x50x1x1024.size inb_S1x50x8x1024_S1x50x1x1024_0_0_5_0
abbrev rF6 : Rect S1x50x8x1024 := Rect.unit (s := S1x50x8x1024) ![0, 0, 6, 0] S1x50x1x1024.size inb_S1x50x8x1024_S1x50x1x1024_0_0_6_0
abbrev rF7 : Rect S1x50x8x1024 := Rect.unit (s := S1x50x8x1024) ![0, 0, 7, 0] S1x50x1x1024.size inb_S1x50x8x1024_S1x50x1x1024_0_0_7_0
/-- Slot j of the staged gathered rows: rows 1024·j … 1024·j + 1023. -/
abbrev rG0 : Rect S8192x128 := Rect.unit (s := S8192x128) ![0, 0] S1024x128.size inb_S8192x128_S1024x128_0_0
abbrev rG1 : Rect S8192x128 := Rect.unit (s := S8192x128) ![1024, 0] S1024x128.size inb_S8192x128_S1024x128_1024_0
abbrev rG2 : Rect S8192x128 := Rect.unit (s := S8192x128) ![2048, 0] S1024x128.size inb_S8192x128_S1024x128_2048_0
abbrev rG3 : Rect S8192x128 := Rect.unit (s := S8192x128) ![3072, 0] S1024x128.size inb_S8192x128_S1024x128_3072_0
abbrev rG4 : Rect S8192x128 := Rect.unit (s := S8192x128) ![4096, 0] S1024x128.size inb_S8192x128_S1024x128_4096_0
abbrev rG5 : Rect S8192x128 := Rect.unit (s := S8192x128) ![5120, 0] S1024x128.size inb_S8192x128_S1024x128_5120_0
abbrev rG6 : Rect S8192x128 := Rect.unit (s := S8192x128) ![6144, 0] S1024x128.size inb_S8192x128_S1024x128_6144_0
abbrev rG7 : Rect S8192x128 := Rect.unit (s := S8192x128) ![7168, 0] S1024x128.size inb_S8192x128_S1024x128_7168_0

/-! ## The point's sum, as the body computes it -/

/-- The seven staged inputs of a point. -/
structure Ins (F : FTy → Type) where
  f : Vec F S1x50x8x1024 .f32
  g : Vec F S8192x128 .f32
  cut : Vec F S1x8x1024 .f32
  w1 : Vec F S50x128 .f32
  b1 : Vec F S1x128 .f32
  w2 : Vec F S128x128 .f32
  b2 : Vec F S1x128 .f32

/-- The running sum after slots 0 … 6, the last slot's filter and its column, in the order the body computes them:
    each line is one of the body's named values over what was read before it. -/
def upto6 (x : Ins F) : FVec F S1024x128 .f32 × FVec F S1024x128 .f32 × FVec F S1024x128 .f32 :=
  let cw := View.ld x.cut rCut
  let w1 := View.ld x.w1 rW1
  let b1 := View.ld x.b1 rRow
  let w2 := View.ld x.w2 rSq
  let b2 := View.ld x.b2 rRow
  let v2 := k4_pay4 cw
  let v28 := k4_pay5 cw (View.ld x.f rF0) w1 b1 w2 b2 (View.ld x.g rG0)
  let v30 := k4_pay6 (View.ld x.f rF1)
  let v55 := k4_pay7 v2 v28 v30 w1 b1 w2 b2 (View.ld x.g rG1)
  let v66 := k4_pay8 (View.ld x.f rF2) w1 b1
  let v82 := k4_pay10 v2 v55 v66 (k4_pay9 (F := F)) w2 b2 (View.ld x.g rG2)
  let v102 := k4_pay11 (View.ld x.f rF3) w1 b1 w2 b2
  let v136 := k4_pay13 v2 v82 v102 (k4_pay12 v2) (View.ld x.g rG3) (View.ld x.f rF4) w1 b1 w2 b2 (View.ld x.g rG4)
  let v138 := k4_pay14 (View.ld x.f rF5)
  let v163 := k4_pay15 v2 v136 v138 w1 b1 w2 b2 (View.ld x.g rG5)
  let v174 := k4_pay16 (View.ld x.f rF6) w1 b1
  let v190 := k4_pay18 v2 v163 v174 (k4_pay17 (F := F)) w2 b2 (View.ld x.g rG6)
  (v190, k4_pay19 (View.ld x.f rF7) w1 b1 w2 b2, k4_pay20 v2)

/-- What the first point of a pair stores in the accumulator. -/
def first (x : Ins F) : FVec F S1024x128 .f32 :=
  k4_pay2 (upto6 x).1 (upto6 x).2.1 (upto6 x).2.2 (View.ld x.g rG7)

/-- What the second point of a pair stores in the accumulator, the accumulator read as acc. -/
def second (x : Ins F) (acc : Vec F S1024x128 .f32) : FVec F S1024x128 .f32 :=
  k4_pay3 (upto6 x).1 (upto6 x).2.1 (upto6 x).2.2 (View.ld x.g rG7) acc

/-- A whole [1024,128] buffer overwritten by one store of p. -/
def whole (p : FVec F S1024x128 .f32) : Vec F S1024x128 .f32 := View.canon [⟨rBig, p⟩]

theorem whole_covers (p : Vec F S1024x128 .f32) (y : S1024x128.Idx) :
    ∃ pc ∈ ([⟨rBig, p⟩] : List (View.Piece (Elt F) S1024x128 .f32)), y ∈ pc.1.set :=
  View.cover_of_tiled [⟨rBig, p⟩] S1024x128.size (by rfl) y

/-! ## The body at the first point of a pair -/

set_option maxHeartbeats 4000000 in
/-- At a point whose second coordinate is 0 the body, called on whole buffers holding the seven inputs, an output block
    and an accumulator, returns the inputs and the output block as they were and the accumulator at the point's sum. -/
theorem body_run0 (𝒱₀ : Variants) (c : Dev nD) (E : Set Name) (i : grid4.Coords) (hi : (i 1).val = 0)
    (a2 : Memref sig .tc .vmem S1x50x8x1024 .f32) (g2 : a2.IsWhole) (a3 : Memref sig .tc .vmem S8192x128 .f32) (g3 : a3.IsWhole)
    (a4 : Memref sig .tc .vmem S1x8x1024 .f32) (g4 : a4.IsWhole) (a5 : Memref sig .tc .vmem S50x128 .f32) (g5 : a5.IsWhole)
    (a6 : Memref sig .tc .vmem S1x128 .f32) (g6 : a6.IsWhole) (a7 : Memref sig .tc .vmem S128x128 .f32) (g7 : a7.IsWhole)
    (a8 : Memref sig .tc .vmem S1x128 .f32) (g8 : a8.IsWhole) (a9 : Memref sig .tc .vmem S1024x128 .f32) (g9 : a9.IsWhole)
    (a10 : Memref sig .tc .vmem S1024x128 .f32) (g10 : a10.IsWhole)
    (xf : Vec F S1x50x8x1024 .f32) (xg : Vec F S8192x128 .f32) (xc : Vec F S1x8x1024 .f32) (xw1 : Vec F S50x128 .f32)
    (xb1 : Vec F S1x128 .f32) (xw2 : Vec F S128x128 .f32) (xb2 : Vec F S1x128 .f32) (o : Vec F S1024x128 .f32) (K : PUnit → sProp 𝕄) :
    iprop(owns (c : Thread nD τ) a2 fullShare xf ∗ owns (c : Thread nD τ) a3 fullShare xg ∗ owns (c : Thread nD τ) a4 fullShare xc
        ∗ owns (c : Thread nD τ) a5 fullShare xw1 ∗ owns (c : Thread nD τ) a6 fullShare xb1 ∗ owns (c : Thread nD τ) a7 fullShare xw2
        ∗ owns (c : Thread nD τ) a8 fullShare xb2
        ∗ owns (c : Thread nD τ) a9 fullShare o ∗ (∃ d, owns (c : Thread nD τ) a10 fullShare d)
        ∗ (iprop(owns (c : Thread nD τ) a2 fullShare xf ∗ owns (c : Thread nD τ) a3 fullShare xg ∗ owns (c : Thread nD τ) a4 fullShare xc
        ∗ owns (c : Thread nD τ) a5 fullShare xw1 ∗ owns (c : Thread nD τ) a6 fullShare xb1 ∗ owns (c : Thread nD τ) a7 fullShare xw2
        ∗ owns (c : Thread nD τ) a8 fullShare xb2
              ∗ owns (c : Thread nD τ) a9 fullShare o
              ∗ owns (c : Thread nD τ) a10 fullShare (whole (first ⟨xf, xg, xc, xw1, xb1, xw2, xb2⟩))) -∗ K ⟨⟩))
      ⊢ wp frame (wpE (defs₀ (F := F)) 𝒱₀ c none) E
          (cc4__fused_kernel i a2 g2 a3 g3 a4 g4 a5 g5 a6 g6 a7 g7 a8 g8 a9 g9 a10 g10) K := by
  have h1 : Scalar.cmpi .ne (Scalar.extui (Scalar.cmpi .eq (BitVec.ofNat 32 (i 1).val) 0#32)) 0#32 = 1#1 := by rw [hi]; decide
  have h2 : ¬ Scalar.cmpi .ne (Scalar.extui (Scalar.cmpi .sgt (BitVec.ofNat 32 (i 1).val) 0#32)) 0#32 = 1#1 := by rw [hi]; decide
  have h3 : ¬ k4_cond3 i = 1#1 := by unfold k4_cond3; rw [hi]; decide
  sl_unfold [cc4__fused_kernel]
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩,
    ⟨%f9, %e9, H9⟩, ⟨%d10, %f10, -, H10⟩, Hk⟩
  subst e2 e3 e4 e5 e6 e7 e8 e9
  -- the loads, the sum (pure), the accumulator's overwrite; the other two cases are not taken
  sl_exec
  sl_step
  iapply Hk
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists f7; isplitr
    · ipureintro; rfl
    · iexact H7
  isplitl [H8]
  · iexists f8; isplitr
    · ipureintro; rfl
    · iexact H8
  isplitl [H9]
  · iexists f9; isplitr
    · ipureintro; rfl
    · iexact H9
  iexists _
  isplitr
  rotate_left
  · iexact H10
  · ipureintro
    exact View.read_writes_eq_canon _ _ _ (whole_covers (F := F) _)

set_option maxHeartbeats 4000000 in
/-- At a point whose second coordinate is 1 the body, called on whole buffers holding the seven inputs, an output block
    and the accumulator at acc, returns the inputs as they were the accumulator at acc plus the point's sum, and the
    output block at the accumulator's new contents read back whole. -/
theorem body_run1 (𝒱₀ : Variants) (c : Dev nD) (E : Set Name) (i : grid4.Coords) (hi : (i 1).val = 1)
    (a2 : Memref sig .tc .vmem S1x50x8x1024 .f32) (g2 : a2.IsWhole) (a3 : Memref sig .tc .vmem S8192x128 .f32) (g3 : a3.IsWhole)
    (a4 : Memref sig .tc .vmem S1x8x1024 .f32) (g4 : a4.IsWhole) (a5 : Memref sig .tc .vmem S50x128 .f32) (g5 : a5.IsWhole)
    (a6 : Memref sig .tc .vmem S1x128 .f32) (g6 : a6.IsWhole) (a7 : Memref sig .tc .vmem S128x128 .f32) (g7 : a7.IsWhole)
    (a8 : Memref sig .tc .vmem S1x128 .f32) (g8 : a8.IsWhole) (a9 : Memref sig .tc .vmem S1024x128 .f32) (g9 : a9.IsWhole)
    (a10 : Memref sig .tc .vmem S1024x128 .f32) (g10 : a10.IsWhole)
    (xf : Vec F S1x50x8x1024 .f32) (xg : Vec F S8192x128 .f32) (xc : Vec F S1x8x1024 .f32) (xw1 : Vec F S50x128 .f32)
    (xb1 : Vec F S1x128 .f32) (xw2 : Vec F S128x128 .f32) (xb2 : Vec F S1x128 .f32) (acc : Vec F S1024x128 .f32) (K : PUnit → sProp 𝕄) :
    iprop(owns (c : Thread nD τ) a2 fullShare xf ∗ owns (c : Thread nD τ) a3 fullShare xg ∗ owns (c : Thread nD τ) a4 fullShare xc
        ∗ owns (c : Thread nD τ) a5 fullShare xw1 ∗ owns (c : Thread nD τ) a6 fullShare xb1 ∗ owns (c : Thread nD τ) a7 fullShare xw2
        ∗ owns (c : Thread nD τ) a8 fullShare xb2
        ∗ (∃ d, owns (c : Thread nD τ) a9 fullShare d) ∗ owns (c : Thread nD τ) a10 fullShare acc
        ∗ (iprop(owns (c : Thread nD τ) a2 fullShare xf ∗ owns (c : Thread nD τ) a3 fullShare xg ∗ owns (c : Thread nD τ) a4 fullShare xc
        ∗ owns (c : Thread nD τ) a5 fullShare xw1 ∗ owns (c : Thread nD τ) a6 fullShare xb1 ∗ owns (c : Thread nD τ) a7 fullShare xw2
        ∗ owns (c : Thread nD τ) a8 fullShare xb2
              ∗ owns (c : Thread nD τ) a9 fullShare (whole (View.ld (whole (second ⟨xf, xg, xc, xw1, xb1, xw2, xb2⟩ (View.ld acc rBig))) rBig))
              ∗ owns (c : Thread nD τ) a10 fullShare (whole (second ⟨xf, xg, xc, xw1, xb1, xw2, xb2⟩ (View.ld acc rBig)))) -∗ K ⟨⟩))
      ⊢ wp frame (wpE (defs₀ (F := F)) 𝒱₀ c none) E
          (cc4__fused_kernel i a2 g2 a3 g3 a4 g4 a5 g5 a6 g6 a7 g7 a8 g8 a9 g9 a10 g10) K := by
  have h1 : ¬ Scalar.cmpi .ne (Scalar.extui (Scalar.cmpi .eq (BitVec.ofNat 32 (i 1).val) 0#32)) 0#32 = 1#1 := by rw [hi]; decide
  have h2 : Scalar.cmpi .ne (Scalar.extui (Scalar.cmpi .sgt (BitVec.ofNat 32 (i 1).val) 0#32)) 0#32 = 1#1 := by rw [hi]; decide
  have h3 : k4_cond3 i = 1#1 := by unfold k4_cond3; rw [hi]; decide
  sl_unfold [cc4__fused_kernel]
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩,
    ⟨%d9, %f9, -, H9⟩, ⟨%f10, %e10, H10⟩, Hk⟩
  subst e2 e3 e4 e5 e6 e7 e8 e10
  -- the loads, the sum (pure), the accumulator read, added to and overwritten, then copied to the output block
  sl_exec
  sl_step
  iapply Hk
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists f7; isplitr
    · ipureintro; rfl
    · iexact H7
  isplitl [H8]
  · iexists f8; isplitr
    · ipureintro; rfl
    · iexact H8
  isplitl [H9]
  · iexists _
    isplitr
    rotate_left
    · iexact H9
    · ipureintro
      -- the output block's one store is of the accumulator read back, whole, after its own overwrite
      rw [View.read_writes_eq_canon _ _ _ (whole_covers (F := F) _)]
      exact congrArg (fun p => View.canon [(⟨rBig, p⟩ : View.Piece (Elt F) S1024x128 .f32)])
        (View.readCov_eq_canon_ld _ _ rBig (whole_covers (F := F) _))
  iexists _
  isplitr
  rotate_left
  · iexact H10
  · ipureintro
    exact View.read_writes_eq_canon _ _ _ (whole_covers (F := F) _)

/-! ## The proof data -/

/-- Window w's block at point t, read off the array's contents at the region's entry. -/
def blockAt (c : Dev nD) (A : (w : Fin cfg4.W) → Buf (Elt F) ((cfg4.win w).arr.view.loc (c.tc : Thread nD τ)))
    (w : Fin cfg4.W) (t : Fin cfg4.N) : ((cfg4.win w).xblock (cfg4.grid.coords t)).Idx → Elt F (cfg4.win w).elt :=
  ((cfg4.win w).blk t).view.read (Elt F) (A w)

/-- The seven staged inputs of point t. -/
def insAt (c : Dev nD) (A : (w : Fin cfg4.W) → Buf (Elt F) ((cfg4.win w).arr.view.loc (c.tc : Thread nD τ))) (t : Fin cfg4.N) : Ins F :=
  ⟨blockAt c A 0 t, blockAt c A 1 t, blockAt c A 2 t, blockAt c A 3 t, blockAt c A 4 t, blockAt c A 5 t, blockAt c A 6 t⟩

/-- The point before t (t itself at the first point, where it is not used). -/
def prev (t : Fin cfg4.N) : Fin cfg4.N := ⟨t.val - 1, Nat.lt_of_le_of_lt (Nat.sub_le _ _) t.isLt⟩

/-- The accumulator after the first point of a pair: that point's sum. -/
def accFirst (c : Dev nD) (A : (w : Fin cfg4.W) → Buf (Elt F) ((cfg4.win w).arr.view.loc (c.tc : Thread nD τ))) (t : Fin cfg4.N) :
    Vec F S1024x128 .f32 := whole (first (insAt c A t))

/-- The accumulator after the second point t of a pair: the first point's sum plus this point's. -/
def accSecond (c : Dev nD) (A : (w : Fin cfg4.W) → Buf (Elt F) ((cfg4.win w).arr.view.loc (c.tc : Thread nD τ))) (t : Fin cfg4.N) :
    Vec F S1024x128 .f32 := whole (second (insAt c A t) (View.ld (accFirst c A (prev t)) rBig))

/-- The accumulator, as a whole buffer of the core. -/
abbrev accRef : Memref sig .tc .vmem S1024x128 .f32 := Memref.whole cc4_scratch0

/-- The region's proof data on core c: entry contents A of the eight arrays, shares q, the tallies O and the bound B as
    they are throughout. The invariant is R before the first point of a pair (R: what the core holds besides the
    windows, the accumulator among it at contents nobody names) and, between the two points of a pair, Rm (the same
    without the accumulator) with the accumulator at the first point's sum. The body leaves each input at its block;
    at the second point of a pair it leaves the output block at the accumulator read back. -/
def dat (c : Dev nD) (A : (w : Fin cfg4.W) → Buf (Elt F) ((cfg4.win w).arr.view.loc (c.tc : Thread nD τ)))
    (q : Fin cfg4.W → PosShare TreeShare) (R Rm : sProp 𝕄) (O : CellTallies nD τ sig Ix) (B : Set (SemLoc sig × Ix)) :
    Dat τ (Elt F) Ix Name U Lvl cfg4 c where
  A := A
  after w t := match w with
    | ⟨0, _⟩ => blockAt c A 0 t
    | ⟨1, _⟩ => blockAt c A 1 t
    | ⟨2, _⟩ => blockAt c A 2 t
    | ⟨3, _⟩ => blockAt c A 3 t
    | ⟨4, _⟩ => blockAt c A 4 t
    | ⟨5, _⟩ => blockAt c A 5 t
    | ⟨6, _⟩ => blockAt c A 6 t
    | ⟨7, _⟩ => whole (View.ld (accSecond c A t) rBig)
  Φ t := if h : t.val % 2 = 1 then
      iprop(Rm ∗ owns (c : Thread nD τ) accRef fullShare (accFirst c A ⟨t.val - 1, by have := t.isLt; omega⟩))
    else R
  q := q
  owed _ := O
  recorded _ := B

/-! ## What the proof data says -/

/-- The second grid coordinate of point t is t modulo 2. -/
theorem coord1 : ∀ t : Fin grid4.N, ((grid4.coords t) 1).val = t.val % 2 := by decide +kernel

/-- The output window rests (is neither stored to nor written back) exactly at the first point of a pair. -/
theorem idle7 : ∀ t : Fin grid4.N, cfg4.idle 7 (cfg4.grid.coords t) = decide (t.val % 2 = 0) := by decide +kernel
theorem flush7 : ∀ t : Fin grid4.N, (cfg4.win 7).flush t = decide (t.val % 2 = 1) := by decide +kernel

section Facts

variable (c : Dev nD) (A : (w : Fin cfg4.W) → Buf (Elt F) ((cfg4.win w).arr.view.loc (c.tc : Thread nD τ)))
  (q : Fin cfg4.W → PosShare TreeShare) (O : CellTallies nD τ sig Ix) (B : Set (SemLoc sig × Ix))

theorem after_in0 (R Rm : sProp 𝕄) (t : Fin cfg4.N) : (dat (Name := Name) (Lvl := Lvl) c A q R Rm O B).after 0 t = blockAt c A 0 t := by dsimp only [dat]
theorem after_in1 (R Rm : sProp 𝕄) (t : Fin cfg4.N) : (dat (Name := Name) (Lvl := Lvl) c A q R Rm O B).after 1 t = blockAt c A 1 t := by dsimp only [dat]
theorem after_in2 (R Rm : sProp 𝕄) (t : Fin cfg4.N) : (dat (Name := Name) (Lvl := Lvl) c A q R Rm O B).after 2 t = blockAt c A 2 t := by dsimp only [dat]
theorem after_in3 (R Rm : sProp 𝕄) (t : Fin cfg4.N) : (dat (Name := Name) (Lvl := Lvl) c A q R Rm O B).after 3 t = blockAt c A 3 t := by dsimp only [dat]
theorem after_in4 (R Rm : sProp 𝕄) (t : Fin cfg4.N) : (dat (Name := Name) (Lvl := Lvl) c A q R Rm O B).after 4 t = blockAt c A 4 t := by dsimp only [dat]
theorem after_in5 (R Rm : sProp 𝕄) (t : Fin cfg4.N) : (dat (Name := Name) (Lvl := Lvl) c A q R Rm O B).after 5 t = blockAt c A 5 t := by dsimp only [dat]
theorem after_in6 (R Rm : sProp 𝕄) (t : Fin cfg4.N) : (dat (Name := Name) (Lvl := Lvl) c A q R Rm O B).after 6 t = blockAt c A 6 t := by dsimp only [dat]
theorem after_out (R Rm : sProp 𝕄) (t : Fin cfg4.N) : (dat (Name := Name) (Lvl := Lvl) c A q R Rm O B).after 7 t = whole (View.ld (accSecond c A t) rBig) := by dsimp only [dat]

theorem before_in0 (R Rm : sProp 𝕄) (t : Fin cfg4.N) (d) : (dat (Name := Name) (Lvl := Lvl) c A q R Rm O B).before 0 t d = blockAt c A 0 t :=
  ((dat (Name := Name) (Lvl := Lvl) c A q R Rm O B).before_in_eq_fetched 0 rfl (fun _ => rfl) (fun _ _ _ => rfl) (fun u => by rw [after_in0]; rfl) t d).trans rfl
theorem before_in1 (R Rm : sProp 𝕄) (t : Fin cfg4.N) (d) : (dat (Name := Name) (Lvl := Lvl) c A q R Rm O B).before 1 t d = blockAt c A 1 t :=
  ((dat (Name := Name) (Lvl := Lvl) c A q R Rm O B).before_in_eq_fetched 1 rfl (fun _ => rfl) (fun _ _ _ => rfl) (fun u => by rw [after_in1]; rfl) t d).trans rfl
theorem before_in2 (R Rm : sProp 𝕄) (t : Fin cfg4.N) (d) : (dat (Name := Name) (Lvl := Lvl) c A q R Rm O B).before 2 t d = blockAt c A 2 t :=
  ((dat (Name := Name) (Lvl := Lvl) c A q R Rm O B).before_in_eq_fetched 2 rfl (fun _ => rfl) (fun _ _ _ => rfl) (fun u => by rw [after_in2]; rfl) t d).trans rfl
theorem before_in3 (R Rm : sProp 𝕄) (t : Fin cfg4.N) (d) : (dat (Name := Name) (Lvl := Lvl) c A q R Rm O B).before 3 t d = blockAt c A 3 t :=
  ((dat (Name := Name) (Lvl := Lvl) c A q R Rm O B).before_in_eq_fetched 3 rfl (fun _ => rfl) (fun _ _ _ => rfl) (fun u => by rw [after_in3]; rfl) t d).trans rfl
theorem before_in4 (R Rm : sProp 𝕄) (t : Fin cfg4.N) (d) : (dat (Name := Name) (Lvl := Lvl) c A q R Rm O B).before 4 t d = blockAt c A 4 t :=
  ((dat (Name := Name) (Lvl := Lvl) c A q R Rm O B).before_in_eq_fetched 4 rfl (fun _ => rfl) (fun _ _ _ => rfl) (fun u => by rw [after_in4]; rfl) t d).trans rfl
theorem before_in5 (R Rm : sProp 𝕄) (t : Fin cfg4.N) (d) : (dat (Name := Name) (Lvl := Lvl) c A q R Rm O B).before 5 t d = blockAt c A 5 t :=
  ((dat (Name := Name) (Lvl := Lvl) c A q R Rm O B).before_in_eq_fetched 5 rfl (fun _ => rfl) (fun _ _ _ => rfl) (fun u => by rw [after_in5]; rfl) t d).trans rfl
theorem before_in6 (R Rm : sProp 𝕄) (t : Fin cfg4.N) (d) : (dat (Name := Name) (Lvl := Lvl) c A q R Rm O B).before 6 t d = blockAt c A 6 t :=
  ((dat (Name := Name) (Lvl := Lvl) c A q R Rm O B).before_in_eq_fetched 6 rfl (fun _ => rfl) (fun _ _ _ => rfl) (fun u => by rw [after_in6]; rfl) t d).trans rfl

/-- Before the first point of a pair the invariant is R; -/
theorem inv_first (R Rm : sProp 𝕄) (t : Fin cfg4.N) (h : t.val % 2 = 0) : (dat (Name := Name) (Lvl := Lvl) c A q R Rm O B).Φ t.castSucc = R := by
  have h' : ¬ (t.castSucc : Fin (cfg4.N + 1)).val % 2 = 1 := by rw [Fin.val_castSucc]; omega
  dsimp only [dat]
  rw [dif_neg h']

/-- after it, Rm and the accumulator at the point's sum; -/
theorem inv_mid (R Rm : sProp 𝕄) (t : Fin cfg4.N) (h : t.val % 2 = 0) :
    (dat (Name := Name) (Lvl := Lvl) c A q R Rm O B).Φ t.succ = iprop(Rm ∗ owns (c : Thread nD τ) accRef fullShare (accFirst c A t)) := by
  have h' : (t.succ : Fin (cfg4.N + 1)).val % 2 = 1 := by rw [Fin.val_succ]; omega
  dsimp only [dat]
  rw [dif_pos h']
  rfl

/-- the same before the second point of a pair, -/
theorem inv_mid' (R Rm : sProp 𝕄) (t : Fin cfg4.N) (h : t.val % 2 = 1) :
    (dat (Name := Name) (Lvl := Lvl) c A q R Rm O B).Φ t.castSucc = iprop(Rm ∗ owns (c : Thread nD τ) accRef fullShare (accFirst c A (prev t))) := by
  have h' : (t.castSucc : Fin (cfg4.N + 1)).val % 2 = 1 := by rw [Fin.val_castSucc]; exact h
  dsimp only [dat]
  rw [dif_pos h']
  rfl

/-- and R again after it. -/
theorem inv_last (R Rm : sProp 𝕄) (t : Fin cfg4.N) (h : t.val % 2 = 1) : (dat (Name := Name) (Lvl := Lvl) c A q R Rm O B).Φ t.succ = R := by
  have h' : ¬ (t.succ : Fin (cfg4.N + 1)).val % 2 = 1 := by rw [Fin.val_succ]; omega
  dsimp only [dat]
  rw [dif_neg h']

/-- At an even position (before the first point of a pair, after the second, at the region's two ends) the invariant
    is R, -/
theorem Phi_even (R Rm : sProp 𝕄) (t : Fin (cfg4.N + 1)) (ht : t.val % 2 = 0) : (dat (Name := Name) (Lvl := Lvl) c A q R Rm O B).Φ t = R := by
  have h' : ¬ t.val % 2 = 1 := by omega
  dsimp only [dat]
  rw [dif_neg h']

/-- at an odd one, Rm with the accumulator at the sum of the point just run. -/
theorem Phi_odd (R Rm : sProp 𝕄) (t : Fin (cfg4.N + 1)) (ht : t.val % 2 = 1) :
    (dat (Name := Name) (Lvl := Lvl) c A q R Rm O B).Φ t = iprop(Rm ∗ owns (c : Thread nD τ) accRef fullShare (accFirst c A ⟨t.val - 1, by have := t.isLt; omega⟩)) := by
  dsimp only [dat]
  rw [dif_pos ht]

theorem A_eq (R Rm : sProp 𝕄) : (dat (Name := Name) (Lvl := Lvl) c A q R Rm O B).A = A := rfl
theorem q_eq (R Rm : sProp 𝕄) : (dat (Name := Name) (Lvl := Lvl) c A q R Rm O B).q = q := rfl
theorem owed_eq (R Rm : sProp 𝕄) (t : Fin (cfg4.N + 1)) : (dat (Name := Name) (Lvl := Lvl) c A q R Rm O B).owed t = O := rfl
theorem recorded_eq (R Rm : sProp 𝕄) (t : Fin (cfg4.N + 1)) : (dat (Name := Name) (Lvl := Lvl) c A q R Rm O B).recorded t = B := rfl

end Facts

/-! ## The obligation -/

/-- The body at the first point t of a pair: the accumulator is taken out of R, set to the point's sum, and kept with Rm;
    the output block is not touched. -/
theorem at_even (𝒱₀ : Variants) (ι : Ix) (c : Dev nD) (A : (w : Fin cfg4.W) → Buf (Elt F) ((cfg4.win w).arr.view.loc (c.tc : Thread nD τ)))
    (q : Fin cfg4.W → PosShare TreeShare) (R Rm : sProp 𝕄) (O : CellTallies nD τ sig Ix) (B : Set (SemLoc sig × Ix))
    (hsplit : R ⊢ iprop(Rm ∗ ∃ d, owns (c : Thread nD τ) accRef fullShare d)) (t : Fin cfg4.N) (h : t.val % 2 = 0) :
    iprop((dat c A q R Rm O B).Φ t.castSucc ∗ (dat c A q R Rm O B).owesAt ι t.castSucc
        ∗ (∃ d, owns (c : Thread nD τ) (st4_0 t) fullShare ((dat c A q R Rm O B).before 0 t d))
        ∗ (∃ d, owns (c : Thread nD τ) (st4_1 t) fullShare ((dat c A q R Rm O B).before 1 t d))
        ∗ (∃ d, owns (c : Thread nD τ) (st4_2 t) fullShare ((dat c A q R Rm O B).before 2 t d))
        ∗ (∃ d, owns (c : Thread nD τ) (st4_3 t) fullShare ((dat c A q R Rm O B).before 3 t d))
        ∗ (∃ d, owns (c : Thread nD τ) (st4_4 t) fullShare ((dat c A q R Rm O B).before 4 t d))
        ∗ (∃ d, owns (c : Thread nD τ) (st4_5 t) fullShare ((dat c A q R Rm O B).before 5 t d))
        ∗ (∃ d, owns (c : Thread nD τ) (st4_6 t) fullShare ((dat c A q R Rm O B).before 6 t d))
        ∗ (∃ d, owns (c : Thread nD τ) (st4_7 t) fullShare ((dat c A q R Rm O B).before 7 t d)))
      ⊢ wp frame (wpE (defs₀ (F := F)) 𝒱₀ c none) Set.univ (bodyAt4 t) fun _ =>
          iprop((dat c A q R Rm O B).Φ t.succ ∗ (dat c A q R Rm O B).owesAt ι t.succ
            ∗ owns (c : Thread nD τ) (st4_0 t) fullShare ((dat c A q R Rm O B).after 0 t)
            ∗ owns (c : Thread nD τ) (st4_1 t) fullShare ((dat c A q R Rm O B).after 1 t)
            ∗ owns (c : Thread nD τ) (st4_2 t) fullShare ((dat c A q R Rm O B).after 2 t)
            ∗ owns (c : Thread nD τ) (st4_3 t) fullShare ((dat c A q R Rm O B).after 3 t)
            ∗ owns (c : Thread nD τ) (st4_4 t) fullShare ((dat c A q R Rm O B).after 4 t)
            ∗ owns (c : Thread nD τ) (st4_5 t) fullShare ((dat c A q R Rm O B).after 5 t)
            ∗ owns (c : Thread nD τ) (st4_6 t) fullShare ((dat c A q R Rm O B).after 6 t)
            ∗ (∃ d, owns (c : Thread nD τ) (st4_7 t) fullShare ((dat c A q R Rm O B).before 7 t d))) := by
  simp only [before_in0, before_in1, before_in2, before_in3, before_in4, before_in5, before_in6]
  rw [inv_first c A q O B R Rm t h, inv_mid c A q O B R Rm t h,
    show (dat c A q R Rm O B).owesAt ι t.succ = (dat c A q R Rm O B).owesAt ι t.castSucc from rfl,
    after_in0, after_in1, after_in2, after_in3, after_in4, after_in5, after_in6]
  iintro ⟨HR, HO, ⟨%d0, H0⟩, ⟨%d1, H1⟩, ⟨%d2, H2⟩, ⟨%d3, H3⟩, ⟨%d4, H4⟩, ⟨%d5, H5⟩, ⟨%d6, H6⟩, ⟨%d7, H7⟩⟩
  ihave HR' := hsplit $$ HR
  icases HR' with ⟨HRm, Hacc⟩
  iapply (body_run0 𝒱₀ c Set.univ (grid4.coords t) ((coord1 t).trans h) _ _ _ _ _ _ _ _ _ _ _ _ _ _ _ _ _ _
    (blockAt c A 0 t) (blockAt c A 1 t) (blockAt c A 2 t) (blockAt c A 3 t) (blockAt c A 4 t) (blockAt c A 5 t) (blockAt c A 6 t)
    ((dat c A q R Rm O B).before 7 t d7) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hacc]; · iexact Hacc
  iintro ⟨H0, H1, H2, H3, H4, H5, H6, H7, Hacc⟩
  isplitl [HRm Hacc]
  · isplitl [HRm]; · iexact HRm
    iexact Hacc
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexists d7; iexact H7

/-- The body at the second point t of a pair: the accumulator, at the first point's sum, gets this point's sum added
    and is copied to the output block; it goes back into R at contents no longer named. -/
theorem at_odd (𝒱₀ : Variants) (ι : Ix) (c : Dev nD) (A : (w : Fin cfg4.W) → Buf (Elt F) ((cfg4.win w).arr.view.loc (c.tc : Thread nD τ)))
    (q : Fin cfg4.W → PosShare TreeShare) (R Rm : sProp 𝕄) (O : CellTallies nD τ sig Ix) (B : Set (SemLoc sig × Ix))
    (hjoin : iprop(Rm ∗ ∃ d, owns (c : Thread nD τ) accRef fullShare d) ⊢ R) (t : Fin cfg4.N) (h : t.val % 2 = 1) :
    iprop((dat c A q R Rm O B).Φ t.castSucc ∗ (dat c A q R Rm O B).owesAt ι t.castSucc
        ∗ (∃ d, owns (c : Thread nD τ) (st4_0 t) fullShare ((dat c A q R Rm O B).before 0 t d))
        ∗ (∃ d, owns (c : Thread nD τ) (st4_1 t) fullShare ((dat c A q R Rm O B).before 1 t d))
        ∗ (∃ d, owns (c : Thread nD τ) (st4_2 t) fullShare ((dat c A q R Rm O B).before 2 t d))
        ∗ (∃ d, owns (c : Thread nD τ) (st4_3 t) fullShare ((dat c A q R Rm O B).before 3 t d))
        ∗ (∃ d, owns (c : Thread nD τ) (st4_4 t) fullShare ((dat c A q R Rm O B).before 4 t d))
        ∗ (∃ d, owns (c : Thread nD τ) (st4_5 t) fullShare ((dat c A q R Rm O B).before 5 t d))
        ∗ (∃ d, owns (c : Thread nD τ) (st4_6 t) fullShare ((dat c A q R Rm O B).before 6 t d))
        ∗ (∃ d, owns (c : Thread nD τ) (st4_7 t) fullShare ((dat c A q R Rm O B).before 7 t d)))
      ⊢ wp frame (wpE (defs₀ (F := F)) 𝒱₀ c none) Set.univ (bodyAt4 t) fun _ =>
          iprop((dat c A q R Rm O B).Φ t.succ ∗ (dat c A q R Rm O B).owesAt ι t.succ
            ∗ owns (c : Thread nD τ) (st4_0 t) fullShare ((dat c A q R Rm O B).after 0 t)
            ∗ owns (c : Thread nD τ) (st4_1 t) fullShare ((dat c A q R Rm O B).after 1 t)
            ∗ owns (c : Thread nD τ) (st4_2 t) fullShare ((dat c A q R Rm O B).after 2 t)
            ∗ owns (c : Thread nD τ) (st4_3 t) fullShare ((dat c A q R Rm O B).after 3 t)
            ∗ owns (c : Thread nD τ) (st4_4 t) fullShare ((dat c A q R Rm O B).after 4 t)
            ∗ owns (c : Thread nD τ) (st4_5 t) fullShare ((dat c A q R Rm O B).after 5 t)
            ∗ owns (c : Thread nD τ) (st4_6 t) fullShare ((dat c A q R Rm O B).after 6 t)
            ∗ owns (c : Thread nD τ) (st4_7 t) fullShare ((dat c A q R Rm O B).after 7 t)) := by
  simp only [before_in0, before_in1, before_in2, before_in3, before_in4, before_in5, before_in6]
  rw [inv_mid' c A q O B R Rm t h, inv_last c A q O B R Rm t h,
    show (dat c A q R Rm O B).owesAt ι t.succ = (dat c A q R Rm O B).owesAt ι t.castSucc from rfl,
    after_in0, after_in1, after_in2, after_in3, after_in4, after_in5, after_in6, after_out]
  iintro ⟨⟨HRm, Hacc⟩, HO, ⟨%d0, H0⟩, ⟨%d1, H1⟩, ⟨%d2, H2⟩, ⟨%d3, H3⟩, ⟨%d4, H4⟩, ⟨%d5, H5⟩, ⟨%d6, H6⟩, ⟨%d7, H7⟩⟩
  iapply (body_run1 𝒱₀ c Set.univ (grid4.coords t) ((coord1 t).trans h) _ _ _ _ _ _ _ _ _ _ _ _ _ _ _ _ _ _
    (blockAt c A 0 t) (blockAt c A 1 t) (blockAt c A 2 t) (blockAt c A 3 t) (blockAt c A 4 t) (blockAt c A 5 t) (blockAt c A 6 t)
    (accFirst c A (prev t)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [Hacc]; · iexact Hacc
  iintro ⟨H0, H1, H2, H3, H4, H5, H6, H7, Hacc⟩
  isplitl [HRm Hacc]
  · iapply hjoin
    isplitl [HRm]; · iexact HRm
    iexists _; iexact Hacc
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body at any point t, the eight windows written out; the output window's clause is the rule's own: what the
    window held, where it rests and is not written back; what the body leaves, elsewhere. -/
theorem at_point (𝒱₀ : Variants) (ι : Ix) (c : Dev nD) (A : (w : Fin cfg4.W) → Buf (Elt F) ((cfg4.win w).arr.view.loc (c.tc : Thread nD τ)))
    (q : Fin cfg4.W → PosShare TreeShare) (R Rm : sProp 𝕄) (O : CellTallies nD τ sig Ix) (B : Set (SemLoc sig × Ix))
    (hsplit : R ⊢ iprop(Rm ∗ ∃ d, owns (c : Thread nD τ) accRef fullShare d))
    (hjoin : iprop(Rm ∗ ∃ d, owns (c : Thread nD τ) accRef fullShare d) ⊢ R) (t : Fin cfg4.N) :
    iprop((dat c A q R Rm O B).Φ t.castSucc ∗ (dat c A q R Rm O B).owesAt ι t.castSucc
        ∗ (∃ d, owns (c : Thread nD τ) (st4_0 t) fullShare ((dat c A q R Rm O B).before 0 t d))
        ∗ (∃ d, owns (c : Thread nD τ) (st4_1 t) fullShare ((dat c A q R Rm O B).before 1 t d))
        ∗ (∃ d, owns (c : Thread nD τ) (st4_2 t) fullShare ((dat c A q R Rm O B).before 2 t d))
        ∗ (∃ d, owns (c : Thread nD τ) (st4_3 t) fullShare ((dat c A q R Rm O B).before 3 t d))
        ∗ (∃ d, owns (c : Thread nD τ) (st4_4 t) fullShare ((dat c A q R Rm O B).before 4 t d))
        ∗ (∃ d, owns (c : Thread nD τ) (st4_5 t) fullShare ((dat c A q R Rm O B).before 5 t d))
        ∗ (∃ d, owns (c : Thread nD τ) (st4_6 t) fullShare ((dat c A q R Rm O B).before 6 t d))
        ∗ (∃ d, owns (c : Thread nD τ) (st4_7 t) fullShare ((dat c A q R Rm O B).before 7 t d)))
      ⊢ wp frame (wpE (defs₀ (F := F)) 𝒱₀ c none) Set.univ (bodyAt4 t) fun _ =>
          iprop((dat c A q R Rm O B).Φ t.succ ∗ (dat c A q R Rm O B).owesAt ι t.succ
            ∗ owns (c : Thread nD τ) (st4_0 t) fullShare ((dat c A q R Rm O B).after 0 t)
            ∗ owns (c : Thread nD τ) (st4_1 t) fullShare ((dat c A q R Rm O B).after 1 t)
            ∗ owns (c : Thread nD τ) (st4_2 t) fullShare ((dat c A q R Rm O B).after 2 t)
            ∗ owns (c : Thread nD τ) (st4_3 t) fullShare ((dat c A q R Rm O B).after 3 t)
            ∗ owns (c : Thread nD τ) (st4_4 t) fullShare ((dat c A q R Rm O B).after 4 t)
            ∗ owns (c : Thread nD τ) (st4_5 t) fullShare ((dat c A q R Rm O B).after 5 t)
            ∗ owns (c : Thread nD τ) (st4_6 t) fullShare ((dat c A q R Rm O B).after 6 t)
            ∗ (match cfg4.idle 7 (cfg4.grid.coords t) with
              | true =>
                match (cfg4.win 7).flush t with
                | false => iprop(∃ d, owns (c : Thread nD τ) (st4_7 t) fullShare ((dat c A q R Rm O B).before 7 t d))
                | true => owns (c : Thread nD τ) (st4_7 t) fullShare ((dat c A q R Rm O B).after 7 t)
              | false => owns (c : Thread nD τ) (st4_7 t) fullShare ((dat c A q R Rm O B).after 7 t))) := by
  rcases Nat.mod_two_eq_zero_or_one t.val with h | h
  · have e1 : cfg4.idle 7 (cfg4.grid.coords t) = true := by rw [idle7 t]; exact decide_eq_true h
    have e2 : (cfg4.win 7).flush t = false := by rw [flush7 t]; exact decide_eq_false (by omega)
    rw [e1, e2]
    exact at_even 𝒱₀ ι c A q R Rm O B hsplit t h
  · have e1 : cfg4.idle 7 (cfg4.grid.coords t) = false := by rw [idle7 t]; exact decide_eq_false (by omega)
    rw [e1]
    exact at_odd 𝒱₀ ι c A q R Rm O B hjoin t h

/-- The region rule's hypothesis about the body, at every point of the grid, given that the accumulator can be taken out of
    R and put back. -/
theorem body_obligation (𝒱₀ : Variants) (ι : Ix) (c : Dev nD) (A : (w : Fin cfg4.W) → Buf (Elt F) ((cfg4.win w).arr.view.loc (c.tc : Thread nD τ)))
    (q : Fin cfg4.W → PosShare TreeShare) (R Rm : sProp 𝕄) (O : CellTallies nD τ sig Ix) (B : Set (SemLoc sig × Ix))
    (hsplit : R ⊢ iprop(Rm ∗ ∃ d, owns (c : Thread nD τ) accRef fullShare d))
    (hjoin : iprop(Rm ∗ ∃ d, owns (c : Thread nD τ) accRef fullShare d) ⊢ R) :
    BodyObligation (dat c A q R Rm O B) (defs₀ (F := F)) 𝒱₀ ι Set.univ := fun t => by
  rw [bigSep_W4, bigSep_W4]
  exact at_point 𝒱₀ ι c A q R Rm O B hsplit hjoin t

end Cert.KernelIdeal.Region2B

end
-- ==== Proof.Region2Data.lean ====
/-
  The first fused region as a segment of @main: its proof data for a segment, read off the valuation the region is
  entered at, meets what a segment asks — the arrays' entry contents are the valuation's, full shares, the tallies and
  the bound of the handshake state at every point, and an invariant that is the scoped rest at every even point, in
  particular at the first and at the last (the accumulator, one of the scoped rest's buffers, is named apart only
  between the two halves of a row of the grid) — and the body's proof is the body file's.
-/
import proofs.«215235_g2774548873965_cont_9to1_572_34_alg».proof.Proof.ScRegion
import proofs.«215235_g2774548873965_cont_9to1_572_34_alg».proof.Proof.Region2Body
import proofs.«215235_g2774548873965_cont_9to1_572_34_alg».proof.Proof.Region1Rest

noncomputable section

namespace Cert.KernelIdeal.Sc

open Cert.KernelIdeal
open Idealize.ShloMosaic Idealize.ShloMosaic.StableHlo Idealize.ShloMosaic.TcCoe
open Idealize.ShloMosaic.SparseCore (S T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F] [∀ e, Nonempty (Elt F e)]

local notation "𝕄" => MT nD τ sig (HIx 4) (Elt F) ℕ UU ℕ

/-- The pipeline this file is about. -/
abbrev pix2 : Fin 6 := 2

/-- The region's arrays at a valuation. -/
def A2 (W : Valuation τ sig (Elt F)) (c : Dev nD) (w : Fin cfg4.W) : Buf (Elt F) ((cfg4.win w).arr.view.loc (c.tc : Thread nD τ)) :=
  valOn W c (Pipeline.arrRef spec4 w)

/-- Its proof data for a segment entered before call n, at a valuation. -/
def dt2 (n : ℕ) (W : Valuation τ sig (Elt F)) (c : Dev nD) : Dat τ (Elt F) (HIx 4) ℕ UU ℕ (Pipeline.pin (pcfgs (F := F)) adm pix2) c :=
  Region2B.dat c (A2 W c) (fun _ => fullShare) (Region1B.rest2 adm c) (Region1B.restNoAcc2 c) ((K (F := F)).Otc c n) (below (F := F) c n)

/-- The grid has an even number of points. -/
theorem N2_even : (Pipeline.pin (pcfgs (F := F)) adm pix2).N % 2 = 0 := by
  show grid4.N % 2 = 0
  rw [Gen.N_4]

/-- What a segment asks of the region's proof data. (The facts about the scoped rest are matched in the proof mode, not by
    unfolding: the accumulator's split and join are restated in the body's own words first.) -/
theorem data2 (n : ℕ) : RegionData (F := F) pix2 n (dt2 n) where
  body W c := by
    have hs : (Region1B.rest2 adm c : sProp 𝕄)
        ⊢ iprop(Region1B.restNoAcc2 c ∗ ∃ d, owns (c : Thread nD τ) Region2B.accRef fullShare d) := by
      with_reducible_and_instances exact Region1B.acc_split2 adm c
    have hj : (iprop(Region1B.restNoAcc2 c ∗ ∃ d, owns (c : Thread nD τ) Region2B.accRef fullShare d) : sProp 𝕄)
        ⊢ Region1B.rest2 adm c := by
      with_reducible_and_instances exact Region1B.acc_join2 adm c
    have hb : Pipeline.BodyObligation (dt2 (F := F) n W c) (defs₀ (F := F)) Variants.none none Set.univ := by
      unfold dt2
      with_reducible_and_instances
        exact Region2B.body_obligation Variants.none none c (A2 W c) (fun _ => fullShare) (Region1B.rest2 adm c) (Region1B.restNoAcc2 c)
          ((K (F := F)).Otc c n) (below (F := F) c n) hs hj
    exact hb.loose
  arrays _ _ _ := rfl
  shares _ _ w := by unfold Pipeline.Dat.share; split <;> rfl
  owed _ _ _ := rfl
  recorded _ _ _ := rfl
  inv_first W c t ht := by
    unfold dt2
    rewrite [Region2B.Phi_even _ _ _ _ _ _ _ t (by omega), Region1B.rest2]
    iintro H; iexact H
  inv_last W c t ht := by
    unfold dt2
    rewrite [Region2B.Phi_even _ _ _ _ _ _ _ t (by rw [ht]; exact N2_even), Region1B.rest2]
    iintro H; iexact H

/-- The region, entered before call n, as a segment of @main. -/
theorem seg_region2_n (n : ℕ) : SegRegion (F := F) pix2 n (Proc.devRef .tc main_v25) := seg_region2_at n _ (data2 n)

/-- Where @main enters it. -/
theorem seg_region2 : SegRegion (F := F) pix2 2 (Proc.devRef .tc main_v25) := seg_region2_n 2

end Cert.KernelIdeal.Sc

end
-- ==== Proof.Region3Body.lean ====
/-
  A fused tensor-core region: for 8 neighbour slots j, filt_j = ssp(f_j · W₁ + b₁) · W₂ + b₂ (ssp v = log(½·exp v + ½)),
  times the cutoff-and-mask column of slot j, times the gathered rows of slot j; the eight products added. The grid
  is 8 × 2: point (b, g) stages slots 8g … 8g + 7 of batch b. The region keeps a scratch accumulator across the second
  axis: at g = 0 it is set to the point's sum, at g = 1 the point's sum is added to it and the result is copied to the
  staged output block, which is written back to rows 1024·b … of the output array.

  At a point the body reads seven staged inputs (the filters' inputs f [1,50,8,1024], the gathered rows [8192,128], the
  cutoff-and-mask columns [1,8,1024], W₁ [50,128], b₁ [1,128], W₂ [128,128], b₂ [1,128]); it leaves them unchanged.
  What it leaves in the accumulator and in the output block is written out below as pure terms of the staged inputs.
-/
import proofs.«215235_g2774548873965_cont_9to1_572_34_alg».proof.KernelIdeal
import proofs.«215235_g2774548873965_cont_9to1_572_34_alg».proof.Proof.Gen.KernelIdeal
import proofs.«215235_g2774548873965_cont_9to1_572_34_alg».proof.Proof.Gen.KernelIdeal.Skeleton
import proofs.«215235_g2774548873965_cont_9to1_572_34_alg».proof.Proof.Gen.KernelIdeal.Launch
import proofs.«215235_g2774548873965_cont_9to1_572_34_alg».proof.Proof.Gen.KernelIdeal.Points
import Idealize.ShloMosaic.Lib.Pipeline.FrameBody
import Idealize.ShloMosaic.Lib.Tactic

noncomputable section

namespace Cert.KernelIdeal.Region3B

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The rectangles the body names -/

/-- All of a [1024,128] buffer: the accumulator, the staged output block. -/
abbrev rBig : Rect S1024x128 := Rect.unit (s := S1024x128) ![0, 0] S1024x128.size inb_S1024x128_S1024x128_0_0
abbrev rW1 : Rect S50x128 := Rect.unit (s := S50x128) ![0, 0] S50x128.size inb_S50x128_S50x128_0_0
abbrev rRow : Rect S1x128 := Rect.unit (s := S1x128) ![0, 0] S1x128.size inb_S1x128_S1x128_0_0
abbrev rSq : Rect S128x128 := Rect.unit (s := S128x128) ![0, 0] S128x128.size inb_S128x128_S128x128_0_0
abbrev rCut : Rect S1x8x1024 := Rect.unit (s := S1x8x1024) ![0, 0, 0] S1x8x1024.size inb_S1x8x1024_S1x8x1024_0_0_0
/-- Slot j of the staged filter inputs. -/
abbrev rF0 : Rect S1x50x8x1024 := Rect.unit (s := S1x50x8x1024) ![0, 0, 0, 0] S1x50x1x1024.size inb_S1x50x8x1024_S1x50x1x1024_0_0_0_0
abbrev rF1 : Rect S1x50x8x1024 := Rect.unit (s := S1x50x8x1024) ![0, 0, 1, 0] S1x50x1x1024.size inb_S1x50x8x1024_S1x50x1x1024_0_0_1_0
abbrev rF2 : Rect S1x50x8x1024 := Rect.unit (s := S1x50x8x1024) ![0, 0, 2, 0] S1x50x1x1024.size inb_S1x50x8x1024_S1x50x1x1024_0_0_2_0
abbrev rF3 : Rect S1x50x8x1024 := Rect.unit (s := S1x50x8x1024) ![0, 0, 3, 0] S1x50x1x1024.size inb_S1x50x8x1024_S1x50x1x1024_0_0_3_0
abbrev rF4 : Rect S1x50x8x1024 := Rect.unit (s := S1x50x8x1024) ![0, 0, 4, 0] S1x50x1x1024.size inb_S1x50x8x1024_S1x50x1x1024_0_0_4_0
abbrev rF5 : Rect S1x50x8x1024 := Rect.unit (s := S1x50x8x1024) ![0, 0, 5, 0] S1x50x1x1024.size inb_S1x50x8x1024_S1x50x1x1024_0_0_5_0
abbrev rF6 : Rect S1x50x8x1024 := Rect.unit (s := S1x50x8x1024) ![0, 0, 6, 0] S1x50x1x1024.size inb_S1x50x8x1024_S1x50x1x1024_0_0_6_0
abbrev rF7 : Rect S1x50x8x1024 := Rect.unit (s := S1x50x8x1024) ![0, 0, 7, 0] S1x50x1x1024.size inb_S1x50x8x1024_S1x50x1x1024_0_0_7_0
/-- Slot j of the staged gathered rows: rows 1024·j … 1024·j + 1023. -/
abbrev rG0 : Rect S8192x128 := Rect.unit (s := S8192x128) ![0, 0] S1024x128.size inb_S8192x128_S1024x128_0_0
abbrev rG1 : Rect S8192x128 := Rect.unit (s := S8192x128) ![1024, 0] S1024x128.size inb_S8192x128_S1024x128_1024_0
abbrev rG2 : Rect S8192x128 := Rect.unit (s := S8192x128) ![2048, 0] S1024x128.size inb_S8192x128_S1024x128_2048_0
abbrev rG3 : Rect S8192x128 := Rect.unit (s := S8192x128) ![3072, 0] S1024x128.size inb_S8192x128_S1024x128_3072_0
abbrev rG4 : Rect S8192x128 := Rect.unit (s := S8192x128) ![4096, 0] S1024x128.size inb_S8192x128_S1024x128_4096_0
abbrev rG5 : Rect S8192x128 := Rect.unit (s := S8192x128) ![5120, 0] S1024x128.size inb_S8192x128_S1024x128_5120_0
abbrev rG6 : Rect S8192x128 := Rect.unit (s := S8192x128) ![6144, 0] S1024x128.size inb_S8192x128_S1024x128_6144_0
abbrev rG7 : Rect S8192x128 := Rect.unit (s := S8192x128) ![7168, 0] S1024x128.size inb_S8192x128_S1024x128_7168_0

/-! ## The point's sum, as the body computes it -/

/-- The seven staged inputs of a point. -/
structure Ins (F : FTy → Type) where
  f : Vec F S1x50x8x1024 .f32
  g : Vec F S8192x128 .f32
  cut : Vec F S1x8x1024 .f32
  w1 : Vec F S50x128 .f32
  b1 : Vec F S1x128 .f32
  w2 : Vec F S128x128 .f32
  b2 : Vec F S1x128 .f32

/-- The running sum after slots 0 … 6, the last slot's filter and its column, in the order the body computes them:
    each line is one of the body's named values over what was read before it. -/
def upto6 (x : Ins F) : FVec F S1024x128 .f32 × FVec F S1024x128 .f32 × FVec F S1024x128 .f32 :=
  let cw := View.ld x.cut rCut
  let w1 := View.ld x.w1 rW1
  let b1 := View.ld x.b1 rRow
  let w2 := View.ld x.w2 rSq
  let b2 := View.ld x.b2 rRow
  let v2 := k6_pay4 cw
  let v28 := k6_pay5 cw (View.ld x.f rF0) w1 b1 w2 b2 (View.ld x.g rG0)
  let v30 := k6_pay6 (View.ld x.f rF1)
  let v55 := k6_pay7 v2 v28 v30 w1 b1 w2 b2 (View.ld x.g rG1)
  let v66 := k6_pay8 (View.ld x.f rF2) w1 b1
  let v82 := k6_pay10 v2 v55 v66 (k6_pay9 (F := F)) w2 b2 (View.ld x.g rG2)
  let v102 := k6_pay11 (View.ld x.f rF3) w1 b1 w2 b2
  let v136 := k6_pay13 v2 v82 v102 (k6_pay12 v2) (View.ld x.g rG3) (View.ld x.f rF4) w1 b1 w2 b2 (View.ld x.g rG4)
  let v138 := k6_pay14 (View.ld x.f rF5)
  let v163 := k6_pay15 v2 v136 v138 w1 b1 w2 b2 (View.ld x.g rG5)
  let v174 := k6_pay16 (View.ld x.f rF6) w1 b1
  let v190 := k6_pay18 v2 v163 v174 (k6_pay17 (F := F)) w2 b2 (View.ld x.g rG6)
  (v190, k6_pay19 (View.ld x.f rF7) w1 b1 w2 b2, k6_pay20 v2)

/-- What the first point of a pair stores in the accumulator. -/
def first (x : Ins F) : FVec F S1024x128 .f32 :=
  k6_pay2 (upto6 x).1 (upto6 x).2.1 (upto6 x).2.2 (View.ld x.g rG7)

/-- What the second point of a pair stores in the accumulator, the accumulator read as acc. -/
def second (x : Ins F) (acc : Vec F S1024x128 .f32) : FVec F S1024x128 .f32 :=
  k6_pay3 (upto6 x).1 (upto6 x).2.1 (upto6 x).2.2 (View.ld x.g rG7) acc

/-- A whole [1024,128] buffer overwritten by one store of p. -/
def whole (p : FVec F S1024x128 .f32) : Vec F S1024x128 .f32 := View.canon [⟨rBig, p⟩]

theorem whole_covers (p : Vec F S1024x128 .f32) (y : S1024x128.Idx) :
    ∃ pc ∈ ([⟨rBig, p⟩] : List (View.Piece (Elt F) S1024x128 .f32)), y ∈ pc.1.set :=
  View.cover_of_tiled [⟨rBig, p⟩] S1024x128.size (by rfl) y

/-! ## The body at the first point of a pair -/

set_option maxHeartbeats 4000000 in
/-- At a point whose second coordinate is 0 the body, called on whole buffers holding the seven inputs, an output block
    and an accumulator, returns the inputs and the output block as they were and the accumulator at the point's sum. -/
theorem body_run0 (𝒱₀ : Variants) (c : Dev nD) (E : Set Name) (i : grid6.Coords) (hi : (i 1).val = 0)
    (a2 : Memref sig .tc .vmem S1x50x8x1024 .f32) (g2 : a2.IsWhole) (a3 : Memref sig .tc .vmem S8192x128 .f32) (g3 : a3.IsWhole)
    (a4 : Memref sig .tc .vmem S1x8x1024 .f32) (g4 : a4.IsWhole) (a5 : Memref sig .tc .vmem S50x128 .f32) (g5 : a5.IsWhole)
    (a6 : Memref sig .tc .vmem S1x128 .f32) (g6 : a6.IsWhole) (a7 : Memref sig .tc .vmem S128x128 .f32) (g7 : a7.IsWhole)
    (a8 : Memref sig .tc .vmem S1x128 .f32) (g8 : a8.IsWhole) (a9 : Memref sig .tc .vmem S1024x128 .f32) (g9 : a9.IsWhole)
    (a10 : Memref sig .tc .vmem S1024x128 .f32) (g10 : a10.IsWhole)
    (xf : Vec F S1x50x8x1024 .f32) (xg : Vec F S8192x128 .f32) (xc : Vec F S1x8x1024 .f32) (xw1 : Vec F S50x128 .f32)
    (xb1 : Vec F S1x128 .f32) (xw2 : Vec F S128x128 .f32) (xb2 : Vec F S1x128 .f32) (o : Vec F S1024x128 .f32) (K : PUnit → sProp 𝕄) :
    iprop(owns (c : Thread nD τ) a2 fullShare xf ∗ owns (c : Thread nD τ) a3 fullShare xg ∗ owns (c : Thread nD τ) a4 fullShare xc
        ∗ owns (c : Thread nD τ) a5 fullShare xw1 ∗ owns (c : Thread nD τ) a6 fullShare xb1 ∗ owns (c : Thread nD τ) a7 fullShare xw2
        ∗ owns (c : Thread nD τ) a8 fullShare xb2
        ∗ owns (c : Thread nD τ) a9 fullShare o ∗ (∃ d, owns (c : Thread nD τ) a10 fullShare d)
        ∗ (iprop(owns (c : Thread nD τ) a2 fullShare xf ∗ owns (c : Thread nD τ) a3 fullShare xg ∗ owns (c : Thread nD τ) a4 fullShare xc
        ∗ owns (c : Thread nD τ) a5 fullShare xw1 ∗ owns (c : Thread nD τ) a6 fullShare xb1 ∗ owns (c : Thread nD τ) a7 fullShare xw2
        ∗ owns (c : Thread nD τ) a8 fullShare xb2
              ∗ owns (c : Thread nD τ) a9 fullShare o
              ∗ owns (c : Thread nD τ) a10 fullShare (whole (first ⟨xf, xg, xc, xw1, xb1, xw2, xb2⟩))) -∗ K ⟨⟩))
      ⊢ wp frame (wpE (defs₀ (F := F)) 𝒱₀ c none) E
          (cc6__fused_kernel i a2 g2 a3 g3 a4 g4 a5 g5 a6 g6 a7 g7 a8 g8 a9 g9 a10 g10) K := by
  have h1 : Scalar.cmpi .ne (Scalar.extui (Scalar.cmpi .eq (BitVec.ofNat 32 (i 1).val) 0#32)) 0#32 = 1#1 := by rw [hi]; decide
  have h2 : ¬ Scalar.cmpi .ne (Scalar.extui (Scalar.cmpi .sgt (BitVec.ofNat 32 (i 1).val) 0#32)) 0#32 = 1#1 := by rw [hi]; decide
  have h3 : ¬ k6_cond3 i = 1#1 := by unfold k6_cond3; rw [hi]; decide
  sl_unfold [cc6__fused_kernel]
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩,
    ⟨%f9, %e9, H9⟩, ⟨%d10, %f10, -, H10⟩, Hk⟩
  subst e2 e3 e4 e5 e6 e7 e8 e9
  -- the loads, the sum (pure), the accumulator's overwrite; the other two cases are not taken
  sl_exec
  sl_step
  iapply Hk
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists f7; isplitr
    · ipureintro; rfl
    · iexact H7
  isplitl [H8]
  · iexists f8; isplitr
    · ipureintro; rfl
    · iexact H8
  isplitl [H9]
  · iexists f9; isplitr
    · ipureintro; rfl
    · iexact H9
  iexists _
  isplitr
  rotate_left
  · iexact H10
  · ipureintro
    exact View.read_writes_eq_canon _ _ _ (whole_covers (F := F) _)

set_option maxHeartbeats 4000000 in
/-- At a point whose second coordinate is 1 the body, called on whole buffers holding the seven inputs, an output block
    and the accumulator at acc, returns the inputs as they were the accumulator at acc plus the point's sum, and the
    output block at the accumulator's new contents read back whole. -/
theorem body_run1 (𝒱₀ : Variants) (c : Dev nD) (E : Set Name) (i : grid6.Coords) (hi : (i 1).val = 1)
    (a2 : Memref sig .tc .vmem S1x50x8x1024 .f32) (g2 : a2.IsWhole) (a3 : Memref sig .tc .vmem S8192x128 .f32) (g3 : a3.IsWhole)
    (a4 : Memref sig .tc .vmem S1x8x1024 .f32) (g4 : a4.IsWhole) (a5 : Memref sig .tc .vmem S50x128 .f32) (g5 : a5.IsWhole)
    (a6 : Memref sig .tc .vmem S1x128 .f32) (g6 : a6.IsWhole) (a7 : Memref sig .tc .vmem S128x128 .f32) (g7 : a7.IsWhole)
    (a8 : Memref sig .tc .vmem S1x128 .f32) (g8 : a8.IsWhole) (a9 : Memref sig .tc .vmem S1024x128 .f32) (g9 : a9.IsWhole)
    (a10 : Memref sig .tc .vmem S1024x128 .f32) (g10 : a10.IsWhole)
    (xf : Vec F S1x50x8x1024 .f32) (xg : Vec F S8192x128 .f32) (xc : Vec F S1x8x1024 .f32) (xw1 : Vec F S50x128 .f32)
    (xb1 : Vec F S1x128 .f32) (xw2 : Vec F S128x128 .f32) (xb2 : Vec F S1x128 .f32) (acc : Vec F S1024x128 .f32) (K : PUnit → sProp 𝕄) :
    iprop(owns (c : Thread nD τ) a2 fullShare xf ∗ owns (c : Thread nD τ) a3 fullShare xg ∗ owns (c : Thread nD τ) a4 fullShare xc
        ∗ owns (c : Thread nD τ) a5 fullShare xw1 ∗ owns (c : Thread nD τ) a6 fullShare xb1 ∗ owns (c : Thread nD τ) a7 fullShare xw2
        ∗ owns (c : Thread nD τ) a8 fullShare xb2
        ∗ (∃ d, owns (c : Thread nD τ) a9 fullShare d) ∗ owns (c : Thread nD τ) a10 fullShare acc
        ∗ (iprop(owns (c : Thread nD τ) a2 fullShare xf ∗ owns (c : Thread nD τ) a3 fullShare xg ∗ owns (c : Thread nD τ) a4 fullShare xc
        ∗ owns (c : Thread nD τ) a5 fullShare xw1 ∗ owns (c : Thread nD τ) a6 fullShare xb1 ∗ owns (c : Thread nD τ) a7 fullShare xw2
        ∗ owns (c : Thread nD τ) a8 fullShare xb2
              ∗ owns (c : Thread nD τ) a9 fullShare (whole (View.ld (whole (second ⟨xf, xg, xc, xw1, xb1, xw2, xb2⟩ (View.ld acc rBig))) rBig))
              ∗ owns (c : Thread nD τ) a10 fullShare (whole (second ⟨xf, xg, xc, xw1, xb1, xw2, xb2⟩ (View.ld acc rBig)))) -∗ K ⟨⟩))
      ⊢ wp frame (wpE (defs₀ (F := F)) 𝒱₀ c none) E
          (cc6__fused_kernel i a2 g2 a3 g3 a4 g4 a5 g5 a6 g6 a7 g7 a8 g8 a9 g9 a10 g10) K := by
  have h1 : ¬ Scalar.cmpi .ne (Scalar.extui (Scalar.cmpi .eq (BitVec.ofNat 32 (i 1).val) 0#32)) 0#32 = 1#1 := by rw [hi]; decide
  have h2 : Scalar.cmpi .ne (Scalar.extui (Scalar.cmpi .sgt (BitVec.ofNat 32 (i 1).val) 0#32)) 0#32 = 1#1 := by rw [hi]; decide
  have h3 : k6_cond3 i = 1#1 := by unfold k6_cond3; rw [hi]; decide
  sl_unfold [cc6__fused_kernel]
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩,
    ⟨%d9, %f9, -, H9⟩, ⟨%f10, %e10, H10⟩, Hk⟩
  subst e2 e3 e4 e5 e6 e7 e8 e10
  -- the loads, the sum (pure), the accumulator read, added to and overwritten, then copied to the output block
  sl_exec
  sl_step
  iapply Hk
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists f7; isplitr
    · ipureintro; rfl
    · iexact H7
  isplitl [H8]
  · iexists f8; isplitr
    · ipureintro; rfl
    · iexact H8
  isplitl [H9]
  · iexists _
    isplitr
    rotate_left
    · iexact H9
    · ipureintro
      -- the output block's one store is of the accumulator read back, whole, after its own overwrite
      rw [View.read_writes_eq_canon _ _ _ (whole_covers (F := F) _)]
      exact congrArg (fun p => View.canon [(⟨rBig, p⟩ : View.Piece (Elt F) S1024x128 .f32)])
        (View.readCov_eq_canon_ld _ _ rBig (whole_covers (F := F) _))
  iexists _
  isplitr
  rotate_left
  · iexact H10
  · ipureintro
    exact View.read_writes_eq_canon _ _ _ (whole_covers (F := F) _)

/-! ## The proof data -/

/-- Window w's block at point t, read off the array's contents at the region's entry. -/
def blockAt (c : Dev nD) (A : (w : Fin cfg6.W) → Buf (Elt F) ((cfg6.win w).arr.view.loc (c.tc : Thread nD τ)))
    (w : Fin cfg6.W) (t : Fin cfg6.N) : ((cfg6.win w).xblock (cfg6.grid.coords t)).Idx → Elt F (cfg6.win w).elt :=
  ((cfg6.win w).blk t).view.read (Elt F) (A w)

/-- The seven staged inputs of point t. -/
def insAt (c : Dev nD) (A : (w : Fin cfg6.W) → Buf (Elt F) ((cfg6.win w).arr.view.loc (c.tc : Thread nD τ))) (t : Fin cfg6.N) : Ins F :=
  ⟨blockAt c A 0 t, blockAt c A 1 t, blockAt c A 2 t, blockAt c A 3 t, blockAt c A 4 t, blockAt c A 5 t, blockAt c A 6 t⟩

/-- The point before t (t itself at the first point, where it is not used). -/
def prev (t : Fin cfg6.N) : Fin cfg6.N := ⟨t.val - 1, Nat.lt_of_le_of_lt (Nat.sub_le _ _) t.isLt⟩

/-- The accumulator after the first point of a pair: that point's sum. -/
def accFirst (c : Dev nD) (A : (w : Fin cfg6.W) → Buf (Elt F) ((cfg6.win w).arr.view.loc (c.tc : Thread nD τ))) (t : Fin cfg6.N) :
    Vec F S1024x128 .f32 := whole (first (insAt c A t))

/-- The accumulator after the second point t of a pair: the first point's sum plus this point's. -/
def accSecond (c : Dev nD) (A : (w : Fin cfg6.W) → Buf (Elt F) ((cfg6.win w).arr.view.loc (c.tc : Thread nD τ))) (t : Fin cfg6.N) :
    Vec F S1024x128 .f32 := whole (second (insAt c A t) (View.ld (accFirst c A (prev t)) rBig))

/-- The accumulator, as a whole buffer of the core. -/
abbrev accRef : Memref sig .tc .vmem S1024x128 .f32 := Memref.whole cc6_scratch0

/-- The region's proof data on core c: entry contents A of the eight arrays, shares q, the tallies O and the bound B as
    they are throughout. The invariant is R before the first point of a pair (R: what the core holds besides the
    windows, the accumulator among it at contents nobody names) and, between the two points of a pair, Rm (the same
    without the accumulator) with the accumulator at the first point's sum. The body leaves each input at its block;
    at the second point of a pair it leaves the output block at the accumulator read back. -/
def dat (c : Dev nD) (A : (w : Fin cfg6.W) → Buf (Elt F) ((cfg6.win w).arr.view.loc (c.tc : Thread nD τ)))
    (q : Fin cfg6.W → PosShare TreeShare) (R Rm : sProp 𝕄) (O : CellTallies nD τ sig Ix) (B : Set (SemLoc sig × Ix)) :
    Dat τ (Elt F) Ix Name U Lvl cfg6 c where
  A := A
  after w t := match w with
    | ⟨0, _⟩ => blockAt c A 0 t
    | ⟨1, _⟩ => blockAt c A 1 t
    | ⟨2, _⟩ => blockAt c A 2 t
    | ⟨3, _⟩ => blockAt c A 3 t
    | ⟨4, _⟩ => blockAt c A 4 t
    | ⟨5, _⟩ => blockAt c A 5 t
    | ⟨6, _⟩ => blockAt c A 6 t
    | ⟨7, _⟩ => whole (View.ld (accSecond c A t) rBig)
  Φ t := if h : t.val % 2 = 1 then
      iprop(Rm ∗ owns (c : Thread nD τ) accRef fullShare (accFirst c A ⟨t.val - 1, by have := t.isLt; omega⟩))
    else R
  q := q
  owed _ := O
  recorded _ := B

/-! ## What the proof data says -/

/-- The second grid coordinate of point t is t modulo 2. -/
theorem coord1 : ∀ t : Fin grid6.N, ((grid6.coords t) 1).val = t.val % 2 := by decide +kernel

/-- The output window rests (is neither stored to nor written back) exactly at the first point of a pair. -/
theorem idle7 : ∀ t : Fin grid6.N, cfg6.idle 7 (cfg6.grid.coords t) = decide (t.val % 2 = 0) := by decide +kernel
theorem flush7 : ∀ t : Fin grid6.N, (cfg6.win 7).flush t = decide (t.val % 2 = 1) := by decide +kernel

section Facts

variable (c : Dev nD) (A : (w : Fin cfg6.W) → Buf (Elt F) ((cfg6.win w).arr.view.loc (c.tc : Thread nD τ)))
  (q : Fin cfg6.W → PosShare TreeShare) (O : CellTallies nD τ sig Ix) (B : Set (SemLoc sig × Ix))

theorem after_in0 (R Rm : sProp 𝕄) (t : Fin cfg6.N) : (dat (Name := Name) (Lvl := Lvl) c A q R Rm O B).after 0 t = blockAt c A 0 t := by dsimp only [dat]
theorem after_in1 (R Rm : sProp 𝕄) (t : Fin cfg6.N) : (dat (Name := Name) (Lvl := Lvl) c A q R Rm O B).after 1 t = blockAt c A 1 t := by dsimp only [dat]
theorem after_in2 (R Rm : sProp 𝕄) (t : Fin cfg6.N) : (dat (Name := Name) (Lvl := Lvl) c A q R Rm O B).after 2 t = blockAt c A 2 t := by dsimp only [dat]
theorem after_in3 (R Rm : sProp 𝕄) (t : Fin cfg6.N) : (dat (Name := Name) (Lvl := Lvl) c A q R Rm O B).after 3 t = blockAt c A 3 t := by dsimp only [dat]
theorem after_in4 (R Rm : sProp 𝕄) (t : Fin cfg6.N) : (dat (Name := Name) (Lvl := Lvl) c A q R Rm O B).after 4 t = blockAt c A 4 t := by dsimp only [dat]
theorem after_in5 (R Rm : sProp 𝕄) (t : Fin cfg6.N) : (dat (Name := Name) (Lvl := Lvl) c A q R Rm O B).after 5 t = blockAt c A 5 t := by dsimp only [dat]
theorem after_in6 (R Rm : sProp 𝕄) (t : Fin cfg6.N) : (dat (Name := Name) (Lvl := Lvl) c A q R Rm O B).after 6 t = blockAt c A 6 t := by dsimp only [dat]
theorem after_out (R Rm : sProp 𝕄) (t : Fin cfg6.N) : (dat (Name := Name) (Lvl := Lvl) c A q R Rm O B).after 7 t = whole (View.ld (accSecond c A t) rBig) := by dsimp only [dat]

theorem before_in0 (R Rm : sProp 𝕄) (t : Fin cfg6.N) (d) : (dat (Name := Name) (Lvl := Lvl) c A q R Rm O B).before 0 t d = blockAt c A 0 t :=
  ((dat (Name := Name) (Lvl := Lvl) c A q R Rm O B).before_in_eq_fetched 0 rfl (fun _ => rfl) (fun _ _ _ => rfl) (fun u => by rw [after_in0]; rfl) t d).trans rfl
theorem before_in1 (R Rm : sProp 𝕄) (t : Fin cfg6.N) (d) : (dat (Name := Name) (Lvl := Lvl) c A q R Rm O B).before 1 t d = blockAt c A 1 t :=
  ((dat (Name := Name) (Lvl := Lvl) c A q R Rm O B).before_in_eq_fetched 1 rfl (fun _ => rfl) (fun _ _ _ => rfl) (fun u => by rw [after_in1]; rfl) t d).trans rfl
theorem before_in2 (R Rm : sProp 𝕄) (t : Fin cfg6.N) (d) : (dat (Name := Name) (Lvl := Lvl) c A q R Rm O B).before 2 t d = blockAt c A 2 t :=
  ((dat (Name := Name) (Lvl := Lvl) c A q R Rm O B).before_in_eq_fetched 2 rfl (fun _ => rfl) (fun _ _ _ => rfl) (fun u => by rw [after_in2]; rfl) t d).trans rfl
theorem before_in3 (R Rm : sProp 𝕄) (t : Fin cfg6.N) (d) : (dat (Name := Name) (Lvl := Lvl) c A q R Rm O B).before 3 t d = blockAt c A 3 t :=
  ((dat (Name := Name) (Lvl := Lvl) c A q R Rm O B).before_in_eq_fetched 3 rfl (fun _ => rfl) (fun _ _ _ => rfl) (fun u => by rw [after_in3]; rfl) t d).trans rfl
theorem before_in4 (R Rm : sProp 𝕄) (t : Fin cfg6.N) (d) : (dat (Name := Name) (Lvl := Lvl) c A q R Rm O B).before 4 t d = blockAt c A 4 t :=
  ((dat (Name := Name) (Lvl := Lvl) c A q R Rm O B).before_in_eq_fetched 4 rfl (fun _ => rfl) (fun _ _ _ => rfl) (fun u => by rw [after_in4]; rfl) t d).trans rfl
theorem before_in5 (R Rm : sProp 𝕄) (t : Fin cfg6.N) (d) : (dat (Name := Name) (Lvl := Lvl) c A q R Rm O B).before 5 t d = blockAt c A 5 t :=
  ((dat (Name := Name) (Lvl := Lvl) c A q R Rm O B).before_in_eq_fetched 5 rfl (fun _ => rfl) (fun _ _ _ => rfl) (fun u => by rw [after_in5]; rfl) t d).trans rfl
theorem before_in6 (R Rm : sProp 𝕄) (t : Fin cfg6.N) (d) : (dat (Name := Name) (Lvl := Lvl) c A q R Rm O B).before 6 t d = blockAt c A 6 t :=
  ((dat (Name := Name) (Lvl := Lvl) c A q R Rm O B).before_in_eq_fetched 6 rfl (fun _ => rfl) (fun _ _ _ => rfl) (fun u => by rw [after_in6]; rfl) t d).trans rfl

/-- Before the first point of a pair the invariant is R; -/
theorem inv_first (R Rm : sProp 𝕄) (t : Fin cfg6.N) (h : t.val % 2 = 0) : (dat (Name := Name) (Lvl := Lvl) c A q R Rm O B).Φ t.castSucc = R := by
  have h' : ¬ (t.castSucc : Fin (cfg6.N + 1)).val % 2 = 1 := by rw [Fin.val_castSucc]; omega
  dsimp only [dat]
  rw [dif_neg h']

/-- after it, Rm and the accumulator at the point's sum; -/
theorem inv_mid (R Rm : sProp 𝕄) (t : Fin cfg6.N) (h : t.val % 2 = 0) :
    (dat (Name := Name) (Lvl := Lvl) c A q R Rm O B).Φ t.succ = iprop(Rm ∗ owns (c : Thread nD τ) accRef fullShare (accFirst c A t)) := by
  have h' : (t.succ : Fin (cfg6.N + 1)).val % 2 = 1 := by rw [Fin.val_succ]; omega
  dsimp only [dat]
  rw [dif_pos h']
  rfl

/-- the same before the second point of a pair, -/
theorem inv_mid' (R Rm : sProp 𝕄) (t : Fin cfg6.N) (h : t.val % 2 = 1) :
    (dat (Name := Name) (Lvl := Lvl) c A q R Rm O B).Φ t.castSucc = iprop(Rm ∗ owns (c : Thread nD τ) accRef fullShare (accFirst c A (prev t))) := by
  have h' : (t.castSucc : Fin (cfg6.N + 1)).val % 2 = 1 := by rw [Fin.val_castSucc]; exact h
  dsimp only [dat]
  rw [dif_pos h']
  rfl

/-- and R again after it. -/
theorem inv_last (R Rm : sProp 𝕄) (t : Fin cfg6.N) (h : t.val % 2 = 1) : (dat (Name := Name) (Lvl := Lvl) c A q R Rm O B).Φ t.succ = R := by
  have h' : ¬ (t.succ : Fin (cfg6.N + 1)).val % 2 = 1 := by rw [Fin.val_succ]; omega
  dsimp only [dat]
  rw [dif_neg h']

/-- At an even position (before the first point of a pair, after the second, at the region's two ends) the invariant
    is R, -/
theorem Phi_even (R Rm : sProp 𝕄) (t : Fin (cfg6.N + 1)) (ht : t.val % 2 = 0) : (dat (Name := Name) (Lvl := Lvl) c A q R Rm O B).Φ t = R := by
  have h' : ¬ t.val % 2 = 1 := by omega
  dsimp only [dat]
  rw [dif_neg h']

/-- at an odd one, Rm with the accumulator at the sum of the point just run. -/
theorem Phi_odd (R Rm : sProp 𝕄) (t : Fin (cfg6.N + 1)) (ht : t.val % 2 = 1) :
    (dat (Name := Name) (Lvl := Lvl) c A q R Rm O B).Φ t = iprop(Rm ∗ owns (c : Thread nD τ) accRef fullShare (accFirst c A ⟨t.val - 1, by have := t.isLt; omega⟩)) := by
  dsimp only [dat]
  rw [dif_pos ht]

theorem A_eq (R Rm : sProp 𝕄) : (dat (Name := Name) (Lvl := Lvl) c A q R Rm O B).A = A := rfl
theorem q_eq (R Rm : sProp 𝕄) : (dat (Name := Name) (Lvl := Lvl) c A q R Rm O B).q = q := rfl
theorem owed_eq (R Rm : sProp 𝕄) (t : Fin (cfg6.N + 1)) : (dat (Name := Name) (Lvl := Lvl) c A q R Rm O B).owed t = O := rfl
theorem recorded_eq (R Rm : sProp 𝕄) (t : Fin (cfg6.N + 1)) : (dat (Name := Name) (Lvl := Lvl) c A q R Rm O B).recorded t = B := rfl

end Facts

/-! ## The obligation -/

/-- The body at the first point t of a pair: the accumulator is taken out of R, set to the point's sum, and kept with Rm;
    the output block is not touched. -/
theorem at_even (𝒱₀ : Variants) (ι : Ix) (c : Dev nD) (A : (w : Fin cfg6.W) → Buf (Elt F) ((cfg6.win w).arr.view.loc (c.tc : Thread nD τ)))
    (q : Fin cfg6.W → PosShare TreeShare) (R Rm : sProp 𝕄) (O : CellTallies nD τ sig Ix) (B : Set (SemLoc sig × Ix))
    (hsplit : R ⊢ iprop(Rm ∗ ∃ d, owns (c : Thread nD τ) accRef fullShare d)) (t : Fin cfg6.N) (h : t.val % 2 = 0) :
    iprop((dat c A q R Rm O B).Φ t.castSucc ∗ (dat c A q R Rm O B).owesAt ι t.castSucc
        ∗ (∃ d, owns (c : Thread nD τ) (st6_0 t) fullShare ((dat c A q R Rm O B).before 0 t d))
        ∗ (∃ d, owns (c : Thread nD τ) (st6_1 t) fullShare ((dat c A q R Rm O B).before 1 t d))
        ∗ (∃ d, owns (c : Thread nD τ) (st6_2 t) fullShare ((dat c A q R Rm O B).before 2 t d))
        ∗ (∃ d, owns (c : Thread nD τ) (st6_3 t) fullShare ((dat c A q R Rm O B).before 3 t d))
        ∗ (∃ d, owns (c : Thread nD τ) (st6_4 t) fullShare ((dat c A q R Rm O B).before 4 t d))
        ∗ (∃ d, owns (c : Thread nD τ) (st6_5 t) fullShare ((dat c A q R Rm O B).before 5 t d))
        ∗ (∃ d, owns (c : Thread nD τ) (st6_6 t) fullShare ((dat c A q R Rm O B).before 6 t d))
        ∗ (∃ d, owns (c : Thread nD τ) (st6_7 t) fullShare ((dat c A q R Rm O B).before 7 t d)))
      ⊢ wp frame (wpE (defs₀ (F := F)) 𝒱₀ c none) Set.univ (bodyAt6 t) fun _ =>
          iprop((dat c A q R Rm O B).Φ t.succ ∗ (dat c A q R Rm O B).owesAt ι t.succ
            ∗ owns (c : Thread nD τ) (st6_0 t) fullShare ((dat c A q R Rm O B).after 0 t)
            ∗ owns (c : Thread nD τ) (st6_1 t) fullShare ((dat c A q R Rm O B).after 1 t)
            ∗ owns (c : Thread nD τ) (st6_2 t) fullShare ((dat c A q R Rm O B).after 2 t)
            ∗ owns (c : Thread nD τ) (st6_3 t) fullShare ((dat c A q R Rm O B).after 3 t)
            ∗ owns (c : Thread nD τ) (st6_4 t) fullShare ((dat c A q R Rm O B).after 4 t)
            ∗ owns (c : Thread nD τ) (st6_5 t) fullShare ((dat c A q R Rm O B).after 5 t)
            ∗ owns (c : Thread nD τ) (st6_6 t) fullShare ((dat c A q R Rm O B).after 6 t)
            ∗ (∃ d, owns (c : Thread nD τ) (st6_7 t) fullShare ((dat c A q R Rm O B).before 7 t d))) := by
  simp only [before_in0, before_in1, before_in2, before_in3, before_in4, before_in5, before_in6]
  rw [inv_first c A q O B R Rm t h, inv_mid c A q O B R Rm t h,
    show (dat c A q R Rm O B).owesAt ι t.succ = (dat c A q R Rm O B).owesAt ι t.castSucc from rfl,
    after_in0, after_in1, after_in2, after_in3, after_in4, after_in5, after_in6]
  iintro ⟨HR, HO, ⟨%d0, H0⟩, ⟨%d1, H1⟩, ⟨%d2, H2⟩, ⟨%d3, H3⟩, ⟨%d4, H4⟩, ⟨%d5, H5⟩, ⟨%d6, H6⟩, ⟨%d7, H7⟩⟩
  ihave HR' := hsplit $$ HR
  icases HR' with ⟨HRm, Hacc⟩
  iapply (body_run0 𝒱₀ c Set.univ (grid6.coords t) ((coord1 t).trans h) _ _ _ _ _ _ _ _ _ _ _ _ _ _ _ _ _ _
    (blockAt c A 0 t) (blockAt c A 1 t) (blockAt c A 2 t) (blockAt c A 3 t) (blockAt c A 4 t) (blockAt c A 5 t) (blockAt c A 6 t)
    ((dat c A q R Rm O B).before 7 t d7) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hacc]; · iexact Hacc
  iintro ⟨H0, H1, H2, H3, H4, H5, H6, H7, Hacc⟩
  isplitl [HRm Hacc]
  · isplitl [HRm]; · iexact HRm
    iexact Hacc
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexists d7; iexact H7

/-- The body at the second point t of a pair: the accumulator, at the first point's sum, gets this point's sum added
    and is copied to the output block; it goes back into R at contents no longer named. -/
theorem at_odd (𝒱₀ : Variants) (ι : Ix) (c : Dev nD) (A : (w : Fin cfg6.W) → Buf (Elt F) ((cfg6.win w).arr.view.loc (c.tc : Thread nD τ)))
    (q : Fin cfg6.W → PosShare TreeShare) (R Rm : sProp 𝕄) (O : CellTallies nD τ sig Ix) (B : Set (SemLoc sig × Ix))
    (hjoin : iprop(Rm ∗ ∃ d, owns (c : Thread nD τ) accRef fullShare d) ⊢ R) (t : Fin cfg6.N) (h : t.val % 2 = 1) :
    iprop((dat c A q R Rm O B).Φ t.castSucc ∗ (dat c A q R Rm O B).owesAt ι t.castSucc
        ∗ (∃ d, owns (c : Thread nD τ) (st6_0 t) fullShare ((dat c A q R Rm O B).before 0 t d))
        ∗ (∃ d, owns (c : Thread nD τ) (st6_1 t) fullShare ((dat c A q R Rm O B).before 1 t d))
        ∗ (∃ d, owns (c : Thread nD τ) (st6_2 t) fullShare ((dat c A q R Rm O B).before 2 t d))
        ∗ (∃ d, owns (c : Thread nD τ) (st6_3 t) fullShare ((dat c A q R Rm O B).before 3 t d))
        ∗ (∃ d, owns (c : Thread nD τ) (st6_4 t) fullShare ((dat c A q R Rm O B).before 4 t d))
        ∗ (∃ d, owns (c : Thread nD τ) (st6_5 t) fullShare ((dat c A q R Rm O B).before 5 t d))
        ∗ (∃ d, owns (c : Thread nD τ) (st6_6 t) fullShare ((dat c A q R Rm O B).before 6 t d))
        ∗ (∃ d, owns (c : Thread nD τ) (st6_7 t) fullShare ((dat c A q R Rm O B).before 7 t d)))
      ⊢ wp frame (wpE (defs₀ (F := F)) 𝒱₀ c none) Set.univ (bodyAt6 t) fun _ =>
          iprop((dat c A q R Rm O B).Φ t.succ ∗ (dat c A q R Rm O B).owesAt ι t.succ
            ∗ owns (c : Thread nD τ) (st6_0 t) fullShare ((dat c A q R Rm O B).after 0 t)
            ∗ owns (c : Thread nD τ) (st6_1 t) fullShare ((dat c A q R Rm O B).after 1 t)
            ∗ owns (c : Thread nD τ) (st6_2 t) fullShare ((dat c A q R Rm O B).after 2 t)
            ∗ owns (c : Thread nD τ) (st6_3 t) fullShare ((dat c A q R Rm O B).after 3 t)
            ∗ owns (c : Thread nD τ) (st6_4 t) fullShare ((dat c A q R Rm O B).after 4 t)
            ∗ owns (c : Thread nD τ) (st6_5 t) fullShare ((dat c A q R Rm O B).after 5 t)
            ∗ owns (c : Thread nD τ) (st6_6 t) fullShare ((dat c A q R Rm O B).after 6 t)
            ∗ owns (c : Thread nD τ) (st6_7 t) fullShare ((dat c A q R Rm O B).after 7 t)) := by
  simp only [before_in0, before_in1, before_in2, before_in3, before_in4, before_in5, before_in6]
  rw [inv_mid' c A q O B R Rm t h, inv_last c A q O B R Rm t h,
    show (dat c A q R Rm O B).owesAt ι t.succ = (dat c A q R Rm O B).owesAt ι t.castSucc from rfl,
    after_in0, after_in1, after_in2, after_in3, after_in4, after_in5, after_in6, after_out]
  iintro ⟨⟨HRm, Hacc⟩, HO, ⟨%d0, H0⟩, ⟨%d1, H1⟩, ⟨%d2, H2⟩, ⟨%d3, H3⟩, ⟨%d4, H4⟩, ⟨%d5, H5⟩, ⟨%d6, H6⟩, ⟨%d7, H7⟩⟩
  iapply (body_run1 𝒱₀ c Set.univ (grid6.coords t) ((coord1 t).trans h) _ _ _ _ _ _ _ _ _ _ _ _ _ _ _ _ _ _
    (blockAt c A 0 t) (blockAt c A 1 t) (blockAt c A 2 t) (blockAt c A 3 t) (blockAt c A 4 t) (blockAt c A 5 t) (blockAt c A 6 t)
    (accFirst c A (prev t)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [Hacc]; · iexact Hacc
  iintro ⟨H0, H1, H2, H3, H4, H5, H6, H7, Hacc⟩
  isplitl [HRm Hacc]
  · iapply hjoin
    isplitl [HRm]; · iexact HRm
    iexists _; iexact Hacc
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body at any point t, the eight windows written out; the output window's clause is the rule's own: what the
    window held, where it rests and is not written back; what the body leaves, elsewhere. -/
theorem at_point (𝒱₀ : Variants) (ι : Ix) (c : Dev nD) (A : (w : Fin cfg6.W) → Buf (Elt F) ((cfg6.win w).arr.view.loc (c.tc : Thread nD τ)))
    (q : Fin cfg6.W → PosShare TreeShare) (R Rm : sProp 𝕄) (O : CellTallies nD τ sig Ix) (B : Set (SemLoc sig × Ix))
    (hsplit : R ⊢ iprop(Rm ∗ ∃ d, owns (c : Thread nD τ) accRef fullShare d))
    (hjoin : iprop(Rm ∗ ∃ d, owns (c : Thread nD τ) accRef fullShare d) ⊢ R) (t : Fin cfg6.N) :
    iprop((dat c A q R Rm O B).Φ t.castSucc ∗ (dat c A q R Rm O B).owesAt ι t.castSucc
        ∗ (∃ d, owns (c : Thread nD τ) (st6_0 t) fullShare ((dat c A q R Rm O B).before 0 t d))
        ∗ (∃ d, owns (c : Thread nD τ) (st6_1 t) fullShare ((dat c A q R Rm O B).before 1 t d))
        ∗ (∃ d, owns (c : Thread nD τ) (st6_2 t) fullShare ((dat c A q R Rm O B).before 2 t d))
        ∗ (∃ d, owns (c : Thread nD τ) (st6_3 t) fullShare ((dat c A q R Rm O B).before 3 t d))
        ∗ (∃ d, owns (c : Thread nD τ) (st6_4 t) fullShare ((dat c A q R Rm O B).before 4 t d))
        ∗ (∃ d, owns (c : Thread nD τ) (st6_5 t) fullShare ((dat c A q R Rm O B).before 5 t d))
        ∗ (∃ d, owns (c : Thread nD τ) (st6_6 t) fullShare ((dat c A q R Rm O B).before 6 t d))
        ∗ (∃ d, owns (c : Thread nD τ) (st6_7 t) fullShare ((dat c A q R Rm O B).before 7 t d)))
      ⊢ wp frame (wpE (defs₀ (F := F)) 𝒱₀ c none) Set.univ (bodyAt6 t) fun _ =>
          iprop((dat c A q R Rm O B).Φ t.succ ∗ (dat c A q R Rm O B).owesAt ι t.succ
            ∗ owns (c : Thread nD τ) (st6_0 t) fullShare ((dat c A q R Rm O B).after 0 t)
            ∗ owns (c : Thread nD τ) (st6_1 t) fullShare ((dat c A q R Rm O B).after 1 t)
            ∗ owns (c : Thread nD τ) (st6_2 t) fullShare ((dat c A q R Rm O B).after 2 t)
            ∗ owns (c : Thread nD τ) (st6_3 t) fullShare ((dat c A q R Rm O B).after 3 t)
            ∗ owns (c : Thread nD τ) (st6_4 t) fullShare ((dat c A q R Rm O B).after 4 t)
            ∗ owns (c : Thread nD τ) (st6_5 t) fullShare ((dat c A q R Rm O B).after 5 t)
            ∗ owns (c : Thread nD τ) (st6_6 t) fullShare ((dat c A q R Rm O B).after 6 t)
            ∗ (match cfg6.idle 7 (cfg6.grid.coords t) with
              | true =>
                match (cfg6.win 7).flush t with
                | false => iprop(∃ d, owns (c : Thread nD τ) (st6_7 t) fullShare ((dat c A q R Rm O B).before 7 t d))
                | true => owns (c : Thread nD τ) (st6_7 t) fullShare ((dat c A q R Rm O B).after 7 t)
              | false => owns (c : Thread nD τ) (st6_7 t) fullShare ((dat c A q R Rm O B).after 7 t))) := by
  rcases Nat.mod_two_eq_zero_or_one t.val with h | h
  · have e1 : cfg6.idle 7 (cfg6.grid.coords t) = true := by rw [idle7 t]; exact decide_eq_true h
    have e2 : (cfg6.win 7).flush t = false := by rw [flush7 t]; exact decide_eq_false (by omega)
    rw [e1, e2]
    exact at_even 𝒱₀ ι c A q R Rm O B hsplit t h
  · have e1 : cfg6.idle 7 (cfg6.grid.coords t) = false := by rw [idle7 t]; exact decide_eq_false (by omega)
    rw [e1]
    exact at_odd 𝒱₀ ι c A q R Rm O B hjoin t h

/-- The region rule's hypothesis about the body, at every point of the grid, given that the accumulator can be taken out of
    R and put back. -/
theorem body_obligation (𝒱₀ : Variants) (ι : Ix) (c : Dev nD) (A : (w : Fin cfg6.W) → Buf (Elt F) ((cfg6.win w).arr.view.loc (c.tc : Thread nD τ)))
    (q : Fin cfg6.W → PosShare TreeShare) (R Rm : sProp 𝕄) (O : CellTallies nD τ sig Ix) (B : Set (SemLoc sig × Ix))
    (hsplit : R ⊢ iprop(Rm ∗ ∃ d, owns (c : Thread nD τ) accRef fullShare d))
    (hjoin : iprop(Rm ∗ ∃ d, owns (c : Thread nD τ) accRef fullShare d) ⊢ R) :
    BodyObligation (dat c A q R Rm O B) (defs₀ (F := F)) 𝒱₀ ι Set.univ := fun t => by
  rw [bigSep_W6, bigSep_W6]
  exact at_point 𝒱₀ ι c A q R Rm O B hsplit hjoin t

end Cert.KernelIdeal.Region3B

end
-- ==== Proof.Region3Data.lean ====
/-
  The first fused region as a segment of @main: its proof data for a segment, read off the valuation the region is
  entered at, meets what a segment asks — the arrays' entry contents are the valuation's, full shares, the tallies and
  the bound of the handshake state at every point, and an invariant that is the scoped rest at every even point, in
  particular at the first and at the last (the accumulator, one of the scoped rest's buffers, is named apart only
  between the two halves of a row of the grid) — and the body's proof is the body file's.
-/
import proofs.«215235_g2774548873965_cont_9to1_572_34_alg».proof.Proof.ScRegion
import proofs.«215235_g2774548873965_cont_9to1_572_34_alg».proof.Proof.Region3Body
import proofs.«215235_g2774548873965_cont_9to1_572_34_alg».proof.Proof.Region1Rest

noncomputable section

namespace Cert.KernelIdeal.Sc

open Cert.KernelIdeal
open Idealize.ShloMosaic Idealize.ShloMosaic.StableHlo Idealize.ShloMosaic.TcCoe
open Idealize.ShloMosaic.SparseCore (S T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F] [∀ e, Nonempty (Elt F e)]

local notation "𝕄" => MT nD τ sig (HIx 4) (Elt F) ℕ UU ℕ

/-- The pipeline this file is about. -/
abbrev pix3 : Fin 6 := 3

/-- The region's arrays at a valuation. -/
def A3 (W : Valuation τ sig (Elt F)) (c : Dev nD) (w : Fin cfg6.W) : Buf (Elt F) ((cfg6.win w).arr.view.loc (c.tc : Thread nD τ)) :=
  valOn W c (Pipeline.arrRef spec6 w)

/-- Its proof data for a segment entered before call n, at a valuation. -/
def dt3 (n : ℕ) (W : Valuation τ sig (Elt F)) (c : Dev nD) : Dat τ (Elt F) (HIx 4) ℕ UU ℕ (Pipeline.pin (pcfgs (F := F)) adm pix3) c :=
  Region3B.dat c (A3 W c) (fun _ => fullShare) (Region1B.rest3 adm c) (Region1B.restNoAcc3 c) ((K (F := F)).Otc c n) (below (F := F) c n)

/-- The grid has an even number of points. -/
theorem N3_even : (Pipeline.pin (pcfgs (F := F)) adm pix3).N % 2 = 0 := by
  show grid6.N % 2 = 0
  rw [Gen.N_6]

/-- What a segment asks of the region's proof data. (The facts about the scoped rest are matched in the proof mode, not by
    unfolding: the accumulator's split and join are restated in the body's own words first.) -/
theorem data3 (n : ℕ) : RegionData (F := F) pix3 n (dt3 n) where
  body W c := by
    have hs : (Region1B.rest3 adm c : sProp 𝕄)
        ⊢ iprop(Region1B.restNoAcc3 c ∗ ∃ d, owns (c : Thread nD τ) Region3B.accRef fullShare d) := by
      with_reducible_and_instances exact Region1B.acc_split3 adm c
    have hj : (iprop(Region1B.restNoAcc3 c ∗ ∃ d, owns (c : Thread nD τ) Region3B.accRef fullShare d) : sProp 𝕄)
        ⊢ Region1B.rest3 adm c := by
      with_reducible_and_instances exact Region1B.acc_join3 adm c
    have hb : Pipeline.BodyObligation (dt3 (F := F) n W c) (defs₀ (F := F)) Variants.none none Set.univ := by
      unfold dt3
      with_reducible_and_instances
        exact Region3B.body_obligation Variants.none none c (A3 W c) (fun _ => fullShare) (Region1B.rest3 adm c) (Region1B.restNoAcc3 c)
          ((K (F := F)).Otc c n) (below (F := F) c n) hs hj
    exact hb.loose
  arrays _ _ _ := rfl
  shares _ _ w := by unfold Pipeline.Dat.share; split <;> rfl
  owed _ _ _ := rfl
  recorded _ _ _ := rfl
  inv_first W c t ht := by
    unfold dt3
    rewrite [Region3B.Phi_even _ _ _ _ _ _ _ t (by omega), Region1B.rest3]
    iintro H; iexact H
  inv_last W c t ht := by
    unfold dt3
    rewrite [Region3B.Phi_even _ _ _ _ _ _ _ t (by rw [ht]; exact N3_even), Region1B.rest3]
    iintro H; iexact H

/-- The region, entered before call n, as a segment of @main. -/
theorem seg_region3_n (n : ℕ) : SegRegion (F := F) pix3 n (Proc.devRef .tc main_v29) := seg_region3_at n _ (data3 n)

/-- Where @main enters it. -/
theorem seg_region3 : SegRegion (F := F) pix3 3 (Proc.devRef .tc main_v29) := seg_region3_n 3

end Cert.KernelIdeal.Sc

end
-- ==== Proof.Region4Body.lean ====
/-
  A fused tensor-core region: for 8 neighbour slots j, filt_j = ssp(f_j · W₁ + b₁) · W₂ + b₂ (ssp v = log(½·exp v + ½)),
  times the cutoff-and-mask column of slot j, times the gathered rows of slot j; the eight products added. The grid
  is 8 × 2: point (b, g) stages slots 8g … 8g + 7 of batch b. The region keeps a scratch accumulator across the second
  axis: at g = 0 it is set to the point's sum, at g = 1 the point's sum is added to it and the result is copied to the
  staged output block, which is written back to rows 1024·b … of the output array.

  At a point the body reads seven staged inputs (the filters' inputs f [1,50,8,1024], the gathered rows [8192,128], the
  cutoff-and-mask columns [1,8,1024], W₁ [50,128], b₁ [1,128], W₂ [128,128], b₂ [1,128]); it leaves them unchanged.
  What it leaves in the accumulator and in the output block is written out below as pure terms of the staged inputs.
-/
import proofs.«215235_g2774548873965_cont_9to1_572_34_alg».proof.KernelIdeal
import proofs.«215235_g2774548873965_cont_9to1_572_34_alg».proof.Proof.Gen.KernelIdeal
import proofs.«215235_g2774548873965_cont_9to1_572_34_alg».proof.Proof.Gen.KernelIdeal.Skeleton
import proofs.«215235_g2774548873965_cont_9to1_572_34_alg».proof.Proof.Gen.KernelIdeal.Launch
import proofs.«215235_g2774548873965_cont_9to1_572_34_alg».proof.Proof.Gen.KernelIdeal.Points
import Idealize.ShloMosaic.Lib.Pipeline.FrameBody
import Idealize.ShloMosaic.Lib.Tactic

noncomputable section

namespace Cert.KernelIdeal.Region4B

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The rectangles the body names -/

/-- All of a [1024,128] buffer: the accumulator, the staged output block. -/
abbrev rBig : Rect S1024x128 := Rect.unit (s := S1024x128) ![0, 0] S1024x128.size inb_S1024x128_S1024x128_0_0
abbrev rW1 : Rect S50x128 := Rect.unit (s := S50x128) ![0, 0] S50x128.size inb_S50x128_S50x128_0_0
abbrev rRow : Rect S1x128 := Rect.unit (s := S1x128) ![0, 0] S1x128.size inb_S1x128_S1x128_0_0
abbrev rSq : Rect S128x128 := Rect.unit (s := S128x128) ![0, 0] S128x128.size inb_S128x128_S128x128_0_0
abbrev rCut : Rect S1x8x1024 := Rect.unit (s := S1x8x1024) ![0, 0, 0] S1x8x1024.size inb_S1x8x1024_S1x8x1024_0_0_0
/-- Slot j of the staged filter inputs. -/
abbrev rF0 : Rect S1x50x8x1024 := Rect.unit (s := S1x50x8x1024) ![0, 0, 0, 0] S1x50x1x1024.size inb_S1x50x8x1024_S1x50x1x1024_0_0_0_0
abbrev rF1 : Rect S1x50x8x1024 := Rect.unit (s := S1x50x8x1024) ![0, 0, 1, 0] S1x50x1x1024.size inb_S1x50x8x1024_S1x50x1x1024_0_0_1_0
abbrev rF2 : Rect S1x50x8x1024 := Rect.unit (s := S1x50x8x1024) ![0, 0, 2, 0] S1x50x1x1024.size inb_S1x50x8x1024_S1x50x1x1024_0_0_2_0
abbrev rF3 : Rect S1x50x8x1024 := Rect.unit (s := S1x50x8x1024) ![0, 0, 3, 0] S1x50x1x1024.size inb_S1x50x8x1024_S1x50x1x1024_0_0_3_0
abbrev rF4 : Rect S1x50x8x1024 := Rect.unit (s := S1x50x8x1024) ![0, 0, 4, 0] S1x50x1x1024.size inb_S1x50x8x1024_S1x50x1x1024_0_0_4_0
abbrev rF5 : Rect S1x50x8x1024 := Rect.unit (s := S1x50x8x1024) ![0, 0, 5, 0] S1x50x1x1024.size inb_S1x50x8x1024_S1x50x1x1024_0_0_5_0
abbrev rF6 : Rect S1x50x8x1024 := Rect.unit (s := S1x50x8x1024) ![0, 0, 6, 0] S1x50x1x1024.size inb_S1x50x8x1024_S1x50x1x1024_0_0_6_0
abbrev rF7 : Rect S1x50x8x1024 := Rect.unit (s := S1x50x8x1024) ![0, 0, 7, 0] S1x50x1x1024.size inb_S1x50x8x1024_S1x50x1x1024_0_0_7_0
/-- Slot j of the staged gathered rows: rows 1024·j … 1024·j + 1023. -/
abbrev rG0 : Rect S8192x128 := Rect.unit (s := S8192x128) ![0, 0] S1024x128.size inb_S8192x128_S1024x128_0_0
abbrev rG1 : Rect S8192x128 := Rect.unit (s := S8192x128) ![1024, 0] S1024x128.size inb_S8192x128_S1024x128_1024_0
abbrev rG2 : Rect S8192x128 := Rect.unit (s := S8192x128) ![2048, 0] S1024x128.size inb_S8192x128_S1024x128_2048_0
abbrev rG3 : Rect S8192x128 := Rect.unit (s := S8192x128) ![3072, 0] S1024x128.size inb_S8192x128_S1024x128_3072_0
abbrev rG4 : Rect S8192x128 := Rect.unit (s := S8192x128) ![4096, 0] S1024x128.size inb_S8192x128_S1024x128_4096_0
abbrev rG5 : Rect S8192x128 := Rect.unit (s := S8192x128) ![5120, 0] S1024x128.size inb_S8192x128_S1024x128_5120_0
abbrev rG6 : Rect S8192x128 := Rect.unit (s := S8192x128) ![6144, 0] S1024x128.size inb_S8192x128_S1024x128_6144_0
abbrev rG7 : Rect S8192x128 := Rect.unit (s := S8192x128) ![7168, 0] S1024x128.size inb_S8192x128_S1024x128_7168_0

/-! ## The point's sum, as the body computes it -/

/-- The seven staged inputs of a point. -/
structure Ins (F : FTy → Type) where
  f : Vec F S1x50x8x1024 .f32
  g : Vec F S8192x128 .f32
  cut : Vec F S1x8x1024 .f32
  w1 : Vec F S50x128 .f32
  b1 : Vec F S1x128 .f32
  w2 : Vec F S128x128 .f32
  b2 : Vec F S1x128 .f32

/-- The running sum after slots 0 … 6, the last slot's filter and its column, in the order the body computes them:
    each line is one of the body's named values over what was read before it. -/
def upto6 (x : Ins F) : FVec F S1024x128 .f32 × FVec F S1024x128 .f32 × FVec F S1024x128 .f32 :=
  let cw := View.ld x.cut rCut
  let w1 := View.ld x.w1 rW1
  let b1 := View.ld x.b1 rRow
  let w2 := View.ld x.w2 rSq
  let b2 := View.ld x.b2 rRow
  let v2 := k8_pay4 cw
  let v28 := k8_pay5 cw (View.ld x.f rF0) w1 b1 w2 b2 (View.ld x.g rG0)
  let v30 := k8_pay6 (View.ld x.f rF1)
  let v55 := k8_pay7 v2 v28 v30 w1 b1 w2 b2 (View.ld x.g rG1)
  let v66 := k8_pay8 (View.ld x.f rF2) w1 b1
  let v82 := k8_pay10 v2 v55 v66 (k8_pay9 (F := F)) w2 b2 (View.ld x.g rG2)
  let v102 := k8_pay11 (View.ld x.f rF3) w1 b1 w2 b2
  let v136 := k8_pay13 v2 v82 v102 (k8_pay12 v2) (View.ld x.g rG3) (View.ld x.f rF4) w1 b1 w2 b2 (View.ld x.g rG4)
  let v138 := k8_pay14 (View.ld x.f rF5)
  let v163 := k8_pay15 v2 v136 v138 w1 b1 w2 b2 (View.ld x.g rG5)
  let v174 := k8_pay16 (View.ld x.f rF6) w1 b1
  let v190 := k8_pay18 v2 v163 v174 (k8_pay17 (F := F)) w2 b2 (View.ld x.g rG6)
  (v190, k8_pay19 (View.ld x.f rF7) w1 b1 w2 b2, k8_pay20 v2)

/-- What the first point of a pair stores in the accumulator. -/
def first (x : Ins F) : FVec F S1024x128 .f32 :=
  k8_pay2 (upto6 x).1 (upto6 x).2.1 (upto6 x).2.2 (View.ld x.g rG7)

/-- What the second point of a pair stores in the accumulator, the accumulator read as acc. -/
def second (x : Ins F) (acc : Vec F S1024x128 .f32) : FVec F S1024x128 .f32 :=
  k8_pay3 (upto6 x).1 (upto6 x).2.1 (upto6 x).2.2 (View.ld x.g rG7) acc

/-- A whole [1024,128] buffer overwritten by one store of p. -/
def whole (p : FVec F S1024x128 .f32) : Vec F S1024x128 .f32 := View.canon [⟨rBig, p⟩]

theorem whole_covers (p : Vec F S1024x128 .f32) (y : S1024x128.Idx) :
    ∃ pc ∈ ([⟨rBig, p⟩] : List (View.Piece (Elt F) S1024x128 .f32)), y ∈ pc.1.set :=
  View.cover_of_tiled [⟨rBig, p⟩] S1024x128.size (by rfl) y

/-! ## The body at the first point of a pair -/

set_option maxHeartbeats 4000000 in
/-- At a point whose second coordinate is 0 the body, called on whole buffers holding the seven inputs, an output block
    and an accumulator, returns the inputs and the output block as they were and the accumulator at the point's sum. -/
theorem body_run0 (𝒱₀ : Variants) (c : Dev nD) (E : Set Name) (i : grid8.Coords) (hi : (i 1).val = 0)
    (a2 : Memref sig .tc .vmem S1x50x8x1024 .f32) (g2 : a2.IsWhole) (a3 : Memref sig .tc .vmem S8192x128 .f32) (g3 : a3.IsWhole)
    (a4 : Memref sig .tc .vmem S1x8x1024 .f32) (g4 : a4.IsWhole) (a5 : Memref sig .tc .vmem S50x128 .f32) (g5 : a5.IsWhole)
    (a6 : Memref sig .tc .vmem S1x128 .f32) (g6 : a6.IsWhole) (a7 : Memref sig .tc .vmem S128x128 .f32) (g7 : a7.IsWhole)
    (a8 : Memref sig .tc .vmem S1x128 .f32) (g8 : a8.IsWhole) (a9 : Memref sig .tc .vmem S1024x128 .f32) (g9 : a9.IsWhole)
    (a10 : Memref sig .tc .vmem S1024x128 .f32) (g10 : a10.IsWhole)
    (xf : Vec F S1x50x8x1024 .f32) (xg : Vec F S8192x128 .f32) (xc : Vec F S1x8x1024 .f32) (xw1 : Vec F S50x128 .f32)
    (xb1 : Vec F S1x128 .f32) (xw2 : Vec F S128x128 .f32) (xb2 : Vec F S1x128 .f32) (o : Vec F S1024x128 .f32) (K : PUnit → sProp 𝕄) :
    iprop(owns (c : Thread nD τ) a2 fullShare xf ∗ owns (c : Thread nD τ) a3 fullShare xg ∗ owns (c : Thread nD τ) a4 fullShare xc
        ∗ owns (c : Thread nD τ) a5 fullShare xw1 ∗ owns (c : Thread nD τ) a6 fullShare xb1 ∗ owns (c : Thread nD τ) a7 fullShare xw2
        ∗ owns (c : Thread nD τ) a8 fullShare xb2
        ∗ owns (c : Thread nD τ) a9 fullShare o ∗ (∃ d, owns (c : Thread nD τ) a10 fullShare d)
        ∗ (iprop(owns (c : Thread nD τ) a2 fullShare xf ∗ owns (c : Thread nD τ) a3 fullShare xg ∗ owns (c : Thread nD τ) a4 fullShare xc
        ∗ owns (c : Thread nD τ) a5 fullShare xw1 ∗ owns (c : Thread nD τ) a6 fullShare xb1 ∗ owns (c : Thread nD τ) a7 fullShare xw2
        ∗ owns (c : Thread nD τ) a8 fullShare xb2
              ∗ owns (c : Thread nD τ) a9 fullShare o
              ∗ owns (c : Thread nD τ) a10 fullShare (whole (first ⟨xf, xg, xc, xw1, xb1, xw2, xb2⟩))) -∗ K ⟨⟩))
      ⊢ wp frame (wpE (defs₀ (F := F)) 𝒱₀ c none) E
          (cc8__fused_kernel i a2 g2 a3 g3 a4 g4 a5 g5 a6 g6 a7 g7 a8 g8 a9 g9 a10 g10) K := by
  have h1 : Scalar.cmpi .ne (Scalar.extui (Scalar.cmpi .eq (BitVec.ofNat 32 (i 1).val) 0#32)) 0#32 = 1#1 := by rw [hi]; decide
  have h2 : ¬ Scalar.cmpi .ne (Scalar.extui (Scalar.cmpi .sgt (BitVec.ofNat 32 (i 1).val) 0#32)) 0#32 = 1#1 := by rw [hi]; decide
  have h3 : ¬ k8_cond3 i = 1#1 := by unfold k8_cond3; rw [hi]; decide
  sl_unfold [cc8__fused_kernel]
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩,
    ⟨%f9, %e9, H9⟩, ⟨%d10, %f10, -, H10⟩, Hk⟩
  subst e2 e3 e4 e5 e6 e7 e8 e9
  -- the loads, the sum (pure), the accumulator's overwrite; the other two cases are not taken
  sl_exec
  sl_step
  iapply Hk
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists f7; isplitr
    · ipureintro; rfl
    · iexact H7
  isplitl [H8]
  · iexists f8; isplitr
    · ipureintro; rfl
    · iexact H8
  isplitl [H9]
  · iexists f9; isplitr
    · ipureintro; rfl
    · iexact H9
  iexists _
  isplitr
  rotate_left
  · iexact H10
  · ipureintro
    exact View.read_writes_eq_canon _ _ _ (whole_covers (F := F) _)

set_option maxHeartbeats 4000000 in
/-- At a point whose second coordinate is 1 the body, called on whole buffers holding the seven inputs, an output block
    and the accumulator at acc, returns the inputs as they were the accumulator at acc plus the point's sum, and the
    output block at the accumulator's new contents read back whole. -/
theorem body_run1 (𝒱₀ : Variants) (c : Dev nD) (E : Set Name) (i : grid8.Coords) (hi : (i 1).val = 1)
    (a2 : Memref sig .tc .vmem S1x50x8x1024 .f32) (g2 : a2.IsWhole) (a3 : Memref sig .tc .vmem S8192x128 .f32) (g3 : a3.IsWhole)
    (a4 : Memref sig .tc .vmem S1x8x1024 .f32) (g4 : a4.IsWhole) (a5 : Memref sig .tc .vmem S50x128 .f32) (g5 : a5.IsWhole)
    (a6 : Memref sig .tc .vmem S1x128 .f32) (g6 : a6.IsWhole) (a7 : Memref sig .tc .vmem S128x128 .f32) (g7 : a7.IsWhole)
    (a8 : Memref sig .tc .vmem S1x128 .f32) (g8 : a8.IsWhole) (a9 : Memref sig .tc .vmem S1024x128 .f32) (g9 : a9.IsWhole)
    (a10 : Memref sig .tc .vmem S1024x128 .f32) (g10 : a10.IsWhole)
    (xf : Vec F S1x50x8x1024 .f32) (xg : Vec F S8192x128 .f32) (xc : Vec F S1x8x1024 .f32) (xw1 : Vec F S50x128 .f32)
    (xb1 : Vec F S1x128 .f32) (xw2 : Vec F S128x128 .f32) (xb2 : Vec F S1x128 .f32) (acc : Vec F S1024x128 .f32) (K : PUnit → sProp 𝕄) :
    iprop(owns (c : Thread nD τ) a2 fullShare xf ∗ owns (c : Thread nD τ) a3 fullShare xg ∗ owns (c : Thread nD τ) a4 fullShare xc
        ∗ owns (c : Thread nD τ) a5 fullShare xw1 ∗ owns (c : Thread nD τ) a6 fullShare xb1 ∗ owns (c : Thread nD τ) a7 fullShare xw2
        ∗ owns (c : Thread nD τ) a8 fullShare xb2
        ∗ (∃ d, owns (c : Thread nD τ) a9 fullShare d) ∗ owns (c : Thread nD τ) a10 fullShare acc
        ∗ (iprop(owns (c : Thread nD τ) a2 fullShare xf ∗ owns (c : Thread nD τ) a3 fullShare xg ∗ owns (c : Thread nD τ) a4 fullShare xc
        ∗ owns (c : Thread nD τ) a5 fullShare xw1 ∗ owns (c : Thread nD τ) a6 fullShare xb1 ∗ owns (c : Thread nD τ) a7 fullShare xw2
        ∗ owns (c : Thread nD τ) a8 fullShare xb2
              ∗ owns (c : Thread nD τ) a9 fullShare (whole (View.ld (whole (second ⟨xf, xg, xc, xw1, xb1, xw2, xb2⟩ (View.ld acc rBig))) rBig))
              ∗ owns (c : Thread nD τ) a10 fullShare (whole (second ⟨xf, xg, xc, xw1, xb1, xw2, xb2⟩ (View.ld acc rBig)))) -∗ K ⟨⟩))
      ⊢ wp frame (wpE (defs₀ (F := F)) 𝒱₀ c none) E
          (cc8__fused_kernel i a2 g2 a3 g3 a4 g4 a5 g5 a6 g6 a7 g7 a8 g8 a9 g9 a10 g10) K := by
  have h1 : ¬ Scalar.cmpi .ne (Scalar.extui (Scalar.cmpi .eq (BitVec.ofNat 32 (i 1).val) 0#32)) 0#32 = 1#1 := by rw [hi]; decide
  have h2 : Scalar.cmpi .ne (Scalar.extui (Scalar.cmpi .sgt (BitVec.ofNat 32 (i 1).val) 0#32)) 0#32 = 1#1 := by rw [hi]; decide
  have h3 : k8_cond3 i = 1#1 := by unfold k8_cond3; rw [hi]; decide
  sl_unfold [cc8__fused_kernel]
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩,
    ⟨%d9, %f9, -, H9⟩, ⟨%f10, %e10, H10⟩, Hk⟩
  subst e2 e3 e4 e5 e6 e7 e8 e10
  -- the loads, the sum (pure), the accumulator read, added to and overwritten, then copied to the output block
  sl_exec
  sl_step
  iapply Hk
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists f7; isplitr
    · ipureintro; rfl
    · iexact H7
  isplitl [H8]
  · iexists f8; isplitr
    · ipureintro; rfl
    · iexact H8
  isplitl [H9]
  · iexists _
    isplitr
    rotate_left
    · iexact H9
    · ipureintro
      -- the output block's one store is of the accumulator read back, whole, after its own overwrite
      rw [View.read_writes_eq_canon _ _ _ (whole_covers (F := F) _)]
      exact congrArg (fun p => View.canon [(⟨rBig, p⟩ : View.Piece (Elt F) S1024x128 .f32)])
        (View.readCov_eq_canon_ld _ _ rBig (whole_covers (F := F) _))
  iexists _
  isplitr
  rotate_left
  · iexact H10
  · ipureintro
    exact View.read_writes_eq_canon _ _ _ (whole_covers (F := F) _)

/-! ## The proof data -/

/-- Window w's block at point t, read off the array's contents at the region's entry. -/
def blockAt (c : Dev nD) (A : (w : Fin cfg8.W) → Buf (Elt F) ((cfg8.win w).arr.view.loc (c.tc : Thread nD τ)))
    (w : Fin cfg8.W) (t : Fin cfg8.N) : ((cfg8.win w).xblock (cfg8.grid.coords t)).Idx → Elt F (cfg8.win w).elt :=
  ((cfg8.win w).blk t).view.read (Elt F) (A w)

/-- The seven staged inputs of point t. -/
def insAt (c : Dev nD) (A : (w : Fin cfg8.W) → Buf (Elt F) ((cfg8.win w).arr.view.loc (c.tc : Thread nD τ))) (t : Fin cfg8.N) : Ins F :=
  ⟨blockAt c A 0 t, blockAt c A 1 t, blockAt c A 2 t, blockAt c A 3 t, blockAt c A 4 t, blockAt c A 5 t, blockAt c A 6 t⟩

/-- The point before t (t itself at the first point, where it is not used). -/
def prev (t : Fin cfg8.N) : Fin cfg8.N := ⟨t.val - 1, Nat.lt_of_le_of_lt (Nat.sub_le _ _) t.isLt⟩

/-- The accumulator after the first point of a pair: that point's sum. -/
def accFirst (c : Dev nD) (A : (w : Fin cfg8.W) → Buf (Elt F) ((cfg8.win w).arr.view.loc (c.tc : Thread nD τ))) (t : Fin cfg8.N) :
    Vec F S1024x128 .f32 := whole (first (insAt c A t))

/-- The accumulator after the second point t of a pair: the first point's sum plus this point's. -/
def accSecond (c : Dev nD) (A : (w : Fin cfg8.W) → Buf (Elt F) ((cfg8.win w).arr.view.loc (c.tc : Thread nD τ))) (t : Fin cfg8.N) :
    Vec F S1024x128 .f32 := whole (second (insAt c A t) (View.ld (accFirst c A (prev t)) rBig))

/-- The accumulator, as a whole buffer of the core. -/
abbrev accRef : Memref sig .tc .vmem S1024x128 .f32 := Memref.whole cc8_scratch0

/-- The region's proof data on core c: entry contents A of the eight arrays, shares q, the tallies O and the bound B as
    they are throughout. The invariant is R before the first point of a pair (R: what the core holds besides the
    windows, the accumulator among it at contents nobody names) and, between the two points of a pair, Rm (the same
    without the accumulator) with the accumulator at the first point's sum. The body leaves each input at its block;
    at the second point of a pair it leaves the output block at the accumulator read back. -/
def dat (c : Dev nD) (A : (w : Fin cfg8.W) → Buf (Elt F) ((cfg8.win w).arr.view.loc (c.tc : Thread nD τ)))
    (q : Fin cfg8.W → PosShare TreeShare) (R Rm : sProp 𝕄) (O : CellTallies nD τ sig Ix) (B : Set (SemLoc sig × Ix)) :
    Dat τ (Elt F) Ix Name U Lvl cfg8 c where
  A := A
  after w t := match w with
    | ⟨0, _⟩ => blockAt c A 0 t
    | ⟨1, _⟩ => blockAt c A 1 t
    | ⟨2, _⟩ => blockAt c A 2 t
    | ⟨3, _⟩ => blockAt c A 3 t
    | ⟨4, _⟩ => blockAt c A 4 t
    | ⟨5, _⟩ => blockAt c A 5 t
    | ⟨6, _⟩ => blockAt c A 6 t
    | ⟨7, _⟩ => whole (View.ld (accSecond c A t) rBig)
  Φ t := if h : t.val % 2 = 1 then
      iprop(Rm ∗ owns (c : Thread nD τ) accRef fullShare (accFirst c A ⟨t.val - 1, by have := t.isLt; omega⟩))
    else R
  q := q
  owed _ := O
  recorded _ := B

/-! ## What the proof data says -/

/-- The second grid coordinate of point t is t modulo 2. -/
theorem coord1 : ∀ t : Fin grid8.N, ((grid8.coords t) 1).val = t.val % 2 := by decide +kernel

/-- The output window rests (is neither stored to nor written back) exactly at the first point of a pair. -/
theorem idle7 : ∀ t : Fin grid8.N, cfg8.idle 7 (cfg8.grid.coords t) = decide (t.val % 2 = 0) := by decide +kernel
theorem flush7 : ∀ t : Fin grid8.N, (cfg8.win 7).flush t = decide (t.val % 2 = 1) := by decide +kernel

section Facts

variable (c : Dev nD) (A : (w : Fin cfg8.W) → Buf (Elt F) ((cfg8.win w).arr.view.loc (c.tc : Thread nD τ)))
  (q : Fin cfg8.W → PosShare TreeShare) (O : CellTallies nD τ sig Ix) (B : Set (SemLoc sig × Ix))

theorem after_in0 (R Rm : sProp 𝕄) (t : Fin cfg8.N) : (dat (Name := Name) (Lvl := Lvl) c A q R Rm O B).after 0 t = blockAt c A 0 t := by dsimp only [dat]
theorem after_in1 (R Rm : sProp 𝕄) (t : Fin cfg8.N) : (dat (Name := Name) (Lvl := Lvl) c A q R Rm O B).after 1 t = blockAt c A 1 t := by dsimp only [dat]
theorem after_in2 (R Rm : sProp 𝕄) (t : Fin cfg8.N) : (dat (Name := Name) (Lvl := Lvl) c A q R Rm O B).after 2 t = blockAt c A 2 t := by dsimp only [dat]
theorem after_in3 (R Rm : sProp 𝕄) (t : Fin cfg8.N) : (dat (Name := Name) (Lvl := Lvl) c A q R Rm O B).after 3 t = blockAt c A 3 t := by dsimp only [dat]
theorem after_in4 (R Rm : sProp 𝕄) (t : Fin cfg8.N) : (dat (Name := Name) (Lvl := Lvl) c A q R Rm O B).after 4 t = blockAt c A 4 t := by dsimp only [dat]
theorem after_in5 (R Rm : sProp 𝕄) (t : Fin cfg8.N) : (dat (Name := Name) (Lvl := Lvl) c A q R Rm O B).after 5 t = blockAt c A 5 t := by dsimp only [dat]
theorem after_in6 (R Rm : sProp 𝕄) (t : Fin cfg8.N) : (dat (Name := Name) (Lvl := Lvl) c A q R Rm O B).after 6 t = blockAt c A 6 t := by dsimp only [dat]
theorem after_out (R Rm : sProp 𝕄) (t : Fin cfg8.N) : (dat (Name := Name) (Lvl := Lvl) c A q R Rm O B).after 7 t = whole (View.ld (accSecond c A t) rBig) := by dsimp only [dat]

theorem before_in0 (R Rm : sProp 𝕄) (t : Fin cfg8.N) (d) : (dat (Name := Name) (Lvl := Lvl) c A q R Rm O B).before 0 t d = blockAt c A 0 t :=
  ((dat (Name := Name) (Lvl := Lvl) c A q R Rm O B).before_in_eq_fetched 0 rfl (fun _ => rfl) (fun _ _ _ => rfl) (fun u => by rw [after_in0]; rfl) t d).trans rfl
theorem before_in1 (R Rm : sProp 𝕄) (t : Fin cfg8.N) (d) : (dat (Name := Name) (Lvl := Lvl) c A q R Rm O B).before 1 t d = blockAt c A 1 t :=
  ((dat (Name := Name) (Lvl := Lvl) c A q R Rm O B).before_in_eq_fetched 1 rfl (fun _ => rfl) (fun _ _ _ => rfl) (fun u => by rw [after_in1]; rfl) t d).trans rfl
theorem before_in2 (R Rm : sProp 𝕄) (t : Fin cfg8.N) (d) : (dat (Name := Name) (Lvl := Lvl) c A q R Rm O B).before 2 t d = blockAt c A 2 t :=
  ((dat (Name := Name) (Lvl := Lvl) c A q R Rm O B).before_in_eq_fetched 2 rfl (fun _ => rfl) (fun _ _ _ => rfl) (fun u => by rw [after_in2]; rfl) t d).trans rfl
theorem before_in3 (R Rm : sProp 𝕄) (t : Fin cfg8.N) (d) : (dat (Name := Name) (Lvl := Lvl) c A q R Rm O B).before 3 t d = blockAt c A 3 t :=
  ((dat (Name := Name) (Lvl := Lvl) c A q R Rm O B).before_in_eq_fetched 3 rfl (fun _ => rfl) (fun _ _ _ => rfl) (fun u => by rw [after_in3]; rfl) t d).trans rfl
theorem before_in4 (R Rm : sProp 𝕄) (t : Fin cfg8.N) (d) : (dat (Name := Name) (Lvl := Lvl) c A q R Rm O B).before 4 t d = blockAt c A 4 t :=
  ((dat (Name := Name) (Lvl := Lvl) c A q R Rm O B).before_in_eq_fetched 4 rfl (fun _ => rfl) (fun _ _ _ => rfl) (fun u => by rw [after_in4]; rfl) t d).trans rfl
theorem before_in5 (R Rm : sProp 𝕄) (t : Fin cfg8.N) (d) : (dat (Name := Name) (Lvl := Lvl) c A q R Rm O B).before 5 t d = blockAt c A 5 t :=
  ((dat (Name := Name) (Lvl := Lvl) c A q R Rm O B).before_in_eq_fetched 5 rfl (fun _ => rfl) (fun _ _ _ => rfl) (fun u => by rw [after_in5]; rfl) t d).trans rfl
theorem before_in6 (R Rm : sProp 𝕄) (t : Fin cfg8.N) (d) : (dat (Name := Name) (Lvl := Lvl) c A q R Rm O B).before 6 t d = blockAt c A 6 t :=
  ((dat (Name := Name) (Lvl := Lvl) c A q R Rm O B).before_in_eq_fetched 6 rfl (fun _ => rfl) (fun _ _ _ => rfl) (fun u => by rw [after_in6]; rfl) t d).trans rfl

/-- Before the first point of a pair the invariant is R; -/
theorem inv_first (R Rm : sProp 𝕄) (t : Fin cfg8.N) (h : t.val % 2 = 0) : (dat (Name := Name) (Lvl := Lvl) c A q R Rm O B).Φ t.castSucc = R := by
  have h' : ¬ (t.castSucc : Fin (cfg8.N + 1)).val % 2 = 1 := by rw [Fin.val_castSucc]; omega
  dsimp only [dat]
  rw [dif_neg h']

/-- after it, Rm and the accumulator at the point's sum; -/
theorem inv_mid (R Rm : sProp 𝕄) (t : Fin cfg8.N) (h : t.val % 2 = 0) :
    (dat (Name := Name) (Lvl := Lvl) c A q R Rm O B).Φ t.succ = iprop(Rm ∗ owns (c : Thread nD τ) accRef fullShare (accFirst c A t)) := by
  have h' : (t.succ : Fin (cfg8.N + 1)).val % 2 = 1 := by rw [Fin.val_succ]; omega
  dsimp only [dat]
  rw [dif_pos h']
  rfl

/-- the same before the second point of a pair, -/
theorem inv_mid' (R Rm : sProp 𝕄) (t : Fin cfg8.N) (h : t.val % 2 = 1) :
    (dat (Name := Name) (Lvl := Lvl) c A q R Rm O B).Φ t.castSucc = iprop(Rm ∗ owns (c : Thread nD τ) accRef fullShare (accFirst c A (prev t))) := by
  have h' : (t.castSucc : Fin (cfg8.N + 1)).val % 2 = 1 := by rw [Fin.val_castSucc]; exact h
  dsimp only [dat]
  rw [dif_pos h']
  rfl

/-- and R again after it. -/
theorem inv_last (R Rm : sProp 𝕄) (t : Fin cfg8.N) (h : t.val % 2 = 1) : (dat (Name := Name) (Lvl := Lvl) c A q R Rm O B).Φ t.succ = R := by
  have h' : ¬ (t.succ : Fin (cfg8.N + 1)).val % 2 = 1 := by rw [Fin.val_succ]; omega
  dsimp only [dat]
  rw [dif_neg h']

/-- At an even position (before the first point of a pair, after the second, at the region's two ends) the invariant
    is R, -/
theorem Phi_even (R Rm : sProp 𝕄) (t : Fin (cfg8.N + 1)) (ht : t.val % 2 = 0) : (dat (Name := Name) (Lvl := Lvl) c A q R Rm O B).Φ t = R := by
  have h' : ¬ t.val % 2 = 1 := by omega
  dsimp only [dat]
  rw [dif_neg h']

/-- at an odd one, Rm with the accumulator at the sum of the point just run. -/
theorem Phi_odd (R Rm : sProp 𝕄) (t : Fin (cfg8.N + 1)) (ht : t.val % 2 = 1) :
    (dat (Name := Name) (Lvl := Lvl) c A q R Rm O B).Φ t = iprop(Rm ∗ owns (c : Thread nD τ) accRef fullShare (accFirst c A ⟨t.val - 1, by have := t.isLt; omega⟩)) := by
  dsimp only [dat]
  rw [dif_pos ht]

theorem A_eq (R Rm : sProp 𝕄) : (dat (Name := Name) (Lvl := Lvl) c A q R Rm O B).A = A := rfl
theorem q_eq (R Rm : sProp 𝕄) : (dat (Name := Name) (Lvl := Lvl) c A q R Rm O B).q = q := rfl
theorem owed_eq (R Rm : sProp 𝕄) (t : Fin (cfg8.N + 1)) : (dat (Name := Name) (Lvl := Lvl) c A q R Rm O B).owed t = O := rfl
theorem recorded_eq (R Rm : sProp 𝕄) (t : Fin (cfg8.N + 1)) : (dat (Name := Name) (Lvl := Lvl) c A q R Rm O B).recorded t = B := rfl

end Facts

/-! ## The obligation -/

/-- The body at the first point t of a pair: the accumulator is taken out of R, set to the point's sum, and kept with Rm;
    the output block is not touched. -/
theorem at_even (𝒱₀ : Variants) (ι : Ix) (c : Dev nD) (A : (w : Fin cfg8.W) → Buf (Elt F) ((cfg8.win w).arr.view.loc (c.tc : Thread nD τ)))
    (q : Fin cfg8.W → PosShare TreeShare) (R Rm : sProp 𝕄) (O : CellTallies nD τ sig Ix) (B : Set (SemLoc sig × Ix))
    (hsplit : R ⊢ iprop(Rm ∗ ∃ d, owns (c : Thread nD τ) accRef fullShare d)) (t : Fin cfg8.N) (h : t.val % 2 = 0) :
    iprop((dat c A q R Rm O B).Φ t.castSucc ∗ (dat c A q R Rm O B).owesAt ι t.castSucc
        ∗ (∃ d, owns (c : Thread nD τ) (st8_0 t) fullShare ((dat c A q R Rm O B).before 0 t d))
        ∗ (∃ d, owns (c : Thread nD τ) (st8_1 t) fullShare ((dat c A q R Rm O B).before 1 t d))
        ∗ (∃ d, owns (c : Thread nD τ) (st8_2 t) fullShare ((dat c A q R Rm O B).before 2 t d))
        ∗ (∃ d, owns (c : Thread nD τ) (st8_3 t) fullShare ((dat c A q R Rm O B).before 3 t d))
        ∗ (∃ d, owns (c : Thread nD τ) (st8_4 t) fullShare ((dat c A q R Rm O B).before 4 t d))
        ∗ (∃ d, owns (c : Thread nD τ) (st8_5 t) fullShare ((dat c A q R Rm O B).before 5 t d))
        ∗ (∃ d, owns (c : Thread nD τ) (st8_6 t) fullShare ((dat c A q R Rm O B).before 6 t d))
        ∗ (∃ d, owns (c : Thread nD τ) (st8_7 t) fullShare ((dat c A q R Rm O B).before 7 t d)))
      ⊢ wp frame (wpE (defs₀ (F := F)) 𝒱₀ c none) Set.univ (bodyAt8 t) fun _ =>
          iprop((dat c A q R Rm O B).Φ t.succ ∗ (dat c A q R Rm O B).owesAt ι t.succ
            ∗ owns (c : Thread nD τ) (st8_0 t) fullShare ((dat c A q R Rm O B).after 0 t)
            ∗ owns (c : Thread nD τ) (st8_1 t) fullShare ((dat c A q R Rm O B).after 1 t)
            ∗ owns (c : Thread nD τ) (st8_2 t) fullShare ((dat c A q R Rm O B).after 2 t)
            ∗ owns (c : Thread nD τ) (st8_3 t) fullShare ((dat c A q R Rm O B).after 3 t)
            ∗ owns (c : Thread nD τ) (st8_4 t) fullShare ((dat c A q R Rm O B).after 4 t)
            ∗ owns (c : Thread nD τ) (st8_5 t) fullShare ((dat c A q R Rm O B).after 5 t)
            ∗ owns (c : Thread nD τ) (st8_6 t) fullShare ((dat c A q R Rm O B).after 6 t)
            ∗ (∃ d, owns (c : Thread nD τ) (st8_7 t) fullShare ((dat c A q R Rm O B).before 7 t d))) := by
  simp only [before_in0, before_in1, before_in2, before_in3, before_in4, before_in5, before_in6]
  rw [inv_first c A q O B R Rm t h, inv_mid c A q O B R Rm t h,
    show (dat c A q R Rm O B).owesAt ι t.succ = (dat c A q R Rm O B).owesAt ι t.castSucc from rfl,
    after_in0, after_in1, after_in2, after_in3, after_in4, after_in5, after_in6]
  iintro ⟨HR, HO, ⟨%d0, H0⟩, ⟨%d1, H1⟩, ⟨%d2, H2⟩, ⟨%d3, H3⟩, ⟨%d4, H4⟩, ⟨%d5, H5⟩, ⟨%d6, H6⟩, ⟨%d7, H7⟩⟩
  ihave HR' := hsplit $$ HR
  icases HR' with ⟨HRm, Hacc⟩
  iapply (body_run0 𝒱₀ c Set.univ (grid8.coords t) ((coord1 t).trans h) _ _ _ _ _ _ _ _ _ _ _ _ _ _ _ _ _ _
    (blockAt c A 0 t) (blockAt c A 1 t) (blockAt c A 2 t) (blockAt c A 3 t) (blockAt c A 4 t) (blockAt c A 5 t) (blockAt c A 6 t)
    ((dat c A q R Rm O B).before 7 t d7) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hacc]; · iexact Hacc
  iintro ⟨H0, H1, H2, H3, H4, H5, H6, H7, Hacc⟩
  isplitl [HRm Hacc]
  · isplitl [HRm]; · iexact HRm
    iexact Hacc
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexists d7; iexact H7

/-- The body at the second point t of a pair: the accumulator, at the first point's sum, gets this point's sum added
    and is copied to the output block; it goes back into R at contents no longer named. -/
theorem at_odd (𝒱₀ : Variants) (ι : Ix) (c : Dev nD) (A : (w : Fin cfg8.W) → Buf (Elt F) ((cfg8.win w).arr.view.loc (c.tc : Thread nD τ)))
    (q : Fin cfg8.W → PosShare TreeShare) (R Rm : sProp 𝕄) (O : CellTallies nD τ sig Ix) (B : Set (SemLoc sig × Ix))
    (hjoin : iprop(Rm ∗ ∃ d, owns (c : Thread nD τ) accRef fullShare d) ⊢ R) (t : Fin cfg8.N) (h : t.val % 2 = 1) :
    iprop((dat c A q R Rm O B).Φ t.castSucc ∗ (dat c A q R Rm O B).owesAt ι t.castSucc
        ∗ (∃ d, owns (c : Thread nD τ) (st8_0 t) fullShare ((dat c A q R Rm O B).before 0 t d))
        ∗ (∃ d, owns (c : Thread nD τ) (st8_1 t) fullShare ((dat c A q R Rm O B).before 1 t d))
        ∗ (∃ d, owns (c : Thread nD τ) (st8_2 t) fullShare ((dat c A q R Rm O B).before 2 t d))
        ∗ (∃ d, owns (c : Thread nD τ) (st8_3 t) fullShare ((dat c A q R Rm O B).before 3 t d))
        ∗ (∃ d, owns (c : Thread nD τ) (st8_4 t) fullShare ((dat c A q R Rm O B).before 4 t d))
        ∗ (∃ d, owns (c : Thread nD τ) (st8_5 t) fullShare ((dat c A q R Rm O B).before 5 t d))
        ∗ (∃ d, owns (c : Thread nD τ) (st8_6 t) fullShare ((dat c A q R Rm O B).before 6 t d))
        ∗ (∃ d, owns (c : Thread nD τ) (st8_7 t) fullShare ((dat c A q R Rm O B).before 7 t d)))
      ⊢ wp frame (wpE (defs₀ (F := F)) 𝒱₀ c none) Set.univ (bodyAt8 t) fun _ =>
          iprop((dat c A q R Rm O B).Φ t.succ ∗ (dat c A q R Rm O B).owesAt ι t.succ
            ∗ owns (c : Thread nD τ) (st8_0 t) fullShare ((dat c A q R Rm O B).after 0 t)
            ∗ owns (c : Thread nD τ) (st8_1 t) fullShare ((dat c A q R Rm O B).after 1 t)
            ∗ owns (c : Thread nD τ) (st8_2 t) fullShare ((dat c A q R Rm O B).after 2 t)
            ∗ owns (c : Thread nD τ) (st8_3 t) fullShare ((dat c A q R Rm O B).after 3 t)
            ∗ owns (c : Thread nD τ) (st8_4 t) fullShare ((dat c A q R Rm O B).after 4 t)
            ∗ owns (c : Thread nD τ) (st8_5 t) fullShare ((dat c A q R Rm O B).after 5 t)
            ∗ owns (c : Thread nD τ) (st8_6 t) fullShare ((dat c A q R Rm O B).after 6 t)
            ∗ owns (c : Thread nD τ) (st8_7 t) fullShare ((dat c A q R Rm O B).after 7 t)) := by
  simp only [before_in0, before_in1, before_in2, before_in3, before_in4, before_in5, before_in6]
  rw [inv_mid' c A q O B R Rm t h, inv_last c A q O B R Rm t h,
    show (dat c A q R Rm O B).owesAt ι t.succ = (dat c A q R Rm O B).owesAt ι t.castSucc from rfl,
    after_in0, after_in1, after_in2, after_in3, after_in4, after_in5, after_in6, after_out]
  iintro ⟨⟨HRm, Hacc⟩, HO, ⟨%d0, H0⟩, ⟨%d1, H1⟩, ⟨%d2, H2⟩, ⟨%d3, H3⟩, ⟨%d4, H4⟩, ⟨%d5, H5⟩, ⟨%d6, H6⟩, ⟨%d7, H7⟩⟩
  iapply (body_run1 𝒱₀ c Set.univ (grid8.coords t) ((coord1 t).trans h) _ _ _ _ _ _ _ _ _ _ _ _ _ _ _ _ _ _
    (blockAt c A 0 t) (blockAt c A 1 t) (blockAt c A 2 t) (blockAt c A 3 t) (blockAt c A 4 t) (blockAt c A 5 t) (blockAt c A 6 t)
    (accFirst c A (prev t)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [Hacc]; · iexact Hacc
  iintro ⟨H0, H1, H2, H3, H4, H5, H6, H7, Hacc⟩
  isplitl [HRm Hacc]
  · iapply hjoin
    isplitl [HRm]; · iexact HRm
    iexists _; iexact Hacc
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body at any point t, the eight windows written out; the output window's clause is the rule's own: what the
    window held, where it rests and is not written back; what the body leaves, elsewhere. -/
theorem at_point (𝒱₀ : Variants) (ι : Ix) (c : Dev nD) (A : (w : Fin cfg8.W) → Buf (Elt F) ((cfg8.win w).arr.view.loc (c.tc : Thread nD τ)))
    (q : Fin cfg8.W → PosShare TreeShare) (R Rm : sProp 𝕄) (O : CellTallies nD τ sig Ix) (B : Set (SemLoc sig × Ix))
    (hsplit : R ⊢ iprop(Rm ∗ ∃ d, owns (c : Thread nD τ) accRef fullShare d))
    (hjoin : iprop(Rm ∗ ∃ d, owns (c : Thread nD τ) accRef fullShare d) ⊢ R) (t : Fin cfg8.N) :
    iprop((dat c A q R Rm O B).Φ t.castSucc ∗ (dat c A q R Rm O B).owesAt ι t.castSucc
        ∗ (∃ d, owns (c : Thread nD τ) (st8_0 t) fullShare ((dat c A q R Rm O B).before 0 t d))
        ∗ (∃ d, owns (c : Thread nD τ) (st8_1 t) fullShare ((dat c A q R Rm O B).before 1 t d))
        ∗ (∃ d, owns (c : Thread nD τ) (st8_2 t) fullShare ((dat c A q R Rm O B).before 2 t d))
        ∗ (∃ d, owns (c : Thread nD τ) (st8_3 t) fullShare ((dat c A q R Rm O B).before 3 t d))
        ∗ (∃ d, owns (c : Thread nD τ) (st8_4 t) fullShare ((dat c A q R Rm O B).before 4 t d))
        ∗ (∃ d, owns (c : Thread nD τ) (st8_5 t) fullShare ((dat c A q R Rm O B).before 5 t d))
        ∗ (∃ d, owns (c : Thread nD τ) (st8_6 t) fullShare ((dat c A q R Rm O B).before 6 t d))
        ∗ (∃ d, owns (c : Thread nD τ) (st8_7 t) fullShare ((dat c A q R Rm O B).before 7 t d)))
      ⊢ wp frame (wpE (defs₀ (F := F)) 𝒱₀ c none) Set.univ (bodyAt8 t) fun _ =>
          iprop((dat c A q R Rm O B).Φ t.succ ∗ (dat c A q R Rm O B).owesAt ι t.succ
            ∗ owns (c : Thread nD τ) (st8_0 t) fullShare ((dat c A q R Rm O B).after 0 t)
            ∗ owns (c : Thread nD τ) (st8_1 t) fullShare ((dat c A q R Rm O B).after 1 t)
            ∗ owns (c : Thread nD τ) (st8_2 t) fullShare ((dat c A q R Rm O B).after 2 t)
            ∗ owns (c : Thread nD τ) (st8_3 t) fullShare ((dat c A q R Rm O B).after 3 t)
            ∗ owns (c : Thread nD τ) (st8_4 t) fullShare ((dat c A q R Rm O B).after 4 t)
            ∗ owns (c : Thread nD τ) (st8_5 t) fullShare ((dat c A q R Rm O B).after 5 t)
            ∗ owns (c : Thread nD τ) (st8_6 t) fullShare ((dat c A q R Rm O B).after 6 t)
            ∗ (match cfg8.idle 7 (cfg8.grid.coords t) with
              | true =>
                match (cfg8.win 7).flush t with
                | false => iprop(∃ d, owns (c : Thread nD τ) (st8_7 t) fullShare ((dat c A q R Rm O B).before 7 t d))
                | true => owns (c : Thread nD τ) (st8_7 t) fullShare ((dat c A q R Rm O B).after 7 t)
              | false => owns (c : Thread nD τ) (st8_7 t) fullShare ((dat c A q R Rm O B).after 7 t))) := by
  rcases Nat.mod_two_eq_zero_or_one t.val with h | h
  · have e1 : cfg8.idle 7 (cfg8.grid.coords t) = true := by rw [idle7 t]; exact decide_eq_true h
    have e2 : (cfg8.win 7).flush t = false := by rw [flush7 t]; exact decide_eq_false (by omega)
    rw [e1, e2]
    exact at_even 𝒱₀ ι c A q R Rm O B hsplit t h
  · have e1 : cfg8.idle 7 (cfg8.grid.coords t) = false := by rw [idle7 t]; exact decide_eq_false (by omega)
    rw [e1]
    exact at_odd 𝒱₀ ι c A q R Rm O B hjoin t h

/-- The region rule's hypothesis about the body, at every point of the grid, given that the accumulator can be taken out of
    R and put back. -/
theorem body_obligation (𝒱₀ : Variants) (ι : Ix) (c : Dev nD) (A : (w : Fin cfg8.W) → Buf (Elt F) ((cfg8.win w).arr.view.loc (c.tc : Thread nD τ)))
    (q : Fin cfg8.W → PosShare TreeShare) (R Rm : sProp 𝕄) (O : CellTallies nD τ sig Ix) (B : Set (SemLoc sig × Ix))
    (hsplit : R ⊢ iprop(Rm ∗ ∃ d, owns (c : Thread nD τ) accRef fullShare d))
    (hjoin : iprop(Rm ∗ ∃ d, owns (c : Thread nD τ) accRef fullShare d) ⊢ R) :
    BodyObligation (dat c A q R Rm O B) (defs₀ (F := F)) 𝒱₀ ι Set.univ := fun t => by
  rw [bigSep_W8, bigSep_W8]
  exact at_point 𝒱₀ ι c A q R Rm O B hsplit hjoin t

end Cert.KernelIdeal.Region4B

end
-- ==== Proof.Region4Data.lean ====
/-
  The first fused region as a segment of @main: its proof data for a segment, read off the valuation the region is
  entered at, meets what a segment asks — the arrays' entry contents are the valuation's, full shares, the tallies and
  the bound of the handshake state at every point, and an invariant that is the scoped rest at every even point, in
  particular at the first and at the last (the accumulator, one of the scoped rest's buffers, is named apart only
  between the two halves of a row of the grid) — and the body's proof is the body file's.
-/
import proofs.«215235_g2774548873965_cont_9to1_572_34_alg».proof.Proof.ScRegion
import proofs.«215235_g2774548873965_cont_9to1_572_34_alg».proof.Proof.Region4Body
import proofs.«215235_g2774548873965_cont_9to1_572_34_alg».proof.Proof.Region1Rest

noncomputable section

namespace Cert.KernelIdeal.Sc

open Cert.KernelIdeal
open Idealize.ShloMosaic Idealize.ShloMosaic.StableHlo Idealize.ShloMosaic.TcCoe
open Idealize.ShloMosaic.SparseCore (S T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F] [∀ e, Nonempty (Elt F e)]

local notation "𝕄" => MT nD τ sig (HIx 4) (Elt F) ℕ UU ℕ

/-- The pipeline this file is about. -/
abbrev pix4 : Fin 6 := 4

/-- The region's arrays at a valuation. -/
def A4 (W : Valuation τ sig (Elt F)) (c : Dev nD) (w : Fin cfg8.W) : Buf (Elt F) ((cfg8.win w).arr.view.loc (c.tc : Thread nD τ)) :=
  valOn W c (Pipeline.arrRef spec8 w)

/-- Its proof data for a segment entered before call n, at a valuation. -/
def dt4 (n : ℕ) (W : Valuation τ sig (Elt F)) (c : Dev nD) : Dat τ (Elt F) (HIx 4) ℕ UU ℕ (Pipeline.pin (pcfgs (F := F)) adm pix4) c :=
  Region4B.dat c (A4 W c) (fun _ => fullShare) (Region1B.rest4 adm c) (Region1B.restNoAcc4 c) ((K (F := F)).Otc c n) (below (F := F) c n)

/-- The grid has an even number of points. -/
theorem N4_even : (Pipeline.pin (pcfgs (F := F)) adm pix4).N % 2 = 0 := by
  show grid8.N % 2 = 0
  rw [Gen.N_8]

/-- What a segment asks of the region's proof data. (The facts about the scoped rest are matched in the proof mode, not by
    unfolding: the accumulator's split and join are restated in the body's own words first.) -/
theorem data4 (n : ℕ) : RegionData (F := F) pix4 n (dt4 n) where
  body W c := by
    have hs : (Region1B.rest4 adm c : sProp 𝕄)
        ⊢ iprop(Region1B.restNoAcc4 c ∗ ∃ d, owns (c : Thread nD τ) Region4B.accRef fullShare d) := by
      with_reducible_and_instances exact Region1B.acc_split4 adm c
    have hj : (iprop(Region1B.restNoAcc4 c ∗ ∃ d, owns (c : Thread nD τ) Region4B.accRef fullShare d) : sProp 𝕄)
        ⊢ Region1B.rest4 adm c := by
      with_reducible_and_instances exact Region1B.acc_join4 adm c
    have hb : Pipeline.BodyObligation (dt4 (F := F) n W c) (defs₀ (F := F)) Variants.none none Set.univ := by
      unfold dt4
      with_reducible_and_instances
        exact Region4B.body_obligation Variants.none none c (A4 W c) (fun _ => fullShare) (Region1B.rest4 adm c) (Region1B.restNoAcc4 c)
          ((K (F := F)).Otc c n) (below (F := F) c n) hs hj
    exact hb.loose
  arrays _ _ _ := rfl
  shares _ _ w := by unfold Pipeline.Dat.share; split <;> rfl
  owed _ _ _ := rfl
  recorded _ _ _ := rfl
  inv_first W c t ht := by
    unfold dt4
    rewrite [Region4B.Phi_even _ _ _ _ _ _ _ t (by omega), Region1B.rest4]
    iintro H; iexact H
  inv_last W c t ht := by
    unfold dt4
    rewrite [Region4B.Phi_even _ _ _ _ _ _ _ t (by rw [ht]; exact N4_even), Region1B.rest4]
    iintro H; iexact H

/-- The region, entered before call n, as a segment of @main. -/
theorem seg_region4_n (n : ℕ) : SegRegion (F := F) pix4 n (Proc.devRef .tc main_v33) := seg_region4_at n _ (data4 n)

/-- Where @main enters it. -/
theorem seg_region4 : SegRegion (F := F) pix4 4 (Proc.devRef .tc main_v33) := seg_region4_n 4

end Cert.KernelIdeal.Sc

end
-- ==== Proof.ScOpen.lean ====
/-
  Everything the kernel program's frame needed for its ten launches, assembled.

  Regions 0 (y = x·W_in) and 5 (the two dense layers after the sum): body, record, and the passage from the tensor
  core's state between two lines of @main to the record's entry and back. Regions 1 to 4 (the fused filter network,
  product and partial sum over sixteen neighbour slots; a grid of 8 × 2 points, the partial sum carried across the
  second axis in a scratch accumulator that the invariant names between the two points of a pair): the same, the last
  three from the first by renaming. The four tile tasks of the gather calls, likewise the last three from the first.
-/
import proofs.«215235_g2774548873965_cont_9to1_572_34_alg».proof.Proof.ScFrame
import proofs.«215235_g2774548873965_cont_9to1_572_34_alg».proof.Proof.ScRegion
import proofs.«215235_g2774548873965_cont_9to1_572_34_alg».proof.Proof.GatherAll
import proofs.«215235_g2774548873965_cont_9to1_572_34_alg».proof.Proof.Region1Data
import proofs.«215235_g2774548873965_cont_9to1_572_34_alg».proof.Proof.Region2Data
import proofs.«215235_g2774548873965_cont_9to1_572_34_alg».proof.Proof.Region3Data
import proofs.«215235_g2774548873965_cont_9to1_572_34_alg».proof.Proof.Region4Data

noncomputable section

namespace Cert.KernelIdeal.Sc

open Cert.KernelIdeal
open Idealize.ShloMosaic

variable {F : FTy → Type} [FloatOps F] [∀ e, Nonempty (Elt F e)]

theorem owed : Owed (F := F) :=
  ⟨seg_region0, seg_region1, seg_region2, seg_region3, seg_region4, seg_region5, fun q => tileObl_all facts q⟩

end Cert.KernelIdeal.Sc

end
-- ==== Proof.ScConfigK.lean ====
/-
  The kernel program as the sparse-core launch theorem reads it: four calls, each a vector-subcore kernel on
  2 sparse cores × 16 tiles, over the body table of the six tensor-core regions. Stated for any float instance,
  so that the word-level program and the one over the extended reals are read the same way.

  The launch needs seven facts of the program's signature: the sequencer's two handshake cells are two, none of the
  four launch semaphores is scoped, no sparse core has a buffer of its own that is reassigned per task, and no call has
  a second body for the sequencer. Each is a finite check on the printed signature.
-/
import proofs.«215235_g2774548873965_cont_9to1_572_34_alg».proof.Kernel
import proofs.«215235_g2774548873965_cont_9to1_572_34_alg».proof.Proof.Gen.Kernel
import Idealize.ShloMosaic.Lib.SparseCore.Launch

noncomputable section

namespace Cert.Kernel.Sc

open Cert.Kernel Idealize.ShloMosaic Idealize.SL.Sem

variable {F : FTy → Type}

/-- The labels of the six tensor-core regions' bodies and pipelines. -/
abbrev ΛP : Labels := Pipeline.Sig Λ₀ (Fin 6) fun p => (pcfgs (F := F) p).Adm

/-- The four sparse-core calls. -/
abbrev K : SparseCore.Cfg τ sig (ΛP (F := F)) 4 := sc (F := F)

/-- The body table the sparse-core calls extend. -/
abbrev D [FloatOps F] : Defs nD τ sig (Elt F) (ΛP (F := F)) := Pipeline.defs pcfgs defs₀

theorem nCore_eq (q : Fin 4) : (K (F := F)).nCore q = 2 := by
  match q with | 0 => rfl | 1 => rfl | 2 => rfl | 3 => rfl

theorem nSub_eq (q : Fin 4) : (K (F := F)).nSub q = 16 := by
  match q with | 0 => rfl | 1 => rfl | 2 => rfl | 3 => rfl

theorem kind_eq (q : Fin 4) : (K (F := F)).kind q = Kind.scVector := by
  match q with | 0 => rfl | 1 => rfl | 2 => rfl | 3 => rfl

theorem facts : (K (F := F)).Facts where
  start_ne_taskDone := show sc_start ≠ sc_taskDone by decide
  start_unscoped := show (SemLoc.reg sc_start : SemLoc sig).isScoped .scScalar = false by decide
  taskDone_unscoped := show (SemLoc.reg sc_taskDone : SemLoc sig).isScoped .scScalar = false by decide
  go_unscoped := show (SemLoc.reg sc_go : SemLoc sig).isScoped .scVector = false by decide
  done_unscoped := show (SemLoc.reg sc_done : SemLoc sig).isScoped .tc = false by decide
  noTaskShared := show ∀ (b : DevRef τ sig) (c : Fin τ.nSC), b.owner = .sc c → sig.taskShared b.table b.idx = false by decide
  noSeq := fun _ => rfl

end Cert.Kernel.Sc

end
-- ==== Proof.ScPayK.lean ====
/-
  What the four sparse-core calls are handed and hand back.

  Call q (q = 0..3) reads the flat array y of 8192 rows, an index array of shape [32, 32, 128] and writes an output
  array of 131072 rows. Tile (c, i) of sparse core c is the w-th of 32 workers, w = 2·i + c: it reads slab w of the
  index array (32 lists of 128 row numbers), any row of y, and writes rows 4096·w … 4096·w + 4095 of the output.
  So a tile is handed: a 1/32 share of y (at contents not named: a frame needs none), its slab WITH the fact that every
  entry is a row number below 8192 (an entry out of range would leave the indexed copy, and its wait, without a step),
  and its 4096 output rows. It hands the same back, the output rows at whatever it wrote. What a core is handed is
  the product of its sixteen tiles' shares, so that splitting a core's share among its tiles is the identity, and the
  cutting of the three whole arrays into 32 pieces is done once, where @main meets the call.

  The ghost state has three parts side by side: the rounds of the six regions' staging cells, the rounds of the
  calls' four handshake cells, and the transfers' counters.
-/
import proofs.«215235_g2774548873965_cont_9to1_572_34_alg».proof.Proof.ScConfigK
import Idealize.ShloMosaic.Lib.SparseCore.Launch
import Idealize.ShloMosaic.Lib.Transfers
import Idealize.ShloMosaic.Lib.Pipeline.Kit

noncomputable section

namespace Cert.Kernel.Sc

open Cert.Kernel
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The ghost state -/

/-- The handshake cells' rounds. -/
abbrev UH : Type := URounds (GSem nD τ sig) ℕ
/-- The regions' staging cells' rounds. -/
abbrev UP : Type := UR sig nD τ
abbrev UU : Type := UP × (UH × Counters)

local notation "𝕄" => MT nD τ sig (HIx 4) (Elt F) ℕ UU ℕ

/-- The staging cells' rounds sit on the left, -/
abbrev EP : Emb UP (MT nD τ sig (HIx 4) (Elt F) ℕ UU ℕ) := embL
/-- the handshakes' on the left of the right half. -/
abbrev EH : Emb UH (MT nD τ sig (HIx 4) (Elt F) ℕ UU ℕ) := (Emb.inl : Emb UH (UH × Counters)).trans embR

/-! ## The 32 workers, their slabs, their rows, their shares of y -/

/-- Worker number of tile i of core c: subcore-major, as the kernel computes it. -/
def wid (c : Fin 2) (i : Fin 16) : Fin 32 := ⟨i.val * 2 + c.val, by omega⟩

theorem wid_injective : Function.Injective fun p : Fin 2 × Fin 16 => wid p.1 p.2 := by
  rintro ⟨c, i⟩ ⟨c', i'⟩ h
  have := congrArg Fin.val h
  simp only [wid] at this
  ext <;> simp only <;> omega

theorem slabDiv : 32 ∣ S32x32x128.size 0 := ⟨1, rfl⟩
theorem rowsDiv : 32 ∣ S131072x128.size 0 := ⟨4096, rfl⟩

/-- Slab w of the index array: its w-th [32, 128] plane. -/
abbrev slabRect (w : Fin 32) : Rect S32x32x128 := Rect.part (s := S32x32x128) (a₀ := 0) slabDiv w
/-- Worker w's 4096 rows of the output. -/
abbrev rowsRect (w : Fin 32) : Rect S131072x128 := Rect.part (s := S131072x128) (a₀ := 0) rowsDiv w

/-- A share halved n times: the k-th of 2^n equal parts, read off k's binary digits from the top. -/
def shareAt : (n : ℕ) → PosShare TreeShare → Fin (2 ^ n) → PosShare TreeShare
  | 0, q, _ => q
  | n + 1, q, k => if h : k.val < 2 ^ n then shareAt n q.left ⟨k.val, h⟩ else shareAt n q.right ⟨k.val - 2 ^ n, by have h1 := k.isLt; have h2 : 2 ^ (n + 1) = 2 ^ n * 2 := pow_succ 2 n; omega⟩

/-- Worker w's share of y. -/
abbrev ysh (w : Fin 32) : PosShare TreeShare := shareAt 5 fullShare w

abbrev yLoc (d : Dev nD) : Loc nD τ sig := (SparseCore.T d).loc main_v1

/-! ## One tile's share, per call -/

abbrev ixLoc0 (d : Dev nD) : Loc nD τ sig := (SparseCore.T d).loc main_v19
abbrev oLoc0 (d : Dev nD) : Loc nD τ sig := (SparseCore.T d).loc main_v20
/-- What worker w of call 0 holds: its share of y, its slab with every entry a row number of y, its output rows. -/
def share0 (d : Dev nD) (w : Fin 32) : sProp 𝕄 :=
  iprop((∃ fy, yLoc d ↦{ysh w} fy)
    ∗ (∃ fi, (ixLoc0 d ↦[(slabRect w).set]{fullShare} fi) ∗ ⌜∀ j ∈ (slabRect w).set, (fi j).toNat < 8192⌝)
    ∗ ∃ fo, oLoc0 d ↦[(rowsRect w).set]{fullShare} fo)

abbrev ixLoc1 (d : Dev nD) : Loc nD τ sig := (SparseCore.T d).loc main_v23
abbrev oLoc1 (d : Dev nD) : Loc nD τ sig := (SparseCore.T d).loc main_v24
/-- What worker w of call 1 holds: its share of y, its slab with every entry a row number of y, its output rows. -/
def share1 (d : Dev nD) (w : Fin 32) : sProp 𝕄 :=
  iprop((∃ fy, yLoc d ↦{ysh w} fy)
    ∗ (∃ fi, (ixLoc1 d ↦[(slabRect w).set]{fullShare} fi) ∗ ⌜∀ j ∈ (slabRect w).set, (fi j).toNat < 8192⌝)
    ∗ ∃ fo, oLoc1 d ↦[(rowsRect w).set]{fullShare} fo)

abbrev ixLoc2 (d : Dev nD) : Loc nD τ sig := (SparseCore.T d).loc main_v27
abbrev oLoc2 (d : Dev nD) : Loc nD τ sig := (SparseCore.T d).loc main_v28
/-- What worker w of call 2 holds: its share of y, its slab with every entry a row number of y, its output rows. -/
def share2 (d : Dev nD) (w : Fin 32) : sProp 𝕄 :=
  iprop((∃ fy, yLoc d ↦{ysh w} fy)
    ∗ (∃ fi, (ixLoc2 d ↦[(slabRect w).set]{fullShare} fi) ∗ ⌜∀ j ∈ (slabRect w).set, (fi j).toNat < 8192⌝)
    ∗ ∃ fo, oLoc2 d ↦[(rowsRect w).set]{fullShare} fo)

abbrev ixLoc3 (d : Dev nD) : Loc nD τ sig := (SparseCore.T d).loc main_v31
abbrev oLoc3 (d : Dev nD) : Loc nD τ sig := (SparseCore.T d).loc main_v32
/-- What worker w of call 3 holds: its share of y, its slab with every entry a row number of y, its output rows. -/
def share3 (d : Dev nD) (w : Fin 32) : sProp 𝕄 :=
  iprop((∃ fy, yLoc d ↦{ysh w} fy)
    ∗ (∃ fi, (ixLoc3 d ↦[(slabRect w).set]{fullShare} fi) ∗ ⌜∀ j ∈ (slabRect w).set, (fi j).toNat < 8192⌝)
    ∗ ∃ fo, oLoc3 d ↦[(rowsRect w).set]{fullShare} fo)

/-- The same, by call. -/
def share : Fin 4 → Dev nD → Fin 32 → sProp 𝕄
  | 0 => share0 (F := F) | 1 => share1 (F := F) | 2 => share2 (F := F) | 3 => share3 (F := F)

/-- Tile i of core c, with the launch's own index types brought to 2 and 16. -/
def tileShare (q : Fin 4) (d : Dev nD) (c : Fin ((K (F := F)).nCore q)) (i : Fin ((K (F := F)).nSub q)) : sProp 𝕄 :=
  share (F := F) q d (wid (Fin.cast (nCore_eq q) c) (Fin.cast (nSub_eq q) i))

/-- The calls' payload: a core holds its tiles' shares, a tile its own, before and after alike. -/
def P : (K (F := F)).Pay (nD := nD) (Val := Elt F) (Name := ℕ) (U := UU) where
  st := fun q d c => bigSep Finset.univ fun i => tileShare (F := F) q d c i
  dn := fun q d c => bigSep Finset.univ fun i => tileShare (F := F) q d c i
  go := fun q d c i => tileShare (F := F) q d c i
  td := fun q d c i => tileShare (F := F) q d c i
  x := fun _ _ => iprop(emp)

end Cert.Kernel.Sc

end
-- ==== Proof.ScLaunchK.lean ====
/-
  The kernel program's run, reduced to three obligations by the sparse-core launch theorem.

  Every thread of the device — the tensor core running @main, the two sequencers, the 32 tiles — is covered by the
  launch theorem once it is given: (1) for each of the four calls, the proof of one tile's task from its share to its
  share (the same shape before and after: see the payload); (2) the proof of @main on the tensor core, which meets each
  call by handing over the 2 × 16 shares and taking them back, and each of the six regions and each host operation in
  between; (3) how the tensor core's final assertion reads the claim off the final memory.
  How a core's share splits among its tiles is the identity (a core's share IS the product of its tiles'), no call runs
  on a sequencer alone, and the launch element of the ghost state is the initial rounds of the regions' staging cells,
  the handshakes' initial rounds and the counters' unit: the calls' own protocols need no cells of their own, every
  tile working alone. The staging cells' part is dealt to each device's tensor core, region by region (G).
-/
import proofs.«215235_g2774548873965_cont_9to1_572_34_alg».proof.Proof.ScPayK
import proofs.«215235_g2774548873965_cont_9to1_572_34_alg».proof.Proof.Gen.Kernel.Launch

noncomputable section

namespace Cert.Kernel.Sc

open Cert.Kernel
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

abbrev 𝒱₀ : Variants := Variants.none
abbrev 𝒱 : Variants := 𝒱₀.lift
abbrev v₀ : 𝒱.V := Sum.inl none

/-! ## The payload can be stored in a handshake -/

set_option synthInstance.maxHeartbeats 400000 in
instance share0_storable (d : Dev nD) (w : Fin 32) : BI.Storable (upEmb : UEmb _ 𝕄) (share0 (F := F) d w) := by
  unfold share0; infer_instance
set_option synthInstance.maxHeartbeats 400000 in
instance share1_storable (d : Dev nD) (w : Fin 32) : BI.Storable (upEmb : UEmb _ 𝕄) (share1 (F := F) d w) := by
  unfold share1; infer_instance
set_option synthInstance.maxHeartbeats 400000 in
instance share2_storable (d : Dev nD) (w : Fin 32) : BI.Storable (upEmb : UEmb _ 𝕄) (share2 (F := F) d w) := by
  unfold share2; infer_instance
set_option synthInstance.maxHeartbeats 400000 in
instance share3_storable (d : Dev nD) (w : Fin 32) : BI.Storable (upEmb : UEmb _ 𝕄) (share3 (F := F) d w) := by
  unfold share3; infer_instance

instance share_storable (q : Fin 4) (d : Dev nD) (w : Fin 32) : BI.Storable (upEmb : UEmb _ 𝕄) (share (F := F) q d w) := by
  match q with
  | 0 => show BI.Storable _ (share0 (F := F) d w); infer_instance
  | 1 => show BI.Storable _ (share1 (F := F) d w); infer_instance
  | 2 => show BI.Storable _ (share2 (F := F) d w); infer_instance
  | 3 => show BI.Storable _ (share3 (F := F) d w); infer_instance

instance tileShare_storable (q : Fin 4) (d : Dev nD) (c : Fin ((K (F := F)).nCore q)) (i : Fin ((K (F := F)).nSub q)) :
    BI.Storable (upEmb : UEmb _ 𝕄) (tileShare (F := F) q d c i) := by
  unfold tileShare; infer_instance

instance P_storable : (P (F := F)).IsStorable where
  st q d c := by unfold P; dsimp only; infer_instance
  dn q d c := by unfold P; dsimp only; infer_instance
  go q d c i := by unfold P; dsimp only; infer_instance
  td q d c i := by unfold P; dsimp only; infer_instance

/-! ## A core's share among its tiles -/

theorem vecSplit (q : Fin 4) : (K (F := F)).VecSplit' (P (F := F)) q := by
  intro d c
  show (bigSep Finset.univ fun i => tileShare (F := F) q d c i)
    ⊢ |={Set.univ}=> iprop((bigSep Finset.univ fun i => tileShare (F := F) q d c i)
        ∗ ((bigSep Finset.univ fun i => tileShare (F := F) q d c i) -∗ bigSep Finset.univ fun i => tileShare (F := F) q d c i))
  iintro H
  imodintro
  isplitl [H]
  · iexact H
  · iintro H'; iexact H'

/-! ## The launch element -/

/-- A product of empty assertions is empty. -/
theorem bigSep_emp_eq {I : Type} (s : Finset I) : (bigSep s fun _ => iprop(emp)) = (iprop(emp) : sProp 𝕄) := bigSep_emp_const s

/-- What the tensor core of device d starts @main with beyond its buffers: for each of the six regions, its staging
    cells' ghost state and duty tokens, spent once at that region's entry. -/
abbrev G (d : Dev nD) : sProp 𝕄 :=
  bigSep Finset.univ fun p : Fin 6 => iprop(Pipeline.cellsGhost cfgs (EP (F := F)) p d ∗ Pipeline.toksInit cfgs (EP (F := F)) p d)

def u₀ : UU :=
  (initOf (Pipeline.cells (nD := nD) (τ := τ) cfgs Gen.cellOf_inj) (Pipeline.launchToks (nD := nD) (τ := τ) cfgs Gen.cellOf_inj),
    (initOf (K (F := F)).hsCells (K (F := F)).hsToks, 1))

theorem G_all : (bigSep Finset.univ fun d : Dev nD => G (F := F) d)
    = iprop((bigSep Finset.univ fun c : Dev nD => bigSep Finset.univ fun p : Fin 6 => Pipeline.cellsGhost cfgs (EP (F := F)) p c)
        ∗ (bigSep Finset.univ fun c : Dev nD => bigSep Finset.univ fun p : Fin 6 => (Pipeline.toksInit cfgs (EP (F := F)) p c : sProp 𝕄))) := by
  rw [← bigSep_sep']
  exact bigSep_congr fun d _ => bigSep_sep' _ _ _

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 4 => (P (F := F)).x q thr) := by
  unfold u₀
  iintro Hu
  ihave H := (ownU_pair (initOf (Pipeline.cells (nD := nD) (τ := τ) cfgs Gen.cellOf_inj) (Pipeline.launchToks (nD := nD) (τ := τ) cfgs Gen.cellOf_inj))
    ((initOf (K (F := F)).hsCells (K (F := F)).hsToks, (1 : Counters)) : UH × Counters)) $$ Hu
  icases H with ⟨HP, HR⟩
  ihave HR' := (own_pair_emb embR (initOf (K (F := F)).hsCells (K (F := F)).hsToks) (1 : Counters)) $$ HR
  icases HR' with ⟨HH, -⟩
  imod (Pipeline.fund_ghost cfgs (EP (F := F)) Gen.cellOf_inj) $$ HP with HG
  imodintro
  isplitl [HH]
  · iexact HH
  isplitl [HG]
  · rw [G_all]; iexact HG
  · rw [show (bigSep Finset.univ fun thr : Thread nD τ => bigSep Finset.univ fun q : Fin 4 => (P (F := F)).x q thr)
        = bigSep Finset.univ fun _ : Thread nD τ => (iprop(emp) : sProp 𝕄) from bigSep_congr fun _ _ => bigSep_emp_eq _, bigSep_emp_eq]
    iempintro

/-! ## The run, from the three obligations -/

variable [FloatOps F]

theorem run_of [∀ e, Nonempty (Elt F e)] (m : (ℓ : Loc nD τ sig) → Buf (Elt F) ℓ) (ρ : Dev nD → PrngReg)
    (FIN : Dev nD → sProp 𝕄) (fq : Dev nD → Phys nD τ sig (Elt F) → Prop) (Q' : PUnit × MemSt nD τ sig (Elt F) → Prop)
    (htile : ∀ q, (K (F := F)).TileObl (D (F := F)) 𝒱 (P (F := F)) v₀ q)
    (hmain : ∀ (κ : GSem nD τ sig → ℕ) (d : Dev nD),
      iprop((K (F := F)).ctx EH (P (F := F)) κ ∗ (K (F := F)).tcSt EH d 0 ∗ (K (F := F)).tcRes m ρ d ∗ G (F := F) d)
        ⊢ wp frame (wpE ((K (F := F)).defs (D (F := F))) 𝒱 (SparseCore.T d) none) Set.univ (main d)
            fun _ => iprop((K (F := F)).tcSt EH d 4 ∗ FIN d))
    (hfin : ∀ d s', iprop(FIN d ∗ SI s') ⊢ (⌜fq d s'⌝ : sProp 𝕄))
    (hQ : ∀ s', (∀ d, fq d s') → Q' (⟨⟩, s'.mem)) :
    θ_run (Cert.Kernel.defs (F := F)) (Cert.Kernel.threads (F := F)) ⟨m, fun _ => 0, ρ⟩ Q' :=
  SparseCore.Cfg.θ_run_sc (K := K (F := F)) (D := D (F := F)) (𝒱 := 𝒱) (EH := EH) (P := P (F := F)) facts v₀
    (fun q hq => absurd ((kind_eq q).symm.trans hq) (by decide))
    (fun q _ => htile q)
    (fun q _ => SparseCore.Cfg.VecSplit.of_plain (vecSplit q))
    m ρ main (fun d => G (F := F) d) FIN (u₀ (F := F)) (sep_elim_left.trans hu₀) hmain fq hfin Q' hQ

end Cert.Kernel.Sc

end
-- ==== Proof.ScMainK.lean ====
/-
  @main on the tensor core, and how its final assertion reads the claim.

  @main keeps the fourteen argument arrays from the first line to the last: it only reads them (the first region reads
  x and W_in, the host operations read r_ij, neighbors, neighbor_mask and f_ij, the four fused regions read W1, b1,
  W2, b2, the last region reads W_out, b_out, W_d, b_d) and writes only arrays of its own. So the assertion it ends
  with is: each argument array, whole, at the contents it was launched with. Holding an array whole at contents f
  beside the machine's state says the machine's memory there IS f; fourteen times over, that is the frame's post.
-/
import proofs.«215235_g2774548873965_cont_9to1_572_34_alg».proof.Proof.ScLaunchK
import proofs.«215235_g2774548873965_cont_9to1_572_34_alg».proof.Proof.PreNbr

noncomputable section

namespace Cert.Kernel.Sc

open Cert.Kernel
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

variable (m : (ℓ : Loc nD τ sig) → Buf (Elt F) ℓ)

/-- An argument array of device d's tensor core, whole, as launched. -/
abbrev kept (d : Dev nD) (b : Ref sig .tc) : sProp 𝕄 := (SparseCore.T d).loc b ↦{fullShare} m ((SparseCore.T d).loc b)

/-- What @main ends with: the fourteen argument arrays as launched. -/
abbrev FIN (d : Dev nD) : sProp 𝕄 :=
  iprop(kept m d main_arg0 ∗ kept m d main_arg1 ∗ kept m d main_arg2 ∗ kept m d main_arg3 ∗ kept m d main_arg4 ∗ kept m d main_arg5 ∗ kept m d main_arg6 ∗ kept m d main_arg7 ∗ kept m d main_arg8 ∗ kept m d main_arg9 ∗ kept m d main_arg10 ∗ kept m d main_arg11 ∗ kept m d main_arg12 ∗ kept m d main_arg13)

/-- What the final memory must satisfy on device d. -/
def fq (d : Dev nD) (s' : Phys nD τ sig (Elt F)) : Prop :=
  s'.mem.mem ((SparseCore.T d).loc main_arg0) = m ((SparseCore.T d).loc main_arg0)
  ∧ s'.mem.mem ((SparseCore.T d).loc main_arg1) = m ((SparseCore.T d).loc main_arg1)
  ∧ s'.mem.mem ((SparseCore.T d).loc main_arg2) = m ((SparseCore.T d).loc main_arg2)
  ∧ s'.mem.mem ((SparseCore.T d).loc main_arg3) = m ((SparseCore.T d).loc main_arg3)
  ∧ s'.mem.mem ((SparseCore.T d).loc main_arg4) = m ((SparseCore.T d).loc main_arg4)
  ∧ s'.mem.mem ((SparseCore.T d).loc main_arg5) = m ((SparseCore.T d).loc main_arg5)
  ∧ s'.mem.mem ((SparseCore.T d).loc main_arg6) = m ((SparseCore.T d).loc main_arg6)
  ∧ s'.mem.mem ((SparseCore.T d).loc main_arg7) = m ((SparseCore.T d).loc main_arg7)
  ∧ s'.mem.mem ((SparseCore.T d).loc main_arg8) = m ((SparseCore.T d).loc main_arg8)
  ∧ s'.mem.mem ((SparseCore.T d).loc main_arg9) = m ((SparseCore.T d).loc main_arg9)
  ∧ s'.mem.mem ((SparseCore.T d).loc main_arg10) = m ((SparseCore.T d).loc main_arg10)
  ∧ s'.mem.mem ((SparseCore.T d).loc main_arg11) = m ((SparseCore.T d).loc main_arg11)
  ∧ s'.mem.mem ((SparseCore.T d).loc main_arg12) = m ((SparseCore.T d).loc main_arg12)
  ∧ s'.mem.mem ((SparseCore.T d).loc main_arg13) = m ((SparseCore.T d).loc main_arg13)

/-- An array held whole beside the machine's state: the memory there is the contents held, and the state is kept. -/
theorem agree_keep (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨Hp, HSI⟩
  ihave H := (persistent_entails_right (SI_pointsTo_agree (st := s') (ℓ := ℓ) (I := Finset.univ) (q := fullShare) (f := f))) $$ [HSI Hp]
  · isplitl [HSI] <;> iassumption
  icases H with ⟨%h, HSI, -⟩
  isplitr
  · ipureintro; exact funext fun i => h i (Finset.mem_univ i)
  · iexact HSI

set_option maxRecDepth 16384 in
theorem hfin (d : Dev nD) (s' : Phys nD τ sig (Elt F)) : iprop(FIN m d ∗ SI s') ⊢ (⌜fq m d s'⌝ : sProp 𝕄) := by
  iintro ⟨⟨H0, H1, H2, H3, H4, H5, H6, H7, H8, H9, H10, H11, H12, H13⟩, HSI⟩
  ihave X := (agree_keep (F := F) _ _ s') $$ [H0 HSI]
  · isplitl [H0] <;> iassumption
  icases X with ⟨%h0, HSI⟩
  ihave X := (agree_keep (F := F) _ _ s') $$ [H1 HSI]
  · isplitl [H1] <;> iassumption
  icases X with ⟨%h1, HSI⟩
  ihave X := (agree_keep (F := F) _ _ s') $$ [H2 HSI]
  · isplitl [H2] <;> iassumption
  icases X with ⟨%h2, HSI⟩
  ihave X := (agree_keep (F := F) _ _ s') $$ [H3 HSI]
  · isplitl [H3] <;> iassumption
  icases X with ⟨%h3, HSI⟩
  ihave X := (agree_keep (F := F) _ _ s') $$ [H4 HSI]
  · isplitl [H4] <;> iassumption
  icases X with ⟨%h4, HSI⟩
  ihave X := (agree_keep (F := F) _ _ s') $$ [H5 HSI]
  · isplitl [H5] <;> iassumption
  icases X with ⟨%h5, HSI⟩
  ihave X := (agree_keep (F := F) _ _ s') $$ [H6 HSI]
  · isplitl [H6] <;> iassumption
  icases X with ⟨%h6, HSI⟩
  ihave X := (agree_keep (F := F) _ _ s') $$ [H7 HSI]
  · isplitl [H7] <;> iassumption
  icases X with ⟨%h7, HSI⟩
  ihave X := (agree_keep (F := F) _ _ s') $$ [H8 HSI]
  · isplitl [H8] <;> iassumption
  icases X with ⟨%h8, HSI⟩
  ihave X := (agree_keep (F := F) _ _ s') $$ [H9 HSI]
  · isplitl [H9] <;> iassumption
  icases X with ⟨%h9, HSI⟩
  ihave X := (agree_keep (F := F) _ _ s') $$ [H10 HSI]
  · isplitl [H10] <;> iassumption
  icases X with ⟨%h10, HSI⟩
  ihave X := (agree_keep (F := F) _ _ s') $$ [H11 HSI]
  · isplitl [H11] <;> iassumption
  icases X with ⟨%h11, HSI⟩
  ihave X := (agree_keep (F := F) _ _ s') $$ [H12 HSI]
  · isplitl [H12] <;> iassumption
  icases X with ⟨%h12, HSI⟩
  ihave X := (agree_keep (F := F) _ _ s') $$ [H13 HSI]
  · isplitl [H13] <;> iassumption
  icases X with ⟨%h13, HSI⟩
  ipureintro
  exact ⟨h0, h1, h2, h3, h4, h5, h6, h7, h8, h9, h10, h11, h12, h13⟩

/-! ## What @main needs of the launch memory, and @main itself -/

/-- Every neighbour index, read as a natural number, is a row number 0..1023 of its molecule: what the precondition's
    `0 ≤ neighbors ≤ 1023` says word by word, and what puts every gathered row number b·1024 + nbr below 8192. -/
def NbrOK : Prop := ∀ (d : Dev nD) (j : S8x1024x64.Idx), (m ((SparseCore.T d).loc main_arg2) j).toNat < 1024

variable [FloatOps F] (ρ : Dev nD → PrngReg)

/-- The precondition, all ones on every device, says in particular that every neighbour index is in 0..1023. -/
theorem nbrOK_of_pre [Cert.Pre_input_domain.Facts]
    (h : ∀ c : Dev nD, Cert.Pre_input_domain.fn (F := F) (m ((SparseCore.T c).loc main_arg0)) (m ((SparseCore.T c).loc main_arg1))
      (m ((SparseCore.T c).loc main_arg2)) (m ((SparseCore.T c).loc main_arg3)) (m ((SparseCore.T c).loc main_arg4))
      (m ((SparseCore.T c).loc main_arg5)) (m ((SparseCore.T c).loc main_arg6)) (m ((SparseCore.T c).loc main_arg7))
      (m ((SparseCore.T c).loc main_arg8)) (m ((SparseCore.T c).loc main_arg9)) (m ((SparseCore.T c).loc main_arg10))
      (m ((SparseCore.T c).loc main_arg11)) (m ((SparseCore.T c).loc main_arg12)) (m ((SparseCore.T c).loc main_arg13))
      = fun _ => 1#1) : NbrOK m :=
  fun d j => Cert.PreNbr.nbr_lt (F := F) _ _ _ _ _ _ _ _ _ _ _ _ _ _ (h d) j

theorem pin_eq (a : (p : Fin 6) → (pcfgs (F := F) p).Adm) : Pipeline.pin (pcfgs (F := F)) a = cfgs :=
  funext fun p => by
    match p with
    | 0 => rfl
    | 1 => rfl
    | 2 => rfl
    | 3 => rfl
    | 4 => rfl
    | 5 => rfl

/-- The staging cells of the six regions are pairwise distinct, read at the regions as pinned. -/
theorem cellOf_pin_inj (a : (p : Fin 6) → (pcfgs (F := F) p).Adm) :
    Function.Injective (Pipeline.cellOf (nD := nD) (τ := τ) (Pipeline.pin (pcfgs (F := F)) a)) := by
  rw [pin_eq a]; exact Gen.cellOf_inj

/-- A wand into Y is a wand into Y under an update; the rest is carried along. -/
theorem wand_update (X Y Z : sProp 𝕄) :
    iprop((X -∗ Y) ∗ Z) ⊢ iprop((X -∗ |={Set.univ}[Idealize.ShloMosaic.frame]=> Y) ∗ Z) := by
  iintro ⟨H, HZ⟩
  isplitl [H]
  · iintro HX
    imodintro
    iapply H $$ HX
  · iexact HZ

set_option maxHeartbeats 1000000 in
theorem enter_region [∀ e, Nonempty (Elt F e)] {p : Fin 6} (a : (p : Fin 6) → (pcfgs (F := F) p).Adm)
    (pdats : (p : Fin 6) → (c : Dev nD) → Pipeline.Dat τ (Elt F) (HIx 4) ℕ UU ℕ (Pipeline.pin pcfgs a p) c) (ι : HIx 4)
    (L : GSem nD τ sig → Finset (HIx 4)) (lv : GSem nD τ sig → HIx 4 → ℕ)
    (R : Pipeline.RegionSeg pcfgs a pdats ι (defs₀ (F := F)) Variants.none L lv p) (d : Dev nD)
    {α : Type} (k : PUnit → Prog (TpuEff nD τ sig (Elt F) (SparseCore.Sig (ΛP (F := F)) 4) .tc) α) (Q : α → sProp 𝕄) :
    iprop((iprop(boundary (SparseCore.T d) ∗ R.post d)
              -∗ wp frame (wpE ((K (F := F)).defs (D (F := F))) 𝒱 (SparseCore.T d) none) Set.univ (k ⟨⟩) Q)
        ∗ boundary (SparseCore.T d) ∗ R.pre d ∗ levAts L lv
        ∗ Pipeline.cellsGhost (Pipeline.pin pcfgs a) (EP (F := F)) p d ∗ Pipeline.toksInit (Pipeline.pin pcfgs a) (EP (F := F)) p d)
      ⊢ wp frame (wpE ((K (F := F)).defs (D (F := F))) 𝒱 (SparseCore.T d) none) Set.univ
          (Prog.lift (.customCall (SparseCore.inner (Pipeline.entry p)) ()) >>= k) Q := by
  rw [wp_bind]
  -- the continuation's weakest precondition, as the post of the custom call
  let Φ : PUnit → sProp 𝕄 := fun r => wp frame (wpE ((K (F := F)).defs (D (F := F))) 𝒱 (SparseCore.T d) none) Set.univ (k r) Q
  -- the region rule, under the pipelines' own body table, with nothing after the call
  have h2 := Pipeline.RegionSeg.wp pcfgs a pdats ι (cellOf_pin_inj a) (EP (F := F)) (defs₀ (F := F)) Variants.none L lv R d none
    (fun _ h => (Option.not_mem_none _ h).elim) (fun _ => .ret ⟨⟩) Φ
  -- the custom call of @main is that call, lifted into the sparse-core program's signature
  have h1 := (K (F := F)).wp_liftProg (D (F := F)) 𝒱 (d.tc : Thread nD τ) Set.univ none
    (.op (.customCall (Pipeline.entry p) ()) (fun _ => .ret ⟨⟩)) Φ
  rw [wp_ret] at h2
  exact (wand_update _ _ _).trans (h2.trans h1)

end Cert.Kernel.Sc

end
-- ==== Proof.MainSegsK.lean ====
/-
  @main, read as seventeen segments.

  The tensor core's program is a straight line of host operations interrupted by ten kernel launches. Read in order it is:
  one reshape of x; region 0 (y = x·W_in); twenty host operations (the transposes of neighbors, r_ij, neighbor_mask and
  f_ij, the cutoff comparison times the mask, the row offsets b·1024 added to the neighbour indices, the biases
  reshaped, the first sixteen-slot slice of the indices reshaped for the 32 tiles); then four times: a sparse-core call,
  a fused region, and (but the last time) the next slice of the indices; two reshapes of the last biases; the last region;
  one reshape of the result. Grouping the host operations into lists changes nothing: a list run in order is the
  operations run in order.
-/
import proofs.«215235_g2774548873965_cont_9to1_572_34_alg».proof.Proof.ScConfigK
import Idealize.ShloMosaic.Lib.StableHlo.Run
import Idealize.ShloMosaic.Lib.Pipeline.Frame

noncomputable section

namespace Cert.Kernel.Sc

open Cert.Kernel Idealize.ShloMosaic Idealize.ShloMosaic.TcCoe Idealize.SL.Sem Idealize.ShloMosaic.StableHlo
open Facts₀ Facts

variable {F : FTy → Type} [FloatOps F]

/-- Host stretch 0: 1 operation. -/
abbrev host0 : List (HloOp τ sig (Elt F)) :=
  [StableHlo.reshape main_arg0 main_v0 rfl shapeCasts_S8x1024x128_S8192x128]

/-- Host stretch 1: 20 operations. -/
abbrev host1 : List (HloOp τ sig (Elt F)) :=
  [StableHlo.unary main_arg2 main_v2 ((transpose S8x64x1024 [0, 2, 1] · transposes_S8x1024x64_S8x64x1024_0_2_1) : (⟨S8x1024x64, .i32⟩ : BufTy).Contents (Elt F) → (⟨S8x64x1024, .i32⟩ : BufTy).Contents (Elt F)),
   StableHlo.unary main_arg1 main_v3 ((transpose S8x64x1024 [0, 2, 1] · transposes_S8x1024x64_S8x64x1024_0_2_1) : (⟨S8x1024x64, .f32⟩ : BufTy).Contents (Elt F) → (⟨S8x64x1024, .f32⟩ : BufTy).Contents (Elt F)),
   StableHlo.nullary main_cst (constant S_ .f32 0x40A00000#32),
   StableHlo.unary main_cst main_v4 (broadcastInDim S8x64x1024 ![] bcast_S_S8x64x1024 : (⟨S_, .f32⟩ : BufTy).Contents (Elt F) → (⟨S8x64x1024, .f32⟩ : BufTy).Contents (Elt F)),
   StableHlo.binary main_v3 main_v4 main_v5 (cmpf .ole : (⟨S8x64x1024, .f32⟩ : BufTy).Contents (Elt F) → (⟨S8x64x1024, .f32⟩ : BufTy).Contents (Elt F) → (⟨S8x64x1024, .i1⟩ : BufTy).Contents (Elt F)),
   StableHlo.unary main_v5 main_v6 (uitofp .f32 : (⟨S8x64x1024, .i1⟩ : BufTy).Contents (Elt F) → (⟨S8x64x1024, .f32⟩ : BufTy).Contents (Elt F)),
   StableHlo.unary main_arg3 main_v7 ((transpose S8x64x1024 [0, 2, 1] · transposes_S8x1024x64_S8x64x1024_0_2_1) : (⟨S8x1024x64, .f32⟩ : BufTy).Contents (Elt F) → (⟨S8x64x1024, .f32⟩ : BufTy).Contents (Elt F)),
   StableHlo.binary main_v6 main_v7 main_v8 (mulf : (⟨S8x64x1024, .f32⟩ : BufTy).Contents (Elt F) → (⟨S8x64x1024, .f32⟩ : BufTy).Contents (Elt F) → (⟨S8x64x1024, .f32⟩ : BufTy).Contents (Elt F)),
   StableHlo.nullary main_v9 (iotaInDim S8 32 0),
   StableHlo.nullary main_c (constantI S_ 32 1024#32),
   StableHlo.unary main_c main_v10 (broadcastInDim S8 ![] bcast_S_S8 : (⟨S_, .i32⟩ : BufTy).Contents (Elt F) → (⟨S8, .i32⟩ : BufTy).Contents (Elt F)),
   StableHlo.binary main_v9 main_v10 main_v11 (muli : (⟨S8, .i32⟩ : BufTy).Contents (Elt F) → (⟨S8, .i32⟩ : BufTy).Contents (Elt F) → (⟨S8, .i32⟩ : BufTy).Contents (Elt F)),
   StableHlo.unary main_v11 main_v12 (broadcastInDim S8x1x1 ![0] bcast_S8_S8x1x1_0 : (⟨S8, .i32⟩ : BufTy).Contents (Elt F) → (⟨S8x1x1, .i32⟩ : BufTy).Contents (Elt F)),
   StableHlo.unary main_v12 main_v13 (broadcastInDim S8x64x1024 ![0, 1, 2] bcast_S8x1x1_S8x64x1024_0_1_2 : (⟨S8x1x1, .i32⟩ : BufTy).Contents (Elt F) → (⟨S8x64x1024, .i32⟩ : BufTy).Contents (Elt F)),
   StableHlo.binary main_v2 main_v13 main_v14 (addi : (⟨S8x64x1024, .i32⟩ : BufTy).Contents (Elt F) → (⟨S8x64x1024, .i32⟩ : BufTy).Contents (Elt F) → (⟨S8x64x1024, .i32⟩ : BufTy).Contents (Elt F)),
   StableHlo.unary main_arg4 main_v15 ((transpose S8x50x64x1024 [0, 3, 2, 1] · transposes_S8x1024x64x50_S8x50x64x1024_0_3_2_1) : (⟨S8x1024x64x50, .f32⟩ : BufTy).Contents (Elt F) → (⟨S8x50x64x1024, .f32⟩ : BufTy).Contents (Elt F)),
   StableHlo.reshape main_arg6 main_v16 rfl shapeCasts_S128_S1x128,
   StableHlo.reshape main_arg8 main_v17 rfl shapeCasts_S128_S1x128,
   StableHlo.unary main_v14 main_v18 ((extractStridedSlice S8x16x1024 ![0, 0, 0] · slices_S8x64x1024_S8x16x1024_0_0_0) : (⟨S8x64x1024, .i32⟩ : BufTy).Contents (Elt F) → (⟨S8x16x1024, .i32⟩ : BufTy).Contents (Elt F)),
   StableHlo.reshape main_v18 main_v19 rfl shapeCasts_S8x16x1024_S32x32x128]

/-- Host stretch 2: 0 operations. -/
abbrev host2 : List (HloOp τ sig (Elt F)) :=
  []

/-- Host stretch 3: 2 operations. -/
abbrev host3 : List (HloOp τ sig (Elt F)) :=
  [StableHlo.unary main_v14 main_v22 ((extractStridedSlice S8x16x1024 ![0, 16, 0] · slices_S8x64x1024_S8x16x1024_0_16_0) : (⟨S8x64x1024, .i32⟩ : BufTy).Contents (Elt F) → (⟨S8x16x1024, .i32⟩ : BufTy).Contents (Elt F)),
   StableHlo.reshape main_v22 main_v23 rfl shapeCasts_S8x16x1024_S32x32x128]

/-- Host stretch 4: 0 operations. -/
abbrev host4 : List (HloOp τ sig (Elt F)) :=
  []

/-- Host stretch 5: 2 operations. -/
abbrev host5 : List (HloOp τ sig (Elt F)) :=
  [StableHlo.unary main_v14 main_v26 ((extractStridedSlice S8x16x1024 ![0, 32, 0] · slices_S8x64x1024_S8x16x1024_0_32_0) : (⟨S8x64x1024, .i32⟩ : BufTy).Contents (Elt F) → (⟨S8x16x1024, .i32⟩ : BufTy).Contents (Elt F)),
   StableHlo.reshape main_v26 main_v27 rfl shapeCasts_S8x16x1024_S32x32x128]

/-- Host stretch 6: 0 operations. -/
abbrev host6 : List (HloOp τ sig (Elt F)) :=
  []

/-- Host stretch 7: 2 operations. -/
abbrev host7 : List (HloOp τ sig (Elt F)) :=
  [StableHlo.unary main_v14 main_v30 ((extractStridedSlice S8x16x1024 ![0, 48, 0] · slices_S8x64x1024_S8x16x1024_0_48_0) : (⟨S8x64x1024, .i32⟩ : BufTy).Contents (Elt F) → (⟨S8x16x1024, .i32⟩ : BufTy).Contents (Elt F)),
   StableHlo.reshape main_v30 main_v31 rfl shapeCasts_S8x16x1024_S32x32x128]

/-- Host stretch 8: 0 operations. -/
abbrev host8 : List (HloOp τ sig (Elt F)) :=
  []

/-- Host stretch 9: 2 operations. -/
abbrev host9 : List (HloOp τ sig (Elt F)) :=
  [StableHlo.reshape main_arg11 main_v34 rfl shapeCasts_S128_S1x128,
   StableHlo.reshape main_arg13 main_v35 rfl shapeCasts_S128_S1x128]

/-- Host stretch 10: 1 operation. -/
abbrev host10 : List (HloOp τ sig (Elt F)) :=
  [StableHlo.reshape main_v36 main_v37 rfl shapeCasts_S8192x128_S8x1024x128]

set_option maxRecDepth 16384 in
/-- @main is its segments in order. -/
theorem main_eq (d : Dev nD) : main (F := F) d =
    ((seq host0) >>= fun _ =>
    (Prog.lift (.customCall (SparseCore.inner (Pipeline.entry 0)) ())) >>= fun _ =>
    (seq host1) >>= fun _ =>
    (sc.run d 0) >>= fun _ =>
    (seq host2) >>= fun _ =>
    (Prog.lift (.customCall (SparseCore.inner (Pipeline.entry 1)) ())) >>= fun _ =>
    (seq host3) >>= fun _ =>
    (sc.run d 1) >>= fun _ =>
    (seq host4) >>= fun _ =>
    (Prog.lift (.customCall (SparseCore.inner (Pipeline.entry 2)) ())) >>= fun _ =>
    (seq host5) >>= fun _ =>
    (sc.run d 2) >>= fun _ =>
    (seq host6) >>= fun _ =>
    (Prog.lift (.customCall (SparseCore.inner (Pipeline.entry 3)) ())) >>= fun _ =>
    (seq host7) >>= fun _ =>
    (sc.run d 3) >>= fun _ =>
    (seq host8) >>= fun _ =>
    (Prog.lift (.customCall (SparseCore.inner (Pipeline.entry 4)) ())) >>= fun _ =>
    (seq host9) >>= fun _ =>
    (Prog.lift (.customCall (SparseCore.inner (Pipeline.entry 5)) ())) >>= fun _ =>
    (seq host10) >>= fun _ =>
    (pure ⟨⟩)) := rfl

/-! ## Each host stretch names only unscoped arrays of the tensor core and allocates nothing -/

theorem host0_sub : ∀ op ∈ (host0 : List (HloOp τ sig (Elt F))), op.bufs ⊆ Pipeline.ucRefs τ sig :=
  fun op h => Pipeline.sub_ucRefs op (List.forall_iff_forall_mem.mp (show (host0 : List (HloOp τ sig (Elt F))).Forall fun op => op.bufs ⊆ tcRefs τ sig from reshape_bufs_sub ..) op h)
theorem host0_fresh : ∀ op ∈ (host0 : List (HloOp τ sig (Elt F))), op.fresh = ∅ :=
  List.forall_iff_forall_mem.mp (show (host0 : List (HloOp τ sig (Elt F))).Forall fun op => op.fresh = ∅ from rfl)

theorem host1_sub : ∀ op ∈ (host1 : List (HloOp τ sig (Elt F))), op.bufs ⊆ Pipeline.ucRefs τ sig :=
  fun op h => Pipeline.sub_ucRefs op (List.forall_iff_forall_mem.mp (show (host1 : List (HloOp τ sig (Elt F))).Forall fun op => op.bufs ⊆ tcRefs τ sig from ⟨unary_bufs_sub .., unary_bufs_sub .., nullary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., unary_bufs_sub .., reshape_bufs_sub .., reshape_bufs_sub .., unary_bufs_sub .., reshape_bufs_sub ..⟩) op h)
theorem host1_fresh : ∀ op ∈ (host1 : List (HloOp τ sig (Elt F))), op.fresh = ∅ :=
  List.forall_iff_forall_mem.mp (show (host1 : List (HloOp τ sig (Elt F))).Forall fun op => op.fresh = ∅ from ⟨rfl, rfl, rfl, rfl, rfl, rfl, rfl, rfl, rfl, rfl, rfl, rfl, rfl, rfl, rfl, rfl, rfl, rfl, rfl, rfl⟩)

theorem host2_sub : ∀ op ∈ (host2 : List (HloOp τ sig (Elt F))), op.bufs ⊆ Pipeline.ucRefs τ sig :=
  fun op h => Pipeline.sub_ucRefs op (List.forall_iff_forall_mem.mp (show (host2 : List (HloOp τ sig (Elt F))).Forall fun op => op.bufs ⊆ tcRefs τ sig from trivial) op h)
theorem host2_fresh : ∀ op ∈ (host2 : List (HloOp τ sig (Elt F))), op.fresh = ∅ :=
  List.forall_iff_forall_mem.mp (show (host2 : List (HloOp τ sig (Elt F))).Forall fun op => op.fresh = ∅ from trivial)

theorem host3_sub : ∀ op ∈ (host3 : List (HloOp τ sig (Elt F))), op.bufs ⊆ Pipeline.ucRefs τ sig :=
  fun op h => Pipeline.sub_ucRefs op (List.forall_iff_forall_mem.mp (show (host3 : List (HloOp τ sig (Elt F))).Forall fun op => op.bufs ⊆ tcRefs τ sig from ⟨unary_bufs_sub .., reshape_bufs_sub ..⟩) op h)
theorem host3_fresh : ∀ op ∈ (host3 : List (HloOp τ sig (Elt F))), op.fresh = ∅ :=
  List.forall_iff_forall_mem.mp (show (host3 : List (HloOp τ sig (Elt F))).Forall fun op => op.fresh = ∅ from ⟨rfl, rfl⟩)

theorem host4_sub : ∀ op ∈ (host4 : List (HloOp τ sig (Elt F))), op.bufs ⊆ Pipeline.ucRefs τ sig :=
  fun op h => Pipeline.sub_ucRefs op (List.forall_iff_forall_mem.mp (show (host4 : List (HloOp τ sig (Elt F))).Forall fun op => op.bufs ⊆ tcRefs τ sig from trivial) op h)
theorem host4_fresh : ∀ op ∈ (host4 : List (HloOp τ sig (Elt F))), op.fresh = ∅ :=
  List.forall_iff_forall_mem.mp (show (host4 : List (HloOp τ sig (Elt F))).Forall fun op => op.fresh = ∅ from trivial)

theorem host5_sub : ∀ op ∈ (host5 : List (HloOp τ sig (Elt F))), op.bufs ⊆ Pipeline.ucRefs τ sig :=
  fun op h => Pipeline.sub_ucRefs op (List.forall_iff_forall_mem.mp (show (host5 : List (HloOp τ sig (Elt F))).Forall fun op => op.bufs ⊆ tcRefs τ sig from ⟨unary_bufs_sub .., reshape_bufs_sub ..⟩) op h)
theorem host5_fresh : ∀ op ∈ (host5 : List (HloOp τ sig (Elt F))), op.fresh = ∅ :=
  List.forall_iff_forall_mem.mp (show (host5 : List (HloOp τ sig (Elt F))).Forall fun op => op.fresh = ∅ from ⟨rfl, rfl⟩)

theorem host6_sub : ∀ op ∈ (host6 : List (HloOp τ sig (Elt F))), op.bufs ⊆ Pipeline.ucRefs τ sig :=
  fun op h => Pipeline.sub_ucRefs op (List.forall_iff_forall_mem.mp (show (host6 : List (HloOp τ sig (Elt F))).Forall fun op => op.bufs ⊆ tcRefs τ sig from trivial) op h)
theorem host6_fresh : ∀ op ∈ (host6 : List (HloOp τ sig (Elt F))), op.fresh = ∅ :=
  List.forall_iff_forall_mem.mp (show (host6 : List (HloOp τ sig (Elt F))).Forall fun op => op.fresh = ∅ from trivial)

theorem host7_sub : ∀ op ∈ (host7 : List (HloOp τ sig (Elt F))), op.bufs ⊆ Pipeline.ucRefs τ sig :=
  fun op h => Pipeline.sub_ucRefs op (List.forall_iff_forall_mem.mp (show (host7 : List (HloOp τ sig (Elt F))).Forall fun op => op.bufs ⊆ tcRefs τ sig from ⟨unary_bufs_sub .., reshape_bufs_sub ..⟩) op h)
theorem host7_fresh : ∀ op ∈ (host7 : List (HloOp τ sig (Elt F))), op.fresh = ∅ :=
  List.forall_iff_forall_mem.mp (show (host7 : List (HloOp τ sig (Elt F))).Forall fun op => op.fresh = ∅ from ⟨rfl, rfl⟩)

theorem host8_sub : ∀ op ∈ (host8 : List (HloOp τ sig (Elt F))), op.bufs ⊆ Pipeline.ucRefs τ sig :=
  fun op h => Pipeline.sub_ucRefs op (List.forall_iff_forall_mem.mp (show (host8 : List (HloOp τ sig (Elt F))).Forall fun op => op.bufs ⊆ tcRefs τ sig from trivial) op h)
theorem host8_fresh : ∀ op ∈ (host8 : List (HloOp τ sig (Elt F))), op.fresh = ∅ :=
  List.forall_iff_forall_mem.mp (show (host8 : List (HloOp τ sig (Elt F))).Forall fun op => op.fresh = ∅ from trivial)

theorem host9_sub : ∀ op ∈ (host9 : List (HloOp τ sig (Elt F))), op.bufs ⊆ Pipeline.ucRefs τ sig :=
  fun op h => Pipeline.sub_ucRefs op (List.forall_iff_forall_mem.mp (show (host9 : List (HloOp τ sig (Elt F))).Forall fun op => op.bufs ⊆ tcRefs τ sig from ⟨reshape_bufs_sub .., reshape_bufs_sub ..⟩) op h)
theorem host9_fresh : ∀ op ∈ (host9 : List (HloOp τ sig (Elt F))), op.fresh = ∅ :=
  List.forall_iff_forall_mem.mp (show (host9 : List (HloOp τ sig (Elt F))).Forall fun op => op.fresh = ∅ from ⟨rfl, rfl⟩)

theorem host10_sub : ∀ op ∈ (host10 : List (HloOp τ sig (Elt F))), op.bufs ⊆ Pipeline.ucRefs τ sig :=
  fun op h => Pipeline.sub_ucRefs op (List.forall_iff_forall_mem.mp (show (host10 : List (HloOp τ sig (Elt F))).Forall fun op => op.bufs ⊆ tcRefs τ sig from reshape_bufs_sub ..) op h)
theorem host10_fresh : ∀ op ∈ (host10 : List (HloOp τ sig (Elt F))), op.fresh = ∅ :=
  List.forall_iff_forall_mem.mp (show (host10 : List (HloOp τ sig (Elt F))).Forall fun op => op.fresh = ∅ from rfl)

end Cert.Kernel.Sc

end
-- ==== Proof.ScStateK.lean ====
/-
  The tensor core between two lines of @main, and the host stretches.

  Between two lines the tensor core holds: the region boundary (its scoped storage at rest), every array of @main whole
  at some contents W, its handshake state before call n (what it still owes the later calls, its tokens), and the
  staging ghost state of the regions not yet entered. A stretch of host operations changes only W, to the operations'
  composed result; a region spends its own staging ghost state and changes W at its output array; a call moves n to
  n + 1 and changes W at the three arrays it is handed.
-/
import proofs.«215235_g2774548873965_cont_9to1_572_34_alg».proof.Proof.ScMainK
import proofs.«215235_g2774548873965_cont_9to1_572_34_alg».proof.Proof.MainSegsK
import Idealize.ShloMosaic.Lib.Pipeline.Frame

noncomputable section

namespace Cert.Kernel.Sc

open Cert.Kernel
open Idealize.ShloMosaic Idealize.ShloMosaic.StableHlo
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 4) (Elt F) ℕ UU ℕ

/-- The staging ghost state of the regions in Ps, on device d. -/
abbrev ghost (d : Dev nD) (Ps : Finset (Fin 6)) : sProp 𝕄 :=
  bigSep Ps fun p => iprop(Pipeline.cellsGhost cfgs (EP (F := F)) p d ∗ Pipeline.toksInit cfgs (EP (F := F)) p d)

/-- The tensor core of device d between two lines of @main, before call n, its arrays at W, the regions in Ps not yet entered. -/
abbrev TS (d : Dev nD) (n : ℕ) (W : Valuation τ sig (Elt F)) (Ps : Finset (Fin 6)) : sProp 𝕄 :=
  iprop(boundary (d.tc : Thread nD τ) ∗ held (d.tc : Thread nD τ) (Pipeline.ucRefs τ sig) W ∗ (K (F := F)).tcSt EH d n ∗ ghost (F := F) d Ps)

/-- A stretch of host operations, each naming only unscoped arrays and allocating nothing, runs to its end and leaves
    the arrays at the operations' composed result; nothing else of the tensor core's state is touched. -/
theorem seg_host (d : Dev nD) (n : ℕ) (W : Valuation τ sig (Elt F)) (Ps : Finset (Fin 6)) (ops : List (HloOp τ sig (Elt F)))
    (hS : ∀ op ∈ ops, op.bufs ⊆ Pipeline.ucRefs τ sig) (hf : ∀ op ∈ ops, op.fresh = ∅)
    {β : Type} (k : PUnit → Prog (TpuEff nD τ sig (Elt F) (SparseCore.Sig (ΛP (F := F)) 4) .tc) β) (Q : β → sProp 𝕄) :
    iprop(TS (F := F) d n W Ps ∗ (TS (F := F) d n (after ops W) Ps
          -∗ wp frame (wpE ((K (F := F)).defs (D (F := F))) 𝒱 (d.tc : Thread nD τ) none) Set.univ (k ⟨⟩) Q))
      ⊢ wp frame (wpE ((K (F := F)).defs (D (F := F))) 𝒱 (d.tc : Thread nD τ) none) Set.univ (seq ops >>= k) Q := by
  iintro ⟨⟨Hb, Hh, Hst, Hg⟩, Hk⟩
  iapply (wp_seq (defs := (K (F := F)).defs (D (F := F))) 𝒱 none Set.univ d (Pipeline.ucRefs τ sig) k ops hS hf W) $$ [Hb Hh]
  · isplitl [Hb]
    · iexact Hb
    · iexact Hh
  iintro ⟨Hb, Hh⟩
  iapply Hk
  isplitl [Hb]
  · iexact Hb
  isplitl [Hh]
  · iexact Hh
  isplitl [Hst]
  · iexact Hst
  · iexact Hg

/-- The segment of @main that is region p, entered before call n, whose output array is `out`: from the state between two
    lines with region p's staging ghost state unspent, the custom call runs the region and the continuation finds the
    same state at a valuation that differs from W at most at `out`, region p's ghost state spent. -/
def SegRegion (p : Fin 6) (n : ℕ) (out : DevRef τ sig) : Prop :=
  ∀ (κ : GSem nD τ sig → ℕ) (d : Dev nD) (W : Valuation τ sig (Elt F)) (Ps : Finset (Fin 6)), p ∈ Ps →
    ∀ {β : Type} (k : PUnit → Prog (TpuEff nD τ sig (Elt F) (SparseCore.Sig (ΛP (F := F)) 4) .tc) β) (Q : β → sProp 𝕄),
      iprop((K (F := F)).ctx EH (P (F := F)) κ ∗ TS (F := F) d n W Ps
          ∗ (∀ W' : Valuation τ sig (Elt F), ⌜∀ b, b ≠ out → W' b = W b⌝
              -∗ TS (F := F) d n W' (Ps.erase p) -∗ wp frame (wpE ((K (F := F)).defs (D (F := F))) 𝒱 (d.tc : Thread nD τ) none) Set.univ (k ⟨⟩) Q))
        ⊢ wp frame (wpE ((K (F := F)).defs (D (F := F))) 𝒱 (d.tc : Thread nD τ) none) Set.univ
            (Prog.lift (.customCall (SparseCore.inner (Pipeline.entry p)) ()) >>= k) Q

/-- The segment of @main that is call q, whose three arrays are y, `ix` and `o`: from the state before call q with every
    entry of the index array a row number of y, the call runs and the continuation finds the state before call q + 1 at a
    valuation that differs from W at most at those three. -/
def SegCall (q : Fin 4) (ix o : Ref sig .tc) (inRange : Valuation τ sig (Elt F) → Prop) : Prop :=
  ∀ (κ : GSem nD τ sig → ℕ) (d : Dev nD) (W : Valuation τ sig (Elt F)) (Ps : Finset (Fin 6)), inRange W →
    ∀ {β : Type} (k : PUnit → Prog (TpuEff nD τ sig (Elt F) (SparseCore.Sig (ΛP (F := F)) 4) .tc) β) (Q : β → sProp 𝕄),
      iprop((K (F := F)).ctx EH (P (F := F)) κ ∗ TS (F := F) d q.val W Ps
          ∗ (∀ W' : Valuation τ sig (Elt F), ⌜∀ b, b ∉ ({Proc.devRef .tc main_v1, Proc.devRef .tc ix, Proc.devRef .tc o} : Finset (DevRef τ sig)) → W' b = W b⌝
              -∗ TS (F := F) d (q.val + 1) W' Ps -∗ wp frame (wpE ((K (F := F)).defs (D (F := F))) 𝒱 (d.tc : Thread nD τ) none) Set.univ (k ⟨⟩) Q))
        ⊢ wp frame (wpE ((K (F := F)).defs (D (F := F))) 𝒱 (d.tc : Thread nD τ) none) Set.univ ((K (F := F)).run d q >>= k) Q

end Cert.Kernel.Sc

end
-- ==== Proof.HostIdxK.lean ====
/-
  The index arrays the program computes for its four sparse-core calls, and their range.

  From the integer argument nbr of shape [8, 1024, 64] (for batch b and node n, the 64 neighbour slots of n) the program
  computes, by host operations, one array of shape [8, 64, 1024]: entry (b, k, n) is nbr[b, n, k] + b·1024, the
  row of the flattened [8·1024, 128] array that holds node nbr[b, n, k] of batch b. The offsets b·1024 are an iota over
  the 8 batches times the constant 1024, broadcast along the other two axes. For call q it then takes the 16 slots
  16q … 16q + 15 and reads the [8, 16, 1024] block, in row-major order, as [32, 32, 128].
  If every neighbour is below 1024 then every entry is below 8·1024 = 8192, with no wrap-around in 32 bits: a slice and a
  reshape only pick entries, and an entry is nbr + b·1024 with nbr ≤ 1023 and b ≤ 7.
-/
import proofs.«215235_g2774548873965_cont_9to1_572_34_alg».proof.Kernel
import proofs.«215235_g2774548873965_cont_9to1_572_34_alg».proof.Proof.Gen.Kernel
import Idealize.ShloMosaic.Lib.ValueIdx

noncomputable section

namespace Cert.Kernel.HostIdx

open Cert.Kernel Idealize.ShloMosaic
open Facts₀ Facts

variable [Facts]

/-- The row numbers for all 64 slots: the neighbours with the last two axes exchanged, plus the batch offsets (an iota
    over the batches times 1024, broadcast to [8, 1, 1] and then to [8, 64, 1024]). Operation by operation as the
    program has them. -/
def rowsAll (a2 : IVec S8x1024x64 32) : IVec S8x64x1024 32 :=
  addi (transpose S8x64x1024 [0, 2, 1] a2 transposes_S8x1024x64_S8x64x1024_0_2_1)
    (broadcastInDim S8x64x1024 ![0, 1, 2] bcast_S8x1x1_S8x64x1024_0_1_2
      (broadcastInDim S8x1x1 ![0] bcast_S8_S8x1x1_0
        (muli (iotaInDim S8 32 0) (broadcastInDim S8 ![] bcast_S_S8 (constantI S_ 32 1024#32)))))

/-- The index array of call q: slots 16q … 16q + 15 of the row numbers, read as [32, 32, 128]. -/
def idxVal : Fin 4 → IVec S8x1024x64 32 → IVec S32x32x128 32
  | 0, a2 => shapeCast S32x32x128 (extractStridedSlice S8x16x1024 ![0, 0, 0] (rowsAll a2) slices_S8x64x1024_S8x16x1024_0_0_0)
      shapeCasts_S8x16x1024_S32x32x128
  | 1, a2 => shapeCast S32x32x128 (extractStridedSlice S8x16x1024 ![0, 16, 0] (rowsAll a2) slices_S8x64x1024_S8x16x1024_0_16_0)
      shapeCasts_S8x16x1024_S32x32x128
  | 2, a2 => shapeCast S32x32x128 (extractStridedSlice S8x16x1024 ![0, 32, 0] (rowsAll a2) slices_S8x64x1024_S8x16x1024_0_32_0)
      shapeCasts_S8x16x1024_S32x32x128
  | 3, a2 => shapeCast S32x32x128 (extractStridedSlice S8x16x1024 ![0, 48, 0] (rowsAll a2) slices_S8x64x1024_S8x16x1024_0_48_0)
      shapeCasts_S8x16x1024_S32x32x128

/-! ## The range -/

/-- A neighbour below 1024 plus the offset of one of the 8 batches is below 8192; nothing wraps around in 32 bits. -/
theorem entry_lt (x : BitVec 32) (b : Nat) (hx : x.toNat < 1024) (hb : b < 8) :
    (IntOp.addi x (IntOp.muli (BitVec.ofNat 32 b) 1024#32)).toNat < 8192 := by
  unfold IntOp.addi IntOp.muli
  rw [BitVec.toNat_add, BitVec.toNat_mul, BitVec.toNat_ofNat]
  have e : (1024#32 : BitVec 32).toNat = 1024 := by decide
  rw [e]
  omega

/-- Entry (b, k, n) of the row numbers is nbr[b, n, k] + b·1024. -/
theorem rowsAll_apply (a2 : IVec S8x1024x64 32) (k : S8x64x1024.Idx) :
    rowsAll a2 k = IntOp.addi (a2 (transposes_S8x1024x64_S8x64x1024_0_2_1.src k))
      (IntOp.muli (BitVec.ofNat 32 (k 0).val) 1024#32) := rfl

theorem rowsAll_lt (a2 : IVec S8x1024x64 32) (h : ∀ j, (a2 j).toNat < 1024) (k : S8x64x1024.Idx) :
    (rowsAll a2 k).toNat < 8192 := by
  rw [rowsAll_apply]
  exact entry_lt _ _ (h _) (k 0).isLt

/-- A slice and a reshape only pick entries: every entry of call q's index array is an entry of the row numbers. -/
theorem idxVal_mem (q : Fin 4) (a2 : IVec S8x1024x64 32) (j : S32x32x128.Idx) : ∃ k, idxVal q a2 j = rowsAll a2 k := by
  match q with
  | 0 => exact ⟨_, rfl⟩
  | 1 => exact ⟨_, rfl⟩
  | 2 => exact ⟨_, rfl⟩
  | 3 => exact ⟨_, rfl⟩

/-- THE RANGE: if every neighbour is below 1024, every entry of call q's index array is a row number below 8192. -/
theorem idxVal_lt (q : Fin 4) (a2 : IVec S8x1024x64 32) (h : ∀ j, (a2 j).toNat < 1024) :
    ∀ j, (idxVal q a2 j).toNat < 8192 := by
  intro j
  obtain ⟨k, hk⟩ := idxVal_mem q a2 j
  rw [hk]
  exact rowsAll_lt a2 h k

end Cert.Kernel.HostIdx

end
-- ==== Proof.HostFactsK.lean ====
/-
  Pure facts about the stretches of host operations between the kernel launches.

  Each stretch is a list of operations, each writing one array of its own from the whole contents of its operands. So
  (a) an array that none of a stretch's operations writes has the same contents after the stretch as before;
  (b) after the twenty operations before the first sparse-core call, the array of row numbers (all 64 neighbour slots)
      and the first call's index array are the functions of the neighbour argument written out in the module on the
      computed index arrays, hence in range when every neighbour is below 1024;
  (c) each later call's index array is a slice of the row numbers read in another shape: every entry of it is an entry of
      the row numbers, hence in range when those are.
-/
import proofs.«215235_g2774548873965_cont_9to1_572_34_alg».proof.Proof.MainSegsK
import proofs.«215235_g2774548873965_cont_9to1_572_34_alg».proof.Proof.HostIdxK

noncomputable section

namespace Cert.Kernel.Sc

open Cert.Kernel Idealize.ShloMosaic Idealize.ShloMosaic.TcCoe Idealize.SL.Sem Idealize.ShloMosaic.StableHlo
open Facts₀ Facts

variable {F : FTy → Type} [FloatOps F]

/-! ## (a) What a stretch does not write, it keeps -/

/-- An operation that writes the one array y writes inside any list of arrays that has y. -/
theorem wr {Wl : List (Ref sig .tc)} {y : Ref sig .tc} (h : y ∈ Wl) :
    ({Proc.devRef .tc y} : Finset (DevRef τ sig)) ⊆ (Wl.map (Proc.devRef (τ := τ) .tc)).toFinset :=
  Finset.singleton_subset_iff.mpr (List.mem_toFinset.mpr (List.mem_map_of_mem h))

/-- The arrays host stretch 0 writes, one per operation, in order. -/
abbrev host0_W : List (Ref sig .tc) := [main_v0]
theorem host0_writes : (host0 : List (HloOp τ sig (Elt F))).Forall fun op =>
    op.writes ⊆ (host0_W.map (Proc.devRef (τ := τ) .tc)).toFinset := by
  simp only [List.Forall]
  exact wr (by decide)
/-- An array host stretch 0 does not write keeps its contents through it. -/
theorem host0_keeps (W : Valuation τ sig (Elt F)) (b : Ref sig .tc) (hb : b ∉ host0_W) :
    after (host0 (F := F)) W (Proc.devRef .tc b) = W (Proc.devRef .tc b) :=
  after_of_writes_sub host0 W host0_writes hb

/-- The arrays host stretch 1 writes, one per operation, in order. -/
abbrev host1_W : List (Ref sig .tc) := [main_v2, main_v3, main_cst, main_v4, main_v5, main_v6, main_v7, main_v8, main_v9, main_c, main_v10, main_v11, main_v12, main_v13, main_v14, main_v15, main_v16, main_v17, main_v18, main_v19]
theorem host1_writes : (host1 : List (HloOp τ sig (Elt F))).Forall fun op =>
    op.writes ⊆ (host1_W.map (Proc.devRef (τ := τ) .tc)).toFinset := by
  simp only [List.Forall]
  exact ⟨wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide)⟩
/-- An array host stretch 1 does not write keeps its contents through it. -/
theorem host1_keeps (W : Valuation τ sig (Elt F)) (b : Ref sig .tc) (hb : b ∉ host1_W) :
    after (host1 (F := F)) W (Proc.devRef .tc b) = W (Proc.devRef .tc b) :=
  after_of_writes_sub host1 W host1_writes hb

/-- Host stretch 2 is empty: nothing changes. -/
theorem host2_keeps (W : Valuation τ sig (Elt F)) (b : Ref sig .tc) (hb : b ∉ ([] : List (Ref sig .tc))) :
    after (host2 (F := F)) W (Proc.devRef .tc b) = W (Proc.devRef .tc b) := rfl

/-- The arrays host stretch 3 writes, one per operation, in order. -/
abbrev host3_W : List (Ref sig .tc) := [main_v22, main_v23]
theorem host3_writes : (host3 : List (HloOp τ sig (Elt F))).Forall fun op =>
    op.writes ⊆ (host3_W.map (Proc.devRef (τ := τ) .tc)).toFinset := by
  simp only [List.Forall]
  exact ⟨wr (by decide), wr (by decide)⟩
/-- An array host stretch 3 does not write keeps its contents through it. -/
theorem host3_keeps (W : Valuation τ sig (Elt F)) (b : Ref sig .tc) (hb : b ∉ host3_W) :
    after (host3 (F := F)) W (Proc.devRef .tc b) = W (Proc.devRef .tc b) :=
  after_of_writes_sub host3 W host3_writes hb

/-- Host stretch 4 is empty: nothing changes. -/
theorem host4_keeps (W : Valuation τ sig (Elt F)) (b : Ref sig .tc) (hb : b ∉ ([] : List (Ref sig .tc))) :
    after (host4 (F := F)) W (Proc.devRef .tc b) = W (Proc.devRef .tc b) := rfl

/-- The arrays host stretch 5 writes, one per operation, in order. -/
abbrev host5_W : List (Ref sig .tc) := [main_v26, main_v27]
theorem host5_writes : (host5 : List (HloOp τ sig (Elt F))).Forall fun op =>
    op.writes ⊆ (host5_W.map (Proc.devRef (τ := τ) .tc)).toFinset := by
  simp only [List.Forall]
  exact ⟨wr (by decide), wr (by decide)⟩
/-- An array host stretch 5 does not write keeps its contents through it. -/
theorem host5_keeps (W : Valuation τ sig (Elt F)) (b : Ref sig .tc) (hb : b ∉ host5_W) :
    after (host5 (F := F)) W (Proc.devRef .tc b) = W (Proc.devRef .tc b) :=
  after_of_writes_sub host5 W host5_writes hb

/-- Host stretch 6 is empty: nothing changes. -/
theorem host6_keeps (W : Valuation τ sig (Elt F)) (b : Ref sig .tc) (hb : b ∉ ([] : List (Ref sig .tc))) :
    after (host6 (F := F)) W (Proc.devRef .tc b) = W (Proc.devRef .tc b) := rfl

/-- The arrays host stretch 7 writes, one per operation, in order. -/
abbrev host7_W : List (Ref sig .tc) := [main_v30, main_v31]
theorem host7_writes : (host7 : List (HloOp τ sig (Elt F))).Forall fun op =>
    op.writes ⊆ (host7_W.map (Proc.devRef (τ := τ) .tc)).toFinset := by
  simp only [List.Forall]
  exact ⟨wr (by decide), wr (by decide)⟩
/-- An array host stretch 7 does not write keeps its contents through it. -/
theorem host7_keeps (W : Valuation τ sig (Elt F)) (b : Ref sig .tc) (hb : b ∉ host7_W) :
    after (host7 (F := F)) W (Proc.devRef .tc b) = W (Proc.devRef .tc b) :=
  after_of_writes_sub host7 W host7_writes hb

/-- Host stretch 8 is empty: nothing changes. -/
theorem host8_keeps (W : Valuation τ sig (Elt F)) (b : Ref sig .tc) (hb : b ∉ ([] : List (Ref sig .tc))) :
    after (host8 (F := F)) W (Proc.devRef .tc b) = W (Proc.devRef .tc b) := rfl

/-- The arrays host stretch 9 writes, one per operation, in order. -/
abbrev host9_W : List (Ref sig .tc) := [main_v34, main_v35]
theorem host9_writes : (host9 : List (HloOp τ sig (Elt F))).Forall fun op =>
    op.writes ⊆ (host9_W.map (Proc.devRef (τ := τ) .tc)).toFinset := by
  simp only [List.Forall]
  exact ⟨wr (by decide), wr (by decide)⟩
/-- An array host stretch 9 does not write keeps its contents through it. -/
theorem host9_keeps (W : Valuation τ sig (Elt F)) (b : Ref sig .tc) (hb : b ∉ host9_W) :
    after (host9 (F := F)) W (Proc.devRef .tc b) = W (Proc.devRef .tc b) :=
  after_of_writes_sub host9 W host9_writes hb

/-- The arrays host stretch 10 writes, one per operation, in order. -/
abbrev host10_W : List (Ref sig .tc) := [main_v37]
theorem host10_writes : (host10 : List (HloOp τ sig (Elt F))).Forall fun op =>
    op.writes ⊆ (host10_W.map (Proc.devRef (τ := τ) .tc)).toFinset := by
  simp only [List.Forall]
  exact wr (by decide)
/-- An array host stretch 10 does not write keeps its contents through it. -/
theorem host10_keeps (W : Valuation τ sig (Elt F)) (b : Ref sig .tc) (hb : b ∉ host10_W) :
    after (host10 (F := F)) W (Proc.devRef .tc b) = W (Proc.devRef .tc b) :=
  after_of_writes_sub host10 W host10_writes hb

/-! ## (b) The row numbers and the first index array -/

/-- After the twenty operations, the array of row numbers is the module's function of the neighbour argument. -/
theorem host1_rowsAll (W : Valuation τ sig (Elt F)) :
    after (host1 (F := F)) W (Proc.devRef .tc main_v14) = HostIdx.rowsAll (W (Proc.devRef .tc main_arg2)) := by
  after_results
  rfl

/-- After the twenty operations, the first call's index array is the module's function of the neighbour argument. -/
theorem host1_idxVal (W : Valuation τ sig (Elt F)) :
    after (host1 (F := F)) W (Proc.devRef .tc main_v19) = HostIdx.idxVal 0 (W (Proc.devRef .tc main_arg2)) := by
  after_results
  rfl

/-- Both are in range when every neighbour is below 1024. -/
theorem host1_range (W : Valuation τ sig (Elt F)) (h : ∀ j, (W (Proc.devRef .tc main_arg2) j).toNat < 1024) :
    (∀ j, (after (host1 (F := F)) W (Proc.devRef .tc main_v14) j).toNat < 8192)
      ∧ (∀ j, (after (host1 (F := F)) W (Proc.devRef .tc main_v19) j).toNat < 8192) := by
  refine ⟨fun j => ?_, fun j => ?_⟩
  · rw [host1_rowsAll]
    exact HostIdx.rowsAll_lt _ h j
  · rw [host1_idxVal]
    exact HostIdx.idxVal_lt 0 _ h j

/-! ## (c) The later index arrays -/

/-- Every entry of the index array host stretch 3 computes is an entry of the row numbers. -/
theorem host3_mem (W : Valuation τ sig (Elt F)) (j : S32x32x128.Idx) :
    ∃ i, after (host3 (F := F)) W (Proc.devRef .tc main_v23) j = W (Proc.devRef .tc main_v14) i := by
  have e : after (host3 (F := F)) W (Proc.devRef .tc main_v23)
      = shapeCast S32x32x128 (extractStridedSlice S8x16x1024 ![0, 16, 0] (W (Proc.devRef .tc main_v14)) slices_S8x64x1024_S8x16x1024_0_16_0)
          shapeCasts_S8x16x1024_S32x32x128 := by
    after_results
    rfl
  rw [e]
  exact ⟨_, rfl⟩

/-- So it is in range when the row numbers are. -/
theorem host3_range (W : Valuation τ sig (Elt F)) (h : ∀ j, (W (Proc.devRef .tc main_v14) j).toNat < 8192) :
    ∀ j, (after (host3 (F := F)) W (Proc.devRef .tc main_v23) j).toNat < 8192 := by
  intro j
  obtain ⟨i, hi⟩ := host3_mem W j
  rw [hi]
  exact h i

/-- Every entry of the index array host stretch 5 computes is an entry of the row numbers. -/
theorem host5_mem (W : Valuation τ sig (Elt F)) (j : S32x32x128.Idx) :
    ∃ i, after (host5 (F := F)) W (Proc.devRef .tc main_v27) j = W (Proc.devRef .tc main_v14) i := by
  have e : after (host5 (F := F)) W (Proc.devRef .tc main_v27)
      = shapeCast S32x32x128 (extractStridedSlice S8x16x1024 ![0, 32, 0] (W (Proc.devRef .tc main_v14)) slices_S8x64x1024_S8x16x1024_0_32_0)
          shapeCasts_S8x16x1024_S32x32x128 := by
    after_results
    rfl
  rw [e]
  exact ⟨_, rfl⟩

/-- So it is in range when the row numbers are. -/
theorem host5_range (W : Valuation τ sig (Elt F)) (h : ∀ j, (W (Proc.devRef .tc main_v14) j).toNat < 8192) :
    ∀ j, (after (host5 (F := F)) W (Proc.devRef .tc main_v27) j).toNat < 8192 := by
  intro j
  obtain ⟨i, hi⟩ := host5_mem W j
  rw [hi]
  exact h i

/-- Every entry of the index array host stretch 7 computes is an entry of the row numbers. -/
theorem host7_mem (W : Valuation τ sig (Elt F)) (j : S32x32x128.Idx) :
    ∃ i, after (host7 (F := F)) W (Proc.devRef .tc main_v31) j = W (Proc.devRef .tc main_v14) i := by
  have e : after (host7 (F := F)) W (Proc.devRef .tc main_v31)
      = shapeCast S32x32x128 (extractStridedSlice S8x16x1024 ![0, 48, 0] (W (Proc.devRef .tc main_v14)) slices_S8x64x1024_S8x16x1024_0_48_0)
          shapeCasts_S8x16x1024_S32x32x128 := by
    after_results
    rfl
  rw [e]
  exact ⟨_, rfl⟩

/-- So it is in range when the row numbers are. -/
theorem host7_range (W : Valuation τ sig (Elt F)) (h : ∀ j, (W (Proc.devRef .tc main_v14) j).toNat < 8192) :
    ∀ j, (after (host7 (F := F)) W (Proc.devRef .tc main_v31) j).toNat < 8192 := by
  intro j
  obtain ⟨i, hi⟩ := host7_mem W j
  rw [hi]
  exact h i

end Cert.Kernel.Sc

end
-- ==== Proof.ScFinK.lean ====
/-
  The end of the walk: the fourteen argument arrays, read back out of everything the tensor core holds.

  At the end the tensor core holds every array of @main whole at a valuation W that agrees with the launch contents
  at the fourteen arguments (no segment wrote one). The fourteen are distinct unscoped arrays, so they come out of the
  held set as fourteen separate points-to assertions, each at its launch contents: the final assertion of @main.
-/
import proofs.«215235_g2774548873965_cont_9to1_572_34_alg».proof.Proof.ScStateK

noncomputable section

namespace Cert.Kernel.Sc

open Cert.Kernel
open Idealize.ShloMosaic Idealize.ShloMosaic.StableHlo
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

/-- The fourteen argument arrays, as device buffers. -/
abbrev argSet : Finset (DevRef τ sig) := ({Proc.devRef .tc main_arg0, Proc.devRef .tc main_arg1, Proc.devRef .tc main_arg2, Proc.devRef .tc main_arg3, Proc.devRef .tc main_arg4, Proc.devRef .tc main_arg5, Proc.devRef .tc main_arg6, Proc.devRef .tc main_arg7, Proc.devRef .tc main_arg8, Proc.devRef .tc main_arg9, Proc.devRef .tc main_arg10, Proc.devRef .tc main_arg11, Proc.devRef .tc main_arg12, Proc.devRef .tc main_arg13} : Finset (DevRef τ sig))

/-- The argument arrays, as references. -/
abbrev argList : List (Ref sig .tc) := [main_arg0, main_arg1, main_arg2, main_arg3, main_arg4, main_arg5, main_arg6, main_arg7, main_arg8, main_arg9, main_arg10, main_arg11, main_arg12, main_arg13]

theorem argSet_sub : (argSet : Finset (DevRef τ sig)) ⊆ Pipeline.ucRefs τ sig := by
  intro b hb
  simp only [argSet, Finset.mem_insert, Finset.mem_singleton] at hb
  unfold Pipeline.ucRefs
  rw [Finset.mem_filter]
  rcases hb with rfl | rfl | rfl | rfl | rfl | rfl | rfl | rfl | rfl | rfl | rfl | rfl | rfl | rfl
  · exact ⟨devRef_mem_tcRefs main_arg0, by decide⟩
  · exact ⟨devRef_mem_tcRefs main_arg1, by decide⟩
  · exact ⟨devRef_mem_tcRefs main_arg2, by decide⟩
  · exact ⟨devRef_mem_tcRefs main_arg3, by decide⟩
  · exact ⟨devRef_mem_tcRefs main_arg4, by decide⟩
  · exact ⟨devRef_mem_tcRefs main_arg5, by decide⟩
  · exact ⟨devRef_mem_tcRefs main_arg6, by decide⟩
  · exact ⟨devRef_mem_tcRefs main_arg7, by decide⟩
  · exact ⟨devRef_mem_tcRefs main_arg8, by decide⟩
  · exact ⟨devRef_mem_tcRefs main_arg9, by decide⟩
  · exact ⟨devRef_mem_tcRefs main_arg10, by decide⟩
  · exact ⟨devRef_mem_tcRefs main_arg11, by decide⟩
  · exact ⟨devRef_mem_tcRefs main_arg12, by decide⟩
  · exact ⟨devRef_mem_tcRefs main_arg13, by decide⟩

set_option maxRecDepth 16384 in
/-- The fourteen, held at W, are fourteen points-to assertions at W's contents. -/
theorem held_args (d : Dev nD) (W : Valuation τ sig (Elt F)) :
    (held (d.tc : Thread nD τ) argSet W : sProp 𝕄)
      = iprop(((SparseCore.T d).loc main_arg0 ↦{fullShare} W (Proc.devRef .tc main_arg0))
          ∗ ((SparseCore.T d).loc main_arg1 ↦{fullShare} W (Proc.devRef .tc main_arg1))
          ∗ ((SparseCore.T d).loc main_arg2 ↦{fullShare} W (Proc.devRef .tc main_arg2))
          ∗ ((SparseCore.T d).loc main_arg3 ↦{fullShare} W (Proc.devRef .tc main_arg3))
          ∗ ((SparseCore.T d).loc main_arg4 ↦{fullShare} W (Proc.devRef .tc main_arg4))
          ∗ ((SparseCore.T d).loc main_arg5 ↦{fullShare} W (Proc.devRef .tc main_arg5))
          ∗ ((SparseCore.T d).loc main_arg6 ↦{fullShare} W (Proc.devRef .tc main_arg6))
          ∗ ((SparseCore.T d).loc main_arg7 ↦{fullShare} W (Proc.devRef .tc main_arg7))
          ∗ ((SparseCore.T d).loc main_arg8 ↦{fullShare} W (Proc.devRef .tc main_arg8))
          ∗ ((SparseCore.T d).loc main_arg9 ↦{fullShare} W (Proc.devRef .tc main_arg9))
          ∗ ((SparseCore.T d).loc main_arg10 ↦{fullShare} W (Proc.devRef .tc main_arg10))
          ∗ ((SparseCore.T d).loc main_arg11 ↦{fullShare} W (Proc.devRef .tc main_arg11))
          ∗ ((SparseCore.T d).loc main_arg12 ↦{fullShare} W (Proc.devRef .tc main_arg12))
          ∗ ((SparseCore.T d).loc main_arg13 ↦{fullShare} W (Proc.devRef .tc main_arg13))) := by
  have h0 : (Proc.devRef (τ := τ) .tc main_arg0) ∉ ({Proc.devRef .tc main_arg1, Proc.devRef .tc main_arg2, Proc.devRef .tc main_arg3, Proc.devRef .tc main_arg4, Proc.devRef .tc main_arg5, Proc.devRef .tc main_arg6, Proc.devRef .tc main_arg7, Proc.devRef .tc main_arg8, Proc.devRef .tc main_arg9, Proc.devRef .tc main_arg10, Proc.devRef .tc main_arg11, Proc.devRef .tc main_arg12, Proc.devRef .tc main_arg13} : Finset (DevRef τ sig)) := by
    simp only [Finset.mem_insert, Finset.mem_singleton, not_or]
    exact ⟨devRef_ne_of_ne (by decide), devRef_ne_of_ne (by decide), devRef_ne_of_ne (by decide), devRef_ne_of_ne (by decide), devRef_ne_of_ne (by decide), devRef_ne_of_ne (by decide), devRef_ne_of_ne (by decide), devRef_ne_of_ne (by decide), devRef_ne_of_ne (by decide), devRef_ne_of_ne (by decide), devRef_ne_of_ne (by decide), devRef_ne_of_ne (by decide), devRef_ne_of_ne (by decide)⟩
  have h1 : (Proc.devRef (τ := τ) .tc main_arg1) ∉ ({Proc.devRef .tc main_arg2, Proc.devRef .tc main_arg3, Proc.devRef .tc main_arg4, Proc.devRef .tc main_arg5, Proc.devRef .tc main_arg6, Proc.devRef .tc main_arg7, Proc.devRef .tc main_arg8, Proc.devRef .tc main_arg9, Proc.devRef .tc main_arg10, Proc.devRef .tc main_arg11, Proc.devRef .tc main_arg12, Proc.devRef .tc main_arg13} : Finset (DevRef τ sig)) := by
    simp only [Finset.mem_insert, Finset.mem_singleton, not_or]
    exact ⟨devRef_ne_of_ne (by decide), devRef_ne_of_ne (by decide), devRef_ne_of_ne (by decide), devRef_ne_of_ne (by decide), devRef_ne_of_ne (by decide), devRef_ne_of_ne (by decide), devRef_ne_of_ne (by decide), devRef_ne_of_ne (by decide), devRef_ne_of_ne (by decide), devRef_ne_of_ne (by decide), devRef_ne_of_ne (by decide), devRef_ne_of_ne (by decide)⟩
  have h2 : (Proc.devRef (τ := τ) .tc main_arg2) ∉ ({Proc.devRef .tc main_arg3, Proc.devRef .tc main_arg4, Proc.devRef .tc main_arg5, Proc.devRef .tc main_arg6, Proc.devRef .tc main_arg7, Proc.devRef .tc main_arg8, Proc.devRef .tc main_arg9, Proc.devRef .tc main_arg10, Proc.devRef .tc main_arg11, Proc.devRef .tc main_arg12, Proc.devRef .tc main_arg13} : Finset (DevRef τ sig)) := by
    simp only [Finset.mem_insert, Finset.mem_singleton, not_or]
    exact ⟨devRef_ne_of_ne (by decide), devRef_ne_of_ne (by decide), devRef_ne_of_ne (by decide), devRef_ne_of_ne (by decide), devRef_ne_of_ne (by decide), devRef_ne_of_ne (by decide), devRef_ne_of_ne (by decide), devRef_ne_of_ne (by decide), devRef_ne_of_ne (by decide), devRef_ne_of_ne (by decide), devRef_ne_of_ne (by decide)⟩
  have h3 : (Proc.devRef (τ := τ) .tc main_arg3) ∉ ({Proc.devRef .tc main_arg4, Proc.devRef .tc main_arg5, Proc.devRef .tc main_arg6, Proc.devRef .tc main_arg7, Proc.devRef .tc main_arg8, Proc.devRef .tc main_arg9, Proc.devRef .tc main_arg10, Proc.devRef .tc main_arg11, Proc.devRef .tc main_arg12, Proc.devRef .tc main_arg13} : Finset (DevRef τ sig)) := by
    simp only [Finset.mem_insert, Finset.mem_singleton, not_or]
    exact ⟨devRef_ne_of_ne (by decide), devRef_ne_of_ne (by decide), devRef_ne_of_ne (by decide), devRef_ne_of_ne (by decide), devRef_ne_of_ne (by decide), devRef_ne_of_ne (by decide), devRef_ne_of_ne (by decide), devRef_ne_of_ne (by decide), devRef_ne_of_ne (by decide), devRef_ne_of_ne (by decide)⟩
  have h4 : (Proc.devRef (τ := τ) .tc main_arg4) ∉ ({Proc.devRef .tc main_arg5, Proc.devRef .tc main_arg6, Proc.devRef .tc main_arg7, Proc.devRef .tc main_arg8, Proc.devRef .tc main_arg9, Proc.devRef .tc main_arg10, Proc.devRef .tc main_arg11, Proc.devRef .tc main_arg12, Proc.devRef .tc main_arg13} : Finset (DevRef τ sig)) := by
    simp only [Finset.mem_insert, Finset.mem_singleton, not_or]
    exact ⟨devRef_ne_of_ne (by decide), devRef_ne_of_ne (by decide), devRef_ne_of_ne (by decide), devRef_ne_of_ne (by decide), devRef_ne_of_ne (by decide), devRef_ne_of_ne (by decide), devRef_ne_of_ne (by decide), devRef_ne_of_ne (by decide), devRef_ne_of_ne (by decide)⟩
  have h5 : (Proc.devRef (τ := τ) .tc main_arg5) ∉ ({Proc.devRef .tc main_arg6, Proc.devRef .tc main_arg7, Proc.devRef .tc main_arg8, Proc.devRef .tc main_arg9, Proc.devRef .tc main_arg10, Proc.devRef .tc main_arg11, Proc.devRef .tc main_arg12, Proc.devRef .tc main_arg13} : Finset (DevRef τ sig)) := by
    simp only [Finset.mem_insert, Finset.mem_singleton, not_or]
    exact ⟨devRef_ne_of_ne (by decide), devRef_ne_of_ne (by decide), devRef_ne_of_ne (by decide), devRef_ne_of_ne (by decide), devRef_ne_of_ne (by decide), devRef_ne_of_ne (by decide), devRef_ne_of_ne (by decide), devRef_ne_of_ne (by decide)⟩
  have h6 : (Proc.devRef (τ := τ) .tc main_arg6) ∉ ({Proc.devRef .tc main_arg7, Proc.devRef .tc main_arg8, Proc.devRef .tc main_arg9, Proc.devRef .tc main_arg10, Proc.devRef .tc main_arg11, Proc.devRef .tc main_arg12, Proc.devRef .tc main_arg13} : Finset (DevRef τ sig)) := by
    simp only [Finset.mem_insert, Finset.mem_singleton, not_or]
    exact ⟨devRef_ne_of_ne (by decide), devRef_ne_of_ne (by decide), devRef_ne_of_ne (by decide), devRef_ne_of_ne (by decide), devRef_ne_of_ne (by decide), devRef_ne_of_ne (by decide), devRef_ne_of_ne (by decide)⟩
  have h7 : (Proc.devRef (τ := τ) .tc main_arg7) ∉ ({Proc.devRef .tc main_arg8, Proc.devRef .tc main_arg9, Proc.devRef .tc main_arg10, Proc.devRef .tc main_arg11, Proc.devRef .tc main_arg12, Proc.devRef .tc main_arg13} : Finset (DevRef τ sig)) := by
    simp only [Finset.mem_insert, Finset.mem_singleton, not_or]
    exact ⟨devRef_ne_of_ne (by decide), devRef_ne_of_ne (by decide), devRef_ne_of_ne (by decide), devRef_ne_of_ne (by decide), devRef_ne_of_ne (by decide), devRef_ne_of_ne (by decide)⟩
  have h8 : (Proc.devRef (τ := τ) .tc main_arg8) ∉ ({Proc.devRef .tc main_arg9, Proc.devRef .tc main_arg10, Proc.devRef .tc main_arg11, Proc.devRef .tc main_arg12, Proc.devRef .tc main_arg13} : Finset (DevRef τ sig)) := by
    simp only [Finset.mem_insert, Finset.mem_singleton, not_or]
    exact ⟨devRef_ne_of_ne (by decide), devRef_ne_of_ne (by decide), devRef_ne_of_ne (by decide), devRef_ne_of_ne (by decide), devRef_ne_of_ne (by decide)⟩
  have h9 : (Proc.devRef (τ := τ) .tc main_arg9) ∉ ({Proc.devRef .tc main_arg10, Proc.devRef .tc main_arg11, Proc.devRef .tc main_arg12, Proc.devRef .tc main_arg13} : Finset (DevRef τ sig)) := by
    simp only [Finset.mem_insert, Finset.mem_singleton, not_or]
    exact ⟨devRef_ne_of_ne (by decide), devRef_ne_of_ne (by decide), devRef_ne_of_ne (by decide), devRef_ne_of_ne (by decide)⟩
  have h10 : (Proc.devRef (τ := τ) .tc main_arg10) ∉ ({Proc.devRef .tc main_arg11, Proc.devRef .tc main_arg12, Proc.devRef .tc main_arg13} : Finset (DevRef τ sig)) := by
    simp only [Finset.mem_insert, Finset.mem_singleton, not_or]
    exact ⟨devRef_ne_of_ne (by decide), devRef_ne_of_ne (by decide), devRef_ne_of_ne (by decide)⟩
  have h11 : (Proc.devRef (τ := τ) .tc main_arg11) ∉ ({Proc.devRef .tc main_arg12, Proc.devRef .tc main_arg13} : Finset (DevRef τ sig)) := by
    simp only [Finset.mem_insert, Finset.mem_singleton, not_or]
    exact ⟨devRef_ne_of_ne (by decide), devRef_ne_of_ne (by decide)⟩
  have h12 : (Proc.devRef (τ := τ) .tc main_arg12) ∉ ({Proc.devRef .tc main_arg13} : Finset (DevRef τ sig)) := by
    simp only [Finset.mem_insert, Finset.mem_singleton, not_or]
    exact devRef_ne_of_ne (by decide)
  unfold held argSet
  rw [bigSep_insert h0, bigSep_insert h1, bigSep_insert h2, bigSep_insert h3, bigSep_insert h4, bigSep_insert h5, bigSep_insert h6, bigSep_insert h7, bigSep_insert h8, bigSep_insert h9, bigSep_insert h10, bigSep_insert h11, bigSep_insert h12, bigSep_singleton]
  rfl

/-- From everything held at a valuation that agrees with the launch contents at the arguments, the final assertion. -/
theorem fin_of_held (m : (ℓ : Loc nD τ sig) → Buf (Elt F) ℓ) (d : Dev nD) (W : Valuation τ sig (Elt F))
    (hW : ∀ b ∈ argList, W (Proc.devRef .tc b) = launchContents m d (Proc.devRef .tc b)) :
    (held (d.tc : Thread nD τ) (Pipeline.ucRefs τ sig) W : sProp 𝕄) ⊢ FIN m d := by
  rw [held_sub_split (d.tc : Thread nD τ) argSet_sub W, held_args d W]
  rw [hW main_arg0 (by simp [argList])]
  rw [hW main_arg1 (by simp [argList])]
  rw [hW main_arg2 (by simp [argList])]
  rw [hW main_arg3 (by simp [argList])]
  rw [hW main_arg4 (by simp [argList])]
  rw [hW main_arg5 (by simp [argList])]
  rw [hW main_arg6 (by simp [argList])]
  rw [hW main_arg7 (by simp [argList])]
  rw [hW main_arg8 (by simp [argList])]
  rw [hW main_arg9 (by simp [argList])]
  rw [hW main_arg10 (by simp [argList])]
  rw [hW main_arg11 (by simp [argList])]
  rw [hW main_arg12 (by simp [argList])]
  rw [hW main_arg13 (by simp [argList])]
  exact sep_elim_left

end Cert.Kernel.Sc

end
-- ==== Proof.ScWalkK.lean ====
/-
  @main walked, relative to its ten launches.

  Given, for each of the six regions, that its custom call takes the tensor core's state between two lines to the same
  state with only the region's output array changed, and, for each of the four sparse-core calls, that the call takes
  the state before it (its index array's entries row numbers of y) to the state after it with only its three arrays
  changed — @main runs from what the launch deals the tensor core to the fourteen argument arrays as launched.
  Two facts are carried along the walk: no segment writes an argument array, so each is at its launch contents at the
  end; and the array of offset neighbour indices b·1024 + nbr, once the twenty host operations have computed it, is
  written by nothing afterwards and every entry of it is below 8192, so each sixteen-slot slice of it, reshaped for the
  32 tiles, has every entry below 8192 when its call comes.
-/
import proofs.«215235_g2774548873965_cont_9to1_572_34_alg».proof.Proof.ScStateK
import proofs.«215235_g2774548873965_cont_9to1_572_34_alg».proof.Proof.HostFactsK
import proofs.«215235_g2774548873965_cont_9to1_572_34_alg».proof.Proof.ScFinK

noncomputable section

namespace Cert.Kernel.Sc

open Cert.Kernel
open Idealize.ShloMosaic Idealize.ShloMosaic.StableHlo
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 4) (Elt F) ℕ UU ℕ

/-- An array other than the three a call is handed is not among them. -/
theorem notin_three {b y ix o : Ref sig .tc} (h1 : b ≠ y) (h2 : b ≠ ix) (h3 : b ≠ o) :
    (Proc.devRef (τ := τ) .tc b) ∉ ({Proc.devRef .tc y, Proc.devRef .tc ix, Proc.devRef .tc o} : Finset (DevRef τ sig)) := by
  simp only [Finset.mem_insert, Finset.mem_singleton, not_or]
  exact ⟨devRef_ne_of_ne h1, devRef_ne_of_ne h2, devRef_ne_of_ne h3⟩

set_option maxHeartbeats 4000000 in
set_option maxRecDepth 16384 in
theorem hmain_of
    (r0 : SegRegion (F := F) 0 0 (Proc.devRef .tc main_v1)) (r1 : SegRegion (F := F) 1 1 (Proc.devRef .tc main_v21))
    (r2 : SegRegion (F := F) 2 2 (Proc.devRef .tc main_v25)) (r3 : SegRegion (F := F) 3 3 (Proc.devRef .tc main_v29))
    (r4 : SegRegion (F := F) 4 4 (Proc.devRef .tc main_v33)) (r5 : SegRegion (F := F) 5 4 (Proc.devRef .tc main_v36))
    (c0 : SegCall (F := F) 0 main_v19 main_v20 (fun W => ∀ j, (W (Proc.devRef .tc main_v19) j).toNat < 8192))
    (c1 : SegCall (F := F) 1 main_v23 main_v24 (fun W => ∀ j, (W (Proc.devRef .tc main_v23) j).toNat < 8192))
    (c2 : SegCall (F := F) 2 main_v27 main_v28 (fun W => ∀ j, (W (Proc.devRef .tc main_v27) j).toNat < 8192))
    (c3 : SegCall (F := F) 3 main_v31 main_v32 (fun W => ∀ j, (W (Proc.devRef .tc main_v31) j).toNat < 8192))
    (m : (ℓ : Loc nD τ sig) → Buf (Elt F) ℓ) (ρ : Dev nD → PrngReg) (hok : NbrOK m) (κ : GSem nD τ sig → ℕ) (d : Dev nD) :
    iprop((K (F := F)).ctx EH (P (F := F)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 4 ∗ FIN m d) := by
  rw [main_eq]
  unfold SparseCore.Cfg.tcRes
  -- the launch's arrays are the held set at the launch valuation
  let W0 : Valuation τ sig (Elt F) := launchContents m d
  rw [show (unscopedBufs d (fun b => m ((SparseCore.T d).loc b)) : sProp 𝕄)
      = held (d.tc : Thread nD τ) (Pipeline.ucRefs τ sig) W0 from Pipeline.unscopedBufs_held d W0]
  iintro ⟨#Hctx, Hst, ⟨Hb, Hu, -, -⟩, HG⟩
  ihave HTS : TS (F := F) d 0 W0 Finset.univ $$ [Hb Hu Hst HG]
  · isplitl [Hb]
    · iexact Hb
    isplitl [Hu]
    · iexact Hu
    isplitl [Hst]
    · iexact Hst
    · iexact HG
  have hA : ∀ b ∈ argList, W0 (Proc.devRef .tc b) = launchContents m d (Proc.devRef .tc b) := fun _ _ => rfl
  have hA1 : ∀ b ∈ argList, (after host0 W0) (Proc.devRef .tc b) = launchContents m d (Proc.devRef .tc b) :=
    fun b hb => (host0_keeps (F := F) W0 b ((by decide : ∀ b ∈ argList, b ∉ host0_W) b hb)).trans (hA b hb)
  iapply (seg_host (F := F) d 0 W0 (Finset.univ) host0 host0_sub host0_fresh _ _)
  isplitl [HTS]
  · iexact HTS
  iintro HTS
  clear hA; have hA := hA1
  -- region 0
  iapply (r0 κ d (after host0 W0) (Finset.univ) (by decide) _ _)
  isplitr
  · iexact Hctx
  isplitl [HTS]
  · iexact HTS
  iintro %W2 %hW2 HTS
  have hA2 : ∀ b ∈ argList, W2 (Proc.devRef .tc b) = launchContents m d (Proc.devRef .tc b) :=
    fun b hb => (hW2 _ (devRef_ne_of_ne ((by decide : ∀ b ∈ argList, b ≠ main_v1) b hb))).trans (hA b hb)
  clear hA; have hA := hA2
  -- the neighbour indices, still at their launch contents, are below 1024
  have hnb3 : ∀ j, (W2 (Proc.devRef .tc main_arg2) j).toNat < 1024 := by
    rw [hA main_arg2 (by simp [argList])]; exact hok d
  obtain ⟨hJ3, hin0⟩ := host1_range (F := F) W2 hnb3
  have hA3 : ∀ b ∈ argList, (after host1 W2) (Proc.devRef .tc b) = launchContents m d (Proc.devRef .tc b) :=
    fun b hb => (host1_keeps (F := F) W2 b ((by decide : ∀ b ∈ argList, b ∉ host1_W) b hb)).trans (hA b hb)
  iapply (seg_host (F := F) d 0 W2 ((Finset.univ).erase 0) host1 host1_sub host1_fresh _ _)
  isplitl [HTS]
  · iexact HTS
  iintro HTS
  clear hA; have hA := hA3
  have hJ := hJ3
  -- call 0
  iapply (c0 κ d (after host1 W2) ((Finset.univ).erase 0) hin0 _ _)
  isplitr
  · iexact Hctx
  isplitl [HTS]
  · iexact HTS
  iintro %W4 %hW4 HTS
  have hA4 : ∀ b ∈ argList, W4 (Proc.devRef .tc b) = launchContents m d (Proc.devRef .tc b) :=
    fun b hb => (hW4 _ (notin_three ((by decide : ∀ b ∈ argList, b ≠ main_v1) b hb) ((by decide : ∀ b ∈ argList, b ≠ main_v19) b hb) ((by decide : ∀ b ∈ argList, b ≠ main_v20) b hb))).trans (hA b hb)
  clear hA; have hA := hA4
  have hJ4 : ∀ j, (W4 (Proc.devRef .tc main_v14) j).toNat < 8192 := by
    rw [hW4 _ (notin_three (by decide : main_v14 ≠ main_v1) (by decide : main_v14 ≠ main_v19) (by decide : main_v14 ≠ main_v20))]; exact hJ
  clear hJ; have hJ := hJ4
  have hA5 : ∀ b ∈ argList, (after host2 W4) (Proc.devRef .tc b) = launchContents m d (Proc.devRef .tc b) :=
    fun b hb => (host2_keeps (F := F) W4 b ((by decide : ∀ b ∈ argList, b ∉ ([] : List (Ref sig .tc))) b hb)).trans (hA b hb)
  have hJ5 : ∀ j, ((after host2 W4) (Proc.devRef .tc main_v14) j).toNat < 8192 := by
    rw [host2_keeps (F := F) W4 main_v14 (by decide)]; exact hJ
  iapply (seg_host (F := F) d 1 W4 ((Finset.univ).erase 0) host2 host2_sub host2_fresh _ _)
  isplitl [HTS]
  · iexact HTS
  iintro HTS
  clear hA; have hA := hA5
  clear hJ; have hJ := hJ5
  -- region 1
  iapply (r1 κ d (after host2 W4) ((Finset.univ).erase 0) (by decide) _ _)
  isplitr
  · iexact Hctx
  isplitl [HTS]
  · iexact HTS
  iintro %W6 %hW6 HTS
  have hA6 : ∀ b ∈ argList, W6 (Proc.devRef .tc b) = launchContents m d (Proc.devRef .tc b) :=
    fun b hb => (hW6 _ (devRef_ne_of_ne ((by decide : ∀ b ∈ argList, b ≠ main_v21) b hb))).trans (hA b hb)
  clear hA; have hA := hA6
  have hJ6 : ∀ j, (W6 (Proc.devRef .tc main_v14) j).toNat < 8192 := by
    rw [hW6 _ (devRef_ne_of_ne (by decide : main_v14 ≠ main_v21))]; exact hJ
  clear hJ; have hJ := hJ6
  have hin1 := host3_range (F := F) W6 hJ
  have hA7 : ∀ b ∈ argList, (after host3 W6) (Proc.devRef .tc b) = launchContents m d (Proc.devRef .tc b) :=
    fun b hb => (host3_keeps (F := F) W6 b ((by decide : ∀ b ∈ argList, b ∉ host3_W) b hb)).trans (hA b hb)
  have hJ7 : ∀ j, ((after host3 W6) (Proc.devRef .tc main_v14) j).toNat < 8192 := by
    rw [host3_keeps (F := F) W6 main_v14 (by decide)]; exact hJ
  iapply (seg_host (F := F) d 1 W6 (((Finset.univ).erase 0).erase 1) host3 host3_sub host3_fresh _ _)
  isplitl [HTS]
  · iexact HTS
  iintro HTS
  clear hA; have hA := hA7
  clear hJ; have hJ := hJ7
  -- call 1
  iapply (c1 κ d (after host3 W6) (((Finset.univ).erase 0).erase 1) hin1 _ _)
  isplitr
  · iexact Hctx
  isplitl [HTS]
  · iexact HTS
  iintro %W8 %hW8 HTS
  have hA8 : ∀ b ∈ argList, W8 (Proc.devRef .tc b) = launchContents m d (Proc.devRef .tc b) :=
    fun b hb => (hW8 _ (notin_three ((by decide : ∀ b ∈ argList, b ≠ main_v1) b hb) ((by decide : ∀ b ∈ argList, b ≠ main_v23) b hb) ((by decide : ∀ b ∈ argList, b ≠ main_v24) b hb))).trans (hA b hb)
  clear hA; have hA := hA8
  have hJ8 : ∀ j, (W8 (Proc.devRef .tc main_v14) j).toNat < 8192 := by
    rw [hW8 _ (notin_three (by decide : main_v14 ≠ main_v1) (by decide : main_v14 ≠ main_v23) (by decide : main_v14 ≠ main_v24))]; exact hJ
  clear hJ; have hJ := hJ8
  have hA9 : ∀ b ∈ argList, (after host4 W8) (Proc.devRef .tc b) = launchContents m d (Proc.devRef .tc b) :=
    fun b hb => (host4_keeps (F := F) W8 b ((by decide : ∀ b ∈ argList, b ∉ ([] : List (Ref sig .tc))) b hb)).trans (hA b hb)
  have hJ9 : ∀ j, ((after host4 W8) (Proc.devRef .tc main_v14) j).toNat < 8192 := by
    rw [host4_keeps (F := F) W8 main_v14 (by decide)]; exact hJ
  iapply (seg_host (F := F) d 2 W8 (((Finset.univ).erase 0).erase 1) host4 host4_sub host4_fresh _ _)
  isplitl [HTS]
  · iexact HTS
  iintro HTS
  clear hA; have hA := hA9
  clear hJ; have hJ := hJ9
  -- region 2
  iapply (r2 κ d (after host4 W8) (((Finset.univ).erase 0).erase 1) (by decide) _ _)
  isplitr
  · iexact Hctx
  isplitl [HTS]
  · iexact HTS
  iintro %W10 %hW10 HTS
  have hA10 : ∀ b ∈ argList, W10 (Proc.devRef .tc b) = launchContents m d (Proc.devRef .tc b) :=
    fun b hb => (hW10 _ (devRef_ne_of_ne ((by decide : ∀ b ∈ argList, b ≠ main_v25) b hb))).trans (hA b hb)
  clear hA; have hA := hA10
  have hJ10 : ∀ j, (W10 (Proc.devRef .tc main_v14) j).toNat < 8192 := by
    rw [hW10 _ (devRef_ne_of_ne (by decide : main_v14 ≠ main_v25))]; exact hJ
  clear hJ; have hJ := hJ10
  have hin2 := host5_range (F := F) W10 hJ
  have hA11 : ∀ b ∈ argList, (after host5 W10) (Proc.devRef .tc b) = launchContents m d (Proc.devRef .tc b) :=
    fun b hb => (host5_keeps (F := F) W10 b ((by decide : ∀ b ∈ argList, b ∉ host5_W) b hb)).trans (hA b hb)
  have hJ11 : ∀ j, ((after host5 W10) (Proc.devRef .tc main_v14) j).toNat < 8192 := by
    rw [host5_keeps (F := F) W10 main_v14 (by decide)]; exact hJ
  iapply (seg_host (F := F) d 2 W10 ((((Finset.univ).erase 0).erase 1).erase 2) host5 host5_sub host5_fresh _ _)
  isplitl [HTS]
  · iexact HTS
  iintro HTS
  clear hA; have hA := hA11
  clear hJ; have hJ := hJ11
  -- call 2
  iapply (c2 κ d (after host5 W10) ((((Finset.univ).erase 0).erase 1).erase 2) hin2 _ _)
  isplitr
  · iexact Hctx
  isplitl [HTS]
  · iexact HTS
  iintro %W12 %hW12 HTS
  have hA12 : ∀ b ∈ argList, W12 (Proc.devRef .tc b) = launchContents m d (Proc.devRef .tc b) :=
    fun b hb => (hW12 _ (notin_three ((by decide : ∀ b ∈ argList, b ≠ main_v1) b hb) ((by decide : ∀ b ∈ argList, b ≠ main_v27) b hb) ((by decide : ∀ b ∈ argList, b ≠ main_v28) b hb))).trans (hA b hb)
  clear hA; have hA := hA12
  have hJ12 : ∀ j, (W12 (Proc.devRef .tc main_v14) j).toNat < 8192 := by
    rw [hW12 _ (notin_three (by decide : main_v14 ≠ main_v1) (by decide : main_v14 ≠ main_v27) (by decide : main_v14 ≠ main_v28))]; exact hJ
  clear hJ; have hJ := hJ12
  have hA13 : ∀ b ∈ argList, (after host6 W12) (Proc.devRef .tc b) = launchContents m d (Proc.devRef .tc b) :=
    fun b hb => (host6_keeps (F := F) W12 b ((by decide : ∀ b ∈ argList, b ∉ ([] : List (Ref sig .tc))) b hb)).trans (hA b hb)
  have hJ13 : ∀ j, ((after host6 W12) (Proc.devRef .tc main_v14) j).toNat < 8192 := by
    rw [host6_keeps (F := F) W12 main_v14 (by decide)]; exact hJ
  iapply (seg_host (F := F) d 3 W12 ((((Finset.univ).erase 0).erase 1).erase 2) host6 host6_sub host6_fresh _ _)
  isplitl [HTS]
  · iexact HTS
  iintro HTS
  clear hA; have hA := hA13
  clear hJ; have hJ := hJ13
  -- region 3
  iapply (r3 κ d (after host6 W12) ((((Finset.univ).erase 0).erase 1).erase 2) (by decide) _ _)
  isplitr
  · iexact Hctx
  isplitl [HTS]
  · iexact HTS
  iintro %W14 %hW14 HTS
  have hA14 : ∀ b ∈ argList, W14 (Proc.devRef .tc b) = launchContents m d (Proc.devRef .tc b) :=
    fun b hb => (hW14 _ (devRef_ne_of_ne ((by decide : ∀ b ∈ argList, b ≠ main_v29) b hb))).trans (hA b hb)
  clear hA; have hA := hA14
  have hJ14 : ∀ j, (W14 (Proc.devRef .tc main_v14) j).toNat < 8192 := by
    rw [hW14 _ (devRef_ne_of_ne (by decide : main_v14 ≠ main_v29))]; exact hJ
  clear hJ; have hJ := hJ14
  have hin3 := host7_range (F := F) W14 hJ
  have hA15 : ∀ b ∈ argList, (after host7 W14) (Proc.devRef .tc b) = launchContents m d (Proc.devRef .tc b) :=
    fun b hb => (host7_keeps (F := F) W14 b ((by decide : ∀ b ∈ argList, b ∉ host7_W) b hb)).trans (hA b hb)
  have hJ15 : ∀ j, ((after host7 W14) (Proc.devRef .tc main_v14) j).toNat < 8192 := by
    rw [host7_keeps (F := F) W14 main_v14 (by decide)]; exact hJ
  iapply (seg_host (F := F) d 3 W14 (((((Finset.univ).erase 0).erase 1).erase 2).erase 3) host7 host7_sub host7_fresh _ _)
  isplitl [HTS]
  · iexact HTS
  iintro HTS
  clear hA; have hA := hA15
  clear hJ; have hJ := hJ15
  -- call 3
  iapply (c3 κ d (after host7 W14) (((((Finset.univ).erase 0).erase 1).erase 2).erase 3) hin3 _ _)
  isplitr
  · iexact Hctx
  isplitl [HTS]
  · iexact HTS
  iintro %W16 %hW16 HTS
  have hA16 : ∀ b ∈ argList, W16 (Proc.devRef .tc b) = launchContents m d (Proc.devRef .tc b) :=
    fun b hb => (hW16 _ (notin_three ((by decide : ∀ b ∈ argList, b ≠ main_v1) b hb) ((by decide : ∀ b ∈ argList, b ≠ main_v31) b hb) ((by decide : ∀ b ∈ argList, b ≠ main_v32) b hb))).trans (hA b hb)
  clear hA; have hA := hA16
  have hJ16 : ∀ j, (W16 (Proc.devRef .tc main_v14) j).toNat < 8192 := by
    rw [hW16 _ (notin_three (by decide : main_v14 ≠ main_v1) (by decide : main_v14 ≠ main_v31) (by decide : main_v14 ≠ main_v32))]; exact hJ
  clear hJ; have hJ := hJ16
  have hA17 : ∀ b ∈ argList, (after host8 W16) (Proc.devRef .tc b) = launchContents m d (Proc.devRef .tc b) :=
    fun b hb => (host8_keeps (F := F) W16 b ((by decide : ∀ b ∈ argList, b ∉ ([] : List (Ref sig .tc))) b hb)).trans (hA b hb)
  have hJ17 : ∀ j, ((after host8 W16) (Proc.devRef .tc main_v14) j).toNat < 8192 := by
    rw [host8_keeps (F := F) W16 main_v14 (by decide)]; exact hJ
  iapply (seg_host (F := F) d 4 W16 (((((Finset.univ).erase 0).erase 1).erase 2).erase 3) host8 host8_sub host8_fresh _ _)
  isplitl [HTS]
  · iexact HTS
  iintro HTS
  clear hA; have hA := hA17
  clear hJ; have hJ := hJ17
  -- region 4
  iapply (r4 κ d (after host8 W16) (((((Finset.univ).erase 0).erase 1).erase 2).erase 3) (by decide) _ _)
  isplitr
  · iexact Hctx
  isplitl [HTS]
  · iexact HTS
  iintro %W18 %hW18 HTS
  have hA18 : ∀ b ∈ argList, W18 (Proc.devRef .tc b) = launchContents m d (Proc.devRef .tc b) :=
    fun b hb => (hW18 _ (devRef_ne_of_ne ((by decide : ∀ b ∈ argList, b ≠ main_v33) b hb))).trans (hA b hb)
  clear hA; have hA := hA18
  have hJ18 : ∀ j, (W18 (Proc.devRef .tc main_v14) j).toNat < 8192 := by
    rw [hW18 _ (devRef_ne_of_ne (by decide : main_v14 ≠ main_v33))]; exact hJ
  clear hJ; have hJ := hJ18
  have hA19 : ∀ b ∈ argList, (after host9 W18) (Proc.devRef .tc b) = launchContents m d (Proc.devRef .tc b) :=
    fun b hb => (host9_keeps (F := F) W18 b ((by decide : ∀ b ∈ argList, b ∉ host9_W) b hb)).trans (hA b hb)
  have hJ19 : ∀ j, ((after host9 W18) (Proc.devRef .tc main_v14) j).toNat < 8192 := by
    rw [host9_keeps (F := F) W18 main_v14 (by decide)]; exact hJ
  iapply (seg_host (F := F) d 4 W18 ((((((Finset.univ).erase 0).erase 1).erase 2).erase 3).erase 4) host9 host9_sub host9_fresh _ _)
  isplitl [HTS]
  · iexact HTS
  iintro HTS
  clear hA; have hA := hA19
  clear hJ; have hJ := hJ19
  -- region 5
  iapply (r5 κ d (after host9 W18) ((((((Finset.univ).erase 0).erase 1).erase 2).erase 3).erase 4) (by decide) _ _)
  isplitr
  · iexact Hctx
  isplitl [HTS]
  · iexact HTS
  iintro %W20 %hW20 HTS
  have hA20 : ∀ b ∈ argList, W20 (Proc.devRef .tc b) = launchContents m d (Proc.devRef .tc b) :=
    fun b hb => (hW20 _ (devRef_ne_of_ne ((by decide : ∀ b ∈ argList, b ≠ main_v36) b hb))).trans (hA b hb)
  clear hA; have hA := hA20
  have hJ20 : ∀ j, (W20 (Proc.devRef .tc main_v14) j).toNat < 8192 := by
    rw [hW20 _ (devRef_ne_of_ne (by decide : main_v14 ≠ main_v36))]; exact hJ
  clear hJ; have hJ := hJ20
  have hA21 : ∀ b ∈ argList, (after host10 W20) (Proc.devRef .tc b) = launchContents m d (Proc.devRef .tc b) :=
    fun b hb => (host10_keeps (F := F) W20 b ((by decide : ∀ b ∈ argList, b ∉ host10_W) b hb)).trans (hA b hb)
  have hJ21 : ∀ j, ((after host10 W20) (Proc.devRef .tc main_v14) j).toNat < 8192 := by
    rw [host10_keeps (F := F) W20 main_v14 (by decide)]; exact hJ
  iapply (seg_host (F := F) d 4 W20 (((((((Finset.univ).erase 0).erase 1).erase 2).erase 3).erase 4).erase 5) host10 host10_sub host10_fresh _ _)
  isplitl [HTS]
  · iexact HTS
  iintro HTS
  clear hA; have hA := hA21
  clear hJ; have hJ := hJ21
  -- the end: nothing is left to run; the handshake state is the one asked, and the arguments come out of the held set
  rw [wp_pure]
  icases HTS with ⟨-, Hh, Hst, -⟩
  imodintro
  isplitl [Hst]
  · iexact Hst
  · iapply (fin_of_held m d _ hA) $$ Hh

end Cert.Kernel.Sc

end
-- ==== Proof.ScSplitK.lean ====
/-
  The cutting of the three whole arrays where the program meets a sparse-core call, and the gluing back after it.

  Before call q the program holds, whole and at the full share, the flat array y, the call's index array and the call's
  output array. The 32 workers (tile i of core c is worker 2·i + c) are each handed a 1/32 share of y, one slab of the
  index array and one block of 4096 output rows. So: a points-to at a share is the 32 points-tos at the shares got by
  halving it five times; a points-to of a whole array is the 32 points-tos of the pieces its leading axis is cut into,
  because the pieces are pairwise disjoint and cover the array; and (c, i) ↦ 2·i + c is a bijection from 2 × 16 onto 32,
  so a product over the workers is a product over the cores of products over their tiles. After the call the same
  three steps are read backwards; the only new point is that the 32 shares of y come back with contents named one
  by one, and two points-tos of the same elements agree on their contents, so one name does for all.
-/
import proofs.«215235_g2774548873965_cont_9to1_572_34_alg».proof.Proof.ScPayK

noncomputable section

namespace Cert.Kernel.Sc

open Cert.Kernel
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

/-! ## A share halved n times -/

/-- The 2^(n+1) parts are the 2^n parts of the left half followed by the 2^n parts of the right half. -/
def halves (n : ℕ) : Fin (2 ^ n) ⊕ Fin (2 ^ n) ≃ Fin (2 ^ (n + 1)) :=
  finSumFinEquiv.trans (finCongr (by rw [pow_succ]; omega))

theorem halves_inl_val (n : ℕ) (k : Fin (2 ^ n)) : (halves n (Sum.inl k)).val = k.val := by
  simp [halves]

theorem halves_inr_val (n : ℕ) (k : Fin (2 ^ n)) : (halves n (Sum.inr k)).val = 2 ^ n + k.val := by
  simp [halves]
  exact Nat.add_comm _ _

/-- Part k of the left half. -/
theorem shareAt_inl (n : ℕ) (q : PosShare TreeShare) (k : Fin (2 ^ n)) :
    shareAt (n + 1) q (halves n (Sum.inl k)) = shareAt n q.left k := by
  have hlt : (halves n (Sum.inl k)).val < 2 ^ n := by rw [halves_inl_val]; exact k.isLt
  rw [shareAt, dif_pos hlt]
  exact congrArg (shareAt n q.left) (Fin.ext (halves_inl_val n k))

/-- Part k of the right half. -/
theorem shareAt_inr (n : ℕ) (q : PosShare TreeShare) (k : Fin (2 ^ n)) :
    shareAt (n + 1) q (halves n (Sum.inr k)) = shareAt n q.right k := by
  have hge : ¬(halves n (Sum.inr k)).val < 2 ^ n := by rw [halves_inr_val]; omega
  rw [shareAt, dif_neg hge]
  exact congrArg (shareAt n q.right) (Fin.ext (by simp only [halves_inr_val]; omega))

/-- A points-to at a share is the points-tos at its 2^n parts, together. -/
theorem pointsTo_shareAt {ℓ : Loc nD τ sig} (I : Finset (Idx ℓ)) (f : Buf (Elt F) ℓ) :
    ∀ (n : ℕ) (q : PosShare TreeShare),
      (ℓ ↦[I]{q} f : sProp 𝕄) = bigSep Finset.univ fun k : Fin (2 ^ n) => ℓ ↦[I]{shareAt n q k} f
  | 0, q => (bigSep_univ_of_subsingleton (0 : Fin 1) (Φ := fun k : Fin (2 ^ 0) => (ℓ ↦[I]{shareAt 0 q k} f : sProp 𝕄))).symm
  | n + 1, q => by
    have hq : (ℓ ↦[I]{q} f : sProp 𝕄) = iprop((ℓ ↦[I]{q.left} f) ∗ ℓ ↦[I]{q.right} f) :=
      BI.equiv_iff.mp ⟨(pointsTo_share (PosShare.mem_left_op_right q)).1, (pointsTo_share (PosShare.mem_left_op_right q)).2⟩
    rw [hq, pointsTo_shareAt I f n q.left, pointsTo_shareAt I f n q.right,
      bigSep_univ_equiv (halves n) (fun k : Fin (2 ^ (n + 1)) => (ℓ ↦[I]{shareAt (n + 1) q k} f : sProp 𝕄)), bigSep_univ_sum]
    congr 1
    · exact bigSep_congr fun k _ => by rw [shareAt_inl]
    · exact bigSep_congr fun k _ => by rw [shareAt_inr]

/-! ## The workers, core by core -/

/-- Every worker number is 2·i + c for one tile i of one core c. -/
theorem wid_surjective (w : Fin 32) : ∃ (c : Fin 2) (i : Fin 16), wid c i = w :=
  ⟨⟨w.val % 2, Nat.mod_lt _ (by decide)⟩, ⟨w.val / 2, by have := w.isLt; omega⟩, Fin.ext (by simp only [wid]; omega)⟩

/-- The tiles of the cores of call q, as the 32 workers. -/
def workers (q : Fin 4) : Fin ((K (F := F)).nCore q) × Fin ((K (F := F)).nSub q) ≃ Fin 32 :=
  Equiv.ofBijective (fun p => wid (Fin.cast (nCore_eq q) p.1) (Fin.cast (nSub_eq q) p.2))
    ⟨fun p p' h => by
        have h' := wid_injective (a₁ := (Fin.cast (nCore_eq (F := F) q) p.1, Fin.cast (nSub_eq (F := F) q) p.2))
          (a₂ := (Fin.cast (nCore_eq (F := F) q) p'.1, Fin.cast (nSub_eq (F := F) q) p'.2)) h
        have h1 : Fin.cast (nCore_eq (F := F) q) p.1 = Fin.cast (nCore_eq (F := F) q) p'.1 := congrArg Prod.fst h'
        have h2 : Fin.cast (nSub_eq (F := F) q) p.2 = Fin.cast (nSub_eq (F := F) q) p'.2 := congrArg Prod.snd h'
        exact Prod.ext (Fin.cast_injective _ h1) (Fin.cast_injective _ h2),
      fun w => by
        obtain ⟨c, i, h⟩ := wid_surjective w
        exact ⟨(Fin.cast (nCore_eq (F := F) q).symm c, Fin.cast (nSub_eq (F := F) q).symm i), h⟩⟩

/-- A product over the cores of products over their tiles is the product over the 32 workers. -/
theorem bigSep_workers (q : Fin 4) (Φ : Fin 32 → sProp 𝕄) :
    (bigSep Finset.univ fun c : Fin ((K (F := F)).nCore q) => bigSep Finset.univ fun i : Fin ((K (F := F)).nSub q) =>
        Φ (wid (Fin.cast (nCore_eq q) c) (Fin.cast (nSub_eq q) i)))
      = bigSep Finset.univ Φ := by
  rw [bigSep_univ_equiv (workers (F := F) q) Φ, bigSep_univ_prod]
  rfl

/-! ## The index array in 32 slabs, the output array in 32 row blocks -/

theorem slabs_disjoint : ∀ w ∈ (Finset.univ : Finset (Fin 32)), ∀ w' ∈ (Finset.univ : Finset (Fin 32)), w ≠ w' →
    Disjoint (slabRect w).set (slabRect w').set :=
  fun _ _ _ _ h => Rect.part_disjoint slabDiv h

theorem rows_disjoint : ∀ w ∈ (Finset.univ : Finset (Fin 32)), ∀ w' ∈ (Finset.univ : Finset (Fin 32)), w ≠ w' →
    Disjoint (rowsRect w).set (rowsRect w').set :=
  fun _ _ _ _ h => Rect.part_disjoint rowsDiv h

theorem slabs_cover : (Finset.univ : Finset (Fin 32)).biUnion (fun w => (slabRect w).set) = Finset.univ :=
  Rect.biUnion_part slabDiv

theorem rows_cover : (Finset.univ : Finset (Fin 32)).biUnion (fun w => (rowsRect w).set) = Finset.univ :=
  Rect.biUnion_part rowsDiv

/-! ## Gluing back -/

/-- Two points-tos of the same elements at the two halves of a share, contents named separately: they agree on those
    elements, so they are one points-to at the share, at the first contents. -/
theorem halves_join {ℓ : Loc nD τ sig} (I : Finset (Idx ℓ)) (q : PosShare TreeShare) (f g : Buf (Elt F) ℓ) :
    iprop((ℓ ↦[I]{q.left} f) ∗ ℓ ↦[I]{q.right} g) ⊢ (ℓ ↦[I]{q} f : sProp 𝕄) := by
  refine pure_elim _ pointsTo_agree fun hag => ?_
  have e : (ℓ ↦[I]{q.right} g : sProp 𝕄) = ℓ ↦[I]{q.right} f :=
    pointsTo_congr fun i hi => ((hag i (Finset.mem_inter.mpr ⟨hi, hi⟩)).1).symm
  rw [e]
  exact (pointsTo_share (PosShare.mem_left_op_right q)).2

/-- A product over the 2^(n+1) parts is the product over the left half's parts with the product over the right half's. -/
theorem bigSep_halves (n : ℕ) (Φ : Fin (2 ^ (n + 1)) → sProp 𝕄) :
    bigSep Finset.univ Φ
      = iprop((bigSep Finset.univ fun a : Fin (2 ^ n) => Φ (halves n (Sum.inl a))) ∗ bigSep Finset.univ fun a : Fin (2 ^ n) => Φ (halves n (Sum.inr a))) := by
  rw [bigSep_univ_equiv (halves n) Φ, bigSep_univ_sum]
  rfl

/-- The 2^n parts of a share, each with contents of its own, are one points-to at the share. -/
theorem shares_join {ℓ : Loc nD τ sig} (I : Finset (Idx ℓ)) :
    ∀ (n : ℕ) (q : PosShare TreeShare),
      (bigSep Finset.univ fun k : Fin (2 ^ n) => iprop(∃ f : Buf (Elt F) ℓ, ℓ ↦[I]{shareAt n q k} f))
        ⊢ (iprop(∃ f : Buf (Elt F) ℓ, ℓ ↦[I]{q} f) : sProp 𝕄)
  | 0, q => by
    rw [bigSep_univ_of_subsingleton (0 : Fin 1) (Φ := fun k : Fin (2 ^ 0) => iprop(∃ f : Buf (Elt F) ℓ, ℓ ↦[I]{shareAt 0 q k} f))]
    exact .refl
  | n + 1, q => by
    have hl : (bigSep Finset.univ fun a : Fin (2 ^ n) => iprop(∃ f : Buf (Elt F) ℓ, ℓ ↦[I]{shareAt (n + 1) q (halves n (Sum.inl a))} f))
        = (bigSep Finset.univ fun a : Fin (2 ^ n) => iprop(∃ f : Buf (Elt F) ℓ, ℓ ↦[I]{shareAt n q.left a} f) : sProp 𝕄) :=
      bigSep_congr fun a _ => by rw [shareAt_inl]
    have hr : (bigSep Finset.univ fun a : Fin (2 ^ n) => iprop(∃ f : Buf (Elt F) ℓ, ℓ ↦[I]{shareAt (n + 1) q (halves n (Sum.inr a))} f))
        = (bigSep Finset.univ fun a : Fin (2 ^ n) => iprop(∃ f : Buf (Elt F) ℓ, ℓ ↦[I]{shareAt n q.right a} f) : sProp 𝕄) :=
      bigSep_congr fun a _ => by rw [shareAt_inr]
    rw [bigSep_halves n (fun k : Fin (2 ^ (n + 1)) => iprop(∃ f : Buf (Elt F) ℓ, ℓ ↦[I]{shareAt (n + 1) q k} f)), hl, hr]
    iintro ⟨Hl, Hr⟩
    ihave Hl' := (shares_join I n q.left) $$ Hl
    ihave Hr' := (shares_join I n q.right) $$ Hr
    icases Hl' with ⟨%f, Hf⟩
    icases Hr' with ⟨%g, Hg⟩
    iexists f
    ihave H := (halves_join I q f g) $$ [Hf Hg]
    · isplitl [Hf]
      · iexact Hf
      · iexact Hg
    iexact H

/-- 32 pairwise disjoint pieces that cover an array, each with contents of its own, are the whole array at some
    contents. -/
theorem pieces_join {ℓ : Loc nD τ sig} (R : Fin 32 → Finset (Idx ℓ))
    (hd : ∀ w ∈ (Finset.univ : Finset (Fin 32)), ∀ w' ∈ (Finset.univ : Finset (Fin 32)), w ≠ w' → Disjoint (R w) (R w'))
    (hc : (Finset.univ : Finset (Fin 32)).biUnion R = Finset.univ) :
    (bigSep Finset.univ fun w : Fin 32 => iprop(∃ f : Buf (Elt F) ℓ, ℓ ↦[R w]{fullShare} f))
      ⊢ (iprop(∃ f : Buf (Elt F) ℓ, ℓ ↦{fullShare} f) : sProp 𝕄) := by
  -- piece 0 comes with contents: the array's contents type is inhabited
  refine pure_elim (Nonempty (Buf (Elt F) ℓ)) ?_ fun hne => ?_
  · rw [bigSep_univ_at (fun w : Fin 32 => iprop(∃ f : Buf (Elt F) ℓ, ℓ ↦[R w]{fullShare} f)) 0]
    iintro ⟨⟨%f0, -⟩, -⟩
    ipureintro
    exact ⟨f0⟩
  haveI : ∀ _ : Fin 32, Nonempty (Buf (Elt F) ℓ) := fun _ => hne
  refine (bigSep_exists_pi Finset.univ (fun w (f : Buf (Elt F) ℓ) => (ℓ ↦[R w]{fullShare} f : sProp 𝕄))).trans ?_
  iintro ⟨%fs, H⟩
  ihave H' := (pointsTo_biUnion_join (ℓ := ℓ) (q := fullShare) (Val := Elt F) Finset.univ R fs (fs 0) hd) $$ H
  icases H' with ⟨%g, -, Hg⟩
  rw [hc]
  iexists g
  iexact Hg

/-! ## Call 0 -/

/-- The whole index array of call 0 is its 32 slabs. -/
theorem ix0_slabs (d : Dev nD) (f : Buf (Elt F) (ixLoc0 d)) :
    (ixLoc0 d ↦{fullShare} f : sProp 𝕄) = bigSep Finset.univ fun w : Fin 32 => ixLoc0 d ↦[(slabRect w).set]{fullShare} f := by
  rw [← pointsTo_biUnion Finset.univ (ℓ := ixLoc0 d) (fun w => (slabRect w).set) slabs_disjoint, slabs_cover]

/-- The whole output array of call 0 is its 32 row blocks. -/
theorem o0_rows (d : Dev nD) (f : Buf (Elt F) (oLoc0 d)) :
    (oLoc0 d ↦{fullShare} f : sProp 𝕄) = bigSep Finset.univ fun w : Fin 32 => oLoc0 d ↦[(rowsRect w).set]{fullShare} f := by
  rw [← pointsTo_biUnion Finset.univ (ℓ := oLoc0 d) (fun w => (rowsRect w).set) rows_disjoint, rows_cover]

/-- One worker's three pieces of call 0 are its share. -/
theorem worker0 (d : Dev nD) (w : Fin 32) (fy : Buf (Elt F) (yLoc d)) (fi : Buf (Elt F) (ixLoc0 d)) (fo : Buf (Elt F) (oLoc0 d))
    (hin : ∀ j, (fi j).toNat < 8192) :
    iprop((yLoc d ↦{ysh w} fy) ∗ (ixLoc0 d ↦[(slabRect w).set]{fullShare} fi) ∗ (oLoc0 d ↦[(rowsRect w).set]{fullShare} fo))
      ⊢ (share0 (F := F) d w : sProp 𝕄) := by
  unfold share0
  iintro ⟨Hy, Hi, Ho⟩
  isplitl [Hy]
  · iexists fy; iexact Hy
  isplitl [Hi]
  · iexists fi
    isplitl [Hi]
    · iexact Hi
    · ipureintro; exact fun j _ => hin j
  · iexists fo; iexact Ho

/-- CUTTING, call 0: the three whole arrays, the index array's entries all row numbers of y, are the 32 workers'
    shares, core by core. -/
theorem split_call0 (d : Dev nD) (fy : Buf (Elt F) (yLoc d)) (fi : Buf (Elt F) (ixLoc0 d)) (fo : Buf (Elt F) (oLoc0 d))
    (hin : ∀ j, (fi j).toNat < 8192) :
    iprop((yLoc d ↦{fullShare} fy) ∗ (ixLoc0 d ↦{fullShare} fi) ∗ (oLoc0 d ↦{fullShare} fo))
      ⊢ (bigSep Finset.univ fun c : Fin ((K (F := F)).nCore 0) => (P (F := F)).st 0 d c : sProp 𝕄) := by
  show _ ⊢ (bigSep Finset.univ fun c : Fin ((K (F := F)).nCore 0) => bigSep Finset.univ fun i : Fin ((K (F := F)).nSub 0) =>
      share0 (F := F) d (wid (Fin.cast (nCore_eq 0) c) (Fin.cast (nSub_eq 0) i)) : sProp 𝕄)
  rw [bigSep_workers (F := F) 0 (fun w => share0 (F := F) d w),
    pointsTo_shareAt Finset.univ fy 5 fullShare, ix0_slabs d fi, o0_rows d fo, ← bigSep_sep', ← bigSep_sep']
  exact bigSep_mono fun w _ => worker0 d w fy fi fo hin

/-- A slab handed back with its entries' bound is, forgetting the bound, a slab at some contents. -/
theorem slab0_forget (d : Dev nD) (w : Fin 32) :
    iprop(∃ fi : Buf (Elt F) (ixLoc0 d), (ixLoc0 d ↦[(slabRect w).set]{fullShare} fi) ∗ ⌜∀ j ∈ (slabRect w).set, (fi j).toNat < 8192⌝)
      ⊢ (iprop(∃ fi : Buf (Elt F) (ixLoc0 d), ixLoc0 d ↦[(slabRect w).set]{fullShare} fi) : sProp 𝕄) := by
  iintro ⟨%fi, Hi, -⟩
  iexists fi
  iexact Hi

theorem slabs0_forget (d : Dev nD) :
    (bigSep Finset.univ fun w : Fin 32 =>
        iprop(∃ fi : Buf (Elt F) (ixLoc0 d), (ixLoc0 d ↦[(slabRect w).set]{fullShare} fi) ∗ ⌜∀ j ∈ (slabRect w).set, (fi j).toNat < 8192⌝))
      ⊢ (bigSep Finset.univ fun w : Fin 32 => iprop(∃ fi : Buf (Elt F) (ixLoc0 d), ixLoc0 d ↦[(slabRect w).set]{fullShare} fi) : sProp 𝕄) :=
  bigSep_mono fun w _ => slab0_forget d w

/-- GLUING, call 0: what the 32 workers hand back, core by core, is the three whole arrays again, each at some
    contents. -/
theorem join_call0 (d : Dev nD) :
    (bigSep Finset.univ fun c : Fin ((K (F := F)).nCore 0) => (P (F := F)).dn 0 d c : sProp 𝕄)
      ⊢ iprop((∃ fy, yLoc d ↦{fullShare} fy) ∗ (∃ fi, ixLoc0 d ↦{fullShare} fi) ∗ ∃ fo, oLoc0 d ↦{fullShare} fo) := by
  show (bigSep Finset.univ fun c : Fin ((K (F := F)).nCore 0) => bigSep Finset.univ fun i : Fin ((K (F := F)).nSub 0) =>
      share0 (F := F) d (wid (Fin.cast (nCore_eq 0) c) (Fin.cast (nSub_eq 0) i)) : sProp 𝕄) ⊢ _
  rw [bigSep_workers (F := F) 0 (fun w => share0 (F := F) d w)]
  unfold share0
  rw [bigSep_sep', bigSep_sep']
  iintro ⟨Hy, Hi, Ho⟩
  isplitl [Hy]
  · ihave H := (shares_join (F := F) (ℓ := yLoc d) Finset.univ 5 fullShare) $$ Hy
    iexact H
  isplitl [Hi]
  · ihave H := (slabs0_forget (F := F) d) $$ Hi
    ihave H' := (pieces_join (F := F) (ℓ := ixLoc0 d) (fun w => (slabRect w).set) slabs_disjoint slabs_cover) $$ H
    iexact H'
  · ihave H := (pieces_join (F := F) (ℓ := oLoc0 d) (fun w => (rowsRect w).set) rows_disjoint rows_cover) $$ Ho
    iexact H
/-! ## Call 1 -/

/-- The whole index array of call 1 is its 32 slabs. -/
theorem ix1_slabs (d : Dev nD) (f : Buf (Elt F) (ixLoc1 d)) :
    (ixLoc1 d ↦{fullShare} f : sProp 𝕄) = bigSep Finset.univ fun w : Fin 32 => ixLoc1 d ↦[(slabRect w).set]{fullShare} f := by
  rw [← pointsTo_biUnion Finset.univ (ℓ := ixLoc1 d) (fun w => (slabRect w).set) slabs_disjoint, slabs_cover]

/-- The whole output array of call 1 is its 32 row blocks. -/
theorem o1_rows (d : Dev nD) (f : Buf (Elt F) (oLoc1 d)) :
    (oLoc1 d ↦{fullShare} f : sProp 𝕄) = bigSep Finset.univ fun w : Fin 32 => oLoc1 d ↦[(rowsRect w).set]{fullShare} f := by
  rw [← pointsTo_biUnion Finset.univ (ℓ := oLoc1 d) (fun w => (rowsRect w).set) rows_disjoint, rows_cover]

/-- One worker's three pieces of call 1 are its share. -/
theorem worker1 (d : Dev nD) (w : Fin 32) (fy : Buf (Elt F) (yLoc d)) (fi : Buf (Elt F) (ixLoc1 d)) (fo : Buf (Elt F) (oLoc1 d))
    (hin : ∀ j, (fi j).toNat < 8192) :
    iprop((yLoc d ↦{ysh w} fy) ∗ (ixLoc1 d ↦[(slabRect w).set]{fullShare} fi) ∗ (oLoc1 d ↦[(rowsRect w).set]{fullShare} fo))
      ⊢ (share1 (F := F) d w : sProp 𝕄) := by
  unfold share1
  iintro ⟨Hy, Hi, Ho⟩
  isplitl [Hy]
  · iexists fy; iexact Hy
  isplitl [Hi]
  · iexists fi
    isplitl [Hi]
    · iexact Hi
    · ipureintro; exact fun j _ => hin j
  · iexists fo; iexact Ho

/-- CUTTING, call 1: the three whole arrays, the index array's entries all row numbers of y, are the 32 workers'
    shares, core by core. -/
theorem split_call1 (d : Dev nD) (fy : Buf (Elt F) (yLoc d)) (fi : Buf (Elt F) (ixLoc1 d)) (fo : Buf (Elt F) (oLoc1 d))
    (hin : ∀ j, (fi j).toNat < 8192) :
    iprop((yLoc d ↦{fullShare} fy) ∗ (ixLoc1 d ↦{fullShare} fi) ∗ (oLoc1 d ↦{fullShare} fo))
      ⊢ (bigSep Finset.univ fun c : Fin ((K (F := F)).nCore 1) => (P (F := F)).st 1 d c : sProp 𝕄) := by
  show _ ⊢ (bigSep Finset.univ fun c : Fin ((K (F := F)).nCore 1) => bigSep Finset.univ fun i : Fin ((K (F := F)).nSub 1) =>
      share1 (F := F) d (wid (Fin.cast (nCore_eq 1) c) (Fin.cast (nSub_eq 1) i)) : sProp 𝕄)
  rw [bigSep_workers (F := F) 1 (fun w => share1 (F := F) d w),
    pointsTo_shareAt Finset.univ fy 5 fullShare, ix1_slabs d fi, o1_rows d fo, ← bigSep_sep', ← bigSep_sep']
  exact bigSep_mono fun w _ => worker1 d w fy fi fo hin

/-- A slab handed back with its entries' bound is, forgetting the bound, a slab at some contents. -/
theorem slab1_forget (d : Dev nD) (w : Fin 32) :
    iprop(∃ fi : Buf (Elt F) (ixLoc1 d), (ixLoc1 d ↦[(slabRect w).set]{fullShare} fi) ∗ ⌜∀ j ∈ (slabRect w).set, (fi j).toNat < 8192⌝)
      ⊢ (iprop(∃ fi : Buf (Elt F) (ixLoc1 d), ixLoc1 d ↦[(slabRect w).set]{fullShare} fi) : sProp 𝕄) := by
  iintro ⟨%fi, Hi, -⟩
  iexists fi
  iexact Hi

theorem slabs1_forget (d : Dev nD) :
    (bigSep Finset.univ fun w : Fin 32 =>
        iprop(∃ fi : Buf (Elt F) (ixLoc1 d), (ixLoc1 d ↦[(slabRect w).set]{fullShare} fi) ∗ ⌜∀ j ∈ (slabRect w).set, (fi j).toNat < 8192⌝))
      ⊢ (bigSep Finset.univ fun w : Fin 32 => iprop(∃ fi : Buf (Elt F) (ixLoc1 d), ixLoc1 d ↦[(slabRect w).set]{fullShare} fi) : sProp 𝕄) :=
  bigSep_mono fun w _ => slab1_forget d w

/-- GLUING, call 1: what the 32 workers hand back, core by core, is the three whole arrays again, each at some
    contents. -/
theorem join_call1 (d : Dev nD) :
    (bigSep Finset.univ fun c : Fin ((K (F := F)).nCore 1) => (P (F := F)).dn 1 d c : sProp 𝕄)
      ⊢ iprop((∃ fy, yLoc d ↦{fullShare} fy) ∗ (∃ fi, ixLoc1 d ↦{fullShare} fi) ∗ ∃ fo, oLoc1 d ↦{fullShare} fo) := by
  show (bigSep Finset.univ fun c : Fin ((K (F := F)).nCore 1) => bigSep Finset.univ fun i : Fin ((K (F := F)).nSub 1) =>
      share1 (F := F) d (wid (Fin.cast (nCore_eq 1) c) (Fin.cast (nSub_eq 1) i)) : sProp 𝕄) ⊢ _
  rw [bigSep_workers (F := F) 1 (fun w => share1 (F := F) d w)]
  unfold share1
  rw [bigSep_sep', bigSep_sep']
  iintro ⟨Hy, Hi, Ho⟩
  isplitl [Hy]
  · ihave H := (shares_join (F := F) (ℓ := yLoc d) Finset.univ 5 fullShare) $$ Hy
    iexact H
  isplitl [Hi]
  · ihave H := (slabs1_forget (F := F) d) $$ Hi
    ihave H' := (pieces_join (F := F) (ℓ := ixLoc1 d) (fun w => (slabRect w).set) slabs_disjoint slabs_cover) $$ H
    iexact H'
  · ihave H := (pieces_join (F := F) (ℓ := oLoc1 d) (fun w => (rowsRect w).set) rows_disjoint rows_cover) $$ Ho
    iexact H
/-! ## Call 2 -/

/-- The whole index array of call 2 is its 32 slabs. -/
theorem ix2_slabs (d : Dev nD) (f : Buf (Elt F) (ixLoc2 d)) :
    (ixLoc2 d ↦{fullShare} f : sProp 𝕄) = bigSep Finset.univ fun w : Fin 32 => ixLoc2 d ↦[(slabRect w).set]{fullShare} f := by
  rw [← pointsTo_biUnion Finset.univ (ℓ := ixLoc2 d) (fun w => (slabRect w).set) slabs_disjoint, slabs_cover]

/-- The whole output array of call 2 is its 32 row blocks. -/
theorem o2_rows (d : Dev nD) (f : Buf (Elt F) (oLoc2 d)) :
    (oLoc2 d ↦{fullShare} f : sProp 𝕄) = bigSep Finset.univ fun w : Fin 32 => oLoc2 d ↦[(rowsRect w).set]{fullShare} f := by
  rw [← pointsTo_biUnion Finset.univ (ℓ := oLoc2 d) (fun w => (rowsRect w).set) rows_disjoint, rows_cover]

/-- One worker's three pieces of call 2 are its share. -/
theorem worker2 (d : Dev nD) (w : Fin 32) (fy : Buf (Elt F) (yLoc d)) (fi : Buf (Elt F) (ixLoc2 d)) (fo : Buf (Elt F) (oLoc2 d))
    (hin : ∀ j, (fi j).toNat < 8192) :
    iprop((yLoc d ↦{ysh w} fy) ∗ (ixLoc2 d ↦[(slabRect w).set]{fullShare} fi) ∗ (oLoc2 d ↦[(rowsRect w).set]{fullShare} fo))
      ⊢ (share2 (F := F) d w : sProp 𝕄) := by
  unfold share2
  iintro ⟨Hy, Hi, Ho⟩
  isplitl [Hy]
  · iexists fy; iexact Hy
  isplitl [Hi]
  · iexists fi
    isplitl [Hi]
    · iexact Hi
    · ipureintro; exact fun j _ => hin j
  · iexists fo; iexact Ho

/-- CUTTING, call 2: the three whole arrays, the index array's entries all row numbers of y, are the 32 workers'
    shares, core by core. -/
theorem split_call2 (d : Dev nD) (fy : Buf (Elt F) (yLoc d)) (fi : Buf (Elt F) (ixLoc2 d)) (fo : Buf (Elt F) (oLoc2 d))
    (hin : ∀ j, (fi j).toNat < 8192) :
    iprop((yLoc d ↦{fullShare} fy) ∗ (ixLoc2 d ↦{fullShare} fi) ∗ (oLoc2 d ↦{fullShare} fo))
      ⊢ (bigSep Finset.univ fun c : Fin ((K (F := F)).nCore 2) => (P (F := F)).st 2 d c : sProp 𝕄) := by
  show _ ⊢ (bigSep Finset.univ fun c : Fin ((K (F := F)).nCore 2) => bigSep Finset.univ fun i : Fin ((K (F := F)).nSub 2) =>
      share2 (F := F) d (wid (Fin.cast (nCore_eq 2) c) (Fin.cast (nSub_eq 2) i)) : sProp 𝕄)
  rw [bigSep_workers (F := F) 2 (fun w => share2 (F := F) d w),
    pointsTo_shareAt Finset.univ fy 5 fullShare, ix2_slabs d fi, o2_rows d fo, ← bigSep_sep', ← bigSep_sep']
  exact bigSep_mono fun w _ => worker2 d w fy fi fo hin

/-- A slab handed back with its entries' bound is, forgetting the bound, a slab at some contents. -/
theorem slab2_forget (d : Dev nD) (w : Fin 32) :
    iprop(∃ fi : Buf (Elt F) (ixLoc2 d), (ixLoc2 d ↦[(slabRect w).set]{fullShare} fi) ∗ ⌜∀ j ∈ (slabRect w).set, (fi j).toNat < 8192⌝)
      ⊢ (iprop(∃ fi : Buf (Elt F) (ixLoc2 d), ixLoc2 d ↦[(slabRect w).set]{fullShare} fi) : sProp 𝕄) := by
  iintro ⟨%fi, Hi, -⟩
  iexists fi
  iexact Hi

theorem slabs2_forget (d : Dev nD) :
    (bigSep Finset.univ fun w : Fin 32 =>
        iprop(∃ fi : Buf (Elt F) (ixLoc2 d), (ixLoc2 d ↦[(slabRect w).set]{fullShare} fi) ∗ ⌜∀ j ∈ (slabRect w).set, (fi j).toNat < 8192⌝))
      ⊢ (bigSep Finset.univ fun w : Fin 32 => iprop(∃ fi : Buf (Elt F) (ixLoc2 d), ixLoc2 d ↦[(slabRect w).set]{fullShare} fi) : sProp 𝕄) :=
  bigSep_mono fun w _ => slab2_forget d w

/-- GLUING, call 2: what the 32 workers hand back, core by core, is the three whole arrays again, each at some
    contents. -/
theorem join_call2 (d : Dev nD) :
    (bigSep Finset.univ fun c : Fin ((K (F := F)).nCore 2) => (P (F := F)).dn 2 d c : sProp 𝕄)
      ⊢ iprop((∃ fy, yLoc d ↦{fullShare} fy) ∗ (∃ fi, ixLoc2 d ↦{fullShare} fi) ∗ ∃ fo, oLoc2 d ↦{fullShare} fo) := by
  show (bigSep Finset.univ fun c : Fin ((K (F := F)).nCore 2) => bigSep Finset.univ fun i : Fin ((K (F := F)).nSub 2) =>
      share2 (F := F) d (wid (Fin.cast (nCore_eq 2) c) (Fin.cast (nSub_eq 2) i)) : sProp 𝕄) ⊢ _
  rw [bigSep_workers (F := F) 2 (fun w => share2 (F := F) d w)]
  unfold share2
  rw [bigSep_sep', bigSep_sep']
  iintro ⟨Hy, Hi, Ho⟩
  isplitl [Hy]
  · ihave H := (shares_join (F := F) (ℓ := yLoc d) Finset.univ 5 fullShare) $$ Hy
    iexact H
  isplitl [Hi]
  · ihave H := (slabs2_forget (F := F) d) $$ Hi
    ihave H' := (pieces_join (F := F) (ℓ := ixLoc2 d) (fun w => (slabRect w).set) slabs_disjoint slabs_cover) $$ H
    iexact H'
  · ihave H := (pieces_join (F := F) (ℓ := oLoc2 d) (fun w => (rowsRect w).set) rows_disjoint rows_cover) $$ Ho
    iexact H
/-! ## Call 3 -/

/-- The whole index array of call 3 is its 32 slabs. -/
theorem ix3_slabs (d : Dev nD) (f : Buf (Elt F) (ixLoc3 d)) :
    (ixLoc3 d ↦{fullShare} f : sProp 𝕄) = bigSep Finset.univ fun w : Fin 32 => ixLoc3 d ↦[(slabRect w).set]{fullShare} f := by
  rw [← pointsTo_biUnion Finset.univ (ℓ := ixLoc3 d) (fun w => (slabRect w).set) slabs_disjoint, slabs_cover]

/-- The whole output array of call 3 is its 32 row blocks. -/
theorem o3_rows (d : Dev nD) (f : Buf (Elt F) (oLoc3 d)) :
    (oLoc3 d ↦{fullShare} f : sProp 𝕄) = bigSep Finset.univ fun w : Fin 32 => oLoc3 d ↦[(rowsRect w).set]{fullShare} f := by
  rw [← pointsTo_biUnion Finset.univ (ℓ := oLoc3 d) (fun w => (rowsRect w).set) rows_disjoint, rows_cover]

/-- One worker's three pieces of call 3 are its share. -/
theorem worker3 (d : Dev nD) (w : Fin 32) (fy : Buf (Elt F) (yLoc d)) (fi : Buf (Elt F) (ixLoc3 d)) (fo : Buf (Elt F) (oLoc3 d))
    (hin : ∀ j, (fi j).toNat < 8192) :
    iprop((yLoc d ↦{ysh w} fy) ∗ (ixLoc3 d ↦[(slabRect w).set]{fullShare} fi) ∗ (oLoc3 d ↦[(rowsRect w).set]{fullShare} fo))
      ⊢ (share3 (F := F) d w : sProp 𝕄) := by
  unfold share3
  iintro ⟨Hy, Hi, Ho⟩
  isplitl [Hy]
  · iexists fy; iexact Hy
  isplitl [Hi]
  · iexists fi
    isplitl [Hi]
    · iexact Hi
    · ipureintro; exact fun j _ => hin j
  · iexists fo; iexact Ho

/-- CUTTING, call 3: the three whole arrays, the index array's entries all row numbers of y, are the 32 workers'
    shares, core by core. -/
theorem split_call3 (d : Dev nD) (fy : Buf (Elt F) (yLoc d)) (fi : Buf (Elt F) (ixLoc3 d)) (fo : Buf (Elt F) (oLoc3 d))
    (hin : ∀ j, (fi j).toNat < 8192) :
    iprop((yLoc d ↦{fullShare} fy) ∗ (ixLoc3 d ↦{fullShare} fi) ∗ (oLoc3 d ↦{fullShare} fo))
      ⊢ (bigSep Finset.univ fun c : Fin ((K (F := F)).nCore 3) => (P (F := F)).st 3 d c : sProp 𝕄) := by
  show _ ⊢ (bigSep Finset.univ fun c : Fin ((K (F := F)).nCore 3) => bigSep Finset.univ fun i : Fin ((K (F := F)).nSub 3) =>
      share3 (F := F) d (wid (Fin.cast (nCore_eq 3) c) (Fin.cast (nSub_eq 3) i)) : sProp 𝕄)
  rw [bigSep_workers (F := F) 3 (fun w => share3 (F := F) d w),
    pointsTo_shareAt Finset.univ fy 5 fullShare, ix3_slabs d fi, o3_rows d fo, ← bigSep_sep', ← bigSep_sep']
  exact bigSep_mono fun w _ => worker3 d w fy fi fo hin

/-- A slab handed back with its entries' bound is, forgetting the bound, a slab at some contents. -/
theorem slab3_forget (d : Dev nD) (w : Fin 32) :
    iprop(∃ fi : Buf (Elt F) (ixLoc3 d), (ixLoc3 d ↦[(slabRect w).set]{fullShare} fi) ∗ ⌜∀ j ∈ (slabRect w).set, (fi j).toNat < 8192⌝)
      ⊢ (iprop(∃ fi : Buf (Elt F) (ixLoc3 d), ixLoc3 d ↦[(slabRect w).set]{fullShare} fi) : sProp 𝕄) := by
  iintro ⟨%fi, Hi, -⟩
  iexists fi
  iexact Hi

theorem slabs3_forget (d : Dev nD) :
    (bigSep Finset.univ fun w : Fin 32 =>
        iprop(∃ fi : Buf (Elt F) (ixLoc3 d), (ixLoc3 d ↦[(slabRect w).set]{fullShare} fi) ∗ ⌜∀ j ∈ (slabRect w).set, (fi j).toNat < 8192⌝))
      ⊢ (bigSep Finset.univ fun w : Fin 32 => iprop(∃ fi : Buf (Elt F) (ixLoc3 d), ixLoc3 d ↦[(slabRect w).set]{fullShare} fi) : sProp 𝕄) :=
  bigSep_mono fun w _ => slab3_forget d w

/-- GLUING, call 3: what the 32 workers hand back, core by core, is the three whole arrays again, each at some
    contents. -/
theorem join_call3 (d : Dev nD) :
    (bigSep Finset.univ fun c : Fin ((K (F := F)).nCore 3) => (P (F := F)).dn 3 d c : sProp 𝕄)
      ⊢ iprop((∃ fy, yLoc d ↦{fullShare} fy) ∗ (∃ fi, ixLoc3 d ↦{fullShare} fi) ∗ ∃ fo, oLoc3 d ↦{fullShare} fo) := by
  show (bigSep Finset.univ fun c : Fin ((K (F := F)).nCore 3) => bigSep Finset.univ fun i : Fin ((K (F := F)).nSub 3) =>
      share3 (F := F) d (wid (Fin.cast (nCore_eq 3) c) (Fin.cast (nSub_eq 3) i)) : sProp 𝕄) ⊢ _
  rw [bigSep_workers (F := F) 3 (fun w => share3 (F := F) d w)]
  unfold share3
  rw [bigSep_sep', bigSep_sep']
  iintro ⟨Hy, Hi, Ho⟩
  isplitl [Hy]
  · ihave H := (shares_join (F := F) (ℓ := yLoc d) Finset.univ 5 fullShare) $$ Hy
    iexact H
  isplitl [Hi]
  · ihave H := (slabs3_forget (F := F) d) $$ Hi
    ihave H' := (pieces_join (F := F) (ℓ := ixLoc3 d) (fun w => (slabRect w).set) slabs_disjoint slabs_cover) $$ H
    iexact H'
  · ihave H := (pieces_join (F := F) (ℓ := oLoc3 d) (fun w => (rowsRect w).set) rows_disjoint rows_cover) $$ Ho
    iexact H

end Cert.Kernel.Sc

end
-- ==== Proof.ScCallK.lean ====
/-
  A sparse-core call as one step of the tensor core's walk through the program.

  Before call q the tensor core holds every array whole. The call is handed three of them: the flat array y, the
  call's index array and its output array. These are taken out of the set of whole arrays, cut among the 32 workers
  (the index array's entries being row numbers of y), the call runs, the workers' pieces are glued back into three
  whole arrays at some contents, and the three are put back. So the arrays end at a valuation that differs from the
  one before only at those three arrays, and the tensor core's handshake state has moved from before call q to
  before call q + 1.
-/
import proofs.«215235_g2774548873965_cont_9to1_572_34_alg».proof.Proof.ScStateK
import proofs.«215235_g2774548873965_cont_9to1_572_34_alg».proof.Proof.ScSplitK

noncomputable section

namespace Cert.Kernel.Sc

open Cert.Kernel
open Idealize.ShloMosaic Idealize.ShloMosaic.StableHlo
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 4) (Elt F) ℕ UU ℕ

/-! ## Three arrays out of the whole set, and back -/

/-- The three arrays of a call, as a set of device buffers. -/
abbrev three (y ix o : Ref sig .tc) : Finset (DevRef τ sig) :=
  {Proc.devRef .tc y, Proc.devRef .tc ix, Proc.devRef .tc o}

/-- A valuation changed at three buffers. -/
def upd3 (W : Valuation τ sig (Elt F)) (y ix o : Ref sig .tc)
    (fy : (Proc.devRef (τ := τ) .tc y).ty.Contents (Elt F)) (fi : (Proc.devRef (τ := τ) .tc ix).ty.Contents (Elt F))
    (fo : (Proc.devRef (τ := τ) .tc o).ty.Contents (Elt F)) : Valuation τ sig (Elt F) :=
  Function.update (Function.update (Function.update W (Proc.devRef .tc y) fy) (Proc.devRef .tc ix) fi) (Proc.devRef .tc o) fo

/-- At its last buffer the changed valuation holds the new contents. -/
theorem upd3_o (W : Valuation τ sig (Elt F)) (y ix o : Ref sig .tc) (fy) (fi) (fo) :
    upd3 (F := F) W y ix o fy fi fo (Proc.devRef .tc o) = fo := by
  unfold upd3; rw [Function.update_self]

theorem upd3_ix (W : Valuation τ sig (Elt F)) (y ix o : Ref sig .tc) (hio : ix ≠ o) (fy) (fi) (fo) :
    upd3 (F := F) W y ix o fy fi fo (Proc.devRef .tc ix) = fi := by
  unfold upd3; rw [Function.update_of_ne (devRef_ne_of_ne hio), Function.update_self]

theorem upd3_y (W : Valuation τ sig (Elt F)) (y ix o : Ref sig .tc) (hyi : y ≠ ix) (hyo : y ≠ o) (fy) (fi) (fo) :
    upd3 (F := F) W y ix o fy fi fo (Proc.devRef .tc y) = fy := by
  unfold upd3; rw [Function.update_of_ne (devRef_ne_of_ne hyo), Function.update_of_ne (devRef_ne_of_ne hyi), Function.update_self]

/-- Off the three buffers nothing changed. -/
theorem upd3_off (W : Valuation τ sig (Elt F)) (y ix o : Ref sig .tc) (fy) (fi) (fo) (b : DevRef τ sig)
    (hb : b ∉ three y ix o) : upd3 (F := F) W y ix o fy fi fo b = W b := by
  have h := hb
  simp only [three, Finset.mem_insert, Finset.mem_singleton, not_or] at h
  unfold upd3
  rw [Function.update_of_ne h.2.2, Function.update_of_ne h.2.1, Function.update_of_ne h.1]

/-- Three distinct whole arrays of the tensor core, held together, are the three points-tos. -/
theorem held_three (d : Dev nD) (y ix o : Ref sig .tc) (hyi : y ≠ ix) (hyo : y ≠ o) (hio : ix ≠ o) (W : Valuation τ sig (Elt F)) :
    (held (d.tc : Thread nD τ) (three y ix o) W : sProp 𝕄)
      = iprop(((SparseCore.T d).loc y ↦{fullShare} W (Proc.devRef .tc y)) ∗ ((SparseCore.T d).loc ix ↦{fullShare} W (Proc.devRef .tc ix))
          ∗ ((SparseCore.T d).loc o ↦{fullShare} W (Proc.devRef .tc o))) := by
  have h1 : (Proc.devRef (τ := τ) .tc y) ∉ ({Proc.devRef .tc ix, Proc.devRef .tc o} : Finset (DevRef τ sig)) := by
    simp only [Finset.mem_insert, Finset.mem_singleton, not_or]
    exact ⟨devRef_ne_of_ne hyi, devRef_ne_of_ne hyo⟩
  have h2 : (Proc.devRef (τ := τ) .tc ix) ∉ ({Proc.devRef .tc o} : Finset (DevRef τ sig)) := by
    simp only [Finset.mem_singleton]
    exact devRef_ne_of_ne hio
  unfold held three
  rw [bigSep_insert h1, bigSep_insert h2, bigSep_singleton]
  rfl

/-- The three arrays are among the tensor core's whole arrays when none of them is scoped. -/
theorem three_sub (y ix o : Ref sig .tc) (hy : (Proc.devRef (τ := τ) .tc y).isScoped = false)
    (hi : (Proc.devRef (τ := τ) .tc ix).isScoped = false) (ho : (Proc.devRef (τ := τ) .tc o).isScoped = false) :
    three y ix o ⊆ Pipeline.ucRefs τ sig := by
  intro b hb
  simp only [three, Finset.mem_insert, Finset.mem_singleton] at hb
  unfold Pipeline.ucRefs
  rw [Finset.mem_filter]
  rcases hb with rfl | rfl | rfl
  · exact ⟨devRef_mem_tcRefs y, by rw [hy]; decide⟩
  · exact ⟨devRef_mem_tcRefs ix, by rw [hi]; decide⟩
  · exact ⟨devRef_mem_tcRefs o, by rw [ho]; decide⟩

/-! ## Call 0 -/

/-- THE CALL, as a step of the walk: from the state before call 0 with the index array's entries row numbers of y, the
    call runs, and what follows it runs from the state before call 1 at a valuation that differs from the one before
    only at the three arrays the call is handed. -/
theorem call0_step (κ : GSem nD τ sig → ℕ) (d : Dev nD) (W : Valuation τ sig (Elt F)) (Ps : Finset (Fin 6))
    (hin : ∀ j, (W (Proc.devRef .tc main_v19) j).toNat < 8192)
    {β : Type} (k : PUnit → Prog (TpuEff nD τ sig (Elt F) (SparseCore.Sig (ΛP (F := F)) 4) .tc) β) (Q : β → sProp 𝕄) :
    iprop((K (F := F)).ctx EH (P (F := F)) κ ∗ TS (F := F) d 0 W Ps
        ∗ (∀ W' : Valuation τ sig (Elt F), ⌜∀ b, b ∉ three main_v1 main_v19 main_v20 → W' b = W b⌝
            -∗ TS (F := F) d 1 W' Ps -∗ wp frame (wpE ((K (F := F)).defs (D (F := F))) 𝒱 (d.tc : Thread nD τ) none) Set.univ (k ⟨⟩) Q))
      ⊢ wp frame (wpE ((K (F := F)).defs (D (F := F))) 𝒱 (d.tc : Thread nD τ) none) Set.univ ((K (F := F)).run d 0 >>= k) Q := by
  have hsub : three main_v1 main_v19 main_v20 ⊆ Pipeline.ucRefs τ sig := three_sub _ _ _ (by decide) (by decide) (by decide)
  have hyi : main_v1 ≠ main_v19 := by decide
  have hyo : main_v1 ≠ main_v20 := by decide
  have hio : main_v19 ≠ main_v20 := by decide
  rw [wp_bind]
  unfold TS
  rw [held_sub_split (d.tc : Thread nD τ) hsub W, held_three d main_v1 main_v19 main_v20 hyi hyo hio W]
  iintro ⟨#Hctx, ⟨Hb, ⟨⟨Hy, Hi, Ho⟩, Hrest⟩, Hst, Hg⟩, Hk⟩
  iapply (SparseCore.Cfg.wp_run (K := K (F := F)) (D (F := F)) 𝒱 κ d 0)
  isplitr
  · iexact Hctx
  isplitl [Hst]
  · iexact Hst
  isplitl [Hy Hi Ho]
  · iapply (split_call0 (F := F) d _ _ _ hin)
    isplitl [Hy]
    · iexact Hy
    isplitl [Hi]
    · iexact Hi
    · iexact Ho
  iintro ⟨Hst', Hdn⟩
  ihave Hj := (join_call0 (F := F) d) $$ Hdn
  icases Hj with ⟨⟨%fy, Hy⟩, ⟨%fi, Hi⟩, ⟨%fo, Ho⟩⟩
  iapply Hk $$ %(upd3 (F := F) W main_v1 main_v19 main_v20 fy fi fo) %(fun b hb => upd3_off W main_v1 main_v19 main_v20 fy fi fo b hb) [Hb Hy Hi Ho Hrest Hst' Hg]
  rw [held_sub_split (d.tc : Thread nD τ) hsub (upd3 (F := F) W main_v1 main_v19 main_v20 fy fi fo),
    held_three d main_v1 main_v19 main_v20 hyi hyo hio (upd3 (F := F) W main_v1 main_v19 main_v20 fy fi fo),
    upd3_y W main_v1 main_v19 main_v20 hyi hyo fy fi fo, upd3_ix W main_v1 main_v19 main_v20 hio fy fi fo, upd3_o W main_v1 main_v19 main_v20 fy fi fo,
    held_congr (d.tc : Thread nD τ) (V := upd3 (F := F) W main_v1 main_v19 main_v20 fy fi fo) (V' := W)
      (fun b hb => upd3_off W main_v1 main_v19 main_v20 fy fi fo b (Finset.mem_sdiff.mp hb).2)]
  isplitl [Hb]
  · iexact Hb
  isplitl [Hy Hi Ho Hrest]
  · isplitl [Hy Hi Ho]
    · isplitl [Hy]
      · iexact Hy
      isplitl [Hi]
      · iexact Hi
      · iexact Ho
    · iexact Hrest
  isplitl [Hst']
  · iexact Hst'
  · iexact Hg

/-- The same, in the form the walk of the program cites. -/
theorem seg_call0 : SegCall (F := F) 0 main_v19 main_v20 (fun W => ∀ j, (W (Proc.devRef .tc main_v19) j).toNat < 8192) :=
  fun κ d W Ps hin _ k Q => call0_step κ d W Ps hin k Q

/-! ## Call 1 -/

/-- THE CALL, as a step of the walk: from the state before call 1 with the index array's entries row numbers of y, the
    call runs, and what follows it runs from the state before call 2 at a valuation that differs from the one before
    only at the three arrays the call is handed. -/
theorem call1_step (κ : GSem nD τ sig → ℕ) (d : Dev nD) (W : Valuation τ sig (Elt F)) (Ps : Finset (Fin 6))
    (hin : ∀ j, (W (Proc.devRef .tc main_v23) j).toNat < 8192)
    {β : Type} (k : PUnit → Prog (TpuEff nD τ sig (Elt F) (SparseCore.Sig (ΛP (F := F)) 4) .tc) β) (Q : β → sProp 𝕄) :
    iprop((K (F := F)).ctx EH (P (F := F)) κ ∗ TS (F := F) d 1 W Ps
        ∗ (∀ W' : Valuation τ sig (Elt F), ⌜∀ b, b ∉ three main_v1 main_v23 main_v24 → W' b = W b⌝
            -∗ TS (F := F) d 2 W' Ps -∗ wp frame (wpE ((K (F := F)).defs (D (F := F))) 𝒱 (d.tc : Thread nD τ) none) Set.univ (k ⟨⟩) Q))
      ⊢ wp frame (wpE ((K (F := F)).defs (D (F := F))) 𝒱 (d.tc : Thread nD τ) none) Set.univ ((K (F := F)).run d 1 >>= k) Q := by
  have hsub : three main_v1 main_v23 main_v24 ⊆ Pipeline.ucRefs τ sig := three_sub _ _ _ (by decide) (by decide) (by decide)
  have hyi : main_v1 ≠ main_v23 := by decide
  have hyo : main_v1 ≠ main_v24 := by decide
  have hio : main_v23 ≠ main_v24 := by decide
  rw [wp_bind]
  unfold TS
  rw [held_sub_split (d.tc : Thread nD τ) hsub W, held_three d main_v1 main_v23 main_v24 hyi hyo hio W]
  iintro ⟨#Hctx, ⟨Hb, ⟨⟨Hy, Hi, Ho⟩, Hrest⟩, Hst, Hg⟩, Hk⟩
  iapply (SparseCore.Cfg.wp_run (K := K (F := F)) (D (F := F)) 𝒱 κ d 1)
  isplitr
  · iexact Hctx
  isplitl [Hst]
  · iexact Hst
  isplitl [Hy Hi Ho]
  · iapply (split_call1 (F := F) d _ _ _ hin)
    isplitl [Hy]
    · iexact Hy
    isplitl [Hi]
    · iexact Hi
    · iexact Ho
  iintro ⟨Hst', Hdn⟩
  ihave Hj := (join_call1 (F := F) d) $$ Hdn
  icases Hj with ⟨⟨%fy, Hy⟩, ⟨%fi, Hi⟩, ⟨%fo, Ho⟩⟩
  iapply Hk $$ %(upd3 (F := F) W main_v1 main_v23 main_v24 fy fi fo) %(fun b hb => upd3_off W main_v1 main_v23 main_v24 fy fi fo b hb) [Hb Hy Hi Ho Hrest Hst' Hg]
  rw [held_sub_split (d.tc : Thread nD τ) hsub (upd3 (F := F) W main_v1 main_v23 main_v24 fy fi fo),
    held_three d main_v1 main_v23 main_v24 hyi hyo hio (upd3 (F := F) W main_v1 main_v23 main_v24 fy fi fo),
    upd3_y W main_v1 main_v23 main_v24 hyi hyo fy fi fo, upd3_ix W main_v1 main_v23 main_v24 hio fy fi fo, upd3_o W main_v1 main_v23 main_v24 fy fi fo,
    held_congr (d.tc : Thread nD τ) (V := upd3 (F := F) W main_v1 main_v23 main_v24 fy fi fo) (V' := W)
      (fun b hb => upd3_off W main_v1 main_v23 main_v24 fy fi fo b (Finset.mem_sdiff.mp hb).2)]
  isplitl [Hb]
  · iexact Hb
  isplitl [Hy Hi Ho Hrest]
  · isplitl [Hy Hi Ho]
    · isplitl [Hy]
      · iexact Hy
      isplitl [Hi]
      · iexact Hi
      · iexact Ho
    · iexact Hrest
  isplitl [Hst']
  · iexact Hst'
  · iexact Hg

/-- The same, in the form the walk of the program cites. -/
theorem seg_call1 : SegCall (F := F) 1 main_v23 main_v24 (fun W => ∀ j, (W (Proc.devRef .tc main_v23) j).toNat < 8192) :=
  fun κ d W Ps hin _ k Q => call1_step κ d W Ps hin k Q

/-! ## Call 2 -/

/-- THE CALL, as a step of the walk: from the state before call 2 with the index array's entries row numbers of y, the
    call runs, and what follows it runs from the state before call 3 at a valuation that differs from the one before
    only at the three arrays the call is handed. -/
theorem call2_step (κ : GSem nD τ sig → ℕ) (d : Dev nD) (W : Valuation τ sig (Elt F)) (Ps : Finset (Fin 6))
    (hin : ∀ j, (W (Proc.devRef .tc main_v27) j).toNat < 8192)
    {β : Type} (k : PUnit → Prog (TpuEff nD τ sig (Elt F) (SparseCore.Sig (ΛP (F := F)) 4) .tc) β) (Q : β → sProp 𝕄) :
    iprop((K (F := F)).ctx EH (P (F := F)) κ ∗ TS (F := F) d 2 W Ps
        ∗ (∀ W' : Valuation τ sig (Elt F), ⌜∀ b, b ∉ three main_v1 main_v27 main_v28 → W' b = W b⌝
            -∗ TS (F := F) d 3 W' Ps -∗ wp frame (wpE ((K (F := F)).defs (D (F := F))) 𝒱 (d.tc : Thread nD τ) none) Set.univ (k ⟨⟩) Q))
      ⊢ wp frame (wpE ((K (F := F)).defs (D (F := F))) 𝒱 (d.tc : Thread nD τ) none) Set.univ ((K (F := F)).run d 2 >>= k) Q := by
  have hsub : three main_v1 main_v27 main_v28 ⊆ Pipeline.ucRefs τ sig := three_sub _ _ _ (by decide) (by decide) (by decide)
  have hyi : main_v1 ≠ main_v27 := by decide
  have hyo : main_v1 ≠ main_v28 := by decide
  have hio : main_v27 ≠ main_v28 := by decide
  rw [wp_bind]
  unfold TS
  rw [held_sub_split (d.tc : Thread nD τ) hsub W, held_three d main_v1 main_v27 main_v28 hyi hyo hio W]
  iintro ⟨#Hctx, ⟨Hb, ⟨⟨Hy, Hi, Ho⟩, Hrest⟩, Hst, Hg⟩, Hk⟩
  iapply (SparseCore.Cfg.wp_run (K := K (F := F)) (D (F := F)) 𝒱 κ d 2)
  isplitr
  · iexact Hctx
  isplitl [Hst]
  · iexact Hst
  isplitl [Hy Hi Ho]
  · iapply (split_call2 (F := F) d _ _ _ hin)
    isplitl [Hy]
    · iexact Hy
    isplitl [Hi]
    · iexact Hi
    · iexact Ho
  iintro ⟨Hst', Hdn⟩
  ihave Hj := (join_call2 (F := F) d) $$ Hdn
  icases Hj with ⟨⟨%fy, Hy⟩, ⟨%fi, Hi⟩, ⟨%fo, Ho⟩⟩
  iapply Hk $$ %(upd3 (F := F) W main_v1 main_v27 main_v28 fy fi fo) %(fun b hb => upd3_off W main_v1 main_v27 main_v28 fy fi fo b hb) [Hb Hy Hi Ho Hrest Hst' Hg]
  rw [held_sub_split (d.tc : Thread nD τ) hsub (upd3 (F := F) W main_v1 main_v27 main_v28 fy fi fo),
    held_three d main_v1 main_v27 main_v28 hyi hyo hio (upd3 (F := F) W main_v1 main_v27 main_v28 fy fi fo),
    upd3_y W main_v1 main_v27 main_v28 hyi hyo fy fi fo, upd3_ix W main_v1 main_v27 main_v28 hio fy fi fo, upd3_o W main_v1 main_v27 main_v28 fy fi fo,
    held_congr (d.tc : Thread nD τ) (V := upd3 (F := F) W main_v1 main_v27 main_v28 fy fi fo) (V' := W)
      (fun b hb => upd3_off W main_v1 main_v27 main_v28 fy fi fo b (Finset.mem_sdiff.mp hb).2)]
  isplitl [Hb]
  · iexact Hb
  isplitl [Hy Hi Ho Hrest]
  · isplitl [Hy Hi Ho]
    · isplitl [Hy]
      · iexact Hy
      isplitl [Hi]
      · iexact Hi
      · iexact Ho
    · iexact Hrest
  isplitl [Hst']
  · iexact Hst'
  · iexact Hg

/-- The same, in the form the walk of the program cites. -/
theorem seg_call2 : SegCall (F := F) 2 main_v27 main_v28 (fun W => ∀ j, (W (Proc.devRef .tc main_v27) j).toNat < 8192) :=
  fun κ d W Ps hin _ k Q => call2_step κ d W Ps hin k Q

/-! ## Call 3 -/

/-- THE CALL, as a step of the walk: from the state before call 3 with the index array's entries row numbers of y, the
    call runs, and what follows it runs from the state before call 4 at a valuation that differs from the one before
    only at the three arrays the call is handed. -/
theorem call3_step (κ : GSem nD τ sig → ℕ) (d : Dev nD) (W : Valuation τ sig (Elt F)) (Ps : Finset (Fin 6))
    (hin : ∀ j, (W (Proc.devRef .tc main_v31) j).toNat < 8192)
    {β : Type} (k : PUnit → Prog (TpuEff nD τ sig (Elt F) (SparseCore.Sig (ΛP (F := F)) 4) .tc) β) (Q : β → sProp 𝕄) :
    iprop((K (F := F)).ctx EH (P (F := F)) κ ∗ TS (F := F) d 3 W Ps
        ∗ (∀ W' : Valuation τ sig (Elt F), ⌜∀ b, b ∉ three main_v1 main_v31 main_v32 → W' b = W b⌝
            -∗ TS (F := F) d 4 W' Ps -∗ wp frame (wpE ((K (F := F)).defs (D (F := F))) 𝒱 (d.tc : Thread nD τ) none) Set.univ (k ⟨⟩) Q))
      ⊢ wp frame (wpE ((K (F := F)).defs (D (F := F))) 𝒱 (d.tc : Thread nD τ) none) Set.univ ((K (F := F)).run d 3 >>= k) Q := by
  have hsub : three main_v1 main_v31 main_v32 ⊆ Pipeline.ucRefs τ sig := three_sub _ _ _ (by decide) (by decide) (by decide)
  have hyi : main_v1 ≠ main_v31 := by decide
  have hyo : main_v1 ≠ main_v32 := by decide
  have hio : main_v31 ≠ main_v32 := by decide
  rw [wp_bind]
  unfold TS
  rw [held_sub_split (d.tc : Thread nD τ) hsub W, held_three d main_v1 main_v31 main_v32 hyi hyo hio W]
  iintro ⟨#Hctx, ⟨Hb, ⟨⟨Hy, Hi, Ho⟩, Hrest⟩, Hst, Hg⟩, Hk⟩
  iapply (SparseCore.Cfg.wp_run (K := K (F := F)) (D (F := F)) 𝒱 κ d 3)
  isplitr
  · iexact Hctx
  isplitl [Hst]
  · iexact Hst
  isplitl [Hy Hi Ho]
  · iapply (split_call3 (F := F) d _ _ _ hin)
    isplitl [Hy]
    · iexact Hy
    isplitl [Hi]
    · iexact Hi
    · iexact Ho
  iintro ⟨Hst', Hdn⟩
  ihave Hj := (join_call3 (F := F) d) $$ Hdn
  icases Hj with ⟨⟨%fy, Hy⟩, ⟨%fi, Hi⟩, ⟨%fo, Ho⟩⟩
  iapply Hk $$ %(upd3 (F := F) W main_v1 main_v31 main_v32 fy fi fo) %(fun b hb => upd3_off W main_v1 main_v31 main_v32 fy fi fo b hb) [Hb Hy Hi Ho Hrest Hst' Hg]
  rw [held_sub_split (d.tc : Thread nD τ) hsub (upd3 (F := F) W main_v1 main_v31 main_v32 fy fi fo),
    held_three d main_v1 main_v31 main_v32 hyi hyo hio (upd3 (F := F) W main_v1 main_v31 main_v32 fy fi fo),
    upd3_y W main_v1 main_v31 main_v32 hyi hyo fy fi fo, upd3_ix W main_v1 main_v31 main_v32 hio fy fi fo, upd3_o W main_v1 main_v31 main_v32 fy fi fo,
    held_congr (d.tc : Thread nD τ) (V := upd3 (F := F) W main_v1 main_v31 main_v32 fy fi fo) (V' := W)
      (fun b hb => upd3_off W main_v1 main_v31 main_v32 fy fi fo b (Finset.mem_sdiff.mp hb).2)]
  isplitl [Hb]
  · iexact Hb
  isplitl [Hy Hi Ho Hrest]
  · isplitl [Hy Hi Ho]
    · isplitl [Hy]
      · iexact Hy
      isplitl [Hi]
      · iexact Hi
      · iexact Ho
    · iexact Hrest
  isplitl [Hst']
  · iexact Hst'
  · iexact Hg

/-- The same, in the form the walk of the program cites. -/
theorem seg_call3 : SegCall (F := F) 3 main_v31 main_v32 (fun W => ∀ j, (W (Proc.devRef .tc main_v31) j).toNat < 8192) :=
  fun κ d W Ps hin _ k Q => call3_step κ d W Ps hin k Q

end Cert.Kernel.Sc

end
-- ==== Proof.ScFrameK.lean ====
/-
  The kernel program's frame run, from what is owed for its ten launches.

  The launch theorem needs one tile's task per sparse-core call and the proof of @main. @main is walked (relative to
  its ten launches), and its four calls are proved; so what remains owed is: the six regions' segments, and the four
  tile tasks. From those, every thread of the device runs to its end, nothing faults, and the fourteen argument arrays
  end as launched.
-/
import proofs.«215235_g2774548873965_cont_9to1_572_34_alg».proof.Proof.ScWalkK
import proofs.«215235_g2774548873965_cont_9to1_572_34_alg».proof.Proof.ScCallK

noncomputable section

namespace Cert.Kernel.Sc

open Cert.Kernel
open Idealize.ShloMosaic Idealize.ShloMosaic.StableHlo
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 4) (Elt F) ℕ UU ℕ

/-- The frame's post on device d, of a final memory. -/
def keptIn (m : (ℓ : Loc nD τ sig) → Buf (Elt F) ℓ) (r : PUnit × MemSt nD τ sig (Elt F)) (d : Dev nD) : Prop :=
  r.2.mem ((SparseCore.T d).loc main_arg0) = m ((SparseCore.T d).loc main_arg0)
  ∧ r.2.mem ((SparseCore.T d).loc main_arg1) = m ((SparseCore.T d).loc main_arg1)
  ∧ r.2.mem ((SparseCore.T d).loc main_arg2) = m ((SparseCore.T d).loc main_arg2)
  ∧ r.2.mem ((SparseCore.T d).loc main_arg3) = m ((SparseCore.T d).loc main_arg3)
  ∧ r.2.mem ((SparseCore.T d).loc main_arg4) = m ((SparseCore.T d).loc main_arg4)
  ∧ r.2.mem ((SparseCore.T d).loc main_arg5) = m ((SparseCore.T d).loc main_arg5)
  ∧ r.2.mem ((SparseCore.T d).loc main_arg6) = m ((SparseCore.T d).loc main_arg6)
  ∧ r.2.mem ((SparseCore.T d).loc main_arg7) = m ((SparseCore.T d).loc main_arg7)
  ∧ r.2.mem ((SparseCore.T d).loc main_arg8) = m ((SparseCore.T d).loc main_arg8)
  ∧ r.2.mem ((SparseCore.T d).loc main_arg9) = m ((SparseCore.T d).loc main_arg9)
  ∧ r.2.mem ((SparseCore.T d).loc main_arg10) = m ((SparseCore.T d).loc main_arg10)
  ∧ r.2.mem ((SparseCore.T d).loc main_arg11) = m ((SparseCore.T d).loc main_arg11)
  ∧ r.2.mem ((SparseCore.T d).loc main_arg12) = m ((SparseCore.T d).loc main_arg12)
  ∧ r.2.mem ((SparseCore.T d).loc main_arg13) = m ((SparseCore.T d).loc main_arg13)

/-- Everything owed for the kernel program's frame: the six regions' segments of @main and the four tile tasks. -/
structure Owed : Prop where
  r0 : SegRegion (F := F) 0 0 (Proc.devRef .tc main_v1)
  r1 : SegRegion (F := F) 1 1 (Proc.devRef .tc main_v21)
  r2 : SegRegion (F := F) 2 2 (Proc.devRef .tc main_v25)
  r3 : SegRegion (F := F) 3 3 (Proc.devRef .tc main_v29)
  r4 : SegRegion (F := F) 4 4 (Proc.devRef .tc main_v33)
  r5 : SegRegion (F := F) 5 4 (Proc.devRef .tc main_v36)
  tile : ∀ q, (K (F := F)).TileObl (D (F := F)) 𝒱 (P (F := F)) v₀ q

/-- The kernel program's run: every thread ends, nothing faults, the fourteen argument arrays are as launched. -/
theorem run_frame_of [∀ e, Nonempty (Elt F e)] (h : Owed (F := F)) (m : (ℓ : Loc nD τ sig) → Buf (Elt F) ℓ) (ρ : Dev nD → PrngReg)
    (hok : NbrOK m) :
    θ_run (Cert.Kernel.defs (F := F)) (Cert.Kernel.threads (F := F)) ⟨m, fun _ => 0, ρ⟩ (fun r => ∀ d : Dev nD, keptIn m r d) :=
  run_of m ρ (FIN m) (fq m) (fun r => ∀ d : Dev nD, keptIn m r d) h.tile
    (hmain_of h.r0 h.r1 h.r2 h.r3 h.r4 h.r5 seg_call0 seg_call1 seg_call2 seg_call3 m ρ hok) (hfin m) (fun _ hh => hh)

end Cert.Kernel.Sc

end
-- ==== Proof.Region0BodyK.lean ====
/-
  The first tensor-core region: y = x · W, one grid axis of 8 points. At point t the region stages rows
  1024·t … 1024·t + 1023 of x (a [1024,128] block), the whole [128,128] matrix W (its block index never moves), and
  an output block of the same rows of y. The body reads the two staged blocks whole, multiplies them, and overwrites
  the whole staged output block with the product.

  This file states that once, at a symbolic grid point, for any float instance and any ghost-state algebra, in the
  form the pipeline's region rule asks of a body: from the two input blocks staged (and the output buffer at
  anything) the body's label runs to the inputs unchanged and the output buffer at the product of the two blocks;
  whatever else the core holds (the invariant R, the tallies O it owes) passes through untouched.
-/
import proofs.«215235_g2774548873965_cont_9to1_572_34_alg».proof.Kernel
import proofs.«215235_g2774548873965_cont_9to1_572_34_alg».proof.Proof.Gen.Kernel
import proofs.«215235_g2774548873965_cont_9to1_572_34_alg».proof.Proof.Gen.Kernel.Skeleton
import proofs.«215235_g2774548873965_cont_9to1_572_34_alg».proof.Proof.Gen.Kernel.Launch
import proofs.«215235_g2774548873965_cont_9to1_572_34_alg».proof.Proof.Gen.Kernel.Points
import Idealize.ShloMosaic.Lib.Pipeline.FrameBody
import Idealize.ShloMosaic.Lib.Tactic

noncomputable section

namespace Cert.Kernel.Region0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The three rectangles the body names: each is its buffer, whole -/

/-- All of a [1024,128] buffer: the staged block of x, and the staged block of y. -/
abbrev rBig : Rect S1024x128 := Rect.unit (s := S1024x128) ![0, 0] S1024x128.size inb_S1024x128_S1024x128_0_0
/-- All of the [128,128] buffer: the staged matrix W. -/
abbrev rSq : Rect S128x128 := Rect.unit (s := S128x128) ![0, 0] S128x128.size inb_S128x128_S128x128_0_0

/-! ## The product block -/

/-- What the body's one store leaves in the output buffer, as a function of the two input buffers' contents:
    the matrix product of the block of x by W (the printed multiply-accumulate from a zero accumulator), laid over
    the whole buffer. -/
def prodBlock (x : Vec F S1024x128 .f32) (w : Vec F S128x128 .f32) : Vec F S1024x128 .f32 :=
  View.canon [⟨rBig, k0_pay1 (View.ld x rBig) (View.ld w rSq)⟩]

/-- The one store's rectangle is the whole buffer, so every index of the buffer is under it. -/
theorem prod_covers (p : Vec F S1024x128 .f32) (y : S1024x128.Idx) :
    ∃ pc ∈ ([⟨rBig, p⟩] : List (View.Piece (Elt F) S1024x128 .f32)), y ∈ pc.1.set :=
  View.cover_of_tiled [⟨rBig, p⟩] S1024x128.size (by rfl) y

/-! ## The proof data -/

/-- Window w's block at point t, read off the array's contents at the region's entry. -/
def blockAt (c : Dev nD) (A : (w : Fin cfg0.W) → Buf (Elt F) ((cfg0.win w).arr.view.loc (c.tc : Thread nD τ)))
    (w : Fin cfg0.W) (t : Fin cfg0.N) : ((cfg0.win w).xblock (cfg0.grid.coords t)).Idx → Elt F (cfg0.win w).elt :=
  ((cfg0.win w).blk t).view.read (Elt F) (A w)

/-- The region's proof data on core c, for any entry contents A of the three arrays, any shares q of the two input
    arrays, any invariant R, any tallies O and any bound B on the pairs the core's waits have recorded: the body leaves
    each input buffer at its block and the output buffer at the product of the two blocks; R, O and B do not change from
    point to point. -/
def dat (c : Dev nD) (A : (w : Fin cfg0.W) → Buf (Elt F) ((cfg0.win w).arr.view.loc (c.tc : Thread nD τ)))
    (q : Fin cfg0.W → PosShare TreeShare) (R : sProp 𝕄) (O : CellTallies nD τ sig Ix) (B : Set (SemLoc sig × Ix)) :
    Dat τ (Elt F) Ix Name U Lvl cfg0 c where
  A := A
  after w t := match w with
    | ⟨0, _⟩ => blockAt c A 0 t
    | ⟨1, _⟩ => blockAt c A 1 t
    | ⟨2, _⟩ => prodBlock (blockAt c A 0 t) (blockAt c A 1 t)
  Φ _ := R
  q := q
  owed _ := O
  recorded _ := B

/-! ## The body on any three whole buffers -/

/-- The body, called on whole buffers holding x0, w0 and anything, returns them holding x0, w0 and the product. -/
theorem body_run (𝒱₀ : Variants) (c : Dev nD) (E : Set Name) (i : grid0.Coords)
    (a1 : Memref sig .tc .vmem S1024x128 .f32) (h1 : a1.IsWhole) (a2 : Memref sig .tc .vmem S128x128 .f32) (h2 : a2.IsWhole)
    (a3 : Memref sig .tc .vmem S1024x128 .f32) (h3 : a3.IsWhole)
    (x0 : Vec F S1024x128 .f32) (w0 : Vec F S128x128 .f32) (K : PUnit → sProp 𝕄) :
    iprop(owns (c : Thread nD τ) a1 fullShare x0 ∗ owns (c : Thread nD τ) a2 fullShare w0 ∗ (∃ d, owns (c : Thread nD τ) a3 fullShare d)
        ∗ (iprop(owns (c : Thread nD τ) a1 fullShare x0 ∗ owns (c : Thread nD τ) a2 fullShare w0
              ∗ owns (c : Thread nD τ) a3 fullShare (prodBlock x0 w0)) -∗ K ⟨⟩))
      ⊢ wp frame (wpE (defs₀ (F := F)) 𝒱₀ c none) E (cc0__in2f_kernel i a1 h1 a2 h2 a3 h3) K := by
  -- the printed function is its sequence of memory operations over the named product
  sl_unfold [cc0__in2f_kernel]
  unfold owns
  iintro ⟨⟨%f1, %e1, H1⟩, ⟨%f2, %e2, H2⟩, ⟨%d3, %f3, -, H3⟩, Hk⟩
  subst e1 e2
  -- two whole-buffer loads, the product (pure), a load of the output buffer nobody reads, the whole-buffer store
  sl_exec
  sl_step
  iapply Hk
  -- the inputs were only read
  isplitl [H1]
  · iexists f1; isplitr
    · ipureintro; rfl
    · iexact H1
  isplitl [H2]
  · iexists f2; isplitr
    · ipureintro; rfl
    · iexact H2
  -- the output buffer holds the one store's payload at every index, since that store's rectangle is the buffer
  iexists _
  isplitr
  rotate_left
  · iexact H3
  · ipureintro
    exact View.read_writes_eq_canon _ _ _ (prod_covers _)

/-! ## What the proof data says, window by window -/

section Facts

variable (c : Dev nD) (A : (w : Fin cfg0.W) → Buf (Elt F) ((cfg0.win w).arr.view.loc (c.tc : Thread nD τ)))
  (q : Fin cfg0.W → PosShare TreeShare) (O : CellTallies nD τ sig Ix) (B : Set (SemLoc sig × Ix))

/-- The body leaves the staged block of x as it is, -/
theorem after_x (R : sProp 𝕄) (t : Fin cfg0.N) :
    (dat (Name := Name) (Lvl := Lvl) c A q R O B).after 0 t = blockAt c A 0 t := by dsimp only [dat]
/-- the staged matrix as it is, -/
theorem after_w (R : sProp 𝕄) (t : Fin cfg0.N) :
    (dat (Name := Name) (Lvl := Lvl) c A q R O B).after 1 t = blockAt c A 1 t := by dsimp only [dat]
/-- and the output buffer at the product of the two. -/
theorem after_y (R : sProp 𝕄) (t : Fin cfg0.N) :
    (dat (Name := Name) (Lvl := Lvl) c A q R O B).after 2 t = prodBlock (blockAt c A 0 t) (blockAt c A 1 t) := by dsimp only [dat]

/-- The buffer staging x holds the point's block of x when the body starts: every point fetches it. (Stated through the
    general fact about an input the body does not change, which does not ask whether the point fetched.) -/
theorem before_x (R : sProp 𝕄) (t : Fin cfg0.N) (d) :
    (dat (Name := Name) (Lvl := Lvl) c A q R O B).before 0 t d = blockAt c A 0 t :=
  ((dat (Name := Name) (Lvl := Lvl) c A q R O B).before_in_eq_fetched 0 rfl (fun _ => rfl) (fun _ _ _ => rfl)
      (fun u => by rw [after_x]; rfl) t d).trans rfl

/-- The buffer staging W holds W at every point although only the first point fetches it: its block index never moves,
    and the body leaves it in place. -/
theorem before_w (R : sProp 𝕄) (t : Fin cfg0.N) (d) :
    (dat (Name := Name) (Lvl := Lvl) c A q R O B).before 1 t d = blockAt c A 1 t :=
  ((dat (Name := Name) (Lvl := Lvl) c A q R O B).before_in_eq_fetched 1 rfl (fun _ => rfl) (fun _ _ _ => rfl)
      (fun u => by rw [after_w]; rfl) t d).trans rfl

end Facts

/-! ## The obligation -/

/-- The body at a symbolic point t, the three windows written out: the inputs' buffers hold their blocks, so the run above
    applies; the invariant and what the core owes are the same before and after. -/
theorem at_point (𝒱₀ : Variants) (ι : Ix) (c : Dev nD)
    (A : (w : Fin cfg0.W) → Buf (Elt F) ((cfg0.win w).arr.view.loc (c.tc : Thread nD τ)))
    (q : Fin cfg0.W → PosShare TreeShare) (R : sProp 𝕄) (O : CellTallies nD τ sig Ix) (B : Set (SemLoc sig × Ix)) (t : Fin cfg0.N) :
    iprop((dat c A q R O B).Φ t.castSucc ∗ (dat c A q R O B).owesAt ι t.castSucc
        ∗ (∃ d, owns (c : Thread nD τ) (st0_0 t) fullShare ((dat c A q R O B).before 0 t d))
        ∗ (∃ d, owns (c : Thread nD τ) (st0_1 t) fullShare ((dat c A q R O B).before 1 t d))
        ∗ (∃ d, owns (c : Thread nD τ) (st0_2 t) fullShare ((dat c A q R O B).before 2 t d)))
      ⊢ wp frame (wpE (defs₀ (F := F)) 𝒱₀ c none) Set.univ (bodyAt0 t) fun _ =>
          iprop((dat c A q R O B).Φ t.succ ∗ (dat c A q R O B).owesAt ι t.succ
            ∗ owns (c : Thread nD τ) (st0_0 t) fullShare ((dat c A q R O B).after 0 t)
            ∗ owns (c : Thread nD τ) (st0_1 t) fullShare ((dat c A q R O B).after 1 t)
            ∗ owns (c : Thread nD τ) (st0_2 t) fullShare ((dat c A q R O B).after 2 t)) := by
  simp only [before_x, before_w]
  rw [show (dat c A q R O B).Φ t.succ = (dat c A q R O B).Φ t.castSucc from rfl,
    show (dat c A q R O B).owesAt ι t.succ = (dat c A q R O B).owesAt ι t.castSucc from rfl,
    after_x, after_w, after_y]
  iintro ⟨HR, HO, ⟨%d0, H0⟩, ⟨%d1, H1⟩, ⟨%d2, H2⟩⟩
  iapply (body_run 𝒱₀ c Set.univ _ _ _ _ _ _ _ (blockAt c A 0 t) (blockAt c A 1 t) _)
  isplitl [H0]; · iexact H0
  isplitl [H1]; · iexact H1
  isplitl [H2]; · iexists _; iexact H2
  iintro ⟨H0, H1, H2⟩
  isplitl [HR]; · iexact HR
  isplitl [HO]; · iexact HO
  isplitl [H0]; · iexact H0
  isplitl [H1]; · iexact H1
  iexact H2

/-- The region rule's hypothesis about the body, at every point of the grid. -/
theorem body_obligation (𝒱₀ : Variants) (ι : Ix) (c : Dev nD)
    (A : (w : Fin cfg0.W) → Buf (Elt F) ((cfg0.win w).arr.view.loc (c.tc : Thread nD τ)))
    (q : Fin cfg0.W → PosShare TreeShare) (R : sProp 𝕄) (O : CellTallies nD τ sig Ix) (B : Set (SemLoc sig × Ix)) :
    BodyObligation (dat c A q R O B) (defs₀ (F := F)) 𝒱₀ ι Set.univ := fun t => by
  rw [bigSep_W0, bigSep_W0]
  exact at_point 𝒱₀ ι c A q R O B t

/-! ## The region's record

What the region rule asks besides the body: the windows' layout, that the kernel has no semaphore of its own, the evidence
for the staging cells' waits (the caller's: it depends on what the core owes), and the region's protocol — what it is
entered with, what goes into the body's invariant, what comes back. Entered with the three arrays at contents A, the core
owing O with its recorded pairs within the bound, and anything else Z the caller holds, the region leaves the arrays at
what the eight write-backs made of them, the core still owing O within the same bound, and Z. -/

section Record

/-- A family over no index is the empty resource. -/
theorem bigSep_none {M : Type} [URA M] (Φ : Fin 0 → sProp M) : bigSep Finset.univ Φ = (BI.emp : sProp M) :=
  bigSep_univ_eq_bigSepL [] (by decide) (by decide) Φ

/-- The region has no prefetched table. -/
theorem no_tables (a : (p : Fin 6) → (pcfgs (F := F) p).Adm) (c : Dev nD) (q) (pf) :
    (Pipeline.prefHeld (Ix := Ix) (Name := Name) (U := U) (Lvl := Lvl) (Val := Elt F) (pcfgs (F := F) 0).pre c q pf : sProp 𝕄) = BI.emp :=
  bigSep_none _

/-- The invariant of this file's proof data is the same resource at every point. -/
theorem inv_eq (c : Dev nD) (A : (w : Fin cfg0.W) → Buf (Elt F) ((cfg0.win w).arr.view.loc (c.tc : Thread nD τ)))
    (q : Fin cfg0.W → PosShare TreeShare) (R : sProp 𝕄) (O : CellTallies nD τ sig Ix) (B : Set (SemLoc sig × Ix))
    (t : Fin (cfg0.N + 1)) : (dat (Name := Name) (Lvl := Lvl) c A q R O B).Φ t = R := rfl

/-- What the body may use and need not describe: the core's scoped buffers that stage nothing for this region. -/
def rest0 (a : (p : Fin 6) → (pcfgs (F := F) p).Adm) (c : Dev nD) : sProp 𝕄 :=
  Pipeline.scopedRest (Pipeline.pin (pcfgs (F := F)) a 0).spec c

/-- The record, for any proof data of the six pipelines whose first is this file's, on a core that owes the tallies
    `O c` throughout the region (the body neither pays nor takes on any unit), given the evidence that the region's
    own waits — on its staging cells — may be made while that much is owed. What the core owes is stated as the proof
    data states it (`owesAt`: some recorded set within the bound `B c` or the loop's own wait pairs). -/
def region0 (a : (p : Fin 6) → (pcfgs (F := F) p).Adm)
    (pdats : (p : Fin 6) → (c : Dev nD) → Dat τ (Elt F) Ix Name U Lvl (Pipeline.pin (pcfgs (F := F)) a p) c)
    (ι : Ix) (𝒱₀ : Variants) (L : GSem nD τ sig → Finset Ix) (lv : GSem nD τ sig → Ix → Lvl)
    (A : (c : Dev nD) → (w : Fin cfg0.W) → Buf (Elt F) ((cfg0.win w).arr.view.loc (c.tc : Thread nD τ)))
    (q : Fin cfg0.W → PosShare TreeShare) (O : Dev nD → CellTallies nD τ sig Ix) (B : Dev nD → Set (SemLoc sig × Ix))
    (h0 : ∀ c, pdats 0 c = dat c (A c) q (rest0 a c) (O c) (B c))
    (hw : ∀ c, (levAts L lv : sProp 𝕄) ⊢ Pipeline.cellsWaits (Pipeline.pin (pcfgs (F := F)) a) pdats ι 0 c)
    (Z : Dev nD → sProp 𝕄) :
    Pipeline.RegionSeg (pcfgs (F := F)) a pdats ι (defs₀ (F := F)) 𝒱₀ L lv 0 where
  win := (winFacts0.to₀ : Pipeline.WinFacts₀ spec0)
  block_pos := block_pos0
  stage_whole := stage_whole0
  K := PEmpty
  osem k := k.elim
  ho := Pipeline.OwnSemFacts.none _
  hbody c := by rw [h0 c]; exact (body_obligation 𝒱₀ ι c (A c) q (rest0 a c) (O c) (B c)).loose
  hwaits := hw
  pre c := iprop((pdats 0 c).arrays (fun w => (pdats 0 c).arrAt w 0) ∗ (pdats 0 c).owesAt ι 0 ∗ Z c)
  post c := iprop((pdats 0 c).arrays (fun w => (pdats 0 c).arrAt w cfg0.N) ∗ (pdats 0 c).owesAt ι (Fin.last cfg0.N) ∗ Z c)
  X _ := BI.emp
  Y _ := BI.emp
  Z := Z
  hentry c := by
    rw [no_tables a]
    iintro ⟨⟨HA, HO, HZ⟩, -, -⟩
    imodintro
    isplitl [HA]; · iexact HA
    isplitr; · iempintro
    isplitl [HO]; · iexact HO
    isplitr; · iempintro
    iexact HZ
  hin c := by
    rw [h0 c, inv_eq, rest0]
    iintro ⟨-, -, HS⟩; iexact HS
  hout c := by
    rw [h0 c, Pipeline.ownSems0_none, inv_eq, rest0]
    iintro HS
    isplitr; · iempintro
    isplitr; · iempintro
    iexact HS
  hexit c := by
    iintro ⟨HA, HO, -, HZ⟩
    imodintro
    isplitl [HA]; · iexact HA
    isplitl [HO]; · iexact HO
    iexact HZ

end Record

end Cert.Kernel.Region0

end
-- ==== Proof.Region5BodyK.lean ====
/-
  The last tensor-core region: out = ssp((h₀ + h₁ + h₂ + h₃) · W₁ + b₁) · W₂ + b₂, one grid axis of 8 points, where
  ssp(v) = log(½ · exp v + ½). At point t the region stages W₁ and W₂ ([128,128] each) and the two bias rows b₁, b₂
  ([1,128] each) — their block index never moves, so only the first point fetches them —, rows 1024·t … 1024·t + 1023 of
  each of the four summands h₀ … h₃ ([1024,128] blocks, fetched at every point), and an output block of the same rows.
  The body reads the eight staged inputs whole, computes, and overwrites the whole staged output block.

  This file states that once, at a symbolic grid point, for any float instance and any ghost-state algebra, in the form
  the pipeline's region rule asks of a body: the inputs' buffers come back unchanged, the output buffer holds the value
  above of the eight input blocks, and whatever else the core holds (the invariant R, the tallies O it owes) passes
  through untouched.
-/
import proofs.«215235_g2774548873965_cont_9to1_572_34_alg».proof.Kernel
import proofs.«215235_g2774548873965_cont_9to1_572_34_alg».proof.Proof.Gen.Kernel
import proofs.«215235_g2774548873965_cont_9to1_572_34_alg».proof.Proof.Gen.Kernel.Skeleton
import proofs.«215235_g2774548873965_cont_9to1_572_34_alg».proof.Proof.Gen.Kernel.Launch
import proofs.«215235_g2774548873965_cont_9to1_572_34_alg».proof.Proof.Gen.Kernel.Points
import Idealize.ShloMosaic.Lib.Pipeline.FrameBody
import Idealize.ShloMosaic.Lib.Tactic

noncomputable section

namespace Cert.Kernel.Region5

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The three rectangles the body names: each is its buffer, whole -/

/-- All of a [1024,128] buffer: a staged block of a summand, and the staged output block. -/
abbrev rBig : Rect S1024x128 := Rect.unit (s := S1024x128) ![0, 0] S1024x128.size inb_S1024x128_S1024x128_0_0
/-- All of a [128,128] buffer: a staged weight matrix. -/
abbrev rSq : Rect S128x128 := Rect.unit (s := S128x128) ![0, 0] S128x128.size inb_S128x128_S128x128_0_0
/-- All of a [1,128] buffer: a staged bias row. -/
abbrev rRow : Rect S1x128 := Rect.unit (s := S1x128) ![0, 0] S1x128.size inb_S1x128_S1x128_0_0

/-! ## The output block -/

/-- What the body's one store leaves in the output buffer, as a function of the eight input buffers' contents (the
    weights and biases first, then the four summands, in the windows' order): the printed value — the summands added,
    times W₁, plus b₁ along the rows, through log(½·exp + ½), times W₂, plus b₂ along the rows — laid over the whole
    buffer. -/
def tailBlock (w1 : Vec F S128x128 .f32) (b1 : Vec F S1x128 .f32) (w2 : Vec F S128x128 .f32) (b2 : Vec F S1x128 .f32)
    (h0 h1 h2 h3 : Vec F S1024x128 .f32) : Vec F S1024x128 .f32 :=
  View.canon [⟨rBig, k9_pay1 (View.ld h0 rBig) (View.ld h1 rBig) (View.ld h2 rBig) (View.ld h3 rBig)
    (View.ld w1 rSq) (View.ld b1 rRow) (View.ld w2 rSq) (View.ld b2 rRow)⟩]

/-- The one store's rectangle is the whole buffer, so every index of the buffer is under it. -/
theorem tail_covers (p : Vec F S1024x128 .f32) (y : S1024x128.Idx) :
    ∃ pc ∈ ([⟨rBig, p⟩] : List (View.Piece (Elt F) S1024x128 .f32)), y ∈ pc.1.set :=
  View.cover_of_tiled [⟨rBig, p⟩] S1024x128.size (by rfl) y

/-! ## The proof data -/

/-- Window w's block at point t, read off the array's contents at the region's entry. -/
def blockAt (c : Dev nD) (A : (w : Fin cfg9.W) → Buf (Elt F) ((cfg9.win w).arr.view.loc (c.tc : Thread nD τ)))
    (w : Fin cfg9.W) (t : Fin cfg9.N) : ((cfg9.win w).xblock (cfg9.grid.coords t)).Idx → Elt F (cfg9.win w).elt :=
  ((cfg9.win w).blk t).view.read (Elt F) (A w)

/-- The region's proof data on core c, for any entry contents A of the nine arrays, any shares q of the eight input
    arrays, any invariant R, any tallies O and any bound B on the pairs the core's waits have recorded: the body leaves
    each input buffer at its block and the output buffer at the value of the eight blocks; R, O and B do not change
    from point to point. -/
def dat (c : Dev nD) (A : (w : Fin cfg9.W) → Buf (Elt F) ((cfg9.win w).arr.view.loc (c.tc : Thread nD τ)))
    (q : Fin cfg9.W → PosShare TreeShare) (R : sProp 𝕄) (O : CellTallies nD τ sig Ix) (B : Set (SemLoc sig × Ix)) :
    Dat τ (Elt F) Ix Name U Lvl cfg9 c where
  A := A
  after w t := match w with
    | ⟨0, _⟩ => blockAt c A 0 t
    | ⟨1, _⟩ => blockAt c A 1 t
    | ⟨2, _⟩ => blockAt c A 2 t
    | ⟨3, _⟩ => blockAt c A 3 t
    | ⟨4, _⟩ => blockAt c A 4 t
    | ⟨5, _⟩ => blockAt c A 5 t
    | ⟨6, _⟩ => blockAt c A 6 t
    | ⟨7, _⟩ => blockAt c A 7 t
    | ⟨8, _⟩ => tailBlock (blockAt c A 0 t) (blockAt c A 1 t) (blockAt c A 2 t) (blockAt c A 3 t)
        (blockAt c A 4 t) (blockAt c A 5 t) (blockAt c A 6 t) (blockAt c A 7 t)
  Φ _ := R
  q := q
  owed _ := O
  recorded _ := B

/-! ## The body on any nine whole buffers -/

/-- The body, called on whole buffers holding the eight inputs and anything, returns them holding the eight inputs and
    the output value. -/
theorem body_run (𝒱₀ : Variants) (c : Dev nD) (E : Set Name) (i : grid9.Coords)
    (a1 : Memref sig .tc .vmem S128x128 .f32) (g1 : a1.IsWhole) (a2 : Memref sig .tc .vmem S1x128 .f32) (g2 : a2.IsWhole)
    (a3 : Memref sig .tc .vmem S128x128 .f32) (g3 : a3.IsWhole) (a4 : Memref sig .tc .vmem S1x128 .f32) (g4 : a4.IsWhole)
    (a5 : Memref sig .tc .vmem S1024x128 .f32) (g5 : a5.IsWhole) (a6 : Memref sig .tc .vmem S1024x128 .f32) (g6 : a6.IsWhole)
    (a7 : Memref sig .tc .vmem S1024x128 .f32) (g7 : a7.IsWhole) (a8 : Memref sig .tc .vmem S1024x128 .f32) (g8 : a8.IsWhole)
    (a9 : Memref sig .tc .vmem S1024x128 .f32) (g9 : a9.IsWhole)
    (w1 : Vec F S128x128 .f32) (b1 : Vec F S1x128 .f32) (w2 : Vec F S128x128 .f32) (b2 : Vec F S1x128 .f32)
    (h0 h1 h2 h3 : Vec F S1024x128 .f32) (K : PUnit → sProp 𝕄) :
    iprop(owns (c : Thread nD τ) a1 fullShare w1 ∗ owns (c : Thread nD τ) a2 fullShare b1
        ∗ owns (c : Thread nD τ) a3 fullShare w2 ∗ owns (c : Thread nD τ) a4 fullShare b2
        ∗ owns (c : Thread nD τ) a5 fullShare h0 ∗ owns (c : Thread nD τ) a6 fullShare h1
        ∗ owns (c : Thread nD τ) a7 fullShare h2 ∗ owns (c : Thread nD τ) a8 fullShare h3
        ∗ (∃ d, owns (c : Thread nD τ) a9 fullShare d)
        ∗ (iprop(owns (c : Thread nD τ) a1 fullShare w1 ∗ owns (c : Thread nD τ) a2 fullShare b1
              ∗ owns (c : Thread nD τ) a3 fullShare w2 ∗ owns (c : Thread nD τ) a4 fullShare b2
              ∗ owns (c : Thread nD τ) a5 fullShare h0 ∗ owns (c : Thread nD τ) a6 fullShare h1
              ∗ owns (c : Thread nD τ) a7 fullShare h2 ∗ owns (c : Thread nD τ) a8 fullShare h3
              ∗ owns (c : Thread nD τ) a9 fullShare (tailBlock w1 b1 w2 b2 h0 h1 h2 h3)) -∗ K ⟨⟩))
      ⊢ wp frame (wpE (defs₀ (F := F)) 𝒱₀ c none) E
          (cc9__tail_kernel i a1 g1 a2 g2 a3 g3 a4 g4 a5 g5 a6 g6 a7 g7 a8 g8 a9 g9) K := by
  -- the printed function is its sequence of memory operations over the named value
  sl_unfold [cc9__tail_kernel]
  unfold owns
  iintro ⟨⟨%f1, %e1, H1⟩, ⟨%f2, %e2, H2⟩, ⟨%f3, %e3, H3⟩, ⟨%f4, %e4, H4⟩, ⟨%f5, %e5, H5⟩, ⟨%f6, %e6, H6⟩,
    ⟨%f7, %e7, H7⟩, ⟨%f8, %e8, H8⟩, ⟨%d9, %f9, -, H9⟩, Hk⟩
  subst e1 e2 e3 e4 e5 e6 e7 e8
  -- eight whole-buffer loads, the value (pure), a load of the output buffer nobody reads, the whole-buffer store
  sl_exec
  sl_step
  iapply Hk
  -- the inputs were only read
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists f7; isplitr
    · ipureintro; rfl
    · iexact H7
  isplitl [H8]
  · iexists f8; isplitr
    · ipureintro; rfl
    · iexact H8
  -- the output buffer holds the one store's payload at every index, since that store's rectangle is the buffer
  iexists _
  isplitr
  rotate_left
  · iexact H9
  · ipureintro
    exact View.read_writes_eq_canon _ _ _ (tail_covers _)

/-! ## What the proof data says, window by window -/

section Facts

variable (c : Dev nD) (A : (w : Fin cfg9.W) → Buf (Elt F) ((cfg9.win w).arr.view.loc (c.tc : Thread nD τ)))
  (q : Fin cfg9.W → PosShare TreeShare) (O : CellTallies nD τ sig Ix) (B : Set (SemLoc sig × Ix))

/-- The body leaves each staged input as it is, -/
theorem after_in0 (R : sProp 𝕄) (t : Fin cfg9.N) : (dat (Name := Name) (Lvl := Lvl) c A q R O B).after 0 t = blockAt c A 0 t := by dsimp only [dat]
theorem after_in1 (R : sProp 𝕄) (t : Fin cfg9.N) : (dat (Name := Name) (Lvl := Lvl) c A q R O B).after 1 t = blockAt c A 1 t := by dsimp only [dat]
theorem after_in2 (R : sProp 𝕄) (t : Fin cfg9.N) : (dat (Name := Name) (Lvl := Lvl) c A q R O B).after 2 t = blockAt c A 2 t := by dsimp only [dat]
theorem after_in3 (R : sProp 𝕄) (t : Fin cfg9.N) : (dat (Name := Name) (Lvl := Lvl) c A q R O B).after 3 t = blockAt c A 3 t := by dsimp only [dat]
theorem after_in4 (R : sProp 𝕄) (t : Fin cfg9.N) : (dat (Name := Name) (Lvl := Lvl) c A q R O B).after 4 t = blockAt c A 4 t := by dsimp only [dat]
theorem after_in5 (R : sProp 𝕄) (t : Fin cfg9.N) : (dat (Name := Name) (Lvl := Lvl) c A q R O B).after 5 t = blockAt c A 5 t := by dsimp only [dat]
theorem after_in6 (R : sProp 𝕄) (t : Fin cfg9.N) : (dat (Name := Name) (Lvl := Lvl) c A q R O B).after 6 t = blockAt c A 6 t := by dsimp only [dat]
theorem after_in7 (R : sProp 𝕄) (t : Fin cfg9.N) : (dat (Name := Name) (Lvl := Lvl) c A q R O B).after 7 t = blockAt c A 7 t := by dsimp only [dat]
/-- and the output buffer at the value of the eight blocks. -/
theorem after_out (R : sProp 𝕄) (t : Fin cfg9.N) :
    (dat (Name := Name) (Lvl := Lvl) c A q R O B).after 8 t
      = tailBlock (blockAt c A 0 t) (blockAt c A 1 t) (blockAt c A 2 t) (blockAt c A 3 t)
          (blockAt c A 4 t) (blockAt c A 5 t) (blockAt c A 6 t) (blockAt c A 7 t) := by dsimp only [dat]

/-- Each input's staged buffer holds the point's block of its array when the body starts, whether or not the point
    fetched it: the weights' and biases' block index never moves and the body leaves them in place; the summands are
    fetched at every point. (One general fact about an input the body does not change covers both.) -/
theorem before_in0 (R : sProp 𝕄) (t : Fin cfg9.N) (d) : (dat (Name := Name) (Lvl := Lvl) c A q R O B).before 0 t d = blockAt c A 0 t :=
  ((dat (Name := Name) (Lvl := Lvl) c A q R O B).before_in_eq_fetched 0 rfl (fun _ => rfl) (fun _ _ _ => rfl) (fun u => by rw [after_in0]; rfl) t d).trans rfl
theorem before_in1 (R : sProp 𝕄) (t : Fin cfg9.N) (d) : (dat (Name := Name) (Lvl := Lvl) c A q R O B).before 1 t d = blockAt c A 1 t :=
  ((dat (Name := Name) (Lvl := Lvl) c A q R O B).before_in_eq_fetched 1 rfl (fun _ => rfl) (fun _ _ _ => rfl) (fun u => by rw [after_in1]; rfl) t d).trans rfl
theorem before_in2 (R : sProp 𝕄) (t : Fin cfg9.N) (d) : (dat (Name := Name) (Lvl := Lvl) c A q R O B).before 2 t d = blockAt c A 2 t :=
  ((dat (Name := Name) (Lvl := Lvl) c A q R O B).before_in_eq_fetched 2 rfl (fun _ => rfl) (fun _ _ _ => rfl) (fun u => by rw [after_in2]; rfl) t d).trans rfl
theorem before_in3 (R : sProp 𝕄) (t : Fin cfg9.N) (d) : (dat (Name := Name) (Lvl := Lvl) c A q R O B).before 3 t d = blockAt c A 3 t :=
  ((dat (Name := Name) (Lvl := Lvl) c A q R O B).before_in_eq_fetched 3 rfl (fun _ => rfl) (fun _ _ _ => rfl) (fun u => by rw [after_in3]; rfl) t d).trans rfl
theorem before_in4 (R : sProp 𝕄) (t : Fin cfg9.N) (d) : (dat (Name := Name) (Lvl := Lvl) c A q R O B).before 4 t d = blockAt c A 4 t :=
  ((dat (Name := Name) (Lvl := Lvl) c A q R O B).before_in_eq_fetched 4 rfl (fun _ => rfl) (fun _ _ _ => rfl) (fun u => by rw [after_in4]; rfl) t d).trans rfl
theorem before_in5 (R : sProp 𝕄) (t : Fin cfg9.N) (d) : (dat (Name := Name) (Lvl := Lvl) c A q R O B).before 5 t d = blockAt c A 5 t :=
  ((dat (Name := Name) (Lvl := Lvl) c A q R O B).before_in_eq_fetched 5 rfl (fun _ => rfl) (fun _ _ _ => rfl) (fun u => by rw [after_in5]; rfl) t d).trans rfl
theorem before_in6 (R : sProp 𝕄) (t : Fin cfg9.N) (d) : (dat (Name := Name) (Lvl := Lvl) c A q R O B).before 6 t d = blockAt c A 6 t :=
  ((dat (Name := Name) (Lvl := Lvl) c A q R O B).before_in_eq_fetched 6 rfl (fun _ => rfl) (fun _ _ _ => rfl) (fun u => by rw [after_in6]; rfl) t d).trans rfl
theorem before_in7 (R : sProp 𝕄) (t : Fin cfg9.N) (d) : (dat (Name := Name) (Lvl := Lvl) c A q R O B).before 7 t d = blockAt c A 7 t :=
  ((dat (Name := Name) (Lvl := Lvl) c A q R O B).before_in_eq_fetched 7 rfl (fun _ => rfl) (fun _ _ _ => rfl) (fun u => by rw [after_in7]; rfl) t d).trans rfl

end Facts

/-! ## The obligation -/

/-- The body at a symbolic point t, the nine windows written out: the inputs' buffers hold their blocks, so the run above
    applies; the invariant and what the core owes are the same before and after. -/
theorem at_point (𝒱₀ : Variants) (ι : Ix) (c : Dev nD) (A : (w : Fin cfg9.W) → Buf (Elt F) ((cfg9.win w).arr.view.loc (c.tc : Thread nD τ)))
    (q : Fin cfg9.W → PosShare TreeShare) (R : sProp 𝕄) (O : CellTallies nD τ sig Ix) (B : Set (SemLoc sig × Ix)) (t : Fin cfg9.N) :
    iprop((dat c A q R O B).Φ t.castSucc ∗ (dat c A q R O B).owesAt ι t.castSucc
        ∗ (∃ d, owns (c : Thread nD τ) (st9_0 t) fullShare ((dat c A q R O B).before 0 t d))
        ∗ (∃ d, owns (c : Thread nD τ) (st9_1 t) fullShare ((dat c A q R O B).before 1 t d))
        ∗ (∃ d, owns (c : Thread nD τ) (st9_2 t) fullShare ((dat c A q R O B).before 2 t d))
        ∗ (∃ d, owns (c : Thread nD τ) (st9_3 t) fullShare ((dat c A q R O B).before 3 t d))
        ∗ (∃ d, owns (c : Thread nD τ) (st9_4 t) fullShare ((dat c A q R O B).before 4 t d))
        ∗ (∃ d, owns (c : Thread nD τ) (st9_5 t) fullShare ((dat c A q R O B).before 5 t d))
        ∗ (∃ d, owns (c : Thread nD τ) (st9_6 t) fullShare ((dat c A q R O B).before 6 t d))
        ∗ (∃ d, owns (c : Thread nD τ) (st9_7 t) fullShare ((dat c A q R O B).before 7 t d))
        ∗ (∃ d, owns (c : Thread nD τ) (st9_8 t) fullShare ((dat c A q R O B).before 8 t d)))
      ⊢ wp frame (wpE (defs₀ (F := F)) 𝒱₀ c none) Set.univ (bodyAt9 t) fun _ =>
          iprop((dat c A q R O B).Φ t.succ ∗ (dat c A q R O B).owesAt ι t.succ
            ∗ owns (c : Thread nD τ) (st9_0 t) fullShare ((dat c A q R O B).after 0 t)
            ∗ owns (c : Thread nD τ) (st9_1 t) fullShare ((dat c A q R O B).after 1 t)
            ∗ owns (c : Thread nD τ) (st9_2 t) fullShare ((dat c A q R O B).after 2 t)
            ∗ owns (c : Thread nD τ) (st9_3 t) fullShare ((dat c A q R O B).after 3 t)
            ∗ owns (c : Thread nD τ) (st9_4 t) fullShare ((dat c A q R O B).after 4 t)
            ∗ owns (c : Thread nD τ) (st9_5 t) fullShare ((dat c A q R O B).after 5 t)
            ∗ owns (c : Thread nD τ) (st9_6 t) fullShare ((dat c A q R O B).after 6 t)
            ∗ owns (c : Thread nD τ) (st9_7 t) fullShare ((dat c A q R O B).after 7 t)
            ∗ owns (c : Thread nD τ) (st9_8 t) fullShare ((dat c A q R O B).after 8 t)) := by
  simp only [before_in0, before_in1, before_in2, before_in3, before_in4, before_in5, before_in6, before_in7]
  rw [show (dat c A q R O B).Φ t.succ = (dat c A q R O B).Φ t.castSucc from rfl,
    show (dat c A q R O B).owesAt ι t.succ = (dat c A q R O B).owesAt ι t.castSucc from rfl,
    after_in0, after_in1, after_in2, after_in3, after_in4, after_in5, after_in6, after_in7, after_out]
  iintro ⟨HR, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_run 𝒱₀ c Set.univ _ _ _ _ _ _ _ _ _ _ _ _ _ _ _ _ _ _ _
    (blockAt c A 0 t) (blockAt c A 1 t) (blockAt c A 2 t) (blockAt c A 3 t)
    (blockAt c A 4 t) (blockAt c A 5 t) (blockAt c A 6 t) (blockAt c A 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HR]; · iexact HR
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The region rule's hypothesis about the body, at every point of the grid. -/
theorem body_obligation (𝒱₀ : Variants) (ι : Ix) (c : Dev nD) (A : (w : Fin cfg9.W) → Buf (Elt F) ((cfg9.win w).arr.view.loc (c.tc : Thread nD τ)))
    (q : Fin cfg9.W → PosShare TreeShare) (R : sProp 𝕄) (O : CellTallies nD τ sig Ix) (B : Set (SemLoc sig × Ix)) :
    BodyObligation (dat c A q R O B) (defs₀ (F := F)) 𝒱₀ ι Set.univ := fun t => by
  rw [bigSep_W9, bigSep_W9]
  exact at_point 𝒱₀ ι c A q R O B t

/-! ## The region's record

What the region rule asks besides the body: the windows' layout, that the kernel has no semaphore of its own, the evidence
for the staging cells' waits (the caller's: it depends on what the core owes), and the region's protocol — what it is
entered with, what goes into the body's invariant, what comes back. Entered with the nine arrays at contents A, the core
owing O with its recorded pairs within the bound, and anything else Z the caller holds, the region leaves the arrays at
what the eight write-backs made of them, the core still owing O within the same bound, and Z. -/

section Record

/-- A family over no index is the empty resource. -/
theorem bigSep_none {M : Type} [URA M] (Φ : Fin 0 → sProp M) : bigSep Finset.univ Φ = (BI.emp : sProp M) :=
  bigSep_univ_eq_bigSepL [] (by decide) (by decide) Φ

/-- The region has no prefetched table. -/
theorem no_tables (a : (p : Fin 6) → (pcfgs (F := F) p).Adm) (c : Dev nD) (q) (pf) :
    (Pipeline.prefHeld (Ix := Ix) (Name := Name) (U := U) (Lvl := Lvl) (Val := Elt F) (pcfgs (F := F) 5).pre c q pf : sProp 𝕄) = BI.emp :=
  bigSep_none _

/-- The invariant of this file's proof data is the same resource at every point. -/
theorem inv_eq (c : Dev nD) (A : (w : Fin cfg9.W) → Buf (Elt F) ((cfg9.win w).arr.view.loc (c.tc : Thread nD τ)))
    (q : Fin cfg9.W → PosShare TreeShare) (R : sProp 𝕄) (O : CellTallies nD τ sig Ix) (B : Set (SemLoc sig × Ix))
    (t : Fin (cfg9.N + 1)) : (dat (Name := Name) (Lvl := Lvl) c A q R O B).Φ t = R := rfl

/-- What the body may use and need not describe: the core's scoped buffers that stage nothing for this region. -/
def rest5 (a : (p : Fin 6) → (pcfgs (F := F) p).Adm) (c : Dev nD) : sProp 𝕄 :=
  Pipeline.scopedRest (Pipeline.pin (pcfgs (F := F)) a 5).spec c

/-- The record, for any proof data of the six pipelines whose last is this file's, on a core that owes the tallies
    `O c` throughout the region (the body neither pays nor takes on any unit), given the evidence that the region's
    own waits — on its staging cells — may be made while that much is owed. What the core owes is stated as the proof
    data states it (`owesAt`: some recorded set within the bound `B c` or the loop's own wait pairs). -/
def region5 (a : (p : Fin 6) → (pcfgs (F := F) p).Adm)
    (pdats : (p : Fin 6) → (c : Dev nD) → Dat τ (Elt F) Ix Name U Lvl (Pipeline.pin (pcfgs (F := F)) a p) c)
    (ι : Ix) (𝒱₀ : Variants) (L : GSem nD τ sig → Finset Ix) (lv : GSem nD τ sig → Ix → Lvl)
    (A : (c : Dev nD) → (w : Fin cfg9.W) → Buf (Elt F) ((cfg9.win w).arr.view.loc (c.tc : Thread nD τ)))
    (q : Fin cfg9.W → PosShare TreeShare) (O : Dev nD → CellTallies nD τ sig Ix) (B : Dev nD → Set (SemLoc sig × Ix))
    (h5 : ∀ c, pdats 5 c = dat c (A c) q (rest5 a c) (O c) (B c))
    (hw : ∀ c, (levAts L lv : sProp 𝕄) ⊢ Pipeline.cellsWaits (Pipeline.pin (pcfgs (F := F)) a) pdats ι 5 c)
    (Z : Dev nD → sProp 𝕄) :
    Pipeline.RegionSeg (pcfgs (F := F)) a pdats ι (defs₀ (F := F)) 𝒱₀ L lv 5 where
  win := (winFacts9.to₀ : Pipeline.WinFacts₀ spec9)
  block_pos := block_pos9
  stage_whole := stage_whole9
  K := PEmpty
  osem k := k.elim
  ho := Pipeline.OwnSemFacts.none _
  hbody c := by rw [h5 c]; exact (body_obligation 𝒱₀ ι c (A c) q (rest5 a c) (O c) (B c)).loose
  hwaits := hw
  pre c := iprop((pdats 5 c).arrays (fun w => (pdats 5 c).arrAt w 0) ∗ (pdats 5 c).owesAt ι 0 ∗ Z c)
  post c := iprop((pdats 5 c).arrays (fun w => (pdats 5 c).arrAt w cfg9.N) ∗ (pdats 5 c).owesAt ι (Fin.last cfg9.N) ∗ Z c)
  X _ := BI.emp
  Y _ := BI.emp
  Z := Z
  hentry c := by
    rw [no_tables a]
    iintro ⟨⟨HA, HO, HZ⟩, -, -⟩
    imodintro
    isplitl [HA]; · iexact HA
    isplitr; · iempintro
    isplitl [HO]; · iexact HO
    isplitr; · iempintro
    iexact HZ
  hin c := by
    rw [h5 c, inv_eq, rest5]
    iintro ⟨-, -, HS⟩; iexact HS
  hout c := by
    rw [h5 c, Pipeline.ownSems0_none, inv_eq, rest5]
    iintro HS
    isplitr; · iempintro
    isplitr; · iempintro
    iexact HS
  hexit c := by
    iintro ⟨HA, HO, -, HZ⟩
    imodintro
    isplitl [HA]; · iexact HA
    isplitl [HO]; · iexact HO
    iexact HZ

end Record

end Cert.Kernel.Region5

end
-- ==== Proof.Region1RecK.lean ====
/-
  The four fused regions (pipelines 1, 2, 3, 4 of the program: each a grid of 8 × 2 points over eight windows, the
  output block and a scratch accumulator carried across the second grid axis) as the region rule's records, with the
  body's proof LEFT AS A HYPOTHESIS.

  Nothing the rule asks of a region besides its body looks inside the proof data except at its two ends: what the core
  owes there — which the records below state in the proof data's own words, so that nothing need be known of it — and
  the body's invariant at the first and at the last point, which must be reachable from, and give back, the core's
  scoped buffers that stage nothing for the region (the accumulator among them). So one construction serves any pipeline of this program, all of which have
  neither a semaphore of their own nor a prefetched table; the four fused regions are its instances at their windows'
  layout facts.
-/
import proofs.«215235_g2774548873965_cont_9to1_572_34_alg».proof.Kernel
import proofs.«215235_g2774548873965_cont_9to1_572_34_alg».proof.Proof.Gen.Kernel
import proofs.«215235_g2774548873965_cont_9to1_572_34_alg».proof.Proof.Gen.Kernel.Launch
import Idealize.ShloMosaic.Lib.Pipeline.Regions

noncomputable section

namespace Cert.Kernel.Region1

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- A family over no index is the empty resource. -/
theorem bigSep_none {M : Type} [URA M] (Φ : Fin 0 → sProp M) : bigSep Finset.univ Φ = (BI.emp : sProp M) :=
  bigSep_univ_eq_bigSepL [] (by decide) (by decide) Φ

/-- No pipeline of the program has a prefetched table. -/
theorem no_tables (p : Fin 6) (c : Dev nD) (q) (pf) :
    (Pipeline.prefHeld (Ix := Ix) (Name := Name) (U := U) (Lvl := Lvl) (Val := Elt F) (pcfgs (F := F) p).pre c q pf : sProp 𝕄) = BI.emp :=
  bigSep_none _

/-- What the region rule asks of pipeline p's proof data besides the windows' layout — everything a certificate owes for
    the region: the body's proof (`body`, in the rule's own words); the evidence for the staging cells' waits (`waits`);
    and that the proof data's invariant at the first point follows from, and at the last point gives back, the core's
    scoped buffers that stage nothing for the region. -/
structure Ends (p : Fin 6) (a : (p : Fin 6) → (pcfgs (F := F) p).Adm)
    (pdats : (p : Fin 6) → (c : Dev nD) → Dat τ (Elt F) Ix Name U Lvl (Pipeline.pin (pcfgs (F := F)) a p) c)
    (ι : Ix) (𝒱₀ : Variants) (L : GSem nD τ sig → Finset Ix) (lv : GSem nD τ sig → Ix → Lvl) : Prop where
  body : ∀ c, Pipeline.BodyObligationLoose (pdats p c) (defs₀ (F := F)) 𝒱₀ ι Set.univ
  waits : ∀ c, (levAts L lv : sProp 𝕄) ⊢ Pipeline.cellsWaits (Pipeline.pin (pcfgs (F := F)) a) pdats ι p c
  inv_first : ∀ c, (Pipeline.scopedRest (Pipeline.pin (pcfgs (F := F)) a p).spec c : sProp 𝕄) ⊢ (pdats p c).Φ 0
  inv_last : ∀ c, (pdats p c).Φ (Fin.last (Pipeline.pin (pcfgs (F := F)) a p).N)
    ⊢ (Pipeline.scopedRest (Pipeline.pin (pcfgs (F := F)) a p).spec c : sProp 𝕄)

/-- The record of pipeline p, for ANY proof data of the six pipelines, given the windows' layout facts and `Ends`.
    Entered with the region's arrays at the proof data's entry contents, the core owing what the proof data says it owes
    before the first point, and anything else `Z c` the caller holds, the region leaves the arrays at what the
    write-backs made of them, the core owing what the proof data says it owes after the last point, and `Z c`. -/
def regionWith (p : Fin 6) (a : (p : Fin 6) → (pcfgs (F := F) p).Adm)
    (pdats : (p : Fin 6) → (c : Dev nD) → Dat τ (Elt F) Ix Name U Lvl (Pipeline.pin (pcfgs (F := F)) a p) c)
    (ι : Ix) (𝒱₀ : Variants) (L : GSem nD τ sig → Finset Ix) (lv : GSem nD τ sig → Ix → Lvl)
    (hwin : Pipeline.WinFacts₀ (pcfgs (F := F) p).spec)
    (hpos : ∀ w : Fin (Pipeline.pin (pcfgs (F := F)) a p).W, 0 < ((Pipeline.pin (pcfgs (F := F)) a p).spec w).block.numel)
    (hstage : ∀ (w : Fin (Pipeline.pin (pcfgs (F := F)) a p).W) (s : Fin ((Pipeline.pin (pcfgs (F := F)) a p).spec w).nbuf),
      (((Pipeline.pin (pcfgs (F := F)) a p).spec w).stage s).IsWhole)
    (h : Ends p a pdats ι 𝒱₀ L lv) (Z : Dev nD → sProp 𝕄) :
    Pipeline.RegionSeg (pcfgs (F := F)) a pdats ι (defs₀ (F := F)) 𝒱₀ L lv p where
  win := hwin
  block_pos := hpos
  stage_whole := hstage
  K := PEmpty
  osem k := k.elim
  ho := Pipeline.OwnSemFacts.none _
  hbody := h.body
  hwaits := h.waits
  pre c := iprop((pdats p c).arrays (fun w => (pdats p c).arrAt w 0) ∗ (pdats p c).owesAt ι 0 ∗ Z c)
  post c := iprop((pdats p c).arrays (fun w => (pdats p c).arrAt w (Pipeline.pin (pcfgs (F := F)) a p).N)
    ∗ (pdats p c).owesAt ι (Fin.last (Pipeline.pin (pcfgs (F := F)) a p).N) ∗ Z c)
  X _ := BI.emp
  Y _ := BI.emp
  Z := Z
  hentry c := by
    rw [no_tables p]
    iintro ⟨⟨HA, HO, HZ⟩, -, -⟩
    imodintro
    isplitl [HA]; · iexact HA
    isplitr; · iempintro
    isplitl [HO]; · iexact HO
    isplitr; · iempintro
    iexact HZ
  hin c := by
    iintro ⟨-, -, HS⟩; iapply (h.inv_first c); iexact HS
  hout c := by
    rw [Pipeline.ownSems0_none]
    iintro HΦ
    isplitr; · iempintro
    isplitr; · iempintro
    iapply (h.inv_last c); iexact HΦ
  hexit c := by
    iintro ⟨HA, HO, -, HZ⟩
    imodintro
    isplitl [HA]; · iexact HA
    isplitl [HO]; · iexact HO
    iexact HZ

/-! ## The four fused regions -/

section Fused

variable (a : (p : Fin 6) → (pcfgs (F := F) p).Adm)
  (pdats : (p : Fin 6) → (c : Dev nD) → Dat τ (Elt F) Ix Name U Lvl (Pipeline.pin (pcfgs (F := F)) a p) c)
  (ι : Ix) (𝒱₀ : Variants) (L : GSem nD τ sig → Finset Ix) (lv : GSem nD τ sig → Ix → Lvl)

/-- Pipeline 1: the first fused region (eight windows: main_v15, main_v20, main_v8, main_arg5, main_v16, main_arg7,
    main_v17 in; main_v21 out). -/
def region1 (h : Ends 1 a pdats ι 𝒱₀ L lv) (Z : Dev nD → sProp 𝕄) :
    Pipeline.RegionSeg (pcfgs (F := F)) a pdats ι (defs₀ (F := F)) 𝒱₀ L lv 1 :=
  regionWith 1 a pdats ι 𝒱₀ L lv (winFacts2.to₀ : Pipeline.WinFacts₀ spec2) block_pos2 stage_whole2 h Z

/-- Pipeline 2: the second fused region. -/
def region2 (h : Ends 2 a pdats ι 𝒱₀ L lv) (Z : Dev nD → sProp 𝕄) :
    Pipeline.RegionSeg (pcfgs (F := F)) a pdats ι (defs₀ (F := F)) 𝒱₀ L lv 2 :=
  regionWith 2 a pdats ι 𝒱₀ L lv (winFacts4.to₀ : Pipeline.WinFacts₀ spec4) block_pos4 stage_whole4 h Z

/-- Pipeline 3: the third fused region. -/
def region3 (h : Ends 3 a pdats ι 𝒱₀ L lv) (Z : Dev nD → sProp 𝕄) :
    Pipeline.RegionSeg (pcfgs (F := F)) a pdats ι (defs₀ (F := F)) 𝒱₀ L lv 3 :=
  regionWith 3 a pdats ι 𝒱₀ L lv (winFacts6.to₀ : Pipeline.WinFacts₀ spec6) block_pos6 stage_whole6 h Z

/-- Pipeline 4: the fourth fused region. -/
def region4 (h : Ends 4 a pdats ι 𝒱₀ L lv) (Z : Dev nD → sProp 𝕄) :
    Pipeline.RegionSeg (pcfgs (F := F)) a pdats ι (defs₀ (F := F)) 𝒱₀ L lv 4 :=
  regionWith 4 a pdats ι 𝒱₀ L lv (winFacts8.to₀ : Pipeline.WinFacts₀ spec8) block_pos8 stage_whole8 h Z

end Fused

end Cert.Kernel.Region1

end
-- ==== Proof.ScRegionK.lean ====
/-
  The tensor-core regions as segments of @main inside the sparse-core program: from the tensor core's state between two
  lines — the region boundary, every array whole at a valuation, its handshake state before call n, the staging ghost
  state of the regions not yet entered — the region's custom call runs the region, and the continuation finds the same
  state at a valuation that differs at most at the region's output array, the region's ghost state spent.

  Where the launch's handshake state meets the region rule: the tensor core enters a region still owing the start
  signals of the calls not yet made, all at a call's index, with every pair its waits have recorded at level at most 8n.
  The region's own waits are at the index of no call, whose level is zero: below everything owed, so they may be made;
  and at most 8n, so whatever the region's waits record keeps the bound.
-/
import proofs.«215235_g2774548873965_cont_9to1_572_34_alg».proof.Proof.ScStateK
import proofs.«215235_g2774548873965_cont_9to1_572_34_alg».proof.Proof.Region0BodyK
import proofs.«215235_g2774548873965_cont_9to1_572_34_alg».proof.Proof.Region5BodyK
import proofs.«215235_g2774548873965_cont_9to1_572_34_alg».proof.Proof.Region1RecK
import Idealize.ShloMosaic.Lib.Pipeline.RegionsLoop

noncomputable section

namespace Cert.Kernel.Sc

open Cert.Kernel
open Idealize.ShloMosaic Idealize.ShloMosaic.StableHlo Idealize.ShloMosaic.TcCoe
open Idealize.ShloMosaic.SparseCore (S T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F] [∀ e, Nonempty (Elt F e)]

local notation "𝕄" => MT nD τ sig (HIx 4) (Elt F) ℕ UU ℕ

/-! ## What is common to the six regions -/

/-- No region has a prefetched table: the one admissible choice. -/
abbrev adm : (p : Fin 6) → (pcfgs (F := F) p).Adm := fun p => (cfgs p).toPCfg_adm

/-- The (own semaphore, index) pairs at level at most 8n on device d's tensor core: the bound the handshake state keeps
    on the pairs the tensor core's waits have recorded before call n. -/
def below (d : Dev nD) (n : ℕ) : Set (SemLoc sig × HIx 4) := {p | (K (F := F)).lev (T d, p.1) p.2 ≤ 8 * n}

/-- What the tensor core owes before call n, as its handshake state holds it. -/
abbrev owing (d : Dev nD) (n : ℕ) : sProp 𝕄 :=
  iprop(∃ W, ⌜(K (F := F)).WBelow (T d) W (8 * n)⌝ ∗ owes (T d) ((K (F := F)).Otc d n) W)

/-- The handshake state is what the core owes and the rest; the rest takes what is owed back. -/
theorem tcSt_split (d : Dev nD) (n : ℕ) :
    (K (F := F)).tcSt EH d n ⊢ (iprop(owing (F := F) d n ∗ (owing (F := F) d n -∗ (K (F := F)).tcSt EH d n)) : sProp 𝕄) := by
  unfold SparseCore.Cfg.tcSt
  iintro ⟨Ho, Ht⟩
  isplitl [Ho]
  · iexact Ho
  · iintro Ho
    isplitl [Ho]
    · iexact Ho
    · iexact Ht

/-- Nothing is owed at the index of no call: every unit the tensor core owes is a later call's start signal. -/
theorem Otc_none (d : Dev nD) (n : ℕ) (g : GSem nD τ sig) : (K (F := F)).Otc d n g none = 0 := by
  by_contra h
  have h1 := (K (F := F)).lev_of_Otc_pos (Nat.pos_of_ne_zero h)
  rw [SparseCore.Cfg.lev_none] at h1
  omega

/-- What the core owes, as the handshake state holds it, is what proof data asks at a point where it owes those tallies
    and bounds the recorded pairs by those at level at most 8n, -/
theorem owing_in {cfg : Pipeline.Cfg sig Λ₀} {d : Dev nD} (dt : Dat τ (Elt F) (HIx 4) ℕ UU ℕ cfg d) (n : ℕ) (t : Fin (cfg.N + 1))
    (hO : dt.owed t = (K (F := F)).Otc d n) (hB : dt.recorded t = below (F := F) d n) :
    owing (F := F) d n ⊢ (dt.owesAt none t : sProp 𝕄) := by
  unfold Pipeline.Dat.owesAt Pipeline.owesWithin Pipeline.Dat.bound; rw [hO, hB]
  iintro ⟨%W, %hW, HO⟩; iexists W; isplitr
  · ipureintro; exact fun p hp => Or.inl (hW p (Finset.mem_coe.mp hp))
  · iexact HO

/-- and what it hands back is that again: a pair recorded by the region's own waits is at the index of no call, level 0. -/
theorem owing_out {cfg : Pipeline.Cfg sig Λ₀} {d : Dev nD} (dt : Dat τ (Elt F) (HIx 4) ℕ UU ℕ cfg d) (n : ℕ) (t : Fin (cfg.N + 1))
    (hO : dt.owed t = (K (F := F)).Otc d n) (hB : dt.recorded t = below (F := F) d n) :
    (dt.owesAt none t : sProp 𝕄) ⊢ owing (F := F) d n := by
  unfold Pipeline.Dat.owesAt Pipeline.owesWithin Pipeline.Dat.bound; rw [hO, hB]
  iintro ⟨%W, %hW, HO⟩; iexists W; isplitr
  · ipureintro
    intro p hp
    rcases hW (Finset.mem_coe.mpr hp) with h | ⟨w, s, rfl⟩
    · exact h
    · show (K (F := F)).lev (T d, _) none ≤ 8 * n
      rw [SparseCore.Cfg.lev_none]; exact Nat.zero_le _
  · iexact HO

/-- The staging ghost state of the regions in Ps is region p's and the others'. -/
theorem ghost_split {p : Fin 6} {Ps : Finset (Fin 6)} (hp : p ∈ Ps) (d : Dev nD) :
    (ghost (F := F) d Ps : sProp 𝕄)
      = iprop((Pipeline.cellsGhost (Pipeline.pin (pcfgs (F := F)) adm) (EP (F := F)) p d
          ∗ Pipeline.toksInit (Pipeline.pin (pcfgs (F := F)) adm) (EP (F := F)) p d) ∗ ghost (F := F) d (Ps.erase p)) := by
  rw [pin_eq (F := F) adm]; exact bigSep_erase hp

/-- A valuation read at the tensor core's own references. -/
abbrev valOn (W : Valuation τ sig (Elt F)) (c : Dev nD) : (b : Ref sig .tc) → Buf (Elt F) ((c.tc : Thread nD τ).loc b) := fun b => W b

/-- Proof data that says nothing, for the regions a segment does not enter. -/
def idleDat (cfg : Pipeline.Cfg sig Λ₀) (c : Dev nD) : Dat τ (Elt F) (HIx 4) ℕ UU ℕ cfg c where
  A _ := fun _ => Classical.arbitrary _
  after _ _ := fun _ => Classical.arbitrary _
  Φ _ := BI.emp
  q _ := fullShare
  owed _ := 0

/-! ## The first region -/

/-- The first region's arrays at a valuation. -/
def A0 (W : Valuation τ sig (Elt F)) (c : Dev nD) (w : Fin cfg0.W) : Buf (Elt F) ((cfg0.win w).arr.view.loc (c.tc : Thread nD τ)) :=
  valOn W c (Pipeline.arrRef spec0 w)

/-- The six regions' proof data for the segment that enters the first, before call n: the first region's at the
    valuation, owing what the tensor core owes before call n within the handshake state's bound; nothing said of the others. -/
def fam0 (n : ℕ) (W : Valuation τ sig (Elt F)) :
    (p : Fin 6) → (c : Dev nD) → Dat τ (Elt F) (HIx 4) ℕ UU ℕ (Pipeline.pin (pcfgs (F := F)) adm p) c
  | 0, c => Region0.dat c (A0 W c) (fun _ => fullShare) (Region0.rest0 adm c) ((K (F := F)).Otc c n) (below (F := F) c n)
  | 1, c => idleDat _ c
  | 2, c => idleDat _ c
  | 3, c => idleDat _ c
  | 4, c => idleDat _ c
  | 5, c => idleDat _ c

/-- The first region's own waits — on its staging cells, at the index of no call — may be made while the tensor core
    owes what it owes before call n: all of that is at a call's index. -/
theorem waits0 (n : ℕ) (W : Valuation τ sig (Elt F)) (c : Dev nD) :
    (levAts (K (F := F)).L (K (F := F)).lev : sProp 𝕄)
      ⊢ Pipeline.cellsWaits (Pipeline.pin (pcfgs (F := F)) adm) (fam0 (F := F) n W) none 0 c :=
  Pipeline.cellsWaits_intro _ _ none 0 c fun _ _ _ => (K (F := F)).mayWait_none _ fun g => Otc_none c n g

/-- What bypasses region p entered before call n with the arrays at W and the regions Ps not yet entered: the arrays
    that are none of the region's, the handshake state short of what the core owes (which the region carries), and the
    other regions' staging ghost state. -/
def bypass (p : Fin 6) (n : ℕ) (W : Valuation τ sig (Elt F)) (Ps : Finset (Fin 6)) (c : Dev nD) : sProp 𝕄 :=
  iprop(Pipeline.unscopedRest (Pipeline.pin (pcfgs (F := F)) adm p).spec c (valOn W c)
    ∗ (owing (F := F) c n -∗ (K (F := F)).tcSt EH c n) ∗ ghost (F := F) c (Ps.erase p))

/-- The first region's record for the segment. -/
def rec0 (n : ℕ) (W : Valuation τ sig (Elt F)) (Ps : Finset (Fin 6)) :
    Pipeline.RegionSeg (pcfgs (F := F)) adm (fam0 (F := F) n W) none (defs₀ (F := F)) Variants.none (K (F := F)).L (K (F := F)).lev 0 :=
  Region0.region0 adm (fam0 (F := F) n W) none Variants.none (K (F := F)).L (K (F := F)).lev (A0 W) (fun _ => fullShare)
    (fun c => (K (F := F)).Otc c n) (fun c => below (F := F) c n) (fun _ => rfl) (waits0 n W) (bypass 0 n W Ps)

theorem rec0_pre (n : ℕ) (W : Valuation τ sig (Elt F)) (Ps : Finset (Fin 6)) (d : Dev nD) :
    (rec0 (F := F) n W Ps).pre d = iprop((fam0 (F := F) n W 0 d).arrays (fun w => (fam0 (F := F) n W 0 d).arrAt w 0)
      ∗ (fam0 (F := F) n W 0 d).owesAt none 0 ∗ bypass 0 n W Ps d) := rfl

theorem rec0_post (n : ℕ) (W : Valuation τ sig (Elt F)) (Ps : Finset (Fin 6)) (d : Dev nD) :
    (rec0 (F := F) n W Ps).post d = iprop((fam0 (F := F) n W 0 d).arrays (fun w => (fam0 (F := F) n W 0 d).arrAt w cfg0.N)
      ∗ (fam0 (F := F) n W 0 d).owesAt none (Fin.last cfg0.N) ∗ bypass 0 n W Ps d) := rfl

/-- y after the first region: what the eight write-backs made of it. -/
def yAfter (n : ℕ) (W : Valuation τ sig (Elt F)) (d : Dev nD) : (Proc.devRef (τ := τ) (sig := sig) .tc main_v1).ty.Contents (Elt F) :=
  (fam0 (F := F) n W 0 d).arrAt 2 cfg0.N

/-- The valuation after the first region: W but for y. -/
def W0' (n : ℕ) (W : Valuation τ sig (Elt F)) (d : Dev nD) : Valuation τ sig (Elt F) :=
  Function.update W (Proc.devRef .tc main_v1) (yAfter n W d)

theorem W0'_y (n : ℕ) (W : Valuation τ sig (Elt F)) (d : Dev nD) : W0' n W d (Proc.devRef .tc main_v1) = yAfter n W d :=
  Function.update_self _ _ _

theorem W0'_off (n : ℕ) (W : Valuation τ sig (Elt F)) (d : Dev nD) (b : DevRef τ sig) (hb : b ≠ Proc.devRef .tc main_v1) :
    W0' n W d b = W b := Function.update_of_ne hb _ _

/-- After the region its three arrays are at the new valuation: x and W_in, never written, as before; y at what the
    write-backs made of it. -/
theorem arrs_after0 (n : ℕ) (W : Valuation τ sig (Elt F)) (d : Dev nD) (w : Fin 3) :
    (fam0 (F := F) n W 0 d).arrAt w cfg0.N = valOn (W0' n W d) d (Pipeline.arrRef spec0 w) := by
  match w with
  | 0 =>
    rw [Pipeline.Dat.arrAt_in _ 0 rfl]
    exact (W0'_off n W d (Proc.devRef .tc main_v0) (by decide)).symm
  | 1 =>
    rw [Pipeline.Dat.arrAt_in _ 1 rfl]
    exact (W0'_off n W d (Proc.devRef .tc main_arg9) (by decide)).symm
  | 2 => exact (W0'_y n W d).symm

/-- Off the region's arrays the new valuation is the old one. -/
theorem rest_after0 (n : ℕ) (W : Valuation τ sig (Elt F)) (d : Dev nD) (b : Ref sig .tc)
    (hb : b ∉ Finset.univ.image (Pipeline.arrRef spec0)) : valOn (W0' n W d) d b = valOn W d b := by
  refine W0'_off n W d _ (fun e => hb ?_)
  rw [Proc.devRef_injective _ e]
  exact Finset.mem_image.mpr ⟨2, Finset.mem_univ _, rfl⟩

/-- The first region, entered before call n, as a segment of @main: its output array is y. -/
theorem seg_region0_at (n : ℕ) : SegRegion (F := F) 0 n (Proc.devRef .tc main_v1) := by
  intro κ d W Ps hp β k Q
  refine .trans ?_ (enter_region adm (fam0 (F := F) n W) none _ _ (rec0 n W Ps) d k Q)
  rw [rec0_pre, rec0_post]
  unfold TS bypass
  rw [ghost_split hp d, ← Pipeline.unscopedBufs_held d W]
  iintro ⟨#Hctx, ⟨Hb, Hu, Hst, ⟨Hcg, Htk⟩, Hg⟩, Hk⟩
  -- the region's three arrays out of the tensor core's arrays
  ihave Ha := (Pipeline.arrays_of_unscopedBufs (pcfgs (F := F)) adm (fam0 (F := F) n W) (p := 0) Gen.winFacts0 Gen.arr_whole0 d
    (fun w => by unfold Pipeline.Dat.share; split <;> rfl) (valOn W d) (fun _ => rfl)) $$ Hu
  icases Ha with ⟨HA, Hur⟩
  -- what the core owes out of the handshake state
  ihave Hs := (tcSt_split (F := F) d n) $$ Hst
  icases Hs with ⟨Hown, Hwand⟩
  isplitl [Hk]
  · -- after the region
    iintro ⟨Hb', HA', HO', Hur', Hwand', Hg'⟩
    ispecialize Hk $$ %(W0' n W d) %(W0'_off n W d) [Hb' HA' HO' Hur' Hwand' Hg']
    · isplitl [Hb']; · iexact Hb'
      isplitl [HA' Hur']
      · rw [← Pipeline.unscopedBufs_held d (W0' n W d)]
        iapply (Pipeline.unscopedBufs_of_arrays (pcfgs (F := F)) adm (p := 0) Gen.winFacts0 Gen.arr_whole0 d (fam0 (F := F) n W)
          (fun w => by unfold Pipeline.Dat.share; split <;> rfl) (valOn W d) (valOn (W0' n W d) d)
          (fun w => (fam0 (F := F) n W 0 d).arrAt w cfg0.N) (arrs_after0 n W d) (rest_after0 n W d))
        isplitl [HA']; · iexact HA'
        iexact Hur'
      isplitl [HO' Hwand']
      · iapply Hwand'
        iapply (owing_out (fam0 (F := F) n W 0 d) n (Fin.last cfg0.N) rfl rfl); iexact HO'
      iexact Hg'
    iexact Hk
  isplitl [Hb]; · iexact Hb
  isplitl [HA Hown Hur Hwand Hg]
  · isplitl [HA]; · iexact HA
    isplitl [Hown]
    · iapply (owing_in (fam0 (F := F) n W 0 d) n 0 rfl rfl); iexact Hown
    isplitl [Hur]; · iexact Hur
    isplitl [Hwand]; · iexact Hwand
    iexact Hg
  isplitr
  · iapply (SparseCore.Cfg.ctx_levAts κ); iexact Hctx
  isplitl [Hcg]; · iexact Hcg
  iexact Htk

/-- The first region where @main enters it: before the first call. -/
theorem seg_region0 : SegRegion (F := F) 0 0 (Proc.devRef .tc main_v1) := seg_region0_at 0

/-! ## The last region -/

/-- The last region's arrays at a valuation. -/
def A5 (W : Valuation τ sig (Elt F)) (c : Dev nD) (w : Fin cfg9.W) : Buf (Elt F) ((cfg9.win w).arr.view.loc (c.tc : Thread nD τ)) :=
  valOn W c (Pipeline.arrRef spec9 w)

/-- The six regions' proof data for the segment that enters the last, before call n: the last region's at the
    valuation, owing what the tensor core owes before call n within the handshake state's bound; nothing said of the others. -/
def fam5 (n : ℕ) (W : Valuation τ sig (Elt F)) :
    (p : Fin 6) → (c : Dev nD) → Dat τ (Elt F) (HIx 4) ℕ UU ℕ (Pipeline.pin (pcfgs (F := F)) adm p) c
  | 0, c => idleDat _ c
  | 1, c => idleDat _ c
  | 2, c => idleDat _ c
  | 3, c => idleDat _ c
  | 4, c => idleDat _ c
  | 5, c => Region5.dat c (A5 W c) (fun _ => fullShare) (Region5.rest5 adm c) ((K (F := F)).Otc c n) (below (F := F) c n)

/-- The last region's own waits — on its staging cells, at the index of no call — may be made while the tensor core
    owes what it owes before call n: all of that is at a call's index. -/
theorem waits5 (n : ℕ) (W : Valuation τ sig (Elt F)) (c : Dev nD) :
    (levAts (K (F := F)).L (K (F := F)).lev : sProp 𝕄)
      ⊢ Pipeline.cellsWaits (Pipeline.pin (pcfgs (F := F)) adm) (fam5 (F := F) n W) none 5 c :=
  Pipeline.cellsWaits_intro _ _ none 5 c fun _ _ _ => (K (F := F)).mayWait_none _ fun g => Otc_none c n g

/-- The last region's record for the segment. -/
def rec5 (n : ℕ) (W : Valuation τ sig (Elt F)) (Ps : Finset (Fin 6)) :
    Pipeline.RegionSeg (pcfgs (F := F)) adm (fam5 (F := F) n W) none (defs₀ (F := F)) Variants.none (K (F := F)).L (K (F := F)).lev 5 :=
  Region5.region5 adm (fam5 (F := F) n W) none Variants.none (K (F := F)).L (K (F := F)).lev (A5 W) (fun _ => fullShare)
    (fun c => (K (F := F)).Otc c n) (fun c => below (F := F) c n) (fun _ => rfl) (waits5 n W) (bypass 5 n W Ps)

theorem rec5_pre (n : ℕ) (W : Valuation τ sig (Elt F)) (Ps : Finset (Fin 6)) (d : Dev nD) :
    (rec5 (F := F) n W Ps).pre d = iprop((fam5 (F := F) n W 5 d).arrays (fun w => (fam5 (F := F) n W 5 d).arrAt w 0)
      ∗ (fam5 (F := F) n W 5 d).owesAt none 0 ∗ bypass 5 n W Ps d) := rfl

theorem rec5_post (n : ℕ) (W : Valuation τ sig (Elt F)) (Ps : Finset (Fin 6)) (d : Dev nD) :
    (rec5 (F := F) n W Ps).post d = iprop((fam5 (F := F) n W 5 d).arrays (fun w => (fam5 (F := F) n W 5 d).arrAt w cfg9.N)
      ∗ (fam5 (F := F) n W 5 d).owesAt none (Fin.last cfg9.N) ∗ bypass 5 n W Ps d) := rfl

/-- The result array after the last region: what the eight write-backs made of it. -/
def outAfter (n : ℕ) (W : Valuation τ sig (Elt F)) (d : Dev nD) : (Proc.devRef (τ := τ) (sig := sig) .tc main_v36).ty.Contents (Elt F) :=
  (fam5 (F := F) n W 5 d).arrAt 8 cfg9.N

/-- The valuation after the last region: W but for the result array. -/
def W5' (n : ℕ) (W : Valuation τ sig (Elt F)) (d : Dev nD) : Valuation τ sig (Elt F) :=
  Function.update W (Proc.devRef .tc main_v36) (outAfter n W d)

theorem W5'_y (n : ℕ) (W : Valuation τ sig (Elt F)) (d : Dev nD) : W5' n W d (Proc.devRef .tc main_v36) = outAfter n W d :=
  Function.update_self _ _ _

theorem W5'_off (n : ℕ) (W : Valuation τ sig (Elt F)) (d : Dev nD) (b : DevRef τ sig) (hb : b ≠ Proc.devRef .tc main_v36) :
    W5' n W d b = W b := Function.update_of_ne hb _ _

/-- After the region its nine arrays are at the new valuation: the eight inputs, never written, as before; the result
    array at what the write-backs made of it. -/
theorem arrs_after5 (n : ℕ) (W : Valuation τ sig (Elt F)) (d : Dev nD) (w : Fin 9) :
    (fam5 (F := F) n W 5 d).arrAt w cfg9.N = valOn (W5' n W d) d (Pipeline.arrRef spec9 w) := by
  match w with
  | 0 =>
    rw [Pipeline.Dat.arrAt_in _ 0 rfl]
    exact (W5'_off n W d (Proc.devRef .tc main_arg10) (by decide)).symm
  | 1 =>
    rw [Pipeline.Dat.arrAt_in _ 1 rfl]
    exact (W5'_off n W d (Proc.devRef .tc main_v34) (by decide)).symm
  | 2 =>
    rw [Pipeline.Dat.arrAt_in _ 2 rfl]
    exact (W5'_off n W d (Proc.devRef .tc main_arg12) (by decide)).symm
  | 3 =>
    rw [Pipeline.Dat.arrAt_in _ 3 rfl]
    exact (W5'_off n W d (Proc.devRef .tc main_v35) (by decide)).symm
  | 4 =>
    rw [Pipeline.Dat.arrAt_in _ 4 rfl]
    exact (W5'_off n W d (Proc.devRef .tc main_v21) (by decide)).symm
  | 5 =>
    rw [Pipeline.Dat.arrAt_in _ 5 rfl]
    exact (W5'_off n W d (Proc.devRef .tc main_v25) (by decide)).symm
  | 6 =>
    rw [Pipeline.Dat.arrAt_in _ 6 rfl]
    exact (W5'_off n W d (Proc.devRef .tc main_v29) (by decide)).symm
  | 7 =>
    rw [Pipeline.Dat.arrAt_in _ 7 rfl]
    exact (W5'_off n W d (Proc.devRef .tc main_v33) (by decide)).symm
  | 8 => exact (W5'_y n W d).symm

/-- Off the region's arrays the new valuation is the old one. -/
theorem rest_after5 (n : ℕ) (W : Valuation τ sig (Elt F)) (d : Dev nD) (b : Ref sig .tc)
    (hb : b ∉ Finset.univ.image (Pipeline.arrRef spec9)) : valOn (W5' n W d) d b = valOn W d b := by
  refine W5'_off n W d _ (fun e => hb ?_)
  rw [Proc.devRef_injective _ e]
  exact Finset.mem_image.mpr ⟨8, Finset.mem_univ _, rfl⟩

/-- The last region, entered before call n, as a segment of @main: its output array is the program's result. -/
theorem seg_region5_at (n : ℕ) : SegRegion (F := F) 5 n (Proc.devRef .tc main_v36) := by
  intro κ d W Ps hp β k Q
  refine .trans ?_ (enter_region adm (fam5 (F := F) n W) none _ _ (rec5 n W Ps) d k Q)
  rw [rec5_pre, rec5_post]
  unfold TS bypass
  rw [ghost_split hp d, ← Pipeline.unscopedBufs_held d W]
  iintro ⟨#Hctx, ⟨Hb, Hu, Hst, ⟨Hcg, Htk⟩, Hg⟩, Hk⟩
  -- the region's three arrays out of the tensor core's arrays
  ihave Ha := (Pipeline.arrays_of_unscopedBufs (pcfgs (F := F)) adm (fam5 (F := F) n W) (p := 5) Gen.winFacts9 Gen.arr_whole9 d
    (fun w => by unfold Pipeline.Dat.share; split <;> rfl) (valOn W d) (fun _ => rfl)) $$ Hu
  icases Ha with ⟨HA, Hur⟩
  -- what the core owes out of the handshake state
  ihave Hs := (tcSt_split (F := F) d n) $$ Hst
  icases Hs with ⟨Hown, Hwand⟩
  isplitl [Hk]
  · -- after the region
    iintro ⟨Hb', HA', HO', Hur', Hwand', Hg'⟩
    ispecialize Hk $$ %(W5' n W d) %(W5'_off n W d) [Hb' HA' HO' Hur' Hwand' Hg']
    · isplitl [Hb']; · iexact Hb'
      isplitl [HA' Hur']
      · rw [← Pipeline.unscopedBufs_held d (W5' n W d)]
        iapply (Pipeline.unscopedBufs_of_arrays (pcfgs (F := F)) adm (p := 5) Gen.winFacts9 Gen.arr_whole9 d (fam5 (F := F) n W)
          (fun w => by unfold Pipeline.Dat.share; split <;> rfl) (valOn W d) (valOn (W5' n W d) d)
          (fun w => (fam5 (F := F) n W 5 d).arrAt w cfg9.N) (arrs_after5 n W d) (rest_after5 n W d))
        isplitl [HA']; · iexact HA'
        iexact Hur'
      isplitl [HO' Hwand']
      · iapply Hwand'
        iapply (owing_out (fam5 (F := F) n W 5 d) n (Fin.last cfg9.N) rfl rfl); iexact HO'
      iexact Hg'
    iexact Hk
  isplitl [Hb]; · iexact Hb
  isplitl [HA Hown Hur Hwand Hg]
  · isplitl [HA]; · iexact HA
    isplitl [Hown]
    · iapply (owing_in (fam5 (F := F) n W 5 d) n 0 rfl rfl); iexact Hown
    isplitl [Hur]; · iexact Hur
    isplitl [Hwand]; · iexact Hwand
    iexact Hg
  isplitr
  · iapply (SparseCore.Cfg.ctx_levAts κ); iexact Hctx
  isplitl [Hcg]; · iexact Hcg
  iexact Htk

/-- Where @main enters it: after the four calls. -/
theorem seg_region5 : SegRegion (F := F) 5 4 (Proc.devRef .tc main_v36) := seg_region5_at 4

/-! ## Any region, from its proof data

The same argument for any of the six regions, from proof data given as a function of the valuation the region is
entered at: what is asked of it is what the first region's has by definition — the arrays' entry contents read off the
valuation, full shares, the tallies and the bound of the handshake state at every point, an invariant that starts from
and ends at the scoped rest (stated at an index known to be the first, or the last) — and the body's proof. -/

/-- Pipeline p's proof data as given, nothing said of the others. -/
def famOf (p : Fin 6) (dt : (c : Dev nD) → Dat τ (Elt F) (HIx 4) ℕ UU ℕ (Pipeline.pin (pcfgs (F := F)) adm p) c) :
    (p' : Fin 6) → (c : Dev nD) → Dat τ (Elt F) (HIx 4) ℕ UU ℕ (Pipeline.pin (pcfgs (F := F)) adm p') c :=
  fun p' c => if e : p' = p then e ▸ dt c else idleDat _ c

theorem famOf_self (p : Fin 6) (dt : (c : Dev nD) → Dat τ (Elt F) (HIx 4) ℕ UU ℕ (Pipeline.pin (pcfgs (F := F)) adm p) c)
    (c : Dev nD) : famOf p dt p c = dt c := by
  unfold famOf; rw [dif_pos rfl]

/-- What a segment asks of region p's proof data, given per valuation, for a region entered before call n. All but
    `body` hold by definition for proof data written like the first region's. -/
structure RegionData (p : Fin 6) (n : ℕ)
    (dt : Valuation τ sig (Elt F) → (c : Dev nD) → Dat τ (Elt F) (HIx 4) ℕ UU ℕ (Pipeline.pin (pcfgs (F := F)) adm p) c) : Prop where
  body : ∀ W c, Pipeline.BodyObligationLoose (dt W c) (defs₀ (F := F)) Variants.none none Set.univ
  arrays : ∀ W c w, (dt W c).A w = valOn W c (Pipeline.arrRef (Pipeline.pin (pcfgs (F := F)) adm p).spec w)
  shares : ∀ W c w, (dt W c).share w = fullShare
  owed : ∀ W c t, (dt W c).owed t = (K (F := F)).Otc c n
  recorded : ∀ W c t, (dt W c).recorded t = below (F := F) c n
  inv_first : ∀ W c (t : Fin ((Pipeline.pin (pcfgs (F := F)) adm p).N + 1)), t.val = 0 →
    (Pipeline.scopedRest (Pipeline.pin (pcfgs (F := F)) adm p).spec c : sProp 𝕄) ⊢ (dt W c).Φ t
  inv_last : ∀ W c (t : Fin ((Pipeline.pin (pcfgs (F := F)) adm p).N + 1)), t.val = (Pipeline.pin (pcfgs (F := F)) adm p).N →
    (dt W c).Φ t ⊢ (Pipeline.scopedRest (Pipeline.pin (pcfgs (F := F)) adm p).spec c : sProp 𝕄)

section Generic

variable {p : Fin 6} (n : ℕ)
  (dt : Valuation τ sig (Elt F) → (c : Dev nD) → Dat τ (Elt F) (HIx 4) ℕ UU ℕ (Pipeline.pin (pcfgs (F := F)) adm p) c)
  (h : RegionData (F := F) p n dt)

include h in
/-- What the region rule asks of the proof data, from what the segment asks. -/
theorem ends_of (W : Valuation τ sig (Elt F)) :
    Region1.Ends p adm (famOf p (dt W)) none Variants.none (K (F := F)).L (K (F := F)).lev where
  body c := by rw [famOf_self]; exact h.body W c
  waits c := Pipeline.cellsWaits_intro _ _ none p c fun _ _ t =>
    (K (F := F)).mayWait_none _ fun g => by rw [famOf_self, h.owed W c t]; exact Otc_none c n g
  inv_first c := by rw [famOf_self]; exact h.inv_first W c 0 rfl
  inv_last c := by rw [famOf_self]; exact h.inv_last W c (Fin.last _) rfl

/-- The region's record for the segment. -/
def recOf (hwf : Pipeline.WinFacts (Pipeline.pin (pcfgs (F := F)) adm p).spec)
    (hpos : ∀ w : Fin (Pipeline.pin (pcfgs (F := F)) adm p).W, 0 < ((Pipeline.pin (pcfgs (F := F)) adm p).spec w).block.numel)
    (hstage : ∀ (w : Fin (Pipeline.pin (pcfgs (F := F)) adm p).W) (s : Fin ((Pipeline.pin (pcfgs (F := F)) adm p).spec w).nbuf),
      (((Pipeline.pin (pcfgs (F := F)) adm p).spec w).stage s).IsWhole)
    (W : Valuation τ sig (Elt F)) (Ps : Finset (Fin 6)) :
    Pipeline.RegionSeg (pcfgs (F := F)) adm (famOf p (dt W)) none (defs₀ (F := F)) Variants.none (K (F := F)).L (K (F := F)).lev p :=
  Region1.regionWith p adm (famOf p (dt W)) none Variants.none (K (F := F)).L (K (F := F)).lev hwf.to₀ hpos hstage
    (ends_of n dt h W) (bypass p n W Ps)

/-- The valuation after the region: W but for the output array, at what the write-backs made of it. -/
def valAfter (wout : Fin (Pipeline.pin (pcfgs (F := F)) adm p).W) (W : Valuation τ sig (Elt F)) (d : Dev nD) : Valuation τ sig (Elt F) :=
  Function.update W (Proc.devRef .tc (Pipeline.arrRef (Pipeline.pin (pcfgs (F := F)) adm p).spec wout))
    ((famOf p (dt W) p d).arrAt wout (Pipeline.pin (pcfgs (F := F)) adm p).N)

/-- The new valuation at the output array, -/
theorem valAfter_out (wout : Fin (Pipeline.pin (pcfgs (F := F)) adm p).W) (W : Valuation τ sig (Elt F)) (d : Dev nD) :
    valAfter dt wout W d (Proc.devRef .tc (Pipeline.arrRef (Pipeline.pin (pcfgs (F := F)) adm p).spec wout))
      = (famOf p (dt W) p d).arrAt wout (Pipeline.pin (pcfgs (F := F)) adm p).N := Function.update_self _ _ _

/-- and off it. -/
theorem valAfter_off (wout : Fin (Pipeline.pin (pcfgs (F := F)) adm p).W) (W : Valuation τ sig (Elt F)) (d : Dev nD)
    (b : DevRef τ sig) (hb : b ≠ Proc.devRef .tc (Pipeline.arrRef (Pipeline.pin (pcfgs (F := F)) adm p).spec wout)) :
    valAfter dt wout W d b = W b := Function.update_of_ne hb _ _

include h in
/-- Region p, entered before call n, as a segment of @main: its output array is window `wout`'s, its other windows are
    inputs. -/
theorem seg_of_data (wout : Fin (Pipeline.pin (pcfgs (F := F)) adm p).W)
    (hwf : Pipeline.WinFacts (Pipeline.pin (pcfgs (F := F)) adm p).spec)
    (hpos : ∀ w : Fin (Pipeline.pin (pcfgs (F := F)) adm p).W, 0 < ((Pipeline.pin (pcfgs (F := F)) adm p).spec w).block.numel)
    (hstage : ∀ (w : Fin (Pipeline.pin (pcfgs (F := F)) adm p).W) (s : Fin ((Pipeline.pin (pcfgs (F := F)) adm p).spec w).nbuf),
      (((Pipeline.pin (pcfgs (F := F)) adm p).spec w).stage s).IsWhole)
    (harr : ∀ w, ((Pipeline.pin (pcfgs (F := F)) adm p).spec w).arr.IsWhole)
    (hin : ∀ w, w ≠ wout → ((Pipeline.pin (pcfgs (F := F)) adm p).win w).isOut = false) :
    SegRegion (F := F) p n (Proc.devRef .tc (Pipeline.arrRef (Pipeline.pin (pcfgs (F := F)) adm p).spec wout)) := by
  intro κ d W Ps hp β k Q
  refine .trans ?_ (enter_region adm (famOf p (dt W)) none _ _ (recOf n dt h hwf hpos hstage W Ps) d k Q)
  rw [show (recOf n dt h hwf hpos hstage W Ps).pre d
        = iprop((famOf p (dt W) p d).arrays (fun w => (famOf p (dt W) p d).arrAt w 0)
            ∗ (famOf p (dt W) p d).owesAt none 0 ∗ bypass p n W Ps d) from rfl,
    show (recOf n dt h hwf hpos hstage W Ps).post d
        = iprop((famOf p (dt W) p d).arrays (fun w => (famOf p (dt W) p d).arrAt w (Pipeline.pin (pcfgs (F := F)) adm p).N)
            ∗ (famOf p (dt W) p d).owesAt none (Fin.last (Pipeline.pin (pcfgs (F := F)) adm p).N) ∗ bypass p n W Ps d) from rfl]
  unfold TS bypass
  rw [ghost_split hp d, ← Pipeline.unscopedBufs_held d W]
  -- the facts about the proof data, at the family
  have hshare : ∀ w, (famOf p (dt W) p d).share w = fullShare := fun w => by rw [famOf_self]; exact h.shares W d w
  have hA : ∀ w, (famOf p (dt W) p d).A w = valOn W d (Pipeline.arrRef (Pipeline.pin (pcfgs (F := F)) adm p).spec w) :=
    fun w => by rw [famOf_self]; exact h.arrays W d w
  have hO : ∀ t, (famOf p (dt W) p d).owed t = (K (F := F)).Otc d n := fun t => by rw [famOf_self]; exact h.owed W d t
  have hB : ∀ t, (famOf p (dt W) p d).recorded t = below (F := F) d n := fun t => by rw [famOf_self]; exact h.recorded W d t
  -- after the region the arrays are at the new valuation
  have hF : ∀ w, (famOf p (dt W) p d).arrAt w (Pipeline.pin (pcfgs (F := F)) adm p).N
      = valOn (valAfter dt wout W d) d (Pipeline.arrRef (Pipeline.pin (pcfgs (F := F)) adm p).spec w) := fun w => by
    by_cases e : w = wout
    · subst e; exact (valAfter_out dt w W d).symm
    · rw [Pipeline.Dat.arrAt_in _ w (hin w e), hA w]
      exact (valAfter_off dt wout W d _ (fun e' => e (hwf.arr_inj (Proc.devRef_injective _ e')))).symm
  have hrest : ∀ b : Ref sig .tc, b ∉ Finset.univ.image (Pipeline.arrRef (Pipeline.pin (pcfgs (F := F)) adm p).spec) →
      valOn (valAfter dt wout W d) d b = valOn W d b := fun b hb =>
    valAfter_off dt wout W d _ (fun e' => hb (by rw [Proc.devRef_injective _ e']; exact Finset.mem_image.mpr ⟨wout, Finset.mem_univ _, rfl⟩))
  iintro ⟨#Hctx, ⟨Hb, Hu, Hst, ⟨Hcg, Htk⟩, Hg⟩, Hk⟩
  ihave Ha := (Pipeline.arrays_of_unscopedBufs (pcfgs (F := F)) adm (famOf p (dt W)) (p := p) hwf harr d hshare (valOn W d) hA) $$ Hu
  icases Ha with ⟨HA, Hur⟩
  ihave Hs := (tcSt_split (F := F) d n) $$ Hst
  icases Hs with ⟨Hown, Hwand⟩
  isplitl [Hk]
  · iintro ⟨Hb', HA', HO', Hur', Hwand', Hg'⟩
    ispecialize Hk $$ %(valAfter dt wout W d) %(valAfter_off dt wout W d) [Hb' HA' HO' Hur' Hwand' Hg']
    · isplitl [Hb']; · iexact Hb'
      isplitl [HA' Hur']
      · rw [← Pipeline.unscopedBufs_held d (valAfter dt wout W d)]
        iapply (Pipeline.unscopedBufs_of_arrays (pcfgs (F := F)) adm (p := p) hwf harr d (famOf p (dt W)) hshare (valOn W d)
          (valOn (valAfter dt wout W d) d) (fun w => (famOf p (dt W) p d).arrAt w (Pipeline.pin (pcfgs (F := F)) adm p).N) hF hrest)
        isplitl [HA']; · iexact HA'
        iexact Hur'
      isplitl [HO' Hwand']
      · iapply Hwand'
        iapply (owing_out (famOf p (dt W) p d) n (Fin.last _) (hO _) (hB _)); iexact HO'
      iexact Hg'
    iexact Hk
  isplitl [Hb]; · iexact Hb
  isplitl [HA Hown Hur Hwand Hg]
  · isplitl [HA]; · iexact HA
    isplitl [Hown]
    · iapply (owing_in (famOf p (dt W) p d) n 0 (hO _) (hB _)); iexact Hown
    isplitl [Hur]; · iexact Hur
    isplitl [Hwand]; · iexact Hwand
    iexact Hg
  isplitr
  · iapply (SparseCore.Cfg.ctx_levAts κ); iexact Hctx
  isplitl [Hcg]; · iexact Hcg
  iexact Htk

end Generic

/-! ## The four fused regions, relative to their proof data -/

/-- The first fused region (pipeline 1), entered before call n, given its proof data per valuation — the body's proof
    among its fields. Its output array is window 7's. -/
theorem seg_region1_at (n : ℕ)
    (dt : Valuation τ sig (Elt F) → (c : Dev nD) → Dat τ (Elt F) (HIx 4) ℕ UU ℕ (Pipeline.pin (pcfgs (F := F)) adm 1) c)
    (h : RegionData (F := F) 1 n dt) : SegRegion (F := F) 1 n (Proc.devRef .tc main_v21) :=
  seg_of_data (p := 1) n dt h 7 Gen.winFacts2 Gen.block_pos2 Gen.stage_whole2 Gen.arr_whole2
    (show ∀ w : Fin 8, w ≠ 7 → (win2 w).isOut = false by decide)

/-- The second (pipeline 2). -/
theorem seg_region2_at (n : ℕ)
    (dt : Valuation τ sig (Elt F) → (c : Dev nD) → Dat τ (Elt F) (HIx 4) ℕ UU ℕ (Pipeline.pin (pcfgs (F := F)) adm 2) c)
    (h : RegionData (F := F) 2 n dt) : SegRegion (F := F) 2 n (Proc.devRef .tc main_v25) :=
  seg_of_data (p := 2) n dt h 7 Gen.winFacts4 Gen.block_pos4 Gen.stage_whole4 Gen.arr_whole4
    (show ∀ w : Fin 8, w ≠ 7 → (win4 w).isOut = false by decide)

/-- The third (pipeline 3). -/
theorem seg_region3_at (n : ℕ)
    (dt : Valuation τ sig (Elt F) → (c : Dev nD) → Dat τ (Elt F) (HIx 4) ℕ UU ℕ (Pipeline.pin (pcfgs (F := F)) adm 3) c)
    (h : RegionData (F := F) 3 n dt) : SegRegion (F := F) 3 n (Proc.devRef .tc main_v29) :=
  seg_of_data (p := 3) n dt h 7 Gen.winFacts6 Gen.block_pos6 Gen.stage_whole6 Gen.arr_whole6
    (show ∀ w : Fin 8, w ≠ 7 → (win6 w).isOut = false by decide)

/-- The fourth (pipeline 4). -/
theorem seg_region4_at (n : ℕ)
    (dt : Valuation τ sig (Elt F) → (c : Dev nD) → Dat τ (Elt F) (HIx 4) ℕ UU ℕ (Pipeline.pin (pcfgs (F := F)) adm 4) c)
    (h : RegionData (F := F) 4 n dt) : SegRegion (F := F) 4 n (Proc.devRef .tc main_v33) :=
  seg_of_data (p := 4) n dt h 7 Gen.winFacts8 Gen.block_pos8 Gen.stage_whole8 Gen.arr_whole8
    (show ∀ w : Fin 8, w ≠ 7 → (win8 w).isOut = false by decide)

end Cert.Kernel.Sc

end
-- ==== Proof.GatherBodyK.lean ====
/-
  The body of the sparse-core gather kernel of the first call, once, at a symbolic tile, for any float instance.

  Tile (c, s) is worker w = 2·s + c of 32. It copies slab w of the index array (32 lists of 128 row numbers) into its
  local index buffer, waits for the copy, and issues four indexed copies: rows idx[b][·] of y into row buffer b, on
  gather semaphore b (b = 0..3). Then eight trips; in trip g, for each slot b with j = 4g + b: wait for gather b (row
  buffer b holds the 128 rows list j names); copy row buffer b to output rows (32w + j)·128 … + 127 on write semaphore
  b; wait for it; and, when j + 4 < 32, issue the indexed copy of list j + 4 into row buffer b. One copy is outstanding
  per semaphore at any time, and nothing touches a copy's source or destination between its issue and its wait.
-/
import proofs.«215235_g2774548873965_cont_9to1_572_34_alg».proof.Proof.ScPayK
import Idealize.ShloMosaic.Lib.SparseCore.Launch
import Idealize.ShloMosaic.Lib.SparseCore.Ops
import Idealize.ShloMosaic.Lib.SparseCore.Stream
import Idealize.ShloMosaic.Lib.Transfers
import Idealize.ShloMosaic.Lib.Pipeline.Kit
import Idealize.ShloMosaic.Lib.Tactic
import proofs.«215235_g2774548873965_cont_9to1_572_34_alg».proof.Proof.Gen.Kernel.Skeleton

noncomputable section

namespace Cert.Kernel.Sc.Gather0

open Cert.Kernel
open Cert.Kernel.Facts₀ Cert.Kernel.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

/-! ## The tile and the buffers, as the program names them -/

abbrev cV (L : grid1.Coords) : Fin τ.nSC := (L 0).castLE hcore1
abbrev jV (L : grid1.Coords) : Fin τ.nSub := (L 1).castLE hsub1
abbrev thrV (d : Dev nD) (L : grid1.Coords) : Thread nD τ := V d (cV L) (jV L)

local notation "yV" => (Memref.whole Cert.Kernel.main_v1_scv : Memref Cert.Kernel.sig Kind.scVector Space.hbm Cert.Kernel.S8192x128 EltTy.f32)
local notation "ixV" => (Memref.whole Cert.Kernel.main_v19_scv : Memref Cert.Kernel.sig Kind.scVector Space.hbm Cert.Kernel.S32x32x128 EltTy.i32)
local notation "oV" => (Memref.whole Cert.Kernel.main_v20_scv : Memref Cert.Kernel.sig Kind.scVector Space.hbm Cert.Kernel.S131072x128 EltTy.f32)
local notation "ivV" => (Memref.whole Cert.Kernel.cc1_scratch0 : Memref Cert.Kernel.sig Kind.scVector Space.vmem Cert.Kernel.S32x128 EltTy.i32)
local notation "r0V" => (Memref.whole Cert.Kernel.cc1_scratch1 : Memref Cert.Kernel.sig Kind.scVector Space.vmem Cert.Kernel.S128x128 EltTy.f32)
local notation "r1V" => (Memref.whole Cert.Kernel.cc1_scratch2 : Memref Cert.Kernel.sig Kind.scVector Space.vmem Cert.Kernel.S128x128 EltTy.f32)
local notation "r2V" => (Memref.whole Cert.Kernel.cc1_scratch3 : Memref Cert.Kernel.sig Kind.scVector Space.vmem Cert.Kernel.S128x128 EltTy.f32)
local notation "r3V" => (Memref.whole Cert.Kernel.cc1_scratch4 : Memref Cert.Kernel.sig Kind.scVector Space.vmem Cert.Kernel.S128x128 EltTy.f32)

/-- The tile's slab of the index array, squeezed to its [32, 128] plane, as the program slices it. -/
abbrev slabK (L : grid1.Coords) : Memref sig .scVector .hbm S32x128 .i32 :=
  ((ixV).slice (Rect.unit (s := S32x32x128) (k1_off1 L) S1x32x128.size (k1_off1_inb L)) (fun _ => rfl)).squeeze S32x128 squeezes_S1x32x128_S32x128

/-- Output chunk 4t + b of the tile, as the program slices it (one abbreviation per slot: the slot is a literal word). -/
abbrev outK0 (L : grid1.Coords) (t : Fin k1_t1_loop.trips) : Memref sig .scVector .hbm S128x128 .f32 :=
  (oV).slice (Rect.unit (s := S131072x128) (k1_off3 L t 0#32) S128x128.size (k1_off3_inb L t 0)) (fun _ => rfl)
abbrev outK1 (L : grid1.Coords) (t : Fin k1_t1_loop.trips) : Memref sig .scVector .hbm S128x128 .f32 :=
  (oV).slice (Rect.unit (s := S131072x128) (k1_off3 L t 1#32) S128x128.size (k1_off3_inb L t 1)) (fun _ => rfl)
abbrev outK2 (L : grid1.Coords) (t : Fin k1_t1_loop.trips) : Memref sig .scVector .hbm S128x128 .f32 :=
  (oV).slice (Rect.unit (s := S131072x128) (k1_off3 L t 2#32) S128x128.size (k1_off3_inb L t 2)) (fun _ => rfl)
abbrev outK3 (L : grid1.Coords) (t : Fin k1_t1_loop.trips) : Memref sig .scVector .hbm S128x128 .f32 :=
  (oV).slice (Rect.unit (s := S131072x128) (k1_off3 L t 3#32) S128x128.size (k1_off3_inb L t 3)) (fun _ => rfl)

/-- List `off 0` of the local index buffer, as the program slices it. -/
abbrev idxRowAt (off : Fin 2 → ℕ) (hk : ∀ a, off a + S1x128.size a ≤ S32x128.size a) : Memref sig .scVector .vmem S128 .i32 :=
  ((ivV).slice (Rect.unit (s := S32x128) off S1x128.size hk) (fun _ => rfl)).squeeze S128 squeezes_S1x128_S128

/-- All of y, as the program slices it for a gather. -/
local notation "yAllK" => (Memref.slice (Memref.whole Cert.Kernel.main_v1_scv : Memref Cert.Kernel.sig Kind.scVector Space.hbm Cert.Kernel.S8192x128 EltTy.f32) (Rect.unit (s := Cert.Kernel.S8192x128) ![0, 0] Cert.Kernel.S8192x128.size Cert.Kernel.Facts₀.inb_S8192x128_S8192x128_0_0) (fun _ => rfl))

variable [FloatOps F]

abbrev 𝒱₀ : Variants := Variants.none

/-- A buffer the tile holds whole, by its own elements. -/
abbrev heldW {sp : Space} {s : Shape} {e : EltTy} (d : Dev nD) (L : grid1.Coords) (M : Memref sig .scVector sp s e) (q : PosShare TreeShare)
    (f : Buf (Elt F) (M.view.loc (thrV d L))) : sProp 𝕄 :=
  M.view.loc (thrV d L) ↦[M.view.set]{q} f

abbrev cellZ (d : Dev nD) (L : grid1.Coords) (a : DmaSems sig S_) : sProp 𝕄 := semVal ((thrV d L, SemLoc.dma a.sem) : GSem nD τ sig) 0

/-! ## The local index buffer as its 32 lists -/

omit [FloatOps F] in
theorem row_inb (j : Fin 32) : ∀ a, (![j.val, 0] : Fin 2 → ℕ) a + S1x128.size a ≤ S32x128.size a := by
  intro a
  match a with
  | 0 => have := j.isLt; show j.val + 1 ≤ 32; omega
  | 1 => show 0 + 128 ≤ 128; omega

/-- List j of the local index buffer. -/
abbrev idxRow (j : Fin 32) : Memref sig .scVector .vmem S128 .i32 := idxRowAt ![j.val, 0] (row_inb j)

/-- Two unit-stride rectangles at equal offsets and sizes are one. -/
theorem Rect.unit_congr {s : Shape} {off off' size size' : Fin s.rank → ℕ} (h1 : off = off') (h2 : size = size') (hk) (hk') :
    Rect.unit (s := s) off size hk = Rect.unit (s := s) off' size' hk' := by
  subst h1 h2; rfl

omit [FloatOps F] in
/-- The same list at another spelling of its offsets. -/
theorem idxRowAt_congr {off off' : Fin 2 → ℕ} (h : off = off') (hk) (hk') : idxRowAt off hk = idxRowAt off' hk' := by
  subst h; rfl

omit [FloatOps F] in
theorem set_idxRow (j : Fin 32) : (idxRow j).view.set = ((ivV).view.slice (S32x128.rowRect 0 j)).set := by
  show ((((ivV).view.slice (Rect.unit (s := S32x128) ![j.val, 0] S1x128.size (row_inb j)))).reshape S128 squeezes_S1x128_S128.numel_eq).set = _
  rw [View.set_reshape, View.set_slice, View.set_slice]
  refine congrArg (fun r : Rect S32x128 => r.set.map (ivV).view.emb) (Rect.unit_congr ?_ ?_ _ _)
  · funext a; match a with
    | 0 => rfl
    | 1 => rfl
  · funext a; match a with
    | 0 => rfl
    | 1 => rfl

/-- A list of the local index buffer, held whole by the tile. -/
abbrev rowPts (d : Dev nD) (L : grid1.Coords) (j : Fin 32) (f : Buf (Elt F) ((ivV).view.loc (thrV d L))) : sProp 𝕄 :=
  (idxRow j).view.loc (thrV d L) ↦[(idxRow j).view.set]{fullShare} f

omit [FloatOps F] in
/-- The local index buffer held whole is its 32 lists held each. -/
theorem iv_rows (d : Dev nD) (L : grid1.Coords) (f : Buf (Elt F) ((ivV).view.loc (thrV d L))) :
    ((ivV).view.loc (thrV d L) ↦[(ivV).view.set]{fullShare} f : sProp 𝕄) = bigSep Finset.univ fun j : Fin 32 => rowPts d L j f := by
  rw [pointsTo_rows (thrV d L) (ivV).view 0 fullShare f]
  refine bigSep_congr fun (j : Fin 32) _ => ?_
  show _ = ((idxRow j).view.loc (thrV d L) ↦[(idxRow j).view.set]{fullShare} f : sProp 𝕄)
  rw [set_idxRow]

/-! ## The lists' words are row numbers of y -/

omit [FloatOps F] in
/-- Whatever the local index buffer held before, once the slab has landed in it whole every word of every list is
    a word of the slab. -/
theorem hin_rows (d : Dev nD) (L : grid1.Coords) (fi : Buf (Elt F) ((slabK L).view.loc (thrV d L)))
    (hin : ∀ x, ((slabK L).view.read (Elt F) fi x).toNat < 8192)
    (g : Buf (Elt F) ((ivV).view.loc (thrV d L))) (pay : S32x128.Idx → Elt F .i32) (hpay : pay = (slabK L).view.read (Elt F) fi)
    (off : Fin 2 → ℕ) (hk : ∀ a, off a + S1x128.size a ≤ S32x128.size a) :
    ∀ x, (View.read (Elt F) (idxRowAt off hk).view
      ((ivV).view.writes (Elt F) g [⟨Rect.whole cc1_scratch0.ty.shape, pay⟩]) x).toNat < 8192 := by
  subst hpay; intro x
  have e : View.read (Elt F) (idxRowAt off hk).view ((ivV).view.writes (Elt F) g [⟨Rect.whole cc1_scratch0.ty.shape, (slabK L).view.read (Elt F) fi⟩]) x
      = View.read (Elt F) (ivV).view ((ivV).view.writes (Elt F) g [⟨Rect.whole cc1_scratch0.ty.shape, (slabK L).view.read (Elt F) fi⟩])
          ((Rect.unit (s := S32x128) off S1x128.size hk).emb ((Shape.reshapeEquiv squeezes_S1x128_S128.numel_eq) x)) := by
    rw [View.read_apply, View.read_apply]; rfl
  rw [e, View.read_writes_whole]
  exact hin _

omit [FloatOps F] in
/-- A list held, at another spelling of its offsets. -/
theorem rowPts_at (d : Dev nD) (L : grid1.Coords) (j : Fin 32) (off : Fin 2 → ℕ) (hk : ∀ a, off a + S1x128.size a ≤ S32x128.size a)
    (h : off = ![j.val, 0]) (f : Buf (Elt F) ((ivV).view.loc (thrV d L))) :
    rowPts d L j f = ((idxRowAt off hk).view.loc (thrV d L) ↦[(idxRowAt off hk).view.set]{fullShare} f : sProp 𝕄) := by
  subst h; rfl

/-! ## The loop's conditions, by trip -/

omit [FloatOps F] in
/-- In every trip but the last each slot issues its next gather; in the last none does. -/
theorem conds : ∀ k : Fin k1_t1_loop.trips,
    (k1_cond1 k = 1#1 ↔ k.val < 7) ∧ (k1_cond2 k = 1#1 ↔ ¬ k.val < 7) ∧ (k1_cond3 k = 1#1 ↔ k.val < 7) ∧ (k1_cond4 k = 1#1 ↔ ¬ k.val < 7)
    ∧ (k1_cond5 k = 1#1 ↔ k.val < 7) ∧ (k1_cond6 k = 1#1 ↔ ¬ k.val < 7) ∧ (k1_cond7 k = 1#1 ↔ k.val < 7) ∧ (k1_cond8 k = 1#1 ↔ ¬ k.val < 7) := by
  decide +kernel

/-! ## What the loop holds before trip k -/

omit [FloatOps F] in
theorem rowsInb (n : ℕ) (h : n < 32) : ∀ a, (![n, 0] : Fin 2 → ℕ) a + S1x128.size a ≤ S32x128.size a := by
  intro a
  match a with
  | 0 => show n + 1 ≤ 32; omega
  | 1 => show 0 + 128 ≤ 128; omega

/-- The lists no gather holds before trip k: all but lists 4k … 4k + 3. -/
def idle (k : ℕ) : Finset (Fin 32) := Finset.univ.filter fun j => j.val < 4 * k ∨ 4 * k + 4 ≤ j.val

/-- The tile's four output chunks of trip t, at some contents. -/
abbrev outTrip (d : Dev nD) (L : grid1.Coords) (t : Fin k1_t1_loop.trips) : sProp 𝕄 :=
  iprop((∃ f, heldW d L (outK0 L t) fullShare f) ∗ (∃ f, heldW d L (outK1 L t) fullShare f)
    ∗ (∃ f, heldW d L (outK2 L t) fullShare f) ∗ (∃ f, heldW d L (outK3 L t) fullShare f))

/-- A gather in flight on a slot: it will hand back the slot's row buffer written, the list it reads, and the share
    of y it reads. -/
abbrev gFlight (d : Dev nD) (L : grid1.Coords) (q : PosShare TreeShare) (sem : DmaSems sig S_) (n : ℕ)
    (rV : Memref sig .scVector .vmem S128x128 .f32) (off : Fin 2 → ℕ) (hk : ∀ a, off a + S1x128.size a ≤ S32x128.size a)
    (fr : Buf (Elt F) (rV.view.loc (thrV d L))) (fvc : Buf (Elt F) ((ivV).view.loc (thrV d L)))
    (fy : Buf (Elt F) ((yV).view.loc (thrV d L))) : sProp 𝕄 :=
  Transfers.Flight countersEmb (thrV d L) (SemLoc.dma sem.sem) (default : HIx 4) 524288
    iprop(((rV.view.loc (thrV d L) ↦[rV.view.set]{fullShare} fr)
        ∗ ((idxRowAt off hk).view.loc (thrV d L) ↦[(idxRowAt off hk).view.set]{fullShare} fvc))
      ∗ ((yV).view.loc (thrV d L) ↦[(yAllK).view.set]{Transfers.shareTokN q n} fy))

/-- What a gather leaves with the tile of the share of y it reads: nothing of y's elements. -/
abbrev yRest (d : Dev nD) (L : grid1.Coords) (q : PosShare TreeShare) (n : ℕ) (fy : Buf (Elt F) ((yV).view.loc (thrV d L))) : sProp 𝕄 :=
  (yV).view.loc (thrV d L) ↦[(yV).view.set \ (yAllK).view.set]{Transfers.shareTokN q n} fy

/-- Before trip k < 8: the four gathers of lists 4k … 4k + 3 in flight, every other list idle, the write semaphores at
    zero, the 32 output chunks at some contents. -/
def invA (d : Dev nD) (L : grid1.Coords) (q : PosShare TreeShare) (O : CellTallies nD τ sig (HIx 4)) (W : Waits sig (HIx 4))
    (fy : Buf (Elt F) ((yV).view.loc (thrV d L))) (fvc : Buf (Elt F) ((ivV).view.loc (thrV d L))) (k : ℕ) (hk8 : k < 8) : sProp 𝕄 :=
  iprop(Transfers.MayWaits (thrV d L) (default : HIx 4) O
    ∗ (∃ W', ⌜∀ p ∈ W', p ∈ W ∨ p.2 = none⌝ ∗ owes (thrV d L) O W')
    ∗ (cellZ d L cc1_scratch9 ∗ cellZ d L cc1_scratch10 ∗ cellZ d L cc1_scratch11 ∗ cellZ d L cc1_scratch12)
    ∗ bigSep Finset.univ (outTrip d L)
    ∗ bigSep (idle k) (fun j => rowPts d L j fvc)
    ∗ ((∃ fr, gFlight d L q cc1_scratch5 5 r0V ![4 * k + 0, 0] (rowsInb _ (by omega)) fr fvc fy) ∗ yRest d L q 5 fy)
    ∗ ((∃ fr, gFlight d L q cc1_scratch6 6 r1V ![4 * k + 1, 0] (rowsInb _ (by omega)) fr fvc fy) ∗ yRest d L q 6 fy)
    ∗ ((∃ fr, gFlight d L q cc1_scratch7 7 r2V ![4 * k + 2, 0] (rowsInb _ (by omega)) fr fvc fy) ∗ yRest d L q 7 fy)
    ∗ ((∃ fr, gFlight d L q cc1_scratch8 8 r3V ![4 * k + 3, 0] (rowsInb _ (by omega)) fr fvc fy) ∗ yRest d L q 8 fy))

omit [FloatOps F] in
theorem mem_idle_next (k : ℕ) (hk : k < 7) (b : ℕ) (hb : b < 4) : (⟨4 * k + 4 + b, by omega⟩ : Fin 32) ∈ idle k :=
  Finset.mem_filter.mpr ⟨Finset.mem_univ _, Or.inr (by show 4 * k + 4 ≤ 4 * k + 4 + b; omega)⟩

omit [FloatOps F] in
/-- The same gather at another spelling of its list's offsets. -/
theorem gFlight_off (d : Dev nD) (L : grid1.Coords) (q : PosShare TreeShare) (sem : DmaSems sig S_) (n : ℕ)
    (rV : Memref sig .scVector .vmem S128x128 .f32) {off off' : Fin 2 → ℕ} (h : off = off') (hk) (hk')
    (fr : Buf (Elt F) (rV.view.loc (thrV d L))) (fvc : Buf (Elt F) ((ivV).view.loc (thrV d L)))
    (fy : Buf (Elt F) ((yV).view.loc (thrV d L))) :
    gFlight d L q sem n rV off hk fr fvc fy = gFlight d L q sem n rV off' hk' fr fvc fy := by
  subst h; rfl

omit [FloatOps F] in
/-- A wait recorded at the default index keeps the waits among the earlier ones and those at no index. -/
theorem waits_ins {W W' : Waits sig (HIx 4)} (h : ∀ p ∈ W', p ∈ W ∨ p.2 = none) (s : SemLoc sig) :
    ∀ p ∈ insert (s, (default : HIx 4)) W', p ∈ W ∨ p.2 = none := by
  intro p hp
  rcases Finset.mem_insert.mp hp with hp | hp
  · exact .inr (hp ▸ rfl)
  · exact h p hp

omit [FloatOps F] in
/-- After trip k < 7 the idle lists are: those idle before but the four just lent, and the four just handed back. -/
theorem idle_step (k : ℕ) (hk : k < 7) (Φ : Fin 32 → sProp 𝕄)
    (h0 : 4 * k + 0 < 32) (h1 : 4 * k + 1 < 32) (h2 : 4 * k + 2 < 32) (h3 : 4 * k + 3 < 32)
    (h4 : 4 * k + 4 + 0 < 32) (h5 : 4 * k + 4 + 1 < 32) (h6 : 4 * k + 4 + 2 < 32) (h7 : 4 * k + 4 + 3 < 32) :
    iprop(bigSep (((((idle k).erase ⟨4 * k + 4 + 0, h4⟩).erase ⟨4 * k + 4 + 1, h5⟩).erase ⟨4 * k + 4 + 2, h6⟩).erase ⟨4 * k + 4 + 3, h7⟩) Φ
        ∗ Φ ⟨4 * k + 0, h0⟩ ∗ Φ ⟨4 * k + 1, h1⟩ ∗ Φ ⟨4 * k + 2, h2⟩ ∗ Φ ⟨4 * k + 3, h3⟩)
      ⊢ bigSep (idle (k + 1)) Φ := by
  have e : ((((idle (k + 1)).erase (⟨4 * k + 0, h0⟩ : Fin 32)).erase ⟨4 * k + 1, h1⟩).erase ⟨4 * k + 2, h2⟩).erase ⟨4 * k + 3, h3⟩
      = ((((idle k).erase (⟨4 * k + 4 + 0, h4⟩ : Fin 32)).erase ⟨4 * k + 4 + 1, h5⟩).erase ⟨4 * k + 4 + 2, h6⟩).erase ⟨4 * k + 4 + 3, h7⟩ := by
    ext j
    simp only [idle, Finset.mem_erase, Finset.mem_filter, Finset.mem_univ, true_and, ne_eq, Fin.ext_iff]
    omega
  have m0 : (⟨4 * k + 0, h0⟩ : Fin 32) ∈ idle (k + 1) := Finset.mem_filter.mpr ⟨Finset.mem_univ _, Or.inl (show 4 * k + 0 < 4 * (k + 1) by omega)⟩
  have m1 : (⟨4 * k + 1, h1⟩ : Fin 32) ∈ idle (k + 1) := Finset.mem_filter.mpr ⟨Finset.mem_univ _, Or.inl (show 4 * k + 1 < 4 * (k + 1) by omega)⟩
  have m2 : (⟨4 * k + 2, h2⟩ : Fin 32) ∈ idle (k + 1) := Finset.mem_filter.mpr ⟨Finset.mem_univ _, Or.inl (show 4 * k + 2 < 4 * (k + 1) by omega)⟩
  have m3 : (⟨4 * k + 3, h3⟩ : Fin 32) ∈ idle (k + 1) := Finset.mem_filter.mpr ⟨Finset.mem_univ _, Or.inl (show 4 * k + 3 < 4 * (k + 1) by omega)⟩
  rw [SparseCore.bigSep_erase' m0,
    SparseCore.bigSep_erase' (Finset.mem_erase.mpr ⟨by simp [Fin.ext_iff], m1⟩),
    SparseCore.bigSep_erase' (Finset.mem_erase.mpr ⟨by simp [Fin.ext_iff], Finset.mem_erase.mpr ⟨by simp [Fin.ext_iff], m2⟩⟩),
    SparseCore.bigSep_erase' (Finset.mem_erase.mpr ⟨by simp [Fin.ext_iff], Finset.mem_erase.mpr ⟨by simp [Fin.ext_iff], Finset.mem_erase.mpr ⟨by simp [Fin.ext_iff], m3⟩⟩⟩), e]
  iintro ⟨H, H0, H1, H2, H3⟩
  isplitl [H0]; · iexact H0
  isplitl [H1]; · iexact H1
  isplitl [H2]; · iexact H2
  isplitl [H3]; · iexact H3
  iexact H

set_option maxHeartbeats 4000000 in
theorem gk_tripA (d : Dev nD) (L : grid1.Coords) (q : PosShare TreeShare) (O : CellTallies nD τ sig (HIx 4)) (W : Waits sig (HIx 4))
    (fy : Buf (Elt F) ((yV).view.loc (thrV d L))) (fvc : Buf (Elt F) ((ivV).view.loc (thrV d L)))
    (hrowc : ∀ (off : Fin 2 → ℕ) (hk : ∀ a, off a + S1x128.size a ≤ S32x128.size a) (x : S128.Idx),
      (View.read (Elt F) (idxRowAt off hk).view fvc x).toNat < 8192)
    (v1 c0 c1 : BitVec 32) (k : Fin k1_t1_loop.trips) (hk : k.val < 7) (acc : Unit) :
    invA d L q O W fy fvc k.val (by omega)
      ⊢ wp frame (wpE (defs₀ (F := F)) 𝒱₀ (thrV d L) none) Set.univ
          (Gen.k1_t1_body L yV (Memref.isWhole_whole _) ixV (Memref.isWhole_whole _) oV (Memref.isWhole_whole _)
            ivV (Memref.isWhole_whole _) r0V (Memref.isWhole_whole _) r1V (Memref.isWhole_whole _)
            r2V (Memref.isWhole_whole _) r3V (Memref.isWhole_whole _)
            cc1_scratch5 cc1_scratch6 cc1_scratch7 cc1_scratch8 cc1_scratch9 cc1_scratch10 cc1_scratch11 cc1_scratch12 cc1_scoped0
            v1 c0 c1 k acc)
          fun _ => invA d L q O W fy fvc (k.val + 1) (by omega) := by
  obtain ⟨c1', c2', c3', c4', c5', c6', c7', c8'⟩ := conds k
  have hc1 : k1_cond1 k = 1#1 := c1'.mpr hk
  have hc2 : ¬ k1_cond2 k = 1#1 := fun h => (c2'.mp h) hk
  have hc3 : k1_cond3 k = 1#1 := c3'.mpr hk
  have hc4 : ¬ k1_cond4 k = 1#1 := fun h => (c4'.mp h) hk
  have hc5 : k1_cond5 k = 1#1 := c5'.mpr hk
  have hc6 : ¬ k1_cond6 k = 1#1 := fun h => (c6'.mp h) hk
  have hc7 : k1_cond7 k = 1#1 := c7'.mpr hk
  have hc8 : ¬ k1_cond8 k = 1#1 := fun h => (c8'.mp h) hk
  unfold invA gFlight yRest
  iintro ⟨#Hmw, ⟨%W', %hW', HO⟩, ⟨HW0, HW1, HW2, HW3⟩, Hout, Hrows, ⟨⟨%fr0, HG0⟩, HY0⟩, ⟨⟨%fr1, HG1⟩, HY1⟩, ⟨⟨%fr2, HG2⟩, HY2⟩, ⟨⟨%fr3, HG3⟩, HY3⟩⟩
  -- the four output chunks of this trip
  ihave Hx := (Entails.of_eq (SparseCore.bigSep_erase' (i := k) (Finset.mem_univ _))) $$ Hout
  icases Hx with ⟨⟨⟨%fo0, HO0⟩, ⟨%fo1, HO1⟩, ⟨%fo2, HO2⟩, ⟨%fo3, HO3⟩⟩, Hout⟩
  -- the four lists the trip's gathers will read
  ihave Hx := (Entails.of_eq (SparseCore.bigSep_erase' (i := (⟨4 * k.val + 4 + 0, by omega⟩ : Fin 32)) (mem_idle_next k.val hk 0 (by omega)))) $$ Hrows
  icases Hx with ⟨Hl0, Hrows⟩
  ihave Hx := (Entails.of_eq (SparseCore.bigSep_erase' (i := (⟨4 * k.val + 4 + 1, by omega⟩ : Fin 32))
    (Finset.mem_erase.mpr ⟨by simp [Fin.ext_iff], mem_idle_next k.val hk 1 (by omega)⟩))) $$ Hrows
  icases Hx with ⟨Hl1, Hrows⟩
  ihave Hx := (Entails.of_eq (SparseCore.bigSep_erase' (i := (⟨4 * k.val + 4 + 2, by omega⟩ : Fin 32))
    (Finset.mem_erase.mpr ⟨by simp [Fin.ext_iff], Finset.mem_erase.mpr ⟨by simp [Fin.ext_iff], mem_idle_next k.val hk 2 (by omega)⟩⟩))) $$ Hrows
  icases Hx with ⟨Hl2, Hrows⟩
  ihave Hx := (Entails.of_eq (SparseCore.bigSep_erase' (i := (⟨4 * k.val + 4 + 3, by omega⟩ : Fin 32))
    (Finset.mem_erase.mpr ⟨by simp [Fin.ext_iff], Finset.mem_erase.mpr ⟨by simp [Fin.ext_iff], Finset.mem_erase.mpr ⟨by simp [Fin.ext_iff], mem_idle_next k.val hk 3 (by omega)⟩⟩⟩))) $$ Hrows
  icases Hx with ⟨Hl3, Hrows⟩
  ihave Hl0' := (Entails.of_eq (rowPts_at (F := F) d L _ (k1_off5 k) (k1_off5_inb k hc1) (Gen.k1_off5_eq k) _)) $$ Hl0
  ihave Hl1' := (Entails.of_eq (rowPts_at (F := F) d L _ (k1_off8 k) (k1_off8_inb k hc3) (Gen.k1_off8_eq k) _)) $$ Hl1
  ihave Hl2' := (Entails.of_eq (rowPts_at (F := F) d L _ (k1_off11 k) (k1_off11_inb k hc5) (Gen.k1_off11_eq k) _)) $$ Hl2
  ihave Hl3' := (Entails.of_eq (rowPts_at (F := F) d L _ (k1_off14 k) (k1_off14_inb k hc7) (Gen.k1_off14_eq k) _)) $$ Hl3
  sl_unfold [Gen.k1_t1_body]
  sl_exec (disch := first | sl_exact hc1 | sl_exact hc2 | sl_exact hc3 | sl_exact hc4 | sl_exact hc5 | sl_exact hc6 | sl_exact hc7 | sl_exact hc8)
  sl_step
  isplitr; · iexact Hmw
  isplitl [HO]
  · iexists _; isplitr
    swap; · iexact HO
    ipureintro
    exact waits_ins (waits_ins (waits_ins (waits_ins (waits_ins (waits_ins (waits_ins (waits_ins hW' _) _) _) _) _) _) _) _
  isplitl [HW0 HW1 HW2 HW3]
  · isplitl [HW0]; · iexact HW0
    isplitl [HW1]; · iexact HW1
    isplitl [HW2]; · iexact HW2
    iexact HW3
  isplitl [Hout HO0 HO1 HO2 HO3]
  · iapply (Entails.of_eq (SparseCore.bigSep_erase' (i := k) (Finset.mem_univ _)).symm)
    isplitl [HO0 HO1 HO2 HO3]
    · isplitl [HO0]; · iexists _; iexact HO0
      isplitl [HO1]; · iexists _; iexact HO1
      isplitl [HO2]; · iexists _; iexact HO2
      iexists _; iexact HO3
    iexact Hout
  isplitl [Hrows HG0_dst_and HG1_dst_and HG2_dst_and HG3_dst_and]
  · iapply (idle_step (F := F) k.val hk (fun j => rowPts d L j fvc) (by omega) (by omega) (by omega) (by omega) (by omega) (by omega) (by omega) (by omega))
    isplitl [Hrows]; · iexact Hrows
    isplitl [HG0_dst_and]; · iexact HG0_dst_and
    isplitl [HG1_dst_and]; · iexact HG1_dst_and
    isplitl [HG2_dst_and]; · iexact HG2_dst_and
    iexact HG3_dst_and
  isplitl [HG0 HY0]
  · isplitl [HG0]
    · iexists _
      iapply (Entails.of_eq (gFlight_off (F := F) d L q cc1_scratch5 5 r0V ((Gen.k1_off5_eq k).trans (by rw [show 4 * (k.val + 1) + 0 = 4 * k.val + 4 by omega])) (k1_off5_inb k hc1) _ _ fvc fy))
      iexact HG0
    iexact HY0
  isplitl [HG1 HY1]
  · isplitl [HG1]
    · iexists _
      iapply (Entails.of_eq (gFlight_off (F := F) d L q cc1_scratch6 6 r1V ((Gen.k1_off8_eq k).trans (by rw [show 4 * (k.val + 1) + 1 = 4 * k.val + 5 by omega])) (k1_off8_inb k hc3) _ _ fvc fy))
      iexact HG1
    iexact HY1
  isplitl [HG2 HY2]
  · isplitl [HG2]
    · iexists _
      iapply (Entails.of_eq (gFlight_off (F := F) d L q cc1_scratch7 7 r2V ((Gen.k1_off11_eq k).trans (by rw [show 4 * (k.val + 1) + 2 = 4 * k.val + 6 by omega])) (k1_off11_inb k hc5) _ _ fvc fy))
      iexact HG2
    iexact HY2
  isplitl [HG3]
  · iexists _
    iapply (Entails.of_eq (gFlight_off (F := F) d L q cc1_scratch8 8 r3V ((Gen.k1_off14_eq k).trans (by rw [show 4 * (k.val + 1) + 3 = 4 * k.val + 7 by omega])) (k1_off14_inb k hc7) _ _ fvc fy))
    iexact HG3
  iexact HY3

omit [FloatOps F] in
/-- After the last trip every list is idle. -/
theorem idle_last (k : ℕ) (hk : k = 7) (Φ : Fin 32 → sProp 𝕄)
    (h0 : 4 * k + 0 < 32) (h1 : 4 * k + 1 < 32) (h2 : 4 * k + 2 < 32) (h3 : 4 * k + 3 < 32) :
    iprop(bigSep (idle k) Φ ∗ Φ ⟨4 * k + 0, h0⟩ ∗ Φ ⟨4 * k + 1, h1⟩ ∗ Φ ⟨4 * k + 2, h2⟩ ∗ Φ ⟨4 * k + 3, h3⟩)
      ⊢ bigSep Finset.univ Φ := by
  subst hk
  have e : ((((Finset.univ : Finset (Fin 32)).erase (⟨4 * 7 + 0, h0⟩ : Fin 32)).erase ⟨4 * 7 + 1, h1⟩).erase ⟨4 * 7 + 2, h2⟩).erase ⟨4 * 7 + 3, h3⟩ = idle 7 := by
    ext j
    simp only [idle, Finset.mem_erase, Finset.mem_filter, Finset.mem_univ, true_and, and_true, ne_eq, Fin.ext_iff]
    omega
  rw [SparseCore.bigSep_erase' (Finset.mem_univ (⟨4 * 7 + 0, h0⟩ : Fin 32)),
    SparseCore.bigSep_erase' (i := (⟨4 * 7 + 1, h1⟩ : Fin 32)) (Finset.mem_erase.mpr ⟨by simp [Fin.ext_iff], Finset.mem_univ _⟩),
    SparseCore.bigSep_erase' (i := (⟨4 * 7 + 2, h2⟩ : Fin 32)) (Finset.mem_erase.mpr ⟨by simp [Fin.ext_iff], Finset.mem_erase.mpr ⟨by simp [Fin.ext_iff], Finset.mem_univ _⟩⟩),
    SparseCore.bigSep_erase' (i := (⟨4 * 7 + 3, h3⟩ : Fin 32)) (Finset.mem_erase.mpr ⟨by simp [Fin.ext_iff], Finset.mem_erase.mpr ⟨by simp [Fin.ext_iff], Finset.mem_erase.mpr ⟨by simp [Fin.ext_iff], Finset.mem_univ _⟩⟩⟩), e]
  iintro ⟨H, H0, H1, H2, H3⟩
  isplitl [H0]; · iexact H0
  isplitl [H1]; · iexact H1
  isplitl [H2]; · iexact H2
  isplitl [H3]; · iexact H3
  iexact H

omit [FloatOps F] in
/-- Before the first trip lists 0 … 3 are lent. -/
theorem idle_zero : idle 0 = ((((Finset.univ : Finset (Fin 32)).erase 0).erase 1).erase 2).erase 3 := by
  ext j
  simp only [idle, Finset.mem_erase, Finset.mem_filter, Finset.mem_univ, true_and, and_true, ne_eq, Fin.ext_iff]
  show j.val < 4 * 0 ∨ 4 * 0 + 4 ≤ j.val ↔ ¬ j.val = 3 ∧ ¬ j.val = 2 ∧ ¬ j.val = 1 ∧ ¬ j.val = 0
  omega

/-- After the last trip: nothing in flight; every list idle, the row buffers at some contents, every semaphore at
    zero, the four shares of y whole again, the 32 output chunks at some contents. -/
def invEnd (d : Dev nD) (L : grid1.Coords) (q : PosShare TreeShare) (O : CellTallies nD τ sig (HIx 4)) (W : Waits sig (HIx 4))
    (fy : Buf (Elt F) ((yV).view.loc (thrV d L))) (fvc : Buf (Elt F) ((ivV).view.loc (thrV d L))) : sProp 𝕄 :=
  iprop(Transfers.MayWaits (thrV d L) (default : HIx 4) O
    ∗ (∃ W', ⌜∀ p ∈ W', p ∈ W ∨ p.2 = none⌝ ∗ owes (thrV d L) O W')
    ∗ (cellZ d L cc1_scratch9 ∗ cellZ d L cc1_scratch10 ∗ cellZ d L cc1_scratch11 ∗ cellZ d L cc1_scratch12)
    ∗ bigSep Finset.univ (outTrip d L)
    ∗ bigSep Finset.univ (fun j => rowPts d L j fvc)
    ∗ ((∃ fr, heldW d L r0V fullShare fr) ∗ cellZ d L cc1_scratch5 ∗ heldW d L yV (Transfers.shareTokN q 5) fy)
    ∗ ((∃ fr, heldW d L r1V fullShare fr) ∗ cellZ d L cc1_scratch6 ∗ heldW d L yV (Transfers.shareTokN q 6) fy)
    ∗ ((∃ fr, heldW d L r2V fullShare fr) ∗ cellZ d L cc1_scratch7 ∗ heldW d L yV (Transfers.shareTokN q 7) fy)
    ∗ ((∃ fr, heldW d L r3V fullShare fr) ∗ cellZ d L cc1_scratch8 ∗ heldW d L yV (Transfers.shareTokN q 8) fy))

set_option maxHeartbeats 4000000 in
theorem gk_tripB (d : Dev nD) (L : grid1.Coords) (q : PosShare TreeShare) (O : CellTallies nD τ sig (HIx 4)) (W : Waits sig (HIx 4))
    (fy : Buf (Elt F) ((yV).view.loc (thrV d L))) (fvc : Buf (Elt F) ((ivV).view.loc (thrV d L)))
    (hrowc : ∀ (off : Fin 2 → ℕ) (hk : ∀ a, off a + S1x128.size a ≤ S32x128.size a) (x : S128.Idx),
      (View.read (Elt F) (idxRowAt off hk).view fvc x).toNat < 8192)
    (v1 c0 c1 : BitVec 32) (k : Fin k1_t1_loop.trips) (hk : k.val = 7) (acc : Unit) :
    invA d L q O W fy fvc k.val (by omega)
      ⊢ wp frame (wpE (defs₀ (F := F)) 𝒱₀ (thrV d L) none) Set.univ
          (Gen.k1_t1_body L yV (Memref.isWhole_whole _) ixV (Memref.isWhole_whole _) oV (Memref.isWhole_whole _)
            ivV (Memref.isWhole_whole _) r0V (Memref.isWhole_whole _) r1V (Memref.isWhole_whole _)
            r2V (Memref.isWhole_whole _) r3V (Memref.isWhole_whole _)
            cc1_scratch5 cc1_scratch6 cc1_scratch7 cc1_scratch8 cc1_scratch9 cc1_scratch10 cc1_scratch11 cc1_scratch12 cc1_scoped0
            v1 c0 c1 k acc)
          fun _ => invEnd d L q O W fy fvc := by
  obtain ⟨c1', c2', c3', c4', c5', c6', c7', c8'⟩ := conds k
  have hn : ¬ k.val < 7 := by omega
  have hc1 : ¬ k1_cond1 k = 1#1 := fun h => hn (c1'.mp h)
  have hc2 : k1_cond2 k = 1#1 := c2'.mpr hn
  have hc3 : ¬ k1_cond3 k = 1#1 := fun h => hn (c3'.mp h)
  have hc4 : k1_cond4 k = 1#1 := c4'.mpr hn
  have hc5 : ¬ k1_cond5 k = 1#1 := fun h => hn (c5'.mp h)
  have hc6 : k1_cond6 k = 1#1 := c6'.mpr hn
  have hc7 : ¬ k1_cond7 k = 1#1 := fun h => hn (c7'.mp h)
  have hc8 : k1_cond8 k = 1#1 := c8'.mpr hn
  unfold invA invEnd gFlight yRest
  iintro ⟨#Hmw, ⟨%W', %hW', HO⟩, ⟨HW0, HW1, HW2, HW3⟩, Hout, Hrows, ⟨⟨%fr0, HG0⟩, HY0⟩, ⟨⟨%fr1, HG1⟩, HY1⟩, ⟨⟨%fr2, HG2⟩, HY2⟩, ⟨⟨%fr3, HG3⟩, HY3⟩⟩
  ihave Hx := (Entails.of_eq (SparseCore.bigSep_erase' (i := k) (Finset.mem_univ _))) $$ Hout
  icases Hx with ⟨⟨⟨%fo0, HO0⟩, ⟨%fo1, HO1⟩, ⟨%fo2, HO2⟩, ⟨%fo3, HO3⟩⟩, Hout⟩
  sl_unfold [Gen.k1_t1_body]
  sl_exec (disch := first | sl_exact hc1 | sl_exact hc2 | sl_exact hc3 | sl_exact hc4 | sl_exact hc5 | sl_exact hc6 | sl_exact hc7 | sl_exact hc8)
  sl_step
  isplitr; · iexact Hmw
  isplitl [HO]
  · iexists _; isplitr
    swap; · iexact HO
    ipureintro
    exact waits_ins (waits_ins (waits_ins (waits_ins (waits_ins (waits_ins (waits_ins (waits_ins hW' _) _) _) _) _) _) _) _
  isplitl [HW0 HW1 HW2 HW3]
  · isplitl [HW0]; · iexact HW0
    isplitl [HW1]; · iexact HW1
    isplitl [HW2]; · iexact HW2
    iexact HW3
  isplitl [Hout HO0 HO1 HO2 HO3]
  · iapply (Entails.of_eq (SparseCore.bigSep_erase' (i := k) (Finset.mem_univ _)).symm)
    isplitl [HO0 HO1 HO2 HO3]
    · isplitl [HO0]; · iexists _; iexact HO0
      isplitl [HO1]; · iexists _; iexact HO1
      isplitl [HO2]; · iexists _; iexact HO2
      iexists _; iexact HO3
    iexact Hout
  isplitl [Hrows HG0_dst_and HG1_dst_and HG2_dst_and HG3_dst_and]
  · iapply (idle_last (F := F) k.val hk (fun j => rowPts d L j fvc) (by omega) (by omega) (by omega) (by omega))
    isplitl [Hrows]; · iexact Hrows
    isplitl [HG0_dst_and]; · iexact HG0_dst_and
    isplitl [HG1_dst_and]; · iexact HG1_dst_and
    isplitl [HG2_dst_and]; · iexact HG2_dst_and
    iexact HG3_dst_and
  isplitl [HG0_dst HG0 HY0]
  · isplitl [HG0_dst]; · iexists _; iexact HG0_dst
    isplitl [HG0]; · iexact HG0
    iexact HY0
  isplitl [HG1_dst HG1 HY1]
  · isplitl [HG1_dst]; · iexists _; iexact HG1_dst
    isplitl [HG1]; · iexact HG1
    iexact HY1
  isplitl [HG2_dst HG2 HY2]
  · isplitl [HG2_dst]; · iexists _; iexact HG2_dst
    isplitl [HG2]; · iexact HG2
    iexact HY2
  isplitl [HG3_dst]; · iexists _; iexact HG3_dst
  isplitl [HG3]; · iexact HG3
  iexact HY3

/-! ## The loop's invariant, and the whole body -/

/-- What the loop holds before trip k: the gathers of trip k in flight while there is a trip k, nothing after. -/
def inv (d : Dev nD) (L : grid1.Coords) (q : PosShare TreeShare) (O : CellTallies nD τ sig (HIx 4)) (W : Waits sig (HIx 4))
    (fy : Buf (Elt F) ((yV).view.loc (thrV d L))) (fvc : Buf (Elt F) ((ivV).view.loc (thrV d L))) (k : ℕ) : Unit → sProp 𝕄 :=
  fun _ => if h : k < 8 then invA d L q O W fy fvc k h else invEnd d L q O W fy fvc

theorem inv_lt (d : Dev nD) (L : grid1.Coords) (q : PosShare TreeShare) (O : CellTallies nD τ sig (HIx 4)) (W : Waits sig (HIx 4))
    (fy : Buf (Elt F) ((yV).view.loc (thrV d L))) (fvc : Buf (Elt F) ((ivV).view.loc (thrV d L))) (k : ℕ) (h : k < 8) :
    inv d L q O W fy fvc k = fun _ => invA d L q O W fy fvc k h := by
  funext _; exact dif_pos h

theorem inv_ge (d : Dev nD) (L : grid1.Coords) (q : PosShare TreeShare) (O : CellTallies nD τ sig (HIx 4)) (W : Waits sig (HIx 4))
    (fy : Buf (Elt F) ((yV).view.loc (thrV d L))) (fvc : Buf (Elt F) ((ivV).view.loc (thrV d L))) (k : ℕ) (h : ¬ k < 8) :
    inv d L q O W fy fvc k = fun _ => invEnd d L q O W fy fvc := by
  funext _; exact dif_neg h

omit [FloatOps F] in
theorem trips_eq : k1_t1_loop.trips = 8 := by decide

theorem inv_end (d : Dev nD) (L : grid1.Coords) (q : PosShare TreeShare) (O : CellTallies nD τ sig (HIx 4)) (W : Waits sig (HIx 4))
    (fy : Buf (Elt F) ((yV).view.loc (thrV d L))) (fvc : Buf (Elt F) ((ivV).view.loc (thrV d L))) :
    inv d L q O W fy fvc (Scf.trips k1_t1_loop.lb k1_t1_loop.ub k1_t1_loop.st) = fun _ => invEnd d L q O W fy fvc :=
  inv_ge d L q O W fy fvc _ (by decide)

set_option maxHeartbeats 4000000 in
/-- The body on tile (L 0, L 1) of device d, from the tile's own spellings of what it holds: four read shares of y, its
    slab of the index array with every word a row number of y, its 32 output chunks, its local index buffer, its four
    row buffers, its nine semaphores at zero. It ends with the same, the output chunks, the local buffers at some
    contents. -/
theorem gk_core (d : Dev nD) (L : grid1.Coords) (q : PosShare TreeShare)
    (O : CellTallies nD τ sig (HIx 4)) (W : Waits sig (HIx 4))
    (fy : Buf (Elt F) ((yV).view.loc (thrV d L))) (fi : Buf (Elt F) ((slabK L).view.loc (thrV d L)))
    (fv : Buf (Elt F) ((ivV).view.loc (thrV d L)))
    (f0 : Buf (Elt F) ((r0V).view.loc (thrV d L))) (f1 : Buf (Elt F) ((r1V).view.loc (thrV d L)))
    (f2 : Buf (Elt F) ((r2V).view.loc (thrV d L))) (f3 : Buf (Elt F) ((r3V).view.loc (thrV d L)))
    (hin : ∀ x, ((slabK L).view.read (Elt F) fi x).toNat < 8192) :
    (iprop(Transfers.MayWaits (thrV d L) (default : HIx 4) O
        ∗ heldW d L yV (Transfers.shareTokN q 5) fy ∗ heldW d L yV (Transfers.shareTokN q 6) fy
        ∗ heldW d L yV (Transfers.shareTokN q 7) fy ∗ heldW d L yV (Transfers.shareTokN q 8) fy
        ∗ heldW d L (slabK L) fullShare fi
        ∗ heldW d L ivV fullShare fv
        ∗ heldW d L r0V fullShare f0 ∗ heldW d L r1V fullShare f1 ∗ heldW d L r2V fullShare f2 ∗ heldW d L r3V fullShare f3
        ∗ cellZ d L cc1_scratch5 ∗ cellZ d L cc1_scratch6 ∗ cellZ d L cc1_scratch7 ∗ cellZ d L cc1_scratch8
        ∗ cellZ d L cc1_scratch9 ∗ cellZ d L cc1_scratch10 ∗ cellZ d L cc1_scratch11 ∗ cellZ d L cc1_scratch12
        ∗ cellZ d L cc1_scoped0
        ∗ bigSep Finset.univ (outTrip d L)
        ∗ owes (thrV d L) O W) : sProp 𝕄)
      ⊢ wp frame (wpE (defs₀ (F := F)) 𝒱₀ (thrV d L) none) Set.univ
          (cc1_gk L yV (Memref.isWhole_whole _) ixV (Memref.isWhole_whole _) oV (Memref.isWhole_whole _)
            ivV (Memref.isWhole_whole _) r0V (Memref.isWhole_whole _) r1V (Memref.isWhole_whole _)
            r2V (Memref.isWhole_whole _) r3V (Memref.isWhole_whole _)
            cc1_scratch5 cc1_scratch6 cc1_scratch7 cc1_scratch8 cc1_scratch9 cc1_scratch10 cc1_scratch11 cc1_scratch12 cc1_scoped0)
          fun _ => iprop(heldW d L yV (Transfers.shareTokN q 5) fy ∗ heldW d L yV (Transfers.shareTokN q 6) fy
            ∗ heldW d L yV (Transfers.shareTokN q 7) fy ∗ heldW d L yV (Transfers.shareTokN q 8) fy
            ∗ heldW d L (slabK L) fullShare fi
            ∗ (∃ f, heldW d L ivV fullShare f)
            ∗ (∃ f, heldW d L r0V fullShare f) ∗ (∃ f, heldW d L r1V fullShare f) ∗ (∃ f, heldW d L r2V fullShare f) ∗ (∃ f, heldW d L r3V fullShare f)
            ∗ cellZ d L cc1_scratch5 ∗ cellZ d L cc1_scratch6 ∗ cellZ d L cc1_scratch7 ∗ cellZ d L cc1_scratch8
            ∗ cellZ d L cc1_scratch9 ∗ cellZ d L cc1_scratch10 ∗ cellZ d L cc1_scratch11 ∗ cellZ d L cc1_scratch12
            ∗ cellZ d L cc1_scoped0
            ∗ bigSep Finset.univ (outTrip d L)
            ∗ ∃ W', ⌜∀ p ∈ W', p ∈ W ∨ p.2 = none⌝ ∗ owes (thrV d L) O W') := by
  rw [Gen.cc1_gk_eq_skeleton]
  iintro ⟨#Hmw, HY0, HY1, HY2, HY3, HI, HV, HR0, HR1, HR2, HR3, HG0, HG1, HG2, HG3, HW0, HW1, HW2, HW3, HS, Hout, HO⟩
  sl_unfold [Gen.cc1_gk_skel, k1_part3]
  -- the slab lands in the local index buffer (one copy, awaited); the run stops before the first gather
  sl_exec
  -- whatever the buffer held before, every word of every list is now a word of the slab
  have hrow := fun g off hk => hin_rows d L fi hin g (gk_core.sl.dma0 d L fi) rfl off hk
  -- the buffer as its 32 lists; lists 0 … 3, spelt as the first four gathers slice them
  ihave Hrows := (Entails.of_eq (iv_rows (F := F) d L _)) $$ HV
  ihave Hx := (Entails.of_eq (SparseCore.bigSep_erase' (s := Finset.univ) (i := (0 : Fin 32)) (Finset.mem_univ _))) $$ Hrows
  icases Hx with ⟨Hl0, Hrows⟩
  ihave Hx := (Entails.of_eq (SparseCore.bigSep_erase' (i := (1 : Fin 32)) (by decide))) $$ Hrows
  icases Hx with ⟨Hl1, Hrows⟩
  ihave Hx := (Entails.of_eq (SparseCore.bigSep_erase' (i := (2 : Fin 32)) (by decide))) $$ Hrows
  icases Hx with ⟨Hl2, Hrows⟩
  ihave Hx := (Entails.of_eq (SparseCore.bigSep_erase' (i := (3 : Fin 32)) (by decide))) $$ Hrows
  icases Hx with ⟨Hl3, Hrows⟩
  ihave Hl0' := (Entails.of_eq (rowPts_at (F := F) d L 0 ![0, 0] inb_S32x128_S1x128_0_0 rfl _)) $$ Hl0
  ihave Hl1' := (Entails.of_eq (rowPts_at (F := F) d L 1 ![1, 0] inb_S32x128_S1x128_1_0 rfl _)) $$ Hl1
  ihave Hl2' := (Entails.of_eq (rowPts_at (F := F) d L 2 ![2, 0] inb_S32x128_S1x128_2_0 rfl _)) $$ Hl2
  ihave Hl3' := (Entails.of_eq (rowPts_at (F := F) d L 3 ![3, 0] inb_S32x128_S1x128_3_0 rfl _)) $$ Hl3
  -- the four gathers issue; the run stops at the loop
  sl_exec
  sl_for (inv d L q O W fy ((ivV).view.writes (Elt F) (ivV).view.junk [⟨Rect.whole cc1_scratch0.ty.shape, gk_core.sl.dma0 d L fi⟩]))
    $$ [HO HW0 HW1 HW2 HW3 Hout Hrows HG0 HY0 HG1 HY1 HG2 HY2 HG3 HY3]
  · -- one trip
    intro k acc
    have hk8 : k.val < 8 := trips_eq ▸ k.isLt
    rcases Nat.lt_or_ge k.val 7 with h7 | h7
    · rw [inv_lt (h := hk8), inv_lt (k := k.val + 1) (h := by omega)]
      exact gk_tripA d L q O W fy _ (hrow _) _ _ _ k h7 acc
    · rw [inv_lt (h := hk8), inv_ge (k := k.val + 1) (h := by omega)]
      exact gk_tripB d L q O W fy _ (hrow _) _ _ _ k (by omega) acc
  · -- the invariant before the first trip
    rw [inv_lt (k := 0) (h := by omega)]
    beta_reduce
    unfold invA gFlight yRest
    isplitr; · iexact Hmw
    isplitl [HO]
    · iexists _; isplitr
      swap; · iexact HO
      ipureintro
      exact waits_ins (fun p hp => .inl hp) _
    isplitl [HW0 HW1 HW2 HW3]
    · isplitl [HW0]; · iexact HW0
      isplitl [HW1]; · iexact HW1
      isplitl [HW2]; · iexact HW2
      iexact HW3
    isplitl [Hout]; · iexact Hout
    isplitl [Hrows]; · rw [idle_zero]; iexact Hrows
    isplitl [HG0 HY0]
    · isplitl [HG0]; · iexists _; iexact HG0
      iexact HY0
    isplitl [HG1 HY1]
    · isplitl [HG1]; · iexists _; iexact HG1
      iexact HY1
    isplitl [HG2 HY2]
    · isplitl [HG2]; · iexists _; iexact HG2
      iexact HY2
    isplitl [HG3]; · iexists _; iexact HG3
    iexact HY3
  -- after the loop
  iintro %acc HL
  rw [inv_end]
  beta_reduce
  unfold invEnd
  icases HL with ⟨-, ⟨%W', %hW', HO⟩, ⟨HW0, HW1, HW2, HW3⟩, Hout, Hrows, ⟨⟨%fr0, HR0⟩, HG0, HY0⟩, ⟨⟨%fr1, HR1⟩, HG1, HY1⟩, ⟨⟨%fr2, HR2⟩, HG2, HY2⟩, ⟨⟨%fr3, HR3⟩, HG3, HY3⟩⟩
  sl_exec
  sl_step
  isplitl [HY0]; · iexact HY0
  isplitl [HY1]; · iexact HY1
  isplitl [HY2]; · iexact HY2
  isplitl [HY3]; · iexact HY3
  isplitl [HI]; · iexact HI
  isplitl [Hrows]
  · iexists _
    iapply (Entails.of_eq (iv_rows (F := F) d L _).symm)
    iexact Hrows
  isplitl [HR0]; · iexists _; iexact HR0
  isplitl [HR1]; · iexists _; iexact HR1
  isplitl [HR2]; · iexists _; iexact HR2
  isplitl [HR3]; · iexists _; iexact HR3
  isplitl [HG0]; · iexact HG0
  isplitl [HG1]; · iexact HG1
  isplitl [HG2]; · iexact HG2
  isplitl [HG3]; · iexact HG3
  isplitl [HW0]; · iexact HW0
  isplitl [HW1]; · iexact HW1
  isplitl [HW2]; · iexact HW2
  isplitl [HW3]; · iexact HW3
  isplitl [HS]; · iexact HS
  isplitl [Hout]; · iexact Hout
  iexists _; isplitr
  swap; · iexact HO
  ipureintro; exact hW'

/-! ## The tile's spellings against the launch's: the worker number, the slab, the share of y -/

omit [FloatOps F] in
theorem L0_lt (L : grid1.Coords) : (L 0).val < 2 := (L 0).isLt
omit [FloatOps F] in
theorem L1_lt (L : grid1.Coords) : (L 1).val < 16 := (L 1).isLt

/-- The tile's worker number: subcore-major, as the kernel computes it. -/
def widL (L : grid1.Coords) : Fin 32 := ⟨(L 1).val * 2 + (L 0).val, by have := L0_lt L; have := L1_lt L; omega⟩

omit [FloatOps F] in
/-- The slab the program slices is the worker's part of the index array. -/
theorem slab_rect (L : grid1.Coords) :
    Rect.unit (s := S32x32x128) (k1_off1 L) S1x32x128.size (k1_off1_inb L) = slabRect (widL L) := by
  unfold slabRect Rect.part Rect.block
  refine Rect.unit_congr ?_ ?_ _ _
  · rw [Gen.k1_off1_eq]
    funext a
    match a with
    | 0 => show 2 * (L 1).val + (L 0).val = ((L 1).val * 2 + (L 0).val) * (32 / 32); omega
    | 1 => rfl
    | 2 => rfl
  · funext a
    match a with
    | 0 => rfl
    | 1 => rfl
    | 2 => rfl

omit [FloatOps F] in
theorem set_slabK (L : grid1.Coords) : (slabK L).view.set = (slabRect (widL L)).set := by
  show (((ixV).view.slice (Rect.unit (s := S32x32x128) (k1_off1 L) S1x32x128.size (k1_off1_inb L))).reshape S32x128 squeezes_S1x32x128_S32x128.numel_eq).set = _
  rw [View.set_reshape]
  exact (View.set_slice_whole _ _).trans (congrArg (fun r : Rect S32x32x128 => r.set) (slab_rect L))

omit [FloatOps F] in
/-- The slab held, in the tile's spelling and in the launch's. -/
theorem pts_slabK (d : Dev nD) (L : grid1.Coords) (f : Buf (Elt F) (ixLoc0 d)) :
    (heldW d L (slabK L) fullShare f : sProp 𝕄) = (ixLoc0 d ↦[(slabRect (widL L)).set]{fullShare} f) := by
  unfold heldW
  rw [set_slabK]

omit [FloatOps F] in
/-- Every word of the slab is a row number of y, in the tile's reading of it. -/
theorem hin_slabK (d : Dev nD) (L : grid1.Coords) (f : Buf (Elt F) (ixLoc0 d))
    (h : ∀ j ∈ (slabRect (widL L)).set, (f j).toNat < 8192) :
    ∀ x, ((slabK L).view.read (Elt F) f x).toNat < 8192 := by
  intro x
  rw [View.read_apply]
  refine h _ ?_
  rw [← set_slabK]
  exact Finset.mem_map_of_mem _ (Finset.mem_univ x)

omit [FloatOps F] in
/-- All of y held at a share, in the tile's spelling and in the launch's. -/
theorem pts_yV (d : Dev nD) (L : grid1.Coords) (s : PosShare TreeShare) (f : Buf (Elt F) (yLoc d)) :
    (heldW d L yV s f : sProp 𝕄) = (yLoc d ↦{s} f) := by
  unfold heldW
  rw [show (yV).view.set = Finset.univ from View.set_whole _]

/-! ## The tile's 32 output chunks are the worker's 4096 rows of the output -/

abbrev oLocV (d : Dev nD) (L : grid1.Coords) : Loc nD τ sig := (oV).view.loc (thrV d L)

omit [FloatOps F] in
theorem mem_rowsRect (L : grid1.Coords) (i : S131072x128.Idx) :
    i ∈ (rowsRect (widL L)).set ↔ 4096 * (widL L).val ≤ (i 0).val ∧ (i 0).val < 4096 * (widL L).val + 4096 := by
  unfold rowsRect Rect.part Rect.block
  rw [Rect.mem_set_unit, Fin.forall_fin_two]
  have h1 : (i 1).val < 128 := (i 1).isLt
  show ((widL L).val * (131072 / 32) ≤ (i 0).val ∧ (i 0).val < (widL L).val * (131072 / 32) + 131072 / 32)
      ∧ (0 * 128 ≤ (i 1).val ∧ (i 1).val < 0 * 128 + 128) ↔ _
  omega

omit [FloatOps F] in
theorem mem_chunk (L : grid1.Coords) (t : Fin k1_t1_loop.trips) (r : Fin 4) (i : S131072x128.Idx) :
    i ∈ (Rect.unit (s := S131072x128) (k1_off3 L t (BitVec.ofNat 32 r.val)) S128x128.size (k1_off3_inb L t r)).set
      ↔ 4096 * (widL L).val + 512 * t.val + 128 * r.val ≤ (i 0).val ∧ (i 0).val < 4096 * (widL L).val + 512 * t.val + 128 * r.val + 128 := by
  rw [Rect.mem_set_unit, Gen.k1_off3_eq, Fin.forall_fin_two]
  have h1 : (i 1).val < 128 := (i 1).isLt
  show ((8192 * (L 1).val + 4096 * (L 0).val + 512 * t.val + 128 * r.val ≤ (i 0).val
        ∧ (i 0).val < 8192 * (L 1).val + 4096 * (L 0).val + 512 * t.val + 128 * r.val + 128)
      ∧ (0 ≤ (i 1).val ∧ (i 1).val < 0 + 128))
    ↔ 4096 * ((L 1).val * 2 + (L 0).val) + 512 * t.val + 128 * r.val ≤ (i 0).val
      ∧ (i 0).val < 4096 * ((L 1).val * 2 + (L 0).val) + 512 * t.val + 128 * r.val + 128
  omega

/-- The elements of output chunk 4t + r of the tile. -/
abbrev chunkSet (L : grid1.Coords) (t : Fin k1_t1_loop.trips) (r : Fin 4) : Finset S131072x128.Idx :=
  (Rect.unit (s := S131072x128) (k1_off3 L t (BitVec.ofNat 32 r.val)) S128x128.size (k1_off3_inb L t r)).set

/-- The elements of the four chunks of trip t. -/
abbrev tripSet (L : grid1.Coords) (t : Fin k1_t1_loop.trips) : Finset S131072x128.Idx :=
  chunkSet L t 0 ∪ (chunkSet L t 1 ∪ (chunkSet L t 2 ∪ chunkSet L t 3))

omit [FloatOps F] in
theorem chunk_disjoint (L : grid1.Coords) (t : Fin k1_t1_loop.trips) {r r' : Fin 4} (h : r ≠ r') : Disjoint (chunkSet L t r) (chunkSet L t r') := by
  refine Finset.disjoint_left.mpr fun i hi hi' => h (Fin.ext ?_)
  rw [mem_chunk] at hi hi'
  omega

omit [FloatOps F] in
theorem mem_tripSet (L : grid1.Coords) (t : Fin k1_t1_loop.trips) (i : S131072x128.Idx) :
    i ∈ tripSet L t ↔ 4096 * (widL L).val + 512 * t.val ≤ (i 0).val ∧ (i 0).val < 4096 * (widL L).val + 512 * t.val + 512 := by
  simp only [tripSet, Finset.mem_union, mem_chunk]
  show _ ↔ _
  have e0 : ((0 : Fin 4) : ℕ) = 0 := rfl
  have e1 : ((1 : Fin 4) : ℕ) = 1 := rfl
  have e2 : ((2 : Fin 4) : ℕ) = 2 := rfl
  have e3 : ((3 : Fin 4) : ℕ) = 3 := rfl
  rw [e0, e1, e2, e3]
  omega

omit [FloatOps F] in
theorem trip_disjoint (L : grid1.Coords) {t t' : Fin k1_t1_loop.trips} (h : t ≠ t') : Disjoint (tripSet L t) (tripSet L t') := by
  refine Finset.disjoint_left.mpr fun i hi hi' => h (Fin.ext ?_)
  rw [mem_tripSet] at hi hi'
  omega

omit [FloatOps F] in
/-- The worker's 4096 rows are the eight trips' chunks. -/
theorem rows_cover (L : grid1.Coords) : (rowsRect (widL L)).set = Finset.univ.biUnion (tripSet L) := by
  ext i
  rw [mem_rowsRect, Finset.mem_biUnion]
  constructor
  · intro h
    have h8 : ((i 0).val - 4096 * (widL L).val) / 512 < k1_t1_loop.trips := by rw [trips_eq]; omega
    refine ⟨⟨((i 0).val - 4096 * (widL L).val) / 512, h8⟩, Finset.mem_univ _, ?_⟩
    rw [mem_tripSet]
    show 4096 * (widL L).val + 512 * (((i 0).val - 4096 * (widL L).val) / 512) ≤ (i 0).val
      ∧ (i 0).val < 4096 * (widL L).val + 512 * (((i 0).val - 4096 * (widL L).val) / 512) + 512
    omega
  · rintro ⟨t, -, ht⟩
    rw [mem_tripSet] at ht
    have ht8 : t.val < 8 := trips_eq ▸ t.isLt
    omega

omit [FloatOps F] in
theorem set_outK0 (L : grid1.Coords) (t : Fin k1_t1_loop.trips) : (outK0 L t).view.set = chunkSet L t 0 := View.set_slice_whole _ _
omit [FloatOps F] in
theorem set_outK1 (L : grid1.Coords) (t : Fin k1_t1_loop.trips) : (outK1 L t).view.set = chunkSet L t 1 := View.set_slice_whole _ _
omit [FloatOps F] in
theorem set_outK2 (L : grid1.Coords) (t : Fin k1_t1_loop.trips) : (outK2 L t).view.set = chunkSet L t 2 := View.set_slice_whole _ _
omit [FloatOps F] in
theorem set_outK3 (L : grid1.Coords) (t : Fin k1_t1_loop.trips) : (outK3 L t).view.set = chunkSet L t 3 := View.set_slice_whole _ _

omit [FloatOps F] in
theorem pts_outK0 (d : Dev nD) (L : grid1.Coords) (t : Fin k1_t1_loop.trips) (f : Buf (Elt F) (oLoc0 d)) :
    (heldW d L (outK0 L t) fullShare f : sProp 𝕄) = (oLoc0 d ↦[chunkSet L t 0]{fullShare} f) := by
  unfold heldW; rw [set_outK0]
omit [FloatOps F] in
theorem pts_outK1 (d : Dev nD) (L : grid1.Coords) (t : Fin k1_t1_loop.trips) (f : Buf (Elt F) (oLoc0 d)) :
    (heldW d L (outK1 L t) fullShare f : sProp 𝕄) = (oLoc0 d ↦[chunkSet L t 1]{fullShare} f) := by
  unfold heldW; rw [set_outK1]
omit [FloatOps F] in
theorem pts_outK2 (d : Dev nD) (L : grid1.Coords) (t : Fin k1_t1_loop.trips) (f : Buf (Elt F) (oLoc0 d)) :
    (heldW d L (outK2 L t) fullShare f : sProp 𝕄) = (oLoc0 d ↦[chunkSet L t 2]{fullShare} f) := by
  unfold heldW; rw [set_outK2]
omit [FloatOps F] in
theorem pts_outK3 (d : Dev nD) (L : grid1.Coords) (t : Fin k1_t1_loop.trips) (f : Buf (Elt F) (oLoc0 d)) :
    (heldW d L (outK3 L t) fullShare f : sProp 𝕄) = (oLoc0 d ↦[chunkSet L t 3]{fullShare} f) := by
  unfold heldW; rw [set_outK3]

omit [FloatOps F] in
theorem d23 (L : grid1.Coords) (t : Fin k1_t1_loop.trips) : Disjoint (chunkSet L t 2) (chunkSet L t 3) := chunk_disjoint L t (by decide)
omit [FloatOps F] in
theorem d1_23 (L : grid1.Coords) (t : Fin k1_t1_loop.trips) : Disjoint (chunkSet L t 1) (chunkSet L t 2 ∪ chunkSet L t 3) :=
  Finset.disjoint_union_right.mpr ⟨chunk_disjoint L t (by decide), chunk_disjoint L t (by decide)⟩
omit [FloatOps F] in
theorem d0_123 (L : grid1.Coords) (t : Fin k1_t1_loop.trips) : Disjoint (chunkSet L t 0) (chunkSet L t 1 ∪ (chunkSet L t 2 ∪ chunkSet L t 3)) :=
  Finset.disjoint_union_right.mpr ⟨chunk_disjoint L t (by decide),
    Finset.disjoint_union_right.mpr ⟨chunk_disjoint L t (by decide), chunk_disjoint L t (by decide)⟩⟩

omit [FloatOps F] in
/-- The worker's rows of the output, held at some contents, are its 32 chunks held each. -/
theorem out_split (d : Dev nD) (L : grid1.Coords) (fo : Buf (Elt F) (oLoc0 d)) :
    (oLoc0 d ↦[(rowsRect (widL L)).set]{fullShare} fo : sProp 𝕄) ⊢ bigSep Finset.univ (outTrip d L) := by
  have step : ∀ t, (oLoc0 d ↦[tripSet L t]{fullShare} fo : sProp 𝕄) ⊢ outTrip d L t := by
    intro t
    iintro H
    ihave H := (pointsTo_union (ℓ := oLoc0 d) (d0_123 L t)).1 $$ H
    icases H with ⟨H0, H⟩
    ihave H := (pointsTo_union (ℓ := oLoc0 d) (d1_23 L t)).1 $$ H
    icases H with ⟨H1, H⟩
    ihave H := (pointsTo_union (ℓ := oLoc0 d) (d23 L t)).1 $$ H
    icases H with ⟨H2, H3⟩
    isplitl [H0]; · iexists fo; iapply (Entails.of_eq (pts_outK0 (F := F) d L t fo).symm); iexact H0
    isplitl [H1]; · iexists fo; iapply (Entails.of_eq (pts_outK1 (F := F) d L t fo).symm); iexact H1
    isplitl [H2]; · iexists fo; iapply (Entails.of_eq (pts_outK2 (F := F) d L t fo).symm); iexact H2
    iexists fo; iapply (Entails.of_eq (pts_outK3 (F := F) d L t fo).symm); iexact H3
  rw [rows_cover]
  refine (Entails.of_eq (pointsTo_biUnion (ℓ := oLoc0 d) (q := fullShare) (f := fo) Finset.univ (tripSet L) (fun t _ t' _ h => trip_disjoint L h))).trans ?_
  exact bigSep_mono fun t _ => step t

/-- and back: the 32 chunks at some contents each are the worker's rows at some contents. -/
theorem out_join (d : Dev nD) (L : grid1.Coords) :
    bigSep Finset.univ (outTrip d L) ⊢ (iprop(∃ fo, oLoc0 d ↦[(rowsRect (widL L)).set]{fullShare} fo) : sProp 𝕄) := by
  have step : ∀ t, outTrip d L t ⊢ (iprop(∃ g, oLoc0 d ↦[tripSet L t]{fullShare} g) : sProp 𝕄) := by
    intro t
    iintro ⟨⟨%g0, H0⟩, ⟨%g1, H1⟩, ⟨%g2, H2⟩, ⟨%g3, H3⟩⟩
    ihave K0 := (Entails.of_eq (pts_outK0 (F := F) d L t g0)) $$ H0
    ihave K1 := (Entails.of_eq (pts_outK1 (F := F) d L t g1)) $$ H1
    ihave K2 := (Entails.of_eq (pts_outK2 (F := F) d L t g2)) $$ H2
    ihave K3 := (Entails.of_eq (pts_outK3 (F := F) d L t g3)) $$ H3
    ihave H23 := (pointsTo_join (ℓ := oLoc0 d) (d23 L t)) $$ [K2 K3]
    · isplitl [K2]; · iexact K2
      iexact K3
    ihave H123 := (pointsTo_join (ℓ := oLoc0 d) (d1_23 L t)) $$ [K1 H23]
    · isplitl [K1]; · iexact K1
      iexact H23
    ihave H0123 := (pointsTo_join (ℓ := oLoc0 d) (d0_123 L t)) $$ [K0 H123]
    · isplitl [K0]; · iexact K0
      iexact H123
    iexists _; iexact H0123
  refine (bigSep_mono fun t _ => step t).trans ?_
  refine (bigSep_exists_pi Finset.univ (fun t (g : Buf (Elt F) (oLoc0 d)) => (oLoc0 d ↦[tripSet L t]{fullShare} g : sProp 𝕄))).trans ?_
  iintro ⟨%gs, H⟩
  ihave H' := (pointsTo_biUnion_join (ℓ := oLoc0 d) (q := fullShare) (Val := Elt F) Finset.univ (tripSet L) gs (gs ⟨0, by rw [trips_eq]; omega⟩)
    (fun t _ t' _ h => trip_disjoint L h)) $$ H
  icases H' with ⟨%g, -, Hg⟩
  rw [rows_cover]
  iexists g; iexact Hg

/-! ## The tile's scoped storage: its five buffers and nine semaphores among all it owns -/

abbrev cellOf (d : Dev nD) (L : grid1.Coords) (a : DmaSems sig S_) : GSem nD τ sig := (thrV d L, SemLoc.dma a.sem)
abbrev bufOf (L : grid1.Coords) (b : Ref sig .scVector) : DevRef τ sig := (Proc.scVector (cV L) (jV L)).devRef b

omit [FloatOps F] in
theorem cell_ne (thr : Thread nD τ) {a b : SemLoc sig} (h : a ≠ b) : ((thr, a) : GSem nD τ sig) ≠ (thr, b) := fun e => h (congrArg Prod.snd e)
omit [FloatOps F] in
theorem buf_ne (L : grid1.Coords) {a b : Ref sig .scVector} (h : a ≠ b) : bufOf L a ≠ bufOf L b := fun e => h (Proc.devRef_injective _ e)

/-- The scoped semaphores of the tile other than the nine the body uses. -/
abbrev restCells (d : Dev nD) (L : grid1.Coords) : Finset (GSem nD τ sig) :=
  ((((((((((ownCells (thrV d L)).erase (cellOf d L cc1_scratch5)).erase (cellOf d L cc1_scratch6)).erase (cellOf d L cc1_scratch7)).erase (cellOf d L cc1_scratch8)).erase (cellOf d L cc1_scratch9)).erase (cellOf d L cc1_scratch10)).erase (cellOf d L cc1_scratch11)).erase (cellOf d L cc1_scratch12)).erase (cellOf d L cc1_scoped0))

/-- The buffers of the tile other than the five the body uses. -/
abbrev restRefs (L : grid1.Coords) : Finset (DevRef τ sig) :=
  ((((((ownRefs (τ := τ) (.scVector (cV L) (jV L))).erase (bufOf L cc1_scratch0)).erase (bufOf L cc1_scratch1)).erase (bufOf L cc1_scratch2)).erase (bufOf L cc1_scratch3)).erase (bufOf L cc1_scratch4))

omit [FloatOps F] in
theorem tile_sems (d : Dev nD) (L : grid1.Coords) :
    (ownSems0 (thrV d L) : sProp 𝕄)
      = iprop(cellZ d L cc1_scratch5 ∗ cellZ d L cc1_scratch6 ∗ cellZ d L cc1_scratch7 ∗ cellZ d L cc1_scratch8
          ∗ cellZ d L cc1_scratch9 ∗ cellZ d L cc1_scratch10 ∗ cellZ d L cc1_scratch11 ∗ cellZ d L cc1_scratch12
          ∗ cellZ d L cc1_scoped0 ∗ bigSep (restCells d L) fun g => semVal g 0) := by
  unfold SparseCore.Cfg.ownSems0
  rw [SparseCore.bigSep_erase' ((mem_ownCells (g := (cellOf d L cc1_scratch5))).mpr ⟨rfl, by show (SemLoc.dma cc1_scratch5.sem : SemLoc sig).isScoped .scVector = true; decide⟩),
    SparseCore.bigSep_erase' (Finset.mem_erase.mpr ⟨cell_ne (thrV d L) (by decide : (SemLoc.dma cc1_scratch6.sem : SemLoc sig) ≠ SemLoc.dma cc1_scratch5.sem), ((mem_ownCells (g := (cellOf d L cc1_scratch6))).mpr ⟨rfl, by show (SemLoc.dma cc1_scratch6.sem : SemLoc sig).isScoped .scVector = true; decide⟩)⟩),
    SparseCore.bigSep_erase' (Finset.mem_erase.mpr ⟨cell_ne (thrV d L) (by decide : (SemLoc.dma cc1_scratch7.sem : SemLoc sig) ≠ SemLoc.dma cc1_scratch6.sem), (Finset.mem_erase.mpr ⟨cell_ne (thrV d L) (by decide : (SemLoc.dma cc1_scratch7.sem : SemLoc sig) ≠ SemLoc.dma cc1_scratch5.sem), ((mem_ownCells (g := (cellOf d L cc1_scratch7))).mpr ⟨rfl, by show (SemLoc.dma cc1_scratch7.sem : SemLoc sig).isScoped .scVector = true; decide⟩)⟩)⟩),
    SparseCore.bigSep_erase' (Finset.mem_erase.mpr ⟨cell_ne (thrV d L) (by decide : (SemLoc.dma cc1_scratch8.sem : SemLoc sig) ≠ SemLoc.dma cc1_scratch7.sem), (Finset.mem_erase.mpr ⟨cell_ne (thrV d L) (by decide : (SemLoc.dma cc1_scratch8.sem : SemLoc sig) ≠ SemLoc.dma cc1_scratch6.sem), (Finset.mem_erase.mpr ⟨cell_ne (thrV d L) (by decide : (SemLoc.dma cc1_scratch8.sem : SemLoc sig) ≠ SemLoc.dma cc1_scratch5.sem), ((mem_ownCells (g := (cellOf d L cc1_scratch8))).mpr ⟨rfl, by show (SemLoc.dma cc1_scratch8.sem : SemLoc sig).isScoped .scVector = true; decide⟩)⟩)⟩)⟩),
    SparseCore.bigSep_erase' (Finset.mem_erase.mpr ⟨cell_ne (thrV d L) (by decide : (SemLoc.dma cc1_scratch9.sem : SemLoc sig) ≠ SemLoc.dma cc1_scratch8.sem), (Finset.mem_erase.mpr ⟨cell_ne (thrV d L) (by decide : (SemLoc.dma cc1_scratch9.sem : SemLoc sig) ≠ SemLoc.dma cc1_scratch7.sem), (Finset.mem_erase.mpr ⟨cell_ne (thrV d L) (by decide : (SemLoc.dma cc1_scratch9.sem : SemLoc sig) ≠ SemLoc.dma cc1_scratch6.sem), (Finset.mem_erase.mpr ⟨cell_ne (thrV d L) (by decide : (SemLoc.dma cc1_scratch9.sem : SemLoc sig) ≠ SemLoc.dma cc1_scratch5.sem), ((mem_ownCells (g := (cellOf d L cc1_scratch9))).mpr ⟨rfl, by show (SemLoc.dma cc1_scratch9.sem : SemLoc sig).isScoped .scVector = true; decide⟩)⟩)⟩)⟩)⟩),
    SparseCore.bigSep_erase' (Finset.mem_erase.mpr ⟨cell_ne (thrV d L) (by decide : (SemLoc.dma cc1_scratch10.sem : SemLoc sig) ≠ SemLoc.dma cc1_scratch9.sem), (Finset.mem_erase.mpr ⟨cell_ne (thrV d L) (by decide : (SemLoc.dma cc1_scratch10.sem : SemLoc sig) ≠ SemLoc.dma cc1_scratch8.sem), (Finset.mem_erase.mpr ⟨cell_ne (thrV d L) (by decide : (SemLoc.dma cc1_scratch10.sem : SemLoc sig) ≠ SemLoc.dma cc1_scratch7.sem), (Finset.mem_erase.mpr ⟨cell_ne (thrV d L) (by decide : (SemLoc.dma cc1_scratch10.sem : SemLoc sig) ≠ SemLoc.dma cc1_scratch6.sem), (Finset.mem_erase.mpr ⟨cell_ne (thrV d L) (by decide : (SemLoc.dma cc1_scratch10.sem : SemLoc sig) ≠ SemLoc.dma cc1_scratch5.sem), ((mem_ownCells (g := (cellOf d L cc1_scratch10))).mpr ⟨rfl, by show (SemLoc.dma cc1_scratch10.sem : SemLoc sig).isScoped .scVector = true; decide⟩)⟩)⟩)⟩)⟩)⟩),
    SparseCore.bigSep_erase' (Finset.mem_erase.mpr ⟨cell_ne (thrV d L) (by decide : (SemLoc.dma cc1_scratch11.sem : SemLoc sig) ≠ SemLoc.dma cc1_scratch10.sem), (Finset.mem_erase.mpr ⟨cell_ne (thrV d L) (by decide : (SemLoc.dma cc1_scratch11.sem : SemLoc sig) ≠ SemLoc.dma cc1_scratch9.sem), (Finset.mem_erase.mpr ⟨cell_ne (thrV d L) (by decide : (SemLoc.dma cc1_scratch11.sem : SemLoc sig) ≠ SemLoc.dma cc1_scratch8.sem), (Finset.mem_erase.mpr ⟨cell_ne (thrV d L) (by decide : (SemLoc.dma cc1_scratch11.sem : SemLoc sig) ≠ SemLoc.dma cc1_scratch7.sem), (Finset.mem_erase.mpr ⟨cell_ne (thrV d L) (by decide : (SemLoc.dma cc1_scratch11.sem : SemLoc sig) ≠ SemLoc.dma cc1_scratch6.sem), (Finset.mem_erase.mpr ⟨cell_ne (thrV d L) (by decide : (SemLoc.dma cc1_scratch11.sem : SemLoc sig) ≠ SemLoc.dma cc1_scratch5.sem), ((mem_ownCells (g := (cellOf d L cc1_scratch11))).mpr ⟨rfl, by show (SemLoc.dma cc1_scratch11.sem : SemLoc sig).isScoped .scVector = true; decide⟩)⟩)⟩)⟩)⟩)⟩)⟩),
    SparseCore.bigSep_erase' (Finset.mem_erase.mpr ⟨cell_ne (thrV d L) (by decide : (SemLoc.dma cc1_scratch12.sem : SemLoc sig) ≠ SemLoc.dma cc1_scratch11.sem), (Finset.mem_erase.mpr ⟨cell_ne (thrV d L) (by decide : (SemLoc.dma cc1_scratch12.sem : SemLoc sig) ≠ SemLoc.dma cc1_scratch10.sem), (Finset.mem_erase.mpr ⟨cell_ne (thrV d L) (by decide : (SemLoc.dma cc1_scratch12.sem : SemLoc sig) ≠ SemLoc.dma cc1_scratch9.sem), (Finset.mem_erase.mpr ⟨cell_ne (thrV d L) (by decide : (SemLoc.dma cc1_scratch12.sem : SemLoc sig) ≠ SemLoc.dma cc1_scratch8.sem), (Finset.mem_erase.mpr ⟨cell_ne (thrV d L) (by decide : (SemLoc.dma cc1_scratch12.sem : SemLoc sig) ≠ SemLoc.dma cc1_scratch7.sem), (Finset.mem_erase.mpr ⟨cell_ne (thrV d L) (by decide : (SemLoc.dma cc1_scratch12.sem : SemLoc sig) ≠ SemLoc.dma cc1_scratch6.sem), (Finset.mem_erase.mpr ⟨cell_ne (thrV d L) (by decide : (SemLoc.dma cc1_scratch12.sem : SemLoc sig) ≠ SemLoc.dma cc1_scratch5.sem), ((mem_ownCells (g := (cellOf d L cc1_scratch12))).mpr ⟨rfl, by show (SemLoc.dma cc1_scratch12.sem : SemLoc sig).isScoped .scVector = true; decide⟩)⟩)⟩)⟩)⟩)⟩)⟩)⟩),
    SparseCore.bigSep_erase' (Finset.mem_erase.mpr ⟨cell_ne (thrV d L) (by decide : (SemLoc.dma cc1_scoped0.sem : SemLoc sig) ≠ SemLoc.dma cc1_scratch12.sem), (Finset.mem_erase.mpr ⟨cell_ne (thrV d L) (by decide : (SemLoc.dma cc1_scoped0.sem : SemLoc sig) ≠ SemLoc.dma cc1_scratch11.sem), (Finset.mem_erase.mpr ⟨cell_ne (thrV d L) (by decide : (SemLoc.dma cc1_scoped0.sem : SemLoc sig) ≠ SemLoc.dma cc1_scratch10.sem), (Finset.mem_erase.mpr ⟨cell_ne (thrV d L) (by decide : (SemLoc.dma cc1_scoped0.sem : SemLoc sig) ≠ SemLoc.dma cc1_scratch9.sem), (Finset.mem_erase.mpr ⟨cell_ne (thrV d L) (by decide : (SemLoc.dma cc1_scoped0.sem : SemLoc sig) ≠ SemLoc.dma cc1_scratch8.sem), (Finset.mem_erase.mpr ⟨cell_ne (thrV d L) (by decide : (SemLoc.dma cc1_scoped0.sem : SemLoc sig) ≠ SemLoc.dma cc1_scratch7.sem), (Finset.mem_erase.mpr ⟨cell_ne (thrV d L) (by decide : (SemLoc.dma cc1_scoped0.sem : SemLoc sig) ≠ SemLoc.dma cc1_scratch6.sem), (Finset.mem_erase.mpr ⟨cell_ne (thrV d L) (by decide : (SemLoc.dma cc1_scoped0.sem : SemLoc sig) ≠ SemLoc.dma cc1_scratch5.sem), ((mem_ownCells (g := (cellOf d L cc1_scoped0))).mpr ⟨rfl, by show (SemLoc.dma cc1_scoped0.sem : SemLoc sig).isScoped .scVector = true; decide⟩)⟩)⟩)⟩)⟩)⟩)⟩)⟩)⟩)]

omit [FloatOps F] in
theorem tile_bufs (d : Dev nD) (L : grid1.Coords) :
    (ownBufs (thrV d L) : sProp 𝕄)
      = iprop((∃ f, (thrV d L).loc cc1_scratch0 ↦{fullShare} f) ∗ (∃ f, (thrV d L).loc cc1_scratch1 ↦{fullShare} f)
          ∗ (∃ f, (thrV d L).loc cc1_scratch2 ↦{fullShare} f) ∗ (∃ f, (thrV d L).loc cc1_scratch3 ↦{fullShare} f)
          ∗ (∃ f, (thrV d L).loc cc1_scratch4 ↦{fullShare} f)
          ∗ bigSep (restRefs L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (bufOf L cc1_scratch0)) rfl)).trans ?_
  rw [SparseCore.bigSep_erase' (Finset.mem_erase.mpr ⟨buf_ne L (by decide : (cc1_scratch1 : Ref sig .scVector) ≠ cc1_scratch0), (SparseCore.Cfg.mem_ownRefs_of_owner (p := Proc.scVector (cV L) (jV L)) (b := (bufOf L cc1_scratch1)) rfl)⟩),
    SparseCore.bigSep_erase' (Finset.mem_erase.mpr ⟨buf_ne L (by decide : (cc1_scratch2 : Ref sig .scVector) ≠ cc1_scratch1), (Finset.mem_erase.mpr ⟨buf_ne L (by decide : (cc1_scratch2 : Ref sig .scVector) ≠ cc1_scratch0), (SparseCore.Cfg.mem_ownRefs_of_owner (p := Proc.scVector (cV L) (jV L)) (b := (bufOf L cc1_scratch2)) rfl)⟩)⟩),
    SparseCore.bigSep_erase' (Finset.mem_erase.mpr ⟨buf_ne L (by decide : (cc1_scratch3 : Ref sig .scVector) ≠ cc1_scratch2), (Finset.mem_erase.mpr ⟨buf_ne L (by decide : (cc1_scratch3 : Ref sig .scVector) ≠ cc1_scratch1), (Finset.mem_erase.mpr ⟨buf_ne L (by decide : (cc1_scratch3 : Ref sig .scVector) ≠ cc1_scratch0), (SparseCore.Cfg.mem_ownRefs_of_owner (p := Proc.scVector (cV L) (jV L)) (b := (bufOf L cc1_scratch3)) rfl)⟩)⟩)⟩),
    SparseCore.bigSep_erase' (Finset.mem_erase.mpr ⟨buf_ne L (by decide : (cc1_scratch4 : Ref sig .scVector) ≠ cc1_scratch3), (Finset.mem_erase.mpr ⟨buf_ne L (by decide : (cc1_scratch4 : Ref sig .scVector) ≠ cc1_scratch2), (Finset.mem_erase.mpr ⟨buf_ne L (by decide : (cc1_scratch4 : Ref sig .scVector) ≠ cc1_scratch1), (Finset.mem_erase.mpr ⟨buf_ne L (by decide : (cc1_scratch4 : Ref sig .scVector) ≠ cc1_scratch0), (SparseCore.Cfg.mem_ownRefs_of_owner (p := Proc.scVector (cV L) (jV L)) (b := (bufOf L cc1_scratch4)) rfl)⟩)⟩)⟩)⟩)]

omit [FloatOps F] in
/-- A whole buffer held by the tile, in the two spellings. -/
theorem pts_whole (d : Dev nD) (L : grid1.Coords) (b : Ref sig .scVector) (s : PosShare TreeShare) (f : Buf (Elt F) ((thrV d L).loc b)) :
    ((Memref.whole b).view.loc (thrV d L) ↦[(Memref.whole b).view.set]{s} f : sProp 𝕄) = ((thrV d L).loc b ↦{s} f) := by
  rw [show (Memref.whole b).view.set = Finset.univ from View.set_whole _]

/-! ## The tile's share of y as four read shares, one per gather semaphore, and what is kept aside -/

/-- What is kept aside of a share of y while the four gathers hold theirs. -/
abbrev yKeep (ℓ : Loc nD τ sig) (q : PosShare TreeShare) (f : Buf (Elt F) ℓ) : sProp 𝕄 :=
  iprop((ℓ ↦{Transfers.shareDrop q 9} f)
    ∗ bigSep (((((Finset.range 9).erase 5).erase 6).erase 7).erase 8) (fun i => (ℓ ↦{Transfers.shareTokN q i} f : sProp 𝕄)))

omit [FloatOps F] in
theorem y_toks (ℓ : Loc nD τ sig) (q : PosShare TreeShare) (f : Buf (Elt F) ℓ) :
    (ℓ ↦{q} f : sProp 𝕄) ⊣⊢ iprop((ℓ ↦{Transfers.shareTokN q 5} f) ∗ (ℓ ↦{Transfers.shareTokN q 6} f)
      ∗ (ℓ ↦{Transfers.shareTokN q 7} f) ∗ (ℓ ↦{Transfers.shareTokN q 8} f) ∗ yKeep ℓ q f) := by
  have h := Transfers.pointsTo_toks_range (Ix := HIx 4) (Name := ℕ) (U := UU) (Lvl := ℕ) (ℓ := ℓ) (S := Finset.univ) (f := f) q 9
  have e : bigSep (Finset.range 9) (fun i => (ℓ ↦{Transfers.shareTokN q i} f : sProp 𝕄))
      = iprop((ℓ ↦{Transfers.shareTokN q 5} f) ∗ (ℓ ↦{Transfers.shareTokN q 6} f) ∗ (ℓ ↦{Transfers.shareTokN q 7} f) ∗ (ℓ ↦{Transfers.shareTokN q 8} f)
          ∗ bigSep (((((Finset.range 9).erase 5).erase 6).erase 7).erase 8) (fun i => (ℓ ↦{Transfers.shareTokN q i} f : sProp 𝕄))) := by
    rw [SparseCore.bigSep_erase' (by decide : 5 ∈ Finset.range 9), SparseCore.bigSep_erase' (by decide : 6 ∈ (Finset.range 9).erase 5),
      SparseCore.bigSep_erase' (by decide : 7 ∈ ((Finset.range 9).erase 5).erase 6),
      SparseCore.bigSep_erase' (by decide : 8 ∈ (((Finset.range 9).erase 5).erase 6).erase 7)]
  constructor
  · refine h.1.trans ?_
    rw [e]
    iintro ⟨Hd, H5, H6, H7, H8, Hr⟩
    isplitl [H5]; · iexact H5
    isplitl [H6]; · iexact H6
    isplitl [H7]; · iexact H7
    isplitl [H8]; · iexact H8
    isplitl [Hd]; · iexact Hd
    iexact Hr
  · refine BIBase.Entails.trans ?_ h.2
    rw [e]
    iintro ⟨H5, H6, H7, H8, Hd, Hr⟩
    isplitl [Hd]; · iexact Hd
    isplitl [H5]; · iexact H5
    isplitl [H6]; · iexact H6
    isplitl [H7]; · iexact H7
    isplitl [H8]; · iexact H8
    iexact Hr

/-! ## The body from what the launch hands the tile -/

set_option maxHeartbeats 4000000 in
/-- The body on tile (L 0, L 1) of device d from the worker's share as the launch states it — a share of y, its slab of
    the index array with every word a row number of y, its 4096 rows of the output — and the tile's scoped storage;
    it hands the same back, the output rows and the local buffers at some contents, owing what it owed. -/
theorem gk_body (hF : (K (F := F)).Facts) (d : Dev nD) (L : grid1.Coords)
    (O : CellTallies nD τ sig (HIx 4)) (W : Waits sig (HIx 4)) (hO : ∀ g, O g none = 0) :
    (iprop(levAts (K (F := F)).L (K (F := F)).lev ∗ share0 (F := F) d (widL L)
        ∗ scopedBufs (thrV d L) ∗ scopedSems0 (thrV d L) ∗ owes (thrV d L) O W) : sProp 𝕄)
      ⊢ wp frame (wpE (defs₀ (F := F)) 𝒱₀ (thrV d L) none) Set.univ
          (cc1_gk L yV (Memref.isWhole_whole _) ixV (Memref.isWhole_whole _) oV (Memref.isWhole_whole _)
            ivV (Memref.isWhole_whole _) r0V (Memref.isWhole_whole _) r1V (Memref.isWhole_whole _)
            r2V (Memref.isWhole_whole _) r3V (Memref.isWhole_whole _)
            cc1_scratch5 cc1_scratch6 cc1_scratch7 cc1_scratch8 cc1_scratch9 cc1_scratch10 cc1_scratch11 cc1_scratch12 cc1_scoped0)
          fun _ => iprop(share0 (F := F) d (widL L) ∗ scopedBufs (thrV d L) ∗ scopedSems0 (thrV d L)
            ∗ ∃ W', ⌜∀ p ∈ W', p ∈ W ∨ p.2 = none⌝ ∗ owes (thrV d L) O W') := by
  rw [(K (F := F)).scopedBufs_V hF d (cV L) (jV L), SparseCore.Cfg.scopedSems0_V (Val := Elt F) d (cV L) (jV L), tile_sems, tile_bufs]
  unfold share0
  iintro ⟨#Hlv, ⟨⟨%fy, HY⟩, ⟨%fi, HI, %hfi⟩, ⟨%fo, HOut⟩⟩, ⟨⟨%fv, HV⟩, ⟨%f0, HR0⟩, ⟨%f1, HR1⟩, ⟨%f2, HR2⟩, ⟨%f3, HR3⟩, Hbufs⟩, ⟨HG0, HG1, HG2, HG3, HW0, HW1, HW2, HW3, HS, Hsems⟩, HO⟩
  ihave Hmw := (show levAts (K (F := F)).L (K (F := F)).lev ⊢ Transfers.MayWaits (thrV d L) (default : HIx 4) O from
    (K (F := F)).mayWaits_none (thr := thrV d L) hO) $$ Hlv
  -- the share of y as the four gathers' read shares and the rest
  ihave HYs := (y_toks (F := F) (yLoc d) (ysh (widL L)) fy).1 $$ HY
  icases HYs with ⟨HY0, HY1, HY2, HY3, Hkeep⟩
  ihave KY0 := (Entails.of_eq (pts_yV (F := F) d L _ fy).symm) $$ HY0
  ihave KY1 := (Entails.of_eq (pts_yV (F := F) d L _ fy).symm) $$ HY1
  ihave KY2 := (Entails.of_eq (pts_yV (F := F) d L _ fy).symm) $$ HY2
  ihave KY3 := (Entails.of_eq (pts_yV (F := F) d L _ fy).symm) $$ HY3
  -- the slab, the output rows as 32 chunks, the five local buffers, in the tile's spellings
  ihave KI := (Entails.of_eq (pts_slabK (F := F) d L fi).symm) $$ HI
  ihave KOut := (out_split (F := F) d L fo) $$ HOut
  ihave KV := (Entails.of_eq (pts_whole (F := F) d L cc1_scratch0 fullShare fv).symm) $$ HV
  ihave KR0 := (Entails.of_eq (pts_whole (F := F) d L cc1_scratch1 fullShare f0).symm) $$ HR0
  ihave KR1 := (Entails.of_eq (pts_whole (F := F) d L cc1_scratch2 fullShare f1).symm) $$ HR1
  ihave KR2 := (Entails.of_eq (pts_whole (F := F) d L cc1_scratch3 fullShare f2).symm) $$ HR2
  ihave KR3 := (Entails.of_eq (pts_whole (F := F) d L cc1_scratch4 fullShare f3).symm) $$ HR3
  iapply (wp_wand_r frame (wpE (defs₀ (F := F)) 𝒱₀ (thrV d L) none) Set.univ)
  isplitl [Hmw KY0 KY1 KY2 KY3 KI KV KR0 KR1 KR2 KR3 HG0 HG1 HG2 HG3 HW0 HW1 HW2 HW3 HS KOut HO]
  · iapply (gk_core d L (ysh (widL L)) O W fy fi fv f0 f1 f2 f3 (hin_slabK d L fi hfi))
    isplitl [Hmw]; · iexact Hmw
    isplitl [KY0]; · iexact KY0
    isplitl [KY1]; · iexact KY1
    isplitl [KY2]; · iexact KY2
    isplitl [KY3]; · iexact KY3
    isplitl [KI]; · iexact KI
    isplitl [KV]; · iexact KV
    isplitl [KR0]; · iexact KR0
    isplitl [KR1]; · iexact KR1
    isplitl [KR2]; · iexact KR2
    isplitl [KR3]; · iexact KR3
    isplitl [HG0]; · iexact HG0
    isplitl [HG1]; · iexact HG1
    isplitl [HG2]; · iexact HG2
    isplitl [HG3]; · iexact HG3
    isplitl [HW0]; · iexact HW0
    isplitl [HW1]; · iexact HW1
    isplitl [HW2]; · iexact HW2
    isplitl [HW3]; · iexact HW3
    isplitl [HS]; · iexact HS
    isplitl [KOut]; · iexact KOut
    iexact HO
  iintro %a ⟨HY0, HY1, HY2, HY3, HI, ⟨%gv, HV⟩, ⟨%g0, HR0⟩, ⟨%g1, HR1⟩, ⟨%g2, HR2⟩, ⟨%g3, HR3⟩, HG0, HG1, HG2, HG3, HW0, HW1, HW2, HW3, HS, HOut, HO⟩
  isplitl [HY0 HY1 HY2 HY3 Hkeep HI HOut]
  · isplitl [HY0 HY1 HY2 HY3 Hkeep]
    · iexists fy
      iapply (y_toks (F := F) (yLoc d) (ysh (widL L)) fy).2
      isplitl [HY0]; · iapply (Entails.of_eq (pts_yV (F := F) d L _ fy)); iexact HY0
      isplitl [HY1]; · iapply (Entails.of_eq (pts_yV (F := F) d L _ fy)); iexact HY1
      isplitl [HY2]; · iapply (Entails.of_eq (pts_yV (F := F) d L _ fy)); iexact HY2
      isplitl [HY3]; · iapply (Entails.of_eq (pts_yV (F := F) d L _ fy)); iexact HY3
      iexact Hkeep
    isplitl [HI]
    · iexists fi
      isplitl [HI]; · iapply (Entails.of_eq (pts_slabK (F := F) d L fi)); iexact HI
      ipureintro; exact hfi
    iapply (out_join (F := F) d L); iexact HOut
  isplitl [HV HR0 HR1 HR2 HR3 Hbufs]
  · isplitl [HV]; · iexists gv; iapply (Entails.of_eq (pts_whole (F := F) d L cc1_scratch0 fullShare gv)); iexact HV
    isplitl [HR0]; · iexists g0; iapply (Entails.of_eq (pts_whole (F := F) d L cc1_scratch1 fullShare g0)); iexact HR0
    isplitl [HR1]; · iexists g1; iapply (Entails.of_eq (pts_whole (F := F) d L cc1_scratch2 fullShare g1)); iexact HR1
    isplitl [HR2]; · iexists g2; iapply (Entails.of_eq (pts_whole (F := F) d L cc1_scratch3 fullShare g2)); iexact HR2
    isplitl [HR3]; · iexists g3; iapply (Entails.of_eq (pts_whole (F := F) d L cc1_scratch4 fullShare g3)); iexact HR3
    iexact Hbufs
  isplitl [HG0 HG1 HG2 HG3 HW0 HW1 HW2 HW3 HS Hsems]
  · isplitl [HG0]; · iexact HG0
    isplitl [HG1]; · iexact HG1
    isplitl [HG2]; · iexact HG2
    isplitl [HG3]; · iexact HG3
    isplitl [HW0]; · iexact HW0
    isplitl [HW1]; · iexact HW1
    isplitl [HW2]; · iexact HW2
    isplitl [HW3]; · iexact HW3
    isplitl [HS]; · iexact HS
    iexact Hsems
  iexact HO

/-! ## The launch theorem's obligation for the first call's tiles -/

/-- The grid coordinates of tile s of core c. -/
def coordsV (c : Fin (grid1.bound 0)) (s : Fin (grid1.bound 1)) : grid1.Coords :=
  fun | 0 => c | 1 => s | ⟨_ + 2, h⟩ => absurd h (Nat.not_lt.2 (Nat.le_add_left _ _))

/-- The body table's row for the first call on a vector subcore. -/
theorem defs₀_vec1 (c : Fin τ.nSC) (s : Fin τ.nSub) :
    defs₀ (F := F) (.scVector c s) 1 ()
      = SparseCore.onTile hcore1 hsub1 (fun c s => cc1_gk (coordsV c s)
          yV (Memref.isWhole_whole _) ixV (Memref.isWhole_whole _) oV (Memref.isWhole_whole _)
          ivV (Memref.isWhole_whole _) r0V (Memref.isWhole_whole _) r1V (Memref.isWhole_whole _)
          r2V (Memref.isWhole_whole _) r3V (Memref.isWhole_whole _)
          cc1_scratch5 cc1_scratch6 cc1_scratch7 cc1_scratch8 cc1_scratch9 cc1_scratch10 cc1_scratch11 cc1_scratch12 cc1_scoped0) ⟨⟩ c s := rfl

omit [FloatOps F] in
/-- A post over the waits already recorded or at no index is one over those or at the call's index. -/
theorem post_weaken {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The first call's share of tile i of core c is the share of the worker the tile's coordinates name. -/
theorem go_eq0 (d : Dev nD) (c : Fin ((K (F := F)).nCore 0)) (i : Fin ((K (F := F)).nSub 0))
    (h0 : ((K (F := F)).core 0 c).val < grid1.bound 0) (h1 : ((K (F := F)).sub 0 i).val < grid1.bound 1) :
    (P (F := F)).go 0 d c i = share0 (F := F) d (widL (coordsV ⟨((K (F := F)).core 0 c).val, h0⟩ ⟨((K (F := F)).sub 0 i).val, h1⟩)) := by
  show share0 (F := F) d (wid (Fin.cast (nCore_eq 0) c) (Fin.cast (nSub_eq 0) i)) = _
  congr 1

theorem td_eq0 (d : Dev nD) (c : Fin ((K (F := F)).nCore 0)) (i : Fin ((K (F := F)).nSub 0))
    (h0 : ((K (F := F)).core 0 c).val < grid1.bound 0) (h1 : ((K (F := F)).sub 0 i).val < grid1.bound 1) :
    (P (F := F)).td 0 d c i = share0 (F := F) d (widL (coordsV ⟨((K (F := F)).core 0 c).val, h0⟩ ⟨((K (F := F)).sub 0 i).val, h1⟩)) :=
  go_eq0 d c i h0 h1

set_option maxRecDepth 16384 in
/-- Every tile of the first call runs its body from its worker's share to its worker's share. -/
theorem tileObl0 (hF : (K (F := F)).Facts) : (K (F := F)).TileObl (D (F := F)) 𝒱₀.lift (P (F := F)) (Sum.inl none) 0 := by
  intro d c i O W hO _ _
  simp only [show (P (F := F)).ox = fun _ _ => 0 from rfl, add_zero]
  have hci : ((K (F := F)).core 0 c).val < grid1.bound 0 ∧ ((K (F := F)).sub 0 i).val < grid1.bound 1 := ⟨c.isLt, i.isLt⟩
  rw [go_eq0 d c i hci.1 hci.2, td_eq0 d c i hci.1 hci.2]
  change _ ⊢ wp _ _ _ (Pipeline.liftProg (defs₀ (F := F) (.scVector ((K (F := F)).core 0 c) ((K (F := F)).sub 0 i)) 1 ())) _
  refine BIBase.Entails.trans ?_ (Pipeline.wp_liftProg (D (F := F)) (Pipeline.defs_kernel pcfgs defs₀) 𝒱₀ _ Set.univ none _ _)
  rw [defs₀_vec1]; simp only [SparseCore.onTile, hci, and_self, ↓reduceDIte]
  refine BIBase.Entails.trans ?_ ((gk_body hF d (coordsV ⟨_, hci.1⟩ ⟨_, hci.2⟩) O W hO).trans (wp_mono frame _ _ fun _ => post_weaken))
  iintro ⟨Hlv, -, Hgo, Hb, Hs, HO⟩
  isplitl [Hlv]; · iexact Hlv
  isplitl [Hgo]; · iexact Hgo
  isplitl [Hb]; · iexact Hb
  isplitl [Hs]; · iexact Hs
  iexact HO

end Cert.Kernel.Sc.Gather0

end
-- ==== Proof.GatherBody3K.lean ====
/-
  The body of the sparse-core gather kernel of the second call, once, at a symbolic tile, for any float instance.

  Tile (c, s) is worker w = 2·s + c of 32. It copies slab w of the index array (32 lists of 128 row numbers) into its
  local index buffer, waits for the copy, and issues four indexed copies: rows idx[b][·] of y into row buffer b, on
  gather semaphore b (b = 0..3). Then eight trips; in trip g, for each slot b with j = 4g + b: wait for gather b (row
  buffer b holds the 128 rows list j names); copy row buffer b to output rows (32w + j)·128 … + 127 on write semaphore
  b; wait for it; and, when j + 4 < 32, issue the indexed copy of list j + 4 into row buffer b. One copy is outstanding
  per semaphore at any time, and nothing touches a copy's source or destination between its issue and its wait.
-/
import proofs.«215235_g2774548873965_cont_9to1_572_34_alg».proof.Proof.ScPayK
import Idealize.ShloMosaic.Lib.SparseCore.Launch
import Idealize.ShloMosaic.Lib.SparseCore.Ops
import Idealize.ShloMosaic.Lib.SparseCore.Stream
import Idealize.ShloMosaic.Lib.Transfers
import Idealize.ShloMosaic.Lib.Pipeline.Kit
import Idealize.ShloMosaic.Lib.Tactic
import proofs.«215235_g2774548873965_cont_9to1_572_34_alg».proof.Proof.Gen.Kernel.Skeleton

noncomputable section

namespace Cert.Kernel.Sc.Gather1

open Cert.Kernel
open Cert.Kernel.Facts₀ Cert.Kernel.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

/-! ## The tile and the buffers, as the program names them -/

abbrev cV (L : grid3.Coords) : Fin τ.nSC := (L 0).castLE hcore3
abbrev jV (L : grid3.Coords) : Fin τ.nSub := (L 1).castLE hsub3
abbrev thrV (d : Dev nD) (L : grid3.Coords) : Thread nD τ := V d (cV L) (jV L)

local notation "yV" => (Memref.whole Cert.Kernel.main_v1_scv : Memref Cert.Kernel.sig Kind.scVector Space.hbm Cert.Kernel.S8192x128 EltTy.f32)
local notation "ixV" => (Memref.whole Cert.Kernel.main_v23_scv : Memref Cert.Kernel.sig Kind.scVector Space.hbm Cert.Kernel.S32x32x128 EltTy.i32)
local notation "oV" => (Memref.whole Cert.Kernel.main_v24_scv : Memref Cert.Kernel.sig Kind.scVector Space.hbm Cert.Kernel.S131072x128 EltTy.f32)
local notation "ivV" => (Memref.whole Cert.Kernel.cc3_scratch0 : Memref Cert.Kernel.sig Kind.scVector Space.vmem Cert.Kernel.S32x128 EltTy.i32)
local notation "r0V" => (Memref.whole Cert.Kernel.cc3_scratch1 : Memref Cert.Kernel.sig Kind.scVector Space.vmem Cert.Kernel.S128x128 EltTy.f32)
local notation "r1V" => (Memref.whole Cert.Kernel.cc3_scratch2 : Memref Cert.Kernel.sig Kind.scVector Space.vmem Cert.Kernel.S128x128 EltTy.f32)
local notation "r2V" => (Memref.whole Cert.Kernel.cc3_scratch3 : Memref Cert.Kernel.sig Kind.scVector Space.vmem Cert.Kernel.S128x128 EltTy.f32)
local notation "r3V" => (Memref.whole Cert.Kernel.cc3_scratch4 : Memref Cert.Kernel.sig Kind.scVector Space.vmem Cert.Kernel.S128x128 EltTy.f32)

/-- The tile's slab of the index array, squeezed to its [32, 128] plane, as the program slices it. -/
abbrev slabK (L : grid3.Coords) : Memref sig .scVector .hbm S32x128 .i32 :=
  ((ixV).slice (Rect.unit (s := S32x32x128) (k3_off1 L) S1x32x128.size (k3_off1_inb L)) (fun _ => rfl)).squeeze S32x128 squeezes_S1x32x128_S32x128

/-- Output chunk 4t + b of the tile, as the program slices it (one abbreviation per slot: the slot is a literal word). -/
abbrev outK0 (L : grid3.Coords) (t : Fin k3_t1_loop.trips) : Memref sig .scVector .hbm S128x128 .f32 :=
  (oV).slice (Rect.unit (s := S131072x128) (k3_off3 L t 0#32) S128x128.size (k3_off3_inb L t 0)) (fun _ => rfl)
abbrev outK1 (L : grid3.Coords) (t : Fin k3_t1_loop.trips) : Memref sig .scVector .hbm S128x128 .f32 :=
  (oV).slice (Rect.unit (s := S131072x128) (k3_off3 L t 1#32) S128x128.size (k3_off3_inb L t 1)) (fun _ => rfl)
abbrev outK2 (L : grid3.Coords) (t : Fin k3_t1_loop.trips) : Memref sig .scVector .hbm S128x128 .f32 :=
  (oV).slice (Rect.unit (s := S131072x128) (k3_off3 L t 2#32) S128x128.size (k3_off3_inb L t 2)) (fun _ => rfl)
abbrev outK3 (L : grid3.Coords) (t : Fin k3_t1_loop.trips) : Memref sig .scVector .hbm S128x128 .f32 :=
  (oV).slice (Rect.unit (s := S131072x128) (k3_off3 L t 3#32) S128x128.size (k3_off3_inb L t 3)) (fun _ => rfl)

/-- List `off 0` of the local index buffer, as the program slices it. -/
abbrev idxRowAt (off : Fin 2 → ℕ) (hk : ∀ a, off a + S1x128.size a ≤ S32x128.size a) : Memref sig .scVector .vmem S128 .i32 :=
  ((ivV).slice (Rect.unit (s := S32x128) off S1x128.size hk) (fun _ => rfl)).squeeze S128 squeezes_S1x128_S128

/-- All of y, as the program slices it for a gather. -/
local notation "yAllK" => (Memref.slice (Memref.whole Cert.Kernel.main_v1_scv : Memref Cert.Kernel.sig Kind.scVector Space.hbm Cert.Kernel.S8192x128 EltTy.f32) (Rect.unit (s := Cert.Kernel.S8192x128) ![0, 0] Cert.Kernel.S8192x128.size Cert.Kernel.Facts₀.inb_S8192x128_S8192x128_0_0) (fun _ => rfl))

variable [FloatOps F]

abbrev 𝒱₀ : Variants := Variants.none

/-- A buffer the tile holds whole, by its own elements. -/
abbrev heldW {sp : Space} {s : Shape} {e : EltTy} (d : Dev nD) (L : grid3.Coords) (M : Memref sig .scVector sp s e) (q : PosShare TreeShare)
    (f : Buf (Elt F) (M.view.loc (thrV d L))) : sProp 𝕄 :=
  M.view.loc (thrV d L) ↦[M.view.set]{q} f

abbrev cellZ (d : Dev nD) (L : grid3.Coords) (a : DmaSems sig S_) : sProp 𝕄 := semVal ((thrV d L, SemLoc.dma a.sem) : GSem nD τ sig) 0

/-! ## The local index buffer as its 32 lists -/

omit [FloatOps F] in
theorem row_inb (j : Fin 32) : ∀ a, (![j.val, 0] : Fin 2 → ℕ) a + S1x128.size a ≤ S32x128.size a := by
  intro a
  match a with
  | 0 => have := j.isLt; show j.val + 1 ≤ 32; omega
  | 1 => show 0 + 128 ≤ 128; omega

/-- List j of the local index buffer. -/
abbrev idxRow (j : Fin 32) : Memref sig .scVector .vmem S128 .i32 := idxRowAt ![j.val, 0] (row_inb j)

/-- Two unit-stride rectangles at equal offsets and sizes are one. -/
theorem Rect.unit_congr {s : Shape} {off off' size size' : Fin s.rank → ℕ} (h1 : off = off') (h2 : size = size') (hk) (hk') :
    Rect.unit (s := s) off size hk = Rect.unit (s := s) off' size' hk' := by
  subst h1 h2; rfl

omit [FloatOps F] in
/-- The same list at another spelling of its offsets. -/
theorem idxRowAt_congr {off off' : Fin 2 → ℕ} (h : off = off') (hk) (hk') : idxRowAt off hk = idxRowAt off' hk' := by
  subst h; rfl

omit [FloatOps F] in
theorem set_idxRow (j : Fin 32) : (idxRow j).view.set = ((ivV).view.slice (S32x128.rowRect 0 j)).set := by
  show ((((ivV).view.slice (Rect.unit (s := S32x128) ![j.val, 0] S1x128.size (row_inb j)))).reshape S128 squeezes_S1x128_S128.numel_eq).set = _
  rw [View.set_reshape, View.set_slice, View.set_slice]
  refine congrArg (fun r : Rect S32x128 => r.set.map (ivV).view.emb) (Rect.unit_congr ?_ ?_ _ _)
  · funext a; match a with
    | 0 => rfl
    | 1 => rfl
  · funext a; match a with
    | 0 => rfl
    | 1 => rfl

/-- A list of the local index buffer, held whole by the tile. -/
abbrev rowPts (d : Dev nD) (L : grid3.Coords) (j : Fin 32) (f : Buf (Elt F) ((ivV).view.loc (thrV d L))) : sProp 𝕄 :=
  (idxRow j).view.loc (thrV d L) ↦[(idxRow j).view.set]{fullShare} f

omit [FloatOps F] in
/-- The local index buffer held whole is its 32 lists held each. -/
theorem iv_rows (d : Dev nD) (L : grid3.Coords) (f : Buf (Elt F) ((ivV).view.loc (thrV d L))) :
    ((ivV).view.loc (thrV d L) ↦[(ivV).view.set]{fullShare} f : sProp 𝕄) = bigSep Finset.univ fun j : Fin 32 => rowPts d L j f := by
  rw [pointsTo_rows (thrV d L) (ivV).view 0 fullShare f]
  refine bigSep_congr fun (j : Fin 32) _ => ?_
  show _ = ((idxRow j).view.loc (thrV d L) ↦[(idxRow j).view.set]{fullShare} f : sProp 𝕄)
  rw [set_idxRow]

/-! ## The lists' words are row numbers of y -/

omit [FloatOps F] in
/-- Whatever the local index buffer held before, once the slab has landed in it whole every word of every list is
    a word of the slab. -/
theorem hin_rows (d : Dev nD) (L : grid3.Coords) (fi : Buf (Elt F) ((slabK L).view.loc (thrV d L)))
    (hin : ∀ x, ((slabK L).view.read (Elt F) fi x).toNat < 8192)
    (g : Buf (Elt F) ((ivV).view.loc (thrV d L))) (pay : S32x128.Idx → Elt F .i32) (hpay : pay = (slabK L).view.read (Elt F) fi)
    (off : Fin 2 → ℕ) (hk : ∀ a, off a + S1x128.size a ≤ S32x128.size a) :
    ∀ x, (View.read (Elt F) (idxRowAt off hk).view
      ((ivV).view.writes (Elt F) g [⟨Rect.whole cc3_scratch0.ty.shape, pay⟩]) x).toNat < 8192 := by
  subst hpay; intro x
  have e : View.read (Elt F) (idxRowAt off hk).view ((ivV).view.writes (Elt F) g [⟨Rect.whole cc3_scratch0.ty.shape, (slabK L).view.read (Elt F) fi⟩]) x
      = View.read (Elt F) (ivV).view ((ivV).view.writes (Elt F) g [⟨Rect.whole cc3_scratch0.ty.shape, (slabK L).view.read (Elt F) fi⟩])
          ((Rect.unit (s := S32x128) off S1x128.size hk).emb ((Shape.reshapeEquiv squeezes_S1x128_S128.numel_eq) x)) := by
    rw [View.read_apply, View.read_apply]; rfl
  rw [e, View.read_writes_whole]
  exact hin _

omit [FloatOps F] in
/-- A list held, at another spelling of its offsets. -/
theorem rowPts_at (d : Dev nD) (L : grid3.Coords) (j : Fin 32) (off : Fin 2 → ℕ) (hk : ∀ a, off a + S1x128.size a ≤ S32x128.size a)
    (h : off = ![j.val, 0]) (f : Buf (Elt F) ((ivV).view.loc (thrV d L))) :
    rowPts d L j f = ((idxRowAt off hk).view.loc (thrV d L) ↦[(idxRowAt off hk).view.set]{fullShare} f : sProp 𝕄) := by
  subst h; rfl

/-! ## The loop's conditions, by trip -/

omit [FloatOps F] in
/-- In every trip but the last each slot issues its next gather; in the last none does. -/
theorem conds : ∀ k : Fin k3_t1_loop.trips,
    (k3_cond1 k = 1#1 ↔ k.val < 7) ∧ (k3_cond2 k = 1#1 ↔ ¬ k.val < 7) ∧ (k3_cond3 k = 1#1 ↔ k.val < 7) ∧ (k3_cond4 k = 1#1 ↔ ¬ k.val < 7)
    ∧ (k3_cond5 k = 1#1 ↔ k.val < 7) ∧ (k3_cond6 k = 1#1 ↔ ¬ k.val < 7) ∧ (k3_cond7 k = 1#1 ↔ k.val < 7) ∧ (k3_cond8 k = 1#1 ↔ ¬ k.val < 7) := by
  decide +kernel

/-! ## What the loop holds before trip k -/

omit [FloatOps F] in
theorem rowsInb (n : ℕ) (h : n < 32) : ∀ a, (![n, 0] : Fin 2 → ℕ) a + S1x128.size a ≤ S32x128.size a := by
  intro a
  match a with
  | 0 => show n + 1 ≤ 32; omega
  | 1 => show 0 + 128 ≤ 128; omega

/-- The lists no gather holds before trip k: all but lists 4k … 4k + 3. -/
def idle (k : ℕ) : Finset (Fin 32) := Finset.univ.filter fun j => j.val < 4 * k ∨ 4 * k + 4 ≤ j.val

/-- The tile's four output chunks of trip t, at some contents. -/
abbrev outTrip (d : Dev nD) (L : grid3.Coords) (t : Fin k3_t1_loop.trips) : sProp 𝕄 :=
  iprop((∃ f, heldW d L (outK0 L t) fullShare f) ∗ (∃ f, heldW d L (outK1 L t) fullShare f)
    ∗ (∃ f, heldW d L (outK2 L t) fullShare f) ∗ (∃ f, heldW d L (outK3 L t) fullShare f))

/-- A gather in flight on a slot: it will hand back the slot's row buffer written, the list it reads, and the share
    of y it reads. -/
abbrev gFlight (d : Dev nD) (L : grid3.Coords) (q : PosShare TreeShare) (sem : DmaSems sig S_) (n : ℕ)
    (rV : Memref sig .scVector .vmem S128x128 .f32) (off : Fin 2 → ℕ) (hk : ∀ a, off a + S1x128.size a ≤ S32x128.size a)
    (fr : Buf (Elt F) (rV.view.loc (thrV d L))) (fvc : Buf (Elt F) ((ivV).view.loc (thrV d L)))
    (fy : Buf (Elt F) ((yV).view.loc (thrV d L))) : sProp 𝕄 :=
  Transfers.Flight countersEmb (thrV d L) (SemLoc.dma sem.sem) (default : HIx 4) 524288
    iprop(((rV.view.loc (thrV d L) ↦[rV.view.set]{fullShare} fr)
        ∗ ((idxRowAt off hk).view.loc (thrV d L) ↦[(idxRowAt off hk).view.set]{fullShare} fvc))
      ∗ ((yV).view.loc (thrV d L) ↦[(yAllK).view.set]{Transfers.shareTokN q n} fy))

/-- What a gather leaves with the tile of the share of y it reads: nothing of y's elements. -/
abbrev yRest (d : Dev nD) (L : grid3.Coords) (q : PosShare TreeShare) (n : ℕ) (fy : Buf (Elt F) ((yV).view.loc (thrV d L))) : sProp 𝕄 :=
  (yV).view.loc (thrV d L) ↦[(yV).view.set \ (yAllK).view.set]{Transfers.shareTokN q n} fy

/-- Before trip k < 8: the four gathers of lists 4k … 4k + 3 in flight, every other list idle, the write semaphores at
    zero, the 32 output chunks at some contents. -/
def invA (d : Dev nD) (L : grid3.Coords) (q : PosShare TreeShare) (O : CellTallies nD τ sig (HIx 4)) (W : Waits sig (HIx 4))
    (fy : Buf (Elt F) ((yV).view.loc (thrV d L))) (fvc : Buf (Elt F) ((ivV).view.loc (thrV d L))) (k : ℕ) (hk8 : k < 8) : sProp 𝕄 :=
  iprop(Transfers.MayWaits (thrV d L) (default : HIx 4) O
    ∗ (∃ W', ⌜∀ p ∈ W', p ∈ W ∨ p.2 = none⌝ ∗ owes (thrV d L) O W')
    ∗ (cellZ d L cc3_scratch9 ∗ cellZ d L cc3_scratch10 ∗ cellZ d L cc3_scratch11 ∗ cellZ d L cc3_scratch12)
    ∗ bigSep Finset.univ (outTrip d L)
    ∗ bigSep (idle k) (fun j => rowPts d L j fvc)
    ∗ ((∃ fr, gFlight d L q cc3_scratch5 26 r0V ![4 * k + 0, 0] (rowsInb _ (by omega)) fr fvc fy) ∗ yRest d L q 26 fy)
    ∗ ((∃ fr, gFlight d L q cc3_scratch6 27 r1V ![4 * k + 1, 0] (rowsInb _ (by omega)) fr fvc fy) ∗ yRest d L q 27 fy)
    ∗ ((∃ fr, gFlight d L q cc3_scratch7 28 r2V ![4 * k + 2, 0] (rowsInb _ (by omega)) fr fvc fy) ∗ yRest d L q 28 fy)
    ∗ ((∃ fr, gFlight d L q cc3_scratch8 29 r3V ![4 * k + 3, 0] (rowsInb _ (by omega)) fr fvc fy) ∗ yRest d L q 29 fy))

omit [FloatOps F] in
theorem mem_idle_next (k : ℕ) (hk : k < 7) (b : ℕ) (hb : b < 4) : (⟨4 * k + 4 + b, by omega⟩ : Fin 32) ∈ idle k :=
  Finset.mem_filter.mpr ⟨Finset.mem_univ _, Or.inr (by show 4 * k + 4 ≤ 4 * k + 4 + b; omega)⟩

omit [FloatOps F] in
/-- The same gather at another spelling of its list's offsets. -/
theorem gFlight_off (d : Dev nD) (L : grid3.Coords) (q : PosShare TreeShare) (sem : DmaSems sig S_) (n : ℕ)
    (rV : Memref sig .scVector .vmem S128x128 .f32) {off off' : Fin 2 → ℕ} (h : off = off') (hk) (hk')
    (fr : Buf (Elt F) (rV.view.loc (thrV d L))) (fvc : Buf (Elt F) ((ivV).view.loc (thrV d L)))
    (fy : Buf (Elt F) ((yV).view.loc (thrV d L))) :
    gFlight d L q sem n rV off hk fr fvc fy = gFlight d L q sem n rV off' hk' fr fvc fy := by
  subst h; rfl

omit [FloatOps F] in
/-- A wait recorded at the default index keeps the waits among the earlier ones and those at no index. -/
theorem waits_ins {W W' : Waits sig (HIx 4)} (h : ∀ p ∈ W', p ∈ W ∨ p.2 = none) (s : SemLoc sig) :
    ∀ p ∈ insert (s, (default : HIx 4)) W', p ∈ W ∨ p.2 = none := by
  intro p hp
  rcases Finset.mem_insert.mp hp with hp | hp
  · exact .inr (hp ▸ rfl)
  · exact h p hp

omit [FloatOps F] in
/-- After trip k < 7 the idle lists are: those idle before but the four just lent, and the four just handed back. -/
theorem idle_step (k : ℕ) (hk : k < 7) (Φ : Fin 32 → sProp 𝕄)
    (h0 : 4 * k + 0 < 32) (h1 : 4 * k + 1 < 32) (h2 : 4 * k + 2 < 32) (h3 : 4 * k + 3 < 32)
    (h4 : 4 * k + 4 + 0 < 32) (h5 : 4 * k + 4 + 1 < 32) (h6 : 4 * k + 4 + 2 < 32) (h7 : 4 * k + 4 + 3 < 32) :
    iprop(bigSep (((((idle k).erase ⟨4 * k + 4 + 0, h4⟩).erase ⟨4 * k + 4 + 1, h5⟩).erase ⟨4 * k + 4 + 2, h6⟩).erase ⟨4 * k + 4 + 3, h7⟩) Φ
        ∗ Φ ⟨4 * k + 0, h0⟩ ∗ Φ ⟨4 * k + 1, h1⟩ ∗ Φ ⟨4 * k + 2, h2⟩ ∗ Φ ⟨4 * k + 3, h3⟩)
      ⊢ bigSep (idle (k + 1)) Φ := by
  have e : ((((idle (k + 1)).erase (⟨4 * k + 0, h0⟩ : Fin 32)).erase ⟨4 * k + 1, h1⟩).erase ⟨4 * k + 2, h2⟩).erase ⟨4 * k + 3, h3⟩
      = ((((idle k).erase (⟨4 * k + 4 + 0, h4⟩ : Fin 32)).erase ⟨4 * k + 4 + 1, h5⟩).erase ⟨4 * k + 4 + 2, h6⟩).erase ⟨4 * k + 4 + 3, h7⟩ := by
    ext j
    simp only [idle, Finset.mem_erase, Finset.mem_filter, Finset.mem_univ, true_and, ne_eq, Fin.ext_iff]
    omega
  have m0 : (⟨4 * k + 0, h0⟩ : Fin 32) ∈ idle (k + 1) := Finset.mem_filter.mpr ⟨Finset.mem_univ _, Or.inl (show 4 * k + 0 < 4 * (k + 1) by omega)⟩
  have m1 : (⟨4 * k + 1, h1⟩ : Fin 32) ∈ idle (k + 1) := Finset.mem_filter.mpr ⟨Finset.mem_univ _, Or.inl (show 4 * k + 1 < 4 * (k + 1) by omega)⟩
  have m2 : (⟨4 * k + 2, h2⟩ : Fin 32) ∈ idle (k + 1) := Finset.mem_filter.mpr ⟨Finset.mem_univ _, Or.inl (show 4 * k + 2 < 4 * (k + 1) by omega)⟩
  have m3 : (⟨4 * k + 3, h3⟩ : Fin 32) ∈ idle (k + 1) := Finset.mem_filter.mpr ⟨Finset.mem_univ _, Or.inl (show 4 * k + 3 < 4 * (k + 1) by omega)⟩
  rw [SparseCore.bigSep_erase' m0,
    SparseCore.bigSep_erase' (Finset.mem_erase.mpr ⟨by simp [Fin.ext_iff], m1⟩),
    SparseCore.bigSep_erase' (Finset.mem_erase.mpr ⟨by simp [Fin.ext_iff], Finset.mem_erase.mpr ⟨by simp [Fin.ext_iff], m2⟩⟩),
    SparseCore.bigSep_erase' (Finset.mem_erase.mpr ⟨by simp [Fin.ext_iff], Finset.mem_erase.mpr ⟨by simp [Fin.ext_iff], Finset.mem_erase.mpr ⟨by simp [Fin.ext_iff], m3⟩⟩⟩), e]
  iintro ⟨H, H0, H1, H2, H3⟩
  isplitl [H0]; · iexact H0
  isplitl [H1]; · iexact H1
  isplitl [H2]; · iexact H2
  isplitl [H3]; · iexact H3
  iexact H

set_option maxHeartbeats 4000000 in
theorem gk_tripA (d : Dev nD) (L : grid3.Coords) (q : PosShare TreeShare) (O : CellTallies nD τ sig (HIx 4)) (W : Waits sig (HIx 4))
    (fy : Buf (Elt F) ((yV).view.loc (thrV d L))) (fvc : Buf (Elt F) ((ivV).view.loc (thrV d L)))
    (hrowc : ∀ (off : Fin 2 → ℕ) (hk : ∀ a, off a + S1x128.size a ≤ S32x128.size a) (x : S128.Idx),
      (View.read (Elt F) (idxRowAt off hk).view fvc x).toNat < 8192)
    (v1 c0 c1 : BitVec 32) (k : Fin k3_t1_loop.trips) (hk : k.val < 7) (acc : Unit) :
    invA d L q O W fy fvc k.val (by omega)
      ⊢ wp frame (wpE (defs₀ (F := F)) 𝒱₀ (thrV d L) none) Set.univ
          (Gen.k3_t1_body L yV (Memref.isWhole_whole _) ixV (Memref.isWhole_whole _) oV (Memref.isWhole_whole _)
            ivV (Memref.isWhole_whole _) r0V (Memref.isWhole_whole _) r1V (Memref.isWhole_whole _)
            r2V (Memref.isWhole_whole _) r3V (Memref.isWhole_whole _)
            cc3_scratch5 cc3_scratch6 cc3_scratch7 cc3_scratch8 cc3_scratch9 cc3_scratch10 cc3_scratch11 cc3_scratch12 cc3_scoped0
            v1 c0 c1 k acc)
          fun _ => invA d L q O W fy fvc (k.val + 1) (by omega) := by
  obtain ⟨c1', c2', c3', c4', c5', c6', c7', c8'⟩ := conds k
  have hc1 : k3_cond1 k = 1#1 := c1'.mpr hk
  have hc2 : ¬ k3_cond2 k = 1#1 := fun h => (c2'.mp h) hk
  have hc3 : k3_cond3 k = 1#1 := c3'.mpr hk
  have hc4 : ¬ k3_cond4 k = 1#1 := fun h => (c4'.mp h) hk
  have hc5 : k3_cond5 k = 1#1 := c5'.mpr hk
  have hc6 : ¬ k3_cond6 k = 1#1 := fun h => (c6'.mp h) hk
  have hc7 : k3_cond7 k = 1#1 := c7'.mpr hk
  have hc8 : ¬ k3_cond8 k = 1#1 := fun h => (c8'.mp h) hk
  unfold invA gFlight yRest
  iintro ⟨#Hmw, ⟨%W', %hW', HO⟩, ⟨HW0, HW1, HW2, HW3⟩, Hout, Hrows, ⟨⟨%fr0, HG0⟩, HY0⟩, ⟨⟨%fr1, HG1⟩, HY1⟩, ⟨⟨%fr2, HG2⟩, HY2⟩, ⟨⟨%fr3, HG3⟩, HY3⟩⟩
  -- the four output chunks of this trip
  ihave Hx := (Entails.of_eq (SparseCore.bigSep_erase' (i := k) (Finset.mem_univ _))) $$ Hout
  icases Hx with ⟨⟨⟨%fo0, HO0⟩, ⟨%fo1, HO1⟩, ⟨%fo2, HO2⟩, ⟨%fo3, HO3⟩⟩, Hout⟩
  -- the four lists the trip's gathers will read
  ihave Hx := (Entails.of_eq (SparseCore.bigSep_erase' (i := (⟨4 * k.val + 4 + 0, by omega⟩ : Fin 32)) (mem_idle_next k.val hk 0 (by omega)))) $$ Hrows
  icases Hx with ⟨Hl0, Hrows⟩
  ihave Hx := (Entails.of_eq (SparseCore.bigSep_erase' (i := (⟨4 * k.val + 4 + 1, by omega⟩ : Fin 32))
    (Finset.mem_erase.mpr ⟨by simp [Fin.ext_iff], mem_idle_next k.val hk 1 (by omega)⟩))) $$ Hrows
  icases Hx with ⟨Hl1, Hrows⟩
  ihave Hx := (Entails.of_eq (SparseCore.bigSep_erase' (i := (⟨4 * k.val + 4 + 2, by omega⟩ : Fin 32))
    (Finset.mem_erase.mpr ⟨by simp [Fin.ext_iff], Finset.mem_erase.mpr ⟨by simp [Fin.ext_iff], mem_idle_next k.val hk 2 (by omega)⟩⟩))) $$ Hrows
  icases Hx with ⟨Hl2, Hrows⟩
  ihave Hx := (Entails.of_eq (SparseCore.bigSep_erase' (i := (⟨4 * k.val + 4 + 3, by omega⟩ : Fin 32))
    (Finset.mem_erase.mpr ⟨by simp [Fin.ext_iff], Finset.mem_erase.mpr ⟨by simp [Fin.ext_iff], Finset.mem_erase.mpr ⟨by simp [Fin.ext_iff], mem_idle_next k.val hk 3 (by omega)⟩⟩⟩))) $$ Hrows
  icases Hx with ⟨Hl3, Hrows⟩
  ihave Hl0' := (Entails.of_eq (rowPts_at (F := F) d L _ (k3_off5 k) (k3_off5_inb k hc1) (Gen.k3_off5_eq k) _)) $$ Hl0
  ihave Hl1' := (Entails.of_eq (rowPts_at (F := F) d L _ (k3_off8 k) (k3_off8_inb k hc3) (Gen.k3_off8_eq k) _)) $$ Hl1
  ihave Hl2' := (Entails.of_eq (rowPts_at (F := F) d L _ (k3_off11 k) (k3_off11_inb k hc5) (Gen.k3_off11_eq k) _)) $$ Hl2
  ihave Hl3' := (Entails.of_eq (rowPts_at (F := F) d L _ (k3_off14 k) (k3_off14_inb k hc7) (Gen.k3_off14_eq k) _)) $$ Hl3
  sl_unfold [Gen.k3_t1_body]
  sl_exec (disch := first | sl_exact hc1 | sl_exact hc2 | sl_exact hc3 | sl_exact hc4 | sl_exact hc5 | sl_exact hc6 | sl_exact hc7 | sl_exact hc8)
  sl_step
  isplitr; · iexact Hmw
  isplitl [HO]
  · iexists _; isplitr
    swap; · iexact HO
    ipureintro
    exact waits_ins (waits_ins (waits_ins (waits_ins (waits_ins (waits_ins (waits_ins (waits_ins hW' _) _) _) _) _) _) _) _
  isplitl [HW0 HW1 HW2 HW3]
  · isplitl [HW0]; · iexact HW0
    isplitl [HW1]; · iexact HW1
    isplitl [HW2]; · iexact HW2
    iexact HW3
  isplitl [Hout HO0 HO1 HO2 HO3]
  · iapply (Entails.of_eq (SparseCore.bigSep_erase' (i := k) (Finset.mem_univ _)).symm)
    isplitl [HO0 HO1 HO2 HO3]
    · isplitl [HO0]; · iexists _; iexact HO0
      isplitl [HO1]; · iexists _; iexact HO1
      isplitl [HO2]; · iexists _; iexact HO2
      iexists _; iexact HO3
    iexact Hout
  isplitl [Hrows HG0_dst_and HG1_dst_and HG2_dst_and HG3_dst_and]
  · iapply (idle_step (F := F) k.val hk (fun j => rowPts d L j fvc) (by omega) (by omega) (by omega) (by omega) (by omega) (by omega) (by omega) (by omega))
    isplitl [Hrows]; · iexact Hrows
    isplitl [HG0_dst_and]; · iexact HG0_dst_and
    isplitl [HG1_dst_and]; · iexact HG1_dst_and
    isplitl [HG2_dst_and]; · iexact HG2_dst_and
    iexact HG3_dst_and
  isplitl [HG0 HY0]
  · isplitl [HG0]
    · iexists _
      iapply (Entails.of_eq (gFlight_off (F := F) d L q cc3_scratch5 26 r0V ((Gen.k3_off5_eq k).trans (by rw [show 4 * (k.val + 1) + 0 = 4 * k.val + 4 by omega])) (k3_off5_inb k hc1) _ _ fvc fy))
      iexact HG0
    iexact HY0
  isplitl [HG1 HY1]
  · isplitl [HG1]
    · iexists _
      iapply (Entails.of_eq (gFlight_off (F := F) d L q cc3_scratch6 27 r1V ((Gen.k3_off8_eq k).trans (by rw [show 4 * (k.val + 1) + 1 = 4 * k.val + 5 by omega])) (k3_off8_inb k hc3) _ _ fvc fy))
      iexact HG1
    iexact HY1
  isplitl [HG2 HY2]
  · isplitl [HG2]
    · iexists _
      iapply (Entails.of_eq (gFlight_off (F := F) d L q cc3_scratch7 28 r2V ((Gen.k3_off11_eq k).trans (by rw [show 4 * (k.val + 1) + 2 = 4 * k.val + 6 by omega])) (k3_off11_inb k hc5) _ _ fvc fy))
      iexact HG2
    iexact HY2
  isplitl [HG3]
  · iexists _
    iapply (Entails.of_eq (gFlight_off (F := F) d L q cc3_scratch8 29 r3V ((Gen.k3_off14_eq k).trans (by rw [show 4 * (k.val + 1) + 3 = 4 * k.val + 7 by omega])) (k3_off14_inb k hc7) _ _ fvc fy))
    iexact HG3
  iexact HY3

omit [FloatOps F] in
/-- After the last trip every list is idle. -/
theorem idle_last (k : ℕ) (hk : k = 7) (Φ : Fin 32 → sProp 𝕄)
    (h0 : 4 * k + 0 < 32) (h1 : 4 * k + 1 < 32) (h2 : 4 * k + 2 < 32) (h3 : 4 * k + 3 < 32) :
    iprop(bigSep (idle k) Φ ∗ Φ ⟨4 * k + 0, h0⟩ ∗ Φ ⟨4 * k + 1, h1⟩ ∗ Φ ⟨4 * k + 2, h2⟩ ∗ Φ ⟨4 * k + 3, h3⟩)
      ⊢ bigSep Finset.univ Φ := by
  subst hk
  have e : ((((Finset.univ : Finset (Fin 32)).erase (⟨4 * 7 + 0, h0⟩ : Fin 32)).erase ⟨4 * 7 + 1, h1⟩).erase ⟨4 * 7 + 2, h2⟩).erase ⟨4 * 7 + 3, h3⟩ = idle 7 := by
    ext j
    simp only [idle, Finset.mem_erase, Finset.mem_filter, Finset.mem_univ, true_and, and_true, ne_eq, Fin.ext_iff]
    omega
  rw [SparseCore.bigSep_erase' (Finset.mem_univ (⟨4 * 7 + 0, h0⟩ : Fin 32)),
    SparseCore.bigSep_erase' (i := (⟨4 * 7 + 1, h1⟩ : Fin 32)) (Finset.mem_erase.mpr ⟨by simp [Fin.ext_iff], Finset.mem_univ _⟩),
    SparseCore.bigSep_erase' (i := (⟨4 * 7 + 2, h2⟩ : Fin 32)) (Finset.mem_erase.mpr ⟨by simp [Fin.ext_iff], Finset.mem_erase.mpr ⟨by simp [Fin.ext_iff], Finset.mem_univ _⟩⟩),
    SparseCore.bigSep_erase' (i := (⟨4 * 7 + 3, h3⟩ : Fin 32)) (Finset.mem_erase.mpr ⟨by simp [Fin.ext_iff], Finset.mem_erase.mpr ⟨by simp [Fin.ext_iff], Finset.mem_erase.mpr ⟨by simp [Fin.ext_iff], Finset.mem_univ _⟩⟩⟩), e]
  iintro ⟨H, H0, H1, H2, H3⟩
  isplitl [H0]; · iexact H0
  isplitl [H1]; · iexact H1
  isplitl [H2]; · iexact H2
  isplitl [H3]; · iexact H3
  iexact H

omit [FloatOps F] in
/-- Before the first trip lists 0 … 3 are lent. -/
theorem idle_zero : idle 0 = ((((Finset.univ : Finset (Fin 32)).erase 0).erase 1).erase 2).erase 3 := by
  ext j
  simp only [idle, Finset.mem_erase, Finset.mem_filter, Finset.mem_univ, true_and, and_true, ne_eq, Fin.ext_iff]
  show j.val < 4 * 0 ∨ 4 * 0 + 4 ≤ j.val ↔ ¬ j.val = 3 ∧ ¬ j.val = 2 ∧ ¬ j.val = 1 ∧ ¬ j.val = 0
  omega

/-- After the last trip: nothing in flight; every list idle, the row buffers at some contents, every semaphore at
    zero, the four shares of y whole again, the 32 output chunks at some contents. -/
def invEnd (d : Dev nD) (L : grid3.Coords) (q : PosShare TreeShare) (O : CellTallies nD τ sig (HIx 4)) (W : Waits sig (HIx 4))
    (fy : Buf (Elt F) ((yV).view.loc (thrV d L))) (fvc : Buf (Elt F) ((ivV).view.loc (thrV d L))) : sProp 𝕄 :=
  iprop(Transfers.MayWaits (thrV d L) (default : HIx 4) O
    ∗ (∃ W', ⌜∀ p ∈ W', p ∈ W ∨ p.2 = none⌝ ∗ owes (thrV d L) O W')
    ∗ (cellZ d L cc3_scratch9 ∗ cellZ d L cc3_scratch10 ∗ cellZ d L cc3_scratch11 ∗ cellZ d L cc3_scratch12)
    ∗ bigSep Finset.univ (outTrip d L)
    ∗ bigSep Finset.univ (fun j => rowPts d L j fvc)
    ∗ ((∃ fr, heldW d L r0V fullShare fr) ∗ cellZ d L cc3_scratch5 ∗ heldW d L yV (Transfers.shareTokN q 26) fy)
    ∗ ((∃ fr, heldW d L r1V fullShare fr) ∗ cellZ d L cc3_scratch6 ∗ heldW d L yV (Transfers.shareTokN q 27) fy)
    ∗ ((∃ fr, heldW d L r2V fullShare fr) ∗ cellZ d L cc3_scratch7 ∗ heldW d L yV (Transfers.shareTokN q 28) fy)
    ∗ ((∃ fr, heldW d L r3V fullShare fr) ∗ cellZ d L cc3_scratch8 ∗ heldW d L yV (Transfers.shareTokN q 29) fy))

set_option maxHeartbeats 4000000 in
theorem gk_tripB (d : Dev nD) (L : grid3.Coords) (q : PosShare TreeShare) (O : CellTallies nD τ sig (HIx 4)) (W : Waits sig (HIx 4))
    (fy : Buf (Elt F) ((yV).view.loc (thrV d L))) (fvc : Buf (Elt F) ((ivV).view.loc (thrV d L)))
    (hrowc : ∀ (off : Fin 2 → ℕ) (hk : ∀ a, off a + S1x128.size a ≤ S32x128.size a) (x : S128.Idx),
      (View.read (Elt F) (idxRowAt off hk).view fvc x).toNat < 8192)
    (v1 c0 c1 : BitVec 32) (k : Fin k3_t1_loop.trips) (hk : k.val = 7) (acc : Unit) :
    invA d L q O W fy fvc k.val (by omega)
      ⊢ wp frame (wpE (defs₀ (F := F)) 𝒱₀ (thrV d L) none) Set.univ
          (Gen.k3_t1_body L yV (Memref.isWhole_whole _) ixV (Memref.isWhole_whole _) oV (Memref.isWhole_whole _)
            ivV (Memref.isWhole_whole _) r0V (Memref.isWhole_whole _) r1V (Memref.isWhole_whole _)
            r2V (Memref.isWhole_whole _) r3V (Memref.isWhole_whole _)
            cc3_scratch5 cc3_scratch6 cc3_scratch7 cc3_scratch8 cc3_scratch9 cc3_scratch10 cc3_scratch11 cc3_scratch12 cc3_scoped0
            v1 c0 c1 k acc)
          fun _ => invEnd d L q O W fy fvc := by
  obtain ⟨c1', c2', c3', c4', c5', c6', c7', c8'⟩ := conds k
  have hn : ¬ k.val < 7 := by omega
  have hc1 : ¬ k3_cond1 k = 1#1 := fun h => hn (c1'.mp h)
  have hc2 : k3_cond2 k = 1#1 := c2'.mpr hn
  have hc3 : ¬ k3_cond3 k = 1#1 := fun h => hn (c3'.mp h)
  have hc4 : k3_cond4 k = 1#1 := c4'.mpr hn
  have hc5 : ¬ k3_cond5 k = 1#1 := fun h => hn (c5'.mp h)
  have hc6 : k3_cond6 k = 1#1 := c6'.mpr hn
  have hc7 : ¬ k3_cond7 k = 1#1 := fun h => hn (c7'.mp h)
  have hc8 : k3_cond8 k = 1#1 := c8'.mpr hn
  unfold invA invEnd gFlight yRest
  iintro ⟨#Hmw, ⟨%W', %hW', HO⟩, ⟨HW0, HW1, HW2, HW3⟩, Hout, Hrows, ⟨⟨%fr0, HG0⟩, HY0⟩, ⟨⟨%fr1, HG1⟩, HY1⟩, ⟨⟨%fr2, HG2⟩, HY2⟩, ⟨⟨%fr3, HG3⟩, HY3⟩⟩
  ihave Hx := (Entails.of_eq (SparseCore.bigSep_erase' (i := k) (Finset.mem_univ _))) $$ Hout
  icases Hx with ⟨⟨⟨%fo0, HO0⟩, ⟨%fo1, HO1⟩, ⟨%fo2, HO2⟩, ⟨%fo3, HO3⟩⟩, Hout⟩
  sl_unfold [Gen.k3_t1_body]
  sl_exec (disch := first | sl_exact hc1 | sl_exact hc2 | sl_exact hc3 | sl_exact hc4 | sl_exact hc5 | sl_exact hc6 | sl_exact hc7 | sl_exact hc8)
  sl_step
  isplitr; · iexact Hmw
  isplitl [HO]
  · iexists _; isplitr
    swap; · iexact HO
    ipureintro
    exact waits_ins (waits_ins (waits_ins (waits_ins (waits_ins (waits_ins (waits_ins (waits_ins hW' _) _) _) _) _) _) _) _
  isplitl [HW0 HW1 HW2 HW3]
  · isplitl [HW0]; · iexact HW0
    isplitl [HW1]; · iexact HW1
    isplitl [HW2]; · iexact HW2
    iexact HW3
  isplitl [Hout HO0 HO1 HO2 HO3]
  · iapply (Entails.of_eq (SparseCore.bigSep_erase' (i := k) (Finset.mem_univ _)).symm)
    isplitl [HO0 HO1 HO2 HO3]
    · isplitl [HO0]; · iexists _; iexact HO0
      isplitl [HO1]; · iexists _; iexact HO1
      isplitl [HO2]; · iexists _; iexact HO2
      iexists _; iexact HO3
    iexact Hout
  isplitl [Hrows HG0_dst_and HG1_dst_and HG2_dst_and HG3_dst_and]
  · iapply (idle_last (F := F) k.val hk (fun j => rowPts d L j fvc) (by omega) (by omega) (by omega) (by omega))
    isplitl [Hrows]; · iexact Hrows
    isplitl [HG0_dst_and]; · iexact HG0_dst_and
    isplitl [HG1_dst_and]; · iexact HG1_dst_and
    isplitl [HG2_dst_and]; · iexact HG2_dst_and
    iexact HG3_dst_and
  isplitl [HG0_dst HG0 HY0]
  · isplitl [HG0_dst]; · iexists _; iexact HG0_dst
    isplitl [HG0]; · iexact HG0
    iexact HY0
  isplitl [HG1_dst HG1 HY1]
  · isplitl [HG1_dst]; · iexists _; iexact HG1_dst
    isplitl [HG1]; · iexact HG1
    iexact HY1
  isplitl [HG2_dst HG2 HY2]
  · isplitl [HG2_dst]; · iexists _; iexact HG2_dst
    isplitl [HG2]; · iexact HG2
    iexact HY2
  isplitl [HG3_dst]; · iexists _; iexact HG3_dst
  isplitl [HG3]; · iexact HG3
  iexact HY3

/-! ## The loop's invariant, and the whole body -/

/-- What the loop holds before trip k: the gathers of trip k in flight while there is a trip k, nothing after. -/
def inv (d : Dev nD) (L : grid3.Coords) (q : PosShare TreeShare) (O : CellTallies nD τ sig (HIx 4)) (W : Waits sig (HIx 4))
    (fy : Buf (Elt F) ((yV).view.loc (thrV d L))) (fvc : Buf (Elt F) ((ivV).view.loc (thrV d L))) (k : ℕ) : Unit → sProp 𝕄 :=
  fun _ => if h : k < 8 then invA d L q O W fy fvc k h else invEnd d L q O W fy fvc

theorem inv_lt (d : Dev nD) (L : grid3.Coords) (q : PosShare TreeShare) (O : CellTallies nD τ sig (HIx 4)) (W : Waits sig (HIx 4))
    (fy : Buf (Elt F) ((yV).view.loc (thrV d L))) (fvc : Buf (Elt F) ((ivV).view.loc (thrV d L))) (k : ℕ) (h : k < 8) :
    inv d L q O W fy fvc k = fun _ => invA d L q O W fy fvc k h := by
  funext _; exact dif_pos h

theorem inv_ge (d : Dev nD) (L : grid3.Coords) (q : PosShare TreeShare) (O : CellTallies nD τ sig (HIx 4)) (W : Waits sig (HIx 4))
    (fy : Buf (Elt F) ((yV).view.loc (thrV d L))) (fvc : Buf (Elt F) ((ivV).view.loc (thrV d L))) (k : ℕ) (h : ¬ k < 8) :
    inv d L q O W fy fvc k = fun _ => invEnd d L q O W fy fvc := by
  funext _; exact dif_neg h

omit [FloatOps F] in
theorem trips_eq : k3_t1_loop.trips = 8 := by decide

theorem inv_end (d : Dev nD) (L : grid3.Coords) (q : PosShare TreeShare) (O : CellTallies nD τ sig (HIx 4)) (W : Waits sig (HIx 4))
    (fy : Buf (Elt F) ((yV).view.loc (thrV d L))) (fvc : Buf (Elt F) ((ivV).view.loc (thrV d L))) :
    inv d L q O W fy fvc (Scf.trips k3_t1_loop.lb k3_t1_loop.ub k3_t1_loop.st) = fun _ => invEnd d L q O W fy fvc :=
  inv_ge d L q O W fy fvc _ (by decide)

set_option maxHeartbeats 4000000 in
/-- The body on tile (L 0, L 1) of device d, from the tile's own spellings of what it holds: four read shares of y, its
    slab of the index array with every word a row number of y, its 32 output chunks, its local index buffer, its four
    row buffers, its nine semaphores at zero. It ends with the same, the output chunks, the local buffers at some
    contents. -/
theorem gk_core (d : Dev nD) (L : grid3.Coords) (q : PosShare TreeShare)
    (O : CellTallies nD τ sig (HIx 4)) (W : Waits sig (HIx 4))
    (fy : Buf (Elt F) ((yV).view.loc (thrV d L))) (fi : Buf (Elt F) ((slabK L).view.loc (thrV d L)))
    (fv : Buf (Elt F) ((ivV).view.loc (thrV d L)))
    (f0 : Buf (Elt F) ((r0V).view.loc (thrV d L))) (f1 : Buf (Elt F) ((r1V).view.loc (thrV d L)))
    (f2 : Buf (Elt F) ((r2V).view.loc (thrV d L))) (f3 : Buf (Elt F) ((r3V).view.loc (thrV d L)))
    (hin : ∀ x, ((slabK L).view.read (Elt F) fi x).toNat < 8192) :
    (iprop(Transfers.MayWaits (thrV d L) (default : HIx 4) O
        ∗ heldW d L yV (Transfers.shareTokN q 26) fy ∗ heldW d L yV (Transfers.shareTokN q 27) fy
        ∗ heldW d L yV (Transfers.shareTokN q 28) fy ∗ heldW d L yV (Transfers.shareTokN q 29) fy
        ∗ heldW d L (slabK L) fullShare fi
        ∗ heldW d L ivV fullShare fv
        ∗ heldW d L r0V fullShare f0 ∗ heldW d L r1V fullShare f1 ∗ heldW d L r2V fullShare f2 ∗ heldW d L r3V fullShare f3
        ∗ cellZ d L cc3_scratch5 ∗ cellZ d L cc3_scratch6 ∗ cellZ d L cc3_scratch7 ∗ cellZ d L cc3_scratch8
        ∗ cellZ d L cc3_scratch9 ∗ cellZ d L cc3_scratch10 ∗ cellZ d L cc3_scratch11 ∗ cellZ d L cc3_scratch12
        ∗ cellZ d L cc3_scoped0
        ∗ bigSep Finset.univ (outTrip d L)
        ∗ owes (thrV d L) O W) : sProp 𝕄)
      ⊢ wp frame (wpE (defs₀ (F := F)) 𝒱₀ (thrV d L) none) Set.univ
          (cc3_gk L yV (Memref.isWhole_whole _) ixV (Memref.isWhole_whole _) oV (Memref.isWhole_whole _)
            ivV (Memref.isWhole_whole _) r0V (Memref.isWhole_whole _) r1V (Memref.isWhole_whole _)
            r2V (Memref.isWhole_whole _) r3V (Memref.isWhole_whole _)
            cc3_scratch5 cc3_scratch6 cc3_scratch7 cc3_scratch8 cc3_scratch9 cc3_scratch10 cc3_scratch11 cc3_scratch12 cc3_scoped0)
          fun _ => iprop(heldW d L yV (Transfers.shareTokN q 26) fy ∗ heldW d L yV (Transfers.shareTokN q 27) fy
            ∗ heldW d L yV (Transfers.shareTokN q 28) fy ∗ heldW d L yV (Transfers.shareTokN q 29) fy
            ∗ heldW d L (slabK L) fullShare fi
            ∗ (∃ f, heldW d L ivV fullShare f)
            ∗ (∃ f, heldW d L r0V fullShare f) ∗ (∃ f, heldW d L r1V fullShare f) ∗ (∃ f, heldW d L r2V fullShare f) ∗ (∃ f, heldW d L r3V fullShare f)
            ∗ cellZ d L cc3_scratch5 ∗ cellZ d L cc3_scratch6 ∗ cellZ d L cc3_scratch7 ∗ cellZ d L cc3_scratch8
            ∗ cellZ d L cc3_scratch9 ∗ cellZ d L cc3_scratch10 ∗ cellZ d L cc3_scratch11 ∗ cellZ d L cc3_scratch12
            ∗ cellZ d L cc3_scoped0
            ∗ bigSep Finset.univ (outTrip d L)
            ∗ ∃ W', ⌜∀ p ∈ W', p ∈ W ∨ p.2 = none⌝ ∗ owes (thrV d L) O W') := by
  rw [Gen.cc3_gk_eq_skeleton]
  iintro ⟨#Hmw, HY0, HY1, HY2, HY3, HI, HV, HR0, HR1, HR2, HR3, HG0, HG1, HG2, HG3, HW0, HW1, HW2, HW3, HS, Hout, HO⟩
  sl_unfold [Gen.cc3_gk_skel, k3_part3]
  -- the slab lands in the local index buffer (one copy, awaited); the run stops before the first gather
  sl_exec
  -- whatever the buffer held before, every word of every list is now a word of the slab
  have hrow := fun g off hk => hin_rows d L fi hin g (gk_core.sl.dma0 d L fi) rfl off hk
  -- the buffer as its 32 lists; lists 0 … 3, spelt as the first four gathers slice them
  ihave Hrows := (Entails.of_eq (iv_rows (F := F) d L _)) $$ HV
  ihave Hx := (Entails.of_eq (SparseCore.bigSep_erase' (s := Finset.univ) (i := (0 : Fin 32)) (Finset.mem_univ _))) $$ Hrows
  icases Hx with ⟨Hl0, Hrows⟩
  ihave Hx := (Entails.of_eq (SparseCore.bigSep_erase' (i := (1 : Fin 32)) (by decide))) $$ Hrows
  icases Hx with ⟨Hl1, Hrows⟩
  ihave Hx := (Entails.of_eq (SparseCore.bigSep_erase' (i := (2 : Fin 32)) (by decide))) $$ Hrows
  icases Hx with ⟨Hl2, Hrows⟩
  ihave Hx := (Entails.of_eq (SparseCore.bigSep_erase' (i := (3 : Fin 32)) (by decide))) $$ Hrows
  icases Hx with ⟨Hl3, Hrows⟩
  ihave Hl0' := (Entails.of_eq (rowPts_at (F := F) d L 0 ![0, 0] inb_S32x128_S1x128_0_0 rfl _)) $$ Hl0
  ihave Hl1' := (Entails.of_eq (rowPts_at (F := F) d L 1 ![1, 0] inb_S32x128_S1x128_1_0 rfl _)) $$ Hl1
  ihave Hl2' := (Entails.of_eq (rowPts_at (F := F) d L 2 ![2, 0] inb_S32x128_S1x128_2_0 rfl _)) $$ Hl2
  ihave Hl3' := (Entails.of_eq (rowPts_at (F := F) d L 3 ![3, 0] inb_S32x128_S1x128_3_0 rfl _)) $$ Hl3
  -- the four gathers issue; the run stops at the loop
  sl_exec
  sl_for (inv d L q O W fy ((ivV).view.writes (Elt F) (ivV).view.junk [⟨Rect.whole cc3_scratch0.ty.shape, gk_core.sl.dma0 d L fi⟩]))
    $$ [HO HW0 HW1 HW2 HW3 Hout Hrows HG0 HY0 HG1 HY1 HG2 HY2 HG3 HY3]
  · -- one trip
    intro k acc
    have hk8 : k.val < 8 := trips_eq ▸ k.isLt
    rcases Nat.lt_or_ge k.val 7 with h7 | h7
    · rw [inv_lt (h := hk8), inv_lt (k := k.val + 1) (h := by omega)]
      exact gk_tripA d L q O W fy _ (hrow _) _ _ _ k h7 acc
    · rw [inv_lt (h := hk8), inv_ge (k := k.val + 1) (h := by omega)]
      exact gk_tripB d L q O W fy _ (hrow _) _ _ _ k (by omega) acc
  · -- the invariant before the first trip
    rw [inv_lt (k := 0) (h := by omega)]
    beta_reduce
    unfold invA gFlight yRest
    isplitr; · iexact Hmw
    isplitl [HO]
    · iexists _; isplitr
      swap; · iexact HO
      ipureintro
      exact waits_ins (fun p hp => .inl hp) _
    isplitl [HW0 HW1 HW2 HW3]
    · isplitl [HW0]; · iexact HW0
      isplitl [HW1]; · iexact HW1
      isplitl [HW2]; · iexact HW2
      iexact HW3
    isplitl [Hout]; · iexact Hout
    isplitl [Hrows]; · rw [idle_zero]; iexact Hrows
    isplitl [HG0 HY0]
    · isplitl [HG0]; · iexists _; iexact HG0
      iexact HY0
    isplitl [HG1 HY1]
    · isplitl [HG1]; · iexists _; iexact HG1
      iexact HY1
    isplitl [HG2 HY2]
    · isplitl [HG2]; · iexists _; iexact HG2
      iexact HY2
    isplitl [HG3]; · iexists _; iexact HG3
    iexact HY3
  -- after the loop
  iintro %acc HL
  rw [inv_end]
  beta_reduce
  unfold invEnd
  icases HL with ⟨-, ⟨%W', %hW', HO⟩, ⟨HW0, HW1, HW2, HW3⟩, Hout, Hrows, ⟨⟨%fr0, HR0⟩, HG0, HY0⟩, ⟨⟨%fr1, HR1⟩, HG1, HY1⟩, ⟨⟨%fr2, HR2⟩, HG2, HY2⟩, ⟨⟨%fr3, HR3⟩, HG3, HY3⟩⟩
  sl_exec
  sl_step
  isplitl [HY0]; · iexact HY0
  isplitl [HY1]; · iexact HY1
  isplitl [HY2]; · iexact HY2
  isplitl [HY3]; · iexact HY3
  isplitl [HI]; · iexact HI
  isplitl [Hrows]
  · iexists _
    iapply (Entails.of_eq (iv_rows (F := F) d L _).symm)
    iexact Hrows
  isplitl [HR0]; · iexists _; iexact HR0
  isplitl [HR1]; · iexists _; iexact HR1
  isplitl [HR2]; · iexists _; iexact HR2
  isplitl [HR3]; · iexists _; iexact HR3
  isplitl [HG0]; · iexact HG0
  isplitl [HG1]; · iexact HG1
  isplitl [HG2]; · iexact HG2
  isplitl [HG3]; · iexact HG3
  isplitl [HW0]; · iexact HW0
  isplitl [HW1]; · iexact HW1
  isplitl [HW2]; · iexact HW2
  isplitl [HW3]; · iexact HW3
  isplitl [HS]; · iexact HS
  isplitl [Hout]; · iexact Hout
  iexists _; isplitr
  swap; · iexact HO
  ipureintro; exact hW'

/-! ## The tile's spellings against the launch's: the worker number, the slab, the share of y -/

omit [FloatOps F] in
theorem L0_lt (L : grid3.Coords) : (L 0).val < 2 := (L 0).isLt
omit [FloatOps F] in
theorem L1_lt (L : grid3.Coords) : (L 1).val < 16 := (L 1).isLt

/-- The tile's worker number: subcore-major, as the kernel computes it. -/
def widL (L : grid3.Coords) : Fin 32 := ⟨(L 1).val * 2 + (L 0).val, by have := L0_lt L; have := L1_lt L; omega⟩

omit [FloatOps F] in
/-- The slab the program slices is the worker's part of the index array. -/
theorem slab_rect (L : grid3.Coords) :
    Rect.unit (s := S32x32x128) (k3_off1 L) S1x32x128.size (k3_off1_inb L) = slabRect (widL L) := by
  unfold slabRect Rect.part Rect.block
  refine Rect.unit_congr ?_ ?_ _ _
  · rw [Gen.k3_off1_eq]
    funext a
    match a with
    | 0 => show 2 * (L 1).val + (L 0).val = ((L 1).val * 2 + (L 0).val) * (32 / 32); omega
    | 1 => rfl
    | 2 => rfl
  · funext a
    match a with
    | 0 => rfl
    | 1 => rfl
    | 2 => rfl

omit [FloatOps F] in
theorem set_slabK (L : grid3.Coords) : (slabK L).view.set = (slabRect (widL L)).set := by
  show (((ixV).view.slice (Rect.unit (s := S32x32x128) (k3_off1 L) S1x32x128.size (k3_off1_inb L))).reshape S32x128 squeezes_S1x32x128_S32x128.numel_eq).set = _
  rw [View.set_reshape]
  exact (View.set_slice_whole _ _).trans (congrArg (fun r : Rect S32x32x128 => r.set) (slab_rect L))

omit [FloatOps F] in
/-- The slab held, in the tile's spelling and in the launch's. -/
theorem pts_slabK (d : Dev nD) (L : grid3.Coords) (f : Buf (Elt F) (ixLoc1 d)) :
    (heldW d L (slabK L) fullShare f : sProp 𝕄) = (ixLoc1 d ↦[(slabRect (widL L)).set]{fullShare} f) := by
  unfold heldW
  rw [set_slabK]

omit [FloatOps F] in
/-- Every word of the slab is a row number of y, in the tile's reading of it. -/
theorem hin_slabK (d : Dev nD) (L : grid3.Coords) (f : Buf (Elt F) (ixLoc1 d))
    (h : ∀ j ∈ (slabRect (widL L)).set, (f j).toNat < 8192) :
    ∀ x, ((slabK L).view.read (Elt F) f x).toNat < 8192 := by
  intro x
  rw [View.read_apply]
  refine h _ ?_
  rw [← set_slabK]
  exact Finset.mem_map_of_mem _ (Finset.mem_univ x)

omit [FloatOps F] in
/-- All of y held at a share, in the tile's spelling and in the launch's. -/
theorem pts_yV (d : Dev nD) (L : grid3.Coords) (s : PosShare TreeShare) (f : Buf (Elt F) (yLoc d)) :
    (heldW d L yV s f : sProp 𝕄) = (yLoc d ↦{s} f) := by
  unfold heldW
  rw [show (yV).view.set = Finset.univ from View.set_whole _]

/-! ## The tile's 32 output chunks are the worker's 4096 rows of the output -/

abbrev oLocV (d : Dev nD) (L : grid3.Coords) : Loc nD τ sig := (oV).view.loc (thrV d L)

omit [FloatOps F] in
theorem mem_rowsRect (L : grid3.Coords) (i : S131072x128.Idx) :
    i ∈ (rowsRect (widL L)).set ↔ 4096 * (widL L).val ≤ (i 0).val ∧ (i 0).val < 4096 * (widL L).val + 4096 := by
  unfold rowsRect Rect.part Rect.block
  rw [Rect.mem_set_unit, Fin.forall_fin_two]
  have h1 : (i 1).val < 128 := (i 1).isLt
  show ((widL L).val * (131072 / 32) ≤ (i 0).val ∧ (i 0).val < (widL L).val * (131072 / 32) + 131072 / 32)
      ∧ (0 * 128 ≤ (i 1).val ∧ (i 1).val < 0 * 128 + 128) ↔ _
  omega

omit [FloatOps F] in
theorem mem_chunk (L : grid3.Coords) (t : Fin k3_t1_loop.trips) (r : Fin 4) (i : S131072x128.Idx) :
    i ∈ (Rect.unit (s := S131072x128) (k3_off3 L t (BitVec.ofNat 32 r.val)) S128x128.size (k3_off3_inb L t r)).set
      ↔ 4096 * (widL L).val + 512 * t.val + 128 * r.val ≤ (i 0).val ∧ (i 0).val < 4096 * (widL L).val + 512 * t.val + 128 * r.val + 128 := by
  rw [Rect.mem_set_unit, Gen.k3_off3_eq, Fin.forall_fin_two]
  have h1 : (i 1).val < 128 := (i 1).isLt
  show ((8192 * (L 1).val + 4096 * (L 0).val + 512 * t.val + 128 * r.val ≤ (i 0).val
        ∧ (i 0).val < 8192 * (L 1).val + 4096 * (L 0).val + 512 * t.val + 128 * r.val + 128)
      ∧ (0 ≤ (i 1).val ∧ (i 1).val < 0 + 128))
    ↔ 4096 * ((L 1).val * 2 + (L 0).val) + 512 * t.val + 128 * r.val ≤ (i 0).val
      ∧ (i 0).val < 4096 * ((L 1).val * 2 + (L 0).val) + 512 * t.val + 128 * r.val + 128
  omega

/-- The elements of output chunk 4t + r of the tile. -/
abbrev chunkSet (L : grid3.Coords) (t : Fin k3_t1_loop.trips) (r : Fin 4) : Finset S131072x128.Idx :=
  (Rect.unit (s := S131072x128) (k3_off3 L t (BitVec.ofNat 32 r.val)) S128x128.size (k3_off3_inb L t r)).set

/-- The elements of the four chunks of trip t. -/
abbrev tripSet (L : grid3.Coords) (t : Fin k3_t1_loop.trips) : Finset S131072x128.Idx :=
  chunkSet L t 0 ∪ (chunkSet L t 1 ∪ (chunkSet L t 2 ∪ chunkSet L t 3))

omit [FloatOps F] in
theorem chunk_disjoint (L : grid3.Coords) (t : Fin k3_t1_loop.trips) {r r' : Fin 4} (h : r ≠ r') : Disjoint (chunkSet L t r) (chunkSet L t r') := by
  refine Finset.disjoint_left.mpr fun i hi hi' => h (Fin.ext ?_)
  rw [mem_chunk] at hi hi'
  omega

omit [FloatOps F] in
theorem mem_tripSet (L : grid3.Coords) (t : Fin k3_t1_loop.trips) (i : S131072x128.Idx) :
    i ∈ tripSet L t ↔ 4096 * (widL L).val + 512 * t.val ≤ (i 0).val ∧ (i 0).val < 4096 * (widL L).val + 512 * t.val + 512 := by
  simp only [tripSet, Finset.mem_union, mem_chunk]
  show _ ↔ _
  have e0 : ((0 : Fin 4) : ℕ) = 0 := rfl
  have e1 : ((1 : Fin 4) : ℕ) = 1 := rfl
  have e2 : ((2 : Fin 4) : ℕ) = 2 := rfl
  have e3 : ((3 : Fin 4) : ℕ) = 3 := rfl
  rw [e0, e1, e2, e3]
  omega

omit [FloatOps F] in
theorem trip_disjoint (L : grid3.Coords) {t t' : Fin k3_t1_loop.trips} (h : t ≠ t') : Disjoint (tripSet L t) (tripSet L t') := by
  refine Finset.disjoint_left.mpr fun i hi hi' => h (Fin.ext ?_)
  rw [mem_tripSet] at hi hi'
  omega

omit [FloatOps F] in
/-- The worker's 4096 rows are the eight trips' chunks. -/
theorem rows_cover (L : grid3.Coords) : (rowsRect (widL L)).set = Finset.univ.biUnion (tripSet L) := by
  ext i
  rw [mem_rowsRect, Finset.mem_biUnion]
  constructor
  · intro h
    have h8 : ((i 0).val - 4096 * (widL L).val) / 512 < k3_t1_loop.trips := by rw [trips_eq]; omega
    refine ⟨⟨((i 0).val - 4096 * (widL L).val) / 512, h8⟩, Finset.mem_univ _, ?_⟩
    rw [mem_tripSet]
    show 4096 * (widL L).val + 512 * (((i 0).val - 4096 * (widL L).val) / 512) ≤ (i 0).val
      ∧ (i 0).val < 4096 * (widL L).val + 512 * (((i 0).val - 4096 * (widL L).val) / 512) + 512
    omega
  · rintro ⟨t, -, ht⟩
    rw [mem_tripSet] at ht
    have ht8 : t.val < 8 := trips_eq ▸ t.isLt
    omega

omit [FloatOps F] in
theorem set_outK0 (L : grid3.Coords) (t : Fin k3_t1_loop.trips) : (outK0 L t).view.set = chunkSet L t 0 := View.set_slice_whole _ _
omit [FloatOps F] in
theorem set_outK1 (L : grid3.Coords) (t : Fin k3_t1_loop.trips) : (outK1 L t).view.set = chunkSet L t 1 := View.set_slice_whole _ _
omit [FloatOps F] in
theorem set_outK2 (L : grid3.Coords) (t : Fin k3_t1_loop.trips) : (outK2 L t).view.set = chunkSet L t 2 := View.set_slice_whole _ _
omit [FloatOps F] in
theorem set_outK3 (L : grid3.Coords) (t : Fin k3_t1_loop.trips) : (outK3 L t).view.set = chunkSet L t 3 := View.set_slice_whole _ _

omit [FloatOps F] in
theorem pts_outK0 (d : Dev nD) (L : grid3.Coords) (t : Fin k3_t1_loop.trips) (f : Buf (Elt F) (oLoc1 d)) :
    (heldW d L (outK0 L t) fullShare f : sProp 𝕄) = (oLoc1 d ↦[chunkSet L t 0]{fullShare} f) := by
  unfold heldW; rw [set_outK0]
omit [FloatOps F] in
theorem pts_outK1 (d : Dev nD) (L : grid3.Coords) (t : Fin k3_t1_loop.trips) (f : Buf (Elt F) (oLoc1 d)) :
    (heldW d L (outK1 L t) fullShare f : sProp 𝕄) = (oLoc1 d ↦[chunkSet L t 1]{fullShare} f) := by
  unfold heldW; rw [set_outK1]
omit [FloatOps F] in
theorem pts_outK2 (d : Dev nD) (L : grid3.Coords) (t : Fin k3_t1_loop.trips) (f : Buf (Elt F) (oLoc1 d)) :
    (heldW d L (outK2 L t) fullShare f : sProp 𝕄) = (oLoc1 d ↦[chunkSet L t 2]{fullShare} f) := by
  unfold heldW; rw [set_outK2]
omit [FloatOps F] in
theorem pts_outK3 (d : Dev nD) (L : grid3.Coords) (t : Fin k3_t1_loop.trips) (f : Buf (Elt F) (oLoc1 d)) :
    (heldW d L (outK3 L t) fullShare f : sProp 𝕄) = (oLoc1 d ↦[chunkSet L t 3]{fullShare} f) := by
  unfold heldW; rw [set_outK3]

omit [FloatOps F] in
theorem d23 (L : grid3.Coords) (t : Fin k3_t1_loop.trips) : Disjoint (chunkSet L t 2) (chunkSet L t 3) := chunk_disjoint L t (by decide)
omit [FloatOps F] in
theorem d1_23 (L : grid3.Coords) (t : Fin k3_t1_loop.trips) : Disjoint (chunkSet L t 1) (chunkSet L t 2 ∪ chunkSet L t 3) :=
  Finset.disjoint_union_right.mpr ⟨chunk_disjoint L t (by decide), chunk_disjoint L t (by decide)⟩
omit [FloatOps F] in
theorem d0_123 (L : grid3.Coords) (t : Fin k3_t1_loop.trips) : Disjoint (chunkSet L t 0) (chunkSet L t 1 ∪ (chunkSet L t 2 ∪ chunkSet L t 3)) :=
  Finset.disjoint_union_right.mpr ⟨chunk_disjoint L t (by decide),
    Finset.disjoint_union_right.mpr ⟨chunk_disjoint L t (by decide), chunk_disjoint L t (by decide)⟩⟩

omit [FloatOps F] in
/-- The worker's rows of the output, held at some contents, are its 32 chunks held each. -/
theorem out_split (d : Dev nD) (L : grid3.Coords) (fo : Buf (Elt F) (oLoc1 d)) :
    (oLoc1 d ↦[(rowsRect (widL L)).set]{fullShare} fo : sProp 𝕄) ⊢ bigSep Finset.univ (outTrip d L) := by
  have step : ∀ t, (oLoc1 d ↦[tripSet L t]{fullShare} fo : sProp 𝕄) ⊢ outTrip d L t := by
    intro t
    iintro H
    ihave H := (pointsTo_union (ℓ := oLoc1 d) (d0_123 L t)).1 $$ H
    icases H with ⟨H0, H⟩
    ihave H := (pointsTo_union (ℓ := oLoc1 d) (d1_23 L t)).1 $$ H
    icases H with ⟨H1, H⟩
    ihave H := (pointsTo_union (ℓ := oLoc1 d) (d23 L t)).1 $$ H
    icases H with ⟨H2, H3⟩
    isplitl [H0]; · iexists fo; iapply (Entails.of_eq (pts_outK0 (F := F) d L t fo).symm); iexact H0
    isplitl [H1]; · iexists fo; iapply (Entails.of_eq (pts_outK1 (F := F) d L t fo).symm); iexact H1
    isplitl [H2]; · iexists fo; iapply (Entails.of_eq (pts_outK2 (F := F) d L t fo).symm); iexact H2
    iexists fo; iapply (Entails.of_eq (pts_outK3 (F := F) d L t fo).symm); iexact H3
  rw [rows_cover]
  refine (Entails.of_eq (pointsTo_biUnion (ℓ := oLoc1 d) (q := fullShare) (f := fo) Finset.univ (tripSet L) (fun t _ t' _ h => trip_disjoint L h))).trans ?_
  exact bigSep_mono fun t _ => step t

/-- and back: the 32 chunks at some contents each are the worker's rows at some contents. -/
theorem out_join (d : Dev nD) (L : grid3.Coords) :
    bigSep Finset.univ (outTrip d L) ⊢ (iprop(∃ fo, oLoc1 d ↦[(rowsRect (widL L)).set]{fullShare} fo) : sProp 𝕄) := by
  have step : ∀ t, outTrip d L t ⊢ (iprop(∃ g, oLoc1 d ↦[tripSet L t]{fullShare} g) : sProp 𝕄) := by
    intro t
    iintro ⟨⟨%g0, H0⟩, ⟨%g1, H1⟩, ⟨%g2, H2⟩, ⟨%g3, H3⟩⟩
    ihave K0 := (Entails.of_eq (pts_outK0 (F := F) d L t g0)) $$ H0
    ihave K1 := (Entails.of_eq (pts_outK1 (F := F) d L t g1)) $$ H1
    ihave K2 := (Entails.of_eq (pts_outK2 (F := F) d L t g2)) $$ H2
    ihave K3 := (Entails.of_eq (pts_outK3 (F := F) d L t g3)) $$ H3
    ihave H23 := (pointsTo_join (ℓ := oLoc1 d) (d23 L t)) $$ [K2 K3]
    · isplitl [K2]; · iexact K2
      iexact K3
    ihave H123 := (pointsTo_join (ℓ := oLoc1 d) (d1_23 L t)) $$ [K1 H23]
    · isplitl [K1]; · iexact K1
      iexact H23
    ihave H0123 := (pointsTo_join (ℓ := oLoc1 d) (d0_123 L t)) $$ [K0 H123]
    · isplitl [K0]; · iexact K0
      iexact H123
    iexists _; iexact H0123
  refine (bigSep_mono fun t _ => step t).trans ?_
  refine (bigSep_exists_pi Finset.univ (fun t (g : Buf (Elt F) (oLoc1 d)) => (oLoc1 d ↦[tripSet L t]{fullShare} g : sProp 𝕄))).trans ?_
  iintro ⟨%gs, H⟩
  ihave H' := (pointsTo_biUnion_join (ℓ := oLoc1 d) (q := fullShare) (Val := Elt F) Finset.univ (tripSet L) gs (gs ⟨0, by rw [trips_eq]; omega⟩)
    (fun t _ t' _ h => trip_disjoint L h)) $$ H
  icases H' with ⟨%g, -, Hg⟩
  rw [rows_cover]
  iexists g; iexact Hg

/-! ## The tile's scoped storage: its five buffers and nine semaphores among all it owns -/

abbrev cellOf (d : Dev nD) (L : grid3.Coords) (a : DmaSems sig S_) : GSem nD τ sig := (thrV d L, SemLoc.dma a.sem)
abbrev bufOf (L : grid3.Coords) (b : Ref sig .scVector) : DevRef τ sig := (Proc.scVector (cV L) (jV L)).devRef b

omit [FloatOps F] in
theorem cell_ne (thr : Thread nD τ) {a b : SemLoc sig} (h : a ≠ b) : ((thr, a) : GSem nD τ sig) ≠ (thr, b) := fun e => h (congrArg Prod.snd e)
omit [FloatOps F] in
theorem buf_ne (L : grid3.Coords) {a b : Ref sig .scVector} (h : a ≠ b) : bufOf L a ≠ bufOf L b := fun e => h (Proc.devRef_injective _ e)

/-- The scoped semaphores of the tile other than the nine the body uses. -/
abbrev restCells (d : Dev nD) (L : grid3.Coords) : Finset (GSem nD τ sig) :=
  ((((((((((ownCells (thrV d L)).erase (cellOf d L cc3_scratch5)).erase (cellOf d L cc3_scratch6)).erase (cellOf d L cc3_scratch7)).erase (cellOf d L cc3_scratch8)).erase (cellOf d L cc3_scratch9)).erase (cellOf d L cc3_scratch10)).erase (cellOf d L cc3_scratch11)).erase (cellOf d L cc3_scratch12)).erase (cellOf d L cc3_scoped0))

/-- The buffers of the tile other than the five the body uses. -/
abbrev restRefs (L : grid3.Coords) : Finset (DevRef τ sig) :=
  ((((((ownRefs (τ := τ) (.scVector (cV L) (jV L))).erase (bufOf L cc3_scratch0)).erase (bufOf L cc3_scratch1)).erase (bufOf L cc3_scratch2)).erase (bufOf L cc3_scratch3)).erase (bufOf L cc3_scratch4))

omit [FloatOps F] in
theorem tile_sems (d : Dev nD) (L : grid3.Coords) :
    (ownSems0 (thrV d L) : sProp 𝕄)
      = iprop(cellZ d L cc3_scratch5 ∗ cellZ d L cc3_scratch6 ∗ cellZ d L cc3_scratch7 ∗ cellZ d L cc3_scratch8
          ∗ cellZ d L cc3_scratch9 ∗ cellZ d L cc3_scratch10 ∗ cellZ d L cc3_scratch11 ∗ cellZ d L cc3_scratch12
          ∗ cellZ d L cc3_scoped0 ∗ bigSep (restCells d L) fun g => semVal g 0) := by
  unfold SparseCore.Cfg.ownSems0
  rw [SparseCore.bigSep_erase' ((mem_ownCells (g := (cellOf d L cc3_scratch5))).mpr ⟨rfl, by show (SemLoc.dma cc3_scratch5.sem : SemLoc sig).isScoped .scVector = true; decide⟩),
    SparseCore.bigSep_erase' (Finset.mem_erase.mpr ⟨cell_ne (thrV d L) (by decide : (SemLoc.dma cc3_scratch6.sem : SemLoc sig) ≠ SemLoc.dma cc3_scratch5.sem), ((mem_ownCells (g := (cellOf d L cc3_scratch6))).mpr ⟨rfl, by show (SemLoc.dma cc3_scratch6.sem : SemLoc sig).isScoped .scVector = true; decide⟩)⟩),
    SparseCore.bigSep_erase' (Finset.mem_erase.mpr ⟨cell_ne (thrV d L) (by decide : (SemLoc.dma cc3_scratch7.sem : SemLoc sig) ≠ SemLoc.dma cc3_scratch6.sem), (Finset.mem_erase.mpr ⟨cell_ne (thrV d L) (by decide : (SemLoc.dma cc3_scratch7.sem : SemLoc sig) ≠ SemLoc.dma cc3_scratch5.sem), ((mem_ownCells (g := (cellOf d L cc3_scratch7))).mpr ⟨rfl, by show (SemLoc.dma cc3_scratch7.sem : SemLoc sig).isScoped .scVector = true; decide⟩)⟩)⟩),
    SparseCore.bigSep_erase' (Finset.mem_erase.mpr ⟨cell_ne (thrV d L) (by decide : (SemLoc.dma cc3_scratch8.sem : SemLoc sig) ≠ SemLoc.dma cc3_scratch7.sem), (Finset.mem_erase.mpr ⟨cell_ne (thrV d L) (by decide : (SemLoc.dma cc3_scratch8.sem : SemLoc sig) ≠ SemLoc.dma cc3_scratch6.sem), (Finset.mem_erase.mpr ⟨cell_ne (thrV d L) (by decide : (SemLoc.dma cc3_scratch8.sem : SemLoc sig) ≠ SemLoc.dma cc3_scratch5.sem), ((mem_ownCells (g := (cellOf d L cc3_scratch8))).mpr ⟨rfl, by show (SemLoc.dma cc3_scratch8.sem : SemLoc sig).isScoped .scVector = true; decide⟩)⟩)⟩)⟩),
    SparseCore.bigSep_erase' (Finset.mem_erase.mpr ⟨cell_ne (thrV d L) (by decide : (SemLoc.dma cc3_scratch9.sem : SemLoc sig) ≠ SemLoc.dma cc3_scratch8.sem), (Finset.mem_erase.mpr ⟨cell_ne (thrV d L) (by decide : (SemLoc.dma cc3_scratch9.sem : SemLoc sig) ≠ SemLoc.dma cc3_scratch7.sem), (Finset.mem_erase.mpr ⟨cell_ne (thrV d L) (by decide : (SemLoc.dma cc3_scratch9.sem : SemLoc sig) ≠ SemLoc.dma cc3_scratch6.sem), (Finset.mem_erase.mpr ⟨cell_ne (thrV d L) (by decide : (SemLoc.dma cc3_scratch9.sem : SemLoc sig) ≠ SemLoc.dma cc3_scratch5.sem), ((mem_ownCells (g := (cellOf d L cc3_scratch9))).mpr ⟨rfl, by show (SemLoc.dma cc3_scratch9.sem : SemLoc sig).isScoped .scVector = true; decide⟩)⟩)⟩)⟩)⟩),
    SparseCore.bigSep_erase' (Finset.mem_erase.mpr ⟨cell_ne (thrV d L) (by decide : (SemLoc.dma cc3_scratch10.sem : SemLoc sig) ≠ SemLoc.dma cc3_scratch9.sem), (Finset.mem_erase.mpr ⟨cell_ne (thrV d L) (by decide : (SemLoc.dma cc3_scratch10.sem : SemLoc sig) ≠ SemLoc.dma cc3_scratch8.sem), (Finset.mem_erase.mpr ⟨cell_ne (thrV d L) (by decide : (SemLoc.dma cc3_scratch10.sem : SemLoc sig) ≠ SemLoc.dma cc3_scratch7.sem), (Finset.mem_erase.mpr ⟨cell_ne (thrV d L) (by decide : (SemLoc.dma cc3_scratch10.sem : SemLoc sig) ≠ SemLoc.dma cc3_scratch6.sem), (Finset.mem_erase.mpr ⟨cell_ne (thrV d L) (by decide : (SemLoc.dma cc3_scratch10.sem : SemLoc sig) ≠ SemLoc.dma cc3_scratch5.sem), ((mem_ownCells (g := (cellOf d L cc3_scratch10))).mpr ⟨rfl, by show (SemLoc.dma cc3_scratch10.sem : SemLoc sig).isScoped .scVector = true; decide⟩)⟩)⟩)⟩)⟩)⟩),
    SparseCore.bigSep_erase' (Finset.mem_erase.mpr ⟨cell_ne (thrV d L) (by decide : (SemLoc.dma cc3_scratch11.sem : SemLoc sig) ≠ SemLoc.dma cc3_scratch10.sem), (Finset.mem_erase.mpr ⟨cell_ne (thrV d L) (by decide : (SemLoc.dma cc3_scratch11.sem : SemLoc sig) ≠ SemLoc.dma cc3_scratch9.sem), (Finset.mem_erase.mpr ⟨cell_ne (thrV d L) (by decide : (SemLoc.dma cc3_scratch11.sem : SemLoc sig) ≠ SemLoc.dma cc3_scratch8.sem), (Finset.mem_erase.mpr ⟨cell_ne (thrV d L) (by decide : (SemLoc.dma cc3_scratch11.sem : SemLoc sig) ≠ SemLoc.dma cc3_scratch7.sem), (Finset.mem_erase.mpr ⟨cell_ne (thrV d L) (by decide : (SemLoc.dma cc3_scratch11.sem : SemLoc sig) ≠ SemLoc.dma cc3_scratch6.sem), (Finset.mem_erase.mpr ⟨cell_ne (thrV d L) (by decide : (SemLoc.dma cc3_scratch11.sem : SemLoc sig) ≠ SemLoc.dma cc3_scratch5.sem), ((mem_ownCells (g := (cellOf d L cc3_scratch11))).mpr ⟨rfl, by show (SemLoc.dma cc3_scratch11.sem : SemLoc sig).isScoped .scVector = true; decide⟩)⟩)⟩)⟩)⟩)⟩)⟩),
    SparseCore.bigSep_erase' (Finset.mem_erase.mpr ⟨cell_ne (thrV d L) (by decide : (SemLoc.dma cc3_scratch12.sem : SemLoc sig) ≠ SemLoc.dma cc3_scratch11.sem), (Finset.mem_erase.mpr ⟨cell_ne (thrV d L) (by decide : (SemLoc.dma cc3_scratch12.sem : SemLoc sig) ≠ SemLoc.dma cc3_scratch10.sem), (Finset.mem_erase.mpr ⟨cell_ne (thrV d L) (by decide : (SemLoc.dma cc3_scratch12.sem : SemLoc sig) ≠ SemLoc.dma cc3_scratch9.sem), (Finset.mem_erase.mpr ⟨cell_ne (thrV d L) (by decide : (SemLoc.dma cc3_scratch12.sem : SemLoc sig) ≠ SemLoc.dma cc3_scratch8.sem), (Finset.mem_erase.mpr ⟨cell_ne (thrV d L) (by decide : (SemLoc.dma cc3_scratch12.sem : SemLoc sig) ≠ SemLoc.dma cc3_scratch7.sem), (Finset.mem_erase.mpr ⟨cell_ne (thrV d L) (by decide : (SemLoc.dma cc3_scratch12.sem : SemLoc sig) ≠ SemLoc.dma cc3_scratch6.sem), (Finset.mem_erase.mpr ⟨cell_ne (thrV d L) (by decide : (SemLoc.dma cc3_scratch12.sem : SemLoc sig) ≠ SemLoc.dma cc3_scratch5.sem), ((mem_ownCells (g := (cellOf d L cc3_scratch12))).mpr ⟨rfl, by show (SemLoc.dma cc3_scratch12.sem : SemLoc sig).isScoped .scVector = true; decide⟩)⟩)⟩)⟩)⟩)⟩)⟩)⟩),
    SparseCore.bigSep_erase' (Finset.mem_erase.mpr ⟨cell_ne (thrV d L) (by decide : (SemLoc.dma cc3_scoped0.sem : SemLoc sig) ≠ SemLoc.dma cc3_scratch12.sem), (Finset.mem_erase.mpr ⟨cell_ne (thrV d L) (by decide : (SemLoc.dma cc3_scoped0.sem : SemLoc sig) ≠ SemLoc.dma cc3_scratch11.sem), (Finset.mem_erase.mpr ⟨cell_ne (thrV d L) (by decide : (SemLoc.dma cc3_scoped0.sem : SemLoc sig) ≠ SemLoc.dma cc3_scratch10.sem), (Finset.mem_erase.mpr ⟨cell_ne (thrV d L) (by decide : (SemLoc.dma cc3_scoped0.sem : SemLoc sig) ≠ SemLoc.dma cc3_scratch9.sem), (Finset.mem_erase.mpr ⟨cell_ne (thrV d L) (by decide : (SemLoc.dma cc3_scoped0.sem : SemLoc sig) ≠ SemLoc.dma cc3_scratch8.sem), (Finset.mem_erase.mpr ⟨cell_ne (thrV d L) (by decide : (SemLoc.dma cc3_scoped0.sem : SemLoc sig) ≠ SemLoc.dma cc3_scratch7.sem), (Finset.mem_erase.mpr ⟨cell_ne (thrV d L) (by decide : (SemLoc.dma cc3_scoped0.sem : SemLoc sig) ≠ SemLoc.dma cc3_scratch6.sem), (Finset.mem_erase.mpr ⟨cell_ne (thrV d L) (by decide : (SemLoc.dma cc3_scoped0.sem : SemLoc sig) ≠ SemLoc.dma cc3_scratch5.sem), ((mem_ownCells (g := (cellOf d L cc3_scoped0))).mpr ⟨rfl, by show (SemLoc.dma cc3_scoped0.sem : SemLoc sig).isScoped .scVector = true; decide⟩)⟩)⟩)⟩)⟩)⟩)⟩)⟩)⟩)]

omit [FloatOps F] in
theorem tile_bufs (d : Dev nD) (L : grid3.Coords) :
    (ownBufs (thrV d L) : sProp 𝕄)
      = iprop((∃ f, (thrV d L).loc cc3_scratch0 ↦{fullShare} f) ∗ (∃ f, (thrV d L).loc cc3_scratch1 ↦{fullShare} f)
          ∗ (∃ f, (thrV d L).loc cc3_scratch2 ↦{fullShare} f) ∗ (∃ f, (thrV d L).loc cc3_scratch3 ↦{fullShare} f)
          ∗ (∃ f, (thrV d L).loc cc3_scratch4 ↦{fullShare} f)
          ∗ bigSep (restRefs L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (bufOf L cc3_scratch0)) rfl)).trans ?_
  rw [SparseCore.bigSep_erase' (Finset.mem_erase.mpr ⟨buf_ne L (by decide : (cc3_scratch1 : Ref sig .scVector) ≠ cc3_scratch0), (SparseCore.Cfg.mem_ownRefs_of_owner (p := Proc.scVector (cV L) (jV L)) (b := (bufOf L cc3_scratch1)) rfl)⟩),
    SparseCore.bigSep_erase' (Finset.mem_erase.mpr ⟨buf_ne L (by decide : (cc3_scratch2 : Ref sig .scVector) ≠ cc3_scratch1), (Finset.mem_erase.mpr ⟨buf_ne L (by decide : (cc3_scratch2 : Ref sig .scVector) ≠ cc3_scratch0), (SparseCore.Cfg.mem_ownRefs_of_owner (p := Proc.scVector (cV L) (jV L)) (b := (bufOf L cc3_scratch2)) rfl)⟩)⟩),
    SparseCore.bigSep_erase' (Finset.mem_erase.mpr ⟨buf_ne L (by decide : (cc3_scratch3 : Ref sig .scVector) ≠ cc3_scratch2), (Finset.mem_erase.mpr ⟨buf_ne L (by decide : (cc3_scratch3 : Ref sig .scVector) ≠ cc3_scratch1), (Finset.mem_erase.mpr ⟨buf_ne L (by decide : (cc3_scratch3 : Ref sig .scVector) ≠ cc3_scratch0), (SparseCore.Cfg.mem_ownRefs_of_owner (p := Proc.scVector (cV L) (jV L)) (b := (bufOf L cc3_scratch3)) rfl)⟩)⟩)⟩),
    SparseCore.bigSep_erase' (Finset.mem_erase.mpr ⟨buf_ne L (by decide : (cc3_scratch4 : Ref sig .scVector) ≠ cc3_scratch3), (Finset.mem_erase.mpr ⟨buf_ne L (by decide : (cc3_scratch4 : Ref sig .scVector) ≠ cc3_scratch2), (Finset.mem_erase.mpr ⟨buf_ne L (by decide : (cc3_scratch4 : Ref sig .scVector) ≠ cc3_scratch1), (Finset.mem_erase.mpr ⟨buf_ne L (by decide : (cc3_scratch4 : Ref sig .scVector) ≠ cc3_scratch0), (SparseCore.Cfg.mem_ownRefs_of_owner (p := Proc.scVector (cV L) (jV L)) (b := (bufOf L cc3_scratch4)) rfl)⟩)⟩)⟩)⟩)]

omit [FloatOps F] in
/-- A whole buffer held by the tile, in the two spellings. -/
theorem pts_whole (d : Dev nD) (L : grid3.Coords) (b : Ref sig .scVector) (s : PosShare TreeShare) (f : Buf (Elt F) ((thrV d L).loc b)) :
    ((Memref.whole b).view.loc (thrV d L) ↦[(Memref.whole b).view.set]{s} f : sProp 𝕄) = ((thrV d L).loc b ↦{s} f) := by
  rw [show (Memref.whole b).view.set = Finset.univ from View.set_whole _]

/-! ## The tile's share of y as four read shares, one per gather semaphore, and what is kept aside -/

/-- What is kept aside of a share of y while the four gathers hold theirs. -/
abbrev yKeep (ℓ : Loc nD τ sig) (q : PosShare TreeShare) (f : Buf (Elt F) ℓ) : sProp 𝕄 :=
  iprop((ℓ ↦{Transfers.shareDrop q 30} f)
    ∗ bigSep (((((Finset.range 30).erase 26).erase 27).erase 28).erase 29) (fun i => (ℓ ↦{Transfers.shareTokN q i} f : sProp 𝕄)))

omit [FloatOps F] in
theorem y_toks (ℓ : Loc nD τ sig) (q : PosShare TreeShare) (f : Buf (Elt F) ℓ) :
    (ℓ ↦{q} f : sProp 𝕄) ⊣⊢ iprop((ℓ ↦{Transfers.shareTokN q 26} f) ∗ (ℓ ↦{Transfers.shareTokN q 27} f)
      ∗ (ℓ ↦{Transfers.shareTokN q 28} f) ∗ (ℓ ↦{Transfers.shareTokN q 29} f) ∗ yKeep ℓ q f) := by
  have h := Transfers.pointsTo_toks_range (Ix := HIx 4) (Name := ℕ) (U := UU) (Lvl := ℕ) (ℓ := ℓ) (S := Finset.univ) (f := f) q 30
  have e : bigSep (Finset.range 30) (fun i => (ℓ ↦{Transfers.shareTokN q i} f : sProp 𝕄))
      = iprop((ℓ ↦{Transfers.shareTokN q 26} f) ∗ (ℓ ↦{Transfers.shareTokN q 27} f) ∗ (ℓ ↦{Transfers.shareTokN q 28} f) ∗ (ℓ ↦{Transfers.shareTokN q 29} f)
          ∗ bigSep (((((Finset.range 30).erase 26).erase 27).erase 28).erase 29) (fun i => (ℓ ↦{Transfers.shareTokN q i} f : sProp 𝕄))) := by
    rw [SparseCore.bigSep_erase' (by decide : 26 ∈ Finset.range 30), SparseCore.bigSep_erase' (by decide : 27 ∈ (Finset.range 30).erase 26),
      SparseCore.bigSep_erase' (by decide : 28 ∈ ((Finset.range 30).erase 26).erase 27),
      SparseCore.bigSep_erase' (by decide : 29 ∈ (((Finset.range 30).erase 26).erase 27).erase 28)]
  constructor
  · refine h.1.trans ?_
    rw [e]
    iintro ⟨Hd, H5, H6, H7, H8, Hr⟩
    isplitl [H5]; · iexact H5
    isplitl [H6]; · iexact H6
    isplitl [H7]; · iexact H7
    isplitl [H8]; · iexact H8
    isplitl [Hd]; · iexact Hd
    iexact Hr
  · refine BIBase.Entails.trans ?_ h.2
    rw [e]
    iintro ⟨H5, H6, H7, H8, Hd, Hr⟩
    isplitl [Hd]; · iexact Hd
    isplitl [H5]; · iexact H5
    isplitl [H6]; · iexact H6
    isplitl [H7]; · iexact H7
    isplitl [H8]; · iexact H8
    iexact Hr

/-! ## The body from what the launch hands the tile -/

set_option maxHeartbeats 4000000 in
/-- The body on tile (L 0, L 1) of device d from the worker's share as the launch states it — a share of y, its slab of
    the index array with every word a row number of y, its 4096 rows of the output — and the tile's scoped storage;
    it hands the same back, the output rows and the local buffers at some contents, owing what it owed. -/
theorem gk_body (hF : (K (F := F)).Facts) (d : Dev nD) (L : grid3.Coords)
    (O : CellTallies nD τ sig (HIx 4)) (W : Waits sig (HIx 4)) (hO : ∀ g, O g none = 0) :
    (iprop(levAts (K (F := F)).L (K (F := F)).lev ∗ share1 (F := F) d (widL L)
        ∗ scopedBufs (thrV d L) ∗ scopedSems0 (thrV d L) ∗ owes (thrV d L) O W) : sProp 𝕄)
      ⊢ wp frame (wpE (defs₀ (F := F)) 𝒱₀ (thrV d L) none) Set.univ
          (cc3_gk L yV (Memref.isWhole_whole _) ixV (Memref.isWhole_whole _) oV (Memref.isWhole_whole _)
            ivV (Memref.isWhole_whole _) r0V (Memref.isWhole_whole _) r1V (Memref.isWhole_whole _)
            r2V (Memref.isWhole_whole _) r3V (Memref.isWhole_whole _)
            cc3_scratch5 cc3_scratch6 cc3_scratch7 cc3_scratch8 cc3_scratch9 cc3_scratch10 cc3_scratch11 cc3_scratch12 cc3_scoped0)
          fun _ => iprop(share1 (F := F) d (widL L) ∗ scopedBufs (thrV d L) ∗ scopedSems0 (thrV d L)
            ∗ ∃ W', ⌜∀ p ∈ W', p ∈ W ∨ p.2 = none⌝ ∗ owes (thrV d L) O W') := by
  rw [(K (F := F)).scopedBufs_V hF d (cV L) (jV L), SparseCore.Cfg.scopedSems0_V (Val := Elt F) d (cV L) (jV L), tile_sems, tile_bufs]
  unfold share1
  iintro ⟨#Hlv, ⟨⟨%fy, HY⟩, ⟨%fi, HI, %hfi⟩, ⟨%fo, HOut⟩⟩, ⟨⟨%fv, HV⟩, ⟨%f0, HR0⟩, ⟨%f1, HR1⟩, ⟨%f2, HR2⟩, ⟨%f3, HR3⟩, Hbufs⟩, ⟨HG0, HG1, HG2, HG3, HW0, HW1, HW2, HW3, HS, Hsems⟩, HO⟩
  ihave Hmw := (show levAts (K (F := F)).L (K (F := F)).lev ⊢ Transfers.MayWaits (thrV d L) (default : HIx 4) O from
    (K (F := F)).mayWaits_none (thr := thrV d L) hO) $$ Hlv
  -- the share of y as the four gathers' read shares and the rest
  ihave HYs := (y_toks (F := F) (yLoc d) (ysh (widL L)) fy).1 $$ HY
  icases HYs with ⟨HY0, HY1, HY2, HY3, Hkeep⟩
  ihave KY0 := (Entails.of_eq (pts_yV (F := F) d L _ fy).symm) $$ HY0
  ihave KY1 := (Entails.of_eq (pts_yV (F := F) d L _ fy).symm) $$ HY1
  ihave KY2 := (Entails.of_eq (pts_yV (F := F) d L _ fy).symm) $$ HY2
  ihave KY3 := (Entails.of_eq (pts_yV (F := F) d L _ fy).symm) $$ HY3
  -- the slab, the output rows as 32 chunks, the five local buffers, in the tile's spellings
  ihave KI := (Entails.of_eq (pts_slabK (F := F) d L fi).symm) $$ HI
  ihave KOut := (out_split (F := F) d L fo) $$ HOut
  ihave KV := (Entails.of_eq (pts_whole (F := F) d L cc3_scratch0 fullShare fv).symm) $$ HV
  ihave KR0 := (Entails.of_eq (pts_whole (F := F) d L cc3_scratch1 fullShare f0).symm) $$ HR0
  ihave KR1 := (Entails.of_eq (pts_whole (F := F) d L cc3_scratch2 fullShare f1).symm) $$ HR1
  ihave KR2 := (Entails.of_eq (pts_whole (F := F) d L cc3_scratch3 fullShare f2).symm) $$ HR2
  ihave KR3 := (Entails.of_eq (pts_whole (F := F) d L cc3_scratch4 fullShare f3).symm) $$ HR3
  iapply (wp_wand_r frame (wpE (defs₀ (F := F)) 𝒱₀ (thrV d L) none) Set.univ)
  isplitl [Hmw KY0 KY1 KY2 KY3 KI KV KR0 KR1 KR2 KR3 HG0 HG1 HG2 HG3 HW0 HW1 HW2 HW3 HS KOut HO]
  · iapply (gk_core d L (ysh (widL L)) O W fy fi fv f0 f1 f2 f3 (hin_slabK d L fi hfi))
    isplitl [Hmw]; · iexact Hmw
    isplitl [KY0]; · iexact KY0
    isplitl [KY1]; · iexact KY1
    isplitl [KY2]; · iexact KY2
    isplitl [KY3]; · iexact KY3
    isplitl [KI]; · iexact KI
    isplitl [KV]; · iexact KV
    isplitl [KR0]; · iexact KR0
    isplitl [KR1]; · iexact KR1
    isplitl [KR2]; · iexact KR2
    isplitl [KR3]; · iexact KR3
    isplitl [HG0]; · iexact HG0
    isplitl [HG1]; · iexact HG1
    isplitl [HG2]; · iexact HG2
    isplitl [HG3]; · iexact HG3
    isplitl [HW0]; · iexact HW0
    isplitl [HW1]; · iexact HW1
    isplitl [HW2]; · iexact HW2
    isplitl [HW3]; · iexact HW3
    isplitl [HS]; · iexact HS
    isplitl [KOut]; · iexact KOut
    iexact HO
  iintro %a ⟨HY0, HY1, HY2, HY3, HI, ⟨%gv, HV⟩, ⟨%g0, HR0⟩, ⟨%g1, HR1⟩, ⟨%g2, HR2⟩, ⟨%g3, HR3⟩, HG0, HG1, HG2, HG3, HW0, HW1, HW2, HW3, HS, HOut, HO⟩
  isplitl [HY0 HY1 HY2 HY3 Hkeep HI HOut]
  · isplitl [HY0 HY1 HY2 HY3 Hkeep]
    · iexists fy
      iapply (y_toks (F := F) (yLoc d) (ysh (widL L)) fy).2
      isplitl [HY0]; · iapply (Entails.of_eq (pts_yV (F := F) d L _ fy)); iexact HY0
      isplitl [HY1]; · iapply (Entails.of_eq (pts_yV (F := F) d L _ fy)); iexact HY1
      isplitl [HY2]; · iapply (Entails.of_eq (pts_yV (F := F) d L _ fy)); iexact HY2
      isplitl [HY3]; · iapply (Entails.of_eq (pts_yV (F := F) d L _ fy)); iexact HY3
      iexact Hkeep
    isplitl [HI]
    · iexists fi
      isplitl [HI]; · iapply (Entails.of_eq (pts_slabK (F := F) d L fi)); iexact HI
      ipureintro; exact hfi
    iapply (out_join (F := F) d L); iexact HOut
  isplitl [HV HR0 HR1 HR2 HR3 Hbufs]
  · isplitl [HV]; · iexists gv; iapply (Entails.of_eq (pts_whole (F := F) d L cc3_scratch0 fullShare gv)); iexact HV
    isplitl [HR0]; · iexists g0; iapply (Entails.of_eq (pts_whole (F := F) d L cc3_scratch1 fullShare g0)); iexact HR0
    isplitl [HR1]; · iexists g1; iapply (Entails.of_eq (pts_whole (F := F) d L cc3_scratch2 fullShare g1)); iexact HR1
    isplitl [HR2]; · iexists g2; iapply (Entails.of_eq (pts_whole (F := F) d L cc3_scratch3 fullShare g2)); iexact HR2
    isplitl [HR3]; · iexists g3; iapply (Entails.of_eq (pts_whole (F := F) d L cc3_scratch4 fullShare g3)); iexact HR3
    iexact Hbufs
  isplitl [HG0 HG1 HG2 HG3 HW0 HW1 HW2 HW3 HS Hsems]
  · isplitl [HG0]; · iexact HG0
    isplitl [HG1]; · iexact HG1
    isplitl [HG2]; · iexact HG2
    isplitl [HG3]; · iexact HG3
    isplitl [HW0]; · iexact HW0
    isplitl [HW1]; · iexact HW1
    isplitl [HW2]; · iexact HW2
    isplitl [HW3]; · iexact HW3
    isplitl [HS]; · iexact HS
    iexact Hsems
  iexact HO

/-! ## The launch theorem's obligation for the second call's tiles -/

/-- The grid coordinates of tile s of core c. -/
def coordsV (c : Fin (grid3.bound 0)) (s : Fin (grid3.bound 1)) : grid3.Coords :=
  fun | 0 => c | 1 => s | ⟨_ + 2, h⟩ => absurd h (Nat.not_lt.2 (Nat.le_add_left _ _))

/-- The body table's row for the second call on a vector subcore. -/
theorem defs₀_vec3 (c : Fin τ.nSC) (s : Fin τ.nSub) :
    defs₀ (F := F) (.scVector c s) 3 ()
      = SparseCore.onTile hcore3 hsub3 (fun c s => cc3_gk (coordsV c s)
          yV (Memref.isWhole_whole _) ixV (Memref.isWhole_whole _) oV (Memref.isWhole_whole _)
          ivV (Memref.isWhole_whole _) r0V (Memref.isWhole_whole _) r1V (Memref.isWhole_whole _)
          r2V (Memref.isWhole_whole _) r3V (Memref.isWhole_whole _)
          cc3_scratch5 cc3_scratch6 cc3_scratch7 cc3_scratch8 cc3_scratch9 cc3_scratch10 cc3_scratch11 cc3_scratch12 cc3_scoped0) ⟨⟩ c s := rfl

omit [FloatOps F] in
/-- A post over the waits already recorded or at no index is one over those or at the call's index. -/
theorem post_weaken {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The second call's share of tile i of core c is the share of the worker the tile's coordinates name. -/
theorem go_eq1 (d : Dev nD) (c : Fin ((K (F := F)).nCore 1)) (i : Fin ((K (F := F)).nSub 1))
    (h0 : ((K (F := F)).core 1 c).val < grid3.bound 0) (h1 : ((K (F := F)).sub 1 i).val < grid3.bound 1) :
    (P (F := F)).go 1 d c i = share1 (F := F) d (widL (coordsV ⟨((K (F := F)).core 1 c).val, h0⟩ ⟨((K (F := F)).sub 1 i).val, h1⟩)) := by
  show share1 (F := F) d (wid (Fin.cast (nCore_eq 1) c) (Fin.cast (nSub_eq 1) i)) = _
  congr 1

theorem td_eq1 (d : Dev nD) (c : Fin ((K (F := F)).nCore 1)) (i : Fin ((K (F := F)).nSub 1))
    (h0 : ((K (F := F)).core 1 c).val < grid3.bound 0) (h1 : ((K (F := F)).sub 1 i).val < grid3.bound 1) :
    (P (F := F)).td 1 d c i = share1 (F := F) d (widL (coordsV ⟨((K (F := F)).core 1 c).val, h0⟩ ⟨((K (F := F)).sub 1 i).val, h1⟩)) :=
  go_eq1 d c i h0 h1

set_option maxRecDepth 16384 in
/-- Every tile of the second call runs its body from its worker's share to its worker's share. -/
theorem tileObl1 (hF : (K (F := F)).Facts) : (K (F := F)).TileObl (D (F := F)) 𝒱₀.lift (P (F := F)) (Sum.inl none) 1 := by
  intro d c i O W hO _ _
  simp only [show (P (F := F)).ox = fun _ _ => 0 from rfl, add_zero]
  have hci : ((K (F := F)).core 1 c).val < grid3.bound 0 ∧ ((K (F := F)).sub 1 i).val < grid3.bound 1 := ⟨c.isLt, i.isLt⟩
  rw [go_eq1 d c i hci.1 hci.2, td_eq1 d c i hci.1 hci.2]
  change _ ⊢ wp _ _ _ (Pipeline.liftProg (defs₀ (F := F) (.scVector ((K (F := F)).core 1 c) ((K (F := F)).sub 1 i)) 3 ())) _
  refine BIBase.Entails.trans ?_ (Pipeline.wp_liftProg (D (F := F)) (Pipeline.defs_kernel pcfgs defs₀) 𝒱₀ _ Set.univ none _ _)
  rw [defs₀_vec3]; simp only [SparseCore.onTile, hci, and_self, ↓reduceDIte]
  refine BIBase.Entails.trans ?_ ((gk_body hF d (coordsV ⟨_, hci.1⟩ ⟨_, hci.2⟩) O W hO).trans (wp_mono frame _ _ fun _ => post_weaken))
  iintro ⟨Hlv, -, Hgo, Hb, Hs, HO⟩
  isplitl [Hlv]; · iexact Hlv
  isplitl [Hgo]; · iexact Hgo
  isplitl [Hb]; · iexact Hb
  isplitl [Hs]; · iexact Hs
  iexact HO

end Cert.Kernel.Sc.Gather1

end
-- ==== Proof.GatherBody5K.lean ====
/-
  The body of the sparse-core gather kernel of the third call, once, at a symbolic tile, for any float instance.

  Tile (c, s) is worker w = 2·s + c of 32. It copies slab w of the index array (32 lists of 128 row numbers) into its
  local index buffer, waits for the copy, and issues four indexed copies: rows idx[b][·] of y into row buffer b, on
  gather semaphore b (b = 0..3). Then eight trips; in trip g, for each slot b with j = 4g + b: wait for gather b (row
  buffer b holds the 128 rows list j names); copy row buffer b to output rows (32w + j)·128 … + 127 on write semaphore
  b; wait for it; and, when j + 4 < 32, issue the indexed copy of list j + 4 into row buffer b. One copy is outstanding
  per semaphore at any time, and nothing touches a copy's source or destination between its issue and its wait.
-/
import proofs.«215235_g2774548873965_cont_9to1_572_34_alg».proof.Proof.ScPayK
import Idealize.ShloMosaic.Lib.SparseCore.Launch
import Idealize.ShloMosaic.Lib.SparseCore.Ops
import Idealize.ShloMosaic.Lib.SparseCore.Stream
import Idealize.ShloMosaic.Lib.Transfers
import Idealize.ShloMosaic.Lib.Pipeline.Kit
import Idealize.ShloMosaic.Lib.Tactic
import proofs.«215235_g2774548873965_cont_9to1_572_34_alg».proof.Proof.Gen.Kernel.Skeleton

noncomputable section

namespace Cert.Kernel.Sc.Gather2

open Cert.Kernel
open Cert.Kernel.Facts₀ Cert.Kernel.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

/-! ## The tile and the buffers, as the program names them -/

abbrev cV (L : grid5.Coords) : Fin τ.nSC := (L 0).castLE hcore5
abbrev jV (L : grid5.Coords) : Fin τ.nSub := (L 1).castLE hsub5
abbrev thrV (d : Dev nD) (L : grid5.Coords) : Thread nD τ := V d (cV L) (jV L)

local notation "yV" => (Memref.whole Cert.Kernel.main_v1_scv : Memref Cert.Kernel.sig Kind.scVector Space.hbm Cert.Kernel.S8192x128 EltTy.f32)
local notation "ixV" => (Memref.whole Cert.Kernel.main_v27_scv : Memref Cert.Kernel.sig Kind.scVector Space.hbm Cert.Kernel.S32x32x128 EltTy.i32)
local notation "oV" => (Memref.whole Cert.Kernel.main_v28_scv : Memref Cert.Kernel.sig Kind.scVector Space.hbm Cert.Kernel.S131072x128 EltTy.f32)
local notation "ivV" => (Memref.whole Cert.Kernel.cc5_scratch0 : Memref Cert.Kernel.sig Kind.scVector Space.vmem Cert.Kernel.S32x128 EltTy.i32)
local notation "r0V" => (Memref.whole Cert.Kernel.cc5_scratch1 : Memref Cert.Kernel.sig Kind.scVector Space.vmem Cert.Kernel.S128x128 EltTy.f32)
local notation "r1V" => (Memref.whole Cert.Kernel.cc5_scratch2 : Memref Cert.Kernel.sig Kind.scVector Space.vmem Cert.Kernel.S128x128 EltTy.f32)
local notation "r2V" => (Memref.whole Cert.Kernel.cc5_scratch3 : Memref Cert.Kernel.sig Kind.scVector Space.vmem Cert.Kernel.S128x128 EltTy.f32)
local notation "r3V" => (Memref.whole Cert.Kernel.cc5_scratch4 : Memref Cert.Kernel.sig Kind.scVector Space.vmem Cert.Kernel.S128x128 EltTy.f32)

/-- The tile's slab of the index array, squeezed to its [32, 128] plane, as the program slices it. -/
abbrev slabK (L : grid5.Coords) : Memref sig .scVector .hbm S32x128 .i32 :=
  ((ixV).slice (Rect.unit (s := S32x32x128) (k5_off1 L) S1x32x128.size (k5_off1_inb L)) (fun _ => rfl)).squeeze S32x128 squeezes_S1x32x128_S32x128

/-- Output chunk 4t + b of the tile, as the program slices it (one abbreviation per slot: the slot is a literal word). -/
abbrev outK0 (L : grid5.Coords) (t : Fin k5_t1_loop.trips) : Memref sig .scVector .hbm S128x128 .f32 :=
  (oV).slice (Rect.unit (s := S131072x128) (k5_off3 L t 0#32) S128x128.size (k5_off3_inb L t 0)) (fun _ => rfl)
abbrev outK1 (L : grid5.Coords) (t : Fin k5_t1_loop.trips) : Memref sig .scVector .hbm S128x128 .f32 :=
  (oV).slice (Rect.unit (s := S131072x128) (k5_off3 L t 1#32) S128x128.size (k5_off3_inb L t 1)) (fun _ => rfl)
abbrev outK2 (L : grid5.Coords) (t : Fin k5_t1_loop.trips) : Memref sig .scVector .hbm S128x128 .f32 :=
  (oV).slice (Rect.unit (s := S131072x128) (k5_off3 L t 2#32) S128x128.size (k5_off3_inb L t 2)) (fun _ => rfl)
abbrev outK3 (L : grid5.Coords) (t : Fin k5_t1_loop.trips) : Memref sig .scVector .hbm S128x128 .f32 :=
  (oV).slice (Rect.unit (s := S131072x128) (k5_off3 L t 3#32) S128x128.size (k5_off3_inb L t 3)) (fun _ => rfl)

/-- List `off 0` of the local index buffer, as the program slices it. -/
abbrev idxRowAt (off : Fin 2 → ℕ) (hk : ∀ a, off a + S1x128.size a ≤ S32x128.size a) : Memref sig .scVector .vmem S128 .i32 :=
  ((ivV).slice (Rect.unit (s := S32x128) off S1x128.size hk) (fun _ => rfl)).squeeze S128 squeezes_S1x128_S128

/-- All of y, as the program slices it for a gather. -/
local notation "yAllK" => (Memref.slice (Memref.whole Cert.Kernel.main_v1_scv : Memref Cert.Kernel.sig Kind.scVector Space.hbm Cert.Kernel.S8192x128 EltTy.f32) (Rect.unit (s := Cert.Kernel.S8192x128) ![0, 0] Cert.Kernel.S8192x128.size Cert.Kernel.Facts₀.inb_S8192x128_S8192x128_0_0) (fun _ => rfl))

variable [FloatOps F]

abbrev 𝒱₀ : Variants := Variants.none

/-- A buffer the tile holds whole, by its own elements. -/
abbrev heldW {sp : Space} {s : Shape} {e : EltTy} (d : Dev nD) (L : grid5.Coords) (M : Memref sig .scVector sp s e) (q : PosShare TreeShare)
    (f : Buf (Elt F) (M.view.loc (thrV d L))) : sProp 𝕄 :=
  M.view.loc (thrV d L) ↦[M.view.set]{q} f

abbrev cellZ (d : Dev nD) (L : grid5.Coords) (a : DmaSems sig S_) : sProp 𝕄 := semVal ((thrV d L, SemLoc.dma a.sem) : GSem nD τ sig) 0

/-! ## The local index buffer as its 32 lists -/

omit [FloatOps F] in
theorem row_inb (j : Fin 32) : ∀ a, (![j.val, 0] : Fin 2 → ℕ) a + S1x128.size a ≤ S32x128.size a := by
  intro a
  match a with
  | 0 => have := j.isLt; show j.val + 1 ≤ 32; omega
  | 1 => show 0 + 128 ≤ 128; omega

/-- List j of the local index buffer. -/
abbrev idxRow (j : Fin 32) : Memref sig .scVector .vmem S128 .i32 := idxRowAt ![j.val, 0] (row_inb j)

/-- Two unit-stride rectangles at equal offsets and sizes are one. -/
theorem Rect.unit_congr {s : Shape} {off off' size size' : Fin s.rank → ℕ} (h1 : off = off') (h2 : size = size') (hk) (hk') :
    Rect.unit (s := s) off size hk = Rect.unit (s := s) off' size' hk' := by
  subst h1 h2; rfl

omit [FloatOps F] in
/-- The same list at another spelling of its offsets. -/
theorem idxRowAt_congr {off off' : Fin 2 → ℕ} (h : off = off') (hk) (hk') : idxRowAt off hk = idxRowAt off' hk' := by
  subst h; rfl

omit [FloatOps F] in
theorem set_idxRow (j : Fin 32) : (idxRow j).view.set = ((ivV).view.slice (S32x128.rowRect 0 j)).set := by
  show ((((ivV).view.slice (Rect.unit (s := S32x128) ![j.val, 0] S1x128.size (row_inb j)))).reshape S128 squeezes_S1x128_S128.numel_eq).set = _
  rw [View.set_reshape, View.set_slice, View.set_slice]
  refine congrArg (fun r : Rect S32x128 => r.set.map (ivV).view.emb) (Rect.unit_congr ?_ ?_ _ _)
  · funext a; match a with
    | 0 => rfl
    | 1 => rfl
  · funext a; match a with
    | 0 => rfl
    | 1 => rfl

/-- A list of the local index buffer, held whole by the tile. -/
abbrev rowPts (d : Dev nD) (L : grid5.Coords) (j : Fin 32) (f : Buf (Elt F) ((ivV).view.loc (thrV d L))) : sProp 𝕄 :=
  (idxRow j).view.loc (thrV d L) ↦[(idxRow j).view.set]{fullShare} f

omit [FloatOps F] in
/-- The local index buffer held whole is its 32 lists held each. -/
theorem iv_rows (d : Dev nD) (L : grid5.Coords) (f : Buf (Elt F) ((ivV).view.loc (thrV d L))) :
    ((ivV).view.loc (thrV d L) ↦[(ivV).view.set]{fullShare} f : sProp 𝕄) = bigSep Finset.univ fun j : Fin 32 => rowPts d L j f := by
  rw [pointsTo_rows (thrV d L) (ivV).view 0 fullShare f]
  refine bigSep_congr fun (j : Fin 32) _ => ?_
  show _ = ((idxRow j).view.loc (thrV d L) ↦[(idxRow j).view.set]{fullShare} f : sProp 𝕄)
  rw [set_idxRow]

/-! ## The lists' words are row numbers of y -/

omit [FloatOps F] in
/-- Whatever the local index buffer held before, once the slab has landed in it whole every word of every list is
    a word of the slab. -/
theorem hin_rows (d : Dev nD) (L : grid5.Coords) (fi : Buf (Elt F) ((slabK L).view.loc (thrV d L)))
    (hin : ∀ x, ((slabK L).view.read (Elt F) fi x).toNat < 8192)
    (g : Buf (Elt F) ((ivV).view.loc (thrV d L))) (pay : S32x128.Idx → Elt F .i32) (hpay : pay = (slabK L).view.read (Elt F) fi)
    (off : Fin 2 → ℕ) (hk : ∀ a, off a + S1x128.size a ≤ S32x128.size a) :
    ∀ x, (View.read (Elt F) (idxRowAt off hk).view
      ((ivV).view.writes (Elt F) g [⟨Rect.whole cc5_scratch0.ty.shape, pay⟩]) x).toNat < 8192 := by
  subst hpay; intro x
  have e : View.read (Elt F) (idxRowAt off hk).view ((ivV).view.writes (Elt F) g [⟨Rect.whole cc5_scratch0.ty.shape, (slabK L).view.read (Elt F) fi⟩]) x
      = View.read (Elt F) (ivV).view ((ivV).view.writes (Elt F) g [⟨Rect.whole cc5_scratch0.ty.shape, (slabK L).view.read (Elt F) fi⟩])
          ((Rect.unit (s := S32x128) off S1x128.size hk).emb ((Shape.reshapeEquiv squeezes_S1x128_S128.numel_eq) x)) := by
    rw [View.read_apply, View.read_apply]; rfl
  rw [e, View.read_writes_whole]
  exact hin _

omit [FloatOps F] in
/-- A list held, at another spelling of its offsets. -/
theorem rowPts_at (d : Dev nD) (L : grid5.Coords) (j : Fin 32) (off : Fin 2 → ℕ) (hk : ∀ a, off a + S1x128.size a ≤ S32x128.size a)
    (h : off = ![j.val, 0]) (f : Buf (Elt F) ((ivV).view.loc (thrV d L))) :
    rowPts d L j f = ((idxRowAt off hk).view.loc (thrV d L) ↦[(idxRowAt off hk).view.set]{fullShare} f : sProp 𝕄) := by
  subst h; rfl

/-! ## The loop's conditions, by trip -/

omit [FloatOps F] in
/-- In every trip but the last each slot issues its next gather; in the last none does. -/
theorem conds : ∀ k : Fin k5_t1_loop.trips,
    (k5_cond1 k = 1#1 ↔ k.val < 7) ∧ (k5_cond2 k = 1#1 ↔ ¬ k.val < 7) ∧ (k5_cond3 k = 1#1 ↔ k.val < 7) ∧ (k5_cond4 k = 1#1 ↔ ¬ k.val < 7)
    ∧ (k5_cond5 k = 1#1 ↔ k.val < 7) ∧ (k5_cond6 k = 1#1 ↔ ¬ k.val < 7) ∧ (k5_cond7 k = 1#1 ↔ k.val < 7) ∧ (k5_cond8 k = 1#1 ↔ ¬ k.val < 7) := by
  decide +kernel

/-! ## What the loop holds before trip k -/

omit [FloatOps F] in
theorem rowsInb (n : ℕ) (h : n < 32) : ∀ a, (![n, 0] : Fin 2 → ℕ) a + S1x128.size a ≤ S32x128.size a := by
  intro a
  match a with
  | 0 => show n + 1 ≤ 32; omega
  | 1 => show 0 + 128 ≤ 128; omega

/-- The lists no gather holds before trip k: all but lists 4k … 4k + 3. -/
def idle (k : ℕ) : Finset (Fin 32) := Finset.univ.filter fun j => j.val < 4 * k ∨ 4 * k + 4 ≤ j.val

/-- The tile's four output chunks of trip t, at some contents. -/
abbrev outTrip (d : Dev nD) (L : grid5.Coords) (t : Fin k5_t1_loop.trips) : sProp 𝕄 :=
  iprop((∃ f, heldW d L (outK0 L t) fullShare f) ∗ (∃ f, heldW d L (outK1 L t) fullShare f)
    ∗ (∃ f, heldW d L (outK2 L t) fullShare f) ∗ (∃ f, heldW d L (outK3 L t) fullShare f))

/-- A gather in flight on a slot: it will hand back the slot's row buffer written, the list it reads, and the share
    of y it reads. -/
abbrev gFlight (d : Dev nD) (L : grid5.Coords) (q : PosShare TreeShare) (sem : DmaSems sig S_) (n : ℕ)
    (rV : Memref sig .scVector .vmem S128x128 .f32) (off : Fin 2 → ℕ) (hk : ∀ a, off a + S1x128.size a ≤ S32x128.size a)
    (fr : Buf (Elt F) (rV.view.loc (thrV d L))) (fvc : Buf (Elt F) ((ivV).view.loc (thrV d L)))
    (fy : Buf (Elt F) ((yV).view.loc (thrV d L))) : sProp 𝕄 :=
  Transfers.Flight countersEmb (thrV d L) (SemLoc.dma sem.sem) (default : HIx 4) 524288
    iprop(((rV.view.loc (thrV d L) ↦[rV.view.set]{fullShare} fr)
        ∗ ((idxRowAt off hk).view.loc (thrV d L) ↦[(idxRowAt off hk).view.set]{fullShare} fvc))
      ∗ ((yV).view.loc (thrV d L) ↦[(yAllK).view.set]{Transfers.shareTokN q n} fy))

/-- What a gather leaves with the tile of the share of y it reads: nothing of y's elements. -/
abbrev yRest (d : Dev nD) (L : grid5.Coords) (q : PosShare TreeShare) (n : ℕ) (fy : Buf (Elt F) ((yV).view.loc (thrV d L))) : sProp 𝕄 :=
  (yV).view.loc (thrV d L) ↦[(yV).view.set \ (yAllK).view.set]{Transfers.shareTokN q n} fy

/-- Before trip k < 8: the four gathers of lists 4k … 4k + 3 in flight, every other list idle, the write semaphores at
    zero, the 32 output chunks at some contents. -/
def invA (d : Dev nD) (L : grid5.Coords) (q : PosShare TreeShare) (O : CellTallies nD τ sig (HIx 4)) (W : Waits sig (HIx 4))
    (fy : Buf (Elt F) ((yV).view.loc (thrV d L))) (fvc : Buf (Elt F) ((ivV).view.loc (thrV d L))) (k : ℕ) (hk8 : k < 8) : sProp 𝕄 :=
  iprop(Transfers.MayWaits (thrV d L) (default : HIx 4) O
    ∗ (∃ W', ⌜∀ p ∈ W', p ∈ W ∨ p.2 = none⌝ ∗ owes (thrV d L) O W')
    ∗ (cellZ d L cc5_scratch9 ∗ cellZ d L cc5_scratch10 ∗ cellZ d L cc5_scratch11 ∗ cellZ d L cc5_scratch12)
    ∗ bigSep Finset.univ (outTrip d L)
    ∗ bigSep (idle k) (fun j => rowPts d L j fvc)
    ∗ ((∃ fr, gFlight d L q cc5_scratch5 47 r0V ![4 * k + 0, 0] (rowsInb _ (by omega)) fr fvc fy) ∗ yRest d L q 47 fy)
    ∗ ((∃ fr, gFlight d L q cc5_scratch6 48 r1V ![4 * k + 1, 0] (rowsInb _ (by omega)) fr fvc fy) ∗ yRest d L q 48 fy)
    ∗ ((∃ fr, gFlight d L q cc5_scratch7 49 r2V ![4 * k + 2, 0] (rowsInb _ (by omega)) fr fvc fy) ∗ yRest d L q 49 fy)
    ∗ ((∃ fr, gFlight d L q cc5_scratch8 50 r3V ![4 * k + 3, 0] (rowsInb _ (by omega)) fr fvc fy) ∗ yRest d L q 50 fy))

omit [FloatOps F] in
theorem mem_idle_next (k : ℕ) (hk : k < 7) (b : ℕ) (hb : b < 4) : (⟨4 * k + 4 + b, by omega⟩ : Fin 32) ∈ idle k :=
  Finset.mem_filter.mpr ⟨Finset.mem_univ _, Or.inr (by show 4 * k + 4 ≤ 4 * k + 4 + b; omega)⟩

omit [FloatOps F] in
/-- The same gather at another spelling of its list's offsets. -/
theorem gFlight_off (d : Dev nD) (L : grid5.Coords) (q : PosShare TreeShare) (sem : DmaSems sig S_) (n : ℕ)
    (rV : Memref sig .scVector .vmem S128x128 .f32) {off off' : Fin 2 → ℕ} (h : off = off') (hk) (hk')
    (fr : Buf (Elt F) (rV.view.loc (thrV d L))) (fvc : Buf (Elt F) ((ivV).view.loc (thrV d L)))
    (fy : Buf (Elt F) ((yV).view.loc (thrV d L))) :
    gFlight d L q sem n rV off hk fr fvc fy = gFlight d L q sem n rV off' hk' fr fvc fy := by
  subst h; rfl

omit [FloatOps F] in
/-- A wait recorded at the default index keeps the waits among the earlier ones and those at no index. -/
theorem waits_ins {W W' : Waits sig (HIx 4)} (h : ∀ p ∈ W', p ∈ W ∨ p.2 = none) (s : SemLoc sig) :
    ∀ p ∈ insert (s, (default : HIx 4)) W', p ∈ W ∨ p.2 = none := by
  intro p hp
  rcases Finset.mem_insert.mp hp with hp | hp
  · exact .inr (hp ▸ rfl)
  · exact h p hp

omit [FloatOps F] in
/-- After trip k < 7 the idle lists are: those idle before but the four just lent, and the four just handed back. -/
theorem idle_step (k : ℕ) (hk : k < 7) (Φ : Fin 32 → sProp 𝕄)
    (h0 : 4 * k + 0 < 32) (h1 : 4 * k + 1 < 32) (h2 : 4 * k + 2 < 32) (h3 : 4 * k + 3 < 32)
    (h4 : 4 * k + 4 + 0 < 32) (h5 : 4 * k + 4 + 1 < 32) (h6 : 4 * k + 4 + 2 < 32) (h7 : 4 * k + 4 + 3 < 32) :
    iprop(bigSep (((((idle k).erase ⟨4 * k + 4 + 0, h4⟩).erase ⟨4 * k + 4 + 1, h5⟩).erase ⟨4 * k + 4 + 2, h6⟩).erase ⟨4 * k + 4 + 3, h7⟩) Φ
        ∗ Φ ⟨4 * k + 0, h0⟩ ∗ Φ ⟨4 * k + 1, h1⟩ ∗ Φ ⟨4 * k + 2, h2⟩ ∗ Φ ⟨4 * k + 3, h3⟩)
      ⊢ bigSep (idle (k + 1)) Φ := by
  have e : ((((idle (k + 1)).erase (⟨4 * k + 0, h0⟩ : Fin 32)).erase ⟨4 * k + 1, h1⟩).erase ⟨4 * k + 2, h2⟩).erase ⟨4 * k + 3, h3⟩
      = ((((idle k).erase (⟨4 * k + 4 + 0, h4⟩ : Fin 32)).erase ⟨4 * k + 4 + 1, h5⟩).erase ⟨4 * k + 4 + 2, h6⟩).erase ⟨4 * k + 4 + 3, h7⟩ := by
    ext j
    simp only [idle, Finset.mem_erase, Finset.mem_filter, Finset.mem_univ, true_and, ne_eq, Fin.ext_iff]
    omega
  have m0 : (⟨4 * k + 0, h0⟩ : Fin 32) ∈ idle (k + 1) := Finset.mem_filter.mpr ⟨Finset.mem_univ _, Or.inl (show 4 * k + 0 < 4 * (k + 1) by omega)⟩
  have m1 : (⟨4 * k + 1, h1⟩ : Fin 32) ∈ idle (k + 1) := Finset.mem_filter.mpr ⟨Finset.mem_univ _, Or.inl (show 4 * k + 1 < 4 * (k + 1) by omega)⟩
  have m2 : (⟨4 * k + 2, h2⟩ : Fin 32) ∈ idle (k + 1) := Finset.mem_filter.mpr ⟨Finset.mem_univ _, Or.inl (show 4 * k + 2 < 4 * (k + 1) by omega)⟩
  have m3 : (⟨4 * k + 3, h3⟩ : Fin 32) ∈ idle (k + 1) := Finset.mem_filter.mpr ⟨Finset.mem_univ _, Or.inl (show 4 * k + 3 < 4 * (k + 1) by omega)⟩
  rw [SparseCore.bigSep_erase' m0,
    SparseCore.bigSep_erase' (Finset.mem_erase.mpr ⟨by simp [Fin.ext_iff], m1⟩),
    SparseCore.bigSep_erase' (Finset.mem_erase.mpr ⟨by simp [Fin.ext_iff], Finset.mem_erase.mpr ⟨by simp [Fin.ext_iff], m2⟩⟩),
    SparseCore.bigSep_erase' (Finset.mem_erase.mpr ⟨by simp [Fin.ext_iff], Finset.mem_erase.mpr ⟨by simp [Fin.ext_iff], Finset.mem_erase.mpr ⟨by simp [Fin.ext_iff], m3⟩⟩⟩), e]
  iintro ⟨H, H0, H1, H2, H3⟩
  isplitl [H0]; · iexact H0
  isplitl [H1]; · iexact H1
  isplitl [H2]; · iexact H2
  isplitl [H3]; · iexact H3
  iexact H

set_option maxHeartbeats 4000000 in
theorem gk_tripA (d : Dev nD) (L : grid5.Coords) (q : PosShare TreeShare) (O : CellTallies nD τ sig (HIx 4)) (W : Waits sig (HIx 4))
    (fy : Buf (Elt F) ((yV).view.loc (thrV d L))) (fvc : Buf (Elt F) ((ivV).view.loc (thrV d L)))
    (hrowc : ∀ (off : Fin 2 → ℕ) (hk : ∀ a, off a + S1x128.size a ≤ S32x128.size a) (x : S128.Idx),
      (View.read (Elt F) (idxRowAt off hk).view fvc x).toNat < 8192)
    (v1 c0 c1 : BitVec 32) (k : Fin k5_t1_loop.trips) (hk : k.val < 7) (acc : Unit) :
    invA d L q O W fy fvc k.val (by omega)
      ⊢ wp frame (wpE (defs₀ (F := F)) 𝒱₀ (thrV d L) none) Set.univ
          (Gen.k5_t1_body L yV (Memref.isWhole_whole _) ixV (Memref.isWhole_whole _) oV (Memref.isWhole_whole _)
            ivV (Memref.isWhole_whole _) r0V (Memref.isWhole_whole _) r1V (Memref.isWhole_whole _)
            r2V (Memref.isWhole_whole _) r3V (Memref.isWhole_whole _)
            cc5_scratch5 cc5_scratch6 cc5_scratch7 cc5_scratch8 cc5_scratch9 cc5_scratch10 cc5_scratch11 cc5_scratch12 cc5_scoped0
            v1 c0 c1 k acc)
          fun _ => invA d L q O W fy fvc (k.val + 1) (by omega) := by
  obtain ⟨c1', c2', c3', c4', c5', c6', c7', c8'⟩ := conds k
  have hc1 : k5_cond1 k = 1#1 := c1'.mpr hk
  have hc2 : ¬ k5_cond2 k = 1#1 := fun h => (c2'.mp h) hk
  have hc3 : k5_cond3 k = 1#1 := c3'.mpr hk
  have hc4 : ¬ k5_cond4 k = 1#1 := fun h => (c4'.mp h) hk
  have hc5 : k5_cond5 k = 1#1 := c5'.mpr hk
  have hc6 : ¬ k5_cond6 k = 1#1 := fun h => (c6'.mp h) hk
  have hc7 : k5_cond7 k = 1#1 := c7'.mpr hk
  have hc8 : ¬ k5_cond8 k = 1#1 := fun h => (c8'.mp h) hk
  unfold invA gFlight yRest
  iintro ⟨#Hmw, ⟨%W', %hW', HO⟩, ⟨HW0, HW1, HW2, HW3⟩, Hout, Hrows, ⟨⟨%fr0, HG0⟩, HY0⟩, ⟨⟨%fr1, HG1⟩, HY1⟩, ⟨⟨%fr2, HG2⟩, HY2⟩, ⟨⟨%fr3, HG3⟩, HY3⟩⟩
  -- the four output chunks of this trip
  ihave Hx := (Entails.of_eq (SparseCore.bigSep_erase' (i := k) (Finset.mem_univ _))) $$ Hout
  icases Hx with ⟨⟨⟨%fo0, HO0⟩, ⟨%fo1, HO1⟩, ⟨%fo2, HO2⟩, ⟨%fo3, HO3⟩⟩, Hout⟩
  -- the four lists the trip's gathers will read
  ihave Hx := (Entails.of_eq (SparseCore.bigSep_erase' (i := (⟨4 * k.val + 4 + 0, by omega⟩ : Fin 32)) (mem_idle_next k.val hk 0 (by omega)))) $$ Hrows
  icases Hx with ⟨Hl0, Hrows⟩
  ihave Hx := (Entails.of_eq (SparseCore.bigSep_erase' (i := (⟨4 * k.val + 4 + 1, by omega⟩ : Fin 32))
    (Finset.mem_erase.mpr ⟨by simp [Fin.ext_iff], mem_idle_next k.val hk 1 (by omega)⟩))) $$ Hrows
  icases Hx with ⟨Hl1, Hrows⟩
  ihave Hx := (Entails.of_eq (SparseCore.bigSep_erase' (i := (⟨4 * k.val + 4 + 2, by omega⟩ : Fin 32))
    (Finset.mem_erase.mpr ⟨by simp [Fin.ext_iff], Finset.mem_erase.mpr ⟨by simp [Fin.ext_iff], mem_idle_next k.val hk 2 (by omega)⟩⟩))) $$ Hrows
  icases Hx with ⟨Hl2, Hrows⟩
  ihave Hx := (Entails.of_eq (SparseCore.bigSep_erase' (i := (⟨4 * k.val + 4 + 3, by omega⟩ : Fin 32))
    (Finset.mem_erase.mpr ⟨by simp [Fin.ext_iff], Finset.mem_erase.mpr ⟨by simp [Fin.ext_iff], Finset.mem_erase.mpr ⟨by simp [Fin.ext_iff], mem_idle_next k.val hk 3 (by omega)⟩⟩⟩))) $$ Hrows
  icases Hx with ⟨Hl3, Hrows⟩
  ihave Hl0' := (Entails.of_eq (rowPts_at (F := F) d L _ (k5_off5 k) (k5_off5_inb k hc1) (Gen.k5_off5_eq k) _)) $$ Hl0
  ihave Hl1' := (Entails.of_eq (rowPts_at (F := F) d L _ (k5_off8 k) (k5_off8_inb k hc3) (Gen.k5_off8_eq k) _)) $$ Hl1
  ihave Hl2' := (Entails.of_eq (rowPts_at (F := F) d L _ (k5_off11 k) (k5_off11_inb k hc5) (Gen.k5_off11_eq k) _)) $$ Hl2
  ihave Hl3' := (Entails.of_eq (rowPts_at (F := F) d L _ (k5_off14 k) (k5_off14_inb k hc7) (Gen.k5_off14_eq k) _)) $$ Hl3
  sl_unfold [Gen.k5_t1_body]
  sl_exec (disch := first | sl_exact hc1 | sl_exact hc2 | sl_exact hc3 | sl_exact hc4 | sl_exact hc5 | sl_exact hc6 | sl_exact hc7 | sl_exact hc8)
  sl_step
  isplitr; · iexact Hmw
  isplitl [HO]
  · iexists _; isplitr
    swap; · iexact HO
    ipureintro
    exact waits_ins (waits_ins (waits_ins (waits_ins (waits_ins (waits_ins (waits_ins (waits_ins hW' _) _) _) _) _) _) _) _
  isplitl [HW0 HW1 HW2 HW3]
  · isplitl [HW0]; · iexact HW0
    isplitl [HW1]; · iexact HW1
    isplitl [HW2]; · iexact HW2
    iexact HW3
  isplitl [Hout HO0 HO1 HO2 HO3]
  · iapply (Entails.of_eq (SparseCore.bigSep_erase' (i := k) (Finset.mem_univ _)).symm)
    isplitl [HO0 HO1 HO2 HO3]
    · isplitl [HO0]; · iexists _; iexact HO0
      isplitl [HO1]; · iexists _; iexact HO1
      isplitl [HO2]; · iexists _; iexact HO2
      iexists _; iexact HO3
    iexact Hout
  isplitl [Hrows HG0_dst_and HG1_dst_and HG2_dst_and HG3_dst_and]
  · iapply (idle_step (F := F) k.val hk (fun j => rowPts d L j fvc) (by omega) (by omega) (by omega) (by omega) (by omega) (by omega) (by omega) (by omega))
    isplitl [Hrows]; · iexact Hrows
    isplitl [HG0_dst_and]; · iexact HG0_dst_and
    isplitl [HG1_dst_and]; · iexact HG1_dst_and
    isplitl [HG2_dst_and]; · iexact HG2_dst_and
    iexact HG3_dst_and
  isplitl [HG0 HY0]
  · isplitl [HG0]
    · iexists _
      iapply (Entails.of_eq (gFlight_off (F := F) d L q cc5_scratch5 47 r0V ((Gen.k5_off5_eq k).trans (by rw [show 4 * (k.val + 1) + 0 = 4 * k.val + 4 by omega])) (k5_off5_inb k hc1) _ _ fvc fy))
      iexact HG0
    iexact HY0
  isplitl [HG1 HY1]
  · isplitl [HG1]
    · iexists _
      iapply (Entails.of_eq (gFlight_off (F := F) d L q cc5_scratch6 48 r1V ((Gen.k5_off8_eq k).trans (by rw [show 4 * (k.val + 1) + 1 = 4 * k.val + 5 by omega])) (k5_off8_inb k hc3) _ _ fvc fy))
      iexact HG1
    iexact HY1
  isplitl [HG2 HY2]
  · isplitl [HG2]
    · iexists _
      iapply (Entails.of_eq (gFlight_off (F := F) d L q cc5_scratch7 49 r2V ((Gen.k5_off11_eq k).trans (by rw [show 4 * (k.val + 1) + 2 = 4 * k.val + 6 by omega])) (k5_off11_inb k hc5) _ _ fvc fy))
      iexact HG2
    iexact HY2
  isplitl [HG3]
  · iexists _
    iapply (Entails.of_eq (gFlight_off (F := F) d L q cc5_scratch8 50 r3V ((Gen.k5_off14_eq k).trans (by rw [show 4 * (k.val + 1) + 3 = 4 * k.val + 7 by omega])) (k5_off14_inb k hc7) _ _ fvc fy))
    iexact HG3
  iexact HY3

omit [FloatOps F] in
/-- After the last trip every list is idle. -/
theorem idle_last (k : ℕ) (hk : k = 7) (Φ : Fin 32 → sProp 𝕄)
    (h0 : 4 * k + 0 < 32) (h1 : 4 * k + 1 < 32) (h2 : 4 * k + 2 < 32) (h3 : 4 * k + 3 < 32) :
    iprop(bigSep (idle k) Φ ∗ Φ ⟨4 * k + 0, h0⟩ ∗ Φ ⟨4 * k + 1, h1⟩ ∗ Φ ⟨4 * k + 2, h2⟩ ∗ Φ ⟨4 * k + 3, h3⟩)
      ⊢ bigSep Finset.univ Φ := by
  subst hk
  have e : ((((Finset.univ : Finset (Fin 32)).erase (⟨4 * 7 + 0, h0⟩ : Fin 32)).erase ⟨4 * 7 + 1, h1⟩).erase ⟨4 * 7 + 2, h2⟩).erase ⟨4 * 7 + 3, h3⟩ = idle 7 := by
    ext j
    simp only [idle, Finset.mem_erase, Finset.mem_filter, Finset.mem_univ, true_and, and_true, ne_eq, Fin.ext_iff]
    omega
  rw [SparseCore.bigSep_erase' (Finset.mem_univ (⟨4 * 7 + 0, h0⟩ : Fin 32)),
    SparseCore.bigSep_erase' (i := (⟨4 * 7 + 1, h1⟩ : Fin 32)) (Finset.mem_erase.mpr ⟨by simp [Fin.ext_iff], Finset.mem_univ _⟩),
    SparseCore.bigSep_erase' (i := (⟨4 * 7 + 2, h2⟩ : Fin 32)) (Finset.mem_erase.mpr ⟨by simp [Fin.ext_iff], Finset.mem_erase.mpr ⟨by simp [Fin.ext_iff], Finset.mem_univ _⟩⟩),
    SparseCore.bigSep_erase' (i := (⟨4 * 7 + 3, h3⟩ : Fin 32)) (Finset.mem_erase.mpr ⟨by simp [Fin.ext_iff], Finset.mem_erase.mpr ⟨by simp [Fin.ext_iff], Finset.mem_erase.mpr ⟨by simp [Fin.ext_iff], Finset.mem_univ _⟩⟩⟩), e]
  iintro ⟨H, H0, H1, H2, H3⟩
  isplitl [H0]; · iexact H0
  isplitl [H1]; · iexact H1
  isplitl [H2]; · iexact H2
  isplitl [H3]; · iexact H3
  iexact H

omit [FloatOps F] in
/-- Before the first trip lists 0 … 3 are lent. -/
theorem idle_zero : idle 0 = ((((Finset.univ : Finset (Fin 32)).erase 0).erase 1).erase 2).erase 3 := by
  ext j
  simp only [idle, Finset.mem_erase, Finset.mem_filter, Finset.mem_univ, true_and, and_true, ne_eq, Fin.ext_iff]
  show j.val < 4 * 0 ∨ 4 * 0 + 4 ≤ j.val ↔ ¬ j.val = 3 ∧ ¬ j.val = 2 ∧ ¬ j.val = 1 ∧ ¬ j.val = 0
  omega

/-- After the last trip: nothing in flight; every list idle, the row buffers at some contents, every semaphore at
    zero, the four shares of y whole again, the 32 output chunks at some contents. -/
def invEnd (d : Dev nD) (L : grid5.Coords) (q : PosShare TreeShare) (O : CellTallies nD τ sig (HIx 4)) (W : Waits sig (HIx 4))
    (fy : Buf (Elt F) ((yV).view.loc (thrV d L))) (fvc : Buf (Elt F) ((ivV).view.loc (thrV d L))) : sProp 𝕄 :=
  iprop(Transfers.MayWaits (thrV d L) (default : HIx 4) O
    ∗ (∃ W', ⌜∀ p ∈ W', p ∈ W ∨ p.2 = none⌝ ∗ owes (thrV d L) O W')
    ∗ (cellZ d L cc5_scratch9 ∗ cellZ d L cc5_scratch10 ∗ cellZ d L cc5_scratch11 ∗ cellZ d L cc5_scratch12)
    ∗ bigSep Finset.univ (outTrip d L)
    ∗ bigSep Finset.univ (fun j => rowPts d L j fvc)
    ∗ ((∃ fr, heldW d L r0V fullShare fr) ∗ cellZ d L cc5_scratch5 ∗ heldW d L yV (Transfers.shareTokN q 47) fy)
    ∗ ((∃ fr, heldW d L r1V fullShare fr) ∗ cellZ d L cc5_scratch6 ∗ heldW d L yV (Transfers.shareTokN q 48) fy)
    ∗ ((∃ fr, heldW d L r2V fullShare fr) ∗ cellZ d L cc5_scratch7 ∗ heldW d L yV (Transfers.shareTokN q 49) fy)
    ∗ ((∃ fr, heldW d L r3V fullShare fr) ∗ cellZ d L cc5_scratch8 ∗ heldW d L yV (Transfers.shareTokN q 50) fy))

set_option maxHeartbeats 4000000 in
theorem gk_tripB (d : Dev nD) (L : grid5.Coords) (q : PosShare TreeShare) (O : CellTallies nD τ sig (HIx 4)) (W : Waits sig (HIx 4))
    (fy : Buf (Elt F) ((yV).view.loc (thrV d L))) (fvc : Buf (Elt F) ((ivV).view.loc (thrV d L)))
    (hrowc : ∀ (off : Fin 2 → ℕ) (hk : ∀ a, off a + S1x128.size a ≤ S32x128.size a) (x : S128.Idx),
      (View.read (Elt F) (idxRowAt off hk).view fvc x).toNat < 8192)
    (v1 c0 c1 : BitVec 32) (k : Fin k5_t1_loop.trips) (hk : k.val = 7) (acc : Unit) :
    invA d L q O W fy fvc k.val (by omega)
      ⊢ wp frame (wpE (defs₀ (F := F)) 𝒱₀ (thrV d L) none) Set.univ
          (Gen.k5_t1_body L yV (Memref.isWhole_whole _) ixV (Memref.isWhole_whole _) oV (Memref.isWhole_whole _)
            ivV (Memref.isWhole_whole _) r0V (Memref.isWhole_whole _) r1V (Memref.isWhole_whole _)
            r2V (Memref.isWhole_whole _) r3V (Memref.isWhole_whole _)
            cc5_scratch5 cc5_scratch6 cc5_scratch7 cc5_scratch8 cc5_scratch9 cc5_scratch10 cc5_scratch11 cc5_scratch12 cc5_scoped0
            v1 c0 c1 k acc)
          fun _ => invEnd d L q O W fy fvc := by
  obtain ⟨c1', c2', c3', c4', c5', c6', c7', c8'⟩ := conds k
  have hn : ¬ k.val < 7 := by omega
  have hc1 : ¬ k5_cond1 k = 1#1 := fun h => hn (c1'.mp h)
  have hc2 : k5_cond2 k = 1#1 := c2'.mpr hn
  have hc3 : ¬ k5_cond3 k = 1#1 := fun h => hn (c3'.mp h)
  have hc4 : k5_cond4 k = 1#1 := c4'.mpr hn
  have hc5 : ¬ k5_cond5 k = 1#1 := fun h => hn (c5'.mp h)
  have hc6 : k5_cond6 k = 1#1 := c6'.mpr hn
  have hc7 : ¬ k5_cond7 k = 1#1 := fun h => hn (c7'.mp h)
  have hc8 : k5_cond8 k = 1#1 := c8'.mpr hn
  unfold invA invEnd gFlight yRest
  iintro ⟨#Hmw, ⟨%W', %hW', HO⟩, ⟨HW0, HW1, HW2, HW3⟩, Hout, Hrows, ⟨⟨%fr0, HG0⟩, HY0⟩, ⟨⟨%fr1, HG1⟩, HY1⟩, ⟨⟨%fr2, HG2⟩, HY2⟩, ⟨⟨%fr3, HG3⟩, HY3⟩⟩
  ihave Hx := (Entails.of_eq (SparseCore.bigSep_erase' (i := k) (Finset.mem_univ _))) $$ Hout
  icases Hx with ⟨⟨⟨%fo0, HO0⟩, ⟨%fo1, HO1⟩, ⟨%fo2, HO2⟩, ⟨%fo3, HO3⟩⟩, Hout⟩
  sl_unfold [Gen.k5_t1_body]
  sl_exec (disch := first | sl_exact hc1 | sl_exact hc2 | sl_exact hc3 | sl_exact hc4 | sl_exact hc5 | sl_exact hc6 | sl_exact hc7 | sl_exact hc8)
  sl_step
  isplitr; · iexact Hmw
  isplitl [HO]
  · iexists _; isplitr
    swap; · iexact HO
    ipureintro
    exact waits_ins (waits_ins (waits_ins (waits_ins (waits_ins (waits_ins (waits_ins (waits_ins hW' _) _) _) _) _) _) _) _
  isplitl [HW0 HW1 HW2 HW3]
  · isplitl [HW0]; · iexact HW0
    isplitl [HW1]; · iexact HW1
    isplitl [HW2]; · iexact HW2
    iexact HW3
  isplitl [Hout HO0 HO1 HO2 HO3]
  · iapply (Entails.of_eq (SparseCore.bigSep_erase' (i := k) (Finset.mem_univ _)).symm)
    isplitl [HO0 HO1 HO2 HO3]
    · isplitl [HO0]; · iexists _; iexact HO0
      isplitl [HO1]; · iexists _; iexact HO1
      isplitl [HO2]; · iexists _; iexact HO2
      iexists _; iexact HO3
    iexact Hout
  isplitl [Hrows HG0_dst_and HG1_dst_and HG2_dst_and HG3_dst_and]
  · iapply (idle_last (F := F) k.val hk (fun j => rowPts d L j fvc) (by omega) (by omega) (by omega) (by omega))
    isplitl [Hrows]; · iexact Hrows
    isplitl [HG0_dst_and]; · iexact HG0_dst_and
    isplitl [HG1_dst_and]; · iexact HG1_dst_and
    isplitl [HG2_dst_and]; · iexact HG2_dst_and
    iexact HG3_dst_and
  isplitl [HG0_dst HG0 HY0]
  · isplitl [HG0_dst]; · iexists _; iexact HG0_dst
    isplitl [HG0]; · iexact HG0
    iexact HY0
  isplitl [HG1_dst HG1 HY1]
  · isplitl [HG1_dst]; · iexists _; iexact HG1_dst
    isplitl [HG1]; · iexact HG1
    iexact HY1
  isplitl [HG2_dst HG2 HY2]
  · isplitl [HG2_dst]; · iexists _; iexact HG2_dst
    isplitl [HG2]; · iexact HG2
    iexact HY2
  isplitl [HG3_dst]; · iexists _; iexact HG3_dst
  isplitl [HG3]; · iexact HG3
  iexact HY3

/-! ## The loop's invariant, and the whole body -/

/-- What the loop holds before trip k: the gathers of trip k in flight while there is a trip k, nothing after. -/
def inv (d : Dev nD) (L : grid5.Coords) (q : PosShare TreeShare) (O : CellTallies nD τ sig (HIx 4)) (W : Waits sig (HIx 4))
    (fy : Buf (Elt F) ((yV).view.loc (thrV d L))) (fvc : Buf (Elt F) ((ivV).view.loc (thrV d L))) (k : ℕ) : Unit → sProp 𝕄 :=
  fun _ => if h : k < 8 then invA d L q O W fy fvc k h else invEnd d L q O W fy fvc

theorem inv_lt (d : Dev nD) (L : grid5.Coords) (q : PosShare TreeShare) (O : CellTallies nD τ sig (HIx 4)) (W : Waits sig (HIx 4))
    (fy : Buf (Elt F) ((yV).view.loc (thrV d L))) (fvc : Buf (Elt F) ((ivV).view.loc (thrV d L))) (k : ℕ) (h : k < 8) :
    inv d L q O W fy fvc k = fun _ => invA d L q O W fy fvc k h := by
  funext _; exact dif_pos h

theorem inv_ge (d : Dev nD) (L : grid5.Coords) (q : PosShare TreeShare) (O : CellTallies nD τ sig (HIx 4)) (W : Waits sig (HIx 4))
    (fy : Buf (Elt F) ((yV).view.loc (thrV d L))) (fvc : Buf (Elt F) ((ivV).view.loc (thrV d L))) (k : ℕ) (h : ¬ k < 8) :
    inv d L q O W fy fvc k = fun _ => invEnd d L q O W fy fvc := by
  funext _; exact dif_neg h

omit [FloatOps F] in
theorem trips_eq : k5_t1_loop.trips = 8 := by decide

theorem inv_end (d : Dev nD) (L : grid5.Coords) (q : PosShare TreeShare) (O : CellTallies nD τ sig (HIx 4)) (W : Waits sig (HIx 4))
    (fy : Buf (Elt F) ((yV).view.loc (thrV d L))) (fvc : Buf (Elt F) ((ivV).view.loc (thrV d L))) :
    inv d L q O W fy fvc (Scf.trips k5_t1_loop.lb k5_t1_loop.ub k5_t1_loop.st) = fun _ => invEnd d L q O W fy fvc :=
  inv_ge d L q O W fy fvc _ (by decide)

set_option maxHeartbeats 4000000 in
/-- The body on tile (L 0, L 1) of device d, from the tile's own spellings of what it holds: four read shares of y, its
    slab of the index array with every word a row number of y, its 32 output chunks, its local index buffer, its four
    row buffers, its nine semaphores at zero. It ends with the same, the output chunks, the local buffers at some
    contents. -/
theorem gk_core (d : Dev nD) (L : grid5.Coords) (q : PosShare TreeShare)
    (O : CellTallies nD τ sig (HIx 4)) (W : Waits sig (HIx 4))
    (fy : Buf (Elt F) ((yV).view.loc (thrV d L))) (fi : Buf (Elt F) ((slabK L).view.loc (thrV d L)))
    (fv : Buf (Elt F) ((ivV).view.loc (thrV d L)))
    (f0 : Buf (Elt F) ((r0V).view.loc (thrV d L))) (f1 : Buf (Elt F) ((r1V).view.loc (thrV d L)))
    (f2 : Buf (Elt F) ((r2V).view.loc (thrV d L))) (f3 : Buf (Elt F) ((r3V).view.loc (thrV d L)))
    (hin : ∀ x, ((slabK L).view.read (Elt F) fi x).toNat < 8192) :
    (iprop(Transfers.MayWaits (thrV d L) (default : HIx 4) O
        ∗ heldW d L yV (Transfers.shareTokN q 47) fy ∗ heldW d L yV (Transfers.shareTokN q 48) fy
        ∗ heldW d L yV (Transfers.shareTokN q 49) fy ∗ heldW d L yV (Transfers.shareTokN q 50) fy
        ∗ heldW d L (slabK L) fullShare fi
        ∗ heldW d L ivV fullShare fv
        ∗ heldW d L r0V fullShare f0 ∗ heldW d L r1V fullShare f1 ∗ heldW d L r2V fullShare f2 ∗ heldW d L r3V fullShare f3
        ∗ cellZ d L cc5_scratch5 ∗ cellZ d L cc5_scratch6 ∗ cellZ d L cc5_scratch7 ∗ cellZ d L cc5_scratch8
        ∗ cellZ d L cc5_scratch9 ∗ cellZ d L cc5_scratch10 ∗ cellZ d L cc5_scratch11 ∗ cellZ d L cc5_scratch12
        ∗ cellZ d L cc5_scoped0
        ∗ bigSep Finset.univ (outTrip d L)
        ∗ owes (thrV d L) O W) : sProp 𝕄)
      ⊢ wp frame (wpE (defs₀ (F := F)) 𝒱₀ (thrV d L) none) Set.univ
          (cc5_gk L yV (Memref.isWhole_whole _) ixV (Memref.isWhole_whole _) oV (Memref.isWhole_whole _)
            ivV (Memref.isWhole_whole _) r0V (Memref.isWhole_whole _) r1V (Memref.isWhole_whole _)
            r2V (Memref.isWhole_whole _) r3V (Memref.isWhole_whole _)
            cc5_scratch5 cc5_scratch6 cc5_scratch7 cc5_scratch8 cc5_scratch9 cc5_scratch10 cc5_scratch11 cc5_scratch12 cc5_scoped0)
          fun _ => iprop(heldW d L yV (Transfers.shareTokN q 47) fy ∗ heldW d L yV (Transfers.shareTokN q 48) fy
            ∗ heldW d L yV (Transfers.shareTokN q 49) fy ∗ heldW d L yV (Transfers.shareTokN q 50) fy
            ∗ heldW d L (slabK L) fullShare fi
            ∗ (∃ f, heldW d L ivV fullShare f)
            ∗ (∃ f, heldW d L r0V fullShare f) ∗ (∃ f, heldW d L r1V fullShare f) ∗ (∃ f, heldW d L r2V fullShare f) ∗ (∃ f, heldW d L r3V fullShare f)
            ∗ cellZ d L cc5_scratch5 ∗ cellZ d L cc5_scratch6 ∗ cellZ d L cc5_scratch7 ∗ cellZ d L cc5_scratch8
            ∗ cellZ d L cc5_scratch9 ∗ cellZ d L cc5_scratch10 ∗ cellZ d L cc5_scratch11 ∗ cellZ d L cc5_scratch12
            ∗ cellZ d L cc5_scoped0
            ∗ bigSep Finset.univ (outTrip d L)
            ∗ ∃ W', ⌜∀ p ∈ W', p ∈ W ∨ p.2 = none⌝ ∗ owes (thrV d L) O W') := by
  rw [Gen.cc5_gk_eq_skeleton]
  iintro ⟨#Hmw, HY0, HY1, HY2, HY3, HI, HV, HR0, HR1, HR2, HR3, HG0, HG1, HG2, HG3, HW0, HW1, HW2, HW3, HS, Hout, HO⟩
  sl_unfold [Gen.cc5_gk_skel, k5_part3]
  -- the slab lands in the local index buffer (one copy, awaited); the run stops before the first gather
  sl_exec
  -- whatever the buffer held before, every word of every list is now a word of the slab
  have hrow := fun g off hk => hin_rows d L fi hin g (gk_core.sl.dma0 d L fi) rfl off hk
  -- the buffer as its 32 lists; lists 0 … 3, spelt as the first four gathers slice them
  ihave Hrows := (Entails.of_eq (iv_rows (F := F) d L _)) $$ HV
  ihave Hx := (Entails.of_eq (SparseCore.bigSep_erase' (s := Finset.univ) (i := (0 : Fin 32)) (Finset.mem_univ _))) $$ Hrows
  icases Hx with ⟨Hl0, Hrows⟩
  ihave Hx := (Entails.of_eq (SparseCore.bigSep_erase' (i := (1 : Fin 32)) (by decide))) $$ Hrows
  icases Hx with ⟨Hl1, Hrows⟩
  ihave Hx := (Entails.of_eq (SparseCore.bigSep_erase' (i := (2 : Fin 32)) (by decide))) $$ Hrows
  icases Hx with ⟨Hl2, Hrows⟩
  ihave Hx := (Entails.of_eq (SparseCore.bigSep_erase' (i := (3 : Fin 32)) (by decide))) $$ Hrows
  icases Hx with ⟨Hl3, Hrows⟩
  ihave Hl0' := (Entails.of_eq (rowPts_at (F := F) d L 0 ![0, 0] inb_S32x128_S1x128_0_0 rfl _)) $$ Hl0
  ihave Hl1' := (Entails.of_eq (rowPts_at (F := F) d L 1 ![1, 0] inb_S32x128_S1x128_1_0 rfl _)) $$ Hl1
  ihave Hl2' := (Entails.of_eq (rowPts_at (F := F) d L 2 ![2, 0] inb_S32x128_S1x128_2_0 rfl _)) $$ Hl2
  ihave Hl3' := (Entails.of_eq (rowPts_at (F := F) d L 3 ![3, 0] inb_S32x128_S1x128_3_0 rfl _)) $$ Hl3
  -- the four gathers issue; the run stops at the loop
  sl_exec
  sl_for (inv d L q O W fy ((ivV).view.writes (Elt F) (ivV).view.junk [⟨Rect.whole cc5_scratch0.ty.shape, gk_core.sl.dma0 d L fi⟩]))
    $$ [HO HW0 HW1 HW2 HW3 Hout Hrows HG0 HY0 HG1 HY1 HG2 HY2 HG3 HY3]
  · -- one trip
    intro k acc
    have hk8 : k.val < 8 := trips_eq ▸ k.isLt
    rcases Nat.lt_or_ge k.val 7 with h7 | h7
    · rw [inv_lt (h := hk8), inv_lt (k := k.val + 1) (h := by omega)]
      exact gk_tripA d L q O W fy _ (hrow _) _ _ _ k h7 acc
    · rw [inv_lt (h := hk8), inv_ge (k := k.val + 1) (h := by omega)]
      exact gk_tripB d L q O W fy _ (hrow _) _ _ _ k (by omega) acc
  · -- the invariant before the first trip
    rw [inv_lt (k := 0) (h := by omega)]
    beta_reduce
    unfold invA gFlight yRest
    isplitr; · iexact Hmw
    isplitl [HO]
    · iexists _; isplitr
      swap; · iexact HO
      ipureintro
      exact waits_ins (fun p hp => .inl hp) _
    isplitl [HW0 HW1 HW2 HW3]
    · isplitl [HW0]; · iexact HW0
      isplitl [HW1]; · iexact HW1
      isplitl [HW2]; · iexact HW2
      iexact HW3
    isplitl [Hout]; · iexact Hout
    isplitl [Hrows]; · rw [idle_zero]; iexact Hrows
    isplitl [HG0 HY0]
    · isplitl [HG0]; · iexists _; iexact HG0
      iexact HY0
    isplitl [HG1 HY1]
    · isplitl [HG1]; · iexists _; iexact HG1
      iexact HY1
    isplitl [HG2 HY2]
    · isplitl [HG2]; · iexists _; iexact HG2
      iexact HY2
    isplitl [HG3]; · iexists _; iexact HG3
    iexact HY3
  -- after the loop
  iintro %acc HL
  rw [inv_end]
  beta_reduce
  unfold invEnd
  icases HL with ⟨-, ⟨%W', %hW', HO⟩, ⟨HW0, HW1, HW2, HW3⟩, Hout, Hrows, ⟨⟨%fr0, HR0⟩, HG0, HY0⟩, ⟨⟨%fr1, HR1⟩, HG1, HY1⟩, ⟨⟨%fr2, HR2⟩, HG2, HY2⟩, ⟨⟨%fr3, HR3⟩, HG3, HY3⟩⟩
  sl_exec
  sl_step
  isplitl [HY0]; · iexact HY0
  isplitl [HY1]; · iexact HY1
  isplitl [HY2]; · iexact HY2
  isplitl [HY3]; · iexact HY3
  isplitl [HI]; · iexact HI
  isplitl [Hrows]
  · iexists _
    iapply (Entails.of_eq (iv_rows (F := F) d L _).symm)
    iexact Hrows
  isplitl [HR0]; · iexists _; iexact HR0
  isplitl [HR1]; · iexists _; iexact HR1
  isplitl [HR2]; · iexists _; iexact HR2
  isplitl [HR3]; · iexists _; iexact HR3
  isplitl [HG0]; · iexact HG0
  isplitl [HG1]; · iexact HG1
  isplitl [HG2]; · iexact HG2
  isplitl [HG3]; · iexact HG3
  isplitl [HW0]; · iexact HW0
  isplitl [HW1]; · iexact HW1
  isplitl [HW2]; · iexact HW2
  isplitl [HW3]; · iexact HW3
  isplitl [HS]; · iexact HS
  isplitl [Hout]; · iexact Hout
  iexists _; isplitr
  swap; · iexact HO
  ipureintro; exact hW'

/-! ## The tile's spellings against the launch's: the worker number, the slab, the share of y -/

omit [FloatOps F] in
theorem L0_lt (L : grid5.Coords) : (L 0).val < 2 := (L 0).isLt
omit [FloatOps F] in
theorem L1_lt (L : grid5.Coords) : (L 1).val < 16 := (L 1).isLt

/-- The tile's worker number: subcore-major, as the kernel computes it. -/
def widL (L : grid5.Coords) : Fin 32 := ⟨(L 1).val * 2 + (L 0).val, by have := L0_lt L; have := L1_lt L; omega⟩

omit [FloatOps F] in
/-- The slab the program slices is the worker's part of the index array. -/
theorem slab_rect (L : grid5.Coords) :
    Rect.unit (s := S32x32x128) (k5_off1 L) S1x32x128.size (k5_off1_inb L) = slabRect (widL L) := by
  unfold slabRect Rect.part Rect.block
  refine Rect.unit_congr ?_ ?_ _ _
  · rw [Gen.k5_off1_eq]
    funext a
    match a with
    | 0 => show 2 * (L 1).val + (L 0).val = ((L 1).val * 2 + (L 0).val) * (32 / 32); omega
    | 1 => rfl
    | 2 => rfl
  · funext a
    match a with
    | 0 => rfl
    | 1 => rfl
    | 2 => rfl

omit [FloatOps F] in
theorem set_slabK (L : grid5.Coords) : (slabK L).view.set = (slabRect (widL L)).set := by
  show (((ixV).view.slice (Rect.unit (s := S32x32x128) (k5_off1 L) S1x32x128.size (k5_off1_inb L))).reshape S32x128 squeezes_S1x32x128_S32x128.numel_eq).set = _
  rw [View.set_reshape]
  exact (View.set_slice_whole _ _).trans (congrArg (fun r : Rect S32x32x128 => r.set) (slab_rect L))

omit [FloatOps F] in
/-- The slab held, in the tile's spelling and in the launch's. -/
theorem pts_slabK (d : Dev nD) (L : grid5.Coords) (f : Buf (Elt F) (ixLoc2 d)) :
    (heldW d L (slabK L) fullShare f : sProp 𝕄) = (ixLoc2 d ↦[(slabRect (widL L)).set]{fullShare} f) := by
  unfold heldW
  rw [set_slabK]

omit [FloatOps F] in
/-- Every word of the slab is a row number of y, in the tile's reading of it. -/
theorem hin_slabK (d : Dev nD) (L : grid5.Coords) (f : Buf (Elt F) (ixLoc2 d))
    (h : ∀ j ∈ (slabRect (widL L)).set, (f j).toNat < 8192) :
    ∀ x, ((slabK L).view.read (Elt F) f x).toNat < 8192 := by
  intro x
  rw [View.read_apply]
  refine h _ ?_
  rw [← set_slabK]
  exact Finset.mem_map_of_mem _ (Finset.mem_univ x)

omit [FloatOps F] in
/-- All of y held at a share, in the tile's spelling and in the launch's. -/
theorem pts_yV (d : Dev nD) (L : grid5.Coords) (s : PosShare TreeShare) (f : Buf (Elt F) (yLoc d)) :
    (heldW d L yV s f : sProp 𝕄) = (yLoc d ↦{s} f) := by
  unfold heldW
  rw [show (yV).view.set = Finset.univ from View.set_whole _]

/-! ## The tile's 32 output chunks are the worker's 4096 rows of the output -/

abbrev oLocV (d : Dev nD) (L : grid5.Coords) : Loc nD τ sig := (oV).view.loc (thrV d L)

omit [FloatOps F] in
theorem mem_rowsRect (L : grid5.Coords) (i : S131072x128.Idx) :
    i ∈ (rowsRect (widL L)).set ↔ 4096 * (widL L).val ≤ (i 0).val ∧ (i 0).val < 4096 * (widL L).val + 4096 := by
  unfold rowsRect Rect.part Rect.block
  rw [Rect.mem_set_unit, Fin.forall_fin_two]
  have h1 : (i 1).val < 128 := (i 1).isLt
  show ((widL L).val * (131072 / 32) ≤ (i 0).val ∧ (i 0).val < (widL L).val * (131072 / 32) + 131072 / 32)
      ∧ (0 * 128 ≤ (i 1).val ∧ (i 1).val < 0 * 128 + 128) ↔ _
  omega

omit [FloatOps F] in
theorem mem_chunk (L : grid5.Coords) (t : Fin k5_t1_loop.trips) (r : Fin 4) (i : S131072x128.Idx) :
    i ∈ (Rect.unit (s := S131072x128) (k5_off3 L t (BitVec.ofNat 32 r.val)) S128x128.size (k5_off3_inb L t r)).set
      ↔ 4096 * (widL L).val + 512 * t.val + 128 * r.val ≤ (i 0).val ∧ (i 0).val < 4096 * (widL L).val + 512 * t.val + 128 * r.val + 128 := by
  rw [Rect.mem_set_unit, Gen.k5_off3_eq, Fin.forall_fin_two]
  have h1 : (i 1).val < 128 := (i 1).isLt
  show ((8192 * (L 1).val + 4096 * (L 0).val + 512 * t.val + 128 * r.val ≤ (i 0).val
        ∧ (i 0).val < 8192 * (L 1).val + 4096 * (L 0).val + 512 * t.val + 128 * r.val + 128)
      ∧ (0 ≤ (i 1).val ∧ (i 1).val < 0 + 128))
    ↔ 4096 * ((L 1).val * 2 + (L 0).val) + 512 * t.val + 128 * r.val ≤ (i 0).val
      ∧ (i 0).val < 4096 * ((L 1).val * 2 + (L 0).val) + 512 * t.val + 128 * r.val + 128
  omega

/-- The elements of output chunk 4t + r of the tile. -/
abbrev chunkSet (L : grid5.Coords) (t : Fin k5_t1_loop.trips) (r : Fin 4) : Finset S131072x128.Idx :=
  (Rect.unit (s := S131072x128) (k5_off3 L t (BitVec.ofNat 32 r.val)) S128x128.size (k5_off3_inb L t r)).set

/-- The elements of the four chunks of trip t. -/
abbrev tripSet (L : grid5.Coords) (t : Fin k5_t1_loop.trips) : Finset S131072x128.Idx :=
  chunkSet L t 0 ∪ (chunkSet L t 1 ∪ (chunkSet L t 2 ∪ chunkSet L t 3))

omit [FloatOps F] in
theorem chunk_disjoint (L : grid5.Coords) (t : Fin k5_t1_loop.trips) {r r' : Fin 4} (h : r ≠ r') : Disjoint (chunkSet L t r) (chunkSet L t r') := by
  refine Finset.disjoint_left.mpr fun i hi hi' => h (Fin.ext ?_)
  rw [mem_chunk] at hi hi'
  omega

omit [FloatOps F] in
theorem mem_tripSet (L : grid5.Coords) (t : Fin k5_t1_loop.trips) (i : S131072x128.Idx) :
    i ∈ tripSet L t ↔ 4096 * (widL L).val + 512 * t.val ≤ (i 0).val ∧ (i 0).val < 4096 * (widL L).val + 512 * t.val + 512 := by
  simp only [tripSet, Finset.mem_union, mem_chunk]
  show _ ↔ _
  have e0 : ((0 : Fin 4) : ℕ) = 0 := rfl
  have e1 : ((1 : Fin 4) : ℕ) = 1 := rfl
  have e2 : ((2 : Fin 4) : ℕ) = 2 := rfl
  have e3 : ((3 : Fin 4) : ℕ) = 3 := rfl
  rw [e0, e1, e2, e3]
  omega

omit [FloatOps F] in
theorem trip_disjoint (L : grid5.Coords) {t t' : Fin k5_t1_loop.trips} (h : t ≠ t') : Disjoint (tripSet L t) (tripSet L t') := by
  refine Finset.disjoint_left.mpr fun i hi hi' => h (Fin.ext ?_)
  rw [mem_tripSet] at hi hi'
  omega

omit [FloatOps F] in
/-- The worker's 4096 rows are the eight trips' chunks. -/
theorem rows_cover (L : grid5.Coords) : (rowsRect (widL L)).set = Finset.univ.biUnion (tripSet L) := by
  ext i
  rw [mem_rowsRect, Finset.mem_biUnion]
  constructor
  · intro h
    have h8 : ((i 0).val - 4096 * (widL L).val) / 512 < k5_t1_loop.trips := by rw [trips_eq]; omega
    refine ⟨⟨((i 0).val - 4096 * (widL L).val) / 512, h8⟩, Finset.mem_univ _, ?_⟩
    rw [mem_tripSet]
    show 4096 * (widL L).val + 512 * (((i 0).val - 4096 * (widL L).val) / 512) ≤ (i 0).val
      ∧ (i 0).val < 4096 * (widL L).val + 512 * (((i 0).val - 4096 * (widL L).val) / 512) + 512
    omega
  · rintro ⟨t, -, ht⟩
    rw [mem_tripSet] at ht
    have ht8 : t.val < 8 := trips_eq ▸ t.isLt
    omega

omit [FloatOps F] in
theorem set_outK0 (L : grid5.Coords) (t : Fin k5_t1_loop.trips) : (outK0 L t).view.set = chunkSet L t 0 := View.set_slice_whole _ _
omit [FloatOps F] in
theorem set_outK1 (L : grid5.Coords) (t : Fin k5_t1_loop.trips) : (outK1 L t).view.set = chunkSet L t 1 := View.set_slice_whole _ _
omit [FloatOps F] in
theorem set_outK2 (L : grid5.Coords) (t : Fin k5_t1_loop.trips) : (outK2 L t).view.set = chunkSet L t 2 := View.set_slice_whole _ _
omit [FloatOps F] in
theorem set_outK3 (L : grid5.Coords) (t : Fin k5_t1_loop.trips) : (outK3 L t).view.set = chunkSet L t 3 := View.set_slice_whole _ _

omit [FloatOps F] in
theorem pts_outK0 (d : Dev nD) (L : grid5.Coords) (t : Fin k5_t1_loop.trips) (f : Buf (Elt F) (oLoc2 d)) :
    (heldW d L (outK0 L t) fullShare f : sProp 𝕄) = (oLoc2 d ↦[chunkSet L t 0]{fullShare} f) := by
  unfold heldW; rw [set_outK0]
omit [FloatOps F] in
theorem pts_outK1 (d : Dev nD) (L : grid5.Coords) (t : Fin k5_t1_loop.trips) (f : Buf (Elt F) (oLoc2 d)) :
    (heldW d L (outK1 L t) fullShare f : sProp 𝕄) = (oLoc2 d ↦[chunkSet L t 1]{fullShare} f) := by
  unfold heldW; rw [set_outK1]
omit [FloatOps F] in
theorem pts_outK2 (d : Dev nD) (L : grid5.Coords) (t : Fin k5_t1_loop.trips) (f : Buf (Elt F) (oLoc2 d)) :
    (heldW d L (outK2 L t) fullShare f : sProp 𝕄) = (oLoc2 d ↦[chunkSet L t 2]{fullShare} f) := by
  unfold heldW; rw [set_outK2]
omit [FloatOps F] in
theorem pts_outK3 (d : Dev nD) (L : grid5.Coords) (t : Fin k5_t1_loop.trips) (f : Buf (Elt F) (oLoc2 d)) :
    (heldW d L (outK3 L t) fullShare f : sProp 𝕄) = (oLoc2 d ↦[chunkSet L t 3]{fullShare} f) := by
  unfold heldW; rw [set_outK3]

omit [FloatOps F] in
theorem d23 (L : grid5.Coords) (t : Fin k5_t1_loop.trips) : Disjoint (chunkSet L t 2) (chunkSet L t 3) := chunk_disjoint L t (by decide)
omit [FloatOps F] in
theorem d1_23 (L : grid5.Coords) (t : Fin k5_t1_loop.trips) : Disjoint (chunkSet L t 1) (chunkSet L t 2 ∪ chunkSet L t 3) :=
  Finset.disjoint_union_right.mpr ⟨chunk_disjoint L t (by decide), chunk_disjoint L t (by decide)⟩
omit [FloatOps F] in
theorem d0_123 (L : grid5.Coords) (t : Fin k5_t1_loop.trips) : Disjoint (chunkSet L t 0) (chunkSet L t 1 ∪ (chunkSet L t 2 ∪ chunkSet L t 3)) :=
  Finset.disjoint_union_right.mpr ⟨chunk_disjoint L t (by decide),
    Finset.disjoint_union_right.mpr ⟨chunk_disjoint L t (by decide), chunk_disjoint L t (by decide)⟩⟩

omit [FloatOps F] in
/-- The worker's rows of the output, held at some contents, are its 32 chunks held each. -/
theorem out_split (d : Dev nD) (L : grid5.Coords) (fo : Buf (Elt F) (oLoc2 d)) :
    (oLoc2 d ↦[(rowsRect (widL L)).set]{fullShare} fo : sProp 𝕄) ⊢ bigSep Finset.univ (outTrip d L) := by
  have step : ∀ t, (oLoc2 d ↦[tripSet L t]{fullShare} fo : sProp 𝕄) ⊢ outTrip d L t := by
    intro t
    iintro H
    ihave H := (pointsTo_union (ℓ := oLoc2 d) (d0_123 L t)).1 $$ H
    icases H with ⟨H0, H⟩
    ihave H := (pointsTo_union (ℓ := oLoc2 d) (d1_23 L t)).1 $$ H
    icases H with ⟨H1, H⟩
    ihave H := (pointsTo_union (ℓ := oLoc2 d) (d23 L t)).1 $$ H
    icases H with ⟨H2, H3⟩
    isplitl [H0]; · iexists fo; iapply (Entails.of_eq (pts_outK0 (F := F) d L t fo).symm); iexact H0
    isplitl [H1]; · iexists fo; iapply (Entails.of_eq (pts_outK1 (F := F) d L t fo).symm); iexact H1
    isplitl [H2]; · iexists fo; iapply (Entails.of_eq (pts_outK2 (F := F) d L t fo).symm); iexact H2
    iexists fo; iapply (Entails.of_eq (pts_outK3 (F := F) d L t fo).symm); iexact H3
  rw [rows_cover]
  refine (Entails.of_eq (pointsTo_biUnion (ℓ := oLoc2 d) (q := fullShare) (f := fo) Finset.univ (tripSet L) (fun t _ t' _ h => trip_disjoint L h))).trans ?_
  exact bigSep_mono fun t _ => step t

/-- and back: the 32 chunks at some contents each are the worker's rows at some contents. -/
theorem out_join (d : Dev nD) (L : grid5.Coords) :
    bigSep Finset.univ (outTrip d L) ⊢ (iprop(∃ fo, oLoc2 d ↦[(rowsRect (widL L)).set]{fullShare} fo) : sProp 𝕄) := by
  have step : ∀ t, outTrip d L t ⊢ (iprop(∃ g, oLoc2 d ↦[tripSet L t]{fullShare} g) : sProp 𝕄) := by
    intro t
    iintro ⟨⟨%g0, H0⟩, ⟨%g1, H1⟩, ⟨%g2, H2⟩, ⟨%g3, H3⟩⟩
    ihave K0 := (Entails.of_eq (pts_outK0 (F := F) d L t g0)) $$ H0
    ihave K1 := (Entails.of_eq (pts_outK1 (F := F) d L t g1)) $$ H1
    ihave K2 := (Entails.of_eq (pts_outK2 (F := F) d L t g2)) $$ H2
    ihave K3 := (Entails.of_eq (pts_outK3 (F := F) d L t g3)) $$ H3
    ihave H23 := (pointsTo_join (ℓ := oLoc2 d) (d23 L t)) $$ [K2 K3]
    · isplitl [K2]; · iexact K2
      iexact K3
    ihave H123 := (pointsTo_join (ℓ := oLoc2 d) (d1_23 L t)) $$ [K1 H23]
    · isplitl [K1]; · iexact K1
      iexact H23
    ihave H0123 := (pointsTo_join (ℓ := oLoc2 d) (d0_123 L t)) $$ [K0 H123]
    · isplitl [K0]; · iexact K0
      iexact H123
    iexists _; iexact H0123
  refine (bigSep_mono fun t _ => step t).trans ?_
  refine (bigSep_exists_pi Finset.univ (fun t (g : Buf (Elt F) (oLoc2 d)) => (oLoc2 d ↦[tripSet L t]{fullShare} g : sProp 𝕄))).trans ?_
  iintro ⟨%gs, H⟩
  ihave H' := (pointsTo_biUnion_join (ℓ := oLoc2 d) (q := fullShare) (Val := Elt F) Finset.univ (tripSet L) gs (gs ⟨0, by rw [trips_eq]; omega⟩)
    (fun t _ t' _ h => trip_disjoint L h)) $$ H
  icases H' with ⟨%g, -, Hg⟩
  rw [rows_cover]
  iexists g; iexact Hg

/-! ## The tile's scoped storage: its five buffers and nine semaphores among all it owns -/

abbrev cellOf (d : Dev nD) (L : grid5.Coords) (a : DmaSems sig S_) : GSem nD τ sig := (thrV d L, SemLoc.dma a.sem)
abbrev bufOf (L : grid5.Coords) (b : Ref sig .scVector) : DevRef τ sig := (Proc.scVector (cV L) (jV L)).devRef b

omit [FloatOps F] in
theorem cell_ne (thr : Thread nD τ) {a b : SemLoc sig} (h : a ≠ b) : ((thr, a) : GSem nD τ sig) ≠ (thr, b) := fun e => h (congrArg Prod.snd e)
omit [FloatOps F] in
theorem buf_ne (L : grid5.Coords) {a b : Ref sig .scVector} (h : a ≠ b) : bufOf L a ≠ bufOf L b := fun e => h (Proc.devRef_injective _ e)

/-- The scoped semaphores of the tile other than the nine the body uses. -/
abbrev restCells (d : Dev nD) (L : grid5.Coords) : Finset (GSem nD τ sig) :=
  ((((((((((ownCells (thrV d L)).erase (cellOf d L cc5_scratch5)).erase (cellOf d L cc5_scratch6)).erase (cellOf d L cc5_scratch7)).erase (cellOf d L cc5_scratch8)).erase (cellOf d L cc5_scratch9)).erase (cellOf d L cc5_scratch10)).erase (cellOf d L cc5_scratch11)).erase (cellOf d L cc5_scratch12)).erase (cellOf d L cc5_scoped0))

/-- The buffers of the tile other than the five the body uses. -/
abbrev restRefs (L : grid5.Coords) : Finset (DevRef τ sig) :=
  ((((((ownRefs (τ := τ) (.scVector (cV L) (jV L))).erase (bufOf L cc5_scratch0)).erase (bufOf L cc5_scratch1)).erase (bufOf L cc5_scratch2)).erase (bufOf L cc5_scratch3)).erase (bufOf L cc5_scratch4))

omit [FloatOps F] in
theorem tile_sems (d : Dev nD) (L : grid5.Coords) :
    (ownSems0 (thrV d L) : sProp 𝕄)
      = iprop(cellZ d L cc5_scratch5 ∗ cellZ d L cc5_scratch6 ∗ cellZ d L cc5_scratch7 ∗ cellZ d L cc5_scratch8
          ∗ cellZ d L cc5_scratch9 ∗ cellZ d L cc5_scratch10 ∗ cellZ d L cc5_scratch11 ∗ cellZ d L cc5_scratch12
          ∗ cellZ d L cc5_scoped0 ∗ bigSep (restCells d L) fun g => semVal g 0) := by
  unfold SparseCore.Cfg.ownSems0
  rw [SparseCore.bigSep_erase' ((mem_ownCells (g := (cellOf d L cc5_scratch5))).mpr ⟨rfl, by show (SemLoc.dma cc5_scratch5.sem : SemLoc sig).isScoped .scVector = true; decide⟩),
    SparseCore.bigSep_erase' (Finset.mem_erase.mpr ⟨cell_ne (thrV d L) (by decide : (SemLoc.dma cc5_scratch6.sem : SemLoc sig) ≠ SemLoc.dma cc5_scratch5.sem), ((mem_ownCells (g := (cellOf d L cc5_scratch6))).mpr ⟨rfl, by show (SemLoc.dma cc5_scratch6.sem : SemLoc sig).isScoped .scVector = true; decide⟩)⟩),
    SparseCore.bigSep_erase' (Finset.mem_erase.mpr ⟨cell_ne (thrV d L) (by decide : (SemLoc.dma cc5_scratch7.sem : SemLoc sig) ≠ SemLoc.dma cc5_scratch6.sem), (Finset.mem_erase.mpr ⟨cell_ne (thrV d L) (by decide : (SemLoc.dma cc5_scratch7.sem : SemLoc sig) ≠ SemLoc.dma cc5_scratch5.sem), ((mem_ownCells (g := (cellOf d L cc5_scratch7))).mpr ⟨rfl, by show (SemLoc.dma cc5_scratch7.sem : SemLoc sig).isScoped .scVector = true; decide⟩)⟩)⟩),
    SparseCore.bigSep_erase' (Finset.mem_erase.mpr ⟨cell_ne (thrV d L) (by decide : (SemLoc.dma cc5_scratch8.sem : SemLoc sig) ≠ SemLoc.dma cc5_scratch7.sem), (Finset.mem_erase.mpr ⟨cell_ne (thrV d L) (by decide : (SemLoc.dma cc5_scratch8.sem : SemLoc sig) ≠ SemLoc.dma cc5_scratch6.sem), (Finset.mem_erase.mpr ⟨cell_ne (thrV d L) (by decide : (SemLoc.dma cc5_scratch8.sem : SemLoc sig) ≠ SemLoc.dma cc5_scratch5.sem), ((mem_ownCells (g := (cellOf d L cc5_scratch8))).mpr ⟨rfl, by show (SemLoc.dma cc5_scratch8.sem : SemLoc sig).isScoped .scVector = true; decide⟩)⟩)⟩)⟩),
    SparseCore.bigSep_erase' (Finset.mem_erase.mpr ⟨cell_ne (thrV d L) (by decide : (SemLoc.dma cc5_scratch9.sem : SemLoc sig) ≠ SemLoc.dma cc5_scratch8.sem), (Finset.mem_erase.mpr ⟨cell_ne (thrV d L) (by decide : (SemLoc.dma cc5_scratch9.sem : SemLoc sig) ≠ SemLoc.dma cc5_scratch7.sem), (Finset.mem_erase.mpr ⟨cell_ne (thrV d L) (by decide : (SemLoc.dma cc5_scratch9.sem : SemLoc sig) ≠ SemLoc.dma cc5_scratch6.sem), (Finset.mem_erase.mpr ⟨cell_ne (thrV d L) (by decide : (SemLoc.dma cc5_scratch9.sem : SemLoc sig) ≠ SemLoc.dma cc5_scratch5.sem), ((mem_ownCells (g := (cellOf d L cc5_scratch9))).mpr ⟨rfl, by show (SemLoc.dma cc5_scratch9.sem : SemLoc sig).isScoped .scVector = true; decide⟩)⟩)⟩)⟩)⟩),
    SparseCore.bigSep_erase' (Finset.mem_erase.mpr ⟨cell_ne (thrV d L) (by decide : (SemLoc.dma cc5_scratch10.sem : SemLoc sig) ≠ SemLoc.dma cc5_scratch9.sem), (Finset.mem_erase.mpr ⟨cell_ne (thrV d L) (by decide : (SemLoc.dma cc5_scratch10.sem : SemLoc sig) ≠ SemLoc.dma cc5_scratch8.sem), (Finset.mem_erase.mpr ⟨cell_ne (thrV d L) (by decide : (SemLoc.dma cc5_scratch10.sem : SemLoc sig) ≠ SemLoc.dma cc5_scratch7.sem), (Finset.mem_erase.mpr ⟨cell_ne (thrV d L) (by decide : (SemLoc.dma cc5_scratch10.sem : SemLoc sig) ≠ SemLoc.dma cc5_scratch6.sem), (Finset.mem_erase.mpr ⟨cell_ne (thrV d L) (by decide : (SemLoc.dma cc5_scratch10.sem : SemLoc sig) ≠ SemLoc.dma cc5_scratch5.sem), ((mem_ownCells (g := (cellOf d L cc5_scratch10))).mpr ⟨rfl, by show (SemLoc.dma cc5_scratch10.sem : SemLoc sig).isScoped .scVector = true; decide⟩)⟩)⟩)⟩)⟩)⟩),
    SparseCore.bigSep_erase' (Finset.mem_erase.mpr ⟨cell_ne (thrV d L) (by decide : (SemLoc.dma cc5_scratch11.sem : SemLoc sig) ≠ SemLoc.dma cc5_scratch10.sem), (Finset.mem_erase.mpr ⟨cell_ne (thrV d L) (by decide : (SemLoc.dma cc5_scratch11.sem : SemLoc sig) ≠ SemLoc.dma cc5_scratch9.sem), (Finset.mem_erase.mpr ⟨cell_ne (thrV d L) (by decide : (SemLoc.dma cc5_scratch11.sem : SemLoc sig) ≠ SemLoc.dma cc5_scratch8.sem), (Finset.mem_erase.mpr ⟨cell_ne (thrV d L) (by decide : (SemLoc.dma cc5_scratch11.sem : SemLoc sig) ≠ SemLoc.dma cc5_scratch7.sem), (Finset.mem_erase.mpr ⟨cell_ne (thrV d L) (by decide : (SemLoc.dma cc5_scratch11.sem : SemLoc sig) ≠ SemLoc.dma cc5_scratch6.sem), (Finset.mem_erase.mpr ⟨cell_ne (thrV d L) (by decide : (SemLoc.dma cc5_scratch11.sem : SemLoc sig) ≠ SemLoc.dma cc5_scratch5.sem), ((mem_ownCells (g := (cellOf d L cc5_scratch11))).mpr ⟨rfl, by show (SemLoc.dma cc5_scratch11.sem : SemLoc sig).isScoped .scVector = true; decide⟩)⟩)⟩)⟩)⟩)⟩)⟩),
    SparseCore.bigSep_erase' (Finset.mem_erase.mpr ⟨cell_ne (thrV d L) (by decide : (SemLoc.dma cc5_scratch12.sem : SemLoc sig) ≠ SemLoc.dma cc5_scratch11.sem), (Finset.mem_erase.mpr ⟨cell_ne (thrV d L) (by decide : (SemLoc.dma cc5_scratch12.sem : SemLoc sig) ≠ SemLoc.dma cc5_scratch10.sem), (Finset.mem_erase.mpr ⟨cell_ne (thrV d L) (by decide : (SemLoc.dma cc5_scratch12.sem : SemLoc sig) ≠ SemLoc.dma cc5_scratch9.sem), (Finset.mem_erase.mpr ⟨cell_ne (thrV d L) (by decide : (SemLoc.dma cc5_scratch12.sem : SemLoc sig) ≠ SemLoc.dma cc5_scratch8.sem), (Finset.mem_erase.mpr ⟨cell_ne (thrV d L) (by decide : (SemLoc.dma cc5_scratch12.sem : SemLoc sig) ≠ SemLoc.dma cc5_scratch7.sem), (Finset.mem_erase.mpr ⟨cell_ne (thrV d L) (by decide : (SemLoc.dma cc5_scratch12.sem : SemLoc sig) ≠ SemLoc.dma cc5_scratch6.sem), (Finset.mem_erase.mpr ⟨cell_ne (thrV d L) (by decide : (SemLoc.dma cc5_scratch12.sem : SemLoc sig) ≠ SemLoc.dma cc5_scratch5.sem), ((mem_ownCells (g := (cellOf d L cc5_scratch12))).mpr ⟨rfl, by show (SemLoc.dma cc5_scratch12.sem : SemLoc sig).isScoped .scVector = true; decide⟩)⟩)⟩)⟩)⟩)⟩)⟩)⟩),
    SparseCore.bigSep_erase' (Finset.mem_erase.mpr ⟨cell_ne (thrV d L) (by decide : (SemLoc.dma cc5_scoped0.sem : SemLoc sig) ≠ SemLoc.dma cc5_scratch12.sem), (Finset.mem_erase.mpr ⟨cell_ne (thrV d L) (by decide : (SemLoc.dma cc5_scoped0.sem : SemLoc sig) ≠ SemLoc.dma cc5_scratch11.sem), (Finset.mem_erase.mpr ⟨cell_ne (thrV d L) (by decide : (SemLoc.dma cc5_scoped0.sem : SemLoc sig) ≠ SemLoc.dma cc5_scratch10.sem), (Finset.mem_erase.mpr ⟨cell_ne (thrV d L) (by decide : (SemLoc.dma cc5_scoped0.sem : SemLoc sig) ≠ SemLoc.dma cc5_scratch9.sem), (Finset.mem_erase.mpr ⟨cell_ne (thrV d L) (by decide : (SemLoc.dma cc5_scoped0.sem : SemLoc sig) ≠ SemLoc.dma cc5_scratch8.sem), (Finset.mem_erase.mpr ⟨cell_ne (thrV d L) (by decide : (SemLoc.dma cc5_scoped0.sem : SemLoc sig) ≠ SemLoc.dma cc5_scratch7.sem), (Finset.mem_erase.mpr ⟨cell_ne (thrV d L) (by decide : (SemLoc.dma cc5_scoped0.sem : SemLoc sig) ≠ SemLoc.dma cc5_scratch6.sem), (Finset.mem_erase.mpr ⟨cell_ne (thrV d L) (by decide : (SemLoc.dma cc5_scoped0.sem : SemLoc sig) ≠ SemLoc.dma cc5_scratch5.sem), ((mem_ownCells (g := (cellOf d L cc5_scoped0))).mpr ⟨rfl, by show (SemLoc.dma cc5_scoped0.sem : SemLoc sig).isScoped .scVector = true; decide⟩)⟩)⟩)⟩)⟩)⟩)⟩)⟩)⟩)]

omit [FloatOps F] in
theorem tile_bufs (d : Dev nD) (L : grid5.Coords) :
    (ownBufs (thrV d L) : sProp 𝕄)
      = iprop((∃ f, (thrV d L).loc cc5_scratch0 ↦{fullShare} f) ∗ (∃ f, (thrV d L).loc cc5_scratch1 ↦{fullShare} f)
          ∗ (∃ f, (thrV d L).loc cc5_scratch2 ↦{fullShare} f) ∗ (∃ f, (thrV d L).loc cc5_scratch3 ↦{fullShare} f)
          ∗ (∃ f, (thrV d L).loc cc5_scratch4 ↦{fullShare} f)
          ∗ bigSep (restRefs L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (bufOf L cc5_scratch0)) rfl)).trans ?_
  rw [SparseCore.bigSep_erase' (Finset.mem_erase.mpr ⟨buf_ne L (by decide : (cc5_scratch1 : Ref sig .scVector) ≠ cc5_scratch0), (SparseCore.Cfg.mem_ownRefs_of_owner (p := Proc.scVector (cV L) (jV L)) (b := (bufOf L cc5_scratch1)) rfl)⟩),
    SparseCore.bigSep_erase' (Finset.mem_erase.mpr ⟨buf_ne L (by decide : (cc5_scratch2 : Ref sig .scVector) ≠ cc5_scratch1), (Finset.mem_erase.mpr ⟨buf_ne L (by decide : (cc5_scratch2 : Ref sig .scVector) ≠ cc5_scratch0), (SparseCore.Cfg.mem_ownRefs_of_owner (p := Proc.scVector (cV L) (jV L)) (b := (bufOf L cc5_scratch2)) rfl)⟩)⟩),
    SparseCore.bigSep_erase' (Finset.mem_erase.mpr ⟨buf_ne L (by decide : (cc5_scratch3 : Ref sig .scVector) ≠ cc5_scratch2), (Finset.mem_erase.mpr ⟨buf_ne L (by decide : (cc5_scratch3 : Ref sig .scVector) ≠ cc5_scratch1), (Finset.mem_erase.mpr ⟨buf_ne L (by decide : (cc5_scratch3 : Ref sig .scVector) ≠ cc5_scratch0), (SparseCore.Cfg.mem_ownRefs_of_owner (p := Proc.scVector (cV L) (jV L)) (b := (bufOf L cc5_scratch3)) rfl)⟩)⟩)⟩),
    SparseCore.bigSep_erase' (Finset.mem_erase.mpr ⟨buf_ne L (by decide : (cc5_scratch4 : Ref sig .scVector) ≠ cc5_scratch3), (Finset.mem_erase.mpr ⟨buf_ne L (by decide : (cc5_scratch4 : Ref sig .scVector) ≠ cc5_scratch2), (Finset.mem_erase.mpr ⟨buf_ne L (by decide : (cc5_scratch4 : Ref sig .scVector) ≠ cc5_scratch1), (Finset.mem_erase.mpr ⟨buf_ne L (by decide : (cc5_scratch4 : Ref sig .scVector) ≠ cc5_scratch0), (SparseCore.Cfg.mem_ownRefs_of_owner (p := Proc.scVector (cV L) (jV L)) (b := (bufOf L cc5_scratch4)) rfl)⟩)⟩)⟩)⟩)]

omit [FloatOps F] in
/-- A whole buffer held by the tile, in the two spellings. -/
theorem pts_whole (d : Dev nD) (L : grid5.Coords) (b : Ref sig .scVector) (s : PosShare TreeShare) (f : Buf (Elt F) ((thrV d L).loc b)) :
    ((Memref.whole b).view.loc (thrV d L) ↦[(Memref.whole b).view.set]{s} f : sProp 𝕄) = ((thrV d L).loc b ↦{s} f) := by
  rw [show (Memref.whole b).view.set = Finset.univ from View.set_whole _]

/-! ## The tile's share of y as four read shares, one per gather semaphore, and what is kept aside -/

/-- What is kept aside of a share of y while the four gathers hold theirs. -/
abbrev yKeep (ℓ : Loc nD τ sig) (q : PosShare TreeShare) (f : Buf (Elt F) ℓ) : sProp 𝕄 :=
  iprop((ℓ ↦{Transfers.shareDrop q 51} f)
    ∗ bigSep (((((Finset.range 51).erase 47).erase 48).erase 49).erase 50) (fun i => (ℓ ↦{Transfers.shareTokN q i} f : sProp 𝕄)))

omit [FloatOps F] in
theorem y_toks (ℓ : Loc nD τ sig) (q : PosShare TreeShare) (f : Buf (Elt F) ℓ) :
    (ℓ ↦{q} f : sProp 𝕄) ⊣⊢ iprop((ℓ ↦{Transfers.shareTokN q 47} f) ∗ (ℓ ↦{Transfers.shareTokN q 48} f)
      ∗ (ℓ ↦{Transfers.shareTokN q 49} f) ∗ (ℓ ↦{Transfers.shareTokN q 50} f) ∗ yKeep ℓ q f) := by
  have h := Transfers.pointsTo_toks_range (Ix := HIx 4) (Name := ℕ) (U := UU) (Lvl := ℕ) (ℓ := ℓ) (S := Finset.univ) (f := f) q 51
  have e : bigSep (Finset.range 51) (fun i => (ℓ ↦{Transfers.shareTokN q i} f : sProp 𝕄))
      = iprop((ℓ ↦{Transfers.shareTokN q 47} f) ∗ (ℓ ↦{Transfers.shareTokN q 48} f) ∗ (ℓ ↦{Transfers.shareTokN q 49} f) ∗ (ℓ ↦{Transfers.shareTokN q 50} f)
          ∗ bigSep (((((Finset.range 51).erase 47).erase 48).erase 49).erase 50) (fun i => (ℓ ↦{Transfers.shareTokN q i} f : sProp 𝕄))) := by
    rw [SparseCore.bigSep_erase' (by decide : 47 ∈ Finset.range 51), SparseCore.bigSep_erase' (by decide : 48 ∈ (Finset.range 51).erase 47),
      SparseCore.bigSep_erase' (by decide : 49 ∈ ((Finset.range 51).erase 47).erase 48),
      SparseCore.bigSep_erase' (by decide : 50 ∈ (((Finset.range 51).erase 47).erase 48).erase 49)]
  constructor
  · refine h.1.trans ?_
    rw [e]
    iintro ⟨Hd, H5, H6, H7, H8, Hr⟩
    isplitl [H5]; · iexact H5
    isplitl [H6]; · iexact H6
    isplitl [H7]; · iexact H7
    isplitl [H8]; · iexact H8
    isplitl [Hd]; · iexact Hd
    iexact Hr
  · refine BIBase.Entails.trans ?_ h.2
    rw [e]
    iintro ⟨H5, H6, H7, H8, Hd, Hr⟩
    isplitl [Hd]; · iexact Hd
    isplitl [H5]; · iexact H5
    isplitl [H6]; · iexact H6
    isplitl [H7]; · iexact H7
    isplitl [H8]; · iexact H8
    iexact Hr

/-! ## The body from what the launch hands the tile -/

set_option maxHeartbeats 4000000 in
/-- The body on tile (L 0, L 1) of device d from the worker's share as the launch states it — a share of y, its slab of
    the index array with every word a row number of y, its 4096 rows of the output — and the tile's scoped storage;
    it hands the same back, the output rows and the local buffers at some contents, owing what it owed. -/
theorem gk_body (hF : (K (F := F)).Facts) (d : Dev nD) (L : grid5.Coords)
    (O : CellTallies nD τ sig (HIx 4)) (W : Waits sig (HIx 4)) (hO : ∀ g, O g none = 0) :
    (iprop(levAts (K (F := F)).L (K (F := F)).lev ∗ share2 (F := F) d (widL L)
        ∗ scopedBufs (thrV d L) ∗ scopedSems0 (thrV d L) ∗ owes (thrV d L) O W) : sProp 𝕄)
      ⊢ wp frame (wpE (defs₀ (F := F)) 𝒱₀ (thrV d L) none) Set.univ
          (cc5_gk L yV (Memref.isWhole_whole _) ixV (Memref.isWhole_whole _) oV (Memref.isWhole_whole _)
            ivV (Memref.isWhole_whole _) r0V (Memref.isWhole_whole _) r1V (Memref.isWhole_whole _)
            r2V (Memref.isWhole_whole _) r3V (Memref.isWhole_whole _)
            cc5_scratch5 cc5_scratch6 cc5_scratch7 cc5_scratch8 cc5_scratch9 cc5_scratch10 cc5_scratch11 cc5_scratch12 cc5_scoped0)
          fun _ => iprop(share2 (F := F) d (widL L) ∗ scopedBufs (thrV d L) ∗ scopedSems0 (thrV d L)
            ∗ ∃ W', ⌜∀ p ∈ W', p ∈ W ∨ p.2 = none⌝ ∗ owes (thrV d L) O W') := by
  rw [(K (F := F)).scopedBufs_V hF d (cV L) (jV L), SparseCore.Cfg.scopedSems0_V (Val := Elt F) d (cV L) (jV L), tile_sems, tile_bufs]
  unfold share2
  iintro ⟨#Hlv, ⟨⟨%fy, HY⟩, ⟨%fi, HI, %hfi⟩, ⟨%fo, HOut⟩⟩, ⟨⟨%fv, HV⟩, ⟨%f0, HR0⟩, ⟨%f1, HR1⟩, ⟨%f2, HR2⟩, ⟨%f3, HR3⟩, Hbufs⟩, ⟨HG0, HG1, HG2, HG3, HW0, HW1, HW2, HW3, HS, Hsems⟩, HO⟩
  ihave Hmw := (show levAts (K (F := F)).L (K (F := F)).lev ⊢ Transfers.MayWaits (thrV d L) (default : HIx 4) O from
    (K (F := F)).mayWaits_none (thr := thrV d L) hO) $$ Hlv
  -- the share of y as the four gathers' read shares and the rest
  ihave HYs := (y_toks (F := F) (yLoc d) (ysh (widL L)) fy).1 $$ HY
  icases HYs with ⟨HY0, HY1, HY2, HY3, Hkeep⟩
  ihave KY0 := (Entails.of_eq (pts_yV (F := F) d L _ fy).symm) $$ HY0
  ihave KY1 := (Entails.of_eq (pts_yV (F := F) d L _ fy).symm) $$ HY1
  ihave KY2 := (Entails.of_eq (pts_yV (F := F) d L _ fy).symm) $$ HY2
  ihave KY3 := (Entails.of_eq (pts_yV (F := F) d L _ fy).symm) $$ HY3
  -- the slab, the output rows as 32 chunks, the five local buffers, in the tile's spellings
  ihave KI := (Entails.of_eq (pts_slabK (F := F) d L fi).symm) $$ HI
  ihave KOut := (out_split (F := F) d L fo) $$ HOut
  ihave KV := (Entails.of_eq (pts_whole (F := F) d L cc5_scratch0 fullShare fv).symm) $$ HV
  ihave KR0 := (Entails.of_eq (pts_whole (F := F) d L cc5_scratch1 fullShare f0).symm) $$ HR0
  ihave KR1 := (Entails.of_eq (pts_whole (F := F) d L cc5_scratch2 fullShare f1).symm) $$ HR1
  ihave KR2 := (Entails.of_eq (pts_whole (F := F) d L cc5_scratch3 fullShare f2).symm) $$ HR2
  ihave KR3 := (Entails.of_eq (pts_whole (F := F) d L cc5_scratch4 fullShare f3).symm) $$ HR3
  iapply (wp_wand_r frame (wpE (defs₀ (F := F)) 𝒱₀ (thrV d L) none) Set.univ)
  isplitl [Hmw KY0 KY1 KY2 KY3 KI KV KR0 KR1 KR2 KR3 HG0 HG1 HG2 HG3 HW0 HW1 HW2 HW3 HS KOut HO]
  · iapply (gk_core d L (ysh (widL L)) O W fy fi fv f0 f1 f2 f3 (hin_slabK d L fi hfi))
    isplitl [Hmw]; · iexact Hmw
    isplitl [KY0]; · iexact KY0
    isplitl [KY1]; · iexact KY1
    isplitl [KY2]; · iexact KY2
    isplitl [KY3]; · iexact KY3
    isplitl [KI]; · iexact KI
    isplitl [KV]; · iexact KV
    isplitl [KR0]; · iexact KR0
    isplitl [KR1]; · iexact KR1
    isplitl [KR2]; · iexact KR2
    isplitl [KR3]; · iexact KR3
    isplitl [HG0]; · iexact HG0
    isplitl [HG1]; · iexact HG1
    isplitl [HG2]; · iexact HG2
    isplitl [HG3]; · iexact HG3
    isplitl [HW0]; · iexact HW0
    isplitl [HW1]; · iexact HW1
    isplitl [HW2]; · iexact HW2
    isplitl [HW3]; · iexact HW3
    isplitl [HS]; · iexact HS
    isplitl [KOut]; · iexact KOut
    iexact HO
  iintro %a ⟨HY0, HY1, HY2, HY3, HI, ⟨%gv, HV⟩, ⟨%g0, HR0⟩, ⟨%g1, HR1⟩, ⟨%g2, HR2⟩, ⟨%g3, HR3⟩, HG0, HG1, HG2, HG3, HW0, HW1, HW2, HW3, HS, HOut, HO⟩
  isplitl [HY0 HY1 HY2 HY3 Hkeep HI HOut]
  · isplitl [HY0 HY1 HY2 HY3 Hkeep]
    · iexists fy
      iapply (y_toks (F := F) (yLoc d) (ysh (widL L)) fy).2
      isplitl [HY0]; · iapply (Entails.of_eq (pts_yV (F := F) d L _ fy)); iexact HY0
      isplitl [HY1]; · iapply (Entails.of_eq (pts_yV (F := F) d L _ fy)); iexact HY1
      isplitl [HY2]; · iapply (Entails.of_eq (pts_yV (F := F) d L _ fy)); iexact HY2
      isplitl [HY3]; · iapply (Entails.of_eq (pts_yV (F := F) d L _ fy)); iexact HY3
      iexact Hkeep
    isplitl [HI]
    · iexists fi
      isplitl [HI]; · iapply (Entails.of_eq (pts_slabK (F := F) d L fi)); iexact HI
      ipureintro; exact hfi
    iapply (out_join (F := F) d L); iexact HOut
  isplitl [HV HR0 HR1 HR2 HR3 Hbufs]
  · isplitl [HV]; · iexists gv; iapply (Entails.of_eq (pts_whole (F := F) d L cc5_scratch0 fullShare gv)); iexact HV
    isplitl [HR0]; · iexists g0; iapply (Entails.of_eq (pts_whole (F := F) d L cc5_scratch1 fullShare g0)); iexact HR0
    isplitl [HR1]; · iexists g1; iapply (Entails.of_eq (pts_whole (F := F) d L cc5_scratch2 fullShare g1)); iexact HR1
    isplitl [HR2]; · iexists g2; iapply (Entails.of_eq (pts_whole (F := F) d L cc5_scratch3 fullShare g2)); iexact HR2
    isplitl [HR3]; · iexists g3; iapply (Entails.of_eq (pts_whole (F := F) d L cc5_scratch4 fullShare g3)); iexact HR3
    iexact Hbufs
  isplitl [HG0 HG1 HG2 HG3 HW0 HW1 HW2 HW3 HS Hsems]
  · isplitl [HG0]; · iexact HG0
    isplitl [HG1]; · iexact HG1
    isplitl [HG2]; · iexact HG2
    isplitl [HG3]; · iexact HG3
    isplitl [HW0]; · iexact HW0
    isplitl [HW1]; · iexact HW1
    isplitl [HW2]; · iexact HW2
    isplitl [HW3]; · iexact HW3
    isplitl [HS]; · iexact HS
    iexact Hsems
  iexact HO

/-! ## The launch theorem's obligation for the third call's tiles -/

/-- The grid coordinates of tile s of core c. -/
def coordsV (c : Fin (grid5.bound 0)) (s : Fin (grid5.bound 1)) : grid5.Coords :=
  fun | 0 => c | 1 => s | ⟨_ + 2, h⟩ => absurd h (Nat.not_lt.2 (Nat.le_add_left _ _))

/-- The body table's row for the third call on a vector subcore. -/
theorem defs₀_vec5 (c : Fin τ.nSC) (s : Fin τ.nSub) :
    defs₀ (F := F) (.scVector c s) 5 ()
      = SparseCore.onTile hcore5 hsub5 (fun c s => cc5_gk (coordsV c s)
          yV (Memref.isWhole_whole _) ixV (Memref.isWhole_whole _) oV (Memref.isWhole_whole _)
          ivV (Memref.isWhole_whole _) r0V (Memref.isWhole_whole _) r1V (Memref.isWhole_whole _)
          r2V (Memref.isWhole_whole _) r3V (Memref.isWhole_whole _)
          cc5_scratch5 cc5_scratch6 cc5_scratch7 cc5_scratch8 cc5_scratch9 cc5_scratch10 cc5_scratch11 cc5_scratch12 cc5_scoped0) ⟨⟩ c s := rfl

omit [FloatOps F] in
/-- A post over the waits already recorded or at no index is one over those or at the call's index. -/
theorem post_weaken {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The third call's share of tile i of core c is the share of the worker the tile's coordinates name. -/
theorem go_eq2 (d : Dev nD) (c : Fin ((K (F := F)).nCore 2)) (i : Fin ((K (F := F)).nSub 2))
    (h0 : ((K (F := F)).core 2 c).val < grid5.bound 0) (h1 : ((K (F := F)).sub 2 i).val < grid5.bound 1) :
    (P (F := F)).go 2 d c i = share2 (F := F) d (widL (coordsV ⟨((K (F := F)).core 2 c).val, h0⟩ ⟨((K (F := F)).sub 2 i).val, h1⟩)) := by
  show share2 (F := F) d (wid (Fin.cast (nCore_eq 2) c) (Fin.cast (nSub_eq 2) i)) = _
  congr 1

theorem td_eq2 (d : Dev nD) (c : Fin ((K (F := F)).nCore 2)) (i : Fin ((K (F := F)).nSub 2))
    (h0 : ((K (F := F)).core 2 c).val < grid5.bound 0) (h1 : ((K (F := F)).sub 2 i).val < grid5.bound 1) :
    (P (F := F)).td 2 d c i = share2 (F := F) d (widL (coordsV ⟨((K (F := F)).core 2 c).val, h0⟩ ⟨((K (F := F)).sub 2 i).val, h1⟩)) :=
  go_eq2 d c i h0 h1

set_option maxRecDepth 16384 in
/-- Every tile of the third call runs its body from its worker's share to its worker's share. -/
theorem tileObl2 (hF : (K (F := F)).Facts) : (K (F := F)).TileObl (D (F := F)) 𝒱₀.lift (P (F := F)) (Sum.inl none) 2 := by
  intro d c i O W hO _ _
  simp only [show (P (F := F)).ox = fun _ _ => 0 from rfl, add_zero]
  have hci : ((K (F := F)).core 2 c).val < grid5.bound 0 ∧ ((K (F := F)).sub 2 i).val < grid5.bound 1 := ⟨c.isLt, i.isLt⟩
  rw [go_eq2 d c i hci.1 hci.2, td_eq2 d c i hci.1 hci.2]
  change _ ⊢ wp _ _ _ (Pipeline.liftProg (defs₀ (F := F) (.scVector ((K (F := F)).core 2 c) ((K (F := F)).sub 2 i)) 5 ())) _
  refine BIBase.Entails.trans ?_ (Pipeline.wp_liftProg (D (F := F)) (Pipeline.defs_kernel pcfgs defs₀) 𝒱₀ _ Set.univ none _ _)
  rw [defs₀_vec5]; simp only [SparseCore.onTile, hci, and_self, ↓reduceDIte]
  refine BIBase.Entails.trans ?_ ((gk_body hF d (coordsV ⟨_, hci.1⟩ ⟨_, hci.2⟩) O W hO).trans (wp_mono frame _ _ fun _ => post_weaken))
  iintro ⟨Hlv, -, Hgo, Hb, Hs, HO⟩
  isplitl [Hlv]; · iexact Hlv
  isplitl [Hgo]; · iexact Hgo
  isplitl [Hb]; · iexact Hb
  isplitl [Hs]; · iexact Hs
  iexact HO

end Cert.Kernel.Sc.Gather2

end
-- ==== Proof.GatherBody7K.lean ====
/-
  The body of the sparse-core gather kernel of the fourth call, once, at a symbolic tile, for any float instance.

  Tile (c, s) is worker w = 2·s + c of 32. It copies slab w of the index array (32 lists of 128 row numbers) into its
  local index buffer, waits for the copy, and issues four indexed copies: rows idx[b][·] of y into row buffer b, on
  gather semaphore b (b = 0..3). Then eight trips; in trip g, for each slot b with j = 4g + b: wait for gather b (row
  buffer b holds the 128 rows list j names); copy row buffer b to output rows (32w + j)·128 … + 127 on write semaphore
  b; wait for it; and, when j + 4 < 32, issue the indexed copy of list j + 4 into row buffer b. One copy is outstanding
  per semaphore at any time, and nothing touches a copy's source or destination between its issue and its wait.
-/
import proofs.«215235_g2774548873965_cont_9to1_572_34_alg».proof.Proof.ScPayK
import Idealize.ShloMosaic.Lib.SparseCore.Launch
import Idealize.ShloMosaic.Lib.SparseCore.Ops
import Idealize.ShloMosaic.Lib.SparseCore.Stream
import Idealize.ShloMosaic.Lib.Transfers
import Idealize.ShloMosaic.Lib.Pipeline.Kit
import Idealize.ShloMosaic.Lib.Tactic
import proofs.«215235_g2774548873965_cont_9to1_572_34_alg».proof.Proof.Gen.Kernel.Skeleton

noncomputable section

namespace Cert.Kernel.Sc.Gather3

open Cert.Kernel
open Cert.Kernel.Facts₀ Cert.Kernel.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

/-! ## The tile and the buffers, as the program names them -/

abbrev cV (L : grid7.Coords) : Fin τ.nSC := (L 0).castLE hcore7
abbrev jV (L : grid7.Coords) : Fin τ.nSub := (L 1).castLE hsub7
abbrev thrV (d : Dev nD) (L : grid7.Coords) : Thread nD τ := V d (cV L) (jV L)

local notation "yV" => (Memref.whole Cert.Kernel.main_v1_scv : Memref Cert.Kernel.sig Kind.scVector Space.hbm Cert.Kernel.S8192x128 EltTy.f32)
local notation "ixV" => (Memref.whole Cert.Kernel.main_v31_scv : Memref Cert.Kernel.sig Kind.scVector Space.hbm Cert.Kernel.S32x32x128 EltTy.i32)
local notation "oV" => (Memref.whole Cert.Kernel.main_v32_scv : Memref Cert.Kernel.sig Kind.scVector Space.hbm Cert.Kernel.S131072x128 EltTy.f32)
local notation "ivV" => (Memref.whole Cert.Kernel.cc7_scratch0 : Memref Cert.Kernel.sig Kind.scVector Space.vmem Cert.Kernel.S32x128 EltTy.i32)
local notation "r0V" => (Memref.whole Cert.Kernel.cc7_scratch1 : Memref Cert.Kernel.sig Kind.scVector Space.vmem Cert.Kernel.S128x128 EltTy.f32)
local notation "r1V" => (Memref.whole Cert.Kernel.cc7_scratch2 : Memref Cert.Kernel.sig Kind.scVector Space.vmem Cert.Kernel.S128x128 EltTy.f32)
local notation "r2V" => (Memref.whole Cert.Kernel.cc7_scratch3 : Memref Cert.Kernel.sig Kind.scVector Space.vmem Cert.Kernel.S128x128 EltTy.f32)
local notation "r3V" => (Memref.whole Cert.Kernel.cc7_scratch4 : Memref Cert.Kernel.sig Kind.scVector Space.vmem Cert.Kernel.S128x128 EltTy.f32)

/-- The tile's slab of the index array, squeezed to its [32, 128] plane, as the program slices it. -/
abbrev slabK (L : grid7.Coords) : Memref sig .scVector .hbm S32x128 .i32 :=
  ((ixV).slice (Rect.unit (s := S32x32x128) (k7_off1 L) S1x32x128.size (k7_off1_inb L)) (fun _ => rfl)).squeeze S32x128 squeezes_S1x32x128_S32x128

/-- Output chunk 4t + b of the tile, as the program slices it (one abbreviation per slot: the slot is a literal word). -/
abbrev outK0 (L : grid7.Coords) (t : Fin k7_t1_loop.trips) : Memref sig .scVector .hbm S128x128 .f32 :=
  (oV).slice (Rect.unit (s := S131072x128) (k7_off3 L t 0#32) S128x128.size (k7_off3_inb L t 0)) (fun _ => rfl)
abbrev outK1 (L : grid7.Coords) (t : Fin k7_t1_loop.trips) : Memref sig .scVector .hbm S128x128 .f32 :=
  (oV).slice (Rect.unit (s := S131072x128) (k7_off3 L t 1#32) S128x128.size (k7_off3_inb L t 1)) (fun _ => rfl)
abbrev outK2 (L : grid7.Coords) (t : Fin k7_t1_loop.trips) : Memref sig .scVector .hbm S128x128 .f32 :=
  (oV).slice (Rect.unit (s := S131072x128) (k7_off3 L t 2#32) S128x128.size (k7_off3_inb L t 2)) (fun _ => rfl)
abbrev outK3 (L : grid7.Coords) (t : Fin k7_t1_loop.trips) : Memref sig .scVector .hbm S128x128 .f32 :=
  (oV).slice (Rect.unit (s := S131072x128) (k7_off3 L t 3#32) S128x128.size (k7_off3_inb L t 3)) (fun _ => rfl)

/-- List `off 0` of the local index buffer, as the program slices it. -/
abbrev idxRowAt (off : Fin 2 → ℕ) (hk : ∀ a, off a + S1x128.size a ≤ S32x128.size a) : Memref sig .scVector .vmem S128 .i32 :=
  ((ivV).slice (Rect.unit (s := S32x128) off S1x128.size hk) (fun _ => rfl)).squeeze S128 squeezes_S1x128_S128

/-- All of y, as the program slices it for a gather. -/
local notation "yAllK" => (Memref.slice (Memref.whole Cert.Kernel.main_v1_scv : Memref Cert.Kernel.sig Kind.scVector Space.hbm Cert.Kernel.S8192x128 EltTy.f32) (Rect.unit (s := Cert.Kernel.S8192x128) ![0, 0] Cert.Kernel.S8192x128.size Cert.Kernel.Facts₀.inb_S8192x128_S8192x128_0_0) (fun _ => rfl))

variable [FloatOps F]

abbrev 𝒱₀ : Variants := Variants.none

/-- A buffer the tile holds whole, by its own elements. -/
abbrev heldW {sp : Space} {s : Shape} {e : EltTy} (d : Dev nD) (L : grid7.Coords) (M : Memref sig .scVector sp s e) (q : PosShare TreeShare)
    (f : Buf (Elt F) (M.view.loc (thrV d L))) : sProp 𝕄 :=
  M.view.loc (thrV d L) ↦[M.view.set]{q} f

abbrev cellZ (d : Dev nD) (L : grid7.Coords) (a : DmaSems sig S_) : sProp 𝕄 := semVal ((thrV d L, SemLoc.dma a.sem) : GSem nD τ sig) 0

/-! ## The local index buffer as its 32 lists -/

omit [FloatOps F] in
theorem row_inb (j : Fin 32) : ∀ a, (![j.val, 0] : Fin 2 → ℕ) a + S1x128.size a ≤ S32x128.size a := by
  intro a
  match a with
  | 0 => have := j.isLt; show j.val + 1 ≤ 32; omega
  | 1 => show 0 + 128 ≤ 128; omega

/-- List j of the local index buffer. -/
abbrev idxRow (j : Fin 32) : Memref sig .scVector .vmem S128 .i32 := idxRowAt ![j.val, 0] (row_inb j)

/-- Two unit-stride rectangles at equal offsets and sizes are one. -/
theorem Rect.unit_congr {s : Shape} {off off' size size' : Fin s.rank → ℕ} (h1 : off = off') (h2 : size = size') (hk) (hk') :
    Rect.unit (s := s) off size hk = Rect.unit (s := s) off' size' hk' := by
  subst h1 h2; rfl

omit [FloatOps F] in
/-- The same list at another spelling of its offsets. -/
theorem idxRowAt_congr {off off' : Fin 2 → ℕ} (h : off = off') (hk) (hk') : idxRowAt off hk = idxRowAt off' hk' := by
  subst h; rfl

omit [FloatOps F] in
theorem set_idxRow (j : Fin 32) : (idxRow j).view.set = ((ivV).view.slice (S32x128.rowRect 0 j)).set := by
  show ((((ivV).view.slice (Rect.unit (s := S32x128) ![j.val, 0] S1x128.size (row_inb j)))).reshape S128 squeezes_S1x128_S128.numel_eq).set = _
  rw [View.set_reshape, View.set_slice, View.set_slice]
  refine congrArg (fun r : Rect S32x128 => r.set.map (ivV).view.emb) (Rect.unit_congr ?_ ?_ _ _)
  · funext a; match a with
    | 0 => rfl
    | 1 => rfl
  · funext a; match a with
    | 0 => rfl
    | 1 => rfl

/-- A list of the local index buffer, held whole by the tile. -/
abbrev rowPts (d : Dev nD) (L : grid7.Coords) (j : Fin 32) (f : Buf (Elt F) ((ivV).view.loc (thrV d L))) : sProp 𝕄 :=
  (idxRow j).view.loc (thrV d L) ↦[(idxRow j).view.set]{fullShare} f

omit [FloatOps F] in
/-- The local index buffer held whole is its 32 lists held each. -/
theorem iv_rows (d : Dev nD) (L : grid7.Coords) (f : Buf (Elt F) ((ivV).view.loc (thrV d L))) :
    ((ivV).view.loc (thrV d L) ↦[(ivV).view.set]{fullShare} f : sProp 𝕄) = bigSep Finset.univ fun j : Fin 32 => rowPts d L j f := by
  rw [pointsTo_rows (thrV d L) (ivV).view 0 fullShare f]
  refine bigSep_congr fun (j : Fin 32) _ => ?_
  show _ = ((idxRow j).view.loc (thrV d L) ↦[(idxRow j).view.set]{fullShare} f : sProp 𝕄)
  rw [set_idxRow]

/-! ## The lists' words are row numbers of y -/

omit [FloatOps F] in
/-- Whatever the local index buffer held before, once the slab has landed in it whole every word of every list is
    a word of the slab. -/
theorem hin_rows (d : Dev nD) (L : grid7.Coords) (fi : Buf (Elt F) ((slabK L).view.loc (thrV d L)))
    (hin : ∀ x, ((slabK L).view.read (Elt F) fi x).toNat < 8192)
    (g : Buf (Elt F) ((ivV).view.loc (thrV d L))) (pay : S32x128.Idx → Elt F .i32) (hpay : pay = (slabK L).view.read (Elt F) fi)
    (off : Fin 2 → ℕ) (hk : ∀ a, off a + S1x128.size a ≤ S32x128.size a) :
    ∀ x, (View.read (Elt F) (idxRowAt off hk).view
      ((ivV).view.writes (Elt F) g [⟨Rect.whole cc7_scratch0.ty.shape, pay⟩]) x).toNat < 8192 := by
  subst hpay; intro x
  have e : View.read (Elt F) (idxRowAt off hk).view ((ivV).view.writes (Elt F) g [⟨Rect.whole cc7_scratch0.ty.shape, (slabK L).view.read (Elt F) fi⟩]) x
      = View.read (Elt F) (ivV).view ((ivV).view.writes (Elt F) g [⟨Rect.whole cc7_scratch0.ty.shape, (slabK L).view.read (Elt F) fi⟩])
          ((Rect.unit (s := S32x128) off S1x128.size hk).emb ((Shape.reshapeEquiv squeezes_S1x128_S128.numel_eq) x)) := by
    rw [View.read_apply, View.read_apply]; rfl
  rw [e, View.read_writes_whole]
  exact hin _

omit [FloatOps F] in
/-- A list held, at another spelling of its offsets. -/
theorem rowPts_at (d : Dev nD) (L : grid7.Coords) (j : Fin 32) (off : Fin 2 → ℕ) (hk : ∀ a, off a + S1x128.size a ≤ S32x128.size a)
    (h : off = ![j.val, 0]) (f : Buf (Elt F) ((ivV).view.loc (thrV d L))) :
    rowPts d L j f = ((idxRowAt off hk).view.loc (thrV d L) ↦[(idxRowAt off hk).view.set]{fullShare} f : sProp 𝕄) := by
  subst h; rfl

/-! ## The loop's conditions, by trip -/

omit [FloatOps F] in
/-- In every trip but the last each slot issues its next gather; in the last none does. -/
theorem conds : ∀ k : Fin k7_t1_loop.trips,
    (k7_cond1 k = 1#1 ↔ k.val < 7) ∧ (k7_cond2 k = 1#1 ↔ ¬ k.val < 7) ∧ (k7_cond3 k = 1#1 ↔ k.val < 7) ∧ (k7_cond4 k = 1#1 ↔ ¬ k.val < 7)
    ∧ (k7_cond5 k = 1#1 ↔ k.val < 7) ∧ (k7_cond6 k = 1#1 ↔ ¬ k.val < 7) ∧ (k7_cond7 k = 1#1 ↔ k.val < 7) ∧ (k7_cond8 k = 1#1 ↔ ¬ k.val < 7) := by
  decide +kernel

/-! ## What the loop holds before trip k -/

omit [FloatOps F] in
theorem rowsInb (n : ℕ) (h : n < 32) : ∀ a, (![n, 0] : Fin 2 → ℕ) a + S1x128.size a ≤ S32x128.size a := by
  intro a
  match a with
  | 0 => show n + 1 ≤ 32; omega
  | 1 => show 0 + 128 ≤ 128; omega

/-- The lists no gather holds before trip k: all but lists 4k … 4k + 3. -/
def idle (k : ℕ) : Finset (Fin 32) := Finset.univ.filter fun j => j.val < 4 * k ∨ 4 * k + 4 ≤ j.val

/-- The tile's four output chunks of trip t, at some contents. -/
abbrev outTrip (d : Dev nD) (L : grid7.Coords) (t : Fin k7_t1_loop.trips) : sProp 𝕄 :=
  iprop((∃ f, heldW d L (outK0 L t) fullShare f) ∗ (∃ f, heldW d L (outK1 L t) fullShare f)
    ∗ (∃ f, heldW d L (outK2 L t) fullShare f) ∗ (∃ f, heldW d L (outK3 L t) fullShare f))

/-- A gather in flight on a slot: it will hand back the slot's row buffer written, the list it reads, and the share
    of y it reads. -/
abbrev gFlight (d : Dev nD) (L : grid7.Coords) (q : PosShare TreeShare) (sem : DmaSems sig S_) (n : ℕ)
    (rV : Memref sig .scVector .vmem S128x128 .f32) (off : Fin 2 → ℕ) (hk : ∀ a, off a + S1x128.size a ≤ S32x128.size a)
    (fr : Buf (Elt F) (rV.view.loc (thrV d L))) (fvc : Buf (Elt F) ((ivV).view.loc (thrV d L)))
    (fy : Buf (Elt F) ((yV).view.loc (thrV d L))) : sProp 𝕄 :=
  Transfers.Flight countersEmb (thrV d L) (SemLoc.dma sem.sem) (default : HIx 4) 524288
    iprop(((rV.view.loc (thrV d L) ↦[rV.view.set]{fullShare} fr)
        ∗ ((idxRowAt off hk).view.loc (thrV d L) ↦[(idxRowAt off hk).view.set]{fullShare} fvc))
      ∗ ((yV).view.loc (thrV d L) ↦[(yAllK).view.set]{Transfers.shareTokN q n} fy))

/-- What a gather leaves with the tile of the share of y it reads: nothing of y's elements. -/
abbrev yRest (d : Dev nD) (L : grid7.Coords) (q : PosShare TreeShare) (n : ℕ) (fy : Buf (Elt F) ((yV).view.loc (thrV d L))) : sProp 𝕄 :=
  (yV).view.loc (thrV d L) ↦[(yV).view.set \ (yAllK).view.set]{Transfers.shareTokN q n} fy

/-- Before trip k < 8: the four gathers of lists 4k … 4k + 3 in flight, every other list idle, the write semaphores at
    zero, the 32 output chunks at some contents. -/
def invA (d : Dev nD) (L : grid7.Coords) (q : PosShare TreeShare) (O : CellTallies nD τ sig (HIx 4)) (W : Waits sig (HIx 4))
    (fy : Buf (Elt F) ((yV).view.loc (thrV d L))) (fvc : Buf (Elt F) ((ivV).view.loc (thrV d L))) (k : ℕ) (hk8 : k < 8) : sProp 𝕄 :=
  iprop(Transfers.MayWaits (thrV d L) (default : HIx 4) O
    ∗ (∃ W', ⌜∀ p ∈ W', p ∈ W ∨ p.2 = none⌝ ∗ owes (thrV d L) O W')
    ∗ (cellZ d L cc7_scratch9 ∗ cellZ d L cc7_scratch10 ∗ cellZ d L cc7_scratch11 ∗ cellZ d L cc7_scratch12)
    ∗ bigSep Finset.univ (outTrip d L)
    ∗ bigSep (idle k) (fun j => rowPts d L j fvc)
    ∗ ((∃ fr, gFlight d L q cc7_scratch5 68 r0V ![4 * k + 0, 0] (rowsInb _ (by omega)) fr fvc fy) ∗ yRest d L q 68 fy)
    ∗ ((∃ fr, gFlight d L q cc7_scratch6 69 r1V ![4 * k + 1, 0] (rowsInb _ (by omega)) fr fvc fy) ∗ yRest d L q 69 fy)
    ∗ ((∃ fr, gFlight d L q cc7_scratch7 70 r2V ![4 * k + 2, 0] (rowsInb _ (by omega)) fr fvc fy) ∗ yRest d L q 70 fy)
    ∗ ((∃ fr, gFlight d L q cc7_scratch8 71 r3V ![4 * k + 3, 0] (rowsInb _ (by omega)) fr fvc fy) ∗ yRest d L q 71 fy))

omit [FloatOps F] in
theorem mem_idle_next (k : ℕ) (hk : k < 7) (b : ℕ) (hb : b < 4) : (⟨4 * k + 4 + b, by omega⟩ : Fin 32) ∈ idle k :=
  Finset.mem_filter.mpr ⟨Finset.mem_univ _, Or.inr (by show 4 * k + 4 ≤ 4 * k + 4 + b; omega)⟩

omit [FloatOps F] in
/-- The same gather at another spelling of its list's offsets. -/
theorem gFlight_off (d : Dev nD) (L : grid7.Coords) (q : PosShare TreeShare) (sem : DmaSems sig S_) (n : ℕ)
    (rV : Memref sig .scVector .vmem S128x128 .f32) {off off' : Fin 2 → ℕ} (h : off = off') (hk) (hk')
    (fr : Buf (Elt F) (rV.view.loc (thrV d L))) (fvc : Buf (Elt F) ((ivV).view.loc (thrV d L)))
    (fy : Buf (Elt F) ((yV).view.loc (thrV d L))) :
    gFlight d L q sem n rV off hk fr fvc fy = gFlight d L q sem n rV off' hk' fr fvc fy := by
  subst h; rfl

omit [FloatOps F] in
/-- A wait recorded at the default index keeps the waits among the earlier ones and those at no index. -/
theorem waits_ins {W W' : Waits sig (HIx 4)} (h : ∀ p ∈ W', p ∈ W ∨ p.2 = none) (s : SemLoc sig) :
    ∀ p ∈ insert (s, (default : HIx 4)) W', p ∈ W ∨ p.2 = none := by
  intro p hp
  rcases Finset.mem_insert.mp hp with hp | hp
  · exact .inr (hp ▸ rfl)
  · exact h p hp

omit [FloatOps F] in
/-- After trip k < 7 the idle lists are: those idle before but the four just lent, and the four just handed back. -/
theorem idle_step (k : ℕ) (hk : k < 7) (Φ : Fin 32 → sProp 𝕄)
    (h0 : 4 * k + 0 < 32) (h1 : 4 * k + 1 < 32) (h2 : 4 * k + 2 < 32) (h3 : 4 * k + 3 < 32)
    (h4 : 4 * k + 4 + 0 < 32) (h5 : 4 * k + 4 + 1 < 32) (h6 : 4 * k + 4 + 2 < 32) (h7 : 4 * k + 4 + 3 < 32) :
    iprop(bigSep (((((idle k).erase ⟨4 * k + 4 + 0, h4⟩).erase ⟨4 * k + 4 + 1, h5⟩).erase ⟨4 * k + 4 + 2, h6⟩).erase ⟨4 * k + 4 + 3, h7⟩) Φ
        ∗ Φ ⟨4 * k + 0, h0⟩ ∗ Φ ⟨4 * k + 1, h1⟩ ∗ Φ ⟨4 * k + 2, h2⟩ ∗ Φ ⟨4 * k + 3, h3⟩)
      ⊢ bigSep (idle (k + 1)) Φ := by
  have e : ((((idle (k + 1)).erase (⟨4 * k + 0, h0⟩ : Fin 32)).erase ⟨4 * k + 1, h1⟩).erase ⟨4 * k + 2, h2⟩).erase ⟨4 * k + 3, h3⟩
      = ((((idle k).erase (⟨4 * k + 4 + 0, h4⟩ : Fin 32)).erase ⟨4 * k + 4 + 1, h5⟩).erase ⟨4 * k + 4 + 2, h6⟩).erase ⟨4 * k + 4 + 3, h7⟩ := by
    ext j
    simp only [idle, Finset.mem_erase, Finset.mem_filter, Finset.mem_univ, true_and, ne_eq, Fin.ext_iff]
    omega
  have m0 : (⟨4 * k + 0, h0⟩ : Fin 32) ∈ idle (k + 1) := Finset.mem_filter.mpr ⟨Finset.mem_univ _, Or.inl (show 4 * k + 0 < 4 * (k + 1) by omega)⟩
  have m1 : (⟨4 * k + 1, h1⟩ : Fin 32) ∈ idle (k + 1) := Finset.mem_filter.mpr ⟨Finset.mem_univ _, Or.inl (show 4 * k + 1 < 4 * (k + 1) by omega)⟩
  have m2 : (⟨4 * k + 2, h2⟩ : Fin 32) ∈ idle (k + 1) := Finset.mem_filter.mpr ⟨Finset.mem_univ _, Or.inl (show 4 * k + 2 < 4 * (k + 1) by omega)⟩
  have m3 : (⟨4 * k + 3, h3⟩ : Fin 32) ∈ idle (k + 1) := Finset.mem_filter.mpr ⟨Finset.mem_univ _, Or.inl (show 4 * k + 3 < 4 * (k + 1) by omega)⟩
  rw [SparseCore.bigSep_erase' m0,
    SparseCore.bigSep_erase' (Finset.mem_erase.mpr ⟨by simp [Fin.ext_iff], m1⟩),
    SparseCore.bigSep_erase' (Finset.mem_erase.mpr ⟨by simp [Fin.ext_iff], Finset.mem_erase.mpr ⟨by simp [Fin.ext_iff], m2⟩⟩),
    SparseCore.bigSep_erase' (Finset.mem_erase.mpr ⟨by simp [Fin.ext_iff], Finset.mem_erase.mpr ⟨by simp [Fin.ext_iff], Finset.mem_erase.mpr ⟨by simp [Fin.ext_iff], m3⟩⟩⟩), e]
  iintro ⟨H, H0, H1, H2, H3⟩
  isplitl [H0]; · iexact H0
  isplitl [H1]; · iexact H1
  isplitl [H2]; · iexact H2
  isplitl [H3]; · iexact H3
  iexact H

set_option maxHeartbeats 4000000 in
theorem gk_tripA (d : Dev nD) (L : grid7.Coords) (q : PosShare TreeShare) (O : CellTallies nD τ sig (HIx 4)) (W : Waits sig (HIx 4))
    (fy : Buf (Elt F) ((yV).view.loc (thrV d L))) (fvc : Buf (Elt F) ((ivV).view.loc (thrV d L)))
    (hrowc : ∀ (off : Fin 2 → ℕ) (hk : ∀ a, off a + S1x128.size a ≤ S32x128.size a) (x : S128.Idx),
      (View.read (Elt F) (idxRowAt off hk).view fvc x).toNat < 8192)
    (v1 c0 c1 : BitVec 32) (k : Fin k7_t1_loop.trips) (hk : k.val < 7) (acc : Unit) :
    invA d L q O W fy fvc k.val (by omega)
      ⊢ wp frame (wpE (defs₀ (F := F)) 𝒱₀ (thrV d L) none) Set.univ
          (Gen.k7_t1_body L yV (Memref.isWhole_whole _) ixV (Memref.isWhole_whole _) oV (Memref.isWhole_whole _)
            ivV (Memref.isWhole_whole _) r0V (Memref.isWhole_whole _) r1V (Memref.isWhole_whole _)
            r2V (Memref.isWhole_whole _) r3V (Memref.isWhole_whole _)
            cc7_scratch5 cc7_scratch6 cc7_scratch7 cc7_scratch8 cc7_scratch9 cc7_scratch10 cc7_scratch11 cc7_scratch12 cc7_scoped0
            v1 c0 c1 k acc)
          fun _ => invA d L q O W fy fvc (k.val + 1) (by omega) := by
  obtain ⟨c1', c2', c3', c4', c5', c6', c7', c8'⟩ := conds k
  have hc1 : k7_cond1 k = 1#1 := c1'.mpr hk
  have hc2 : ¬ k7_cond2 k = 1#1 := fun h => (c2'.mp h) hk
  have hc3 : k7_cond3 k = 1#1 := c3'.mpr hk
  have hc4 : ¬ k7_cond4 k = 1#1 := fun h => (c4'.mp h) hk
  have hc5 : k7_cond5 k = 1#1 := c5'.mpr hk
  have hc6 : ¬ k7_cond6 k = 1#1 := fun h => (c6'.mp h) hk
  have hc7 : k7_cond7 k = 1#1 := c7'.mpr hk
  have hc8 : ¬ k7_cond8 k = 1#1 := fun h => (c8'.mp h) hk
  unfold invA gFlight yRest
  iintro ⟨#Hmw, ⟨%W', %hW', HO⟩, ⟨HW0, HW1, HW2, HW3⟩, Hout, Hrows, ⟨⟨%fr0, HG0⟩, HY0⟩, ⟨⟨%fr1, HG1⟩, HY1⟩, ⟨⟨%fr2, HG2⟩, HY2⟩, ⟨⟨%fr3, HG3⟩, HY3⟩⟩
  -- the four output chunks of this trip
  ihave Hx := (Entails.of_eq (SparseCore.bigSep_erase' (i := k) (Finset.mem_univ _))) $$ Hout
  icases Hx with ⟨⟨⟨%fo0, HO0⟩, ⟨%fo1, HO1⟩, ⟨%fo2, HO2⟩, ⟨%fo3, HO3⟩⟩, Hout⟩
  -- the four lists the trip's gathers will read
  ihave Hx := (Entails.of_eq (SparseCore.bigSep_erase' (i := (⟨4 * k.val + 4 + 0, by omega⟩ : Fin 32)) (mem_idle_next k.val hk 0 (by omega)))) $$ Hrows
  icases Hx with ⟨Hl0, Hrows⟩
  ihave Hx := (Entails.of_eq (SparseCore.bigSep_erase' (i := (⟨4 * k.val + 4 + 1, by omega⟩ : Fin 32))
    (Finset.mem_erase.mpr ⟨by simp [Fin.ext_iff], mem_idle_next k.val hk 1 (by omega)⟩))) $$ Hrows
  icases Hx with ⟨Hl1, Hrows⟩
  ihave Hx := (Entails.of_eq (SparseCore.bigSep_erase' (i := (⟨4 * k.val + 4 + 2, by omega⟩ : Fin 32))
    (Finset.mem_erase.mpr ⟨by simp [Fin.ext_iff], Finset.mem_erase.mpr ⟨by simp [Fin.ext_iff], mem_idle_next k.val hk 2 (by omega)⟩⟩))) $$ Hrows
  icases Hx with ⟨Hl2, Hrows⟩
  ihave Hx := (Entails.of_eq (SparseCore.bigSep_erase' (i := (⟨4 * k.val + 4 + 3, by omega⟩ : Fin 32))
    (Finset.mem_erase.mpr ⟨by simp [Fin.ext_iff], Finset.mem_erase.mpr ⟨by simp [Fin.ext_iff], Finset.mem_erase.mpr ⟨by simp [Fin.ext_iff], mem_idle_next k.val hk 3 (by omega)⟩⟩⟩))) $$ Hrows
  icases Hx with ⟨Hl3, Hrows⟩
  ihave Hl0' := (Entails.of_eq (rowPts_at (F := F) d L _ (k7_off5 k) (k7_off5_inb k hc1) (Gen.k7_off5_eq k) _)) $$ Hl0
  ihave Hl1' := (Entails.of_eq (rowPts_at (F := F) d L _ (k7_off8 k) (k7_off8_inb k hc3) (Gen.k7_off8_eq k) _)) $$ Hl1
  ihave Hl2' := (Entails.of_eq (rowPts_at (F := F) d L _ (k7_off11 k) (k7_off11_inb k hc5) (Gen.k7_off11_eq k) _)) $$ Hl2
  ihave Hl3' := (Entails.of_eq (rowPts_at (F := F) d L _ (k7_off14 k) (k7_off14_inb k hc7) (Gen.k7_off14_eq k) _)) $$ Hl3
  sl_unfold [Gen.k7_t1_body]
  sl_exec (disch := first | sl_exact hc1 | sl_exact hc2 | sl_exact hc3 | sl_exact hc4 | sl_exact hc5 | sl_exact hc6 | sl_exact hc7 | sl_exact hc8)
  sl_step
  isplitr; · iexact Hmw
  isplitl [HO]
  · iexists _; isplitr
    swap; · iexact HO
    ipureintro
    exact waits_ins (waits_ins (waits_ins (waits_ins (waits_ins (waits_ins (waits_ins (waits_ins hW' _) _) _) _) _) _) _) _
  isplitl [HW0 HW1 HW2 HW3]
  · isplitl [HW0]; · iexact HW0
    isplitl [HW1]; · iexact HW1
    isplitl [HW2]; · iexact HW2
    iexact HW3
  isplitl [Hout HO0 HO1 HO2 HO3]
  · iapply (Entails.of_eq (SparseCore.bigSep_erase' (i := k) (Finset.mem_univ _)).symm)
    isplitl [HO0 HO1 HO2 HO3]
    · isplitl [HO0]; · iexists _; iexact HO0
      isplitl [HO1]; · iexists _; iexact HO1
      isplitl [HO2]; · iexists _; iexact HO2
      iexists _; iexact HO3
    iexact Hout
  isplitl [Hrows HG0_dst_and HG1_dst_and HG2_dst_and HG3_dst_and]
  · iapply (idle_step (F := F) k.val hk (fun j => rowPts d L j fvc) (by omega) (by omega) (by omega) (by omega) (by omega) (by omega) (by omega) (by omega))
    isplitl [Hrows]; · iexact Hrows
    isplitl [HG0_dst_and]; · iexact HG0_dst_and
    isplitl [HG1_dst_and]; · iexact HG1_dst_and
    isplitl [HG2_dst_and]; · iexact HG2_dst_and
    iexact HG3_dst_and
  isplitl [HG0 HY0]
  · isplitl [HG0]
    · iexists _
      iapply (Entails.of_eq (gFlight_off (F := F) d L q cc7_scratch5 68 r0V ((Gen.k7_off5_eq k).trans (by rw [show 4 * (k.val + 1) + 0 = 4 * k.val + 4 by omega])) (k7_off5_inb k hc1) _ _ fvc fy))
      iexact HG0
    iexact HY0
  isplitl [HG1 HY1]
  · isplitl [HG1]
    · iexists _
      iapply (Entails.of_eq (gFlight_off (F := F) d L q cc7_scratch6 69 r1V ((Gen.k7_off8_eq k).trans (by rw [show 4 * (k.val + 1) + 1 = 4 * k.val + 5 by omega])) (k7_off8_inb k hc3) _ _ fvc fy))
      iexact HG1
    iexact HY1
  isplitl [HG2 HY2]
  · isplitl [HG2]
    · iexists _
      iapply (Entails.of_eq (gFlight_off (F := F) d L q cc7_scratch7 70 r2V ((Gen.k7_off11_eq k).trans (by rw [show 4 * (k.val + 1) + 2 = 4 * k.val + 6 by omega])) (k7_off11_inb k hc5) _ _ fvc fy))
      iexact HG2
    iexact HY2
  isplitl [HG3]
  · iexists _
    iapply (Entails.of_eq (gFlight_off (F := F) d L q cc7_scratch8 71 r3V ((Gen.k7_off14_eq k).trans (by rw [show 4 * (k.val + 1) + 3 = 4 * k.val + 7 by omega])) (k7_off14_inb k hc7) _ _ fvc fy))
    iexact HG3
  iexact HY3

omit [FloatOps F] in
/-- After the last trip every list is idle. -/
theorem idle_last (k : ℕ) (hk : k = 7) (Φ : Fin 32 → sProp 𝕄)
    (h0 : 4 * k + 0 < 32) (h1 : 4 * k + 1 < 32) (h2 : 4 * k + 2 < 32) (h3 : 4 * k + 3 < 32) :
    iprop(bigSep (idle k) Φ ∗ Φ ⟨4 * k + 0, h0⟩ ∗ Φ ⟨4 * k + 1, h1⟩ ∗ Φ ⟨4 * k + 2, h2⟩ ∗ Φ ⟨4 * k + 3, h3⟩)
      ⊢ bigSep Finset.univ Φ := by
  subst hk
  have e : ((((Finset.univ : Finset (Fin 32)).erase (⟨4 * 7 + 0, h0⟩ : Fin 32)).erase ⟨4 * 7 + 1, h1⟩).erase ⟨4 * 7 + 2, h2⟩).erase ⟨4 * 7 + 3, h3⟩ = idle 7 := by
    ext j
    simp only [idle, Finset.mem_erase, Finset.mem_filter, Finset.mem_univ, true_and, and_true, ne_eq, Fin.ext_iff]
    omega
  rw [SparseCore.bigSep_erase' (Finset.mem_univ (⟨4 * 7 + 0, h0⟩ : Fin 32)),
    SparseCore.bigSep_erase' (i := (⟨4 * 7 + 1, h1⟩ : Fin 32)) (Finset.mem_erase.mpr ⟨by simp [Fin.ext_iff], Finset.mem_univ _⟩),
    SparseCore.bigSep_erase' (i := (⟨4 * 7 + 2, h2⟩ : Fin 32)) (Finset.mem_erase.mpr ⟨by simp [Fin.ext_iff], Finset.mem_erase.mpr ⟨by simp [Fin.ext_iff], Finset.mem_univ _⟩⟩),
    SparseCore.bigSep_erase' (i := (⟨4 * 7 + 3, h3⟩ : Fin 32)) (Finset.mem_erase.mpr ⟨by simp [Fin.ext_iff], Finset.mem_erase.mpr ⟨by simp [Fin.ext_iff], Finset.mem_erase.mpr ⟨by simp [Fin.ext_iff], Finset.mem_univ _⟩⟩⟩), e]
  iintro ⟨H, H0, H1, H2, H3⟩
  isplitl [H0]; · iexact H0
  isplitl [H1]; · iexact H1
  isplitl [H2]; · iexact H2
  isplitl [H3]; · iexact H3
  iexact H

omit [FloatOps F] in
/-- Before the first trip lists 0 … 3 are lent. -/
theorem idle_zero : idle 0 = ((((Finset.univ : Finset (Fin 32)).erase 0).erase 1).erase 2).erase 3 := by
  ext j
  simp only [idle, Finset.mem_erase, Finset.mem_filter, Finset.mem_univ, true_and, and_true, ne_eq, Fin.ext_iff]
  show j.val < 4 * 0 ∨ 4 * 0 + 4 ≤ j.val ↔ ¬ j.val = 3 ∧ ¬ j.val = 2 ∧ ¬ j.val = 1 ∧ ¬ j.val = 0
  omega

/-- After the last trip: nothing in flight; every list idle, the row buffers at some contents, every semaphore at
    zero, the four shares of y whole again, the 32 output chunks at some contents. -/
def invEnd (d : Dev nD) (L : grid7.Coords) (q : PosShare TreeShare) (O : CellTallies nD τ sig (HIx 4)) (W : Waits sig (HIx 4))
    (fy : Buf (Elt F) ((yV).view.loc (thrV d L))) (fvc : Buf (Elt F) ((ivV).view.loc (thrV d L))) : sProp 𝕄 :=
  iprop(Transfers.MayWaits (thrV d L) (default : HIx 4) O
    ∗ (∃ W', ⌜∀ p ∈ W', p ∈ W ∨ p.2 = none⌝ ∗ owes (thrV d L) O W')
    ∗ (cellZ d L cc7_scratch9 ∗ cellZ d L cc7_scratch10 ∗ cellZ d L cc7_scratch11 ∗ cellZ d L cc7_scratch12)
    ∗ bigSep Finset.univ (outTrip d L)
    ∗ bigSep Finset.univ (fun j => rowPts d L j fvc)
    ∗ ((∃ fr, heldW d L r0V fullShare fr) ∗ cellZ d L cc7_scratch5 ∗ heldW d L yV (Transfers.shareTokN q 68) fy)
    ∗ ((∃ fr, heldW d L r1V fullShare fr) ∗ cellZ d L cc7_scratch6 ∗ heldW d L yV (Transfers.shareTokN q 69) fy)
    ∗ ((∃ fr, heldW d L r2V fullShare fr) ∗ cellZ d L cc7_scratch7 ∗ heldW d L yV (Transfers.shareTokN q 70) fy)
    ∗ ((∃ fr, heldW d L r3V fullShare fr) ∗ cellZ d L cc7_scratch8 ∗ heldW d L yV (Transfers.shareTokN q 71) fy))

set_option maxHeartbeats 4000000 in
theorem gk_tripB (d : Dev nD) (L : grid7.Coords) (q : PosShare TreeShare) (O : CellTallies nD τ sig (HIx 4)) (W : Waits sig (HIx 4))
    (fy : Buf (Elt F) ((yV).view.loc (thrV d L))) (fvc : Buf (Elt F) ((ivV).view.loc (thrV d L)))
    (hrowc : ∀ (off : Fin 2 → ℕ) (hk : ∀ a, off a + S1x128.size a ≤ S32x128.size a) (x : S128.Idx),
      (View.read (Elt F) (idxRowAt off hk).view fvc x).toNat < 8192)
    (v1 c0 c1 : BitVec 32) (k : Fin k7_t1_loop.trips) (hk : k.val = 7) (acc : Unit) :
    invA d L q O W fy fvc k.val (by omega)
      ⊢ wp frame (wpE (defs₀ (F := F)) 𝒱₀ (thrV d L) none) Set.univ
          (Gen.k7_t1_body L yV (Memref.isWhole_whole _) ixV (Memref.isWhole_whole _) oV (Memref.isWhole_whole _)
            ivV (Memref.isWhole_whole _) r0V (Memref.isWhole_whole _) r1V (Memref.isWhole_whole _)
            r2V (Memref.isWhole_whole _) r3V (Memref.isWhole_whole _)
            cc7_scratch5 cc7_scratch6 cc7_scratch7 cc7_scratch8 cc7_scratch9 cc7_scratch10 cc7_scratch11 cc7_scratch12 cc7_scoped0
            v1 c0 c1 k acc)
          fun _ => invEnd d L q O W fy fvc := by
  obtain ⟨c1', c2', c3', c4', c5', c6', c7', c8'⟩ := conds k
  have hn : ¬ k.val < 7 := by omega
  have hc1 : ¬ k7_cond1 k = 1#1 := fun h => hn (c1'.mp h)
  have hc2 : k7_cond2 k = 1#1 := c2'.mpr hn
  have hc3 : ¬ k7_cond3 k = 1#1 := fun h => hn (c3'.mp h)
  have hc4 : k7_cond4 k = 1#1 := c4'.mpr hn
  have hc5 : ¬ k7_cond5 k = 1#1 := fun h => hn (c5'.mp h)
  have hc6 : k7_cond6 k = 1#1 := c6'.mpr hn
  have hc7 : ¬ k7_cond7 k = 1#1 := fun h => hn (c7'.mp h)
  have hc8 : k7_cond8 k = 1#1 := c8'.mpr hn
  unfold invA invEnd gFlight yRest
  iintro ⟨#Hmw, ⟨%W', %hW', HO⟩, ⟨HW0, HW1, HW2, HW3⟩, Hout, Hrows, ⟨⟨%fr0, HG0⟩, HY0⟩, ⟨⟨%fr1, HG1⟩, HY1⟩, ⟨⟨%fr2, HG2⟩, HY2⟩, ⟨⟨%fr3, HG3⟩, HY3⟩⟩
  ihave Hx := (Entails.of_eq (SparseCore.bigSep_erase' (i := k) (Finset.mem_univ _))) $$ Hout
  icases Hx with ⟨⟨⟨%fo0, HO0⟩, ⟨%fo1, HO1⟩, ⟨%fo2, HO2⟩, ⟨%fo3, HO3⟩⟩, Hout⟩
  sl_unfold [Gen.k7_t1_body]
  sl_exec (disch := first | sl_exact hc1 | sl_exact hc2 | sl_exact hc3 | sl_exact hc4 | sl_exact hc5 | sl_exact hc6 | sl_exact hc7 | sl_exact hc8)
  sl_step
  isplitr; · iexact Hmw
  isplitl [HO]
  · iexists _; isplitr
    swap; · iexact HO
    ipureintro
    exact waits_ins (waits_ins (waits_ins (waits_ins (waits_ins (waits_ins (waits_ins (waits_ins hW' _) _) _) _) _) _) _) _
  isplitl [HW0 HW1 HW2 HW3]
  · isplitl [HW0]; · iexact HW0
    isplitl [HW1]; · iexact HW1
    isplitl [HW2]; · iexact HW2
    iexact HW3
  isplitl [Hout HO0 HO1 HO2 HO3]
  · iapply (Entails.of_eq (SparseCore.bigSep_erase' (i := k) (Finset.mem_univ _)).symm)
    isplitl [HO0 HO1 HO2 HO3]
    · isplitl [HO0]; · iexists _; iexact HO0
      isplitl [HO1]; · iexists _; iexact HO1
      isplitl [HO2]; · iexists _; iexact HO2
      iexists _; iexact HO3
    iexact Hout
  isplitl [Hrows HG0_dst_and HG1_dst_and HG2_dst_and HG3_dst_and]
  · iapply (idle_last (F := F) k.val hk (fun j => rowPts d L j fvc) (by omega) (by omega) (by omega) (by omega))
    isplitl [Hrows]; · iexact Hrows
    isplitl [HG0_dst_and]; · iexact HG0_dst_and
    isplitl [HG1_dst_and]; · iexact HG1_dst_and
    isplitl [HG2_dst_and]; · iexact HG2_dst_and
    iexact HG3_dst_and
  isplitl [HG0_dst HG0 HY0]
  · isplitl [HG0_dst]; · iexists _; iexact HG0_dst
    isplitl [HG0]; · iexact HG0
    iexact HY0
  isplitl [HG1_dst HG1 HY1]
  · isplitl [HG1_dst]; · iexists _; iexact HG1_dst
    isplitl [HG1]; · iexact HG1
    iexact HY1
  isplitl [HG2_dst HG2 HY2]
  · isplitl [HG2_dst]; · iexists _; iexact HG2_dst
    isplitl [HG2]; · iexact HG2
    iexact HY2
  isplitl [HG3_dst]; · iexists _; iexact HG3_dst
  isplitl [HG3]; · iexact HG3
  iexact HY3

/-! ## The loop's invariant, and the whole body -/

/-- What the loop holds before trip k: the gathers of trip k in flight while there is a trip k, nothing after. -/
def inv (d : Dev nD) (L : grid7.Coords) (q : PosShare TreeShare) (O : CellTallies nD τ sig (HIx 4)) (W : Waits sig (HIx 4))
    (fy : Buf (Elt F) ((yV).view.loc (thrV d L))) (fvc : Buf (Elt F) ((ivV).view.loc (thrV d L))) (k : ℕ) : Unit → sProp 𝕄 :=
  fun _ => if h : k < 8 then invA d L q O W fy fvc k h else invEnd d L q O W fy fvc

theorem inv_lt (d : Dev nD) (L : grid7.Coords) (q : PosShare TreeShare) (O : CellTallies nD τ sig (HIx 4)) (W : Waits sig (HIx 4))
    (fy : Buf (Elt F) ((yV).view.loc (thrV d L))) (fvc : Buf (Elt F) ((ivV).view.loc (thrV d L))) (k : ℕ) (h : k < 8) :
    inv d L q O W fy fvc k = fun _ => invA d L q O W fy fvc k h := by
  funext _; exact dif_pos h

theorem inv_ge (d : Dev nD) (L : grid7.Coords) (q : PosShare TreeShare) (O : CellTallies nD τ sig (HIx 4)) (W : Waits sig (HIx 4))
    (fy : Buf (Elt F) ((yV).view.loc (thrV d L))) (fvc : Buf (Elt F) ((ivV).view.loc (thrV d L))) (k : ℕ) (h : ¬ k < 8) :
    inv d L q O W fy fvc k = fun _ => invEnd d L q O W fy fvc := by
  funext _; exact dif_neg h

omit [FloatOps F] in
theorem trips_eq : k7_t1_loop.trips = 8 := by decide

theorem inv_end (d : Dev nD) (L : grid7.Coords) (q : PosShare TreeShare) (O : CellTallies nD τ sig (HIx 4)) (W : Waits sig (HIx 4))
    (fy : Buf (Elt F) ((yV).view.loc (thrV d L))) (fvc : Buf (Elt F) ((ivV).view.loc (thrV d L))) :
    inv d L q O W fy fvc (Scf.trips k7_t1_loop.lb k7_t1_loop.ub k7_t1_loop.st) = fun _ => invEnd d L q O W fy fvc :=
  inv_ge d L q O W fy fvc _ (by decide)

set_option maxHeartbeats 4000000 in
/-- The body on tile (L 0, L 1) of device d, from the tile's own spellings of what it holds: four read shares of y, its
    slab of the index array with every word a row number of y, its 32 output chunks, its local index buffer, its four
    row buffers, its nine semaphores at zero. It ends with the same, the output chunks, the local buffers at some
    contents. -/
theorem gk_core (d : Dev nD) (L : grid7.Coords) (q : PosShare TreeShare)
    (O : CellTallies nD τ sig (HIx 4)) (W : Waits sig (HIx 4))
    (fy : Buf (Elt F) ((yV).view.loc (thrV d L))) (fi : Buf (Elt F) ((slabK L).view.loc (thrV d L)))
    (fv : Buf (Elt F) ((ivV).view.loc (thrV d L)))
    (f0 : Buf (Elt F) ((r0V).view.loc (thrV d L))) (f1 : Buf (Elt F) ((r1V).view.loc (thrV d L)))
    (f2 : Buf (Elt F) ((r2V).view.loc (thrV d L))) (f3 : Buf (Elt F) ((r3V).view.loc (thrV d L)))
    (hin : ∀ x, ((slabK L).view.read (Elt F) fi x).toNat < 8192) :
    (iprop(Transfers.MayWaits (thrV d L) (default : HIx 4) O
        ∗ heldW d L yV (Transfers.shareTokN q 68) fy ∗ heldW d L yV (Transfers.shareTokN q 69) fy
        ∗ heldW d L yV (Transfers.shareTokN q 70) fy ∗ heldW d L yV (Transfers.shareTokN q 71) fy
        ∗ heldW d L (slabK L) fullShare fi
        ∗ heldW d L ivV fullShare fv
        ∗ heldW d L r0V fullShare f0 ∗ heldW d L r1V fullShare f1 ∗ heldW d L r2V fullShare f2 ∗ heldW d L r3V fullShare f3
        ∗ cellZ d L cc7_scratch5 ∗ cellZ d L cc7_scratch6 ∗ cellZ d L cc7_scratch7 ∗ cellZ d L cc7_scratch8
        ∗ cellZ d L cc7_scratch9 ∗ cellZ d L cc7_scratch10 ∗ cellZ d L cc7_scratch11 ∗ cellZ d L cc7_scratch12
        ∗ cellZ d L cc7_scoped0
        ∗ bigSep Finset.univ (outTrip d L)
        ∗ owes (thrV d L) O W) : sProp 𝕄)
      ⊢ wp frame (wpE (defs₀ (F := F)) 𝒱₀ (thrV d L) none) Set.univ
          (cc7_gk L yV (Memref.isWhole_whole _) ixV (Memref.isWhole_whole _) oV (Memref.isWhole_whole _)
            ivV (Memref.isWhole_whole _) r0V (Memref.isWhole_whole _) r1V (Memref.isWhole_whole _)
            r2V (Memref.isWhole_whole _) r3V (Memref.isWhole_whole _)
            cc7_scratch5 cc7_scratch6 cc7_scratch7 cc7_scratch8 cc7_scratch9 cc7_scratch10 cc7_scratch11 cc7_scratch12 cc7_scoped0)
          fun _ => iprop(heldW d L yV (Transfers.shareTokN q 68) fy ∗ heldW d L yV (Transfers.shareTokN q 69) fy
            ∗ heldW d L yV (Transfers.shareTokN q 70) fy ∗ heldW d L yV (Transfers.shareTokN q 71) fy
            ∗ heldW d L (slabK L) fullShare fi
            ∗ (∃ f, heldW d L ivV fullShare f)
            ∗ (∃ f, heldW d L r0V fullShare f) ∗ (∃ f, heldW d L r1V fullShare f) ∗ (∃ f, heldW d L r2V fullShare f) ∗ (∃ f, heldW d L r3V fullShare f)
            ∗ cellZ d L cc7_scratch5 ∗ cellZ d L cc7_scratch6 ∗ cellZ d L cc7_scratch7 ∗ cellZ d L cc7_scratch8
            ∗ cellZ d L cc7_scratch9 ∗ cellZ d L cc7_scratch10 ∗ cellZ d L cc7_scratch11 ∗ cellZ d L cc7_scratch12
            ∗ cellZ d L cc7_scoped0
            ∗ bigSep Finset.univ (outTrip d L)
            ∗ ∃ W', ⌜∀ p ∈ W', p ∈ W ∨ p.2 = none⌝ ∗ owes (thrV d L) O W') := by
  rw [Gen.cc7_gk_eq_skeleton]
  iintro ⟨#Hmw, HY0, HY1, HY2, HY3, HI, HV, HR0, HR1, HR2, HR3, HG0, HG1, HG2, HG3, HW0, HW1, HW2, HW3, HS, Hout, HO⟩
  sl_unfold [Gen.cc7_gk_skel, k7_part3]
  -- the slab lands in the local index buffer (one copy, awaited); the run stops before the first gather
  sl_exec
  -- whatever the buffer held before, every word of every list is now a word of the slab
  have hrow := fun g off hk => hin_rows d L fi hin g (gk_core.sl.dma0 d L fi) rfl off hk
  -- the buffer as its 32 lists; lists 0 … 3, spelt as the first four gathers slice them
  ihave Hrows := (Entails.of_eq (iv_rows (F := F) d L _)) $$ HV
  ihave Hx := (Entails.of_eq (SparseCore.bigSep_erase' (s := Finset.univ) (i := (0 : Fin 32)) (Finset.mem_univ _))) $$ Hrows
  icases Hx with ⟨Hl0, Hrows⟩
  ihave Hx := (Entails.of_eq (SparseCore.bigSep_erase' (i := (1 : Fin 32)) (by decide))) $$ Hrows
  icases Hx with ⟨Hl1, Hrows⟩
  ihave Hx := (Entails.of_eq (SparseCore.bigSep_erase' (i := (2 : Fin 32)) (by decide))) $$ Hrows
  icases Hx with ⟨Hl2, Hrows⟩
  ihave Hx := (Entails.of_eq (SparseCore.bigSep_erase' (i := (3 : Fin 32)) (by decide))) $$ Hrows
  icases Hx with ⟨Hl3, Hrows⟩
  ihave Hl0' := (Entails.of_eq (rowPts_at (F := F) d L 0 ![0, 0] inb_S32x128_S1x128_0_0 rfl _)) $$ Hl0
  ihave Hl1' := (Entails.of_eq (rowPts_at (F := F) d L 1 ![1, 0] inb_S32x128_S1x128_1_0 rfl _)) $$ Hl1
  ihave Hl2' := (Entails.of_eq (rowPts_at (F := F) d L 2 ![2, 0] inb_S32x128_S1x128_2_0 rfl _)) $$ Hl2
  ihave Hl3' := (Entails.of_eq (rowPts_at (F := F) d L 3 ![3, 0] inb_S32x128_S1x128_3_0 rfl _)) $$ Hl3
  -- the four gathers issue; the run stops at the loop
  sl_exec
  sl_for (inv d L q O W fy ((ivV).view.writes (Elt F) (ivV).view.junk [⟨Rect.whole cc7_scratch0.ty.shape, gk_core.sl.dma0 d L fi⟩]))
    $$ [HO HW0 HW1 HW2 HW3 Hout Hrows HG0 HY0 HG1 HY1 HG2 HY2 HG3 HY3]
  · -- one trip
    intro k acc
    have hk8 : k.val < 8 := trips_eq ▸ k.isLt
    rcases Nat.lt_or_ge k.val 7 with h7 | h7
    · rw [inv_lt (h := hk8), inv_lt (k := k.val + 1) (h := by omega)]
      exact gk_tripA d L q O W fy _ (hrow _) _ _ _ k h7 acc
    · rw [inv_lt (h := hk8), inv_ge (k := k.val + 1) (h := by omega)]
      exact gk_tripB d L q O W fy _ (hrow _) _ _ _ k (by omega) acc
  · -- the invariant before the first trip
    rw [inv_lt (k := 0) (h := by omega)]
    beta_reduce
    unfold invA gFlight yRest
    isplitr; · iexact Hmw
    isplitl [HO]
    · iexists _; isplitr
      swap; · iexact HO
      ipureintro
      exact waits_ins (fun p hp => .inl hp) _
    isplitl [HW0 HW1 HW2 HW3]
    · isplitl [HW0]; · iexact HW0
      isplitl [HW1]; · iexact HW1
      isplitl [HW2]; · iexact HW2
      iexact HW3
    isplitl [Hout]; · iexact Hout
    isplitl [Hrows]; · rw [idle_zero]; iexact Hrows
    isplitl [HG0 HY0]
    · isplitl [HG0]; · iexists _; iexact HG0
      iexact HY0
    isplitl [HG1 HY1]
    · isplitl [HG1]; · iexists _; iexact HG1
      iexact HY1
    isplitl [HG2 HY2]
    · isplitl [HG2]; · iexists _; iexact HG2
      iexact HY2
    isplitl [HG3]; · iexists _; iexact HG3
    iexact HY3
  -- after the loop
  iintro %acc HL
  rw [inv_end]
  beta_reduce
  unfold invEnd
  icases HL with ⟨-, ⟨%W', %hW', HO⟩, ⟨HW0, HW1, HW2, HW3⟩, Hout, Hrows, ⟨⟨%fr0, HR0⟩, HG0, HY0⟩, ⟨⟨%fr1, HR1⟩, HG1, HY1⟩, ⟨⟨%fr2, HR2⟩, HG2, HY2⟩, ⟨⟨%fr3, HR3⟩, HG3, HY3⟩⟩
  sl_exec
  sl_step
  isplitl [HY0]; · iexact HY0
  isplitl [HY1]; · iexact HY1
  isplitl [HY2]; · iexact HY2
  isplitl [HY3]; · iexact HY3
  isplitl [HI]; · iexact HI
  isplitl [Hrows]
  · iexists _
    iapply (Entails.of_eq (iv_rows (F := F) d L _).symm)
    iexact Hrows
  isplitl [HR0]; · iexists _; iexact HR0
  isplitl [HR1]; · iexists _; iexact HR1
  isplitl [HR2]; · iexists _; iexact HR2
  isplitl [HR3]; · iexists _; iexact HR3
  isplitl [HG0]; · iexact HG0
  isplitl [HG1]; · iexact HG1
  isplitl [HG2]; · iexact HG2
  isplitl [HG3]; · iexact HG3
  isplitl [HW0]; · iexact HW0
  isplitl [HW1]; · iexact HW1
  isplitl [HW2]; · iexact HW2
  isplitl [HW3]; · iexact HW3
  isplitl [HS]; · iexact HS
  isplitl [Hout]; · iexact Hout
  iexists _; isplitr
  swap; · iexact HO
  ipureintro; exact hW'

/-! ## The tile's spellings against the launch's: the worker number, the slab, the share of y -/

omit [FloatOps F] in
theorem L0_lt (L : grid7.Coords) : (L 0).val < 2 := (L 0).isLt
omit [FloatOps F] in
theorem L1_lt (L : grid7.Coords) : (L 1).val < 16 := (L 1).isLt

/-- The tile's worker number: subcore-major, as the kernel computes it. -/
def widL (L : grid7.Coords) : Fin 32 := ⟨(L 1).val * 2 + (L 0).val, by have := L0_lt L; have := L1_lt L; omega⟩

omit [FloatOps F] in
/-- The slab the program slices is the worker's part of the index array. -/
theorem slab_rect (L : grid7.Coords) :
    Rect.unit (s := S32x32x128) (k7_off1 L) S1x32x128.size (k7_off1_inb L) = slabRect (widL L) := by
  unfold slabRect Rect.part Rect.block
  refine Rect.unit_congr ?_ ?_ _ _
  · rw [Gen.k7_off1_eq]
    funext a
    match a with
    | 0 => show 2 * (L 1).val + (L 0).val = ((L 1).val * 2 + (L 0).val) * (32 / 32); omega
    | 1 => rfl
    | 2 => rfl
  · funext a
    match a with
    | 0 => rfl
    | 1 => rfl
    | 2 => rfl

omit [FloatOps F] in
theorem set_slabK (L : grid7.Coords) : (slabK L).view.set = (slabRect (widL L)).set := by
  show (((ixV).view.slice (Rect.unit (s := S32x32x128) (k7_off1 L) S1x32x128.size (k7_off1_inb L))).reshape S32x128 squeezes_S1x32x128_S32x128.numel_eq).set = _
  rw [View.set_reshape]
  exact (View.set_slice_whole _ _).trans (congrArg (fun r : Rect S32x32x128 => r.set) (slab_rect L))

omit [FloatOps F] in
/-- The slab held, in the tile's spelling and in the launch's. -/
theorem pts_slabK (d : Dev nD) (L : grid7.Coords) (f : Buf (Elt F) (ixLoc3 d)) :
    (heldW d L (slabK L) fullShare f : sProp 𝕄) = (ixLoc3 d ↦[(slabRect (widL L)).set]{fullShare} f) := by
  unfold heldW
  rw [set_slabK]

omit [FloatOps F] in
/-- Every word of the slab is a row number of y, in the tile's reading of it. -/
theorem hin_slabK (d : Dev nD) (L : grid7.Coords) (f : Buf (Elt F) (ixLoc3 d))
    (h : ∀ j ∈ (slabRect (widL L)).set, (f j).toNat < 8192) :
    ∀ x, ((slabK L).view.read (Elt F) f x).toNat < 8192 := by
  intro x
  rw [View.read_apply]
  refine h _ ?_
  rw [← set_slabK]
  exact Finset.mem_map_of_mem _ (Finset.mem_univ x)

omit [FloatOps F] in
/-- All of y held at a share, in the tile's spelling and in the launch's. -/
theorem pts_yV (d : Dev nD) (L : grid7.Coords) (s : PosShare TreeShare) (f : Buf (Elt F) (yLoc d)) :
    (heldW d L yV s f : sProp 𝕄) = (yLoc d ↦{s} f) := by
  unfold heldW
  rw [show (yV).view.set = Finset.univ from View.set_whole _]

/-! ## The tile's 32 output chunks are the worker's 4096 rows of the output -/

abbrev oLocV (d : Dev nD) (L : grid7.Coords) : Loc nD τ sig := (oV).view.loc (thrV d L)

omit [FloatOps F] in
theorem mem_rowsRect (L : grid7.Coords) (i : S131072x128.Idx) :
    i ∈ (rowsRect (widL L)).set ↔ 4096 * (widL L).val ≤ (i 0).val ∧ (i 0).val < 4096 * (widL L).val + 4096 := by
  unfold rowsRect Rect.part Rect.block
  rw [Rect.mem_set_unit, Fin.forall_fin_two]
  have h1 : (i 1).val < 128 := (i 1).isLt
  show ((widL L).val * (131072 / 32) ≤ (i 0).val ∧ (i 0).val < (widL L).val * (131072 / 32) + 131072 / 32)
      ∧ (0 * 128 ≤ (i 1).val ∧ (i 1).val < 0 * 128 + 128) ↔ _
  omega

omit [FloatOps F] in
theorem mem_chunk (L : grid7.Coords) (t : Fin k7_t1_loop.trips) (r : Fin 4) (i : S131072x128.Idx) :
    i ∈ (Rect.unit (s := S131072x128) (k7_off3 L t (BitVec.ofNat 32 r.val)) S128x128.size (k7_off3_inb L t r)).set
      ↔ 4096 * (widL L).val + 512 * t.val + 128 * r.val ≤ (i 0).val ∧ (i 0).val < 4096 * (widL L).val + 512 * t.val + 128 * r.val + 128 := by
  rw [Rect.mem_set_unit, Gen.k7_off3_eq, Fin.forall_fin_two]
  have h1 : (i 1).val < 128 := (i 1).isLt
  show ((8192 * (L 1).val + 4096 * (L 0).val + 512 * t.val + 128 * r.val ≤ (i 0).val
        ∧ (i 0).val < 8192 * (L 1).val + 4096 * (L 0).val + 512 * t.val + 128 * r.val + 128)
      ∧ (0 ≤ (i 1).val ∧ (i 1).val < 0 + 128))
    ↔ 4096 * ((L 1).val * 2 + (L 0).val) + 512 * t.val + 128 * r.val ≤ (i 0).val
      ∧ (i 0).val < 4096 * ((L 1).val * 2 + (L 0).val) + 512 * t.val + 128 * r.val + 128
  omega

/-- The elements of output chunk 4t + r of the tile. -/
abbrev chunkSet (L : grid7.Coords) (t : Fin k7_t1_loop.trips) (r : Fin 4) : Finset S131072x128.Idx :=
  (Rect.unit (s := S131072x128) (k7_off3 L t (BitVec.ofNat 32 r.val)) S128x128.size (k7_off3_inb L t r)).set

/-- The elements of the four chunks of trip t. -/
abbrev tripSet (L : grid7.Coords) (t : Fin k7_t1_loop.trips) : Finset S131072x128.Idx :=
  chunkSet L t 0 ∪ (chunkSet L t 1 ∪ (chunkSet L t 2 ∪ chunkSet L t 3))

omit [FloatOps F] in
theorem chunk_disjoint (L : grid7.Coords) (t : Fin k7_t1_loop.trips) {r r' : Fin 4} (h : r ≠ r') : Disjoint (chunkSet L t r) (chunkSet L t r') := by
  refine Finset.disjoint_left.mpr fun i hi hi' => h (Fin.ext ?_)
  rw [mem_chunk] at hi hi'
  omega

omit [FloatOps F] in
theorem mem_tripSet (L : grid7.Coords) (t : Fin k7_t1_loop.trips) (i : S131072x128.Idx) :
    i ∈ tripSet L t ↔ 4096 * (widL L).val + 512 * t.val ≤ (i 0).val ∧ (i 0).val < 4096 * (widL L).val + 512 * t.val + 512 := by
  simp only [tripSet, Finset.mem_union, mem_chunk]
  show _ ↔ _
  have e0 : ((0 : Fin 4) : ℕ) = 0 := rfl
  have e1 : ((1 : Fin 4) : ℕ) = 1 := rfl
  have e2 : ((2 : Fin 4) : ℕ) = 2 := rfl
  have e3 : ((3 : Fin 4) : ℕ) = 3 := rfl
  rw [e0, e1, e2, e3]
  omega

omit [FloatOps F] in
theorem trip_disjoint (L : grid7.Coords) {t t' : Fin k7_t1_loop.trips} (h : t ≠ t') : Disjoint (tripSet L t) (tripSet L t') := by
  refine Finset.disjoint_left.mpr fun i hi hi' => h (Fin.ext ?_)
  rw [mem_tripSet] at hi hi'
  omega

omit [FloatOps F] in
/-- The worker's 4096 rows are the eight trips' chunks. -/
theorem rows_cover (L : grid7.Coords) : (rowsRect (widL L)).set = Finset.univ.biUnion (tripSet L) := by
  ext i
  rw [mem_rowsRect, Finset.mem_biUnion]
  constructor
  · intro h
    have h8 : ((i 0).val - 4096 * (widL L).val) / 512 < k7_t1_loop.trips := by rw [trips_eq]; omega
    refine ⟨⟨((i 0).val - 4096 * (widL L).val) / 512, h8⟩, Finset.mem_univ _, ?_⟩
    rw [mem_tripSet]
    show 4096 * (widL L).val + 512 * (((i 0).val - 4096 * (widL L).val) / 512) ≤ (i 0).val
      ∧ (i 0).val < 4096 * (widL L).val + 512 * (((i 0).val - 4096 * (widL L).val) / 512) + 512
    omega
  · rintro ⟨t, -, ht⟩
    rw [mem_tripSet] at ht
    have ht8 : t.val < 8 := trips_eq ▸ t.isLt
    omega

omit [FloatOps F] in
theorem set_outK0 (L : grid7.Coords) (t : Fin k7_t1_loop.trips) : (outK0 L t).view.set = chunkSet L t 0 := View.set_slice_whole _ _
omit [FloatOps F] in
theorem set_outK1 (L : grid7.Coords) (t : Fin k7_t1_loop.trips) : (outK1 L t).view.set = chunkSet L t 1 := View.set_slice_whole _ _
omit [FloatOps F] in
theorem set_outK2 (L : grid7.Coords) (t : Fin k7_t1_loop.trips) : (outK2 L t).view.set = chunkSet L t 2 := View.set_slice_whole _ _
omit [FloatOps F] in
theorem set_outK3 (L : grid7.Coords) (t : Fin k7_t1_loop.trips) : (outK3 L t).view.set = chunkSet L t 3 := View.set_slice_whole _ _

omit [FloatOps F] in
theorem pts_outK0 (d : Dev nD) (L : grid7.Coords) (t : Fin k7_t1_loop.trips) (f : Buf (Elt F) (oLoc3 d)) :
    (heldW d L (outK0 L t) fullShare f : sProp 𝕄) = (oLoc3 d ↦[chunkSet L t 0]{fullShare} f) := by
  unfold heldW; rw [set_outK0]
omit [FloatOps F] in
theorem pts_outK1 (d : Dev nD) (L : grid7.Coords) (t : Fin k7_t1_loop.trips) (f : Buf (Elt F) (oLoc3 d)) :
    (heldW d L (outK1 L t) fullShare f : sProp 𝕄) = (oLoc3 d ↦[chunkSet L t 1]{fullShare} f) := by
  unfold heldW; rw [set_outK1]
omit [FloatOps F] in
theorem pts_outK2 (d : Dev nD) (L : grid7.Coords) (t : Fin k7_t1_loop.trips) (f : Buf (Elt F) (oLoc3 d)) :
    (heldW d L (outK2 L t) fullShare f : sProp 𝕄) = (oLoc3 d ↦[chunkSet L t 2]{fullShare} f) := by
  unfold heldW; rw [set_outK2]
omit [FloatOps F] in
theorem pts_outK3 (d : Dev nD) (L : grid7.Coords) (t : Fin k7_t1_loop.trips) (f : Buf (Elt F) (oLoc3 d)) :
    (heldW d L (outK3 L t) fullShare f : sProp 𝕄) = (oLoc3 d ↦[chunkSet L t 3]{fullShare} f) := by
  unfold heldW; rw [set_outK3]

omit [FloatOps F] in
theorem d23 (L : grid7.Coords) (t : Fin k7_t1_loop.trips) : Disjoint (chunkSet L t 2) (chunkSet L t 3) := chunk_disjoint L t (by decide)
omit [FloatOps F] in
theorem d1_23 (L : grid7.Coords) (t : Fin k7_t1_loop.trips) : Disjoint (chunkSet L t 1) (chunkSet L t 2 ∪ chunkSet L t 3) :=
  Finset.disjoint_union_right.mpr ⟨chunk_disjoint L t (by decide), chunk_disjoint L t (by decide)⟩
omit [FloatOps F] in
theorem d0_123 (L : grid7.Coords) (t : Fin k7_t1_loop.trips) : Disjoint (chunkSet L t 0) (chunkSet L t 1 ∪ (chunkSet L t 2 ∪ chunkSet L t 3)) :=
  Finset.disjoint_union_right.mpr ⟨chunk_disjoint L t (by decide),
    Finset.disjoint_union_right.mpr ⟨chunk_disjoint L t (by decide), chunk_disjoint L t (by decide)⟩⟩

omit [FloatOps F] in
/-- The worker's rows of the output, held at some contents, are its 32 chunks held each. -/
theorem out_split (d : Dev nD) (L : grid7.Coords) (fo : Buf (Elt F) (oLoc3 d)) :
    (oLoc3 d ↦[(rowsRect (widL L)).set]{fullShare} fo : sProp 𝕄) ⊢ bigSep Finset.univ (outTrip d L) := by
  have step : ∀ t, (oLoc3 d ↦[tripSet L t]{fullShare} fo : sProp 𝕄) ⊢ outTrip d L t := by
    intro t
    iintro H
    ihave H := (pointsTo_union (ℓ := oLoc3 d) (d0_123 L t)).1 $$ H
    icases H with ⟨H0, H⟩
    ihave H := (pointsTo_union (ℓ := oLoc3 d) (d1_23 L t)).1 $$ H
    icases H with ⟨H1, H⟩
    ihave H := (pointsTo_union (ℓ := oLoc3 d) (d23 L t)).1 $$ H
    icases H with ⟨H2, H3⟩
    isplitl [H0]; · iexists fo; iapply (Entails.of_eq (pts_outK0 (F := F) d L t fo).symm); iexact H0
    isplitl [H1]; · iexists fo; iapply (Entails.of_eq (pts_outK1 (F := F) d L t fo).symm); iexact H1
    isplitl [H2]; · iexists fo; iapply (Entails.of_eq (pts_outK2 (F := F) d L t fo).symm); iexact H2
    iexists fo; iapply (Entails.of_eq (pts_outK3 (F := F) d L t fo).symm); iexact H3
  rw [rows_cover]
  refine (Entails.of_eq (pointsTo_biUnion (ℓ := oLoc3 d) (q := fullShare) (f := fo) Finset.univ (tripSet L) (fun t _ t' _ h => trip_disjoint L h))).trans ?_
  exact bigSep_mono fun t _ => step t

/-- and back: the 32 chunks at some contents each are the worker's rows at some contents. -/
theorem out_join (d : Dev nD) (L : grid7.Coords) :
    bigSep Finset.univ (outTrip d L) ⊢ (iprop(∃ fo, oLoc3 d ↦[(rowsRect (widL L)).set]{fullShare} fo) : sProp 𝕄) := by
  have step : ∀ t, outTrip d L t ⊢ (iprop(∃ g, oLoc3 d ↦[tripSet L t]{fullShare} g) : sProp 𝕄) := by
    intro t
    iintro ⟨⟨%g0, H0⟩, ⟨%g1, H1⟩, ⟨%g2, H2⟩, ⟨%g3, H3⟩⟩
    ihave K0 := (Entails.of_eq (pts_outK0 (F := F) d L t g0)) $$ H0
    ihave K1 := (Entails.of_eq (pts_outK1 (F := F) d L t g1)) $$ H1
    ihave K2 := (Entails.of_eq (pts_outK2 (F := F) d L t g2)) $$ H2
    ihave K3 := (Entails.of_eq (pts_outK3 (F := F) d L t g3)) $$ H3
    ihave H23 := (pointsTo_join (ℓ := oLoc3 d) (d23 L t)) $$ [K2 K3]
    · isplitl [K2]; · iexact K2
      iexact K3
    ihave H123 := (pointsTo_join (ℓ := oLoc3 d) (d1_23 L t)) $$ [K1 H23]
    · isplitl [K1]; · iexact K1
      iexact H23
    ihave H0123 := (pointsTo_join (ℓ := oLoc3 d) (d0_123 L t)) $$ [K0 H123]
    · isplitl [K0]; · iexact K0
      iexact H123
    iexists _; iexact H0123
  refine (bigSep_mono fun t _ => step t).trans ?_
  refine (bigSep_exists_pi Finset.univ (fun t (g : Buf (Elt F) (oLoc3 d)) => (oLoc3 d ↦[tripSet L t]{fullShare} g : sProp 𝕄))).trans ?_
  iintro ⟨%gs, H⟩
  ihave H' := (pointsTo_biUnion_join (ℓ := oLoc3 d) (q := fullShare) (Val := Elt F) Finset.univ (tripSet L) gs (gs ⟨0, by rw [trips_eq]; omega⟩)
    (fun t _ t' _ h => trip_disjoint L h)) $$ H
  icases H' with ⟨%g, -, Hg⟩
  rw [rows_cover]
  iexists g; iexact Hg

/-! ## The tile's scoped storage: its five buffers and nine semaphores among all it owns -/

abbrev cellOf (d : Dev nD) (L : grid7.Coords) (a : DmaSems sig S_) : GSem nD τ sig := (thrV d L, SemLoc.dma a.sem)
abbrev bufOf (L : grid7.Coords) (b : Ref sig .scVector) : DevRef τ sig := (Proc.scVector (cV L) (jV L)).devRef b

omit [FloatOps F] in
theorem cell_ne (thr : Thread nD τ) {a b : SemLoc sig} (h : a ≠ b) : ((thr, a) : GSem nD τ sig) ≠ (thr, b) := fun e => h (congrArg Prod.snd e)
omit [FloatOps F] in
theorem buf_ne (L : grid7.Coords) {a b : Ref sig .scVector} (h : a ≠ b) : bufOf L a ≠ bufOf L b := fun e => h (Proc.devRef_injective _ e)

/-- The scoped semaphores of the tile other than the nine the body uses. -/
abbrev restCells (d : Dev nD) (L : grid7.Coords) : Finset (GSem nD τ sig) :=
  ((((((((((ownCells (thrV d L)).erase (cellOf d L cc7_scratch5)).erase (cellOf d L cc7_scratch6)).erase (cellOf d L cc7_scratch7)).erase (cellOf d L cc7_scratch8)).erase (cellOf d L cc7_scratch9)).erase (cellOf d L cc7_scratch10)).erase (cellOf d L cc7_scratch11)).erase (cellOf d L cc7_scratch12)).erase (cellOf d L cc7_scoped0))

/-- The buffers of the tile other than the five the body uses. -/
abbrev restRefs (L : grid7.Coords) : Finset (DevRef τ sig) :=
  ((((((ownRefs (τ := τ) (.scVector (cV L) (jV L))).erase (bufOf L cc7_scratch0)).erase (bufOf L cc7_scratch1)).erase (bufOf L cc7_scratch2)).erase (bufOf L cc7_scratch3)).erase (bufOf L cc7_scratch4))

omit [FloatOps F] in
theorem tile_sems (d : Dev nD) (L : grid7.Coords) :
    (ownSems0 (thrV d L) : sProp 𝕄)
      = iprop(cellZ d L cc7_scratch5 ∗ cellZ d L cc7_scratch6 ∗ cellZ d L cc7_scratch7 ∗ cellZ d L cc7_scratch8
          ∗ cellZ d L cc7_scratch9 ∗ cellZ d L cc7_scratch10 ∗ cellZ d L cc7_scratch11 ∗ cellZ d L cc7_scratch12
          ∗ cellZ d L cc7_scoped0 ∗ bigSep (restCells d L) fun g => semVal g 0) := by
  unfold SparseCore.Cfg.ownSems0
  rw [SparseCore.bigSep_erase' ((mem_ownCells (g := (cellOf d L cc7_scratch5))).mpr ⟨rfl, by show (SemLoc.dma cc7_scratch5.sem : SemLoc sig).isScoped .scVector = true; decide⟩),
    SparseCore.bigSep_erase' (Finset.mem_erase.mpr ⟨cell_ne (thrV d L) (by decide : (SemLoc.dma cc7_scratch6.sem : SemLoc sig) ≠ SemLoc.dma cc7_scratch5.sem), ((mem_ownCells (g := (cellOf d L cc7_scratch6))).mpr ⟨rfl, by show (SemLoc.dma cc7_scratch6.sem : SemLoc sig).isScoped .scVector = true; decide⟩)⟩),
    SparseCore.bigSep_erase' (Finset.mem_erase.mpr ⟨cell_ne (thrV d L) (by decide : (SemLoc.dma cc7_scratch7.sem : SemLoc sig) ≠ SemLoc.dma cc7_scratch6.sem), (Finset.mem_erase.mpr ⟨cell_ne (thrV d L) (by decide : (SemLoc.dma cc7_scratch7.sem : SemLoc sig) ≠ SemLoc.dma cc7_scratch5.sem), ((mem_ownCells (g := (cellOf d L cc7_scratch7))).mpr ⟨rfl, by show (SemLoc.dma cc7_scratch7.sem : SemLoc sig).isScoped .scVector = true; decide⟩)⟩)⟩),
    SparseCore.bigSep_erase' (Finset.mem_erase.mpr ⟨cell_ne (thrV d L) (by decide : (SemLoc.dma cc7_scratch8.sem : SemLoc sig) ≠ SemLoc.dma cc7_scratch7.sem), (Finset.mem_erase.mpr ⟨cell_ne (thrV d L) (by decide : (SemLoc.dma cc7_scratch8.sem : SemLoc sig) ≠ SemLoc.dma cc7_scratch6.sem), (Finset.mem_erase.mpr ⟨cell_ne (thrV d L) (by decide : (SemLoc.dma cc7_scratch8.sem : SemLoc sig) ≠ SemLoc.dma cc7_scratch5.sem), ((mem_ownCells (g := (cellOf d L cc7_scratch8))).mpr ⟨rfl, by show (SemLoc.dma cc7_scratch8.sem : SemLoc sig).isScoped .scVector = true; decide⟩)⟩)⟩)⟩),
    SparseCore.bigSep_erase' (Finset.mem_erase.mpr ⟨cell_ne (thrV d L) (by decide : (SemLoc.dma cc7_scratch9.sem : SemLoc sig) ≠ SemLoc.dma cc7_scratch8.sem), (Finset.mem_erase.mpr ⟨cell_ne (thrV d L) (by decide : (SemLoc.dma cc7_scratch9.sem : SemLoc sig) ≠ SemLoc.dma cc7_scratch7.sem), (Finset.mem_erase.mpr ⟨cell_ne (thrV d L) (by decide : (SemLoc.dma cc7_scratch9.sem : SemLoc sig) ≠ SemLoc.dma cc7_scratch6.sem), (Finset.mem_erase.mpr ⟨cell_ne (thrV d L) (by decide : (SemLoc.dma cc7_scratch9.sem : SemLoc sig) ≠ SemLoc.dma cc7_scratch5.sem), ((mem_ownCells (g := (cellOf d L cc7_scratch9))).mpr ⟨rfl, by show (SemLoc.dma cc7_scratch9.sem : SemLoc sig).isScoped .scVector = true; decide⟩)⟩)⟩)⟩)⟩),
    SparseCore.bigSep_erase' (Finset.mem_erase.mpr ⟨cell_ne (thrV d L) (by decide : (SemLoc.dma cc7_scratch10.sem : SemLoc sig) ≠ SemLoc.dma cc7_scratch9.sem), (Finset.mem_erase.mpr ⟨cell_ne (thrV d L) (by decide : (SemLoc.dma cc7_scratch10.sem : SemLoc sig) ≠ SemLoc.dma cc7_scratch8.sem), (Finset.mem_erase.mpr ⟨cell_ne (thrV d L) (by decide : (SemLoc.dma cc7_scratch10.sem : SemLoc sig) ≠ SemLoc.dma cc7_scratch7.sem), (Finset.mem_erase.mpr ⟨cell_ne (thrV d L) (by decide : (SemLoc.dma cc7_scratch10.sem : SemLoc sig) ≠ SemLoc.dma cc7_scratch6.sem), (Finset.mem_erase.mpr ⟨cell_ne (thrV d L) (by decide : (SemLoc.dma cc7_scratch10.sem : SemLoc sig) ≠ SemLoc.dma cc7_scratch5.sem), ((mem_ownCells (g := (cellOf d L cc7_scratch10))).mpr ⟨rfl, by show (SemLoc.dma cc7_scratch10.sem : SemLoc sig).isScoped .scVector = true; decide⟩)⟩)⟩)⟩)⟩)⟩),
    SparseCore.bigSep_erase' (Finset.mem_erase.mpr ⟨cell_ne (thrV d L) (by decide : (SemLoc.dma cc7_scratch11.sem : SemLoc sig) ≠ SemLoc.dma cc7_scratch10.sem), (Finset.mem_erase.mpr ⟨cell_ne (thrV d L) (by decide : (SemLoc.dma cc7_scratch11.sem : SemLoc sig) ≠ SemLoc.dma cc7_scratch9.sem), (Finset.mem_erase.mpr ⟨cell_ne (thrV d L) (by decide : (SemLoc.dma cc7_scratch11.sem : SemLoc sig) ≠ SemLoc.dma cc7_scratch8.sem), (Finset.mem_erase.mpr ⟨cell_ne (thrV d L) (by decide : (SemLoc.dma cc7_scratch11.sem : SemLoc sig) ≠ SemLoc.dma cc7_scratch7.sem), (Finset.mem_erase.mpr ⟨cell_ne (thrV d L) (by decide : (SemLoc.dma cc7_scratch11.sem : SemLoc sig) ≠ SemLoc.dma cc7_scratch6.sem), (Finset.mem_erase.mpr ⟨cell_ne (thrV d L) (by decide : (SemLoc.dma cc7_scratch11.sem : SemLoc sig) ≠ SemLoc.dma cc7_scratch5.sem), ((mem_ownCells (g := (cellOf d L cc7_scratch11))).mpr ⟨rfl, by show (SemLoc.dma cc7_scratch11.sem : SemLoc sig).isScoped .scVector = true; decide⟩)⟩)⟩)⟩)⟩)⟩)⟩),
    SparseCore.bigSep_erase' (Finset.mem_erase.mpr ⟨cell_ne (thrV d L) (by decide : (SemLoc.dma cc7_scratch12.sem : SemLoc sig) ≠ SemLoc.dma cc7_scratch11.sem), (Finset.mem_erase.mpr ⟨cell_ne (thrV d L) (by decide : (SemLoc.dma cc7_scratch12.sem : SemLoc sig) ≠ SemLoc.dma cc7_scratch10.sem), (Finset.mem_erase.mpr ⟨cell_ne (thrV d L) (by decide : (SemLoc.dma cc7_scratch12.sem : SemLoc sig) ≠ SemLoc.dma cc7_scratch9.sem), (Finset.mem_erase.mpr ⟨cell_ne (thrV d L) (by decide : (SemLoc.dma cc7_scratch12.sem : SemLoc sig) ≠ SemLoc.dma cc7_scratch8.sem), (Finset.mem_erase.mpr ⟨cell_ne (thrV d L) (by decide : (SemLoc.dma cc7_scratch12.sem : SemLoc sig) ≠ SemLoc.dma cc7_scratch7.sem), (Finset.mem_erase.mpr ⟨cell_ne (thrV d L) (by decide : (SemLoc.dma cc7_scratch12.sem : SemLoc sig) ≠ SemLoc.dma cc7_scratch6.sem), (Finset.mem_erase.mpr ⟨cell_ne (thrV d L) (by decide : (SemLoc.dma cc7_scratch12.sem : SemLoc sig) ≠ SemLoc.dma cc7_scratch5.sem), ((mem_ownCells (g := (cellOf d L cc7_scratch12))).mpr ⟨rfl, by show (SemLoc.dma cc7_scratch12.sem : SemLoc sig).isScoped .scVector = true; decide⟩)⟩)⟩)⟩)⟩)⟩)⟩)⟩),
    SparseCore.bigSep_erase' (Finset.mem_erase.mpr ⟨cell_ne (thrV d L) (by decide : (SemLoc.dma cc7_scoped0.sem : SemLoc sig) ≠ SemLoc.dma cc7_scratch12.sem), (Finset.mem_erase.mpr ⟨cell_ne (thrV d L) (by decide : (SemLoc.dma cc7_scoped0.sem : SemLoc sig) ≠ SemLoc.dma cc7_scratch11.sem), (Finset.mem_erase.mpr ⟨cell_ne (thrV d L) (by decide : (SemLoc.dma cc7_scoped0.sem : SemLoc sig) ≠ SemLoc.dma cc7_scratch10.sem), (Finset.mem_erase.mpr ⟨cell_ne (thrV d L) (by decide : (SemLoc.dma cc7_scoped0.sem : SemLoc sig) ≠ SemLoc.dma cc7_scratch9.sem), (Finset.mem_erase.mpr ⟨cell_ne (thrV d L) (by decide : (SemLoc.dma cc7_scoped0.sem : SemLoc sig) ≠ SemLoc.dma cc7_scratch8.sem), (Finset.mem_erase.mpr ⟨cell_ne (thrV d L) (by decide : (SemLoc.dma cc7_scoped0.sem : SemLoc sig) ≠ SemLoc.dma cc7_scratch7.sem), (Finset.mem_erase.mpr ⟨cell_ne (thrV d L) (by decide : (SemLoc.dma cc7_scoped0.sem : SemLoc sig) ≠ SemLoc.dma cc7_scratch6.sem), (Finset.mem_erase.mpr ⟨cell_ne (thrV d L) (by decide : (SemLoc.dma cc7_scoped0.sem : SemLoc sig) ≠ SemLoc.dma cc7_scratch5.sem), ((mem_ownCells (g := (cellOf d L cc7_scoped0))).mpr ⟨rfl, by show (SemLoc.dma cc7_scoped0.sem : SemLoc sig).isScoped .scVector = true; decide⟩)⟩)⟩)⟩)⟩)⟩)⟩)⟩)⟩)]

omit [FloatOps F] in
theorem tile_bufs (d : Dev nD) (L : grid7.Coords) :
    (ownBufs (thrV d L) : sProp 𝕄)
      = iprop((∃ f, (thrV d L).loc cc7_scratch0 ↦{fullShare} f) ∗ (∃ f, (thrV d L).loc cc7_scratch1 ↦{fullShare} f)
          ∗ (∃ f, (thrV d L).loc cc7_scratch2 ↦{fullShare} f) ∗ (∃ f, (thrV d L).loc cc7_scratch3 ↦{fullShare} f)
          ∗ (∃ f, (thrV d L).loc cc7_scratch4 ↦{fullShare} f)
          ∗ bigSep (restRefs L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (bufOf L cc7_scratch0)) rfl)).trans ?_
  rw [SparseCore.bigSep_erase' (Finset.mem_erase.mpr ⟨buf_ne L (by decide : (cc7_scratch1 : Ref sig .scVector) ≠ cc7_scratch0), (SparseCore.Cfg.mem_ownRefs_of_owner (p := Proc.scVector (cV L) (jV L)) (b := (bufOf L cc7_scratch1)) rfl)⟩),
    SparseCore.bigSep_erase' (Finset.mem_erase.mpr ⟨buf_ne L (by decide : (cc7_scratch2 : Ref sig .scVector) ≠ cc7_scratch1), (Finset.mem_erase.mpr ⟨buf_ne L (by decide : (cc7_scratch2 : Ref sig .scVector) ≠ cc7_scratch0), (SparseCore.Cfg.mem_ownRefs_of_owner (p := Proc.scVector (cV L) (jV L)) (b := (bufOf L cc7_scratch2)) rfl)⟩)⟩),
    SparseCore.bigSep_erase' (Finset.mem_erase.mpr ⟨buf_ne L (by decide : (cc7_scratch3 : Ref sig .scVector) ≠ cc7_scratch2), (Finset.mem_erase.mpr ⟨buf_ne L (by decide : (cc7_scratch3 : Ref sig .scVector) ≠ cc7_scratch1), (Finset.mem_erase.mpr ⟨buf_ne L (by decide : (cc7_scratch3 : Ref sig .scVector) ≠ cc7_scratch0), (SparseCore.Cfg.mem_ownRefs_of_owner (p := Proc.scVector (cV L) (jV L)) (b := (bufOf L cc7_scratch3)) rfl)⟩)⟩)⟩),
    SparseCore.bigSep_erase' (Finset.mem_erase.mpr ⟨buf_ne L (by decide : (cc7_scratch4 : Ref sig .scVector) ≠ cc7_scratch3), (Finset.mem_erase.mpr ⟨buf_ne L (by decide : (cc7_scratch4 : Ref sig .scVector) ≠ cc7_scratch2), (Finset.mem_erase.mpr ⟨buf_ne L (by decide : (cc7_scratch4 : Ref sig .scVector) ≠ cc7_scratch1), (Finset.mem_erase.mpr ⟨buf_ne L (by decide : (cc7_scratch4 : Ref sig .scVector) ≠ cc7_scratch0), (SparseCore.Cfg.mem_ownRefs_of_owner (p := Proc.scVector (cV L) (jV L)) (b := (bufOf L cc7_scratch4)) rfl)⟩)⟩)⟩)⟩)]

omit [FloatOps F] in
/-- A whole buffer held by the tile, in the two spellings. -/
theorem pts_whole (d : Dev nD) (L : grid7.Coords) (b : Ref sig .scVector) (s : PosShare TreeShare) (f : Buf (Elt F) ((thrV d L).loc b)) :
    ((Memref.whole b).view.loc (thrV d L) ↦[(Memref.whole b).view.set]{s} f : sProp 𝕄) = ((thrV d L).loc b ↦{s} f) := by
  rw [show (Memref.whole b).view.set = Finset.univ from View.set_whole _]

/-! ## The tile's share of y as four read shares, one per gather semaphore, and what is kept aside -/

/-- What is kept aside of a share of y while the four gathers hold theirs. -/
abbrev yKeep (ℓ : Loc nD τ sig) (q : PosShare TreeShare) (f : Buf (Elt F) ℓ) : sProp 𝕄 :=
  iprop((ℓ ↦{Transfers.shareDrop q 72} f)
    ∗ bigSep (((((Finset.range 72).erase 68).erase 69).erase 70).erase 71) (fun i => (ℓ ↦{Transfers.shareTokN q i} f : sProp 𝕄)))

omit [FloatOps F] in
theorem y_toks (ℓ : Loc nD τ sig) (q : PosShare TreeShare) (f : Buf (Elt F) ℓ) :
    (ℓ ↦{q} f : sProp 𝕄) ⊣⊢ iprop((ℓ ↦{Transfers.shareTokN q 68} f) ∗ (ℓ ↦{Transfers.shareTokN q 69} f)
      ∗ (ℓ ↦{Transfers.shareTokN q 70} f) ∗ (ℓ ↦{Transfers.shareTokN q 71} f) ∗ yKeep ℓ q f) := by
  have h := Transfers.pointsTo_toks_range (Ix := HIx 4) (Name := ℕ) (U := UU) (Lvl := ℕ) (ℓ := ℓ) (S := Finset.univ) (f := f) q 72
  have e : bigSep (Finset.range 72) (fun i => (ℓ ↦{Transfers.shareTokN q i} f : sProp 𝕄))
      = iprop((ℓ ↦{Transfers.shareTokN q 68} f) ∗ (ℓ ↦{Transfers.shareTokN q 69} f) ∗ (ℓ ↦{Transfers.shareTokN q 70} f) ∗ (ℓ ↦{Transfers.shareTokN q 71} f)
          ∗ bigSep (((((Finset.range 72).erase 68).erase 69).erase 70).erase 71) (fun i => (ℓ ↦{Transfers.shareTokN q i} f : sProp 𝕄))) := by
    rw [SparseCore.bigSep_erase' (by decide : 68 ∈ Finset.range 72), SparseCore.bigSep_erase' (by decide : 69 ∈ (Finset.range 72).erase 68),
      SparseCore.bigSep_erase' (by decide : 70 ∈ ((Finset.range 72).erase 68).erase 69),
      SparseCore.bigSep_erase' (by decide : 71 ∈ (((Finset.range 72).erase 68).erase 69).erase 70)]
  constructor
  · refine h.1.trans ?_
    rw [e]
    iintro ⟨Hd, H5, H6, H7, H8, Hr⟩
    isplitl [H5]; · iexact H5
    isplitl [H6]; · iexact H6
    isplitl [H7]; · iexact H7
    isplitl [H8]; · iexact H8
    isplitl [Hd]; · iexact Hd
    iexact Hr
  · refine BIBase.Entails.trans ?_ h.2
    rw [e]
    iintro ⟨H5, H6, H7, H8, Hd, Hr⟩
    isplitl [Hd]; · iexact Hd
    isplitl [H5]; · iexact H5
    isplitl [H6]; · iexact H6
    isplitl [H7]; · iexact H7
    isplitl [H8]; · iexact H8
    iexact Hr

/-! ## The body from what the launch hands the tile -/

set_option maxHeartbeats 4000000 in
/-- The body on tile (L 0, L 1) of device d from the worker's share as the launch states it — a share of y, its slab of
    the index array with every word a row number of y, its 4096 rows of the output — and the tile's scoped storage;
    it hands the same back, the output rows and the local buffers at some contents, owing what it owed. -/
theorem gk_body (hF : (K (F := F)).Facts) (d : Dev nD) (L : grid7.Coords)
    (O : CellTallies nD τ sig (HIx 4)) (W : Waits sig (HIx 4)) (hO : ∀ g, O g none = 0) :
    (iprop(levAts (K (F := F)).L (K (F := F)).lev ∗ share3 (F := F) d (widL L)
        ∗ scopedBufs (thrV d L) ∗ scopedSems0 (thrV d L) ∗ owes (thrV d L) O W) : sProp 𝕄)
      ⊢ wp frame (wpE (defs₀ (F := F)) 𝒱₀ (thrV d L) none) Set.univ
          (cc7_gk L yV (Memref.isWhole_whole _) ixV (Memref.isWhole_whole _) oV (Memref.isWhole_whole _)
            ivV (Memref.isWhole_whole _) r0V (Memref.isWhole_whole _) r1V (Memref.isWhole_whole _)
            r2V (Memref.isWhole_whole _) r3V (Memref.isWhole_whole _)
            cc7_scratch5 cc7_scratch6 cc7_scratch7 cc7_scratch8 cc7_scratch9 cc7_scratch10 cc7_scratch11 cc7_scratch12 cc7_scoped0)
          fun _ => iprop(share3 (F := F) d (widL L) ∗ scopedBufs (thrV d L) ∗ scopedSems0 (thrV d L)
            ∗ ∃ W', ⌜∀ p ∈ W', p ∈ W ∨ p.2 = none⌝ ∗ owes (thrV d L) O W') := by
  rw [(K (F := F)).scopedBufs_V hF d (cV L) (jV L), SparseCore.Cfg.scopedSems0_V (Val := Elt F) d (cV L) (jV L), tile_sems, tile_bufs]
  unfold share3
  iintro ⟨#Hlv, ⟨⟨%fy, HY⟩, ⟨%fi, HI, %hfi⟩, ⟨%fo, HOut⟩⟩, ⟨⟨%fv, HV⟩, ⟨%f0, HR0⟩, ⟨%f1, HR1⟩, ⟨%f2, HR2⟩, ⟨%f3, HR3⟩, Hbufs⟩, ⟨HG0, HG1, HG2, HG3, HW0, HW1, HW2, HW3, HS, Hsems⟩, HO⟩
  ihave Hmw := (show levAts (K (F := F)).L (K (F := F)).lev ⊢ Transfers.MayWaits (thrV d L) (default : HIx 4) O from
    (K (F := F)).mayWaits_none (thr := thrV d L) hO) $$ Hlv
  -- the share of y as the four gathers' read shares and the rest
  ihave HYs := (y_toks (F := F) (yLoc d) (ysh (widL L)) fy).1 $$ HY
  icases HYs with ⟨HY0, HY1, HY2, HY3, Hkeep⟩
  ihave KY0 := (Entails.of_eq (pts_yV (F := F) d L _ fy).symm) $$ HY0
  ihave KY1 := (Entails.of_eq (pts_yV (F := F) d L _ fy).symm) $$ HY1
  ihave KY2 := (Entails.of_eq (pts_yV (F := F) d L _ fy).symm) $$ HY2
  ihave KY3 := (Entails.of_eq (pts_yV (F := F) d L _ fy).symm) $$ HY3
  -- the slab, the output rows as 32 chunks, the five local buffers, in the tile's spellings
  ihave KI := (Entails.of_eq (pts_slabK (F := F) d L fi).symm) $$ HI
  ihave KOut := (out_split (F := F) d L fo) $$ HOut
  ihave KV := (Entails.of_eq (pts_whole (F := F) d L cc7_scratch0 fullShare fv).symm) $$ HV
  ihave KR0 := (Entails.of_eq (pts_whole (F := F) d L cc7_scratch1 fullShare f0).symm) $$ HR0
  ihave KR1 := (Entails.of_eq (pts_whole (F := F) d L cc7_scratch2 fullShare f1).symm) $$ HR1
  ihave KR2 := (Entails.of_eq (pts_whole (F := F) d L cc7_scratch3 fullShare f2).symm) $$ HR2
  ihave KR3 := (Entails.of_eq (pts_whole (F := F) d L cc7_scratch4 fullShare f3).symm) $$ HR3
  iapply (wp_wand_r frame (wpE (defs₀ (F := F)) 𝒱₀ (thrV d L) none) Set.univ)
  isplitl [Hmw KY0 KY1 KY2 KY3 KI KV KR0 KR1 KR2 KR3 HG0 HG1 HG2 HG3 HW0 HW1 HW2 HW3 HS KOut HO]
  · iapply (gk_core d L (ysh (widL L)) O W fy fi fv f0 f1 f2 f3 (hin_slabK d L fi hfi))
    isplitl [Hmw]; · iexact Hmw
    isplitl [KY0]; · iexact KY0
    isplitl [KY1]; · iexact KY1
    isplitl [KY2]; · iexact KY2
    isplitl [KY3]; · iexact KY3
    isplitl [KI]; · iexact KI
    isplitl [KV]; · iexact KV
    isplitl [KR0]; · iexact KR0
    isplitl [KR1]; · iexact KR1
    isplitl [KR2]; · iexact KR2
    isplitl [KR3]; · iexact KR3
    isplitl [HG0]; · iexact HG0
    isplitl [HG1]; · iexact HG1
    isplitl [HG2]; · iexact HG2
    isplitl [HG3]; · iexact HG3
    isplitl [HW0]; · iexact HW0
    isplitl [HW1]; · iexact HW1
    isplitl [HW2]; · iexact HW2
    isplitl [HW3]; · iexact HW3
    isplitl [HS]; · iexact HS
    isplitl [KOut]; · iexact KOut
    iexact HO
  iintro %a ⟨HY0, HY1, HY2, HY3, HI, ⟨%gv, HV⟩, ⟨%g0, HR0⟩, ⟨%g1, HR1⟩, ⟨%g2, HR2⟩, ⟨%g3, HR3⟩, HG0, HG1, HG2, HG3, HW0, HW1, HW2, HW3, HS, HOut, HO⟩
  isplitl [HY0 HY1 HY2 HY3 Hkeep HI HOut]
  · isplitl [HY0 HY1 HY2 HY3 Hkeep]
    · iexists fy
      iapply (y_toks (F := F) (yLoc d) (ysh (widL L)) fy).2
      isplitl [HY0]; · iapply (Entails.of_eq (pts_yV (F := F) d L _ fy)); iexact HY0
      isplitl [HY1]; · iapply (Entails.of_eq (pts_yV (F := F) d L _ fy)); iexact HY1
      isplitl [HY2]; · iapply (Entails.of_eq (pts_yV (F := F) d L _ fy)); iexact HY2
      isplitl [HY3]; · iapply (Entails.of_eq (pts_yV (F := F) d L _ fy)); iexact HY3
      iexact Hkeep
    isplitl [HI]
    · iexists fi
      isplitl [HI]; · iapply (Entails.of_eq (pts_slabK (F := F) d L fi)); iexact HI
      ipureintro; exact hfi
    iapply (out_join (F := F) d L); iexact HOut
  isplitl [HV HR0 HR1 HR2 HR3 Hbufs]
  · isplitl [HV]; · iexists gv; iapply (Entails.of_eq (pts_whole (F := F) d L cc7_scratch0 fullShare gv)); iexact HV
    isplitl [HR0]; · iexists g0; iapply (Entails.of_eq (pts_whole (F := F) d L cc7_scratch1 fullShare g0)); iexact HR0
    isplitl [HR1]; · iexists g1; iapply (Entails.of_eq (pts_whole (F := F) d L cc7_scratch2 fullShare g1)); iexact HR1
    isplitl [HR2]; · iexists g2; iapply (Entails.of_eq (pts_whole (F := F) d L cc7_scratch3 fullShare g2)); iexact HR2
    isplitl [HR3]; · iexists g3; iapply (Entails.of_eq (pts_whole (F := F) d L cc7_scratch4 fullShare g3)); iexact HR3
    iexact Hbufs
  isplitl [HG0 HG1 HG2 HG3 HW0 HW1 HW2 HW3 HS Hsems]
  · isplitl [HG0]; · iexact HG0
    isplitl [HG1]; · iexact HG1
    isplitl [HG2]; · iexact HG2
    isplitl [HG3]; · iexact HG3
    isplitl [HW0]; · iexact HW0
    isplitl [HW1]; · iexact HW1
    isplitl [HW2]; · iexact HW2
    isplitl [HW3]; · iexact HW3
    isplitl [HS]; · iexact HS
    iexact Hsems
  iexact HO

/-! ## The launch theorem's obligation for the fourth call's tiles -/

/-- The grid coordinates of tile s of core c. -/
def coordsV (c : Fin (grid7.bound 0)) (s : Fin (grid7.bound 1)) : grid7.Coords :=
  fun | 0 => c | 1 => s | ⟨_ + 2, h⟩ => absurd h (Nat.not_lt.2 (Nat.le_add_left _ _))

/-- The body table's row for the fourth call on a vector subcore. -/
theorem defs₀_vec7 (c : Fin τ.nSC) (s : Fin τ.nSub) :
    defs₀ (F := F) (.scVector c s) 7 ()
      = SparseCore.onTile hcore7 hsub7 (fun c s => cc7_gk (coordsV c s)
          yV (Memref.isWhole_whole _) ixV (Memref.isWhole_whole _) oV (Memref.isWhole_whole _)
          ivV (Memref.isWhole_whole _) r0V (Memref.isWhole_whole _) r1V (Memref.isWhole_whole _)
          r2V (Memref.isWhole_whole _) r3V (Memref.isWhole_whole _)
          cc7_scratch5 cc7_scratch6 cc7_scratch7 cc7_scratch8 cc7_scratch9 cc7_scratch10 cc7_scratch11 cc7_scratch12 cc7_scoped0) ⟨⟩ c s := rfl

omit [FloatOps F] in
/-- A post over the waits already recorded or at no index is one over those or at the call's index. -/
theorem post_weaken {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The fourth call's share of tile i of core c is the share of the worker the tile's coordinates name. -/
theorem go_eq3 (d : Dev nD) (c : Fin ((K (F := F)).nCore 3)) (i : Fin ((K (F := F)).nSub 3))
    (h0 : ((K (F := F)).core 3 c).val < grid7.bound 0) (h1 : ((K (F := F)).sub 3 i).val < grid7.bound 1) :
    (P (F := F)).go 3 d c i = share3 (F := F) d (widL (coordsV ⟨((K (F := F)).core 3 c).val, h0⟩ ⟨((K (F := F)).sub 3 i).val, h1⟩)) := by
  show share3 (F := F) d (wid (Fin.cast (nCore_eq 3) c) (Fin.cast (nSub_eq 3) i)) = _
  congr 1

theorem td_eq3 (d : Dev nD) (c : Fin ((K (F := F)).nCore 3)) (i : Fin ((K (F := F)).nSub 3))
    (h0 : ((K (F := F)).core 3 c).val < grid7.bound 0) (h1 : ((K (F := F)).sub 3 i).val < grid7.bound 1) :
    (P (F := F)).td 3 d c i = share3 (F := F) d (widL (coordsV ⟨((K (F := F)).core 3 c).val, h0⟩ ⟨((K (F := F)).sub 3 i).val, h1⟩)) :=
  go_eq3 d c i h0 h1

set_option maxRecDepth 16384 in
/-- Every tile of the fourth call runs its body from its worker's share to its worker's share. -/
theorem tileObl3 (hF : (K (F := F)).Facts) : (K (F := F)).TileObl (D (F := F)) 𝒱₀.lift (P (F := F)) (Sum.inl none) 3 := by
  intro d c i O W hO _ _
  simp only [show (P (F := F)).ox = fun _ _ => 0 from rfl, add_zero]
  have hci : ((K (F := F)).core 3 c).val < grid7.bound 0 ∧ ((K (F := F)).sub 3 i).val < grid7.bound 1 := ⟨c.isLt, i.isLt⟩
  rw [go_eq3 d c i hci.1 hci.2, td_eq3 d c i hci.1 hci.2]
  change _ ⊢ wp _ _ _ (Pipeline.liftProg (defs₀ (F := F) (.scVector ((K (F := F)).core 3 c) ((K (F := F)).sub 3 i)) 7 ())) _
  refine BIBase.Entails.trans ?_ (Pipeline.wp_liftProg (D (F := F)) (Pipeline.defs_kernel pcfgs defs₀) 𝒱₀ _ Set.univ none _ _)
  rw [defs₀_vec7]; simp only [SparseCore.onTile, hci, and_self, ↓reduceDIte]
  refine BIBase.Entails.trans ?_ ((gk_body hF d (coordsV ⟨_, hci.1⟩ ⟨_, hci.2⟩) O W hO).trans (wp_mono frame _ _ fun _ => post_weaken))
  iintro ⟨Hlv, -, Hgo, Hb, Hs, HO⟩
  isplitl [Hlv]; · iexact Hlv
  isplitl [Hgo]; · iexact Hgo
  isplitl [Hb]; · iexact Hb
  isplitl [Hs]; · iexact Hs
  iexact HO

end Cert.Kernel.Sc.Gather3

end
-- ==== Proof.GatherAllK.lean ====
/-
  Every tile of every sparse-core call runs its body from its worker's share to its worker's share: the four calls'
  obligations toward the launch, gathered by call. The four bodies are one text under four sets of names.
-/
import proofs.«215235_g2774548873965_cont_9to1_572_34_alg».proof.Proof.GatherBodyK
import proofs.«215235_g2774548873965_cont_9to1_572_34_alg».proof.Proof.GatherBody3K
import proofs.«215235_g2774548873965_cont_9to1_572_34_alg».proof.Proof.GatherBody5K
import proofs.«215235_g2774548873965_cont_9to1_572_34_alg».proof.Proof.GatherBody7K

noncomputable section

namespace Cert.Kernel.Sc

open Cert.Kernel Idealize.ShloMosaic

variable {F : FTy → Type} [FloatOps F]

/-- The tiles' obligation, at every call. -/
theorem tileObl_all (hF : (K (F := F)).Facts) :
    ∀ q, (K (F := F)).TileObl (D (F := F)) Variants.none.lift (P (F := F)) (Sum.inl none) q
  | 0 => Gather0.tileObl0 hF
  | 1 => Gather1.tileObl1 hF
  | 2 => Gather2.tileObl2 hF
  | 3 => Gather3.tileObl3 hF

end Cert.Kernel.Sc

end
-- ==== Proof.Region1BodyK.lean ====
/-
  A fused tensor-core region: for 8 neighbour slots j, filt_j = ssp(f_j · W₁ + b₁) · W₂ + b₂ (ssp v = log(½·exp v + ½)),
  times the cutoff-and-mask column of slot j, times the gathered rows of slot j; the eight products added. The grid
  is 8 × 2: point (b, g) stages slots 8g … 8g + 7 of batch b. The region keeps a scratch accumulator across the second
  axis: at g = 0 it is set to the point's sum, at g = 1 the point's sum is added to it and the result is copied to the
  staged output block, which is written back to rows 1024·b … of the output array.

  At a point the body reads seven staged inputs (the filters' inputs f [1,50,8,1024], the gathered rows [8192,128], the
  cutoff-and-mask columns [1,8,1024], W₁ [50,128], b₁ [1,128], W₂ [128,128], b₂ [1,128]); it leaves them unchanged.
  What it leaves in the accumulator and in the output block is written out below as pure terms of the staged inputs.
-/
import proofs.«215235_g2774548873965_cont_9to1_572_34_alg».proof.Kernel
import proofs.«215235_g2774548873965_cont_9to1_572_34_alg».proof.Proof.Gen.Kernel
import proofs.«215235_g2774548873965_cont_9to1_572_34_alg».proof.Proof.Gen.Kernel.Skeleton
import proofs.«215235_g2774548873965_cont_9to1_572_34_alg».proof.Proof.Gen.Kernel.Launch
import proofs.«215235_g2774548873965_cont_9to1_572_34_alg».proof.Proof.Gen.Kernel.Points
import Idealize.ShloMosaic.Lib.Pipeline.FrameBody
import Idealize.ShloMosaic.Lib.Tactic

noncomputable section

namespace Cert.Kernel.Region1B

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The rectangles the body names -/

/-- All of a [1024,128] buffer: the accumulator, the staged output block. -/
abbrev rBig : Rect S1024x128 := Rect.unit (s := S1024x128) ![0, 0] S1024x128.size inb_S1024x128_S1024x128_0_0
abbrev rW1 : Rect S50x128 := Rect.unit (s := S50x128) ![0, 0] S50x128.size inb_S50x128_S50x128_0_0
abbrev rRow : Rect S1x128 := Rect.unit (s := S1x128) ![0, 0] S1x128.size inb_S1x128_S1x128_0_0
abbrev rSq : Rect S128x128 := Rect.unit (s := S128x128) ![0, 0] S128x128.size inb_S128x128_S128x128_0_0
abbrev rCut : Rect S1x8x1024 := Rect.unit (s := S1x8x1024) ![0, 0, 0] S1x8x1024.size inb_S1x8x1024_S1x8x1024_0_0_0
/-- Slot j of the staged filter inputs. -/
abbrev rF0 : Rect S1x50x8x1024 := Rect.unit (s := S1x50x8x1024) ![0, 0, 0, 0] S1x50x1x1024.size inb_S1x50x8x1024_S1x50x1x1024_0_0_0_0
abbrev rF1 : Rect S1x50x8x1024 := Rect.unit (s := S1x50x8x1024) ![0, 0, 1, 0] S1x50x1x1024.size inb_S1x50x8x1024_S1x50x1x1024_0_0_1_0
abbrev rF2 : Rect S1x50x8x1024 := Rect.unit (s := S1x50x8x1024) ![0, 0, 2, 0] S1x50x1x1024.size inb_S1x50x8x1024_S1x50x1x1024_0_0_2_0
abbrev rF3 : Rect S1x50x8x1024 := Rect.unit (s := S1x50x8x1024) ![0, 0, 3, 0] S1x50x1x1024.size inb_S1x50x8x1024_S1x50x1x1024_0_0_3_0
abbrev rF4 : Rect S1x50x8x1024 := Rect.unit (s := S1x50x8x1024) ![0, 0, 4, 0] S1x50x1x1024.size inb_S1x50x8x1024_S1x50x1x1024_0_0_4_0
abbrev rF5 : Rect S1x50x8x1024 := Rect.unit (s := S1x50x8x1024) ![0, 0, 5, 0] S1x50x1x1024.size inb_S1x50x8x1024_S1x50x1x1024_0_0_5_0
abbrev rF6 : Rect S1x50x8x1024 := Rect.unit (s := S1x50x8x1024) ![0, 0, 6, 0] S1x50x1x1024.size inb_S1x50x8x1024_S1x50x1x1024_0_0_6_0
abbrev rF7 : Rect S1x50x8x1024 := Rect.unit (s := S1x50x8x1024) ![0, 0, 7, 0] S1x50x1x1024.size inb_S1x50x8x1024_S1x50x1x1024_0_0_7_0
/-- Slot j of the staged gathered rows: rows 1024·j … 1024·j + 1023. -/
abbrev rG0 : Rect S8192x128 := Rect.unit (s := S8192x128) ![0, 0] S1024x128.size inb_S8192x128_S1024x128_0_0
abbrev rG1 : Rect S8192x128 := Rect.unit (s := S8192x128) ![1024, 0] S1024x128.size inb_S8192x128_S1024x128_1024_0
abbrev rG2 : Rect S8192x128 := Rect.unit (s := S8192x128) ![2048, 0] S1024x128.size inb_S8192x128_S1024x128_2048_0
abbrev rG3 : Rect S8192x128 := Rect.unit (s := S8192x128) ![3072, 0] S1024x128.size inb_S8192x128_S1024x128_3072_0
abbrev rG4 : Rect S8192x128 := Rect.unit (s := S8192x128) ![4096, 0] S1024x128.size inb_S8192x128_S1024x128_4096_0
abbrev rG5 : Rect S8192x128 := Rect.unit (s := S8192x128) ![5120, 0] S1024x128.size inb_S8192x128_S1024x128_5120_0
abbrev rG6 : Rect S8192x128 := Rect.unit (s := S8192x128) ![6144, 0] S1024x128.size inb_S8192x128_S1024x128_6144_0
abbrev rG7 : Rect S8192x128 := Rect.unit (s := S8192x128) ![7168, 0] S1024x128.size inb_S8192x128_S1024x128_7168_0

/-! ## The point's sum, as the body computes it -/

/-- The seven staged inputs of a point. -/
structure Ins (F : FTy → Type) where
  f : Vec F S1x50x8x1024 .f32
  g : Vec F S8192x128 .f32
  cut : Vec F S1x8x1024 .f32
  w1 : Vec F S50x128 .f32
  b1 : Vec F S1x128 .f32
  w2 : Vec F S128x128 .f32
  b2 : Vec F S1x128 .f32

/-- The running sum after slots 0 … 6, the last slot's filter and its column, in the order the body computes them:
    each line is one of the body's named values over what was read before it. -/
def upto6 (x : Ins F) : FVec F S1024x128 .f32 × FVec F S1024x128 .f32 × FVec F S1024x128 .f32 :=
  let cw := View.ld x.cut rCut
  let w1 := View.ld x.w1 rW1
  let b1 := View.ld x.b1 rRow
  let w2 := View.ld x.w2 rSq
  let b2 := View.ld x.b2 rRow
  let v2 := k2_pay4 cw
  let v28 := k2_pay5 cw (View.ld x.f rF0) w1 b1 w2 b2 (View.ld x.g rG0)
  let v30 := k2_pay6 (View.ld x.f rF1)
  let v55 := k2_pay7 v2 v28 v30 w1 b1 w2 b2 (View.ld x.g rG1)
  let v66 := k2_pay8 (View.ld x.f rF2) w1 b1
  let v82 := k2_pay10 v2 v55 v66 (k2_pay9 (F := F)) w2 b2 (View.ld x.g rG2)
  let v102 := k2_pay11 (View.ld x.f rF3) w1 b1 w2 b2
  let v136 := k2_pay13 v2 v82 v102 (k2_pay12 v2) (View.ld x.g rG3) (View.ld x.f rF4) w1 b1 w2 b2 (View.ld x.g rG4)
  let v138 := k2_pay14 (View.ld x.f rF5)
  let v163 := k2_pay15 v2 v136 v138 w1 b1 w2 b2 (View.ld x.g rG5)
  let v174 := k2_pay16 (View.ld x.f rF6) w1 b1
  let v190 := k2_pay18 v2 v163 v174 (k2_pay17 (F := F)) w2 b2 (View.ld x.g rG6)
  (v190, k2_pay19 (View.ld x.f rF7) w1 b1 w2 b2, k2_pay20 v2)

/-- What the first point of a pair stores in the accumulator. -/
def first (x : Ins F) : FVec F S1024x128 .f32 :=
  k2_pay2 (upto6 x).1 (upto6 x).2.1 (upto6 x).2.2 (View.ld x.g rG7)

/-- What the second point of a pair stores in the accumulator, the accumulator read as acc. -/
def second (x : Ins F) (acc : Vec F S1024x128 .f32) : FVec F S1024x128 .f32 :=
  k2_pay3 (upto6 x).1 (upto6 x).2.1 (upto6 x).2.2 (View.ld x.g rG7) acc

/-- A whole [1024,128] buffer overwritten by one store of p. -/
def whole (p : FVec F S1024x128 .f32) : Vec F S1024x128 .f32 := View.canon [⟨rBig, p⟩]

theorem whole_covers (p : Vec F S1024x128 .f32) (y : S1024x128.Idx) :
    ∃ pc ∈ ([⟨rBig, p⟩] : List (View.Piece (Elt F) S1024x128 .f32)), y ∈ pc.1.set :=
  View.cover_of_tiled [⟨rBig, p⟩] S1024x128.size (by rfl) y

/-! ## The body at the first point of a pair -/

set_option maxHeartbeats 4000000 in
/-- At a point whose second coordinate is 0 the body, called on whole buffers holding the seven inputs, an output block
    and an accumulator, returns the inputs and the output block as they were and the accumulator at the point's sum. -/
theorem body_run0 (𝒱₀ : Variants) (c : Dev nD) (E : Set Name) (i : grid2.Coords) (hi : (i 1).val = 0)
    (a2 : Memref sig .tc .vmem S1x50x8x1024 .f32) (g2 : a2.IsWhole) (a3 : Memref sig .tc .vmem S8192x128 .f32) (g3 : a3.IsWhole)
    (a4 : Memref sig .tc .vmem S1x8x1024 .f32) (g4 : a4.IsWhole) (a5 : Memref sig .tc .vmem S50x128 .f32) (g5 : a5.IsWhole)
    (a6 : Memref sig .tc .vmem S1x128 .f32) (g6 : a6.IsWhole) (a7 : Memref sig .tc .vmem S128x128 .f32) (g7 : a7.IsWhole)
    (a8 : Memref sig .tc .vmem S1x128 .f32) (g8 : a8.IsWhole) (a9 : Memref sig .tc .vmem S1024x128 .f32) (g9 : a9.IsWhole)
    (a10 : Memref sig .tc .vmem S1024x128 .f32) (g10 : a10.IsWhole)
    (xf : Vec F S1x50x8x1024 .f32) (xg : Vec F S8192x128 .f32) (xc : Vec F S1x8x1024 .f32) (xw1 : Vec F S50x128 .f32)
    (xb1 : Vec F S1x128 .f32) (xw2 : Vec F S128x128 .f32) (xb2 : Vec F S1x128 .f32) (o : Vec F S1024x128 .f32) (K : PUnit → sProp 𝕄) :
    iprop(owns (c : Thread nD τ) a2 fullShare xf ∗ owns (c : Thread nD τ) a3 fullShare xg ∗ owns (c : Thread nD τ) a4 fullShare xc
        ∗ owns (c : Thread nD τ) a5 fullShare xw1 ∗ owns (c : Thread nD τ) a6 fullShare xb1 ∗ owns (c : Thread nD τ) a7 fullShare xw2
        ∗ owns (c : Thread nD τ) a8 fullShare xb2
        ∗ owns (c : Thread nD τ) a9 fullShare o ∗ (∃ d, owns (c : Thread nD τ) a10 fullShare d)
        ∗ (iprop(owns (c : Thread nD τ) a2 fullShare xf ∗ owns (c : Thread nD τ) a3 fullShare xg ∗ owns (c : Thread nD τ) a4 fullShare xc
        ∗ owns (c : Thread nD τ) a5 fullShare xw1 ∗ owns (c : Thread nD τ) a6 fullShare xb1 ∗ owns (c : Thread nD τ) a7 fullShare xw2
        ∗ owns (c : Thread nD τ) a8 fullShare xb2
              ∗ owns (c : Thread nD τ) a9 fullShare o
              ∗ owns (c : Thread nD τ) a10 fullShare (whole (first ⟨xf, xg, xc, xw1, xb1, xw2, xb2⟩))) -∗ K ⟨⟩))
      ⊢ wp frame (wpE (defs₀ (F := F)) 𝒱₀ c none) E
          (cc2__fused_kernel i a2 g2 a3 g3 a4 g4 a5 g5 a6 g6 a7 g7 a8 g8 a9 g9 a10 g10) K := by
  have h1 : Scalar.cmpi .ne (Scalar.extui (Scalar.cmpi .eq (BitVec.ofNat 32 (i 1).val) 0#32)) 0#32 = 1#1 := by rw [hi]; decide
  have h2 : ¬ Scalar.cmpi .ne (Scalar.extui (Scalar.cmpi .sgt (BitVec.ofNat 32 (i 1).val) 0#32)) 0#32 = 1#1 := by rw [hi]; decide
  have h3 : ¬ k2_cond3 i = 1#1 := by unfold k2_cond3; rw [hi]; decide
  sl_unfold [cc2__fused_kernel]
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩,
    ⟨%f9, %e9, H9⟩, ⟨%d10, %f10, -, H10⟩, Hk⟩
  subst e2 e3 e4 e5 e6 e7 e8 e9
  -- the loads, the sum (pure), the accumulator's overwrite; the other two cases are not taken
  sl_exec
  sl_step
  iapply Hk
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists f7; isplitr
    · ipureintro; rfl
    · iexact H7
  isplitl [H8]
  · iexists f8; isplitr
    · ipureintro; rfl
    · iexact H8
  isplitl [H9]
  · iexists f9; isplitr
    · ipureintro; rfl
    · iexact H9
  iexists _
  isplitr
  rotate_left
  · iexact H10
  · ipureintro
    exact View.read_writes_eq_canon _ _ _ (whole_covers (F := F) _)

set_option maxHeartbeats 4000000 in
/-- At a point whose second coordinate is 1 the body, called on whole buffers holding the seven inputs, an output block
    and the accumulator at acc, returns the inputs as they were the accumulator at acc plus the point's sum, and the
    output block at the accumulator's new contents read back whole. -/
theorem body_run1 (𝒱₀ : Variants) (c : Dev nD) (E : Set Name) (i : grid2.Coords) (hi : (i 1).val = 1)
    (a2 : Memref sig .tc .vmem S1x50x8x1024 .f32) (g2 : a2.IsWhole) (a3 : Memref sig .tc .vmem S8192x128 .f32) (g3 : a3.IsWhole)
    (a4 : Memref sig .tc .vmem S1x8x1024 .f32) (g4 : a4.IsWhole) (a5 : Memref sig .tc .vmem S50x128 .f32) (g5 : a5.IsWhole)
    (a6 : Memref sig .tc .vmem S1x128 .f32) (g6 : a6.IsWhole) (a7 : Memref sig .tc .vmem S128x128 .f32) (g7 : a7.IsWhole)
    (a8 : Memref sig .tc .vmem S1x128 .f32) (g8 : a8.IsWhole) (a9 : Memref sig .tc .vmem S1024x128 .f32) (g9 : a9.IsWhole)
    (a10 : Memref sig .tc .vmem S1024x128 .f32) (g10 : a10.IsWhole)
    (xf : Vec F S1x50x8x1024 .f32) (xg : Vec F S8192x128 .f32) (xc : Vec F S1x8x1024 .f32) (xw1 : Vec F S50x128 .f32)
    (xb1 : Vec F S1x128 .f32) (xw2 : Vec F S128x128 .f32) (xb2 : Vec F S1x128 .f32) (acc : Vec F S1024x128 .f32) (K : PUnit → sProp 𝕄) :
    iprop(owns (c : Thread nD τ) a2 fullShare xf ∗ owns (c : Thread nD τ) a3 fullShare xg ∗ owns (c : Thread nD τ) a4 fullShare xc
        ∗ owns (c : Thread nD τ) a5 fullShare xw1 ∗ owns (c : Thread nD τ) a6 fullShare xb1 ∗ owns (c : Thread nD τ) a7 fullShare xw2
        ∗ owns (c : Thread nD τ) a8 fullShare xb2
        ∗ (∃ d, owns (c : Thread nD τ) a9 fullShare d) ∗ owns (c : Thread nD τ) a10 fullShare acc
        ∗ (iprop(owns (c : Thread nD τ) a2 fullShare xf ∗ owns (c : Thread nD τ) a3 fullShare xg ∗ owns (c : Thread nD τ) a4 fullShare xc
        ∗ owns (c : Thread nD τ) a5 fullShare xw1 ∗ owns (c : Thread nD τ) a6 fullShare xb1 ∗ owns (c : Thread nD τ) a7 fullShare xw2
        ∗ owns (c : Thread nD τ) a8 fullShare xb2
              ∗ owns (c : Thread nD τ) a9 fullShare (whole (View.ld (whole (second ⟨xf, xg, xc, xw1, xb1, xw2, xb2⟩ (View.ld acc rBig))) rBig))
              ∗ owns (c : Thread nD τ) a10 fullShare (whole (second ⟨xf, xg, xc, xw1, xb1, xw2, xb2⟩ (View.ld acc rBig)))) -∗ K ⟨⟩))
      ⊢ wp frame (wpE (defs₀ (F := F)) 𝒱₀ c none) E
          (cc2__fused_kernel i a2 g2 a3 g3 a4 g4 a5 g5 a6 g6 a7 g7 a8 g8 a9 g9 a10 g10) K := by
  have h1 : ¬ Scalar.cmpi .ne (Scalar.extui (Scalar.cmpi .eq (BitVec.ofNat 32 (i 1).val) 0#32)) 0#32 = 1#1 := by rw [hi]; decide
  have h2 : Scalar.cmpi .ne (Scalar.extui (Scalar.cmpi .sgt (BitVec.ofNat 32 (i 1).val) 0#32)) 0#32 = 1#1 := by rw [hi]; decide
  have h3 : k2_cond3 i = 1#1 := by unfold k2_cond3; rw [hi]; decide
  sl_unfold [cc2__fused_kernel]
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩,
    ⟨%d9, %f9, -, H9⟩, ⟨%f10, %e10, H10⟩, Hk⟩
  subst e2 e3 e4 e5 e6 e7 e8 e10
  -- the loads, the sum (pure), the accumulator read, added to and overwritten, then copied to the output block
  sl_exec
  sl_step
  iapply Hk
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists f7; isplitr
    · ipureintro; rfl
    · iexact H7
  isplitl [H8]
  · iexists f8; isplitr
    · ipureintro; rfl
    · iexact H8
  isplitl [H9]
  · iexists _
    isplitr
    rotate_left
    · iexact H9
    · ipureintro
      -- the output block's one store is of the accumulator read back, whole, after its own overwrite
      rw [View.read_writes_eq_canon _ _ _ (whole_covers (F := F) _)]
      exact congrArg (fun p => View.canon [(⟨rBig, p⟩ : View.Piece (Elt F) S1024x128 .f32)])
        (View.readCov_eq_canon_ld _ _ rBig (whole_covers (F := F) _))
  iexists _
  isplitr
  rotate_left
  · iexact H10
  · ipureintro
    exact View.read_writes_eq_canon _ _ _ (whole_covers (F := F) _)

/-! ## The proof data -/

/-- Window w's block at point t, read off the array's contents at the region's entry. -/
def blockAt (c : Dev nD) (A : (w : Fin cfg2.W) → Buf (Elt F) ((cfg2.win w).arr.view.loc (c.tc : Thread nD τ)))
    (w : Fin cfg2.W) (t : Fin cfg2.N) : ((cfg2.win w).xblock (cfg2.grid.coords t)).Idx → Elt F (cfg2.win w).elt :=
  ((cfg2.win w).blk t).view.read (Elt F) (A w)

/-- The seven staged inputs of point t. -/
def insAt (c : Dev nD) (A : (w : Fin cfg2.W) → Buf (Elt F) ((cfg2.win w).arr.view.loc (c.tc : Thread nD τ))) (t : Fin cfg2.N) : Ins F :=
  ⟨blockAt c A 0 t, blockAt c A 1 t, blockAt c A 2 t, blockAt c A 3 t, blockAt c A 4 t, blockAt c A 5 t, blockAt c A 6 t⟩

/-- The point before t (t itself at the first point, where it is not used). -/
def prev (t : Fin cfg2.N) : Fin cfg2.N := ⟨t.val - 1, Nat.lt_of_le_of_lt (Nat.sub_le _ _) t.isLt⟩

/-- The accumulator after the first point of a pair: that point's sum. -/
def accFirst (c : Dev nD) (A : (w : Fin cfg2.W) → Buf (Elt F) ((cfg2.win w).arr.view.loc (c.tc : Thread nD τ))) (t : Fin cfg2.N) :
    Vec F S1024x128 .f32 := whole (first (insAt c A t))

/-- The accumulator after the second point t of a pair: the first point's sum plus this point's. -/
def accSecond (c : Dev nD) (A : (w : Fin cfg2.W) → Buf (Elt F) ((cfg2.win w).arr.view.loc (c.tc : Thread nD τ))) (t : Fin cfg2.N) :
    Vec F S1024x128 .f32 := whole (second (insAt c A t) (View.ld (accFirst c A (prev t)) rBig))

/-- The accumulator, as a whole buffer of the core. -/
abbrev accRef : Memref sig .tc .vmem S1024x128 .f32 := Memref.whole cc2_scratch0

/-- The region's proof data on core c: entry contents A of the eight arrays, shares q, the tallies O and the bound B as
    they are throughout. The invariant is R before the first point of a pair (R: what the core holds besides the
    windows, the accumulator among it at contents nobody names) and, between the two points of a pair, Rm (the same
    without the accumulator) with the accumulator at the first point's sum. The body leaves each input at its block;
    at the second point of a pair it leaves the output block at the accumulator read back. -/
def dat (c : Dev nD) (A : (w : Fin cfg2.W) → Buf (Elt F) ((cfg2.win w).arr.view.loc (c.tc : Thread nD τ)))
    (q : Fin cfg2.W → PosShare TreeShare) (R Rm : sProp 𝕄) (O : CellTallies nD τ sig Ix) (B : Set (SemLoc sig × Ix)) :
    Dat τ (Elt F) Ix Name U Lvl cfg2 c where
  A := A
  after w t := match w with
    | ⟨0, _⟩ => blockAt c A 0 t
    | ⟨1, _⟩ => blockAt c A 1 t
    | ⟨2, _⟩ => blockAt c A 2 t
    | ⟨3, _⟩ => blockAt c A 3 t
    | ⟨4, _⟩ => blockAt c A 4 t
    | ⟨5, _⟩ => blockAt c A 5 t
    | ⟨6, _⟩ => blockAt c A 6 t
    | ⟨7, _⟩ => whole (View.ld (accSecond c A t) rBig)
  Φ t := if h : t.val % 2 = 1 then
      iprop(Rm ∗ owns (c : Thread nD τ) accRef fullShare (accFirst c A ⟨t.val - 1, by have := t.isLt; omega⟩))
    else R
  q := q
  owed _ := O
  recorded _ := B

/-! ## What the proof data says -/

/-- The second grid coordinate of point t is t modulo 2. -/
theorem coord1 : ∀ t : Fin grid2.N, ((grid2.coords t) 1).val = t.val % 2 := by decide +kernel

/-- The output window rests (is neither stored to nor written back) exactly at the first point of a pair. -/
theorem idle7 : ∀ t : Fin grid2.N, cfg2.idle 7 (cfg2.grid.coords t) = decide (t.val % 2 = 0) := by decide +kernel
theorem flush7 : ∀ t : Fin grid2.N, (cfg2.win 7).flush t = decide (t.val % 2 = 1) := by decide +kernel

section Facts

variable (c : Dev nD) (A : (w : Fin cfg2.W) → Buf (Elt F) ((cfg2.win w).arr.view.loc (c.tc : Thread nD τ)))
  (q : Fin cfg2.W → PosShare TreeShare) (O : CellTallies nD τ sig Ix) (B : Set (SemLoc sig × Ix))

theorem after_in0 (R Rm : sProp 𝕄) (t : Fin cfg2.N) : (dat (Name := Name) (Lvl := Lvl) c A q R Rm O B).after 0 t = blockAt c A 0 t := by dsimp only [dat]
theorem after_in1 (R Rm : sProp 𝕄) (t : Fin cfg2.N) : (dat (Name := Name) (Lvl := Lvl) c A q R Rm O B).after 1 t = blockAt c A 1 t := by dsimp only [dat]
theorem after_in2 (R Rm : sProp 𝕄) (t : Fin cfg2.N) : (dat (Name := Name) (Lvl := Lvl) c A q R Rm O B).after 2 t = blockAt c A 2 t := by dsimp only [dat]
theorem after_in3 (R Rm : sProp 𝕄) (t : Fin cfg2.N) : (dat (Name := Name) (Lvl := Lvl) c A q R Rm O B).after 3 t = blockAt c A 3 t := by dsimp only [dat]
theorem after_in4 (R Rm : sProp 𝕄) (t : Fin cfg2.N) : (dat (Name := Name) (Lvl := Lvl) c A q R Rm O B).after 4 t = blockAt c A 4 t := by dsimp only [dat]
theorem after_in5 (R Rm : sProp 𝕄) (t : Fin cfg2.N) : (dat (Name := Name) (Lvl := Lvl) c A q R Rm O B).after 5 t = blockAt c A 5 t := by dsimp only [dat]
theorem after_in6 (R Rm : sProp 𝕄) (t : Fin cfg2.N) : (dat (Name := Name) (Lvl := Lvl) c A q R Rm O B).after 6 t = blockAt c A 6 t := by dsimp only [dat]
theorem after_out (R Rm : sProp 𝕄) (t : Fin cfg2.N) : (dat (Name := Name) (Lvl := Lvl) c A q R Rm O B).after 7 t = whole (View.ld (accSecond c A t) rBig) := by dsimp only [dat]

theorem before_in0 (R Rm : sProp 𝕄) (t : Fin cfg2.N) (d) : (dat (Name := Name) (Lvl := Lvl) c A q R Rm O B).before 0 t d = blockAt c A 0 t :=
  ((dat (Name := Name) (Lvl := Lvl) c A q R Rm O B).before_in_eq_fetched 0 rfl (fun _ => rfl) (fun _ _ _ => rfl) (fun u => by rw [after_in0]; rfl) t d).trans rfl
theorem before_in1 (R Rm : sProp 𝕄) (t : Fin cfg2.N) (d) : (dat (Name := Name) (Lvl := Lvl) c A q R Rm O B).before 1 t d = blockAt c A 1 t :=
  ((dat (Name := Name) (Lvl := Lvl) c A q R Rm O B).before_in_eq_fetched 1 rfl (fun _ => rfl) (fun _ _ _ => rfl) (fun u => by rw [after_in1]; rfl) t d).trans rfl
theorem before_in2 (R Rm : sProp 𝕄) (t : Fin cfg2.N) (d) : (dat (Name := Name) (Lvl := Lvl) c A q R Rm O B).before 2 t d = blockAt c A 2 t :=
  ((dat (Name := Name) (Lvl := Lvl) c A q R Rm O B).before_in_eq_fetched 2 rfl (fun _ => rfl) (fun _ _ _ => rfl) (fun u => by rw [after_in2]; rfl) t d).trans rfl
theorem before_in3 (R Rm : sProp 𝕄) (t : Fin cfg2.N) (d) : (dat (Name := Name) (Lvl := Lvl) c A q R Rm O B).before 3 t d = blockAt c A 3 t :=
  ((dat (Name := Name) (Lvl := Lvl) c A q R Rm O B).before_in_eq_fetched 3 rfl (fun _ => rfl) (fun _ _ _ => rfl) (fun u => by rw [after_in3]; rfl) t d).trans rfl
theorem before_in4 (R Rm : sProp 𝕄) (t : Fin cfg2.N) (d) : (dat (Name := Name) (Lvl := Lvl) c A q R Rm O B).before 4 t d = blockAt c A 4 t :=
  ((dat (Name := Name) (Lvl := Lvl) c A q R Rm O B).before_in_eq_fetched 4 rfl (fun _ => rfl) (fun _ _ _ => rfl) (fun u => by rw [after_in4]; rfl) t d).trans rfl
theorem before_in5 (R Rm : sProp 𝕄) (t : Fin cfg2.N) (d) : (dat (Name := Name) (Lvl := Lvl) c A q R Rm O B).before 5 t d = blockAt c A 5 t :=
  ((dat (Name := Name) (Lvl := Lvl) c A q R Rm O B).before_in_eq_fetched 5 rfl (fun _ => rfl) (fun _ _ _ => rfl) (fun u => by rw [after_in5]; rfl) t d).trans rfl
theorem before_in6 (R Rm : sProp 𝕄) (t : Fin cfg2.N) (d) : (dat (Name := Name) (Lvl := Lvl) c A q R Rm O B).before 6 t d = blockAt c A 6 t :=
  ((dat (Name := Name) (Lvl := Lvl) c A q R Rm O B).before_in_eq_fetched 6 rfl (fun _ => rfl) (fun _ _ _ => rfl) (fun u => by rw [after_in6]; rfl) t d).trans rfl

/-- Before the first point of a pair the invariant is R; -/
theorem inv_first (R Rm : sProp 𝕄) (t : Fin cfg2.N) (h : t.val % 2 = 0) : (dat (Name := Name) (Lvl := Lvl) c A q R Rm O B).Φ t.castSucc = R := by
  have h' : ¬ (t.castSucc : Fin (cfg2.N + 1)).val % 2 = 1 := by rw [Fin.val_castSucc]; omega
  dsimp only [dat]
  rw [dif_neg h']

/-- after it, Rm and the accumulator at the point's sum; -/
theorem inv_mid (R Rm : sProp 𝕄) (t : Fin cfg2.N) (h : t.val % 2 = 0) :
    (dat (Name := Name) (Lvl := Lvl) c A q R Rm O B).Φ t.succ = iprop(Rm ∗ owns (c : Thread nD τ) accRef fullShare (accFirst c A t)) := by
  have h' : (t.succ : Fin (cfg2.N + 1)).val % 2 = 1 := by rw [Fin.val_succ]; omega
  dsimp only [dat]
  rw [dif_pos h']
  rfl

/-- the same before the second point of a pair, -/
theorem inv_mid' (R Rm : sProp 𝕄) (t : Fin cfg2.N) (h : t.val % 2 = 1) :
    (dat (Name := Name) (Lvl := Lvl) c A q R Rm O B).Φ t.castSucc = iprop(Rm ∗ owns (c : Thread nD τ) accRef fullShare (accFirst c A (prev t))) := by
  have h' : (t.castSucc : Fin (cfg2.N + 1)).val % 2 = 1 := by rw [Fin.val_castSucc]; exact h
  dsimp only [dat]
  rw [dif_pos h']
  rfl

/-- and R again after it. -/
theorem inv_last (R Rm : sProp 𝕄) (t : Fin cfg2.N) (h : t.val % 2 = 1) : (dat (Name := Name) (Lvl := Lvl) c A q R Rm O B).Φ t.succ = R := by
  have h' : ¬ (t.succ : Fin (cfg2.N + 1)).val % 2 = 1 := by rw [Fin.val_succ]; omega
  dsimp only [dat]
  rw [dif_neg h']

/-- At an even position (before the first point of a pair, after the second, at the region's two ends) the invariant
    is R, -/
theorem Phi_even (R Rm : sProp 𝕄) (t : Fin (cfg2.N + 1)) (ht : t.val % 2 = 0) : (dat (Name := Name) (Lvl := Lvl) c A q R Rm O B).Φ t = R := by
  have h' : ¬ t.val % 2 = 1 := by omega
  dsimp only [dat]
  rw [dif_neg h']

/-- at an odd one, Rm with the accumulator at the sum of the point just run. -/
theorem Phi_odd (R Rm : sProp 𝕄) (t : Fin (cfg2.N + 1)) (ht : t.val % 2 = 1) :
    (dat (Name := Name) (Lvl := Lvl) c A q R Rm O B).Φ t = iprop(Rm ∗ owns (c : Thread nD τ) accRef fullShare (accFirst c A ⟨t.val - 1, by have := t.isLt; omega⟩)) := by
  dsimp only [dat]
  rw [dif_pos ht]

theorem A_eq (R Rm : sProp 𝕄) : (dat (Name := Name) (Lvl := Lvl) c A q R Rm O B).A = A := rfl
theorem q_eq (R Rm : sProp 𝕄) : (dat (Name := Name) (Lvl := Lvl) c A q R Rm O B).q = q := rfl
theorem owed_eq (R Rm : sProp 𝕄) (t : Fin (cfg2.N + 1)) : (dat (Name := Name) (Lvl := Lvl) c A q R Rm O B).owed t = O := rfl
theorem recorded_eq (R Rm : sProp 𝕄) (t : Fin (cfg2.N + 1)) : (dat (Name := Name) (Lvl := Lvl) c A q R Rm O B).recorded t = B := rfl

end Facts

/-! ## The obligation -/

/-- The body at the first point t of a pair: the accumulator is taken out of R, set to the point's sum, and kept with Rm;
    the output block is not touched. -/
theorem at_even (𝒱₀ : Variants) (ι : Ix) (c : Dev nD) (A : (w : Fin cfg2.W) → Buf (Elt F) ((cfg2.win w).arr.view.loc (c.tc : Thread nD τ)))
    (q : Fin cfg2.W → PosShare TreeShare) (R Rm : sProp 𝕄) (O : CellTallies nD τ sig Ix) (B : Set (SemLoc sig × Ix))
    (hsplit : R ⊢ iprop(Rm ∗ ∃ d, owns (c : Thread nD τ) accRef fullShare d)) (t : Fin cfg2.N) (h : t.val % 2 = 0) :
    iprop((dat c A q R Rm O B).Φ t.castSucc ∗ (dat c A q R Rm O B).owesAt ι t.castSucc
        ∗ (∃ d, owns (c : Thread nD τ) (st2_0 t) fullShare ((dat c A q R Rm O B).before 0 t d))
        ∗ (∃ d, owns (c : Thread nD τ) (st2_1 t) fullShare ((dat c A q R Rm O B).before 1 t d))
        ∗ (∃ d, owns (c : Thread nD τ) (st2_2 t) fullShare ((dat c A q R Rm O B).before 2 t d))
        ∗ (∃ d, owns (c : Thread nD τ) (st2_3 t) fullShare ((dat c A q R Rm O B).before 3 t d))
        ∗ (∃ d, owns (c : Thread nD τ) (st2_4 t) fullShare ((dat c A q R Rm O B).before 4 t d))
        ∗ (∃ d, owns (c : Thread nD τ) (st2_5 t) fullShare ((dat c A q R Rm O B).before 5 t d))
        ∗ (∃ d, owns (c : Thread nD τ) (st2_6 t) fullShare ((dat c A q R Rm O B).before 6 t d))
        ∗ (∃ d, owns (c : Thread nD τ) (st2_7 t) fullShare ((dat c A q R Rm O B).before 7 t d)))
      ⊢ wp frame (wpE (defs₀ (F := F)) 𝒱₀ c none) Set.univ (bodyAt2 t) fun _ =>
          iprop((dat c A q R Rm O B).Φ t.succ ∗ (dat c A q R Rm O B).owesAt ι t.succ
            ∗ owns (c : Thread nD τ) (st2_0 t) fullShare ((dat c A q R Rm O B).after 0 t)
            ∗ owns (c : Thread nD τ) (st2_1 t) fullShare ((dat c A q R Rm O B).after 1 t)
            ∗ owns (c : Thread nD τ) (st2_2 t) fullShare ((dat c A q R Rm O B).after 2 t)
            ∗ owns (c : Thread nD τ) (st2_3 t) fullShare ((dat c A q R Rm O B).after 3 t)
            ∗ owns (c : Thread nD τ) (st2_4 t) fullShare ((dat c A q R Rm O B).after 4 t)
            ∗ owns (c : Thread nD τ) (st2_5 t) fullShare ((dat c A q R Rm O B).after 5 t)
            ∗ owns (c : Thread nD τ) (st2_6 t) fullShare ((dat c A q R Rm O B).after 6 t)
            ∗ (∃ d, owns (c : Thread nD τ) (st2_7 t) fullShare ((dat c A q R Rm O B).before 7 t d))) := by
  simp only [before_in0, before_in1, before_in2, before_in3, before_in4, before_in5, before_in6]
  rw [inv_first c A q O B R Rm t h, inv_mid c A q O B R Rm t h,
    show (dat c A q R Rm O B).owesAt ι t.succ = (dat c A q R Rm O B).owesAt ι t.castSucc from rfl,
    after_in0, after_in1, after_in2, after_in3, after_in4, after_in5, after_in6]
  iintro ⟨HR, HO, ⟨%d0, H0⟩, ⟨%d1, H1⟩, ⟨%d2, H2⟩, ⟨%d3, H3⟩, ⟨%d4, H4⟩, ⟨%d5, H5⟩, ⟨%d6, H6⟩, ⟨%d7, H7⟩⟩
  ihave HR' := hsplit $$ HR
  icases HR' with ⟨HRm, Hacc⟩
  iapply (body_run0 𝒱₀ c Set.univ (grid2.coords t) ((coord1 t).trans h) _ _ _ _ _ _ _ _ _ _ _ _ _ _ _ _ _ _
    (blockAt c A 0 t) (blockAt c A 1 t) (blockAt c A 2 t) (blockAt c A 3 t) (blockAt c A 4 t) (blockAt c A 5 t) (blockAt c A 6 t)
    ((dat c A q R Rm O B).before 7 t d7) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hacc]; · iexact Hacc
  iintro ⟨H0, H1, H2, H3, H4, H5, H6, H7, Hacc⟩
  isplitl [HRm Hacc]
  · isplitl [HRm]; · iexact HRm
    iexact Hacc
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexists d7; iexact H7

/-- The body at the second point t of a pair: the accumulator, at the first point's sum, gets this point's sum added
    and is copied to the output block; it goes back into R at contents no longer named. -/
theorem at_odd (𝒱₀ : Variants) (ι : Ix) (c : Dev nD) (A : (w : Fin cfg2.W) → Buf (Elt F) ((cfg2.win w).arr.view.loc (c.tc : Thread nD τ)))
    (q : Fin cfg2.W → PosShare TreeShare) (R Rm : sProp 𝕄) (O : CellTallies nD τ sig Ix) (B : Set (SemLoc sig × Ix))
    (hjoin : iprop(Rm ∗ ∃ d, owns (c : Thread nD τ) accRef fullShare d) ⊢ R) (t : Fin cfg2.N) (h : t.val % 2 = 1) :
    iprop((dat c A q R Rm O B).Φ t.castSucc ∗ (dat c A q R Rm O B).owesAt ι t.castSucc
        ∗ (∃ d, owns (c : Thread nD τ) (st2_0 t) fullShare ((dat c A q R Rm O B).before 0 t d))
        ∗ (∃ d, owns (c : Thread nD τ) (st2_1 t) fullShare ((dat c A q R Rm O B).before 1 t d))
        ∗ (∃ d, owns (c : Thread nD τ) (st2_2 t) fullShare ((dat c A q R Rm O B).before 2 t d))
        ∗ (∃ d, owns (c : Thread nD τ) (st2_3 t) fullShare ((dat c A q R Rm O B).before 3 t d))
        ∗ (∃ d, owns (c : Thread nD τ) (st2_4 t) fullShare ((dat c A q R Rm O B).before 4 t d))
        ∗ (∃ d, owns (c : Thread nD τ) (st2_5 t) fullShare ((dat c A q R Rm O B).before 5 t d))
        ∗ (∃ d, owns (c : Thread nD τ) (st2_6 t) fullShare ((dat c A q R Rm O B).before 6 t d))
        ∗ (∃ d, owns (c : Thread nD τ) (st2_7 t) fullShare ((dat c A q R Rm O B).before 7 t d)))
      ⊢ wp frame (wpE (defs₀ (F := F)) 𝒱₀ c none) Set.univ (bodyAt2 t) fun _ =>
          iprop((dat c A q R Rm O B).Φ t.succ ∗ (dat c A q R Rm O B).owesAt ι t.succ
            ∗ owns (c : Thread nD τ) (st2_0 t) fullShare ((dat c A q R Rm O B).after 0 t)
            ∗ owns (c : Thread nD τ) (st2_1 t) fullShare ((dat c A q R Rm O B).after 1 t)
            ∗ owns (c : Thread nD τ) (st2_2 t) fullShare ((dat c A q R Rm O B).after 2 t)
            ∗ owns (c : Thread nD τ) (st2_3 t) fullShare ((dat c A q R Rm O B).after 3 t)
            ∗ owns (c : Thread nD τ) (st2_4 t) fullShare ((dat c A q R Rm O B).after 4 t)
            ∗ owns (c : Thread nD τ) (st2_5 t) fullShare ((dat c A q R Rm O B).after 5 t)
            ∗ owns (c : Thread nD τ) (st2_6 t) fullShare ((dat c A q R Rm O B).after 6 t)
            ∗ owns (c : Thread nD τ) (st2_7 t) fullShare ((dat c A q R Rm O B).after 7 t)) := by
  simp only [before_in0, before_in1, before_in2, before_in3, before_in4, before_in5, before_in6]
  rw [inv_mid' c A q O B R Rm t h, inv_last c A q O B R Rm t h,
    show (dat c A q R Rm O B).owesAt ι t.succ = (dat c A q R Rm O B).owesAt ι t.castSucc from rfl,
    after_in0, after_in1, after_in2, after_in3, after_in4, after_in5, after_in6, after_out]
  iintro ⟨⟨HRm, Hacc⟩, HO, ⟨%d0, H0⟩, ⟨%d1, H1⟩, ⟨%d2, H2⟩, ⟨%d3, H3⟩, ⟨%d4, H4⟩, ⟨%d5, H5⟩, ⟨%d6, H6⟩, ⟨%d7, H7⟩⟩
  iapply (body_run1 𝒱₀ c Set.univ (grid2.coords t) ((coord1 t).trans h) _ _ _ _ _ _ _ _ _ _ _ _ _ _ _ _ _ _
    (blockAt c A 0 t) (blockAt c A 1 t) (blockAt c A 2 t) (blockAt c A 3 t) (blockAt c A 4 t) (blockAt c A 5 t) (blockAt c A 6 t)
    (accFirst c A (prev t)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [Hacc]; · iexact Hacc
  iintro ⟨H0, H1, H2, H3, H4, H5, H6, H7, Hacc⟩
  isplitl [HRm Hacc]
  · iapply hjoin
    isplitl [HRm]; · iexact HRm
    iexists _; iexact Hacc
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body at any point t, the eight windows written out; the output window's clause is the rule's own: what the
    window held, where it rests and is not written back; what the body leaves, elsewhere. -/
theorem at_point (𝒱₀ : Variants) (ι : Ix) (c : Dev nD) (A : (w : Fin cfg2.W) → Buf (Elt F) ((cfg2.win w).arr.view.loc (c.tc : Thread nD τ)))
    (q : Fin cfg2.W → PosShare TreeShare) (R Rm : sProp 𝕄) (O : CellTallies nD τ sig Ix) (B : Set (SemLoc sig × Ix))
    (hsplit : R ⊢ iprop(Rm ∗ ∃ d, owns (c : Thread nD τ) accRef fullShare d))
    (hjoin : iprop(Rm ∗ ∃ d, owns (c : Thread nD τ) accRef fullShare d) ⊢ R) (t : Fin cfg2.N) :
    iprop((dat c A q R Rm O B).Φ t.castSucc ∗ (dat c A q R Rm O B).owesAt ι t.castSucc
        ∗ (∃ d, owns (c : Thread nD τ) (st2_0 t) fullShare ((dat c A q R Rm O B).before 0 t d))
        ∗ (∃ d, owns (c : Thread nD τ) (st2_1 t) fullShare ((dat c A q R Rm O B).before 1 t d))
        ∗ (∃ d, owns (c : Thread nD τ) (st2_2 t) fullShare ((dat c A q R Rm O B).before 2 t d))
        ∗ (∃ d, owns (c : Thread nD τ) (st2_3 t) fullShare ((dat c A q R Rm O B).before 3 t d))
        ∗ (∃ d, owns (c : Thread nD τ) (st2_4 t) fullShare ((dat c A q R Rm O B).before 4 t d))
        ∗ (∃ d, owns (c : Thread nD τ) (st2_5 t) fullShare ((dat c A q R Rm O B).before 5 t d))
        ∗ (∃ d, owns (c : Thread nD τ) (st2_6 t) fullShare ((dat c A q R Rm O B).before 6 t d))
        ∗ (∃ d, owns (c : Thread nD τ) (st2_7 t) fullShare ((dat c A q R Rm O B).before 7 t d)))
      ⊢ wp frame (wpE (defs₀ (F := F)) 𝒱₀ c none) Set.univ (bodyAt2 t) fun _ =>
          iprop((dat c A q R Rm O B).Φ t.succ ∗ (dat c A q R Rm O B).owesAt ι t.succ
            ∗ owns (c : Thread nD τ) (st2_0 t) fullShare ((dat c A q R Rm O B).after 0 t)
            ∗ owns (c : Thread nD τ) (st2_1 t) fullShare ((dat c A q R Rm O B).after 1 t)
            ∗ owns (c : Thread nD τ) (st2_2 t) fullShare ((dat c A q R Rm O B).after 2 t)
            ∗ owns (c : Thread nD τ) (st2_3 t) fullShare ((dat c A q R Rm O B).after 3 t)
            ∗ owns (c : Thread nD τ) (st2_4 t) fullShare ((dat c A q R Rm O B).after 4 t)
            ∗ owns (c : Thread nD τ) (st2_5 t) fullShare ((dat c A q R Rm O B).after 5 t)
            ∗ owns (c : Thread nD τ) (st2_6 t) fullShare ((dat c A q R Rm O B).after 6 t)
            ∗ (match cfg2.idle 7 (cfg2.grid.coords t) with
              | true =>
                match (cfg2.win 7).flush t with
                | false => iprop(∃ d, owns (c : Thread nD τ) (st2_7 t) fullShare ((dat c A q R Rm O B).before 7 t d))
                | true => owns (c : Thread nD τ) (st2_7 t) fullShare ((dat c A q R Rm O B).after 7 t)
              | false => owns (c : Thread nD τ) (st2_7 t) fullShare ((dat c A q R Rm O B).after 7 t))) := by
  rcases Nat.mod_two_eq_zero_or_one t.val with h | h
  · have e1 : cfg2.idle 7 (cfg2.grid.coords t) = true := by rw [idle7 t]; exact decide_eq_true h
    have e2 : (cfg2.win 7).flush t = false := by rw [flush7 t]; exact decide_eq_false (by omega)
    rw [e1, e2]
    exact at_even 𝒱₀ ι c A q R Rm O B hsplit t h
  · have e1 : cfg2.idle 7 (cfg2.grid.coords t) = false := by rw [idle7 t]; exact decide_eq_false (by omega)
    rw [e1]
    exact at_odd 𝒱₀ ι c A q R Rm O B hjoin t h

/-- The region rule's hypothesis about the body, at every point of the grid, given that the accumulator can be taken out of
    R and put back. -/
theorem body_obligation (𝒱₀ : Variants) (ι : Ix) (c : Dev nD) (A : (w : Fin cfg2.W) → Buf (Elt F) ((cfg2.win w).arr.view.loc (c.tc : Thread nD τ)))
    (q : Fin cfg2.W → PosShare TreeShare) (R Rm : sProp 𝕄) (O : CellTallies nD τ sig Ix) (B : Set (SemLoc sig × Ix))
    (hsplit : R ⊢ iprop(Rm ∗ ∃ d, owns (c : Thread nD τ) accRef fullShare d))
    (hjoin : iprop(Rm ∗ ∃ d, owns (c : Thread nD τ) accRef fullShare d) ⊢ R) :
    BodyObligation (dat c A q R Rm O B) (defs₀ (F := F)) 𝒱₀ ι Set.univ := fun t => by
  rw [bigSep_W2, bigSep_W2]
  exact at_point 𝒱₀ ι c A q R Rm O B hsplit hjoin t

end Cert.Kernel.Region1B

end
-- ==== Proof.Region1RestK.lean ====
/-
  The fused regions' scratch accumulator among the tensor core's scoped buffers.

  A fused region (pipelines 1 … 4) is entered holding every scoped buffer of the core that stages nothing for it, each
  whole at contents not named. One of them is the region's accumulator, which the body sets at the first point of a
  pair and reads at the second: between the two the invariant names its contents. So the buffers split as the
  accumulator, owned whole at some contents, and the others unopened; and they join back.
-/
import proofs.«215235_g2774548873965_cont_9to1_572_34_alg».proof.Kernel
import proofs.«215235_g2774548873965_cont_9to1_572_34_alg».proof.Proof.Gen.Kernel
import proofs.«215235_g2774548873965_cont_9to1_572_34_alg».proof.Proof.Gen.Kernel.Launch
import Idealize.ShloMosaic.Lib.Pipeline.Kit
import Idealize.ShloMosaic.Lib.Pipeline.FrameBody
import Idealize.ShloMosaic.Lib.Tactic

noncomputable section

namespace Cert.Kernel.Region1B

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- A whole buffer of the core at some contents, as the scoped rest holds it and as a body owns it. -/
theorem whole_owned (c : Dev nD) (b : Ref sig .tc) :
    (iprop(∃ d, owns (c : Thread nD τ) (Memref.whole b) fullShare d) : sProp 𝕄)
      ⊣⊢ iprop(∃ f : Buf (Elt F) ((c : Thread nD τ).loc b), ((c : Thread nD τ).loc b) ↦{fullShare} f) := by
  have hs : (Memref.whole b : Memref sig .tc _ _ _).view.set = Finset.univ := View.set_whole _
  constructor
  · unfold owns
    iintro ⟨%d, %f, -, H⟩
    iexists f
    rw [hs]
    iexact H
  · iintro ⟨%f, H⟩
    iexists ((Memref.whole b).view.read (Elt F) f)
    unfold owns
    iexists f
    isplitr
    · ipureintro; rfl
    · rw [hs]; iexact H

/-! ## Pipeline 1 -/

/-- The core's scoped buffers that stage nothing for pipeline 1, each whole at some contents. -/
def rest1 (a : (p : Fin 6) → (pcfgs (F := F) p).Adm) (c : Dev nD) : sProp 𝕄 :=
  Pipeline.scopedRest (Pipeline.pin (pcfgs (F := F)) a 1).spec c

/-- The same but the region's accumulator. -/
def restNoAcc1 (c : Dev nD) : sProp 𝕄 :=
  Pipeline.scopedRestBut (Ix := Ix) (Name := Name) (U := U) (Lvl := Lvl) (Val := Elt F) spec2 c [cc2_scratch0]

/-- The accumulator taken out of the scoped rest, owned whole at some contents; -/
theorem acc_split1 (a : (p : Fin 6) → (pcfgs (F := F) p).Adm) (c : Dev nD) :
    (rest1 (Ix := Ix) (Name := Name) (U := U) (Lvl := Lvl) a c : sProp 𝕄)
      ⊢ iprop(restNoAcc1 c ∗ ∃ d, owns (c : Thread nD τ) (Memref.whole cc2_scratch0) fullShare d) := by
  rw [show rest1 (Ix := Ix) (Name := Name) (U := U) (Lvl := Lvl) a c
      = (Pipeline.scopedRest (Ix := Ix) (Name := Name) (U := U) (Lvl := Lvl) (Val := Elt F) spec2 c : sProp 𝕄) from rfl, scopedRest2_split]
  unfold restNoAcc1
  iintro ⟨Ha, Hm⟩
  isplitl [Hm]; · iexact Hm
  iapply (whole_owned (F := F) c cc2_scratch0).2
  iexact Ha

/-- and put back. -/
theorem acc_join1 (a : (p : Fin 6) → (pcfgs (F := F) p).Adm) (c : Dev nD) :
    (iprop(restNoAcc1 c ∗ ∃ d, owns (c : Thread nD τ) (Memref.whole cc2_scratch0) fullShare d) : sProp 𝕄)
      ⊢ rest1 (Ix := Ix) (Name := Name) (U := U) (Lvl := Lvl) a c := by
  rw [show rest1 (Ix := Ix) (Name := Name) (U := U) (Lvl := Lvl) a c
      = (Pipeline.scopedRest (Ix := Ix) (Name := Name) (U := U) (Lvl := Lvl) (Val := Elt F) spec2 c : sProp 𝕄) from rfl, scopedRest2_split]
  unfold restNoAcc1
  iintro ⟨Hm, Ha⟩
  isplitl [Ha]
  · iapply (whole_owned (F := F) c cc2_scratch0).1
    iexact Ha
  iexact Hm

/-! ## Pipeline 2 -/

/-- The core's scoped buffers that stage nothing for pipeline 2, each whole at some contents. -/
def rest2 (a : (p : Fin 6) → (pcfgs (F := F) p).Adm) (c : Dev nD) : sProp 𝕄 :=
  Pipeline.scopedRest (Pipeline.pin (pcfgs (F := F)) a 2).spec c

/-- The same but the region's accumulator. -/
def restNoAcc2 (c : Dev nD) : sProp 𝕄 :=
  Pipeline.scopedRestBut (Ix := Ix) (Name := Name) (U := U) (Lvl := Lvl) (Val := Elt F) spec4 c [cc4_scratch0]

/-- The accumulator taken out of the scoped rest, owned whole at some contents; -/
theorem acc_split2 (a : (p : Fin 6) → (pcfgs (F := F) p).Adm) (c : Dev nD) :
    (rest2 (Ix := Ix) (Name := Name) (U := U) (Lvl := Lvl) a c : sProp 𝕄)
      ⊢ iprop(restNoAcc2 c ∗ ∃ d, owns (c : Thread nD τ) (Memref.whole cc4_scratch0) fullShare d) := by
  rw [show rest2 (Ix := Ix) (Name := Name) (U := U) (Lvl := Lvl) a c
      = (Pipeline.scopedRest (Ix := Ix) (Name := Name) (U := U) (Lvl := Lvl) (Val := Elt F) spec4 c : sProp 𝕄) from rfl, scopedRest4_split]
  unfold restNoAcc2
  iintro ⟨Ha, Hm⟩
  isplitl [Hm]; · iexact Hm
  iapply (whole_owned (F := F) c cc4_scratch0).2
  iexact Ha

/-- and put back. -/
theorem acc_join2 (a : (p : Fin 6) → (pcfgs (F := F) p).Adm) (c : Dev nD) :
    (iprop(restNoAcc2 c ∗ ∃ d, owns (c : Thread nD τ) (Memref.whole cc4_scratch0) fullShare d) : sProp 𝕄)
      ⊢ rest2 (Ix := Ix) (Name := Name) (U := U) (Lvl := Lvl) a c := by
  rw [show rest2 (Ix := Ix) (Name := Name) (U := U) (Lvl := Lvl) a c
      = (Pipeline.scopedRest (Ix := Ix) (Name := Name) (U := U) (Lvl := Lvl) (Val := Elt F) spec4 c : sProp 𝕄) from rfl, scopedRest4_split]
  unfold restNoAcc2
  iintro ⟨Hm, Ha⟩
  isplitl [Ha]
  · iapply (whole_owned (F := F) c cc4_scratch0).1
    iexact Ha
  iexact Hm

/-! ## Pipeline 3 -/

/-- The core's scoped buffers that stage nothing for pipeline 3, each whole at some contents. -/
def rest3 (a : (p : Fin 6) → (pcfgs (F := F) p).Adm) (c : Dev nD) : sProp 𝕄 :=
  Pipeline.scopedRest (Pipeline.pin (pcfgs (F := F)) a 3).spec c

/-- The same but the region's accumulator. -/
def restNoAcc3 (c : Dev nD) : sProp 𝕄 :=
  Pipeline.scopedRestBut (Ix := Ix) (Name := Name) (U := U) (Lvl := Lvl) (Val := Elt F) spec6 c [cc6_scratch0]

/-- The accumulator taken out of the scoped rest, owned whole at some contents; -/
theorem acc_split3 (a : (p : Fin 6) → (pcfgs (F := F) p).Adm) (c : Dev nD) :
    (rest3 (Ix := Ix) (Name := Name) (U := U) (Lvl := Lvl) a c : sProp 𝕄)
      ⊢ iprop(restNoAcc3 c ∗ ∃ d, owns (c : Thread nD τ) (Memref.whole cc6_scratch0) fullShare d) := by
  rw [show rest3 (Ix := Ix) (Name := Name) (U := U) (Lvl := Lvl) a c
      = (Pipeline.scopedRest (Ix := Ix) (Name := Name) (U := U) (Lvl := Lvl) (Val := Elt F) spec6 c : sProp 𝕄) from rfl, scopedRest6_split]
  unfold restNoAcc3
  iintro ⟨Ha, Hm⟩
  isplitl [Hm]; · iexact Hm
  iapply (whole_owned (F := F) c cc6_scratch0).2
  iexact Ha

/-- and put back. -/
theorem acc_join3 (a : (p : Fin 6) → (pcfgs (F := F) p).Adm) (c : Dev nD) :
    (iprop(restNoAcc3 c ∗ ∃ d, owns (c : Thread nD τ) (Memref.whole cc6_scratch0) fullShare d) : sProp 𝕄)
      ⊢ rest3 (Ix := Ix) (Name := Name) (U := U) (Lvl := Lvl) a c := by
  rw [show rest3 (Ix := Ix) (Name := Name) (U := U) (Lvl := Lvl) a c
      = (Pipeline.scopedRest (Ix := Ix) (Name := Name) (U := U) (Lvl := Lvl) (Val := Elt F) spec6 c : sProp 𝕄) from rfl, scopedRest6_split]
  unfold restNoAcc3
  iintro ⟨Hm, Ha⟩
  isplitl [Ha]
  · iapply (whole_owned (F := F) c cc6_scratch0).1
    iexact Ha
  iexact Hm

/-! ## Pipeline 4 -/

/-- The core's scoped buffers that stage nothing for pipeline 4, each whole at some contents. -/
def rest4 (a : (p : Fin 6) → (pcfgs (F := F) p).Adm) (c : Dev nD) : sProp 𝕄 :=
  Pipeline.scopedRest (Pipeline.pin (pcfgs (F := F)) a 4).spec c

/-- The same but the region's accumulator. -/
def restNoAcc4 (c : Dev nD) : sProp 𝕄 :=
  Pipeline.scopedRestBut (Ix := Ix) (Name := Name) (U := U) (Lvl := Lvl) (Val := Elt F) spec8 c [cc8_scratch0]

/-- The accumulator taken out of the scoped rest, owned whole at some contents; -/
theorem acc_split4 (a : (p : Fin 6) → (pcfgs (F := F) p).Adm) (c : Dev nD) :
    (rest4 (Ix := Ix) (Name := Name) (U := U) (Lvl := Lvl) a c : sProp 𝕄)
      ⊢ iprop(restNoAcc4 c ∗ ∃ d, owns (c : Thread nD τ) (Memref.whole cc8_scratch0) fullShare d) := by
  rw [show rest4 (Ix := Ix) (Name := Name) (U := U) (Lvl := Lvl) a c
      = (Pipeline.scopedRest (Ix := Ix) (Name := Name) (U := U) (Lvl := Lvl) (Val := Elt F) spec8 c : sProp 𝕄) from rfl, scopedRest8_split]
  unfold restNoAcc4
  iintro ⟨Ha, Hm⟩
  isplitl [Hm]; · iexact Hm
  iapply (whole_owned (F := F) c cc8_scratch0).2
  iexact Ha

/-- and put back. -/
theorem acc_join4 (a : (p : Fin 6) → (pcfgs (F := F) p).Adm) (c : Dev nD) :
    (iprop(restNoAcc4 c ∗ ∃ d, owns (c : Thread nD τ) (Memref.whole cc8_scratch0) fullShare d) : sProp 𝕄)
      ⊢ rest4 (Ix := Ix) (Name := Name) (U := U) (Lvl := Lvl) a c := by
  rw [show rest4 (Ix := Ix) (Name := Name) (U := U) (Lvl := Lvl) a c
      = (Pipeline.scopedRest (Ix := Ix) (Name := Name) (U := U) (Lvl := Lvl) (Val := Elt F) spec8 c : sProp 𝕄) from rfl, scopedRest8_split]
  unfold restNoAcc4
  iintro ⟨Hm, Ha⟩
  isplitl [Ha]
  · iapply (whole_owned (F := F) c cc8_scratch0).1
    iexact Ha
  iexact Hm

end Cert.Kernel.Region1B

end
-- ==== Proof.Region1DataK.lean ====
/-
  The first fused region as a segment of @main: its proof data for a segment, read off the valuation the region is
  entered at, meets what a segment asks — the arrays' entry contents are the valuation's, full shares, the tallies and
  the bound of the handshake state at every point, and an invariant that is the scoped rest at every even point, in
  particular at the first and at the last (the accumulator, one of the scoped rest's buffers, is named apart only
  between the two halves of a row of the grid) — and the body's proof is the body file's.
-/
import proofs.«215235_g2774548873965_cont_9to1_572_34_alg».proof.Proof.ScRegionK
import proofs.«215235_g2774548873965_cont_9to1_572_34_alg».proof.Proof.Region1BodyK
import proofs.«215235_g2774548873965_cont_9to1_572_34_alg».proof.Proof.Region1RestK

noncomputable section

namespace Cert.Kernel.Sc

open Cert.Kernel
open Idealize.ShloMosaic Idealize.ShloMosaic.StableHlo Idealize.ShloMosaic.TcCoe
open Idealize.ShloMosaic.SparseCore (S T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F] [∀ e, Nonempty (Elt F e)]

local notation "𝕄" => MT nD τ sig (HIx 4) (Elt F) ℕ UU ℕ

/-- The pipeline this file is about. -/
abbrev pix : Fin 6 := 1

/-- The region's arrays at a valuation. -/
def A1 (W : Valuation τ sig (Elt F)) (c : Dev nD) (w : Fin cfg2.W) : Buf (Elt F) ((cfg2.win w).arr.view.loc (c.tc : Thread nD τ)) :=
  valOn W c (Pipeline.arrRef spec2 w)

/-- Its proof data for a segment entered before call n, at a valuation. -/
def dt1 (n : ℕ) (W : Valuation τ sig (Elt F)) (c : Dev nD) : Dat τ (Elt F) (HIx 4) ℕ UU ℕ (Pipeline.pin (pcfgs (F := F)) adm pix) c :=
  Region1B.dat c (A1 W c) (fun _ => fullShare) (Region1B.rest1 adm c) (Region1B.restNoAcc1 c) ((K (F := F)).Otc c n) (below (F := F) c n)

/-- The grid has an even number of points. -/
theorem N1_even : (Pipeline.pin (pcfgs (F := F)) adm pix).N % 2 = 0 := by
  show grid2.N % 2 = 0
  rw [Gen.N_2]

/-- What a segment asks of the region's proof data. (The facts about the scoped rest are matched in the proof mode, not by
    unfolding: the accumulator's split and join are restated in the body's own words first.) -/
theorem data1 (n : ℕ) : RegionData (F := F) pix n (dt1 n) where
  body W c := by
    have hs : (Region1B.rest1 adm c : sProp 𝕄)
        ⊢ iprop(Region1B.restNoAcc1 c ∗ ∃ d, owns (c : Thread nD τ) Region1B.accRef fullShare d) := by
      with_reducible_and_instances exact Region1B.acc_split1 adm c
    have hj : (iprop(Region1B.restNoAcc1 c ∗ ∃ d, owns (c : Thread nD τ) Region1B.accRef fullShare d) : sProp 𝕄)
        ⊢ Region1B.rest1 adm c := by
      with_reducible_and_instances exact Region1B.acc_join1 adm c
    have hb : Pipeline.BodyObligation (dt1 (F := F) n W c) (defs₀ (F := F)) Variants.none none Set.univ := by
      unfold dt1
      with_reducible_and_instances
        exact Region1B.body_obligation Variants.none none c (A1 W c) (fun _ => fullShare) (Region1B.rest1 adm c) (Region1B.restNoAcc1 c)
          ((K (F := F)).Otc c n) (below (F := F) c n) hs hj
    exact hb.loose
  arrays _ _ _ := rfl
  shares _ _ w := by unfold Pipeline.Dat.share; split <;> rfl
  owed _ _ _ := rfl
  recorded _ _ _ := rfl
  inv_first W c t ht := by
    unfold dt1
    rewrite [Region1B.Phi_even _ _ _ _ _ _ _ t (by omega), Region1B.rest1]
    iintro H; iexact H
  inv_last W c t ht := by
    unfold dt1
    rewrite [Region1B.Phi_even _ _ _ _ _ _ _ t (by rw [ht]; exact N1_even), Region1B.rest1]
    iintro H; iexact H

/-- The region, entered before call n, as a segment of @main. -/
theorem seg_region1_n (n : ℕ) : SegRegion (F := F) pix n (Proc.devRef .tc main_v21) := seg_region1_at n _ (data1 n)

/-- Where @main enters it. -/
theorem seg_region1 : SegRegion (F := F) pix 1 (Proc.devRef .tc main_v21) := seg_region1_n 1

end Cert.Kernel.Sc

end
-- ==== Proof.Region2BodyK.lean ====
/-
  A fused tensor-core region: for 8 neighbour slots j, filt_j = ssp(f_j · W₁ + b₁) · W₂ + b₂ (ssp v = log(½·exp v + ½)),
  times the cutoff-and-mask column of slot j, times the gathered rows of slot j; the eight products added. The grid
  is 8 × 2: point (b, g) stages slots 8g … 8g + 7 of batch b. The region keeps a scratch accumulator across the second
  axis: at g = 0 it is set to the point's sum, at g = 1 the point's sum is added to it and the result is copied to the
  staged output block, which is written back to rows 1024·b … of the output array.

  At a point the body reads seven staged inputs (the filters' inputs f [1,50,8,1024], the gathered rows [8192,128], the
  cutoff-and-mask columns [1,8,1024], W₁ [50,128], b₁ [1,128], W₂ [128,128], b₂ [1,128]); it leaves them unchanged.
  What it leaves in the accumulator and in the output block is written out below as pure terms of the staged inputs.
-/
import proofs.«215235_g2774548873965_cont_9to1_572_34_alg».proof.Kernel
import proofs.«215235_g2774548873965_cont_9to1_572_34_alg».proof.Proof.Gen.Kernel
import proofs.«215235_g2774548873965_cont_9to1_572_34_alg».proof.Proof.Gen.Kernel.Skeleton
import proofs.«215235_g2774548873965_cont_9to1_572_34_alg».proof.Proof.Gen.Kernel.Launch
import proofs.«215235_g2774548873965_cont_9to1_572_34_alg».proof.Proof.Gen.Kernel.Points
import Idealize.ShloMosaic.Lib.Pipeline.FrameBody
import Idealize.ShloMosaic.Lib.Tactic

noncomputable section

namespace Cert.Kernel.Region2B

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The rectangles the body names -/

/-- All of a [1024,128] buffer: the accumulator, the staged output block. -/
abbrev rBig : Rect S1024x128 := Rect.unit (s := S1024x128) ![0, 0] S1024x128.size inb_S1024x128_S1024x128_0_0
abbrev rW1 : Rect S50x128 := Rect.unit (s := S50x128) ![0, 0] S50x128.size inb_S50x128_S50x128_0_0
abbrev rRow : Rect S1x128 := Rect.unit (s := S1x128) ![0, 0] S1x128.size inb_S1x128_S1x128_0_0
abbrev rSq : Rect S128x128 := Rect.unit (s := S128x128) ![0, 0] S128x128.size inb_S128x128_S128x128_0_0
abbrev rCut : Rect S1x8x1024 := Rect.unit (s := S1x8x1024) ![0, 0, 0] S1x8x1024.size inb_S1x8x1024_S1x8x1024_0_0_0
/-- Slot j of the staged filter inputs. -/
abbrev rF0 : Rect S1x50x8x1024 := Rect.unit (s := S1x50x8x1024) ![0, 0, 0, 0] S1x50x1x1024.size inb_S1x50x8x1024_S1x50x1x1024_0_0_0_0
abbrev rF1 : Rect S1x50x8x1024 := Rect.unit (s := S1x50x8x1024) ![0, 0, 1, 0] S1x50x1x1024.size inb_S1x50x8x1024_S1x50x1x1024_0_0_1_0
abbrev rF2 : Rect S1x50x8x1024 := Rect.unit (s := S1x50x8x1024) ![0, 0, 2, 0] S1x50x1x1024.size inb_S1x50x8x1024_S1x50x1x1024_0_0_2_0
abbrev rF3 : Rect S1x50x8x1024 := Rect.unit (s := S1x50x8x1024) ![0, 0, 3, 0] S1x50x1x1024.size inb_S1x50x8x1024_S1x50x1x1024_0_0_3_0
abbrev rF4 : Rect S1x50x8x1024 := Rect.unit (s := S1x50x8x1024) ![0, 0, 4, 0] S1x50x1x1024.size inb_S1x50x8x1024_S1x50x1x1024_0_0_4_0
abbrev rF5 : Rect S1x50x8x1024 := Rect.unit (s := S1x50x8x1024) ![0, 0, 5, 0] S1x50x1x1024.size inb_S1x50x8x1024_S1x50x1x1024_0_0_5_0
abbrev rF6 : Rect S1x50x8x1024 := Rect.unit (s := S1x50x8x1024) ![0, 0, 6, 0] S1x50x1x1024.size inb_S1x50x8x1024_S1x50x1x1024_0_0_6_0
abbrev rF7 : Rect S1x50x8x1024 := Rect.unit (s := S1x50x8x1024) ![0, 0, 7, 0] S1x50x1x1024.size inb_S1x50x8x1024_S1x50x1x1024_0_0_7_0
/-- Slot j of the staged gathered rows: rows 1024·j … 1024·j + 1023. -/
abbrev rG0 : Rect S8192x128 := Rect.unit (s := S8192x128) ![0, 0] S1024x128.size inb_S8192x128_S1024x128_0_0
abbrev rG1 : Rect S8192x128 := Rect.unit (s := S8192x128) ![1024, 0] S1024x128.size inb_S8192x128_S1024x128_1024_0
abbrev rG2 : Rect S8192x128 := Rect.unit (s := S8192x128) ![2048, 0] S1024x128.size inb_S8192x128_S1024x128_2048_0
abbrev rG3 : Rect S8192x128 := Rect.unit (s := S8192x128) ![3072, 0] S1024x128.size inb_S8192x128_S1024x128_3072_0
abbrev rG4 : Rect S8192x128 := Rect.unit (s := S8192x128) ![4096, 0] S1024x128.size inb_S8192x128_S1024x128_4096_0
abbrev rG5 : Rect S8192x128 := Rect.unit (s := S8192x128) ![5120, 0] S1024x128.size inb_S8192x128_S1024x128_5120_0
abbrev rG6 : Rect S8192x128 := Rect.unit (s := S8192x128) ![6144, 0] S1024x128.size inb_S8192x128_S1024x128_6144_0
abbrev rG7 : Rect S8192x128 := Rect.unit (s := S8192x128) ![7168, 0] S1024x128.size inb_S8192x128_S1024x128_7168_0

/-! ## The point's sum, as the body computes it -/

/-- The seven staged inputs of a point. -/
structure Ins (F : FTy → Type) where
  f : Vec F S1x50x8x1024 .f32
  g : Vec F S8192x128 .f32
  cut : Vec F S1x8x1024 .f32
  w1 : Vec F S50x128 .f32
  b1 : Vec F S1x128 .f32
  w2 : Vec F S128x128 .f32
  b2 : Vec F S1x128 .f32

/-- The running sum after slots 0 … 6, the last slot's filter and its column, in the order the body computes them:
    each line is one of the body's named values over what was read before it. -/
def upto6 (x : Ins F) : FVec F S1024x128 .f32 × FVec F S1024x128 .f32 × FVec F S1024x128 .f32 :=
  let cw := View.ld x.cut rCut
  let w1 := View.ld x.w1 rW1
  let b1 := View.ld x.b1 rRow
  let w2 := View.ld x.w2 rSq
  let b2 := View.ld x.b2 rRow
  let v2 := k4_pay4 cw
  let v28 := k4_pay5 cw (View.ld x.f rF0) w1 b1 w2 b2 (View.ld x.g rG0)
  let v30 := k4_pay6 (View.ld x.f rF1)
  let v55 := k4_pay7 v2 v28 v30 w1 b1 w2 b2 (View.ld x.g rG1)
  let v66 := k4_pay8 (View.ld x.f rF2) w1 b1
  let v82 := k4_pay10 v2 v55 v66 (k4_pay9 (F := F)) w2 b2 (View.ld x.g rG2)
  let v102 := k4_pay11 (View.ld x.f rF3) w1 b1 w2 b2
  let v136 := k4_pay13 v2 v82 v102 (k4_pay12 v2) (View.ld x.g rG3) (View.ld x.f rF4) w1 b1 w2 b2 (View.ld x.g rG4)
  let v138 := k4_pay14 (View.ld x.f rF5)
  let v163 := k4_pay15 v2 v136 v138 w1 b1 w2 b2 (View.ld x.g rG5)
  let v174 := k4_pay16 (View.ld x.f rF6) w1 b1
  let v190 := k4_pay18 v2 v163 v174 (k4_pay17 (F := F)) w2 b2 (View.ld x.g rG6)
  (v190, k4_pay19 (View.ld x.f rF7) w1 b1 w2 b2, k4_pay20 v2)

/-- What the first point of a pair stores in the accumulator. -/
def first (x : Ins F) : FVec F S1024x128 .f32 :=
  k4_pay2 (upto6 x).1 (upto6 x).2.1 (upto6 x).2.2 (View.ld x.g rG7)

/-- What the second point of a pair stores in the accumulator, the accumulator read as acc. -/
def second (x : Ins F) (acc : Vec F S1024x128 .f32) : FVec F S1024x128 .f32 :=
  k4_pay3 (upto6 x).1 (upto6 x).2.1 (upto6 x).2.2 (View.ld x.g rG7) acc

/-- A whole [1024,128] buffer overwritten by one store of p. -/
def whole (p : FVec F S1024x128 .f32) : Vec F S1024x128 .f32 := View.canon [⟨rBig, p⟩]

theorem whole_covers (p : Vec F S1024x128 .f32) (y : S1024x128.Idx) :
    ∃ pc ∈ ([⟨rBig, p⟩] : List (View.Piece (Elt F) S1024x128 .f32)), y ∈ pc.1.set :=
  View.cover_of_tiled [⟨rBig, p⟩] S1024x128.size (by rfl) y

/-! ## The body at the first point of a pair -/

set_option maxHeartbeats 4000000 in
/-- At a point whose second coordinate is 0 the body, called on whole buffers holding the seven inputs, an output block
    and an accumulator, returns the inputs and the output block as they were and the accumulator at the point's sum. -/
theorem body_run0 (𝒱₀ : Variants) (c : Dev nD) (E : Set Name) (i : grid4.Coords) (hi : (i 1).val = 0)
    (a2 : Memref sig .tc .vmem S1x50x8x1024 .f32) (g2 : a2.IsWhole) (a3 : Memref sig .tc .vmem S8192x128 .f32) (g3 : a3.IsWhole)
    (a4 : Memref sig .tc .vmem S1x8x1024 .f32) (g4 : a4.IsWhole) (a5 : Memref sig .tc .vmem S50x128 .f32) (g5 : a5.IsWhole)
    (a6 : Memref sig .tc .vmem S1x128 .f32) (g6 : a6.IsWhole) (a7 : Memref sig .tc .vmem S128x128 .f32) (g7 : a7.IsWhole)
    (a8 : Memref sig .tc .vmem S1x128 .f32) (g8 : a8.IsWhole) (a9 : Memref sig .tc .vmem S1024x128 .f32) (g9 : a9.IsWhole)
    (a10 : Memref sig .tc .vmem S1024x128 .f32) (g10 : a10.IsWhole)
    (xf : Vec F S1x50x8x1024 .f32) (xg : Vec F S8192x128 .f32) (xc : Vec F S1x8x1024 .f32) (xw1 : Vec F S50x128 .f32)
    (xb1 : Vec F S1x128 .f32) (xw2 : Vec F S128x128 .f32) (xb2 : Vec F S1x128 .f32) (o : Vec F S1024x128 .f32) (K : PUnit → sProp 𝕄) :
    iprop(owns (c : Thread nD τ) a2 fullShare xf ∗ owns (c : Thread nD τ) a3 fullShare xg ∗ owns (c : Thread nD τ) a4 fullShare xc
        ∗ owns (c : Thread nD τ) a5 fullShare xw1 ∗ owns (c : Thread nD τ) a6 fullShare xb1 ∗ owns (c : Thread nD τ) a7 fullShare xw2
        ∗ owns (c : Thread nD τ) a8 fullShare xb2
        ∗ owns (c : Thread nD τ) a9 fullShare o ∗ (∃ d, owns (c : Thread nD τ) a10 fullShare d)
        ∗ (iprop(owns (c : Thread nD τ) a2 fullShare xf ∗ owns (c : Thread nD τ) a3 fullShare xg ∗ owns (c : Thread nD τ) a4 fullShare xc
        ∗ owns (c : Thread nD τ) a5 fullShare xw1 ∗ owns (c : Thread nD τ) a6 fullShare xb1 ∗ owns (c : Thread nD τ) a7 fullShare xw2
        ∗ owns (c : Thread nD τ) a8 fullShare xb2
              ∗ owns (c : Thread nD τ) a9 fullShare o
              ∗ owns (c : Thread nD τ) a10 fullShare (whole (first ⟨xf, xg, xc, xw1, xb1, xw2, xb2⟩))) -∗ K ⟨⟩))
      ⊢ wp frame (wpE (defs₀ (F := F)) 𝒱₀ c none) E
          (cc4__fused_kernel i a2 g2 a3 g3 a4 g4 a5 g5 a6 g6 a7 g7 a8 g8 a9 g9 a10 g10) K := by
  have h1 : Scalar.cmpi .ne (Scalar.extui (Scalar.cmpi .eq (BitVec.ofNat 32 (i 1).val) 0#32)) 0#32 = 1#1 := by rw [hi]; decide
  have h2 : ¬ Scalar.cmpi .ne (Scalar.extui (Scalar.cmpi .sgt (BitVec.ofNat 32 (i 1).val) 0#32)) 0#32 = 1#1 := by rw [hi]; decide
  have h3 : ¬ k4_cond3 i = 1#1 := by unfold k4_cond3; rw [hi]; decide
  sl_unfold [cc4__fused_kernel]
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩,
    ⟨%f9, %e9, H9⟩, ⟨%d10, %f10, -, H10⟩, Hk⟩
  subst e2 e3 e4 e5 e6 e7 e8 e9
  -- the loads, the sum (pure), the accumulator's overwrite; the other two cases are not taken
  sl_exec
  sl_step
  iapply Hk
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists f7; isplitr
    · ipureintro; rfl
    · iexact H7
  isplitl [H8]
  · iexists f8; isplitr
    · ipureintro; rfl
    · iexact H8
  isplitl [H9]
  · iexists f9; isplitr
    · ipureintro; rfl
    · iexact H9
  iexists _
  isplitr
  rotate_left
  · iexact H10
  · ipureintro
    exact View.read_writes_eq_canon _ _ _ (whole_covers (F := F) _)

set_option maxHeartbeats 4000000 in
/-- At a point whose second coordinate is 1 the body, called on whole buffers holding the seven inputs, an output block
    and the accumulator at acc, returns the inputs as they were the accumulator at acc plus the point's sum, and the
    output block at the accumulator's new contents read back whole. -/
theorem body_run1 (𝒱₀ : Variants) (c : Dev nD) (E : Set Name) (i : grid4.Coords) (hi : (i 1).val = 1)
    (a2 : Memref sig .tc .vmem S1x50x8x1024 .f32) (g2 : a2.IsWhole) (a3 : Memref sig .tc .vmem S8192x128 .f32) (g3 : a3.IsWhole)
    (a4 : Memref sig .tc .vmem S1x8x1024 .f32) (g4 : a4.IsWhole) (a5 : Memref sig .tc .vmem S50x128 .f32) (g5 : a5.IsWhole)
    (a6 : Memref sig .tc .vmem S1x128 .f32) (g6 : a6.IsWhole) (a7 : Memref sig .tc .vmem S128x128 .f32) (g7 : a7.IsWhole)
    (a8 : Memref sig .tc .vmem S1x128 .f32) (g8 : a8.IsWhole) (a9 : Memref sig .tc .vmem S1024x128 .f32) (g9 : a9.IsWhole)
    (a10 : Memref sig .tc .vmem S1024x128 .f32) (g10 : a10.IsWhole)
    (xf : Vec F S1x50x8x1024 .f32) (xg : Vec F S8192x128 .f32) (xc : Vec F S1x8x1024 .f32) (xw1 : Vec F S50x128 .f32)
    (xb1 : Vec F S1x128 .f32) (xw2 : Vec F S128x128 .f32) (xb2 : Vec F S1x128 .f32) (acc : Vec F S1024x128 .f32) (K : PUnit → sProp 𝕄) :
    iprop(owns (c : Thread nD τ) a2 fullShare xf ∗ owns (c : Thread nD τ) a3 fullShare xg ∗ owns (c : Thread nD τ) a4 fullShare xc
        ∗ owns (c : Thread nD τ) a5 fullShare xw1 ∗ owns (c : Thread nD τ) a6 fullShare xb1 ∗ owns (c : Thread nD τ) a7 fullShare xw2
        ∗ owns (c : Thread nD τ) a8 fullShare xb2
        ∗ (∃ d, owns (c : Thread nD τ) a9 fullShare d) ∗ owns (c : Thread nD τ) a10 fullShare acc
        ∗ (iprop(owns (c : Thread nD τ) a2 fullShare xf ∗ owns (c : Thread nD τ) a3 fullShare xg ∗ owns (c : Thread nD τ) a4 fullShare xc
        ∗ owns (c : Thread nD τ) a5 fullShare xw1 ∗ owns (c : Thread nD τ) a6 fullShare xb1 ∗ owns (c : Thread nD τ) a7 fullShare xw2
        ∗ owns (c : Thread nD τ) a8 fullShare xb2
              ∗ owns (c : Thread nD τ) a9 fullShare (whole (View.ld (whole (second ⟨xf, xg, xc, xw1, xb1, xw2, xb2⟩ (View.ld acc rBig))) rBig))
              ∗ owns (c : Thread nD τ) a10 fullShare (whole (second ⟨xf, xg, xc, xw1, xb1, xw2, xb2⟩ (View.ld acc rBig)))) -∗ K ⟨⟩))
      ⊢ wp frame (wpE (defs₀ (F := F)) 𝒱₀ c none) E
          (cc4__fused_kernel i a2 g2 a3 g3 a4 g4 a5 g5 a6 g6 a7 g7 a8 g8 a9 g9 a10 g10) K := by
  have h1 : ¬ Scalar.cmpi .ne (Scalar.extui (Scalar.cmpi .eq (BitVec.ofNat 32 (i 1).val) 0#32)) 0#32 = 1#1 := by rw [hi]; decide
  have h2 : Scalar.cmpi .ne (Scalar.extui (Scalar.cmpi .sgt (BitVec.ofNat 32 (i 1).val) 0#32)) 0#32 = 1#1 := by rw [hi]; decide
  have h3 : k4_cond3 i = 1#1 := by unfold k4_cond3; rw [hi]; decide
  sl_unfold [cc4__fused_kernel]
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩,
    ⟨%d9, %f9, -, H9⟩, ⟨%f10, %e10, H10⟩, Hk⟩
  subst e2 e3 e4 e5 e6 e7 e8 e10
  -- the loads, the sum (pure), the accumulator read, added to and overwritten, then copied to the output block
  sl_exec
  sl_step
  iapply Hk
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists f7; isplitr
    · ipureintro; rfl
    · iexact H7
  isplitl [H8]
  · iexists f8; isplitr
    · ipureintro; rfl
    · iexact H8
  isplitl [H9]
  · iexists _
    isplitr
    rotate_left
    · iexact H9
    · ipureintro
      -- the output block's one store is of the accumulator read back, whole, after its own overwrite
      rw [View.read_writes_eq_canon _ _ _ (whole_covers (F := F) _)]
      exact congrArg (fun p => View.canon [(⟨rBig, p⟩ : View.Piece (Elt F) S1024x128 .f32)])
        (View.readCov_eq_canon_ld _ _ rBig (whole_covers (F := F) _))
  iexists _
  isplitr
  rotate_left
  · iexact H10
  · ipureintro
    exact View.read_writes_eq_canon _ _ _ (whole_covers (F := F) _)

/-! ## The proof data -/

/-- Window w's block at point t, read off the array's contents at the region's entry. -/
def blockAt (c : Dev nD) (A : (w : Fin cfg4.W) → Buf (Elt F) ((cfg4.win w).arr.view.loc (c.tc : Thread nD τ)))
    (w : Fin cfg4.W) (t : Fin cfg4.N) : ((cfg4.win w).xblock (cfg4.grid.coords t)).Idx → Elt F (cfg4.win w).elt :=
  ((cfg4.win w).blk t).view.read (Elt F) (A w)

/-- The seven staged inputs of point t. -/
def insAt (c : Dev nD) (A : (w : Fin cfg4.W) → Buf (Elt F) ((cfg4.win w).arr.view.loc (c.tc : Thread nD τ))) (t : Fin cfg4.N) : Ins F :=
  ⟨blockAt c A 0 t, blockAt c A 1 t, blockAt c A 2 t, blockAt c A 3 t, blockAt c A 4 t, blockAt c A 5 t, blockAt c A 6 t⟩

/-- The point before t (t itself at the first point, where it is not used). -/
def prev (t : Fin cfg4.N) : Fin cfg4.N := ⟨t.val - 1, Nat.lt_of_le_of_lt (Nat.sub_le _ _) t.isLt⟩

/-- The accumulator after the first point of a pair: that point's sum. -/
def accFirst (c : Dev nD) (A : (w : Fin cfg4.W) → Buf (Elt F) ((cfg4.win w).arr.view.loc (c.tc : Thread nD τ))) (t : Fin cfg4.N) :
    Vec F S1024x128 .f32 := whole (first (insAt c A t))

/-- The accumulator after the second point t of a pair: the first point's sum plus this point's. -/
def accSecond (c : Dev nD) (A : (w : Fin cfg4.W) → Buf (Elt F) ((cfg4.win w).arr.view.loc (c.tc : Thread nD τ))) (t : Fin cfg4.N) :
    Vec F S1024x128 .f32 := whole (second (insAt c A t) (View.ld (accFirst c A (prev t)) rBig))

/-- The accumulator, as a whole buffer of the core. -/
abbrev accRef : Memref sig .tc .vmem S1024x128 .f32 := Memref.whole cc4_scratch0

/-- The region's proof data on core c: entry contents A of the eight arrays, shares q, the tallies O and the bound B as
    they are throughout. The invariant is R before the first point of a pair (R: what the core holds besides the
    windows, the accumulator among it at contents nobody names) and, between the two points of a pair, Rm (the same
    without the accumulator) with the accumulator at the first point's sum. The body leaves each input at its block;
    at the second point of a pair it leaves the output block at the accumulator read back. -/
def dat (c : Dev nD) (A : (w : Fin cfg4.W) → Buf (Elt F) ((cfg4.win w).arr.view.loc (c.tc : Thread nD τ)))
    (q : Fin cfg4.W → PosShare TreeShare) (R Rm : sProp 𝕄) (O : CellTallies nD τ sig Ix) (B : Set (SemLoc sig × Ix)) :
    Dat τ (Elt F) Ix Name U Lvl cfg4 c where
  A := A
  after w t := match w with
    | ⟨0, _⟩ => blockAt c A 0 t
    | ⟨1, _⟩ => blockAt c A 1 t
    | ⟨2, _⟩ => blockAt c A 2 t
    | ⟨3, _⟩ => blockAt c A 3 t
    | ⟨4, _⟩ => blockAt c A 4 t
    | ⟨5, _⟩ => blockAt c A 5 t
    | ⟨6, _⟩ => blockAt c A 6 t
    | ⟨7, _⟩ => whole (View.ld (accSecond c A t) rBig)
  Φ t := if h : t.val % 2 = 1 then
      iprop(Rm ∗ owns (c : Thread nD τ) accRef fullShare (accFirst c A ⟨t.val - 1, by have := t.isLt; omega⟩))
    else R
  q := q
  owed _ := O
  recorded _ := B

/-! ## What the proof data says -/

/-- The second grid coordinate of point t is t modulo 2. -/
theorem coord1 : ∀ t : Fin grid4.N, ((grid4.coords t) 1).val = t.val % 2 := by decide +kernel

/-- The output window rests (is neither stored to nor written back) exactly at the first point of a pair. -/
theorem idle7 : ∀ t : Fin grid4.N, cfg4.idle 7 (cfg4.grid.coords t) = decide (t.val % 2 = 0) := by decide +kernel
theorem flush7 : ∀ t : Fin grid4.N, (cfg4.win 7).flush t = decide (t.val % 2 = 1) := by decide +kernel

section Facts

variable (c : Dev nD) (A : (w : Fin cfg4.W) → Buf (Elt F) ((cfg4.win w).arr.view.loc (c.tc : Thread nD τ)))
  (q : Fin cfg4.W → PosShare TreeShare) (O : CellTallies nD τ sig Ix) (B : Set (SemLoc sig × Ix))

theorem after_in0 (R Rm : sProp 𝕄) (t : Fin cfg4.N) : (dat (Name := Name) (Lvl := Lvl) c A q R Rm O B).after 0 t = blockAt c A 0 t := by dsimp only [dat]
theorem after_in1 (R Rm : sProp 𝕄) (t : Fin cfg4.N) : (dat (Name := Name) (Lvl := Lvl) c A q R Rm O B).after 1 t = blockAt c A 1 t := by dsimp only [dat]
theorem after_in2 (R Rm : sProp 𝕄) (t : Fin cfg4.N) : (dat (Name := Name) (Lvl := Lvl) c A q R Rm O B).after 2 t = blockAt c A 2 t := by dsimp only [dat]
theorem after_in3 (R Rm : sProp 𝕄) (t : Fin cfg4.N) : (dat (Name := Name) (Lvl := Lvl) c A q R Rm O B).after 3 t = blockAt c A 3 t := by dsimp only [dat]
theorem after_in4 (R Rm : sProp 𝕄) (t : Fin cfg4.N) : (dat (Name := Name) (Lvl := Lvl) c A q R Rm O B).after 4 t = blockAt c A 4 t := by dsimp only [dat]
theorem after_in5 (R Rm : sProp 𝕄) (t : Fin cfg4.N) : (dat (Name := Name) (Lvl := Lvl) c A q R Rm O B).after 5 t = blockAt c A 5 t := by dsimp only [dat]
theorem after_in6 (R Rm : sProp 𝕄) (t : Fin cfg4.N) : (dat (Name := Name) (Lvl := Lvl) c A q R Rm O B).after 6 t = blockAt c A 6 t := by dsimp only [dat]
theorem after_out (R Rm : sProp 𝕄) (t : Fin cfg4.N) : (dat (Name := Name) (Lvl := Lvl) c A q R Rm O B).after 7 t = whole (View.ld (accSecond c A t) rBig) := by dsimp only [dat]

theorem before_in0 (R Rm : sProp 𝕄) (t : Fin cfg4.N) (d) : (dat (Name := Name) (Lvl := Lvl) c A q R Rm O B).before 0 t d = blockAt c A 0 t :=
  ((dat (Name := Name) (Lvl := Lvl) c A q R Rm O B).before_in_eq_fetched 0 rfl (fun _ => rfl) (fun _ _ _ => rfl) (fun u => by rw [after_in0]; rfl) t d).trans rfl
theorem before_in1 (R Rm : sProp 𝕄) (t : Fin cfg4.N) (d) : (dat (Name := Name) (Lvl := Lvl) c A q R Rm O B).before 1 t d = blockAt c A 1 t :=
  ((dat (Name := Name) (Lvl := Lvl) c A q R Rm O B).before_in_eq_fetched 1 rfl (fun _ => rfl) (fun _ _ _ => rfl) (fun u => by rw [after_in1]; rfl) t d).trans rfl
theorem before_in2 (R Rm : sProp 𝕄) (t : Fin cfg4.N) (d) : (dat (Name := Name) (Lvl := Lvl) c A q R Rm O B).before 2 t d = blockAt c A 2 t :=
  ((dat (Name := Name) (Lvl := Lvl) c A q R Rm O B).before_in_eq_fetched 2 rfl (fun _ => rfl) (fun _ _ _ => rfl) (fun u => by rw [after_in2]; rfl) t d).trans rfl
theorem before_in3 (R Rm : sProp 𝕄) (t : Fin cfg4.N) (d) : (dat (Name := Name) (Lvl := Lvl) c A q R Rm O B).before 3 t d = blockAt c A 3 t :=
  ((dat (Name := Name) (Lvl := Lvl) c A q R Rm O B).before_in_eq_fetched 3 rfl (fun _ => rfl) (fun _ _ _ => rfl) (fun u => by rw [after_in3]; rfl) t d).trans rfl
theorem before_in4 (R Rm : sProp 𝕄) (t : Fin cfg4.N) (d) : (dat (Name := Name) (Lvl := Lvl) c A q R Rm O B).before 4 t d = blockAt c A 4 t :=
  ((dat (Name := Name) (Lvl := Lvl) c A q R Rm O B).before_in_eq_fetched 4 rfl (fun _ => rfl) (fun _ _ _ => rfl) (fun u => by rw [after_in4]; rfl) t d).trans rfl
theorem before_in5 (R Rm : sProp 𝕄) (t : Fin cfg4.N) (d) : (dat (Name := Name) (Lvl := Lvl) c A q R Rm O B).before 5 t d = blockAt c A 5 t :=
  ((dat (Name := Name) (Lvl := Lvl) c A q R Rm O B).before_in_eq_fetched 5 rfl (fun _ => rfl) (fun _ _ _ => rfl) (fun u => by rw [after_in5]; rfl) t d).trans rfl
theorem before_in6 (R Rm : sProp 𝕄) (t : Fin cfg4.N) (d) : (dat (Name := Name) (Lvl := Lvl) c A q R Rm O B).before 6 t d = blockAt c A 6 t :=
  ((dat (Name := Name) (Lvl := Lvl) c A q R Rm O B).before_in_eq_fetched 6 rfl (fun _ => rfl) (fun _ _ _ => rfl) (fun u => by rw [after_in6]; rfl) t d).trans rfl

/-- Before the first point of a pair the invariant is R; -/
theorem inv_first (R Rm : sProp 𝕄) (t : Fin cfg4.N) (h : t.val % 2 = 0) : (dat (Name := Name) (Lvl := Lvl) c A q R Rm O B).Φ t.castSucc = R := by
  have h' : ¬ (t.castSucc : Fin (cfg4.N + 1)).val % 2 = 1 := by rw [Fin.val_castSucc]; omega
  dsimp only [dat]
  rw [dif_neg h']

/-- after it, Rm and the accumulator at the point's sum; -/
theorem inv_mid (R Rm : sProp 𝕄) (t : Fin cfg4.N) (h : t.val % 2 = 0) :
    (dat (Name := Name) (Lvl := Lvl) c A q R Rm O B).Φ t.succ = iprop(Rm ∗ owns (c : Thread nD τ) accRef fullShare (accFirst c A t)) := by
  have h' : (t.succ : Fin (cfg4.N + 1)).val % 2 = 1 := by rw [Fin.val_succ]; omega
  dsimp only [dat]
  rw [dif_pos h']
  rfl

/-- the same before the second point of a pair, -/
theorem inv_mid' (R Rm : sProp 𝕄) (t : Fin cfg4.N) (h : t.val % 2 = 1) :
    (dat (Name := Name) (Lvl := Lvl) c A q R Rm O B).Φ t.castSucc = iprop(Rm ∗ owns (c : Thread nD τ) accRef fullShare (accFirst c A (prev t))) := by
  have h' : (t.castSucc : Fin (cfg4.N + 1)).val % 2 = 1 := by rw [Fin.val_castSucc]; exact h
  dsimp only [dat]
  rw [dif_pos h']
  rfl

/-- and R again after it. -/
theorem inv_last (R Rm : sProp 𝕄) (t : Fin cfg4.N) (h : t.val % 2 = 1) : (dat (Name := Name) (Lvl := Lvl) c A q R Rm O B).Φ t.succ = R := by
  have h' : ¬ (t.succ : Fin (cfg4.N + 1)).val % 2 = 1 := by rw [Fin.val_succ]; omega
  dsimp only [dat]
  rw [dif_neg h']

/-- At an even position (before the first point of a pair, after the second, at the region's two ends) the invariant
    is R, -/
theorem Phi_even (R Rm : sProp 𝕄) (t : Fin (cfg4.N + 1)) (ht : t.val % 2 = 0) : (dat (Name := Name) (Lvl := Lvl) c A q R Rm O B).Φ t = R := by
  have h' : ¬ t.val % 2 = 1 := by omega
  dsimp only [dat]
  rw [dif_neg h']

/-- at an odd one, Rm with the accumulator at the sum of the point just run. -/
theorem Phi_odd (R Rm : sProp 𝕄) (t : Fin (cfg4.N + 1)) (ht : t.val % 2 = 1) :
    (dat (Name := Name) (Lvl := Lvl) c A q R Rm O B).Φ t = iprop(Rm ∗ owns (c : Thread nD τ) accRef fullShare (accFirst c A ⟨t.val - 1, by have := t.isLt; omega⟩)) := by
  dsimp only [dat]
  rw [dif_pos ht]

theorem A_eq (R Rm : sProp 𝕄) : (dat (Name := Name) (Lvl := Lvl) c A q R Rm O B).A = A := rfl
theorem q_eq (R Rm : sProp 𝕄) : (dat (Name := Name) (Lvl := Lvl) c A q R Rm O B).q = q := rfl
theorem owed_eq (R Rm : sProp 𝕄) (t : Fin (cfg4.N + 1)) : (dat (Name := Name) (Lvl := Lvl) c A q R Rm O B).owed t = O := rfl
theorem recorded_eq (R Rm : sProp 𝕄) (t : Fin (cfg4.N + 1)) : (dat (Name := Name) (Lvl := Lvl) c A q R Rm O B).recorded t = B := rfl

end Facts

/-! ## The obligation -/

/-- The body at the first point t of a pair: the accumulator is taken out of R, set to the point's sum, and kept with Rm;
    the output block is not touched. -/
theorem at_even (𝒱₀ : Variants) (ι : Ix) (c : Dev nD) (A : (w : Fin cfg4.W) → Buf (Elt F) ((cfg4.win w).arr.view.loc (c.tc : Thread nD τ)))
    (q : Fin cfg4.W → PosShare TreeShare) (R Rm : sProp 𝕄) (O : CellTallies nD τ sig Ix) (B : Set (SemLoc sig × Ix))
    (hsplit : R ⊢ iprop(Rm ∗ ∃ d, owns (c : Thread nD τ) accRef fullShare d)) (t : Fin cfg4.N) (h : t.val % 2 = 0) :
    iprop((dat c A q R Rm O B).Φ t.castSucc ∗ (dat c A q R Rm O B).owesAt ι t.castSucc
        ∗ (∃ d, owns (c : Thread nD τ) (st4_0 t) fullShare ((dat c A q R Rm O B).before 0 t d))
        ∗ (∃ d, owns (c : Thread nD τ) (st4_1 t) fullShare ((dat c A q R Rm O B).before 1 t d))
        ∗ (∃ d, owns (c : Thread nD τ) (st4_2 t) fullShare ((dat c A q R Rm O B).before 2 t d))
        ∗ (∃ d, owns (c : Thread nD τ) (st4_3 t) fullShare ((dat c A q R Rm O B).before 3 t d))
        ∗ (∃ d, owns (c : Thread nD τ) (st4_4 t) fullShare ((dat c A q R Rm O B).before 4 t d))
        ∗ (∃ d, owns (c : Thread nD τ) (st4_5 t) fullShare ((dat c A q R Rm O B).before 5 t d))
        ∗ (∃ d, owns (c : Thread nD τ) (st4_6 t) fullShare ((dat c A q R Rm O B).before 6 t d))
        ∗ (∃ d, owns (c : Thread nD τ) (st4_7 t) fullShare ((dat c A q R Rm O B).before 7 t d)))
      ⊢ wp frame (wpE (defs₀ (F := F)) 𝒱₀ c none) Set.univ (bodyAt4 t) fun _ =>
          iprop((dat c A q R Rm O B).Φ t.succ ∗ (dat c A q R Rm O B).owesAt ι t.succ
            ∗ owns (c : Thread nD τ) (st4_0 t) fullShare ((dat c A q R Rm O B).after 0 t)
            ∗ owns (c : Thread nD τ) (st4_1 t) fullShare ((dat c A q R Rm O B).after 1 t)
            ∗ owns (c : Thread nD τ) (st4_2 t) fullShare ((dat c A q R Rm O B).after 2 t)
            ∗ owns (c : Thread nD τ) (st4_3 t) fullShare ((dat c A q R Rm O B).after 3 t)
            ∗ owns (c : Thread nD τ) (st4_4 t) fullShare ((dat c A q R Rm O B).after 4 t)
            ∗ owns (c : Thread nD τ) (st4_5 t) fullShare ((dat c A q R Rm O B).after 5 t)
            ∗ owns (c : Thread nD τ) (st4_6 t) fullShare ((dat c A q R Rm O B).after 6 t)
            ∗ (∃ d, owns (c : Thread nD τ) (st4_7 t) fullShare ((dat c A q R Rm O B).before 7 t d))) := by
  simp only [before_in0, before_in1, before_in2, before_in3, before_in4, before_in5, before_in6]
  rw [inv_first c A q O B R Rm t h, inv_mid c A q O B R Rm t h,
    show (dat c A q R Rm O B).owesAt ι t.succ = (dat c A q R Rm O B).owesAt ι t.castSucc from rfl,
    after_in0, after_in1, after_in2, after_in3, after_in4, after_in5, after_in6]
  iintro ⟨HR, HO, ⟨%d0, H0⟩, ⟨%d1, H1⟩, ⟨%d2, H2⟩, ⟨%d3, H3⟩, ⟨%d4, H4⟩, ⟨%d5, H5⟩, ⟨%d6, H6⟩, ⟨%d7, H7⟩⟩
  ihave HR' := hsplit $$ HR
  icases HR' with ⟨HRm, Hacc⟩
  iapply (body_run0 𝒱₀ c Set.univ (grid4.coords t) ((coord1 t).trans h) _ _ _ _ _ _ _ _ _ _ _ _ _ _ _ _ _ _
    (blockAt c A 0 t) (blockAt c A 1 t) (blockAt c A 2 t) (blockAt c A 3 t) (blockAt c A 4 t) (blockAt c A 5 t) (blockAt c A 6 t)
    ((dat c A q R Rm O B).before 7 t d7) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hacc]; · iexact Hacc
  iintro ⟨H0, H1, H2, H3, H4, H5, H6, H7, Hacc⟩
  isplitl [HRm Hacc]
  · isplitl [HRm]; · iexact HRm
    iexact Hacc
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexists d7; iexact H7

/-- The body at the second point t of a pair: the accumulator, at the first point's sum, gets this point's sum added
    and is copied to the output block; it goes back into R at contents no longer named. -/
theorem at_odd (𝒱₀ : Variants) (ι : Ix) (c : Dev nD) (A : (w : Fin cfg4.W) → Buf (Elt F) ((cfg4.win w).arr.view.loc (c.tc : Thread nD τ)))
    (q : Fin cfg4.W → PosShare TreeShare) (R Rm : sProp 𝕄) (O : CellTallies nD τ sig Ix) (B : Set (SemLoc sig × Ix))
    (hjoin : iprop(Rm ∗ ∃ d, owns (c : Thread nD τ) accRef fullShare d) ⊢ R) (t : Fin cfg4.N) (h : t.val % 2 = 1) :
    iprop((dat c A q R Rm O B).Φ t.castSucc ∗ (dat c A q R Rm O B).owesAt ι t.castSucc
        ∗ (∃ d, owns (c : Thread nD τ) (st4_0 t) fullShare ((dat c A q R Rm O B).before 0 t d))
        ∗ (∃ d, owns (c : Thread nD τ) (st4_1 t) fullShare ((dat c A q R Rm O B).before 1 t d))
        ∗ (∃ d, owns (c : Thread nD τ) (st4_2 t) fullShare ((dat c A q R Rm O B).before 2 t d))
        ∗ (∃ d, owns (c : Thread nD τ) (st4_3 t) fullShare ((dat c A q R Rm O B).before 3 t d))
        ∗ (∃ d, owns (c : Thread nD τ) (st4_4 t) fullShare ((dat c A q R Rm O B).before 4 t d))
        ∗ (∃ d, owns (c : Thread nD τ) (st4_5 t) fullShare ((dat c A q R Rm O B).before 5 t d))
        ∗ (∃ d, owns (c : Thread nD τ) (st4_6 t) fullShare ((dat c A q R Rm O B).before 6 t d))
        ∗ (∃ d, owns (c : Thread nD τ) (st4_7 t) fullShare ((dat c A q R Rm O B).before 7 t d)))
      ⊢ wp frame (wpE (defs₀ (F := F)) 𝒱₀ c none) Set.univ (bodyAt4 t) fun _ =>
          iprop((dat c A q R Rm O B).Φ t.succ ∗ (dat c A q R Rm O B).owesAt ι t.succ
            ∗ owns (c : Thread nD τ) (st4_0 t) fullShare ((dat c A q R Rm O B).after 0 t)
            ∗ owns (c : Thread nD τ) (st4_1 t) fullShare ((dat c A q R Rm O B).after 1 t)
            ∗ owns (c : Thread nD τ) (st4_2 t) fullShare ((dat c A q R Rm O B).after 2 t)
            ∗ owns (c : Thread nD τ) (st4_3 t) fullShare ((dat c A q R Rm O B).after 3 t)
            ∗ owns (c : Thread nD τ) (st4_4 t) fullShare ((dat c A q R Rm O B).after 4 t)
            ∗ owns (c : Thread nD τ) (st4_5 t) fullShare ((dat c A q R Rm O B).after 5 t)
            ∗ owns (c : Thread nD τ) (st4_6 t) fullShare ((dat c A q R Rm O B).after 6 t)
            ∗ owns (c : Thread nD τ) (st4_7 t) fullShare ((dat c A q R Rm O B).after 7 t)) := by
  simp only [before_in0, before_in1, before_in2, before_in3, before_in4, before_in5, before_in6]
  rw [inv_mid' c A q O B R Rm t h, inv_last c A q O B R Rm t h,
    show (dat c A q R Rm O B).owesAt ι t.succ = (dat c A q R Rm O B).owesAt ι t.castSucc from rfl,
    after_in0, after_in1, after_in2, after_in3, after_in4, after_in5, after_in6, after_out]
  iintro ⟨⟨HRm, Hacc⟩, HO, ⟨%d0, H0⟩, ⟨%d1, H1⟩, ⟨%d2, H2⟩, ⟨%d3, H3⟩, ⟨%d4, H4⟩, ⟨%d5, H5⟩, ⟨%d6, H6⟩, ⟨%d7, H7⟩⟩
  iapply (body_run1 𝒱₀ c Set.univ (grid4.coords t) ((coord1 t).trans h) _ _ _ _ _ _ _ _ _ _ _ _ _ _ _ _ _ _
    (blockAt c A 0 t) (blockAt c A 1 t) (blockAt c A 2 t) (blockAt c A 3 t) (blockAt c A 4 t) (blockAt c A 5 t) (blockAt c A 6 t)
    (accFirst c A (prev t)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [Hacc]; · iexact Hacc
  iintro ⟨H0, H1, H2, H3, H4, H5, H6, H7, Hacc⟩
  isplitl [HRm Hacc]
  · iapply hjoin
    isplitl [HRm]; · iexact HRm
    iexists _; iexact Hacc
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body at any point t, the eight windows written out; the output window's clause is the rule's own: what the
    window held, where it rests and is not written back; what the body leaves, elsewhere. -/
theorem at_point (𝒱₀ : Variants) (ι : Ix) (c : Dev nD) (A : (w : Fin cfg4.W) → Buf (Elt F) ((cfg4.win w).arr.view.loc (c.tc : Thread nD τ)))
    (q : Fin cfg4.W → PosShare TreeShare) (R Rm : sProp 𝕄) (O : CellTallies nD τ sig Ix) (B : Set (SemLoc sig × Ix))
    (hsplit : R ⊢ iprop(Rm ∗ ∃ d, owns (c : Thread nD τ) accRef fullShare d))
    (hjoin : iprop(Rm ∗ ∃ d, owns (c : Thread nD τ) accRef fullShare d) ⊢ R) (t : Fin cfg4.N) :
    iprop((dat c A q R Rm O B).Φ t.castSucc ∗ (dat c A q R Rm O B).owesAt ι t.castSucc
        ∗ (∃ d, owns (c : Thread nD τ) (st4_0 t) fullShare ((dat c A q R Rm O B).before 0 t d))
        ∗ (∃ d, owns (c : Thread nD τ) (st4_1 t) fullShare ((dat c A q R Rm O B).before 1 t d))
        ∗ (∃ d, owns (c : Thread nD τ) (st4_2 t) fullShare ((dat c A q R Rm O B).before 2 t d))
        ∗ (∃ d, owns (c : Thread nD τ) (st4_3 t) fullShare ((dat c A q R Rm O B).before 3 t d))
        ∗ (∃ d, owns (c : Thread nD τ) (st4_4 t) fullShare ((dat c A q R Rm O B).before 4 t d))
        ∗ (∃ d, owns (c : Thread nD τ) (st4_5 t) fullShare ((dat c A q R Rm O B).before 5 t d))
        ∗ (∃ d, owns (c : Thread nD τ) (st4_6 t) fullShare ((dat c A q R Rm O B).before 6 t d))
        ∗ (∃ d, owns (c : Thread nD τ) (st4_7 t) fullShare ((dat c A q R Rm O B).before 7 t d)))
      ⊢ wp frame (wpE (defs₀ (F := F)) 𝒱₀ c none) Set.univ (bodyAt4 t) fun _ =>
          iprop((dat c A q R Rm O B).Φ t.succ ∗ (dat c A q R Rm O B).owesAt ι t.succ
            ∗ owns (c : Thread nD τ) (st4_0 t) fullShare ((dat c A q R Rm O B).after 0 t)
            ∗ owns (c : Thread nD τ) (st4_1 t) fullShare ((dat c A q R Rm O B).after 1 t)
            ∗ owns (c : Thread nD τ) (st4_2 t) fullShare ((dat c A q R Rm O B).after 2 t)
            ∗ owns (c : Thread nD τ) (st4_3 t) fullShare ((dat c A q R Rm O B).after 3 t)
            ∗ owns (c : Thread nD τ) (st4_4 t) fullShare ((dat c A q R Rm O B).after 4 t)
            ∗ owns (c : Thread nD τ) (st4_5 t) fullShare ((dat c A q R Rm O B).after 5 t)
            ∗ owns (c : Thread nD τ) (st4_6 t) fullShare ((dat c A q R Rm O B).after 6 t)
            ∗ (match cfg4.idle 7 (cfg4.grid.coords t) with
              | true =>
                match (cfg4.win 7).flush t with
                | false => iprop(∃ d, owns (c : Thread nD τ) (st4_7 t) fullShare ((dat c A q R Rm O B).before 7 t d))
                | true => owns (c : Thread nD τ) (st4_7 t) fullShare ((dat c A q R Rm O B).after 7 t)
              | false => owns (c : Thread nD τ) (st4_7 t) fullShare ((dat c A q R Rm O B).after 7 t))) := by
  rcases Nat.mod_two_eq_zero_or_one t.val with h | h
  · have e1 : cfg4.idle 7 (cfg4.grid.coords t) = true := by rw [idle7 t]; exact decide_eq_true h
    have e2 : (cfg4.win 7).flush t = false := by rw [flush7 t]; exact decide_eq_false (by omega)
    rw [e1, e2]
    exact at_even 𝒱₀ ι c A q R Rm O B hsplit t h
  · have e1 : cfg4.idle 7 (cfg4.grid.coords t) = false := by rw [idle7 t]; exact decide_eq_false (by omega)
    rw [e1]
    exact at_odd 𝒱₀ ι c A q R Rm O B hjoin t h

/-- The region rule's hypothesis about the body, at every point of the grid, given that the accumulator can be taken out of
    R and put back. -/
theorem body_obligation (𝒱₀ : Variants) (ι : Ix) (c : Dev nD) (A : (w : Fin cfg4.W) → Buf (Elt F) ((cfg4.win w).arr.view.loc (c.tc : Thread nD τ)))
    (q : Fin cfg4.W → PosShare TreeShare) (R Rm : sProp 𝕄) (O : CellTallies nD τ sig Ix) (B : Set (SemLoc sig × Ix))
    (hsplit : R ⊢ iprop(Rm ∗ ∃ d, owns (c : Thread nD τ) accRef fullShare d))
    (hjoin : iprop(Rm ∗ ∃ d, owns (c : Thread nD τ) accRef fullShare d) ⊢ R) :
    BodyObligation (dat c A q R Rm O B) (defs₀ (F := F)) 𝒱₀ ι Set.univ := fun t => by
  rw [bigSep_W4, bigSep_W4]
  exact at_point 𝒱₀ ι c A q R Rm O B hsplit hjoin t

end Cert.Kernel.Region2B

end
-- ==== Proof.Region2DataK.lean ====
/-
  The first fused region as a segment of @main: its proof data for a segment, read off the valuation the region is
  entered at, meets what a segment asks — the arrays' entry contents are the valuation's, full shares, the tallies and
  the bound of the handshake state at every point, and an invariant that is the scoped rest at every even point, in
  particular at the first and at the last (the accumulator, one of the scoped rest's buffers, is named apart only
  between the two halves of a row of the grid) — and the body's proof is the body file's.
-/
import proofs.«215235_g2774548873965_cont_9to1_572_34_alg».proof.Proof.ScRegionK
import proofs.«215235_g2774548873965_cont_9to1_572_34_alg».proof.Proof.Region2BodyK
import proofs.«215235_g2774548873965_cont_9to1_572_34_alg».proof.Proof.Region1RestK

noncomputable section

namespace Cert.Kernel.Sc

open Cert.Kernel
open Idealize.ShloMosaic Idealize.ShloMosaic.StableHlo Idealize.ShloMosaic.TcCoe
open Idealize.ShloMosaic.SparseCore (S T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F] [∀ e, Nonempty (Elt F e)]

local notation "𝕄" => MT nD τ sig (HIx 4) (Elt F) ℕ UU ℕ

/-- The pipeline this file is about. -/
abbrev pix2 : Fin 6 := 2

/-- The region's arrays at a valuation. -/
def A2 (W : Valuation τ sig (Elt F)) (c : Dev nD) (w : Fin cfg4.W) : Buf (Elt F) ((cfg4.win w).arr.view.loc (c.tc : Thread nD τ)) :=
  valOn W c (Pipeline.arrRef spec4 w)

/-- Its proof data for a segment entered before call n, at a valuation. -/
def dt2 (n : ℕ) (W : Valuation τ sig (Elt F)) (c : Dev nD) : Dat τ (Elt F) (HIx 4) ℕ UU ℕ (Pipeline.pin (pcfgs (F := F)) adm pix2) c :=
  Region2B.dat c (A2 W c) (fun _ => fullShare) (Region1B.rest2 adm c) (Region1B.restNoAcc2 c) ((K (F := F)).Otc c n) (below (F := F) c n)

/-- The grid has an even number of points. -/
theorem N2_even : (Pipeline.pin (pcfgs (F := F)) adm pix2).N % 2 = 0 := by
  show grid4.N % 2 = 0
  rw [Gen.N_4]

/-- What a segment asks of the region's proof data. (The facts about the scoped rest are matched in the proof mode, not by
    unfolding: the accumulator's split and join are restated in the body's own words first.) -/
theorem data2 (n : ℕ) : RegionData (F := F) pix2 n (dt2 n) where
  body W c := by
    have hs : (Region1B.rest2 adm c : sProp 𝕄)
        ⊢ iprop(Region1B.restNoAcc2 c ∗ ∃ d, owns (c : Thread nD τ) Region2B.accRef fullShare d) := by
      with_reducible_and_instances exact Region1B.acc_split2 adm c
    have hj : (iprop(Region1B.restNoAcc2 c ∗ ∃ d, owns (c : Thread nD τ) Region2B.accRef fullShare d) : sProp 𝕄)
        ⊢ Region1B.rest2 adm c := by
      with_reducible_and_instances exact Region1B.acc_join2 adm c
    have hb : Pipeline.BodyObligation (dt2 (F := F) n W c) (defs₀ (F := F)) Variants.none none Set.univ := by
      unfold dt2
      with_reducible_and_instances
        exact Region2B.body_obligation Variants.none none c (A2 W c) (fun _ => fullShare) (Region1B.rest2 adm c) (Region1B.restNoAcc2 c)
          ((K (F := F)).Otc c n) (below (F := F) c n) hs hj
    exact hb.loose
  arrays _ _ _ := rfl
  shares _ _ w := by unfold Pipeline.Dat.share; split <;> rfl
  owed _ _ _ := rfl
  recorded _ _ _ := rfl
  inv_first W c t ht := by
    unfold dt2
    rewrite [Region2B.Phi_even _ _ _ _ _ _ _ t (by omega), Region1B.rest2]
    iintro H; iexact H
  inv_last W c t ht := by
    unfold dt2
    rewrite [Region2B.Phi_even _ _ _ _ _ _ _ t (by rw [ht]; exact N2_even), Region1B.rest2]
    iintro H; iexact H

/-- The region, entered before call n, as a segment of @main. -/
theorem seg_region2_n (n : ℕ) : SegRegion (F := F) pix2 n (Proc.devRef .tc main_v25) := seg_region2_at n _ (data2 n)

/-- Where @main enters it. -/
theorem seg_region2 : SegRegion (F := F) pix2 2 (Proc.devRef .tc main_v25) := seg_region2_n 2

end Cert.Kernel.Sc

end
-- ==== Proof.Region3BodyK.lean ====
/-
  A fused tensor-core region: for 8 neighbour slots j, filt_j = ssp(f_j · W₁ + b₁) · W₂ + b₂ (ssp v = log(½·exp v + ½)),
  times the cutoff-and-mask column of slot j, times the gathered rows of slot j; the eight products added. The grid
  is 8 × 2: point (b, g) stages slots 8g … 8g + 7 of batch b. The region keeps a scratch accumulator across the second
  axis: at g = 0 it is set to the point's sum, at g = 1 the point's sum is added to it and the result is copied to the
  staged output block, which is written back to rows 1024·b … of the output array.

  At a point the body reads seven staged inputs (the filters' inputs f [1,50,8,1024], the gathered rows [8192,128], the
  cutoff-and-mask columns [1,8,1024], W₁ [50,128], b₁ [1,128], W₂ [128,128], b₂ [1,128]); it leaves them unchanged.
  What it leaves in the accumulator and in the output block is written out below as pure terms of the staged inputs.
-/
import proofs.«215235_g2774548873965_cont_9to1_572_34_alg».proof.Kernel
import proofs.«215235_g2774548873965_cont_9to1_572_34_alg».proof.Proof.Gen.Kernel
import proofs.«215235_g2774548873965_cont_9to1_572_34_alg».proof.Proof.Gen.Kernel.Skeleton
import proofs.«215235_g2774548873965_cont_9to1_572_34_alg».proof.Proof.Gen.Kernel.Launch
import proofs.«215235_g2774548873965_cont_9to1_572_34_alg».proof.Proof.Gen.Kernel.Points
import Idealize.ShloMosaic.Lib.Pipeline.FrameBody
import Idealize.ShloMosaic.Lib.Tactic

noncomputable section

namespace Cert.Kernel.Region3B

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The rectangles the body names -/

/-- All of a [1024,128] buffer: the accumulator, the staged output block. -/
abbrev rBig : Rect S1024x128 := Rect.unit (s := S1024x128) ![0, 0] S1024x128.size inb_S1024x128_S1024x128_0_0
abbrev rW1 : Rect S50x128 := Rect.unit (s := S50x128) ![0, 0] S50x128.size inb_S50x128_S50x128_0_0
abbrev rRow : Rect S1x128 := Rect.unit (s := S1x128) ![0, 0] S1x128.size inb_S1x128_S1x128_0_0
abbrev rSq : Rect S128x128 := Rect.unit (s := S128x128) ![0, 0] S128x128.size inb_S128x128_S128x128_0_0
abbrev rCut : Rect S1x8x1024 := Rect.unit (s := S1x8x1024) ![0, 0, 0] S1x8x1024.size inb_S1x8x1024_S1x8x1024_0_0_0
/-- Slot j of the staged filter inputs. -/
abbrev rF0 : Rect S1x50x8x1024 := Rect.unit (s := S1x50x8x1024) ![0, 0, 0, 0] S1x50x1x1024.size inb_S1x50x8x1024_S1x50x1x1024_0_0_0_0
abbrev rF1 : Rect S1x50x8x1024 := Rect.unit (s := S1x50x8x1024) ![0, 0, 1, 0] S1x50x1x1024.size inb_S1x50x8x1024_S1x50x1x1024_0_0_1_0
abbrev rF2 : Rect S1x50x8x1024 := Rect.unit (s := S1x50x8x1024) ![0, 0, 2, 0] S1x50x1x1024.size inb_S1x50x8x1024_S1x50x1x1024_0_0_2_0
abbrev rF3 : Rect S1x50x8x1024 := Rect.unit (s := S1x50x8x1024) ![0, 0, 3, 0] S1x50x1x1024.size inb_S1x50x8x1024_S1x50x1x1024_0_0_3_0
abbrev rF4 : Rect S1x50x8x1024 := Rect.unit (s := S1x50x8x1024) ![0, 0, 4, 0] S1x50x1x1024.size inb_S1x50x8x1024_S1x50x1x1024_0_0_4_0
abbrev rF5 : Rect S1x50x8x1024 := Rect.unit (s := S1x50x8x1024) ![0, 0, 5, 0] S1x50x1x1024.size inb_S1x50x8x1024_S1x50x1x1024_0_0_5_0
abbrev rF6 : Rect S1x50x8x1024 := Rect.unit (s := S1x50x8x1024) ![0, 0, 6, 0] S1x50x1x1024.size inb_S1x50x8x1024_S1x50x1x1024_0_0_6_0
abbrev rF7 : Rect S1x50x8x1024 := Rect.unit (s := S1x50x8x1024) ![0, 0, 7, 0] S1x50x1x1024.size inb_S1x50x8x1024_S1x50x1x1024_0_0_7_0
/-- Slot j of the staged gathered rows: rows 1024·j … 1024·j + 1023. -/
abbrev rG0 : Rect S8192x128 := Rect.unit (s := S8192x128) ![0, 0] S1024x128.size inb_S8192x128_S1024x128_0_0
abbrev rG1 : Rect S8192x128 := Rect.unit (s := S8192x128) ![1024, 0] S1024x128.size inb_S8192x128_S1024x128_1024_0
abbrev rG2 : Rect S8192x128 := Rect.unit (s := S8192x128) ![2048, 0] S1024x128.size inb_S8192x128_S1024x128_2048_0
abbrev rG3 : Rect S8192x128 := Rect.unit (s := S8192x128) ![3072, 0] S1024x128.size inb_S8192x128_S1024x128_3072_0
abbrev rG4 : Rect S8192x128 := Rect.unit (s := S8192x128) ![4096, 0] S1024x128.size inb_S8192x128_S1024x128_4096_0
abbrev rG5 : Rect S8192x128 := Rect.unit (s := S8192x128) ![5120, 0] S1024x128.size inb_S8192x128_S1024x128_5120_0
abbrev rG6 : Rect S8192x128 := Rect.unit (s := S8192x128) ![6144, 0] S1024x128.size inb_S8192x128_S1024x128_6144_0
abbrev rG7 : Rect S8192x128 := Rect.unit (s := S8192x128) ![7168, 0] S1024x128.size inb_S8192x128_S1024x128_7168_0

/-! ## The point's sum, as the body computes it -/

/-- The seven staged inputs of a point. -/
structure Ins (F : FTy → Type) where
  f : Vec F S1x50x8x1024 .f32
  g : Vec F S8192x128 .f32
  cut : Vec F S1x8x1024 .f32
  w1 : Vec F S50x128 .f32
  b1 : Vec F S1x128 .f32
  w2 : Vec F S128x128 .f32
  b2 : Vec F S1x128 .f32

/-- The running sum after slots 0 … 6, the last slot's filter and its column, in the order the body computes them:
    each line is one of the body's named values over what was read before it. -/
def upto6 (x : Ins F) : FVec F S1024x128 .f32 × FVec F S1024x128 .f32 × FVec F S1024x128 .f32 :=
  let cw := View.ld x.cut rCut
  let w1 := View.ld x.w1 rW1
  let b1 := View.ld x.b1 rRow
  let w2 := View.ld x.w2 rSq
  let b2 := View.ld x.b2 rRow
  let v2 := k6_pay4 cw
  let v28 := k6_pay5 cw (View.ld x.f rF0) w1 b1 w2 b2 (View.ld x.g rG0)
  let v30 := k6_pay6 (View.ld x.f rF1)
  let v55 := k6_pay7 v2 v28 v30 w1 b1 w2 b2 (View.ld x.g rG1)
  let v66 := k6_pay8 (View.ld x.f rF2) w1 b1
  let v82 := k6_pay10 v2 v55 v66 (k6_pay9 (F := F)) w2 b2 (View.ld x.g rG2)
  let v102 := k6_pay11 (View.ld x.f rF3) w1 b1 w2 b2
  let v136 := k6_pay13 v2 v82 v102 (k6_pay12 v2) (View.ld x.g rG3) (View.ld x.f rF4) w1 b1 w2 b2 (View.ld x.g rG4)
  let v138 := k6_pay14 (View.ld x.f rF5)
  let v163 := k6_pay15 v2 v136 v138 w1 b1 w2 b2 (View.ld x.g rG5)
  let v174 := k6_pay16 (View.ld x.f rF6) w1 b1
  let v190 := k6_pay18 v2 v163 v174 (k6_pay17 (F := F)) w2 b2 (View.ld x.g rG6)
  (v190, k6_pay19 (View.ld x.f rF7) w1 b1 w2 b2, k6_pay20 v2)

/-- What the first point of a pair stores in the accumulator. -/
def first (x : Ins F) : FVec F S1024x128 .f32 :=
  k6_pay2 (upto6 x).1 (upto6 x).2.1 (upto6 x).2.2 (View.ld x.g rG7)

/-- What the second point of a pair stores in the accumulator, the accumulator read as acc. -/
def second (x : Ins F) (acc : Vec F S1024x128 .f32) : FVec F S1024x128 .f32 :=
  k6_pay3 (upto6 x).1 (upto6 x).2.1 (upto6 x).2.2 (View.ld x.g rG7) acc

/-- A whole [1024,128] buffer overwritten by one store of p. -/
def whole (p : FVec F S1024x128 .f32) : Vec F S1024x128 .f32 := View.canon [⟨rBig, p⟩]

theorem whole_covers (p : Vec F S1024x128 .f32) (y : S1024x128.Idx) :
    ∃ pc ∈ ([⟨rBig, p⟩] : List (View.Piece (Elt F) S1024x128 .f32)), y ∈ pc.1.set :=
  View.cover_of_tiled [⟨rBig, p⟩] S1024x128.size (by rfl) y

/-! ## The body at the first point of a pair -/

set_option maxHeartbeats 4000000 in
/-- At a point whose second coordinate is 0 the body, called on whole buffers holding the seven inputs, an output block
    and an accumulator, returns the inputs and the output block as they were and the accumulator at the point's sum. -/
theorem body_run0 (𝒱₀ : Variants) (c : Dev nD) (E : Set Name) (i : grid6.Coords) (hi : (i 1).val = 0)
    (a2 : Memref sig .tc .vmem S1x50x8x1024 .f32) (g2 : a2.IsWhole) (a3 : Memref sig .tc .vmem S8192x128 .f32) (g3 : a3.IsWhole)
    (a4 : Memref sig .tc .vmem S1x8x1024 .f32) (g4 : a4.IsWhole) (a5 : Memref sig .tc .vmem S50x128 .f32) (g5 : a5.IsWhole)
    (a6 : Memref sig .tc .vmem S1x128 .f32) (g6 : a6.IsWhole) (a7 : Memref sig .tc .vmem S128x128 .f32) (g7 : a7.IsWhole)
    (a8 : Memref sig .tc .vmem S1x128 .f32) (g8 : a8.IsWhole) (a9 : Memref sig .tc .vmem S1024x128 .f32) (g9 : a9.IsWhole)
    (a10 : Memref sig .tc .vmem S1024x128 .f32) (g10 : a10.IsWhole)
    (xf : Vec F S1x50x8x1024 .f32) (xg : Vec F S8192x128 .f32) (xc : Vec F S1x8x1024 .f32) (xw1 : Vec F S50x128 .f32)
    (xb1 : Vec F S1x128 .f32) (xw2 : Vec F S128x128 .f32) (xb2 : Vec F S1x128 .f32) (o : Vec F S1024x128 .f32) (K : PUnit → sProp 𝕄) :
    iprop(owns (c : Thread nD τ) a2 fullShare xf ∗ owns (c : Thread nD τ) a3 fullShare xg ∗ owns (c : Thread nD τ) a4 fullShare xc
        ∗ owns (c : Thread nD τ) a5 fullShare xw1 ∗ owns (c : Thread nD τ) a6 fullShare xb1 ∗ owns (c : Thread nD τ) a7 fullShare xw2
        ∗ owns (c : Thread nD τ) a8 fullShare xb2
        ∗ owns (c : Thread nD τ) a9 fullShare o ∗ (∃ d, owns (c : Thread nD τ) a10 fullShare d)
        ∗ (iprop(owns (c : Thread nD τ) a2 fullShare xf ∗ owns (c : Thread nD τ) a3 fullShare xg ∗ owns (c : Thread nD τ) a4 fullShare xc
        ∗ owns (c : Thread nD τ) a5 fullShare xw1 ∗ owns (c : Thread nD τ) a6 fullShare xb1 ∗ owns (c : Thread nD τ) a7 fullShare xw2
        ∗ owns (c : Thread nD τ) a8 fullShare xb2
              ∗ owns (c : Thread nD τ) a9 fullShare o
              ∗ owns (c : Thread nD τ) a10 fullShare (whole (first ⟨xf, xg, xc, xw1, xb1, xw2, xb2⟩))) -∗ K ⟨⟩))
      ⊢ wp frame (wpE (defs₀ (F := F)) 𝒱₀ c none) E
          (cc6__fused_kernel i a2 g2 a3 g3 a4 g4 a5 g5 a6 g6 a7 g7 a8 g8 a9 g9 a10 g10) K := by
  have h1 : Scalar.cmpi .ne (Scalar.extui (Scalar.cmpi .eq (BitVec.ofNat 32 (i 1).val) 0#32)) 0#32 = 1#1 := by rw [hi]; decide
  have h2 : ¬ Scalar.cmpi .ne (Scalar.extui (Scalar.cmpi .sgt (BitVec.ofNat 32 (i 1).val) 0#32)) 0#32 = 1#1 := by rw [hi]; decide
  have h3 : ¬ k6_cond3 i = 1#1 := by unfold k6_cond3; rw [hi]; decide
  sl_unfold [cc6__fused_kernel]
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩,
    ⟨%f9, %e9, H9⟩, ⟨%d10, %f10, -, H10⟩, Hk⟩
  subst e2 e3 e4 e5 e6 e7 e8 e9
  -- the loads, the sum (pure), the accumulator's overwrite; the other two cases are not taken
  sl_exec
  sl_step
  iapply Hk
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists f7; isplitr
    · ipureintro; rfl
    · iexact H7
  isplitl [H8]
  · iexists f8; isplitr
    · ipureintro; rfl
    · iexact H8
  isplitl [H9]
  · iexists f9; isplitr
    · ipureintro; rfl
    · iexact H9
  iexists _
  isplitr
  rotate_left
  · iexact H10
  · ipureintro
    exact View.read_writes_eq_canon _ _ _ (whole_covers (F := F) _)

set_option maxHeartbeats 4000000 in
/-- At a point whose second coordinate is 1 the body, called on whole buffers holding the seven inputs, an output block
    and the accumulator at acc, returns the inputs as they were the accumulator at acc plus the point's sum, and the
    output block at the accumulator's new contents read back whole. -/
theorem body_run1 (𝒱₀ : Variants) (c : Dev nD) (E : Set Name) (i : grid6.Coords) (hi : (i 1).val = 1)
    (a2 : Memref sig .tc .vmem S1x50x8x1024 .f32) (g2 : a2.IsWhole) (a3 : Memref sig .tc .vmem S8192x128 .f32) (g3 : a3.IsWhole)
    (a4 : Memref sig .tc .vmem S1x8x1024 .f32) (g4 : a4.IsWhole) (a5 : Memref sig .tc .vmem S50x128 .f32) (g5 : a5.IsWhole)
    (a6 : Memref sig .tc .vmem S1x128 .f32) (g6 : a6.IsWhole) (a7 : Memref sig .tc .vmem S128x128 .f32) (g7 : a7.IsWhole)
    (a8 : Memref sig .tc .vmem S1x128 .f32) (g8 : a8.IsWhole) (a9 : Memref sig .tc .vmem S1024x128 .f32) (g9 : a9.IsWhole)
    (a10 : Memref sig .tc .vmem S1024x128 .f32) (g10 : a10.IsWhole)
    (xf : Vec F S1x50x8x1024 .f32) (xg : Vec F S8192x128 .f32) (xc : Vec F S1x8x1024 .f32) (xw1 : Vec F S50x128 .f32)
    (xb1 : Vec F S1x128 .f32) (xw2 : Vec F S128x128 .f32) (xb2 : Vec F S1x128 .f32) (acc : Vec F S1024x128 .f32) (K : PUnit → sProp 𝕄) :
    iprop(owns (c : Thread nD τ) a2 fullShare xf ∗ owns (c : Thread nD τ) a3 fullShare xg ∗ owns (c : Thread nD τ) a4 fullShare xc
        ∗ owns (c : Thread nD τ) a5 fullShare xw1 ∗ owns (c : Thread nD τ) a6 fullShare xb1 ∗ owns (c : Thread nD τ) a7 fullShare xw2
        ∗ owns (c : Thread nD τ) a8 fullShare xb2
        ∗ (∃ d, owns (c : Thread nD τ) a9 fullShare d) ∗ owns (c : Thread nD τ) a10 fullShare acc
        ∗ (iprop(owns (c : Thread nD τ) a2 fullShare xf ∗ owns (c : Thread nD τ) a3 fullShare xg ∗ owns (c : Thread nD τ) a4 fullShare xc
        ∗ owns (c : Thread nD τ) a5 fullShare xw1 ∗ owns (c : Thread nD τ) a6 fullShare xb1 ∗ owns (c : Thread nD τ) a7 fullShare xw2
        ∗ owns (c : Thread nD τ) a8 fullShare xb2
              ∗ owns (c : Thread nD τ) a9 fullShare (whole (View.ld (whole (second ⟨xf, xg, xc, xw1, xb1, xw2, xb2⟩ (View.ld acc rBig))) rBig))
              ∗ owns (c : Thread nD τ) a10 fullShare (whole (second ⟨xf, xg, xc, xw1, xb1, xw2, xb2⟩ (View.ld acc rBig)))) -∗ K ⟨⟩))
      ⊢ wp frame (wpE (defs₀ (F := F)) 𝒱₀ c none) E
          (cc6__fused_kernel i a2 g2 a3 g3 a4 g4 a5 g5 a6 g6 a7 g7 a8 g8 a9 g9 a10 g10) K := by
  have h1 : ¬ Scalar.cmpi .ne (Scalar.extui (Scalar.cmpi .eq (BitVec.ofNat 32 (i 1).val) 0#32)) 0#32 = 1#1 := by rw [hi]; decide
  have h2 : Scalar.cmpi .ne (Scalar.extui (Scalar.cmpi .sgt (BitVec.ofNat 32 (i 1).val) 0#32)) 0#32 = 1#1 := by rw [hi]; decide
  have h3 : k6_cond3 i = 1#1 := by unfold k6_cond3; rw [hi]; decide
  sl_unfold [cc6__fused_kernel]
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩,
    ⟨%d9, %f9, -, H9⟩, ⟨%f10, %e10, H10⟩, Hk⟩
  subst e2 e3 e4 e5 e6 e7 e8 e10
  -- the loads, the sum (pure), the accumulator read, added to and overwritten, then copied to the output block
  sl_exec
  sl_step
  iapply Hk
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists f7; isplitr
    · ipureintro; rfl
    · iexact H7
  isplitl [H8]
  · iexists f8; isplitr
    · ipureintro; rfl
    · iexact H8
  isplitl [H9]
  · iexists _
    isplitr
    rotate_left
    · iexact H9
    · ipureintro
      -- the output block's one store is of the accumulator read back, whole, after its own overwrite
      rw [View.read_writes_eq_canon _ _ _ (whole_covers (F := F) _)]
      exact congrArg (fun p => View.canon [(⟨rBig, p⟩ : View.Piece (Elt F) S1024x128 .f32)])
        (View.readCov_eq_canon_ld _ _ rBig (whole_covers (F := F) _))
  iexists _
  isplitr
  rotate_left
  · iexact H10
  · ipureintro
    exact View.read_writes_eq_canon _ _ _ (whole_covers (F := F) _)

/-! ## The proof data -/

/-- Window w's block at point t, read off the array's contents at the region's entry. -/
def blockAt (c : Dev nD) (A : (w : Fin cfg6.W) → Buf (Elt F) ((cfg6.win w).arr.view.loc (c.tc : Thread nD τ)))
    (w : Fin cfg6.W) (t : Fin cfg6.N) : ((cfg6.win w).xblock (cfg6.grid.coords t)).Idx → Elt F (cfg6.win w).elt :=
  ((cfg6.win w).blk t).view.read (Elt F) (A w)

/-- The seven staged inputs of point t. -/
def insAt (c : Dev nD) (A : (w : Fin cfg6.W) → Buf (Elt F) ((cfg6.win w).arr.view.loc (c.tc : Thread nD τ))) (t : Fin cfg6.N) : Ins F :=
  ⟨blockAt c A 0 t, blockAt c A 1 t, blockAt c A 2 t, blockAt c A 3 t, blockAt c A 4 t, blockAt c A 5 t, blockAt c A 6 t⟩

/-- The point before t (t itself at the first point, where it is not used). -/
def prev (t : Fin cfg6.N) : Fin cfg6.N := ⟨t.val - 1, Nat.lt_of_le_of_lt (Nat.sub_le _ _) t.isLt⟩

/-- The accumulator after the first point of a pair: that point's sum. -/
def accFirst (c : Dev nD) (A : (w : Fin cfg6.W) → Buf (Elt F) ((cfg6.win w).arr.view.loc (c.tc : Thread nD τ))) (t : Fin cfg6.N) :
    Vec F S1024x128 .f32 := whole (first (insAt c A t))

/-- The accumulator after the second point t of a pair: the first point's sum plus this point's. -/
def accSecond (c : Dev nD) (A : (w : Fin cfg6.W) → Buf (Elt F) ((cfg6.win w).arr.view.loc (c.tc : Thread nD τ))) (t : Fin cfg6.N) :
    Vec F S1024x128 .f32 := whole (second (insAt c A t) (View.ld (accFirst c A (prev t)) rBig))

/-- The accumulator, as a whole buffer of the core. -/
abbrev accRef : Memref sig .tc .vmem S1024x128 .f32 := Memref.whole cc6_scratch0

/-- The region's proof data on core c: entry contents A of the eight arrays, shares q, the tallies O and the bound B as
    they are throughout. The invariant is R before the first point of a pair (R: what the core holds besides the
    windows, the accumulator among it at contents nobody names) and, between the two points of a pair, Rm (the same
    without the accumulator) with the accumulator at the first point's sum. The body leaves each input at its block;
    at the second point of a pair it leaves the output block at the accumulator read back. -/
def dat (c : Dev nD) (A : (w : Fin cfg6.W) → Buf (Elt F) ((cfg6.win w).arr.view.loc (c.tc : Thread nD τ)))
    (q : Fin cfg6.W → PosShare TreeShare) (R Rm : sProp 𝕄) (O : CellTallies nD τ sig Ix) (B : Set (SemLoc sig × Ix)) :
    Dat τ (Elt F) Ix Name U Lvl cfg6 c where
  A := A
  after w t := match w with
    | ⟨0, _⟩ => blockAt c A 0 t
    | ⟨1, _⟩ => blockAt c A 1 t
    | ⟨2, _⟩ => blockAt c A 2 t
    | ⟨3, _⟩ => blockAt c A 3 t
    | ⟨4, _⟩ => blockAt c A 4 t
    | ⟨5, _⟩ => blockAt c A 5 t
    | ⟨6, _⟩ => blockAt c A 6 t
    | ⟨7, _⟩ => whole (View.ld (accSecond c A t) rBig)
  Φ t := if h : t.val % 2 = 1 then
      iprop(Rm ∗ owns (c : Thread nD τ) accRef fullShare (accFirst c A ⟨t.val - 1, by have := t.isLt; omega⟩))
    else R
  q := q
  owed _ := O
  recorded _ := B

/-! ## What the proof data says -/

/-- The second grid coordinate of point t is t modulo 2. -/
theorem coord1 : ∀ t : Fin grid6.N, ((grid6.coords t) 1).val = t.val % 2 := by decide +kernel

/-- The output window rests (is neither stored to nor written back) exactly at the first point of a pair. -/
theorem idle7 : ∀ t : Fin grid6.N, cfg6.idle 7 (cfg6.grid.coords t) = decide (t.val % 2 = 0) := by decide +kernel
theorem flush7 : ∀ t : Fin grid6.N, (cfg6.win 7).flush t = decide (t.val % 2 = 1) := by decide +kernel

section Facts

variable (c : Dev nD) (A : (w : Fin cfg6.W) → Buf (Elt F) ((cfg6.win w).arr.view.loc (c.tc : Thread nD τ)))
  (q : Fin cfg6.W → PosShare TreeShare) (O : CellTallies nD τ sig Ix) (B : Set (SemLoc sig × Ix))

theorem after_in0 (R Rm : sProp 𝕄) (t : Fin cfg6.N) : (dat (Name := Name) (Lvl := Lvl) c A q R Rm O B).after 0 t = blockAt c A 0 t := by dsimp only [dat]
theorem after_in1 (R Rm : sProp 𝕄) (t : Fin cfg6.N) : (dat (Name := Name) (Lvl := Lvl) c A q R Rm O B).after 1 t = blockAt c A 1 t := by dsimp only [dat]
theorem after_in2 (R Rm : sProp 𝕄) (t : Fin cfg6.N) : (dat (Name := Name) (Lvl := Lvl) c A q R Rm O B).after 2 t = blockAt c A 2 t := by dsimp only [dat]
theorem after_in3 (R Rm : sProp 𝕄) (t : Fin cfg6.N) : (dat (Name := Name) (Lvl := Lvl) c A q R Rm O B).after 3 t = blockAt c A 3 t := by dsimp only [dat]
theorem after_in4 (R Rm : sProp 𝕄) (t : Fin cfg6.N) : (dat (Name := Name) (Lvl := Lvl) c A q R Rm O B).after 4 t = blockAt c A 4 t := by dsimp only [dat]
theorem after_in5 (R Rm : sProp 𝕄) (t : Fin cfg6.N) : (dat (Name := Name) (Lvl := Lvl) c A q R Rm O B).after 5 t = blockAt c A 5 t := by dsimp only [dat]
theorem after_in6 (R Rm : sProp 𝕄) (t : Fin cfg6.N) : (dat (Name := Name) (Lvl := Lvl) c A q R Rm O B).after 6 t = blockAt c A 6 t := by dsimp only [dat]
theorem after_out (R Rm : sProp 𝕄) (t : Fin cfg6.N) : (dat (Name := Name) (Lvl := Lvl) c A q R Rm O B).after 7 t = whole (View.ld (accSecond c A t) rBig) := by dsimp only [dat]

theorem before_in0 (R Rm : sProp 𝕄) (t : Fin cfg6.N) (d) : (dat (Name := Name) (Lvl := Lvl) c A q R Rm O B).before 0 t d = blockAt c A 0 t :=
  ((dat (Name := Name) (Lvl := Lvl) c A q R Rm O B).before_in_eq_fetched 0 rfl (fun _ => rfl) (fun _ _ _ => rfl) (fun u => by rw [after_in0]; rfl) t d).trans rfl
theorem before_in1 (R Rm : sProp 𝕄) (t : Fin cfg6.N) (d) : (dat (Name := Name) (Lvl := Lvl) c A q R Rm O B).before 1 t d = blockAt c A 1 t :=
  ((dat (Name := Name) (Lvl := Lvl) c A q R Rm O B).before_in_eq_fetched 1 rfl (fun _ => rfl) (fun _ _ _ => rfl) (fun u => by rw [after_in1]; rfl) t d).trans rfl
theorem before_in2 (R Rm : sProp 𝕄) (t : Fin cfg6.N) (d) : (dat (Name := Name) (Lvl := Lvl) c A q R Rm O B).before 2 t d = blockAt c A 2 t :=
  ((dat (Name := Name) (Lvl := Lvl) c A q R Rm O B).before_in_eq_fetched 2 rfl (fun _ => rfl) (fun _ _ _ => rfl) (fun u => by rw [after_in2]; rfl) t d).trans rfl
theorem before_in3 (R Rm : sProp 𝕄) (t : Fin cfg6.N) (d) : (dat (Name := Name) (Lvl := Lvl) c A q R Rm O B).before 3 t d = blockAt c A 3 t :=
  ((dat (Name := Name) (Lvl := Lvl) c A q R Rm O B).before_in_eq_fetched 3 rfl (fun _ => rfl) (fun _ _ _ => rfl) (fun u => by rw [after_in3]; rfl) t d).trans rfl
theorem before_in4 (R Rm : sProp 𝕄) (t : Fin cfg6.N) (d) : (dat (Name := Name) (Lvl := Lvl) c A q R Rm O B).before 4 t d = blockAt c A 4 t :=
  ((dat (Name := Name) (Lvl := Lvl) c A q R Rm O B).before_in_eq_fetched 4 rfl (fun _ => rfl) (fun _ _ _ => rfl) (fun u => by rw [after_in4]; rfl) t d).trans rfl
theorem before_in5 (R Rm : sProp 𝕄) (t : Fin cfg6.N) (d) : (dat (Name := Name) (Lvl := Lvl) c A q R Rm O B).before 5 t d = blockAt c A 5 t :=
  ((dat (Name := Name) (Lvl := Lvl) c A q R Rm O B).before_in_eq_fetched 5 rfl (fun _ => rfl) (fun _ _ _ => rfl) (fun u => by rw [after_in5]; rfl) t d).trans rfl
theorem before_in6 (R Rm : sProp 𝕄) (t : Fin cfg6.N) (d) : (dat (Name := Name) (Lvl := Lvl) c A q R Rm O B).before 6 t d = blockAt c A 6 t :=
  ((dat (Name := Name) (Lvl := Lvl) c A q R Rm O B).before_in_eq_fetched 6 rfl (fun _ => rfl) (fun _ _ _ => rfl) (fun u => by rw [after_in6]; rfl) t d).trans rfl

/-- Before the first point of a pair the invariant is R; -/
theorem inv_first (R Rm : sProp 𝕄) (t : Fin cfg6.N) (h : t.val % 2 = 0) : (dat (Name := Name) (Lvl := Lvl) c A q R Rm O B).Φ t.castSucc = R := by
  have h' : ¬ (t.castSucc : Fin (cfg6.N + 1)).val % 2 = 1 := by rw [Fin.val_castSucc]; omega
  dsimp only [dat]
  rw [dif_neg h']

/-- after it, Rm and the accumulator at the point's sum; -/
theorem inv_mid (R Rm : sProp 𝕄) (t : Fin cfg6.N) (h : t.val % 2 = 0) :
    (dat (Name := Name) (Lvl := Lvl) c A q R Rm O B).Φ t.succ = iprop(Rm ∗ owns (c : Thread nD τ) accRef fullShare (accFirst c A t)) := by
  have h' : (t.succ : Fin (cfg6.N + 1)).val % 2 = 1 := by rw [Fin.val_succ]; omega
  dsimp only [dat]
  rw [dif_pos h']
  rfl

/-- the same before the second point of a pair, -/
theorem inv_mid' (R Rm : sProp 𝕄) (t : Fin cfg6.N) (h : t.val % 2 = 1) :
    (dat (Name := Name) (Lvl := Lvl) c A q R Rm O B).Φ t.castSucc = iprop(Rm ∗ owns (c : Thread nD τ) accRef fullShare (accFirst c A (prev t))) := by
  have h' : (t.castSucc : Fin (cfg6.N + 1)).val % 2 = 1 := by rw [Fin.val_castSucc]; exact h
  dsimp only [dat]
  rw [dif_pos h']
  rfl

/-- and R again after it. -/
theorem inv_last (R Rm : sProp 𝕄) (t : Fin cfg6.N) (h : t.val % 2 = 1) : (dat (Name := Name) (Lvl := Lvl) c A q R Rm O B).Φ t.succ = R := by
  have h' : ¬ (t.succ : Fin (cfg6.N + 1)).val % 2 = 1 := by rw [Fin.val_succ]; omega
  dsimp only [dat]
  rw [dif_neg h']

/-- At an even position (before the first point of a pair, after the second, at the region's two ends) the invariant
    is R, -/
theorem Phi_even (R Rm : sProp 𝕄) (t : Fin (cfg6.N + 1)) (ht : t.val % 2 = 0) : (dat (Name := Name) (Lvl := Lvl) c A q R Rm O B).Φ t = R := by
  have h' : ¬ t.val % 2 = 1 := by omega
  dsimp only [dat]
  rw [dif_neg h']

/-- at an odd one, Rm with the accumulator at the sum of the point just run. -/
theorem Phi_odd (R Rm : sProp 𝕄) (t : Fin (cfg6.N + 1)) (ht : t.val % 2 = 1) :
    (dat (Name := Name) (Lvl := Lvl) c A q R Rm O B).Φ t = iprop(Rm ∗ owns (c : Thread nD τ) accRef fullShare (accFirst c A ⟨t.val - 1, by have := t.isLt; omega⟩)) := by
  dsimp only [dat]
  rw [dif_pos ht]

theorem A_eq (R Rm : sProp 𝕄) : (dat (Name := Name) (Lvl := Lvl) c A q R Rm O B).A = A := rfl
theorem q_eq (R Rm : sProp 𝕄) : (dat (Name := Name) (Lvl := Lvl) c A q R Rm O B).q = q := rfl
theorem owed_eq (R Rm : sProp 𝕄) (t : Fin (cfg6.N + 1)) : (dat (Name := Name) (Lvl := Lvl) c A q R Rm O B).owed t = O := rfl
theorem recorded_eq (R Rm : sProp 𝕄) (t : Fin (cfg6.N + 1)) : (dat (Name := Name) (Lvl := Lvl) c A q R Rm O B).recorded t = B := rfl

end Facts

/-! ## The obligation -/

/-- The body at the first point t of a pair: the accumulator is taken out of R, set to the point's sum, and kept with Rm;
    the output block is not touched. -/
theorem at_even (𝒱₀ : Variants) (ι : Ix) (c : Dev nD) (A : (w : Fin cfg6.W) → Buf (Elt F) ((cfg6.win w).arr.view.loc (c.tc : Thread nD τ)))
    (q : Fin cfg6.W → PosShare TreeShare) (R Rm : sProp 𝕄) (O : CellTallies nD τ sig Ix) (B : Set (SemLoc sig × Ix))
    (hsplit : R ⊢ iprop(Rm ∗ ∃ d, owns (c : Thread nD τ) accRef fullShare d)) (t : Fin cfg6.N) (h : t.val % 2 = 0) :
    iprop((dat c A q R Rm O B).Φ t.castSucc ∗ (dat c A q R Rm O B).owesAt ι t.castSucc
        ∗ (∃ d, owns (c : Thread nD τ) (st6_0 t) fullShare ((dat c A q R Rm O B).before 0 t d))
        ∗ (∃ d, owns (c : Thread nD τ) (st6_1 t) fullShare ((dat c A q R Rm O B).before 1 t d))
        ∗ (∃ d, owns (c : Thread nD τ) (st6_2 t) fullShare ((dat c A q R Rm O B).before 2 t d))
        ∗ (∃ d, owns (c : Thread nD τ) (st6_3 t) fullShare ((dat c A q R Rm O B).before 3 t d))
        ∗ (∃ d, owns (c : Thread nD τ) (st6_4 t) fullShare ((dat c A q R Rm O B).before 4 t d))
        ∗ (∃ d, owns (c : Thread nD τ) (st6_5 t) fullShare ((dat c A q R Rm O B).before 5 t d))
        ∗ (∃ d, owns (c : Thread nD τ) (st6_6 t) fullShare ((dat c A q R Rm O B).before 6 t d))
        ∗ (∃ d, owns (c : Thread nD τ) (st6_7 t) fullShare ((dat c A q R Rm O B).before 7 t d)))
      ⊢ wp frame (wpE (defs₀ (F := F)) 𝒱₀ c none) Set.univ (bodyAt6 t) fun _ =>
          iprop((dat c A q R Rm O B).Φ t.succ ∗ (dat c A q R Rm O B).owesAt ι t.succ
            ∗ owns (c : Thread nD τ) (st6_0 t) fullShare ((dat c A q R Rm O B).after 0 t)
            ∗ owns (c : Thread nD τ) (st6_1 t) fullShare ((dat c A q R Rm O B).after 1 t)
            ∗ owns (c : Thread nD τ) (st6_2 t) fullShare ((dat c A q R Rm O B).after 2 t)
            ∗ owns (c : Thread nD τ) (st6_3 t) fullShare ((dat c A q R Rm O B).after 3 t)
            ∗ owns (c : Thread nD τ) (st6_4 t) fullShare ((dat c A q R Rm O B).after 4 t)
            ∗ owns (c : Thread nD τ) (st6_5 t) fullShare ((dat c A q R Rm O B).after 5 t)
            ∗ owns (c : Thread nD τ) (st6_6 t) fullShare ((dat c A q R Rm O B).after 6 t)
            ∗ (∃ d, owns (c : Thread nD τ) (st6_7 t) fullShare ((dat c A q R Rm O B).before 7 t d))) := by
  simp only [before_in0, before_in1, before_in2, before_in3, before_in4, before_in5, before_in6]
  rw [inv_first c A q O B R Rm t h, inv_mid c A q O B R Rm t h,
    show (dat c A q R Rm O B).owesAt ι t.succ = (dat c A q R Rm O B).owesAt ι t.castSucc from rfl,
    after_in0, after_in1, after_in2, after_in3, after_in4, after_in5, after_in6]
  iintro ⟨HR, HO, ⟨%d0, H0⟩, ⟨%d1, H1⟩, ⟨%d2, H2⟩, ⟨%d3, H3⟩, ⟨%d4, H4⟩, ⟨%d5, H5⟩, ⟨%d6, H6⟩, ⟨%d7, H7⟩⟩
  ihave HR' := hsplit $$ HR
  icases HR' with ⟨HRm, Hacc⟩
  iapply (body_run0 𝒱₀ c Set.univ (grid6.coords t) ((coord1 t).trans h) _ _ _ _ _ _ _ _ _ _ _ _ _ _ _ _ _ _
    (blockAt c A 0 t) (blockAt c A 1 t) (blockAt c A 2 t) (blockAt c A 3 t) (blockAt c A 4 t) (blockAt c A 5 t) (blockAt c A 6 t)
    ((dat c A q R Rm O B).before 7 t d7) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hacc]; · iexact Hacc
  iintro ⟨H0, H1, H2, H3, H4, H5, H6, H7, Hacc⟩
  isplitl [HRm Hacc]
  · isplitl [HRm]; · iexact HRm
    iexact Hacc
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexists d7; iexact H7

/-- The body at the second point t of a pair: the accumulator, at the first point's sum, gets this point's sum added
    and is copied to the output block; it goes back into R at contents no longer named. -/
theorem at_odd (𝒱₀ : Variants) (ι : Ix) (c : Dev nD) (A : (w : Fin cfg6.W) → Buf (Elt F) ((cfg6.win w).arr.view.loc (c.tc : Thread nD τ)))
    (q : Fin cfg6.W → PosShare TreeShare) (R Rm : sProp 𝕄) (O : CellTallies nD τ sig Ix) (B : Set (SemLoc sig × Ix))
    (hjoin : iprop(Rm ∗ ∃ d, owns (c : Thread nD τ) accRef fullShare d) ⊢ R) (t : Fin cfg6.N) (h : t.val % 2 = 1) :
    iprop((dat c A q R Rm O B).Φ t.castSucc ∗ (dat c A q R Rm O B).owesAt ι t.castSucc
        ∗ (∃ d, owns (c : Thread nD τ) (st6_0 t) fullShare ((dat c A q R Rm O B).before 0 t d))
        ∗ (∃ d, owns (c : Thread nD τ) (st6_1 t) fullShare ((dat c A q R Rm O B).before 1 t d))
        ∗ (∃ d, owns (c : Thread nD τ) (st6_2 t) fullShare ((dat c A q R Rm O B).before 2 t d))
        ∗ (∃ d, owns (c : Thread nD τ) (st6_3 t) fullShare ((dat c A q R Rm O B).before 3 t d))
        ∗ (∃ d, owns (c : Thread nD τ) (st6_4 t) fullShare ((dat c A q R Rm O B).before 4 t d))
        ∗ (∃ d, owns (c : Thread nD τ) (st6_5 t) fullShare ((dat c A q R Rm O B).before 5 t d))
        ∗ (∃ d, owns (c : Thread nD τ) (st6_6 t) fullShare ((dat c A q R Rm O B).before 6 t d))
        ∗ (∃ d, owns (c : Thread nD τ) (st6_7 t) fullShare ((dat c A q R Rm O B).before 7 t d)))
      ⊢ wp frame (wpE (defs₀ (F := F)) 𝒱₀ c none) Set.univ (bodyAt6 t) fun _ =>
          iprop((dat c A q R Rm O B).Φ t.succ ∗ (dat c A q R Rm O B).owesAt ι t.succ
            ∗ owns (c : Thread nD τ) (st6_0 t) fullShare ((dat c A q R Rm O B).after 0 t)
            ∗ owns (c : Thread nD τ) (st6_1 t) fullShare ((dat c A q R Rm O B).after 1 t)
            ∗ owns (c : Thread nD τ) (st6_2 t) fullShare ((dat c A q R Rm O B).after 2 t)
            ∗ owns (c : Thread nD τ) (st6_3 t) fullShare ((dat c A q R Rm O B).after 3 t)
            ∗ owns (c : Thread nD τ) (st6_4 t) fullShare ((dat c A q R Rm O B).after 4 t)
            ∗ owns (c : Thread nD τ) (st6_5 t) fullShare ((dat c A q R Rm O B).after 5 t)
            ∗ owns (c : Thread nD τ) (st6_6 t) fullShare ((dat c A q R Rm O B).after 6 t)
            ∗ owns (c : Thread nD τ) (st6_7 t) fullShare ((dat c A q R Rm O B).after 7 t)) := by
  simp only [before_in0, before_in1, before_in2, before_in3, before_in4, before_in5, before_in6]
  rw [inv_mid' c A q O B R Rm t h, inv_last c A q O B R Rm t h,
    show (dat c A q R Rm O B).owesAt ι t.succ = (dat c A q R Rm O B).owesAt ι t.castSucc from rfl,
    after_in0, after_in1, after_in2, after_in3, after_in4, after_in5, after_in6, after_out]
  iintro ⟨⟨HRm, Hacc⟩, HO, ⟨%d0, H0⟩, ⟨%d1, H1⟩, ⟨%d2, H2⟩, ⟨%d3, H3⟩, ⟨%d4, H4⟩, ⟨%d5, H5⟩, ⟨%d6, H6⟩, ⟨%d7, H7⟩⟩
  iapply (body_run1 𝒱₀ c Set.univ (grid6.coords t) ((coord1 t).trans h) _ _ _ _ _ _ _ _ _ _ _ _ _ _ _ _ _ _
    (blockAt c A 0 t) (blockAt c A 1 t) (blockAt c A 2 t) (blockAt c A 3 t) (blockAt c A 4 t) (blockAt c A 5 t) (blockAt c A 6 t)
    (accFirst c A (prev t)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [Hacc]; · iexact Hacc
  iintro ⟨H0, H1, H2, H3, H4, H5, H6, H7, Hacc⟩
  isplitl [HRm Hacc]
  · iapply hjoin
    isplitl [HRm]; · iexact HRm
    iexists _; iexact Hacc
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body at any point t, the eight windows written out; the output window's clause is the rule's own: what the
    window held, where it rests and is not written back; what the body leaves, elsewhere. -/
theorem at_point (𝒱₀ : Variants) (ι : Ix) (c : Dev nD) (A : (w : Fin cfg6.W) → Buf (Elt F) ((cfg6.win w).arr.view.loc (c.tc : Thread nD τ)))
    (q : Fin cfg6.W → PosShare TreeShare) (R Rm : sProp 𝕄) (O : CellTallies nD τ sig Ix) (B : Set (SemLoc sig × Ix))
    (hsplit : R ⊢ iprop(Rm ∗ ∃ d, owns (c : Thread nD τ) accRef fullShare d))
    (hjoin : iprop(Rm ∗ ∃ d, owns (c : Thread nD τ) accRef fullShare d) ⊢ R) (t : Fin cfg6.N) :
    iprop((dat c A q R Rm O B).Φ t.castSucc ∗ (dat c A q R Rm O B).owesAt ι t.castSucc
        ∗ (∃ d, owns (c : Thread nD τ) (st6_0 t) fullShare ((dat c A q R Rm O B).before 0 t d))
        ∗ (∃ d, owns (c : Thread nD τ) (st6_1 t) fullShare ((dat c A q R Rm O B).before 1 t d))
        ∗ (∃ d, owns (c : Thread nD τ) (st6_2 t) fullShare ((dat c A q R Rm O B).before 2 t d))
        ∗ (∃ d, owns (c : Thread nD τ) (st6_3 t) fullShare ((dat c A q R Rm O B).before 3 t d))
        ∗ (∃ d, owns (c : Thread nD τ) (st6_4 t) fullShare ((dat c A q R Rm O B).before 4 t d))
        ∗ (∃ d, owns (c : Thread nD τ) (st6_5 t) fullShare ((dat c A q R Rm O B).before 5 t d))
        ∗ (∃ d, owns (c : Thread nD τ) (st6_6 t) fullShare ((dat c A q R Rm O B).before 6 t d))
        ∗ (∃ d, owns (c : Thread nD τ) (st6_7 t) fullShare ((dat c A q R Rm O B).before 7 t d)))
      ⊢ wp frame (wpE (defs₀ (F := F)) 𝒱₀ c none) Set.univ (bodyAt6 t) fun _ =>
          iprop((dat c A q R Rm O B).Φ t.succ ∗ (dat c A q R Rm O B).owesAt ι t.succ
            ∗ owns (c : Thread nD τ) (st6_0 t) fullShare ((dat c A q R Rm O B).after 0 t)
            ∗ owns (c : Thread nD τ) (st6_1 t) fullShare ((dat c A q R Rm O B).after 1 t)
            ∗ owns (c : Thread nD τ) (st6_2 t) fullShare ((dat c A q R Rm O B).after 2 t)
            ∗ owns (c : Thread nD τ) (st6_3 t) fullShare ((dat c A q R Rm O B).after 3 t)
            ∗ owns (c : Thread nD τ) (st6_4 t) fullShare ((dat c A q R Rm O B).after 4 t)
            ∗ owns (c : Thread nD τ) (st6_5 t) fullShare ((dat c A q R Rm O B).after 5 t)
            ∗ owns (c : Thread nD τ) (st6_6 t) fullShare ((dat c A q R Rm O B).after 6 t)
            ∗ (match cfg6.idle 7 (cfg6.grid.coords t) with
              | true =>
                match (cfg6.win 7).flush t with
                | false => iprop(∃ d, owns (c : Thread nD τ) (st6_7 t) fullShare ((dat c A q R Rm O B).before 7 t d))
                | true => owns (c : Thread nD τ) (st6_7 t) fullShare ((dat c A q R Rm O B).after 7 t)
              | false => owns (c : Thread nD τ) (st6_7 t) fullShare ((dat c A q R Rm O B).after 7 t))) := by
  rcases Nat.mod_two_eq_zero_or_one t.val with h | h
  · have e1 : cfg6.idle 7 (cfg6.grid.coords t) = true := by rw [idle7 t]; exact decide_eq_true h
    have e2 : (cfg6.win 7).flush t = false := by rw [flush7 t]; exact decide_eq_false (by omega)
    rw [e1, e2]
    exact at_even 𝒱₀ ι c A q R Rm O B hsplit t h
  · have e1 : cfg6.idle 7 (cfg6.grid.coords t) = false := by rw [idle7 t]; exact decide_eq_false (by omega)
    rw [e1]
    exact at_odd 𝒱₀ ι c A q R Rm O B hjoin t h

/-- The region rule's hypothesis about the body, at every point of the grid, given that the accumulator can be taken out of
    R and put back. -/
theorem body_obligation (𝒱₀ : Variants) (ι : Ix) (c : Dev nD) (A : (w : Fin cfg6.W) → Buf (Elt F) ((cfg6.win w).arr.view.loc (c.tc : Thread nD τ)))
    (q : Fin cfg6.W → PosShare TreeShare) (R Rm : sProp 𝕄) (O : CellTallies nD τ sig Ix) (B : Set (SemLoc sig × Ix))
    (hsplit : R ⊢ iprop(Rm ∗ ∃ d, owns (c : Thread nD τ) accRef fullShare d))
    (hjoin : iprop(Rm ∗ ∃ d, owns (c : Thread nD τ) accRef fullShare d) ⊢ R) :
    BodyObligation (dat c A q R Rm O B) (defs₀ (F := F)) 𝒱₀ ι Set.univ := fun t => by
  rw [bigSep_W6, bigSep_W6]
  exact at_point 𝒱₀ ι c A q R Rm O B hsplit hjoin t

end Cert.Kernel.Region3B

end
-- ==== Proof.Region3DataK.lean ====
/-
  The first fused region as a segment of @main: its proof data for a segment, read off the valuation the region is
  entered at, meets what a segment asks — the arrays' entry contents are the valuation's, full shares, the tallies and
  the bound of the handshake state at every point, and an invariant that is the scoped rest at every even point, in
  particular at the first and at the last (the accumulator, one of the scoped rest's buffers, is named apart only
  between the two halves of a row of the grid) — and the body's proof is the body file's.
-/
import proofs.«215235_g2774548873965_cont_9to1_572_34_alg».proof.Proof.ScRegionK
import proofs.«215235_g2774548873965_cont_9to1_572_34_alg».proof.Proof.Region3BodyK
import proofs.«215235_g2774548873965_cont_9to1_572_34_alg».proof.Proof.Region1RestK

noncomputable section

namespace Cert.Kernel.Sc

open Cert.Kernel
open Idealize.ShloMosaic Idealize.ShloMosaic.StableHlo Idealize.ShloMosaic.TcCoe
open Idealize.ShloMosaic.SparseCore (S T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F] [∀ e, Nonempty (Elt F e)]

local notation "𝕄" => MT nD τ sig (HIx 4) (Elt F) ℕ UU ℕ

/-- The pipeline this file is about. -/
abbrev pix3 : Fin 6 := 3

/-- The region's arrays at a valuation. -/
def A3 (W : Valuation τ sig (Elt F)) (c : Dev nD) (w : Fin cfg6.W) : Buf (Elt F) ((cfg6.win w).arr.view.loc (c.tc : Thread nD τ)) :=
  valOn W c (Pipeline.arrRef spec6 w)

/-- Its proof data for a segment entered before call n, at a valuation. -/
def dt3 (n : ℕ) (W : Valuation τ sig (Elt F)) (c : Dev nD) : Dat τ (Elt F) (HIx 4) ℕ UU ℕ (Pipeline.pin (pcfgs (F := F)) adm pix3) c :=
  Region3B.dat c (A3 W c) (fun _ => fullShare) (Region1B.rest3 adm c) (Region1B.restNoAcc3 c) ((K (F := F)).Otc c n) (below (F := F) c n)

/-- The grid has an even number of points. -/
theorem N3_even : (Pipeline.pin (pcfgs (F := F)) adm pix3).N % 2 = 0 := by
  show grid6.N % 2 = 0
  rw [Gen.N_6]

/-- What a segment asks of the region's proof data. (The facts about the scoped rest are matched in the proof mode, not by
    unfolding: the accumulator's split and join are restated in the body's own words first.) -/
theorem data3 (n : ℕ) : RegionData (F := F) pix3 n (dt3 n) where
  body W c := by
    have hs : (Region1B.rest3 adm c : sProp 𝕄)
        ⊢ iprop(Region1B.restNoAcc3 c ∗ ∃ d, owns (c : Thread nD τ) Region3B.accRef fullShare d) := by
      with_reducible_and_instances exact Region1B.acc_split3 adm c
    have hj : (iprop(Region1B.restNoAcc3 c ∗ ∃ d, owns (c : Thread nD τ) Region3B.accRef fullShare d) : sProp 𝕄)
        ⊢ Region1B.rest3 adm c := by
      with_reducible_and_instances exact Region1B.acc_join3 adm c
    have hb : Pipeline.BodyObligation (dt3 (F := F) n W c) (defs₀ (F := F)) Variants.none none Set.univ := by
      unfold dt3
      with_reducible_and_instances
        exact Region3B.body_obligation Variants.none none c (A3 W c) (fun _ => fullShare) (Region1B.rest3 adm c) (Region1B.restNoAcc3 c)
          ((K (F := F)).Otc c n) (below (F := F) c n) hs hj
    exact hb.loose
  arrays _ _ _ := rfl
  shares _ _ w := by unfold Pipeline.Dat.share; split <;> rfl
  owed _ _ _ := rfl
  recorded _ _ _ := rfl
  inv_first W c t ht := by
    unfold dt3
    rewrite [Region3B.Phi_even _ _ _ _ _ _ _ t (by omega), Region1B.rest3]
    iintro H; iexact H
  inv_last W c t ht := by
    unfold dt3
    rewrite [Region3B.Phi_even _ _ _ _ _ _ _ t (by rw [ht]; exact N3_even), Region1B.rest3]
    iintro H; iexact H

/-- The region, entered before call n, as a segment of @main. -/
theorem seg_region3_n (n : ℕ) : SegRegion (F := F) pix3 n (Proc.devRef .tc main_v29) := seg_region3_at n _ (data3 n)

/-- Where @main enters it. -/
theorem seg_region3 : SegRegion (F := F) pix3 3 (Proc.devRef .tc main_v29) := seg_region3_n 3

end Cert.Kernel.Sc

end
-- ==== Proof.Region4BodyK.lean ====
/-
  A fused tensor-core region: for 8 neighbour slots j, filt_j = ssp(f_j · W₁ + b₁) · W₂ + b₂ (ssp v = log(½·exp v + ½)),
  times the cutoff-and-mask column of slot j, times the gathered rows of slot j; the eight products added. The grid
  is 8 × 2: point (b, g) stages slots 8g … 8g + 7 of batch b. The region keeps a scratch accumulator across the second
  axis: at g = 0 it is set to the point's sum, at g = 1 the point's sum is added to it and the result is copied to the
  staged output block, which is written back to rows 1024·b … of the output array.

  At a point the body reads seven staged inputs (the filters' inputs f [1,50,8,1024], the gathered rows [8192,128], the
  cutoff-and-mask columns [1,8,1024], W₁ [50,128], b₁ [1,128], W₂ [128,128], b₂ [1,128]); it leaves them unchanged.
  What it leaves in the accumulator and in the output block is written out below as pure terms of the staged inputs.
-/
import proofs.«215235_g2774548873965_cont_9to1_572_34_alg».proof.Kernel
import proofs.«215235_g2774548873965_cont_9to1_572_34_alg».proof.Proof.Gen.Kernel
import proofs.«215235_g2774548873965_cont_9to1_572_34_alg».proof.Proof.Gen.Kernel.Skeleton
import proofs.«215235_g2774548873965_cont_9to1_572_34_alg».proof.Proof.Gen.Kernel.Launch
import proofs.«215235_g2774548873965_cont_9to1_572_34_alg».proof.Proof.Gen.Kernel.Points
import Idealize.ShloMosaic.Lib.Pipeline.FrameBody
import Idealize.ShloMosaic.Lib.Tactic

noncomputable section

namespace Cert.Kernel.Region4B

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The rectangles the body names -/

/-- All of a [1024,128] buffer: the accumulator, the staged output block. -/
abbrev rBig : Rect S1024x128 := Rect.unit (s := S1024x128) ![0, 0] S1024x128.size inb_S1024x128_S1024x128_0_0
abbrev rW1 : Rect S50x128 := Rect.unit (s := S50x128) ![0, 0] S50x128.size inb_S50x128_S50x128_0_0
abbrev rRow : Rect S1x128 := Rect.unit (s := S1x128) ![0, 0] S1x128.size inb_S1x128_S1x128_0_0
abbrev rSq : Rect S128x128 := Rect.unit (s := S128x128) ![0, 0] S128x128.size inb_S128x128_S128x128_0_0
abbrev rCut : Rect S1x8x1024 := Rect.unit (s := S1x8x1024) ![0, 0, 0] S1x8x1024.size inb_S1x8x1024_S1x8x1024_0_0_0
/-- Slot j of the staged filter inputs. -/
abbrev rF0 : Rect S1x50x8x1024 := Rect.unit (s := S1x50x8x1024) ![0, 0, 0, 0] S1x50x1x1024.size inb_S1x50x8x1024_S1x50x1x1024_0_0_0_0
abbrev rF1 : Rect S1x50x8x1024 := Rect.unit (s := S1x50x8x1024) ![0, 0, 1, 0] S1x50x1x1024.size inb_S1x50x8x1024_S1x50x1x1024_0_0_1_0
abbrev rF2 : Rect S1x50x8x1024 := Rect.unit (s := S1x50x8x1024) ![0, 0, 2, 0] S1x50x1x1024.size inb_S1x50x8x1024_S1x50x1x1024_0_0_2_0
abbrev rF3 : Rect S1x50x8x1024 := Rect.unit (s := S1x50x8x1024) ![0, 0, 3, 0] S1x50x1x1024.size inb_S1x50x8x1024_S1x50x1x1024_0_0_3_0
abbrev rF4 : Rect S1x50x8x1024 := Rect.unit (s := S1x50x8x1024) ![0, 0, 4, 0] S1x50x1x1024.size inb_S1x50x8x1024_S1x50x1x1024_0_0_4_0
abbrev rF5 : Rect S1x50x8x1024 := Rect.unit (s := S1x50x8x1024) ![0, 0, 5, 0] S1x50x1x1024.size inb_S1x50x8x1024_S1x50x1x1024_0_0_5_0
abbrev rF6 : Rect S1x50x8x1024 := Rect.unit (s := S1x50x8x1024) ![0, 0, 6, 0] S1x50x1x1024.size inb_S1x50x8x1024_S1x50x1x1024_0_0_6_0
abbrev rF7 : Rect S1x50x8x1024 := Rect.unit (s := S1x50x8x1024) ![0, 0, 7, 0] S1x50x1x1024.size inb_S1x50x8x1024_S1x50x1x1024_0_0_7_0
/-- Slot j of the staged gathered rows: rows 1024·j … 1024·j + 1023. -/
abbrev rG0 : Rect S8192x128 := Rect.unit (s := S8192x128) ![0, 0] S1024x128.size inb_S8192x128_S1024x128_0_0
abbrev rG1 : Rect S8192x128 := Rect.unit (s := S8192x128) ![1024, 0] S1024x128.size inb_S8192x128_S1024x128_1024_0
abbrev rG2 : Rect S8192x128 := Rect.unit (s := S8192x128) ![2048, 0] S1024x128.size inb_S8192x128_S1024x128_2048_0
abbrev rG3 : Rect S8192x128 := Rect.unit (s := S8192x128) ![3072, 0] S1024x128.size inb_S8192x128_S1024x128_3072_0
abbrev rG4 : Rect S8192x128 := Rect.unit (s := S8192x128) ![4096, 0] S1024x128.size inb_S8192x128_S1024x128_4096_0
abbrev rG5 : Rect S8192x128 := Rect.unit (s := S8192x128) ![5120, 0] S1024x128.size inb_S8192x128_S1024x128_5120_0
abbrev rG6 : Rect S8192x128 := Rect.unit (s := S8192x128) ![6144, 0] S1024x128.size inb_S8192x128_S1024x128_6144_0
abbrev rG7 : Rect S8192x128 := Rect.unit (s := S8192x128) ![7168, 0] S1024x128.size inb_S8192x128_S1024x128_7168_0

/-! ## The point's sum, as the body computes it -/

/-- The seven staged inputs of a point. -/
structure Ins (F : FTy → Type) where
  f : Vec F S1x50x8x1024 .f32
  g : Vec F S8192x128 .f32
  cut : Vec F S1x8x1024 .f32
  w1 : Vec F S50x128 .f32
  b1 : Vec F S1x128 .f32
  w2 : Vec F S128x128 .f32
  b2 : Vec F S1x128 .f32

/-- The running sum after slots 0 … 6, the last slot's filter and its column, in the order the body computes them:
    each line is one of the body's named values over what was read before it. -/
def upto6 (x : Ins F) : FVec F S1024x128 .f32 × FVec F S1024x128 .f32 × FVec F S1024x128 .f32 :=
  let cw := View.ld x.cut rCut
  let w1 := View.ld x.w1 rW1
  let b1 := View.ld x.b1 rRow
  let w2 := View.ld x.w2 rSq
  let b2 := View.ld x.b2 rRow
  let v2 := k8_pay4 cw
  let v28 := k8_pay5 cw (View.ld x.f rF0) w1 b1 w2 b2 (View.ld x.g rG0)
  let v30 := k8_pay6 (View.ld x.f rF1)
  let v55 := k8_pay7 v2 v28 v30 w1 b1 w2 b2 (View.ld x.g rG1)
  let v66 := k8_pay8 (View.ld x.f rF2) w1 b1
  let v82 := k8_pay10 v2 v55 v66 (k8_pay9 (F := F)) w2 b2 (View.ld x.g rG2)
  let v102 := k8_pay11 (View.ld x.f rF3) w1 b1 w2 b2
  let v136 := k8_pay13 v2 v82 v102 (k8_pay12 v2) (View.ld x.g rG3) (View.ld x.f rF4) w1 b1 w2 b2 (View.ld x.g rG4)
  let v138 := k8_pay14 (View.ld x.f rF5)
  let v163 := k8_pay15 v2 v136 v138 w1 b1 w2 b2 (View.ld x.g rG5)
  let v174 := k8_pay16 (View.ld x.f rF6) w1 b1
  let v190 := k8_pay18 v2 v163 v174 (k8_pay17 (F := F)) w2 b2 (View.ld x.g rG6)
  (v190, k8_pay19 (View.ld x.f rF7) w1 b1 w2 b2, k8_pay20 v2)

/-- What the first point of a pair stores in the accumulator. -/
def first (x : Ins F) : FVec F S1024x128 .f32 :=
  k8_pay2 (upto6 x).1 (upto6 x).2.1 (upto6 x).2.2 (View.ld x.g rG7)

/-- What the second point of a pair stores in the accumulator, the accumulator read as acc. -/
def second (x : Ins F) (acc : Vec F S1024x128 .f32) : FVec F S1024x128 .f32 :=
  k8_pay3 (upto6 x).1 (upto6 x).2.1 (upto6 x).2.2 (View.ld x.g rG7) acc

/-- A whole [1024,128] buffer overwritten by one store of p. -/
def whole (p : FVec F S1024x128 .f32) : Vec F S1024x128 .f32 := View.canon [⟨rBig, p⟩]

theorem whole_covers (p : Vec F S1024x128 .f32) (y : S1024x128.Idx) :
    ∃ pc ∈ ([⟨rBig, p⟩] : List (View.Piece (Elt F) S1024x128 .f32)), y ∈ pc.1.set :=
  View.cover_of_tiled [⟨rBig, p⟩] S1024x128.size (by rfl) y

/-! ## The body at the first point of a pair -/

set_option maxHeartbeats 4000000 in
/-- At a point whose second coordinate is 0 the body, called on whole buffers holding the seven inputs, an output block
    and an accumulator, returns the inputs and the output block as they were and the accumulator at the point's sum. -/
theorem body_run0 (𝒱₀ : Variants) (c : Dev nD) (E : Set Name) (i : grid8.Coords) (hi : (i 1).val = 0)
    (a2 : Memref sig .tc .vmem S1x50x8x1024 .f32) (g2 : a2.IsWhole) (a3 : Memref sig .tc .vmem S8192x128 .f32) (g3 : a3.IsWhole)
    (a4 : Memref sig .tc .vmem S1x8x1024 .f32) (g4 : a4.IsWhole) (a5 : Memref sig .tc .vmem S50x128 .f32) (g5 : a5.IsWhole)
    (a6 : Memref sig .tc .vmem S1x128 .f32) (g6 : a6.IsWhole) (a7 : Memref sig .tc .vmem S128x128 .f32) (g7 : a7.IsWhole)
    (a8 : Memref sig .tc .vmem S1x128 .f32) (g8 : a8.IsWhole) (a9 : Memref sig .tc .vmem S1024x128 .f32) (g9 : a9.IsWhole)
    (a10 : Memref sig .tc .vmem S1024x128 .f32) (g10 : a10.IsWhole)
    (xf : Vec F S1x50x8x1024 .f32) (xg : Vec F S8192x128 .f32) (xc : Vec F S1x8x1024 .f32) (xw1 : Vec F S50x128 .f32)
    (xb1 : Vec F S1x128 .f32) (xw2 : Vec F S128x128 .f32) (xb2 : Vec F S1x128 .f32) (o : Vec F S1024x128 .f32) (K : PUnit → sProp 𝕄) :
    iprop(owns (c : Thread nD τ) a2 fullShare xf ∗ owns (c : Thread nD τ) a3 fullShare xg ∗ owns (c : Thread nD τ) a4 fullShare xc
        ∗ owns (c : Thread nD τ) a5 fullShare xw1 ∗ owns (c : Thread nD τ) a6 fullShare xb1 ∗ owns (c : Thread nD τ) a7 fullShare xw2
        ∗ owns (c : Thread nD τ) a8 fullShare xb2
        ∗ owns (c : Thread nD τ) a9 fullShare o ∗ (∃ d, owns (c : Thread nD τ) a10 fullShare d)
        ∗ (iprop(owns (c : Thread nD τ) a2 fullShare xf ∗ owns (c : Thread nD τ) a3 fullShare xg ∗ owns (c : Thread nD τ) a4 fullShare xc
        ∗ owns (c : Thread nD τ) a5 fullShare xw1 ∗ owns (c : Thread nD τ) a6 fullShare xb1 ∗ owns (c : Thread nD τ) a7 fullShare xw2
        ∗ owns (c : Thread nD τ) a8 fullShare xb2
              ∗ owns (c : Thread nD τ) a9 fullShare o
              ∗ owns (c : Thread nD τ) a10 fullShare (whole (first ⟨xf, xg, xc, xw1, xb1, xw2, xb2⟩))) -∗ K ⟨⟩))
      ⊢ wp frame (wpE (defs₀ (F := F)) 𝒱₀ c none) E
          (cc8__fused_kernel i a2 g2 a3 g3 a4 g4 a5 g5 a6 g6 a7 g7 a8 g8 a9 g9 a10 g10) K := by
  have h1 : Scalar.cmpi .ne (Scalar.extui (Scalar.cmpi .eq (BitVec.ofNat 32 (i 1).val) 0#32)) 0#32 = 1#1 := by rw [hi]; decide
  have h2 : ¬ Scalar.cmpi .ne (Scalar.extui (Scalar.cmpi .sgt (BitVec.ofNat 32 (i 1).val) 0#32)) 0#32 = 1#1 := by rw [hi]; decide
  have h3 : ¬ k8_cond3 i = 1#1 := by unfold k8_cond3; rw [hi]; decide
  sl_unfold [cc8__fused_kernel]
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩,
    ⟨%f9, %e9, H9⟩, ⟨%d10, %f10, -, H10⟩, Hk⟩
  subst e2 e3 e4 e5 e6 e7 e8 e9
  -- the loads, the sum (pure), the accumulator's overwrite; the other two cases are not taken
  sl_exec
  sl_step
  iapply Hk
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists f7; isplitr
    · ipureintro; rfl
    · iexact H7
  isplitl [H8]
  · iexists f8; isplitr
    · ipureintro; rfl
    · iexact H8
  isplitl [H9]
  · iexists f9; isplitr
    · ipureintro; rfl
    · iexact H9
  iexists _
  isplitr
  rotate_left
  · iexact H10
  · ipureintro
    exact View.read_writes_eq_canon _ _ _ (whole_covers (F := F) _)

set_option maxHeartbeats 4000000 in
/-- At a point whose second coordinate is 1 the body, called on whole buffers holding the seven inputs, an output block
    and the accumulator at acc, returns the inputs as they were the accumulator at acc plus the point's sum, and the
    output block at the accumulator's new contents read back whole. -/
theorem body_run1 (𝒱₀ : Variants) (c : Dev nD) (E : Set Name) (i : grid8.Coords) (hi : (i 1).val = 1)
    (a2 : Memref sig .tc .vmem S1x50x8x1024 .f32) (g2 : a2.IsWhole) (a3 : Memref sig .tc .vmem S8192x128 .f32) (g3 : a3.IsWhole)
    (a4 : Memref sig .tc .vmem S1x8x1024 .f32) (g4 : a4.IsWhole) (a5 : Memref sig .tc .vmem S50x128 .f32) (g5 : a5.IsWhole)
    (a6 : Memref sig .tc .vmem S1x128 .f32) (g6 : a6.IsWhole) (a7 : Memref sig .tc .vmem S128x128 .f32) (g7 : a7.IsWhole)
    (a8 : Memref sig .tc .vmem S1x128 .f32) (g8 : a8.IsWhole) (a9 : Memref sig .tc .vmem S1024x128 .f32) (g9 : a9.IsWhole)
    (a10 : Memref sig .tc .vmem S1024x128 .f32) (g10 : a10.IsWhole)
    (xf : Vec F S1x50x8x1024 .f32) (xg : Vec F S8192x128 .f32) (xc : Vec F S1x8x1024 .f32) (xw1 : Vec F S50x128 .f32)
    (xb1 : Vec F S1x128 .f32) (xw2 : Vec F S128x128 .f32) (xb2 : Vec F S1x128 .f32) (acc : Vec F S1024x128 .f32) (K : PUnit → sProp 𝕄) :
    iprop(owns (c : Thread nD τ) a2 fullShare xf ∗ owns (c : Thread nD τ) a3 fullShare xg ∗ owns (c : Thread nD τ) a4 fullShare xc
        ∗ owns (c : Thread nD τ) a5 fullShare xw1 ∗ owns (c : Thread nD τ) a6 fullShare xb1 ∗ owns (c : Thread nD τ) a7 fullShare xw2
        ∗ owns (c : Thread nD τ) a8 fullShare xb2
        ∗ (∃ d, owns (c : Thread nD τ) a9 fullShare d) ∗ owns (c : Thread nD τ) a10 fullShare acc
        ∗ (iprop(owns (c : Thread nD τ) a2 fullShare xf ∗ owns (c : Thread nD τ) a3 fullShare xg ∗ owns (c : Thread nD τ) a4 fullShare xc
        ∗ owns (c : Thread nD τ) a5 fullShare xw1 ∗ owns (c : Thread nD τ) a6 fullShare xb1 ∗ owns (c : Thread nD τ) a7 fullShare xw2
        ∗ owns (c : Thread nD τ) a8 fullShare xb2
              ∗ owns (c : Thread nD τ) a9 fullShare (whole (View.ld (whole (second ⟨xf, xg, xc, xw1, xb1, xw2, xb2⟩ (View.ld acc rBig))) rBig))
              ∗ owns (c : Thread nD τ) a10 fullShare (whole (second ⟨xf, xg, xc, xw1, xb1, xw2, xb2⟩ (View.ld acc rBig)))) -∗ K ⟨⟩))
      ⊢ wp frame (wpE (defs₀ (F := F)) 𝒱₀ c none) E
          (cc8__fused_kernel i a2 g2 a3 g3 a4 g4 a5 g5 a6 g6 a7 g7 a8 g8 a9 g9 a10 g10) K := by
  have h1 : ¬ Scalar.cmpi .ne (Scalar.extui (Scalar.cmpi .eq (BitVec.ofNat 32 (i 1).val) 0#32)) 0#32 = 1#1 := by rw [hi]; decide
  have h2 : Scalar.cmpi .ne (Scalar.extui (Scalar.cmpi .sgt (BitVec.ofNat 32 (i 1).val) 0#32)) 0#32 = 1#1 := by rw [hi]; decide
  have h3 : k8_cond3 i = 1#1 := by unfold k8_cond3; rw [hi]; decide
  sl_unfold [cc8__fused_kernel]
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩,
    ⟨%d9, %f9, -, H9⟩, ⟨%f10, %e10, H10⟩, Hk⟩
  subst e2 e3 e4 e5 e6 e7 e8 e10
  -- the loads, the sum (pure), the accumulator read, added to and overwritten, then copied to the output block
  sl_exec
  sl_step
  iapply Hk
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists f7; isplitr
    · ipureintro; rfl
    · iexact H7
  isplitl [H8]
  · iexists f8; isplitr
    · ipureintro; rfl
    · iexact H8
  isplitl [H9]
  · iexists _
    isplitr
    rotate_left
    · iexact H9
    · ipureintro
      -- the output block's one store is of the accumulator read back, whole, after its own overwrite
      rw [View.read_writes_eq_canon _ _ _ (whole_covers (F := F) _)]
      exact congrArg (fun p => View.canon [(⟨rBig, p⟩ : View.Piece (Elt F) S1024x128 .f32)])
        (View.readCov_eq_canon_ld _ _ rBig (whole_covers (F := F) _))
  iexists _
  isplitr
  rotate_left
  · iexact H10
  · ipureintro
    exact View.read_writes_eq_canon _ _ _ (whole_covers (F := F) _)

/-! ## The proof data -/

/-- Window w's block at point t, read off the array's contents at the region's entry. -/
def blockAt (c : Dev nD) (A : (w : Fin cfg8.W) → Buf (Elt F) ((cfg8.win w).arr.view.loc (c.tc : Thread nD τ)))
    (w : Fin cfg8.W) (t : Fin cfg8.N) : ((cfg8.win w).xblock (cfg8.grid.coords t)).Idx → Elt F (cfg8.win w).elt :=
  ((cfg8.win w).blk t).view.read (Elt F) (A w)

/-- The seven staged inputs of point t. -/
def insAt (c : Dev nD) (A : (w : Fin cfg8.W) → Buf (Elt F) ((cfg8.win w).arr.view.loc (c.tc : Thread nD τ))) (t : Fin cfg8.N) : Ins F :=
  ⟨blockAt c A 0 t, blockAt c A 1 t, blockAt c A 2 t, blockAt c A 3 t, blockAt c A 4 t, blockAt c A 5 t, blockAt c A 6 t⟩

/-- The point before t (t itself at the first point, where it is not used). -/
def prev (t : Fin cfg8.N) : Fin cfg8.N := ⟨t.val - 1, Nat.lt_of_le_of_lt (Nat.sub_le _ _) t.isLt⟩

/-- The accumulator after the first point of a pair: that point's sum. -/
def accFirst (c : Dev nD) (A : (w : Fin cfg8.W) → Buf (Elt F) ((cfg8.win w).arr.view.loc (c.tc : Thread nD τ))) (t : Fin cfg8.N) :
    Vec F S1024x128 .f32 := whole (first (insAt c A t))

/-- The accumulator after the second point t of a pair: the first point's sum plus this point's. -/
def accSecond (c : Dev nD) (A : (w : Fin cfg8.W) → Buf (Elt F) ((cfg8.win w).arr.view.loc (c.tc : Thread nD τ))) (t : Fin cfg8.N) :
    Vec F S1024x128 .f32 := whole (second (insAt c A t) (View.ld (accFirst c A (prev t)) rBig))

/-- The accumulator, as a whole buffer of the core. -/
abbrev accRef : Memref sig .tc .vmem S1024x128 .f32 := Memref.whole cc8_scratch0

/-- The region's proof data on core c: entry contents A of the eight arrays, shares q, the tallies O and the bound B as
    they are throughout. The invariant is R before the first point of a pair (R: what the core holds besides the
    windows, the accumulator among it at contents nobody names) and, between the two points of a pair, Rm (the same
    without the accumulator) with the accumulator at the first point's sum. The body leaves each input at its block;
    at the second point of a pair it leaves the output block at the accumulator read back. -/
def dat (c : Dev nD) (A : (w : Fin cfg8.W) → Buf (Elt F) ((cfg8.win w).arr.view.loc (c.tc : Thread nD τ)))
    (q : Fin cfg8.W → PosShare TreeShare) (R Rm : sProp 𝕄) (O : CellTallies nD τ sig Ix) (B : Set (SemLoc sig × Ix)) :
    Dat τ (Elt F) Ix Name U Lvl cfg8 c where
  A := A
  after w t := match w with
    | ⟨0, _⟩ => blockAt c A 0 t
    | ⟨1, _⟩ => blockAt c A 1 t
    | ⟨2, _⟩ => blockAt c A 2 t
    | ⟨3, _⟩ => blockAt c A 3 t
    | ⟨4, _⟩ => blockAt c A 4 t
    | ⟨5, _⟩ => blockAt c A 5 t
    | ⟨6, _⟩ => blockAt c A 6 t
    | ⟨7, _⟩ => whole (View.ld (accSecond c A t) rBig)
  Φ t := if h : t.val % 2 = 1 then
      iprop(Rm ∗ owns (c : Thread nD τ) accRef fullShare (accFirst c A ⟨t.val - 1, by have := t.isLt; omega⟩))
    else R
  q := q
  owed _ := O
  recorded _ := B

/-! ## What the proof data says -/

/-- The second grid coordinate of point t is t modulo 2. -/
theorem coord1 : ∀ t : Fin grid8.N, ((grid8.coords t) 1).val = t.val % 2 := by decide +kernel

/-- The output window rests (is neither stored to nor written back) exactly at the first point of a pair. -/
theorem idle7 : ∀ t : Fin grid8.N, cfg8.idle 7 (cfg8.grid.coords t) = decide (t.val % 2 = 0) := by decide +kernel
theorem flush7 : ∀ t : Fin grid8.N, (cfg8.win 7).flush t = decide (t.val % 2 = 1) := by decide +kernel

section Facts

variable (c : Dev nD) (A : (w : Fin cfg8.W) → Buf (Elt F) ((cfg8.win w).arr.view.loc (c.tc : Thread nD τ)))
  (q : Fin cfg8.W → PosShare TreeShare) (O : CellTallies nD τ sig Ix) (B : Set (SemLoc sig × Ix))

theorem after_in0 (R Rm : sProp 𝕄) (t : Fin cfg8.N) : (dat (Name := Name) (Lvl := Lvl) c A q R Rm O B).after 0 t = blockAt c A 0 t := by dsimp only [dat]
theorem after_in1 (R Rm : sProp 𝕄) (t : Fin cfg8.N) : (dat (Name := Name) (Lvl := Lvl) c A q R Rm O B).after 1 t = blockAt c A 1 t := by dsimp only [dat]
theorem after_in2 (R Rm : sProp 𝕄) (t : Fin cfg8.N) : (dat (Name := Name) (Lvl := Lvl) c A q R Rm O B).after 2 t = blockAt c A 2 t := by dsimp only [dat]
theorem after_in3 (R Rm : sProp 𝕄) (t : Fin cfg8.N) : (dat (Name := Name) (Lvl := Lvl) c A q R Rm O B).after 3 t = blockAt c A 3 t := by dsimp only [dat]
theorem after_in4 (R Rm : sProp 𝕄) (t : Fin cfg8.N) : (dat (Name := Name) (Lvl := Lvl) c A q R Rm O B).after 4 t = blockAt c A 4 t := by dsimp only [dat]
theorem after_in5 (R Rm : sProp 𝕄) (t : Fin cfg8.N) : (dat (Name := Name) (Lvl := Lvl) c A q R Rm O B).after 5 t = blockAt c A 5 t := by dsimp only [dat]
theorem after_in6 (R Rm : sProp 𝕄) (t : Fin cfg8.N) : (dat (Name := Name) (Lvl := Lvl) c A q R Rm O B).after 6 t = blockAt c A 6 t := by dsimp only [dat]
theorem after_out (R Rm : sProp 𝕄) (t : Fin cfg8.N) : (dat (Name := Name) (Lvl := Lvl) c A q R Rm O B).after 7 t = whole (View.ld (accSecond c A t) rBig) := by dsimp only [dat]

theorem before_in0 (R Rm : sProp 𝕄) (t : Fin cfg8.N) (d) : (dat (Name := Name) (Lvl := Lvl) c A q R Rm O B).before 0 t d = blockAt c A 0 t :=
  ((dat (Name := Name) (Lvl := Lvl) c A q R Rm O B).before_in_eq_fetched 0 rfl (fun _ => rfl) (fun _ _ _ => rfl) (fun u => by rw [after_in0]; rfl) t d).trans rfl
theorem before_in1 (R Rm : sProp 𝕄) (t : Fin cfg8.N) (d) : (dat (Name := Name) (Lvl := Lvl) c A q R Rm O B).before 1 t d = blockAt c A 1 t :=
  ((dat (Name := Name) (Lvl := Lvl) c A q R Rm O B).before_in_eq_fetched 1 rfl (fun _ => rfl) (fun _ _ _ => rfl) (fun u => by rw [after_in1]; rfl) t d).trans rfl
theorem before_in2 (R Rm : sProp 𝕄) (t : Fin cfg8.N) (d) : (dat (Name := Name) (Lvl := Lvl) c A q R Rm O B).before 2 t d = blockAt c A 2 t :=
  ((dat (Name := Name) (Lvl := Lvl) c A q R Rm O B).before_in_eq_fetched 2 rfl (fun _ => rfl) (fun _ _ _ => rfl) (fun u => by rw [after_in2]; rfl) t d).trans rfl
theorem before_in3 (R Rm : sProp 𝕄) (t : Fin cfg8.N) (d) : (dat (Name := Name) (Lvl := Lvl) c A q R Rm O B).before 3 t d = blockAt c A 3 t :=
  ((dat (Name := Name) (Lvl := Lvl) c A q R Rm O B).before_in_eq_fetched 3 rfl (fun _ => rfl) (fun _ _ _ => rfl) (fun u => by rw [after_in3]; rfl) t d).trans rfl
theorem before_in4 (R Rm : sProp 𝕄) (t : Fin cfg8.N) (d) : (dat (Name := Name) (Lvl := Lvl) c A q R Rm O B).before 4 t d = blockAt c A 4 t :=
  ((dat (Name := Name) (Lvl := Lvl) c A q R Rm O B).before_in_eq_fetched 4 rfl (fun _ => rfl) (fun _ _ _ => rfl) (fun u => by rw [after_in4]; rfl) t d).trans rfl
theorem before_in5 (R Rm : sProp 𝕄) (t : Fin cfg8.N) (d) : (dat (Name := Name) (Lvl := Lvl) c A q R Rm O B).before 5 t d = blockAt c A 5 t :=
  ((dat (Name := Name) (Lvl := Lvl) c A q R Rm O B).before_in_eq_fetched 5 rfl (fun _ => rfl) (fun _ _ _ => rfl) (fun u => by rw [after_in5]; rfl) t d).trans rfl
theorem before_in6 (R Rm : sProp 𝕄) (t : Fin cfg8.N) (d) : (dat (Name := Name) (Lvl := Lvl) c A q R Rm O B).before 6 t d = blockAt c A 6 t :=
  ((dat (Name := Name) (Lvl := Lvl) c A q R Rm O B).before_in_eq_fetched 6 rfl (fun _ => rfl) (fun _ _ _ => rfl) (fun u => by rw [after_in6]; rfl) t d).trans rfl

/-- Before the first point of a pair the invariant is R; -/
theorem inv_first (R Rm : sProp 𝕄) (t : Fin cfg8.N) (h : t.val % 2 = 0) : (dat (Name := Name) (Lvl := Lvl) c A q R Rm O B).Φ t.castSucc = R := by
  have h' : ¬ (t.castSucc : Fin (cfg8.N + 1)).val % 2 = 1 := by rw [Fin.val_castSucc]; omega
  dsimp only [dat]
  rw [dif_neg h']

/-- after it, Rm and the accumulator at the point's sum; -/
theorem inv_mid (R Rm : sProp 𝕄) (t : Fin cfg8.N) (h : t.val % 2 = 0) :
    (dat (Name := Name) (Lvl := Lvl) c A q R Rm O B).Φ t.succ = iprop(Rm ∗ owns (c : Thread nD τ) accRef fullShare (accFirst c A t)) := by
  have h' : (t.succ : Fin (cfg8.N + 1)).val % 2 = 1 := by rw [Fin.val_succ]; omega
  dsimp only [dat]
  rw [dif_pos h']
  rfl

/-- the same before the second point of a pair, -/
theorem inv_mid' (R Rm : sProp 𝕄) (t : Fin cfg8.N) (h : t.val % 2 = 1) :
    (dat (Name := Name) (Lvl := Lvl) c A q R Rm O B).Φ t.castSucc = iprop(Rm ∗ owns (c : Thread nD τ) accRef fullShare (accFirst c A (prev t))) := by
  have h' : (t.castSucc : Fin (cfg8.N + 1)).val % 2 = 1 := by rw [Fin.val_castSucc]; exact h
  dsimp only [dat]
  rw [dif_pos h']
  rfl

/-- and R again after it. -/
theorem inv_last (R Rm : sProp 𝕄) (t : Fin cfg8.N) (h : t.val % 2 = 1) : (dat (Name := Name) (Lvl := Lvl) c A q R Rm O B).Φ t.succ = R := by
  have h' : ¬ (t.succ : Fin (cfg8.N + 1)).val % 2 = 1 := by rw [Fin.val_succ]; omega
  dsimp only [dat]
  rw [dif_neg h']

/-- At an even position (before the first point of a pair, after the second, at the region's two ends) the invariant
    is R, -/
theorem Phi_even (R Rm : sProp 𝕄) (t : Fin (cfg8.N + 1)) (ht : t.val % 2 = 0) : (dat (Name := Name) (Lvl := Lvl) c A q R Rm O B).Φ t = R := by
  have h' : ¬ t.val % 2 = 1 := by omega
  dsimp only [dat]
  rw [dif_neg h']

/-- at an odd one, Rm with the accumulator at the sum of the point just run. -/
theorem Phi_odd (R Rm : sProp 𝕄) (t : Fin (cfg8.N + 1)) (ht : t.val % 2 = 1) :
    (dat (Name := Name) (Lvl := Lvl) c A q R Rm O B).Φ t = iprop(Rm ∗ owns (c : Thread nD τ) accRef fullShare (accFirst c A ⟨t.val - 1, by have := t.isLt; omega⟩)) := by
  dsimp only [dat]
  rw [dif_pos ht]

theorem A_eq (R Rm : sProp 𝕄) : (dat (Name := Name) (Lvl := Lvl) c A q R Rm O B).A = A := rfl
theorem q_eq (R Rm : sProp 𝕄) : (dat (Name := Name) (Lvl := Lvl) c A q R Rm O B).q = q := rfl
theorem owed_eq (R Rm : sProp 𝕄) (t : Fin (cfg8.N + 1)) : (dat (Name := Name) (Lvl := Lvl) c A q R Rm O B).owed t = O := rfl
theorem recorded_eq (R Rm : sProp 𝕄) (t : Fin (cfg8.N + 1)) : (dat (Name := Name) (Lvl := Lvl) c A q R Rm O B).recorded t = B := rfl

end Facts

/-! ## The obligation -/

/-- The body at the first point t of a pair: the accumulator is taken out of R, set to the point's sum, and kept with Rm;
    the output block is not touched. -/
theorem at_even (𝒱₀ : Variants) (ι : Ix) (c : Dev nD) (A : (w : Fin cfg8.W) → Buf (Elt F) ((cfg8.win w).arr.view.loc (c.tc : Thread nD τ)))
    (q : Fin cfg8.W → PosShare TreeShare) (R Rm : sProp 𝕄) (O : CellTallies nD τ sig Ix) (B : Set (SemLoc sig × Ix))
    (hsplit : R ⊢ iprop(Rm ∗ ∃ d, owns (c : Thread nD τ) accRef fullShare d)) (t : Fin cfg8.N) (h : t.val % 2 = 0) :
    iprop((dat c A q R Rm O B).Φ t.castSucc ∗ (dat c A q R Rm O B).owesAt ι t.castSucc
        ∗ (∃ d, owns (c : Thread nD τ) (st8_0 t) fullShare ((dat c A q R Rm O B).before 0 t d))
        ∗ (∃ d, owns (c : Thread nD τ) (st8_1 t) fullShare ((dat c A q R Rm O B).before 1 t d))
        ∗ (∃ d, owns (c : Thread nD τ) (st8_2 t) fullShare ((dat c A q R Rm O B).before 2 t d))
        ∗ (∃ d, owns (c : Thread nD τ) (st8_3 t) fullShare ((dat c A q R Rm O B).before 3 t d))
        ∗ (∃ d, owns (c : Thread nD τ) (st8_4 t) fullShare ((dat c A q R Rm O B).before 4 t d))
        ∗ (∃ d, owns (c : Thread nD τ) (st8_5 t) fullShare ((dat c A q R Rm O B).before 5 t d))
        ∗ (∃ d, owns (c : Thread nD τ) (st8_6 t) fullShare ((dat c A q R Rm O B).before 6 t d))
        ∗ (∃ d, owns (c : Thread nD τ) (st8_7 t) fullShare ((dat c A q R Rm O B).before 7 t d)))
      ⊢ wp frame (wpE (defs₀ (F := F)) 𝒱₀ c none) Set.univ (bodyAt8 t) fun _ =>
          iprop((dat c A q R Rm O B).Φ t.succ ∗ (dat c A q R Rm O B).owesAt ι t.succ
            ∗ owns (c : Thread nD τ) (st8_0 t) fullShare ((dat c A q R Rm O B).after 0 t)
            ∗ owns (c : Thread nD τ) (st8_1 t) fullShare ((dat c A q R Rm O B).after 1 t)
            ∗ owns (c : Thread nD τ) (st8_2 t) fullShare ((dat c A q R Rm O B).after 2 t)
            ∗ owns (c : Thread nD τ) (st8_3 t) fullShare ((dat c A q R Rm O B).after 3 t)
            ∗ owns (c : Thread nD τ) (st8_4 t) fullShare ((dat c A q R Rm O B).after 4 t)
            ∗ owns (c : Thread nD τ) (st8_5 t) fullShare ((dat c A q R Rm O B).after 5 t)
            ∗ owns (c : Thread nD τ) (st8_6 t) fullShare ((dat c A q R Rm O B).after 6 t)
            ∗ (∃ d, owns (c : Thread nD τ) (st8_7 t) fullShare ((dat c A q R Rm O B).before 7 t d))) := by
  simp only [before_in0, before_in1, before_in2, before_in3, before_in4, before_in5, before_in6]
  rw [inv_first c A q O B R Rm t h, inv_mid c A q O B R Rm t h,
    show (dat c A q R Rm O B).owesAt ι t.succ = (dat c A q R Rm O B).owesAt ι t.castSucc from rfl,
    after_in0, after_in1, after_in2, after_in3, after_in4, after_in5, after_in6]
  iintro ⟨HR, HO, ⟨%d0, H0⟩, ⟨%d1, H1⟩, ⟨%d2, H2⟩, ⟨%d3, H3⟩, ⟨%d4, H4⟩, ⟨%d5, H5⟩, ⟨%d6, H6⟩, ⟨%d7, H7⟩⟩
  ihave HR' := hsplit $$ HR
  icases HR' with ⟨HRm, Hacc⟩
  iapply (body_run0 𝒱₀ c Set.univ (grid8.coords t) ((coord1 t).trans h) _ _ _ _ _ _ _ _ _ _ _ _ _ _ _ _ _ _
    (blockAt c A 0 t) (blockAt c A 1 t) (blockAt c A 2 t) (blockAt c A 3 t) (blockAt c A 4 t) (blockAt c A 5 t) (blockAt c A 6 t)
    ((dat c A q R Rm O B).before 7 t d7) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hacc]; · iexact Hacc
  iintro ⟨H0, H1, H2, H3, H4, H5, H6, H7, Hacc⟩
  isplitl [HRm Hacc]
  · isplitl [HRm]; · iexact HRm
    iexact Hacc
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexists d7; iexact H7

/-- The body at the second point t of a pair: the accumulator, at the first point's sum, gets this point's sum added
    and is copied to the output block; it goes back into R at contents no longer named. -/
theorem at_odd (𝒱₀ : Variants) (ι : Ix) (c : Dev nD) (A : (w : Fin cfg8.W) → Buf (Elt F) ((cfg8.win w).arr.view.loc (c.tc : Thread nD τ)))
    (q : Fin cfg8.W → PosShare TreeShare) (R Rm : sProp 𝕄) (O : CellTallies nD τ sig Ix) (B : Set (SemLoc sig × Ix))
    (hjoin : iprop(Rm ∗ ∃ d, owns (c : Thread nD τ) accRef fullShare d) ⊢ R) (t : Fin cfg8.N) (h : t.val % 2 = 1) :
    iprop((dat c A q R Rm O B).Φ t.castSucc ∗ (dat c A q R Rm O B).owesAt ι t.castSucc
        ∗ (∃ d, owns (c : Thread nD τ) (st8_0 t) fullShare ((dat c A q R Rm O B).before 0 t d))
        ∗ (∃ d, owns (c : Thread nD τ) (st8_1 t) fullShare ((dat c A q R Rm O B).before 1 t d))
        ∗ (∃ d, owns (c : Thread nD τ) (st8_2 t) fullShare ((dat c A q R Rm O B).before 2 t d))
        ∗ (∃ d, owns (c : Thread nD τ) (st8_3 t) fullShare ((dat c A q R Rm O B).before 3 t d))
        ∗ (∃ d, owns (c : Thread nD τ) (st8_4 t) fullShare ((dat c A q R Rm O B).before 4 t d))
        ∗ (∃ d, owns (c : Thread nD τ) (st8_5 t) fullShare ((dat c A q R Rm O B).before 5 t d))
        ∗ (∃ d, owns (c : Thread nD τ) (st8_6 t) fullShare ((dat c A q R Rm O B).before 6 t d))
        ∗ (∃ d, owns (c : Thread nD τ) (st8_7 t) fullShare ((dat c A q R Rm O B).before 7 t d)))
      ⊢ wp frame (wpE (defs₀ (F := F)) 𝒱₀ c none) Set.univ (bodyAt8 t) fun _ =>
          iprop((dat c A q R Rm O B).Φ t.succ ∗ (dat c A q R Rm O B).owesAt ι t.succ
            ∗ owns (c : Thread nD τ) (st8_0 t) fullShare ((dat c A q R Rm O B).after 0 t)
            ∗ owns (c : Thread nD τ) (st8_1 t) fullShare ((dat c A q R Rm O B).after 1 t)
            ∗ owns (c : Thread nD τ) (st8_2 t) fullShare ((dat c A q R Rm O B).after 2 t)
            ∗ owns (c : Thread nD τ) (st8_3 t) fullShare ((dat c A q R Rm O B).after 3 t)
            ∗ owns (c : Thread nD τ) (st8_4 t) fullShare ((dat c A q R Rm O B).after 4 t)
            ∗ owns (c : Thread nD τ) (st8_5 t) fullShare ((dat c A q R Rm O B).after 5 t)
            ∗ owns (c : Thread nD τ) (st8_6 t) fullShare ((dat c A q R Rm O B).after 6 t)
            ∗ owns (c : Thread nD τ) (st8_7 t) fullShare ((dat c A q R Rm O B).after 7 t)) := by
  simp only [before_in0, before_in1, before_in2, before_in3, before_in4, before_in5, before_in6]
  rw [inv_mid' c A q O B R Rm t h, inv_last c A q O B R Rm t h,
    show (dat c A q R Rm O B).owesAt ι t.succ = (dat c A q R Rm O B).owesAt ι t.castSucc from rfl,
    after_in0, after_in1, after_in2, after_in3, after_in4, after_in5, after_in6, after_out]
  iintro ⟨⟨HRm, Hacc⟩, HO, ⟨%d0, H0⟩, ⟨%d1, H1⟩, ⟨%d2, H2⟩, ⟨%d3, H3⟩, ⟨%d4, H4⟩, ⟨%d5, H5⟩, ⟨%d6, H6⟩, ⟨%d7, H7⟩⟩
  iapply (body_run1 𝒱₀ c Set.univ (grid8.coords t) ((coord1 t).trans h) _ _ _ _ _ _ _ _ _ _ _ _ _ _ _ _ _ _
    (blockAt c A 0 t) (blockAt c A 1 t) (blockAt c A 2 t) (blockAt c A 3 t) (blockAt c A 4 t) (blockAt c A 5 t) (blockAt c A 6 t)
    (accFirst c A (prev t)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [Hacc]; · iexact Hacc
  iintro ⟨H0, H1, H2, H3, H4, H5, H6, H7, Hacc⟩
  isplitl [HRm Hacc]
  · iapply hjoin
    isplitl [HRm]; · iexact HRm
    iexists _; iexact Hacc
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body at any point t, the eight windows written out; the output window's clause is the rule's own: what the
    window held, where it rests and is not written back; what the body leaves, elsewhere. -/
theorem at_point (𝒱₀ : Variants) (ι : Ix) (c : Dev nD) (A : (w : Fin cfg8.W) → Buf (Elt F) ((cfg8.win w).arr.view.loc (c.tc : Thread nD τ)))
    (q : Fin cfg8.W → PosShare TreeShare) (R Rm : sProp 𝕄) (O : CellTallies nD τ sig Ix) (B : Set (SemLoc sig × Ix))
    (hsplit : R ⊢ iprop(Rm ∗ ∃ d, owns (c : Thread nD τ) accRef fullShare d))
    (hjoin : iprop(Rm ∗ ∃ d, owns (c : Thread nD τ) accRef fullShare d) ⊢ R) (t : Fin cfg8.N) :
    iprop((dat c A q R Rm O B).Φ t.castSucc ∗ (dat c A q R Rm O B).owesAt ι t.castSucc
        ∗ (∃ d, owns (c : Thread nD τ) (st8_0 t) fullShare ((dat c A q R Rm O B).before 0 t d))
        ∗ (∃ d, owns (c : Thread nD τ) (st8_1 t) fullShare ((dat c A q R Rm O B).before 1 t d))
        ∗ (∃ d, owns (c : Thread nD τ) (st8_2 t) fullShare ((dat c A q R Rm O B).before 2 t d))
        ∗ (∃ d, owns (c : Thread nD τ) (st8_3 t) fullShare ((dat c A q R Rm O B).before 3 t d))
        ∗ (∃ d, owns (c : Thread nD τ) (st8_4 t) fullShare ((dat c A q R Rm O B).before 4 t d))
        ∗ (∃ d, owns (c : Thread nD τ) (st8_5 t) fullShare ((dat c A q R Rm O B).before 5 t d))
        ∗ (∃ d, owns (c : Thread nD τ) (st8_6 t) fullShare ((dat c A q R Rm O B).before 6 t d))
        ∗ (∃ d, owns (c : Thread nD τ) (st8_7 t) fullShare ((dat c A q R Rm O B).before 7 t d)))
      ⊢ wp frame (wpE (defs₀ (F := F)) 𝒱₀ c none) Set.univ (bodyAt8 t) fun _ =>
          iprop((dat c A q R Rm O B).Φ t.succ ∗ (dat c A q R Rm O B).owesAt ι t.succ
            ∗ owns (c : Thread nD τ) (st8_0 t) fullShare ((dat c A q R Rm O B).after 0 t)
            ∗ owns (c : Thread nD τ) (st8_1 t) fullShare ((dat c A q R Rm O B).after 1 t)
            ∗ owns (c : Thread nD τ) (st8_2 t) fullShare ((dat c A q R Rm O B).after 2 t)
            ∗ owns (c : Thread nD τ) (st8_3 t) fullShare ((dat c A q R Rm O B).after 3 t)
            ∗ owns (c : Thread nD τ) (st8_4 t) fullShare ((dat c A q R Rm O B).after 4 t)
            ∗ owns (c : Thread nD τ) (st8_5 t) fullShare ((dat c A q R Rm O B).after 5 t)
            ∗ owns (c : Thread nD τ) (st8_6 t) fullShare ((dat c A q R Rm O B).after 6 t)
            ∗ (match cfg8.idle 7 (cfg8.grid.coords t) with
              | true =>
                match (cfg8.win 7).flush t with
                | false => iprop(∃ d, owns (c : Thread nD τ) (st8_7 t) fullShare ((dat c A q R Rm O B).before 7 t d))
                | true => owns (c : Thread nD τ) (st8_7 t) fullShare ((dat c A q R Rm O B).after 7 t)
              | false => owns (c : Thread nD τ) (st8_7 t) fullShare ((dat c A q R Rm O B).after 7 t))) := by
  rcases Nat.mod_two_eq_zero_or_one t.val with h | h
  · have e1 : cfg8.idle 7 (cfg8.grid.coords t) = true := by rw [idle7 t]; exact decide_eq_true h
    have e2 : (cfg8.win 7).flush t = false := by rw [flush7 t]; exact decide_eq_false (by omega)
    rw [e1, e2]
    exact at_even 𝒱₀ ι c A q R Rm O B hsplit t h
  · have e1 : cfg8.idle 7 (cfg8.grid.coords t) = false := by rw [idle7 t]; exact decide_eq_false (by omega)
    rw [e1]
    exact at_odd 𝒱₀ ι c A q R Rm O B hjoin t h

/-- The region rule's hypothesis about the body, at every point of the grid, given that the accumulator can be taken out of
    R and put back. -/
theorem body_obligation (𝒱₀ : Variants) (ι : Ix) (c : Dev nD) (A : (w : Fin cfg8.W) → Buf (Elt F) ((cfg8.win w).arr.view.loc (c.tc : Thread nD τ)))
    (q : Fin cfg8.W → PosShare TreeShare) (R Rm : sProp 𝕄) (O : CellTallies nD τ sig Ix) (B : Set (SemLoc sig × Ix))
    (hsplit : R ⊢ iprop(Rm ∗ ∃ d, owns (c : Thread nD τ) accRef fullShare d))
    (hjoin : iprop(Rm ∗ ∃ d, owns (c : Thread nD τ) accRef fullShare d) ⊢ R) :
    BodyObligation (dat c A q R Rm O B) (defs₀ (F := F)) 𝒱₀ ι Set.univ := fun t => by
  rw [bigSep_W8, bigSep_W8]
  exact at_point 𝒱₀ ι c A q R Rm O B hsplit hjoin t

end Cert.Kernel.Region4B

end
-- ==== Proof.Region4DataK.lean ====
/-
  The first fused region as a segment of @main: its proof data for a segment, read off the valuation the region is
  entered at, meets what a segment asks — the arrays' entry contents are the valuation's, full shares, the tallies and
  the bound of the handshake state at every point, and an invariant that is the scoped rest at every even point, in
  particular at the first and at the last (the accumulator, one of the scoped rest's buffers, is named apart only
  between the two halves of a row of the grid) — and the body's proof is the body file's.
-/
import proofs.«215235_g2774548873965_cont_9to1_572_34_alg».proof.Proof.ScRegionK
import proofs.«215235_g2774548873965_cont_9to1_572_34_alg».proof.Proof.Region4BodyK
import proofs.«215235_g2774548873965_cont_9to1_572_34_alg».proof.Proof.Region1RestK

noncomputable section

namespace Cert.Kernel.Sc

open Cert.Kernel
open Idealize.ShloMosaic Idealize.ShloMosaic.StableHlo Idealize.ShloMosaic.TcCoe
open Idealize.ShloMosaic.SparseCore (S T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F] [∀ e, Nonempty (Elt F e)]

local notation "𝕄" => MT nD τ sig (HIx 4) (Elt F) ℕ UU ℕ

/-- The pipeline this file is about. -/
abbrev pix4 : Fin 6 := 4

/-- The region's arrays at a valuation. -/
def A4 (W : Valuation τ sig (Elt F)) (c : Dev nD) (w : Fin cfg8.W) : Buf (Elt F) ((cfg8.win w).arr.view.loc (c.tc : Thread nD τ)) :=
  valOn W c (Pipeline.arrRef spec8 w)

/-- Its proof data for a segment entered before call n, at a valuation. -/
def dt4 (n : ℕ) (W : Valuation τ sig (Elt F)) (c : Dev nD) : Dat τ (Elt F) (HIx 4) ℕ UU ℕ (Pipeline.pin (pcfgs (F := F)) adm pix4) c :=
  Region4B.dat c (A4 W c) (fun _ => fullShare) (Region1B.rest4 adm c) (Region1B.restNoAcc4 c) ((K (F := F)).Otc c n) (below (F := F) c n)

/-- The grid has an even number of points. -/
theorem N4_even : (Pipeline.pin (pcfgs (F := F)) adm pix4).N % 2 = 0 := by
  show grid8.N % 2 = 0
  rw [Gen.N_8]

/-- What a segment asks of the region's proof data. (The facts about the scoped rest are matched in the proof mode, not by
    unfolding: the accumulator's split and join are restated in the body's own words first.) -/
theorem data4 (n : ℕ) : RegionData (F := F) pix4 n (dt4 n) where
  body W c := by
    have hs : (Region1B.rest4 adm c : sProp 𝕄)
        ⊢ iprop(Region1B.restNoAcc4 c ∗ ∃ d, owns (c : Thread nD τ) Region4B.accRef fullShare d) := by
      with_reducible_and_instances exact Region1B.acc_split4 adm c
    have hj : (iprop(Region1B.restNoAcc4 c ∗ ∃ d, owns (c : Thread nD τ) Region4B.accRef fullShare d) : sProp 𝕄)
        ⊢ Region1B.rest4 adm c := by
      with_reducible_and_instances exact Region1B.acc_join4 adm c
    have hb : Pipeline.BodyObligation (dt4 (F := F) n W c) (defs₀ (F := F)) Variants.none none Set.univ := by
      unfold dt4
      with_reducible_and_instances
        exact Region4B.body_obligation Variants.none none c (A4 W c) (fun _ => fullShare) (Region1B.rest4 adm c) (Region1B.restNoAcc4 c)
          ((K (F := F)).Otc c n) (below (F := F) c n) hs hj
    exact hb.loose
  arrays _ _ _ := rfl
  shares _ _ w := by unfold Pipeline.Dat.share; split <;> rfl
  owed _ _ _ := rfl
  recorded _ _ _ := rfl
  inv_first W c t ht := by
    unfold dt4
    rewrite [Region4B.Phi_even _ _ _ _ _ _ _ t (by omega), Region1B.rest4]
    iintro H; iexact H
  inv_last W c t ht := by
    unfold dt4
    rewrite [Region4B.Phi_even _ _ _ _ _ _ _ t (by rw [ht]; exact N4_even), Region1B.rest4]
    iintro H; iexact H

/-- The region, entered before call n, as a segment of @main. -/
theorem seg_region4_n (n : ℕ) : SegRegion (F := F) pix4 n (Proc.devRef .tc main_v33) := seg_region4_at n _ (data4 n)

/-- Where @main enters it. -/
theorem seg_region4 : SegRegion (F := F) pix4 4 (Proc.devRef .tc main_v33) := seg_region4_n 4

end Cert.Kernel.Sc

end
-- ==== Proof.ScOpenK.lean ====
/-
  Everything the kernel program's frame needed for its ten launches, assembled.

  Regions 0 (y = x·W_in) and 5 (the two dense layers after the sum): body, record, and the passage from the tensor
  core's state between two lines of @main to the record's entry and back. Regions 1 to 4 (the fused filter network,
  product and partial sum over sixteen neighbour slots; a grid of 8 × 2 points, the partial sum carried across the
  second axis in a scratch accumulator that the invariant names between the two points of a pair): the same, the last
  three from the first by renaming. The four tile tasks of the gather calls, likewise the last three from the first.
-/
import proofs.«215235_g2774548873965_cont_9to1_572_34_alg».proof.Proof.ScFrameK
import proofs.«215235_g2774548873965_cont_9to1_572_34_alg».proof.Proof.ScRegionK
import proofs.«215235_g2774548873965_cont_9to1_572_34_alg».proof.Proof.GatherAllK
import proofs.«215235_g2774548873965_cont_9to1_572_34_alg».proof.Proof.Region1DataK
import proofs.«215235_g2774548873965_cont_9to1_572_34_alg».proof.Proof.Region2DataK
import proofs.«215235_g2774548873965_cont_9to1_572_34_alg».proof.Proof.Region3DataK
import proofs.«215235_g2774548873965_cont_9to1_572_34_alg».proof.Proof.Region4DataK

noncomputable section

namespace Cert.Kernel.Sc

open Cert.Kernel
open Idealize.ShloMosaic

variable {F : FTy → Type} [FloatOps F] [∀ e, Nonempty (Elt F e)]

theorem owed : Owed (F := F) :=
  ⟨seg_region0, seg_region1, seg_region2, seg_region3, seg_region4, seg_region5, fun q => tileObl_all facts q⟩

end Cert.Kernel.Sc

end
-- ==== Proof.ScStateV.lean ====
/-
  The region segment, with values: the custom call of region p takes the tensor core's state between two lines to the
  same state at the valuation updated at the region's output array with a named function of the valuation it was
  entered at. Stated for any payload of the calls (a region consults the launch's context only for its level facts).
-/
import proofs.«215235_g2774548873965_cont_9to1_572_34_alg».proof.Proof.ScState

noncomputable section

namespace Cert.KernelIdeal.Sc

open Cert.KernelIdeal
open Idealize.ShloMosaic Idealize.ShloMosaic.StableHlo
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 4) (Elt F) ℕ UU ℕ

def SegRegionV (P' : (K (F := F)).Pay (nD := nD) (Val := Elt F) (Name := ℕ) (U := UU)) (p : Fin 6) (n : ℕ) (out : DevRef τ sig)
    (val : Valuation τ sig (Elt F) → Dev nD → out.ty.Contents (Elt F)) : Prop :=
  ∀ (κ : GSem nD τ sig → ℕ) (d : Dev nD) (W : Valuation τ sig (Elt F)) (Ps : Finset (Fin 6)), p ∈ Ps →
    ∀ {β : Type} (k : PUnit → Prog (TpuEff nD τ sig (Elt F) (SparseCore.Sig (ΛP (F := F)) 4) .tc) β) (Q : β → sProp 𝕄),
      iprop((K (F := F)).ctx EH P' κ ∗ TS (F := F) d n W Ps
          ∗ (TS (F := F) d n (Function.update W out (val W d)) (Ps.erase p)
              -∗ wp frame (wpE ((K (F := F)).defs (D (F := F))) 𝒱 (d.tc : Thread nD τ) none) Set.univ (k ⟨⟩) Q))
        ⊢ wp frame (wpE ((K (F := F)).defs (D (F := F))) 𝒱 (d.tc : Thread nD τ) none) Set.univ
            (Prog.lift (.customCall (SparseCore.inner (Pipeline.entry p)) ()) >>= k) Q

end Cert.KernelIdeal.Sc

end
-- ==== Proof.ScPayV.lean ====
/-
  What the four sparse-core calls are handed and hand back, WITH CONTENTS.

  As in the frame's payload a tile holds a 1/32 share of y, its slab of the call's index array and its 4096 output rows.
  Here the contents are named: y at C.y, the index array of call q at C.ix q — both fixed before the run, as functions
  of the launch memory — and, afterwards, the output rows at the gather: output row e = 4096·w + 128·j + r (tile w,
  chunk j, lane r) holds row  idx[w, j, r]  of y, column by column. Row numbers are read modulo 8192 so that the
  gathered array is defined outright; under the walk's invariant every entry is below 8192 and the reduction is idle.
-/
import proofs.«215235_g2774548873965_cont_9to1_572_34_alg».proof.Proof.ScPay
import Idealize.ShloMosaic.Lib.ValueIdx

noncomputable section

namespace Cert.KernelIdeal.Sc

open Cert.KernelIdeal
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

/-- The contents the calls are handed: y, and each call's index array, per device. -/
structure Conts (F : FTy → Type) where
  y : (d : Dev nD) → Buf (Elt F) (yLoc d)
  ix0 : (d : Dev nD) → Buf (Elt F) (ixLoc0 d)
  ix1 : (d : Dev nD) → Buf (Elt F) (ixLoc1 d)
  ix2 : (d : Dev nD) → Buf (Elt F) (ixLoc2 d)
  ix3 : (d : Dev nD) → Buf (Elt F) (ixLoc3 d)

/-- The index entry that output row e of a call reads: tile e / 4096, chunk (e % 4096) / 128, lane e % 128. -/
def srcIdx (e : Fin 131072) : S32x32x128.Idx :=
  ValueIdx.ix3 (⟨e.val / 4096, by omega⟩ : Fin 32) (⟨e.val % 4096 / 128, by omega⟩ : Fin 32) (⟨e.val % 128, by omega⟩ : Fin 128)

/-- Call 0's output array after the call: row e is row idx[e] (mod 8192) of y. -/
def gath0 (C : Conts F) (d : Dev nD) : Buf (Elt F) (oLoc0 d) :=
  fun i => C.y d (ValueIdx.ix2 (⟨(C.ix0 d (srcIdx (i 0))).toNat % 8192, Nat.mod_lt _ (by decide)⟩ : Fin 8192) (i 1))

/-- What tile w of call 0 is handed: its share of y, its slab, its output rows at contents not named. -/
def shareIn0 (C : Conts F) (d : Dev nD) (w : Fin 32) : sProp 𝕄 :=
  iprop((yLoc d ↦{ysh w} C.y d) ∗ (ixLoc0 d ↦[(slabRect w).set]{fullShare} C.ix0 d) ∗ ∃ fo, oLoc0 d ↦[(rowsRect w).set]{fullShare} fo)
/-- What it hands back: the same, its output rows at the gather. -/
def shareOut0 (C : Conts F) (d : Dev nD) (w : Fin 32) : sProp 𝕄 :=
  iprop((yLoc d ↦{ysh w} C.y d) ∗ (ixLoc0 d ↦[(slabRect w).set]{fullShare} C.ix0 d) ∗ oLoc0 d ↦[(rowsRect w).set]{fullShare} gath0 C d)

/-- Call 1's output array after the call: row e is row idx[e] (mod 8192) of y. -/
def gath1 (C : Conts F) (d : Dev nD) : Buf (Elt F) (oLoc1 d) :=
  fun i => C.y d (ValueIdx.ix2 (⟨(C.ix1 d (srcIdx (i 0))).toNat % 8192, Nat.mod_lt _ (by decide)⟩ : Fin 8192) (i 1))

/-- What tile w of call 1 is handed: its share of y, its slab, its output rows at contents not named. -/
def shareIn1 (C : Conts F) (d : Dev nD) (w : Fin 32) : sProp 𝕄 :=
  iprop((yLoc d ↦{ysh w} C.y d) ∗ (ixLoc1 d ↦[(slabRect w).set]{fullShare} C.ix1 d) ∗ ∃ fo, oLoc1 d ↦[(rowsRect w).set]{fullShare} fo)
/-- What it hands back: the same, its output rows at the gather. -/
def shareOut1 (C : Conts F) (d : Dev nD) (w : Fin 32) : sProp 𝕄 :=
  iprop((yLoc d ↦{ysh w} C.y d) ∗ (ixLoc1 d ↦[(slabRect w).set]{fullShare} C.ix1 d) ∗ oLoc1 d ↦[(rowsRect w).set]{fullShare} gath1 C d)

/-- Call 2's output array after the call: row e is row idx[e] (mod 8192) of y. -/
def gath2 (C : Conts F) (d : Dev nD) : Buf (Elt F) (oLoc2 d) :=
  fun i => C.y d (ValueIdx.ix2 (⟨(C.ix2 d (srcIdx (i 0))).toNat % 8192, Nat.mod_lt _ (by decide)⟩ : Fin 8192) (i 1))

/-- What tile w of call 2 is handed: its share of y, its slab, its output rows at contents not named. -/
def shareIn2 (C : Conts F) (d : Dev nD) (w : Fin 32) : sProp 𝕄 :=
  iprop((yLoc d ↦{ysh w} C.y d) ∗ (ixLoc2 d ↦[(slabRect w).set]{fullShare} C.ix2 d) ∗ ∃ fo, oLoc2 d ↦[(rowsRect w).set]{fullShare} fo)
/-- What it hands back: the same, its output rows at the gather. -/
def shareOut2 (C : Conts F) (d : Dev nD) (w : Fin 32) : sProp 𝕄 :=
  iprop((yLoc d ↦{ysh w} C.y d) ∗ (ixLoc2 d ↦[(slabRect w).set]{fullShare} C.ix2 d) ∗ oLoc2 d ↦[(rowsRect w).set]{fullShare} gath2 C d)

/-- Call 3's output array after the call: row e is row idx[e] (mod 8192) of y. -/
def gath3 (C : Conts F) (d : Dev nD) : Buf (Elt F) (oLoc3 d) :=
  fun i => C.y d (ValueIdx.ix2 (⟨(C.ix3 d (srcIdx (i 0))).toNat % 8192, Nat.mod_lt _ (by decide)⟩ : Fin 8192) (i 1))

/-- What tile w of call 3 is handed: its share of y, its slab, its output rows at contents not named. -/
def shareIn3 (C : Conts F) (d : Dev nD) (w : Fin 32) : sProp 𝕄 :=
  iprop((yLoc d ↦{ysh w} C.y d) ∗ (ixLoc3 d ↦[(slabRect w).set]{fullShare} C.ix3 d) ∗ ∃ fo, oLoc3 d ↦[(rowsRect w).set]{fullShare} fo)
/-- What it hands back: the same, its output rows at the gather. -/
def shareOut3 (C : Conts F) (d : Dev nD) (w : Fin 32) : sProp 𝕄 :=
  iprop((yLoc d ↦{ysh w} C.y d) ∗ (ixLoc3 d ↦[(slabRect w).set]{fullShare} C.ix3 d) ∗ oLoc3 d ↦[(rowsRect w).set]{fullShare} gath3 C d)

def shareIn (C : Conts F) : Fin 4 → Dev nD → Fin 32 → sProp 𝕄
  | 0 => shareIn0 C | 1 => shareIn1 C | 2 => shareIn2 C | 3 => shareIn3 C
def shareOut (C : Conts F) : Fin 4 → Dev nD → Fin 32 → sProp 𝕄
  | 0 => shareOut0 C | 1 => shareOut1 C | 2 => shareOut2 C | 3 => shareOut3 C

def tileIn (C : Conts F) (q : Fin 4) (d : Dev nD) (c : Fin ((K (F := F)).nCore q)) (i : Fin ((K (F := F)).nSub q)) : sProp 𝕄 :=
  shareIn C q d (wid (Fin.cast (nCore_eq q) c) (Fin.cast (nSub_eq q) i))
def tileOut (C : Conts F) (q : Fin 4) (d : Dev nD) (c : Fin ((K (F := F)).nCore q)) (i : Fin ((K (F := F)).nSub q)) : sProp 𝕄 :=
  shareOut C q d (wid (Fin.cast (nCore_eq q) c) (Fin.cast (nSub_eq q) i))

/-- The calls' payload with contents. -/
def PV (C : Conts F) : (K (F := F)).Pay (nD := nD) (Val := Elt F) (Name := ℕ) (U := UU) where
  st := fun q d c => bigSep Finset.univ fun i => tileIn C q d c i
  dn := fun q d c => bigSep Finset.univ fun i => tileOut C q d c i
  go := fun q d c i => tileIn C q d c i
  td := fun q d c i => tileOut C q d c i
  x := fun _ _ => iprop(emp)

end Cert.KernelIdeal.Sc

end
-- ==== Proof.ScSplitV.lean ====
/-
  The cutting and the gluing at a sparse-core call, with contents.

  As in the frame's version, the three whole arrays are cut among the 32 workers before the call and glued back after
  it; here y and the index array are at named contents throughout, so nothing has to agree afterwards: every step is an
  equation read forwards before the call and backwards after it, the output array coming back whole at the gather.
-/
import proofs.«215235_g2774548873965_cont_9to1_572_34_alg».proof.Proof.ScPayV
import proofs.«215235_g2774548873965_cont_9to1_572_34_alg».proof.Proof.ScSplit

noncomputable section

namespace Cert.KernelIdeal.Sc

open Cert.KernelIdeal
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

/-! ## Call 0 -/

/-- One worker's three pieces of call 0, y and its slab at the named contents, are what it is handed. -/
theorem workerIn0 (C : Conts F) (d : Dev nD) (w : Fin 32) (fo : Buf (Elt F) (oLoc0 d)) :
    iprop((yLoc d ↦{ysh w} C.y d) ∗ (ixLoc0 d ↦[(slabRect w).set]{fullShare} C.ix0 d) ∗ (oLoc0 d ↦[(rowsRect w).set]{fullShare} fo))
      ⊢ (shareIn0 C d w : sProp 𝕄) := by
  unfold shareIn0
  iintro ⟨Hy, Hi, Ho⟩
  isplitl [Hy]
  · iexact Hy
  isplitl [Hi]
  · iexact Hi
  · iexists fo; iexact Ho

/-- CUTTING, call 0, with contents. -/
theorem split_call0V (C : Conts F) (d : Dev nD) (fo : Buf (Elt F) (oLoc0 d)) :
    iprop((yLoc d ↦{fullShare} C.y d) ∗ (ixLoc0 d ↦{fullShare} C.ix0 d) ∗ (oLoc0 d ↦{fullShare} fo))
      ⊢ (bigSep Finset.univ fun c : Fin ((K (F := F)).nCore 0) => (PV C).st 0 d c : sProp 𝕄) := by
  show _ ⊢ (bigSep Finset.univ fun c : Fin ((K (F := F)).nCore 0) => bigSep Finset.univ fun i : Fin ((K (F := F)).nSub 0) =>
      shareIn0 C d (wid (Fin.cast (nCore_eq 0) c) (Fin.cast (nSub_eq 0) i)) : sProp 𝕄)
  rw [bigSep_workers (F := F) 0 (fun w => shareIn0 C d w),
    pointsTo_shareAt Finset.univ (C.y d) 5 fullShare, ix0_slabs d (C.ix0 d), o0_rows d fo, ← bigSep_sep', ← bigSep_sep']
  exact bigSep_mono fun w _ => workerIn0 C d w fo

/-- GLUING, call 0, with contents: the three arrays come back whole, y and the index array as they were, the output
    array at the gather. -/
theorem join_call0V (C : Conts F) (d : Dev nD) :
    (bigSep Finset.univ fun c : Fin ((K (F := F)).nCore 0) => (PV C).dn 0 d c : sProp 𝕄)
      ⊢ iprop((yLoc d ↦{fullShare} C.y d) ∗ (ixLoc0 d ↦{fullShare} C.ix0 d) ∗ (oLoc0 d ↦{fullShare} gath0 C d)) := by
  show (bigSep Finset.univ fun c : Fin ((K (F := F)).nCore 0) => bigSep Finset.univ fun i : Fin ((K (F := F)).nSub 0) =>
      shareOut0 C d (wid (Fin.cast (nCore_eq 0) c) (Fin.cast (nSub_eq 0) i)) : sProp 𝕄) ⊢ _
  rw [bigSep_workers (F := F) 0 (fun w => shareOut0 C d w)]
  unfold shareOut0
  rw [bigSep_sep', bigSep_sep', pointsTo_shareAt Finset.univ (C.y d) 5 fullShare, ix0_slabs d (C.ix0 d),
    o0_rows d (gath0 C d)]
  iintro H
  iexact H

/-! ## Call 1 -/

/-- One worker's three pieces of call 1, y and its slab at the named contents, are what it is handed. -/
theorem workerIn1 (C : Conts F) (d : Dev nD) (w : Fin 32) (fo : Buf (Elt F) (oLoc1 d)) :
    iprop((yLoc d ↦{ysh w} C.y d) ∗ (ixLoc1 d ↦[(slabRect w).set]{fullShare} C.ix1 d) ∗ (oLoc1 d ↦[(rowsRect w).set]{fullShare} fo))
      ⊢ (shareIn1 C d w : sProp 𝕄) := by
  unfold shareIn1
  iintro ⟨Hy, Hi, Ho⟩
  isplitl [Hy]
  · iexact Hy
  isplitl [Hi]
  · iexact Hi
  · iexists fo; iexact Ho

/-- CUTTING, call 1, with contents. -/
theorem split_call1V (C : Conts F) (d : Dev nD) (fo : Buf (Elt F) (oLoc1 d)) :
    iprop((yLoc d ↦{fullShare} C.y d) ∗ (ixLoc1 d ↦{fullShare} C.ix1 d) ∗ (oLoc1 d ↦{fullShare} fo))
      ⊢ (bigSep Finset.univ fun c : Fin ((K (F := F)).nCore 1) => (PV C).st 1 d c : sProp 𝕄) := by
  show _ ⊢ (bigSep Finset.univ fun c : Fin ((K (F := F)).nCore 1) => bigSep Finset.univ fun i : Fin ((K (F := F)).nSub 1) =>
      shareIn1 C d (wid (Fin.cast (nCore_eq 1) c) (Fin.cast (nSub_eq 1) i)) : sProp 𝕄)
  rw [bigSep_workers (F := F) 1 (fun w => shareIn1 C d w),
    pointsTo_shareAt Finset.univ (C.y d) 5 fullShare, ix1_slabs d (C.ix1 d), o1_rows d fo, ← bigSep_sep', ← bigSep_sep']
  exact bigSep_mono fun w _ => workerIn1 C d w fo

/-- GLUING, call 1, with contents: the three arrays come back whole, y and the index array as they were, the output
    array at the gather. -/
theorem join_call1V (C : Conts F) (d : Dev nD) :
    (bigSep Finset.univ fun c : Fin ((K (F := F)).nCore 1) => (PV C).dn 1 d c : sProp 𝕄)
      ⊢ iprop((yLoc d ↦{fullShare} C.y d) ∗ (ixLoc1 d ↦{fullShare} C.ix1 d) ∗ (oLoc1 d ↦{fullShare} gath1 C d)) := by
  show (bigSep Finset.univ fun c : Fin ((K (F := F)).nCore 1) => bigSep Finset.univ fun i : Fin ((K (F := F)).nSub 1) =>
      shareOut1 C d (wid (Fin.cast (nCore_eq 1) c) (Fin.cast (nSub_eq 1) i)) : sProp 𝕄) ⊢ _
  rw [bigSep_workers (F := F) 1 (fun w => shareOut1 C d w)]
  unfold shareOut1
  rw [bigSep_sep', bigSep_sep', pointsTo_shareAt Finset.univ (C.y d) 5 fullShare, ix1_slabs d (C.ix1 d),
    o1_rows d (gath1 C d)]
  iintro H
  iexact H

/-! ## Call 2 -/

/-- One worker's three pieces of call 2, y and its slab at the named contents, are what it is handed. -/
theorem workerIn2 (C : Conts F) (d : Dev nD) (w : Fin 32) (fo : Buf (Elt F) (oLoc2 d)) :
    iprop((yLoc d ↦{ysh w} C.y d) ∗ (ixLoc2 d ↦[(slabRect w).set]{fullShare} C.ix2 d) ∗ (oLoc2 d ↦[(rowsRect w).set]{fullShare} fo))
      ⊢ (shareIn2 C d w : sProp 𝕄) := by
  unfold shareIn2
  iintro ⟨Hy, Hi, Ho⟩
  isplitl [Hy]
  · iexact Hy
  isplitl [Hi]
  · iexact Hi
  · iexists fo; iexact Ho

/-- CUTTING, call 2, with contents. -/
theorem split_call2V (C : Conts F) (d : Dev nD) (fo : Buf (Elt F) (oLoc2 d)) :
    iprop((yLoc d ↦{fullShare} C.y d) ∗ (ixLoc2 d ↦{fullShare} C.ix2 d) ∗ (oLoc2 d ↦{fullShare} fo))
      ⊢ (bigSep Finset.univ fun c : Fin ((K (F := F)).nCore 2) => (PV C).st 2 d c : sProp 𝕄) := by
  show _ ⊢ (bigSep Finset.univ fun c : Fin ((K (F := F)).nCore 2) => bigSep Finset.univ fun i : Fin ((K (F := F)).nSub 2) =>
      shareIn2 C d (wid (Fin.cast (nCore_eq 2) c) (Fin.cast (nSub_eq 2) i)) : sProp 𝕄)
  rw [bigSep_workers (F := F) 2 (fun w => shareIn2 C d w),
    pointsTo_shareAt Finset.univ (C.y d) 5 fullShare, ix2_slabs d (C.ix2 d), o2_rows d fo, ← bigSep_sep', ← bigSep_sep']
  exact bigSep_mono fun w _ => workerIn2 C d w fo

/-- GLUING, call 2, with contents: the three arrays come back whole, y and the index array as they were, the output
    array at the gather. -/
theorem join_call2V (C : Conts F) (d : Dev nD) :
    (bigSep Finset.univ fun c : Fin ((K (F := F)).nCore 2) => (PV C).dn 2 d c : sProp 𝕄)
      ⊢ iprop((yLoc d ↦{fullShare} C.y d) ∗ (ixLoc2 d ↦{fullShare} C.ix2 d) ∗ (oLoc2 d ↦{fullShare} gath2 C d)) := by
  show (bigSep Finset.univ fun c : Fin ((K (F := F)).nCore 2) => bigSep Finset.univ fun i : Fin ((K (F := F)).nSub 2) =>
      shareOut2 C d (wid (Fin.cast (nCore_eq 2) c) (Fin.cast (nSub_eq 2) i)) : sProp 𝕄) ⊢ _
  rw [bigSep_workers (F := F) 2 (fun w => shareOut2 C d w)]
  unfold shareOut2
  rw [bigSep_sep', bigSep_sep', pointsTo_shareAt Finset.univ (C.y d) 5 fullShare, ix2_slabs d (C.ix2 d),
    o2_rows d (gath2 C d)]
  iintro H
  iexact H

/-! ## Call 3 -/

/-- One worker's three pieces of call 3, y and its slab at the named contents, are what it is handed. -/
theorem workerIn3 (C : Conts F) (d : Dev nD) (w : Fin 32) (fo : Buf (Elt F) (oLoc3 d)) :
    iprop((yLoc d ↦{ysh w} C.y d) ∗ (ixLoc3 d ↦[(slabRect w).set]{fullShare} C.ix3 d) ∗ (oLoc3 d ↦[(rowsRect w).set]{fullShare} fo))
      ⊢ (shareIn3 C d w : sProp 𝕄) := by
  unfold shareIn3
  iintro ⟨Hy, Hi, Ho⟩
  isplitl [Hy]
  · iexact Hy
  isplitl [Hi]
  · iexact Hi
  · iexists fo; iexact Ho

/-- CUTTING, call 3, with contents. -/
theorem split_call3V (C : Conts F) (d : Dev nD) (fo : Buf (Elt F) (oLoc3 d)) :
    iprop((yLoc d ↦{fullShare} C.y d) ∗ (ixLoc3 d ↦{fullShare} C.ix3 d) ∗ (oLoc3 d ↦{fullShare} fo))
      ⊢ (bigSep Finset.univ fun c : Fin ((K (F := F)).nCore 3) => (PV C).st 3 d c : sProp 𝕄) := by
  show _ ⊢ (bigSep Finset.univ fun c : Fin ((K (F := F)).nCore 3) => bigSep Finset.univ fun i : Fin ((K (F := F)).nSub 3) =>
      shareIn3 C d (wid (Fin.cast (nCore_eq 3) c) (Fin.cast (nSub_eq 3) i)) : sProp 𝕄)
  rw [bigSep_workers (F := F) 3 (fun w => shareIn3 C d w),
    pointsTo_shareAt Finset.univ (C.y d) 5 fullShare, ix3_slabs d (C.ix3 d), o3_rows d fo, ← bigSep_sep', ← bigSep_sep']
  exact bigSep_mono fun w _ => workerIn3 C d w fo

/-- GLUING, call 3, with contents: the three arrays come back whole, y and the index array as they were, the output
    array at the gather. -/
theorem join_call3V (C : Conts F) (d : Dev nD) :
    (bigSep Finset.univ fun c : Fin ((K (F := F)).nCore 3) => (PV C).dn 3 d c : sProp 𝕄)
      ⊢ iprop((yLoc d ↦{fullShare} C.y d) ∗ (ixLoc3 d ↦{fullShare} C.ix3 d) ∗ (oLoc3 d ↦{fullShare} gath3 C d)) := by
  show (bigSep Finset.univ fun c : Fin ((K (F := F)).nCore 3) => bigSep Finset.univ fun i : Fin ((K (F := F)).nSub 3) =>
      shareOut3 C d (wid (Fin.cast (nCore_eq 3) c) (Fin.cast (nSub_eq 3) i)) : sProp 𝕄) ⊢ _
  rw [bigSep_workers (F := F) 3 (fun w => shareOut3 C d w)]
  unfold shareOut3
  rw [bigSep_sep', bigSep_sep', pointsTo_shareAt Finset.univ (C.y d) 5 fullShare, ix3_slabs d (C.ix3 d),
    o3_rows d (gath3 C d)]
  iintro H
  iexact H

end Cert.KernelIdeal.Sc

end
-- ==== Proof.ScCallV.lean ====
/-
  A sparse-core call as one step of the tensor core's walk, with contents.

  As in the frame's version the three arrays are taken out of the set of whole arrays, cut, handed to the call, glued back
  and put back. Here y and the index array are at named contents before the call and come back at the same; only the
  output array changes, to the gather. So the valuation after the call is the one before, updated at the output array.
-/
import proofs.«215235_g2774548873965_cont_9to1_572_34_alg».proof.Proof.ScCall
import proofs.«215235_g2774548873965_cont_9to1_572_34_alg».proof.Proof.ScSplitV

noncomputable section

namespace Cert.KernelIdeal.Sc

open Cert.KernelIdeal
open Idealize.ShloMosaic Idealize.ShloMosaic.StableHlo
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 4) (Elt F) ℕ UU ℕ

/-- The output array is one of the three. -/
theorem o_mem_three (y ix o : Ref sig .tc) : Proc.devRef (τ := τ) .tc o ∈ three y ix o :=
  Finset.mem_insert.mpr (Or.inr (Finset.mem_insert.mpr (Or.inr (Finset.mem_singleton.mpr rfl))))

/-! ## Call 0 -/

/-- THE CALL WITH CONTENTS: from the state before call 0 with y and the index array at the named contents, the call
    runs, and what follows it runs from the state before call 1 at the same valuation updated at the output array,
    which holds the gather. -/
theorem seg_call0V (C : Conts F) (κ : GSem nD τ sig → ℕ) (d : Dev nD) (W : Valuation τ sig (Elt F)) (Ps : Finset (Fin 6))
    (hy : W (Proc.devRef .tc main_v1) = C.y d) (hix : W (Proc.devRef .tc main_v19) = C.ix0 d)
    {β : Type} (k : PUnit → Prog (TpuEff nD τ sig (Elt F) (SparseCore.Sig (ΛP (F := F)) 4) .tc) β) (Q : β → sProp 𝕄) :
    iprop((K (F := F)).ctx EH (PV C) κ ∗ TS (F := F) d 0 W Ps
        ∗ (TS (F := F) d 1 (Function.update W (Proc.devRef .tc main_v20) (gath0 C d)) Ps
            -∗ wp frame (wpE ((K (F := F)).defs (D (F := F))) 𝒱 (d.tc : Thread nD τ) none) Set.univ (k ⟨⟩) Q))
      ⊢ wp frame (wpE ((K (F := F)).defs (D (F := F))) 𝒱 (d.tc : Thread nD τ) none) Set.univ ((K (F := F)).run d 0 >>= k) Q := by
  have hsub : three main_v1 main_v19 main_v20 ⊆ Pipeline.ucRefs τ sig := three_sub _ _ _ (by decide) (by decide) (by decide)
  have hyi : main_v1 ≠ main_v19 := by decide
  have hyo : main_v1 ≠ main_v20 := by decide
  have hio : main_v19 ≠ main_v20 := by decide
  have hrest : ∀ b ∈ Pipeline.ucRefs τ sig \ three main_v1 main_v19 main_v20,
      Function.update W (Proc.devRef .tc main_v20) (gath0 C d) b = W b := fun b hb =>
    Function.update_of_ne (fun (e : b = Proc.devRef .tc main_v20) =>
      (Finset.mem_sdiff.mp hb).2 (by rw [e]; exact o_mem_three main_v1 main_v19 main_v20)) _ _
  rw [wp_bind]
  unfold TS
  rw [held_sub_split (d.tc : Thread nD τ) hsub W, held_three d main_v1 main_v19 main_v20 hyi hyo hio W, hy, hix]
  iintro ⟨#Hctx, ⟨Hb, ⟨⟨Hy, Hi, Ho⟩, Hrest⟩, Hst, Hg⟩, Hk⟩
  iapply (SparseCore.Cfg.wp_run (K := K (F := F)) (P := PV C) (D (F := F)) 𝒱 κ d 0)
  isplitr
  · iexact Hctx
  isplitl [Hst]
  · iexact Hst
  isplitl [Hy Hi Ho]
  · iapply (split_call0V C d _)
    isplitl [Hy]
    · iexact Hy
    isplitl [Hi]
    · iexact Hi
    · iexact Ho
  iintro ⟨Hst', Hdn⟩
  ihave Hj := (join_call0V C d) $$ Hdn
  icases Hj with ⟨Hy, Hi, Ho⟩
  iapply Hk
  rw [held_sub_split (d.tc : Thread nD τ) hsub (Function.update W (Proc.devRef .tc main_v20) (gath0 C d)),
    held_three d main_v1 main_v19 main_v20 hyi hyo hio (Function.update W (Proc.devRef .tc main_v20) (gath0 C d)),
    Function.update_of_ne (devRef_ne_of_ne hyo), Function.update_of_ne (devRef_ne_of_ne hio), Function.update_self, hy, hix,
    held_congr (d.tc : Thread nD τ) (V := Function.update W (Proc.devRef .tc main_v20) (gath0 C d)) (V' := W) hrest]
  isplitl [Hb]
  · iexact Hb
  isplitl [Hy Hi Ho Hrest]
  · isplitl [Hy Hi Ho]
    · isplitl [Hy]
      · iexact Hy
      isplitl [Hi]
      · iexact Hi
      · iexact Ho
    · iexact Hrest
  isplitl [Hst']
  · iexact Hst'
  · iexact Hg

/-! ## Call 1 -/

/-- THE CALL WITH CONTENTS: from the state before call 1 with y and the index array at the named contents, the call
    runs, and what follows it runs from the state before call 2 at the same valuation updated at the output array,
    which holds the gather. -/
theorem seg_call1V (C : Conts F) (κ : GSem nD τ sig → ℕ) (d : Dev nD) (W : Valuation τ sig (Elt F)) (Ps : Finset (Fin 6))
    (hy : W (Proc.devRef .tc main_v1) = C.y d) (hix : W (Proc.devRef .tc main_v23) = C.ix1 d)
    {β : Type} (k : PUnit → Prog (TpuEff nD τ sig (Elt F) (SparseCore.Sig (ΛP (F := F)) 4) .tc) β) (Q : β → sProp 𝕄) :
    iprop((K (F := F)).ctx EH (PV C) κ ∗ TS (F := F) d 1 W Ps
        ∗ (TS (F := F) d 2 (Function.update W (Proc.devRef .tc main_v24) (gath1 C d)) Ps
            -∗ wp frame (wpE ((K (F := F)).defs (D (F := F))) 𝒱 (d.tc : Thread nD τ) none) Set.univ (k ⟨⟩) Q))
      ⊢ wp frame (wpE ((K (F := F)).defs (D (F := F))) 𝒱 (d.tc : Thread nD τ) none) Set.univ ((K (F := F)).run d 1 >>= k) Q := by
  have hsub : three main_v1 main_v23 main_v24 ⊆ Pipeline.ucRefs τ sig := three_sub _ _ _ (by decide) (by decide) (by decide)
  have hyi : main_v1 ≠ main_v23 := by decide
  have hyo : main_v1 ≠ main_v24 := by decide
  have hio : main_v23 ≠ main_v24 := by decide
  have hrest : ∀ b ∈ Pipeline.ucRefs τ sig \ three main_v1 main_v23 main_v24,
      Function.update W (Proc.devRef .tc main_v24) (gath1 C d) b = W b := fun b hb =>
    Function.update_of_ne (fun (e : b = Proc.devRef .tc main_v24) =>
      (Finset.mem_sdiff.mp hb).2 (by rw [e]; exact o_mem_three main_v1 main_v23 main_v24)) _ _
  rw [wp_bind]
  unfold TS
  rw [held_sub_split (d.tc : Thread nD τ) hsub W, held_three d main_v1 main_v23 main_v24 hyi hyo hio W, hy, hix]
  iintro ⟨#Hctx, ⟨Hb, ⟨⟨Hy, Hi, Ho⟩, Hrest⟩, Hst, Hg⟩, Hk⟩
  iapply (SparseCore.Cfg.wp_run (K := K (F := F)) (P := PV C) (D (F := F)) 𝒱 κ d 1)
  isplitr
  · iexact Hctx
  isplitl [Hst]
  · iexact Hst
  isplitl [Hy Hi Ho]
  · iapply (split_call1V C d _)
    isplitl [Hy]
    · iexact Hy
    isplitl [Hi]
    · iexact Hi
    · iexact Ho
  iintro ⟨Hst', Hdn⟩
  ihave Hj := (join_call1V C d) $$ Hdn
  icases Hj with ⟨Hy, Hi, Ho⟩
  iapply Hk
  rw [held_sub_split (d.tc : Thread nD τ) hsub (Function.update W (Proc.devRef .tc main_v24) (gath1 C d)),
    held_three d main_v1 main_v23 main_v24 hyi hyo hio (Function.update W (Proc.devRef .tc main_v24) (gath1 C d)),
    Function.update_of_ne (devRef_ne_of_ne hyo), Function.update_of_ne (devRef_ne_of_ne hio), Function.update_self, hy, hix,
    held_congr (d.tc : Thread nD τ) (V := Function.update W (Proc.devRef .tc main_v24) (gath1 C d)) (V' := W) hrest]
  isplitl [Hb]
  · iexact Hb
  isplitl [Hy Hi Ho Hrest]
  · isplitl [Hy Hi Ho]
    · isplitl [Hy]
      · iexact Hy
      isplitl [Hi]
      · iexact Hi
      · iexact Ho
    · iexact Hrest
  isplitl [Hst']
  · iexact Hst'
  · iexact Hg

/-! ## Call 2 -/

/-- THE CALL WITH CONTENTS: from the state before call 2 with y and the index array at the named contents, the call
    runs, and what follows it runs from the state before call 3 at the same valuation updated at the output array,
    which holds the gather. -/
theorem seg_call2V (C : Conts F) (κ : GSem nD τ sig → ℕ) (d : Dev nD) (W : Valuation τ sig (Elt F)) (Ps : Finset (Fin 6))
    (hy : W (Proc.devRef .tc main_v1) = C.y d) (hix : W (Proc.devRef .tc main_v27) = C.ix2 d)
    {β : Type} (k : PUnit → Prog (TpuEff nD τ sig (Elt F) (SparseCore.Sig (ΛP (F := F)) 4) .tc) β) (Q : β → sProp 𝕄) :
    iprop((K (F := F)).ctx EH (PV C) κ ∗ TS (F := F) d 2 W Ps
        ∗ (TS (F := F) d 3 (Function.update W (Proc.devRef .tc main_v28) (gath2 C d)) Ps
            -∗ wp frame (wpE ((K (F := F)).defs (D (F := F))) 𝒱 (d.tc : Thread nD τ) none) Set.univ (k ⟨⟩) Q))
      ⊢ wp frame (wpE ((K (F := F)).defs (D (F := F))) 𝒱 (d.tc : Thread nD τ) none) Set.univ ((K (F := F)).run d 2 >>= k) Q := by
  have hsub : three main_v1 main_v27 main_v28 ⊆ Pipeline.ucRefs τ sig := three_sub _ _ _ (by decide) (by decide) (by decide)
  have hyi : main_v1 ≠ main_v27 := by decide
  have hyo : main_v1 ≠ main_v28 := by decide
  have hio : main_v27 ≠ main_v28 := by decide
  have hrest : ∀ b ∈ Pipeline.ucRefs τ sig \ three main_v1 main_v27 main_v28,
      Function.update W (Proc.devRef .tc main_v28) (gath2 C d) b = W b := fun b hb =>
    Function.update_of_ne (fun (e : b = Proc.devRef .tc main_v28) =>
      (Finset.mem_sdiff.mp hb).2 (by rw [e]; exact o_mem_three main_v1 main_v27 main_v28)) _ _
  rw [wp_bind]
  unfold TS
  rw [held_sub_split (d.tc : Thread nD τ) hsub W, held_three d main_v1 main_v27 main_v28 hyi hyo hio W, hy, hix]
  iintro ⟨#Hctx, ⟨Hb, ⟨⟨Hy, Hi, Ho⟩, Hrest⟩, Hst, Hg⟩, Hk⟩
  iapply (SparseCore.Cfg.wp_run (K := K (F := F)) (P := PV C) (D (F := F)) 𝒱 κ d 2)
  isplitr
  · iexact Hctx
  isplitl [Hst]
  · iexact Hst
  isplitl [Hy Hi Ho]
  · iapply (split_call2V C d _)
    isplitl [Hy]
    · iexact Hy
    isplitl [Hi]
    · iexact Hi
    · iexact Ho
  iintro ⟨Hst', Hdn⟩
  ihave Hj := (join_call2V C d) $$ Hdn
  icases Hj with ⟨Hy, Hi, Ho⟩
  iapply Hk
  rw [held_sub_split (d.tc : Thread nD τ) hsub (Function.update W (Proc.devRef .tc main_v28) (gath2 C d)),
    held_three d main_v1 main_v27 main_v28 hyi hyo hio (Function.update W (Proc.devRef .tc main_v28) (gath2 C d)),
    Function.update_of_ne (devRef_ne_of_ne hyo), Function.update_of_ne (devRef_ne_of_ne hio), Function.update_self, hy, hix,
    held_congr (d.tc : Thread nD τ) (V := Function.update W (Proc.devRef .tc main_v28) (gath2 C d)) (V' := W) hrest]
  isplitl [Hb]
  · iexact Hb
  isplitl [Hy Hi Ho Hrest]
  · isplitl [Hy Hi Ho]
    · isplitl [Hy]
      · iexact Hy
      isplitl [Hi]
      · iexact Hi
      · iexact Ho
    · iexact Hrest
  isplitl [Hst']
  · iexact Hst'
  · iexact Hg

/-! ## Call 3 -/

/-- THE CALL WITH CONTENTS: from the state before call 3 with y and the index array at the named contents, the call
    runs, and what follows it runs from the state before call 4 at the same valuation updated at the output array,
    which holds the gather. -/
theorem seg_call3V (C : Conts F) (κ : GSem nD τ sig → ℕ) (d : Dev nD) (W : Valuation τ sig (Elt F)) (Ps : Finset (Fin 6))
    (hy : W (Proc.devRef .tc main_v1) = C.y d) (hix : W (Proc.devRef .tc main_v31) = C.ix3 d)
    {β : Type} (k : PUnit → Prog (TpuEff nD τ sig (Elt F) (SparseCore.Sig (ΛP (F := F)) 4) .tc) β) (Q : β → sProp 𝕄) :
    iprop((K (F := F)).ctx EH (PV C) κ ∗ TS (F := F) d 3 W Ps
        ∗ (TS (F := F) d 4 (Function.update W (Proc.devRef .tc main_v32) (gath3 C d)) Ps
            -∗ wp frame (wpE ((K (F := F)).defs (D (F := F))) 𝒱 (d.tc : Thread nD τ) none) Set.univ (k ⟨⟩) Q))
      ⊢ wp frame (wpE ((K (F := F)).defs (D (F := F))) 𝒱 (d.tc : Thread nD τ) none) Set.univ ((K (F := F)).run d 3 >>= k) Q := by
  have hsub : three main_v1 main_v31 main_v32 ⊆ Pipeline.ucRefs τ sig := three_sub _ _ _ (by decide) (by decide) (by decide)
  have hyi : main_v1 ≠ main_v31 := by decide
  have hyo : main_v1 ≠ main_v32 := by decide
  have hio : main_v31 ≠ main_v32 := by decide
  have hrest : ∀ b ∈ Pipeline.ucRefs τ sig \ three main_v1 main_v31 main_v32,
      Function.update W (Proc.devRef .tc main_v32) (gath3 C d) b = W b := fun b hb =>
    Function.update_of_ne (fun (e : b = Proc.devRef .tc main_v32) =>
      (Finset.mem_sdiff.mp hb).2 (by rw [e]; exact o_mem_three main_v1 main_v31 main_v32)) _ _
  rw [wp_bind]
  unfold TS
  rw [held_sub_split (d.tc : Thread nD τ) hsub W, held_three d main_v1 main_v31 main_v32 hyi hyo hio W, hy, hix]
  iintro ⟨#Hctx, ⟨Hb, ⟨⟨Hy, Hi, Ho⟩, Hrest⟩, Hst, Hg⟩, Hk⟩
  iapply (SparseCore.Cfg.wp_run (K := K (F := F)) (P := PV C) (D (F := F)) 𝒱 κ d 3)
  isplitr
  · iexact Hctx
  isplitl [Hst]
  · iexact Hst
  isplitl [Hy Hi Ho]
  · iapply (split_call3V C d _)
    isplitl [Hy]
    · iexact Hy
    isplitl [Hi]
    · iexact Hi
    · iexact Ho
  iintro ⟨Hst', Hdn⟩
  ihave Hj := (join_call3V C d) $$ Hdn
  icases Hj with ⟨Hy, Hi, Ho⟩
  iapply Hk
  rw [held_sub_split (d.tc : Thread nD τ) hsub (Function.update W (Proc.devRef .tc main_v32) (gath3 C d)),
    held_three d main_v1 main_v31 main_v32 hyi hyo hio (Function.update W (Proc.devRef .tc main_v32) (gath3 C d)),
    Function.update_of_ne (devRef_ne_of_ne hyo), Function.update_of_ne (devRef_ne_of_ne hio), Function.update_self, hy, hix,
    held_congr (d.tc : Thread nD τ) (V := Function.update W (Proc.devRef .tc main_v32) (gath3 C d)) (V' := W) hrest]
  isplitl [Hb]
  · iexact Hb
  isplitl [Hy Hi Ho Hrest]
  · isplitl [Hy Hi Ho]
    · isplitl [Hy]
      · iexact Hy
      isplitl [Hi]
      · iexact Hi
      · iexact Ho
    · iexact Hrest
  isplitl [Hst']
  · iexact Hst'
  · iexact Hg

end Cert.KernelIdeal.Sc

end
-- ==== Proof.ScFinV.lean ====
/-
  The end of the walk with values: besides the fourteen argument arrays, the result array comes out of the held set,
  at whatever the final valuation gives it.
-/
import proofs.«215235_g2774548873965_cont_9to1_572_34_alg».proof.Proof.ScFin

noncomputable section

namespace Cert.KernelIdeal.Sc

open Cert.KernelIdeal
open Idealize.ShloMosaic Idealize.ShloMosaic.StableHlo
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

/-- The result array is an unscoped array of the tensor core, other than the fourteen arguments. -/
theorem res_mem : Proc.devRef (τ := τ) .tc main_v37 ∈ Pipeline.ucRefs τ sig \ (argSet : Finset (DevRef τ sig)) := by
  rw [Finset.mem_sdiff]
  refine ⟨?_, ?_⟩
  · unfold Pipeline.ucRefs; rw [Finset.mem_filter]; exact ⟨devRef_mem_tcRefs main_v37, by decide⟩
  · simp only [argSet, Finset.mem_insert, Finset.mem_singleton, not_or]
    exact ⟨devRef_ne_of_ne (by decide), devRef_ne_of_ne (by decide), devRef_ne_of_ne (by decide), devRef_ne_of_ne (by decide), devRef_ne_of_ne (by decide), devRef_ne_of_ne (by decide), devRef_ne_of_ne (by decide), devRef_ne_of_ne (by decide), devRef_ne_of_ne (by decide), devRef_ne_of_ne (by decide), devRef_ne_of_ne (by decide), devRef_ne_of_ne (by decide), devRef_ne_of_ne (by decide), devRef_ne_of_ne (by decide)⟩

/-- From everything held at W (agreeing with the launch contents at the arguments): the final assertion and the result. -/
theorem fin_of_heldV (m : (ℓ : Loc nD τ sig) → Buf (Elt F) ℓ) (d : Dev nD) (W : Valuation τ sig (Elt F))
    (hW : ∀ b ∈ argList, W (Proc.devRef .tc b) = launchContents m d (Proc.devRef .tc b)) :
    (held (d.tc : Thread nD τ) (Pipeline.ucRefs τ sig) W : sProp 𝕄)
      ⊢ iprop(FIN m d ∗ ((SparseCore.T d).loc main_v37 ↦{fullShare} W (Proc.devRef .tc main_v37))) := by
  rw [held_sub_split (d.tc : Thread nD τ) argSet_sub W, held_args d W]
  rw [hW main_arg0 (by simp [argList])]
  rw [hW main_arg1 (by simp [argList])]
  rw [hW main_arg2 (by simp [argList])]
  rw [hW main_arg3 (by simp [argList])]
  rw [hW main_arg4 (by simp [argList])]
  rw [hW main_arg5 (by simp [argList])]
  rw [hW main_arg6 (by simp [argList])]
  rw [hW main_arg7 (by simp [argList])]
  rw [hW main_arg8 (by simp [argList])]
  rw [hW main_arg9 (by simp [argList])]
  rw [hW main_arg10 (by simp [argList])]
  rw [hW main_arg11 (by simp [argList])]
  rw [hW main_arg12 (by simp [argList])]
  rw [hW main_arg13 (by simp [argList])]
  have hs : ({Proc.devRef (τ := τ) .tc main_v37} : Finset (DevRef τ sig)) ⊆ Pipeline.ucRefs τ sig \ argSet :=
    Finset.singleton_subset_iff.mpr res_mem
  have e : (held (d.tc : Thread nD τ) ({Proc.devRef (τ := τ) .tc main_v37} : Finset (DevRef τ sig)) W : sProp 𝕄)
      = ((SparseCore.T d).loc main_v37 ↦{fullShare} W (Proc.devRef .tc main_v37)) := by
    unfold held
    rw [bigSep_singleton]
  rw [held_sub_split (d.tc : Thread nD τ) hs W, e]
  iintro ⟨HA, Hr, -⟩
  isplitl [HA]
  · iexact HA
  · iexact Hr

end Cert.KernelIdeal.Sc

end
-- ==== Proof.ScWalkV.lean ====
/-
  @main walked with values.

  The same seventeen segments, but each region leaves its output array at a named function of the valuation it was
  entered at, and each call leaves its output array at the gather of y by its index array. Three facts are carried:
  the argument arrays are at their launch contents; once region 0 has run, y is at the contents the calls' payload
  names; once the twenty host operations have run, the array of offset neighbour indices is at its computed value, so
  each call's index array is the one the payload names. At the end the result array holds the composed value.
-/
import proofs.«215235_g2774548873965_cont_9to1_572_34_alg».proof.Proof.ScStateV
import proofs.«215235_g2774548873965_cont_9to1_572_34_alg».proof.Proof.ScCallV
import proofs.«215235_g2774548873965_cont_9to1_572_34_alg».proof.Proof.HostFacts
import proofs.«215235_g2774548873965_cont_9to1_572_34_alg».proof.Proof.ScFinV

noncomputable section

namespace Cert.KernelIdeal.Sc

open Cert.KernelIdeal
open Idealize.ShloMosaic Idealize.ShloMosaic.StableHlo
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 4) (Elt F) ℕ UU ℕ

variable (C : Conts F)
  (val0 : Valuation τ sig (Elt F) → Dev nD → (Proc.devRef (τ := τ) .tc main_v1).ty.Contents (Elt F))
  (val1 : Valuation τ sig (Elt F) → Dev nD → (Proc.devRef (τ := τ) .tc main_v21).ty.Contents (Elt F))
  (val2 : Valuation τ sig (Elt F) → Dev nD → (Proc.devRef (τ := τ) .tc main_v25).ty.Contents (Elt F))
  (val3 : Valuation τ sig (Elt F) → Dev nD → (Proc.devRef (τ := τ) .tc main_v29).ty.Contents (Elt F))
  (val4 : Valuation τ sig (Elt F) → Dev nD → (Proc.devRef (τ := τ) .tc main_v33).ty.Contents (Elt F))
  (val5 : Valuation τ sig (Elt F) → Dev nD → (Proc.devRef (τ := τ) .tc main_v36).ty.Contents (Elt F))

/-- The valuation at the end of @main, from the launch valuation W0 on device d. -/
def Wfin (d : Dev nD) (W0 : Valuation τ sig (Elt F)) : Valuation τ sig (Elt F) :=
  (after host10 (Function.update (after host9 (Function.update (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) (Proc.devRef .tc main_v33) (val4 (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) d))) (Proc.devRef .tc main_v36) (val5 (after host9 (Function.update (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) (Proc.devRef .tc main_v33) (val4 (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) d))) d)))

set_option maxHeartbeats 8000000 in
set_option maxRecDepth 16384 in
theorem hmain_ofV
    (r0 : SegRegionV (F := F) (PV C) 0 0 (Proc.devRef .tc main_v1) val0)
    (r1 : SegRegionV (F := F) (PV C) 1 1 (Proc.devRef .tc main_v21) val1)
    (r2 : SegRegionV (F := F) (PV C) 2 2 (Proc.devRef .tc main_v25) val2)
    (r3 : SegRegionV (F := F) (PV C) 3 3 (Proc.devRef .tc main_v29) val3)
    (r4 : SegRegionV (F := F) (PV C) 4 4 (Proc.devRef .tc main_v33) val4)
    (r5 : SegRegionV (F := F) (PV C) 5 4 (Proc.devRef .tc main_v36) val5)
    (m : (ℓ : Loc nD τ sig) → Buf (Elt F) ℓ) (ρ : Dev nD → PrngReg)
    (hC : ∀ d, C.y d = val0 (after host0 (launchContents m d)) d)
    (hI0 : ∀ d, C.ix0 d = HostIdx.idxVal 0 (launchContents m d (Proc.devRef .tc main_arg2)))
    (hX1 : ∀ d (W : Valuation τ sig (Elt F)), W (Proc.devRef .tc main_v14) = HostIdx.rowsAll (launchContents m d (Proc.devRef .tc main_arg2)) → after host3 W (Proc.devRef .tc main_v23) = C.ix1 d)
    (hX2 : ∀ d (W : Valuation τ sig (Elt F)), W (Proc.devRef .tc main_v14) = HostIdx.rowsAll (launchContents m d (Proc.devRef .tc main_arg2)) → after host5 W (Proc.devRef .tc main_v27) = C.ix2 d)
    (hX3 : ∀ d (W : Valuation τ sig (Elt F)), W (Proc.devRef .tc main_v14) = HostIdx.rowsAll (launchContents m d (Proc.devRef .tc main_arg2)) → after host7 W (Proc.devRef .tc main_v31) = C.ix3 d)
    (κ : GSem nD τ sig → ℕ) (d : Dev nD) :
    iprop((K (F := F)).ctx EH (PV C) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 4 ∗ FIN m d
            ∗ ((SparseCore.T d).loc main_v37 ↦{fullShare} Wfin C val0 val1 val2 val3 val4 val5 d (launchContents m d) (Proc.devRef .tc main_v37))) := by
  rw [main_eq]
  unfold SparseCore.Cfg.tcRes
  let W0 : Valuation τ sig (Elt F) := launchContents m d
  rw [show (unscopedBufs d (fun b => m ((SparseCore.T d).loc b)) : sProp 𝕄)
      = held (d.tc : Thread nD τ) (Pipeline.ucRefs τ sig) W0 from Pipeline.unscopedBufs_held d W0]
  iintro ⟨#Hctx, Hst, ⟨Hb, Hu, -, -⟩, HG⟩
  ihave HTS : TS (F := F) d 0 W0 Finset.univ $$ [Hb Hu Hst HG]
  · isplitl [Hb]
    · iexact Hb
    isplitl [Hu]
    · iexact Hu
    isplitl [Hst]
    · iexact Hst
    · iexact HG
  have hA : ∀ b ∈ argList, W0 (Proc.devRef .tc b) = launchContents m d (Proc.devRef .tc b) := fun _ _ => rfl
  have hA1 : ∀ b ∈ argList, (after host0 W0) (Proc.devRef .tc b) = launchContents m d (Proc.devRef .tc b) :=
    fun b hb => (host0_keeps (F := F) W0 b ((by decide : ∀ b ∈ argList, b ∉ host0_W) b hb)).trans (hA b hb)
  iapply (seg_host (F := F) d 0 W0 (Finset.univ) host0 host0_sub host0_fresh _ _)
  isplitl [HTS]
  · iexact HTS
  iintro HTS
  clear hA; have hA := hA1
  -- region 0
  iapply (r0 κ d (after host0 W0) (Finset.univ) (by decide) _ _)
  isplitr
  · iexact Hctx
  isplitl [HTS]
  · iexact HTS
  iintro HTS
  have hA2 : ∀ b ∈ argList, (Function.update (after host0 W0) (Proc.devRef .tc main_v1) (val0 (after host0 W0) d)) (Proc.devRef .tc b) = launchContents m d (Proc.devRef .tc b) :=
    fun b hb => (Function.update_of_ne (devRef_ne_of_ne ((by decide : ∀ b ∈ argList, b ≠ main_v1) b hb)) _ _).trans (hA b hb)
  clear hA; have hA := hA2
  have hY : (Function.update (after host0 W0) (Proc.devRef .tc main_v1) (val0 (after host0 W0) d)) (Proc.devRef .tc main_v1) = C.y d := by
    rw [Function.update_self]; exact (hC d).symm
  have hR3 : (after host1 (Function.update (after host0 W0) (Proc.devRef .tc main_v1) (val0 (after host0 W0) d))) (Proc.devRef .tc main_v14) = HostIdx.rowsAll ((Function.update (after host0 W0) (Proc.devRef .tc main_v1) (val0 (after host0 W0) d)) (Proc.devRef .tc main_arg2)) := host1_rowsAll (F := F) (Function.update (after host0 W0) (Proc.devRef .tc main_v1) (val0 (after host0 W0) d))
  have hix0 : (after host1 (Function.update (after host0 W0) (Proc.devRef .tc main_v1) (val0 (after host0 W0) d))) (Proc.devRef .tc main_v19) = C.ix0 d := by
    rw [host1_idxVal (F := F) (Function.update (after host0 W0) (Proc.devRef .tc main_v1) (val0 (after host0 W0) d)), hA main_arg2 (by simp [argList])]; exact (hI0 d).symm
  have hRfull : (after host1 (Function.update (after host0 W0) (Proc.devRef .tc main_v1) (val0 (after host0 W0) d))) (Proc.devRef .tc main_v14) = HostIdx.rowsAll (launchContents m d (Proc.devRef .tc main_arg2)) := by
    rw [hR3, hA main_arg2 (by simp [argList])]
  have hA3 : ∀ b ∈ argList, (after host1 (Function.update (after host0 W0) (Proc.devRef .tc main_v1) (val0 (after host0 W0) d))) (Proc.devRef .tc b) = launchContents m d (Proc.devRef .tc b) :=
    fun b hb => (host1_keeps (F := F) (Function.update (after host0 W0) (Proc.devRef .tc main_v1) (val0 (after host0 W0) d)) b ((by decide : ∀ b ∈ argList, b ∉ host1_W) b hb)).trans (hA b hb)
  have hY3 : (after host1 (Function.update (after host0 W0) (Proc.devRef .tc main_v1) (val0 (after host0 W0) d))) (Proc.devRef .tc main_v1) = C.y d := by
    rw [host1_keeps (F := F) (Function.update (after host0 W0) (Proc.devRef .tc main_v1) (val0 (after host0 W0) d)) main_v1 (by decide)]; exact hY
  iapply (seg_host (F := F) d 0 (Function.update (after host0 W0) (Proc.devRef .tc main_v1) (val0 (after host0 W0) d)) ((Finset.univ).erase 0) host1 host1_sub host1_fresh _ _)
  isplitl [HTS]
  · iexact HTS
  iintro HTS
  clear hA; have hA := hA3
  clear hY; have hY := hY3
  have hR := hRfull
  -- call 0
  iapply (seg_call0V (F := F) C κ d (after host1 (Function.update (after host0 W0) (Proc.devRef .tc main_v1) (val0 (after host0 W0) d))) ((Finset.univ).erase 0) hY hix0 _ _)
  isplitr
  · iexact Hctx
  isplitl [HTS]
  · iexact HTS
  iintro HTS
  have hA4 : ∀ b ∈ argList, (Function.update (after host1 (Function.update (after host0 W0) (Proc.devRef .tc main_v1) (val0 (after host0 W0) d))) (Proc.devRef .tc main_v20) (gath0 C d)) (Proc.devRef .tc b) = launchContents m d (Proc.devRef .tc b) :=
    fun b hb => (Function.update_of_ne (devRef_ne_of_ne ((by decide : ∀ b ∈ argList, b ≠ main_v20) b hb)) _ _).trans (hA b hb)
  clear hA; have hA := hA4
  have hY4 : (Function.update (after host1 (Function.update (after host0 W0) (Proc.devRef .tc main_v1) (val0 (after host0 W0) d))) (Proc.devRef .tc main_v20) (gath0 C d)) (Proc.devRef .tc main_v1) = C.y d := by
    rw [Function.update_of_ne (devRef_ne_of_ne (by decide : main_v1 ≠ main_v20))]; exact hY
  clear hY; have hY := hY4
  have hR4 : (Function.update (after host1 (Function.update (after host0 W0) (Proc.devRef .tc main_v1) (val0 (after host0 W0) d))) (Proc.devRef .tc main_v20) (gath0 C d)) (Proc.devRef .tc main_v14) = HostIdx.rowsAll (launchContents m d (Proc.devRef .tc main_arg2)) := by
    rw [Function.update_of_ne (devRef_ne_of_ne (by decide : main_v14 ≠ main_v20))]; exact hR
  clear hR; have hR := hR4
  have hA5 : ∀ b ∈ argList, (after host2 (Function.update (after host1 (Function.update (after host0 W0) (Proc.devRef .tc main_v1) (val0 (after host0 W0) d))) (Proc.devRef .tc main_v20) (gath0 C d))) (Proc.devRef .tc b) = launchContents m d (Proc.devRef .tc b) :=
    fun b hb => (host2_keeps (F := F) (Function.update (after host1 (Function.update (after host0 W0) (Proc.devRef .tc main_v1) (val0 (after host0 W0) d))) (Proc.devRef .tc main_v20) (gath0 C d)) b ((by decide : ∀ b ∈ argList, b ∉ ([] : List (Ref sig .tc))) b hb)).trans (hA b hb)
  have hY5 : (after host2 (Function.update (after host1 (Function.update (after host0 W0) (Proc.devRef .tc main_v1) (val0 (after host0 W0) d))) (Proc.devRef .tc main_v20) (gath0 C d))) (Proc.devRef .tc main_v1) = C.y d := by
    rw [host2_keeps (F := F) (Function.update (after host1 (Function.update (after host0 W0) (Proc.devRef .tc main_v1) (val0 (after host0 W0) d))) (Proc.devRef .tc main_v20) (gath0 C d)) main_v1 (by decide)]; exact hY
  have hR5 : (after host2 (Function.update (after host1 (Function.update (after host0 W0) (Proc.devRef .tc main_v1) (val0 (after host0 W0) d))) (Proc.devRef .tc main_v20) (gath0 C d))) (Proc.devRef .tc main_v14) = HostIdx.rowsAll (launchContents m d (Proc.devRef .tc main_arg2)) := by
    rw [host2_keeps (F := F) (Function.update (after host1 (Function.update (after host0 W0) (Proc.devRef .tc main_v1) (val0 (after host0 W0) d))) (Proc.devRef .tc main_v20) (gath0 C d)) main_v14 (by decide)]; exact hR
  iapply (seg_host (F := F) d 1 (Function.update (after host1 (Function.update (after host0 W0) (Proc.devRef .tc main_v1) (val0 (after host0 W0) d))) (Proc.devRef .tc main_v20) (gath0 C d)) ((Finset.univ).erase 0) host2 host2_sub host2_fresh _ _)
  isplitl [HTS]
  · iexact HTS
  iintro HTS
  clear hA; have hA := hA5
  clear hY; have hY := hY5
  clear hR; have hR := hR5
  -- region 1
  iapply (r1 κ d (after host2 (Function.update (after host1 (Function.update (after host0 W0) (Proc.devRef .tc main_v1) (val0 (after host0 W0) d))) (Proc.devRef .tc main_v20) (gath0 C d))) ((Finset.univ).erase 0) (by decide) _ _)
  isplitr
  · iexact Hctx
  isplitl [HTS]
  · iexact HTS
  iintro HTS
  have hA6 : ∀ b ∈ argList, (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d)) (Proc.devRef .tc b) = launchContents m d (Proc.devRef .tc b) :=
    fun b hb => (Function.update_of_ne (devRef_ne_of_ne ((by decide : ∀ b ∈ argList, b ≠ main_v21) b hb)) _ _).trans (hA b hb)
  clear hA; have hA := hA6
  have hY6 : (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d)) (Proc.devRef .tc main_v1) = C.y d := by
    rw [Function.update_of_ne (devRef_ne_of_ne (by decide : main_v1 ≠ main_v21))]; exact hY
  clear hY; have hY := hY6
  have hR6 : (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d)) (Proc.devRef .tc main_v14) = HostIdx.rowsAll (launchContents m d (Proc.devRef .tc main_arg2)) := by
    rw [Function.update_of_ne (devRef_ne_of_ne (by decide : main_v14 ≠ main_v21))]; exact hR
  clear hR; have hR := hR6
  have hix1 : (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v23) = C.ix1 d := hX1 d (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d)) hR
  have hA7 : ∀ b ∈ argList, (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc b) = launchContents m d (Proc.devRef .tc b) :=
    fun b hb => (host3_keeps (F := F) (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d)) b ((by decide : ∀ b ∈ argList, b ∉ host3_W) b hb)).trans (hA b hb)
  have hY7 : (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v1) = C.y d := by
    rw [host3_keeps (F := F) (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d)) main_v1 (by decide)]; exact hY
  have hR7 : (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v14) = HostIdx.rowsAll (launchContents m d (Proc.devRef .tc main_arg2)) := by
    rw [host3_keeps (F := F) (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d)) main_v14 (by decide)]; exact hR
  iapply (seg_host (F := F) d 1 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d)) (((Finset.univ).erase 0).erase 1) host3 host3_sub host3_fresh _ _)
  isplitl [HTS]
  · iexact HTS
  iintro HTS
  clear hA; have hA := hA7
  clear hY; have hY := hY7
  clear hR; have hR := hR7
  -- call 1
  iapply (seg_call1V (F := F) C κ d (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (((Finset.univ).erase 0).erase 1) hY hix1 _ _)
  isplitr
  · iexact Hctx
  isplitl [HTS]
  · iexact HTS
  iintro HTS
  have hA8 : ∀ b ∈ argList, (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d)) (Proc.devRef .tc b) = launchContents m d (Proc.devRef .tc b) :=
    fun b hb => (Function.update_of_ne (devRef_ne_of_ne ((by decide : ∀ b ∈ argList, b ≠ main_v24) b hb)) _ _).trans (hA b hb)
  clear hA; have hA := hA8
  have hY8 : (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d)) (Proc.devRef .tc main_v1) = C.y d := by
    rw [Function.update_of_ne (devRef_ne_of_ne (by decide : main_v1 ≠ main_v24))]; exact hY
  clear hY; have hY := hY8
  have hR8 : (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d)) (Proc.devRef .tc main_v14) = HostIdx.rowsAll (launchContents m d (Proc.devRef .tc main_arg2)) := by
    rw [Function.update_of_ne (devRef_ne_of_ne (by decide : main_v14 ≠ main_v24))]; exact hR
  clear hR; have hR := hR8
  have hA9 : ∀ b ∈ argList, (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc b) = launchContents m d (Proc.devRef .tc b) :=
    fun b hb => (host4_keeps (F := F) (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d)) b ((by decide : ∀ b ∈ argList, b ∉ ([] : List (Ref sig .tc))) b hb)).trans (hA b hb)
  have hY9 : (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v1) = C.y d := by
    rw [host4_keeps (F := F) (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d)) main_v1 (by decide)]; exact hY
  have hR9 : (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v14) = HostIdx.rowsAll (launchContents m d (Proc.devRef .tc main_arg2)) := by
    rw [host4_keeps (F := F) (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d)) main_v14 (by decide)]; exact hR
  iapply (seg_host (F := F) d 2 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d)) (((Finset.univ).erase 0).erase 1) host4 host4_sub host4_fresh _ _)
  isplitl [HTS]
  · iexact HTS
  iintro HTS
  clear hA; have hA := hA9
  clear hY; have hY := hY9
  clear hR; have hR := hR9
  -- region 2
  iapply (r2 κ d (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (((Finset.univ).erase 0).erase 1) (by decide) _ _)
  isplitr
  · iexact Hctx
  isplitl [HTS]
  · iexact HTS
  iintro HTS
  have hA10 : ∀ b ∈ argList, (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d)) (Proc.devRef .tc b) = launchContents m d (Proc.devRef .tc b) :=
    fun b hb => (Function.update_of_ne (devRef_ne_of_ne ((by decide : ∀ b ∈ argList, b ≠ main_v25) b hb)) _ _).trans (hA b hb)
  clear hA; have hA := hA10
  have hY10 : (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d)) (Proc.devRef .tc main_v1) = C.y d := by
    rw [Function.update_of_ne (devRef_ne_of_ne (by decide : main_v1 ≠ main_v25))]; exact hY
  clear hY; have hY := hY10
  have hR10 : (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d)) (Proc.devRef .tc main_v14) = HostIdx.rowsAll (launchContents m d (Proc.devRef .tc main_arg2)) := by
    rw [Function.update_of_ne (devRef_ne_of_ne (by decide : main_v14 ≠ main_v25))]; exact hR
  clear hR; have hR := hR10
  have hix2 : (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v27) = C.ix2 d := hX2 d (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d)) hR
  have hA11 : ∀ b ∈ argList, (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc b) = launchContents m d (Proc.devRef .tc b) :=
    fun b hb => (host5_keeps (F := F) (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d)) b ((by decide : ∀ b ∈ argList, b ∉ host5_W) b hb)).trans (hA b hb)
  have hY11 : (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v1) = C.y d := by
    rw [host5_keeps (F := F) (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d)) main_v1 (by decide)]; exact hY
  have hR11 : (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v14) = HostIdx.rowsAll (launchContents m d (Proc.devRef .tc main_arg2)) := by
    rw [host5_keeps (F := F) (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d)) main_v14 (by decide)]; exact hR
  iapply (seg_host (F := F) d 2 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d)) ((((Finset.univ).erase 0).erase 1).erase 2) host5 host5_sub host5_fresh _ _)
  isplitl [HTS]
  · iexact HTS
  iintro HTS
  clear hA; have hA := hA11
  clear hY; have hY := hY11
  clear hR; have hR := hR11
  -- call 2
  iapply (seg_call2V (F := F) C κ d (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) ((((Finset.univ).erase 0).erase 1).erase 2) hY hix2 _ _)
  isplitr
  · iexact Hctx
  isplitl [HTS]
  · iexact HTS
  iintro HTS
  have hA12 : ∀ b ∈ argList, (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d)) (Proc.devRef .tc b) = launchContents m d (Proc.devRef .tc b) :=
    fun b hb => (Function.update_of_ne (devRef_ne_of_ne ((by decide : ∀ b ∈ argList, b ≠ main_v28) b hb)) _ _).trans (hA b hb)
  clear hA; have hA := hA12
  have hY12 : (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d)) (Proc.devRef .tc main_v1) = C.y d := by
    rw [Function.update_of_ne (devRef_ne_of_ne (by decide : main_v1 ≠ main_v28))]; exact hY
  clear hY; have hY := hY12
  have hR12 : (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d)) (Proc.devRef .tc main_v14) = HostIdx.rowsAll (launchContents m d (Proc.devRef .tc main_arg2)) := by
    rw [Function.update_of_ne (devRef_ne_of_ne (by decide : main_v14 ≠ main_v28))]; exact hR
  clear hR; have hR := hR12
  have hA13 : ∀ b ∈ argList, (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc b) = launchContents m d (Proc.devRef .tc b) :=
    fun b hb => (host6_keeps (F := F) (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d)) b ((by decide : ∀ b ∈ argList, b ∉ ([] : List (Ref sig .tc))) b hb)).trans (hA b hb)
  have hY13 : (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v1) = C.y d := by
    rw [host6_keeps (F := F) (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d)) main_v1 (by decide)]; exact hY
  have hR13 : (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v14) = HostIdx.rowsAll (launchContents m d (Proc.devRef .tc main_arg2)) := by
    rw [host6_keeps (F := F) (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d)) main_v14 (by decide)]; exact hR
  iapply (seg_host (F := F) d 3 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d)) ((((Finset.univ).erase 0).erase 1).erase 2) host6 host6_sub host6_fresh _ _)
  isplitl [HTS]
  · iexact HTS
  iintro HTS
  clear hA; have hA := hA13
  clear hY; have hY := hY13
  clear hR; have hR := hR13
  -- region 3
  iapply (r3 κ d (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) ((((Finset.univ).erase 0).erase 1).erase 2) (by decide) _ _)
  isplitr
  · iexact Hctx
  isplitl [HTS]
  · iexact HTS
  iintro HTS
  have hA14 : ∀ b ∈ argList, (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d)) (Proc.devRef .tc b) = launchContents m d (Proc.devRef .tc b) :=
    fun b hb => (Function.update_of_ne (devRef_ne_of_ne ((by decide : ∀ b ∈ argList, b ≠ main_v29) b hb)) _ _).trans (hA b hb)
  clear hA; have hA := hA14
  have hY14 : (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d)) (Proc.devRef .tc main_v1) = C.y d := by
    rw [Function.update_of_ne (devRef_ne_of_ne (by decide : main_v1 ≠ main_v29))]; exact hY
  clear hY; have hY := hY14
  have hR14 : (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d)) (Proc.devRef .tc main_v14) = HostIdx.rowsAll (launchContents m d (Proc.devRef .tc main_arg2)) := by
    rw [Function.update_of_ne (devRef_ne_of_ne (by decide : main_v14 ≠ main_v29))]; exact hR
  clear hR; have hR := hR14
  have hix3 : (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v31) = C.ix3 d := hX3 d (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d)) hR
  have hA15 : ∀ b ∈ argList, (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc b) = launchContents m d (Proc.devRef .tc b) :=
    fun b hb => (host7_keeps (F := F) (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d)) b ((by decide : ∀ b ∈ argList, b ∉ host7_W) b hb)).trans (hA b hb)
  have hY15 : (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v1) = C.y d := by
    rw [host7_keeps (F := F) (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d)) main_v1 (by decide)]; exact hY
  have hR15 : (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v14) = HostIdx.rowsAll (launchContents m d (Proc.devRef .tc main_arg2)) := by
    rw [host7_keeps (F := F) (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d)) main_v14 (by decide)]; exact hR
  iapply (seg_host (F := F) d 3 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d)) (((((Finset.univ).erase 0).erase 1).erase 2).erase 3) host7 host7_sub host7_fresh _ _)
  isplitl [HTS]
  · iexact HTS
  iintro HTS
  clear hA; have hA := hA15
  clear hY; have hY := hY15
  clear hR; have hR := hR15
  -- call 3
  iapply (seg_call3V (F := F) C κ d (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (((((Finset.univ).erase 0).erase 1).erase 2).erase 3) hY hix3 _ _)
  isplitr
  · iexact Hctx
  isplitl [HTS]
  · iexact HTS
  iintro HTS
  have hA16 : ∀ b ∈ argList, (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d)) (Proc.devRef .tc b) = launchContents m d (Proc.devRef .tc b) :=
    fun b hb => (Function.update_of_ne (devRef_ne_of_ne ((by decide : ∀ b ∈ argList, b ≠ main_v32) b hb)) _ _).trans (hA b hb)
  clear hA; have hA := hA16
  have hY16 : (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d)) (Proc.devRef .tc main_v1) = C.y d := by
    rw [Function.update_of_ne (devRef_ne_of_ne (by decide : main_v1 ≠ main_v32))]; exact hY
  clear hY; have hY := hY16
  have hR16 : (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d)) (Proc.devRef .tc main_v14) = HostIdx.rowsAll (launchContents m d (Proc.devRef .tc main_arg2)) := by
    rw [Function.update_of_ne (devRef_ne_of_ne (by decide : main_v14 ≠ main_v32))]; exact hR
  clear hR; have hR := hR16
  have hA17 : ∀ b ∈ argList, (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) (Proc.devRef .tc b) = launchContents m d (Proc.devRef .tc b) :=
    fun b hb => (host8_keeps (F := F) (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d)) b ((by decide : ∀ b ∈ argList, b ∉ ([] : List (Ref sig .tc))) b hb)).trans (hA b hb)
  have hY17 : (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) (Proc.devRef .tc main_v1) = C.y d := by
    rw [host8_keeps (F := F) (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d)) main_v1 (by decide)]; exact hY
  have hR17 : (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) (Proc.devRef .tc main_v14) = HostIdx.rowsAll (launchContents m d (Proc.devRef .tc main_arg2)) := by
    rw [host8_keeps (F := F) (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d)) main_v14 (by decide)]; exact hR
  iapply (seg_host (F := F) d 4 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d)) (((((Finset.univ).erase 0).erase 1).erase 2).erase 3) host8 host8_sub host8_fresh _ _)
  isplitl [HTS]
  · iexact HTS
  iintro HTS
  clear hA; have hA := hA17
  clear hY; have hY := hY17
  clear hR; have hR := hR17
  -- region 4
  iapply (r4 κ d (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) (((((Finset.univ).erase 0).erase 1).erase 2).erase 3) (by decide) _ _)
  isplitr
  · iexact Hctx
  isplitl [HTS]
  · iexact HTS
  iintro HTS
  have hA18 : ∀ b ∈ argList, (Function.update (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) (Proc.devRef .tc main_v33) (val4 (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) d)) (Proc.devRef .tc b) = launchContents m d (Proc.devRef .tc b) :=
    fun b hb => (Function.update_of_ne (devRef_ne_of_ne ((by decide : ∀ b ∈ argList, b ≠ main_v33) b hb)) _ _).trans (hA b hb)
  clear hA; have hA := hA18
  have hY18 : (Function.update (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) (Proc.devRef .tc main_v33) (val4 (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) d)) (Proc.devRef .tc main_v1) = C.y d := by
    rw [Function.update_of_ne (devRef_ne_of_ne (by decide : main_v1 ≠ main_v33))]; exact hY
  clear hY; have hY := hY18
  have hR18 : (Function.update (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) (Proc.devRef .tc main_v33) (val4 (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) d)) (Proc.devRef .tc main_v14) = HostIdx.rowsAll (launchContents m d (Proc.devRef .tc main_arg2)) := by
    rw [Function.update_of_ne (devRef_ne_of_ne (by decide : main_v14 ≠ main_v33))]; exact hR
  clear hR; have hR := hR18
  have hA19 : ∀ b ∈ argList, (after host9 (Function.update (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) (Proc.devRef .tc main_v33) (val4 (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) d))) (Proc.devRef .tc b) = launchContents m d (Proc.devRef .tc b) :=
    fun b hb => (host9_keeps (F := F) (Function.update (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) (Proc.devRef .tc main_v33) (val4 (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) d)) b ((by decide : ∀ b ∈ argList, b ∉ host9_W) b hb)).trans (hA b hb)
  have hY19 : (after host9 (Function.update (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) (Proc.devRef .tc main_v33) (val4 (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) d))) (Proc.devRef .tc main_v1) = C.y d := by
    rw [host9_keeps (F := F) (Function.update (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) (Proc.devRef .tc main_v33) (val4 (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) d)) main_v1 (by decide)]; exact hY
  have hR19 : (after host9 (Function.update (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) (Proc.devRef .tc main_v33) (val4 (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) d))) (Proc.devRef .tc main_v14) = HostIdx.rowsAll (launchContents m d (Proc.devRef .tc main_arg2)) := by
    rw [host9_keeps (F := F) (Function.update (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) (Proc.devRef .tc main_v33) (val4 (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) d)) main_v14 (by decide)]; exact hR
  iapply (seg_host (F := F) d 4 (Function.update (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) (Proc.devRef .tc main_v33) (val4 (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) d)) ((((((Finset.univ).erase 0).erase 1).erase 2).erase 3).erase 4) host9 host9_sub host9_fresh _ _)
  isplitl [HTS]
  · iexact HTS
  iintro HTS
  clear hA; have hA := hA19
  clear hY; have hY := hY19
  clear hR; have hR := hR19
  -- region 5
  iapply (r5 κ d (after host9 (Function.update (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) (Proc.devRef .tc main_v33) (val4 (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) d))) ((((((Finset.univ).erase 0).erase 1).erase 2).erase 3).erase 4) (by decide) _ _)
  isplitr
  · iexact Hctx
  isplitl [HTS]
  · iexact HTS
  iintro HTS
  have hA20 : ∀ b ∈ argList, (Function.update (after host9 (Function.update (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) (Proc.devRef .tc main_v33) (val4 (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) d))) (Proc.devRef .tc main_v36) (val5 (after host9 (Function.update (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) (Proc.devRef .tc main_v33) (val4 (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) d))) d)) (Proc.devRef .tc b) = launchContents m d (Proc.devRef .tc b) :=
    fun b hb => (Function.update_of_ne (devRef_ne_of_ne ((by decide : ∀ b ∈ argList, b ≠ main_v36) b hb)) _ _).trans (hA b hb)
  clear hA; have hA := hA20
  have hY20 : (Function.update (after host9 (Function.update (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) (Proc.devRef .tc main_v33) (val4 (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) d))) (Proc.devRef .tc main_v36) (val5 (after host9 (Function.update (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) (Proc.devRef .tc main_v33) (val4 (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) d))) d)) (Proc.devRef .tc main_v1) = C.y d := by
    rw [Function.update_of_ne (devRef_ne_of_ne (by decide : main_v1 ≠ main_v36))]; exact hY
  clear hY; have hY := hY20
  have hR20 : (Function.update (after host9 (Function.update (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) (Proc.devRef .tc main_v33) (val4 (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) d))) (Proc.devRef .tc main_v36) (val5 (after host9 (Function.update (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) (Proc.devRef .tc main_v33) (val4 (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) d))) d)) (Proc.devRef .tc main_v14) = HostIdx.rowsAll (launchContents m d (Proc.devRef .tc main_arg2)) := by
    rw [Function.update_of_ne (devRef_ne_of_ne (by decide : main_v14 ≠ main_v36))]; exact hR
  clear hR; have hR := hR20
  have hA21 : ∀ b ∈ argList, (after host10 (Function.update (after host9 (Function.update (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) (Proc.devRef .tc main_v33) (val4 (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) d))) (Proc.devRef .tc main_v36) (val5 (after host9 (Function.update (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) (Proc.devRef .tc main_v33) (val4 (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) d))) d))) (Proc.devRef .tc b) = launchContents m d (Proc.devRef .tc b) :=
    fun b hb => (host10_keeps (F := F) (Function.update (after host9 (Function.update (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) (Proc.devRef .tc main_v33) (val4 (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) d))) (Proc.devRef .tc main_v36) (val5 (after host9 (Function.update (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) (Proc.devRef .tc main_v33) (val4 (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) d))) d)) b ((by decide : ∀ b ∈ argList, b ∉ host10_W) b hb)).trans (hA b hb)
  have hY21 : (after host10 (Function.update (after host9 (Function.update (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) (Proc.devRef .tc main_v33) (val4 (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) d))) (Proc.devRef .tc main_v36) (val5 (after host9 (Function.update (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) (Proc.devRef .tc main_v33) (val4 (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) d))) d))) (Proc.devRef .tc main_v1) = C.y d := by
    rw [host10_keeps (F := F) (Function.update (after host9 (Function.update (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) (Proc.devRef .tc main_v33) (val4 (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) d))) (Proc.devRef .tc main_v36) (val5 (after host9 (Function.update (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) (Proc.devRef .tc main_v33) (val4 (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) d))) d)) main_v1 (by decide)]; exact hY
  have hR21 : (after host10 (Function.update (after host9 (Function.update (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) (Proc.devRef .tc main_v33) (val4 (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) d))) (Proc.devRef .tc main_v36) (val5 (after host9 (Function.update (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) (Proc.devRef .tc main_v33) (val4 (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) d))) d))) (Proc.devRef .tc main_v14) = HostIdx.rowsAll (launchContents m d (Proc.devRef .tc main_arg2)) := by
    rw [host10_keeps (F := F) (Function.update (after host9 (Function.update (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) (Proc.devRef .tc main_v33) (val4 (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) d))) (Proc.devRef .tc main_v36) (val5 (after host9 (Function.update (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) (Proc.devRef .tc main_v33) (val4 (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) d))) d)) main_v14 (by decide)]; exact hR
  iapply (seg_host (F := F) d 4 (Function.update (after host9 (Function.update (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) (Proc.devRef .tc main_v33) (val4 (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) d))) (Proc.devRef .tc main_v36) (val5 (after host9 (Function.update (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) (Proc.devRef .tc main_v33) (val4 (after host8 (Function.update (after host7 (Function.update (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) (Proc.devRef .tc main_v29) (val3 (after host6 (Function.update (after host5 (Function.update (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) (Proc.devRef .tc main_v25) (val2 (after host4 (Function.update (after host3 (Function.update (after host2 (Function.update (after host1 (Function.update (after host0 W0) (Proc.devRef .tc main_v1) (val0 (after host0 W0) d))) (Proc.devRef .tc main_v20) (gath0 C d))) (Proc.devRef .tc main_v21) (val1 (after host2 (Function.update (after host1 (Function.update (after host0 W0) (Proc.devRef .tc main_v1) (val0 (after host0 W0) d))) (Proc.devRef .tc main_v20) (gath0 C d))) d))) (Proc.devRef .tc main_v24) (gath1 C d))) d))) (Proc.devRef .tc main_v28) (gath2 C d))) d))) (Proc.devRef .tc main_v32) (gath3 C d))) d))) d)) (((((((Finset.univ).erase 0).erase 1).erase 2).erase 3).erase 4).erase 5) host10 host10_sub host10_fresh _ _)
  isplitl [HTS]
  · iexact HTS
  iintro HTS
  clear hA; have hA := hA21
  clear hY; have hY := hY21
  clear hR; have hR := hR21
  -- the end: nothing left to run; the handshake state is the one asked; the arguments and the result come out of the held set
  rw [wp_pure]
  icases HTS with ⟨-, Hh, Hst, -⟩
  imodintro
  isplitl [Hst]
  · iexact Hst
  · unfold Wfin
    iapply (fin_of_heldV m d _ hA) $$ Hh

end Cert.KernelIdeal.Sc

end
-- ==== Proof.ScLaunchV.lean ====
/-
  The launch theorem applied with the payload that names contents.

  Nothing changes in the argument: a core's share is the product of its tiles' before the call and after it, the launch
  element funds the same ghost state, no call runs on a sequencer alone. Only the handshakes now carry assertions that
  name the contents of y, of the index arrays and, on the way back, of the gathered output rows.
-/
import proofs.«215235_g2774548873965_cont_9to1_572_34_alg».proof.Proof.ScPayV
import proofs.«215235_g2774548873965_cont_9to1_572_34_alg».proof.Proof.ScLaunch

noncomputable section

namespace Cert.KernelIdeal.Sc

open Cert.KernelIdeal
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} (C : Conts F)

local notation "𝕄" => MT nD τ sig (HIx 4) (Elt F) ℕ UU ℕ

set_option synthInstance.maxHeartbeats 400000 in
instance shareIn0_storable (d : Dev nD) (w : Fin 32) : BI.Storable (upEmb : UEmb _ 𝕄) (shareIn0 C d w) := by
  unfold shareIn0; infer_instance
set_option synthInstance.maxHeartbeats 400000 in
instance shareOut0_storable (d : Dev nD) (w : Fin 32) : BI.Storable (upEmb : UEmb _ 𝕄) (shareOut0 C d w) := by
  unfold shareOut0; infer_instance
set_option synthInstance.maxHeartbeats 400000 in
instance shareIn1_storable (d : Dev nD) (w : Fin 32) : BI.Storable (upEmb : UEmb _ 𝕄) (shareIn1 C d w) := by
  unfold shareIn1; infer_instance
set_option synthInstance.maxHeartbeats 400000 in
instance shareOut1_storable (d : Dev nD) (w : Fin 32) : BI.Storable (upEmb : UEmb _ 𝕄) (shareOut1 C d w) := by
  unfold shareOut1; infer_instance
set_option synthInstance.maxHeartbeats 400000 in
instance shareIn2_storable (d : Dev nD) (w : Fin 32) : BI.Storable (upEmb : UEmb _ 𝕄) (shareIn2 C d w) := by
  unfold shareIn2; infer_instance
set_option synthInstance.maxHeartbeats 400000 in
instance shareOut2_storable (d : Dev nD) (w : Fin 32) : BI.Storable (upEmb : UEmb _ 𝕄) (shareOut2 C d w) := by
  unfold shareOut2; infer_instance
set_option synthInstance.maxHeartbeats 400000 in
instance shareIn3_storable (d : Dev nD) (w : Fin 32) : BI.Storable (upEmb : UEmb _ 𝕄) (shareIn3 C d w) := by
  unfold shareIn3; infer_instance
set_option synthInstance.maxHeartbeats 400000 in
instance shareOut3_storable (d : Dev nD) (w : Fin 32) : BI.Storable (upEmb : UEmb _ 𝕄) (shareOut3 C d w) := by
  unfold shareOut3; infer_instance

instance shareIn_storable (q : Fin 4) (d : Dev nD) (w : Fin 32) : BI.Storable (upEmb : UEmb _ 𝕄) (shareIn C q d w) := by
  match q with
  | 0 => show BI.Storable _ (shareIn0 C d w); infer_instance
  | 1 => show BI.Storable _ (shareIn1 C d w); infer_instance
  | 2 => show BI.Storable _ (shareIn2 C d w); infer_instance
  | 3 => show BI.Storable _ (shareIn3 C d w); infer_instance
instance shareOut_storable (q : Fin 4) (d : Dev nD) (w : Fin 32) : BI.Storable (upEmb : UEmb _ 𝕄) (shareOut C q d w) := by
  match q with
  | 0 => show BI.Storable _ (shareOut0 C d w); infer_instance
  | 1 => show BI.Storable _ (shareOut1 C d w); infer_instance
  | 2 => show BI.Storable _ (shareOut2 C d w); infer_instance
  | 3 => show BI.Storable _ (shareOut3 C d w); infer_instance

instance tileIn_storable (q : Fin 4) (d : Dev nD) (c : Fin ((K (F := F)).nCore q)) (i : Fin ((K (F := F)).nSub q)) :
    BI.Storable (upEmb : UEmb _ 𝕄) (tileIn C q d c i) := by
  unfold tileIn; infer_instance
instance tileOut_storable (q : Fin 4) (d : Dev nD) (c : Fin ((K (F := F)).nCore q)) (i : Fin ((K (F := F)).nSub q)) :
    BI.Storable (upEmb : UEmb _ 𝕄) (tileOut C q d c i) := by
  unfold tileOut; infer_instance

instance PV_storable : (PV C).IsStorable where
  st q d c := by unfold PV; dsimp only; infer_instance
  dn q d c := by unfold PV; dsimp only; infer_instance
  go q d c i := by unfold PV; dsimp only; infer_instance
  td q d c i := by unfold PV; dsimp only; infer_instance

theorem vecSplitV (q : Fin 4) : (K (F := F)).VecSplit' (PV C) q := by
  intro d c
  show (bigSep Finset.univ fun i => tileIn C q d c i)
    ⊢ |={Set.univ}=> iprop((bigSep Finset.univ fun i => tileIn C q d c i)
        ∗ ((bigSep Finset.univ fun i => tileOut C q d c i) -∗ bigSep Finset.univ fun i => tileOut C q d c i))
  iintro H
  imodintro
  isplitl [H]
  · iexact H
  · iintro H'; iexact H'

theorem hu₀V : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 4 => (PV C).x q thr) :=
  hu₀ (F := F)

variable [FloatOps F]

theorem run_ofV [∀ e, Nonempty (Elt F e)] (m : (ℓ : Loc nD τ sig) → Buf (Elt F) ℓ) (ρ : Dev nD → PrngReg)
    (FINV : Dev nD → sProp 𝕄) (fq : Dev nD → Phys nD τ sig (Elt F) → Prop) (Q' : PUnit × MemSt nD τ sig (Elt F) → Prop)
    (htile : ∀ q, (K (F := F)).TileObl (D (F := F)) 𝒱 (PV C) v₀ q)
    (hmain : ∀ (κ : GSem nD τ sig → ℕ) (d : Dev nD),
      iprop((K (F := F)).ctx EH (PV C) κ ∗ (K (F := F)).tcSt EH d 0 ∗ (K (F := F)).tcRes m ρ d ∗ G (F := F) d)
        ⊢ wp frame (wpE ((K (F := F)).defs (D (F := F))) 𝒱 (SparseCore.T d) none) Set.univ (main d)
            fun _ => iprop((K (F := F)).tcSt EH d 4 ∗ FINV d))
    (hfin : ∀ d s', iprop(FINV d ∗ SI s') ⊢ (⌜fq d s'⌝ : sProp 𝕄))
    (hQ : ∀ s', (∀ d, fq d s') → Q' (⟨⟩, s'.mem)) :
    θ_run (Cert.KernelIdeal.defs (F := F)) (Cert.KernelIdeal.threads (F := F)) ⟨m, fun _ => 0, ρ⟩ Q' :=
  SparseCore.Cfg.θ_run_sc (K := K (F := F)) (D := D (F := F)) (𝒱 := 𝒱) (EH := EH) (P := PV C) facts v₀
    (fun q hq => absurd ((kind_eq q).symm.trans hq) (by decide))
    (fun q _ => htile q)
    (fun q _ => SparseCore.Cfg.VecSplit.of_plain (vecSplitV C q))
    m ρ main (fun d => G (F := F) d) FINV (u₀ (F := F)) (sep_elim_left.trans (hu₀V C)) hmain fq hfin Q' hQ

end Cert.KernelIdeal.Sc

end
-- ==== Proof.ScRegionV.lean ====
/-
  A tensor-core region as one step of the walk, with the valuation after it NAMED.

  The frame's version of this step says that the arrays end at some valuation that agrees with the one before off the
  region's output array. Its proof builds that valuation: the one before, updated at the output array with what the
  region's write-backs made of it according to the proof data. Here the same proof is read with that valuation stated,
  and for any payload of the sparse-core calls (the step uses the calls' context only for its level facts).
-/
import proofs.«215235_g2774548873965_cont_9to1_572_34_alg».proof.Proof.ScRegion
import proofs.«215235_g2774548873965_cont_9to1_572_34_alg».proof.Proof.ScStateV

noncomputable section

namespace Cert.KernelIdeal.Sc

open Cert.KernelIdeal
open Idealize.ShloMosaic Idealize.ShloMosaic.StableHlo Idealize.ShloMosaic.TcCoe
open Idealize.ShloMosaic.SparseCore (S T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F] [∀ e, Nonempty (Elt F e)]

local notation "𝕄" => MT nD τ sig (HIx 4) (Elt F) ℕ UU ℕ

section Generic

variable {p : Fin 6} (n : ℕ)
  (dt : Valuation τ sig (Elt F) → (c : Dev nD) → Dat τ (Elt F) (HIx 4) ℕ UU ℕ (Pipeline.pin (pcfgs (F := F)) adm p) c)
  (h : RegionData (F := F) p n dt)

include h in
/-- The step, at the valuation the frame's proof builds. -/
theorem seg_core (P' : (K (F := F)).Pay (nD := nD) (Val := Elt F) (Name := ℕ) (U := UU)) (wout : Fin (Pipeline.pin (pcfgs (F := F)) adm p).W)
    (hwf : Pipeline.WinFacts (Pipeline.pin (pcfgs (F := F)) adm p).spec)
    (hpos : ∀ w : Fin (Pipeline.pin (pcfgs (F := F)) adm p).W, 0 < ((Pipeline.pin (pcfgs (F := F)) adm p).spec w).block.numel)
    (hstage : ∀ (w : Fin (Pipeline.pin (pcfgs (F := F)) adm p).W) (s : Fin ((Pipeline.pin (pcfgs (F := F)) adm p).spec w).nbuf), (((Pipeline.pin (pcfgs (F := F)) adm p).spec w).stage s).IsWhole)
    (harr : ∀ w, ((Pipeline.pin (pcfgs (F := F)) adm p).spec w).arr.IsWhole)
    (hin : ∀ w, w ≠ wout → ((Pipeline.pin (pcfgs (F := F)) adm p).win w).isOut = false)
    (κ : GSem nD τ sig → ℕ) (d : Dev nD) (W : Valuation τ sig (Elt F)) (Ps : Finset (Fin 6)) (hp : p ∈ Ps)
    {β : Type} (k : PUnit → Prog (TpuEff nD τ sig (Elt F) (SparseCore.Sig (ΛP (F := F)) 4) .tc) β) (Q : β → sProp 𝕄) :
    iprop((K (F := F)).ctx EH P' κ ∗ TS (F := F) d n W Ps
        ∗ (TS (F := F) d n (valAfter dt wout W d) (Ps.erase p)
            -∗ wp frame (wpE ((K (F := F)).defs (D (F := F))) 𝒱 (d.tc : Thread nD τ) none) Set.univ (k ⟨⟩) Q))
      ⊢ wp frame (wpE ((K (F := F)).defs (D (F := F))) 𝒱 (d.tc : Thread nD τ) none) Set.univ
          (Prog.lift (.customCall (SparseCore.inner (Pipeline.entry p)) ()) >>= k) Q := by
  refine .trans ?_ (enter_region adm (famOf p (dt W)) none _ _ (recOf n dt h hwf hpos hstage W Ps) d k Q)
  rw [show (recOf n dt h hwf hpos hstage W Ps).pre d
        = iprop((famOf p (dt W) p d).arrays (fun w => (famOf p (dt W) p d).arrAt w 0)
            ∗ (famOf p (dt W) p d).owesAt none 0 ∗ bypass p n W Ps d) from rfl,
    show (recOf n dt h hwf hpos hstage W Ps).post d
        = iprop((famOf p (dt W) p d).arrays (fun w => (famOf p (dt W) p d).arrAt w (Pipeline.pin (pcfgs (F := F)) adm p).N)
            ∗ (famOf p (dt W) p d).owesAt none (Fin.last (Pipeline.pin (pcfgs (F := F)) adm p).N) ∗ bypass p n W Ps d) from rfl]
  unfold TS bypass
  rw [ghost_split hp d, ← Pipeline.unscopedBufs_held d W]
  have hshare : ∀ w, (famOf p (dt W) p d).share w = fullShare := fun w => by rw [famOf_self]; exact h.shares W d w
  have hA : ∀ w, (famOf p (dt W) p d).A w = valOn W d (Pipeline.arrRef (Pipeline.pin (pcfgs (F := F)) adm p).spec w) :=
    fun w => by rw [famOf_self]; exact h.arrays W d w
  have hO : ∀ t, (famOf p (dt W) p d).owed t = (K (F := F)).Otc d n := fun t => by rw [famOf_self]; exact h.owed W d t
  have hB : ∀ t, (famOf p (dt W) p d).recorded t = below (F := F) d n := fun t => by rw [famOf_self]; exact h.recorded W d t
  have hF : ∀ w, (famOf p (dt W) p d).arrAt w (Pipeline.pin (pcfgs (F := F)) adm p).N
      = valOn (valAfter dt wout W d) d (Pipeline.arrRef (Pipeline.pin (pcfgs (F := F)) adm p).spec w) := fun w => by
    by_cases e : w = wout
    · subst e; exact (valAfter_out dt w W d).symm
    · rw [Pipeline.Dat.arrAt_in _ w (hin w e), hA w]
      exact (valAfter_off dt wout W d _ (fun e' => e (hwf.arr_inj (Proc.devRef_injective _ e')))).symm
  have hrest : ∀ b : Ref sig .tc, b ∉ Finset.univ.image (Pipeline.arrRef (Pipeline.pin (pcfgs (F := F)) adm p).spec) →
      valOn (valAfter dt wout W d) d b = valOn W d b := fun b hb =>
    valAfter_off dt wout W d _ (fun e' => hb (by rw [Proc.devRef_injective _ e']; exact Finset.mem_image.mpr ⟨wout, Finset.mem_univ _, rfl⟩))
  iintro ⟨#Hctx, ⟨Hb, Hu, Hst, ⟨Hcg, Htk⟩, Hg⟩, Hk⟩
  ihave Ha := (Pipeline.arrays_of_unscopedBufs (pcfgs (F := F)) adm (famOf p (dt W)) (p := p) hwf harr d hshare (valOn W d) hA) $$ Hu
  icases Ha with ⟨HA, Hur⟩
  ihave Hs := (tcSt_split (F := F) d n) $$ Hst
  icases Hs with ⟨Hown, Hwand⟩
  isplitl [Hk]
  · iintro ⟨Hb', HA', HO', Hur', Hwand', Hg'⟩
    ispecialize Hk $$ [Hb' HA' HO' Hur' Hwand' Hg']
    · isplitl [Hb']; · iexact Hb'
      isplitl [HA' Hur']
      · rw [← Pipeline.unscopedBufs_held d (valAfter dt wout W d)]
        iapply (Pipeline.unscopedBufs_of_arrays (pcfgs (F := F)) adm (p := p) hwf harr d (famOf p (dt W)) hshare (valOn W d)
          (valOn (valAfter dt wout W d) d) (fun w => (famOf p (dt W) p d).arrAt w (Pipeline.pin (pcfgs (F := F)) adm p).N) hF hrest)
        isplitl [HA']; · iexact HA'
        iexact Hur'
      isplitl [HO' Hwand']
      · iapply Hwand'
        iapply (owing_out (famOf p (dt W) p d) n (Fin.last _) (hO _) (hB _)); iexact HO'
      iexact Hg'
    iexact Hk
  isplitl [Hb]; · iexact Hb
  isplitl [HA Hown Hur Hwand Hg]
  · isplitl [HA]; · iexact HA
    isplitl [Hown]
    · iapply (owing_in (famOf p (dt W) p d) n 0 (hO _) (hB _)); iexact Hown
    isplitl [Hur]; · iexact Hur
    isplitl [Hwand]; · iexact Hwand
    iexact Hg
  isplitr
  · iapply (SparseCore.Cfg.ctx_levAts κ); iexact Hctx
  isplitl [Hcg]; · iexact Hcg
  iexact Htk

include h in
/-- Region p as a segment with the valuation after it named: W updated at window `wout`'s array with what the proof
    data says the write-backs made of it. -/
theorem seg_of_dataV (P' : (K (F := F)).Pay (nD := nD) (Val := Elt F) (Name := ℕ) (U := UU)) (wout : Fin (Pipeline.pin (pcfgs (F := F)) adm p).W)
    (hwf : Pipeline.WinFacts (Pipeline.pin (pcfgs (F := F)) adm p).spec)
    (hpos : ∀ w : Fin (Pipeline.pin (pcfgs (F := F)) adm p).W, 0 < ((Pipeline.pin (pcfgs (F := F)) adm p).spec w).block.numel)
    (hstage : ∀ (w : Fin (Pipeline.pin (pcfgs (F := F)) adm p).W) (s : Fin ((Pipeline.pin (pcfgs (F := F)) adm p).spec w).nbuf), (((Pipeline.pin (pcfgs (F := F)) adm p).spec w).stage s).IsWhole)
    (harr : ∀ w, ((Pipeline.pin (pcfgs (F := F)) adm p).spec w).arr.IsWhole)
    (hin : ∀ w, w ≠ wout → ((Pipeline.pin (pcfgs (F := F)) adm p).win w).isOut = false) :
    SegRegionV (F := F) P' p n (Proc.devRef .tc (Pipeline.arrRef (Pipeline.pin (pcfgs (F := F)) adm p).spec wout))
      (fun W d => (famOf p (dt W) p d).arrAt wout (Pipeline.pin (pcfgs (F := F)) adm p).N) :=
  fun κ d W Ps hp _ k Q => seg_core n dt h P' wout hwf hpos hstage harr hin κ d W Ps hp k Q

end Generic

/-! ## The six regions -/

/-- The step for pipeline 0, at the valuation the frame's proof builds. -/
theorem seg_core0 (P' : (K (F := F)).Pay (nD := nD) (Val := Elt F) (Name := ℕ) (U := UU)) (n : ℕ)
    (κ : GSem nD τ sig → ℕ) (d : Dev nD) (W : Valuation τ sig (Elt F)) (Ps : Finset (Fin 6)) (hp : (0 : Fin 6) ∈ Ps)
    {β : Type} (k : PUnit → Prog (TpuEff nD τ sig (Elt F) (SparseCore.Sig (ΛP (F := F)) 4) .tc) β) (Q : β → sProp 𝕄) :
    iprop((K (F := F)).ctx EH P' κ ∗ TS (F := F) d n W Ps
        ∗ (TS (F := F) d n (W0' n W d) (Ps.erase 0)
            -∗ wp frame (wpE ((K (F := F)).defs (D (F := F))) 𝒱 (d.tc : Thread nD τ) none) Set.univ (k ⟨⟩) Q))
      ⊢ wp frame (wpE ((K (F := F)).defs (D (F := F))) 𝒱 (d.tc : Thread nD τ) none) Set.univ
          (Prog.lift (.customCall (SparseCore.inner (Pipeline.entry 0)) ()) >>= k) Q := by
  refine .trans ?_ (enter_region adm (fam0 (F := F) n W) none _ _ (rec0 n W Ps) d k Q)
  rw [rec0_pre, rec0_post]
  unfold TS bypass
  rw [ghost_split hp d, ← Pipeline.unscopedBufs_held d W]
  iintro ⟨#Hctx, ⟨Hb, Hu, Hst, ⟨Hcg, Htk⟩, Hg⟩, Hk⟩
  ihave Ha := (Pipeline.arrays_of_unscopedBufs (pcfgs (F := F)) adm (fam0 (F := F) n W) (p := 0) Gen.winFacts0 Gen.arr_whole0 d
    (fun w => by unfold Pipeline.Dat.share; split <;> rfl) (valOn W d) (fun _ => rfl)) $$ Hu
  icases Ha with ⟨HA, Hur⟩
  ihave Hs := (tcSt_split (F := F) d n) $$ Hst
  icases Hs with ⟨Hown, Hwand⟩
  isplitl [Hk]
  · iintro ⟨Hb', HA', HO', Hur', Hwand', Hg'⟩
    ispecialize Hk $$ [Hb' HA' HO' Hur' Hwand' Hg']
    · isplitl [Hb']; · iexact Hb'
      isplitl [HA' Hur']
      · rw [← Pipeline.unscopedBufs_held d (W0' n W d)]
        iapply (Pipeline.unscopedBufs_of_arrays (pcfgs (F := F)) adm (p := 0) Gen.winFacts0 Gen.arr_whole0 d (fam0 (F := F) n W)
          (fun w => by unfold Pipeline.Dat.share; split <;> rfl) (valOn W d) (valOn (W0' n W d) d)
          (fun w => (fam0 (F := F) n W 0 d).arrAt w cfg0.N) (arrs_after0 n W d) (rest_after0 n W d))
        isplitl [HA']; · iexact HA'
        iexact Hur'
      isplitl [HO' Hwand']
      · iapply Hwand'
        iapply (owing_out (fam0 (F := F) n W 0 d) n (Fin.last cfg0.N) rfl rfl); iexact HO'
      iexact Hg'
    iexact Hk
  isplitl [Hb]; · iexact Hb
  isplitl [HA Hown Hur Hwand Hg]
  · isplitl [HA]; · iexact HA
    isplitl [Hown]
    · iapply (owing_in (fam0 (F := F) n W 0 d) n 0 rfl rfl); iexact Hown
    isplitl [Hur]; · iexact Hur
    isplitl [Hwand]; · iexact Hwand
    iexact Hg
  isplitr
  · iapply (SparseCore.Cfg.ctx_levAts κ); iexact Hctx
  isplitl [Hcg]; · iexact Hcg
  iexact Htk

/-- Pipeline 0 as a segment with the valuation after it named. -/
theorem seg_region0V (P' : (K (F := F)).Pay (nD := nD) (Val := Elt F) (Name := ℕ) (U := UU)) (n : ℕ) :
    SegRegionV (F := F) P' 0 n (Proc.devRef .tc main_v1) (fun W d => yAfter n W d) :=
  fun κ d W Ps hp _ k Q => seg_core0 P' n κ d W Ps hp k Q

/-- Fused region 1 (its output array is window 7's) with the valuation after it named, given its proof data. -/
theorem seg_region1V (P' : (K (F := F)).Pay (nD := nD) (Val := Elt F) (Name := ℕ) (U := UU)) (n : ℕ)
    (dt : Valuation τ sig (Elt F) → (c : Dev nD) → Dat τ (Elt F) (HIx 4) ℕ UU ℕ (Pipeline.pin (pcfgs (F := F)) adm 1) c)
    (h : RegionData (F := F) 1 n dt) :
    SegRegionV (F := F) P' 1 n (Proc.devRef .tc main_v21)
      (fun W d => (famOf 1 (dt W) 1 d).arrAt 7 (Pipeline.pin (pcfgs (F := F)) adm 1).N) :=
  seg_of_dataV (p := 1) n dt h P' 7 Gen.winFacts2 Gen.block_pos2 Gen.stage_whole2 Gen.arr_whole2
    (show ∀ w : Fin 8, w ≠ 7 → (win2 w).isOut = false by decide)

/-- Fused region 2 (its output array is window 7's) with the valuation after it named, given its proof data. -/
theorem seg_region2V (P' : (K (F := F)).Pay (nD := nD) (Val := Elt F) (Name := ℕ) (U := UU)) (n : ℕ)
    (dt : Valuation τ sig (Elt F) → (c : Dev nD) → Dat τ (Elt F) (HIx 4) ℕ UU ℕ (Pipeline.pin (pcfgs (F := F)) adm 2) c)
    (h : RegionData (F := F) 2 n dt) :
    SegRegionV (F := F) P' 2 n (Proc.devRef .tc main_v25)
      (fun W d => (famOf 2 (dt W) 2 d).arrAt 7 (Pipeline.pin (pcfgs (F := F)) adm 2).N) :=
  seg_of_dataV (p := 2) n dt h P' 7 Gen.winFacts4 Gen.block_pos4 Gen.stage_whole4 Gen.arr_whole4
    (show ∀ w : Fin 8, w ≠ 7 → (win4 w).isOut = false by decide)

/-- Fused region 3 (its output array is window 7's) with the valuation after it named, given its proof data. -/
theorem seg_region3V (P' : (K (F := F)).Pay (nD := nD) (Val := Elt F) (Name := ℕ) (U := UU)) (n : ℕ)
    (dt : Valuation τ sig (Elt F) → (c : Dev nD) → Dat τ (Elt F) (HIx 4) ℕ UU ℕ (Pipeline.pin (pcfgs (F := F)) adm 3) c)
    (h : RegionData (F := F) 3 n dt) :
    SegRegionV (F := F) P' 3 n (Proc.devRef .tc main_v29)
      (fun W d => (famOf 3 (dt W) 3 d).arrAt 7 (Pipeline.pin (pcfgs (F := F)) adm 3).N) :=
  seg_of_dataV (p := 3) n dt h P' 7 Gen.winFacts6 Gen.block_pos6 Gen.stage_whole6 Gen.arr_whole6
    (show ∀ w : Fin 8, w ≠ 7 → (win6 w).isOut = false by decide)

/-- Fused region 4 (its output array is window 7's) with the valuation after it named, given its proof data. -/
theorem seg_region4V (P' : (K (F := F)).Pay (nD := nD) (Val := Elt F) (Name := ℕ) (U := UU)) (n : ℕ)
    (dt : Valuation τ sig (Elt F) → (c : Dev nD) → Dat τ (Elt F) (HIx 4) ℕ UU ℕ (Pipeline.pin (pcfgs (F := F)) adm 4) c)
    (h : RegionData (F := F) 4 n dt) :
    SegRegionV (F := F) P' 4 n (Proc.devRef .tc main_v33)
      (fun W d => (famOf 4 (dt W) 4 d).arrAt 7 (Pipeline.pin (pcfgs (F := F)) adm 4).N) :=
  seg_of_dataV (p := 4) n dt h P' 7 Gen.winFacts8 Gen.block_pos8 Gen.stage_whole8 Gen.arr_whole8
    (show ∀ w : Fin 8, w ≠ 7 → (win8 w).isOut = false by decide)

/-- The step for pipeline 5, at the valuation the frame's proof builds. -/
theorem seg_core5 (P' : (K (F := F)).Pay (nD := nD) (Val := Elt F) (Name := ℕ) (U := UU)) (n : ℕ)
    (κ : GSem nD τ sig → ℕ) (d : Dev nD) (W : Valuation τ sig (Elt F)) (Ps : Finset (Fin 6)) (hp : (5 : Fin 6) ∈ Ps)
    {β : Type} (k : PUnit → Prog (TpuEff nD τ sig (Elt F) (SparseCore.Sig (ΛP (F := F)) 4) .tc) β) (Q : β → sProp 𝕄) :
    iprop((K (F := F)).ctx EH P' κ ∗ TS (F := F) d n W Ps
        ∗ (TS (F := F) d n (W5' n W d) (Ps.erase 5)
            -∗ wp frame (wpE ((K (F := F)).defs (D (F := F))) 𝒱 (d.tc : Thread nD τ) none) Set.univ (k ⟨⟩) Q))
      ⊢ wp frame (wpE ((K (F := F)).defs (D (F := F))) 𝒱 (d.tc : Thread nD τ) none) Set.univ
          (Prog.lift (.customCall (SparseCore.inner (Pipeline.entry 5)) ()) >>= k) Q := by
  refine .trans ?_ (enter_region adm (fam5 (F := F) n W) none _ _ (rec5 n W Ps) d k Q)
  rw [rec5_pre, rec5_post]
  unfold TS bypass
  rw [ghost_split hp d, ← Pipeline.unscopedBufs_held d W]
  iintro ⟨#Hctx, ⟨Hb, Hu, Hst, ⟨Hcg, Htk⟩, Hg⟩, Hk⟩
  ihave Ha := (Pipeline.arrays_of_unscopedBufs (pcfgs (F := F)) adm (fam5 (F := F) n W) (p := 5) Gen.winFacts9 Gen.arr_whole9 d
    (fun w => by unfold Pipeline.Dat.share; split <;> rfl) (valOn W d) (fun _ => rfl)) $$ Hu
  icases Ha with ⟨HA, Hur⟩
  ihave Hs := (tcSt_split (F := F) d n) $$ Hst
  icases Hs with ⟨Hown, Hwand⟩
  isplitl [Hk]
  · iintro ⟨Hb', HA', HO', Hur', Hwand', Hg'⟩
    ispecialize Hk $$ [Hb' HA' HO' Hur' Hwand' Hg']
    · isplitl [Hb']; · iexact Hb'
      isplitl [HA' Hur']
      · rw [← Pipeline.unscopedBufs_held d (W5' n W d)]
        iapply (Pipeline.unscopedBufs_of_arrays (pcfgs (F := F)) adm (p := 5) Gen.winFacts9 Gen.arr_whole9 d (fam5 (F := F) n W)
          (fun w => by unfold Pipeline.Dat.share; split <;> rfl) (valOn W d) (valOn (W5' n W d) d)
          (fun w => (fam5 (F := F) n W 5 d).arrAt w cfg9.N) (arrs_after5 n W d) (rest_after5 n W d))
        isplitl [HA']; · iexact HA'
        iexact Hur'
      isplitl [HO' Hwand']
      · iapply Hwand'
        iapply (owing_out (fam5 (F := F) n W 5 d) n (Fin.last cfg9.N) rfl rfl); iexact HO'
      iexact Hg'
    iexact Hk
  isplitl [Hb]; · iexact Hb
  isplitl [HA Hown Hur Hwand Hg]
  · isplitl [HA]; · iexact HA
    isplitl [Hown]
    · iapply (owing_in (fam5 (F := F) n W 5 d) n 0 rfl rfl); iexact Hown
    isplitl [Hur]; · iexact Hur
    isplitl [Hwand]; · iexact Hwand
    iexact Hg
  isplitr
  · iapply (SparseCore.Cfg.ctx_levAts κ); iexact Hctx
  isplitl [Hcg]; · iexact Hcg
  iexact Htk

/-- Pipeline 5 as a segment with the valuation after it named. -/
theorem seg_region5V (P' : (K (F := F)).Pay (nD := nD) (Val := Elt F) (Name := ℕ) (U := UU)) (n : ℕ) :
    SegRegionV (F := F) P' 5 n (Proc.devRef .tc main_v36) (fun W d => outAfter n W d) :=
  fun κ d W Ps hp _ k Q => seg_core5 P' n κ d W Ps hp k Q

end Cert.KernelIdeal.Sc

end
-- ==== Proof.HostFactsV.lean ====
/-
  Value facts about the later index arrays.

  Each later sparse-core call's index array is computed by two host operations from the array of row numbers: a slice of
  sixteen neighbour slots, read in the shape [32, 32, 128]. As a function of the row numbers' contents it is the same
  composition that the module on the computed index arrays names for call q; so when the row numbers are that module's
  function of the neighbour argument, the index array of call q is that module's index array of call q.
-/
import proofs.«215235_g2774548873965_cont_9to1_572_34_alg».proof.Proof.HostFacts

noncomputable section

namespace Cert.KernelIdeal.Sc

open Cert.KernelIdeal Idealize.ShloMosaic Idealize.ShloMosaic.TcCoe Idealize.SL.Sem Idealize.ShloMosaic.StableHlo
open Facts₀ Facts

variable {F : FTy → Type} [FloatOps F]

/-- Host stretch 3: the index array of call 1 is the slice of slots 16 … 31 of the row numbers, read as [32, 32, 128]. -/
theorem host3_idx (W : Valuation τ sig (Elt F)) :
    after (host3 (F := F)) W (Proc.devRef .tc main_v23)
      = shapeCast S32x32x128 (extractStridedSlice S8x16x1024 ![0, 16, 0] (W (Proc.devRef .tc main_v14)) slices_S8x64x1024_S8x16x1024_0_16_0)
          shapeCasts_S8x16x1024_S32x32x128 := by
  after_results
  rfl

/-- So, when the row numbers are the module's function of the neighbour argument a2, it is the module's index array of
    call 1. -/
theorem host3_idxVal (W : Valuation τ sig (Elt F)) (a2 : IVec S8x1024x64 32)
    (h14 : W (Proc.devRef .tc main_v14) = HostIdx.rowsAll a2) :
    after (host3 (F := F)) W (Proc.devRef .tc main_v23) = HostIdx.idxVal 1 a2 := by
  rw [host3_idx, h14]
  rfl

/-- Host stretch 5: the index array of call 2 is the slice of slots 32 … 47 of the row numbers, read as [32, 32, 128]. -/
theorem host5_idx (W : Valuation τ sig (Elt F)) :
    after (host5 (F := F)) W (Proc.devRef .tc main_v27)
      = shapeCast S32x32x128 (extractStridedSlice S8x16x1024 ![0, 32, 0] (W (Proc.devRef .tc main_v14)) slices_S8x64x1024_S8x16x1024_0_32_0)
          shapeCasts_S8x16x1024_S32x32x128 := by
  after_results
  rfl

/-- So, when the row numbers are the module's function of the neighbour argument a2, it is the module's index array of
    call 2. -/
theorem host5_idxVal (W : Valuation τ sig (Elt F)) (a2 : IVec S8x1024x64 32)
    (h14 : W (Proc.devRef .tc main_v14) = HostIdx.rowsAll a2) :
    after (host5 (F := F)) W (Proc.devRef .tc main_v27) = HostIdx.idxVal 2 a2 := by
  rw [host5_idx, h14]
  rfl

/-- Host stretch 7: the index array of call 3 is the slice of slots 48 … 63 of the row numbers, read as [32, 32, 128]. -/
theorem host7_idx (W : Valuation τ sig (Elt F)) :
    after (host7 (F := F)) W (Proc.devRef .tc main_v31)
      = shapeCast S32x32x128 (extractStridedSlice S8x16x1024 ![0, 48, 0] (W (Proc.devRef .tc main_v14)) slices_S8x64x1024_S8x16x1024_0_48_0)
          shapeCasts_S8x16x1024_S32x32x128 := by
  after_results
  rfl

/-- So, when the row numbers are the module's function of the neighbour argument a2, it is the module's index array of
    call 3. -/
theorem host7_idxVal (W : Valuation τ sig (Elt F)) (a2 : IVec S8x1024x64 32)
    (h14 : W (Proc.devRef .tc main_v14) = HostIdx.rowsAll a2) :
    after (host7 (F := F)) W (Proc.devRef .tc main_v31) = HostIdx.idxVal 3 a2 := by
  rw [host7_idx, h14]
  rfl

end Cert.KernelIdeal.Sc

end
-- ==== Proof.ScValue.lean ====
/-
  The kernel program's run with its result named.

  The walk of the program with contents ends with the result array at the composition of the host stretches' operations,
  the six regions' write-backs and the four gathers, from the launch contents. Here the pieces are put together: the
  contents the calls are handed are fixed as functions of the launch memory (y: what the first region leaves; the four
  index arrays: the computed index arrays of the neighbour argument), the regions' segments are the ones with the valuation
  named, and the launch theorem gives the run: every thread ends, nothing faults, the fourteen arguments are as
  launched and the result array holds that composition.
-/
import proofs.«215235_g2774548873965_cont_9to1_572_34_alg».proof.Proof.ScWalkV
import proofs.«215235_g2774548873965_cont_9to1_572_34_alg».proof.Proof.ScLaunchV
import proofs.«215235_g2774548873965_cont_9to1_572_34_alg».proof.Proof.ScRegionV
import proofs.«215235_g2774548873965_cont_9to1_572_34_alg».proof.Proof.HostFactsV
import proofs.«215235_g2774548873965_cont_9to1_572_34_alg».proof.Proof.Region1Data
import proofs.«215235_g2774548873965_cont_9to1_572_34_alg».proof.Proof.Region2Data
import proofs.«215235_g2774548873965_cont_9to1_572_34_alg».proof.Proof.Region3Data
import proofs.«215235_g2774548873965_cont_9to1_572_34_alg».proof.Proof.Region4Data
import proofs.«215235_g2774548873965_cont_9to1_572_34_alg».proof.Proof.ScFrame

noncomputable section

namespace Cert.KernelIdeal.Sc

open Cert.KernelIdeal
open Idealize.ShloMosaic Idealize.ShloMosaic.StableHlo Idealize.ShloMosaic.TcCoe
open Idealize.ShloMosaic.SparseCore (S T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F] [∀ e, Nonempty (Elt F e)]

local notation "𝕄" => MT nD τ sig (HIx 4) (Elt F) ℕ UU ℕ

/-! ## What each region leaves in its output array, as a function of the valuation it is entered at -/

def val0 : Valuation τ sig (Elt F) → Dev nD → (Proc.devRef (τ := τ) .tc main_v1).ty.Contents (Elt F) :=
  fun W d => yAfter 0 W d
def val1 : Valuation τ sig (Elt F) → Dev nD → (Proc.devRef (τ := τ) .tc main_v21).ty.Contents (Elt F) :=
  fun W d => (famOf pix (dt1 1 W) pix d).arrAt 7 (Pipeline.pin (pcfgs (F := F)) adm pix).N
def val2 : Valuation τ sig (Elt F) → Dev nD → (Proc.devRef (τ := τ) .tc main_v25).ty.Contents (Elt F) :=
  fun W d => (famOf pix2 (dt2 2 W) pix2 d).arrAt 7 (Pipeline.pin (pcfgs (F := F)) adm pix2).N
def val3 : Valuation τ sig (Elt F) → Dev nD → (Proc.devRef (τ := τ) .tc main_v29).ty.Contents (Elt F) :=
  fun W d => (famOf pix3 (dt3 3 W) pix3 d).arrAt 7 (Pipeline.pin (pcfgs (F := F)) adm pix3).N
def val4 : Valuation τ sig (Elt F) → Dev nD → (Proc.devRef (τ := τ) .tc main_v33).ty.Contents (Elt F) :=
  fun W d => (famOf pix4 (dt4 4 W) pix4 d).arrAt 7 (Pipeline.pin (pcfgs (F := F)) adm pix4).N
def val5 : Valuation τ sig (Elt F) → Dev nD → (Proc.devRef (τ := τ) .tc main_v36).ty.Contents (Elt F) :=
  fun W d => outAfter 4 W d

/-! ## The contents the calls are handed, from the launch memory -/

def contsOf (m : (ℓ : Loc nD τ sig) → Buf (Elt F) ℓ) : Conts F where
  y d := val0 (after host0 (launchContents m d)) d
  ix0 d := HostIdx.idxVal 0 (launchContents m d (Proc.devRef .tc main_arg2))
  ix1 d := HostIdx.idxVal 1 (launchContents m d (Proc.devRef .tc main_arg2))
  ix2 d := HostIdx.idxVal 2 (launchContents m d (Proc.devRef .tc main_arg2))
  ix3 d := HostIdx.idxVal 3 (launchContents m d (Proc.devRef .tc main_arg2))

/-- The six regions' segments with the valuation named, at the calls' payload with those contents. -/
theorem r0V (m : (ℓ : Loc nD τ sig) → Buf (Elt F) ℓ) : SegRegionV (F := F) (PV (contsOf (F := F) m)) 0 0 (Proc.devRef .tc main_v1) val0 :=
  seg_region0V (PV (contsOf (F := F) m)) 0
theorem r1V (m : (ℓ : Loc nD τ sig) → Buf (Elt F) ℓ) : SegRegionV (F := F) (PV (contsOf (F := F) m)) 1 1 (Proc.devRef .tc main_v21) val1 :=
  seg_region1V (PV (contsOf (F := F) m)) 1 (dt1 1) (data1 1)
theorem r2V (m : (ℓ : Loc nD τ sig) → Buf (Elt F) ℓ) : SegRegionV (F := F) (PV (contsOf (F := F) m)) 2 2 (Proc.devRef .tc main_v25) val2 :=
  seg_region2V (PV (contsOf (F := F) m)) 2 (dt2 2) (data2 2)
theorem r3V (m : (ℓ : Loc nD τ sig) → Buf (Elt F) ℓ) : SegRegionV (F := F) (PV (contsOf (F := F) m)) 3 3 (Proc.devRef .tc main_v29) val3 :=
  seg_region3V (PV (contsOf (F := F) m)) 3 (dt3 3) (data3 3)
theorem r4V (m : (ℓ : Loc nD τ sig) → Buf (Elt F) ℓ) : SegRegionV (F := F) (PV (contsOf (F := F) m)) 4 4 (Proc.devRef .tc main_v33) val4 :=
  seg_region4V (PV (contsOf (F := F) m)) 4 (dt4 4) (data4 4)
theorem r5V (m : (ℓ : Loc nD τ sig) → Buf (Elt F) ℓ) : SegRegionV (F := F) (PV (contsOf (F := F) m)) 5 4 (Proc.devRef .tc main_v36) val5 :=
  seg_region5V (PV (contsOf (F := F) m)) 4

/-! ## The walk, the end, the run -/

theorem contsOf_y (m : (ℓ : Loc nD τ sig) → Buf (Elt F) ℓ) (d : Dev nD) :
    (contsOf (F := F) m).y d = val0 (after host0 (launchContents m d)) d := by dsimp only [contsOf]
theorem contsOf_ix0 (m : (ℓ : Loc nD τ sig) → Buf (Elt F) ℓ) (d : Dev nD) :
    (contsOf (F := F) m).ix0 d = HostIdx.idxVal 0 (launchContents m d (Proc.devRef .tc main_arg2)) := by dsimp only [contsOf]
theorem contsOf_ix1 (m : (ℓ : Loc nD τ sig) → Buf (Elt F) ℓ) (d : Dev nD) :
    HostIdx.idxVal 1 (launchContents m d (Proc.devRef .tc main_arg2)) = (contsOf (F := F) m).ix1 d := by dsimp only [contsOf]
theorem contsOf_ix2 (m : (ℓ : Loc nD τ sig) → Buf (Elt F) ℓ) (d : Dev nD) :
    HostIdx.idxVal 2 (launchContents m d (Proc.devRef .tc main_arg2)) = (contsOf (F := F) m).ix2 d := by dsimp only [contsOf]
theorem contsOf_ix3 (m : (ℓ : Loc nD τ sig) → Buf (Elt F) ℓ) (d : Dev nD) :
    HostIdx.idxVal 3 (launchContents m d (Proc.devRef .tc main_arg2)) = (contsOf (F := F) m).ix3 d := by dsimp only [contsOf]

/-- The tensor core's program on device d, with contents: it ends with the fourteen arguments as launched and the
    result array at the composed value. -/
theorem hmainV (m : (ℓ : Loc nD τ sig) → Buf (Elt F) ℓ) (ρ : Dev nD → PrngReg) (κ : GSem nD τ sig → ℕ) (d : Dev nD) :
    iprop((K (F := F)).ctx EH (PV (contsOf (F := F) m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 4 ∗ FIN m d
            ∗ ((SparseCore.T d).loc main_v37 ↦{fullShare}
                Wfin (contsOf (F := F) m) val0 val1 val2 val3 val4 val5 d (launchContents m d) (Proc.devRef .tc main_v37))) :=
  hmain_ofV (contsOf (F := F) m) val0 val1 val2 val3 val4 val5 (r0V m) (r1V m) (r2V m) (r3V m) (r4V m) (r5V m) m ρ
    (contsOf_y m) (contsOf_ix0 m)
    (fun d W h => (host3_idxVal W _ h).trans (contsOf_ix1 m d)) (fun d W h => (host5_idxVal W _ h).trans (contsOf_ix2 m d))
    (fun d W h => (host7_idxVal W _ h).trans (contsOf_ix3 m d)) κ d

/-- The result array's contents at the end, as a function of the launch memory. -/
abbrev Kval (m : (ℓ : Loc nD τ sig) → Buf (Elt F) ℓ) (d : Dev nD) : Buf (Elt F) ((SparseCore.T d : Thread nD τ).loc main_v37) :=
  Wfin (contsOf (F := F) m) val0 val1 val2 val3 val4 val5 d (launchContents m d) (Proc.devRef .tc main_v37)

/-- What the tensor core ends with: the arguments as launched, the result array at its value. -/
abbrev FINV (m : (ℓ : Loc nD τ sig) → Buf (Elt F) ℓ) (d : Dev nD) : sProp 𝕄 :=
  iprop(FIN m d ∗ ((SparseCore.T d).loc main_v37 ↦{fullShare} Kval m d))

/-- What the final memory must satisfy on device d. -/
def fqV (m : (ℓ : Loc nD τ sig) → Buf (Elt F) ℓ) (d : Dev nD) (s' : Phys nD τ sig (Elt F)) : Prop :=
  fq m d s' ∧ s'.mem.mem ((SparseCore.T d).loc main_v37) = Kval m d

theorem hfinV (m : (ℓ : Loc nD τ sig) → Buf (Elt F) ℓ) (d : Dev nD) (s' : Phys nD τ sig (Elt F)) :
    iprop(FINV m d ∗ SI s') ⊢ (⌜fqV m d s'⌝ : sProp 𝕄) := by
  iintro ⟨⟨HF, HR⟩, HSI⟩
  ihave X := (agree_keep (F := F) _ _ s') $$ [HR HSI]
  · isplitl [HR] <;> iassumption
  icases X with ⟨%hr, HSI⟩
  ihave Y := (hfin m d s') $$ [HF HSI]
  · isplitl [HF] <;> iassumption
  icases Y with %hf
  ipureintro
  exact ⟨hf, hr⟩

/-- THE KERNEL PROGRAM'S RUN WITH ITS RESULT: given the four tile tasks with contents, every thread ends, nothing faults,
    the result array holds Kval of the launch memory and the fourteen argument arrays are as launched. -/
theorem run_valueK (m : (ℓ : Loc nD τ sig) → Buf (Elt F) ℓ) (ρ : Dev nD → PrngReg)
    (htile : ∀ q, (K (F := F)).TileObl (D (F := F)) 𝒱 (PV (contsOf (F := F) m)) v₀ q) :
    θ_run (Cert.KernelIdeal.defs (F := F)) (Cert.KernelIdeal.threads (F := F)) ⟨m, fun _ => 0, ρ⟩
      (fun r => ∀ d : Dev nD, r.2.mem ((SparseCore.T d).loc main_v37) = Kval m d ∧ keptIn m r d) :=
  run_ofV (C := contsOf (F := F) m) m ρ (FINV m) (fqV m) _ htile (hmainV m ρ) (hfinV m)
    (fun _ hh d => ⟨(hh d).2, (hh d).1⟩)

end Cert.KernelIdeal.Sc

end
-- ==== Proof.RefRun.lean ====
/-
  The reference's run, stated at its last stage.

  The run of the reference program ends with its result array at the composed term of the fourteen argument arrays and
  the arguments unchanged; that term is the last of the 93 stages, each stage one operation applied to earlier stages. So
  the run ends with the result at the last stage of the arguments, which is the form the stage-by-stage lemmas read
  at an index.
-/
import proofs.«215235_g2774548873965_cont_9to1_572_34_alg».proof.Proof.RefRunPatched
import proofs.«215235_g2774548873965_cont_9to1_572_34_alg».proof.Proof.RefReadPatched

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Every weakly fair execution of the reference terminates with the result at the last stage of the arguments and the
    arguments unchanged. -/
theorem run_val (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v65) = ReadP.val_main_v65 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c).1.trans (ReadP.val_main_v65_eq m c), (h c).2⟩) (ValueP.run m ρ)

end Cert.ReferenceIdeal.RefRun

end
-- ==== Proof.Spec.lean ====
/-
  The specification: the result as ONE function of the fourteen argument arrays (`G`, at the end), built from the rows of
  y = x · W_in at the neighbour indices, the aggregate over the 64 neighbour slots, and the tail.

  agg[b, n, f] = 0 + Σ_k rows[b, n, k, f] · (filt[b, n, k, f] · cut[b, n, k]) · mask[b, n, k], with
  filt[b, n, k, f] = Σ_j ssp(Σ_m f[b, n, k, m] · W₁[m, j] + b₁[j]) · W₂[j, f] + b₂[f] and cut = 1 where r ≤ 5, else 0;

  out[b, n, g] = Σ_f ssp(Σ_e agg[b, n, e] · W_out[e, f] + b_out[f]) · W_d[f, g] + b_d[g], over extended reals, where
  ssp(v) is the shifted softplus exactly as the reference computes it: max(v, 0) + log1p(exp(−|v − 0|)), behind a
  test of v − 0 against itself that selects v + 0 where the two differ (never, over the extended reals), minus log 2
  (the logarithm of the float 2.0, not a rounded constant).

  This module names no program: literal shapes, the float operations of the ideal instance.
-/
import Idealize.ShloMosaic.PureOps.Ideal
import Idealize.ShloMosaic.Lib.ValueIdx

noncomputable section

namespace Cert.Spec

open Idealize.ShloMosaic Idealize.ShloMosaic.ValueIdx

/-- The float zero and the float two, as their words. -/
abbrev zero32 : Ideal .f32 := FloatOps.ofBits (F := Ideal) .f32 0x00000000#32
abbrev two32 : Ideal .f32 := FloatOps.ofBits (F := Ideal) .f32 0x40000000#32

/-- The shifted softplus, operation by operation as the reference has it. -/
def ssp (v : Ideal .f32) : Ideal .f32 :=
  FloatOps.subf
    (Scalar.select (FloatOps.cmpf .une (FloatOps.subf v zero32) (FloatOps.subf v zero32)) (FloatOps.addf v zero32)
      (FloatOps.addf (FloatOps.maximumf v zero32)
        (FloatOps.hostUnary .log1p (FloatOps.hostUnary .exp (FloatOps.hostNegf (FloatOps.hostAbsf (FloatOps.subf v zero32)))))))
    (FloatOps.hostUnary .log two32)

/-- One dense layer over the last axis of a [8, 1024, 128] array: Σ_k a[b, n, k] · W[k, f] + bias[f]. -/
def dense (a : (⟨3, ![8, 1024, 128]⟩ : Shape).Idx → Ideal .f32) (W : (⟨2, ![128, 128]⟩ : Shape).Idx → Ideal .f32)
    (bias : (⟨1, ![128]⟩ : Shape).Idx → Ideal .f32) (i : (⟨3, ![8, 1024, 128]⟩ : Shape).Idx) : Ideal .f32 :=
  FloatOps.addf (∑ k : Fin 128, a (ix3 (i 0) (i 1) k) * W (ix2 k (i 2))) (bias (ix1 (i 2)))

/-- The result as a function of the aggregate: a dense layer, the shifted softplus, a dense layer. -/
def outOfAgg (agg : (⟨3, ![8, 1024, 128]⟩ : Shape).Idx → Ideal .f32)
    (Wout : (⟨2, ![128, 128]⟩ : Shape).Idx → Ideal .f32) (bout : (⟨1, ![128]⟩ : Shape).Idx → Ideal .f32)
    (Wd : (⟨2, ![128, 128]⟩ : Shape).Idx → Ideal .f32) (bd : (⟨1, ![128]⟩ : Shape).Idx → Ideal .f32) :
    (⟨3, ![8, 1024, 128]⟩ : Shape).Idx → Ideal .f32 :=
  dense (fun j => ssp (dense agg Wout bout j)) Wd bd

/-! ## The aggregate -/

/-- The float five (the cutoff radius), as its word. -/
abbrev five32 : Ideal .f32 := FloatOps.ofBits (F := Ideal) .f32 0x40A00000#32

/-- The filter's first layer at (b, n, k, j): Σ_m f[b, n, k, m] · W₁[m, j] + b₁[j]. -/
def filtIn (f : (⟨4, ![8, 1024, 64, 50]⟩ : Shape).Idx → Ideal .f32) (W1 : (⟨2, ![50, 128]⟩ : Shape).Idx → Ideal .f32)
    (b1 : (⟨1, ![128]⟩ : Shape).Idx → Ideal .f32) (i : (⟨4, ![8, 1024, 64, 128]⟩ : Shape).Idx) : Ideal .f32 :=
  FloatOps.addf (∑ m : Fin 50, f (ix4 (i 0) (i 1) (i 2) m) * W1 (ix2 m (i 3))) (b1 (ix1 (i 3)))

/-- The filter at (b, n, k, f): Σ_j ssp(first layer)[b, n, k, j] · W₂[j, f] + b₂[f]. -/
def filt (f : (⟨4, ![8, 1024, 64, 50]⟩ : Shape).Idx → Ideal .f32) (W1 : (⟨2, ![50, 128]⟩ : Shape).Idx → Ideal .f32)
    (b1 : (⟨1, ![128]⟩ : Shape).Idx → Ideal .f32) (W2 : (⟨2, ![128, 128]⟩ : Shape).Idx → Ideal .f32)
    (b2 : (⟨1, ![128]⟩ : Shape).Idx → Ideal .f32) (i : (⟨4, ![8, 1024, 64, 128]⟩ : Shape).Idx) : Ideal .f32 :=
  FloatOps.addf (∑ j : Fin 128, ssp (filtIn f W1 b1 (ix4 (i 0) (i 1) (i 2) j)) * W2 (ix2 j (i 3))) (b2 (ix1 (i 3)))

/-- The cutoff factor at (b, n, k): 1 where r ≤ 5, else 0. -/
def cut (r : (⟨3, ![8, 1024, 64]⟩ : Shape).Idx → Ideal .f32) (j : (⟨3, ![8, 1024, 64]⟩ : Shape).Idx) : Ideal .f32 :=
  FloatOps.uitofp .f32 (FloatOps.cmpf .ole (r j) five32)

/-- One neighbour slot's term at (b, n, k, f): the gathered row's entry, times the filter times the cutoff, times the mask. -/
def term (rows : (⟨4, ![8, 1024, 64, 128]⟩ : Shape).Idx → Ideal .f32) (f : (⟨4, ![8, 1024, 64, 50]⟩ : Shape).Idx → Ideal .f32)
    (r mask : (⟨3, ![8, 1024, 64]⟩ : Shape).Idx → Ideal .f32) (W1 : (⟨2, ![50, 128]⟩ : Shape).Idx → Ideal .f32)
    (b1 : (⟨1, ![128]⟩ : Shape).Idx → Ideal .f32) (W2 : (⟨2, ![128, 128]⟩ : Shape).Idx → Ideal .f32)
    (b2 : (⟨1, ![128]⟩ : Shape).Idx → Ideal .f32) (i : (⟨4, ![8, 1024, 64, 128]⟩ : Shape).Idx) : Ideal .f32 :=
  FloatOps.mulf (FloatOps.mulf (rows i) (FloatOps.mulf (filt f W1 b1 W2 b2 i) (cut r (ix3 (i 0) (i 1) (i 2)))))
    (mask (ix3 (i 0) (i 1) (i 2)))

/-- The aggregate at (b, n, f): zero plus the sum of the 64 slots' terms. -/
def aggOf (rows : (⟨4, ![8, 1024, 64, 128]⟩ : Shape).Idx → Ideal .f32) (f : (⟨4, ![8, 1024, 64, 50]⟩ : Shape).Idx → Ideal .f32)
    (r mask : (⟨3, ![8, 1024, 64]⟩ : Shape).Idx → Ideal .f32) (W1 : (⟨2, ![50, 128]⟩ : Shape).Idx → Ideal .f32)
    (b1 : (⟨1, ![128]⟩ : Shape).Idx → Ideal .f32) (W2 : (⟨2, ![128, 128]⟩ : Shape).Idx → Ideal .f32)
    (b2 : (⟨1, ![128]⟩ : Shape).Idx → Ideal .f32) (i : (⟨3, ![8, 1024, 128]⟩ : Shape).Idx) : Ideal .f32 :=
  zero32 + ∑ k : Fin 64, term rows f r mask W1 b1 W2 b2 (ix4 (i 0) (i 1) k (i 2))

/-! ## The whole specification -/

/-- y = x · W_in at (b, n, f). -/
def yOf (x : (⟨3, ![8, 1024, 128]⟩ : Shape).Idx → Ideal .f32) (Win : (⟨2, ![128, 128]⟩ : Shape).Idx → Ideal .f32)
    (j : (⟨3, ![8, 1024, 128]⟩ : Shape).Idx) : Ideal .f32 :=
  ∑ k : Fin 128, x (ix3 (j 0) (j 1) k) * Win (ix2 k (j 2))

/-- The gathered rows: rows[b, n, k, f] = y[b, nbr[b, n, k], f], the index read as a natural number and clamped into
    0 … 1023 (the clamp is the identity when the index is in range). -/
def rowsOf (y : (⟨3, ![8, 1024, 128]⟩ : Shape).Idx → Ideal .f32) (nbr : (⟨3, ![8, 1024, 64]⟩ : Shape).Idx → BitVec 32)
    (i : (⟨4, ![8, 1024, 64, 128]⟩ : Shape).Idx) : Ideal .f32 :=
  y (ix3 (i 0) (⟨min (nbr (ix3 (i 0) (i 1) (i 2))).toNat 1023, by omega⟩ : Fin 1024) (i 3))

/-- THE SPECIFICATION: the result as one function of the fourteen argument arrays (x, r, nbr, mask, f, W₁, b₁, W₂, b₂,
    W_in, W_out, b_out, W_d, b_d, in the program's argument order). -/
def G (x : (⟨3, ![8, 1024, 128]⟩ : Shape).Idx → Ideal .f32) (r : (⟨3, ![8, 1024, 64]⟩ : Shape).Idx → Ideal .f32)
    (nbr : (⟨3, ![8, 1024, 64]⟩ : Shape).Idx → BitVec 32) (mask : (⟨3, ![8, 1024, 64]⟩ : Shape).Idx → Ideal .f32)
    (f : (⟨4, ![8, 1024, 64, 50]⟩ : Shape).Idx → Ideal .f32) (W1 : (⟨2, ![50, 128]⟩ : Shape).Idx → Ideal .f32)
    (b1 : (⟨1, ![128]⟩ : Shape).Idx → Ideal .f32) (W2 : (⟨2, ![128, 128]⟩ : Shape).Idx → Ideal .f32)
    (b2 : (⟨1, ![128]⟩ : Shape).Idx → Ideal .f32) (Win Wout : (⟨2, ![128, 128]⟩ : Shape).Idx → Ideal .f32)
    (bout : (⟨1, ![128]⟩ : Shape).Idx → Ideal .f32) (Wd : (⟨2, ![128, 128]⟩ : Shape).Idx → Ideal .f32)
    (bd : (⟨1, ![128]⟩ : Shape).Idx → Ideal .f32) : (⟨3, ![8, 1024, 128]⟩ : Shape).Idx → Ideal .f32 :=
  outOfAgg (aggOf (rowsOf (yOf x Win) nbr) f r mask W1 b1 W2 b2) Wout bout Wd bd

end Cert.Spec

end
-- ==== Proof.RefIsSpec.lean ====
/-
  The reference is the specification, from the gathered rows on.

  Read at an index through the stage lemmas, the reference's result is `Cert.Spec.outOfAgg` (a dense layer, the shifted
  softplus, a dense layer) of `Cert.Spec.aggOf` (zero plus the 64 neighbour slots' terms: gathered row times filter
  times cutoff times mask) of the reference's own gathered rows — its stage 35, the gather's result read in the shape
  [8, 1024, 64, 128] — and the other argument arrays: `ref_eq`.

  What this module does NOT say: that stage 35 at (b, n, k, f) is y[b, nbr[b, n, k], f] with y = x · W_in. The gather
  stage and the all-reduction that guards it have no read-at-an-index lemma; reading them needs the neighbour
  indices in range (0 ≤ nbr ≤ 1023), under which the index normalisation and the in-bounds fill are inert.
-/
import proofs.«215235_g2774548873965_cont_9to1_572_34_alg».proof.Proof.RefReadPatched
import proofs.«215235_g2774548873965_cont_9to1_572_34_alg».proof.Proof.Spec

noncomputable section

namespace Cert.ReferenceIdeal.RefIsSpec

open Cert.ReferenceIdeal Cert.ReferenceIdeal.Gen Cert.ReferenceIdeal.ReadP Idealize.ShloMosaic Idealize.ShloMosaic.ValueIdx Cert.Spec

variable (x0 : (⟨S8x1024x128, .f32⟩ : BufTy).Contents (Elt Ideal)) (x1 : (⟨S8x1024x64, .f32⟩ : BufTy).Contents (Elt Ideal))
  (x2 : (⟨S8x1024x64, .i32⟩ : BufTy).Contents (Elt Ideal)) (x3 : (⟨S8x1024x64, .f32⟩ : BufTy).Contents (Elt Ideal))
  (x4 : (⟨S8x1024x64x50, .f32⟩ : BufTy).Contents (Elt Ideal)) (x5 : (⟨S50x128, .f32⟩ : BufTy).Contents (Elt Ideal))
  (x6 : (⟨S128, .f32⟩ : BufTy).Contents (Elt Ideal)) (x7 : (⟨S128x128, .f32⟩ : BufTy).Contents (Elt Ideal))
  (x8 : (⟨S128, .f32⟩ : BufTy).Contents (Elt Ideal)) (x9 x10 : (⟨S128x128, .f32⟩ : BufTy).Contents (Elt Ideal))
  (x11 : (⟨S128, .f32⟩ : BufTy).Contents (Elt Ideal)) (x12 : (⟨S128x128, .f32⟩ : BufTy).Contents (Elt Ideal))
  (x13 : (⟨S128, .f32⟩ : BufTy).Contents (Elt Ideal))

/-! ## The index functions of the two dense layers and their biases, as coordinates -/

theorem lidx41 (i : S8x1024x128.Idx) (k : Fin 128) : lidx_main_v41 i k = ix3 (i 0) (i 1) k := funext fun a => Fin.ext (by match a with | ⟨0, _⟩ => rfl | ⟨1, _⟩ => rfl | ⟨2, _⟩ => rfl)
theorem ridx41 (i : S8x1024x128.Idx) (k : Fin 128) : ridx_main_v41 i k = ix2 k (i 2) := funext fun a => Fin.ext (by match a with | ⟨0, _⟩ => rfl | ⟨1, _⟩ => rfl)
theorem bias43 (i : S8x1024x128.Idx) : idx_main_v42 (idx_main_v43 i) = ix1 (i 2) := funext fun a => Fin.ext (by match a with | ⟨0, _⟩ => rfl)
theorem lidx62 (i : S8x1024x128.Idx) (k : Fin 128) : lidx_main_v62 i k = ix3 (i 0) (i 1) k := funext fun a => Fin.ext (by match a with | ⟨0, _⟩ => rfl | ⟨1, _⟩ => rfl | ⟨2, _⟩ => rfl)
theorem ridx62 (i : S8x1024x128.Idx) (k : Fin 128) : ridx_main_v62 i k = ix2 k (i 2) := funext fun a => Fin.ext (by match a with | ⟨0, _⟩ => rfl | ⟨1, _⟩ => rfl)
theorem bias64 (i : S8x1024x128.Idx) : idx_main_v63 (idx_main_v64 i) = ix1 (i 2) := funext fun a => Fin.ext (by match a with | ⟨0, _⟩ => rfl)

/-! ## The three stages of the tail -/

/-- The first dense layer: the aggregate times W_out plus b_out. -/
theorem v44_at (j : S8x1024x128.Idx) :
    val_main_v44 (F := Ideal) x0 x1 x2 x3 x4 x5 x6 x7 x8 x9 x10 x11 j = dense (val_main_v40 (F := Ideal) x0 x1 x2 x3 x4 x5 x6 x7 x8 x9) x10 x11 j := by
  rw [val_main_v44_apply, val_main_v41_apply, val_main_v43_apply, val_main_v42_apply, bias43]
  simp only [lidx41, ridx41]
  rfl

/-- The shifted softplus of it, entry by entry. -/
theorem v61_at (j : S8x1024x128.Idx) :
    val_main_v61 (F := Ideal) x0 x1 x2 x3 x4 x5 x6 x7 x8 x9 x10 x11 j = ssp (val_main_v44 (F := Ideal) x0 x1 x2 x3 x4 x5 x6 x7 x8 x9 x10 x11 j) := rfl

/-- The specification's tail at an index, written out. -/
theorem outOfAgg_apply (agg : S8x1024x128.Idx → Ideal .f32) (Wout : S128x128.Idx → Ideal .f32) (bout : S128.Idx → Ideal .f32)
    (Wd : S128x128.Idx → Ideal .f32) (bd : S128.Idx → Ideal .f32) (i : S8x1024x128.Idx) :
    outOfAgg agg Wout bout Wd bd i
      = FloatOps.addf (∑ k : Fin 128, ssp (dense agg Wout bout (ix3 (i 0) (i 1) k)) * Wd (ix2 k (i 2))) (bd (ix1 (i 2))) := rfl

/-- THE TAIL: the reference's result is the specification's function of the reference's aggregate. -/
theorem out_eq (i : S8x1024x128.Idx) :
    val_main_v65 (F := Ideal) x0 x1 x2 x3 x4 x5 x6 x7 x8 x9 x10 x11 x12 x13 i = outOfAgg (val_main_v40 (F := Ideal) x0 x1 x2 x3 x4 x5 x6 x7 x8 x9) x10 x11 x12 x13 i := by
  rw [val_main_v65_apply, val_main_v62_apply, val_main_v64_apply, val_main_v63_apply, bias64]
  have hs : ∀ k : Fin 128, val_main_v61 (F := Ideal) x0 x1 x2 x3 x4 x5 x6 x7 x8 x9 x10 x11 (lidx_main_v62 i k) * x12 (ridx_main_v62 i k)
      = ssp (dense (val_main_v40 (F := Ideal) x0 x1 x2 x3 x4 x5 x6 x7 x8 x9) x10 x11 (ix3 (i 0) (i 1) k)) * x12 (ix2 k (i 2)) := fun k => by
    rw [v61_at, v44_at]
    simp only [lidx62, ridx62]
    rfl
  rw [Finset.sum_congr rfl (fun k _ => hs k), outOfAgg_apply]
  rfl

/-! ## The aggregate's stages -/

theorem lidx0 (i : S8x1024x64x128.Idx) (k : Fin 50) : lidx_main_v0 i k = ix4 (i 0) (i 1) (i 2) k := funext fun a => Fin.ext (by match a with | ⟨0, _⟩ => rfl | ⟨1, _⟩ => rfl | ⟨2, _⟩ => rfl | ⟨3, _⟩ => rfl)
theorem ridx0 (i : S8x1024x64x128.Idx) (k : Fin 50) : ridx_main_v0 i k = ix2 k (i 3) := funext fun a => Fin.ext (by match a with | ⟨0, _⟩ => rfl | ⟨1, _⟩ => rfl)
theorem bias2 (i : S8x1024x64x128.Idx) : idx_main_v1 (idx_main_v2 i) = ix1 (i 3) := funext fun a => Fin.ext (by match a with | ⟨0, _⟩ => rfl)
theorem lidx21 (i : S8x1024x64x128.Idx) (k : Fin 128) : lidx_main_v21 i k = ix4 (i 0) (i 1) (i 2) k := funext fun a => Fin.ext (by match a with | ⟨0, _⟩ => rfl | ⟨1, _⟩ => rfl | ⟨2, _⟩ => rfl | ⟨3, _⟩ => rfl)
theorem ridx21 (i : S8x1024x64x128.Idx) (k : Fin 128) : ridx_main_v21 i k = ix2 k (i 3) := funext fun a => Fin.ext (by match a with | ⟨0, _⟩ => rfl | ⟨1, _⟩ => rfl)
theorem bias23 (i : S8x1024x64x128.Idx) : idx_main_v22 (idx_main_v23 i) = ix1 (i 3) := funext fun a => Fin.ext (by match a with | ⟨0, _⟩ => rfl)
theorem slot29 (i : S8x1024x64x128.Idx) : idx_main_v28 (idx_main_v29 i) = ix3 (i 0) (i 1) (i 2) := funext fun a => Fin.ext (by match a with | ⟨0, _⟩ => rfl | ⟨1, _⟩ => rfl | ⟨2, _⟩ => rfl)
theorem slot38 (i : S8x1024x64x128.Idx) : idx_main_v37 (idx_main_v38 i) = ix3 (i 0) (i 1) (i 2) := funext fun a => Fin.ext (by match a with | ⟨0, _⟩ => rfl | ⟨1, _⟩ => rfl | ⟨2, _⟩ => rfl)
theorem idx40 (i : S8x1024x128.Idx) (k : Fin 64) : idx_main_v40 i k = ix4 (i 0) (i 1) k (i 2) := funext fun a => Fin.ext (by match a with | ⟨0, _⟩ => rfl | ⟨1, _⟩ => rfl | ⟨2, _⟩ => rfl | ⟨3, _⟩ => rfl)

/-- The filter's first layer. -/
theorem v3_at (j : S8x1024x64x128.Idx) : val_main_v3 (F := Ideal) x4 x5 x6 j = filtIn x4 x5 x6 j := by
  rw [val_main_v3_apply, val_main_v0_apply, val_main_v2_apply, val_main_v1_apply, bias2]
  simp only [lidx0, ridx0]
  rfl

/-- Its shifted softplus. -/
theorem v20_at (j : S8x1024x64x128.Idx) : val_main_v20 (F := Ideal) x4 x5 x6 j = ssp (val_main_v3 (F := Ideal) x4 x5 x6 j) := rfl

/-- The filter. -/
theorem v24_at (i : S8x1024x64x128.Idx) : val_main_v24 (F := Ideal) x4 x5 x6 x7 x8 i = filt x4 x5 x6 x7 x8 i := by
  rw [val_main_v24_apply, val_main_v21_apply, val_main_v23_apply, val_main_v22_apply, bias23]
  have hs : ∀ k : Fin 128, val_main_v20 (F := Ideal) x4 x5 x6 (lidx_main_v21 i k) * x7 (ridx_main_v21 i k)
      = ssp (filtIn x4 x5 x6 (ix4 (i 0) (i 1) (i 2) k)) * x7 (ix2 k (i 3)) := fun k => by
    rw [v20_at, v3_at]
    simp only [lidx21, ridx21]
    rfl
  rw [Finset.sum_congr rfl (fun k _ => hs k)]
  rfl

/-- The cutoff factor, along the features. -/
theorem v29_at (i : S8x1024x64x128.Idx) : val_main_v29 (F := Ideal) x1 i = cut x1 (ix3 (i 0) (i 1) (i 2)) := by
  rw [val_main_v29_apply, val_main_v28_apply, slot29]
  rfl

/-- The mask, along the features. -/
theorem v38_at (i : S8x1024x64x128.Idx) : val_main_v38 (F := Ideal) x3 i = x3 (ix3 (i 0) (i 1) (i 2)) := by
  rw [val_main_v38_apply, val_main_v37_apply, slot38]
  rfl

/-- One slot's term, over the reference's own gathered rows (its stage 35). -/
theorem v39_at (i : S8x1024x64x128.Idx) :
    val_main_v39 (F := Ideal) x0 x1 x2 x3 x4 x5 x6 x7 x8 x9 i = term (val_main_v35 (F := Ideal) x0 x2 x9) x4 x1 x3 x5 x6 x7 x8 i := by
  rw [val_main_v39_apply, val_main_v36_apply, val_main_v30_apply, v24_at, v29_at, v38_at]
  rfl

/-- THE AGGREGATE, over the reference's own gathered rows. -/
theorem agg_eq (i : S8x1024x128.Idx) :
    val_main_v40 (F := Ideal) x0 x1 x2 x3 x4 x5 x6 x7 x8 x9 i = aggOf (val_main_v35 (F := Ideal) x0 x2 x9) x4 x1 x3 x5 x6 x7 x8 i := by
  rw [val_main_v40_apply]
  have hs : ∀ k : Fin 64, val_main_v39 (F := Ideal) x0 x1 x2 x3 x4 x5 x6 x7 x8 x9 (idx_main_v40 i k)
      = term (val_main_v35 (F := Ideal) x0 x2 x9) x4 x1 x3 x5 x6 x7 x8 (ix4 (i 0) (i 1) k (i 2)) := fun k => by
    rw [v39_at]
    simp only [idx40]
    rfl
  rw [Finset.sum_congr rfl (fun k _ => hs k)]
  rfl

/-- THE REFERENCE, up to its gathered rows: the result is the specification's tail of the specification's aggregate over
    the reference's own gathered rows (its stage 35), the filters' inputs, the distances, the mask and the weights. -/
theorem ref_eq (i : S8x1024x128.Idx) :
    val_main_v65 (F := Ideal) x0 x1 x2 x3 x4 x5 x6 x7 x8 x9 x10 x11 x12 x13 i
      = outOfAgg (aggOf (val_main_v35 (F := Ideal) x0 x2 x9) x4 x1 x3 x5 x6 x7 x8) x10 x11 x12 x13 i := by
  rw [out_eq]
  exact congrArg (fun a => outOfAgg a x10 x11 x12 x13 i) (funext fun j => agg_eq x0 x1 x2 x3 x4 x5 x6 x7 x8 x9 j)

end Cert.ReferenceIdeal.RefIsSpec

end
-- ==== Proof.RefGather.lean ====
/-
  The reference's gathered rows, read at an index: stage 35 at (b, n, k, f) is y[b, nbr[b, n, k], f], y = x · W_in.

  The reference takes rows of y along its node axis at the neighbour indices. It first normalises an index (adds 1024 to
  a negative one), then gathers — result (b, e, f), e = 64·n + k, is y at (b, r, f) with r the normalised index clamped
  into 0 … 1023 —, and replaces by a not-a-number every row whose normalised index is not in 0 … 1023 (an all-reduction by
  `and` over an axis of size one decides it). When every neighbour index is in 0 … 1023, normalising changes nothing, the
  clamp changes nothing, no row is replaced: the gathered row is the row of y named by the index.
-/
import proofs.«215235_g2774548873965_cont_9to1_572_34_alg».proof.Proof.RefReadPatched
import Idealize.ShloMosaic.Lib.ReduceAll

noncomputable section

namespace Cert.ReferenceIdeal.RefGather

open Cert.ReferenceIdeal Cert.ReferenceIdeal.Gen Cert.ReferenceIdeal.ReadP Idealize.ShloMosaic Idealize.ShloMosaic.ValueIdx

/-! ## The gather at an index -/

/-- The start-indices index of result index (b, e, f): (b, e, 0). -/
abbrev siAt (j : S8x65536x128.Idx) : S8x65536x1.Idx := fun a => match a with
  | ⟨0, _⟩ => ⟨(j 0).val, (j 0).isLt⟩
  | ⟨1, _⟩ => ⟨(j 1).val, (j 1).isLt⟩
  | ⟨2, _⟩ => ⟨0, Nat.one_pos⟩

/-- The operand index of result index (b, e, f) for row r. -/
abbrev opAt (j : S8x65536x128.Idx) (r : Nat) (hr : r < 1024) : S8x1024x128.Idx := fun a => match a with
  | ⟨0, _⟩ => ⟨(j 0).val, (j 0).isLt⟩
  | ⟨1, _⟩ => ⟨r, hr⟩
  | ⟨2, _⟩ => ⟨(j 2).val, (j 2).isLt⟩

/-- THE GATHER READ AT (b, e, f). -/
theorem gather_apply {α : Type} (x : S8x1024x128.Idx → α) (idx : IVec S8x65536x1 32) (j : S8x65536x128.Idx) :
    Host.gather gather_S8x1024x128_S8x65536x1_S8x65536x128_2_1_0_0_1_2_11128 x idx j
      = x (opAt j (min (idx (siAt j)).toInt.toNat 1023) (by omega)) := by
  unfold Host.gather
  congr 1
  funext a
  refine Fin.ext ?_
  show gather_S8x1024x128_S8x65536x1_S8x65536x128_2_1_0_0_1_2_11128.start j idx a + gather_S8x1024x128_S8x65536x1_S8x65536x128_2_1_0_0_1_2_11128.batchCoord j a + gather_S8x1024x128_S8x65536x1_S8x65536x128_2_1_0_0_1_2_11128.offCoord j a = _
  fin_cases a
  · rw [GatherDims.start_batching _ _ _ _ (by decide), GatherDims.offCoord_eq_zero _ _ _ (by decide)]
    unfold GatherDims.batchCoord
    rw [dif_pos (by decide)]
    simp only [Nat.zero_add, Nat.add_zero]
    rfl
  · rw [GatherDims.batchCoord_eq_zero _ _ _ (by decide), GatherDims.offCoord_eq_zero _ _ _ (by decide)]
    unfold GatherDims.start
    rw [dif_pos (by decide)]
    simp only [Nat.zero_add, Nat.add_zero]
    refine congrArg₂ min (congrArg (fun z => (idx z).toInt.toNat) ?_) (by decide)
    funext b
    refine Fin.ext ?_
    fin_cases b <;> rfl
  · rw [GatherDims.batchCoord_eq_zero _ _ _ (by decide)]
    unfold GatherDims.start GatherDims.offCoord
    rw [dif_neg (by decide), dif_pos (by decide)]
    simp only [Nat.zero_add, Nat.add_zero]
    rfl

/-! ## A word in 0 … 1023 -/

theorem toInt_of_small (w : BitVec 32) (h : w.toNat < 1024) : w.toInt = (w.toNat : Int) := by
  rw [BitVec.toInt_eq_toNat_cond, if_pos (by omega)]

theorem slt_zero (w : BitVec 32) (h : w.toNat < 1024) : IntOp.cmpi .slt w 0#32 = 0#1 := by
  refine eq_zero_of_ne_one fun e => ?_
  rw [IntOp.cmpi_slt, toInt_of_small w h, show (0#32 : BitVec 32).toInt = 0 from by decide] at e
  omega

theorem sge_zero (w : BitVec 32) (h : w.toNat < 1024) : IntOp.cmpi .sge w 0#32 = 1#1 := by
  rw [IntOp.cmpi_sge, toInt_of_small w h, show (0#32 : BitVec 32).toInt = 0 from by decide]
  omega

theorem sle_max (w : BitVec 32) (h : w.toNat < 1024) : IntOp.cmpi .sle w 1023#32 = 1#1 := by
  rw [IntOp.cmpi_sle, toInt_of_small w h, show (1023#32 : BitVec 32).toInt = 1023 from by decide]
  omega

theorem clamp_small (w : BitVec 32) (h : w.toNat < 1024) : min w.toInt.toNat 1023 = w.toNat := by
  rw [toInt_of_small w h, Int.toNat_natCast]
  omega

/-! ## An all-reduction by `and` of ones is one -/

theorem foldl_andi_one {ι : Type} (f : ι → BitVec 1) : ∀ (l : List ι), (∀ n ∈ l, f n = 1#1) →
    l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

theorem reduce_andi_one {s t u : Shape} {axes : List (Fin s.rank)} (x : s.Idx → BitVec 1) (init : u.Idx → BitVec 1)
    (h : s.ReducesTo axes t) (hu : 0 < u.numel) (j : t.Idx) (hx : ∀ i, x i = 1#1) (hi : ∀ i, init i = 1#1) :
    Host.reduce IntOp.andi x init h hu j = 1#1 := by
  rw [Host.reduce_eq_foldl, hi]
  exact foldl_andi_one x _ fun n _ => hx n

/-! ## The stages from the neighbour argument to the gathered rows -/

section Stages

variable (x0 : (⟨S8x1024x128, .f32⟩ : BufTy).Contents (Elt Ideal)) (x2 : (⟨S8x1024x64, .i32⟩ : BufTy).Contents (Elt Ideal))
  (x9 : (⟨S128x128, .f32⟩ : BufTy).Contents (Elt Ideal)) (h : ∀ j : S8x1024x64.Idx, (x2 j).toNat < 1024)

include h

/-- Every entry of the index array in its gather shape is a neighbour index, so in range. -/
theorem v33_small (e : S8x65536x1.Idx) : (val_main_v33 (F := Ideal) x2 e).toNat < 1024 := by
  rw [val_main_v33_apply, val_main_v32_apply]
  exact h _

/-- Normalising an index in range changes nothing. -/
theorem v4_at (e : S8x65536x1.Idx) : val_main_call0_v4 (F := Ideal) x2 e = val_main_v33 (F := Ideal) x2 e := by
  rw [val_main_call0_v4_apply, val_main_call0_v1_apply, val_main_call0_v0_apply, val_main_call0_c_apply,
    slt_zero _ (v33_small x2 h e), select_zero]

/-- Every normalised index passes the bounds test. -/
theorem v10_one (e : S8x65536x1.Idx) : val_main_call0_v10 (F := Ideal) x2 e = 1#1 := by
  rw [val_main_call0_v10_apply, val_main_call0_v6_apply, val_main_call0_v9_apply, v4_at x2 h e, val_main_call0_v5_apply,
    val_main_call0_c_2_apply, val_main_call0_v8_apply, val_main_call0_v7_apply, val_main_call0_c_1_apply,
    sge_zero _ (v33_small x2 h e), sle_max _ (v33_small x2 h e)]
  decide

/-- So no row is replaced. -/
theorem v13_one (j : S8x65536x128.Idx) : val_main_call0_v13 (F := Ideal) x2 j = 1#1 := by
  rw [val_main_call0_v13_apply]
  unfold val_main_call0_v11
  exact reduce_andi_one _ _ _ _ _ (v10_one x2 h) (fun _ => rfl)

omit h in
theorem opAt_congr (j : S8x65536x128.Idx) (r r' : Nat) (hr : r < 1024) (hr' : r' < 1024) (e : r = r') :
    opAt j r hr = opAt j r' hr' := by subst e; rfl

/-- The gathered row at (b, e, f) is y at (b, the index at (b, e, 0), f). -/
theorem v34_at (j : S8x65536x128.Idx) :
    val_main_v34 (F := Ideal) x0 x2 x9 j
      = val_main_v31 (F := Ideal) x0 x9 (opAt j (val_main_v33 (F := Ideal) x2 (siAt j)).toNat (v33_small x2 h (siAt j))) := by
  rw [val_main_v34_apply, v13_one x2 h j, select_one]
  unfold val_main_call0_v12
  rw [gather_apply]
  exact congrArg (val_main_v31 (F := Ideal) x0 x9)
    (opAt_congr j _ _ _ _ (by rw [v4_at x2 h, clamp_small _ (v33_small x2 h (siAt j))]))

/-- Coordinates (b, n, k) of (b, n, k, f), and (b, r, f). -/
abbrev nbrIdx (i : S8x1024x64x128.Idx) : S8x1024x64.Idx := fun a => match a with
  | ⟨0, _⟩ => ⟨(i 0).val, (i 0).isLt⟩
  | ⟨1, _⟩ => ⟨(i 1).val, (i 1).isLt⟩
  | ⟨2, _⟩ => ⟨(i 2).val, (i 2).isLt⟩
abbrev rowIdx (i : S8x1024x64x128.Idx) (r : Nat) (hr : r < 1024) : S8x1024x128.Idx := fun a => match a with
  | ⟨0, _⟩ => ⟨(i 0).val, (i 0).isLt⟩
  | ⟨1, _⟩ => ⟨r, hr⟩
  | ⟨2, _⟩ => ⟨(i 3).val, (i 3).isLt⟩

/-- STAGE 35: the gathered rows at (b, n, k, f) are y at (b, nbr[b, n, k], f). -/
theorem v35_at (i : S8x1024x64x128.Idx) :
    val_main_v35 (F := Ideal) x0 x2 x9 i
      = val_main_v31 (F := Ideal) x0 x9 (rowIdx i (x2 (nbrIdx i)).toNat (h _)) := by
  have h0 : (i 0).val < 8 := (i 0).isLt
  have h1 : (i 1).val < 1024 := (i 1).isLt
  have h2 : (i 2).val < 64 := (i 2).isLt
  have h3 : (i 3).val < 128 := (i 3).isLt
  have hn : idx_main_v32 (idx_main_v33 (siAt (idx_main_v35 i))) = nbrIdx i := by
    funext a
    refine Fin.ext ?_
    fin_cases a
    · show ((((((i 0).val * 1024 + (i 1).val) * 64 + (i 2).val) * 128 + (i 3).val) / 8388608) * 65536
        + ((((i 0).val * 1024 + (i 1).val) * 64 + (i 2).val) * 128 + (i 3).val) / 128 % 65536) / 65536 = (i 0).val
      omega
    · show ((((((i 0).val * 1024 + (i 1).val) * 64 + (i 2).val) * 128 + (i 3).val) / 8388608) * 65536
        + ((((i 0).val * 1024 + (i 1).val) * 64 + (i 2).val) * 128 + (i 3).val) / 128 % 65536) / 64 % 1024 = (i 1).val
      omega
    · show ((((((i 0).val * 1024 + (i 1).val) * 64 + (i 2).val) * 128 + (i 3).val) / 8388608) * 65536
        + ((((i 0).val * 1024 + (i 1).val) * 64 + (i 2).val) * 128 + (i 3).val) / 128 % 65536) % 64 = (i 2).val
      omega
  have hv : (val_main_v33 (F := Ideal) x2 (siAt (idx_main_v35 i))).toNat = (x2 (nbrIdx i)).toNat := by
    rw [val_main_v33_apply, val_main_v32_apply, hn]
  rw [val_main_v35_apply, v34_at x0 x2 x9 h]
  refine congrArg (val_main_v31 (F := Ideal) x0 x9) ?_
  funext a
  refine Fin.ext ?_
  fin_cases a
  · show ((((i 0).val * 1024 + (i 1).val) * 64 + (i 2).val) * 128 + (i 3).val) / 8388608 = (i 0).val
    omega
  · exact hv
  · show ((((i 0).val * 1024 + (i 1).val) * 64 + (i 2).val) * 128 + (i 3).val) % 128 = (i 3).val
    omega

end Stages

end Cert.ReferenceIdeal.RefGather

end
-- ==== Proof.RefFull.lean ====
/-
  The reference is the specification: its result at an index, as one function of the fourteen argument arrays.

  Under the neighbour indices' range (every entry of the integer argument below 1024), the reference's result is
  the specification's tail (a dense layer, the shifted softplus, a dense layer: `Cert.Spec.outOfAgg`) of the specification's
  aggregate (`Cert.Spec.aggOf`: zero plus, over the 64 neighbour slots, gathered row times filter times cutoff times
  mask) over the rows y[b, nbr[b, n, k], f], y = x · W_in the reference's own stage 31 (`ref_full`); and, stage 31
  being the sum that y is, it is the specification `Cert.Spec.G` of the fourteen arrays (`ref_closed`).
-/
import proofs.«215235_g2774548873965_cont_9to1_572_34_alg».proof.Proof.RefIsSpec
import proofs.«215235_g2774548873965_cont_9to1_572_34_alg».proof.Proof.RefGather

noncomputable section

namespace Cert.ReferenceIdeal.RefFull

open Cert.ReferenceIdeal Cert.ReferenceIdeal.Gen Cert.ReferenceIdeal.ReadP Idealize.ShloMosaic Idealize.ShloMosaic.ValueIdx Cert.Spec

variable (x0 : (⟨S8x1024x128, .f32⟩ : BufTy).Contents (Elt Ideal)) (x1 : (⟨S8x1024x64, .f32⟩ : BufTy).Contents (Elt Ideal))
  (x2 : (⟨S8x1024x64, .i32⟩ : BufTy).Contents (Elt Ideal)) (x3 : (⟨S8x1024x64, .f32⟩ : BufTy).Contents (Elt Ideal))
  (x4 : (⟨S8x1024x64x50, .f32⟩ : BufTy).Contents (Elt Ideal)) (x5 : (⟨S50x128, .f32⟩ : BufTy).Contents (Elt Ideal))
  (x6 : (⟨S128, .f32⟩ : BufTy).Contents (Elt Ideal)) (x7 : (⟨S128x128, .f32⟩ : BufTy).Contents (Elt Ideal))
  (x8 : (⟨S128, .f32⟩ : BufTy).Contents (Elt Ideal)) (x9 x10 : (⟨S128x128, .f32⟩ : BufTy).Contents (Elt Ideal))
  (x11 : (⟨S128, .f32⟩ : BufTy).Contents (Elt Ideal)) (x12 : (⟨S128x128, .f32⟩ : BufTy).Contents (Elt Ideal))
  (x13 : (⟨S128, .f32⟩ : BufTy).Contents (Elt Ideal))

/-- THE REFERENCE IS THE SPECIFICATION OVER y: when every neighbour index is below 1024, the reference's result at an index
    is the specification's tail of the specification's aggregate over the rows y[b, nbr[b, n, k], f] of the reference's
    stage 31 (y = x · W_in, a sum over the 128 input features at an index by its stage lemma). -/
theorem ref_full (h : ∀ j : S8x1024x64.Idx, (x2 j).toNat < 1024) (i : S8x1024x128.Idx) :
    val_main_v65 (F := Ideal) x0 x1 x2 x3 x4 x5 x6 x7 x8 x9 x10 x11 x12 x13 i
      = outOfAgg (aggOf (fun i4 => val_main_v31 (F := Ideal) x0 x9 (RefGather.rowIdx i4 (x2 (RefGather.nbrIdx i4)).toNat (h _)))
          x4 x1 x3 x5 x6 x7 x8) x10 x11 x12 x13 i := by
  rw [RefIsSpec.ref_eq]
  exact congrArg (fun r => outOfAgg (aggOf r x4 x1 x3 x5 x6 x7 x8) x10 x11 x12 x13 i)
    (funext fun i4 => RefGather.v35_at x0 x2 x9 h i4)

theorem lidx31 (i : S8x1024x128.Idx) (k : Fin 128) : lidx_main_v31 i k = ix3 (i 0) (i 1) k := funext fun a => Fin.ext (by match a with | ⟨0, _⟩ => rfl | ⟨1, _⟩ => rfl | ⟨2, _⟩ => rfl)
theorem ridx31 (i : S8x1024x128.Idx) (k : Fin 128) : ridx_main_v31 i k = ix2 k (i 2) := funext fun a => Fin.ext (by match a with | ⟨0, _⟩ => rfl | ⟨1, _⟩ => rfl)

/-- Stage 31 is y. -/
theorem v31_at (j : S8x1024x128.Idx) : val_main_v31 (F := Ideal) x0 x9 j = yOf x0 x9 j := by
  rw [val_main_v31_apply]
  simp only [lidx31, ridx31]
  rfl

/-- In range, the row named by the index is the specification's clamped row. -/
theorem rows_eq (h : ∀ j : S8x1024x64.Idx, (x2 j).toNat < 1024) (i4 : S8x1024x64x128.Idx) :
    val_main_v31 (F := Ideal) x0 x9 (RefGather.rowIdx i4 (x2 (RefGather.nbrIdx i4)).toNat (h _)) = rowsOf (yOf x0 x9) x2 i4 := by
  rw [v31_at]
  unfold rowsOf
  have hn : RefGather.nbrIdx i4 = ix3 (i4 0) (i4 1) (i4 2) := funext fun a => Fin.ext (by match a with | ⟨0, _⟩ => rfl | ⟨1, _⟩ => rfl | ⟨2, _⟩ => rfl)
  refine congrArg (yOf x0 x9) ?_
  funext a
  refine Fin.ext ?_
  have hr := h (RefGather.nbrIdx i4)
  fin_cases a
  · rfl
  · show (x2 (RefGather.nbrIdx i4)).toNat = min (x2 (ix3 (i4 0) (i4 1) (i4 2))).toNat 1023
    have e : (x2 (ix3 (i4 0) (i4 1) (i4 2))).toNat = (x2 (RefGather.nbrIdx i4)).toNat :=
      congrArg (fun z => (x2 z).toNat) hn.symm
    omega
  · rfl

/-- THE REFERENCE IS G: when every neighbour index is below 1024, the reference's result is the specification of the
    fourteen argument arrays. -/
theorem ref_closed (h : ∀ j : S8x1024x64.Idx, (x2 j).toNat < 1024) (i : S8x1024x128.Idx) :
    val_main_v65 (F := Ideal) x0 x1 x2 x3 x4 x5 x6 x7 x8 x9 x10 x11 x12 x13 i = G x0 x1 x2 x3 x4 x5 x6 x7 x8 x9 x10 x11 x12 x13 i := by
  rw [ref_full x0 x1 x2 x3 x4 x5 x6 x7 x8 x9 x10 x11 x12 x13 h i]
  unfold G
  exact congrArg (fun r => outOfAgg (aggOf r x4 x1 x3 x5 x6 x7 x8) x10 x11 x12 x13 i)
    (funext fun i4 => rows_eq x0 x2 x9 h i4)

end Cert.ReferenceIdeal.RefFull

end
-- ==== Proof.ScAlg.lean ====
/-
  The two idealized programs end with equal results: the assembly.

  The kernel's run ends with its result array at the walk's composed value, the arguments unchanged; the reference's run
  ends with its result at the last stage of its own arguments, which is the specification G of them; the two programs
  start from memories that agree on the arguments. So it is enough that the walk's composed value is G of the kernel's
  arguments — and, for the kernel's run to exist at all, that each tile's task can be done with contents named.
-/
import proofs.«215235_g2774548873965_cont_9to1_572_34_alg».proof.Defs
import proofs.«215235_g2774548873965_cont_9to1_572_34_alg».proof.Proof.ScValue
import proofs.«215235_g2774548873965_cont_9to1_572_34_alg».proof.Proof.RefRun
import proofs.«215235_g2774548873965_cont_9to1_572_34_alg».proof.Proof.RefFull
import proofs.«215235_g2774548873965_cont_9to1_572_34_alg».proof.Proof.PreNbr

noncomputable section

namespace Cert.Proof.Alg

open Idealize.ShloMosaic Idealize.SL.Sem Cert.KernelIdeal.Sc

set_option maxRecDepth 16384 in
theorem algebraic_of
    (htile : ∀ (m : (ℓ : Loc Cert.KernelIdeal.nD Cert.KernelIdeal.τ Cert.KernelIdeal.sig) → Buf (Elt Ideal) ℓ), Cert.Pre_KernelIdeal m → ∀ q,
      (K (F := Ideal)).TileObl (D (F := Ideal)) 𝒱 (PV (contsOf (F := Ideal) m)) v₀ q)
    (hk : ∀ (m : (ℓ : Loc Cert.KernelIdeal.nD Cert.KernelIdeal.τ Cert.KernelIdeal.sig) → Buf (Elt Ideal) ℓ), Cert.Pre_KernelIdeal m →
      ∀ (c : Dev Cert.KernelIdeal.nD) i, Kval (F := Ideal) m c i
        = Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) i) :
    Cert.algebraic_KernelIdeal_ReferenceIdeal := by
  intro m g m' g' hpre hagree
  refine ⟨fun c => Kval (F := Ideal) m c, ?_, ?_⟩
  · exact (θ_run Cert.KernelIdeal.defs _ _).mono (fun _ h c => ⟨(h c).1, (h c).2⟩) (run_valueK (F := Ideal) m g (htile m hpre))
  · refine (θ_run Cert.ReferenceIdeal.defs _ _).mono (fun _ h c => ⟨?_, (h c).2⟩) (Cert.ReferenceIdeal.RefRun.run_val (F := Ideal) m' g')
    rw [(h c).1]
    obtain ⟨e0, e1, e2, e3, e4, e5, e6, e7, e8, e9, e10, e11, e12, e13⟩ := hagree c
    rw [e0, e1, e2, e3, e4, e5, e6, e7, e8, e9, e10, e11, e12, e13]
    funext i
    rw [Cert.ReferenceIdeal.RefFull.ref_closed _ _ _ _ _ _ _ _ _ _ _ _ _ _ (Cert.PreNbr.nbr_lt (F := Ideal) _ _ _ _ _ _ _ _ _ _ _ _ _ _ (hpre c)) i]
    exact (hk m hpre c i).symm

end Cert.Proof.Alg

end
-- ==== Proof.SspLaw.lean ====
/-
  The shifted softplus, two spellings, one function on the reals.

  The reference computes max(v, 0) + log(1 + exp(−|v|)) − log 2 (behind a comparison of v with itself that a real number
  never fails); the kernel computes log(exp(v)/2 + 1/2). For a real v both are log((eᵛ + 1)/2):
  log(1 + eᵛ) = max(v, 0) + log(1 + e^(−|v|)) — for v ≥ 0 factor eᵛ out of 1 + eᵛ, for v < 0 there is nothing to do —
  and log((eᵛ + 1)/2) = log(eᵛ + 1) − log 2.
-/
import Idealize.ShloMosaic.PureOps.Ideal
import proofs.«215235_g2774548873965_cont_9to1_572_34_alg».proof.Proof.Spec

noncomputable section

namespace Cert.SspLaw

open Idealize.ShloMosaic

/-- The float words of 0, 2 and 1/2 denote 0, 2 and 1/2. -/
theorem ofBits_zero : Ideal.ofBits .f32 0x00000000#32 = 0 := by
  simp [Ideal.ofBits, Ideal.ieee]
theorem ofBits_two : Ideal.ofBits .f32 0x40000000#32 = ((2 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num

/-- log(1 + eˣ) = max(x, 0) + log(1 + e^(−|x|)). -/
theorem log_one_add_exp (x : ℝ) : Real.log (1 + Real.exp x) = max x 0 + Real.log (1 + Real.exp (-|x|)) := by
  rcases le_total 0 x with h | h
  · rw [max_eq_left h, abs_of_nonneg h]
    have e : 1 + Real.exp x = Real.exp x * (1 + Real.exp (-x)) := by
      rw [mul_add, mul_one, ← Real.exp_add, add_neg_cancel, Real.exp_zero, add_comm]
    rw [e, Real.log_mul (Real.exp_pos x).ne' (by positivity), Real.log_exp]
  · rw [max_eq_right h, abs_of_nonpos h, neg_neg, zero_add]

/-- The two spellings over the reals. -/
theorem softplus_real (x : ℝ) :
    max x 0 + Real.log (1 + Real.exp (-|x|)) - Real.log 2 = Real.log (1 / 2 * Real.exp x + 1 / 2) := by
  rw [← log_one_add_exp x]
  have e : 1 / 2 * Real.exp x + 1 / 2 = (1 + Real.exp x) / 2 := by ring
  rw [e, Real.log_div (by positivity) (by norm_num)]

/-- The reference's spelling at a real argument. -/
theorem ssp_coe (x : ℝ) : Cert.Spec.ssp ((x : ℝ) : EReal) = ((Real.log (1 / 2 * Real.exp x + 1 / 2) : ℝ) : EReal) := by
  have hc : FloatOps.cmpf (F := Ideal) (φ := .f32) CmpFPredicate.une ((x : ℝ) : EReal) ((x : ℝ) : EReal) = 0#1 := by
    show Ideal.cmp .une _ _ = _
    unfold Ideal.cmp
    simp
  have ha : (FloatOps.absf (F := Ideal) (φ := .f32) ((x : ℝ) : EReal) : EReal) = ((|x| : ℝ) : EReal) := by
    show max ((x : ℝ) : EReal) (-((x : ℝ) : EReal)) = _
    rw [← EReal.coe_neg]
    exact (EReal.coe_strictMono.monotone.map_max (a := x) (b := -x)).symm.trans (congrArg _ (abs_eq_max_neg (a := x)).symm)
  have e1 : Ideal.log1p (Ideal.exp (-((|x| : ℝ) : EReal))) = ((Real.log (1 + Real.exp (-|x|)) : ℝ) : EReal) := by
    unfold Ideal.log1p
    rw [← EReal.coe_neg, Ideal.exp_coe]
    have e : (1 : EReal) + ((Real.exp (-|x|) : ℝ) : EReal) = ((1 + Real.exp (-|x|) : ℝ) : EReal) := by
      rw [EReal.coe_add, EReal.coe_one]
    rw [e, Ideal.log_coe, if_neg (by have := Real.exp_pos (-|x|); linarith)]
  have e2 : Ideal.log ((2 : ℝ) : EReal) = ((Real.log 2 : ℝ) : EReal) := by
    rw [Ideal.log_coe, if_neg (by norm_num)]
  have e3 : max ((x : ℝ) : EReal) 0 = ((max x 0 : ℝ) : EReal) := by
    rw [← EReal.coe_zero]
    exact (EReal.coe_strictMono.monotone.map_max (a := x) (b := 0)).symm
  unfold Cert.Spec.ssp Cert.Spec.zero32 Cert.Spec.two32
  simp only [Ideal.ofBits_def, ofBits_zero, ofBits_two, Ideal.subf_def, Ideal.addf_def, Ideal.maximumf_def,
    Ideal.hostUnary_log1p_def, Ideal.hostUnary_exp_def, Ideal.hostUnary_log_def, Ideal.hostNegf_def, Ideal.hostAbsf_def, Ideal.negf_def]
  rw [sub_zero, hc, ha]
  unfold Scalar.select
  rw [if_neg (by decide), e1, e2, e3, ← EReal.coe_add, ← EReal.coe_sub, softplus_real]

/-- The kernel's spelling at a real argument. -/
theorem sspK_coe (x : ℝ) :
    FloatOps.log (F := Ideal) (φ := .f32) (FloatOps.addf (FloatOps.mulf (FloatOps.ofBits (F := Ideal) .f32 0x3F000000#32) (FloatOps.exp (F := Ideal) (φ := .f32) ((x : ℝ) : EReal)))
      (FloatOps.ofBits (F := Ideal) .f32 0x3F000000#32)) = ((Real.log (1 / 2 * Real.exp x + 1 / 2) : ℝ) : EReal) := by
  simp only [Ideal.ofBits_def, ofBits_half, Ideal.log_def, Ideal.addf_def, Ideal.mulf_def, Ideal.exp_def, Ideal.exp_coe]
  rw [← EReal.coe_mul, ← EReal.coe_add, Ideal.log_coe, if_neg (by have := Real.exp_pos x; nlinarith)]

/-- So the two spellings agree at every real argument. -/
theorem ssp_eq_sspK (x : ℝ) :
    Cert.Spec.ssp ((x : ℝ) : EReal)
      = FloatOps.log (F := Ideal) (φ := .f32) (FloatOps.addf (FloatOps.mulf (FloatOps.ofBits (F := Ideal) .f32 0x3F000000#32) (FloatOps.exp (F := Ideal) (φ := .f32) ((x : ℝ) : EReal)))
          (FloatOps.ofBits (F := Ideal) .f32 0x3F000000#32)) := by
  rw [ssp_coe, sspK_coe]

end Cert.SspLaw

end
-- ==== Proof.KSpec.lean ====
/-
  The kernel's result as one function of the fourteen arrays, and why it is the specification.

  The kernel computes the same layer with three differences of form: the shifted softplus is spelt log(eᵛ/2 + 1/2);
  one neighbour slot's term is grouped (filter · (cut · mask)) · row instead of (row · (filter · cut)) · mask; and the 64
  slots are added as four groups of sixteen, each two groups of eight, each eight added left to right, instead of one
  sum started from zero. Over real numbers the softplus spellings agree (SspLaw), products regroup freely, and so do
  finite sums; every intermediate value is a real number when the float inputs are.
-/
import proofs.«215235_g2774548873965_cont_9to1_572_34_alg».proof.Proof.Spec
import proofs.«215235_g2774548873965_cont_9to1_572_34_alg».proof.Proof.SspLaw

noncomputable section

namespace Cert.KSpec

open Idealize.ShloMosaic Idealize.ShloMosaic.ValueIdx Cert.Spec

/-- An extended real that is a real number. -/
def Re (v : EReal) : Prop := ∃ r : ℝ, v = (r : EReal)

theorem Re.add {a b : EReal} (ha : Re a) (hb : Re b) : Re (a + b) := by
  obtain ⟨x, rfl⟩ := ha; obtain ⟨y, rfl⟩ := hb; exact ⟨x + y, (EReal.coe_add x y).symm⟩
theorem Re.mul {a b : EReal} (ha : Re a) (hb : Re b) : Re (a * b) := by
  obtain ⟨x, rfl⟩ := ha; obtain ⟨y, rfl⟩ := hb; exact ⟨x * y, (EReal.coe_mul x y).symm⟩
theorem Re.zero : Re (0 : EReal) := ⟨0, EReal.coe_zero.symm⟩
theorem Re.sum {ι : Type} (s : Finset ι) (t : ι → EReal) (h : ∀ i ∈ s, Re (t i)) : Re (∑ i ∈ s, t i) := by
  classical
  induction s using Finset.induction_on with
  | empty => rw [Finset.sum_empty]; exact Re.zero
  | insert a s ha ih =>
    rw [Finset.sum_insert ha]
    exact (h a (Finset.mem_insert_self a s)).add (ih fun i hi => h i (Finset.mem_insert_of_mem hi))

/-- The kernel's spelling of the shifted softplus. -/
def sspK (v : EReal) : EReal :=
  Ideal.log (Ideal.ofBits .f32 0x3F000000#32 * Ideal.exp v + Ideal.ofBits .f32 0x3F000000#32)

/-- At a real argument the two spellings are one real number. -/
theorem ssp_eq_sspK {v : EReal} (h : Re v) : Cert.Spec.ssp v = sspK v := by
  obtain ⟨x, rfl⟩ := h
  exact Cert.SspLaw.ssp_eq_sspK x
theorem Re.ssp {v : EReal} (h : Re v) : Re (Cert.Spec.ssp v) := by
  obtain ⟨x, rfl⟩ := h
  exact ⟨_, Cert.SspLaw.ssp_coe x⟩

/-! ## The kernel's function -/

section Defs

variable (rows : (⟨4, ![8, 1024, 64, 128]⟩ : Shape).Idx → EReal) (f : (⟨4, ![8, 1024, 64, 50]⟩ : Shape).Idx → EReal) (r mask : (⟨3, ![8, 1024, 64]⟩ : Shape).Idx → EReal)
  (W1 : (⟨2, ![50, 128]⟩ : Shape).Idx → EReal) (b1 : (⟨1, ![128]⟩ : Shape).Idx → EReal) (W2 : (⟨2, ![128, 128]⟩ : Shape).Idx → EReal) (b2 : (⟨1, ![128]⟩ : Shape).Idx → EReal)

/-- The filter with the kernel's softplus. -/
def filtK (i : (⟨4, ![8, 1024, 64, 128]⟩ : Shape).Idx) : EReal :=
  (∑ j : Fin 128, sspK (filtIn f W1 b1 (ix4 (i 0) (i 1) (i 2) j)) * W2 (ix2 j (i 3))) + b2 (ix1 (i 3))

/-- One slot's term, grouped as the kernel groups it: (filter · (cut · mask)) · row. -/
def termK (i : (⟨4, ![8, 1024, 64, 128]⟩ : Shape).Idx) : EReal :=
  (filtK f W1 b1 W2 b2 i * (cut r (ix3 (i 0) (i 1) (i 2)) * mask (ix3 (i 0) (i 1) (i 2)))) * rows i

/-- Slot 16·q + 8·kg + j. -/
def slot (q : Fin 4) (kg : Fin 2) (j : Fin 8) : Fin 64 := ⟨16 * q.val + 8 * kg.val + j.val, by omega⟩

/-- Eight slots added left to right. -/
def eight (t : Fin 64 → EReal) (q : Fin 4) (kg : Fin 2) : EReal :=
  ((((((t (slot q kg 0) + t (slot q kg 1)) + t (slot q kg 2)) + t (slot q kg 3)) + t (slot q kg 4)) + t (slot q kg 5)) + t (slot q kg 6)) + t (slot q kg 7)

/-- The 64 slots as the kernel adds them: four calls, each two grid points, each eight slots. -/
def sum64 (t : Fin 64 → EReal) : EReal :=
  (((eight t 0 0 + eight t 0 1) + (eight t 1 0 + eight t 1 1)) + (eight t 2 0 + eight t 2 1)) + (eight t 3 0 + eight t 3 1)

/-- The aggregate as the kernel computes it. -/
def aggK (i : (⟨3, ![8, 1024, 128]⟩ : Shape).Idx) : EReal :=
  sum64 fun k => termK rows f r mask W1 b1 W2 b2 (ix4 (i 0) (i 1) k (i 2))

end Defs

/-- The two layers after the aggregate, with the kernel's softplus. -/
def outK (agg : (⟨3, ![8, 1024, 128]⟩ : Shape).Idx → EReal) (Wout : (⟨2, ![128, 128]⟩ : Shape).Idx → EReal) (bout : (⟨1, ![128]⟩ : Shape).Idx → EReal) (Wd : (⟨2, ![128, 128]⟩ : Shape).Idx → EReal) (bd : (⟨1, ![128]⟩ : Shape).Idx → EReal)
    (i : (⟨3, ![8, 1024, 128]⟩ : Shape).Idx) : EReal :=
  (∑ g : Fin 128, sspK (dense agg Wout bout (ix3 (i 0) (i 1) g)) * Wd (ix2 g (i 2))) + bd (ix1 (i 2))

/-! ## Why it is the specification -/

section Laws

variable {rows : (⟨4, ![8, 1024, 64, 128]⟩ : Shape).Idx → EReal} {f : (⟨4, ![8, 1024, 64, 50]⟩ : Shape).Idx → EReal} {r mask : (⟨3, ![8, 1024, 64]⟩ : Shape).Idx → EReal}
  {W1 : (⟨2, ![50, 128]⟩ : Shape).Idx → EReal} {b1 : (⟨1, ![128]⟩ : Shape).Idx → EReal} {W2 : (⟨2, ![128, 128]⟩ : Shape).Idx → EReal} {b2 : (⟨1, ![128]⟩ : Shape).Idx → EReal}

theorem filtIn_re (hf : ∀ i, Re (f i)) (hW1 : ∀ i, Re (W1 i)) (hb1 : ∀ i, Re (b1 i)) (i : (⟨4, ![8, 1024, 64, 128]⟩ : Shape).Idx) : Re (filtIn f W1 b1 i) := by
  show Re ((∑ m : Fin 50, f (ix4 (i 0) (i 1) (i 2) m) * W1 (ix2 m (i 3))) + b1 (ix1 (i 3)))
  exact (Re.sum _ _ fun m _ => (hf _).mul (hW1 _)).add (hb1 _)

/-- The filter: the softplus is applied to real numbers, where the spellings agree. -/
theorem filt_eq (hf : ∀ i, Re (f i)) (hW1 : ∀ i, Re (W1 i)) (hb1 : ∀ i, Re (b1 i)) (i : (⟨4, ![8, 1024, 64, 128]⟩ : Shape).Idx) :
    filt f W1 b1 W2 b2 i = filtK f W1 b1 W2 b2 i := by
  show (∑ j : Fin 128, Cert.Spec.ssp (filtIn f W1 b1 (ix4 (i 0) (i 1) (i 2) j)) * W2 (ix2 j (i 3))) + b2 (ix1 (i 3)) = _
  unfold filtK
  congr 1
  exact Finset.sum_congr rfl fun j _ => by rw [ssp_eq_sspK (filtIn_re hf hW1 hb1 _)]

theorem filt_re (hf : ∀ i, Re (f i)) (hW1 : ∀ i, Re (W1 i)) (hb1 : ∀ i, Re (b1 i)) (hW2 : ∀ i, Re (W2 i)) (hb2 : ∀ i, Re (b2 i)) (i : (⟨4, ![8, 1024, 64, 128]⟩ : Shape).Idx) :
    Re (filt f W1 b1 W2 b2 i) := by
  show Re ((∑ j : Fin 128, Cert.Spec.ssp (filtIn f W1 b1 (ix4 (i 0) (i 1) (i 2) j)) * W2 (ix2 j (i 3))) + b2 (ix1 (i 3)))
  exact (Re.sum _ _ fun j _ => (Re.ssp (filtIn_re hf hW1 hb1 _)).mul (hW2 _)).add (hb2 _)

/-- One slot's term: the same three factors and the row, regrouped. -/
theorem term_eq (hf : ∀ i, Re (f i)) (hW1 : ∀ i, Re (W1 i)) (hb1 : ∀ i, Re (b1 i)) (i : (⟨4, ![8, 1024, 64, 128]⟩ : Shape).Idx) :
    term rows f r mask W1 b1 W2 b2 i = termK rows f r mask W1 b1 W2 b2 i := by
  show (rows i * (filt f W1 b1 W2 b2 i * cut r (ix3 (i 0) (i 1) (i 2)))) * mask (ix3 (i 0) (i 1) (i 2)) = _
  unfold termK
  rw [filt_eq hf hW1 hb1 i]
  ac_rfl

/-- Sixty-four terms added from zero in order, or in four groups of two groups of eight: the same sum. -/
theorem sum64_eq (t : Fin 64 → EReal) : (0 : EReal) + ∑ k : Fin 64, t k = sum64 t := by
  let g : ℕ → EReal := fun n => t ⟨n % 64, Nat.mod_lt _ (by decide)⟩
  have e : ∀ k : Fin 64, t k = g k.val := fun k => congrArg t (Fin.ext (Nat.mod_eq_of_lt k.isLt).symm)
  rw [Finset.sum_congr rfl (fun k _ => e k), Fin.sum_univ_eq_sum_range g 64]
  simp only [Finset.sum_range_succ, Finset.sum_range_zero]
  change (0 : EReal) + (((((((((((((((((((((((((((((((((((((((((((((((((((((((((((((((((0 : EReal) + t (⟨0, by omega⟩ : Fin 64)) + t (⟨1, by omega⟩ : Fin 64)) + t (⟨2, by omega⟩ : Fin 64)) + t (⟨3, by omega⟩ : Fin 64)) + t (⟨4, by omega⟩ : Fin 64)) + t (⟨5, by omega⟩ : Fin 64)) + t (⟨6, by omega⟩ : Fin 64)) + t (⟨7, by omega⟩ : Fin 64)) + t (⟨8, by omega⟩ : Fin 64)) + t (⟨9, by omega⟩ : Fin 64)) + t (⟨10, by omega⟩ : Fin 64)) + t (⟨11, by omega⟩ : Fin 64)) + t (⟨12, by omega⟩ : Fin 64)) + t (⟨13, by omega⟩ : Fin 64)) + t (⟨14, by omega⟩ : Fin 64)) + t (⟨15, by omega⟩ : Fin 64)) + t (⟨16, by omega⟩ : Fin 64)) + t (⟨17, by omega⟩ : Fin 64)) + t (⟨18, by omega⟩ : Fin 64)) + t (⟨19, by omega⟩ : Fin 64)) + t (⟨20, by omega⟩ : Fin 64)) + t (⟨21, by omega⟩ : Fin 64)) + t (⟨22, by omega⟩ : Fin 64)) + t (⟨23, by omega⟩ : Fin 64)) + t (⟨24, by omega⟩ : Fin 64)) + t (⟨25, by omega⟩ : Fin 64)) + t (⟨26, by omega⟩ : Fin 64)) + t (⟨27, by omega⟩ : Fin 64)) + t (⟨28, by omega⟩ : Fin 64)) + t (⟨29, by omega⟩ : Fin 64)) + t (⟨30, by omega⟩ : Fin 64)) + t (⟨31, by omega⟩ : Fin 64)) + t (⟨32, by omega⟩ : Fin 64)) + t (⟨33, by omega⟩ : Fin 64)) + t (⟨34, by omega⟩ : Fin 64)) + t (⟨35, by omega⟩ : Fin 64)) + t (⟨36, by omega⟩ : Fin 64)) + t (⟨37, by omega⟩ : Fin 64)) + t (⟨38, by omega⟩ : Fin 64)) + t (⟨39, by omega⟩ : Fin 64)) + t (⟨40, by omega⟩ : Fin 64)) + t (⟨41, by omega⟩ : Fin 64)) + t (⟨42, by omega⟩ : Fin 64)) + t (⟨43, by omega⟩ : Fin 64)) + t (⟨44, by omega⟩ : Fin 64)) + t (⟨45, by omega⟩ : Fin 64)) + t (⟨46, by omega⟩ : Fin 64)) + t (⟨47, by omega⟩ : Fin 64)) + t (⟨48, by omega⟩ : Fin 64)) + t (⟨49, by omega⟩ : Fin 64)) + t (⟨50, by omega⟩ : Fin 64)) + t (⟨51, by omega⟩ : Fin 64)) + t (⟨52, by omega⟩ : Fin 64)) + t (⟨53, by omega⟩ : Fin 64)) + t (⟨54, by omega⟩ : Fin 64)) + t (⟨55, by omega⟩ : Fin 64)) + t (⟨56, by omega⟩ : Fin 64)) + t (⟨57, by omega⟩ : Fin 64)) + t (⟨58, by omega⟩ : Fin 64)) + t (⟨59, by omega⟩ : Fin 64)) + t (⟨60, by omega⟩ : Fin 64)) + t (⟨61, by omega⟩ : Fin 64)) + t (⟨62, by omega⟩ : Fin 64)) + t (⟨63, by omega⟩ : Fin 64)) = ((((((((((t (⟨0, by omega⟩ : Fin 64) + t (⟨1, by omega⟩ : Fin 64)) + t (⟨2, by omega⟩ : Fin 64)) + t (⟨3, by omega⟩ : Fin 64)) + t (⟨4, by omega⟩ : Fin 64)) + t (⟨5, by omega⟩ : Fin 64)) + t (⟨6, by omega⟩ : Fin 64)) + t (⟨7, by omega⟩ : Fin 64)) + (((((((t (⟨8, by omega⟩ : Fin 64) + t (⟨9, by omega⟩ : Fin 64)) + t (⟨10, by omega⟩ : Fin 64)) + t (⟨11, by omega⟩ : Fin 64)) + t (⟨12, by omega⟩ : Fin 64)) + t (⟨13, by omega⟩ : Fin 64)) + t (⟨14, by omega⟩ : Fin 64)) + t (⟨15, by omega⟩ : Fin 64))) + ((((((((t (⟨16, by omega⟩ : Fin 64) + t (⟨17, by omega⟩ : Fin 64)) + t (⟨18, by omega⟩ : Fin 64)) + t (⟨19, by omega⟩ : Fin 64)) + t (⟨20, by omega⟩ : Fin 64)) + t (⟨21, by omega⟩ : Fin 64)) + t (⟨22, by omega⟩ : Fin 64)) + t (⟨23, by omega⟩ : Fin 64)) + (((((((t (⟨24, by omega⟩ : Fin 64) + t (⟨25, by omega⟩ : Fin 64)) + t (⟨26, by omega⟩ : Fin 64)) + t (⟨27, by omega⟩ : Fin 64)) + t (⟨28, by omega⟩ : Fin 64)) + t (⟨29, by omega⟩ : Fin 64)) + t (⟨30, by omega⟩ : Fin 64)) + t (⟨31, by omega⟩ : Fin 64)))) + ((((((((t (⟨32, by omega⟩ : Fin 64) + t (⟨33, by omega⟩ : Fin 64)) + t (⟨34, by omega⟩ : Fin 64)) + t (⟨35, by omega⟩ : Fin 64)) + t (⟨36, by omega⟩ : Fin 64)) + t (⟨37, by omega⟩ : Fin 64)) + t (⟨38, by omega⟩ : Fin 64)) + t (⟨39, by omega⟩ : Fin 64)) + (((((((t (⟨40, by omega⟩ : Fin 64) + t (⟨41, by omega⟩ : Fin 64)) + t (⟨42, by omega⟩ : Fin 64)) + t (⟨43, by omega⟩ : Fin 64)) + t (⟨44, by omega⟩ : Fin 64)) + t (⟨45, by omega⟩ : Fin 64)) + t (⟨46, by omega⟩ : Fin 64)) + t (⟨47, by omega⟩ : Fin 64)))) + ((((((((t (⟨48, by omega⟩ : Fin 64) + t (⟨49, by omega⟩ : Fin 64)) + t (⟨50, by omega⟩ : Fin 64)) + t (⟨51, by omega⟩ : Fin 64)) + t (⟨52, by omega⟩ : Fin 64)) + t (⟨53, by omega⟩ : Fin 64)) + t (⟨54, by omega⟩ : Fin 64)) + t (⟨55, by omega⟩ : Fin 64)) + (((((((t (⟨56, by omega⟩ : Fin 64) + t (⟨57, by omega⟩ : Fin 64)) + t (⟨58, by omega⟩ : Fin 64)) + t (⟨59, by omega⟩ : Fin 64)) + t (⟨60, by omega⟩ : Fin 64)) + t (⟨61, by omega⟩ : Fin 64)) + t (⟨62, by omega⟩ : Fin 64)) + t (⟨63, by omega⟩ : Fin 64)))
  simp only [zero_add]
  ac_rfl

theorem cut_re (j : (⟨3, ![8, 1024, 64]⟩ : Shape).Idx) : Re (cut r j) := ⟨_, rfl⟩

theorem zero32_eq : (zero32 : EReal) = 0 := by
  show Ideal.ofBits .f32 0x00000000#32 = 0
  exact Cert.SspLaw.ofBits_zero

/-- The aggregate: each slot's term regrouped, the 64 slots regrouped. -/
theorem agg_eq (hf : ∀ i, Re (f i)) (hW1 : ∀ i, Re (W1 i)) (hb1 : ∀ i, Re (b1 i)) (i : (⟨3, ![8, 1024, 128]⟩ : Shape).Idx) :
    aggOf rows f r mask W1 b1 W2 b2 i = aggK rows f r mask W1 b1 W2 b2 i := by
  show zero32 + ∑ k : Fin 64, term rows f r mask W1 b1 W2 b2 (ix4 (i 0) (i 1) k (i 2)) = _
  rw [zero32_eq, Finset.sum_congr rfl (fun k _ => term_eq (rows := rows) (r := r) (mask := mask) (W2 := W2) (b2 := b2) hf hW1 hb1 (ix4 (i 0) (i 1) k (i 2)))]
  exact sum64_eq _

theorem agg_re (hrows : ∀ i, Re (rows i)) (hf : ∀ i, Re (f i)) (hmask : ∀ i, Re (mask i)) (hW1 : ∀ i, Re (W1 i)) (hb1 : ∀ i, Re (b1 i))
    (hW2 : ∀ i, Re (W2 i)) (hb2 : ∀ i, Re (b2 i)) (i : (⟨3, ![8, 1024, 128]⟩ : Shape).Idx) : Re (aggOf rows f r mask W1 b1 W2 b2 i) := by
  show Re (zero32 + ∑ k : Fin 64, term rows f r mask W1 b1 W2 b2 (ix4 (i 0) (i 1) k (i 2)))
  rw [zero32_eq]
  refine Re.zero.add (Re.sum _ _ fun k _ => ?_)
  show Re ((rows _ * (filt f W1 b1 W2 b2 _ * cut r _)) * mask _)
  exact ((hrows _).mul ((filt_re hf hW1 hb1 hW2 hb2 _).mul (cut_re _))).mul (hmask _)

end Laws

/-- The layers after the aggregate: the softplus is applied to real numbers. -/
theorem out_eq {agg : (⟨3, ![8, 1024, 128]⟩ : Shape).Idx → EReal} {Wout : (⟨2, ![128, 128]⟩ : Shape).Idx → EReal} {bout : (⟨1, ![128]⟩ : Shape).Idx → EReal} (Wd : (⟨2, ![128, 128]⟩ : Shape).Idx → EReal) (bd : (⟨1, ![128]⟩ : Shape).Idx → EReal)
    (hagg : ∀ i, Re (agg i)) (hWout : ∀ i, Re (Wout i)) (hbout : ∀ i, Re (bout i)) (i : (⟨3, ![8, 1024, 128]⟩ : Shape).Idx) :
    outOfAgg agg Wout bout Wd bd i = outK agg Wout bout Wd bd i := by
  have hd : ∀ j, Re (dense agg Wout bout j) := fun j => by
    show Re ((∑ k : Fin 128, agg (ix3 (j 0) (j 1) k) * Wout (ix2 k (j 2))) + bout (ix1 (j 2)))
    exact (Re.sum _ _ fun k _ => (hagg _).mul (hWout _)).add (hbout _)
  show (∑ k : Fin 128, Cert.Spec.ssp (dense agg Wout bout (ix3 (i 0) (i 1) k)) * Wd (ix2 k (i 2))) + bd (ix1 (i 2)) = _
  unfold outK
  congr 1
  exact Finset.sum_congr rfl fun k _ => by rw [ssp_eq_sspK (hd _)]

/-- The kernel's result as one function of the fourteen arrays. -/
def KG (x : (⟨3, ![8, 1024, 128]⟩ : Shape).Idx → EReal) (r : (⟨3, ![8, 1024, 64]⟩ : Shape).Idx → EReal) (nbr : (⟨3, ![8, 1024, 64]⟩ : Shape).Idx → BitVec 32) (mask : (⟨3, ![8, 1024, 64]⟩ : Shape).Idx → EReal) (f : (⟨4, ![8, 1024, 64, 50]⟩ : Shape).Idx → EReal)
    (W1 : (⟨2, ![50, 128]⟩ : Shape).Idx → EReal) (b1 : (⟨1, ![128]⟩ : Shape).Idx → EReal) (W2 : (⟨2, ![128, 128]⟩ : Shape).Idx → EReal) (b2 : (⟨1, ![128]⟩ : Shape).Idx → EReal) (Win Wout : (⟨2, ![128, 128]⟩ : Shape).Idx → EReal)
    (bout : (⟨1, ![128]⟩ : Shape).Idx → EReal) (Wd : (⟨2, ![128, 128]⟩ : Shape).Idx → EReal) (bd : (⟨1, ![128]⟩ : Shape).Idx → EReal) : (⟨3, ![8, 1024, 128]⟩ : Shape).Idx → EReal :=
  outK (aggK (rowsOf (yOf x Win) nbr) f r mask W1 b1 W2 b2) Wout bout Wd bd

/-- For real-valued float inputs the kernel's function is the specification. -/
theorem KG_eq_G {x : (⟨3, ![8, 1024, 128]⟩ : Shape).Idx → EReal} {r : (⟨3, ![8, 1024, 64]⟩ : Shape).Idx → EReal} (nbr : (⟨3, ![8, 1024, 64]⟩ : Shape).Idx → BitVec 32) {mask : (⟨3, ![8, 1024, 64]⟩ : Shape).Idx → EReal} {f : (⟨4, ![8, 1024, 64, 50]⟩ : Shape).Idx → EReal}
    {W1 : (⟨2, ![50, 128]⟩ : Shape).Idx → EReal} {b1 : (⟨1, ![128]⟩ : Shape).Idx → EReal} {W2 : (⟨2, ![128, 128]⟩ : Shape).Idx → EReal} {b2 : (⟨1, ![128]⟩ : Shape).Idx → EReal} {Win Wout : (⟨2, ![128, 128]⟩ : Shape).Idx → EReal}
    {bout : (⟨1, ![128]⟩ : Shape).Idx → EReal} (Wd : (⟨2, ![128, 128]⟩ : Shape).Idx → EReal) (bd : (⟨1, ![128]⟩ : Shape).Idx → EReal)
    (hx : ∀ i, Re (x i)) (hmask : ∀ i, Re (mask i)) (hf : ∀ i, Re (f i)) (hW1 : ∀ i, Re (W1 i)) (hb1 : ∀ i, Re (b1 i))
    (hW2 : ∀ i, Re (W2 i)) (hb2 : ∀ i, Re (b2 i)) (hWin : ∀ i, Re (Win i)) (hWout : ∀ i, Re (Wout i)) (hbout : ∀ i, Re (bout i))
    (i : (⟨3, ![8, 1024, 128]⟩ : Shape).Idx) :
    KG x r nbr mask f W1 b1 W2 b2 Win Wout bout Wd bd i = Cert.Spec.G x r nbr mask f W1 b1 W2 b2 Win Wout bout Wd bd i := by
  have hy : ∀ j, Re (yOf x Win j) := fun j => Re.sum _ _ fun k _ => (hx _).mul (hWin _)
  have hrows : ∀ j, Re (rowsOf (yOf x Win) nbr j) := fun j => hy _
  unfold KG Cert.Spec.G
  rw [out_eq Wd bd (fun j => agg_re hrows hf hmask hW1 hb1 hW2 hb2 j) hWout hbout i]
  unfold outK
  have e : aggOf (rowsOf (yOf x Win) nbr) f r mask W1 b1 W2 b2 = aggK (rowsOf (yOf x Win) nbr) f r mask W1 b1 W2 b2 :=
    funext fun j => agg_eq hf hW1 hb1 j
  rw [e]

end Cert.KSpec

end
-- ==== Proof.PreReal.lean ====
/-
  The precondition's float conjuncts, decoded. The printed predicate `Cert.Pre_input_domain.fn` is one word: the
  conjunction, over all fourteen arguments, of "every entry of this array passes its test", each of them a reduction
  by `and` over the whole array into a rank-0 result. For each of the thirteen float arrays the test of an entry x is
  |x| < +∞, the bound being the extended real the word 0x7F800000 denotes. Read at the exact values, |x| is max x (−x),
  which is below +∞ exactly when x is neither infinity: when the predicate is all ones, every entry of every float
  array is a real number.
-/
import proofs.«215235_g2774548873965_cont_9to1_572_34_alg».proof.Pre_input_domain
import proofs.«215235_g2774548873965_cont_9to1_572_34_alg».proof.Proof.Gen.Pre_input_domain
import Idealize.ShloMosaic.Lib.ReduceAll
import Idealize.ShloMosaic.Lib.ValueIdx

noncomputable section

namespace Cert.PreReal

open Idealize.ShloMosaic Cert.Pre_input_domain

/-- A rank-0 array has exactly one index: there is no axis to choose a coordinate on. -/
local instance : Subsingleton S_.Idx := ⟨fun a b => funext fun d => d.elim0⟩

/-- An extended real that is a real number. -/
def IsReal (v : EReal) : Prop := ∃ r : ℝ, v = (r : EReal)

/-- The word 0x7F800000 read as a 32-bit float is +∞: exponent all ones, fraction zero, sign clear. -/
theorem inf_word : Ideal.ofBits .f32 0x7F800000#32 = (⊤ : EReal) := by
  simp [Ideal.ofBits, Ideal.ieee]

/-- An ordered less-than comparison of exact values that came out 1 is the strict order. -/
theorem lt_of_olt (a b : EReal) (h : Ideal.cmp .olt a b = 1#1) : a < b := by
  by_contra hn
  have e : Ideal.cmp .olt a b = BitVec.ofBool (decide (a < b)) := rfl
  rw [e, decide_eq_false hn] at h
  exact absurd h (by decide)

/-- THE ENTRY'S TEST: if |x| < +∞ came out 1 then x is a real number — at −∞ and at +∞ the absolute value
    max x (−x) is +∞, which is not below itself. -/
theorem real_of_test (x : EReal)
    (h : Ideal.cmp .olt (max x (-x)) (Ideal.ofBits .f32 0x7F800000#32) = 1#1) : IsReal x := by
  have hlt := lt_of_olt _ _ h
  rw [inf_word] at hlt
  induction x using EReal.rec with
  | bot => exact absurd hlt (by simp)
  | coe r => exact ⟨r, rfl⟩
  | top => exact absurd hlt (by simp)

/-- ALL THIRTEEN FLOAT CONJUNCTS: if the input-domain predicate of the fourteen argument arrays is all ones, every
    entry of every float array is a real number. The predicate at its one index is a left-nested `and` of the
    fourteen all-reductions; a conjunction that is 1 has both sides 1, an all-reduction that is 1 met only 1s, and
    the comparison at an entry is that entry's test. -/
theorem all_real [Facts]
    (a0 : FVec Ideal S8x1024x128 .f32) (a1 : FVec Ideal S8x1024x64 .f32) (a2 : IVec S8x1024x64 32) (a3 : FVec Ideal S8x1024x64 .f32)
    (a4 : FVec Ideal S8x1024x64x50 .f32) (a5 : FVec Ideal S50x128 .f32) (a6 : FVec Ideal S128 .f32) (a7 : FVec Ideal S128x128 .f32)
    (a8 : FVec Ideal S128 .f32) (a9 : FVec Ideal S128x128 .f32) (a10 : FVec Ideal S128x128 .f32) (a11 : FVec Ideal S128 .f32)
    (a12 : FVec Ideal S128x128 .f32) (a13 : FVec Ideal S128 .f32)
    (h : fn (F := Ideal) a0 a1 a2 a3 a4 a5 a6 a7 a8 a9 a10 a11 a12 a13 = fun _ => 1#1) :
    (∀ j, IsReal (a0 j))
      ∧ (∀ j, IsReal (a1 j))
      ∧ (∀ j, IsReal (a3 j))
      ∧ (∀ j, IsReal (a4 j))
      ∧ (∀ j, IsReal (a5 j))
      ∧ (∀ j, IsReal (a6 j))
      ∧ (∀ j, IsReal (a7 j))
      ∧ (∀ j, IsReal (a8 j))
      ∧ (∀ j, IsReal (a9 j))
      ∧ (∀ j, IsReal (a10 j))
      ∧ (∀ j, IsReal (a11 j))
      ∧ (∀ j, IsReal (a12 j))
      ∧ (∀ j, IsReal (a13 j)) := by
  have e := congrFun h ValueIdx.ix0
  dsimp only [fn, fn_part1, fn_part2, fn_part3, fn_part4] at e
  -- peel the conjunction from the outside: the last conjunct is the integer array's, the others the floats' in order
  have c63 := (IntOp.andi_eq_one.1 e).1
  have c58 := IntOp.andi_eq_one.1 c63
  have c53 := IntOp.andi_eq_one.1 c58.1
  have c48 := IntOp.andi_eq_one.1 c53.1
  have c43 := IntOp.andi_eq_one.1 c48.1
  have c38 := IntOp.andi_eq_one.1 c43.1
  have c33 := IntOp.andi_eq_one.1 c38.1
  have c28 := IntOp.andi_eq_one.1 c33.1
  have c23 := IntOp.andi_eq_one.1 c28.1
  have c18 := IntOp.andi_eq_one.1 c23.1
  have c13 := IntOp.andi_eq_one.1 c18.1
  have c8 := IntOp.andi_eq_one.1 c13.1
  have c3 := IntOp.andi_eq_one.1 c8.1
  exact ⟨fun j => real_of_test (a0 j) (Host.reduce_andi_all _ _ _ _ _ c3.1 j),
    fun j => real_of_test (a1 j) (Host.reduce_andi_all _ _ _ _ _ c3.2 j),
    fun j => real_of_test (a3 j) (Host.reduce_andi_all _ _ _ _ _ c8.2 j),
    fun j => real_of_test (a4 j) (Host.reduce_andi_all _ _ _ _ _ c13.2 j),
    fun j => real_of_test (a5 j) (Host.reduce_andi_all _ _ _ _ _ c18.2 j),
    fun j => real_of_test (a6 j) (Host.reduce_andi_all _ _ _ _ _ c23.2 j),
    fun j => real_of_test (a7 j) (Host.reduce_andi_all _ _ _ _ _ c28.2 j),
    fun j => real_of_test (a8 j) (Host.reduce_andi_all _ _ _ _ _ c33.2 j),
    fun j => real_of_test (a9 j) (Host.reduce_andi_all _ _ _ _ _ c38.2 j),
    fun j => real_of_test (a10 j) (Host.reduce_andi_all _ _ _ _ _ c43.2 j),
    fun j => real_of_test (a11 j) (Host.reduce_andi_all _ _ _ _ _ c48.2 j),
    fun j => real_of_test (a12 j) (Host.reduce_andi_all _ _ _ _ _ c53.2 j),
    fun j => real_of_test (a13 j) (Host.reduce_andi_all _ _ _ _ _ c58.2 j)⟩

/-- Every entry of argument 0 is a real number. -/
theorem real_a0 [Facts]
    (a0 : FVec Ideal S8x1024x128 .f32) (a1 : FVec Ideal S8x1024x64 .f32) (a2 : IVec S8x1024x64 32) (a3 : FVec Ideal S8x1024x64 .f32)
    (a4 : FVec Ideal S8x1024x64x50 .f32) (a5 : FVec Ideal S50x128 .f32) (a6 : FVec Ideal S128 .f32) (a7 : FVec Ideal S128x128 .f32)
    (a8 : FVec Ideal S128 .f32) (a9 : FVec Ideal S128x128 .f32) (a10 : FVec Ideal S128x128 .f32) (a11 : FVec Ideal S128 .f32)
    (a12 : FVec Ideal S128x128 .f32) (a13 : FVec Ideal S128 .f32)
    (h : fn (F := Ideal) a0 a1 a2 a3 a4 a5 a6 a7 a8 a9 a10 a11 a12 a13 = fun _ => 1#1) :
    ∀ j, IsReal (a0 j) := (all_real a0 a1 a2 a3 a4 a5 a6 a7 a8 a9 a10 a11 a12 a13 h).1

/-- Every entry of argument 1 is a real number. -/
theorem real_a1 [Facts]
    (a0 : FVec Ideal S8x1024x128 .f32) (a1 : FVec Ideal S8x1024x64 .f32) (a2 : IVec S8x1024x64 32) (a3 : FVec Ideal S8x1024x64 .f32)
    (a4 : FVec Ideal S8x1024x64x50 .f32) (a5 : FVec Ideal S50x128 .f32) (a6 : FVec Ideal S128 .f32) (a7 : FVec Ideal S128x128 .f32)
    (a8 : FVec Ideal S128 .f32) (a9 : FVec Ideal S128x128 .f32) (a10 : FVec Ideal S128x128 .f32) (a11 : FVec Ideal S128 .f32)
    (a12 : FVec Ideal S128x128 .f32) (a13 : FVec Ideal S128 .f32)
    (h : fn (F := Ideal) a0 a1 a2 a3 a4 a5 a6 a7 a8 a9 a10 a11 a12 a13 = fun _ => 1#1) :
    ∀ j, IsReal (a1 j) := (all_real a0 a1 a2 a3 a4 a5 a6 a7 a8 a9 a10 a11 a12 a13 h).2.1

/-- Every entry of argument 3 is a real number. -/
theorem real_a3 [Facts]
    (a0 : FVec Ideal S8x1024x128 .f32) (a1 : FVec Ideal S8x1024x64 .f32) (a2 : IVec S8x1024x64 32) (a3 : FVec Ideal S8x1024x64 .f32)
    (a4 : FVec Ideal S8x1024x64x50 .f32) (a5 : FVec Ideal S50x128 .f32) (a6 : FVec Ideal S128 .f32) (a7 : FVec Ideal S128x128 .f32)
    (a8 : FVec Ideal S128 .f32) (a9 : FVec Ideal S128x128 .f32) (a10 : FVec Ideal S128x128 .f32) (a11 : FVec Ideal S128 .f32)
    (a12 : FVec Ideal S128x128 .f32) (a13 : FVec Ideal S128 .f32)
    (h : fn (F := Ideal) a0 a1 a2 a3 a4 a5 a6 a7 a8 a9 a10 a11 a12 a13 = fun _ => 1#1) :
    ∀ j, IsReal (a3 j) := (all_real a0 a1 a2 a3 a4 a5 a6 a7 a8 a9 a10 a11 a12 a13 h).2.2.1

/-- Every entry of argument 4 is a real number. -/
theorem real_a4 [Facts]
    (a0 : FVec Ideal S8x1024x128 .f32) (a1 : FVec Ideal S8x1024x64 .f32) (a2 : IVec S8x1024x64 32) (a3 : FVec Ideal S8x1024x64 .f32)
    (a4 : FVec Ideal S8x1024x64x50 .f32) (a5 : FVec Ideal S50x128 .f32) (a6 : FVec Ideal S128 .f32) (a7 : FVec Ideal S128x128 .f32)
    (a8 : FVec Ideal S128 .f32) (a9 : FVec Ideal S128x128 .f32) (a10 : FVec Ideal S128x128 .f32) (a11 : FVec Ideal S128 .f32)
    (a12 : FVec Ideal S128x128 .f32) (a13 : FVec Ideal S128 .f32)
    (h : fn (F := Ideal) a0 a1 a2 a3 a4 a5 a6 a7 a8 a9 a10 a11 a12 a13 = fun _ => 1#1) :
    ∀ j, IsReal (a4 j) := (all_real a0 a1 a2 a3 a4 a5 a6 a7 a8 a9 a10 a11 a12 a13 h).2.2.2.1

/-- Every entry of argument 5 is a real number. -/
theorem real_a5 [Facts]
    (a0 : FVec Ideal S8x1024x128 .f32) (a1 : FVec Ideal S8x1024x64 .f32) (a2 : IVec S8x1024x64 32) (a3 : FVec Ideal S8x1024x64 .f32)
    (a4 : FVec Ideal S8x1024x64x50 .f32) (a5 : FVec Ideal S50x128 .f32) (a6 : FVec Ideal S128 .f32) (a7 : FVec Ideal S128x128 .f32)
    (a8 : FVec Ideal S128 .f32) (a9 : FVec Ideal S128x128 .f32) (a10 : FVec Ideal S128x128 .f32) (a11 : FVec Ideal S128 .f32)
    (a12 : FVec Ideal S128x128 .f32) (a13 : FVec Ideal S128 .f32)
    (h : fn (F := Ideal) a0 a1 a2 a3 a4 a5 a6 a7 a8 a9 a10 a11 a12 a13 = fun _ => 1#1) :
    ∀ j, IsReal (a5 j) := (all_real a0 a1 a2 a3 a4 a5 a6 a7 a8 a9 a10 a11 a12 a13 h).2.2.2.2.1

/-- Every entry of argument 6 is a real number. -/
theorem real_a6 [Facts]
    (a0 : FVec Ideal S8x1024x128 .f32) (a1 : FVec Ideal S8x1024x64 .f32) (a2 : IVec S8x1024x64 32) (a3 : FVec Ideal S8x1024x64 .f32)
    (a4 : FVec Ideal S8x1024x64x50 .f32) (a5 : FVec Ideal S50x128 .f32) (a6 : FVec Ideal S128 .f32) (a7 : FVec Ideal S128x128 .f32)
    (a8 : FVec Ideal S128 .f32) (a9 : FVec Ideal S128x128 .f32) (a10 : FVec Ideal S128x128 .f32) (a11 : FVec Ideal S128 .f32)
    (a12 : FVec Ideal S128x128 .f32) (a13 : FVec Ideal S128 .f32)
    (h : fn (F := Ideal) a0 a1 a2 a3 a4 a5 a6 a7 a8 a9 a10 a11 a12 a13 = fun _ => 1#1) :
    ∀ j, IsReal (a6 j) := (all_real a0 a1 a2 a3 a4 a5 a6 a7 a8 a9 a10 a11 a12 a13 h).2.2.2.2.2.1

/-- Every entry of argument 7 is a real number. -/
theorem real_a7 [Facts]
    (a0 : FVec Ideal S8x1024x128 .f32) (a1 : FVec Ideal S8x1024x64 .f32) (a2 : IVec S8x1024x64 32) (a3 : FVec Ideal S8x1024x64 .f32)
    (a4 : FVec Ideal S8x1024x64x50 .f32) (a5 : FVec Ideal S50x128 .f32) (a6 : FVec Ideal S128 .f32) (a7 : FVec Ideal S128x128 .f32)
    (a8 : FVec Ideal S128 .f32) (a9 : FVec Ideal S128x128 .f32) (a10 : FVec Ideal S128x128 .f32) (a11 : FVec Ideal S128 .f32)
    (a12 : FVec Ideal S128x128 .f32) (a13 : FVec Ideal S128 .f32)
    (h : fn (F := Ideal) a0 a1 a2 a3 a4 a5 a6 a7 a8 a9 a10 a11 a12 a13 = fun _ => 1#1) :
    ∀ j, IsReal (a7 j) := (all_real a0 a1 a2 a3 a4 a5 a6 a7 a8 a9 a10 a11 a12 a13 h).2.2.2.2.2.2.1

/-- Every entry of argument 8 is a real number. -/
theorem real_a8 [Facts]
    (a0 : FVec Ideal S8x1024x128 .f32) (a1 : FVec Ideal S8x1024x64 .f32) (a2 : IVec S8x1024x64 32) (a3 : FVec Ideal S8x1024x64 .f32)
    (a4 : FVec Ideal S8x1024x64x50 .f32) (a5 : FVec Ideal S50x128 .f32) (a6 : FVec Ideal S128 .f32) (a7 : FVec Ideal S128x128 .f32)
    (a8 : FVec Ideal S128 .f32) (a9 : FVec Ideal S128x128 .f32) (a10 : FVec Ideal S128x128 .f32) (a11 : FVec Ideal S128 .f32)
    (a12 : FVec Ideal S128x128 .f32) (a13 : FVec Ideal S128 .f32)
    (h : fn (F := Ideal) a0 a1 a2 a3 a4 a5 a6 a7 a8 a9 a10 a11 a12 a13 = fun _ => 1#1) :
    ∀ j, IsReal (a8 j) := (all_real a0 a1 a2 a3 a4 a5 a6 a7 a8 a9 a10 a11 a12 a13 h).2.2.2.2.2.2.2.1

/-- Every entry of argument 9 is a real number. -/
theorem real_a9 [Facts]
    (a0 : FVec Ideal S8x1024x128 .f32) (a1 : FVec Ideal S8x1024x64 .f32) (a2 : IVec S8x1024x64 32) (a3 : FVec Ideal S8x1024x64 .f32)
    (a4 : FVec Ideal S8x1024x64x50 .f32) (a5 : FVec Ideal S50x128 .f32) (a6 : FVec Ideal S128 .f32) (a7 : FVec Ideal S128x128 .f32)
    (a8 : FVec Ideal S128 .f32) (a9 : FVec Ideal S128x128 .f32) (a10 : FVec Ideal S128x128 .f32) (a11 : FVec Ideal S128 .f32)
    (a12 : FVec Ideal S128x128 .f32) (a13 : FVec Ideal S128 .f32)
    (h : fn (F := Ideal) a0 a1 a2 a3 a4 a5 a6 a7 a8 a9 a10 a11 a12 a13 = fun _ => 1#1) :
    ∀ j, IsReal (a9 j) := (all_real a0 a1 a2 a3 a4 a5 a6 a7 a8 a9 a10 a11 a12 a13 h).2.2.2.2.2.2.2.2.1

/-- Every entry of argument 10 is a real number. -/
theorem real_a10 [Facts]
    (a0 : FVec Ideal S8x1024x128 .f32) (a1 : FVec Ideal S8x1024x64 .f32) (a2 : IVec S8x1024x64 32) (a3 : FVec Ideal S8x1024x64 .f32)
    (a4 : FVec Ideal S8x1024x64x50 .f32) (a5 : FVec Ideal S50x128 .f32) (a6 : FVec Ideal S128 .f32) (a7 : FVec Ideal S128x128 .f32)
    (a8 : FVec Ideal S128 .f32) (a9 : FVec Ideal S128x128 .f32) (a10 : FVec Ideal S128x128 .f32) (a11 : FVec Ideal S128 .f32)
    (a12 : FVec Ideal S128x128 .f32) (a13 : FVec Ideal S128 .f32)
    (h : fn (F := Ideal) a0 a1 a2 a3 a4 a5 a6 a7 a8 a9 a10 a11 a12 a13 = fun _ => 1#1) :
    ∀ j, IsReal (a10 j) := (all_real a0 a1 a2 a3 a4 a5 a6 a7 a8 a9 a10 a11 a12 a13 h).2.2.2.2.2.2.2.2.2.1

/-- Every entry of argument 11 is a real number. -/
theorem real_a11 [Facts]
    (a0 : FVec Ideal S8x1024x128 .f32) (a1 : FVec Ideal S8x1024x64 .f32) (a2 : IVec S8x1024x64 32) (a3 : FVec Ideal S8x1024x64 .f32)
    (a4 : FVec Ideal S8x1024x64x50 .f32) (a5 : FVec Ideal S50x128 .f32) (a6 : FVec Ideal S128 .f32) (a7 : FVec Ideal S128x128 .f32)
    (a8 : FVec Ideal S128 .f32) (a9 : FVec Ideal S128x128 .f32) (a10 : FVec Ideal S128x128 .f32) (a11 : FVec Ideal S128 .f32)
    (a12 : FVec Ideal S128x128 .f32) (a13 : FVec Ideal S128 .f32)
    (h : fn (F := Ideal) a0 a1 a2 a3 a4 a5 a6 a7 a8 a9 a10 a11 a12 a13 = fun _ => 1#1) :
    ∀ j, IsReal (a11 j) := (all_real a0 a1 a2 a3 a4 a5 a6 a7 a8 a9 a10 a11 a12 a13 h).2.2.2.2.2.2.2.2.2.2.1

/-- Every entry of argument 12 is a real number. -/
theorem real_a12 [Facts]
    (a0 : FVec Ideal S8x1024x128 .f32) (a1 : FVec Ideal S8x1024x64 .f32) (a2 : IVec S8x1024x64 32) (a3 : FVec Ideal S8x1024x64 .f32)
    (a4 : FVec Ideal S8x1024x64x50 .f32) (a5 : FVec Ideal S50x128 .f32) (a6 : FVec Ideal S128 .f32) (a7 : FVec Ideal S128x128 .f32)
    (a8 : FVec Ideal S128 .f32) (a9 : FVec Ideal S128x128 .f32) (a10 : FVec Ideal S128x128 .f32) (a11 : FVec Ideal S128 .f32)
    (a12 : FVec Ideal S128x128 .f32) (a13 : FVec Ideal S128 .f32)
    (h : fn (F := Ideal) a0 a1 a2 a3 a4 a5 a6 a7 a8 a9 a10 a11 a12 a13 = fun _ => 1#1) :
    ∀ j, IsReal (a12 j) := (all_real a0 a1 a2 a3 a4 a5 a6 a7 a8 a9 a10 a11 a12 a13 h).2.2.2.2.2.2.2.2.2.2.2.1

/-- Every entry of argument 13 is a real number. -/
theorem real_a13 [Facts]
    (a0 : FVec Ideal S8x1024x128 .f32) (a1 : FVec Ideal S8x1024x64 .f32) (a2 : IVec S8x1024x64 32) (a3 : FVec Ideal S8x1024x64 .f32)
    (a4 : FVec Ideal S8x1024x64x50 .f32) (a5 : FVec Ideal S50x128 .f32) (a6 : FVec Ideal S128 .f32) (a7 : FVec Ideal S128x128 .f32)
    (a8 : FVec Ideal S128 .f32) (a9 : FVec Ideal S128x128 .f32) (a10 : FVec Ideal S128x128 .f32) (a11 : FVec Ideal S128 .f32)
    (a12 : FVec Ideal S128x128 .f32) (a13 : FVec Ideal S128 .f32)
    (h : fn (F := Ideal) a0 a1 a2 a3 a4 a5 a6 a7 a8 a9 a10 a11 a12 a13 = fun _ => 1#1) :
    ∀ j, IsReal (a13 j) := (all_real a0 a1 a2 a3 a4 a5 a6 a7 a8 a9 a10 a11 a12 a13 h).2.2.2.2.2.2.2.2.2.2.2.2

end Cert.PreReal

end
-- ==== Proof.KvalGlue.lean ====
/-
  From "the walk's composed value is the kernel's index-level function of the arguments" to "it is the specification":
  under the precondition every float argument is a real number and every neighbour index is below 1024, and for such
  inputs the kernel's function is the specification.
-/
import proofs.«215235_g2774548873965_cont_9to1_572_34_alg».proof.Defs
import proofs.«215235_g2774548873965_cont_9to1_572_34_alg».proof.Proof.ScValue
import proofs.«215235_g2774548873965_cont_9to1_572_34_alg».proof.Proof.KSpec
import proofs.«215235_g2774548873965_cont_9to1_572_34_alg».proof.Proof.PreReal
import proofs.«215235_g2774548873965_cont_9to1_572_34_alg».proof.Proof.PreNbr

noncomputable section

namespace Cert.Proof.Alg

open Idealize.ShloMosaic Idealize.ShloMosaic.StableHlo Idealize.SL.Sem Cert.KernelIdeal.Sc

set_option maxRecDepth 16384 in
theorem kval_G_of
    (hk : ∀ (m : (ℓ : Loc Cert.KernelIdeal.nD Cert.KernelIdeal.τ Cert.KernelIdeal.sig) → Buf (Elt Ideal) ℓ) (d : Dev Cert.KernelIdeal.nD)
        (_ : ∀ j, (launchContents m d (Proc.devRef .tc Cert.KernelIdeal.main_arg2) j).toNat < 1024) (i : Cert.KernelIdeal.S8x1024x128.Idx),
        Kval (F := Ideal) m d i = Cert.KSpec.KG (launchContents m d (Proc.devRef .tc Cert.KernelIdeal.main_arg0)) (launchContents m d (Proc.devRef .tc Cert.KernelIdeal.main_arg1)) (launchContents m d (Proc.devRef .tc Cert.KernelIdeal.main_arg2)) (launchContents m d (Proc.devRef .tc Cert.KernelIdeal.main_arg3)) (launchContents m d (Proc.devRef .tc Cert.KernelIdeal.main_arg4)) (launchContents m d (Proc.devRef .tc Cert.KernelIdeal.main_arg5)) (launchContents m d (Proc.devRef .tc Cert.KernelIdeal.main_arg6)) (launchContents m d (Proc.devRef .tc Cert.KernelIdeal.main_arg7)) (launchContents m d (Proc.devRef .tc Cert.KernelIdeal.main_arg8)) (launchContents m d (Proc.devRef .tc Cert.KernelIdeal.main_arg9)) (launchContents m d (Proc.devRef .tc Cert.KernelIdeal.main_arg10)) (launchContents m d (Proc.devRef .tc Cert.KernelIdeal.main_arg11)) (launchContents m d (Proc.devRef .tc Cert.KernelIdeal.main_arg12)) (launchContents m d (Proc.devRef .tc Cert.KernelIdeal.main_arg13)) i)
    (m : (ℓ : Loc Cert.KernelIdeal.nD Cert.KernelIdeal.τ Cert.KernelIdeal.sig) → Buf (Elt Ideal) ℓ) (hpre : Cert.Pre_KernelIdeal m)
    (c : Dev Cert.KernelIdeal.nD) (i : Cert.KernelIdeal.S8x1024x128.Idx) :
    Kval (F := Ideal) m c i
      = Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) i := by
  have hnb := Cert.PreNbr.nbr_lt (F := Ideal) _ _ _ _ _ _ _ _ _ _ _ _ _ _ (hpre c)
  rw [hk m c hnb i]
  exact Cert.KSpec.KG_eq_G _ _ _
    (Cert.PreReal.real_a0 _ _ _ _ _ _ _ _ _ _ _ _ _ _ (hpre c)) (Cert.PreReal.real_a3 _ _ _ _ _ _ _ _ _ _ _ _ _ _ (hpre c)) (Cert.PreReal.real_a4 _ _ _ _ _ _ _ _ _ _ _ _ _ _ (hpre c))
    (Cert.PreReal.real_a5 _ _ _ _ _ _ _ _ _ _ _ _ _ _ (hpre c)) (Cert.PreReal.real_a6 _ _ _ _ _ _ _ _ _ _ _ _ _ _ (hpre c)) (Cert.PreReal.real_a7 _ _ _ _ _ _ _ _ _ _ _ _ _ _ (hpre c))
    (Cert.PreReal.real_a8 _ _ _ _ _ _ _ _ _ _ _ _ _ _ (hpre c)) (Cert.PreReal.real_a9 _ _ _ _ _ _ _ _ _ _ _ _ _ _ (hpre c)) (Cert.PreReal.real_a10 _ _ _ _ _ _ _ _ _ _ _ _ _ _ (hpre c))
    (Cert.PreReal.real_a11 _ _ _ _ _ _ _ _ _ _ _ _ _ _ (hpre c)) i

end Cert.Proof.Alg

end
-- ==== Proof.HostVals.lean ====
/-
  The values the host stretches give the arrays the regions read, each as the printed operations' composed term of the
  arrays the stretch starts from, and each read at an index.

  A reshape reads the same row-major position: the flat [8192,128] array at row b·1024 + n is the [8,1024,128] array at
  (b, n), and back; a [128] vector read as a [1,128] row is the vector at the column. A transpose reads the operand
  at the permuted index: the [8,50,64,1024] array at (b, m, k, n) is the [8,1024,64,50] argument at (b, n, k, m), and
  the [8,64,1024] arrays at (b, k, n) are the [8,1024,64] arguments at (b, n, k). The cutoff mask at (b, k, n) is the
  0-or-1 float of "the distance at (b, n, k) is at most 5.0" times the neighbour mask at (b, n, k).
-/
import proofs.«215235_g2774548873965_cont_9to1_572_34_alg».proof.Proof.MainSegs
import proofs.«215235_g2774548873965_cont_9to1_572_34_alg».proof.Proof.HostFacts
import Idealize.ShloMosaic.Lib.Pipeline.Value
import Idealize.ShloMosaic.Lib.ValueIdx

noncomputable section

namespace Cert.KernelIdeal.Sc

open Cert.KernelIdeal Idealize.ShloMosaic Idealize.ShloMosaic.TcCoe Idealize.SL.Sem Idealize.ShloMosaic.StableHlo
open Idealize.ShloMosaic.ValueIdx
open Facts₀ Facts

variable {F : FTy → Type} [FloatOps F]

/-! ## The stretches' results as the printed terms -/

/-- The cutoff mask as the program computes it from the distances r and the neighbour mask m: both with their last two
    axes exchanged, the comparison "r ≤ 5.0" as a 0-or-1 float, times m. Operation by operation as printed. -/
def cutMask (r m : FVec F S8x1024x64 .f32) : FVec F S8x64x1024 .f32 :=
  mulf (uitofp .f32 (cmpf .ole (transpose S8x64x1024 [0, 2, 1] r transposes_S8x1024x64_S8x64x1024_0_2_1)
      (broadcastInDim S8x64x1024 ![] bcast_S_S8x64x1024 (constant S_ .f32 0x40A00000#32))))
    (transpose S8x64x1024 [0, 2, 1] m transposes_S8x1024x64_S8x64x1024_0_2_1)

/-- After host stretch 0 the flat x is the reshape of the argument x. -/
theorem host0_xFlat (W : Valuation τ sig (Elt F)) :
    after (host0 (F := F)) W (Proc.devRef .tc main_v0)
      = shapeCast S8192x128 (W (Proc.devRef .tc main_arg0)) shapeCasts_S8x1024x128_S8192x128 := by
  after_results <;> rfl

/-- After host stretch 1 the transposed filter input is the [0,3,2,1] transpose of the argument, -/
theorem host1_fT (W : Valuation τ sig (Elt F)) :
    after (host1 (F := F)) W (Proc.devRef .tc main_v15)
      = transpose S8x50x64x1024 [0, 3, 2, 1] (W (Proc.devRef .tc main_arg4)) transposes_S8x1024x64x50_S8x50x64x1024_0_3_2_1 := by
  after_results <;> rfl

/-- the cutoff mask is the printed function of the distances and the neighbour mask, -/
theorem host1_cutMask (W : Valuation τ sig (Elt F)) :
    after (host1 (F := F)) W (Proc.devRef .tc main_v8)
      = cutMask (W (Proc.devRef .tc main_arg1)) (W (Proc.devRef .tc main_arg3)) := by
  after_results <;> rfl

/-- and the two filter biases are the arguments read as rows. -/
theorem host1_bias6 (W : Valuation τ sig (Elt F)) :
    after (host1 (F := F)) W (Proc.devRef .tc main_v16)
      = shapeCast S1x128 (W (Proc.devRef .tc main_arg6)) shapeCasts_S128_S1x128 := by
  after_results <;> rfl
theorem host1_bias8 (W : Valuation τ sig (Elt F)) :
    after (host1 (F := F)) W (Proc.devRef .tc main_v17)
      = shapeCast S1x128 (W (Proc.devRef .tc main_arg8)) shapeCasts_S128_S1x128 := by
  after_results <;> rfl

/-- After host stretch 9 the two output biases are the arguments read as rows. -/
theorem host9_bias11 (W : Valuation τ sig (Elt F)) :
    after (host9 (F := F)) W (Proc.devRef .tc main_v34)
      = shapeCast S1x128 (W (Proc.devRef .tc main_arg11)) shapeCasts_S128_S1x128 := by
  after_results <;> rfl
theorem host9_bias13 (W : Valuation τ sig (Elt F)) :
    after (host9 (F := F)) W (Proc.devRef .tc main_v35)
      = shapeCast S1x128 (W (Proc.devRef .tc main_arg13)) shapeCasts_S128_S1x128 := by
  after_results <;> rfl

/-- After host stretch 10 the result is the reshape of the last region's flat output. -/
theorem host10_out (W : Valuation τ sig (Elt F)) :
    after (host10 (F := F)) W (Proc.devRef .tc main_v37)
      = shapeCast S8x1024x128 (W (Proc.devRef .tc main_v36)) shapeCasts_S8192x128_S8x1024x128 := by
  after_results <;> rfl

/-! ## Each read at an index -/

section Reads

variable {α : Type}

/-- The flat array at row b·1024 + n is the [8,1024,128] array at (b, n): the same row-major position. -/
theorem flat_apply (x : S8x1024x128.Idx → α) (b : Fin 8) (n : Fin 1024) (f : Fin 128) :
    shapeCast S8192x128 x shapeCasts_S8x1024x128_S8192x128
        (ix2 (⟨b.val * 1024 + n.val, by have := b.isLt; have := n.isLt; omega⟩ : Fin 8192) f)
      = x (ix3 b n f) :=
  shapeCast_apply x shapeCasts_S8x1024x128_S8192x128 _ (ix3 b n f) (by
    rw [Shape.rowMajor_val_three, Shape.rowMajor_val_two]
    rfl)

/-- The flat array at any row r is the [8,1024,128] array at (r / 1024, r % 1024). -/
theorem flat_apply_row (x : S8x1024x128.Idx → α) (r : Fin 8192) (f : Fin 128) :
    shapeCast S8192x128 x shapeCasts_S8x1024x128_S8192x128 (ix2 r f)
      = x (ix3 (⟨r.val / 1024, by have := r.isLt; omega⟩ : Fin 8) (⟨r.val % 1024, Nat.mod_lt _ (by decide)⟩ : Fin 1024) f) :=
  shapeCast_apply x shapeCasts_S8x1024x128_S8192x128 _ _ (by
    rw [Shape.rowMajor_val_three, Shape.rowMajor_val_two]
    show (r.val / 1024 * 1024 + r.val % 1024) * 128 + f.val = r.val * 128 + f.val
    have := Nat.div_add_mod' r.val 1024
    omega)

/-- The [8,1024,128] reading of a flat array at (b, n) is the flat array at row b·1024 + n. -/
theorem unflat_apply (y : S8192x128.Idx → α) (b : Fin 8) (n : Fin 1024) (f : Fin 128) :
    shapeCast S8x1024x128 y shapeCasts_S8192x128_S8x1024x128 (ix3 b n f)
      = y (ix2 (⟨b.val * 1024 + n.val, by have := b.isLt; have := n.isLt; omega⟩ : Fin 8192) f) :=
  shapeCast_apply y shapeCasts_S8192x128_S8x1024x128 (ix3 b n f) _ (by
    rw [Shape.rowMajor_val_three, Shape.rowMajor_val_two]
    rfl)

/-- A [128] vector read as a [1,128] row, at column f, is the vector at f. -/
theorem row_of_vec_apply (v : S128.Idx → α) (z : Fin 1) (f : Fin 128) :
    shapeCast S1x128 v shapeCasts_S128_S1x128 (ix2 z f) = v (ix1 f) :=
  shapeCast_apply v shapeCasts_S128_S1x128 (ix2 z f) (ix1 f) (by
    rw [Shape.rowMajor_val_one, Shape.rowMajor_val_two]
    show f.val = z.val * 128 + f.val
    have := z.isLt
    omega)

/-- The [0,3,2,1] transpose at (b, m, k, n) is the operand at (b, n, k, m). -/
theorem fT_apply (x : S8x1024x64x50.Idx → α) (b : Fin 8) (m : Fin 50) (k : Fin 64) (n : Fin 1024) :
    transpose S8x50x64x1024 [0, 3, 2, 1] x transposes_S8x1024x64x50_S8x50x64x1024_0_3_2_1 (ix4 b m k n) = x (ix4 b n k m) :=
  transpose_apply [0, 3, 2, 1] x transposes_S8x1024x64x50_S8x50x64x1024_0_3_2_1 (ix4 b m k n) (ix4 b n k m) (fun a => by
    match a with
    | ⟨0, _⟩ => rfl
    | ⟨1, _⟩ => rfl
    | ⟨2, _⟩ => rfl
    | ⟨3, _⟩ => rfl)

/-- The [0,2,1] transpose at (b, k, n) is the operand at (b, n, k). -/
theorem swap_apply (x : S8x1024x64.Idx → α) (b : Fin 8) (k : Fin 64) (n : Fin 1024) :
    transpose S8x64x1024 [0, 2, 1] x transposes_S8x1024x64_S8x64x1024_0_2_1 (ix3 b k n) = x (ix3 b n k) :=
  transpose_apply [0, 2, 1] x transposes_S8x1024x64_S8x64x1024_0_2_1 (ix3 b k n) (ix3 b n k) (fun a => by
    match a with
    | ⟨0, _⟩ => rfl
    | ⟨1, _⟩ => rfl
    | ⟨2, _⟩ => rfl)

end Reads

/-- The cutoff mask at (b, k, n): the 0-or-1 float of "r at (b, n, k) is at most the float the word 0x40A00000 denotes"
    times m at (b, n, k), in the float instance's own operations. -/
theorem cutMask_apply (r m : FVec F S8x1024x64 .f32) (b : Fin 8) (k : Fin 64) (n : Fin 1024) :
    cutMask r m (ix3 b k n)
      = FloatOps.mulf (FloatOps.uitofp .f32 (FloatOps.cmpf .ole (r (ix3 b n k)) (FloatOps.ofBits .f32 0x40A00000#32)))
          (m (ix3 b n k)) := by
  show FloatOps.mulf (FloatOps.uitofp .f32 (FloatOps.cmpf .ole
      (transpose S8x64x1024 [0, 2, 1] r transposes_S8x1024x64_S8x64x1024_0_2_1 (ix3 b k n)) (FloatOps.ofBits .f32 0x40A00000#32)))
    (transpose S8x64x1024 [0, 2, 1] m transposes_S8x1024x64_S8x64x1024_0_2_1 (ix3 b k n)) = _
  rw [swap_apply, swap_apply]

/-- At the exact values the product is the extended reals'. -/
theorem cutMask_apply_ideal (r m : FVec Ideal S8x1024x64 .f32) (b : Fin 8) (k : Fin 64) (n : Fin 1024) :
    cutMask (F := Ideal) r m (ix3 b k n)
      = (FloatOps.uitofp (F := Ideal) .f32 (Ideal.cmp .ole (r (ix3 b n k)) (Ideal.ofBits .f32 0x40A00000#32)) : EReal)
          * m (ix3 b n k) :=
  cutMask_apply r m b k n

end Cert.KernelIdeal.Sc

end
-- ==== Proof.Region5Value.lean ====
/-
  What the last tensor-core region leaves in its output, entry by entry:
  out = ssp((h₀ + h₁ + h₂ + h₃) · W₁ + b₁) · W₂ + b₂ over the whole [8192,128] array, ssp(v) = log(½ · exp v + ½).

  The region's proof data (the body's file) says what each of the 8 grid points writes back: the printed value of the
  eight staged blocks. Here that value is read at the exact values — a multiply-accumulate into a zero accumulator is
  the plain sum of products, a bias row broadcast along the rows is the bias at the column, the other operations are
  entrywise — and the eight written blocks are put together: they are the eight row bands of ONE whole-array function
  of the entry contents of the eight input arrays, and they tile the output, so the output ends as that function.
-/
import proofs.«215235_g2774548873965_cont_9to1_572_34_alg».proof.Proof.Region5Body
import Idealize.ShloMosaic.Lib.Pipeline.Value
import Idealize.ShloMosaic.Lib.ValueIdx
import Idealize.ShloMosaic.PureOps.Ideal.Laws

noncomputable section

namespace Cert.KernelIdeal.Region5

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open scoped BigOperators
open Idealize.SL.Sem
open Idealize.ShloMosaic.Pipeline (Dat Cfg Window)

/-! ## A [1024,128] · [128,128] product at an entry -/

/-- The left operand's index at output entry j and contraction position κ keeps j's row, -/
theorem lhs_row (j : S1024x128.Idx) (κ : dot_S1024x128_S128x128_S1024x128_1_0_0_1_n_n.contr.Idx) :
    (dot_S1024x128_S128x128_S1024x128_1_0_0_1_n_n.lhsIdx j κ 0).val = (j 0).val := by
  unfold DotDims.lhsIdx
  rw [dif_neg (show ¬(0 : Fin S1024x128.rank) ∈ dot_S1024x128_S128x128_S1024x128_1_0_0_1_n_n.lhsBatch by decide),
    dif_pos (show (0 : Fin S1024x128.rank) ∈ dot_S1024x128_S128x128_S1024x128_1_0_0_1_n_n.lhsNonContracting by decide)]
  rfl
/-- and runs along its columns with the contraction position; -/
theorem lhs_col (j : S1024x128.Idx) (κ : dot_S1024x128_S128x128_S1024x128_1_0_0_1_n_n.contr.Idx) :
    (dot_S1024x128_S128x128_S1024x128_1_0_0_1_n_n.lhsIdx j κ 1).val = (κ ⟨0, by decide⟩).val :=
  dot_S1024x128_S128x128_S1024x128_1_0_0_1_n_n.lhsIdx_val_of_single rfl j κ
/-- the right operand's runs down its rows with the contraction position, -/
theorem rhs_row (j : S1024x128.Idx) (κ : dot_S1024x128_S128x128_S1024x128_1_0_0_1_n_n.contr.Idx) :
    (dot_S1024x128_S128x128_S1024x128_1_0_0_1_n_n.rhsIdx j κ 0).val = (κ ⟨0, by decide⟩).val :=
  dot_S1024x128_S128x128_S1024x128_1_0_0_1_n_n.rhsIdx_val_of_single rfl j κ
/-- and keeps j's column. -/
theorem rhs_col (j : S1024x128.Idx) (κ : dot_S1024x128_S128x128_S1024x128_1_0_0_1_n_n.contr.Idx) :
    (dot_S1024x128_S128x128_S1024x128_1_0_0_1_n_n.rhsIdx j κ 1).val = (j 1).val := by
  unfold DotDims.rhsIdx
  rw [dif_neg (show ¬(1 : Fin S128x128.rank) ∈ dot_S1024x128_S128x128_S1024x128_1_0_0_1_n_n.rhsBatch by decide),
    dif_pos (show (1 : Fin S128x128.rank) ∈ dot_S1024x128_S128x128_S1024x128_1_0_0_1_n_n.rhsNonContracting by decide)]
  rfl

/-- At the exact values the multiply-accumulate of a [1024,128] block by a [128,128] matrix into the zero accumulator,
    read at entry (p, q), is the sum over k of the block's (p, k) entry times the matrix's (k, q) entry. -/
theorem mm_apply (a : FVec Ideal S1024x128 .f32) (b : FVec Ideal S128x128 .f32) (p : Fin 1024) (q : Fin 128) :
    matmul dot_S1024x128_S128x128_S1024x128_1_0_0_1_n_n none a b (constant (F := Ideal) S1024x128 .f32 0x00000000#32) (ix2 p q)
      = ∑ k : Fin 128, a (ix2 p k) * b (ix2 k q) := by
  simp only [matmul]
  rw [Ideal.matmul_constant_zero_apply, ← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 p q) ((contrEquiv1 dot_S1024x128_S128x128_S1024x128_1_0_0_1_n_n 128 rfl rfl).symm k) = ix2 p k :=
    funext fun d => Fin.ext (by
      match d with
      | ⟨0, _⟩ => exact lhs_row _ _
      | ⟨1, _⟩ => exact (lhs_col _ _).trans hk)
  have er : dot_S1024x128_S128x128_S1024x128_1_0_0_1_n_n.rhsIdx (ix2 p q) ((contrEquiv1 dot_S1024x128_S128x128_S1024x128_1_0_0_1_n_n 128 rfl rfl).symm k) = ix2 k q :=
    funext fun d => Fin.ext (by
      match d with
      | ⟨0, _⟩ => exact (rhs_row _ _).trans hk
      | ⟨1, _⟩ => exact rhs_col _ _)
  rw [el, er]

/-! ## The other operations at an entry -/

/-- A [1,128] row broadcast along the 1024 rows reads, at entry (p, f), the row's entry at column f. -/
theorem row_apply {α : Type} (b : S1x128.Idx → α) (p : Fin 1024) (f : Fin 128) :
    broadcastTo S1024x128 b broadcasts_S1x128_S1024x128 (ix2 p f) = b (ix2 (0 : Fin 1) f) :=
  broadcastTo_apply b broadcasts_S1x128_S1024x128 (ix2 p f) (ix2 (0 : Fin 1) f) (fun a => by
    match a with
    | ⟨0, _⟩ => show (0 : Nat) = if (1 : Nat) = 1 then 0 else _; rw [if_pos rfl]
    | ⟨1, _⟩ => show f.val = if (128 : Nat) = 1 then 0 else f.val; rw [if_neg (by decide)])

/-- The exponential of a vector at an entry is the exponential of the entry, -/
theorem exp_apply {s : Shape} {φ : FTy} (a : FVec Ideal s φ) (i : s.Idx) : exp a i = Ideal.exp (a i) := rfl
/-- and the logarithm the logarithm of the entry. -/
theorem log_apply {s : Shape} {φ : FTy} (a : FVec Ideal s φ) (i : s.Idx) : log a i = Ideal.log (a i) := rfl

/-- The body's shifted softplus at an exact value: log(½ · exp v + ½), the ½ kept as the word the body prints. -/
def sspK (v : EReal) : EReal :=
  Ideal.log ((FloatOps.ofBits .f32 0x3F000000#32 : Ideal .f32) * Ideal.exp v + (FloatOps.ofBits .f32 0x3F000000#32 : Ideal .f32))

/-- The body's payload at entry (p, g) of the block: the four summands added in the body's order, times W₁, plus b₁ at
    the column, through the softplus, times W₂, plus b₂ at the column. -/
theorem pay_apply (h0 h1 h2 h3 : Vec Ideal S1024x128 .f32) (w1 : Vec Ideal S128x128 .f32) (b1 : Vec Ideal S1x128 .f32)
    (w2 : Vec Ideal S128x128 .f32) (b2 : Vec Ideal S1x128 .f32) (p : Fin 1024) (g : Fin 128) :
    k9_pay1 (F := Ideal) h0 h1 h2 h3 w1 b1 w2 b2 (ix2 p g)
      = (∑ f : Fin 128, sspK ((∑ e : Fin 128,
            (((h0 (ix2 p e) + h1 (ix2 p e)) + h2 (ix2 p e)) + h3 (ix2 p e)) * w1 (ix2 e f)) + b1 (ix2 (0 : Fin 1) f))
          * w2 (ix2 f g)) + b2 (ix2 (0 : Fin 1) g) := by
  unfold k9_pay1
  simp only [shapeCast_self, addf_apply, mulf_apply, broadcast_apply, exp_apply, log_apply, mm_apply, row_apply]
  rfl

/-! ## The whole-array function, and what each point writes back -/

/-- The output entry by entry, of the eight input arrays (the weights and biases first, then the four summands, in the
    windows' order): entry (r, g) is the sum over f of ssp(Σ_e (h₀ + h₁ + h₂ + h₃)(r, e) · W₁(e, f) + b₁(f)) · W₂(f, g),
    plus b₂(g). -/
def tailAll (w1 : S128x128.Idx → EReal) (b1 : S1x128.Idx → EReal) (w2 : S128x128.Idx → EReal) (b2 : S1x128.Idx → EReal)
    (h0 h1 h2 h3 : S8192x128.Idx → EReal) : S8192x128.Idx → EReal :=
  fun i => (∑ f : Fin 128, sspK ((∑ e : Fin 128,
        (((h0 (ix2 (n0 := 8192) (i 0) e) + h1 (ix2 (n0 := 8192) (i 0) e)) + h2 (ix2 (n0 := 8192) (i 0) e))
          + h3 (ix2 (n0 := 8192) (i 0) e)) * w1 (ix2 e f)) + b1 (ix2 (0 : Fin 1) f))
      * w2 (ix2 f (n1 := 128) (i 1))) + b2 (ix2 (0 : Fin 1) (n1 := 128) (i 1))

theorem tailAll_apply (w1 : S128x128.Idx → EReal) (b1 : S1x128.Idx → EReal) (w2 : S128x128.Idx → EReal)
    (b2 : S1x128.Idx → EReal) (h0 h1 h2 h3 : S8192x128.Idx → EReal) (r : Fin 8192) (g : Fin 128) :
    tailAll w1 b1 w2 b2 h0 h1 h2 h3 (ix2 r g)
      = (∑ f : Fin 128, sspK ((∑ e : Fin 128,
            (((h0 (ix2 r e) + h1 (ix2 r e)) + h2 (ix2 r e)) + h3 (ix2 r e)) * w1 (ix2 e f)) + b1 (ix2 (0 : Fin 1) f))
          * w2 (ix2 f g)) + b2 (ix2 (0 : Fin 1) g) := rfl

/-- Two zero offsets, however spelt. -/
theorem zero_offsets : (![0, 0] : Fin 2 → Nat) = fun _ => 0 := funext fun a => by fin_cases a <;> rfl

/-! The printed index maps over the 8 points: the weights' and biases' blocks never move; the summands' and the output's
    blocks are row band t, all columns. -/

theorem idx_fixed : ∀ t : Fin cfg9.N, win9_0.index t (0 : Fin 2) = 0 ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0 :=
  (by decide +kernel : ∀ t : Fin grid9.N, _)

theorem idx_band0 : ∀ t : Fin cfg9.N, win9_4.index t (0 : Fin 2) = t.val ∧ win9_4.index t (1 : Fin 2) = 0 ∧ True :=
  (by decide +kernel : ∀ t : Fin grid9.N, _)
theorem idx_band1 : ∀ t : Fin cfg9.N, win9_5.index t (0 : Fin 2) = t.val ∧ win9_5.index t (1 : Fin 2) = 0 ∧ True :=
  (by decide +kernel : ∀ t : Fin grid9.N, _)
theorem idx_band2 : ∀ t : Fin cfg9.N, win9_6.index t (0 : Fin 2) = t.val ∧ win9_6.index t (1 : Fin 2) = 0 ∧ True :=
  (by decide +kernel : ∀ t : Fin grid9.N, _)
theorem idx_band3 : ∀ t : Fin cfg9.N, win9_7.index t (0 : Fin 2) = t.val ∧ win9_7.index t (1 : Fin 2) = 0 ∧ True :=
  (by decide +kernel : ∀ t : Fin grid9.N, _)
theorem idx_out : ∀ t : Fin cfg9.N, win9_8.index t (0 : Fin 2) = t.val ∧ win9_8.index t (1 : Fin 2) = 0 :=
  (by decide +kernel : ∀ t : Fin grid9.N, _)

/-- Entry (p, e) of summand 0's block at point t is its entry in the row where the output's block has its row p, column e. -/
theorem read_h0 (X : S8192x128.Idx → EReal) (t : Fin cfg9.N) (p : Fin 1024) (g : Fin 128) (e : Fin 128) :
    ((cfg9.win 4).blk t).view.read (Elt Ideal) X (ix2 p e)
      = X (ix2 (n0 := 8192) ((((cfg9.win 8).blk t).view.emb (ix2 p g)) 0) e) := by
  obtain ⟨e0, e1, -⟩ := idx_band0 t
  obtain ⟨o0, -⟩ := idx_out t
  show X (((cfg9.win 4).blk t).view.emb (ix2 p e)) = _
  congr 1
  funext a; apply Fin.ext
  match a with
  | ⟨0, _⟩ =>
    show win9_4.index t (0 : Fin 2) * 1024 + 1 * p.val = win9_8.index t (0 : Fin 2) * 1024 + 1 * p.val
    omega
  | ⟨1, _⟩ =>
    show win9_4.index t (1 : Fin 2) * 128 + 1 * e.val = e.val
    omega

/-- Entry (p, e) of summand 1's block at point t is its entry in the row where the output's block has its row p, column e. -/
theorem read_h1 (X : S8192x128.Idx → EReal) (t : Fin cfg9.N) (p : Fin 1024) (g : Fin 128) (e : Fin 128) :
    ((cfg9.win 5).blk t).view.read (Elt Ideal) X (ix2 p e)
      = X (ix2 (n0 := 8192) ((((cfg9.win 8).blk t).view.emb (ix2 p g)) 0) e) := by
  obtain ⟨e0, e1, -⟩ := idx_band1 t
  obtain ⟨o0, -⟩ := idx_out t
  show X (((cfg9.win 5).blk t).view.emb (ix2 p e)) = _
  congr 1
  funext a; apply Fin.ext
  match a with
  | ⟨0, _⟩ =>
    show win9_5.index t (0 : Fin 2) * 1024 + 1 * p.val = win9_8.index t (0 : Fin 2) * 1024 + 1 * p.val
    omega
  | ⟨1, _⟩ =>
    show win9_5.index t (1 : Fin 2) * 128 + 1 * e.val = e.val
    omega

/-- Entry (p, e) of summand 2's block at point t is its entry in the row where the output's block has its row p, column e. -/
theorem read_h2 (X : S8192x128.Idx → EReal) (t : Fin cfg9.N) (p : Fin 1024) (g : Fin 128) (e : Fin 128) :
    ((cfg9.win 6).blk t).view.read (Elt Ideal) X (ix2 p e)
      = X (ix2 (n0 := 8192) ((((cfg9.win 8).blk t).view.emb (ix2 p g)) 0) e) := by
  obtain ⟨e0, e1, -⟩ := idx_band2 t
  obtain ⟨o0, -⟩ := idx_out t
  show X (((cfg9.win 6).blk t).view.emb (ix2 p e)) = _
  congr 1
  funext a; apply Fin.ext
  match a with
  | ⟨0, _⟩ =>
    show win9_6.index t (0 : Fin 2) * 1024 + 1 * p.val = win9_8.index t (0 : Fin 2) * 1024 + 1 * p.val
    omega
  | ⟨1, _⟩ =>
    show win9_6.index t (1 : Fin 2) * 128 + 1 * e.val = e.val
    omega

/-- Entry (p, e) of summand 3's block at point t is its entry in the row where the output's block has its row p, column e. -/
theorem read_h3 (X : S8192x128.Idx → EReal) (t : Fin cfg9.N) (p : Fin 1024) (g : Fin 128) (e : Fin 128) :
    ((cfg9.win 7).blk t).view.read (Elt Ideal) X (ix2 p e)
      = X (ix2 (n0 := 8192) ((((cfg9.win 8).blk t).view.emb (ix2 p g)) 0) e) := by
  obtain ⟨e0, e1, -⟩ := idx_band3 t
  obtain ⟨o0, -⟩ := idx_out t
  show X (((cfg9.win 7).blk t).view.emb (ix2 p e)) = _
  congr 1
  funext a; apply Fin.ext
  match a with
  | ⟨0, _⟩ =>
    show win9_7.index t (0 : Fin 2) * 1024 + 1 * p.val = win9_8.index t (0 : Fin 2) * 1024 + 1 * p.val
    omega
  | ⟨1, _⟩ =>
    show win9_7.index t (1 : Fin 2) * 128 + 1 * e.val = e.val
    omega

/-- W₁'s block at any point is W₁. -/
theorem read_w1 (Wm : S128x128.Idx → EReal) (t : Fin cfg9.N) (e f : Fin 128) :
    ((cfg9.win 0).blk t).view.read (Elt Ideal) Wm (ix2 e f) = Wm (ix2 e f) := by
  obtain ⟨e0, e1, -⟩ := idx_fixed t
  show Wm (((cfg9.win 0).blk t).view.emb (ix2 e f)) = _
  congr 1
  funext a; apply Fin.ext
  match a with
  | ⟨0, _⟩ => show win9_0.index t (0 : Fin 2) * 128 + 1 * e.val = e.val; omega
  | ⟨1, _⟩ => show win9_0.index t (1 : Fin 2) * 128 + 1 * f.val = f.val; omega

/-- b₁'s block at any point is b₁. -/
theorem read_b1 (b : S1x128.Idx → EReal) (t : Fin cfg9.N) (z : Fin 1) (f : Fin 128) :
    ((cfg9.win 1).blk t).view.read (Elt Ideal) b (ix2 z f) = b (ix2 z f) := by
  obtain ⟨-, -, e2, e3, -⟩ := idx_fixed t
  show b (((cfg9.win 1).blk t).view.emb (ix2 z f)) = _
  congr 1
  funext a; apply Fin.ext
  match a with
  | ⟨0, _⟩ => show win9_1.index t (0 : Fin 2) * 1 + 1 * z.val = z.val; omega
  | ⟨1, _⟩ => show win9_1.index t (1 : Fin 2) * 128 + 1 * f.val = f.val; omega

/-- Entry (f, g) of W₂'s block at any point is W₂'s entry in row f and the column where the output's block has its column g. -/
theorem read_w2 (Wm : S128x128.Idx → EReal) (t : Fin cfg9.N) (p : Fin 1024) (f g : Fin 128) :
    ((cfg9.win 2).blk t).view.read (Elt Ideal) Wm (ix2 f g)
      = Wm (ix2 f (n1 := 128) ((((cfg9.win 8).blk t).view.emb (ix2 p g)) 1)) := by
  obtain ⟨-, -, -, -, e4, e5, -⟩ := idx_fixed t
  obtain ⟨-, o1⟩ := idx_out t
  show Wm (((cfg9.win 2).blk t).view.emb (ix2 f g)) = _
  congr 1
  funext a; apply Fin.ext
  match a with
  | ⟨0, _⟩ => show win9_2.index t (0 : Fin 2) * 128 + 1 * f.val = f.val; omega
  | ⟨1, _⟩ =>
    show win9_2.index t (1 : Fin 2) * 128 + 1 * g.val = win9_8.index t (1 : Fin 2) * 128 + 1 * g.val
    omega

/-- Entry (0, g) of b₂'s block at any point is b₂'s entry at the column where the output's block has its column g. -/
theorem read_b2 (b : S1x128.Idx → EReal) (t : Fin cfg9.N) (p : Fin 1024) (z : Fin 1) (g : Fin 128) :
    ((cfg9.win 3).blk t).view.read (Elt Ideal) b (ix2 z g)
      = b (ix2 z (n1 := 128) ((((cfg9.win 8).blk t).view.emb (ix2 p g)) 1)) := by
  obtain ⟨-, -, -, -, -, -, e6, e7⟩ := idx_fixed t
  obtain ⟨-, o1⟩ := idx_out t
  show b (((cfg9.win 3).blk t).view.emb (ix2 z g)) = _
  congr 1
  funext a; apply Fin.ext
  match a with
  | ⟨0, _⟩ => show win9_3.index t (0 : Fin 2) * 1 + 1 * z.val = z.val; omega
  | ⟨1, _⟩ =>
    show win9_3.index t (1 : Fin 2) * 128 + 1 * g.val = win9_8.index t (1 : Fin 2) * 128 + 1 * g.val
    omega

/-- The body's value of the eight blocks at point t, read at entry (p, g), is the whole-array function at the entry of
    the output array where the output's block at t has its entry (p, g). -/
theorem band_eq (w1 : S128x128.Idx → EReal) (b1 : S1x128.Idx → EReal) (w2 : S128x128.Idx → EReal) (b2 : S1x128.Idx → EReal)
    (h0 h1 h2 h3 : S8192x128.Idx → EReal) (t : Fin cfg9.N) (p : Fin 1024) (g : Fin 128) :
    k9_pay1 (F := Ideal) (((cfg9.win 4).blk t).view.read (Elt Ideal) h0) (((cfg9.win 5).blk t).view.read (Elt Ideal) h1)
        (((cfg9.win 6).blk t).view.read (Elt Ideal) h2) (((cfg9.win 7).blk t).view.read (Elt Ideal) h3)
        (((cfg9.win 0).blk t).view.read (Elt Ideal) w1) (((cfg9.win 1).blk t).view.read (Elt Ideal) b1)
        (((cfg9.win 2).blk t).view.read (Elt Ideal) w2) (((cfg9.win 3).blk t).view.read (Elt Ideal) b2) (ix2 p g)
      = tailAll w1 b1 w2 b2 h0 h1 h2 h3 (((cfg9.win 8).blk t).view.emb (ix2 p g)) := by
  rw [pay_apply]
  unfold tailAll
  simp only [read_h0 h0 t p g, read_h1 h1 t p g, read_h2 h2 t p g, read_h3 h3 t p g,
    read_w1 w1 t, read_b1 b1 t, read_w2 w2 t p, read_b2 b2 t p]

section Closed

variable {Ix : Type} [DecidableEq Ix] {Name : Type} [DecidableEq Name] {U : Type} [URA U] {Lvl : Type} [Preorder Lvl]

local notation "𝕄" => MT nD τ sig Ix (Elt Ideal) Name U Lvl

variable (c : Dev nD) (A : (w : Fin cfg9.W) → Buf (Elt Ideal) ((cfg9.win w).arr.view.loc (c.tc : Thread nD τ)))
  (q : Fin cfg9.W → PosShare TreeShare) (O : CellTallies nD τ sig Ix) (B : Set (SemLoc sig × Ix))

/-- What point t writes back to the output is row band t of the whole-array function of the eight input arrays as the
    region finds them. -/
theorem flushed_eq (R : sProp 𝕄) (t : Fin cfg9.N) :
    (dat (F := Ideal) (Name := Name) (Lvl := Lvl) c A q R O B).flushed 8 t
      = ((cfg9.win 8).blk t).view.read (Elt Ideal) (tailAll (A 0) (A 1) (A 2) (A 3) (A 4) (A 5) (A 6) (A 7)) := by
  show (cfg9.win 8).cut (grid9.coords t) ((dat (F := Ideal) (Name := Name) (Lvl := Lvl) c A q R O B).after 8 t) = _
  rw [after_out]
  unfold tailBlock
  rw [View.canon_unit_zero zero_offsets]
  simp only [View.ld_unit_zero (S := S1024x128) zero_offsets, View.ld_unit_zero (S := S128x128) zero_offsets,
    View.ld_unit_zero (S := S1x128) zero_offsets]
  funext j
  obtain ⟨p, g, rfl⟩ : ∃ (p : Fin 1024) (g : Fin 128), j = ix2 p g := ⟨j 0, j 1, eq_ix2 j⟩
  exact band_eq (A 0) (A 1) (A 2) (A 3) (A 4) (A 5) (A 6) (A 7) t p g

/-- An entry of the output is in point t's block iff each of its coordinates is in the block's range on that axis. -/
theorem mem_blk (t : Fin cfg9.N) (i : S8192x128.Idx) :
    i ∈ ((cfg9.win 8).blk t).view.set
      ↔ ∀ a : Fin 2, win9_8.index t a * S1024x128.size a ≤ (i a).val ∧ (i a).val < win9_8.index t a * S1024x128.size a + S1024x128.size a := by
  show i ∈ ((View.whole main_v36).slice (win9_8.rect t)).set ↔ _
  rw [View.set_slice_whole, Rect.mem_set_unit]
  exact Iff.rfl

/-- The eight row bands tile the output: entry (r, g) is in the block of point r / 1024. -/
theorem cover (i : S8192x128.Idx) :
    ∃ t : Fin cfg9.N, (cfg9.win 8).flush t = true ∧ i ∈ ((cfg9.win 8).blk t).view.set := by
  have hi0 : (i 0).val < 8192 := (i 0).isLt
  have hi1 : (i 1).val < 128 := (i 1).isLt
  have hN : cfg9.N = 8 := N_9
  let t : Fin cfg9.N := ⟨(i 0).val / 1024, by rw [hN]; omega⟩
  obtain ⟨o0, o1⟩ := idx_out t
  refine ⟨t, flush9_8 t, ?_⟩
  rw [mem_blk]
  intro a
  match a with
  | ⟨0, _⟩ =>
    show win9_8.index t (0 : Fin 2) * 1024 ≤ (i 0).val ∧ (i 0).val < win9_8.index t (0 : Fin 2) * 1024 + 1024
    have : t.val = (i 0).val / 1024 := rfl
    omega
  | ⟨1, _⟩ =>
    show win9_8.index t (1 : Fin 2) * 128 ≤ (i 1).val ∧ (i 1).val < win9_8.index t (1 : Fin 2) * 128 + 128
    omega

/-- THE OUTPUT AFTER THE REGION is the whole-array function of the entry contents of the eight input arrays. -/
theorem out_final (R : sProp 𝕄) :
    (dat (F := Ideal) (Name := Name) (Lvl := Lvl) c A q R O B).arrAt 8 cfg9.N = tailAll (A 0) (A 1) (A 2) (A 3) (A 4) (A 5) (A 6) (A 7) :=
  (dat (F := Ideal) (Name := Name) (Lvl := Lvl) c A q R O B).arrAt_eq_of_cover 8 (tailAll (A 0) (A 1) (A 2) (A 3) (A 4) (A 5) (A 6) (A 7))
    (fun t _ => flushed_eq c A q O B R t) cover

/-- The same read at entry (r, g). -/
theorem out_closed (R : sProp 𝕄) (r : Fin 8192) (g : Fin 128) :
    (dat (F := Ideal) (Name := Name) (Lvl := Lvl) c A q R O B).arrAt 8 cfg9.N (ix2 r g)
      = tailAll (A 0) (A 1) (A 2) (A 3) (A 4) (A 5) (A 6) (A 7) (ix2 r g) :=
  congrFun (out_final c A q O B R) (ix2 r g)

end Closed

end Cert.KernelIdeal.Region5

end
-- ==== Proof.Region1Value.lean ====
/-
  The closed form, at the ideal values, of what a fused tensor-core region leaves in its output array.

  The region's body computes, for each of 8 slots, a two-layer filter of the slot's 50 inputs (a contraction with W₁,
  plus b₁, the shifted softplus log(½·exp v + ½), a contraction with W₂, plus b₂), multiplies it by the slot's
  cutoff-and-mask entry and by the slot's gathered row, and adds the eight products in slot order. Over the grid 8 × 2
  the two points of a pair add their sums; the second writes the total to rows 1024·b … of the output array.

  Below: each operation of the body that is not pointwise read at an index; each of the body's named values
  (the generated pure terms) read at an index; a point's sum as a function of its seven staged inputs; the staged
  inputs as the arrays read through the windows' index maps; the write-backs joined into the array.
-/
import proofs.«215235_g2774548873965_cont_9to1_572_34_alg».proof.Proof.Region1Body
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region1V

open Cert.KernelIdeal Cert.KernelIdeal.Gen Cert.KernelIdeal.Region1B
open Idealize.ShloMosaic Idealize.ShloMosaic.TcCoe Idealize.ShloMosaic.ValueIdx
open Idealize.SL Idealize.SL.RA Idealize.SL.BI
open Idealize.ShloMosaic.Pipeline (Dat Cfg Window)
open scoped BigOperators

variable {Ix : Type} [DecidableEq Ix] {Name : Type} [DecidableEq Name] {U : Type} [URA U] {Lvl : Type} [Preorder Lvl]

local notation "𝕄" => MT nD τ sig Ix (Elt Ideal) Name U Lvl

/-- The shifted softplus as the body spells it: log (½ · exp v + ½), the two halves the same binary word. -/
def sspK (v : EReal) : EReal :=
  Ideal.log (Ideal.ofBits .f32 0x3F000000#32 * Ideal.exp v + Ideal.ofBits .f32 0x3F000000#32)

/-! ## The operations that are not pointwise, each read at an index -/

/-- The operand indices of the two contractions on the axes that are not contracted. -/
theorem mm1_lhs1 (i : S1024x128.Idx) (q : dot_S50x1024_S50x128_S1024x128_0_0_1_1_n_n.contr.Idx) :
    (dot_S50x1024_S50x128_S1024x128_0_0_1_1_n_n.lhsIdx i q 1).val = (i 0).val := by
  unfold DotDims.lhsIdx
  rw [dif_neg (show ¬(1 : Fin S50x1024.rank) ∈ dot_S50x1024_S50x128_S1024x128_0_0_1_1_n_n.lhsBatch by decide),
    dif_pos (show (1 : Fin S50x1024.rank) ∈ dot_S50x1024_S50x128_S1024x128_0_0_1_1_n_n.lhsNonContracting by decide)]
  rfl
theorem mm1_rhs1 (i : S1024x128.Idx) (q : dot_S50x1024_S50x128_S1024x128_0_0_1_1_n_n.contr.Idx) :
    (dot_S50x1024_S50x128_S1024x128_0_0_1_1_n_n.rhsIdx i q 1).val = (i 1).val := by
  unfold DotDims.rhsIdx
  rw [dif_neg (show ¬(1 : Fin S50x128.rank) ∈ dot_S50x1024_S50x128_S1024x128_0_0_1_1_n_n.rhsBatch by decide),
    dif_pos (show (1 : Fin S50x128.rank) ∈ dot_S50x1024_S50x128_S1024x128_0_0_1_1_n_n.rhsNonContracting by decide)]
  rfl
theorem mm2_lhs0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide),
    dif_pos (show (0 : Fin S1024x128.rank) ∈ dot_S1024x128_S128x128_S1024x128_1_0_0_1_n_n.lhsNonContracting by decide)]
  rfl
theorem mm2_rhs1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide),
    dif_pos (show (1 : Fin S128x128.rank) ∈ dot_S1024x128_S128x128_S1024x128_1_0_0_1_n_n.rhsNonContracting by decide)]
  rfl

/-- The first contraction: axis 0 of a [50,1024] operand against axis 0 of a [50,128] one, into zeros. -/
theorem mm1_apply (L : FVec Ideal S50x1024 .f32) (w : FVec Ideal S50x128 .f32) (n : Fin 1024) (j' : Fin 128) :
    matmul dot_S50x1024_S50x128_S1024x128_0_0_1_1_n_n none L w (constant S1024x128 .f32 0x00000000#32) (ix2 n j')
      = ∑ m : Fin 50, L (ix2 m n) * w (ix2 m j') := by
  simp only [matmul]
  rw [Ideal.matmul_constant_zero_apply, ← Equiv.sum_comp (contrEquiv1 dot_S50x1024_S50x128_S1024x128_0_0_1_1_n_n 50 rfl rfl).symm]
  refine Finset.sum_congr rfl fun k _ => ?_
  have hk := contrEquiv1_symm_val dot_S50x1024_S50x128_S1024x128_0_0_1_1_n_n 50 rfl rfl k
  have el : dot_S50x1024_S50x128_S1024x128_0_0_1_1_n_n.lhsIdx (ix2 n j') ((contrEquiv1 dot_S50x1024_S50x128_S1024x128_0_0_1_1_n_n 50 rfl rfl).symm k) = ix2 k n :=
    funext fun a => Fin.ext (by
      match a with
      | ⟨0, _⟩ => exact (dot_S50x1024_S50x128_S1024x128_0_0_1_1_n_n.lhsIdx_val_of_single rfl _ _).trans hk
      | ⟨1, _⟩ => exact mm1_lhs1 _ _)
  have er : dot_S50x1024_S50x128_S1024x128_0_0_1_1_n_n.rhsIdx (ix2 n j') ((contrEquiv1 dot_S50x1024_S50x128_S1024x128_0_0_1_1_n_n 50 rfl rfl).symm k) = ix2 k j' :=
    funext fun a => Fin.ext (by
      match a with
      | ⟨0, _⟩ => exact (dot_S50x1024_S50x128_S1024x128_0_0_1_1_n_n.rhsIdx_val_of_single rfl _ _).trans hk
      | ⟨1, _⟩ => exact mm1_rhs1 _ _)
  rw [el, er]

/-- The second contraction: the lanes of a [1024,128] operand against axis 0 of a [128,128] one, into zeros. -/
theorem mm2_apply (L : FVec Ideal S1024x128 .f32) (w : FVec Ideal S128x128 .f32) (n : Fin 1024) (f : Fin 128) :
    matmul dot_S1024x128_S128x128_S1024x128_1_0_0_1_n_n none L w (constant S1024x128 .f32 0x00000000#32) (ix2 n f)
      = ∑ j' : Fin 128, L (ix2 n j') * w (ix2 j' f) := by
  simp only [matmul]
  rw [Ideal.matmul_constant_zero_apply, ← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 n f) ((contrEquiv1 dot_S1024x128_S128x128_S1024x128_1_0_0_1_n_n 128 rfl rfl).symm k) = ix2 n k :=
    funext fun a => Fin.ext (by
      match a with
      | ⟨0, _⟩ => exact mm2_lhs0 _ _
      | ⟨1, _⟩ => exact (dot_S1024x128_S128x128_S1024x128_1_0_0_1_n_n.lhsIdx_val_of_single rfl _ _).trans hk)
  have er : dot_S1024x128_S128x128_S1024x128_1_0_0_1_n_n.rhsIdx (ix2 n f) ((contrEquiv1 dot_S1024x128_S128x128_S1024x128_1_0_0_1_n_n 128 rfl rfl).symm k) = ix2 k f :=
    funext fun a => Fin.ext (by
      match a with
      | ⟨0, _⟩ => exact (dot_S1024x128_S128x128_S1024x128_1_0_0_1_n_n.rhsIdx_val_of_single rfl _ _).trans hk
      | ⟨1, _⟩ => exact mm2_rhs1 _ _)
  rw [el, er]

/-- A staged slice [1,50,1,1024] cast to [50,1024]. -/
theorem castF_apply {α : Type} (v : S1x50x1x1024.Idx → α) (h : S1x50x1x1024.ShapeCasts S50x1024) (m : Fin 50) (n : Fin 1024) :
    shapeCast S50x1024 v h (ix2 m n) = v (ix4 (0 : Fin 1) m (0 : Fin 1) n) :=
  shapeCast_apply v h _ _ (by
    rw [Shape.rowMajor_val_four, Shape.rowMajor_val_two]
    show ((0 * 50 + m.val) * 1 + 0) * 1024 + n.val = m.val * 1024 + n.val
    omega)

/-- A bias row [1,128], cast to itself and broadcast over the 1024 rows. -/
theorem bias_apply {α : Type} (b : S1x128.Idx → α) (h : S1x128.ShapeCasts S1x128) (h' : S1x128.Broadcasts S1024x128) (n : Fin 1024) (f : Fin 128) :
    broadcastTo S1024x128 (shapeCast S1x128 b h) h' (ix2 n f) = b (ix2 (0 : Fin 1) f) := by
  rw [shapeCast_self]
  exact broadcastTo_1b_ab_apply b h' n f

/-- Column j of a [1024,8] array, broadcast over the 128 lanes. -/
theorem col_apply {α : Type} (v : S1024x8.Idx → α) (o : Nat) (h : S1024x8.Slices ![0, o] S1024x1) (h' : S1024x1.Broadcasts S1024x128)
    (j : Fin 8) (ho : j.val = o) (n : Fin 1024) (f : Fin 128) :
    broadcastTo S1024x128 (extractStridedSlice S1024x1 ![0, o] v h) h' (ix2 n f) = v (ix2 n j) := by
  have e1 : broadcastTo S1024x128 (extractStridedSlice S1024x1 ![0, o] v h) h' (ix2 n f)
      = extractStridedSlice S1024x1 ![0, o] v h (ix2 n (0 : Fin 1)) :=
    broadcastTo_apply _ h' (ix2 n f) (ix2 n (0 : Fin 1)) fun ax => by
      match ax with
      | ⟨0, _⟩ => show n.val = if (1024 : Nat) = 1 then 0 else n.val; rw [if_neg (by decide)]
      | ⟨1, _⟩ => rfl
  rw [e1]
  exact slice2_axis1_apply o v h n (0 : Fin 1) j (by show j.val = o + 0; omega)

/-- The cutoff-and-mask block [1,8,1024] cast to [8,1024] and transposed: entry (n, j) is the block's (0, j, n). -/
theorem cutT_apply (cw : Vec Ideal S1x8x1024 .f32) (n : Fin 1024) (j : Fin 8) :
    k2_pay4 cw (ix2 n j) = cw (ix3 (0 : Fin 1) j n) := by
  unfold k2_pay4
  show transpose S1024x8 [1, 0] (shapeCast S8x1024 cw _) _ (ix2 n j) = _
  rw [transpose_ix2_apply, shapeCast_1ab_ab_apply]

/-! ## The pointwise operations at an index -/

theorem exp_apply (x : FVec Ideal S1024x128 .f32) (i : S1024x128.Idx) : exp x i = Ideal.exp (x i) := rfl
theorem log_apply (x : FVec Ideal S1024x128 .f32) (i : S1024x128.Idx) : log x i = Ideal.log (x i) := rfl
theorem half_apply (i : S1024x128.Idx) :
    broadcast S1024x128 (Scalar.ofBits (F := Ideal) .f32 0x3F000000#32) i = Ideal.ofBits .f32 0x3F000000#32 := rfl

/-! ## One slot -/

/-- The filter of one slot at row n, lane f, from the slot's staged slice and the weights. -/
def filt (fj : Vec Ideal S1x50x1x1024 .f32) (w1 : Vec Ideal S50x128 .f32) (b1 : Vec Ideal S1x128 .f32)
    (w2 : Vec Ideal S128x128 .f32) (b2 : Vec Ideal S1x128 .f32) (n : Fin 1024) (f : Fin 128) : EReal :=
  (∑ j' : Fin 128, sspK ((∑ m : Fin 50, fj (ix4 (0 : Fin 1) m (0 : Fin 1) n) * w1 (ix2 m j')) + b1 (ix2 (0 : Fin 1) j')) * w2 (ix2 j' f))
    + b2 (ix2 (0 : Fin 1) f)

theorem pay5_apply (cw : Vec Ideal S1x8x1024 .f32) (f0 : Vec Ideal S1x50x1x1024 .f32) (w1 : Vec Ideal S50x128 .f32)
    (b1 : Vec Ideal S1x128 .f32) (w2 : Vec Ideal S128x128 .f32) (b2 : Vec Ideal S1x128 .f32) (g0 : Vec Ideal S1024x128 .f32)
    (n : Fin 1024) (f : Fin 128) :
    k2_pay5 cw f0 w1 b1 w2 b2 g0 (ix2 n f) = filt f0 w1 b1 w2 b2 n f * cw (ix3 (0 : Fin 1) (0 : Fin 8) n) * g0 (ix2 n f) := by
  unfold k2_pay5 filt sspK
  simp only [mulf_apply, addf_apply, shapeCast_self, mm2_apply, mm1_apply, broadcastTo_1b_ab_apply, log_apply, exp_apply, half_apply, castF_apply,
    col_apply _ 0 _ _ 0 rfl, cutT_apply]

/-- The filter from an already cast [50,1024] slice. -/
def filtC (L : FVec Ideal S50x1024 .f32) (w1 : Vec Ideal S50x128 .f32) (b1 : Vec Ideal S1x128 .f32)
    (w2 : Vec Ideal S128x128 .f32) (b2 : Vec Ideal S1x128 .f32) (n : Fin 1024) (f : Fin 128) : EReal :=
  (∑ j' : Fin 128, sspK ((∑ m : Fin 50, L (ix2 m n) * w1 (ix2 m j')) + b1 (ix2 (0 : Fin 1) j')) * w2 (ix2 j' f))
    + b2 (ix2 (0 : Fin 1) f)

theorem pay6_apply (v : Vec Ideal S1x50x1x1024 .f32) (m : Fin 50) (n : Fin 1024) :
    k2_pay6 v (ix2 m n) = v (ix4 (0 : Fin 1) m (0 : Fin 1) n) := by
  unfold k2_pay6
  simp only [castF_apply]

theorem pay14_apply (v : Vec Ideal S1x50x1x1024 .f32) (m : Fin 50) (n : Fin 1024) :
    k2_pay14 v (ix2 m n) = v (ix4 (0 : Fin 1) m (0 : Fin 1) n) := by
  unfold k2_pay14
  simp only [castF_apply]

theorem pay7_apply (v2 : FVec Ideal S1024x8 .f32) (v28 : FVec Ideal S1024x128 .f32) (v30 : FVec Ideal S50x1024 .f32) (w1 : Vec Ideal S50x128 .f32) (b1 : Vec Ideal S1x128 .f32) (w2 : Vec Ideal S128x128 .f32) (b2 : Vec Ideal S1x128 .f32)
    (g : Vec Ideal S1024x128 .f32) (n : Fin 1024) (f : Fin 128) :
    k2_pay7 v2 v28 v30 w1 b1 w2 b2 g (ix2 n f)
      = v28 (ix2 n f) + filtC v30 w1 b1 w2 b2 n f * v2 (ix2 n (1 : Fin 8)) * g (ix2 n f) := by
  unfold k2_pay7 filtC sspK
  simp only [mulf_apply, addf_apply, shapeCast_self, mm2_apply, mm1_apply, broadcastTo_1b_ab_apply, log_apply, exp_apply, half_apply, castF_apply, cutT_apply, col_apply _ 1 _ _ 1 rfl]

theorem pay15_apply (v2 : FVec Ideal S1024x8 .f32) (v136 : FVec Ideal S1024x128 .f32) (v138 : FVec Ideal S50x1024 .f32) (w1 : Vec Ideal S50x128 .f32) (b1 : Vec Ideal S1x128 .f32) (w2 : Vec Ideal S128x128 .f32) (b2 : Vec Ideal S1x128 .f32)
    (g : Vec Ideal S1024x128 .f32) (n : Fin 1024) (f : Fin 128) :
    k2_pay15 v2 v136 v138 w1 b1 w2 b2 g (ix2 n f)
      = v136 (ix2 n f) + filtC v138 w1 b1 w2 b2 n f * v2 (ix2 n (5 : Fin 8)) * g (ix2 n f) := by
  unfold k2_pay15 filtC sspK
  simp only [mulf_apply, addf_apply, shapeCast_self, mm2_apply, mm1_apply, broadcastTo_1b_ab_apply, log_apply, exp_apply, half_apply, castF_apply, cutT_apply, col_apply _ 5 _ _ 5 rfl]

theorem pay8_apply (fj : Vec Ideal S1x50x1x1024 .f32) (w1 : Vec Ideal S50x128 .f32) (b1 : Vec Ideal S1x128 .f32) (n : Fin 1024) (j' : Fin 128) :
    k2_pay8 fj w1 b1 (ix2 n j')
      = Ideal.ofBits .f32 0x3F000000#32
          * Ideal.exp ((∑ m : Fin 50, fj (ix4 (0 : Fin 1) m (0 : Fin 1) n) * w1 (ix2 m j')) + b1 (ix2 (0 : Fin 1) j')) := by
  unfold k2_pay8
  simp only [mulf_apply, addf_apply, shapeCast_self, mm2_apply, mm1_apply, broadcastTo_1b_ab_apply, log_apply, exp_apply, half_apply, castF_apply, cutT_apply]

theorem pay16_apply (fj : Vec Ideal S1x50x1x1024 .f32) (w1 : Vec Ideal S50x128 .f32) (b1 : Vec Ideal S1x128 .f32) (n : Fin 1024) (j' : Fin 128) :
    k2_pay16 fj w1 b1 (ix2 n j')
      = Ideal.ofBits .f32 0x3F000000#32
          * Ideal.exp ((∑ m : Fin 50, fj (ix4 (0 : Fin 1) m (0 : Fin 1) n) * w1 (ix2 m j')) + b1 (ix2 (0 : Fin 1) j')) := by
  unfold k2_pay16
  simp only [mulf_apply, addf_apply, shapeCast_self, mm2_apply, mm1_apply, broadcastTo_1b_ab_apply, log_apply, exp_apply, half_apply, castF_apply, cutT_apply]

theorem pay9_apply (i : S1024x128.Idx) : k2_pay9 (F := Ideal) i = Ideal.ofBits .f32 0x3F000000#32 := rfl
theorem pay17_apply (i : S1024x128.Idx) : k2_pay17 (F := Ideal) i = Ideal.ofBits .f32 0x3F000000#32 := rfl

theorem pay10_apply (v2 : FVec Ideal S1024x8 .f32) (v55 v66 v67 : FVec Ideal S1024x128 .f32) (w2 : Vec Ideal S128x128 .f32) (b2 : Vec Ideal S1x128 .f32)
    (g : Vec Ideal S1024x128 .f32) (n : Fin 1024) (f : Fin 128) :
    k2_pay10 v2 v55 v66 v67 w2 b2 g (ix2 n f)
      = v55 (ix2 n f)
        + ((∑ j' : Fin 128, Ideal.log (v66 (ix2 n j') + v67 (ix2 n j')) * w2 (ix2 j' f)) + b2 (ix2 (0 : Fin 1) f))
          * v2 (ix2 n (2 : Fin 8)) * g (ix2 n f) := by
  unfold k2_pay10
  simp only [mulf_apply, addf_apply, shapeCast_self, mm2_apply, mm1_apply, broadcastTo_1b_ab_apply, log_apply, exp_apply, half_apply, castF_apply, cutT_apply, col_apply _ 2 _ _ 2 rfl]

theorem pay18_apply (v2 : FVec Ideal S1024x8 .f32) (v163 v174 v175 : FVec Ideal S1024x128 .f32) (w2 : Vec Ideal S128x128 .f32) (b2 : Vec Ideal S1x128 .f32)
    (g : Vec Ideal S1024x128 .f32) (n : Fin 1024) (f : Fin 128) :
    k2_pay18 v2 v163 v174 v175 w2 b2 g (ix2 n f)
      = v163 (ix2 n f)
        + ((∑ j' : Fin 128, Ideal.log (v174 (ix2 n j') + v175 (ix2 n j')) * w2 (ix2 j' f)) + b2 (ix2 (0 : Fin 1) f))
          * v2 (ix2 n (6 : Fin 8)) * g (ix2 n f) := by
  unfold k2_pay18
  simp only [mulf_apply, addf_apply, shapeCast_self, mm2_apply, mm1_apply, broadcastTo_1b_ab_apply, log_apply, exp_apply, half_apply, castF_apply, cutT_apply, col_apply _ 6 _ _ 6 rfl]

theorem pay11_apply (fj : Vec Ideal S1x50x1x1024 .f32) (w1 : Vec Ideal S50x128 .f32) (b1 : Vec Ideal S1x128 .f32) (w2 : Vec Ideal S128x128 .f32) (b2 : Vec Ideal S1x128 .f32) (n : Fin 1024) (f : Fin 128) :
    k2_pay11 fj w1 b1 w2 b2 (ix2 n f) = filt fj w1 b1 w2 b2 n f := by
  unfold k2_pay11 filt sspK
  simp only [mulf_apply, addf_apply, shapeCast_self, mm2_apply, mm1_apply, broadcastTo_1b_ab_apply, log_apply, exp_apply, half_apply, castF_apply, cutT_apply]

theorem pay19_apply (fj : Vec Ideal S1x50x1x1024 .f32) (w1 : Vec Ideal S50x128 .f32) (b1 : Vec Ideal S1x128 .f32) (w2 : Vec Ideal S128x128 .f32) (b2 : Vec Ideal S1x128 .f32) (n : Fin 1024) (f : Fin 128) :
    k2_pay19 fj w1 b1 w2 b2 (ix2 n f) = filt fj w1 b1 w2 b2 n f := by
  unfold k2_pay19 filt sspK
  simp only [mulf_apply, addf_apply, shapeCast_self, mm2_apply, mm1_apply, broadcastTo_1b_ab_apply, log_apply, exp_apply, half_apply, castF_apply, cutT_apply]

theorem pay12_apply (v2 : FVec Ideal S1024x8 .f32) (n : Fin 1024) (f : Fin 128) : k2_pay12 v2 (ix2 n f) = v2 (ix2 n (3 : Fin 8)) := by
  unfold k2_pay12
  simp only [col_apply _ 3 _ _ 3 rfl]

theorem pay20_apply (v2 : FVec Ideal S1024x8 .f32) (n : Fin 1024) (f : Fin 128) : k2_pay20 v2 (ix2 n f) = v2 (ix2 n (7 : Fin 8)) := by
  unfold k2_pay20
  simp only [col_apply _ 7 _ _ 7 rfl]

theorem pay13_apply (v2 : FVec Ideal S1024x8 .f32) (v82 v102 v104 : FVec Ideal S1024x128 .f32) (g3 : Vec Ideal S1024x128 .f32)
    (fj : Vec Ideal S1x50x1x1024 .f32) (w1 : Vec Ideal S50x128 .f32) (b1 : Vec Ideal S1x128 .f32) (w2 : Vec Ideal S128x128 .f32) (b2 : Vec Ideal S1x128 .f32) (g4 : Vec Ideal S1024x128 .f32) (n : Fin 1024) (f : Fin 128) :
    k2_pay13 v2 v82 v102 v104 g3 fj w1 b1 w2 b2 g4 (ix2 n f)
      = (v82 (ix2 n f) + v102 (ix2 n f) * v104 (ix2 n f) * g3 (ix2 n f))
        + filt fj w1 b1 w2 b2 n f * v2 (ix2 n (4 : Fin 8)) * g4 (ix2 n f) := by
  unfold k2_pay13 filt sspK
  simp only [mulf_apply, addf_apply, shapeCast_self, mm2_apply, mm1_apply, broadcastTo_1b_ab_apply, log_apply, exp_apply, half_apply, castF_apply, cutT_apply, col_apply _ 4 _ _ 4 rfl]

theorem pay1_apply (v190 v210 v212 : FVec Ideal S1024x128 .f32) (g7 : Vec Ideal S1024x128 .f32) (i : S1024x128.Idx) :
    k2_pay1 v190 v210 v212 g7 i = v190 i + v210 i * v212 i * g7 i := by
  unfold k2_pay1
  simp only [mulf_apply, addf_apply, shapeCast_self]

/-! ## The loads -/

theorem hz2 : (![0, 0] : Fin 2 → Nat) = fun _ => 0 := funext fun a => by fin_cases a <;> rfl
theorem hz3 : (![0, 0, 0] : Fin 3 → Nat) = fun _ => 0 := funext fun a => by fin_cases a <;> rfl

/-- Slot j of the staged filter inputs, read at (0, m, 0, n). -/
theorem ldF_apply (o : Nat)
    (inb : ∀ a, (![0, 0, o, 0] : Fin 4 → Nat) a + S1x50x1x1024.size a ≤ S1x50x8x1024.size a) (j : Fin 8) (ho : j.val = o)
    (m : Fin 50) (n : Fin 1024) :
    LoadRect.idx (Rect.unit (s := S1x50x8x1024) ![0, 0, o, 0] S1x50x1x1024.size inb).toLoadRect (ix4 (0 : Fin 1) m (0 : Fin 1) n)
      = ix4 (0 : Fin 1) m j n :=
  (funext fun a => Fin.ext (by
    match a with
    | ⟨0, _⟩ => rfl
    | ⟨1, _⟩ => show 0 + 1 * m.val = m.val; omega
    | ⟨2, _⟩ => show o + 1 * 0 = j.val; omega
    | ⟨3, _⟩ => show 0 + 1 * n.val = n.val; omega))

/-- Slot j of the staged gathered rows, read at (n, f): row o + n. -/
theorem ldG_apply (o : Nat)
    (inb : ∀ a, (![o, 0] : Fin 2 → Nat) a + S1024x128.size a ≤ S8192x128.size a) (j : Fin 8) (ho : o = 1024 * j.val)
    (n : Fin 1024) (f : Fin 128) :
    LoadRect.idx (Rect.unit (s := S8192x128) ![o, 0] S1024x128.size inb).toLoadRect (ix2 n f)
      = ix2 (⟨1024 * j.val + n.val, by have := j.isLt; have := n.isLt; omega⟩ : Fin 8192) f :=
  (funext fun a => Fin.ext (by
    match a with
    | ⟨0, _⟩ => show o + 1 * n.val = 1024 * j.val + n.val; omega
    | ⟨1, _⟩ => show 0 + 1 * f.val = f.val; omega))

/-! ## A point's sum at an index -/

/-- Slot j of a point's sum at row n, lane f, from the point's seven staged inputs. -/
def slotOf (x : Ins Ideal) (j : Fin 8) (n : Fin 1024) (f : Fin 128) : EReal :=
  ((∑ j' : Fin 128,
        sspK ((∑ m : Fin 50, x.f (ix4 (0 : Fin 1) m j n) * x.w1 (ix2 m j')) + x.b1 (ix2 (0 : Fin 1) j')) * x.w2 (ix2 j' f))
      + x.b2 (ix2 (0 : Fin 1) f))
    * x.cut (ix3 (0 : Fin 1) j n)
    * x.g (ix2 (⟨1024 * j.val + n.val, by have := j.isLt; have := n.isLt; omega⟩ : Fin 8192) f)

/-- The eight slots added in the body's order. -/
def sumOf (x : Ins Ideal) (n : Fin 1024) (f : Fin 128) : EReal :=
  ((((((slotOf x 0 n f + slotOf x 1 n f) + slotOf x 2 n f) + slotOf x 3 n f) + slotOf x 4 n f) + slotOf x 5 n f)
    + slotOf x 6 n f) + slotOf x 7 n f

theorem psum_apply (x : Ins Ideal) (n : Fin 1024) (f : Fin 128) :
    k2_pay1 (upto6 x).1 (upto6 x).2.1 (upto6 x).2.2 (View.ld x.g rG7) (ix2 n f) = sumOf x n f := by
  unfold upto6 sumOf slotOf
  simp only [pay1_apply, pay5_apply, pay6_apply, pay7_apply, pay8_apply, pay9_apply, pay10_apply, pay11_apply, pay12_apply, pay13_apply, pay14_apply, pay15_apply, pay16_apply, pay17_apply, pay18_apply, pay19_apply, pay20_apply, filt, filtC, sspK, cutT_apply,
    View.ld_unit_zero (S := S50x128) hz2, View.ld_unit_zero (S := S1x128) hz2, View.ld_unit_zero (S := S128x128) hz2,
    View.ld_unit_zero (S := S1x8x1024) hz3,
    ldF_apply 0 _ 0 rfl, ldF_apply 1 _ 1 rfl, ldF_apply 2 _ 2 rfl, ldF_apply 3 _ 3 rfl, ldF_apply 4 _ 4 rfl, ldF_apply 5 _ 5 rfl, ldF_apply 6 _ 6 rfl, ldF_apply 7 _ 7 rfl,
    ldG_apply 0 _ 0 rfl, ldG_apply 1024 _ 1 rfl, ldG_apply 2048 _ 2 rfl, ldG_apply 3072 _ 3 rfl, ldG_apply 4096 _ 4 rfl, ldG_apply 5120 _ 5 rfl, ldG_apply 6144 _ 6 rfl, ldG_apply 7168 _ 7 rfl]
  simp only [View.ld, ldF_apply 0 _ 0 rfl, ldF_apply 1 _ 1 rfl, ldF_apply 2 _ 2 rfl, ldF_apply 3 _ 3 rfl, ldF_apply 4 _ 4 rfl, ldF_apply 5 _ 5 rfl, ldF_apply 6 _ 6 rfl, ldF_apply 7 _ 7 rfl,
    ldG_apply 0 _ 0 rfl, ldG_apply 1024 _ 1 rfl, ldG_apply 2048 _ 2 rfl, ldG_apply 3072 _ 3 rfl, ldG_apply 4096 _ 4 rfl, ldG_apply 5120 _ 5 rfl, ldG_apply 6144 _ 6 rfl, ldG_apply 7168 _ 7 rfl]

/-! ## The closed form -/

section Closed

variable (c : Dev nD) (A : (w : Fin cfg2.W) → Buf (Elt Ideal) ((cfg2.win w).arr.view.loc (c.tc : Thread nD τ)))

/-- The seven input arrays at their literal shapes. -/
abbrev aF : S8x50x64x1024.Idx → EReal := A 0
abbrev aY : S131072x128.Idx → EReal := A 1
abbrev aC : S8x64x1024.Idx → EReal := A 2
abbrev aW1 : S50x128.Idx → EReal := A 3
abbrev aB1 : S1x128.Idx → EReal := A 4
abbrev aW2 : S128x128.Idx → EReal := A 5
abbrev aB2 : S1x128.Idx → EReal := A 6

/-- Slot j of point (bi, kg) at row n, lane f: the filter of slot 8·kg + j, times its cutoff-and-mask entry, times
    the gathered row. -/
def slotTerm (bi : Fin 8) (kg : Fin 2) (j : Fin 8) (n : Fin 1024) (f : Fin 128) : EReal :=
  ((∑ j' : Fin 128,
        sspK ((∑ m : Fin 50, aF c A (ix4 bi m (⟨8 * kg.val + j.val, by have := kg.isLt; have := j.isLt; omega⟩ : Fin 64) n) * aW1 c A (ix2 m j'))
              + aB1 c A (ix2 (0 : Fin 1) j'))
          * aW2 c A (ix2 j' f))
      + aB2 c A (ix2 (0 : Fin 1) f))
    * aC c A (ix3 bi (⟨8 * kg.val + j.val, by have := kg.isLt; have := j.isLt; omega⟩ : Fin 64) n)
    * aY c A (ix2 (⟨(2 * bi.val + kg.val) * 8192 + 1024 * j.val + n.val, by have := bi.isLt; have := kg.isLt; have := j.isLt; have := n.isLt; omega⟩ : Fin 131072) f)

/-- The point's sum, the eight slots added in the body's order. -/
def pointSum (bi : Fin 8) (kg : Fin 2) (n : Fin 1024) (f : Fin 128) : EReal :=
  ((((((slotTerm c A bi kg 0 n f + slotTerm c A bi kg 1 n f) + slotTerm c A bi kg 2 n f) + slotTerm c A bi kg 3 n f)
      + slotTerm c A bi kg 4 n f) + slotTerm c A bi kg 5 n f) + slotTerm c A bi kg 6 n f) + slotTerm c A bi kg 7 n f

/-! ## The staged inputs, read through the windows' index maps -/

/-- The printed index maps over the grid: point t = 2·b + g stages block (b, 0, g, 0) of the filter inputs, block t of
    the gathered rows, block (b, g, 0) of the cutoff-and-mask array, all of each weight array, and block b of the output. -/
theorem idx_facts : ∀ t : Fin cfg2.N,
    win2_0.index t (0 : Fin 4) = t.val / 2 ∧ win2_0.index t (1 : Fin 4) = 0 ∧ win2_0.index t (2 : Fin 4) = t.val % 2
    ∧ win2_0.index t (3 : Fin 4) = 0
    ∧ win2_1.index t (0 : Fin 2) = t.val ∧ win2_1.index t (1 : Fin 2) = 0
    ∧ win2_2.index t (0 : Fin 3) = t.val / 2 ∧ win2_2.index t (1 : Fin 3) = t.val % 2 ∧ win2_2.index t (2 : Fin 3) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val / 2 ∧ win2_7.index t (1 : Fin 2) = 0 :=
  (by decide +kernel : ∀ t : Fin grid2.N, _)

/-- The filter inputs staged at point t = 2·bi + kg: slots 8·kg … 8·kg + 7 of batch bi. -/
theorem readF (t : Fin cfg2.N) (bi : Fin 8) (kg : Fin 2) (ht : t.val = 2 * bi.val + kg.val) (m : Fin 50) (j : Fin 8) (n : Fin 1024) :
    blockAt c A 0 t (ix4 (0 : Fin 1) m j n) = aF c A (ix4 bi m (⟨8 * kg.val + j.val, by have := kg.isLt; have := j.isLt; omega⟩ : Fin 64) n) := by
  obtain ⟨e0, e1, e2, e3, -⟩ := idx_facts t
  show aF c A (((cfg2.win 0).blk t).view.emb (ix4 (0 : Fin 1) m j n)) = _
  refine congrArg (aF c A) (funext fun a => Fin.ext ?_)
  have := bi.isLt; have := kg.isLt
  match a with
  | ⟨0, _⟩ => show win2_0.index t (0 : Fin 4) * 1 + 1 * 0 = bi.val; omega
  | ⟨1, _⟩ => show win2_0.index t (1 : Fin 4) * 50 + 1 * m.val = m.val; omega
  | ⟨2, _⟩ => show win2_0.index t (2 : Fin 4) * 8 + 1 * j.val = 8 * kg.val + j.val; omega
  | ⟨3, _⟩ => show win2_0.index t (3 : Fin 4) * 1024 + 1 * n.val = n.val; omega

/-- The gathered rows staged at point t: rows 8192·t … of the gathered array. -/
theorem readY (t : Fin cfg2.N) (bi : Fin 8) (kg : Fin 2) (ht : t.val = 2 * bi.val + kg.val) (j : Fin 8) (n : Fin 1024) (f : Fin 128) :
    blockAt c A 1 t (ix2 (⟨1024 * j.val + n.val, by have := j.isLt; have := n.isLt; omega⟩ : Fin 8192) f) = aY c A (ix2 (⟨(2 * bi.val + kg.val) * 8192 + 1024 * j.val + n.val, by have := bi.isLt; have := kg.isLt; have := j.isLt; have := n.isLt; omega⟩ : Fin 131072) f) := by
  obtain ⟨-, -, -, -, e0, e1, -⟩ := idx_facts t
  show aY c A (((cfg2.win 1).blk t).view.emb (ix2 (⟨1024 * j.val + n.val, by have := j.isLt; have := n.isLt; omega⟩ : Fin 8192) f)) = _
  refine congrArg (aY c A) (funext fun a => Fin.ext ?_)
  match a with
  | ⟨0, _⟩ => show win2_1.index t (0 : Fin 2) * 8192 + 1 * (1024 * j.val + n.val) = (2 * bi.val + kg.val) * 8192 + 1024 * j.val + n.val; omega
  | ⟨1, _⟩ => show win2_1.index t (1 : Fin 2) * 128 + 1 * f.val = f.val; omega

/-- The cutoff-and-mask columns staged at point t. -/
theorem readC (t : Fin cfg2.N) (bi : Fin 8) (kg : Fin 2) (ht : t.val = 2 * bi.val + kg.val) (j : Fin 8) (n : Fin 1024) :
    blockAt c A 2 t (ix3 (0 : Fin 1) j n) = aC c A (ix3 bi (⟨8 * kg.val + j.val, by have := kg.isLt; have := j.isLt; omega⟩ : Fin 64) n) := by
  obtain ⟨-, -, -, -, -, -, e0, e1, e2, -⟩ := idx_facts t
  show aC c A (((cfg2.win 2).blk t).view.emb (ix3 (0 : Fin 1) j n)) = _
  refine congrArg (aC c A) (funext fun a => Fin.ext ?_)
  have := bi.isLt; have := kg.isLt
  match a with
  | ⟨0, _⟩ => show win2_2.index t (0 : Fin 3) * 1 + 1 * 0 = bi.val; omega
  | ⟨1, _⟩ => show win2_2.index t (1 : Fin 3) * 8 + 1 * j.val = 8 * kg.val + j.val; omega
  | ⟨2, _⟩ => show win2_2.index t (2 : Fin 3) * 1024 + 1 * n.val = n.val; omega

/-- Each weight array is staged whole at every point. -/
theorem readW1 (t : Fin cfg2.N) (y : S50x128.Idx) : blockAt c A 3 t y = aW1 c A y := by
  obtain ⟨-, -, -, -, -, -, -, -, -, e0, e1, -⟩ := idx_facts t
  show aW1 c A (((cfg2.win 3).blk t).view.emb y) = _
  refine congrArg (aW1 c A) (funext fun a => Fin.ext ?_)
  match a with
  | ⟨0, _⟩ => show win2_3.index t (0 : Fin 2) * 50 + 1 * (y 0).val = (y 0).val; omega
  | ⟨1, _⟩ => show win2_3.index t (1 : Fin 2) * 128 + 1 * (y 1).val = (y 1).val; omega
theorem readB1 (t : Fin cfg2.N) (y : S1x128.Idx) : blockAt c A 4 t y = aB1 c A y := by
  obtain ⟨-, -, -, -, -, -, -, -, -, -, -, e0, e1, -⟩ := idx_facts t
  show aB1 c A (((cfg2.win 4).blk t).view.emb y) = _
  refine congrArg (aB1 c A) (funext fun a => Fin.ext ?_)
  match a with
  | ⟨0, _⟩ => show win2_4.index t (0 : Fin 2) * 1 + 1 * (y 0).val = (y 0).val; omega
  | ⟨1, _⟩ => show win2_4.index t (1 : Fin 2) * 128 + 1 * (y 1).val = (y 1).val; omega
theorem readW2 (t : Fin cfg2.N) (y : S128x128.Idx) : blockAt c A 5 t y = aW2 c A y := by
  obtain ⟨-, -, -, -, -, -, -, -, -, -, -, -, -, e0, e1, -⟩ := idx_facts t
  show aW2 c A (((cfg2.win 5).blk t).view.emb y) = _
  refine congrArg (aW2 c A) (funext fun a => Fin.ext ?_)
  match a with
  | ⟨0, _⟩ => show win2_5.index t (0 : Fin 2) * 128 + 1 * (y 0).val = (y 0).val; omega
  | ⟨1, _⟩ => show win2_5.index t (1 : Fin 2) * 128 + 1 * (y 1).val = (y 1).val; omega
theorem readB2 (t : Fin cfg2.N) (y : S1x128.Idx) : blockAt c A 6 t y = aB2 c A y := by
  obtain ⟨-, -, -, -, -, -, -, -, -, -, -, -, -, -, -, e0, e1, -⟩ := idx_facts t
  show aB2 c A (((cfg2.win 6).blk t).view.emb y) = _
  refine congrArg (aB2 c A) (funext fun a => Fin.ext ?_)
  match a with
  | ⟨0, _⟩ => show win2_6.index t (0 : Fin 2) * 1 + 1 * (y 0).val = (y 0).val; omega
  | ⟨1, _⟩ => show win2_6.index t (1 : Fin 2) * 128 + 1 * (y 1).val = (y 1).val; omega

/-- A slot of point t = 2·bi + kg, from the arrays. -/
theorem slot_insAt (t : Fin cfg2.N) (bi : Fin 8) (kg : Fin 2) (ht : t.val = 2 * bi.val + kg.val) (j : Fin 8) (n : Fin 1024) (f : Fin 128) :
    slotOf (insAt c A t) j n f = slotTerm c A bi kg j n f := by
  unfold slotOf slotTerm insAt
  simp only [readF c A t bi kg ht, readY c A t bi kg ht, readC c A t bi kg ht, readW1 c A t, readB1 c A t, readW2 c A t, readB2 c A t]

/-- The sum of point t = 2·bi + kg, from the arrays. -/
theorem sum_insAt (t : Fin cfg2.N) (bi : Fin 8) (kg : Fin 2) (ht : t.val = 2 * bi.val + kg.val) (n : Fin 1024) (f : Fin 128) :
    sumOf (insAt c A t) n f = pointSum c A bi kg n f := by
  unfold sumOf pointSum
  simp only [slot_insAt c A t bi kg ht]

/-! ## The write-backs -/

/-- One store through the whole accumulator leaves its payload; a load through the whole accumulator reads it. -/
theorem whole_eq (p : Vec Ideal S1024x128 .f32) : whole p = p := by
  unfold whole
  exact View.canon_unit_zero hz2 _ p
theorem ldBig_eq (X : Vec Ideal S1024x128 .f32) : View.ld X rBig = X := View.ld_unit_zero (S := S1024x128) hz2 _ X

theorem first_apply (x : Ins Ideal) (n : Fin 1024) (f : Fin 128) : first x (ix2 n f) = sumOf x n f := by
  unfold first k2_pay2
  rw [shapeCast_self]
  exact psum_apply x n f

theorem second_apply (x : Ins Ideal) (acc : Vec Ideal S1024x128 .f32) (n : Fin 1024) (f : Fin 128) :
    second x acc (ix2 n f) = acc (ix2 n f) + sumOf x n f := by
  unfold second k2_pay3
  rw [shapeCast_self, addf_apply, psum_apply]

/-- What point t writes back (at the second point of a pair): the sum of the point before it plus its own. -/
theorem flushed_apply (q : Fin cfg2.W → PosShare TreeShare) (R Rm : sProp 𝕄) (O : CellTallies nD τ sig Ix) (B : Set (SemLoc sig × Ix))
    (t : Fin cfg2.N) (n : Fin 1024) (f : Fin 128) :
    (dat (F := Ideal) (Ix := Ix) (Name := Name) (U := U) (Lvl := Lvl) c A q R Rm O B).flushed 7 t (ix2 n f) = sumOf (insAt c A (prev t)) n f + sumOf (insAt c A t) n f := by
  show (dat (F := Ideal) (Ix := Ix) (Name := Name) (U := U) (Lvl := Lvl) c A q R Rm O B).after 7 t (ix2 n f) = _
  rw [after_out c A q O B R Rm t, whole_eq, ldBig_eq]
  unfold accSecond
  rw [whole_eq, second_apply, ldBig_eq]
  unfold accFirst
  rw [whole_eq, first_apply]

/-! ## The array -/

/-- What the output array holds at row r, lane f: the two sums of pair r / 1024, at row r % 1024. -/
def outVal (r : Fin 8192) (f : Fin 128) : EReal :=
  pointSum c A ⟨r.val / 1024, by have := r.isLt; omega⟩ 0 ⟨r.val % 1024, Nat.mod_lt _ (by decide)⟩ f
    + pointSum c A ⟨r.val / 1024, by have := r.isLt; omega⟩ 1 ⟨r.val % 1024, Nat.mod_lt _ (by decide)⟩ f

theorem outVal_eq (r : Fin 8192) (bi : Fin 8) (n : Fin 1024) (h : r.val = 1024 * bi.val + n.val) (f : Fin 128) :
    outVal c A r f = pointSum c A bi 0 n f + pointSum c A bi 1 n f := by
  have hb : (⟨r.val / 1024, by have := r.isLt; omega⟩ : Fin 8) = bi := Fin.ext (by have := n.isLt; show r.val / 1024 = bi.val; omega)
  have hn : (⟨r.val % 1024, Nat.mod_lt _ (by decide)⟩ : Fin 1024) = n := Fin.ext (by have := n.isLt; show r.val % 1024 = n.val; omega)
  unfold outVal
  rw [hb, hn]

/-- The whole output array as one function of the seven input arrays. -/
def G : S8192x128.Idx → EReal := fun i => outVal c A (i 0) (i 1)

theorem G_apply (z : S8192x128.Idx) (bi : Fin 8) (n : Fin 1024) (f : Fin 128) (h0 : (z 0).val = 1024 * bi.val + n.val)
    (h1 : (z 1).val = f.val) : G c A z = pointSum c A bi 0 n f + pointSum c A bi 1 n f := by
  have e1 : z 1 = f := Fin.ext h1
  unfold G
  rw [e1]
  exact outVal_eq c A (z 0) bi n h0 f

/-- What a flushing point writes back is its block of G. -/
theorem flushed_eq (q : Fin cfg2.W → PosShare TreeShare) (R Rm : sProp 𝕄) (O : CellTallies nD τ sig Ix) (B : Set (SemLoc sig × Ix))
    (t : Fin cfg2.N) (hf : (cfg2.win 7).flush t = true) :
    (dat (F := Ideal) (Ix := Ix) (Name := Name) (U := U) (Lvl := Lvl) c A q R Rm O B).flushed 7 t = ((cfg2.win 7).blk t).view.read (Elt Ideal) (G c A) := by
  have hodd : t.val % 2 = 1 := by rw [flush7 t] at hf; exact of_decide_eq_true hf
  have htN : t.val < 16 := by have h := t.isLt; have h1 : cfg2.N = 16 := N_2; omega
  obtain ⟨-, -, -, -, -, -, -, -, -, -, -, -, -, -, -, -, -, e0, e1⟩ := idx_facts t
  funext y
  obtain ⟨n, f, rfl⟩ : ∃ (n : Fin 1024) (f : Fin 128), y = ix2 n f := ⟨y 0, y 1, eq_ix2 y⟩
  rw [flushed_apply c A q R Rm O B t n f]
  show _ = G c A (((cfg2.win 7).blk t).view.emb (ix2 n f))
  rw [G_apply c A _ ⟨t.val / 2, by omega⟩ n f
        (by show win2_7.index t (0 : Fin 2) * 1024 + 1 * n.val = 1024 * (t.val / 2) + n.val; omega)
        (by show win2_7.index t (1 : Fin 2) * 128 + 1 * f.val = f.val; omega),
      sum_insAt c A (prev t) ⟨t.val / 2, by omega⟩ 0 (by show t.val - 1 = 2 * (t.val / 2) + 0; omega) n f,
      sum_insAt c A t ⟨t.val / 2, by omega⟩ 1 (by show t.val = 2 * (t.val / 2) + 1; omega) n f]

/-- The output array after the region, read at row 1024·bi + n, lane f. -/
theorem fused_closed (q : Fin cfg2.W → PosShare TreeShare) (R Rm : sProp 𝕄) (O : CellTallies nD τ sig Ix) (B : Set (SemLoc sig × Ix))
    (bi : Fin 8) (n : Fin 1024) (f : Fin 128) :
    (dat (F := Ideal) (Ix := Ix) (Name := Name) (U := U) (Lvl := Lvl) c A q R Rm O B).arrAt 7 cfg2.N
        (ix2 (⟨1024 * bi.val + n.val, by have := bi.isLt; have := n.isLt; omega⟩ : Fin 8192) f)
      = pointSum c A bi 0 n f + pointSum c A bi 1 n f := by
  have hbi := bi.isLt
  have hn := n.isLt
  have hfl := f.isLt
  -- the second point of pair bi
  obtain ⟨t, ht⟩ : ∃ t : Fin cfg2.N, t.val = 2 * bi.val + 1 :=
    ⟨⟨2 * bi.val + 1, by have h1 : cfg2.N = 16 := N_2; have h2 : grid2.N = 16 := N_2; omega⟩, rfl⟩
  have hf : (cfg2.win 7).flush t = true := by
    rw [flush7 t]; exact decide_eq_true (by omega)
  obtain ⟨-, -, -, -, -, -, -, -, -, -, -, -, -, -, -, -, -, e0, e1⟩ := idx_facts t
  -- the index is in that point's block
  have hmem : ∀ i : S8192x128.Idx, (i 0).val = 1024 * bi.val + n.val → i ∈ ((cfg2.win 7).blk t).view.set := by
    intro i hi
    show i ∈ ((View.whole main_v21).slice (win2_7.rect t)).set
    rw [View.set_slice_whole, Rect.mem_set_unit]
    intro a
    have hi1 : (i 1).val < 128 := (i 1).isLt
    match a with
    | ⟨0, _⟩ =>
      show win2_7.index t (0 : Fin 2) * 1024 ≤ (i 0).val ∧ (i 0).val < win2_7.index t (0 : Fin 2) * 1024 + 1024
      omega
    | ⟨1, _⟩ =>
      show win2_7.index t (1 : Fin 2) * 128 ≤ (i 1).val ∧ (i 1).val < win2_7.index t (1 : Fin 2) * 128 + 128
      omega
  rw [Pipeline.Dat.arrAt_apply_of_mem (dat (F := Ideal) (Ix := Ix) (Name := Name) (U := U) (Lvl := Lvl) c A q R Rm O B) 7 (G c A)
        (fun t hf => flushed_eq c A q R Rm O B t hf) cfg2.N t _ t.isLt hf (hmem _ rfl)]
  exact G_apply c A _ bi n f rfl rfl

end Closed

end Cert.KernelIdeal.Region1V

end
-- ==== Proof.Region2Value.lean ====
/-
  The closed form, at the ideal values, of what a fused tensor-core region leaves in its output array.

  The region's body computes, for each of 8 slots, a two-layer filter of the slot's 50 inputs (a contraction with W₁,
  plus b₁, the shifted softplus log(½·exp v + ½), a contraction with W₂, plus b₂), multiplies it by the slot's
  cutoff-and-mask entry and by the slot's gathered row, and adds the eight products in slot order. Over the grid 8 × 2
  the two points of a pair add their sums; the second writes the total to rows 1024·b … of the output array.

  Below: each operation of the body that is not pointwise read at an index; each of the body's named values
  (the generated pure terms) read at an index; a point's sum as a function of its seven staged inputs; the staged
  inputs as the arrays read through the windows' index maps; the write-backs joined into the array.
-/
import proofs.«215235_g2774548873965_cont_9to1_572_34_alg».proof.Proof.Region2Body
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region2V

open Cert.KernelIdeal Cert.KernelIdeal.Gen Cert.KernelIdeal.Region2B
open Idealize.ShloMosaic Idealize.ShloMosaic.TcCoe Idealize.ShloMosaic.ValueIdx
open Idealize.SL Idealize.SL.RA Idealize.SL.BI
open Idealize.ShloMosaic.Pipeline (Dat Cfg Window)
open scoped BigOperators

variable {Ix : Type} [DecidableEq Ix] {Name : Type} [DecidableEq Name] {U : Type} [URA U] {Lvl : Type} [Preorder Lvl]

local notation "𝕄" => MT nD τ sig Ix (Elt Ideal) Name U Lvl

/-- The shifted softplus as the body spells it: log (½ · exp v + ½), the two halves the same binary word. -/
def sspK (v : EReal) : EReal :=
  Ideal.log (Ideal.ofBits .f32 0x3F000000#32 * Ideal.exp v + Ideal.ofBits .f32 0x3F000000#32)

/-! ## The operations that are not pointwise, each read at an index -/

/-- The operand indices of the two contractions on the axes that are not contracted. -/
theorem mm1_lhs1 (i : S1024x128.Idx) (q : dot_S50x1024_S50x128_S1024x128_0_0_1_1_n_n.contr.Idx) :
    (dot_S50x1024_S50x128_S1024x128_0_0_1_1_n_n.lhsIdx i q 1).val = (i 0).val := by
  unfold DotDims.lhsIdx
  rw [dif_neg (show ¬(1 : Fin S50x1024.rank) ∈ dot_S50x1024_S50x128_S1024x128_0_0_1_1_n_n.lhsBatch by decide),
    dif_pos (show (1 : Fin S50x1024.rank) ∈ dot_S50x1024_S50x128_S1024x128_0_0_1_1_n_n.lhsNonContracting by decide)]
  rfl
theorem mm1_rhs1 (i : S1024x128.Idx) (q : dot_S50x1024_S50x128_S1024x128_0_0_1_1_n_n.contr.Idx) :
    (dot_S50x1024_S50x128_S1024x128_0_0_1_1_n_n.rhsIdx i q 1).val = (i 1).val := by
  unfold DotDims.rhsIdx
  rw [dif_neg (show ¬(1 : Fin S50x128.rank) ∈ dot_S50x1024_S50x128_S1024x128_0_0_1_1_n_n.rhsBatch by decide),
    dif_pos (show (1 : Fin S50x128.rank) ∈ dot_S50x1024_S50x128_S1024x128_0_0_1_1_n_n.rhsNonContracting by decide)]
  rfl
theorem mm2_lhs0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide),
    dif_pos (show (0 : Fin S1024x128.rank) ∈ dot_S1024x128_S128x128_S1024x128_1_0_0_1_n_n.lhsNonContracting by decide)]
  rfl
theorem mm2_rhs1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide),
    dif_pos (show (1 : Fin S128x128.rank) ∈ dot_S1024x128_S128x128_S1024x128_1_0_0_1_n_n.rhsNonContracting by decide)]
  rfl

/-- The first contraction: axis 0 of a [50,1024] operand against axis 0 of a [50,128] one, into zeros. -/
theorem mm1_apply (L : FVec Ideal S50x1024 .f32) (w : FVec Ideal S50x128 .f32) (n : Fin 1024) (j' : Fin 128) :
    matmul dot_S50x1024_S50x128_S1024x128_0_0_1_1_n_n none L w (constant S1024x128 .f32 0x00000000#32) (ix2 n j')
      = ∑ m : Fin 50, L (ix2 m n) * w (ix2 m j') := by
  simp only [matmul]
  rw [Ideal.matmul_constant_zero_apply, ← Equiv.sum_comp (contrEquiv1 dot_S50x1024_S50x128_S1024x128_0_0_1_1_n_n 50 rfl rfl).symm]
  refine Finset.sum_congr rfl fun k _ => ?_
  have hk := contrEquiv1_symm_val dot_S50x1024_S50x128_S1024x128_0_0_1_1_n_n 50 rfl rfl k
  have el : dot_S50x1024_S50x128_S1024x128_0_0_1_1_n_n.lhsIdx (ix2 n j') ((contrEquiv1 dot_S50x1024_S50x128_S1024x128_0_0_1_1_n_n 50 rfl rfl).symm k) = ix2 k n :=
    funext fun a => Fin.ext (by
      match a with
      | ⟨0, _⟩ => exact (dot_S50x1024_S50x128_S1024x128_0_0_1_1_n_n.lhsIdx_val_of_single rfl _ _).trans hk
      | ⟨1, _⟩ => exact mm1_lhs1 _ _)
  have er : dot_S50x1024_S50x128_S1024x128_0_0_1_1_n_n.rhsIdx (ix2 n j') ((contrEquiv1 dot_S50x1024_S50x128_S1024x128_0_0_1_1_n_n 50 rfl rfl).symm k) = ix2 k j' :=
    funext fun a => Fin.ext (by
      match a with
      | ⟨0, _⟩ => exact (dot_S50x1024_S50x128_S1024x128_0_0_1_1_n_n.rhsIdx_val_of_single rfl _ _).trans hk
      | ⟨1, _⟩ => exact mm1_rhs1 _ _)
  rw [el, er]

/-- The second contraction: the lanes of a [1024,128] operand against axis 0 of a [128,128] one, into zeros. -/
theorem mm2_apply (L : FVec Ideal S1024x128 .f32) (w : FVec Ideal S128x128 .f32) (n : Fin 1024) (f : Fin 128) :
    matmul dot_S1024x128_S128x128_S1024x128_1_0_0_1_n_n none L w (constant S1024x128 .f32 0x00000000#32) (ix2 n f)
      = ∑ j' : Fin 128, L (ix2 n j') * w (ix2 j' f) := by
  simp only [matmul]
  rw [Ideal.matmul_constant_zero_apply, ← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 n f) ((contrEquiv1 dot_S1024x128_S128x128_S1024x128_1_0_0_1_n_n 128 rfl rfl).symm k) = ix2 n k :=
    funext fun a => Fin.ext (by
      match a with
      | ⟨0, _⟩ => exact mm2_lhs0 _ _
      | ⟨1, _⟩ => exact (dot_S1024x128_S128x128_S1024x128_1_0_0_1_n_n.lhsIdx_val_of_single rfl _ _).trans hk)
  have er : dot_S1024x128_S128x128_S1024x128_1_0_0_1_n_n.rhsIdx (ix2 n f) ((contrEquiv1 dot_S1024x128_S128x128_S1024x128_1_0_0_1_n_n 128 rfl rfl).symm k) = ix2 k f :=
    funext fun a => Fin.ext (by
      match a with
      | ⟨0, _⟩ => exact (dot_S1024x128_S128x128_S1024x128_1_0_0_1_n_n.rhsIdx_val_of_single rfl _ _).trans hk
      | ⟨1, _⟩ => exact mm2_rhs1 _ _)
  rw [el, er]

/-- A staged slice [1,50,1,1024] cast to [50,1024]. -/
theorem castF_apply {α : Type} (v : S1x50x1x1024.Idx → α) (h : S1x50x1x1024.ShapeCasts S50x1024) (m : Fin 50) (n : Fin 1024) :
    shapeCast S50x1024 v h (ix2 m n) = v (ix4 (0 : Fin 1) m (0 : Fin 1) n) :=
  shapeCast_apply v h _ _ (by
    rw [Shape.rowMajor_val_four, Shape.rowMajor_val_two]
    show ((0 * 50 + m.val) * 1 + 0) * 1024 + n.val = m.val * 1024 + n.val
    omega)

/-- A bias row [1,128], cast to itself and broadcast over the 1024 rows. -/
theorem bias_apply {α : Type} (b : S1x128.Idx → α) (h : S1x128.ShapeCasts S1x128) (h' : S1x128.Broadcasts S1024x128) (n : Fin 1024) (f : Fin 128) :
    broadcastTo S1024x128 (shapeCast S1x128 b h) h' (ix2 n f) = b (ix2 (0 : Fin 1) f) := by
  rw [shapeCast_self]
  exact broadcastTo_1b_ab_apply b h' n f

/-- Column j of a [1024,8] array, broadcast over the 128 lanes. -/
theorem col_apply {α : Type} (v : S1024x8.Idx → α) (o : Nat) (h : S1024x8.Slices ![0, o] S1024x1) (h' : S1024x1.Broadcasts S1024x128)
    (j : Fin 8) (ho : j.val = o) (n : Fin 1024) (f : Fin 128) :
    broadcastTo S1024x128 (extractStridedSlice S1024x1 ![0, o] v h) h' (ix2 n f) = v (ix2 n j) := by
  have e1 : broadcastTo S1024x128 (extractStridedSlice S1024x1 ![0, o] v h) h' (ix2 n f)
      = extractStridedSlice S1024x1 ![0, o] v h (ix2 n (0 : Fin 1)) :=
    broadcastTo_apply _ h' (ix2 n f) (ix2 n (0 : Fin 1)) fun ax => by
      match ax with
      | ⟨0, _⟩ => show n.val = if (1024 : Nat) = 1 then 0 else n.val; rw [if_neg (by decide)]
      | ⟨1, _⟩ => rfl
  rw [e1]
  exact slice2_axis1_apply o v h n (0 : Fin 1) j (by show j.val = o + 0; omega)

/-- The cutoff-and-mask block [1,8,1024] cast to [8,1024] and transposed: entry (n, j) is the block's (0, j, n). -/
theorem cutT_apply (cw : Vec Ideal S1x8x1024 .f32) (n : Fin 1024) (j : Fin 8) :
    k4_pay4 cw (ix2 n j) = cw (ix3 (0 : Fin 1) j n) := by
  unfold k4_pay4
  show transpose S1024x8 [1, 0] (shapeCast S8x1024 cw _) _ (ix2 n j) = _
  rw [transpose_ix2_apply, shapeCast_1ab_ab_apply]

/-! ## The pointwise operations at an index -/

theorem exp_apply (x : FVec Ideal S1024x128 .f32) (i : S1024x128.Idx) : exp x i = Ideal.exp (x i) := rfl
theorem log_apply (x : FVec Ideal S1024x128 .f32) (i : S1024x128.Idx) : log x i = Ideal.log (x i) := rfl
theorem half_apply (i : S1024x128.Idx) :
    broadcast S1024x128 (Scalar.ofBits (F := Ideal) .f32 0x3F000000#32) i = Ideal.ofBits .f32 0x3F000000#32 := rfl

/-! ## One slot -/

/-- The filter of one slot at row n, lane f, from the slot's staged slice and the weights. -/
def filt (fj : Vec Ideal S1x50x1x1024 .f32) (w1 : Vec Ideal S50x128 .f32) (b1 : Vec Ideal S1x128 .f32)
    (w2 : Vec Ideal S128x128 .f32) (b2 : Vec Ideal S1x128 .f32) (n : Fin 1024) (f : Fin 128) : EReal :=
  (∑ j' : Fin 128, sspK ((∑ m : Fin 50, fj (ix4 (0 : Fin 1) m (0 : Fin 1) n) * w1 (ix2 m j')) + b1 (ix2 (0 : Fin 1) j')) * w2 (ix2 j' f))
    + b2 (ix2 (0 : Fin 1) f)

theorem pay5_apply (cw : Vec Ideal S1x8x1024 .f32) (f0 : Vec Ideal S1x50x1x1024 .f32) (w1 : Vec Ideal S50x128 .f32)
    (b1 : Vec Ideal S1x128 .f32) (w2 : Vec Ideal S128x128 .f32) (b2 : Vec Ideal S1x128 .f32) (g0 : Vec Ideal S1024x128 .f32)
    (n : Fin 1024) (f : Fin 128) :
    k4_pay5 cw f0 w1 b1 w2 b2 g0 (ix2 n f) = filt f0 w1 b1 w2 b2 n f * cw (ix3 (0 : Fin 1) (0 : Fin 8) n) * g0 (ix2 n f) := by
  unfold k4_pay5 filt sspK
  simp only [mulf_apply, addf_apply, shapeCast_self, mm2_apply, mm1_apply, broadcastTo_1b_ab_apply, log_apply, exp_apply, half_apply, castF_apply,
    col_apply _ 0 _ _ 0 rfl, cutT_apply]

/-- The filter from an already cast [50,1024] slice. -/
def filtC (L : FVec Ideal S50x1024 .f32) (w1 : Vec Ideal S50x128 .f32) (b1 : Vec Ideal S1x128 .f32)
    (w2 : Vec Ideal S128x128 .f32) (b2 : Vec Ideal S1x128 .f32) (n : Fin 1024) (f : Fin 128) : EReal :=
  (∑ j' : Fin 128, sspK ((∑ m : Fin 50, L (ix2 m n) * w1 (ix2 m j')) + b1 (ix2 (0 : Fin 1) j')) * w2 (ix2 j' f))
    + b2 (ix2 (0 : Fin 1) f)

theorem pay6_apply (v : Vec Ideal S1x50x1x1024 .f32) (m : Fin 50) (n : Fin 1024) :
    k4_pay6 v (ix2 m n) = v (ix4 (0 : Fin 1) m (0 : Fin 1) n) := by
  unfold k4_pay6
  simp only [castF_apply]

theorem pay14_apply (v : Vec Ideal S1x50x1x1024 .f32) (m : Fin 50) (n : Fin 1024) :
    k4_pay14 v (ix2 m n) = v (ix4 (0 : Fin 1) m (0 : Fin 1) n) := by
  unfold k4_pay14
  simp only [castF_apply]

theorem pay7_apply (v2 : FVec Ideal S1024x8 .f32) (v28 : FVec Ideal S1024x128 .f32) (v30 : FVec Ideal S50x1024 .f32) (w1 : Vec Ideal S50x128 .f32) (b1 : Vec Ideal S1x128 .f32) (w2 : Vec Ideal S128x128 .f32) (b2 : Vec Ideal S1x128 .f32)
    (g : Vec Ideal S1024x128 .f32) (n : Fin 1024) (f : Fin 128) :
    k4_pay7 v2 v28 v30 w1 b1 w2 b2 g (ix2 n f)
      = v28 (ix2 n f) + filtC v30 w1 b1 w2 b2 n f * v2 (ix2 n (1 : Fin 8)) * g (ix2 n f) := by
  unfold k4_pay7 filtC sspK
  simp only [mulf_apply, addf_apply, shapeCast_self, mm2_apply, mm1_apply, broadcastTo_1b_ab_apply, log_apply, exp_apply, half_apply, castF_apply, cutT_apply, col_apply _ 1 _ _ 1 rfl]

theorem pay15_apply (v2 : FVec Ideal S1024x8 .f32) (v136 : FVec Ideal S1024x128 .f32) (v138 : FVec Ideal S50x1024 .f32) (w1 : Vec Ideal S50x128 .f32) (b1 : Vec Ideal S1x128 .f32) (w2 : Vec Ideal S128x128 .f32) (b2 : Vec Ideal S1x128 .f32)
    (g : Vec Ideal S1024x128 .f32) (n : Fin 1024) (f : Fin 128) :
    k4_pay15 v2 v136 v138 w1 b1 w2 b2 g (ix2 n f)
      = v136 (ix2 n f) + filtC v138 w1 b1 w2 b2 n f * v2 (ix2 n (5 : Fin 8)) * g (ix2 n f) := by
  unfold k4_pay15 filtC sspK
  simp only [mulf_apply, addf_apply, shapeCast_self, mm2_apply, mm1_apply, broadcastTo_1b_ab_apply, log_apply, exp_apply, half_apply, castF_apply, cutT_apply, col_apply _ 5 _ _ 5 rfl]

theorem pay8_apply (fj : Vec Ideal S1x50x1x1024 .f32) (w1 : Vec Ideal S50x128 .f32) (b1 : Vec Ideal S1x128 .f32) (n : Fin 1024) (j' : Fin 128) :
    k4_pay8 fj w1 b1 (ix2 n j')
      = Ideal.ofBits .f32 0x3F000000#32
          * Ideal.exp ((∑ m : Fin 50, fj (ix4 (0 : Fin 1) m (0 : Fin 1) n) * w1 (ix2 m j')) + b1 (ix2 (0 : Fin 1) j')) := by
  unfold k4_pay8
  simp only [mulf_apply, addf_apply, shapeCast_self, mm2_apply, mm1_apply, broadcastTo_1b_ab_apply, log_apply, exp_apply, half_apply, castF_apply, cutT_apply]

theorem pay16_apply (fj : Vec Ideal S1x50x1x1024 .f32) (w1 : Vec Ideal S50x128 .f32) (b1 : Vec Ideal S1x128 .f32) (n : Fin 1024) (j' : Fin 128) :
    k4_pay16 fj w1 b1 (ix2 n j')
      = Ideal.ofBits .f32 0x3F000000#32
          * Ideal.exp ((∑ m : Fin 50, fj (ix4 (0 : Fin 1) m (0 : Fin 1) n) * w1 (ix2 m j')) + b1 (ix2 (0 : Fin 1) j')) := by
  unfold k4_pay16
  simp only [mulf_apply, addf_apply, shapeCast_self, mm2_apply, mm1_apply, broadcastTo_1b_ab_apply, log_apply, exp_apply, half_apply, castF_apply, cutT_apply]

theorem pay9_apply (i : S1024x128.Idx) : k4_pay9 (F := Ideal) i = Ideal.ofBits .f32 0x3F000000#32 := rfl
theorem pay17_apply (i : S1024x128.Idx) : k4_pay17 (F := Ideal) i = Ideal.ofBits .f32 0x3F000000#32 := rfl

theorem pay10_apply (v2 : FVec Ideal S1024x8 .f32) (v55 v66 v67 : FVec Ideal S1024x128 .f32) (w2 : Vec Ideal S128x128 .f32) (b2 : Vec Ideal S1x128 .f32)
    (g : Vec Ideal S1024x128 .f32) (n : Fin 1024) (f : Fin 128) :
    k4_pay10 v2 v55 v66 v67 w2 b2 g (ix2 n f)
      = v55 (ix2 n f)
        + ((∑ j' : Fin 128, Ideal.log (v66 (ix2 n j') + v67 (ix2 n j')) * w2 (ix2 j' f)) + b2 (ix2 (0 : Fin 1) f))
          * v2 (ix2 n (2 : Fin 8)) * g (ix2 n f) := by
  unfold k4_pay10
  simp only [mulf_apply, addf_apply, shapeCast_self, mm2_apply, mm1_apply, broadcastTo_1b_ab_apply, log_apply, exp_apply, half_apply, castF_apply, cutT_apply, col_apply _ 2 _ _ 2 rfl]

theorem pay18_apply (v2 : FVec Ideal S1024x8 .f32) (v163 v174 v175 : FVec Ideal S1024x128 .f32) (w2 : Vec Ideal S128x128 .f32) (b2 : Vec Ideal S1x128 .f32)
    (g : Vec Ideal S1024x128 .f32) (n : Fin 1024) (f : Fin 128) :
    k4_pay18 v2 v163 v174 v175 w2 b2 g (ix2 n f)
      = v163 (ix2 n f)
        + ((∑ j' : Fin 128, Ideal.log (v174 (ix2 n j') + v175 (ix2 n j')) * w2 (ix2 j' f)) + b2 (ix2 (0 : Fin 1) f))
          * v2 (ix2 n (6 : Fin 8)) * g (ix2 n f) := by
  unfold k4_pay18
  simp only [mulf_apply, addf_apply, shapeCast_self, mm2_apply, mm1_apply, broadcastTo_1b_ab_apply, log_apply, exp_apply, half_apply, castF_apply, cutT_apply, col_apply _ 6 _ _ 6 rfl]

theorem pay11_apply (fj : Vec Ideal S1x50x1x1024 .f32) (w1 : Vec Ideal S50x128 .f32) (b1 : Vec Ideal S1x128 .f32) (w2 : Vec Ideal S128x128 .f32) (b2 : Vec Ideal S1x128 .f32) (n : Fin 1024) (f : Fin 128) :
    k4_pay11 fj w1 b1 w2 b2 (ix2 n f) = filt fj w1 b1 w2 b2 n f := by
  unfold k4_pay11 filt sspK
  simp only [mulf_apply, addf_apply, shapeCast_self, mm2_apply, mm1_apply, broadcastTo_1b_ab_apply, log_apply, exp_apply, half_apply, castF_apply, cutT_apply]

theorem pay19_apply (fj : Vec Ideal S1x50x1x1024 .f32) (w1 : Vec Ideal S50x128 .f32) (b1 : Vec Ideal S1x128 .f32) (w2 : Vec Ideal S128x128 .f32) (b2 : Vec Ideal S1x128 .f32) (n : Fin 1024) (f : Fin 128) :
    k4_pay19 fj w1 b1 w2 b2 (ix2 n f) = filt fj w1 b1 w2 b2 n f := by
  unfold k4_pay19 filt sspK
  simp only [mulf_apply, addf_apply, shapeCast_self, mm2_apply, mm1_apply, broadcastTo_1b_ab_apply, log_apply, exp_apply, half_apply, castF_apply, cutT_apply]

theorem pay12_apply (v2 : FVec Ideal S1024x8 .f32) (n : Fin 1024) (f : Fin 128) : k4_pay12 v2 (ix2 n f) = v2 (ix2 n (3 : Fin 8)) := by
  unfold k4_pay12
  simp only [col_apply _ 3 _ _ 3 rfl]

theorem pay20_apply (v2 : FVec Ideal S1024x8 .f32) (n : Fin 1024) (f : Fin 128) : k4_pay20 v2 (ix2 n f) = v2 (ix2 n (7 : Fin 8)) := by
  unfold k4_pay20
  simp only [col_apply _ 7 _ _ 7 rfl]

theorem pay13_apply (v2 : FVec Ideal S1024x8 .f32) (v82 v102 v104 : FVec Ideal S1024x128 .f32) (g3 : Vec Ideal S1024x128 .f32)
    (fj : Vec Ideal S1x50x1x1024 .f32) (w1 : Vec Ideal S50x128 .f32) (b1 : Vec Ideal S1x128 .f32) (w2 : Vec Ideal S128x128 .f32) (b2 : Vec Ideal S1x128 .f32) (g4 : Vec Ideal S1024x128 .f32) (n : Fin 1024) (f : Fin 128) :
    k4_pay13 v2 v82 v102 v104 g3 fj w1 b1 w2 b2 g4 (ix2 n f)
      = (v82 (ix2 n f) + v102 (ix2 n f) * v104 (ix2 n f) * g3 (ix2 n f))
        + filt fj w1 b1 w2 b2 n f * v2 (ix2 n (4 : Fin 8)) * g4 (ix2 n f) := by
  unfold k4_pay13 filt sspK
  simp only [mulf_apply, addf_apply, shapeCast_self, mm2_apply, mm1_apply, broadcastTo_1b_ab_apply, log_apply, exp_apply, half_apply, castF_apply, cutT_apply, col_apply _ 4 _ _ 4 rfl]

theorem pay1_apply (v190 v210 v212 : FVec Ideal S1024x128 .f32) (g7 : Vec Ideal S1024x128 .f32) (i : S1024x128.Idx) :
    k4_pay1 v190 v210 v212 g7 i = v190 i + v210 i * v212 i * g7 i := by
  unfold k4_pay1
  simp only [mulf_apply, addf_apply, shapeCast_self]

/-! ## The loads -/

theorem hz2 : (![0, 0] : Fin 2 → Nat) = fun _ => 0 := funext fun a => by fin_cases a <;> rfl
theorem hz3 : (![0, 0, 0] : Fin 3 → Nat) = fun _ => 0 := funext fun a => by fin_cases a <;> rfl

/-- Slot j of the staged filter inputs, read at (0, m, 0, n). -/
theorem ldF_apply (o : Nat)
    (inb : ∀ a, (![0, 0, o, 0] : Fin 4 → Nat) a + S1x50x1x1024.size a ≤ S1x50x8x1024.size a) (j : Fin 8) (ho : j.val = o)
    (m : Fin 50) (n : Fin 1024) :
    LoadRect.idx (Rect.unit (s := S1x50x8x1024) ![0, 0, o, 0] S1x50x1x1024.size inb).toLoadRect (ix4 (0 : Fin 1) m (0 : Fin 1) n)
      = ix4 (0 : Fin 1) m j n :=
  (funext fun a => Fin.ext (by
    match a with
    | ⟨0, _⟩ => rfl
    | ⟨1, _⟩ => show 0 + 1 * m.val = m.val; omega
    | ⟨2, _⟩ => show o + 1 * 0 = j.val; omega
    | ⟨3, _⟩ => show 0 + 1 * n.val = n.val; omega))

/-- Slot j of the staged gathered rows, read at (n, f): row o + n. -/
theorem ldG_apply (o : Nat)
    (inb : ∀ a, (![o, 0] : Fin 2 → Nat) a + S1024x128.size a ≤ S8192x128.size a) (j : Fin 8) (ho : o = 1024 * j.val)
    (n : Fin 1024) (f : Fin 128) :
    LoadRect.idx (Rect.unit (s := S8192x128) ![o, 0] S1024x128.size inb).toLoadRect (ix2 n f)
      = ix2 (⟨1024 * j.val + n.val, by have := j.isLt; have := n.isLt; omega⟩ : Fin 8192) f :=
  (funext fun a => Fin.ext (by
    match a with
    | ⟨0, _⟩ => show o + 1 * n.val = 1024 * j.val + n.val; omega
    | ⟨1, _⟩ => show 0 + 1 * f.val = f.val; omega))

/-! ## A point's sum at an index -/

/-- Slot j of a point's sum at row n, lane f, from the point's seven staged inputs. -/
def slotOf (x : Ins Ideal) (j : Fin 8) (n : Fin 1024) (f : Fin 128) : EReal :=
  ((∑ j' : Fin 128,
        sspK ((∑ m : Fin 50, x.f (ix4 (0 : Fin 1) m j n) * x.w1 (ix2 m j')) + x.b1 (ix2 (0 : Fin 1) j')) * x.w2 (ix2 j' f))
      + x.b2 (ix2 (0 : Fin 1) f))
    * x.cut (ix3 (0 : Fin 1) j n)
    * x.g (ix2 (⟨1024 * j.val + n.val, by have := j.isLt; have := n.isLt; omega⟩ : Fin 8192) f)

/-- The eight slots added in the body's order. -/
def sumOf (x : Ins Ideal) (n : Fin 1024) (f : Fin 128) : EReal :=
  ((((((slotOf x 0 n f + slotOf x 1 n f) + slotOf x 2 n f) + slotOf x 3 n f) + slotOf x 4 n f) + slotOf x 5 n f)
    + slotOf x 6 n f) + slotOf x 7 n f

theorem psum_apply (x : Ins Ideal) (n : Fin 1024) (f : Fin 128) :
    k4_pay1 (upto6 x).1 (upto6 x).2.1 (upto6 x).2.2 (View.ld x.g rG7) (ix2 n f) = sumOf x n f := by
  unfold upto6 sumOf slotOf
  simp only [pay1_apply, pay5_apply, pay6_apply, pay7_apply, pay8_apply, pay9_apply, pay10_apply, pay11_apply, pay12_apply, pay13_apply, pay14_apply, pay15_apply, pay16_apply, pay17_apply, pay18_apply, pay19_apply, pay20_apply, filt, filtC, sspK, cutT_apply,
    View.ld_unit_zero (S := S50x128) hz2, View.ld_unit_zero (S := S1x128) hz2, View.ld_unit_zero (S := S128x128) hz2,
    View.ld_unit_zero (S := S1x8x1024) hz3,
    ldF_apply 0 _ 0 rfl, ldF_apply 1 _ 1 rfl, ldF_apply 2 _ 2 rfl, ldF_apply 3 _ 3 rfl, ldF_apply 4 _ 4 rfl, ldF_apply 5 _ 5 rfl, ldF_apply 6 _ 6 rfl, ldF_apply 7 _ 7 rfl,
    ldG_apply 0 _ 0 rfl, ldG_apply 1024 _ 1 rfl, ldG_apply 2048 _ 2 rfl, ldG_apply 3072 _ 3 rfl, ldG_apply 4096 _ 4 rfl, ldG_apply 5120 _ 5 rfl, ldG_apply 6144 _ 6 rfl, ldG_apply 7168 _ 7 rfl]
  simp only [View.ld, ldF_apply 0 _ 0 rfl, ldF_apply 1 _ 1 rfl, ldF_apply 2 _ 2 rfl, ldF_apply 3 _ 3 rfl, ldF_apply 4 _ 4 rfl, ldF_apply 5 _ 5 rfl, ldF_apply 6 _ 6 rfl, ldF_apply 7 _ 7 rfl,
    ldG_apply 0 _ 0 rfl, ldG_apply 1024 _ 1 rfl, ldG_apply 2048 _ 2 rfl, ldG_apply 3072 _ 3 rfl, ldG_apply 4096 _ 4 rfl, ldG_apply 5120 _ 5 rfl, ldG_apply 6144 _ 6 rfl, ldG_apply 7168 _ 7 rfl]

/-! ## The closed form -/

section Closed

variable (c : Dev nD) (A : (w : Fin cfg4.W) → Buf (Elt Ideal) ((cfg4.win w).arr.view.loc (c.tc : Thread nD τ)))

/-- The seven input arrays at their literal shapes. -/
abbrev aF : S8x50x64x1024.Idx → EReal := A 0
abbrev aY : S131072x128.Idx → EReal := A 1
abbrev aC : S8x64x1024.Idx → EReal := A 2
abbrev aW1 : S50x128.Idx → EReal := A 3
abbrev aB1 : S1x128.Idx → EReal := A 4
abbrev aW2 : S128x128.Idx → EReal := A 5
abbrev aB2 : S1x128.Idx → EReal := A 6

/-- Slot j of point (bi, kg) at row n, lane f: the filter of slot 8·(2 + kg) + j, times its cutoff-and-mask entry, times
    the gathered row. -/
def slotTerm (bi : Fin 8) (kg : Fin 2) (j : Fin 8) (n : Fin 1024) (f : Fin 128) : EReal :=
  ((∑ j' : Fin 128,
        sspK ((∑ m : Fin 50, aF c A (ix4 bi m (⟨8 * (2 + kg.val) + j.val, by have := kg.isLt; have := j.isLt; omega⟩ : Fin 64) n) * aW1 c A (ix2 m j'))
              + aB1 c A (ix2 (0 : Fin 1) j'))
          * aW2 c A (ix2 j' f))
      + aB2 c A (ix2 (0 : Fin 1) f))
    * aC c A (ix3 bi (⟨8 * (2 + kg.val) + j.val, by have := kg.isLt; have := j.isLt; omega⟩ : Fin 64) n)
    * aY c A (ix2 (⟨(2 * bi.val + kg.val) * 8192 + 1024 * j.val + n.val, by have := bi.isLt; have := kg.isLt; have := j.isLt; have := n.isLt; omega⟩ : Fin 131072) f)

/-- The point's sum, the eight slots added in the body's order. -/
def pointSum (bi : Fin 8) (kg : Fin 2) (n : Fin 1024) (f : Fin 128) : EReal :=
  ((((((slotTerm c A bi kg 0 n f + slotTerm c A bi kg 1 n f) + slotTerm c A bi kg 2 n f) + slotTerm c A bi kg 3 n f)
      + slotTerm c A bi kg 4 n f) + slotTerm c A bi kg 5 n f) + slotTerm c A bi kg 6 n f) + slotTerm c A bi kg 7 n f

/-! ## The staged inputs, read through the windows' index maps -/

/-- The printed index maps over the grid: point t = 2·b + g stages block (b, 0, 2 + g, 0) of the filter inputs, block t of
    the gathered rows, block (b, 2 + g, 0) of the cutoff-and-mask array, all of each weight array, and block b of the output. -/
theorem idx_facts : ∀ t : Fin cfg4.N,
    win4_0.index t (0 : Fin 4) = t.val / 2 ∧ win4_0.index t (1 : Fin 4) = 0 ∧ win4_0.index t (2 : Fin 4) = 2 + t.val % 2
    ∧ win4_0.index t (3 : Fin 4) = 0
    ∧ win4_1.index t (0 : Fin 2) = t.val ∧ win4_1.index t (1 : Fin 2) = 0
    ∧ win4_2.index t (0 : Fin 3) = t.val / 2 ∧ win4_2.index t (1 : Fin 3) = 2 + t.val % 2 ∧ win4_2.index t (2 : Fin 3) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val / 2 ∧ win4_7.index t (1 : Fin 2) = 0 :=
  (by decide +kernel : ∀ t : Fin grid4.N, _)

/-- The filter inputs staged at point t = 2·bi + kg: slots 8·(2 + kg) … 8·(2 + kg) + 7 of batch bi. -/
theorem readF (t : Fin cfg4.N) (bi : Fin 8) (kg : Fin 2) (ht : t.val = 2 * bi.val + kg.val) (m : Fin 50) (j : Fin 8) (n : Fin 1024) :
    blockAt c A 0 t (ix4 (0 : Fin 1) m j n) = aF c A (ix4 bi m (⟨8 * (2 + kg.val) + j.val, by have := kg.isLt; have := j.isLt; omega⟩ : Fin 64) n) := by
  obtain ⟨e0, e1, e2, e3, -⟩ := idx_facts t
  show aF c A (((cfg4.win 0).blk t).view.emb (ix4 (0 : Fin 1) m j n)) = _
  refine congrArg (aF c A) (funext fun a => Fin.ext ?_)
  have := bi.isLt; have := kg.isLt
  match a with
  | ⟨0, _⟩ => show win4_0.index t (0 : Fin 4) * 1 + 1 * 0 = bi.val; omega
  | ⟨1, _⟩ => show win4_0.index t (1 : Fin 4) * 50 + 1 * m.val = m.val; omega
  | ⟨2, _⟩ => show win4_0.index t (2 : Fin 4) * 8 + 1 * j.val = 8 * (2 + kg.val) + j.val; omega
  | ⟨3, _⟩ => show win4_0.index t (3 : Fin 4) * 1024 + 1 * n.val = n.val; omega

/-- The gathered rows staged at point t: rows 8192·t … of the gathered array. -/
theorem readY (t : Fin cfg4.N) (bi : Fin 8) (kg : Fin 2) (ht : t.val = 2 * bi.val + kg.val) (j : Fin 8) (n : Fin 1024) (f : Fin 128) :
    blockAt c A 1 t (ix2 (⟨1024 * j.val + n.val, by have := j.isLt; have := n.isLt; omega⟩ : Fin 8192) f) = aY c A (ix2 (⟨(2 * bi.val + kg.val) * 8192 + 1024 * j.val + n.val, by have := bi.isLt; have := kg.isLt; have := j.isLt; have := n.isLt; omega⟩ : Fin 131072) f) := by
  obtain ⟨-, -, -, -, e0, e1, -⟩ := idx_facts t
  show aY c A (((cfg4.win 1).blk t).view.emb (ix2 (⟨1024 * j.val + n.val, by have := j.isLt; have := n.isLt; omega⟩ : Fin 8192) f)) = _
  refine congrArg (aY c A) (funext fun a => Fin.ext ?_)
  match a with
  | ⟨0, _⟩ => show win4_1.index t (0 : Fin 2) * 8192 + 1 * (1024 * j.val + n.val) = (2 * bi.val + kg.val) * 8192 + 1024 * j.val + n.val; omega
  | ⟨1, _⟩ => show win4_1.index t (1 : Fin 2) * 128 + 1 * f.val = f.val; omega

/-- The cutoff-and-mask columns staged at point t. -/
theorem readC (t : Fin cfg4.N) (bi : Fin 8) (kg : Fin 2) (ht : t.val = 2 * bi.val + kg.val) (j : Fin 8) (n : Fin 1024) :
    blockAt c A 2 t (ix3 (0 : Fin 1) j n) = aC c A (ix3 bi (⟨8 * (2 + kg.val) + j.val, by have := kg.isLt; have := j.isLt; omega⟩ : Fin 64) n) := by
  obtain ⟨-, -, -, -, -, -, e0, e1, e2, -⟩ := idx_facts t
  show aC c A (((cfg4.win 2).blk t).view.emb (ix3 (0 : Fin 1) j n)) = _
  refine congrArg (aC c A) (funext fun a => Fin.ext ?_)
  have := bi.isLt; have := kg.isLt
  match a with
  | ⟨0, _⟩ => show win4_2.index t (0 : Fin 3) * 1 + 1 * 0 = bi.val; omega
  | ⟨1, _⟩ => show win4_2.index t (1 : Fin 3) * 8 + 1 * j.val = 8 * (2 + kg.val) + j.val; omega
  | ⟨2, _⟩ => show win4_2.index t (2 : Fin 3) * 1024 + 1 * n.val = n.val; omega

/-- Each weight array is staged whole at every point. -/
theorem readW1 (t : Fin cfg4.N) (y : S50x128.Idx) : blockAt c A 3 t y = aW1 c A y := by
  obtain ⟨-, -, -, -, -, -, -, -, -, e0, e1, -⟩ := idx_facts t
  show aW1 c A (((cfg4.win 3).blk t).view.emb y) = _
  refine congrArg (aW1 c A) (funext fun a => Fin.ext ?_)
  match a with
  | ⟨0, _⟩ => show win4_3.index t (0 : Fin 2) * 50 + 1 * (y 0).val = (y 0).val; omega
  | ⟨1, _⟩ => show win4_3.index t (1 : Fin 2) * 128 + 1 * (y 1).val = (y 1).val; omega
theorem readB1 (t : Fin cfg4.N) (y : S1x128.Idx) : blockAt c A 4 t y = aB1 c A y := by
  obtain ⟨-, -, -, -, -, -, -, -, -, -, -, e0, e1, -⟩ := idx_facts t
  show aB1 c A (((cfg4.win 4).blk t).view.emb y) = _
  refine congrArg (aB1 c A) (funext fun a => Fin.ext ?_)
  match a with
  | ⟨0, _⟩ => show win4_4.index t (0 : Fin 2) * 1 + 1 * (y 0).val = (y 0).val; omega
  | ⟨1, _⟩ => show win4_4.index t (1 : Fin 2) * 128 + 1 * (y 1).val = (y 1).val; omega
theorem readW2 (t : Fin cfg4.N) (y : S128x128.Idx) : blockAt c A 5 t y = aW2 c A y := by
  obtain ⟨-, -, -, -, -, -, -, -, -, -, -, -, -, e0, e1, -⟩ := idx_facts t
  show aW2 c A (((cfg4.win 5).blk t).view.emb y) = _
  refine congrArg (aW2 c A) (funext fun a => Fin.ext ?_)
  match a with
  | ⟨0, _⟩ => show win4_5.index t (0 : Fin 2) * 128 + 1 * (y 0).val = (y 0).val; omega
  | ⟨1, _⟩ => show win4_5.index t (1 : Fin 2) * 128 + 1 * (y 1).val = (y 1).val; omega
theorem readB2 (t : Fin cfg4.N) (y : S1x128.Idx) : blockAt c A 6 t y = aB2 c A y := by
  obtain ⟨-, -, -, -, -, -, -, -, -, -, -, -, -, -, -, e0, e1, -⟩ := idx_facts t
  show aB2 c A (((cfg4.win 6).blk t).view.emb y) = _
  refine congrArg (aB2 c A) (funext fun a => Fin.ext ?_)
  match a with
  | ⟨0, _⟩ => show win4_6.index t (0 : Fin 2) * 1 + 1 * (y 0).val = (y 0).val; omega
  | ⟨1, _⟩ => show win4_6.index t (1 : Fin 2) * 128 + 1 * (y 1).val = (y 1).val; omega

/-- A slot of point t = 2·bi + kg, from the arrays. -/
theorem slot_insAt (t : Fin cfg4.N) (bi : Fin 8) (kg : Fin 2) (ht : t.val = 2 * bi.val + kg.val) (j : Fin 8) (n : Fin 1024) (f : Fin 128) :
    slotOf (insAt c A t) j n f = slotTerm c A bi kg j n f := by
  unfold slotOf slotTerm insAt
  simp only [readF c A t bi kg ht, readY c A t bi kg ht, readC c A t bi kg ht, readW1 c A t, readB1 c A t, readW2 c A t, readB2 c A t]

/-- The sum of point t = 2·bi + kg, from the arrays. -/
theorem sum_insAt (t : Fin cfg4.N) (bi : Fin 8) (kg : Fin 2) (ht : t.val = 2 * bi.val + kg.val) (n : Fin 1024) (f : Fin 128) :
    sumOf (insAt c A t) n f = pointSum c A bi kg n f := by
  unfold sumOf pointSum
  simp only [slot_insAt c A t bi kg ht]

/-! ## The write-backs -/

/-- One store through the whole accumulator leaves its payload; a load through the whole accumulator reads it. -/
theorem whole_eq (p : Vec Ideal S1024x128 .f32) : whole p = p := by
  unfold whole
  exact View.canon_unit_zero hz2 _ p
theorem ldBig_eq (X : Vec Ideal S1024x128 .f32) : View.ld X rBig = X := View.ld_unit_zero (S := S1024x128) hz2 _ X

theorem first_apply (x : Ins Ideal) (n : Fin 1024) (f : Fin 128) : first x (ix2 n f) = sumOf x n f := by
  unfold first k4_pay2
  rw [shapeCast_self]
  exact psum_apply x n f

theorem second_apply (x : Ins Ideal) (acc : Vec Ideal S1024x128 .f32) (n : Fin 1024) (f : Fin 128) :
    second x acc (ix2 n f) = acc (ix2 n f) + sumOf x n f := by
  unfold second k4_pay3
  rw [shapeCast_self, addf_apply, psum_apply]

/-- What point t writes back (at the second point of a pair): the sum of the point before it plus its own. -/
theorem flushed_apply (q : Fin cfg4.W → PosShare TreeShare) (R Rm : sProp 𝕄) (O : CellTallies nD τ sig Ix) (B : Set (SemLoc sig × Ix))
    (t : Fin cfg4.N) (n : Fin 1024) (f : Fin 128) :
    (dat (F := Ideal) (Ix := Ix) (Name := Name) (U := U) (Lvl := Lvl) c A q R Rm O B).flushed 7 t (ix2 n f) = sumOf (insAt c A (prev t)) n f + sumOf (insAt c A t) n f := by
  show (dat (F := Ideal) (Ix := Ix) (Name := Name) (U := U) (Lvl := Lvl) c A q R Rm O B).after 7 t (ix2 n f) = _
  rw [after_out c A q O B R Rm t, whole_eq, ldBig_eq]
  unfold accSecond
  rw [whole_eq, second_apply, ldBig_eq]
  unfold accFirst
  rw [whole_eq, first_apply]

/-! ## The array -/

/-- What the output array holds at row r, lane f: the two sums of pair r / 1024, at row r % 1024. -/
def outVal (r : Fin 8192) (f : Fin 128) : EReal :=
  pointSum c A ⟨r.val / 1024, by have := r.isLt; omega⟩ 0 ⟨r.val % 1024, Nat.mod_lt _ (by decide)⟩ f
    + pointSum c A ⟨r.val / 1024, by have := r.isLt; omega⟩ 1 ⟨r.val % 1024, Nat.mod_lt _ (by decide)⟩ f

theorem outVal_eq (r : Fin 8192) (bi : Fin 8) (n : Fin 1024) (h : r.val = 1024 * bi.val + n.val) (f : Fin 128) :
    outVal c A r f = pointSum c A bi 0 n f + pointSum c A bi 1 n f := by
  have hb : (⟨r.val / 1024, by have := r.isLt; omega⟩ : Fin 8) = bi := Fin.ext (by have := n.isLt; show r.val / 1024 = bi.val; omega)
  have hn : (⟨r.val % 1024, Nat.mod_lt _ (by decide)⟩ : Fin 1024) = n := Fin.ext (by have := n.isLt; show r.val % 1024 = n.val; omega)
  unfold outVal
  rw [hb, hn]

/-- The whole output array as one function of the seven input arrays. -/
def G : S8192x128.Idx → EReal := fun i => outVal c A (i 0) (i 1)

theorem G_apply (z : S8192x128.Idx) (bi : Fin 8) (n : Fin 1024) (f : Fin 128) (h0 : (z 0).val = 1024 * bi.val + n.val)
    (h1 : (z 1).val = f.val) : G c A z = pointSum c A bi 0 n f + pointSum c A bi 1 n f := by
  have e1 : z 1 = f := Fin.ext h1
  unfold G
  rw [e1]
  exact outVal_eq c A (z 0) bi n h0 f

/-- What a flushing point writes back is its block of G. -/
theorem flushed_eq (q : Fin cfg4.W → PosShare TreeShare) (R Rm : sProp 𝕄) (O : CellTallies nD τ sig Ix) (B : Set (SemLoc sig × Ix))
    (t : Fin cfg4.N) (hf : (cfg4.win 7).flush t = true) :
    (dat (F := Ideal) (Ix := Ix) (Name := Name) (U := U) (Lvl := Lvl) c A q R Rm O B).flushed 7 t = ((cfg4.win 7).blk t).view.read (Elt Ideal) (G c A) := by
  have hodd : t.val % 2 = 1 := by rw [flush7 t] at hf; exact of_decide_eq_true hf
  have htN : t.val < 16 := by have h := t.isLt; have h1 : cfg4.N = 16 := N_4; omega
  obtain ⟨-, -, -, -, -, -, -, -, -, -, -, -, -, -, -, -, -, e0, e1⟩ := idx_facts t
  funext y
  obtain ⟨n, f, rfl⟩ : ∃ (n : Fin 1024) (f : Fin 128), y = ix2 n f := ⟨y 0, y 1, eq_ix2 y⟩
  rw [flushed_apply c A q R Rm O B t n f]
  show _ = G c A (((cfg4.win 7).blk t).view.emb (ix2 n f))
  rw [G_apply c A _ ⟨t.val / 2, by omega⟩ n f
        (by show win4_7.index t (0 : Fin 2) * 1024 + 1 * n.val = 1024 * (t.val / 2) + n.val; omega)
        (by show win4_7.index t (1 : Fin 2) * 128 + 1 * f.val = f.val; omega),
      sum_insAt c A (prev t) ⟨t.val / 2, by omega⟩ 0 (by show t.val - 1 = 2 * (t.val / 2) + 0; omega) n f,
      sum_insAt c A t ⟨t.val / 2, by omega⟩ 1 (by show t.val = 2 * (t.val / 2) + 1; omega) n f]

/-- The output array after the region, read at row 1024·bi + n, lane f. -/
theorem fused_closed (q : Fin cfg4.W → PosShare TreeShare) (R Rm : sProp 𝕄) (O : CellTallies nD τ sig Ix) (B : Set (SemLoc sig × Ix))
    (bi : Fin 8) (n : Fin 1024) (f : Fin 128) :
    (dat (F := Ideal) (Ix := Ix) (Name := Name) (U := U) (Lvl := Lvl) c A q R Rm O B).arrAt 7 cfg4.N
        (ix2 (⟨1024 * bi.val + n.val, by have := bi.isLt; have := n.isLt; omega⟩ : Fin 8192) f)
      = pointSum c A bi 0 n f + pointSum c A bi 1 n f := by
  have hbi := bi.isLt
  have hn := n.isLt
  have hfl := f.isLt
  -- the second point of pair bi
  obtain ⟨t, ht⟩ : ∃ t : Fin cfg4.N, t.val = 2 * bi.val + 1 :=
    ⟨⟨2 * bi.val + 1, by have h1 : cfg4.N = 16 := N_4; have h2 : grid4.N = 16 := N_4; omega⟩, rfl⟩
  have hf : (cfg4.win 7).flush t = true := by
    rw [flush7 t]; exact decide_eq_true (by omega)
  obtain ⟨-, -, -, -, -, -, -, -, -, -, -, -, -, -, -, -, -, e0, e1⟩ := idx_facts t
  -- the index is in that point's block
  have hmem : ∀ i : S8192x128.Idx, (i 0).val = 1024 * bi.val + n.val → i ∈ ((cfg4.win 7).blk t).view.set := by
    intro i hi
    show i ∈ ((View.whole main_v25).slice (win4_7.rect t)).set
    rw [View.set_slice_whole, Rect.mem_set_unit]
    intro a
    have hi1 : (i 1).val < 128 := (i 1).isLt
    match a with
    | ⟨0, _⟩ =>
      show win4_7.index t (0 : Fin 2) * 1024 ≤ (i 0).val ∧ (i 0).val < win4_7.index t (0 : Fin 2) * 1024 + 1024
      omega
    | ⟨1, _⟩ =>
      show win4_7.index t (1 : Fin 2) * 128 ≤ (i 1).val ∧ (i 1).val < win4_7.index t (1 : Fin 2) * 128 + 128
      omega
  rw [Pipeline.Dat.arrAt_apply_of_mem (dat (F := Ideal) (Ix := Ix) (Name := Name) (U := U) (Lvl := Lvl) c A q R Rm O B) 7 (G c A)
        (fun t hf => flushed_eq c A q R Rm O B t hf) cfg4.N t _ t.isLt hf (hmem _ rfl)]
  exact G_apply c A _ bi n f rfl rfl

end Closed

end Cert.KernelIdeal.Region2V

end
-- ==== Proof.Region3Value.lean ====
/-
  The closed form, at the ideal values, of what a fused tensor-core region leaves in its output array.

  The region's body computes, for each of 8 slots, a two-layer filter of the slot's 50 inputs (a contraction with W₁,
  plus b₁, the shifted softplus log(½·exp v + ½), a contraction with W₂, plus b₂), multiplies it by the slot's
  cutoff-and-mask entry and by the slot's gathered row, and adds the eight products in slot order. Over the grid 8 × 2
  the two points of a pair add their sums; the second writes the total to rows 1024·b … of the output array.

  Below: each operation of the body that is not pointwise read at an index; each of the body's named values
  (the generated pure terms) read at an index; a point's sum as a function of its seven staged inputs; the staged
  inputs as the arrays read through the windows' index maps; the write-backs joined into the array.
-/
import proofs.«215235_g2774548873965_cont_9to1_572_34_alg».proof.Proof.Region3Body
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region3V

open Cert.KernelIdeal Cert.KernelIdeal.Gen Cert.KernelIdeal.Region3B
open Idealize.ShloMosaic Idealize.ShloMosaic.TcCoe Idealize.ShloMosaic.ValueIdx
open Idealize.SL Idealize.SL.RA Idealize.SL.BI
open Idealize.ShloMosaic.Pipeline (Dat Cfg Window)
open scoped BigOperators

variable {Ix : Type} [DecidableEq Ix] {Name : Type} [DecidableEq Name] {U : Type} [URA U] {Lvl : Type} [Preorder Lvl]

local notation "𝕄" => MT nD τ sig Ix (Elt Ideal) Name U Lvl

/-- The shifted softplus as the body spells it: log (½ · exp v + ½), the two halves the same binary word. -/
def sspK (v : EReal) : EReal :=
  Ideal.log (Ideal.ofBits .f32 0x3F000000#32 * Ideal.exp v + Ideal.ofBits .f32 0x3F000000#32)

/-! ## The operations that are not pointwise, each read at an index -/

/-- The operand indices of the two contractions on the axes that are not contracted. -/
theorem mm1_lhs1 (i : S1024x128.Idx) (q : dot_S50x1024_S50x128_S1024x128_0_0_1_1_n_n.contr.Idx) :
    (dot_S50x1024_S50x128_S1024x128_0_0_1_1_n_n.lhsIdx i q 1).val = (i 0).val := by
  unfold DotDims.lhsIdx
  rw [dif_neg (show ¬(1 : Fin S50x1024.rank) ∈ dot_S50x1024_S50x128_S1024x128_0_0_1_1_n_n.lhsBatch by decide),
    dif_pos (show (1 : Fin S50x1024.rank) ∈ dot_S50x1024_S50x128_S1024x128_0_0_1_1_n_n.lhsNonContracting by decide)]
  rfl
theorem mm1_rhs1 (i : S1024x128.Idx) (q : dot_S50x1024_S50x128_S1024x128_0_0_1_1_n_n.contr.Idx) :
    (dot_S50x1024_S50x128_S1024x128_0_0_1_1_n_n.rhsIdx i q 1).val = (i 1).val := by
  unfold DotDims.rhsIdx
  rw [dif_neg (show ¬(1 : Fin S50x128.rank) ∈ dot_S50x1024_S50x128_S1024x128_0_0_1_1_n_n.rhsBatch by decide),
    dif_pos (show (1 : Fin S50x128.rank) ∈ dot_S50x1024_S50x128_S1024x128_0_0_1_1_n_n.rhsNonContracting by decide)]
  rfl
theorem mm2_lhs0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide),
    dif_pos (show (0 : Fin S1024x128.rank) ∈ dot_S1024x128_S128x128_S1024x128_1_0_0_1_n_n.lhsNonContracting by decide)]
  rfl
theorem mm2_rhs1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide),
    dif_pos (show (1 : Fin S128x128.rank) ∈ dot_S1024x128_S128x128_S1024x128_1_0_0_1_n_n.rhsNonContracting by decide)]
  rfl

/-- The first contraction: axis 0 of a [50,1024] operand against axis 0 of a [50,128] one, into zeros. -/
theorem mm1_apply (L : FVec Ideal S50x1024 .f32) (w : FVec Ideal S50x128 .f32) (n : Fin 1024) (j' : Fin 128) :
    matmul dot_S50x1024_S50x128_S1024x128_0_0_1_1_n_n none L w (constant S1024x128 .f32 0x00000000#32) (ix2 n j')
      = ∑ m : Fin 50, L (ix2 m n) * w (ix2 m j') := by
  simp only [matmul]
  rw [Ideal.matmul_constant_zero_apply, ← Equiv.sum_comp (contrEquiv1 dot_S50x1024_S50x128_S1024x128_0_0_1_1_n_n 50 rfl rfl).symm]
  refine Finset.sum_congr rfl fun k _ => ?_
  have hk := contrEquiv1_symm_val dot_S50x1024_S50x128_S1024x128_0_0_1_1_n_n 50 rfl rfl k
  have el : dot_S50x1024_S50x128_S1024x128_0_0_1_1_n_n.lhsIdx (ix2 n j') ((contrEquiv1 dot_S50x1024_S50x128_S1024x128_0_0_1_1_n_n 50 rfl rfl).symm k) = ix2 k n :=
    funext fun a => Fin.ext (by
      match a with
      | ⟨0, _⟩ => exact (dot_S50x1024_S50x128_S1024x128_0_0_1_1_n_n.lhsIdx_val_of_single rfl _ _).trans hk
      | ⟨1, _⟩ => exact mm1_lhs1 _ _)
  have er : dot_S50x1024_S50x128_S1024x128_0_0_1_1_n_n.rhsIdx (ix2 n j') ((contrEquiv1 dot_S50x1024_S50x128_S1024x128_0_0_1_1_n_n 50 rfl rfl).symm k) = ix2 k j' :=
    funext fun a => Fin.ext (by
      match a with
      | ⟨0, _⟩ => exact (dot_S50x1024_S50x128_S1024x128_0_0_1_1_n_n.rhsIdx_val_of_single rfl _ _).trans hk
      | ⟨1, _⟩ => exact mm1_rhs1 _ _)
  rw [el, er]

/-- The second contraction: the lanes of a [1024,128] operand against axis 0 of a [128,128] one, into zeros. -/
theorem mm2_apply (L : FVec Ideal S1024x128 .f32) (w : FVec Ideal S128x128 .f32) (n : Fin 1024) (f : Fin 128) :
    matmul dot_S1024x128_S128x128_S1024x128_1_0_0_1_n_n none L w (constant S1024x128 .f32 0x00000000#32) (ix2 n f)
      = ∑ j' : Fin 128, L (ix2 n j') * w (ix2 j' f) := by
  simp only [matmul]
  rw [Ideal.matmul_constant_zero_apply, ← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 n f) ((contrEquiv1 dot_S1024x128_S128x128_S1024x128_1_0_0_1_n_n 128 rfl rfl).symm k) = ix2 n k :=
    funext fun a => Fin.ext (by
      match a with
      | ⟨0, _⟩ => exact mm2_lhs0 _ _
      | ⟨1, _⟩ => exact (dot_S1024x128_S128x128_S1024x128_1_0_0_1_n_n.lhsIdx_val_of_single rfl _ _).trans hk)
  have er : dot_S1024x128_S128x128_S1024x128_1_0_0_1_n_n.rhsIdx (ix2 n f) ((contrEquiv1 dot_S1024x128_S128x128_S1024x128_1_0_0_1_n_n 128 rfl rfl).symm k) = ix2 k f :=
    funext fun a => Fin.ext (by
      match a with
      | ⟨0, _⟩ => exact (dot_S1024x128_S128x128_S1024x128_1_0_0_1_n_n.rhsIdx_val_of_single rfl _ _).trans hk
      | ⟨1, _⟩ => exact mm2_rhs1 _ _)
  rw [el, er]

/-- A staged slice [1,50,1,1024] cast to [50,1024]. -/
theorem castF_apply {α : Type} (v : S1x50x1x1024.Idx → α) (h : S1x50x1x1024.ShapeCasts S50x1024) (m : Fin 50) (n : Fin 1024) :
    shapeCast S50x1024 v h (ix2 m n) = v (ix4 (0 : Fin 1) m (0 : Fin 1) n) :=
  shapeCast_apply v h _ _ (by
    rw [Shape.rowMajor_val_four, Shape.rowMajor_val_two]
    show ((0 * 50 + m.val) * 1 + 0) * 1024 + n.val = m.val * 1024 + n.val
    omega)

/-- A bias row [1,128], cast to itself and broadcast over the 1024 rows. -/
theorem bias_apply {α : Type} (b : S1x128.Idx → α) (h : S1x128.ShapeCasts S1x128) (h' : S1x128.Broadcasts S1024x128) (n : Fin 1024) (f : Fin 128) :
    broadcastTo S1024x128 (shapeCast S1x128 b h) h' (ix2 n f) = b (ix2 (0 : Fin 1) f) := by
  rw [shapeCast_self]
  exact broadcastTo_1b_ab_apply b h' n f

/-- Column j of a [1024,8] array, broadcast over the 128 lanes. -/
theorem col_apply {α : Type} (v : S1024x8.Idx → α) (o : Nat) (h : S1024x8.Slices ![0, o] S1024x1) (h' : S1024x1.Broadcasts S1024x128)
    (j : Fin 8) (ho : j.val = o) (n : Fin 1024) (f : Fin 128) :
    broadcastTo S1024x128 (extractStridedSlice S1024x1 ![0, o] v h) h' (ix2 n f) = v (ix2 n j) := by
  have e1 : broadcastTo S1024x128 (extractStridedSlice S1024x1 ![0, o] v h) h' (ix2 n f)
      = extractStridedSlice S1024x1 ![0, o] v h (ix2 n (0 : Fin 1)) :=
    broadcastTo_apply _ h' (ix2 n f) (ix2 n (0 : Fin 1)) fun ax => by
      match ax with
      | ⟨0, _⟩ => show n.val = if (1024 : Nat) = 1 then 0 else n.val; rw [if_neg (by decide)]
      | ⟨1, _⟩ => rfl
  rw [e1]
  exact slice2_axis1_apply o v h n (0 : Fin 1) j (by show j.val = o + 0; omega)

/-- The cutoff-and-mask block [1,8,1024] cast to [8,1024] and transposed: entry (n, j) is the block's (0, j, n). -/
theorem cutT_apply (cw : Vec Ideal S1x8x1024 .f32) (n : Fin 1024) (j : Fin 8) :
    k6_pay4 cw (ix2 n j) = cw (ix3 (0 : Fin 1) j n) := by
  unfold k6_pay4
  show transpose S1024x8 [1, 0] (shapeCast S8x1024 cw _) _ (ix2 n j) = _
  rw [transpose_ix2_apply, shapeCast_1ab_ab_apply]

/-! ## The pointwise operations at an index -/

theorem exp_apply (x : FVec Ideal S1024x128 .f32) (i : S1024x128.Idx) : exp x i = Ideal.exp (x i) := rfl
theorem log_apply (x : FVec Ideal S1024x128 .f32) (i : S1024x128.Idx) : log x i = Ideal.log (x i) := rfl
theorem half_apply (i : S1024x128.Idx) :
    broadcast S1024x128 (Scalar.ofBits (F := Ideal) .f32 0x3F000000#32) i = Ideal.ofBits .f32 0x3F000000#32 := rfl

/-! ## One slot -/

/-- The filter of one slot at row n, lane f, from the slot's staged slice and the weights. -/
def filt (fj : Vec Ideal S1x50x1x1024 .f32) (w1 : Vec Ideal S50x128 .f32) (b1 : Vec Ideal S1x128 .f32)
    (w2 : Vec Ideal S128x128 .f32) (b2 : Vec Ideal S1x128 .f32) (n : Fin 1024) (f : Fin 128) : EReal :=
  (∑ j' : Fin 128, sspK ((∑ m : Fin 50, fj (ix4 (0 : Fin 1) m (0 : Fin 1) n) * w1 (ix2 m j')) + b1 (ix2 (0 : Fin 1) j')) * w2 (ix2 j' f))
    + b2 (ix2 (0 : Fin 1) f)

theorem pay5_apply (cw : Vec Ideal S1x8x1024 .f32) (f0 : Vec Ideal S1x50x1x1024 .f32) (w1 : Vec Ideal S50x128 .f32)
    (b1 : Vec Ideal S1x128 .f32) (w2 : Vec Ideal S128x128 .f32) (b2 : Vec Ideal S1x128 .f32) (g0 : Vec Ideal S1024x128 .f32)
    (n : Fin 1024) (f : Fin 128) :
    k6_pay5 cw f0 w1 b1 w2 b2 g0 (ix2 n f) = filt f0 w1 b1 w2 b2 n f * cw (ix3 (0 : Fin 1) (0 : Fin 8) n) * g0 (ix2 n f) := by
  unfold k6_pay5 filt sspK
  simp only [mulf_apply, addf_apply, shapeCast_self, mm2_apply, mm1_apply, broadcastTo_1b_ab_apply, log_apply, exp_apply, half_apply, castF_apply,
    col_apply _ 0 _ _ 0 rfl, cutT_apply]

/-- The filter from an already cast [50,1024] slice. -/
def filtC (L : FVec Ideal S50x1024 .f32) (w1 : Vec Ideal S50x128 .f32) (b1 : Vec Ideal S1x128 .f32)
    (w2 : Vec Ideal S128x128 .f32) (b2 : Vec Ideal S1x128 .f32) (n : Fin 1024) (f : Fin 128) : EReal :=
  (∑ j' : Fin 128, sspK ((∑ m : Fin 50, L (ix2 m n) * w1 (ix2 m j')) + b1 (ix2 (0 : Fin 1) j')) * w2 (ix2 j' f))
    + b2 (ix2 (0 : Fin 1) f)

theorem pay6_apply (v : Vec Ideal S1x50x1x1024 .f32) (m : Fin 50) (n : Fin 1024) :
    k6_pay6 v (ix2 m n) = v (ix4 (0 : Fin 1) m (0 : Fin 1) n) := by
  unfold k6_pay6
  simp only [castF_apply]

theorem pay14_apply (v : Vec Ideal S1x50x1x1024 .f32) (m : Fin 50) (n : Fin 1024) :
    k6_pay14 v (ix2 m n) = v (ix4 (0 : Fin 1) m (0 : Fin 1) n) := by
  unfold k6_pay14
  simp only [castF_apply]

theorem pay7_apply (v2 : FVec Ideal S1024x8 .f32) (v28 : FVec Ideal S1024x128 .f32) (v30 : FVec Ideal S50x1024 .f32) (w1 : Vec Ideal S50x128 .f32) (b1 : Vec Ideal S1x128 .f32) (w2 : Vec Ideal S128x128 .f32) (b2 : Vec Ideal S1x128 .f32)
    (g : Vec Ideal S1024x128 .f32) (n : Fin 1024) (f : Fin 128) :
    k6_pay7 v2 v28 v30 w1 b1 w2 b2 g (ix2 n f)
      = v28 (ix2 n f) + filtC v30 w1 b1 w2 b2 n f * v2 (ix2 n (1 : Fin 8)) * g (ix2 n f) := by
  unfold k6_pay7 filtC sspK
  simp only [mulf_apply, addf_apply, shapeCast_self, mm2_apply, mm1_apply, broadcastTo_1b_ab_apply, log_apply, exp_apply, half_apply, castF_apply, cutT_apply, col_apply _ 1 _ _ 1 rfl]

theorem pay15_apply (v2 : FVec Ideal S1024x8 .f32) (v136 : FVec Ideal S1024x128 .f32) (v138 : FVec Ideal S50x1024 .f32) (w1 : Vec Ideal S50x128 .f32) (b1 : Vec Ideal S1x128 .f32) (w2 : Vec Ideal S128x128 .f32) (b2 : Vec Ideal S1x128 .f32)
    (g : Vec Ideal S1024x128 .f32) (n : Fin 1024) (f : Fin 128) :
    k6_pay15 v2 v136 v138 w1 b1 w2 b2 g (ix2 n f)
      = v136 (ix2 n f) + filtC v138 w1 b1 w2 b2 n f * v2 (ix2 n (5 : Fin 8)) * g (ix2 n f) := by
  unfold k6_pay15 filtC sspK
  simp only [mulf_apply, addf_apply, shapeCast_self, mm2_apply, mm1_apply, broadcastTo_1b_ab_apply, log_apply, exp_apply, half_apply, castF_apply, cutT_apply, col_apply _ 5 _ _ 5 rfl]

theorem pay8_apply (fj : Vec Ideal S1x50x1x1024 .f32) (w1 : Vec Ideal S50x128 .f32) (b1 : Vec Ideal S1x128 .f32) (n : Fin 1024) (j' : Fin 128) :
    k6_pay8 fj w1 b1 (ix2 n j')
      = Ideal.ofBits .f32 0x3F000000#32
          * Ideal.exp ((∑ m : Fin 50, fj (ix4 (0 : Fin 1) m (0 : Fin 1) n) * w1 (ix2 m j')) + b1 (ix2 (0 : Fin 1) j')) := by
  unfold k6_pay8
  simp only [mulf_apply, addf_apply, shapeCast_self, mm2_apply, mm1_apply, broadcastTo_1b_ab_apply, log_apply, exp_apply, half_apply, castF_apply, cutT_apply]

theorem pay16_apply (fj : Vec Ideal S1x50x1x1024 .f32) (w1 : Vec Ideal S50x128 .f32) (b1 : Vec Ideal S1x128 .f32) (n : Fin 1024) (j' : Fin 128) :
    k6_pay16 fj w1 b1 (ix2 n j')
      = Ideal.ofBits .f32 0x3F000000#32
          * Ideal.exp ((∑ m : Fin 50, fj (ix4 (0 : Fin 1) m (0 : Fin 1) n) * w1 (ix2 m j')) + b1 (ix2 (0 : Fin 1) j')) := by
  unfold k6_pay16
  simp only [mulf_apply, addf_apply, shapeCast_self, mm2_apply, mm1_apply, broadcastTo_1b_ab_apply, log_apply, exp_apply, half_apply, castF_apply, cutT_apply]

theorem pay9_apply (i : S1024x128.Idx) : k6_pay9 (F := Ideal) i = Ideal.ofBits .f32 0x3F000000#32 := rfl
theorem pay17_apply (i : S1024x128.Idx) : k6_pay17 (F := Ideal) i = Ideal.ofBits .f32 0x3F000000#32 := rfl

theorem pay10_apply (v2 : FVec Ideal S1024x8 .f32) (v55 v66 v67 : FVec Ideal S1024x128 .f32) (w2 : Vec Ideal S128x128 .f32) (b2 : Vec Ideal S1x128 .f32)
    (g : Vec Ideal S1024x128 .f32) (n : Fin 1024) (f : Fin 128) :
    k6_pay10 v2 v55 v66 v67 w2 b2 g (ix2 n f)
      = v55 (ix2 n f)
        + ((∑ j' : Fin 128, Ideal.log (v66 (ix2 n j') + v67 (ix2 n j')) * w2 (ix2 j' f)) + b2 (ix2 (0 : Fin 1) f))
          * v2 (ix2 n (2 : Fin 8)) * g (ix2 n f) := by
  unfold k6_pay10
  simp only [mulf_apply, addf_apply, shapeCast_self, mm2_apply, mm1_apply, broadcastTo_1b_ab_apply, log_apply, exp_apply, half_apply, castF_apply, cutT_apply, col_apply _ 2 _ _ 2 rfl]

theorem pay18_apply (v2 : FVec Ideal S1024x8 .f32) (v163 v174 v175 : FVec Ideal S1024x128 .f32) (w2 : Vec Ideal S128x128 .f32) (b2 : Vec Ideal S1x128 .f32)
    (g : Vec Ideal S1024x128 .f32) (n : Fin 1024) (f : Fin 128) :
    k6_pay18 v2 v163 v174 v175 w2 b2 g (ix2 n f)
      = v163 (ix2 n f)
        + ((∑ j' : Fin 128, Ideal.log (v174 (ix2 n j') + v175 (ix2 n j')) * w2 (ix2 j' f)) + b2 (ix2 (0 : Fin 1) f))
          * v2 (ix2 n (6 : Fin 8)) * g (ix2 n f) := by
  unfold k6_pay18
  simp only [mulf_apply, addf_apply, shapeCast_self, mm2_apply, mm1_apply, broadcastTo_1b_ab_apply, log_apply, exp_apply, half_apply, castF_apply, cutT_apply, col_apply _ 6 _ _ 6 rfl]

theorem pay11_apply (fj : Vec Ideal S1x50x1x1024 .f32) (w1 : Vec Ideal S50x128 .f32) (b1 : Vec Ideal S1x128 .f32) (w2 : Vec Ideal S128x128 .f32) (b2 : Vec Ideal S1x128 .f32) (n : Fin 1024) (f : Fin 128) :
    k6_pay11 fj w1 b1 w2 b2 (ix2 n f) = filt fj w1 b1 w2 b2 n f := by
  unfold k6_pay11 filt sspK
  simp only [mulf_apply, addf_apply, shapeCast_self, mm2_apply, mm1_apply, broadcastTo_1b_ab_apply, log_apply, exp_apply, half_apply, castF_apply, cutT_apply]

theorem pay19_apply (fj : Vec Ideal S1x50x1x1024 .f32) (w1 : Vec Ideal S50x128 .f32) (b1 : Vec Ideal S1x128 .f32) (w2 : Vec Ideal S128x128 .f32) (b2 : Vec Ideal S1x128 .f32) (n : Fin 1024) (f : Fin 128) :
    k6_pay19 fj w1 b1 w2 b2 (ix2 n f) = filt fj w1 b1 w2 b2 n f := by
  unfold k6_pay19 filt sspK
  simp only [mulf_apply, addf_apply, shapeCast_self, mm2_apply, mm1_apply, broadcastTo_1b_ab_apply, log_apply, exp_apply, half_apply, castF_apply, cutT_apply]

theorem pay12_apply (v2 : FVec Ideal S1024x8 .f32) (n : Fin 1024) (f : Fin 128) : k6_pay12 v2 (ix2 n f) = v2 (ix2 n (3 : Fin 8)) := by
  unfold k6_pay12
  simp only [col_apply _ 3 _ _ 3 rfl]

theorem pay20_apply (v2 : FVec Ideal S1024x8 .f32) (n : Fin 1024) (f : Fin 128) : k6_pay20 v2 (ix2 n f) = v2 (ix2 n (7 : Fin 8)) := by
  unfold k6_pay20
  simp only [col_apply _ 7 _ _ 7 rfl]

theorem pay13_apply (v2 : FVec Ideal S1024x8 .f32) (v82 v102 v104 : FVec Ideal S1024x128 .f32) (g3 : Vec Ideal S1024x128 .f32)
    (fj : Vec Ideal S1x50x1x1024 .f32) (w1 : Vec Ideal S50x128 .f32) (b1 : Vec Ideal S1x128 .f32) (w2 : Vec Ideal S128x128 .f32) (b2 : Vec Ideal S1x128 .f32) (g4 : Vec Ideal S1024x128 .f32) (n : Fin 1024) (f : Fin 128) :
    k6_pay13 v2 v82 v102 v104 g3 fj w1 b1 w2 b2 g4 (ix2 n f)
      = (v82 (ix2 n f) + v102 (ix2 n f) * v104 (ix2 n f) * g3 (ix2 n f))
        + filt fj w1 b1 w2 b2 n f * v2 (ix2 n (4 : Fin 8)) * g4 (ix2 n f) := by
  unfold k6_pay13 filt sspK
  simp only [mulf_apply, addf_apply, shapeCast_self, mm2_apply, mm1_apply, broadcastTo_1b_ab_apply, log_apply, exp_apply, half_apply, castF_apply, cutT_apply, col_apply _ 4 _ _ 4 rfl]

theorem pay1_apply (v190 v210 v212 : FVec Ideal S1024x128 .f32) (g7 : Vec Ideal S1024x128 .f32) (i : S1024x128.Idx) :
    k6_pay1 v190 v210 v212 g7 i = v190 i + v210 i * v212 i * g7 i := by
  unfold k6_pay1
  simp only [mulf_apply, addf_apply, shapeCast_self]

/-! ## The loads -/

theorem hz2 : (![0, 0] : Fin 2 → Nat) = fun _ => 0 := funext fun a => by fin_cases a <;> rfl
theorem hz3 : (![0, 0, 0] : Fin 3 → Nat) = fun _ => 0 := funext fun a => by fin_cases a <;> rfl

/-- Slot j of the staged filter inputs, read at (0, m, 0, n). -/
theorem ldF_apply (o : Nat)
    (inb : ∀ a, (![0, 0, o, 0] : Fin 4 → Nat) a + S1x50x1x1024.size a ≤ S1x50x8x1024.size a) (j : Fin 8) (ho : j.val = o)
    (m : Fin 50) (n : Fin 1024) :
    LoadRect.idx (Rect.unit (s := S1x50x8x1024) ![0, 0, o, 0] S1x50x1x1024.size inb).toLoadRect (ix4 (0 : Fin 1) m (0 : Fin 1) n)
      = ix4 (0 : Fin 1) m j n :=
  (funext fun a => Fin.ext (by
    match a with
    | ⟨0, _⟩ => rfl
    | ⟨1, _⟩ => show 0 + 1 * m.val = m.val; omega
    | ⟨2, _⟩ => show o + 1 * 0 = j.val; omega
    | ⟨3, _⟩ => show 0 + 1 * n.val = n.val; omega))

/-- Slot j of the staged gathered rows, read at (n, f): row o + n. -/
theorem ldG_apply (o : Nat)
    (inb : ∀ a, (![o, 0] : Fin 2 → Nat) a + S1024x128.size a ≤ S8192x128.size a) (j : Fin 8) (ho : o = 1024 * j.val)
    (n : Fin 1024) (f : Fin 128) :
    LoadRect.idx (Rect.unit (s := S8192x128) ![o, 0] S1024x128.size inb).toLoadRect (ix2 n f)
      = ix2 (⟨1024 * j.val + n.val, by have := j.isLt; have := n.isLt; omega⟩ : Fin 8192) f :=
  (funext fun a => Fin.ext (by
    match a with
    | ⟨0, _⟩ => show o + 1 * n.val = 1024 * j.val + n.val; omega
    | ⟨1, _⟩ => show 0 + 1 * f.val = f.val; omega))

/-! ## A point's sum at an index -/

/-- Slot j of a point's sum at row n, lane f, from the point's seven staged inputs. -/
def slotOf (x : Ins Ideal) (j : Fin 8) (n : Fin 1024) (f : Fin 128) : EReal :=
  ((∑ j' : Fin 128,
        sspK ((∑ m : Fin 50, x.f (ix4 (0 : Fin 1) m j n) * x.w1 (ix2 m j')) + x.b1 (ix2 (0 : Fin 1) j')) * x.w2 (ix2 j' f))
      + x.b2 (ix2 (0 : Fin 1) f))
    * x.cut (ix3 (0 : Fin 1) j n)
    * x.g (ix2 (⟨1024 * j.val + n.val, by have := j.isLt; have := n.isLt; omega⟩ : Fin 8192) f)

/-- The eight slots added in the body's order. -/
def sumOf (x : Ins Ideal) (n : Fin 1024) (f : Fin 128) : EReal :=
  ((((((slotOf x 0 n f + slotOf x 1 n f) + slotOf x 2 n f) + slotOf x 3 n f) + slotOf x 4 n f) + slotOf x 5 n f)
    + slotOf x 6 n f) + slotOf x 7 n f

theorem psum_apply (x : Ins Ideal) (n : Fin 1024) (f : Fin 128) :
    k6_pay1 (upto6 x).1 (upto6 x).2.1 (upto6 x).2.2 (View.ld x.g rG7) (ix2 n f) = sumOf x n f := by
  unfold upto6 sumOf slotOf
  simp only [pay1_apply, pay5_apply, pay6_apply, pay7_apply, pay8_apply, pay9_apply, pay10_apply, pay11_apply, pay12_apply, pay13_apply, pay14_apply, pay15_apply, pay16_apply, pay17_apply, pay18_apply, pay19_apply, pay20_apply, filt, filtC, sspK, cutT_apply,
    View.ld_unit_zero (S := S50x128) hz2, View.ld_unit_zero (S := S1x128) hz2, View.ld_unit_zero (S := S128x128) hz2,
    View.ld_unit_zero (S := S1x8x1024) hz3,
    ldF_apply 0 _ 0 rfl, ldF_apply 1 _ 1 rfl, ldF_apply 2 _ 2 rfl, ldF_apply 3 _ 3 rfl, ldF_apply 4 _ 4 rfl, ldF_apply 5 _ 5 rfl, ldF_apply 6 _ 6 rfl, ldF_apply 7 _ 7 rfl,
    ldG_apply 0 _ 0 rfl, ldG_apply 1024 _ 1 rfl, ldG_apply 2048 _ 2 rfl, ldG_apply 3072 _ 3 rfl, ldG_apply 4096 _ 4 rfl, ldG_apply 5120 _ 5 rfl, ldG_apply 6144 _ 6 rfl, ldG_apply 7168 _ 7 rfl]
  simp only [View.ld, ldF_apply 0 _ 0 rfl, ldF_apply 1 _ 1 rfl, ldF_apply 2 _ 2 rfl, ldF_apply 3 _ 3 rfl, ldF_apply 4 _ 4 rfl, ldF_apply 5 _ 5 rfl, ldF_apply 6 _ 6 rfl, ldF_apply 7 _ 7 rfl,
    ldG_apply 0 _ 0 rfl, ldG_apply 1024 _ 1 rfl, ldG_apply 2048 _ 2 rfl, ldG_apply 3072 _ 3 rfl, ldG_apply 4096 _ 4 rfl, ldG_apply 5120 _ 5 rfl, ldG_apply 6144 _ 6 rfl, ldG_apply 7168 _ 7 rfl]

/-! ## The closed form -/

section Closed

variable (c : Dev nD) (A : (w : Fin cfg6.W) → Buf (Elt Ideal) ((cfg6.win w).arr.view.loc (c.tc : Thread nD τ)))

/-- The seven input arrays at their literal shapes. -/
abbrev aF : S8x50x64x1024.Idx → EReal := A 0
abbrev aY : S131072x128.Idx → EReal := A 1
abbrev aC : S8x64x1024.Idx → EReal := A 2
abbrev aW1 : S50x128.Idx → EReal := A 3
abbrev aB1 : S1x128.Idx → EReal := A 4
abbrev aW2 : S128x128.Idx → EReal := A 5
abbrev aB2 : S1x128.Idx → EReal := A 6

/-- Slot j of point (bi, kg) at row n, lane f: the filter of slot 8·(4 + kg) + j, times its cutoff-and-mask entry, times
    the gathered row. -/
def slotTerm (bi : Fin 8) (kg : Fin 2) (j : Fin 8) (n : Fin 1024) (f : Fin 128) : EReal :=
  ((∑ j' : Fin 128,
        sspK ((∑ m : Fin 50, aF c A (ix4 bi m (⟨8 * (4 + kg.val) + j.val, by have := kg.isLt; have := j.isLt; omega⟩ : Fin 64) n) * aW1 c A (ix2 m j'))
              + aB1 c A (ix2 (0 : Fin 1) j'))
          * aW2 c A (ix2 j' f))
      + aB2 c A (ix2 (0 : Fin 1) f))
    * aC c A (ix3 bi (⟨8 * (4 + kg.val) + j.val, by have := kg.isLt; have := j.isLt; omega⟩ : Fin 64) n)
    * aY c A (ix2 (⟨(2 * bi.val + kg.val) * 8192 + 1024 * j.val + n.val, by have := bi.isLt; have := kg.isLt; have := j.isLt; have := n.isLt; omega⟩ : Fin 131072) f)

/-- The point's sum, the eight slots added in the body's order. -/
def pointSum (bi : Fin 8) (kg : Fin 2) (n : Fin 1024) (f : Fin 128) : EReal :=
  ((((((slotTerm c A bi kg 0 n f + slotTerm c A bi kg 1 n f) + slotTerm c A bi kg 2 n f) + slotTerm c A bi kg 3 n f)
      + slotTerm c A bi kg 4 n f) + slotTerm c A bi kg 5 n f) + slotTerm c A bi kg 6 n f) + slotTerm c A bi kg 7 n f

/-! ## The staged inputs, read through the windows' index maps -/

/-- The printed index maps over the grid: point t = 2·b + g stages block (b, 0, 4 + g, 0) of the filter inputs, block t of
    the gathered rows, block (b, 4 + g, 0) of the cutoff-and-mask array, all of each weight array, and block b of the output. -/
theorem idx_facts : ∀ t : Fin cfg6.N,
    win6_0.index t (0 : Fin 4) = t.val / 2 ∧ win6_0.index t (1 : Fin 4) = 0 ∧ win6_0.index t (2 : Fin 4) = 4 + t.val % 2
    ∧ win6_0.index t (3 : Fin 4) = 0
    ∧ win6_1.index t (0 : Fin 2) = t.val ∧ win6_1.index t (1 : Fin 2) = 0
    ∧ win6_2.index t (0 : Fin 3) = t.val / 2 ∧ win6_2.index t (1 : Fin 3) = 4 + t.val % 2 ∧ win6_2.index t (2 : Fin 3) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = t.val / 2 ∧ win6_7.index t (1 : Fin 2) = 0 :=
  (by decide +kernel : ∀ t : Fin grid6.N, _)

/-- The filter inputs staged at point t = 2·bi + kg: slots 8·(4 + kg) … 8·(4 + kg) + 7 of batch bi. -/
theorem readF (t : Fin cfg6.N) (bi : Fin 8) (kg : Fin 2) (ht : t.val = 2 * bi.val + kg.val) (m : Fin 50) (j : Fin 8) (n : Fin 1024) :
    blockAt c A 0 t (ix4 (0 : Fin 1) m j n) = aF c A (ix4 bi m (⟨8 * (4 + kg.val) + j.val, by have := kg.isLt; have := j.isLt; omega⟩ : Fin 64) n) := by
  obtain ⟨e0, e1, e2, e3, -⟩ := idx_facts t
  show aF c A (((cfg6.win 0).blk t).view.emb (ix4 (0 : Fin 1) m j n)) = _
  refine congrArg (aF c A) (funext fun a => Fin.ext ?_)
  have := bi.isLt; have := kg.isLt
  match a with
  | ⟨0, _⟩ => show win6_0.index t (0 : Fin 4) * 1 + 1 * 0 = bi.val; omega
  | ⟨1, _⟩ => show win6_0.index t (1 : Fin 4) * 50 + 1 * m.val = m.val; omega
  | ⟨2, _⟩ => show win6_0.index t (2 : Fin 4) * 8 + 1 * j.val = 8 * (4 + kg.val) + j.val; omega
  | ⟨3, _⟩ => show win6_0.index t (3 : Fin 4) * 1024 + 1 * n.val = n.val; omega

/-- The gathered rows staged at point t: rows 8192·t … of the gathered array. -/
theorem readY (t : Fin cfg6.N) (bi : Fin 8) (kg : Fin 2) (ht : t.val = 2 * bi.val + kg.val) (j : Fin 8) (n : Fin 1024) (f : Fin 128) :
    blockAt c A 1 t (ix2 (⟨1024 * j.val + n.val, by have := j.isLt; have := n.isLt; omega⟩ : Fin 8192) f) = aY c A (ix2 (⟨(2 * bi.val + kg.val) * 8192 + 1024 * j.val + n.val, by have := bi.isLt; have := kg.isLt; have := j.isLt; have := n.isLt; omega⟩ : Fin 131072) f) := by
  obtain ⟨-, -, -, -, e0, e1, -⟩ := idx_facts t
  show aY c A (((cfg6.win 1).blk t).view.emb (ix2 (⟨1024 * j.val + n.val, by have := j.isLt; have := n.isLt; omega⟩ : Fin 8192) f)) = _
  refine congrArg (aY c A) (funext fun a => Fin.ext ?_)
  match a with
  | ⟨0, _⟩ => show win6_1.index t (0 : Fin 2) * 8192 + 1 * (1024 * j.val + n.val) = (2 * bi.val + kg.val) * 8192 + 1024 * j.val + n.val; omega
  | ⟨1, _⟩ => show win6_1.index t (1 : Fin 2) * 128 + 1 * f.val = f.val; omega

/-- The cutoff-and-mask columns staged at point t. -/
theorem readC (t : Fin cfg6.N) (bi : Fin 8) (kg : Fin 2) (ht : t.val = 2 * bi.val + kg.val) (j : Fin 8) (n : Fin 1024) :
    blockAt c A 2 t (ix3 (0 : Fin 1) j n) = aC c A (ix3 bi (⟨8 * (4 + kg.val) + j.val, by have := kg.isLt; have := j.isLt; omega⟩ : Fin 64) n) := by
  obtain ⟨-, -, -, -, -, -, e0, e1, e2, -⟩ := idx_facts t
  show aC c A (((cfg6.win 2).blk t).view.emb (ix3 (0 : Fin 1) j n)) = _
  refine congrArg (aC c A) (funext fun a => Fin.ext ?_)
  have := bi.isLt; have := kg.isLt
  match a with
  | ⟨0, _⟩ => show win6_2.index t (0 : Fin 3) * 1 + 1 * 0 = bi.val; omega
  | ⟨1, _⟩ => show win6_2.index t (1 : Fin 3) * 8 + 1 * j.val = 8 * (4 + kg.val) + j.val; omega
  | ⟨2, _⟩ => show win6_2.index t (2 : Fin 3) * 1024 + 1 * n.val = n.val; omega

/-- Each weight array is staged whole at every point. -/
theorem readW1 (t : Fin cfg6.N) (y : S50x128.Idx) : blockAt c A 3 t y = aW1 c A y := by
  obtain ⟨-, -, -, -, -, -, -, -, -, e0, e1, -⟩ := idx_facts t
  show aW1 c A (((cfg6.win 3).blk t).view.emb y) = _
  refine congrArg (aW1 c A) (funext fun a => Fin.ext ?_)
  match a with
  | ⟨0, _⟩ => show win6_3.index t (0 : Fin 2) * 50 + 1 * (y 0).val = (y 0).val; omega
  | ⟨1, _⟩ => show win6_3.index t (1 : Fin 2) * 128 + 1 * (y 1).val = (y 1).val; omega
theorem readB1 (t : Fin cfg6.N) (y : S1x128.Idx) : blockAt c A 4 t y = aB1 c A y := by
  obtain ⟨-, -, -, -, -, -, -, -, -, -, -, e0, e1, -⟩ := idx_facts t
  show aB1 c A (((cfg6.win 4).blk t).view.emb y) = _
  refine congrArg (aB1 c A) (funext fun a => Fin.ext ?_)
  match a with
  | ⟨0, _⟩ => show win6_4.index t (0 : Fin 2) * 1 + 1 * (y 0).val = (y 0).val; omega
  | ⟨1, _⟩ => show win6_4.index t (1 : Fin 2) * 128 + 1 * (y 1).val = (y 1).val; omega
theorem readW2 (t : Fin cfg6.N) (y : S128x128.Idx) : blockAt c A 5 t y = aW2 c A y := by
  obtain ⟨-, -, -, -, -, -, -, -, -, -, -, -, -, e0, e1, -⟩ := idx_facts t
  show aW2 c A (((cfg6.win 5).blk t).view.emb y) = _
  refine congrArg (aW2 c A) (funext fun a => Fin.ext ?_)
  match a with
  | ⟨0, _⟩ => show win6_5.index t (0 : Fin 2) * 128 + 1 * (y 0).val = (y 0).val; omega
  | ⟨1, _⟩ => show win6_5.index t (1 : Fin 2) * 128 + 1 * (y 1).val = (y 1).val; omega
theorem readB2 (t : Fin cfg6.N) (y : S1x128.Idx) : blockAt c A 6 t y = aB2 c A y := by
  obtain ⟨-, -, -, -, -, -, -, -, -, -, -, -, -, -, -, e0, e1, -⟩ := idx_facts t
  show aB2 c A (((cfg6.win 6).blk t).view.emb y) = _
  refine congrArg (aB2 c A) (funext fun a => Fin.ext ?_)
  match a with
  | ⟨0, _⟩ => show win6_6.index t (0 : Fin 2) * 1 + 1 * (y 0).val = (y 0).val; omega
  | ⟨1, _⟩ => show win6_6.index t (1 : Fin 2) * 128 + 1 * (y 1).val = (y 1).val; omega

/-- A slot of point t = 2·bi + kg, from the arrays. -/
theorem slot_insAt (t : Fin cfg6.N) (bi : Fin 8) (kg : Fin 2) (ht : t.val = 2 * bi.val + kg.val) (j : Fin 8) (n : Fin 1024) (f : Fin 128) :
    slotOf (insAt c A t) j n f = slotTerm c A bi kg j n f := by
  unfold slotOf slotTerm insAt
  simp only [readF c A t bi kg ht, readY c A t bi kg ht, readC c A t bi kg ht, readW1 c A t, readB1 c A t, readW2 c A t, readB2 c A t]

/-- The sum of point t = 2·bi + kg, from the arrays. -/
theorem sum_insAt (t : Fin cfg6.N) (bi : Fin 8) (kg : Fin 2) (ht : t.val = 2 * bi.val + kg.val) (n : Fin 1024) (f : Fin 128) :
    sumOf (insAt c A t) n f = pointSum c A bi kg n f := by
  unfold sumOf pointSum
  simp only [slot_insAt c A t bi kg ht]

/-! ## The write-backs -/

/-- One store through the whole accumulator leaves its payload; a load through the whole accumulator reads it. -/
theorem whole_eq (p : Vec Ideal S1024x128 .f32) : whole p = p := by
  unfold whole
  exact View.canon_unit_zero hz2 _ p
theorem ldBig_eq (X : Vec Ideal S1024x128 .f32) : View.ld X rBig = X := View.ld_unit_zero (S := S1024x128) hz2 _ X

theorem first_apply (x : Ins Ideal) (n : Fin 1024) (f : Fin 128) : first x (ix2 n f) = sumOf x n f := by
  unfold first k6_pay2
  rw [shapeCast_self]
  exact psum_apply x n f

theorem second_apply (x : Ins Ideal) (acc : Vec Ideal S1024x128 .f32) (n : Fin 1024) (f : Fin 128) :
    second x acc (ix2 n f) = acc (ix2 n f) + sumOf x n f := by
  unfold second k6_pay3
  rw [shapeCast_self, addf_apply, psum_apply]

/-- What point t writes back (at the second point of a pair): the sum of the point before it plus its own. -/
theorem flushed_apply (q : Fin cfg6.W → PosShare TreeShare) (R Rm : sProp 𝕄) (O : CellTallies nD τ sig Ix) (B : Set (SemLoc sig × Ix))
    (t : Fin cfg6.N) (n : Fin 1024) (f : Fin 128) :
    (dat (F := Ideal) (Ix := Ix) (Name := Name) (U := U) (Lvl := Lvl) c A q R Rm O B).flushed 7 t (ix2 n f) = sumOf (insAt c A (prev t)) n f + sumOf (insAt c A t) n f := by
  show (dat (F := Ideal) (Ix := Ix) (Name := Name) (U := U) (Lvl := Lvl) c A q R Rm O B).after 7 t (ix2 n f) = _
  rw [after_out c A q O B R Rm t, whole_eq, ldBig_eq]
  unfold accSecond
  rw [whole_eq, second_apply, ldBig_eq]
  unfold accFirst
  rw [whole_eq, first_apply]

/-! ## The array -/

/-- What the output array holds at row r, lane f: the two sums of pair r / 1024, at row r % 1024. -/
def outVal (r : Fin 8192) (f : Fin 128) : EReal :=
  pointSum c A ⟨r.val / 1024, by have := r.isLt; omega⟩ 0 ⟨r.val % 1024, Nat.mod_lt _ (by decide)⟩ f
    + pointSum c A ⟨r.val / 1024, by have := r.isLt; omega⟩ 1 ⟨r.val % 1024, Nat.mod_lt _ (by decide)⟩ f

theorem outVal_eq (r : Fin 8192) (bi : Fin 8) (n : Fin 1024) (h : r.val = 1024 * bi.val + n.val) (f : Fin 128) :
    outVal c A r f = pointSum c A bi 0 n f + pointSum c A bi 1 n f := by
  have hb : (⟨r.val / 1024, by have := r.isLt; omega⟩ : Fin 8) = bi := Fin.ext (by have := n.isLt; show r.val / 1024 = bi.val; omega)
  have hn : (⟨r.val % 1024, Nat.mod_lt _ (by decide)⟩ : Fin 1024) = n := Fin.ext (by have := n.isLt; show r.val % 1024 = n.val; omega)
  unfold outVal
  rw [hb, hn]

/-- The whole output array as one function of the seven input arrays. -/
def G : S8192x128.Idx → EReal := fun i => outVal c A (i 0) (i 1)

theorem G_apply (z : S8192x128.Idx) (bi : Fin 8) (n : Fin 1024) (f : Fin 128) (h0 : (z 0).val = 1024 * bi.val + n.val)
    (h1 : (z 1).val = f.val) : G c A z = pointSum c A bi 0 n f + pointSum c A bi 1 n f := by
  have e1 : z 1 = f := Fin.ext h1
  unfold G
  rw [e1]
  exact outVal_eq c A (z 0) bi n h0 f

/-- What a flushing point writes back is its block of G. -/
theorem flushed_eq (q : Fin cfg6.W → PosShare TreeShare) (R Rm : sProp 𝕄) (O : CellTallies nD τ sig Ix) (B : Set (SemLoc sig × Ix))
    (t : Fin cfg6.N) (hf : (cfg6.win 7).flush t = true) :
    (dat (F := Ideal) (Ix := Ix) (Name := Name) (U := U) (Lvl := Lvl) c A q R Rm O B).flushed 7 t = ((cfg6.win 7).blk t).view.read (Elt Ideal) (G c A) := by
  have hodd : t.val % 2 = 1 := by rw [flush7 t] at hf; exact of_decide_eq_true hf
  have htN : t.val < 16 := by have h := t.isLt; have h1 : cfg6.N = 16 := N_6; omega
  obtain ⟨-, -, -, -, -, -, -, -, -, -, -, -, -, -, -, -, -, e0, e1⟩ := idx_facts t
  funext y
  obtain ⟨n, f, rfl⟩ : ∃ (n : Fin 1024) (f : Fin 128), y = ix2 n f := ⟨y 0, y 1, eq_ix2 y⟩
  rw [flushed_apply c A q R Rm O B t n f]
  show _ = G c A (((cfg6.win 7).blk t).view.emb (ix2 n f))
  rw [G_apply c A _ ⟨t.val / 2, by omega⟩ n f
        (by show win6_7.index t (0 : Fin 2) * 1024 + 1 * n.val = 1024 * (t.val / 2) + n.val; omega)
        (by show win6_7.index t (1 : Fin 2) * 128 + 1 * f.val = f.val; omega),
      sum_insAt c A (prev t) ⟨t.val / 2, by omega⟩ 0 (by show t.val - 1 = 2 * (t.val / 2) + 0; omega) n f,
      sum_insAt c A t ⟨t.val / 2, by omega⟩ 1 (by show t.val = 2 * (t.val / 2) + 1; omega) n f]

/-- The output array after the region, read at row 1024·bi + n, lane f. -/
theorem fused_closed (q : Fin cfg6.W → PosShare TreeShare) (R Rm : sProp 𝕄) (O : CellTallies nD τ sig Ix) (B : Set (SemLoc sig × Ix))
    (bi : Fin 8) (n : Fin 1024) (f : Fin 128) :
    (dat (F := Ideal) (Ix := Ix) (Name := Name) (U := U) (Lvl := Lvl) c A q R Rm O B).arrAt 7 cfg6.N
        (ix2 (⟨1024 * bi.val + n.val, by have := bi.isLt; have := n.isLt; omega⟩ : Fin 8192) f)
      = pointSum c A bi 0 n f + pointSum c A bi 1 n f := by
  have hbi := bi.isLt
  have hn := n.isLt
  have hfl := f.isLt
  -- the second point of pair bi
  obtain ⟨t, ht⟩ : ∃ t : Fin cfg6.N, t.val = 2 * bi.val + 1 :=
    ⟨⟨2 * bi.val + 1, by have h1 : cfg6.N = 16 := N_6; have h2 : grid6.N = 16 := N_6; omega⟩, rfl⟩
  have hf : (cfg6.win 7).flush t = true := by
    rw [flush7 t]; exact decide_eq_true (by omega)
  obtain ⟨-, -, -, -, -, -, -, -, -, -, -, -, -, -, -, -, -, e0, e1⟩ := idx_facts t
  -- the index is in that point's block
  have hmem : ∀ i : S8192x128.Idx, (i 0).val = 1024 * bi.val + n.val → i ∈ ((cfg6.win 7).blk t).view.set := by
    intro i hi
    show i ∈ ((View.whole main_v29).slice (win6_7.rect t)).set
    rw [View.set_slice_whole, Rect.mem_set_unit]
    intro a
    have hi1 : (i 1).val < 128 := (i 1).isLt
    match a with
    | ⟨0, _⟩ =>
      show win6_7.index t (0 : Fin 2) * 1024 ≤ (i 0).val ∧ (i 0).val < win6_7.index t (0 : Fin 2) * 1024 + 1024
      omega
    | ⟨1, _⟩ =>
      show win6_7.index t (1 : Fin 2) * 128 ≤ (i 1).val ∧ (i 1).val < win6_7.index t (1 : Fin 2) * 128 + 128
      omega
  rw [Pipeline.Dat.arrAt_apply_of_mem (dat (F := Ideal) (Ix := Ix) (Name := Name) (U := U) (Lvl := Lvl) c A q R Rm O B) 7 (G c A)
        (fun t hf => flushed_eq c A q R Rm O B t hf) cfg6.N t _ t.isLt hf (hmem _ rfl)]
  exact G_apply c A _ bi n f rfl rfl

end Closed

end Cert.KernelIdeal.Region3V

end
-- ==== Proof.Region4Value.lean ====
/-
  The closed form, at the ideal values, of what a fused tensor-core region leaves in its output array.

  The region's body computes, for each of 8 slots, a two-layer filter of the slot's 50 inputs (a contraction with W₁,
  plus b₁, the shifted softplus log(½·exp v + ½), a contraction with W₂, plus b₂), multiplies it by the slot's
  cutoff-and-mask entry and by the slot's gathered row, and adds the eight products in slot order. Over the grid 8 × 2
  the two points of a pair add their sums; the second writes the total to rows 1024·b … of the output array.

  Below: each operation of the body that is not pointwise read at an index; each of the body's named values
  (the generated pure terms) read at an index; a point's sum as a function of its seven staged inputs; the staged
  inputs as the arrays read through the windows' index maps; the write-backs joined into the array.
-/
import proofs.«215235_g2774548873965_cont_9to1_572_34_alg».proof.Proof.Region4Body
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region4V

open Cert.KernelIdeal Cert.KernelIdeal.Gen Cert.KernelIdeal.Region4B
open Idealize.ShloMosaic Idealize.ShloMosaic.TcCoe Idealize.ShloMosaic.ValueIdx
open Idealize.SL Idealize.SL.RA Idealize.SL.BI
open Idealize.ShloMosaic.Pipeline (Dat Cfg Window)
open scoped BigOperators

variable {Ix : Type} [DecidableEq Ix] {Name : Type} [DecidableEq Name] {U : Type} [URA U] {Lvl : Type} [Preorder Lvl]

local notation "𝕄" => MT nD τ sig Ix (Elt Ideal) Name U Lvl

/-- The shifted softplus as the body spells it: log (½ · exp v + ½), the two halves the same binary word. -/
def sspK (v : EReal) : EReal :=
  Ideal.log (Ideal.ofBits .f32 0x3F000000#32 * Ideal.exp v + Ideal.ofBits .f32 0x3F000000#32)

/-! ## The operations that are not pointwise, each read at an index -/

/-- The operand indices of the two contractions on the axes that are not contracted. -/
theorem mm1_lhs1 (i : S1024x128.Idx) (q : dot_S50x1024_S50x128_S1024x128_0_0_1_1_n_n.contr.Idx) :
    (dot_S50x1024_S50x128_S1024x128_0_0_1_1_n_n.lhsIdx i q 1).val = (i 0).val := by
  unfold DotDims.lhsIdx
  rw [dif_neg (show ¬(1 : Fin S50x1024.rank) ∈ dot_S50x1024_S50x128_S1024x128_0_0_1_1_n_n.lhsBatch by decide),
    dif_pos (show (1 : Fin S50x1024.rank) ∈ dot_S50x1024_S50x128_S1024x128_0_0_1_1_n_n.lhsNonContracting by decide)]
  rfl
theorem mm1_rhs1 (i : S1024x128.Idx) (q : dot_S50x1024_S50x128_S1024x128_0_0_1_1_n_n.contr.Idx) :
    (dot_S50x1024_S50x128_S1024x128_0_0_1_1_n_n.rhsIdx i q 1).val = (i 1).val := by
  unfold DotDims.rhsIdx
  rw [dif_neg (show ¬(1 : Fin S50x128.rank) ∈ dot_S50x1024_S50x128_S1024x128_0_0_1_1_n_n.rhsBatch by decide),
    dif_pos (show (1 : Fin S50x128.rank) ∈ dot_S50x1024_S50x128_S1024x128_0_0_1_1_n_n.rhsNonContracting by decide)]
  rfl
theorem mm2_lhs0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide),
    dif_pos (show (0 : Fin S1024x128.rank) ∈ dot_S1024x128_S128x128_S1024x128_1_0_0_1_n_n.lhsNonContracting by decide)]
  rfl
theorem mm2_rhs1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide),
    dif_pos (show (1 : Fin S128x128.rank) ∈ dot_S1024x128_S128x128_S1024x128_1_0_0_1_n_n.rhsNonContracting by decide)]
  rfl

/-- The first contraction: axis 0 of a [50,1024] operand against axis 0 of a [50,128] one, into zeros. -/
theorem mm1_apply (L : FVec Ideal S50x1024 .f32) (w : FVec Ideal S50x128 .f32) (n : Fin 1024) (j' : Fin 128) :
    matmul dot_S50x1024_S50x128_S1024x128_0_0_1_1_n_n none L w (constant S1024x128 .f32 0x00000000#32) (ix2 n j')
      = ∑ m : Fin 50, L (ix2 m n) * w (ix2 m j') := by
  simp only [matmul]
  rw [Ideal.matmul_constant_zero_apply, ← Equiv.sum_comp (contrEquiv1 dot_S50x1024_S50x128_S1024x128_0_0_1_1_n_n 50 rfl rfl).symm]
  refine Finset.sum_congr rfl fun k _ => ?_
  have hk := contrEquiv1_symm_val dot_S50x1024_S50x128_S1024x128_0_0_1_1_n_n 50 rfl rfl k
  have el : dot_S50x1024_S50x128_S1024x128_0_0_1_1_n_n.lhsIdx (ix2 n j') ((contrEquiv1 dot_S50x1024_S50x128_S1024x128_0_0_1_1_n_n 50 rfl rfl).symm k) = ix2 k n :=
    funext fun a => Fin.ext (by
      match a with
      | ⟨0, _⟩ => exact (dot_S50x1024_S50x128_S1024x128_0_0_1_1_n_n.lhsIdx_val_of_single rfl _ _).trans hk
      | ⟨1, _⟩ => exact mm1_lhs1 _ _)
  have er : dot_S50x1024_S50x128_S1024x128_0_0_1_1_n_n.rhsIdx (ix2 n j') ((contrEquiv1 dot_S50x1024_S50x128_S1024x128_0_0_1_1_n_n 50 rfl rfl).symm k) = ix2 k j' :=
    funext fun a => Fin.ext (by
      match a with
      | ⟨0, _⟩ => exact (dot_S50x1024_S50x128_S1024x128_0_0_1_1_n_n.rhsIdx_val_of_single rfl _ _).trans hk
      | ⟨1, _⟩ => exact mm1_rhs1 _ _)
  rw [el, er]

/-- The second contraction: the lanes of a [1024,128] operand against axis 0 of a [128,128] one, into zeros. -/
theorem mm2_apply (L : FVec Ideal S1024x128 .f32) (w : FVec Ideal S128x128 .f32) (n : Fin 1024) (f : Fin 128) :
    matmul dot_S1024x128_S128x128_S1024x128_1_0_0_1_n_n none L w (constant S1024x128 .f32 0x00000000#32) (ix2 n f)
      = ∑ j' : Fin 128, L (ix2 n j') * w (ix2 j' f) := by
  simp only [matmul]
  rw [Ideal.matmul_constant_zero_apply, ← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 n f) ((contrEquiv1 dot_S1024x128_S128x128_S1024x128_1_0_0_1_n_n 128 rfl rfl).symm k) = ix2 n k :=
    funext fun a => Fin.ext (by
      match a with
      | ⟨0, _⟩ => exact mm2_lhs0 _ _
      | ⟨1, _⟩ => exact (dot_S1024x128_S128x128_S1024x128_1_0_0_1_n_n.lhsIdx_val_of_single rfl _ _).trans hk)
  have er : dot_S1024x128_S128x128_S1024x128_1_0_0_1_n_n.rhsIdx (ix2 n f) ((contrEquiv1 dot_S1024x128_S128x128_S1024x128_1_0_0_1_n_n 128 rfl rfl).symm k) = ix2 k f :=
    funext fun a => Fin.ext (by
      match a with
      | ⟨0, _⟩ => exact (dot_S1024x128_S128x128_S1024x128_1_0_0_1_n_n.rhsIdx_val_of_single rfl _ _).trans hk
      | ⟨1, _⟩ => exact mm2_rhs1 _ _)
  rw [el, er]

/-- A staged slice [1,50,1,1024] cast to [50,1024]. -/
theorem castF_apply {α : Type} (v : S1x50x1x1024.Idx → α) (h : S1x50x1x1024.ShapeCasts S50x1024) (m : Fin 50) (n : Fin 1024) :
    shapeCast S50x1024 v h (ix2 m n) = v (ix4 (0 : Fin 1) m (0 : Fin 1) n) :=
  shapeCast_apply v h _ _ (by
    rw [Shape.rowMajor_val_four, Shape.rowMajor_val_two]
    show ((0 * 50 + m.val) * 1 + 0) * 1024 + n.val = m.val * 1024 + n.val
    omega)

/-- A bias row [1,128], cast to itself and broadcast over the 1024 rows. -/
theorem bias_apply {α : Type} (b : S1x128.Idx → α) (h : S1x128.ShapeCasts S1x128) (h' : S1x128.Broadcasts S1024x128) (n : Fin 1024) (f : Fin 128) :
    broadcastTo S1024x128 (shapeCast S1x128 b h) h' (ix2 n f) = b (ix2 (0 : Fin 1) f) := by
  rw [shapeCast_self]
  exact broadcastTo_1b_ab_apply b h' n f

/-- Column j of a [1024,8] array, broadcast over the 128 lanes. -/
theorem col_apply {α : Type} (v : S1024x8.Idx → α) (o : Nat) (h : S1024x8.Slices ![0, o] S1024x1) (h' : S1024x1.Broadcasts S1024x128)
    (j : Fin 8) (ho : j.val = o) (n : Fin 1024) (f : Fin 128) :
    broadcastTo S1024x128 (extractStridedSlice S1024x1 ![0, o] v h) h' (ix2 n f) = v (ix2 n j) := by
  have e1 : broadcastTo S1024x128 (extractStridedSlice S1024x1 ![0, o] v h) h' (ix2 n f)
      = extractStridedSlice S1024x1 ![0, o] v h (ix2 n (0 : Fin 1)) :=
    broadcastTo_apply _ h' (ix2 n f) (ix2 n (0 : Fin 1)) fun ax => by
      match ax with
      | ⟨0, _⟩ => show n.val = if (1024 : Nat) = 1 then 0 else n.val; rw [if_neg (by decide)]
      | ⟨1, _⟩ => rfl
  rw [e1]
  exact slice2_axis1_apply o v h n (0 : Fin 1) j (by show j.val = o + 0; omega)

/-- The cutoff-and-mask block [1,8,1024] cast to [8,1024] and transposed: entry (n, j) is the block's (0, j, n). -/
theorem cutT_apply (cw : Vec Ideal S1x8x1024 .f32) (n : Fin 1024) (j : Fin 8) :
    k8_pay4 cw (ix2 n j) = cw (ix3 (0 : Fin 1) j n) := by
  unfold k8_pay4
  show transpose S1024x8 [1, 0] (shapeCast S8x1024 cw _) _ (ix2 n j) = _
  rw [transpose_ix2_apply, shapeCast_1ab_ab_apply]

/-! ## The pointwise operations at an index -/

theorem exp_apply (x : FVec Ideal S1024x128 .f32) (i : S1024x128.Idx) : exp x i = Ideal.exp (x i) := rfl
theorem log_apply (x : FVec Ideal S1024x128 .f32) (i : S1024x128.Idx) : log x i = Ideal.log (x i) := rfl
theorem half_apply (i : S1024x128.Idx) :
    broadcast S1024x128 (Scalar.ofBits (F := Ideal) .f32 0x3F000000#32) i = Ideal.ofBits .f32 0x3F000000#32 := rfl

/-! ## One slot -/

/-- The filter of one slot at row n, lane f, from the slot's staged slice and the weights. -/
def filt (fj : Vec Ideal S1x50x1x1024 .f32) (w1 : Vec Ideal S50x128 .f32) (b1 : Vec Ideal S1x128 .f32)
    (w2 : Vec Ideal S128x128 .f32) (b2 : Vec Ideal S1x128 .f32) (n : Fin 1024) (f : Fin 128) : EReal :=
  (∑ j' : Fin 128, sspK ((∑ m : Fin 50, fj (ix4 (0 : Fin 1) m (0 : Fin 1) n) * w1 (ix2 m j')) + b1 (ix2 (0 : Fin 1) j')) * w2 (ix2 j' f))
    + b2 (ix2 (0 : Fin 1) f)

theorem pay5_apply (cw : Vec Ideal S1x8x1024 .f32) (f0 : Vec Ideal S1x50x1x1024 .f32) (w1 : Vec Ideal S50x128 .f32)
    (b1 : Vec Ideal S1x128 .f32) (w2 : Vec Ideal S128x128 .f32) (b2 : Vec Ideal S1x128 .f32) (g0 : Vec Ideal S1024x128 .f32)
    (n : Fin 1024) (f : Fin 128) :
    k8_pay5 cw f0 w1 b1 w2 b2 g0 (ix2 n f) = filt f0 w1 b1 w2 b2 n f * cw (ix3 (0 : Fin 1) (0 : Fin 8) n) * g0 (ix2 n f) := by
  unfold k8_pay5 filt sspK
  simp only [mulf_apply, addf_apply, shapeCast_self, mm2_apply, mm1_apply, broadcastTo_1b_ab_apply, log_apply, exp_apply, half_apply, castF_apply,
    col_apply _ 0 _ _ 0 rfl, cutT_apply]

/-- The filter from an already cast [50,1024] slice. -/
def filtC (L : FVec Ideal S50x1024 .f32) (w1 : Vec Ideal S50x128 .f32) (b1 : Vec Ideal S1x128 .f32)
    (w2 : Vec Ideal S128x128 .f32) (b2 : Vec Ideal S1x128 .f32) (n : Fin 1024) (f : Fin 128) : EReal :=
  (∑ j' : Fin 128, sspK ((∑ m : Fin 50, L (ix2 m n) * w1 (ix2 m j')) + b1 (ix2 (0 : Fin 1) j')) * w2 (ix2 j' f))
    + b2 (ix2 (0 : Fin 1) f)

theorem pay6_apply (v : Vec Ideal S1x50x1x1024 .f32) (m : Fin 50) (n : Fin 1024) :
    k8_pay6 v (ix2 m n) = v (ix4 (0 : Fin 1) m (0 : Fin 1) n) := by
  unfold k8_pay6
  simp only [castF_apply]

theorem pay14_apply (v : Vec Ideal S1x50x1x1024 .f32) (m : Fin 50) (n : Fin 1024) :
    k8_pay14 v (ix2 m n) = v (ix4 (0 : Fin 1) m (0 : Fin 1) n) := by
  unfold k8_pay14
  simp only [castF_apply]

theorem pay7_apply (v2 : FVec Ideal S1024x8 .f32) (v28 : FVec Ideal S1024x128 .f32) (v30 : FVec Ideal S50x1024 .f32) (w1 : Vec Ideal S50x128 .f32) (b1 : Vec Ideal S1x128 .f32) (w2 : Vec Ideal S128x128 .f32) (b2 : Vec Ideal S1x128 .f32)
    (g : Vec Ideal S1024x128 .f32) (n : Fin 1024) (f : Fin 128) :
    k8_pay7 v2 v28 v30 w1 b1 w2 b2 g (ix2 n f)
      = v28 (ix2 n f) + filtC v30 w1 b1 w2 b2 n f * v2 (ix2 n (1 : Fin 8)) * g (ix2 n f) := by
  unfold k8_pay7 filtC sspK
  simp only [mulf_apply, addf_apply, shapeCast_self, mm2_apply, mm1_apply, broadcastTo_1b_ab_apply, log_apply, exp_apply, half_apply, castF_apply, cutT_apply, col_apply _ 1 _ _ 1 rfl]

theorem pay15_apply (v2 : FVec Ideal S1024x8 .f32) (v136 : FVec Ideal S1024x128 .f32) (v138 : FVec Ideal S50x1024 .f32) (w1 : Vec Ideal S50x128 .f32) (b1 : Vec Ideal S1x128 .f32) (w2 : Vec Ideal S128x128 .f32) (b2 : Vec Ideal S1x128 .f32)
    (g : Vec Ideal S1024x128 .f32) (n : Fin 1024) (f : Fin 128) :
    k8_pay15 v2 v136 v138 w1 b1 w2 b2 g (ix2 n f)
      = v136 (ix2 n f) + filtC v138 w1 b1 w2 b2 n f * v2 (ix2 n (5 : Fin 8)) * g (ix2 n f) := by
  unfold k8_pay15 filtC sspK
  simp only [mulf_apply, addf_apply, shapeCast_self, mm2_apply, mm1_apply, broadcastTo_1b_ab_apply, log_apply, exp_apply, half_apply, castF_apply, cutT_apply, col_apply _ 5 _ _ 5 rfl]

theorem pay8_apply (fj : Vec Ideal S1x50x1x1024 .f32) (w1 : Vec Ideal S50x128 .f32) (b1 : Vec Ideal S1x128 .f32) (n : Fin 1024) (j' : Fin 128) :
    k8_pay8 fj w1 b1 (ix2 n j')
      = Ideal.ofBits .f32 0x3F000000#32
          * Ideal.exp ((∑ m : Fin 50, fj (ix4 (0 : Fin 1) m (0 : Fin 1) n) * w1 (ix2 m j')) + b1 (ix2 (0 : Fin 1) j')) := by
  unfold k8_pay8
  simp only [mulf_apply, addf_apply, shapeCast_self, mm2_apply, mm1_apply, broadcastTo_1b_ab_apply, log_apply, exp_apply, half_apply, castF_apply, cutT_apply]

theorem pay16_apply (fj : Vec Ideal S1x50x1x1024 .f32) (w1 : Vec Ideal S50x128 .f32) (b1 : Vec Ideal S1x128 .f32) (n : Fin 1024) (j' : Fin 128) :
    k8_pay16 fj w1 b1 (ix2 n j')
      = Ideal.ofBits .f32 0x3F000000#32
          * Ideal.exp ((∑ m : Fin 50, fj (ix4 (0 : Fin 1) m (0 : Fin 1) n) * w1 (ix2 m j')) + b1 (ix2 (0 : Fin 1) j')) := by
  unfold k8_pay16
  simp only [mulf_apply, addf_apply, shapeCast_self, mm2_apply, mm1_apply, broadcastTo_1b_ab_apply, log_apply, exp_apply, half_apply, castF_apply, cutT_apply]

theorem pay9_apply (i : S1024x128.Idx) : k8_pay9 (F := Ideal) i = Ideal.ofBits .f32 0x3F000000#32 := rfl
theorem pay17_apply (i : S1024x128.Idx) : k8_pay17 (F := Ideal) i = Ideal.ofBits .f32 0x3F000000#32 := rfl

theorem pay10_apply (v2 : FVec Ideal S1024x8 .f32) (v55 v66 v67 : FVec Ideal S1024x128 .f32) (w2 : Vec Ideal S128x128 .f32) (b2 : Vec Ideal S1x128 .f32)
    (g : Vec Ideal S1024x128 .f32) (n : Fin 1024) (f : Fin 128) :
    k8_pay10 v2 v55 v66 v67 w2 b2 g (ix2 n f)
      = v55 (ix2 n f)
        + ((∑ j' : Fin 128, Ideal.log (v66 (ix2 n j') + v67 (ix2 n j')) * w2 (ix2 j' f)) + b2 (ix2 (0 : Fin 1) f))
          * v2 (ix2 n (2 : Fin 8)) * g (ix2 n f) := by
  unfold k8_pay10
  simp only [mulf_apply, addf_apply, shapeCast_self, mm2_apply, mm1_apply, broadcastTo_1b_ab_apply, log_apply, exp_apply, half_apply, castF_apply, cutT_apply, col_apply _ 2 _ _ 2 rfl]

theorem pay18_apply (v2 : FVec Ideal S1024x8 .f32) (v163 v174 v175 : FVec Ideal S1024x128 .f32) (w2 : Vec Ideal S128x128 .f32) (b2 : Vec Ideal S1x128 .f32)
    (g : Vec Ideal S1024x128 .f32) (n : Fin 1024) (f : Fin 128) :
    k8_pay18 v2 v163 v174 v175 w2 b2 g (ix2 n f)
      = v163 (ix2 n f)
        + ((∑ j' : Fin 128, Ideal.log (v174 (ix2 n j') + v175 (ix2 n j')) * w2 (ix2 j' f)) + b2 (ix2 (0 : Fin 1) f))
          * v2 (ix2 n (6 : Fin 8)) * g (ix2 n f) := by
  unfold k8_pay18
  simp only [mulf_apply, addf_apply, shapeCast_self, mm2_apply, mm1_apply, broadcastTo_1b_ab_apply, log_apply, exp_apply, half_apply, castF_apply, cutT_apply, col_apply _ 6 _ _ 6 rfl]

theorem pay11_apply (fj : Vec Ideal S1x50x1x1024 .f32) (w1 : Vec Ideal S50x128 .f32) (b1 : Vec Ideal S1x128 .f32) (w2 : Vec Ideal S128x128 .f32) (b2 : Vec Ideal S1x128 .f32) (n : Fin 1024) (f : Fin 128) :
    k8_pay11 fj w1 b1 w2 b2 (ix2 n f) = filt fj w1 b1 w2 b2 n f := by
  unfold k8_pay11 filt sspK
  simp only [mulf_apply, addf_apply, shapeCast_self, mm2_apply, mm1_apply, broadcastTo_1b_ab_apply, log_apply, exp_apply, half_apply, castF_apply, cutT_apply]

theorem pay19_apply (fj : Vec Ideal S1x50x1x1024 .f32) (w1 : Vec Ideal S50x128 .f32) (b1 : Vec Ideal S1x128 .f32) (w2 : Vec Ideal S128x128 .f32) (b2 : Vec Ideal S1x128 .f32) (n : Fin 1024) (f : Fin 128) :
    k8_pay19 fj w1 b1 w2 b2 (ix2 n f) = filt fj w1 b1 w2 b2 n f := by
  unfold k8_pay19 filt sspK
  simp only [mulf_apply, addf_apply, shapeCast_self, mm2_apply, mm1_apply, broadcastTo_1b_ab_apply, log_apply, exp_apply, half_apply, castF_apply, cutT_apply]

theorem pay12_apply (v2 : FVec Ideal S1024x8 .f32) (n : Fin 1024) (f : Fin 128) : k8_pay12 v2 (ix2 n f) = v2 (ix2 n (3 : Fin 8)) := by
  unfold k8_pay12
  simp only [col_apply _ 3 _ _ 3 rfl]

theorem pay20_apply (v2 : FVec Ideal S1024x8 .f32) (n : Fin 1024) (f : Fin 128) : k8_pay20 v2 (ix2 n f) = v2 (ix2 n (7 : Fin 8)) := by
  unfold k8_pay20
  simp only [col_apply _ 7 _ _ 7 rfl]

theorem pay13_apply (v2 : FVec Ideal S1024x8 .f32) (v82 v102 v104 : FVec Ideal S1024x128 .f32) (g3 : Vec Ideal S1024x128 .f32)
    (fj : Vec Ideal S1x50x1x1024 .f32) (w1 : Vec Ideal S50x128 .f32) (b1 : Vec Ideal S1x128 .f32) (w2 : Vec Ideal S128x128 .f32) (b2 : Vec Ideal S1x128 .f32) (g4 : Vec Ideal S1024x128 .f32) (n : Fin 1024) (f : Fin 128) :
    k8_pay13 v2 v82 v102 v104 g3 fj w1 b1 w2 b2 g4 (ix2 n f)
      = (v82 (ix2 n f) + v102 (ix2 n f) * v104 (ix2 n f) * g3 (ix2 n f))
        + filt fj w1 b1 w2 b2 n f * v2 (ix2 n (4 : Fin 8)) * g4 (ix2 n f) := by
  unfold k8_pay13 filt sspK
  simp only [mulf_apply, addf_apply, shapeCast_self, mm2_apply, mm1_apply, broadcastTo_1b_ab_apply, log_apply, exp_apply, half_apply, castF_apply, cutT_apply, col_apply _ 4 _ _ 4 rfl]

theorem pay1_apply (v190 v210 v212 : FVec Ideal S1024x128 .f32) (g7 : Vec Ideal S1024x128 .f32) (i : S1024x128.Idx) :
    k8_pay1 v190 v210 v212 g7 i = v190 i + v210 i * v212 i * g7 i := by
  unfold k8_pay1
  simp only [mulf_apply, addf_apply, shapeCast_self]

/-! ## The loads -/

theorem hz2 : (![0, 0] : Fin 2 → Nat) = fun _ => 0 := funext fun a => by fin_cases a <;> rfl
theorem hz3 : (![0, 0, 0] : Fin 3 → Nat) = fun _ => 0 := funext fun a => by fin_cases a <;> rfl

/-- Slot j of the staged filter inputs, read at (0, m, 0, n). -/
theorem ldF_apply (o : Nat)
    (inb : ∀ a, (![0, 0, o, 0] : Fin 4 → Nat) a + S1x50x1x1024.size a ≤ S1x50x8x1024.size a) (j : Fin 8) (ho : j.val = o)
    (m : Fin 50) (n : Fin 1024) :
    LoadRect.idx (Rect.unit (s := S1x50x8x1024) ![0, 0, o, 0] S1x50x1x1024.size inb).toLoadRect (ix4 (0 : Fin 1) m (0 : Fin 1) n)
      = ix4 (0 : Fin 1) m j n :=
  (funext fun a => Fin.ext (by
    match a with
    | ⟨0, _⟩ => rfl
    | ⟨1, _⟩ => show 0 + 1 * m.val = m.val; omega
    | ⟨2, _⟩ => show o + 1 * 0 = j.val; omega
    | ⟨3, _⟩ => show 0 + 1 * n.val = n.val; omega))

/-- Slot j of the staged gathered rows, read at (n, f): row o + n. -/
theorem ldG_apply (o : Nat)
    (inb : ∀ a, (![o, 0] : Fin 2 → Nat) a + S1024x128.size a ≤ S8192x128.size a) (j : Fin 8) (ho : o = 1024 * j.val)
    (n : Fin 1024) (f : Fin 128) :
    LoadRect.idx (Rect.unit (s := S8192x128) ![o, 0] S1024x128.size inb).toLoadRect (ix2 n f)
      = ix2 (⟨1024 * j.val + n.val, by have := j.isLt; have := n.isLt; omega⟩ : Fin 8192) f :=
  (funext fun a => Fin.ext (by
    match a with
    | ⟨0, _⟩ => show o + 1 * n.val = 1024 * j.val + n.val; omega
    | ⟨1, _⟩ => show 0 + 1 * f.val = f.val; omega))

/-! ## A point's sum at an index -/

/-- Slot j of a point's sum at row n, lane f, from the point's seven staged inputs. -/
def slotOf (x : Ins Ideal) (j : Fin 8) (n : Fin 1024) (f : Fin 128) : EReal :=
  ((∑ j' : Fin 128,
        sspK ((∑ m : Fin 50, x.f (ix4 (0 : Fin 1) m j n) * x.w1 (ix2 m j')) + x.b1 (ix2 (0 : Fin 1) j')) * x.w2 (ix2 j' f))
      + x.b2 (ix2 (0 : Fin 1) f))
    * x.cut (ix3 (0 : Fin 1) j n)
    * x.g (ix2 (⟨1024 * j.val + n.val, by have := j.isLt; have := n.isLt; omega⟩ : Fin 8192) f)

/-- The eight slots added in the body's order. -/
def sumOf (x : Ins Ideal) (n : Fin 1024) (f : Fin 128) : EReal :=
  ((((((slotOf x 0 n f + slotOf x 1 n f) + slotOf x 2 n f) + slotOf x 3 n f) + slotOf x 4 n f) + slotOf x 5 n f)
    + slotOf x 6 n f) + slotOf x 7 n f

theorem psum_apply (x : Ins Ideal) (n : Fin 1024) (f : Fin 128) :
    k8_pay1 (upto6 x).1 (upto6 x).2.1 (upto6 x).2.2 (View.ld x.g rG7) (ix2 n f) = sumOf x n f := by
  unfold upto6 sumOf slotOf
  simp only [pay1_apply, pay5_apply, pay6_apply, pay7_apply, pay8_apply, pay9_apply, pay10_apply, pay11_apply, pay12_apply, pay13_apply, pay14_apply, pay15_apply, pay16_apply, pay17_apply, pay18_apply, pay19_apply, pay20_apply, filt, filtC, sspK, cutT_apply,
    View.ld_unit_zero (S := S50x128) hz2, View.ld_unit_zero (S := S1x128) hz2, View.ld_unit_zero (S := S128x128) hz2,
    View.ld_unit_zero (S := S1x8x1024) hz3,
    ldF_apply 0 _ 0 rfl, ldF_apply 1 _ 1 rfl, ldF_apply 2 _ 2 rfl, ldF_apply 3 _ 3 rfl, ldF_apply 4 _ 4 rfl, ldF_apply 5 _ 5 rfl, ldF_apply 6 _ 6 rfl, ldF_apply 7 _ 7 rfl,
    ldG_apply 0 _ 0 rfl, ldG_apply 1024 _ 1 rfl, ldG_apply 2048 _ 2 rfl, ldG_apply 3072 _ 3 rfl, ldG_apply 4096 _ 4 rfl, ldG_apply 5120 _ 5 rfl, ldG_apply 6144 _ 6 rfl, ldG_apply 7168 _ 7 rfl]
  simp only [View.ld, ldF_apply 0 _ 0 rfl, ldF_apply 1 _ 1 rfl, ldF_apply 2 _ 2 rfl, ldF_apply 3 _ 3 rfl, ldF_apply 4 _ 4 rfl, ldF_apply 5 _ 5 rfl, ldF_apply 6 _ 6 rfl, ldF_apply 7 _ 7 rfl,
    ldG_apply 0 _ 0 rfl, ldG_apply 1024 _ 1 rfl, ldG_apply 2048 _ 2 rfl, ldG_apply 3072 _ 3 rfl, ldG_apply 4096 _ 4 rfl, ldG_apply 5120 _ 5 rfl, ldG_apply 6144 _ 6 rfl, ldG_apply 7168 _ 7 rfl]

/-! ## The closed form -/

section Closed

variable (c : Dev nD) (A : (w : Fin cfg8.W) → Buf (Elt Ideal) ((cfg8.win w).arr.view.loc (c.tc : Thread nD τ)))

/-- The seven input arrays at their literal shapes. -/
abbrev aF : S8x50x64x1024.Idx → EReal := A 0
abbrev aY : S131072x128.Idx → EReal := A 1
abbrev aC : S8x64x1024.Idx → EReal := A 2
abbrev aW1 : S50x128.Idx → EReal := A 3
abbrev aB1 : S1x128.Idx → EReal := A 4
abbrev aW2 : S128x128.Idx → EReal := A 5
abbrev aB2 : S1x128.Idx → EReal := A 6

/-- Slot j of point (bi, kg) at row n, lane f: the filter of slot 8·(6 + kg) + j, times its cutoff-and-mask entry, times
    the gathered row. -/
def slotTerm (bi : Fin 8) (kg : Fin 2) (j : Fin 8) (n : Fin 1024) (f : Fin 128) : EReal :=
  ((∑ j' : Fin 128,
        sspK ((∑ m : Fin 50, aF c A (ix4 bi m (⟨8 * (6 + kg.val) + j.val, by have := kg.isLt; have := j.isLt; omega⟩ : Fin 64) n) * aW1 c A (ix2 m j'))
              + aB1 c A (ix2 (0 : Fin 1) j'))
          * aW2 c A (ix2 j' f))
      + aB2 c A (ix2 (0 : Fin 1) f))
    * aC c A (ix3 bi (⟨8 * (6 + kg.val) + j.val, by have := kg.isLt; have := j.isLt; omega⟩ : Fin 64) n)
    * aY c A (ix2 (⟨(2 * bi.val + kg.val) * 8192 + 1024 * j.val + n.val, by have := bi.isLt; have := kg.isLt; have := j.isLt; have := n.isLt; omega⟩ : Fin 131072) f)

/-- The point's sum, the eight slots added in the body's order. -/
def pointSum (bi : Fin 8) (kg : Fin 2) (n : Fin 1024) (f : Fin 128) : EReal :=
  ((((((slotTerm c A bi kg 0 n f + slotTerm c A bi kg 1 n f) + slotTerm c A bi kg 2 n f) + slotTerm c A bi kg 3 n f)
      + slotTerm c A bi kg 4 n f) + slotTerm c A bi kg 5 n f) + slotTerm c A bi kg 6 n f) + slotTerm c A bi kg 7 n f

/-! ## The staged inputs, read through the windows' index maps -/

/-- The printed index maps over the grid: point t = 2·b + g stages block (b, 0, 6 + g, 0) of the filter inputs, block t of
    the gathered rows, block (b, 6 + g, 0) of the cutoff-and-mask array, all of each weight array, and block b of the output. -/
theorem idx_facts : ∀ t : Fin cfg8.N,
    win8_0.index t (0 : Fin 4) = t.val / 2 ∧ win8_0.index t (1 : Fin 4) = 0 ∧ win8_0.index t (2 : Fin 4) = 6 + t.val % 2
    ∧ win8_0.index t (3 : Fin 4) = 0
    ∧ win8_1.index t (0 : Fin 2) = t.val ∧ win8_1.index t (1 : Fin 2) = 0
    ∧ win8_2.index t (0 : Fin 3) = t.val / 2 ∧ win8_2.index t (1 : Fin 3) = 6 + t.val % 2 ∧ win8_2.index t (2 : Fin 3) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) = 0 ∧ win8_6.index t (1 : Fin 2) = 0
    ∧ win8_7.index t (0 : Fin 2) = t.val / 2 ∧ win8_7.index t (1 : Fin 2) = 0 :=
  (by decide +kernel : ∀ t : Fin grid8.N, _)

/-- The filter inputs staged at point t = 2·bi + kg: slots 8·(6 + kg) … 8·(6 + kg) + 7 of batch bi. -/
theorem readF (t : Fin cfg8.N) (bi : Fin 8) (kg : Fin 2) (ht : t.val = 2 * bi.val + kg.val) (m : Fin 50) (j : Fin 8) (n : Fin 1024) :
    blockAt c A 0 t (ix4 (0 : Fin 1) m j n) = aF c A (ix4 bi m (⟨8 * (6 + kg.val) + j.val, by have := kg.isLt; have := j.isLt; omega⟩ : Fin 64) n) := by
  obtain ⟨e0, e1, e2, e3, -⟩ := idx_facts t
  show aF c A (((cfg8.win 0).blk t).view.emb (ix4 (0 : Fin 1) m j n)) = _
  refine congrArg (aF c A) (funext fun a => Fin.ext ?_)
  have := bi.isLt; have := kg.isLt
  match a with
  | ⟨0, _⟩ => show win8_0.index t (0 : Fin 4) * 1 + 1 * 0 = bi.val; omega
  | ⟨1, _⟩ => show win8_0.index t (1 : Fin 4) * 50 + 1 * m.val = m.val; omega
  | ⟨2, _⟩ => show win8_0.index t (2 : Fin 4) * 8 + 1 * j.val = 8 * (6 + kg.val) + j.val; omega
  | ⟨3, _⟩ => show win8_0.index t (3 : Fin 4) * 1024 + 1 * n.val = n.val; omega

/-- The gathered rows staged at point t: rows 8192·t … of the gathered array. -/
theorem readY (t : Fin cfg8.N) (bi : Fin 8) (kg : Fin 2) (ht : t.val = 2 * bi.val + kg.val) (j : Fin 8) (n : Fin 1024) (f : Fin 128) :
    blockAt c A 1 t (ix2 (⟨1024 * j.val + n.val, by have := j.isLt; have := n.isLt; omega⟩ : Fin 8192) f) = aY c A (ix2 (⟨(2 * bi.val + kg.val) * 8192 + 1024 * j.val + n.val, by have := bi.isLt; have := kg.isLt; have := j.isLt; have := n.isLt; omega⟩ : Fin 131072) f) := by
  obtain ⟨-, -, -, -, e0, e1, -⟩ := idx_facts t
  show aY c A (((cfg8.win 1).blk t).view.emb (ix2 (⟨1024 * j.val + n.val, by have := j.isLt; have := n.isLt; omega⟩ : Fin 8192) f)) = _
  refine congrArg (aY c A) (funext fun a => Fin.ext ?_)
  match a with
  | ⟨0, _⟩ => show win8_1.index t (0 : Fin 2) * 8192 + 1 * (1024 * j.val + n.val) = (2 * bi.val + kg.val) * 8192 + 1024 * j.val + n.val; omega
  | ⟨1, _⟩ => show win8_1.index t (1 : Fin 2) * 128 + 1 * f.val = f.val; omega

/-- The cutoff-and-mask columns staged at point t. -/
theorem readC (t : Fin cfg8.N) (bi : Fin 8) (kg : Fin 2) (ht : t.val = 2 * bi.val + kg.val) (j : Fin 8) (n : Fin 1024) :
    blockAt c A 2 t (ix3 (0 : Fin 1) j n) = aC c A (ix3 bi (⟨8 * (6 + kg.val) + j.val, by have := kg.isLt; have := j.isLt; omega⟩ : Fin 64) n) := by
  obtain ⟨-, -, -, -, -, -, e0, e1, e2, -⟩ := idx_facts t
  show aC c A (((cfg8.win 2).blk t).view.emb (ix3 (0 : Fin 1) j n)) = _
  refine congrArg (aC c A) (funext fun a => Fin.ext ?_)
  have := bi.isLt; have := kg.isLt
  match a with
  | ⟨0, _⟩ => show win8_2.index t (0 : Fin 3) * 1 + 1 * 0 = bi.val; omega
  | ⟨1, _⟩ => show win8_2.index t (1 : Fin 3) * 8 + 1 * j.val = 8 * (6 + kg.val) + j.val; omega
  | ⟨2, _⟩ => show win8_2.index t (2 : Fin 3) * 1024 + 1 * n.val = n.val; omega

/-- Each weight array is staged whole at every point. -/
theorem readW1 (t : Fin cfg8.N) (y : S50x128.Idx) : blockAt c A 3 t y = aW1 c A y := by
  obtain ⟨-, -, -, -, -, -, -, -, -, e0, e1, -⟩ := idx_facts t
  show aW1 c A (((cfg8.win 3).blk t).view.emb y) = _
  refine congrArg (aW1 c A) (funext fun a => Fin.ext ?_)
  match a with
  | ⟨0, _⟩ => show win8_3.index t (0 : Fin 2) * 50 + 1 * (y 0).val = (y 0).val; omega
  | ⟨1, _⟩ => show win8_3.index t (1 : Fin 2) * 128 + 1 * (y 1).val = (y 1).val; omega
theorem readB1 (t : Fin cfg8.N) (y : S1x128.Idx) : blockAt c A 4 t y = aB1 c A y := by
  obtain ⟨-, -, -, -, -, -, -, -, -, -, -, e0, e1, -⟩ := idx_facts t
  show aB1 c A (((cfg8.win 4).blk t).view.emb y) = _
  refine congrArg (aB1 c A) (funext fun a => Fin.ext ?_)
  match a with
  | ⟨0, _⟩ => show win8_4.index t (0 : Fin 2) * 1 + 1 * (y 0).val = (y 0).val; omega
  | ⟨1, _⟩ => show win8_4.index t (1 : Fin 2) * 128 + 1 * (y 1).val = (y 1).val; omega
theorem readW2 (t : Fin cfg8.N) (y : S128x128.Idx) : blockAt c A 5 t y = aW2 c A y := by
  obtain ⟨-, -, -, -, -, -, -, -, -, -, -, -, -, e0, e1, -⟩ := idx_facts t
  show aW2 c A (((cfg8.win 5).blk t).view.emb y) = _
  refine congrArg (aW2 c A) (funext fun a => Fin.ext ?_)
  match a with
  | ⟨0, _⟩ => show win8_5.index t (0 : Fin 2) * 128 + 1 * (y 0).val = (y 0).val; omega
  | ⟨1, _⟩ => show win8_5.index t (1 : Fin 2) * 128 + 1 * (y 1).val = (y 1).val; omega
theorem readB2 (t : Fin cfg8.N) (y : S1x128.Idx) : blockAt c A 6 t y = aB2 c A y := by
  obtain ⟨-, -, -, -, -, -, -, -, -, -, -, -, -, -, -, e0, e1, -⟩ := idx_facts t
  show aB2 c A (((cfg8.win 6).blk t).view.emb y) = _
  refine congrArg (aB2 c A) (funext fun a => Fin.ext ?_)
  match a with
  | ⟨0, _⟩ => show win8_6.index t (0 : Fin 2) * 1 + 1 * (y 0).val = (y 0).val; omega
  | ⟨1, _⟩ => show win8_6.index t (1 : Fin 2) * 128 + 1 * (y 1).val = (y 1).val; omega

/-- A slot of point t = 2·bi + kg, from the arrays. -/
theorem slot_insAt (t : Fin cfg8.N) (bi : Fin 8) (kg : Fin 2) (ht : t.val = 2 * bi.val + kg.val) (j : Fin 8) (n : Fin 1024) (f : Fin 128) :
    slotOf (insAt c A t) j n f = slotTerm c A bi kg j n f := by
  unfold slotOf slotTerm insAt
  simp only [readF c A t bi kg ht, readY c A t bi kg ht, readC c A t bi kg ht, readW1 c A t, readB1 c A t, readW2 c A t, readB2 c A t]

/-- The sum of point t = 2·bi + kg, from the arrays. -/
theorem sum_insAt (t : Fin cfg8.N) (bi : Fin 8) (kg : Fin 2) (ht : t.val = 2 * bi.val + kg.val) (n : Fin 1024) (f : Fin 128) :
    sumOf (insAt c A t) n f = pointSum c A bi kg n f := by
  unfold sumOf pointSum
  simp only [slot_insAt c A t bi kg ht]

/-! ## The write-backs -/

/-- One store through the whole accumulator leaves its payload; a load through the whole accumulator reads it. -/
theorem whole_eq (p : Vec Ideal S1024x128 .f32) : whole p = p := by
  unfold whole
  exact View.canon_unit_zero hz2 _ p
theorem ldBig_eq (X : Vec Ideal S1024x128 .f32) : View.ld X rBig = X := View.ld_unit_zero (S := S1024x128) hz2 _ X

theorem first_apply (x : Ins Ideal) (n : Fin 1024) (f : Fin 128) : first x (ix2 n f) = sumOf x n f := by
  unfold first k8_pay2
  rw [shapeCast_self]
  exact psum_apply x n f

theorem second_apply (x : Ins Ideal) (acc : Vec Ideal S1024x128 .f32) (n : Fin 1024) (f : Fin 128) :
    second x acc (ix2 n f) = acc (ix2 n f) + sumOf x n f := by
  unfold second k8_pay3
  rw [shapeCast_self, addf_apply, psum_apply]

/-- What point t writes back (at the second point of a pair): the sum of the point before it plus its own. -/
theorem flushed_apply (q : Fin cfg8.W → PosShare TreeShare) (R Rm : sProp 𝕄) (O : CellTallies nD τ sig Ix) (B : Set (SemLoc sig × Ix))
    (t : Fin cfg8.N) (n : Fin 1024) (f : Fin 128) :
    (dat (F := Ideal) (Ix := Ix) (Name := Name) (U := U) (Lvl := Lvl) c A q R Rm O B).flushed 7 t (ix2 n f) = sumOf (insAt c A (prev t)) n f + sumOf (insAt c A t) n f := by
  show (dat (F := Ideal) (Ix := Ix) (Name := Name) (U := U) (Lvl := Lvl) c A q R Rm O B).after 7 t (ix2 n f) = _
  rw [after_out c A q O B R Rm t, whole_eq, ldBig_eq]
  unfold accSecond
  rw [whole_eq, second_apply, ldBig_eq]
  unfold accFirst
  rw [whole_eq, first_apply]

/-! ## The array -/

/-- What the output array holds at row r, lane f: the two sums of pair r / 1024, at row r % 1024. -/
def outVal (r : Fin 8192) (f : Fin 128) : EReal :=
  pointSum c A ⟨r.val / 1024, by have := r.isLt; omega⟩ 0 ⟨r.val % 1024, Nat.mod_lt _ (by decide)⟩ f
    + pointSum c A ⟨r.val / 1024, by have := r.isLt; omega⟩ 1 ⟨r.val % 1024, Nat.mod_lt _ (by decide)⟩ f

theorem outVal_eq (r : Fin 8192) (bi : Fin 8) (n : Fin 1024) (h : r.val = 1024 * bi.val + n.val) (f : Fin 128) :
    outVal c A r f = pointSum c A bi 0 n f + pointSum c A bi 1 n f := by
  have hb : (⟨r.val / 1024, by have := r.isLt; omega⟩ : Fin 8) = bi := Fin.ext (by have := n.isLt; show r.val / 1024 = bi.val; omega)
  have hn : (⟨r.val % 1024, Nat.mod_lt _ (by decide)⟩ : Fin 1024) = n := Fin.ext (by have := n.isLt; show r.val % 1024 = n.val; omega)
  unfold outVal
  rw [hb, hn]

/-- The whole output array as one function of the seven input arrays. -/
def G : S8192x128.Idx → EReal := fun i => outVal c A (i 0) (i 1)

theorem G_apply (z : S8192x128.Idx) (bi : Fin 8) (n : Fin 1024) (f : Fin 128) (h0 : (z 0).val = 1024 * bi.val + n.val)
    (h1 : (z 1).val = f.val) : G c A z = pointSum c A bi 0 n f + pointSum c A bi 1 n f := by
  have e1 : z 1 = f := Fin.ext h1
  unfold G
  rw [e1]
  exact outVal_eq c A (z 0) bi n h0 f

/-- What a flushing point writes back is its block of G. -/
theorem flushed_eq (q : Fin cfg8.W → PosShare TreeShare) (R Rm : sProp 𝕄) (O : CellTallies nD τ sig Ix) (B : Set (SemLoc sig × Ix))
    (t : Fin cfg8.N) (hf : (cfg8.win 7).flush t = true) :
    (dat (F := Ideal) (Ix := Ix) (Name := Name) (U := U) (Lvl := Lvl) c A q R Rm O B).flushed 7 t = ((cfg8.win 7).blk t).view.read (Elt Ideal) (G c A) := by
  have hodd : t.val % 2 = 1 := by rw [flush7 t] at hf; exact of_decide_eq_true hf
  have htN : t.val < 16 := by have h := t.isLt; have h1 : cfg8.N = 16 := N_8; omega
  obtain ⟨-, -, -, -, -, -, -, -, -, -, -, -, -, -, -, -, -, e0, e1⟩ := idx_facts t
  funext y
  obtain ⟨n, f, rfl⟩ : ∃ (n : Fin 1024) (f : Fin 128), y = ix2 n f := ⟨y 0, y 1, eq_ix2 y⟩
  rw [flushed_apply c A q R Rm O B t n f]
  show _ = G c A (((cfg8.win 7).blk t).view.emb (ix2 n f))
  rw [G_apply c A _ ⟨t.val / 2, by omega⟩ n f
        (by show win8_7.index t (0 : Fin 2) * 1024 + 1 * n.val = 1024 * (t.val / 2) + n.val; omega)
        (by show win8_7.index t (1 : Fin 2) * 128 + 1 * f.val = f.val; omega),
      sum_insAt c A (prev t) ⟨t.val / 2, by omega⟩ 0 (by show t.val - 1 = 2 * (t.val / 2) + 0; omega) n f,
      sum_insAt c A t ⟨t.val / 2, by omega⟩ 1 (by show t.val = 2 * (t.val / 2) + 1; omega) n f]

/-- The output array after the region, read at row 1024·bi + n, lane f. -/
theorem fused_closed (q : Fin cfg8.W → PosShare TreeShare) (R Rm : sProp 𝕄) (O : CellTallies nD τ sig Ix) (B : Set (SemLoc sig × Ix))
    (bi : Fin 8) (n : Fin 1024) (f : Fin 128) :
    (dat (F := Ideal) (Ix := Ix) (Name := Name) (U := U) (Lvl := Lvl) c A q R Rm O B).arrAt 7 cfg8.N
        (ix2 (⟨1024 * bi.val + n.val, by have := bi.isLt; have := n.isLt; omega⟩ : Fin 8192) f)
      = pointSum c A bi 0 n f + pointSum c A bi 1 n f := by
  have hbi := bi.isLt
  have hn := n.isLt
  have hfl := f.isLt
  -- the second point of pair bi
  obtain ⟨t, ht⟩ : ∃ t : Fin cfg8.N, t.val = 2 * bi.val + 1 :=
    ⟨⟨2 * bi.val + 1, by have h1 : cfg8.N = 16 := N_8; have h2 : grid8.N = 16 := N_8; omega⟩, rfl⟩
  have hf : (cfg8.win 7).flush t = true := by
    rw [flush7 t]; exact decide_eq_true (by omega)
  obtain ⟨-, -, -, -, -, -, -, -, -, -, -, -, -, -, -, -, -, e0, e1⟩ := idx_facts t
  -- the index is in that point's block
  have hmem : ∀ i : S8192x128.Idx, (i 0).val = 1024 * bi.val + n.val → i ∈ ((cfg8.win 7).blk t).view.set := by
    intro i hi
    show i ∈ ((View.whole main_v33).slice (win8_7.rect t)).set
    rw [View.set_slice_whole, Rect.mem_set_unit]
    intro a
    have hi1 : (i 1).val < 128 := (i 1).isLt
    match a with
    | ⟨0, _⟩ =>
      show win8_7.index t (0 : Fin 2) * 1024 ≤ (i 0).val ∧ (i 0).val < win8_7.index t (0 : Fin 2) * 1024 + 1024
      omega
    | ⟨1, _⟩ =>
      show win8_7.index t (1 : Fin 2) * 128 ≤ (i 1).val ∧ (i 1).val < win8_7.index t (1 : Fin 2) * 128 + 128
      omega
  rw [Pipeline.Dat.arrAt_apply_of_mem (dat (F := Ideal) (Ix := Ix) (Name := Name) (U := U) (Lvl := Lvl) c A q R Rm O B) 7 (G c A)
        (fun t hf => flushed_eq c A q R Rm O B t hf) cfg8.N t _ t.isLt hf (hmem _ rfl)]
  exact G_apply c A _ bi n f rfl rfl

end Closed

end Cert.KernelIdeal.Region4V

end
-- ==== Proof.Region0Value.lean ====
/-
  What the first tensor-core region leaves in y, entry by entry: y = x · W over the whole [8192,128] array.

  The region's proof data (the body's file) says what each of the 8 grid points writes back: the product of the staged
  block of x (rows 1024·t … 1024·t + 1023) by the staged matrix W. Here that is read at the exact values, where a
  multiply-accumulate into a zero accumulator is the plain sum of products, and the eight written blocks are put
  together: they are the eight row bands of ONE whole-array function of the entry contents of x and W, and they tile
  y, so y ends as that function.
-/
import proofs.«215235_g2774548873965_cont_9to1_572_34_alg».proof.Proof.Region0Body
import Idealize.ShloMosaic.Lib.Pipeline.Value
import Idealize.ShloMosaic.Lib.ValueIdx
import Idealize.ShloMosaic.PureOps.Ideal.Laws

noncomputable section

namespace Cert.KernelIdeal.Region0

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open scoped BigOperators
open Idealize.SL.Sem
open Idealize.ShloMosaic.Pipeline (Dat Cfg Window)

/-! ## The product at an entry -/

/-- The left operand's index at output entry j and contraction position κ keeps j's row, -/
theorem lhs_row (j : S1024x128.Idx) (κ : dot_S1024x128_S128x128_S1024x128_1_0_0_1_n_n.contr.Idx) :
    (dot_S1024x128_S128x128_S1024x128_1_0_0_1_n_n.lhsIdx j κ 0).val = (j 0).val := by
  unfold DotDims.lhsIdx
  rw [dif_neg (show ¬(0 : Fin S1024x128.rank) ∈ dot_S1024x128_S128x128_S1024x128_1_0_0_1_n_n.lhsBatch by decide),
    dif_pos (show (0 : Fin S1024x128.rank) ∈ dot_S1024x128_S128x128_S1024x128_1_0_0_1_n_n.lhsNonContracting by decide)]
  rfl
/-- and runs along its columns with the contraction position; -/
theorem lhs_col (j : S1024x128.Idx) (κ : dot_S1024x128_S128x128_S1024x128_1_0_0_1_n_n.contr.Idx) :
    (dot_S1024x128_S128x128_S1024x128_1_0_0_1_n_n.lhsIdx j κ 1).val = (κ ⟨0, by decide⟩).val :=
  dot_S1024x128_S128x128_S1024x128_1_0_0_1_n_n.lhsIdx_val_of_single rfl j κ
/-- the right operand's runs down its rows with the contraction position, -/
theorem rhs_row (j : S1024x128.Idx) (κ : dot_S1024x128_S128x128_S1024x128_1_0_0_1_n_n.contr.Idx) :
    (dot_S1024x128_S128x128_S1024x128_1_0_0_1_n_n.rhsIdx j κ 0).val = (κ ⟨0, by decide⟩).val :=
  dot_S1024x128_S128x128_S1024x128_1_0_0_1_n_n.rhsIdx_val_of_single rfl j κ
/-- and keeps j's column. -/
theorem rhs_col (j : S1024x128.Idx) (κ : dot_S1024x128_S128x128_S1024x128_1_0_0_1_n_n.contr.Idx) :
    (dot_S1024x128_S128x128_S1024x128_1_0_0_1_n_n.rhsIdx j κ 1).val = (j 1).val := by
  unfold DotDims.rhsIdx
  rw [dif_neg (show ¬(1 : Fin S128x128.rank) ∈ dot_S1024x128_S128x128_S1024x128_1_0_0_1_n_n.rhsBatch by decide),
    dif_pos (show (1 : Fin S128x128.rank) ∈ dot_S1024x128_S128x128_S1024x128_1_0_0_1_n_n.rhsNonContracting by decide)]
  rfl

/-- At the exact values the multiply-accumulate of a [1024,128] block by a [128,128] matrix into the zero accumulator,
    read at entry (p, q), is the sum over k of the block's (p, k) entry times the matrix's (k, q) entry. -/
theorem mm_apply (a : FVec Ideal S1024x128 .f32) (b : FVec Ideal S128x128 .f32) (p : Fin 1024) (q : Fin 128) :
    matmul dot_S1024x128_S128x128_S1024x128_1_0_0_1_n_n none a b (constant (F := Ideal) S1024x128 .f32 0x00000000#32) (ix2 p q)
      = ∑ k : Fin 128, a (ix2 p k) * b (ix2 k q) := by
  simp only [matmul]
  rw [Ideal.matmul_constant_zero_apply, ← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 p q) ((contrEquiv1 dot_S1024x128_S128x128_S1024x128_1_0_0_1_n_n 128 rfl rfl).symm k) = ix2 p k :=
    funext fun d => Fin.ext (by
      match d with
      | ⟨0, _⟩ => exact lhs_row _ _
      | ⟨1, _⟩ => exact (lhs_col _ _).trans hk)
  have er : dot_S1024x128_S128x128_S1024x128_1_0_0_1_n_n.rhsIdx (ix2 p q) ((contrEquiv1 dot_S1024x128_S128x128_S1024x128_1_0_0_1_n_n 128 rfl rfl).symm k) = ix2 k q :=
    funext fun d => Fin.ext (by
      match d with
      | ⟨0, _⟩ => exact (rhs_row _ _).trans hk
      | ⟨1, _⟩ => exact rhs_col _ _)
  rw [el, er]

/-- So the body's payload, read at entry (p, q) of the block, is that sum over the two loaded blocks. -/
theorem pay_apply (x : Vec Ideal S1024x128 .f32) (w : Vec Ideal S128x128 .f32) (p : Fin 1024) (q : Fin 128) :
    k0_pay1 (F := Ideal) x w (ix2 p q) = ∑ k : Fin 128, x (ix2 p k) * w (ix2 k q) := by
  unfold k0_pay1
  rw [shapeCast_self]
  exact mm_apply x w p q

/-! ## The whole-array function, and what each point writes back -/

/-- x · W entry by entry: entry (r, f) is the sum over k of x's (r, k) entry times W's (k, f) entry. -/
def prodAll (x : S8192x128.Idx → EReal) (w : S128x128.Idx → EReal) : S8192x128.Idx → EReal :=
  fun i => ∑ k : Fin 128, x (ix2 (n0 := 8192) (i 0) k) * w (ix2 k (n1 := 128) (i 1))

theorem prodAll_apply (x : S8192x128.Idx → EReal) (w : S128x128.Idx → EReal) (r : Fin 8192) (f : Fin 128) :
    prodAll x w (ix2 r f) = ∑ k : Fin 128, x (ix2 r k) * w (ix2 k f) := rfl

/-- Two zero offsets, however spelt. -/
theorem zero_offsets : (![0, 0] : Fin 2 → Nat) = fun _ => 0 := funext fun a => by fin_cases a <;> rfl

/-- The printed index maps over the 8 points: the blocks of x and of y are row band t, all columns; W's block never moves. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of x's block at point t is x's entry in the row where y's block has its row p, column k. -/
theorem read_x (X : S8192x128.Idx → EReal) (t : Fin cfg0.N) (p : Fin 1024) (q : Fin 128) (k : Fin 128) :
    ((cfg0.win 0).blk t).view.read (Elt Ideal) X (ix2 p k)
      = X (ix2 (n0 := 8192) ((((cfg0.win 2).blk t).view.emb (ix2 p q)) 0) k) := by
  obtain ⟨e0, e1, -, -, e4, -⟩ := idx_facts t
  show X (((cfg0.win 0).blk t).view.emb (ix2 p k)) = _
  congr 1
  funext a; apply Fin.ext
  match a with
  | ⟨0, _⟩ =>
    show win0_0.index t (0 : Fin 2) * 1024 + 1 * p.val = win0_2.index t (0 : Fin 2) * 1024 + 1 * p.val
    omega
  | ⟨1, _⟩ =>
    show win0_0.index t (1 : Fin 2) * 128 + 1 * k.val = k.val
    omega

/-- Entry (k, q) of W's block at any point is W's entry in row k and the column where y's block has its column q. -/
theorem read_w (Wm : S128x128.Idx → EReal) (t : Fin cfg0.N) (p : Fin 1024) (q : Fin 128) (k : Fin 128) :
    ((cfg0.win 1).blk t).view.read (Elt Ideal) Wm (ix2 k q)
      = Wm (ix2 k (n1 := 128) ((((cfg0.win 2).blk t).view.emb (ix2 p q)) 1)) := by
  obtain ⟨-, -, e2, e3, -, e5⟩ := idx_facts t
  show Wm (((cfg0.win 1).blk t).view.emb (ix2 k q)) = _
  congr 1
  funext a; apply Fin.ext
  match a with
  | ⟨0, _⟩ =>
    show win0_1.index t (0 : Fin 2) * 128 + 1 * k.val = k.val
    omega
  | ⟨1, _⟩ =>
    show win0_1.index t (1 : Fin 2) * 128 + 1 * q.val = win0_2.index t (1 : Fin 2) * 128 + 1 * q.val
    omega

section Closed

variable {Ix : Type} [DecidableEq Ix] {Name : Type} [DecidableEq Name] {U : Type} [URA U] {Lvl : Type} [Preorder Lvl]

local notation "𝕄" => MT nD τ sig Ix (Elt Ideal) Name U Lvl

variable (c : Dev nD) (A : (w : Fin cfg0.W) → Buf (Elt Ideal) ((cfg0.win w).arr.view.loc (c.tc : Thread nD τ)))
  (q : Fin cfg0.W → PosShare TreeShare) (O : CellTallies nD τ sig Ix) (B : Set (SemLoc sig × Ix))

/-- What point t writes back to y is row band t of x · W, for x and W as the region finds them. -/
theorem flushed_eq (R : sProp 𝕄) (t : Fin cfg0.N) :
    (dat (F := Ideal) (Name := Name) (Lvl := Lvl) c A q R O B).flushed 2 t
      = ((cfg0.win 2).blk t).view.read (Elt Ideal) (prodAll (A 0) (A 1)) := by
  show (cfg0.win 2).cut (grid0.coords t) ((dat (F := Ideal) (Name := Name) (Lvl := Lvl) c A q R O B).after 2 t) = _
  rw [after_y]
  unfold prodBlock
  rw [View.canon_unit_zero zero_offsets]
  simp only [View.ld_unit_zero (S := S1024x128) zero_offsets, View.ld_unit_zero (S := S128x128) zero_offsets]
  funext j
  obtain ⟨p, s, rfl⟩ : ∃ (p : Fin 1024) (s : Fin 128), j = ix2 p s := ⟨j 0, j 1, eq_ix2 j⟩
  show k0_pay1 (F := Ideal) (blockAt c A 0 t) (blockAt c A 1 t) (ix2 p s)
    = prodAll (A 0) (A 1) (((cfg0.win 2).blk t).view.emb (ix2 p s))
  rw [pay_apply]
  unfold prodAll blockAt
  refine Finset.sum_congr rfl fun k _ => ?_
  rw [read_x (A 0) t p s k, read_w (A 1) t p s k]

/-- An entry of y is in point t's block iff each of its coordinates is in the block's range on that axis. -/
theorem mem_blk (t : Fin cfg0.N) (i : S8192x128.Idx) :
    i ∈ ((cfg0.win 2).blk t).view.set
      ↔ ∀ a : Fin 2, win0_2.index t a * S1024x128.size a ≤ (i a).val ∧ (i a).val < win0_2.index t a * S1024x128.size a + S1024x128.size a := by
  show i ∈ ((View.whole main_v1).slice (win0_2.rect t)).set ↔ _
  rw [View.set_slice_whole, Rect.mem_set_unit]
  exact Iff.rfl

/-- The eight row bands tile y: entry (r, f) is in the block of point r / 1024. -/
theorem cover (i : S8192x128.Idx) :
    ∃ t : Fin cfg0.N, (cfg0.win 2).flush t = true ∧ i ∈ ((cfg0.win 2).blk t).view.set := by
  have hi0 : (i 0).val < 8192 := (i 0).isLt
  have hi1 : (i 1).val < 128 := (i 1).isLt
  have hN : cfg0.N = 8 := N_0
  let t : Fin cfg0.N := ⟨(i 0).val / 1024, by rw [hN]; omega⟩
  obtain ⟨-, -, -, -, e4, e5⟩ := idx_facts t
  refine ⟨t, flush0_2 t, ?_⟩
  rw [mem_blk]
  intro a
  match a with
  | ⟨0, _⟩ =>
    show win0_2.index t (0 : Fin 2) * 1024 ≤ (i 0).val ∧ (i 0).val < win0_2.index t (0 : Fin 2) * 1024 + 1024
    have : t.val = (i 0).val / 1024 := rfl
    omega
  | ⟨1, _⟩ =>
    show win0_2.index t (1 : Fin 2) * 128 ≤ (i 1).val ∧ (i 1).val < win0_2.index t (1 : Fin 2) * 128 + 128
    omega

/-- y AFTER THE REGION is x · W of the entry contents of x and W, as one array. -/
theorem y_final (R : sProp 𝕄) :
    (dat (F := Ideal) (Name := Name) (Lvl := Lvl) c A q R O B).arrAt 2 cfg0.N = prodAll (A 0) (A 1) :=
  (dat (F := Ideal) (Name := Name) (Lvl := Lvl) c A q R O B).arrAt_eq_of_cover 2 (prodAll (A 0) (A 1))
    (fun t _ => flushed_eq c A q O B R t) cover

/-- The same read at entry (r, f): the sum over k of x's (r, k) entry times W's (k, f) entry. -/
theorem y_closed (R : sProp 𝕄) (r : Fin 8192) (f : Fin 128) :
    (dat (F := Ideal) (Name := Name) (Lvl := Lvl) c A q R O B).arrAt 2 cfg0.N (ix2 r f)
      = prodAll (A 0) (A 1) (ix2 r f) :=
  congrFun (y_final c A q O B R) (ix2 r f)

end Closed

end Cert.KernelIdeal.Region0

end
-- ==== Proof.FusedBridge.lean ====
/-
  A fused region's point sum, written over the region's window arrays, is the kernel specification's eight-slot sum
  once the window arrays are named as what they hold: the transposed filter inputs, the transposed cutoff-and-mask
  products, the gathered rows, and the weights. Slot 8·(2q + kg) + j of call q is slot 16q + 8kg + j.
-/
import proofs.«215235_g2774548873965_cont_9to1_572_34_alg».proof.Proof.Region1Value
import proofs.«215235_g2774548873965_cont_9to1_572_34_alg».proof.Proof.Region2Value
import proofs.«215235_g2774548873965_cont_9to1_572_34_alg».proof.Proof.Region3Value
import proofs.«215235_g2774548873965_cont_9to1_572_34_alg».proof.Proof.Region4Value
import proofs.«215235_g2774548873965_cont_9to1_572_34_alg».proof.Proof.KSpec

noncomputable section

namespace Cert.KernelIdeal.FusedBridge

open Cert.KernelIdeal Idealize.ShloMosaic Idealize.ShloMosaic.TcCoe Idealize.ShloMosaic.ValueIdx Cert.Spec Cert.KSpec
open scoped BigOperators

variable (rows : (⟨4, ![8, 1024, 64, 128]⟩ : Shape).Idx → EReal) (f4 : (⟨4, ![8, 1024, 64, 50]⟩ : Shape).Idx → EReal)
  (r mask : (⟨3, ![8, 1024, 64]⟩ : Shape).Idx → EReal)
  (W1 : (⟨2, ![50, 128]⟩ : Shape).Idx → EReal) (b1 : (⟨1, ![128]⟩ : Shape).Idx → EReal)
  (W2 : (⟨2, ![128, 128]⟩ : Shape).Idx → EReal) (b2 : (⟨1, ![128]⟩ : Shape).Idx → EReal)

/-! ## Call 0 -/

/-- One slot of a point of call 0: slot 8·(0 + kg) + j of the region is slot 16·0 + 8·kg + j of the specification. -/
theorem slot_eq0 (c : Dev nD) (A : (w : Fin cfg2.W) → Buf (Elt Ideal) ((cfg2.win w).arr.view.loc (c.tc : Thread nD τ)))
    (hF : ∀ (b : Fin 8) (m : Fin 50) (k : Fin 64) (n : Fin 1024), Region1V.aF c A (ix4 b m k n) = f4 (ix4 b n k m))
    (hC : ∀ (b : Fin 8) (k : Fin 64) (n : Fin 1024), Region1V.aC c A (ix3 b k n) = cut r (ix3 b n k) * mask (ix3 b n k))
    (hY : ∀ (b : Fin 8) (kg : Fin 2) (j : Fin 8) (n : Fin 1024) (e : Fin 128),
      Region1V.aY c A (ix2 (⟨(2 * b.val + kg.val) * 8192 + 1024 * j.val + n.val, by have := b.isLt; have := kg.isLt; have := j.isLt; have := n.isLt; omega⟩ : Fin 131072) e)
        = rows (ix4 b n (slot 0 kg j) e))
    (hW1 : Region1V.aW1 c A = W1) (hB1 : ∀ j : Fin 128, Region1V.aB1 c A (ix2 (0 : Fin 1) j) = b1 (ix1 j))
    (hW2 : Region1V.aW2 c A = W2) (hB2 : ∀ j : Fin 128, Region1V.aB2 c A (ix2 (0 : Fin 1) j) = b2 (ix1 j))
    (bi : Fin 8) (kg : Fin 2) (j : Fin 8) (n : Fin 1024) (e : Fin 128) :
    Region1V.slotTerm c A bi kg j n e = termK rows f4 r mask W1 b1 W2 b2 (ix4 bi n (slot 0 kg j) e) := by
  have hs : (⟨8 * kg.val + j.val, by have := kg.isLt; have := j.isLt; omega⟩ : Fin 64) = slot 0 kg j :=
    Fin.ext (by show 8 * kg.val + j.val = 16 * 0 + 8 * kg.val + j.val; omega)
  unfold Region1V.slotTerm Region1V.sspK
  simp only [hs, hF, hC, hY, hW1, hB1, hW2, hB2]
  unfold termK filtK filtIn Cert.KSpec.sspK
  rfl

/-- A point of call 0: the eight slots, in the same order. -/
theorem point_eq0 (c : Dev nD) (A : (w : Fin cfg2.W) → Buf (Elt Ideal) ((cfg2.win w).arr.view.loc (c.tc : Thread nD τ)))
    (hF : ∀ (b : Fin 8) (m : Fin 50) (k : Fin 64) (n : Fin 1024), Region1V.aF c A (ix4 b m k n) = f4 (ix4 b n k m))
    (hC : ∀ (b : Fin 8) (k : Fin 64) (n : Fin 1024), Region1V.aC c A (ix3 b k n) = cut r (ix3 b n k) * mask (ix3 b n k))
    (hY : ∀ (b : Fin 8) (kg : Fin 2) (j : Fin 8) (n : Fin 1024) (e : Fin 128),
      Region1V.aY c A (ix2 (⟨(2 * b.val + kg.val) * 8192 + 1024 * j.val + n.val, by have := b.isLt; have := kg.isLt; have := j.isLt; have := n.isLt; omega⟩ : Fin 131072) e)
        = rows (ix4 b n (slot 0 kg j) e))
    (hW1 : Region1V.aW1 c A = W1) (hB1 : ∀ j : Fin 128, Region1V.aB1 c A (ix2 (0 : Fin 1) j) = b1 (ix1 j))
    (hW2 : Region1V.aW2 c A = W2) (hB2 : ∀ j : Fin 128, Region1V.aB2 c A (ix2 (0 : Fin 1) j) = b2 (ix1 j))
    (bi : Fin 8) (kg : Fin 2) (n : Fin 1024) (e : Fin 128) :
    Region1V.pointSum c A bi kg n e = eight (fun k => termK rows f4 r mask W1 b1 W2 b2 (ix4 bi n k e)) 0 kg := by
  unfold Region1V.pointSum eight
  simp only [slot_eq0 rows f4 r mask W1 b1 W2 b2 c A hF hC hY hW1 hB1 hW2 hB2]

/-! ## Call 1 -/

/-- One slot of a point of call 1: slot 8·(2 + kg) + j of the region is slot 16·1 + 8·kg + j of the specification. -/
theorem slot_eq1 (c : Dev nD) (A : (w : Fin cfg4.W) → Buf (Elt Ideal) ((cfg4.win w).arr.view.loc (c.tc : Thread nD τ)))
    (hF : ∀ (b : Fin 8) (m : Fin 50) (k : Fin 64) (n : Fin 1024), Region2V.aF c A (ix4 b m k n) = f4 (ix4 b n k m))
    (hC : ∀ (b : Fin 8) (k : Fin 64) (n : Fin 1024), Region2V.aC c A (ix3 b k n) = cut r (ix3 b n k) * mask (ix3 b n k))
    (hY : ∀ (b : Fin 8) (kg : Fin 2) (j : Fin 8) (n : Fin 1024) (e : Fin 128),
      Region2V.aY c A (ix2 (⟨(2 * b.val + kg.val) * 8192 + 1024 * j.val + n.val, by have := b.isLt; have := kg.isLt; have := j.isLt; have := n.isLt; omega⟩ : Fin 131072) e)
        = rows (ix4 b n (slot 1 kg j) e))
    (hW1 : Region2V.aW1 c A = W1) (hB1 : ∀ j : Fin 128, Region2V.aB1 c A (ix2 (0 : Fin 1) j) = b1 (ix1 j))
    (hW2 : Region2V.aW2 c A = W2) (hB2 : ∀ j : Fin 128, Region2V.aB2 c A (ix2 (0 : Fin 1) j) = b2 (ix1 j))
    (bi : Fin 8) (kg : Fin 2) (j : Fin 8) (n : Fin 1024) (e : Fin 128) :
    Region2V.slotTerm c A bi kg j n e = termK rows f4 r mask W1 b1 W2 b2 (ix4 bi n (slot 1 kg j) e) := by
  have hs : (⟨8 * (2 + kg.val) + j.val, by have := kg.isLt; have := j.isLt; omega⟩ : Fin 64) = slot 1 kg j :=
    Fin.ext (by show 8 * (2 + kg.val) + j.val = 16 * 1 + 8 * kg.val + j.val; omega)
  unfold Region2V.slotTerm Region2V.sspK
  simp only [hs, hF, hC, hY, hW1, hB1, hW2, hB2]
  unfold termK filtK filtIn Cert.KSpec.sspK
  rfl

/-- A point of call 1: the eight slots, in the same order. -/
theorem point_eq1 (c : Dev nD) (A : (w : Fin cfg4.W) → Buf (Elt Ideal) ((cfg4.win w).arr.view.loc (c.tc : Thread nD τ)))
    (hF : ∀ (b : Fin 8) (m : Fin 50) (k : Fin 64) (n : Fin 1024), Region2V.aF c A (ix4 b m k n) = f4 (ix4 b n k m))
    (hC : ∀ (b : Fin 8) (k : Fin 64) (n : Fin 1024), Region2V.aC c A (ix3 b k n) = cut r (ix3 b n k) * mask (ix3 b n k))
    (hY : ∀ (b : Fin 8) (kg : Fin 2) (j : Fin 8) (n : Fin 1024) (e : Fin 128),
      Region2V.aY c A (ix2 (⟨(2 * b.val + kg.val) * 8192 + 1024 * j.val + n.val, by have := b.isLt; have := kg.isLt; have := j.isLt; have := n.isLt; omega⟩ : Fin 131072) e)
        = rows (ix4 b n (slot 1 kg j) e))
    (hW1 : Region2V.aW1 c A = W1) (hB1 : ∀ j : Fin 128, Region2V.aB1 c A (ix2 (0 : Fin 1) j) = b1 (ix1 j))
    (hW2 : Region2V.aW2 c A = W2) (hB2 : ∀ j : Fin 128, Region2V.aB2 c A (ix2 (0 : Fin 1) j) = b2 (ix1 j))
    (bi : Fin 8) (kg : Fin 2) (n : Fin 1024) (e : Fin 128) :
    Region2V.pointSum c A bi kg n e = eight (fun k => termK rows f4 r mask W1 b1 W2 b2 (ix4 bi n k e)) 1 kg := by
  unfold Region2V.pointSum eight
  simp only [slot_eq1 rows f4 r mask W1 b1 W2 b2 c A hF hC hY hW1 hB1 hW2 hB2]

/-! ## Call 2 -/

/-- One slot of a point of call 2: slot 8·(4 + kg) + j of the region is slot 16·2 + 8·kg + j of the specification. -/
theorem slot_eq2 (c : Dev nD) (A : (w : Fin cfg6.W) → Buf (Elt Ideal) ((cfg6.win w).arr.view.loc (c.tc : Thread nD τ)))
    (hF : ∀ (b : Fin 8) (m : Fin 50) (k : Fin 64) (n : Fin 1024), Region3V.aF c A (ix4 b m k n) = f4 (ix4 b n k m))
    (hC : ∀ (b : Fin 8) (k : Fin 64) (n : Fin 1024), Region3V.aC c A (ix3 b k n) = cut r (ix3 b n k) * mask (ix3 b n k))
    (hY : ∀ (b : Fin 8) (kg : Fin 2) (j : Fin 8) (n : Fin 1024) (e : Fin 128),
      Region3V.aY c A (ix2 (⟨(2 * b.val + kg.val) * 8192 + 1024 * j.val + n.val, by have := b.isLt; have := kg.isLt; have := j.isLt; have := n.isLt; omega⟩ : Fin 131072) e)
        = rows (ix4 b n (slot 2 kg j) e))
    (hW1 : Region3V.aW1 c A = W1) (hB1 : ∀ j : Fin 128, Region3V.aB1 c A (ix2 (0 : Fin 1) j) = b1 (ix1 j))
    (hW2 : Region3V.aW2 c A = W2) (hB2 : ∀ j : Fin 128, Region3V.aB2 c A (ix2 (0 : Fin 1) j) = b2 (ix1 j))
    (bi : Fin 8) (kg : Fin 2) (j : Fin 8) (n : Fin 1024) (e : Fin 128) :
    Region3V.slotTerm c A bi kg j n e = termK rows f4 r mask W1 b1 W2 b2 (ix4 bi n (slot 2 kg j) e) := by
  have hs : (⟨8 * (4 + kg.val) + j.val, by have := kg.isLt; have := j.isLt; omega⟩ : Fin 64) = slot 2 kg j :=
    Fin.ext (by show 8 * (4 + kg.val) + j.val = 16 * 2 + 8 * kg.val + j.val; omega)
  unfold Region3V.slotTerm Region3V.sspK
  simp only [hs, hF, hC, hY, hW1, hB1, hW2, hB2]
  unfold termK filtK filtIn Cert.KSpec.sspK
  rfl

/-- A point of call 2: the eight slots, in the same order. -/
theorem point_eq2 (c : Dev nD) (A : (w : Fin cfg6.W) → Buf (Elt Ideal) ((cfg6.win w).arr.view.loc (c.tc : Thread nD τ)))
    (hF : ∀ (b : Fin 8) (m : Fin 50) (k : Fin 64) (n : Fin 1024), Region3V.aF c A (ix4 b m k n) = f4 (ix4 b n k m))
    (hC : ∀ (b : Fin 8) (k : Fin 64) (n : Fin 1024), Region3V.aC c A (ix3 b k n) = cut r (ix3 b n k) * mask (ix3 b n k))
    (hY : ∀ (b : Fin 8) (kg : Fin 2) (j : Fin 8) (n : Fin 1024) (e : Fin 128),
      Region3V.aY c A (ix2 (⟨(2 * b.val + kg.val) * 8192 + 1024 * j.val + n.val, by have := b.isLt; have := kg.isLt; have := j.isLt; have := n.isLt; omega⟩ : Fin 131072) e)
        = rows (ix4 b n (slot 2 kg j) e))
    (hW1 : Region3V.aW1 c A = W1) (hB1 : ∀ j : Fin 128, Region3V.aB1 c A (ix2 (0 : Fin 1) j) = b1 (ix1 j))
    (hW2 : Region3V.aW2 c A = W2) (hB2 : ∀ j : Fin 128, Region3V.aB2 c A (ix2 (0 : Fin 1) j) = b2 (ix1 j))
    (bi : Fin 8) (kg : Fin 2) (n : Fin 1024) (e : Fin 128) :
    Region3V.pointSum c A bi kg n e = eight (fun k => termK rows f4 r mask W1 b1 W2 b2 (ix4 bi n k e)) 2 kg := by
  unfold Region3V.pointSum eight
  simp only [slot_eq2 rows f4 r mask W1 b1 W2 b2 c A hF hC hY hW1 hB1 hW2 hB2]

/-! ## Call 3 -/

/-- One slot of a point of call 3: slot 8·(6 + kg) + j of the region is slot 16·3 + 8·kg + j of the specification. -/
theorem slot_eq3 (c : Dev nD) (A : (w : Fin cfg8.W) → Buf (Elt Ideal) ((cfg8.win w).arr.view.loc (c.tc : Thread nD τ)))
    (hF : ∀ (b : Fin 8) (m : Fin 50) (k : Fin 64) (n : Fin 1024), Region4V.aF c A (ix4 b m k n) = f4 (ix4 b n k m))
    (hC : ∀ (b : Fin 8) (k : Fin 64) (n : Fin 1024), Region4V.aC c A (ix3 b k n) = cut r (ix3 b n k) * mask (ix3 b n k))
    (hY : ∀ (b : Fin 8) (kg : Fin 2) (j : Fin 8) (n : Fin 1024) (e : Fin 128),
      Region4V.aY c A (ix2 (⟨(2 * b.val + kg.val) * 8192 + 1024 * j.val + n.val, by have := b.isLt; have := kg.isLt; have := j.isLt; have := n.isLt; omega⟩ : Fin 131072) e)
        = rows (ix4 b n (slot 3 kg j) e))
    (hW1 : Region4V.aW1 c A = W1) (hB1 : ∀ j : Fin 128, Region4V.aB1 c A (ix2 (0 : Fin 1) j) = b1 (ix1 j))
    (hW2 : Region4V.aW2 c A = W2) (hB2 : ∀ j : Fin 128, Region4V.aB2 c A (ix2 (0 : Fin 1) j) = b2 (ix1 j))
    (bi : Fin 8) (kg : Fin 2) (j : Fin 8) (n : Fin 1024) (e : Fin 128) :
    Region4V.slotTerm c A bi kg j n e = termK rows f4 r mask W1 b1 W2 b2 (ix4 bi n (slot 3 kg j) e) := by
  have hs : (⟨8 * (6 + kg.val) + j.val, by have := kg.isLt; have := j.isLt; omega⟩ : Fin 64) = slot 3 kg j :=
    Fin.ext (by show 8 * (6 + kg.val) + j.val = 16 * 3 + 8 * kg.val + j.val; omega)
  unfold Region4V.slotTerm Region4V.sspK
  simp only [hs, hF, hC, hY, hW1, hB1, hW2, hB2]
  unfold termK filtK filtIn Cert.KSpec.sspK
  rfl

/-- A point of call 3: the eight slots, in the same order. -/
theorem point_eq3 (c : Dev nD) (A : (w : Fin cfg8.W) → Buf (Elt Ideal) ((cfg8.win w).arr.view.loc (c.tc : Thread nD τ)))
    (hF : ∀ (b : Fin 8) (m : Fin 50) (k : Fin 64) (n : Fin 1024), Region4V.aF c A (ix4 b m k n) = f4 (ix4 b n k m))
    (hC : ∀ (b : Fin 8) (k : Fin 64) (n : Fin 1024), Region4V.aC c A (ix3 b k n) = cut r (ix3 b n k) * mask (ix3 b n k))
    (hY : ∀ (b : Fin 8) (kg : Fin 2) (j : Fin 8) (n : Fin 1024) (e : Fin 128),
      Region4V.aY c A (ix2 (⟨(2 * b.val + kg.val) * 8192 + 1024 * j.val + n.val, by have := b.isLt; have := kg.isLt; have := j.isLt; have := n.isLt; omega⟩ : Fin 131072) e)
        = rows (ix4 b n (slot 3 kg j) e))
    (hW1 : Region4V.aW1 c A = W1) (hB1 : ∀ j : Fin 128, Region4V.aB1 c A (ix2 (0 : Fin 1) j) = b1 (ix1 j))
    (hW2 : Region4V.aW2 c A = W2) (hB2 : ∀ j : Fin 128, Region4V.aB2 c A (ix2 (0 : Fin 1) j) = b2 (ix1 j))
    (bi : Fin 8) (kg : Fin 2) (n : Fin 1024) (e : Fin 128) :
    Region4V.pointSum c A bi kg n e = eight (fun k => termK rows f4 r mask W1 b1 W2 b2 (ix4 bi n k e)) 3 kg := by
  unfold Region4V.pointSum eight
  simp only [slot_eq3 rows f4 r mask W1 b1 W2 b2 c A hF hC hY hW1 hB1 hW2 hB2]

end Cert.KernelIdeal.FusedBridge

end
-- ==== Proof.GatherBridge.lean ====
/-
  The gather's part of the bridge: what a sparse-core call's output array holds, row by row, is the specification's
  gathered rows.

  Output row E = (2b + kg)·8192 + 1024·j + n of call q reads the index entry of tile E / 4096, chunk (E % 4096) / 128,
  lane E % 128. The call's index array is the [8,16,1024] slice of the row numbers starting at slot 16q, read in
  row-major order as [32,32,128]; that entry has the same row-major position as (b, 8kg + j, n) of the slice, which is
  (b, 16q + 8kg + j, n) of the row numbers: the neighbour index nbr[b, n, 16q + 8kg + j] plus b·1024. With the neighbour
  below 1024 nothing wraps around in 32 bits, the sum is below 8192 (so reading it modulo 8192 changes nothing), and it
  is the flat row of node nbr of batch b. That row of the flat product is Σ_k x[b, nbr, k] · W[k, e], the
  specification's y at (b, nbr, e); the specification's clamp of nbr into 0 … 1023 changes nothing either.
-/
import proofs.«215235_g2774548873965_cont_9to1_572_34_alg».proof.Proof.ScPayV
import proofs.«215235_g2774548873965_cont_9to1_572_34_alg».proof.Proof.HostIdx
import proofs.«215235_g2774548873965_cont_9to1_572_34_alg».proof.Proof.Region0Value
import proofs.«215235_g2774548873965_cont_9to1_572_34_alg».proof.Proof.HostVals
import proofs.«215235_g2774548873965_cont_9to1_572_34_alg».proof.Proof.Spec
import proofs.«215235_g2774548873965_cont_9to1_572_34_alg».proof.Proof.KSpec

noncomputable section

namespace Cert.KernelIdeal.Sc

open Cert.KernelIdeal Idealize.ShloMosaic Idealize.ShloMosaic.TcCoe
open Idealize.ShloMosaic.ValueIdx
open scoped BigOperators
open Facts₀ Facts

/-- Output row (2b + kg)·8192 + 1024·j + n of a call: batch b, half kg of the call's sixteen slots, slot j of the
    half, node n. -/
abbrev outRow (b : Fin 8) (kg : Fin 2) (j : Fin 8) (n : Fin 1024) : Fin 131072 :=
  ⟨(2 * b.val + kg.val) * 8192 + 1024 * j.val + n.val, by have := b.isLt; have := kg.isLt; have := j.isLt; have := n.isLt; omega⟩

/-! ## The index entry an output row reads -/

/-- The [8,16,1024] slice at slot offset o of an [8,64,1024] array, read as [32,32,128], at the entry output row
    (2b + kg)·8192 + 1024·j + n reads, is the array at (b, o + 8kg + j, n): the same row-major position. -/
theorem slice_src {α : Type} (o : Nat) (hs : S8x64x1024.Slices ![0, o, 0] S8x16x1024) (Rw : S8x64x1024.Idx → α)
    (b : Fin 8) (kg : Fin 2) (j : Fin 8) (n : Fin 1024) (ho : o + 16 ≤ 64) :
    shapeCast S32x32x128 (extractStridedSlice S8x16x1024 ![0, o, 0] Rw hs) shapeCasts_S8x16x1024_S32x32x128
        (srcIdx (outRow b kg j n))
      = Rw (ix3 b (⟨o + 8 * kg.val + j.val, by have := kg.isLt; have := j.isLt; omega⟩ : Fin 64) n) := by
  have hb := b.isLt; have hkg := kg.isLt; have hj := j.isLt; have hn := n.isLt
  rw [shapeCast_apply _ shapeCasts_S8x16x1024_S32x32x128 (srcIdx (outRow b kg j n))
    (ix3 b (⟨8 * kg.val + j.val, by omega⟩ : Fin 16) n) (by
      rw [Shape.rowMajor_val_three, Shape.rowMajor_val_three]
      show (b.val * 16 + (8 * kg.val + j.val)) * 1024 + n.val
        = (((2 * b.val + kg.val) * 8192 + 1024 * j.val + n.val) / 4096 * 32
            + ((2 * b.val + kg.val) * 8192 + 1024 * j.val + n.val) % 4096 / 128) * 128
          + ((2 * b.val + kg.val) * 8192 + 1024 * j.val + n.val) % 128
      omega)]
  exact extractStridedSlice_apply ![0, o, 0] Rw hs (ix3 b (⟨8 * kg.val + j.val, by omega⟩ : Fin 16) n)
    (ix3 b (⟨o + 8 * kg.val + j.val, by omega⟩ : Fin 64) n) (fun a => by
    match a with
    | ⟨0, _⟩ => show b.val = 0 + b.val; omega
    | ⟨1, _⟩ => show o + 8 * kg.val + j.val = o + (8 * kg.val + j.val); omega
    | ⟨2, _⟩ => show n.val = 0 + n.val; omega)

/-- The row numbers at (b, s, n): the neighbour index at (b, n, s) plus b·1024, in 32-bit words. -/
theorem rowsAll_at (a2 : IVec S8x1024x64 32) (b : Fin 8) (s : Fin 64) (n : Fin 1024) :
    HostIdx.rowsAll a2 (ix3 b s n) = IntOp.addi (a2 (ix3 b n s)) (IntOp.muli (BitVec.ofNat 32 b.val) 1024#32) := by
  show IntOp.addi (transpose S8x64x1024 [0, 2, 1] a2 transposes_S8x1024x64_S8x64x1024_0_2_1 (ix3 b s n))
    (IntOp.muli (BitVec.ofNat 32 b.val) 1024#32) = _
  rw [swap_apply]

/-- A neighbour below 1024 plus the offset of one of the 8 batches, as a natural number: nothing wraps around. -/
theorem entry_toNat (v : BitVec 32) (b : Nat) (hv : v.toNat < 1024) (hb : b < 8) :
    (IntOp.addi v (IntOp.muli (BitVec.ofNat 32 b) 1024#32)).toNat = b * 1024 + v.toNat := by
  unfold IntOp.addi IntOp.muli
  rw [BitVec.toNat_add, BitVec.toNat_mul, BitVec.toNat_ofNat]
  have e : (1024#32 : BitVec 32).toNat = 1024 := by decide
  rw [e]
  omega

/-! ## The row it names, in the flat product and in the specification -/

/-- If y is the flat product and the index entry a row reads is the neighbour at (b, n, s) plus b·1024, what the row
    holds at column e — y at that entry modulo 8192 — is the specification's gathered row at (b, n, s, e). -/
theorem gath_entry (Y : S8192x128.Idx → EReal) (x : S8x1024x128.Idx → EReal) (Win : S128x128.Idx → EReal)
    (a2 : IVec S8x1024x64 32)
    (hy : Y = Region0.prodAll (shapeCast S8192x128 x shapeCasts_S8x1024x128_S8192x128) Win)
    (b : Fin 8) (n : Fin 1024) (s : Fin 64) (e : Fin 128) (hv : (a2 (ix3 b n s)).toNat < 1024)
    (w : BitVec 32) (hw : w = IntOp.addi (a2 (ix3 b n s)) (IntOp.muli (BitVec.ofNat 32 b.val) 1024#32)) :
    Y (ix2 (⟨w.toNat % 8192, Nat.mod_lt _ (by decide)⟩ : Fin 8192) e)
      = Cert.Spec.rowsOf (Cert.Spec.yOf x Win) a2 (ix4 b n s e) := by
  have hb := b.isLt
  have hrow : (⟨w.toNat % 8192, Nat.mod_lt _ (by decide)⟩ : Fin 8192)
      = ⟨b.val * 1024 + (⟨(a2 (ix3 b n s)).toNat, hv⟩ : Fin 1024).val, by show b.val * 1024 + (a2 (ix3 b n s)).toNat < 8192; omega⟩ :=
    Fin.ext (by
      show w.toNat % 8192 = b.val * 1024 + (a2 (ix3 b n s)).toNat
      rw [hw, entry_toNat _ _ hv hb]
      omega)
  have hclamp : (⟨min (a2 (ix3 b n s)).toNat 1023, by omega⟩ : Fin 1024) = ⟨(a2 (ix3 b n s)).toNat, hv⟩ :=
    Fin.ext (by show min (a2 (ix3 b n s)).toNat 1023 = (a2 (ix3 b n s)).toNat; omega)
  rw [hrow, hy, Region0.prodAll_apply]
  show _ = ∑ k : Fin 128, x (ix3 b (⟨min (a2 (ix3 b n s)).toNat 1023, by omega⟩ : Fin 1024) k) * Win (ix2 k e)
  rw [hclamp]
  refine Finset.sum_congr rfl fun k _ => ?_
  rw [flat_apply x b ⟨(a2 (ix3 b n s)).toNat, hv⟩ k]

/-! ## The four calls -/

/-- CALL 0: output row (2b + kg)·8192 + 1024·j + n, column e, holds the specification's gathered row for node n of
    batch b at neighbour slot 16·0 + 8·kg + j, column e. -/
theorem gath_rows0 (C : Conts Ideal) (d : Dev nD) (x : S8x1024x128.Idx → EReal) (Win : S128x128.Idx → EReal)
    (a2 : IVec S8x1024x64 32) (h2 : ∀ j, (a2 j).toNat < 1024)
    (hy : C.y d = Region0.prodAll (shapeCast S8192x128 x shapeCasts_S8x1024x128_S8192x128) Win)
    (hi : C.ix0 d = HostIdx.idxVal 0 a2)
    (b : Fin 8) (kg : Fin 2) (j : Fin 8) (n : Fin 1024) (e : Fin 128) :
    gath0 C d (ix2 (outRow b kg j n) e)
      = Cert.Spec.rowsOf (Cert.Spec.yOf x Win) a2 (ix4 b n (Cert.KSpec.slot 0 kg j) e) := by
  have hv : (a2 (ix3 b n (Cert.KSpec.slot 0 kg j))).toNat < 1024 := h2 _
  have hent : C.ix0 d (srcIdx (outRow b kg j n))
      = IntOp.addi (a2 (ix3 b n (Cert.KSpec.slot 0 kg j))) (IntOp.muli (BitVec.ofNat 32 b.val) 1024#32) := by
    rw [hi]
    show shapeCast S32x32x128 (extractStridedSlice S8x16x1024 ![0, 0, 0] (HostIdx.rowsAll a2) slices_S8x64x1024_S8x16x1024_0_0_0)
      shapeCasts_S8x16x1024_S32x32x128 (srcIdx (outRow b kg j n)) = _
    rw [slice_src 0 slices_S8x64x1024_S8x16x1024_0_0_0 (HostIdx.rowsAll a2) b kg j n (by decide), rowsAll_at]
    rfl
  exact gath_entry (C.y d) x Win a2 hy b n (Cert.KSpec.slot 0 kg j) e hv _ hent

/-- CALL 1: output row (2b + kg)·8192 + 1024·j + n, column e, holds the specification's gathered row for node n of
    batch b at neighbour slot 16·1 + 8·kg + j, column e. -/
theorem gath_rows1 (C : Conts Ideal) (d : Dev nD) (x : S8x1024x128.Idx → EReal) (Win : S128x128.Idx → EReal)
    (a2 : IVec S8x1024x64 32) (h2 : ∀ j, (a2 j).toNat < 1024)
    (hy : C.y d = Region0.prodAll (shapeCast S8192x128 x shapeCasts_S8x1024x128_S8192x128) Win)
    (hi : C.ix1 d = HostIdx.idxVal 1 a2)
    (b : Fin 8) (kg : Fin 2) (j : Fin 8) (n : Fin 1024) (e : Fin 128) :
    gath1 C d (ix2 (outRow b kg j n) e)
      = Cert.Spec.rowsOf (Cert.Spec.yOf x Win) a2 (ix4 b n (Cert.KSpec.slot 1 kg j) e) := by
  have hv : (a2 (ix3 b n (Cert.KSpec.slot 1 kg j))).toNat < 1024 := h2 _
  have hent : C.ix1 d (srcIdx (outRow b kg j n))
      = IntOp.addi (a2 (ix3 b n (Cert.KSpec.slot 1 kg j))) (IntOp.muli (BitVec.ofNat 32 b.val) 1024#32) := by
    rw [hi]
    show shapeCast S32x32x128 (extractStridedSlice S8x16x1024 ![0, 16, 0] (HostIdx.rowsAll a2) slices_S8x64x1024_S8x16x1024_0_16_0)
      shapeCasts_S8x16x1024_S32x32x128 (srcIdx (outRow b kg j n)) = _
    rw [slice_src 16 slices_S8x64x1024_S8x16x1024_0_16_0 (HostIdx.rowsAll a2) b kg j n (by decide), rowsAll_at]
    rfl
  exact gath_entry (C.y d) x Win a2 hy b n (Cert.KSpec.slot 1 kg j) e hv _ hent

/-- CALL 2: output row (2b + kg)·8192 + 1024·j + n, column e, holds the specification's gathered row for node n of
    batch b at neighbour slot 16·2 + 8·kg + j, column e. -/
theorem gath_rows2 (C : Conts Ideal) (d : Dev nD) (x : S8x1024x128.Idx → EReal) (Win : S128x128.Idx → EReal)
    (a2 : IVec S8x1024x64 32) (h2 : ∀ j, (a2 j).toNat < 1024)
    (hy : C.y d = Region0.prodAll (shapeCast S8192x128 x shapeCasts_S8x1024x128_S8192x128) Win)
    (hi : C.ix2 d = HostIdx.idxVal 2 a2)
    (b : Fin 8) (kg : Fin 2) (j : Fin 8) (n : Fin 1024) (e : Fin 128) :
    gath2 C d (ix2 (outRow b kg j n) e)
      = Cert.Spec.rowsOf (Cert.Spec.yOf x Win) a2 (ix4 b n (Cert.KSpec.slot 2 kg j) e) := by
  have hv : (a2 (ix3 b n (Cert.KSpec.slot 2 kg j))).toNat < 1024 := h2 _
  have hent : C.ix2 d (srcIdx (outRow b kg j n))
      = IntOp.addi (a2 (ix3 b n (Cert.KSpec.slot 2 kg j))) (IntOp.muli (BitVec.ofNat 32 b.val) 1024#32) := by
    rw [hi]
    show shapeCast S32x32x128 (extractStridedSlice S8x16x1024 ![0, 32, 0] (HostIdx.rowsAll a2) slices_S8x64x1024_S8x16x1024_0_32_0)
      shapeCasts_S8x16x1024_S32x32x128 (srcIdx (outRow b kg j n)) = _
    rw [slice_src 32 slices_S8x64x1024_S8x16x1024_0_32_0 (HostIdx.rowsAll a2) b kg j n (by decide), rowsAll_at]
    rfl
  exact gath_entry (C.y d) x Win a2 hy b n (Cert.KSpec.slot 2 kg j) e hv _ hent

/-- CALL 3: output row (2b + kg)·8192 + 1024·j + n, column e, holds the specification's gathered row for node n of
    batch b at neighbour slot 16·3 + 8·kg + j, column e. -/
theorem gath_rows3 (C : Conts Ideal) (d : Dev nD) (x : S8x1024x128.Idx → EReal) (Win : S128x128.Idx → EReal)
    (a2 : IVec S8x1024x64 32) (h2 : ∀ j, (a2 j).toNat < 1024)
    (hy : C.y d = Region0.prodAll (shapeCast S8192x128 x shapeCasts_S8x1024x128_S8192x128) Win)
    (hi : C.ix3 d = HostIdx.idxVal 3 a2)
    (b : Fin 8) (kg : Fin 2) (j : Fin 8) (n : Fin 1024) (e : Fin 128) :
    gath3 C d (ix2 (outRow b kg j n) e)
      = Cert.Spec.rowsOf (Cert.Spec.yOf x Win) a2 (ix4 b n (Cert.KSpec.slot 3 kg j) e) := by
  have hv : (a2 (ix3 b n (Cert.KSpec.slot 3 kg j))).toNat < 1024 := h2 _
  have hent : C.ix3 d (srcIdx (outRow b kg j n))
      = IntOp.addi (a2 (ix3 b n (Cert.KSpec.slot 3 kg j))) (IntOp.muli (BitVec.ofNat 32 b.val) 1024#32) := by
    rw [hi]
    show shapeCast S32x32x128 (extractStridedSlice S8x16x1024 ![0, 48, 0] (HostIdx.rowsAll a2) slices_S8x64x1024_S8x16x1024_0_48_0)
      shapeCasts_S8x16x1024_S32x32x128 (srcIdx (outRow b kg j n)) = _
    rw [slice_src 48 slices_S8x64x1024_S8x16x1024_0_48_0 (HostIdx.rowsAll a2) b kg j n (by decide), rowsAll_at]
    rfl
  exact gath_entry (C.y d) x Win a2 hy b n (Cert.KSpec.slot 3 kg j) e hv _ hent

end Cert.KernelIdeal.Sc

end
-- ==== Proof.KvalBridge.lean ====
/-
  The result array at the end of the program, looked up through the walk.

  The valuation at the end is the launch valuation pushed through seventeen steps: a host stretch runs (arrays it does
  not write keep their contents), a region or a call writes its one output array (the others keep theirs). Naming the
  eighteen valuations in between turns every question "what does array b hold when region p is entered" into a chain
  of such steps back to where b was written.
-/
import proofs.«215235_g2774548873965_cont_9to1_572_34_alg».proof.Proof.ScValue
import proofs.«215235_g2774548873965_cont_9to1_572_34_alg».proof.Proof.HostVals
import proofs.«215235_g2774548873965_cont_9to1_572_34_alg».proof.Proof.Region5Value
import proofs.«215235_g2774548873965_cont_9to1_572_34_alg».proof.Proof.Region1Value
import proofs.«215235_g2774548873965_cont_9to1_572_34_alg».proof.Proof.Region2Value
import proofs.«215235_g2774548873965_cont_9to1_572_34_alg».proof.Proof.Region3Value
import proofs.«215235_g2774548873965_cont_9to1_572_34_alg».proof.Proof.Region4Value
import proofs.«215235_g2774548873965_cont_9to1_572_34_alg».proof.Proof.Region0Value
import proofs.«215235_g2774548873965_cont_9to1_572_34_alg».proof.Proof.FusedBridge
import proofs.«215235_g2774548873965_cont_9to1_572_34_alg».proof.Proof.GatherBridge

noncomputable section

namespace Cert.KernelIdeal.Sc

open Cert.KernelIdeal
open Idealize.ShloMosaic Idealize.ShloMosaic.StableHlo Idealize.ShloMosaic.TcCoe
open Idealize.ShloMosaic.SparseCore (S T)
open Idealize.ShloMosaic.SparseCore.Cfg (HIx Pay)
open Idealize.SL Idealize.SL.RA Idealize.SL.BI Idealize.SL.Sem
open Facts₀ Facts

variable {F : FTy → Type} [FloatOps F] [∀ e, Nonempty (Elt F e)]

/-! ## The eighteen valuations in between -/

/-- The arrays before region 0. -/
def Wa (m : (ℓ : Loc nD τ sig) → Buf (Elt F) ℓ) (d : Dev nD) : Valuation τ sig (Elt F) := after host0 (launchContents m d)
/-- The arrays after region 0. -/
def Wb (m : (ℓ : Loc nD τ sig) → Buf (Elt F) ℓ) (d : Dev nD) : Valuation τ sig (Elt F) := Function.update (Wa m d) (Proc.devRef .tc main_v1) (val0 (Wa m d) d)
theorem Wb_new (m : (ℓ : Loc nD τ sig) → Buf (Elt F) ℓ) (d : Dev nD) : Wb m d (Proc.devRef .tc main_v1) = val0 (Wa m d) d := Function.update_self _ _ _
theorem Wb_old (m : (ℓ : Loc nD τ sig) → Buf (Elt F) ℓ) (d : Dev nD) (b : Ref sig .tc) (hb : b ≠ main_v1) : Wb m d (Proc.devRef .tc b) = Wa m d (Proc.devRef .tc b) :=
  Function.update_of_ne (devRef_ne_of_ne hb) _ _
/-- The arrays before call 0: host stretch 1 has run. -/
def Wc (m : (ℓ : Loc nD τ sig) → Buf (Elt F) ℓ) (d : Dev nD) : Valuation τ sig (Elt F) := after host1 (Wb m d)
theorem Wc_keep (m : (ℓ : Loc nD τ sig) → Buf (Elt F) ℓ) (d : Dev nD) (b : Ref sig .tc) (hb : b ∉ host1_W) : Wc m d (Proc.devRef .tc b) = Wb m d (Proc.devRef .tc b) :=
  host1_keeps _ b hb
/-- The arrays after call 0. -/
def Wd (m : (ℓ : Loc nD τ sig) → Buf (Elt F) ℓ) (d : Dev nD) : Valuation τ sig (Elt F) := Function.update (Wc m d) (Proc.devRef .tc main_v20) (gath0 (contsOf (F := F) m) d)
theorem Wd_new (m : (ℓ : Loc nD τ sig) → Buf (Elt F) ℓ) (d : Dev nD) : Wd m d (Proc.devRef .tc main_v20) = gath0 (contsOf (F := F) m) d := Function.update_self _ _ _
theorem Wd_old (m : (ℓ : Loc nD τ sig) → Buf (Elt F) ℓ) (d : Dev nD) (b : Ref sig .tc) (hb : b ≠ main_v20) : Wd m d (Proc.devRef .tc b) = Wc m d (Proc.devRef .tc b) :=
  Function.update_of_ne (devRef_ne_of_ne hb) _ _
/-- The arrays before fused region 1: host stretch 2 has run. -/
def We (m : (ℓ : Loc nD τ sig) → Buf (Elt F) ℓ) (d : Dev nD) : Valuation τ sig (Elt F) := after host2 (Wd m d)
theorem We_keep (m : (ℓ : Loc nD τ sig) → Buf (Elt F) ℓ) (d : Dev nD) (b : Ref sig .tc) (hb : b ∉ ([] : List (Ref sig .tc))) : We m d (Proc.devRef .tc b) = Wd m d (Proc.devRef .tc b) :=
  host2_keeps _ b hb
/-- The arrays after fused region 1. -/
def Wf (m : (ℓ : Loc nD τ sig) → Buf (Elt F) ℓ) (d : Dev nD) : Valuation τ sig (Elt F) := Function.update (We m d) (Proc.devRef .tc main_v21) (val1 (We m d) d)
theorem Wf_new (m : (ℓ : Loc nD τ sig) → Buf (Elt F) ℓ) (d : Dev nD) : Wf m d (Proc.devRef .tc main_v21) = val1 (We m d) d := Function.update_self _ _ _
theorem Wf_old (m : (ℓ : Loc nD τ sig) → Buf (Elt F) ℓ) (d : Dev nD) (b : Ref sig .tc) (hb : b ≠ main_v21) : Wf m d (Proc.devRef .tc b) = We m d (Proc.devRef .tc b) :=
  Function.update_of_ne (devRef_ne_of_ne hb) _ _
/-- The arrays before call 1: host stretch 3 has run. -/
def Wg (m : (ℓ : Loc nD τ sig) → Buf (Elt F) ℓ) (d : Dev nD) : Valuation τ sig (Elt F) := after host3 (Wf m d)
theorem Wg_keep (m : (ℓ : Loc nD τ sig) → Buf (Elt F) ℓ) (d : Dev nD) (b : Ref sig .tc) (hb : b ∉ host3_W) : Wg m d (Proc.devRef .tc b) = Wf m d (Proc.devRef .tc b) :=
  host3_keeps _ b hb
/-- The arrays after call 1. -/
def Wh (m : (ℓ : Loc nD τ sig) → Buf (Elt F) ℓ) (d : Dev nD) : Valuation τ sig (Elt F) := Function.update (Wg m d) (Proc.devRef .tc main_v24) (gath1 (contsOf (F := F) m) d)
theorem Wh_new (m : (ℓ : Loc nD τ sig) → Buf (Elt F) ℓ) (d : Dev nD) : Wh m d (Proc.devRef .tc main_v24) = gath1 (contsOf (F := F) m) d := Function.update_self _ _ _
theorem Wh_old (m : (ℓ : Loc nD τ sig) → Buf (Elt F) ℓ) (d : Dev nD) (b : Ref sig .tc) (hb : b ≠ main_v24) : Wh m d (Proc.devRef .tc b) = Wg m d (Proc.devRef .tc b) :=
  Function.update_of_ne (devRef_ne_of_ne hb) _ _
/-- The arrays before fused region 2: host stretch 4 has run. -/
def Wi (m : (ℓ : Loc nD τ sig) → Buf (Elt F) ℓ) (d : Dev nD) : Valuation τ sig (Elt F) := after host4 (Wh m d)
theorem Wi_keep (m : (ℓ : Loc nD τ sig) → Buf (Elt F) ℓ) (d : Dev nD) (b : Ref sig .tc) (hb : b ∉ ([] : List (Ref sig .tc))) : Wi m d (Proc.devRef .tc b) = Wh m d (Proc.devRef .tc b) :=
  host4_keeps _ b hb
/-- The arrays after fused region 2. -/
def Wj (m : (ℓ : Loc nD τ sig) → Buf (Elt F) ℓ) (d : Dev nD) : Valuation τ sig (Elt F) := Function.update (Wi m d) (Proc.devRef .tc main_v25) (val2 (Wi m d) d)
theorem Wj_new (m : (ℓ : Loc nD τ sig) → Buf (Elt F) ℓ) (d : Dev nD) : Wj m d (Proc.devRef .tc main_v25) = val2 (Wi m d) d := Function.update_self _ _ _
theorem Wj_old (m : (ℓ : Loc nD τ sig) → Buf (Elt F) ℓ) (d : Dev nD) (b : Ref sig .tc) (hb : b ≠ main_v25) : Wj m d (Proc.devRef .tc b) = Wi m d (Proc.devRef .tc b) :=
  Function.update_of_ne (devRef_ne_of_ne hb) _ _
/-- The arrays before call 2: host stretch 5 has run. -/
def Wk (m : (ℓ : Loc nD τ sig) → Buf (Elt F) ℓ) (d : Dev nD) : Valuation τ sig (Elt F) := after host5 (Wj m d)
theorem Wk_keep (m : (ℓ : Loc nD τ sig) → Buf (Elt F) ℓ) (d : Dev nD) (b : Ref sig .tc) (hb : b ∉ host5_W) : Wk m d (Proc.devRef .tc b) = Wj m d (Proc.devRef .tc b) :=
  host5_keeps _ b hb
/-- The arrays after call 2. -/
def Wl (m : (ℓ : Loc nD τ sig) → Buf (Elt F) ℓ) (d : Dev nD) : Valuation τ sig (Elt F) := Function.update (Wk m d) (Proc.devRef .tc main_v28) (gath2 (contsOf (F := F) m) d)
theorem Wl_new (m : (ℓ : Loc nD τ sig) → Buf (Elt F) ℓ) (d : Dev nD) : Wl m d (Proc.devRef .tc main_v28) = gath2 (contsOf (F := F) m) d := Function.update_self _ _ _
theorem Wl_old (m : (ℓ : Loc nD τ sig) → Buf (Elt F) ℓ) (d : Dev nD) (b : Ref sig .tc) (hb : b ≠ main_v28) : Wl m d (Proc.devRef .tc b) = Wk m d (Proc.devRef .tc b) :=
  Function.update_of_ne (devRef_ne_of_ne hb) _ _
/-- The arrays before fused region 3: host stretch 6 has run. -/
def Wm (m : (ℓ : Loc nD τ sig) → Buf (Elt F) ℓ) (d : Dev nD) : Valuation τ sig (Elt F) := after host6 (Wl m d)
theorem Wm_keep (m : (ℓ : Loc nD τ sig) → Buf (Elt F) ℓ) (d : Dev nD) (b : Ref sig .tc) (hb : b ∉ ([] : List (Ref sig .tc))) : Wm m d (Proc.devRef .tc b) = Wl m d (Proc.devRef .tc b) :=
  host6_keeps _ b hb
/-- The arrays after fused region 3. -/
def Wn (m : (ℓ : Loc nD τ sig) → Buf (Elt F) ℓ) (d : Dev nD) : Valuation τ sig (Elt F) := Function.update (Wm m d) (Proc.devRef .tc main_v29) (val3 (Wm m d) d)
theorem Wn_new (m : (ℓ : Loc nD τ sig) → Buf (Elt F) ℓ) (d : Dev nD) : Wn m d (Proc.devRef .tc main_v29) = val3 (Wm m d) d := Function.update_self _ _ _
theorem Wn_old (m : (ℓ : Loc nD τ sig) → Buf (Elt F) ℓ) (d : Dev nD) (b : Ref sig .tc) (hb : b ≠ main_v29) : Wn m d (Proc.devRef .tc b) = Wm m d (Proc.devRef .tc b) :=
  Function.update_of_ne (devRef_ne_of_ne hb) _ _
/-- The arrays before call 3: host stretch 7 has run. -/
def Wo (m : (ℓ : Loc nD τ sig) → Buf (Elt F) ℓ) (d : Dev nD) : Valuation τ sig (Elt F) := after host7 (Wn m d)
theorem Wo_keep (m : (ℓ : Loc nD τ sig) → Buf (Elt F) ℓ) (d : Dev nD) (b : Ref sig .tc) (hb : b ∉ host7_W) : Wo m d (Proc.devRef .tc b) = Wn m d (Proc.devRef .tc b) :=
  host7_keeps _ b hb
/-- The arrays after call 3. -/
def Wp (m : (ℓ : Loc nD τ sig) → Buf (Elt F) ℓ) (d : Dev nD) : Valuation τ sig (Elt F) := Function.update (Wo m d) (Proc.devRef .tc main_v32) (gath3 (contsOf (F := F) m) d)
theorem Wp_new (m : (ℓ : Loc nD τ sig) → Buf (Elt F) ℓ) (d : Dev nD) : Wp m d (Proc.devRef .tc main_v32) = gath3 (contsOf (F := F) m) d := Function.update_self _ _ _
theorem Wp_old (m : (ℓ : Loc nD τ sig) → Buf (Elt F) ℓ) (d : Dev nD) (b : Ref sig .tc) (hb : b ≠ main_v32) : Wp m d (Proc.devRef .tc b) = Wo m d (Proc.devRef .tc b) :=
  Function.update_of_ne (devRef_ne_of_ne hb) _ _
/-- The arrays before fused region 4: host stretch 8 has run. -/
def Wq (m : (ℓ : Loc nD τ sig) → Buf (Elt F) ℓ) (d : Dev nD) : Valuation τ sig (Elt F) := after host8 (Wp m d)
theorem Wq_keep (m : (ℓ : Loc nD τ sig) → Buf (Elt F) ℓ) (d : Dev nD) (b : Ref sig .tc) (hb : b ∉ ([] : List (Ref sig .tc))) : Wq m d (Proc.devRef .tc b) = Wp m d (Proc.devRef .tc b) :=
  host8_keeps _ b hb
/-- The arrays after fused region 4. -/
def Wr (m : (ℓ : Loc nD τ sig) → Buf (Elt F) ℓ) (d : Dev nD) : Valuation τ sig (Elt F) := Function.update (Wq m d) (Proc.devRef .tc main_v33) (val4 (Wq m d) d)
theorem Wr_new (m : (ℓ : Loc nD τ sig) → Buf (Elt F) ℓ) (d : Dev nD) : Wr m d (Proc.devRef .tc main_v33) = val4 (Wq m d) d := Function.update_self _ _ _
theorem Wr_old (m : (ℓ : Loc nD τ sig) → Buf (Elt F) ℓ) (d : Dev nD) (b : Ref sig .tc) (hb : b ≠ main_v33) : Wr m d (Proc.devRef .tc b) = Wq m d (Proc.devRef .tc b) :=
  Function.update_of_ne (devRef_ne_of_ne hb) _ _
/-- The arrays before the last region: host stretch 9 has run. -/
def Ws (m : (ℓ : Loc nD τ sig) → Buf (Elt F) ℓ) (d : Dev nD) : Valuation τ sig (Elt F) := after host9 (Wr m d)
theorem Ws_keep (m : (ℓ : Loc nD τ sig) → Buf (Elt F) ℓ) (d : Dev nD) (b : Ref sig .tc) (hb : b ∉ host9_W) : Ws m d (Proc.devRef .tc b) = Wr m d (Proc.devRef .tc b) :=
  host9_keeps _ b hb
/-- The arrays after the last region. -/
def Wt (m : (ℓ : Loc nD τ sig) → Buf (Elt F) ℓ) (d : Dev nD) : Valuation τ sig (Elt F) := Function.update (Ws m d) (Proc.devRef .tc main_v36) (val5 (Ws m d) d)
theorem Wt_new (m : (ℓ : Loc nD τ sig) → Buf (Elt F) ℓ) (d : Dev nD) : Wt m d (Proc.devRef .tc main_v36) = val5 (Ws m d) d := Function.update_self _ _ _
theorem Wt_old (m : (ℓ : Loc nD τ sig) → Buf (Elt F) ℓ) (d : Dev nD) (b : Ref sig .tc) (hb : b ≠ main_v36) : Wt m d (Proc.devRef .tc b) = Ws m d (Proc.devRef .tc b) :=
  Function.update_of_ne (devRef_ne_of_ne hb) _ _
/-- The arrays at the end: host stretch 10 has run. -/
def Wu (m : (ℓ : Loc nD τ sig) → Buf (Elt F) ℓ) (d : Dev nD) : Valuation τ sig (Elt F) := after host10 (Wt m d)
theorem Wu_keep (m : (ℓ : Loc nD τ sig) → Buf (Elt F) ℓ) (d : Dev nD) (b : Ref sig .tc) (hb : b ∉ host10_W) : Wu m d (Proc.devRef .tc b) = Wt m d (Proc.devRef .tc b) :=
  host10_keeps _ b hb

/-- The walk's final valuation is the last of them. -/
theorem Wfin_eq (m : (ℓ : Loc nD τ sig) → Buf (Elt F) ℓ) (d : Dev nD) :
    Wfin (contsOf (F := F) m) val0 val1 val2 val3 val4 val5 d (launchContents m d) = Wu m d := rfl

/-- The result array at the end is the last region's output read in the shape [8, 1024, 128]. -/
theorem Kval_eq_reshape (m : (ℓ : Loc nD τ sig) → Buf (Elt F) ℓ) (d : Dev nD) :
    Kval m d = shapeCast S8x1024x128 (val5 (Ws m d) d) shapeCasts_S8192x128_S8x1024x128 := by
  show Wfin (contsOf (F := F) m) val0 val1 val2 val3 val4 val5 d (launchContents m d) (Proc.devRef .tc main_v37) = _
  rw [Wfin_eq, ← Wt_new m d]
  show after host10 (Wt m d) (Proc.devRef .tc main_v37) = _
  after_results
  rfl

theorem Wa_keep (m : (ℓ : Loc nD τ sig) → Buf (Elt F) ℓ) (d : Dev nD) (b : Ref sig .tc) (hb : b ∉ host0_W) : Wa m d (Proc.devRef .tc b) = launchContents m d (Proc.devRef .tc b) :=
  host0_keeps _ b hb

/-! ## What each step finds in the arrays it reads -/

theorem Wa_arg0 (m : (ℓ : Loc nD τ sig) → Buf (Elt F) ℓ) (d : Dev nD) : Wa m d (Proc.devRef .tc main_arg0) = launchContents m d (Proc.devRef .tc main_arg0) := by
  rw [Wa_keep m d main_arg0 (by decide)]
theorem Wa_arg9 (m : (ℓ : Loc nD τ sig) → Buf (Elt F) ℓ) (d : Dev nD) : Wa m d (Proc.devRef .tc main_arg9) = launchContents m d (Proc.devRef .tc main_arg9) := by
  rw [Wa_keep m d main_arg9 (by decide)]
theorem Wb_arg1 (m : (ℓ : Loc nD τ sig) → Buf (Elt F) ℓ) (d : Dev nD) : Wb m d (Proc.devRef .tc main_arg1) = launchContents m d (Proc.devRef .tc main_arg1) := by
  rw [Wb_old m d main_arg1 (by decide), Wa_keep m d main_arg1 (by decide)]
theorem Wb_arg2 (m : (ℓ : Loc nD τ sig) → Buf (Elt F) ℓ) (d : Dev nD) : Wb m d (Proc.devRef .tc main_arg2) = launchContents m d (Proc.devRef .tc main_arg2) := by
  rw [Wb_old m d main_arg2 (by decide), Wa_keep m d main_arg2 (by decide)]
theorem Wb_arg3 (m : (ℓ : Loc nD τ sig) → Buf (Elt F) ℓ) (d : Dev nD) : Wb m d (Proc.devRef .tc main_arg3) = launchContents m d (Proc.devRef .tc main_arg3) := by
  rw [Wb_old m d main_arg3 (by decide), Wa_keep m d main_arg3 (by decide)]
theorem Wb_arg4 (m : (ℓ : Loc nD τ sig) → Buf (Elt F) ℓ) (d : Dev nD) : Wb m d (Proc.devRef .tc main_arg4) = launchContents m d (Proc.devRef .tc main_arg4) := by
  rw [Wb_old m d main_arg4 (by decide), Wa_keep m d main_arg4 (by decide)]
theorem Wb_arg6 (m : (ℓ : Loc nD τ sig) → Buf (Elt F) ℓ) (d : Dev nD) : Wb m d (Proc.devRef .tc main_arg6) = launchContents m d (Proc.devRef .tc main_arg6) := by
  rw [Wb_old m d main_arg6 (by decide), Wa_keep m d main_arg6 (by decide)]
theorem Wb_arg8 (m : (ℓ : Loc nD τ sig) → Buf (Elt F) ℓ) (d : Dev nD) : Wb m d (Proc.devRef .tc main_arg8) = launchContents m d (Proc.devRef .tc main_arg8) := by
  rw [Wb_old m d main_arg8 (by decide), Wa_keep m d main_arg8 (by decide)]
theorem Wc_v1 (m : (ℓ : Loc nD τ sig) → Buf (Elt F) ℓ) (d : Dev nD) : Wc m d (Proc.devRef .tc main_v1) = val0 (Wa m d) d := by
  rw [Wc_keep m d main_v1 (by decide), Wb_new m d]
theorem We_v20 (m : (ℓ : Loc nD τ sig) → Buf (Elt F) ℓ) (d : Dev nD) : We m d (Proc.devRef .tc main_v20) = gath0 (contsOf (F := F) m) d := by
  rw [We_keep m d main_v20 (by decide), Wd_new m d]
theorem We_v15 (m : (ℓ : Loc nD τ sig) → Buf (Elt F) ℓ) (d : Dev nD) : We m d (Proc.devRef .tc main_v15) = Wc m d (Proc.devRef .tc main_v15) := by
  rw [We_keep m d main_v15 (by decide), Wd_old m d main_v15 (by decide)]
theorem We_v8 (m : (ℓ : Loc nD τ sig) → Buf (Elt F) ℓ) (d : Dev nD) : We m d (Proc.devRef .tc main_v8) = Wc m d (Proc.devRef .tc main_v8) := by
  rw [We_keep m d main_v8 (by decide), Wd_old m d main_v8 (by decide)]
theorem We_v16 (m : (ℓ : Loc nD τ sig) → Buf (Elt F) ℓ) (d : Dev nD) : We m d (Proc.devRef .tc main_v16) = Wc m d (Proc.devRef .tc main_v16) := by
  rw [We_keep m d main_v16 (by decide), Wd_old m d main_v16 (by decide)]
theorem We_v17 (m : (ℓ : Loc nD τ sig) → Buf (Elt F) ℓ) (d : Dev nD) : We m d (Proc.devRef .tc main_v17) = Wc m d (Proc.devRef .tc main_v17) := by
  rw [We_keep m d main_v17 (by decide), Wd_old m d main_v17 (by decide)]
theorem We_arg5 (m : (ℓ : Loc nD τ sig) → Buf (Elt F) ℓ) (d : Dev nD) : We m d (Proc.devRef .tc main_arg5) = launchContents m d (Proc.devRef .tc main_arg5) := by
  rw [We_keep m d main_arg5 (by decide), Wd_old m d main_arg5 (by decide), Wc_keep m d main_arg5 (by decide), Wb_old m d main_arg5 (by decide), Wa_keep m d main_arg5 (by decide)]
theorem We_arg7 (m : (ℓ : Loc nD τ sig) → Buf (Elt F) ℓ) (d : Dev nD) : We m d (Proc.devRef .tc main_arg7) = launchContents m d (Proc.devRef .tc main_arg7) := by
  rw [We_keep m d main_arg7 (by decide), Wd_old m d main_arg7 (by decide), Wc_keep m d main_arg7 (by decide), Wb_old m d main_arg7 (by decide), Wa_keep m d main_arg7 (by decide)]
theorem Wi_v24 (m : (ℓ : Loc nD τ sig) → Buf (Elt F) ℓ) (d : Dev nD) : Wi m d (Proc.devRef .tc main_v24) = gath1 (contsOf (F := F) m) d := by
  rw [Wi_keep m d main_v24 (by decide), Wh_new m d]
theorem Wi_v15 (m : (ℓ : Loc nD τ sig) → Buf (Elt F) ℓ) (d : Dev nD) : Wi m d (Proc.devRef .tc main_v15) = Wc m d (Proc.devRef .tc main_v15) := by
  rw [Wi_keep m d main_v15 (by decide), Wh_old m d main_v15 (by decide), Wg_keep m d main_v15 (by decide), Wf_old m d main_v15 (by decide), We_keep m d main_v15 (by decide), Wd_old m d main_v15 (by decide)]
theorem Wi_v8 (m : (ℓ : Loc nD τ sig) → Buf (Elt F) ℓ) (d : Dev nD) : Wi m d (Proc.devRef .tc main_v8) = Wc m d (Proc.devRef .tc main_v8) := by
  rw [Wi_keep m d main_v8 (by decide), Wh_old m d main_v8 (by decide), Wg_keep m d main_v8 (by decide), Wf_old m d main_v8 (by decide), We_keep m d main_v8 (by decide), Wd_old m d main_v8 (by decide)]
theorem Wi_v16 (m : (ℓ : Loc nD τ sig) → Buf (Elt F) ℓ) (d : Dev nD) : Wi m d (Proc.devRef .tc main_v16) = Wc m d (Proc.devRef .tc main_v16) := by
  rw [Wi_keep m d main_v16 (by decide), Wh_old m d main_v16 (by decide), Wg_keep m d main_v16 (by decide), Wf_old m d main_v16 (by decide), We_keep m d main_v16 (by decide), Wd_old m d main_v16 (by decide)]
theorem Wi_v17 (m : (ℓ : Loc nD τ sig) → Buf (Elt F) ℓ) (d : Dev nD) : Wi m d (Proc.devRef .tc main_v17) = Wc m d (Proc.devRef .tc main_v17) := by
  rw [Wi_keep m d main_v17 (by decide), Wh_old m d main_v17 (by decide), Wg_keep m d main_v17 (by decide), Wf_old m d main_v17 (by decide), We_keep m d main_v17 (by decide), Wd_old m d main_v17 (by decide)]
theorem Wi_arg5 (m : (ℓ : Loc nD τ sig) → Buf (Elt F) ℓ) (d : Dev nD) : Wi m d (Proc.devRef .tc main_arg5) = launchContents m d (Proc.devRef .tc main_arg5) := by
  rw [Wi_keep m d main_arg5 (by decide), Wh_old m d main_arg5 (by decide), Wg_keep m d main_arg5 (by decide), Wf_old m d main_arg5 (by decide), We_keep m d main_arg5 (by decide), Wd_old m d main_arg5 (by decide), Wc_keep m d main_arg5 (by decide), Wb_old m d main_arg5 (by decide), Wa_keep m d main_arg5 (by decide)]
theorem Wi_arg7 (m : (ℓ : Loc nD τ sig) → Buf (Elt F) ℓ) (d : Dev nD) : Wi m d (Proc.devRef .tc main_arg7) = launchContents m d (Proc.devRef .tc main_arg7) := by
  rw [Wi_keep m d main_arg7 (by decide), Wh_old m d main_arg7 (by decide), Wg_keep m d main_arg7 (by decide), Wf_old m d main_arg7 (by decide), We_keep m d main_arg7 (by decide), Wd_old m d main_arg7 (by decide), Wc_keep m d main_arg7 (by decide), Wb_old m d main_arg7 (by decide), Wa_keep m d main_arg7 (by decide)]
theorem Wm_v28 (m : (ℓ : Loc nD τ sig) → Buf (Elt F) ℓ) (d : Dev nD) : Wm m d (Proc.devRef .tc main_v28) = gath2 (contsOf (F := F) m) d := by
  rw [Wm_keep m d main_v28 (by decide), Wl_new m d]
theorem Wm_v15 (m : (ℓ : Loc nD τ sig) → Buf (Elt F) ℓ) (d : Dev nD) : Wm m d (Proc.devRef .tc main_v15) = Wc m d (Proc.devRef .tc main_v15) := by
  rw [Wm_keep m d main_v15 (by decide), Wl_old m d main_v15 (by decide), Wk_keep m d main_v15 (by decide), Wj_old m d main_v15 (by decide), Wi_keep m d main_v15 (by decide), Wh_old m d main_v15 (by decide), Wg_keep m d main_v15 (by decide), Wf_old m d main_v15 (by decide), We_keep m d main_v15 (by decide), Wd_old m d main_v15 (by decide)]
theorem Wm_v8 (m : (ℓ : Loc nD τ sig) → Buf (Elt F) ℓ) (d : Dev nD) : Wm m d (Proc.devRef .tc main_v8) = Wc m d (Proc.devRef .tc main_v8) := by
  rw [Wm_keep m d main_v8 (by decide), Wl_old m d main_v8 (by decide), Wk_keep m d main_v8 (by decide), Wj_old m d main_v8 (by decide), Wi_keep m d main_v8 (by decide), Wh_old m d main_v8 (by decide), Wg_keep m d main_v8 (by decide), Wf_old m d main_v8 (by decide), We_keep m d main_v8 (by decide), Wd_old m d main_v8 (by decide)]
theorem Wm_v16 (m : (ℓ : Loc nD τ sig) → Buf (Elt F) ℓ) (d : Dev nD) : Wm m d (Proc.devRef .tc main_v16) = Wc m d (Proc.devRef .tc main_v16) := by
  rw [Wm_keep m d main_v16 (by decide), Wl_old m d main_v16 (by decide), Wk_keep m d main_v16 (by decide), Wj_old m d main_v16 (by decide), Wi_keep m d main_v16 (by decide), Wh_old m d main_v16 (by decide), Wg_keep m d main_v16 (by decide), Wf_old m d main_v16 (by decide), We_keep m d main_v16 (by decide), Wd_old m d main_v16 (by decide)]
theorem Wm_v17 (m : (ℓ : Loc nD τ sig) → Buf (Elt F) ℓ) (d : Dev nD) : Wm m d (Proc.devRef .tc main_v17) = Wc m d (Proc.devRef .tc main_v17) := by
  rw [Wm_keep m d main_v17 (by decide), Wl_old m d main_v17 (by decide), Wk_keep m d main_v17 (by decide), Wj_old m d main_v17 (by decide), Wi_keep m d main_v17 (by decide), Wh_old m d main_v17 (by decide), Wg_keep m d main_v17 (by decide), Wf_old m d main_v17 (by decide), We_keep m d main_v17 (by decide), Wd_old m d main_v17 (by decide)]
theorem Wm_arg5 (m : (ℓ : Loc nD τ sig) → Buf (Elt F) ℓ) (d : Dev nD) : Wm m d (Proc.devRef .tc main_arg5) = launchContents m d (Proc.devRef .tc main_arg5) := by
  rw [Wm_keep m d main_arg5 (by decide), Wl_old m d main_arg5 (by decide), Wk_keep m d main_arg5 (by decide), Wj_old m d main_arg5 (by decide), Wi_keep m d main_arg5 (by decide), Wh_old m d main_arg5 (by decide), Wg_keep m d main_arg5 (by decide), Wf_old m d main_arg5 (by decide), We_keep m d main_arg5 (by decide), Wd_old m d main_arg5 (by decide), Wc_keep m d main_arg5 (by decide), Wb_old m d main_arg5 (by decide), Wa_keep m d main_arg5 (by decide)]
theorem Wm_arg7 (m : (ℓ : Loc nD τ sig) → Buf (Elt F) ℓ) (d : Dev nD) : Wm m d (Proc.devRef .tc main_arg7) = launchContents m d (Proc.devRef .tc main_arg7) := by
  rw [Wm_keep m d main_arg7 (by decide), Wl_old m d main_arg7 (by decide), Wk_keep m d main_arg7 (by decide), Wj_old m d main_arg7 (by decide), Wi_keep m d main_arg7 (by decide), Wh_old m d main_arg7 (by decide), Wg_keep m d main_arg7 (by decide), Wf_old m d main_arg7 (by decide), We_keep m d main_arg7 (by decide), Wd_old m d main_arg7 (by decide), Wc_keep m d main_arg7 (by decide), Wb_old m d main_arg7 (by decide), Wa_keep m d main_arg7 (by decide)]
theorem Wq_v32 (m : (ℓ : Loc nD τ sig) → Buf (Elt F) ℓ) (d : Dev nD) : Wq m d (Proc.devRef .tc main_v32) = gath3 (contsOf (F := F) m) d := by
  rw [Wq_keep m d main_v32 (by decide), Wp_new m d]
theorem Wq_v15 (m : (ℓ : Loc nD τ sig) → Buf (Elt F) ℓ) (d : Dev nD) : Wq m d (Proc.devRef .tc main_v15) = Wc m d (Proc.devRef .tc main_v15) := by
  rw [Wq_keep m d main_v15 (by decide), Wp_old m d main_v15 (by decide), Wo_keep m d main_v15 (by decide), Wn_old m d main_v15 (by decide), Wm_keep m d main_v15 (by decide), Wl_old m d main_v15 (by decide), Wk_keep m d main_v15 (by decide), Wj_old m d main_v15 (by decide), Wi_keep m d main_v15 (by decide), Wh_old m d main_v15 (by decide), Wg_keep m d main_v15 (by decide), Wf_old m d main_v15 (by decide), We_keep m d main_v15 (by decide), Wd_old m d main_v15 (by decide)]
theorem Wq_v8 (m : (ℓ : Loc nD τ sig) → Buf (Elt F) ℓ) (d : Dev nD) : Wq m d (Proc.devRef .tc main_v8) = Wc m d (Proc.devRef .tc main_v8) := by
  rw [Wq_keep m d main_v8 (by decide), Wp_old m d main_v8 (by decide), Wo_keep m d main_v8 (by decide), Wn_old m d main_v8 (by decide), Wm_keep m d main_v8 (by decide), Wl_old m d main_v8 (by decide), Wk_keep m d main_v8 (by decide), Wj_old m d main_v8 (by decide), Wi_keep m d main_v8 (by decide), Wh_old m d main_v8 (by decide), Wg_keep m d main_v8 (by decide), Wf_old m d main_v8 (by decide), We_keep m d main_v8 (by decide), Wd_old m d main_v8 (by decide)]
theorem Wq_v16 (m : (ℓ : Loc nD τ sig) → Buf (Elt F) ℓ) (d : Dev nD) : Wq m d (Proc.devRef .tc main_v16) = Wc m d (Proc.devRef .tc main_v16) := by
  rw [Wq_keep m d main_v16 (by decide), Wp_old m d main_v16 (by decide), Wo_keep m d main_v16 (by decide), Wn_old m d main_v16 (by decide), Wm_keep m d main_v16 (by decide), Wl_old m d main_v16 (by decide), Wk_keep m d main_v16 (by decide), Wj_old m d main_v16 (by decide), Wi_keep m d main_v16 (by decide), Wh_old m d main_v16 (by decide), Wg_keep m d main_v16 (by decide), Wf_old m d main_v16 (by decide), We_keep m d main_v16 (by decide), Wd_old m d main_v16 (by decide)]
theorem Wq_v17 (m : (ℓ : Loc nD τ sig) → Buf (Elt F) ℓ) (d : Dev nD) : Wq m d (Proc.devRef .tc main_v17) = Wc m d (Proc.devRef .tc main_v17) := by
  rw [Wq_keep m d main_v17 (by decide), Wp_old m d main_v17 (by decide), Wo_keep m d main_v17 (by decide), Wn_old m d main_v17 (by decide), Wm_keep m d main_v17 (by decide), Wl_old m d main_v17 (by decide), Wk_keep m d main_v17 (by decide), Wj_old m d main_v17 (by decide), Wi_keep m d main_v17 (by decide), Wh_old m d main_v17 (by decide), Wg_keep m d main_v17 (by decide), Wf_old m d main_v17 (by decide), We_keep m d main_v17 (by decide), Wd_old m d main_v17 (by decide)]
theorem Wq_arg5 (m : (ℓ : Loc nD τ sig) → Buf (Elt F) ℓ) (d : Dev nD) : Wq m d (Proc.devRef .tc main_arg5) = launchContents m d (Proc.devRef .tc main_arg5) := by
  rw [Wq_keep m d main_arg5 (by decide), Wp_old m d main_arg5 (by decide), Wo_keep m d main_arg5 (by decide), Wn_old m d main_arg5 (by decide), Wm_keep m d main_arg5 (by decide), Wl_old m d main_arg5 (by decide), Wk_keep m d main_arg5 (by decide), Wj_old m d main_arg5 (by decide), Wi_keep m d main_arg5 (by decide), Wh_old m d main_arg5 (by decide), Wg_keep m d main_arg5 (by decide), Wf_old m d main_arg5 (by decide), We_keep m d main_arg5 (by decide), Wd_old m d main_arg5 (by decide), Wc_keep m d main_arg5 (by decide), Wb_old m d main_arg5 (by decide), Wa_keep m d main_arg5 (by decide)]
theorem Wq_arg7 (m : (ℓ : Loc nD τ sig) → Buf (Elt F) ℓ) (d : Dev nD) : Wq m d (Proc.devRef .tc main_arg7) = launchContents m d (Proc.devRef .tc main_arg7) := by
  rw [Wq_keep m d main_arg7 (by decide), Wp_old m d main_arg7 (by decide), Wo_keep m d main_arg7 (by decide), Wn_old m d main_arg7 (by decide), Wm_keep m d main_arg7 (by decide), Wl_old m d main_arg7 (by decide), Wk_keep m d main_arg7 (by decide), Wj_old m d main_arg7 (by decide), Wi_keep m d main_arg7 (by decide), Wh_old m d main_arg7 (by decide), Wg_keep m d main_arg7 (by decide), Wf_old m d main_arg7 (by decide), We_keep m d main_arg7 (by decide), Wd_old m d main_arg7 (by decide), Wc_keep m d main_arg7 (by decide), Wb_old m d main_arg7 (by decide), Wa_keep m d main_arg7 (by decide)]
theorem Wr_arg11 (m : (ℓ : Loc nD τ sig) → Buf (Elt F) ℓ) (d : Dev nD) : Wr m d (Proc.devRef .tc main_arg11) = launchContents m d (Proc.devRef .tc main_arg11) := by
  rw [Wr_old m d main_arg11 (by decide), Wq_keep m d main_arg11 (by decide), Wp_old m d main_arg11 (by decide), Wo_keep m d main_arg11 (by decide), Wn_old m d main_arg11 (by decide), Wm_keep m d main_arg11 (by decide), Wl_old m d main_arg11 (by decide), Wk_keep m d main_arg11 (by decide), Wj_old m d main_arg11 (by decide), Wi_keep m d main_arg11 (by decide), Wh_old m d main_arg11 (by decide), Wg_keep m d main_arg11 (by decide), Wf_old m d main_arg11 (by decide), We_keep m d main_arg11 (by decide), Wd_old m d main_arg11 (by decide), Wc_keep m d main_arg11 (by decide), Wb_old m d main_arg11 (by decide), Wa_keep m d main_arg11 (by decide)]
theorem Wr_arg13 (m : (ℓ : Loc nD τ sig) → Buf (Elt F) ℓ) (d : Dev nD) : Wr m d (Proc.devRef .tc main_arg13) = launchContents m d (Proc.devRef .tc main_arg13) := by
  rw [Wr_old m d main_arg13 (by decide), Wq_keep m d main_arg13 (by decide), Wp_old m d main_arg13 (by decide), Wo_keep m d main_arg13 (by decide), Wn_old m d main_arg13 (by decide), Wm_keep m d main_arg13 (by decide), Wl_old m d main_arg13 (by decide), Wk_keep m d main_arg13 (by decide), Wj_old m d main_arg13 (by decide), Wi_keep m d main_arg13 (by decide), Wh_old m d main_arg13 (by decide), Wg_keep m d main_arg13 (by decide), Wf_old m d main_arg13 (by decide), We_keep m d main_arg13 (by decide), Wd_old m d main_arg13 (by decide), Wc_keep m d main_arg13 (by decide), Wb_old m d main_arg13 (by decide), Wa_keep m d main_arg13 (by decide)]
theorem Ws_v21 (m : (ℓ : Loc nD τ sig) → Buf (Elt F) ℓ) (d : Dev nD) : Ws m d (Proc.devRef .tc main_v21) = val1 (We m d) d := by
  rw [Ws_keep m d main_v21 (by decide), Wr_old m d main_v21 (by decide), Wq_keep m d main_v21 (by decide), Wp_old m d main_v21 (by decide), Wo_keep m d main_v21 (by decide), Wn_old m d main_v21 (by decide), Wm_keep m d main_v21 (by decide), Wl_old m d main_v21 (by decide), Wk_keep m d main_v21 (by decide), Wj_old m d main_v21 (by decide), Wi_keep m d main_v21 (by decide), Wh_old m d main_v21 (by decide), Wg_keep m d main_v21 (by decide), Wf_new m d]
theorem Ws_v25 (m : (ℓ : Loc nD τ sig) → Buf (Elt F) ℓ) (d : Dev nD) : Ws m d (Proc.devRef .tc main_v25) = val2 (Wi m d) d := by
  rw [Ws_keep m d main_v25 (by decide), Wr_old m d main_v25 (by decide), Wq_keep m d main_v25 (by decide), Wp_old m d main_v25 (by decide), Wo_keep m d main_v25 (by decide), Wn_old m d main_v25 (by decide), Wm_keep m d main_v25 (by decide), Wl_old m d main_v25 (by decide), Wk_keep m d main_v25 (by decide), Wj_new m d]
theorem Ws_v29 (m : (ℓ : Loc nD τ sig) → Buf (Elt F) ℓ) (d : Dev nD) : Ws m d (Proc.devRef .tc main_v29) = val3 (Wm m d) d := by
  rw [Ws_keep m d main_v29 (by decide), Wr_old m d main_v29 (by decide), Wq_keep m d main_v29 (by decide), Wp_old m d main_v29 (by decide), Wo_keep m d main_v29 (by decide), Wn_new m d]
theorem Ws_v33 (m : (ℓ : Loc nD τ sig) → Buf (Elt F) ℓ) (d : Dev nD) : Ws m d (Proc.devRef .tc main_v33) = val4 (Wq m d) d := by
  rw [Ws_keep m d main_v33 (by decide), Wr_new m d]
theorem Ws_arg10 (m : (ℓ : Loc nD τ sig) → Buf (Elt F) ℓ) (d : Dev nD) : Ws m d (Proc.devRef .tc main_arg10) = launchContents m d (Proc.devRef .tc main_arg10) := by
  rw [Ws_keep m d main_arg10 (by decide), Wr_old m d main_arg10 (by decide), Wq_keep m d main_arg10 (by decide), Wp_old m d main_arg10 (by decide), Wo_keep m d main_arg10 (by decide), Wn_old m d main_arg10 (by decide), Wm_keep m d main_arg10 (by decide), Wl_old m d main_arg10 (by decide), Wk_keep m d main_arg10 (by decide), Wj_old m d main_arg10 (by decide), Wi_keep m d main_arg10 (by decide), Wh_old m d main_arg10 (by decide), Wg_keep m d main_arg10 (by decide), Wf_old m d main_arg10 (by decide), We_keep m d main_arg10 (by decide), Wd_old m d main_arg10 (by decide), Wc_keep m d main_arg10 (by decide), Wb_old m d main_arg10 (by decide), Wa_keep m d main_arg10 (by decide)]
theorem Ws_arg12 (m : (ℓ : Loc nD τ sig) → Buf (Elt F) ℓ) (d : Dev nD) : Ws m d (Proc.devRef .tc main_arg12) = launchContents m d (Proc.devRef .tc main_arg12) := by
  rw [Ws_keep m d main_arg12 (by decide), Wr_old m d main_arg12 (by decide), Wq_keep m d main_arg12 (by decide), Wp_old m d main_arg12 (by decide), Wo_keep m d main_arg12 (by decide), Wn_old m d main_arg12 (by decide), Wm_keep m d main_arg12 (by decide), Wl_old m d main_arg12 (by decide), Wk_keep m d main_arg12 (by decide), Wj_old m d main_arg12 (by decide), Wi_keep m d main_arg12 (by decide), Wh_old m d main_arg12 (by decide), Wg_keep m d main_arg12 (by decide), Wf_old m d main_arg12 (by decide), We_keep m d main_arg12 (by decide), Wd_old m d main_arg12 (by decide), Wc_keep m d main_arg12 (by decide), Wb_old m d main_arg12 (by decide), Wa_keep m d main_arg12 (by decide)]

/-! ## The last region's output, and the result, at an index (over the extended reals) -/

section Ideal

variable (m : (ℓ : Loc nD τ sig) → Buf (Elt Ideal) ℓ) (d : Dev nD)

/-- What the last region leaves in its output array, entered at a valuation W: the closed form of its eight input arrays. -/
theorem val5_eq (W : Valuation τ sig (Elt Ideal)) :
    val5 (F := Ideal) W d
      = Region5.tailAll (W (Proc.devRef .tc main_arg10)) (W (Proc.devRef .tc main_v34)) (W (Proc.devRef .tc main_arg12))
          (W (Proc.devRef .tc main_v35)) (W (Proc.devRef .tc main_v21)) (W (Proc.devRef .tc main_v25))
          (W (Proc.devRef .tc main_v29)) (W (Proc.devRef .tc main_v33)) := by
  show (Region5.dat (F := Ideal) d (A5 W d) (fun _ => fullShare) (Region5.rest5 adm d) ((K (F := Ideal)).Otc d 4)
    (below (F := Ideal) d 4)).arrAt 8 cfg9.N = _
  rw [Region5.out_final]
  rfl

/-- The two bias rows the last region reads are the bias arguments read as rows. -/
theorem Ws_v34 : Ws m d (Proc.devRef .tc main_v34) = shapeCast S1x128 (launchContents m d (Proc.devRef .tc main_arg11)) shapeCasts_S128_S1x128 := by
  show after host9 (Wr m d) (Proc.devRef .tc main_v34) = _
  rw [host9_bias11, Wr_arg11]
theorem Ws_v35 : Ws m d (Proc.devRef .tc main_v35) = shapeCast S1x128 (launchContents m d (Proc.devRef .tc main_arg13)) shapeCasts_S128_S1x128 := by
  show after host9 (Wr m d) (Proc.devRef .tc main_v35) = _
  rw [host9_bias13, Wr_arg13]

/-- THE RESULT AT (b, n, g), outer structure: a dense layer over the sum of the four fused regions' outputs at row
    1024·b + n, the kernel's shifted softplus, a dense layer; weights and biases the launch's arguments 10 … 13. -/
theorem kval_outer (b : Fin 8) (n : Fin 1024) (g : Fin 128) :
    Kval (F := Ideal) m d (ValueIdx.ix3 b n g)
      = Region5.tailAll (launchContents m d (Proc.devRef .tc main_arg10)) (shapeCast S1x128 (launchContents m d (Proc.devRef .tc main_arg11)) shapeCasts_S128_S1x128)
          (launchContents m d (Proc.devRef .tc main_arg12)) (shapeCast S1x128 (launchContents m d (Proc.devRef .tc main_arg13)) shapeCasts_S128_S1x128)
          (val1 (We m d) d) (val2 (Wi m d) d) (val3 (Wm m d) d) (val4 (Wq m d) d)
          (ValueIdx.ix2 (⟨b.val * 1024 + n.val, by have := b.isLt; have := n.isLt; omega⟩ : Fin 8192) g) := by
  rw [Kval_eq_reshape, unflat_apply, val5_eq, Ws_arg10, Ws_v34, Ws_arg12, Ws_v35, Ws_v21, Ws_v25, Ws_v29, Ws_v33]

end Ideal

section IdealFused

variable (d : Dev nD)

/-- What fused region 1 leaves in its output array at row 1024·bi + n, lane f, entered at a valuation W: the sums of its
    two grid points of pair bi. -/
theorem val1_at (W : Valuation τ sig (Elt Ideal)) (bi : Fin 8) (n : Fin 1024) (f : Fin 128) :
    val1 (F := Ideal) W d (ValueIdx.ix2 (⟨1024 * bi.val + n.val, by have := bi.isLt; have := n.isLt; omega⟩ : Fin 8192) f)
      = Region1V.pointSum d (A1 W d) bi 0 n f + Region1V.pointSum d (A1 W d) bi 1 n f := by
  show (Region1B.dat (F := Ideal) d (A1 W d) (fun _ => fullShare) (Region1B.rest1 adm d) (Region1B.restNoAcc1 d)
    ((K (F := Ideal)).Otc d 1) (below (F := Ideal) d 1)).arrAt 7 cfg2.N _ = _
  rw [Region1V.fused_closed]

/-- What fused region 2 leaves in its output array at row 1024·bi + n, lane f, entered at a valuation W: the sums of its
    two grid points of pair bi. -/
theorem val2_at (W : Valuation τ sig (Elt Ideal)) (bi : Fin 8) (n : Fin 1024) (f : Fin 128) :
    val2 (F := Ideal) W d (ValueIdx.ix2 (⟨1024 * bi.val + n.val, by have := bi.isLt; have := n.isLt; omega⟩ : Fin 8192) f)
      = Region2V.pointSum d (A2 W d) bi 0 n f + Region2V.pointSum d (A2 W d) bi 1 n f := by
  show (Region2B.dat (F := Ideal) d (A2 W d) (fun _ => fullShare) (Region1B.rest2 adm d) (Region1B.restNoAcc2 d)
    ((K (F := Ideal)).Otc d 2) (below (F := Ideal) d 2)).arrAt 7 cfg4.N _ = _
  rw [Region2V.fused_closed]

/-- What fused region 3 leaves in its output array at row 1024·bi + n, lane f, entered at a valuation W: the sums of its
    two grid points of pair bi. -/
theorem val3_at (W : Valuation τ sig (Elt Ideal)) (bi : Fin 8) (n : Fin 1024) (f : Fin 128) :
    val3 (F := Ideal) W d (ValueIdx.ix2 (⟨1024 * bi.val + n.val, by have := bi.isLt; have := n.isLt; omega⟩ : Fin 8192) f)
      = Region3V.pointSum d (A3 W d) bi 0 n f + Region3V.pointSum d (A3 W d) bi 1 n f := by
  show (Region3B.dat (F := Ideal) d (A3 W d) (fun _ => fullShare) (Region1B.rest3 adm d) (Region1B.restNoAcc3 d)
    ((K (F := Ideal)).Otc d 3) (below (F := Ideal) d 3)).arrAt 7 cfg6.N _ = _
  rw [Region3V.fused_closed]

/-- What fused region 4 leaves in its output array at row 1024·bi + n, lane f, entered at a valuation W: the sums of its
    two grid points of pair bi. -/
theorem val4_at (W : Valuation τ sig (Elt Ideal)) (bi : Fin 8) (n : Fin 1024) (f : Fin 128) :
    val4 (F := Ideal) W d (ValueIdx.ix2 (⟨1024 * bi.val + n.val, by have := bi.isLt; have := n.isLt; omega⟩ : Fin 8192) f)
      = Region4V.pointSum d (A4 W d) bi 0 n f + Region4V.pointSum d (A4 W d) bi 1 n f := by
  show (Region4B.dat (F := Ideal) d (A4 W d) (fun _ => fullShare) (Region1B.rest4 adm d) (Region1B.restNoAcc4 d)
    ((K (F := Ideal)).Otc d 4) (below (F := Ideal) d 4)).arrAt 7 cfg8.N _ = _
  rw [Region4V.fused_closed]

end IdealFused

/-! ## The fused regions' outputs as the specification's slots -/

section IdealSums

variable (m : (ℓ : Loc nD τ sig) → Buf (Elt Ideal) ℓ) (d : Dev nD)
  (hnb : ∀ j, (launchContents m d (Proc.devRef .tc main_arg2) j).toNat < 1024)

/-- What the first region leaves in y, entered at a valuation W: the product of its two input arrays. -/
theorem val0_eq (W : Valuation τ sig (Elt Ideal)) :
    val0 (F := Ideal) W d = Region0.prodAll (W (Proc.devRef .tc main_v0)) (W (Proc.devRef .tc main_arg9)) := by
  show (Region0.dat (F := Ideal) d (A0 W d) (fun _ => fullShare) (Region0.rest0 adm d) ((K (F := Ideal)).Otc d 0)
    (below (F := Ideal) d 0)).arrAt 2 cfg0.N = _
  rw [Region0.y_final]
  rfl

/-- The y the calls are handed is x, flattened, times W_in. -/
theorem conts_y_eq : (contsOf (F := Ideal) m).y d
    = Region0.prodAll (shapeCast S8192x128 (launchContents m d (Proc.devRef .tc main_arg0)) shapeCasts_S8x1024x128_S8192x128) (launchContents m d (Proc.devRef .tc main_arg9)) := by
  rw [contsOf_y, val0_eq]
  show Region0.prodAll (after host0 (launchContents m d) (Proc.devRef .tc main_v0)) (Wa m d (Proc.devRef .tc main_arg9)) = _
  rw [host0_xFlat, Wa_arg9]

theorem contsOf_ix0' : (contsOf (F := Ideal) m).ix0 d = HostIdx.idxVal 0 (launchContents m d (Proc.devRef .tc main_arg2)) := contsOf_ix0 m d
theorem contsOf_ix1' : (contsOf (F := Ideal) m).ix1 d = HostIdx.idxVal 1 (launchContents m d (Proc.devRef .tc main_arg2)) := (contsOf_ix1 m d).symm
theorem contsOf_ix2' : (contsOf (F := Ideal) m).ix2 d = HostIdx.idxVal 2 (launchContents m d (Proc.devRef .tc main_arg2)) := (contsOf_ix2 m d).symm
theorem contsOf_ix3' : (contsOf (F := Ideal) m).ix3 d = HostIdx.idxVal 3 (launchContents m d (Proc.devRef .tc main_arg2)) := (contsOf_ix3 m d).symm

include hnb

/-- Fused region 1, entered where the walk enters it: its output at row 1024·bi + n, lane e is the specification's eight
    slots 16·0 … 16·0 + 7 plus the next eight, of node n of batch bi. -/
theorem val1_sum (bi : Fin 8) (n : Fin 1024) (e : Fin 128) :
    val1 (F := Ideal) (We m d) d (ValueIdx.ix2 (⟨1024 * bi.val + n.val, by have := bi.isLt; have := n.isLt; omega⟩ : Fin 8192) e)
      = Cert.KSpec.eight (fun s => Cert.KSpec.termK (Cert.Spec.rowsOf (Cert.Spec.yOf (launchContents m d (Proc.devRef .tc main_arg0)) (launchContents m d (Proc.devRef .tc main_arg9))) (launchContents m d (Proc.devRef .tc main_arg2))) (launchContents m d (Proc.devRef .tc main_arg4)) (launchContents m d (Proc.devRef .tc main_arg1)) (launchContents m d (Proc.devRef .tc main_arg3)) (launchContents m d (Proc.devRef .tc main_arg5)) (launchContents m d (Proc.devRef .tc main_arg6)) (launchContents m d (Proc.devRef .tc main_arg7)) (launchContents m d (Proc.devRef .tc main_arg8)) (ValueIdx.ix4 bi n s e)) 0 0
        + Cert.KSpec.eight (fun s => Cert.KSpec.termK (Cert.Spec.rowsOf (Cert.Spec.yOf (launchContents m d (Proc.devRef .tc main_arg0)) (launchContents m d (Proc.devRef .tc main_arg9))) (launchContents m d (Proc.devRef .tc main_arg2))) (launchContents m d (Proc.devRef .tc main_arg4)) (launchContents m d (Proc.devRef .tc main_arg1)) (launchContents m d (Proc.devRef .tc main_arg3)) (launchContents m d (Proc.devRef .tc main_arg5)) (launchContents m d (Proc.devRef .tc main_arg6)) (launchContents m d (Proc.devRef .tc main_arg7)) (launchContents m d (Proc.devRef .tc main_arg8)) (ValueIdx.ix4 bi n s e)) 0 1 := by
  have hF : ∀ (b : Fin 8) (m' : Fin 50) (s : Fin 64) (n' : Fin 1024),
      Region1V.aF d (A1 (We m d) d) (ValueIdx.ix4 b m' s n') = (launchContents m d (Proc.devRef .tc main_arg4)) (ValueIdx.ix4 b n' s m') := fun b m' s n' => by
    show We m d (Proc.devRef .tc main_v15) _ = _
    rw [We_v15]
    show after host1 (Wb m d) (Proc.devRef .tc main_v15) _ = _
    rw [host1_fT, Wb_arg4, fT_apply]
  have hC : ∀ (b : Fin 8) (s : Fin 64) (n' : Fin 1024),
      Region1V.aC d (A1 (We m d) d) (ValueIdx.ix3 b s n')
        = Cert.Spec.cut (launchContents m d (Proc.devRef .tc main_arg1)) (ValueIdx.ix3 b n' s) * (launchContents m d (Proc.devRef .tc main_arg3)) (ValueIdx.ix3 b n' s) := fun b s n' => by
    show We m d (Proc.devRef .tc main_v8) _ = _
    rw [We_v8]
    show after host1 (Wb m d) (Proc.devRef .tc main_v8) _ = _
    rw [host1_cutMask, Wb_arg1, Wb_arg3, cutMask_apply_ideal]
    rfl
  have hY : ∀ (b : Fin 8) (kg : Fin 2) (j : Fin 8) (n' : Fin 1024) (e' : Fin 128),
      Region1V.aY d (A1 (We m d) d) (ValueIdx.ix2 (⟨(2 * b.val + kg.val) * 8192 + 1024 * j.val + n'.val,
          by have := b.isLt; have := kg.isLt; have := j.isLt; have := n'.isLt; omega⟩ : Fin 131072) e')
        = (Cert.Spec.rowsOf (Cert.Spec.yOf (launchContents m d (Proc.devRef .tc main_arg0)) (launchContents m d (Proc.devRef .tc main_arg9))) (launchContents m d (Proc.devRef .tc main_arg2))) (ValueIdx.ix4 b n' (Cert.KSpec.slot 0 kg j) e') := fun b kg j n' e' => by
    show We m d (Proc.devRef .tc main_v20) _ = _
    rw [We_v20]
    exact gath_rows0 (contsOf (F := Ideal) m) d _ _ _ hnb (conts_y_eq m d) (contsOf_ix0' m d) b kg j n' e'
  have hW1 : Region1V.aW1 d (A1 (We m d) d) = (launchContents m d (Proc.devRef .tc main_arg5)) := We_arg5 m d
  have hW2 : Region1V.aW2 d (A1 (We m d) d) = (launchContents m d (Proc.devRef .tc main_arg7)) := We_arg7 m d
  have hB1 : ∀ j : Fin 128, Region1V.aB1 d (A1 (We m d) d) (ValueIdx.ix2 (0 : Fin 1) j) = (launchContents m d (Proc.devRef .tc main_arg6)) (ValueIdx.ix1 j) := fun j => by
    show We m d (Proc.devRef .tc main_v16) _ = _
    rw [We_v16]
    show after host1 (Wb m d) (Proc.devRef .tc main_v16) _ = _
    rw [host1_bias6, Wb_arg6, row_of_vec_apply]
  have hB2 : ∀ j : Fin 128, Region1V.aB2 d (A1 (We m d) d) (ValueIdx.ix2 (0 : Fin 1) j) = (launchContents m d (Proc.devRef .tc main_arg8)) (ValueIdx.ix1 j) := fun j => by
    show We m d (Proc.devRef .tc main_v17) _ = _
    rw [We_v17]
    show after host1 (Wb m d) (Proc.devRef .tc main_v17) _ = _
    rw [host1_bias8, Wb_arg8, row_of_vec_apply]
  rw [val1_at,
    FusedBridge.point_eq0 (Cert.Spec.rowsOf (Cert.Spec.yOf (launchContents m d (Proc.devRef .tc main_arg0)) (launchContents m d (Proc.devRef .tc main_arg9))) (launchContents m d (Proc.devRef .tc main_arg2))) (launchContents m d (Proc.devRef .tc main_arg4)) (launchContents m d (Proc.devRef .tc main_arg1)) (launchContents m d (Proc.devRef .tc main_arg3)) (launchContents m d (Proc.devRef .tc main_arg5)) (launchContents m d (Proc.devRef .tc main_arg6)) (launchContents m d (Proc.devRef .tc main_arg7)) (launchContents m d (Proc.devRef .tc main_arg8)) d (A1 (We m d) d) hF hC hY hW1 hB1 hW2 hB2 bi 0 n e,
    FusedBridge.point_eq0 (Cert.Spec.rowsOf (Cert.Spec.yOf (launchContents m d (Proc.devRef .tc main_arg0)) (launchContents m d (Proc.devRef .tc main_arg9))) (launchContents m d (Proc.devRef .tc main_arg2))) (launchContents m d (Proc.devRef .tc main_arg4)) (launchContents m d (Proc.devRef .tc main_arg1)) (launchContents m d (Proc.devRef .tc main_arg3)) (launchContents m d (Proc.devRef .tc main_arg5)) (launchContents m d (Proc.devRef .tc main_arg6)) (launchContents m d (Proc.devRef .tc main_arg7)) (launchContents m d (Proc.devRef .tc main_arg8)) d (A1 (We m d) d) hF hC hY hW1 hB1 hW2 hB2 bi 1 n e]

/-- Fused region 2, entered where the walk enters it: its output at row 1024·bi + n, lane e is the specification's eight
    slots 16·1 … 16·1 + 7 plus the next eight, of node n of batch bi. -/
theorem val2_sum (bi : Fin 8) (n : Fin 1024) (e : Fin 128) :
    val2 (F := Ideal) (Wi m d) d (ValueIdx.ix2 (⟨1024 * bi.val + n.val, by have := bi.isLt; have := n.isLt; omega⟩ : Fin 8192) e)
      = Cert.KSpec.eight (fun s => Cert.KSpec.termK (Cert.Spec.rowsOf (Cert.Spec.yOf (launchContents m d (Proc.devRef .tc main_arg0)) (launchContents m d (Proc.devRef .tc main_arg9))) (launchContents m d (Proc.devRef .tc main_arg2))) (launchContents m d (Proc.devRef .tc main_arg4)) (launchContents m d (Proc.devRef .tc main_arg1)) (launchContents m d (Proc.devRef .tc main_arg3)) (launchContents m d (Proc.devRef .tc main_arg5)) (launchContents m d (Proc.devRef .tc main_arg6)) (launchContents m d (Proc.devRef .tc main_arg7)) (launchContents m d (Proc.devRef .tc main_arg8)) (ValueIdx.ix4 bi n s e)) 1 0
        + Cert.KSpec.eight (fun s => Cert.KSpec.termK (Cert.Spec.rowsOf (Cert.Spec.yOf (launchContents m d (Proc.devRef .tc main_arg0)) (launchContents m d (Proc.devRef .tc main_arg9))) (launchContents m d (Proc.devRef .tc main_arg2))) (launchContents m d (Proc.devRef .tc main_arg4)) (launchContents m d (Proc.devRef .tc main_arg1)) (launchContents m d (Proc.devRef .tc main_arg3)) (launchContents m d (Proc.devRef .tc main_arg5)) (launchContents m d (Proc.devRef .tc main_arg6)) (launchContents m d (Proc.devRef .tc main_arg7)) (launchContents m d (Proc.devRef .tc main_arg8)) (ValueIdx.ix4 bi n s e)) 1 1 := by
  have hF : ∀ (b : Fin 8) (m' : Fin 50) (s : Fin 64) (n' : Fin 1024),
      Region2V.aF d (A2 (Wi m d) d) (ValueIdx.ix4 b m' s n') = (launchContents m d (Proc.devRef .tc main_arg4)) (ValueIdx.ix4 b n' s m') := fun b m' s n' => by
    show Wi m d (Proc.devRef .tc main_v15) _ = _
    rw [Wi_v15]
    show after host1 (Wb m d) (Proc.devRef .tc main_v15) _ = _
    rw [host1_fT, Wb_arg4, fT_apply]
  have hC : ∀ (b : Fin 8) (s : Fin 64) (n' : Fin 1024),
      Region2V.aC d (A2 (Wi m d) d) (ValueIdx.ix3 b s n')
        = Cert.Spec.cut (launchContents m d (Proc.devRef .tc main_arg1)) (ValueIdx.ix3 b n' s) * (launchContents m d (Proc.devRef .tc main_arg3)) (ValueIdx.ix3 b n' s) := fun b s n' => by
    show Wi m d (Proc.devRef .tc main_v8) _ = _
    rw [Wi_v8]
    show after host1 (Wb m d) (Proc.devRef .tc main_v8) _ = _
    rw [host1_cutMask, Wb_arg1, Wb_arg3, cutMask_apply_ideal]
    rfl
  have hY : ∀ (b : Fin 8) (kg : Fin 2) (j : Fin 8) (n' : Fin 1024) (e' : Fin 128),
      Region2V.aY d (A2 (Wi m d) d) (ValueIdx.ix2 (⟨(2 * b.val + kg.val) * 8192 + 1024 * j.val + n'.val,
          by have := b.isLt; have := kg.isLt; have := j.isLt; have := n'.isLt; omega⟩ : Fin 131072) e')
        = (Cert.Spec.rowsOf (Cert.Spec.yOf (launchContents m d (Proc.devRef .tc main_arg0)) (launchContents m d (Proc.devRef .tc main_arg9))) (launchContents m d (Proc.devRef .tc main_arg2))) (ValueIdx.ix4 b n' (Cert.KSpec.slot 1 kg j) e') := fun b kg j n' e' => by
    show Wi m d (Proc.devRef .tc main_v24) _ = _
    rw [Wi_v24]
    exact gath_rows1 (contsOf (F := Ideal) m) d _ _ _ hnb (conts_y_eq m d) (contsOf_ix1' m d) b kg j n' e'
  have hW1 : Region2V.aW1 d (A2 (Wi m d) d) = (launchContents m d (Proc.devRef .tc main_arg5)) := Wi_arg5 m d
  have hW2 : Region2V.aW2 d (A2 (Wi m d) d) = (launchContents m d (Proc.devRef .tc main_arg7)) := Wi_arg7 m d
  have hB1 : ∀ j : Fin 128, Region2V.aB1 d (A2 (Wi m d) d) (ValueIdx.ix2 (0 : Fin 1) j) = (launchContents m d (Proc.devRef .tc main_arg6)) (ValueIdx.ix1 j) := fun j => by
    show Wi m d (Proc.devRef .tc main_v16) _ = _
    rw [Wi_v16]
    show after host1 (Wb m d) (Proc.devRef .tc main_v16) _ = _
    rw [host1_bias6, Wb_arg6, row_of_vec_apply]
  have hB2 : ∀ j : Fin 128, Region2V.aB2 d (A2 (Wi m d) d) (ValueIdx.ix2 (0 : Fin 1) j) = (launchContents m d (Proc.devRef .tc main_arg8)) (ValueIdx.ix1 j) := fun j => by
    show Wi m d (Proc.devRef .tc main_v17) _ = _
    rw [Wi_v17]
    show after host1 (Wb m d) (Proc.devRef .tc main_v17) _ = _
    rw [host1_bias8, Wb_arg8, row_of_vec_apply]
  rw [val2_at,
    FusedBridge.point_eq1 (Cert.Spec.rowsOf (Cert.Spec.yOf (launchContents m d (Proc.devRef .tc main_arg0)) (launchContents m d (Proc.devRef .tc main_arg9))) (launchContents m d (Proc.devRef .tc main_arg2))) (launchContents m d (Proc.devRef .tc main_arg4)) (launchContents m d (Proc.devRef .tc main_arg1)) (launchContents m d (Proc.devRef .tc main_arg3)) (launchContents m d (Proc.devRef .tc main_arg5)) (launchContents m d (Proc.devRef .tc main_arg6)) (launchContents m d (Proc.devRef .tc main_arg7)) (launchContents m d (Proc.devRef .tc main_arg8)) d (A2 (Wi m d) d) hF hC hY hW1 hB1 hW2 hB2 bi 0 n e,
    FusedBridge.point_eq1 (Cert.Spec.rowsOf (Cert.Spec.yOf (launchContents m d (Proc.devRef .tc main_arg0)) (launchContents m d (Proc.devRef .tc main_arg9))) (launchContents m d (Proc.devRef .tc main_arg2))) (launchContents m d (Proc.devRef .tc main_arg4)) (launchContents m d (Proc.devRef .tc main_arg1)) (launchContents m d (Proc.devRef .tc main_arg3)) (launchContents m d (Proc.devRef .tc main_arg5)) (launchContents m d (Proc.devRef .tc main_arg6)) (launchContents m d (Proc.devRef .tc main_arg7)) (launchContents m d (Proc.devRef .tc main_arg8)) d (A2 (Wi m d) d) hF hC hY hW1 hB1 hW2 hB2 bi 1 n e]

/-- Fused region 3, entered where the walk enters it: its output at row 1024·bi + n, lane e is the specification's eight
    slots 16·2 … 16·2 + 7 plus the next eight, of node n of batch bi. -/
theorem val3_sum (bi : Fin 8) (n : Fin 1024) (e : Fin 128) :
    val3 (F := Ideal) (Wm m d) d (ValueIdx.ix2 (⟨1024 * bi.val + n.val, by have := bi.isLt; have := n.isLt; omega⟩ : Fin 8192) e)
      = Cert.KSpec.eight (fun s => Cert.KSpec.termK (Cert.Spec.rowsOf (Cert.Spec.yOf (launchContents m d (Proc.devRef .tc main_arg0)) (launchContents m d (Proc.devRef .tc main_arg9))) (launchContents m d (Proc.devRef .tc main_arg2))) (launchContents m d (Proc.devRef .tc main_arg4)) (launchContents m d (Proc.devRef .tc main_arg1)) (launchContents m d (Proc.devRef .tc main_arg3)) (launchContents m d (Proc.devRef .tc main_arg5)) (launchContents m d (Proc.devRef .tc main_arg6)) (launchContents m d (Proc.devRef .tc main_arg7)) (launchContents m d (Proc.devRef .tc main_arg8)) (ValueIdx.ix4 bi n s e)) 2 0
        + Cert.KSpec.eight (fun s => Cert.KSpec.termK (Cert.Spec.rowsOf (Cert.Spec.yOf (launchContents m d (Proc.devRef .tc main_arg0)) (launchContents m d (Proc.devRef .tc main_arg9))) (launchContents m d (Proc.devRef .tc main_arg2))) (launchContents m d (Proc.devRef .tc main_arg4)) (launchContents m d (Proc.devRef .tc main_arg1)) (launchContents m d (Proc.devRef .tc main_arg3)) (launchContents m d (Proc.devRef .tc main_arg5)) (launchContents m d (Proc.devRef .tc main_arg6)) (launchContents m d (Proc.devRef .tc main_arg7)) (launchContents m d (Proc.devRef .tc main_arg8)) (ValueIdx.ix4 bi n s e)) 2 1 := by
  have hF : ∀ (b : Fin 8) (m' : Fin 50) (s : Fin 64) (n' : Fin 1024),
      Region3V.aF d (A3 (Wm m d) d) (ValueIdx.ix4 b m' s n') = (launchContents m d (Proc.devRef .tc main_arg4)) (ValueIdx.ix4 b n' s m') := fun b m' s n' => by
    show Wm m d (Proc.devRef .tc main_v15) _ = _
    rw [Wm_v15]
    show after host1 (Wb m d) (Proc.devRef .tc main_v15) _ = _
    rw [host1_fT, Wb_arg4, fT_apply]
  have hC : ∀ (b : Fin 8) (s : Fin 64) (n' : Fin 1024),
      Region3V.aC d (A3 (Wm m d) d) (ValueIdx.ix3 b s n')
        = Cert.Spec.cut (launchContents m d (Proc.devRef .tc main_arg1)) (ValueIdx.ix3 b n' s) * (launchContents m d (Proc.devRef .tc main_arg3)) (ValueIdx.ix3 b n' s) := fun b s n' => by
    show Wm m d (Proc.devRef .tc main_v8) _ = _
    rw [Wm_v8]
    show after host1 (Wb m d) (Proc.devRef .tc main_v8) _ = _
    rw [host1_cutMask, Wb_arg1, Wb_arg3, cutMask_apply_ideal]
    rfl
  have hY : ∀ (b : Fin 8) (kg : Fin 2) (j : Fin 8) (n' : Fin 1024) (e' : Fin 128),
      Region3V.aY d (A3 (Wm m d) d) (ValueIdx.ix2 (⟨(2 * b.val + kg.val) * 8192 + 1024 * j.val + n'.val,
          by have := b.isLt; have := kg.isLt; have := j.isLt; have := n'.isLt; omega⟩ : Fin 131072) e')
        = (Cert.Spec.rowsOf (Cert.Spec.yOf (launchContents m d (Proc.devRef .tc main_arg0)) (launchContents m d (Proc.devRef .tc main_arg9))) (launchContents m d (Proc.devRef .tc main_arg2))) (ValueIdx.ix4 b n' (Cert.KSpec.slot 2 kg j) e') := fun b kg j n' e' => by
    show Wm m d (Proc.devRef .tc main_v28) _ = _
    rw [Wm_v28]
    exact gath_rows2 (contsOf (F := Ideal) m) d _ _ _ hnb (conts_y_eq m d) (contsOf_ix2' m d) b kg j n' e'
  have hW1 : Region3V.aW1 d (A3 (Wm m d) d) = (launchContents m d (Proc.devRef .tc main_arg5)) := Wm_arg5 m d
  have hW2 : Region3V.aW2 d (A3 (Wm m d) d) = (launchContents m d (Proc.devRef .tc main_arg7)) := Wm_arg7 m d
  have hB1 : ∀ j : Fin 128, Region3V.aB1 d (A3 (Wm m d) d) (ValueIdx.ix2 (0 : Fin 1) j) = (launchContents m d (Proc.devRef .tc main_arg6)) (ValueIdx.ix1 j) := fun j => by
    show Wm m d (Proc.devRef .tc main_v16) _ = _
    rw [Wm_v16]
    show after host1 (Wb m d) (Proc.devRef .tc main_v16) _ = _
    rw [host1_bias6, Wb_arg6, row_of_vec_apply]
  have hB2 : ∀ j : Fin 128, Region3V.aB2 d (A3 (Wm m d) d) (ValueIdx.ix2 (0 : Fin 1) j) = (launchContents m d (Proc.devRef .tc main_arg8)) (ValueIdx.ix1 j) := fun j => by
    show Wm m d (Proc.devRef .tc main_v17) _ = _
    rw [Wm_v17]
    show after host1 (Wb m d) (Proc.devRef .tc main_v17) _ = _
    rw [host1_bias8, Wb_arg8, row_of_vec_apply]
  rw [val3_at,
    FusedBridge.point_eq2 (Cert.Spec.rowsOf (Cert.Spec.yOf (launchContents m d (Proc.devRef .tc main_arg0)) (launchContents m d (Proc.devRef .tc main_arg9))) (launchContents m d (Proc.devRef .tc main_arg2))) (launchContents m d (Proc.devRef .tc main_arg4)) (launchContents m d (Proc.devRef .tc main_arg1)) (launchContents m d (Proc.devRef .tc main_arg3)) (launchContents m d (Proc.devRef .tc main_arg5)) (launchContents m d (Proc.devRef .tc main_arg6)) (launchContents m d (Proc.devRef .tc main_arg7)) (launchContents m d (Proc.devRef .tc main_arg8)) d (A3 (Wm m d) d) hF hC hY hW1 hB1 hW2 hB2 bi 0 n e,
    FusedBridge.point_eq2 (Cert.Spec.rowsOf (Cert.Spec.yOf (launchContents m d (Proc.devRef .tc main_arg0)) (launchContents m d (Proc.devRef .tc main_arg9))) (launchContents m d (Proc.devRef .tc main_arg2))) (launchContents m d (Proc.devRef .tc main_arg4)) (launchContents m d (Proc.devRef .tc main_arg1)) (launchContents m d (Proc.devRef .tc main_arg3)) (launchContents m d (Proc.devRef .tc main_arg5)) (launchContents m d (Proc.devRef .tc main_arg6)) (launchContents m d (Proc.devRef .tc main_arg7)) (launchContents m d (Proc.devRef .tc main_arg8)) d (A3 (Wm m d) d) hF hC hY hW1 hB1 hW2 hB2 bi 1 n e]

/-- Fused region 4, entered where the walk enters it: its output at row 1024·bi + n, lane e is the specification's eight
    slots 16·3 … 16·3 + 7 plus the next eight, of node n of batch bi. -/
theorem val4_sum (bi : Fin 8) (n : Fin 1024) (e : Fin 128) :
    val4 (F := Ideal) (Wq m d) d (ValueIdx.ix2 (⟨1024 * bi.val + n.val, by have := bi.isLt; have := n.isLt; omega⟩ : Fin 8192) e)
      = Cert.KSpec.eight (fun s => Cert.KSpec.termK (Cert.Spec.rowsOf (Cert.Spec.yOf (launchContents m d (Proc.devRef .tc main_arg0)) (launchContents m d (Proc.devRef .tc main_arg9))) (launchContents m d (Proc.devRef .tc main_arg2))) (launchContents m d (Proc.devRef .tc main_arg4)) (launchContents m d (Proc.devRef .tc main_arg1)) (launchContents m d (Proc.devRef .tc main_arg3)) (launchContents m d (Proc.devRef .tc main_arg5)) (launchContents m d (Proc.devRef .tc main_arg6)) (launchContents m d (Proc.devRef .tc main_arg7)) (launchContents m d (Proc.devRef .tc main_arg8)) (ValueIdx.ix4 bi n s e)) 3 0
        + Cert.KSpec.eight (fun s => Cert.KSpec.termK (Cert.Spec.rowsOf (Cert.Spec.yOf (launchContents m d (Proc.devRef .tc main_arg0)) (launchContents m d (Proc.devRef .tc main_arg9))) (launchContents m d (Proc.devRef .tc main_arg2))) (launchContents m d (Proc.devRef .tc main_arg4)) (launchContents m d (Proc.devRef .tc main_arg1)) (launchContents m d (Proc.devRef .tc main_arg3)) (launchContents m d (Proc.devRef .tc main_arg5)) (launchContents m d (Proc.devRef .tc main_arg6)) (launchContents m d (Proc.devRef .tc main_arg7)) (launchContents m d (Proc.devRef .tc main_arg8)) (ValueIdx.ix4 bi n s e)) 3 1 := by
  have hF : ∀ (b : Fin 8) (m' : Fin 50) (s : Fin 64) (n' : Fin 1024),
      Region4V.aF d (A4 (Wq m d) d) (ValueIdx.ix4 b m' s n') = (launchContents m d (Proc.devRef .tc main_arg4)) (ValueIdx.ix4 b n' s m') := fun b m' s n' => by
    show Wq m d (Proc.devRef .tc main_v15) _ = _
    rw [Wq_v15]
    show after host1 (Wb m d) (Proc.devRef .tc main_v15) _ = _
    rw [host1_fT, Wb_arg4, fT_apply]
  have hC : ∀ (b : Fin 8) (s : Fin 64) (n' : Fin 1024),
      Region4V.aC d (A4 (Wq m d) d) (ValueIdx.ix3 b s n')
        = Cert.Spec.cut (launchContents m d (Proc.devRef .tc main_arg1)) (ValueIdx.ix3 b n' s) * (launchContents m d (Proc.devRef .tc main_arg3)) (ValueIdx.ix3 b n' s) := fun b s n' => by
    show Wq m d (Proc.devRef .tc main_v8) _ = _
    rw [Wq_v8]
    show after host1 (Wb m d) (Proc.devRef .tc main_v8) _ = _
    rw [host1_cutMask, Wb_arg1, Wb_arg3, cutMask_apply_ideal]
    rfl
  have hY : ∀ (b : Fin 8) (kg : Fin 2) (j : Fin 8) (n' : Fin 1024) (e' : Fin 128),
      Region4V.aY d (A4 (Wq m d) d) (ValueIdx.ix2 (⟨(2 * b.val + kg.val) * 8192 + 1024 * j.val + n'.val,
          by have := b.isLt; have := kg.isLt; have := j.isLt; have := n'.isLt; omega⟩ : Fin 131072) e')
        = (Cert.Spec.rowsOf (Cert.Spec.yOf (launchContents m d (Proc.devRef .tc main_arg0)) (launchContents m d (Proc.devRef .tc main_arg9))) (launchContents m d (Proc.devRef .tc main_arg2))) (ValueIdx.ix4 b n' (Cert.KSpec.slot 3 kg j) e') := fun b kg j n' e' => by
    show Wq m d (Proc.devRef .tc main_v32) _ = _
    rw [Wq_v32]
    exact gath_rows3 (contsOf (F := Ideal) m) d _ _ _ hnb (conts_y_eq m d) (contsOf_ix3' m d) b kg j n' e'
  have hW1 : Region4V.aW1 d (A4 (Wq m d) d) = (launchContents m d (Proc.devRef .tc main_arg5)) := Wq_arg5 m d
  have hW2 : Region4V.aW2 d (A4 (Wq m d) d) = (launchContents m d (Proc.devRef .tc main_arg7)) := Wq_arg7 m d
  have hB1 : ∀ j : Fin 128, Region4V.aB1 d (A4 (Wq m d) d) (ValueIdx.ix2 (0 : Fin 1) j) = (launchContents m d (Proc.devRef .tc main_arg6)) (ValueIdx.ix1 j) := fun j => by
    show Wq m d (Proc.devRef .tc main_v16) _ = _
    rw [Wq_v16]
    show after host1 (Wb m d) (Proc.devRef .tc main_v16) _ = _
    rw [host1_bias6, Wb_arg6, row_of_vec_apply]
  have hB2 : ∀ j : Fin 128, Region4V.aB2 d (A4 (Wq m d) d) (ValueIdx.ix2 (0 : Fin 1) j) = (launchContents m d (Proc.devRef .tc main_arg8)) (ValueIdx.ix1 j) := fun j => by
    show Wq m d (Proc.devRef .tc main_v17) _ = _
    rw [Wq_v17]
    show after host1 (Wb m d) (Proc.devRef .tc main_v17) _ = _
    rw [host1_bias8, Wb_arg8, row_of_vec_apply]
  rw [val4_at,
    FusedBridge.point_eq3 (Cert.Spec.rowsOf (Cert.Spec.yOf (launchContents m d (Proc.devRef .tc main_arg0)) (launchContents m d (Proc.devRef .tc main_arg9))) (launchContents m d (Proc.devRef .tc main_arg2))) (launchContents m d (Proc.devRef .tc main_arg4)) (launchContents m d (Proc.devRef .tc main_arg1)) (launchContents m d (Proc.devRef .tc main_arg3)) (launchContents m d (Proc.devRef .tc main_arg5)) (launchContents m d (Proc.devRef .tc main_arg6)) (launchContents m d (Proc.devRef .tc main_arg7)) (launchContents m d (Proc.devRef .tc main_arg8)) d (A4 (Wq m d) d) hF hC hY hW1 hB1 hW2 hB2 bi 0 n e,
    FusedBridge.point_eq3 (Cert.Spec.rowsOf (Cert.Spec.yOf (launchContents m d (Proc.devRef .tc main_arg0)) (launchContents m d (Proc.devRef .tc main_arg9))) (launchContents m d (Proc.devRef .tc main_arg2))) (launchContents m d (Proc.devRef .tc main_arg4)) (launchContents m d (Proc.devRef .tc main_arg1)) (launchContents m d (Proc.devRef .tc main_arg3)) (launchContents m d (Proc.devRef .tc main_arg5)) (launchContents m d (Proc.devRef .tc main_arg6)) (launchContents m d (Proc.devRef .tc main_arg7)) (launchContents m d (Proc.devRef .tc main_arg8)) d (A4 (Wq m d) d) hF hC hY hW1 hB1 hW2 hB2 bi 1 n e]

end IdealSums

/-! ## The result is the kernel's function of the fourteen arguments -/

section IdealFinal

variable (m : (ℓ : Loc nD τ sig) → Buf (Elt Ideal) ℓ) (d : Dev nD)
  (hnb : ∀ j, (launchContents m d (Proc.devRef .tc main_arg2) j).toNat < 1024)

include hnb in
/-- THE RESULT: at every index the result array holds the kernel's function of the fourteen argument arrays. -/
theorem kval_eq (i : S8x1024x128.Idx) :
    Kval (F := Ideal) m d i = Cert.KSpec.KG (launchContents m d (Proc.devRef .tc main_arg0)) (launchContents m d (Proc.devRef .tc main_arg1)) (launchContents m d (Proc.devRef .tc main_arg2)) (launchContents m d (Proc.devRef .tc main_arg3)) (launchContents m d (Proc.devRef .tc main_arg4)) (launchContents m d (Proc.devRef .tc main_arg5)) (launchContents m d (Proc.devRef .tc main_arg6)) (launchContents m d (Proc.devRef .tc main_arg7)) (launchContents m d (Proc.devRef .tc main_arg8)) (launchContents m d (Proc.devRef .tc main_arg9)) (launchContents m d (Proc.devRef .tc main_arg10)) (launchContents m d (Proc.devRef .tc main_arg11)) (launchContents m d (Proc.devRef .tc main_arg12)) (launchContents m d (Proc.devRef .tc main_arg13)) i := by
  obtain ⟨b, n, g, rfl⟩ : ∃ (b : Fin 8) (n : Fin 1024) (g : Fin 128), i = ValueIdx.ix3 b n g := ⟨i 0, i 1, i 2, ValueIdx.eq_ix3 i⟩
  have er : (⟨b.val * 1024 + n.val, by have := b.isLt; have := n.isLt; omega⟩ : Fin 8192)
      = ⟨1024 * b.val + n.val, by have := b.isLt; have := n.isLt; omega⟩ :=
    Fin.ext (by show b.val * 1024 + n.val = 1024 * b.val + n.val; omega)
  rw [kval_outer, er, Region5.tailAll_apply]
  simp only [val1_sum m d hnb, val2_sum m d hnb, val3_sum m d hnb, val4_sum m d hnb, row_of_vec_apply]
  rfl

end IdealFinal

end Cert.KernelIdeal.Sc

end
-- ==== Proof.GatherValue.lean ====
/-
  The sparse-core gather body of the first call, with contents, for any float instance.

  Tile w copies its slab of the index array (32 lists of 128 row numbers) into its local index buffer and, list by
  list, gathers the named rows of y into a row buffer and copies the row buffer to 128 consecutive rows of the output.
  So afterwards row 4096·w + 128·j + r of the output holds row idx[w, j, r] of y, column by column: the tile's 4096
  output rows are the gather of y's rows by the tile's slab. Nothing is computed; the claim is an equation of indices.
-/
import proofs.«215235_g2774548873965_cont_9to1_572_34_alg».proof.Proof.GatherBody
import proofs.«215235_g2774548873965_cont_9to1_572_34_alg».proof.Proof.ScPayV

noncomputable section

namespace Cert.KernelIdeal.Sc.GatherV0

open Cert.KernelIdeal
open Cert.KernelIdeal.Facts₀ Cert.KernelIdeal.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ
open Cert.KernelIdeal.Sc.Gather0

local notation "yV" => (Memref.whole Cert.KernelIdeal.main_v1_scv : Memref Cert.KernelIdeal.sig Kind.scVector Space.hbm Cert.KernelIdeal.S8192x128 EltTy.f32)
local notation "ixV" => (Memref.whole Cert.KernelIdeal.main_v19_scv : Memref Cert.KernelIdeal.sig Kind.scVector Space.hbm Cert.KernelIdeal.S32x32x128 EltTy.i32)
local notation "oV" => (Memref.whole Cert.KernelIdeal.main_v20_scv : Memref Cert.KernelIdeal.sig Kind.scVector Space.hbm Cert.KernelIdeal.S131072x128 EltTy.f32)
local notation "ivV" => (Memref.whole Cert.KernelIdeal.cc1_scratch0 : Memref Cert.KernelIdeal.sig Kind.scVector Space.vmem Cert.KernelIdeal.S32x128 EltTy.i32)
local notation "r0V" => (Memref.whole Cert.KernelIdeal.cc1_scratch1 : Memref Cert.KernelIdeal.sig Kind.scVector Space.vmem Cert.KernelIdeal.S128x128 EltTy.f32)
local notation "r1V" => (Memref.whole Cert.KernelIdeal.cc1_scratch2 : Memref Cert.KernelIdeal.sig Kind.scVector Space.vmem Cert.KernelIdeal.S128x128 EltTy.f32)
local notation "r2V" => (Memref.whole Cert.KernelIdeal.cc1_scratch3 : Memref Cert.KernelIdeal.sig Kind.scVector Space.vmem Cert.KernelIdeal.S128x128 EltTy.f32)
local notation "r3V" => (Memref.whole Cert.KernelIdeal.cc1_scratch4 : Memref Cert.KernelIdeal.sig Kind.scVector Space.vmem Cert.KernelIdeal.S128x128 EltTy.f32)
local notation "yAllK" => (Memref.slice (Memref.whole Cert.KernelIdeal.main_v1_scv : Memref Cert.KernelIdeal.sig Kind.scVector Space.hbm Cert.KernelIdeal.S8192x128 EltTy.f32) (Rect.unit (s := Cert.KernelIdeal.S8192x128) ![0, 0] Cert.KernelIdeal.S8192x128.size Cert.KernelIdeal.Facts₀.inb_S8192x128_S8192x128_0_0) (fun _ => rfl))

variable [FloatOps F]

/-! ## The gathered array, and a chunk held at it -/

omit [FloatOps F] in
/-- The output after the call as ONE function of y's contents and the index array's: row e is row idx[e] of y, the row
    number read modulo 8192 so that the function is total (every entry is below 8192 where it is used). -/
def gathF (d : Dev nD) (fy : Buf (Elt F) (yLoc d)) (fi : Buf (Elt F) (ixLoc0 d)) : Buf (Elt F) (oLoc0 d) :=
  fun i => fy (ValueIdx.ix2 (⟨(fi (srcIdx (i 0))).toNat % 8192, Nat.mod_lt _ (by decide)⟩ : Fin 8192) (i 1))

omit [FloatOps F] in
theorem gath0_eq (C : Conts F) (d : Dev nD) : gath0 C d = gathF d (C.y d) (C.ix0 d) := rfl

/-- The tile's four output chunks of trip t, each held at the one whole-array function G. -/
abbrev outTripG (d : Dev nD) (L : grid1.Coords) (G : Buf (Elt F) (oLoc0 d)) (t : Fin k1_t1_loop.trips) : sProp 𝕄 :=
  iprop(heldW d L (outK0 L t) fullShare G ∗ heldW d L (outK1 L t) fullShare G
    ∗ heldW d L (outK2 L t) fullShare G ∗ heldW d L (outK3 L t) fullShare G)

omit [FloatOps F] in
/-- The 32 chunks held at one function are the worker's 4096 rows held at it. -/
theorem out_joinG (d : Dev nD) (L : grid1.Coords) (G : Buf (Elt F) (oLoc0 d)) :
    bigSep Finset.univ (outTripG d L G) ⊢ (oLoc0 d ↦[(rowsRect (widL L)).set]{fullShare} G : sProp 𝕄) := by
  have step : ∀ t, outTripG d L G t ⊢ (oLoc0 d ↦[tripSet L t]{fullShare} G : sProp 𝕄) := by
    intro t
    iintro ⟨H0, H1, H2, H3⟩
    ihave K0 := (Entails.of_eq (pts_outK0 (F := F) d L t G)) $$ H0
    ihave K1 := (Entails.of_eq (pts_outK1 (F := F) d L t G)) $$ H1
    ihave K2 := (Entails.of_eq (pts_outK2 (F := F) d L t G)) $$ H2
    ihave K3 := (Entails.of_eq (pts_outK3 (F := F) d L t G)) $$ H3
    ihave H23 := (pointsTo_union (ℓ := oLoc0 d) (d23 L t)).2 $$ [K2 K3]
    · isplitl [K2]; · iexact K2
      iexact K3
    ihave H123 := (pointsTo_union (ℓ := oLoc0 d) (d1_23 L t)).2 $$ [K1 H23]
    · isplitl [K1]; · iexact K1
      iexact H23
    ihave H0123 := (pointsTo_union (ℓ := oLoc0 d) (d0_123 L t)).2 $$ [K0 H123]
    · isplitl [K0]; · iexact K0
      iexact H123
    iexact H0123
  rw [rows_cover]
  refine (bigSep_mono fun t _ => step t).trans ?_
  exact (Entails.of_eq (pointsTo_biUnion (ℓ := oLoc0 d) (q := fullShare) (f := G) Finset.univ (tripSet L) (fun t _ t' _ h => trip_disjoint L h)).symm)

/-! ## Reading a buffer written whole; a row buffer after its gather -/

omit [FloatOps F] in
/-- A buffer overwritten through a view by one whole-view piece agrees, on the view's elements, with any contents
    that read through the view as the piece. -/
theorem writes_whole_eq_on {κ : Kind} {sp : Space} {s : Shape} {e : EltTy} (v : View sig κ sp s e)
    (fo G : v.ty.Contents (Elt F)) (pay : s.Idx → Elt F e) (h : ∀ x, pay x = v.read (Elt F) G x) :
    ∀ i ∈ v.set, v.writes (Elt F) fo [⟨Rect.whole s, pay⟩] i = G i := by
  intro i hi
  have hi' : i ∈ Finset.univ.map v.emb := hi
  obtain ⟨x, -, rfl⟩ := Finset.mem_map.mp hi'
  have h1 := congrFun (View.read_writes_whole v fo pay) x
  rw [h x, View.read_apply, View.read_apply] at h1
  exact (cast_inj _).mp h1

/-- What the gather of the list at offsets `off` of the local index buffer delivers to a row buffer: at (r, f), y at
    (the row the list's word r names, f). -/
def rowBuf (d : Dev nD) (L : grid1.Coords) (fy : Buf (Elt F) ((yV).view.loc (thrV d L))) (fvc : Buf (Elt F) ((ivV).view.loc (thrV d L)))
    (hrowc : ∀ (off : Fin 2 → ℕ) (hk : ∀ a, off a + S1x128.size a ≤ S32x128.size a) (x : S128.Idx),
      (View.read (Elt F) (idxRowAt off hk).view fvc x).toNat < 8192)
    (off : Fin 2 → ℕ) (hk : ∀ a, off a + S1x128.size a ≤ S32x128.size a) : S128x128.Idx → Elt F .f32 :=
  SparseCore.gatherPayload Gen.gathers_S8192x128_S128x128 (View.read (Elt F) (yAllK).view fy)
    (SparseCore.rows (o := 128) (z := 8192) (View.read (Elt F) (idxRowAt off hk).view fvc) (by decide) (hrowc off hk))

/-- Row buffer rV holds the gather of list n. -/
def rbOK (d : Dev nD) (L : grid1.Coords) (fy : Buf (Elt F) ((yV).view.loc (thrV d L))) (fvc : Buf (Elt F) ((ivV).view.loc (thrV d L)))
    (hrowc : ∀ (off : Fin 2 → ℕ) (hk : ∀ a, off a + S1x128.size a ≤ S32x128.size a) (x : S128.Idx),
      (View.read (Elt F) (idxRowAt off hk).view fvc x).toNat < 8192)
    (rV : Memref sig .scVector .vmem S128x128 .f32) (n : ℕ) (hn : n < 32) (fr : Buf (Elt F) (rV.view.loc (thrV d L))) : Prop :=
  ∀ x, View.read (Elt F) rV.view fr x = rowBuf d L fy fvc hrowc ![n, 0] (rowsInb n hn) x

omit [FloatOps F] in
/-- A row buffer overwritten whole by the gather of the list at `off = (n, 0)` holds the gather of list n. -/
theorem rb_issue (d : Dev nD) (L : grid1.Coords) (fy : Buf (Elt F) ((yV).view.loc (thrV d L))) (fvc : Buf (Elt F) ((ivV).view.loc (thrV d L)))
    (hrowc : ∀ (off : Fin 2 → ℕ) (hk : ∀ a, off a + S1x128.size a ≤ S32x128.size a) (x : S128.Idx),
      (View.read (Elt F) (idxRowAt off hk).view fvc x).toNat < 8192)
    (rV : Memref sig .scVector .vmem S128x128 .f32) (fr0 : Buf (Elt F) (rV.view.loc (thrV d L)))
    (off : Fin 2 → ℕ) (hk : ∀ a, off a + S1x128.size a ≤ S32x128.size a) (n : ℕ) (hn : n < 32) (hoff : off = ![n, 0]) :
    rbOK d L fy fvc hrowc rV n hn (rV.view.writes (Elt F) fr0 [⟨Rect.whole S128x128, rowBuf d L fy fvc hrowc off hk⟩]) := by
  subst hoff
  intro x
  rw [View.read_writes_whole]

/-! ## The output chunks before trip k: those of the trips done are at the gathered array -/

/-- The tile's four output chunks of trip t before trip k: at some contents, which on the chunk are G's when t < k. -/
abbrev outTripV (d : Dev nD) (L : grid1.Coords) (G : Buf (Elt F) (oLoc0 d)) (k : ℕ) (t : Fin k1_t1_loop.trips) : sProp 𝕄 :=
  iprop((∃ f : Buf (Elt F) (oLoc0 d), ⌜t.val < k → ∀ i ∈ (outK0 L t).view.set, f i = G i⌝ ∗ heldW d L (outK0 L t) fullShare f)
    ∗ (∃ f : Buf (Elt F) (oLoc0 d), ⌜t.val < k → ∀ i ∈ (outK1 L t).view.set, f i = G i⌝ ∗ heldW d L (outK1 L t) fullShare f)
    ∗ (∃ f : Buf (Elt F) (oLoc0 d), ⌜t.val < k → ∀ i ∈ (outK2 L t).view.set, f i = G i⌝ ∗ heldW d L (outK2 L t) fullShare f)
    ∗ (∃ f : Buf (Elt F) (oLoc0 d), ⌜t.val < k → ∀ i ∈ (outK3 L t).view.set, f i = G i⌝ ∗ heldW d L (outK3 L t) fullShare f))

omit [FloatOps F] in
theorem outTripV_mono (d : Dev nD) (L : grid1.Coords) (G : Buf (Elt F) (oLoc0 d)) (k k' : ℕ) (t : Fin k1_t1_loop.trips)
    (h : t.val < k' → t.val < k) : outTripV d L G k t ⊢ outTripV d L G k' t := by
  iintro ⟨⟨%f0, %h0, H0⟩, ⟨%f1, %h1, H1⟩, ⟨%f2, %h2, H2⟩, ⟨%f3, %h3, H3⟩⟩
  isplitl [H0]
  · iexists f0; isplitr
    · ipureintro; exact fun hk => h0 (h hk)
    · iexact H0
  isplitl [H1]
  · iexists f1; isplitr
    · ipureintro; exact fun hk => h1 (h hk)
    · iexact H1
  isplitl [H2]
  · iexists f2; isplitr
    · ipureintro; exact fun hk => h2 (h hk)
    · iexact H2
  iexists f3; isplitr
  · ipureintro; exact fun hk => h3 (h hk)
  · iexact H3

omit [FloatOps F] in
/-- The chunks of the other trips, from before trip k to before trip k + 1. -/
theorem outs_step (d : Dev nD) (L : grid1.Coords) (G : Buf (Elt F) (oLoc0 d)) (k : Fin k1_t1_loop.trips) (k' : ℕ) (hk' : k' = k.val + 1) :
    bigSep (Finset.univ.erase k) (outTripV d L G k.val) ⊢ bigSep (Finset.univ.erase k) (outTripV d L G k') :=
  bigSep_mono fun t ht => outTripV_mono d L G _ _ t (fun h => by
    subst hk'
    have hne : t ≠ k := (Finset.mem_erase.mp ht).1
    have hv : t.val ≠ k.val := fun e => hne (Fin.ext e)
    omega)

omit [FloatOps F] in
/-- Before the first trip nothing is claimed of any chunk. -/
theorem outs_start (d : Dev nD) (L : grid1.Coords) (G : Buf (Elt F) (oLoc0 d)) :
    bigSep Finset.univ (outTrip d L) ⊢ bigSep Finset.univ (outTripV d L G 0) := by
  have step : ∀ t, outTrip d L t ⊢ outTripV d L G 0 t := by
    intro t
    iintro ⟨⟨%f0, H0⟩, ⟨%f1, H1⟩, ⟨%f2, H2⟩, ⟨%f3, H3⟩⟩
    isplitl [H0]
    · iexists f0; isplitr
      · ipureintro; exact fun hk => absurd hk (Nat.not_lt_zero _)
      · iexact H0
    isplitl [H1]
    · iexists f1; isplitr
      · ipureintro; exact fun hk => absurd hk (Nat.not_lt_zero _)
      · iexact H1
    isplitl [H2]
    · iexists f2; isplitr
      · ipureintro; exact fun hk => absurd hk (Nat.not_lt_zero _)
      · iexact H2
    iexists f3; isplitr
    · ipureintro; exact fun hk => absurd hk (Nat.not_lt_zero _)
    · iexact H3
  exact bigSep_mono fun t _ => step t

omit [FloatOps F] in
/-- After the last trip every chunk is at the gathered array. -/
theorem outs_end (d : Dev nD) (L : grid1.Coords) (G : Buf (Elt F) (oLoc0 d)) :
    bigSep Finset.univ (outTripV d L G 8) ⊢ bigSep Finset.univ (outTripG d L G) := by
  have step : ∀ t, outTripV d L G 8 t ⊢ outTripG d L G t := by
    intro t
    have ht : t.val < 8 := trips_eq ▸ t.isLt
    iintro ⟨⟨%f0, %h0, H0⟩, ⟨%f1, %h1, H1⟩, ⟨%f2, %h2, H2⟩, ⟨%f3, %h3, H3⟩⟩
    isplitl [H0]; · iapply (Entails.of_eq (pointsTo_congr (h0 ht))); iexact H0
    isplitl [H1]; · iapply (Entails.of_eq (pointsTo_congr (h1 ht))); iexact H1
    isplitl [H2]; · iapply (Entails.of_eq (pointsTo_congr (h2 ht))); iexact H2
    iapply (Entails.of_eq (pointsTo_congr (h3 ht))); iexact H3
  exact bigSep_mono fun t _ => step t

/-! ## What the loop holds before trip k, with contents -/

/-- Before trip k < 8: the four gathers of lists 4k … 4k + 3 in flight, every other list idle, the write semaphores at
    zero, the output chunks of the trips done at the gathered array,
    each gather's row buffer at the gather of its list. -/
def invAV (d : Dev nD) (L : grid1.Coords) (q : PosShare TreeShare) (O : CellTallies nD τ sig (HIx 4)) (W : Waits sig (HIx 4))
    (fy : Buf (Elt F) ((yV).view.loc (thrV d L))) (fvc : Buf (Elt F) ((ivV).view.loc (thrV d L)))
    (hrowc : ∀ (off : Fin 2 → ℕ) (hk : ∀ a, off a + S1x128.size a ≤ S32x128.size a) (x : S128.Idx),
      (View.read (Elt F) (idxRowAt off hk).view fvc x).toNat < 8192)
    (G : Buf (Elt F) (oLoc0 d)) (k : ℕ) (hk8 : k < 8) : sProp 𝕄 :=
  iprop(Transfers.MayWaits (thrV d L) (default : HIx 4) O
    ∗ (∃ W', ⌜∀ p ∈ W', p ∈ W ∨ p.2 = none⌝ ∗ owes (thrV d L) O W')
    ∗ (cellZ d L cc1_scratch9 ∗ cellZ d L cc1_scratch10 ∗ cellZ d L cc1_scratch11 ∗ cellZ d L cc1_scratch12)
    ∗ bigSep Finset.univ (outTripV d L G k)
    ∗ bigSep (idle k) (fun j => rowPts d L j fvc)
    ∗ ((∃ fr, ⌜rbOK d L fy fvc hrowc r0V (4 * k + 0) (by omega) fr⌝ ∗ gFlight d L q cc1_scratch5 5 r0V ![4 * k + 0, 0] (rowsInb _ (by omega)) fr fvc fy) ∗ yRest d L q 5 fy)
    ∗ ((∃ fr, ⌜rbOK d L fy fvc hrowc r1V (4 * k + 1) (by omega) fr⌝ ∗ gFlight d L q cc1_scratch6 6 r1V ![4 * k + 1, 0] (rowsInb _ (by omega)) fr fvc fy) ∗ yRest d L q 6 fy)
    ∗ ((∃ fr, ⌜rbOK d L fy fvc hrowc r2V (4 * k + 2) (by omega) fr⌝ ∗ gFlight d L q cc1_scratch7 7 r2V ![4 * k + 2, 0] (rowsInb _ (by omega)) fr fvc fy) ∗ yRest d L q 7 fy)
    ∗ ((∃ fr, ⌜rbOK d L fy fvc hrowc r3V (4 * k + 3) (by omega) fr⌝ ∗ gFlight d L q cc1_scratch8 8 r3V ![4 * k + 3, 0] (rowsInb _ (by omega)) fr fvc fy) ∗ yRest d L q 8 fy))

/-- After the last trip: nothing in flight; every list idle, the row buffers at some contents, every semaphore at
    zero, the four shares of y whole again, the 32 output chunks at the gathered array. -/
def invEndV (d : Dev nD) (L : grid1.Coords) (q : PosShare TreeShare) (O : CellTallies nD τ sig (HIx 4)) (W : Waits sig (HIx 4))
    (fy : Buf (Elt F) ((yV).view.loc (thrV d L))) (fvc : Buf (Elt F) ((ivV).view.loc (thrV d L)))
    (G : Buf (Elt F) (oLoc0 d)) : sProp 𝕄 :=
  iprop(Transfers.MayWaits (thrV d L) (default : HIx 4) O
    ∗ (∃ W', ⌜∀ p ∈ W', p ∈ W ∨ p.2 = none⌝ ∗ owes (thrV d L) O W')
    ∗ (cellZ d L cc1_scratch9 ∗ cellZ d L cc1_scratch10 ∗ cellZ d L cc1_scratch11 ∗ cellZ d L cc1_scratch12)
    ∗ bigSep Finset.univ (outTripV d L G 8)
    ∗ bigSep Finset.univ (fun j => rowPts d L j fvc)
    ∗ ((∃ fr, heldW d L r0V fullShare fr) ∗ cellZ d L cc1_scratch5 ∗ heldW d L yV (Transfers.shareTokN q 5) fy)
    ∗ ((∃ fr, heldW d L r1V fullShare fr) ∗ cellZ d L cc1_scratch6 ∗ heldW d L yV (Transfers.shareTokN q 6) fy)
    ∗ ((∃ fr, heldW d L r2V fullShare fr) ∗ cellZ d L cc1_scratch7 ∗ heldW d L yV (Transfers.shareTokN q 7) fy)
    ∗ ((∃ fr, heldW d L r3V fullShare fr) ∗ cellZ d L cc1_scratch8 ∗ heldW d L yV (Transfers.shareTokN q 8) fy))

/-! ## One trip -/

set_option maxHeartbeats 1000000 in
theorem gk_tripA_val (d : Dev nD) (L : grid1.Coords) (q : PosShare TreeShare) (O : CellTallies nD τ sig (HIx 4)) (W : Waits sig (HIx 4))
    (fy : Buf (Elt F) ((yV).view.loc (thrV d L))) (fvc : Buf (Elt F) ((ivV).view.loc (thrV d L)))
    (hrowc : ∀ (off : Fin 2 → ℕ) (hk : ∀ a, off a + S1x128.size a ≤ S32x128.size a) (x : S128.Idx),
      (View.read (Elt F) (idxRowAt off hk).view fvc x).toNat < 8192)
    (G : Buf (Elt F) (oLoc0 d))
    (hG0 : ∀ (t : Fin k1_t1_loop.trips) (ht : 4 * t.val + 0 < 32) (x : S128x128.Idx),
      View.read (Elt F) (outK0 L t).view G x = rowBuf d L fy fvc hrowc ![4 * t.val + 0, 0] (rowsInb _ ht) x)
    (hG1 : ∀ (t : Fin k1_t1_loop.trips) (ht : 4 * t.val + 1 < 32) (x : S128x128.Idx),
      View.read (Elt F) (outK1 L t).view G x = rowBuf d L fy fvc hrowc ![4 * t.val + 1, 0] (rowsInb _ ht) x)
    (hG2 : ∀ (t : Fin k1_t1_loop.trips) (ht : 4 * t.val + 2 < 32) (x : S128x128.Idx),
      View.read (Elt F) (outK2 L t).view G x = rowBuf d L fy fvc hrowc ![4 * t.val + 2, 0] (rowsInb _ ht) x)
    (hG3 : ∀ (t : Fin k1_t1_loop.trips) (ht : 4 * t.val + 3 < 32) (x : S128x128.Idx),
      View.read (Elt F) (outK3 L t).view G x = rowBuf d L fy fvc hrowc ![4 * t.val + 3, 0] (rowsInb _ ht) x)
    (v1 c0 c1 : BitVec 32) (k : Fin k1_t1_loop.trips) (hk : k.val < 7) (acc : Unit) :
    invAV d L q O W fy fvc hrowc G k.val (by omega)
      ⊢ wp frame (wpE (defs₀ (F := F)) 𝒱₀ (thrV d L) none) Set.univ
          (Gen.k1_t1_body L yV (Memref.isWhole_whole _) ixV (Memref.isWhole_whole _) oV (Memref.isWhole_whole _)
            ivV (Memref.isWhole_whole _) r0V (Memref.isWhole_whole _) r1V (Memref.isWhole_whole _)
            r2V (Memref.isWhole_whole _) r3V (Memref.isWhole_whole _)
            cc1_scratch5 cc1_scratch6 cc1_scratch7 cc1_scratch8 cc1_scratch9 cc1_scratch10 cc1_scratch11 cc1_scratch12 cc1_scoped0
            v1 c0 c1 k acc)
          fun _ => invAV d L q O W fy fvc hrowc G (k.val + 1) (by omega) := by
  obtain ⟨c1', c2', c3', c4', c5', c6', c7', c8'⟩ := conds k
  have hc1 : k1_cond1 k = 1#1 := c1'.mpr hk
  have hc2 : ¬ k1_cond2 k = 1#1 := fun h => (c2'.mp h) hk
  have hc3 : k1_cond3 k = 1#1 := c3'.mpr hk
  have hc4 : ¬ k1_cond4 k = 1#1 := fun h => (c4'.mp h) hk
  have hc5 : k1_cond5 k = 1#1 := c5'.mpr hk
  have hc6 : ¬ k1_cond6 k = 1#1 := fun h => (c6'.mp h) hk
  have hc7 : k1_cond7 k = 1#1 := c7'.mpr hk
  have hc8 : ¬ k1_cond8 k = 1#1 := fun h => (c8'.mp h) hk
  unfold invAV gFlight yRest
  iintro ⟨#Hmw, ⟨%W', %hW', HO⟩, ⟨HW0, HW1, HW2, HW3⟩, Hout, Hrows, ⟨⟨%fr0, %hfr0, HG0⟩, HY0⟩, ⟨⟨%fr1, %hfr1, HG1⟩, HY1⟩, ⟨⟨%fr2, %hfr2, HG2⟩, HY2⟩, ⟨⟨%fr3, %hfr3, HG3⟩, HY3⟩⟩
  -- the four output chunks of this trip
  ihave Hx := (Entails.of_eq (SparseCore.bigSep_erase' (i := k) (Finset.mem_univ _))) $$ Hout
  icases Hx with ⟨⟨⟨%fo0, %hfo0, HO0⟩, ⟨%fo1, %hfo1, HO1⟩, ⟨%fo2, %hfo2, HO2⟩, ⟨%fo3, %hfo3, HO3⟩⟩, Hout⟩
  ihave Hout := (outs_step (F := F) d L G k (k.val + 1) rfl) $$ Hout
  -- the four lists the trip's gathers will read
  ihave Hx := (Entails.of_eq (SparseCore.bigSep_erase' (i := (⟨4 * k.val + 4 + 0, by omega⟩ : Fin 32)) (mem_idle_next k.val hk 0 (by omega)))) $$ Hrows
  icases Hx with ⟨Hl0, Hrows⟩
  ihave Hx := (Entails.of_eq (SparseCore.bigSep_erase' (i := (⟨4 * k.val + 4 + 1, by omega⟩ : Fin 32))
    (Finset.mem_erase.mpr ⟨by simp [Fin.ext_iff], mem_idle_next k.val hk 1 (by omega)⟩))) $$ Hrows
  icases Hx with ⟨Hl1, Hrows⟩
  ihave Hx := (Entails.of_eq (SparseCore.bigSep_erase' (i := (⟨4 * k.val + 4 + 2, by omega⟩ : Fin 32))
    (Finset.mem_erase.mpr ⟨by simp [Fin.ext_iff], Finset.mem_erase.mpr ⟨by simp [Fin.ext_iff], mem_idle_next k.val hk 2 (by omega)⟩⟩))) $$ Hrows
  icases Hx with ⟨Hl2, Hrows⟩
  ihave Hx := (Entails.of_eq (SparseCore.bigSep_erase' (i := (⟨4 * k.val + 4 + 3, by omega⟩ : Fin 32))
    (Finset.mem_erase.mpr ⟨by simp [Fin.ext_iff], Finset.mem_erase.mpr ⟨by simp [Fin.ext_iff], Finset.mem_erase.mpr ⟨by simp [Fin.ext_iff], mem_idle_next k.val hk 3 (by omega)⟩⟩⟩))) $$ Hrows
  icases Hx with ⟨Hl3, Hrows⟩
  ihave Hl0' := (Entails.of_eq (rowPts_at (F := F) d L _ (k1_off5 k) (k1_off5_inb k hc1) (Gen.k1_off5_eq k) _)) $$ Hl0
  ihave Hl1' := (Entails.of_eq (rowPts_at (F := F) d L _ (k1_off8 k) (k1_off8_inb k hc3) (Gen.k1_off8_eq k) _)) $$ Hl1
  ihave Hl2' := (Entails.of_eq (rowPts_at (F := F) d L _ (k1_off11 k) (k1_off11_inb k hc5) (Gen.k1_off11_eq k) _)) $$ Hl2
  ihave Hl3' := (Entails.of_eq (rowPts_at (F := F) d L _ (k1_off14 k) (k1_off14_inb k hc7) (Gen.k1_off14_eq k) _)) $$ Hl3
  sl_unfold [Gen.k1_t1_body]
  sl_exec (disch := first | sl_exact hc1 | sl_exact hc2 | sl_exact hc3 | sl_exact hc4 | sl_exact hc5 | sl_exact hc6 | sl_exact hc7 | sl_exact hc8)
  sl_step
  isplitr; · iexact Hmw
  isplitl [HO]
  · iexists _; isplitr
    swap; · iexact HO
    ipureintro
    exact waits_ins (waits_ins (waits_ins (waits_ins (waits_ins (waits_ins (waits_ins (waits_ins hW' _) _) _) _) _) _) _) _
  isplitl [HW0 HW1 HW2 HW3]
  · isplitl [HW0]; · iexact HW0
    isplitl [HW1]; · iexact HW1
    isplitl [HW2]; · iexact HW2
    iexact HW3
  isplitl [Hout HO0 HO1 HO2 HO3]
  · iapply (Entails.of_eq (SparseCore.bigSep_erase' (i := k) (Finset.mem_univ _)).symm)
    isplitl [HO0 HO1 HO2 HO3]
    · isplitl [HO0]
      · iexists _; isplitr
        swap; · iexact HO0
        ipureintro
        exact fun _ => writes_whole_eq_on (outK0 L k).view fo0 G _ (fun x => (hfr0 x).trans (hG0 k (by omega) x).symm)
      isplitl [HO1]
      · iexists _; isplitr
        swap; · iexact HO1
        ipureintro
        exact fun _ => writes_whole_eq_on (outK1 L k).view fo1 G _ (fun x => (hfr1 x).trans (hG1 k (by omega) x).symm)
      isplitl [HO2]
      · iexists _; isplitr
        swap; · iexact HO2
        ipureintro
        exact fun _ => writes_whole_eq_on (outK2 L k).view fo2 G _ (fun x => (hfr2 x).trans (hG2 k (by omega) x).symm)
      iexists _; isplitr
      swap; · iexact HO3
      ipureintro
      exact fun _ => writes_whole_eq_on (outK3 L k).view fo3 G _ (fun x => (hfr3 x).trans (hG3 k (by omega) x).symm)
    iexact Hout
  isplitl [Hrows HG0_dst_and HG1_dst_and HG2_dst_and HG3_dst_and]
  · iapply (idle_step (F := F) k.val hk (fun j => rowPts d L j fvc) (by omega) (by omega) (by omega) (by omega) (by omega) (by omega) (by omega) (by omega))
    isplitl [Hrows]; · iexact Hrows
    isplitl [HG0_dst_and]; · iexact HG0_dst_and
    isplitl [HG1_dst_and]; · iexact HG1_dst_and
    isplitl [HG2_dst_and]; · iexact HG2_dst_and
    iexact HG3_dst_and
  isplitl [HG0 HY0]
  · isplitl [HG0]
    · iexists _; isplitr
      swap
      · iapply (Entails.of_eq (gFlight_off (F := F) d L q cc1_scratch5 5 r0V ((Gen.k1_off5_eq k).trans (by rw [show 4 * (k.val + 1) + 0 = 4 * k.val + 4 by omega])) (k1_off5_inb k hc1) _ _ fvc fy))
        iexact HG0
      ipureintro
      exact rb_issue d L fy fvc hrowc r0V fr0 (k1_off5 k) (k1_off5_inb k hc1) (4 * (k.val + 1) + 0) (by omega) ((Gen.k1_off5_eq k).trans (by rw [show 4 * (k.val + 1) + 0 = 4 * k.val + 4 by omega]))
    iexact HY0
  isplitl [HG1 HY1]
  · isplitl [HG1]
    · iexists _; isplitr
      swap
      · iapply (Entails.of_eq (gFlight_off (F := F) d L q cc1_scratch6 6 r1V ((Gen.k1_off8_eq k).trans (by rw [show 4 * (k.val + 1) + 1 = 4 * k.val + 5 by omega])) (k1_off8_inb k hc3) _ _ fvc fy))
        iexact HG1
      ipureintro
      exact rb_issue d L fy fvc hrowc r1V fr1 (k1_off8 k) (k1_off8_inb k hc3) (4 * (k.val + 1) + 1) (by omega) ((Gen.k1_off8_eq k).trans (by rw [show 4 * (k.val + 1) + 1 = 4 * k.val + 5 by omega]))
    iexact HY1
  isplitl [HG2 HY2]
  · isplitl [HG2]
    · iexists _; isplitr
      swap
      · iapply (Entails.of_eq (gFlight_off (F := F) d L q cc1_scratch7 7 r2V ((Gen.k1_off11_eq k).trans (by rw [show 4 * (k.val + 1) + 2 = 4 * k.val + 6 by omega])) (k1_off11_inb k hc5) _ _ fvc fy))
        iexact HG2
      ipureintro
      exact rb_issue d L fy fvc hrowc r2V fr2 (k1_off11 k) (k1_off11_inb k hc5) (4 * (k.val + 1) + 2) (by omega) ((Gen.k1_off11_eq k).trans (by rw [show 4 * (k.val + 1) + 2 = 4 * k.val + 6 by omega]))
    iexact HY2
  isplitl [HG3]
  · iexists _; isplitr
    swap
    · iapply (Entails.of_eq (gFlight_off (F := F) d L q cc1_scratch8 8 r3V ((Gen.k1_off14_eq k).trans (by rw [show 4 * (k.val + 1) + 3 = 4 * k.val + 7 by omega])) (k1_off14_inb k hc7) _ _ fvc fy))
      iexact HG3
    ipureintro
    exact rb_issue d L fy fvc hrowc r3V fr3 (k1_off14 k) (k1_off14_inb k hc7) (4 * (k.val + 1) + 3) (by omega) ((Gen.k1_off14_eq k).trans (by rw [show 4 * (k.val + 1) + 3 = 4 * k.val + 7 by omega]))
  iexact HY3

set_option maxHeartbeats 1000000 in
theorem gk_tripB_val (d : Dev nD) (L : grid1.Coords) (q : PosShare TreeShare) (O : CellTallies nD τ sig (HIx 4)) (W : Waits sig (HIx 4))
    (fy : Buf (Elt F) ((yV).view.loc (thrV d L))) (fvc : Buf (Elt F) ((ivV).view.loc (thrV d L)))
    (hrowc : ∀ (off : Fin 2 → ℕ) (hk : ∀ a, off a + S1x128.size a ≤ S32x128.size a) (x : S128.Idx),
      (View.read (Elt F) (idxRowAt off hk).view fvc x).toNat < 8192)
    (G : Buf (Elt F) (oLoc0 d))
    (hG0 : ∀ (t : Fin k1_t1_loop.trips) (ht : 4 * t.val + 0 < 32) (x : S128x128.Idx),
      View.read (Elt F) (outK0 L t).view G x = rowBuf d L fy fvc hrowc ![4 * t.val + 0, 0] (rowsInb _ ht) x)
    (hG1 : ∀ (t : Fin k1_t1_loop.trips) (ht : 4 * t.val + 1 < 32) (x : S128x128.Idx),
      View.read (Elt F) (outK1 L t).view G x = rowBuf d L fy fvc hrowc ![4 * t.val + 1, 0] (rowsInb _ ht) x)
    (hG2 : ∀ (t : Fin k1_t1_loop.trips) (ht : 4 * t.val + 2 < 32) (x : S128x128.Idx),
      View.read (Elt F) (outK2 L t).view G x = rowBuf d L fy fvc hrowc ![4 * t.val + 2, 0] (rowsInb _ ht) x)
    (hG3 : ∀ (t : Fin k1_t1_loop.trips) (ht : 4 * t.val + 3 < 32) (x : S128x128.Idx),
      View.read (Elt F) (outK3 L t).view G x = rowBuf d L fy fvc hrowc ![4 * t.val + 3, 0] (rowsInb _ ht) x)
    (v1 c0 c1 : BitVec 32) (k : Fin k1_t1_loop.trips) (hk : k.val = 7) (acc : Unit) :
    invAV d L q O W fy fvc hrowc G k.val (by omega)
      ⊢ wp frame (wpE (defs₀ (F := F)) 𝒱₀ (thrV d L) none) Set.univ
          (Gen.k1_t1_body L yV (Memref.isWhole_whole _) ixV (Memref.isWhole_whole _) oV (Memref.isWhole_whole _)
            ivV (Memref.isWhole_whole _) r0V (Memref.isWhole_whole _) r1V (Memref.isWhole_whole _)
            r2V (Memref.isWhole_whole _) r3V (Memref.isWhole_whole _)
            cc1_scratch5 cc1_scratch6 cc1_scratch7 cc1_scratch8 cc1_scratch9 cc1_scratch10 cc1_scratch11 cc1_scratch12 cc1_scoped0
            v1 c0 c1 k acc)
          fun _ => invEndV d L q O W fy fvc G := by
  obtain ⟨c1', c2', c3', c4', c5', c6', c7', c8'⟩ := conds k
  have hn : ¬ k.val < 7 := by omega
  have hc1 : ¬ k1_cond1 k = 1#1 := fun h => hn (c1'.mp h)
  have hc2 : k1_cond2 k = 1#1 := c2'.mpr hn
  have hc3 : ¬ k1_cond3 k = 1#1 := fun h => hn (c3'.mp h)
  have hc4 : k1_cond4 k = 1#1 := c4'.mpr hn
  have hc5 : ¬ k1_cond5 k = 1#1 := fun h => hn (c5'.mp h)
  have hc6 : k1_cond6 k = 1#1 := c6'.mpr hn
  have hc7 : ¬ k1_cond7 k = 1#1 := fun h => hn (c7'.mp h)
  have hc8 : k1_cond8 k = 1#1 := c8'.mpr hn
  unfold invAV invEndV gFlight yRest
  iintro ⟨#Hmw, ⟨%W', %hW', HO⟩, ⟨HW0, HW1, HW2, HW3⟩, Hout, Hrows, ⟨⟨%fr0, %hfr0, HG0⟩, HY0⟩, ⟨⟨%fr1, %hfr1, HG1⟩, HY1⟩, ⟨⟨%fr2, %hfr2, HG2⟩, HY2⟩, ⟨⟨%fr3, %hfr3, HG3⟩, HY3⟩⟩
  ihave Hx := (Entails.of_eq (SparseCore.bigSep_erase' (i := k) (Finset.mem_univ _))) $$ Hout
  icases Hx with ⟨⟨⟨%fo0, %hfo0, HO0⟩, ⟨%fo1, %hfo1, HO1⟩, ⟨%fo2, %hfo2, HO2⟩, ⟨%fo3, %hfo3, HO3⟩⟩, Hout⟩
  ihave Hout := (outs_step (F := F) d L G k 8 (by omega)) $$ Hout
  sl_unfold [Gen.k1_t1_body]
  sl_exec (disch := first | sl_exact hc1 | sl_exact hc2 | sl_exact hc3 | sl_exact hc4 | sl_exact hc5 | sl_exact hc6 | sl_exact hc7 | sl_exact hc8)
  sl_step
  isplitr; · iexact Hmw
  isplitl [HO]
  · iexists _; isplitr
    swap; · iexact HO
    ipureintro
    exact waits_ins (waits_ins (waits_ins (waits_ins (waits_ins (waits_ins (waits_ins (waits_ins hW' _) _) _) _) _) _) _) _
  isplitl [HW0 HW1 HW2 HW3]
  · isplitl [HW0]; · iexact HW0
    isplitl [HW1]; · iexact HW1
    isplitl [HW2]; · iexact HW2
    iexact HW3
  isplitl [Hout HO0 HO1 HO2 HO3]
  · iapply (Entails.of_eq (SparseCore.bigSep_erase' (i := k) (Finset.mem_univ _)).symm)
    isplitl [HO0 HO1 HO2 HO3]
    · isplitl [HO0]
      · iexists _; isplitr
        swap; · iexact HO0
        ipureintro
        exact fun _ => writes_whole_eq_on (outK0 L k).view fo0 G _ (fun x => (hfr0 x).trans (hG0 k (by omega) x).symm)
      isplitl [HO1]
      · iexists _; isplitr
        swap; · iexact HO1
        ipureintro
        exact fun _ => writes_whole_eq_on (outK1 L k).view fo1 G _ (fun x => (hfr1 x).trans (hG1 k (by omega) x).symm)
      isplitl [HO2]
      · iexists _; isplitr
        swap; · iexact HO2
        ipureintro
        exact fun _ => writes_whole_eq_on (outK2 L k).view fo2 G _ (fun x => (hfr2 x).trans (hG2 k (by omega) x).symm)
      iexists _; isplitr
      swap; · iexact HO3
      ipureintro
      exact fun _ => writes_whole_eq_on (outK3 L k).view fo3 G _ (fun x => (hfr3 x).trans (hG3 k (by omega) x).symm)
    iexact Hout
  isplitl [Hrows HG0_dst_and HG1_dst_and HG2_dst_and HG3_dst_and]
  · iapply (idle_last (F := F) k.val hk (fun j => rowPts d L j fvc) (by omega) (by omega) (by omega) (by omega))
    isplitl [Hrows]; · iexact Hrows
    isplitl [HG0_dst_and]; · iexact HG0_dst_and
    isplitl [HG1_dst_and]; · iexact HG1_dst_and
    isplitl [HG2_dst_and]; · iexact HG2_dst_and
    iexact HG3_dst_and
  isplitl [HG0_dst HG0 HY0]
  · isplitl [HG0_dst]; · iexists _; iexact HG0_dst
    isplitl [HG0]; · iexact HG0
    iexact HY0
  isplitl [HG1_dst HG1 HY1]
  · isplitl [HG1_dst]; · iexists _; iexact HG1_dst
    isplitl [HG1]; · iexact HG1
    iexact HY1
  isplitl [HG2_dst HG2 HY2]
  · isplitl [HG2_dst]; · iexists _; iexact HG2_dst
    isplitl [HG2]; · iexact HG2
    iexact HY2
  isplitl [HG3_dst]; · iexists _; iexact HG3_dst
  isplitl [HG3]; · iexact HG3
  iexact HY3

/-! ## The loop's invariant with contents, and the whole body -/

/-- What the loop holds before trip k: the gathers of trip k in flight while there is a trip k, nothing after; the
    chunks of the trips done at the gathered array. -/
def invV (d : Dev nD) (L : grid1.Coords) (q : PosShare TreeShare) (O : CellTallies nD τ sig (HIx 4)) (W : Waits sig (HIx 4))
    (fy : Buf (Elt F) ((yV).view.loc (thrV d L))) (fvc : Buf (Elt F) ((ivV).view.loc (thrV d L)))
    (hrowc : ∀ (off : Fin 2 → ℕ) (hk : ∀ a, off a + S1x128.size a ≤ S32x128.size a) (x : S128.Idx),
      (View.read (Elt F) (idxRowAt off hk).view fvc x).toNat < 8192)
    (G : Buf (Elt F) (oLoc0 d)) (k : ℕ) : Unit → sProp 𝕄 :=
  fun _ => if h : k < 8 then invAV d L q O W fy fvc hrowc G k h else invEndV d L q O W fy fvc G

theorem invV_lt (d : Dev nD) (L : grid1.Coords) (q : PosShare TreeShare) (O : CellTallies nD τ sig (HIx 4)) (W : Waits sig (HIx 4))
    (fy : Buf (Elt F) ((yV).view.loc (thrV d L))) (fvc : Buf (Elt F) ((ivV).view.loc (thrV d L)))
    (hrowc : ∀ (off : Fin 2 → ℕ) (hk : ∀ a, off a + S1x128.size a ≤ S32x128.size a) (x : S128.Idx),
      (View.read (Elt F) (idxRowAt off hk).view fvc x).toNat < 8192)
    (G : Buf (Elt F) (oLoc0 d)) (k : ℕ) (h : k < 8) :
    invV d L q O W fy fvc hrowc G k = fun _ => invAV d L q O W fy fvc hrowc G k h := by
  funext _; exact dif_pos h

theorem invV_ge (d : Dev nD) (L : grid1.Coords) (q : PosShare TreeShare) (O : CellTallies nD τ sig (HIx 4)) (W : Waits sig (HIx 4))
    (fy : Buf (Elt F) ((yV).view.loc (thrV d L))) (fvc : Buf (Elt F) ((ivV).view.loc (thrV d L)))
    (hrowc : ∀ (off : Fin 2 → ℕ) (hk : ∀ a, off a + S1x128.size a ≤ S32x128.size a) (x : S128.Idx),
      (View.read (Elt F) (idxRowAt off hk).view fvc x).toNat < 8192)
    (G : Buf (Elt F) (oLoc0 d)) (k : ℕ) (h : ¬ k < 8) :
    invV d L q O W fy fvc hrowc G k = fun _ => invEndV d L q O W fy fvc G := by
  funext _; exact dif_neg h

theorem invV_end (d : Dev nD) (L : grid1.Coords) (q : PosShare TreeShare) (O : CellTallies nD τ sig (HIx 4)) (W : Waits sig (HIx 4))
    (fy : Buf (Elt F) ((yV).view.loc (thrV d L))) (fvc : Buf (Elt F) ((ivV).view.loc (thrV d L)))
    (hrowc : ∀ (off : Fin 2 → ℕ) (hk : ∀ a, off a + S1x128.size a ≤ S32x128.size a) (x : S128.Idx),
      (View.read (Elt F) (idxRowAt off hk).view fvc x).toNat < 8192)
    (G : Buf (Elt F) (oLoc0 d)) :
    invV d L q O W fy fvc hrowc G (Scf.trips k1_t1_loop.lb k1_t1_loop.ub k1_t1_loop.st) = fun _ => invEndV d L q O W fy fvc G :=
  invV_ge d L q O W fy fvc hrowc G _ (by decide)

/-! ## The index equation of one chunk: the pieces, and the equation for any slot -/

omit [FloatOps F] in
/-- The local index buffer overwritten whole holds the payload, element by element. -/
theorem iv_written (d : Dev nD) (L : grid1.Coords) (g : Buf (Elt F) ((ivV).view.loc (thrV d L))) (pay : S32x128.Idx → Elt F .i32)
    (i : S32x128.Idx) : ((ivV).view.writes (Elt F) g [⟨Rect.whole cc1_scratch0.ty.shape, pay⟩]) i = pay i :=
  congrFun (View.read_writes_whole (ivV).view g pay) i

omit [FloatOps F] in
/-- Entry (a, b) of the tile's slab is entry (w, a, b) of the index array, w = 2·L₁ + L₀. -/
theorem slab_read (d : Dev nD) (L : grid1.Coords) (fi : Buf (Elt F) ((slabK L).view.loc (thrV d L))) (a : Fin 32) (b : Fin 128) :
    (slabK L).view.read (Elt F) fi (ValueIdx.ix2 a b)
      = fi (ValueIdx.ix3 (⟨2 * (L 1).val + (L 0).val, by have := L0_lt L; have := L1_lt L; omega⟩ : Fin 32) a b) := by
  rw [View.read_apply]
  show fi _ = fi _
  refine congrArg fi ?_
  have hre : Shape.reshapeEquiv (s := (Rect.unit (s := S32x32x128) (k1_off1 L) S1x32x128.size (k1_off1_inb L)).shape) (s' := S32x128)
      squeezes_S1x32x128_S32x128.numel_eq (ValueIdx.ix2 a b) = ValueIdx.ix3 (0 : Fin 1) a b :=
    Shape.reshapeEquiv_eq_of_rowMajor _ (by
      rw [Shape.rowMajor_val_three, Shape.rowMajor_val_two]
      show (0 * 32 + a.val) * 128 + b.val = a.val * 128 + b.val
      omega)
  show (Rect.unit (s := S32x32x128) (k1_off1 L) S1x32x128.size (k1_off1_inb L)).emb (Shape.reshapeEquiv _ (ValueIdx.ix2 a b)) = _
  rw [hre]
  have hoff := Gen.k1_off1_eq L
  funext c
  apply Fin.ext
  match c with
  | ⟨0, _⟩ => show k1_off1 L 0 + 1 * 0 = 2 * (L 1).val + (L 0).val; rw [hoff]; rfl
  | ⟨1, _⟩ => show k1_off1 L 1 + 1 * a.val = a.val; rw [hoff]; show 0 + 1 * a.val = a.val; omega
  | ⟨2, _⟩ => show k1_off1 L 2 + 1 * b.val = b.val; rw [hoff]; show 0 + 1 * b.val = b.val; omega

omit [FloatOps F] in
/-- Word p of list n of the local index buffer is the buffer's entry (n, p). -/
theorem list_read (d : Dev nD) (L : grid1.Coords) (fvc : Buf (Elt F) ((ivV).view.loc (thrV d L))) (n : ℕ) (hn : n < 32)
    (u : S128.Idx) (p : Fin 128) (hu : (u 0).val = p.val) :
    View.read (Elt F) (idxRowAt ![n, 0] (rowsInb n hn)).view fvc u = fvc (ValueIdx.ix2 (⟨n, hn⟩ : Fin 32) p) := by
  rw [View.read_apply]
  show fvc _ = fvc _
  refine congrArg fvc ?_
  have hre : Shape.reshapeEquiv (s := (Rect.unit (s := S32x128) ![n, 0] S1x128.size (rowsInb n hn)).shape) (s' := S128)
      squeezes_S1x128_S128.numel_eq u = ValueIdx.ix2 (0 : Fin 1) p :=
    Shape.reshapeEquiv_eq_of_rowMajor _ (by
      rw [Shape.rowMajor_val_two, Shape.rowMajor_val_one]
      show 0 * 128 + p.val = (u 0).val
      omega)
  show (Rect.unit (s := S32x128) ![n, 0] S1x128.size (rowsInb n hn)).emb (Shape.reshapeEquiv _ u) = _
  rw [hre]
  funext c
  apply Fin.ext
  match c with
  | ⟨0, _⟩ => show n + 1 * 0 = n; omega
  | ⟨1, _⟩ => show 0 + 1 * p.val = p.val; omega

omit [FloatOps F] in
/-- The index entry an output row reads, from the row's decomposition 4096·w + 128·n + p. -/
theorem srcIdx_of_val (e : Fin 131072) (w n : Fin 32) (p : Fin 128) (h : e.val = 4096 * w.val + 128 * n.val + p.val) :
    srcIdx e = ValueIdx.ix3 w n p := by
  have := w.isLt
  have := n.isLt
  have := p.isLt
  unfold srcIdx
  funext c
  apply Fin.ext
  match c with
  | ⟨0, _⟩ => show e.val / 4096 = w.val; omega
  | ⟨1, _⟩ => show e.val % 4096 / 128 = n.val; omega
  | ⟨2, _⟩ => show e.val % 128 = p.val; omega

omit [FloatOps F] in
/-- Chunk 4t + r of the tile's output rows, read off the gathered array, is the gather of list 4t + r of the local index
    buffer once that buffer holds the tile's slab: output row 4096·w + 128·(4t + r) + i reads index entry (w, 4t + r, i). -/
theorem gath_chunk_gen (d : Dev nD) (L : grid1.Coords) (fy : Buf (Elt F) ((yV).view.loc (thrV d L)))
    (fi : Buf (Elt F) ((slabK L).view.loc (thrV d L))) (hin : ∀ x, ((slabK L).view.read (Elt F) fi x).toNat < 8192)
    (g : Buf (Elt F) ((ivV).view.loc (thrV d L))) (pay : S32x128.Idx → Elt F .i32) (hpay : pay = (slabK L).view.read (Elt F) fi)
    (hrowc : ∀ (off : Fin 2 → ℕ) (hk : ∀ a, off a + S1x128.size a ≤ S32x128.size a) (x : S128.Idx),
      (View.read (Elt F) (idxRowAt off hk).view ((ivV).view.writes (Elt F) g [⟨Rect.whole cc1_scratch0.ty.shape, pay⟩]) x).toNat < 8192)
    (t : Fin k1_t1_loop.trips) (r : Fin 4) (ht : 4 * t.val + r.val < 32) (x : S128x128.Idx) :
    View.read (Elt F) ((oV).slice (Rect.unit (s := S131072x128) (k1_off3 L t (BitVec.ofNat 32 r.val)) S128x128.size (k1_off3_inb L t r)) (fun _ => rfl)).view (gathF d fy fi) x
      = rowBuf d L fy ((ivV).view.writes (Elt F) g [⟨Rect.whole cc1_scratch0.ty.shape, pay⟩]) hrowc ![4 * t.val + r.val, 0] (rowsInb _ ht) x := by
  have hL0 := L0_lt L
  have hL1 := L1_lt L
  obtain ⟨p, q, rfl⟩ : ∃ (p : Fin 128) (q : Fin 128), x = ValueIdx.ix2 p q := ⟨x 0, x 1, ValueIdx.eq_ix2 x⟩
  have hp := p.isLt
  have hoff := Gen.k1_off3_eq L t r
  have hr := r.isLt
  subst hpay
  -- the list word both sides read, and its bound
  have hw := hin (ValueIdx.ix2 (⟨4 * t.val + r.val, ht⟩ : Fin 32) p)
  rw [slab_read d L fi] at hw
  unfold rowBuf SparseCore.gatherPayload gathF
  rw [View.read_apply, View.read_apply]
  show fy _ = fy _
  refine congrArg fy (funext fun a => Fin.ext ?_)
  match a with
  | ⟨0, _⟩ =>
    show (fi (srcIdx _)).toNat % 8192 = 0 + 1 * (Shape.Gathers.idx Gen.gathers_S8192x128_S128x128 _ (ValueIdx.ix2 p q) Gen.gathers_S8192x128_S128x128.axis).val
    refine Eq.trans ?_ (congrArg (fun z : Fin (S8192x128.size Gen.gathers_S8192x128_S128x128.axis) => 0 + 1 * z.val)
      (Shape.Gathers.idx_axis Gen.gathers_S8192x128_S128x128 _ (ValueIdx.ix2 p q)).symm)
    show (fi (srcIdx _)).toNat % 8192 = 0 + 1 * (View.read (Elt F) (idxRowAt ![4 * t.val + r.val, 0] (rowsInb _ ht)).view _ _).toNat
    rw [list_read d L _ (4 * t.val + r.val) ht _ p (by
          show ((S128.rowMajor.symm (Fin.cast _ p)) 0).val = p.val
          rw [← Shape.rowMajor_val_one, Equiv.apply_symm_apply]
          rfl),
      iv_written d L, slab_read d L fi]
    have key : ∀ e : Fin 131072, e.val = 4096 * (2 * (L 1).val + (L 0).val) + 128 * (4 * t.val + r.val) + p.val →
        (fi (srcIdx e)).toNat % 8192
          = 0 + 1 * (fi (ValueIdx.ix3 (⟨2 * (L 1).val + (L 0).val, by omega⟩ : Fin 32) (⟨4 * t.val + r.val, ht⟩ : Fin 32) p)).toNat := by
      intro e he
      rw [srcIdx_of_val e (⟨2 * (L 1).val + (L 0).val, by omega⟩ : Fin 32) (⟨4 * t.val + r.val, ht⟩ : Fin 32) p he, Nat.mod_eq_of_lt hw]
      omega
    exact key _ (by
      show k1_off3 L t (BitVec.ofNat 32 r.val) 0 + 1 * p.val = _
      rw [hoff]
      show (8192 * (L 1).val + 4096 * (L 0).val + 512 * t.val + 128 * r.val) + 1 * p.val = _
      omega)
  | ⟨1, _⟩ =>
    have h2 : (k1_off3 L t (BitVec.ofNat 32 r.val)) 1 = 0 := by rw [hoff]; rfl
    show (k1_off3 L t (BitVec.ofNat 32 r.val)) 1 + 1 * q.val = 0 + 1 * (Shape.Gathers.idx Gen.gathers_S8192x128_S128x128 _ (ValueIdx.ix2 p q) 1).val
    rw [h2]
    exact congrArg (fun z => 0 + 1 * z) (Shape.Gathers.idx_of_ne Gen.gathers_S8192x128_S128x128 _ (ValueIdx.ix2 p q) 1 (by decide)).symm

/-! ## The index equation of one chunk, slot by slot -/

omit [FloatOps F] in
theorem gath_chunk0 (d : Dev nD) (L : grid1.Coords) (fy : Buf (Elt F) ((yV).view.loc (thrV d L)))
    (fi : Buf (Elt F) ((slabK L).view.loc (thrV d L))) (hin : ∀ x, ((slabK L).view.read (Elt F) fi x).toNat < 8192)
    (g : Buf (Elt F) ((ivV).view.loc (thrV d L))) (pay : S32x128.Idx → Elt F .i32) (hpay : pay = (slabK L).view.read (Elt F) fi)
    (hrowc : ∀ (off : Fin 2 → ℕ) (hk : ∀ a, off a + S1x128.size a ≤ S32x128.size a) (x : S128.Idx),
      (View.read (Elt F) (idxRowAt off hk).view ((ivV).view.writes (Elt F) g [⟨Rect.whole cc1_scratch0.ty.shape, pay⟩]) x).toNat < 8192)
    (t : Fin k1_t1_loop.trips) (ht : 4 * t.val + 0 < 32) (x : S128x128.Idx) :
    View.read (Elt F) (outK0 L t).view (gathF d fy fi) x
      = rowBuf d L fy ((ivV).view.writes (Elt F) g [⟨Rect.whole cc1_scratch0.ty.shape, pay⟩]) hrowc ![4 * t.val + 0, 0] (rowsInb _ ht) x := by
  exact gath_chunk_gen d L fy fi hin g pay hpay hrowc t 0 ht x

omit [FloatOps F] in
theorem gath_chunk1 (d : Dev nD) (L : grid1.Coords) (fy : Buf (Elt F) ((yV).view.loc (thrV d L)))
    (fi : Buf (Elt F) ((slabK L).view.loc (thrV d L))) (hin : ∀ x, ((slabK L).view.read (Elt F) fi x).toNat < 8192)
    (g : Buf (Elt F) ((ivV).view.loc (thrV d L))) (pay : S32x128.Idx → Elt F .i32) (hpay : pay = (slabK L).view.read (Elt F) fi)
    (hrowc : ∀ (off : Fin 2 → ℕ) (hk : ∀ a, off a + S1x128.size a ≤ S32x128.size a) (x : S128.Idx),
      (View.read (Elt F) (idxRowAt off hk).view ((ivV).view.writes (Elt F) g [⟨Rect.whole cc1_scratch0.ty.shape, pay⟩]) x).toNat < 8192)
    (t : Fin k1_t1_loop.trips) (ht : 4 * t.val + 1 < 32) (x : S128x128.Idx) :
    View.read (Elt F) (outK1 L t).view (gathF d fy fi) x
      = rowBuf d L fy ((ivV).view.writes (Elt F) g [⟨Rect.whole cc1_scratch0.ty.shape, pay⟩]) hrowc ![4 * t.val + 1, 0] (rowsInb _ ht) x := by
  exact gath_chunk_gen d L fy fi hin g pay hpay hrowc t 1 ht x

omit [FloatOps F] in
theorem gath_chunk2 (d : Dev nD) (L : grid1.Coords) (fy : Buf (Elt F) ((yV).view.loc (thrV d L)))
    (fi : Buf (Elt F) ((slabK L).view.loc (thrV d L))) (hin : ∀ x, ((slabK L).view.read (Elt F) fi x).toNat < 8192)
    (g : Buf (Elt F) ((ivV).view.loc (thrV d L))) (pay : S32x128.Idx → Elt F .i32) (hpay : pay = (slabK L).view.read (Elt F) fi)
    (hrowc : ∀ (off : Fin 2 → ℕ) (hk : ∀ a, off a + S1x128.size a ≤ S32x128.size a) (x : S128.Idx),
      (View.read (Elt F) (idxRowAt off hk).view ((ivV).view.writes (Elt F) g [⟨Rect.whole cc1_scratch0.ty.shape, pay⟩]) x).toNat < 8192)
    (t : Fin k1_t1_loop.trips) (ht : 4 * t.val + 2 < 32) (x : S128x128.Idx) :
    View.read (Elt F) (outK2 L t).view (gathF d fy fi) x
      = rowBuf d L fy ((ivV).view.writes (Elt F) g [⟨Rect.whole cc1_scratch0.ty.shape, pay⟩]) hrowc ![4 * t.val + 2, 0] (rowsInb _ ht) x := by
  exact gath_chunk_gen d L fy fi hin g pay hpay hrowc t 2 ht x

omit [FloatOps F] in
theorem gath_chunk3 (d : Dev nD) (L : grid1.Coords) (fy : Buf (Elt F) ((yV).view.loc (thrV d L)))
    (fi : Buf (Elt F) ((slabK L).view.loc (thrV d L))) (hin : ∀ x, ((slabK L).view.read (Elt F) fi x).toNat < 8192)
    (g : Buf (Elt F) ((ivV).view.loc (thrV d L))) (pay : S32x128.Idx → Elt F .i32) (hpay : pay = (slabK L).view.read (Elt F) fi)
    (hrowc : ∀ (off : Fin 2 → ℕ) (hk : ∀ a, off a + S1x128.size a ≤ S32x128.size a) (x : S128.Idx),
      (View.read (Elt F) (idxRowAt off hk).view ((ivV).view.writes (Elt F) g [⟨Rect.whole cc1_scratch0.ty.shape, pay⟩]) x).toNat < 8192)
    (t : Fin k1_t1_loop.trips) (ht : 4 * t.val + 3 < 32) (x : S128x128.Idx) :
    View.read (Elt F) (outK3 L t).view (gathF d fy fi) x
      = rowBuf d L fy ((ivV).view.writes (Elt F) g [⟨Rect.whole cc1_scratch0.ty.shape, pay⟩]) hrowc ![4 * t.val + 3, 0] (rowsInb _ ht) x := by
  exact gath_chunk_gen d L fy fi hin g pay hpay hrowc t 3 ht x

/-! ## The body from the tile's own spellings, with contents -/

set_option maxHeartbeats 4000000 in
/-- The body on tile (L 0, L 1) of device d, from the tile's own spellings of what it holds: four read shares of y, its
    slab of the index array with every word a row number of y, its 32 output chunks, its local index buffer, its four
    row buffers, its nine semaphores at zero. It ends with the same, the output chunks at the gathered array, the local
    buffers at some contents. -/
theorem gk_core_val (d : Dev nD) (L : grid1.Coords) (q : PosShare TreeShare)
    (O : CellTallies nD τ sig (HIx 4)) (W : Waits sig (HIx 4))
    (fy : Buf (Elt F) ((yV).view.loc (thrV d L))) (fi : Buf (Elt F) ((slabK L).view.loc (thrV d L)))
    (fv : Buf (Elt F) ((ivV).view.loc (thrV d L)))
    (f0 : Buf (Elt F) ((r0V).view.loc (thrV d L))) (f1 : Buf (Elt F) ((r1V).view.loc (thrV d L)))
    (f2 : Buf (Elt F) ((r2V).view.loc (thrV d L))) (f3 : Buf (Elt F) ((r3V).view.loc (thrV d L)))
    (hin : ∀ x, ((slabK L).view.read (Elt F) fi x).toNat < 8192) :
    (iprop(Transfers.MayWaits (thrV d L) (default : HIx 4) O
        ∗ heldW d L yV (Transfers.shareTokN q 5) fy ∗ heldW d L yV (Transfers.shareTokN q 6) fy
        ∗ heldW d L yV (Transfers.shareTokN q 7) fy ∗ heldW d L yV (Transfers.shareTokN q 8) fy
        ∗ heldW d L (slabK L) fullShare fi
        ∗ heldW d L ivV fullShare fv
        ∗ heldW d L r0V fullShare f0 ∗ heldW d L r1V fullShare f1 ∗ heldW d L r2V fullShare f2 ∗ heldW d L r3V fullShare f3
        ∗ cellZ d L cc1_scratch5 ∗ cellZ d L cc1_scratch6 ∗ cellZ d L cc1_scratch7 ∗ cellZ d L cc1_scratch8
        ∗ cellZ d L cc1_scratch9 ∗ cellZ d L cc1_scratch10 ∗ cellZ d L cc1_scratch11 ∗ cellZ d L cc1_scratch12
        ∗ cellZ d L cc1_scoped0
        ∗ bigSep Finset.univ (outTrip d L)
        ∗ owes (thrV d L) O W) : sProp 𝕄)
      ⊢ wp frame (wpE (defs₀ (F := F)) 𝒱₀ (thrV d L) none) Set.univ
          (cc1_gk L yV (Memref.isWhole_whole _) ixV (Memref.isWhole_whole _) oV (Memref.isWhole_whole _)
            ivV (Memref.isWhole_whole _) r0V (Memref.isWhole_whole _) r1V (Memref.isWhole_whole _)
            r2V (Memref.isWhole_whole _) r3V (Memref.isWhole_whole _)
            cc1_scratch5 cc1_scratch6 cc1_scratch7 cc1_scratch8 cc1_scratch9 cc1_scratch10 cc1_scratch11 cc1_scratch12 cc1_scoped0)
          fun _ => iprop(heldW d L yV (Transfers.shareTokN q 5) fy ∗ heldW d L yV (Transfers.shareTokN q 6) fy
            ∗ heldW d L yV (Transfers.shareTokN q 7) fy ∗ heldW d L yV (Transfers.shareTokN q 8) fy
            ∗ heldW d L (slabK L) fullShare fi
            ∗ (∃ f, heldW d L ivV fullShare f)
            ∗ (∃ f, heldW d L r0V fullShare f) ∗ (∃ f, heldW d L r1V fullShare f) ∗ (∃ f, heldW d L r2V fullShare f) ∗ (∃ f, heldW d L r3V fullShare f)
            ∗ cellZ d L cc1_scratch5 ∗ cellZ d L cc1_scratch6 ∗ cellZ d L cc1_scratch7 ∗ cellZ d L cc1_scratch8
            ∗ cellZ d L cc1_scratch9 ∗ cellZ d L cc1_scratch10 ∗ cellZ d L cc1_scratch11 ∗ cellZ d L cc1_scratch12
            ∗ cellZ d L cc1_scoped0
            ∗ bigSep Finset.univ (outTripG d L (gathF d fy fi))
            ∗ ∃ W', ⌜∀ p ∈ W', p ∈ W ∨ p.2 = none⌝ ∗ owes (thrV d L) O W') := by
  rw [Gen.cc1_gk_eq_skeleton]
  iintro ⟨#Hmw, HY0, HY1, HY2, HY3, HI, HV, HR0, HR1, HR2, HR3, HG0, HG1, HG2, HG3, HW0, HW1, HW2, HW3, HS, Hout, HO⟩
  sl_unfold [Gen.cc1_gk_skel, k1_part3]
  -- the slab lands in the local index buffer (one copy, awaited); the run stops before the first gather
  sl_exec
  -- whatever the buffer held before, every word of every list is now a word of the slab
  have hrow := fun g off hk => hin_rows d L fi hin g (gk_core_val.sl.dma0 d L fi) rfl off hk
  -- the buffer as its 32 lists; lists 0 … 3, spelt as the first four gathers slice them
  ihave Hrows := (Entails.of_eq (iv_rows (F := F) d L _)) $$ HV
  ihave Hx := (Entails.of_eq (SparseCore.bigSep_erase' (s := Finset.univ) (i := (0 : Fin 32)) (Finset.mem_univ _))) $$ Hrows
  icases Hx with ⟨Hl0, Hrows⟩
  ihave Hx := (Entails.of_eq (SparseCore.bigSep_erase' (i := (1 : Fin 32)) (by decide))) $$ Hrows
  icases Hx with ⟨Hl1, Hrows⟩
  ihave Hx := (Entails.of_eq (SparseCore.bigSep_erase' (i := (2 : Fin 32)) (by decide))) $$ Hrows
  icases Hx with ⟨Hl2, Hrows⟩
  ihave Hx := (Entails.of_eq (SparseCore.bigSep_erase' (i := (3 : Fin 32)) (by decide))) $$ Hrows
  icases Hx with ⟨Hl3, Hrows⟩
  ihave Hl0' := (Entails.of_eq (rowPts_at (F := F) d L 0 ![0, 0] inb_S32x128_S1x128_0_0 rfl _)) $$ Hl0
  ihave Hl1' := (Entails.of_eq (rowPts_at (F := F) d L 1 ![1, 0] inb_S32x128_S1x128_1_0 rfl _)) $$ Hl1
  ihave Hl2' := (Entails.of_eq (rowPts_at (F := F) d L 2 ![2, 0] inb_S32x128_S1x128_2_0 rfl _)) $$ Hl2
  ihave Hl3' := (Entails.of_eq (rowPts_at (F := F) d L 3 ![3, 0] inb_S32x128_S1x128_3_0 rfl _)) $$ Hl3
  -- the four gathers issue; the run stops at the loop
  sl_exec
  have hG0 := gath_chunk0 d L fy fi hin (ivV).view.junk (gk_core_val.sl.dma0 d L fi) rfl (hrow _)
  have hG1 := gath_chunk1 d L fy fi hin (ivV).view.junk (gk_core_val.sl.dma0 d L fi) rfl (hrow _)
  have hG2 := gath_chunk2 d L fy fi hin (ivV).view.junk (gk_core_val.sl.dma0 d L fi) rfl (hrow _)
  have hG3 := gath_chunk3 d L fy fi hin (ivV).view.junk (gk_core_val.sl.dma0 d L fi) rfl (hrow _)
  ihave Hout := (outs_start (F := F) d L (gathF d fy fi)) $$ Hout
  sl_for (invV d L q O W fy ((ivV).view.writes (Elt F) (ivV).view.junk [⟨Rect.whole cc1_scratch0.ty.shape, gk_core_val.sl.dma0 d L fi⟩]) (hrow _) (gathF d fy fi))
    $$ [HO HW0 HW1 HW2 HW3 Hout Hrows HG0 HY0 HG1 HY1 HG2 HY2 HG3 HY3]
  · -- one trip
    intro k acc
    have hk8 : k.val < 8 := trips_eq ▸ k.isLt
    rcases Nat.lt_or_ge k.val 7 with h7 | h7
    · rw [invV_lt (h := hk8), invV_lt (k := k.val + 1) (h := by omega)]
      exact gk_tripA_val d L q O W fy _ (hrow _) (gathF d fy fi) hG0 hG1 hG2 hG3 _ _ _ k h7 acc
    · rw [invV_lt (h := hk8), invV_ge (k := k.val + 1) (h := by omega)]
      exact gk_tripB_val d L q O W fy _ (hrow _) (gathF d fy fi) hG0 hG1 hG2 hG3 _ _ _ k (by omega) acc
  · -- the invariant before the first trip
    rw [invV_lt (k := 0) (h := by omega)]
    beta_reduce
    unfold invAV gFlight yRest
    isplitr; · iexact Hmw
    isplitl [HO]
    · iexists _; isplitr
      swap; · iexact HO
      ipureintro
      exact waits_ins (fun p hp => .inl hp) _
    isplitl [HW0 HW1 HW2 HW3]
    · isplitl [HW0]; · iexact HW0
      isplitl [HW1]; · iexact HW1
      isplitl [HW2]; · iexact HW2
      iexact HW3
    isplitl [Hout]; · iexact Hout
    isplitl [Hrows]; · rw [idle_zero]; iexact Hrows
    isplitl [HG0 HY0]
    · isplitl [HG0]
      · iexists _; isplitr
        swap; · iexact HG0
        ipureintro
        exact rb_issue d L fy _ (hrow _) r0V _ ![0, 0] inb_S32x128_S1x128_0_0 (4 * 0 + 0) (by omega) rfl
      iexact HY0
    isplitl [HG1 HY1]
    · isplitl [HG1]
      · iexists _; isplitr
        swap; · iexact HG1
        ipureintro
        exact rb_issue d L fy _ (hrow _) r1V _ ![1, 0] inb_S32x128_S1x128_1_0 (4 * 0 + 1) (by omega) rfl
      iexact HY1
    isplitl [HG2 HY2]
    · isplitl [HG2]
      · iexists _; isplitr
        swap; · iexact HG2
        ipureintro
        exact rb_issue d L fy _ (hrow _) r2V _ ![2, 0] inb_S32x128_S1x128_2_0 (4 * 0 + 2) (by omega) rfl
      iexact HY2
    isplitl [HG3]
    · iexists _; isplitr
      swap; · iexact HG3
      ipureintro
      exact rb_issue d L fy _ (hrow _) r3V _ ![3, 0] inb_S32x128_S1x128_3_0 (4 * 0 + 3) (by omega) rfl
    iexact HY3
  -- after the loop
  iintro %acc HL
  rw [invV_end]
  beta_reduce
  unfold invEndV
  icases HL with ⟨-, ⟨%W', %hW', HO⟩, ⟨HW0, HW1, HW2, HW3⟩, Hout, Hrows, ⟨⟨%fr0, HR0⟩, HG0, HY0⟩, ⟨⟨%fr1, HR1⟩, HG1, HY1⟩, ⟨⟨%fr2, HR2⟩, HG2, HY2⟩, ⟨⟨%fr3, HR3⟩, HG3, HY3⟩⟩
  sl_exec
  sl_step
  isplitl [HY0]; · iexact HY0
  isplitl [HY1]; · iexact HY1
  isplitl [HY2]; · iexact HY2
  isplitl [HY3]; · iexact HY3
  isplitl [HI]; · iexact HI
  isplitl [Hrows]
  · iexists _
    iapply (Entails.of_eq (iv_rows (F := F) d L _).symm)
    iexact Hrows
  isplitl [HR0]; · iexists _; iexact HR0
  isplitl [HR1]; · iexists _; iexact HR1
  isplitl [HR2]; · iexists _; iexact HR2
  isplitl [HR3]; · iexists _; iexact HR3
  isplitl [HG0]; · iexact HG0
  isplitl [HG1]; · iexact HG1
  isplitl [HG2]; · iexact HG2
  isplitl [HG3]; · iexact HG3
  isplitl [HW0]; · iexact HW0
  isplitl [HW1]; · iexact HW1
  isplitl [HW2]; · iexact HW2
  isplitl [HW3]; · iexact HW3
  isplitl [HS]; · iexact HS
  isplitl [Hout]; · iapply (outs_end (F := F) d L (gathF d fy fi)); iexact Hout
  iexists _; isplitr
  swap; · iexact HO
  ipureintro; exact hW'

/-! ## The body from what the launch hands the tile, with contents -/

set_option maxHeartbeats 4000000 in
/-- The body on tile (L 0, L 1) of device d from the worker's share with contents — a share of y at C.y, its slab of
    the index array at C.ix0 with every word a row number of y, its 4096 rows of the output — and the tile's scoped
    storage; it hands the same back, the output rows at the gather of y's rows by the slab, the local buffers at some
    contents, owing what it owed. -/
theorem gk_body_val (hF : (K (F := F)).Facts) (C : Conts F) (d : Dev nD) (L : grid1.Coords)
    (hinC : ∀ j, (C.ix0 d j).toNat < 8192)
    (O : CellTallies nD τ sig (HIx 4)) (W : Waits sig (HIx 4)) (hO : ∀ g, O g none = 0) :
    (iprop(levAts (K (F := F)).L (K (F := F)).lev ∗ shareIn0 C d (widL L)
        ∗ scopedBufs (thrV d L) ∗ scopedSems0 (thrV d L) ∗ owes (thrV d L) O W) : sProp 𝕄)
      ⊢ wp frame (wpE (defs₀ (F := F)) 𝒱₀ (thrV d L) none) Set.univ
          (cc1_gk L yV (Memref.isWhole_whole _) ixV (Memref.isWhole_whole _) oV (Memref.isWhole_whole _)
            ivV (Memref.isWhole_whole _) r0V (Memref.isWhole_whole _) r1V (Memref.isWhole_whole _)
            r2V (Memref.isWhole_whole _) r3V (Memref.isWhole_whole _)
            cc1_scratch5 cc1_scratch6 cc1_scratch7 cc1_scratch8 cc1_scratch9 cc1_scratch10 cc1_scratch11 cc1_scratch12 cc1_scoped0)
          fun _ => iprop(shareOut0 C d (widL L) ∗ scopedBufs (thrV d L) ∗ scopedSems0 (thrV d L)
            ∗ ∃ W', ⌜∀ p ∈ W', p ∈ W ∨ p.2 = none⌝ ∗ owes (thrV d L) O W') := by
  rw [(K (F := F)).scopedBufs_V hF d (cV L) (jV L), SparseCore.Cfg.scopedSems0_V (Val := Elt F) d (cV L) (jV L), tile_sems, tile_bufs]
  unfold shareIn0 shareOut0
  iintro ⟨#Hlv, ⟨HY, HI, ⟨%fo, HOut⟩⟩, ⟨⟨%fv, HV⟩, ⟨%f0, HR0⟩, ⟨%f1, HR1⟩, ⟨%f2, HR2⟩, ⟨%f3, HR3⟩, Hbufs⟩, ⟨HG0, HG1, HG2, HG3, HW0, HW1, HW2, HW3, HS, Hsems⟩, HO⟩
  ihave Hmw := (show levAts (K (F := F)).L (K (F := F)).lev ⊢ Transfers.MayWaits (thrV d L) (default : HIx 4) O from
    (K (F := F)).mayWaits_none (thr := thrV d L) hO) $$ Hlv
  -- the share of y as the four gathers' read shares and the rest
  ihave HYs := (y_toks (F := F) (yLoc d) (ysh (widL L)) (C.y d)).1 $$ HY
  icases HYs with ⟨HY0, HY1, HY2, HY3, Hkeep⟩
  ihave KY0 := (Entails.of_eq (pts_yV (F := F) d L _ (C.y d)).symm) $$ HY0
  ihave KY1 := (Entails.of_eq (pts_yV (F := F) d L _ (C.y d)).symm) $$ HY1
  ihave KY2 := (Entails.of_eq (pts_yV (F := F) d L _ (C.y d)).symm) $$ HY2
  ihave KY3 := (Entails.of_eq (pts_yV (F := F) d L _ (C.y d)).symm) $$ HY3
  -- the slab, the output rows as 32 chunks, the five local buffers, in the tile's spellings
  ihave KI := (Entails.of_eq (pts_slabK (F := F) d L (C.ix0 d)).symm) $$ HI
  ihave KOut := (out_split (F := F) d L fo) $$ HOut
  ihave KV := (Entails.of_eq (pts_whole (F := F) d L cc1_scratch0 fullShare fv).symm) $$ HV
  ihave KR0 := (Entails.of_eq (pts_whole (F := F) d L cc1_scratch1 fullShare f0).symm) $$ HR0
  ihave KR1 := (Entails.of_eq (pts_whole (F := F) d L cc1_scratch2 fullShare f1).symm) $$ HR1
  ihave KR2 := (Entails.of_eq (pts_whole (F := F) d L cc1_scratch3 fullShare f2).symm) $$ HR2
  ihave KR3 := (Entails.of_eq (pts_whole (F := F) d L cc1_scratch4 fullShare f3).symm) $$ HR3
  iapply (wp_wand_r frame (wpE (defs₀ (F := F)) 𝒱₀ (thrV d L) none) Set.univ)
  isplitl [Hmw KY0 KY1 KY2 KY3 KI KV KR0 KR1 KR2 KR3 HG0 HG1 HG2 HG3 HW0 HW1 HW2 HW3 HS KOut HO]
  · iapply (gk_core_val d L (ysh (widL L)) O W (C.y d) (C.ix0 d) fv f0 f1 f2 f3 (hin_slabK d L (C.ix0 d) (fun j _ => hinC j)))
    isplitl [Hmw]; · iexact Hmw
    isplitl [KY0]; · iexact KY0
    isplitl [KY1]; · iexact KY1
    isplitl [KY2]; · iexact KY2
    isplitl [KY3]; · iexact KY3
    isplitl [KI]; · iexact KI
    isplitl [KV]; · iexact KV
    isplitl [KR0]; · iexact KR0
    isplitl [KR1]; · iexact KR1
    isplitl [KR2]; · iexact KR2
    isplitl [KR3]; · iexact KR3
    isplitl [HG0]; · iexact HG0
    isplitl [HG1]; · iexact HG1
    isplitl [HG2]; · iexact HG2
    isplitl [HG3]; · iexact HG3
    isplitl [HW0]; · iexact HW0
    isplitl [HW1]; · iexact HW1
    isplitl [HW2]; · iexact HW2
    isplitl [HW3]; · iexact HW3
    isplitl [HS]; · iexact HS
    isplitl [KOut]; · iexact KOut
    iexact HO
  iintro %a ⟨HY0, HY1, HY2, HY3, HI, ⟨%gv, HV⟩, ⟨%g0, HR0⟩, ⟨%g1, HR1⟩, ⟨%g2, HR2⟩, ⟨%g3, HR3⟩, HG0, HG1, HG2, HG3, HW0, HW1, HW2, HW3, HS, HOut, HO⟩
  isplitl [HY0 HY1 HY2 HY3 Hkeep HI HOut]
  · isplitl [HY0 HY1 HY2 HY3 Hkeep]
    · iapply (y_toks (F := F) (yLoc d) (ysh (widL L)) (C.y d)).2
      isplitl [HY0]; · iapply (Entails.of_eq (pts_yV (F := F) d L _ (C.y d))); iexact HY0
      isplitl [HY1]; · iapply (Entails.of_eq (pts_yV (F := F) d L _ (C.y d))); iexact HY1
      isplitl [HY2]; · iapply (Entails.of_eq (pts_yV (F := F) d L _ (C.y d))); iexact HY2
      isplitl [HY3]; · iapply (Entails.of_eq (pts_yV (F := F) d L _ (C.y d))); iexact HY3
      iexact Hkeep
    isplitl [HI]
    · iapply (Entails.of_eq (pts_slabK (F := F) d L (C.ix0 d))); iexact HI
    iapply (out_joinG (F := F) d L (gathF d (C.y d) (C.ix0 d))); iexact HOut
  isplitl [HV HR0 HR1 HR2 HR3 Hbufs]
  · isplitl [HV]; · iexists gv; iapply (Entails.of_eq (pts_whole (F := F) d L cc1_scratch0 fullShare gv)); iexact HV
    isplitl [HR0]; · iexists g0; iapply (Entails.of_eq (pts_whole (F := F) d L cc1_scratch1 fullShare g0)); iexact HR0
    isplitl [HR1]; · iexists g1; iapply (Entails.of_eq (pts_whole (F := F) d L cc1_scratch2 fullShare g1)); iexact HR1
    isplitl [HR2]; · iexists g2; iapply (Entails.of_eq (pts_whole (F := F) d L cc1_scratch3 fullShare g2)); iexact HR2
    isplitl [HR3]; · iexists g3; iapply (Entails.of_eq (pts_whole (F := F) d L cc1_scratch4 fullShare g3)); iexact HR3
    iexact Hbufs
  isplitl [HG0 HG1 HG2 HG3 HW0 HW1 HW2 HW3 HS Hsems]
  · isplitl [HG0]; · iexact HG0
    isplitl [HG1]; · iexact HG1
    isplitl [HG2]; · iexact HG2
    isplitl [HG3]; · iexact HG3
    isplitl [HW0]; · iexact HW0
    isplitl [HW1]; · iexact HW1
    isplitl [HW2]; · iexact HW2
    isplitl [HW3]; · iexact HW3
    isplitl [HS]; · iexact HS
    iexact Hsems
  iexact HO

end Cert.KernelIdeal.Sc.GatherV0

end
-- ==== Proof.GatherValue3.lean ====
/-
  The sparse-core gather body of the second call, with contents, for any float instance.

  Tile w copies its slab of the index array (32 lists of 128 row numbers) into its local index buffer and, list by
  list, gathers the named rows of y into a row buffer and copies the row buffer to 128 consecutive rows of the output.
  So afterwards row 4096·w + 128·j + r of the output holds row idx[w, j, r] of y, column by column: the tile's 4096
  output rows are the gather of y's rows by the tile's slab. Nothing is computed; the claim is an equation of indices.
-/
import proofs.«215235_g2774548873965_cont_9to1_572_34_alg».proof.Proof.GatherBody3
import proofs.«215235_g2774548873965_cont_9to1_572_34_alg».proof.Proof.ScPayV

noncomputable section

namespace Cert.KernelIdeal.Sc.GatherV1

open Cert.KernelIdeal
open Cert.KernelIdeal.Facts₀ Cert.KernelIdeal.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ
open Cert.KernelIdeal.Sc.Gather1

local notation "yV" => (Memref.whole Cert.KernelIdeal.main_v1_scv : Memref Cert.KernelIdeal.sig Kind.scVector Space.hbm Cert.KernelIdeal.S8192x128 EltTy.f32)
local notation "ixV" => (Memref.whole Cert.KernelIdeal.main_v23_scv : Memref Cert.KernelIdeal.sig Kind.scVector Space.hbm Cert.KernelIdeal.S32x32x128 EltTy.i32)
local notation "oV" => (Memref.whole Cert.KernelIdeal.main_v24_scv : Memref Cert.KernelIdeal.sig Kind.scVector Space.hbm Cert.KernelIdeal.S131072x128 EltTy.f32)
local notation "ivV" => (Memref.whole Cert.KernelIdeal.cc3_scratch0 : Memref Cert.KernelIdeal.sig Kind.scVector Space.vmem Cert.KernelIdeal.S32x128 EltTy.i32)
local notation "r0V" => (Memref.whole Cert.KernelIdeal.cc3_scratch1 : Memref Cert.KernelIdeal.sig Kind.scVector Space.vmem Cert.KernelIdeal.S128x128 EltTy.f32)
local notation "r1V" => (Memref.whole Cert.KernelIdeal.cc3_scratch2 : Memref Cert.KernelIdeal.sig Kind.scVector Space.vmem Cert.KernelIdeal.S128x128 EltTy.f32)
local notation "r2V" => (Memref.whole Cert.KernelIdeal.cc3_scratch3 : Memref Cert.KernelIdeal.sig Kind.scVector Space.vmem Cert.KernelIdeal.S128x128 EltTy.f32)
local notation "r3V" => (Memref.whole Cert.KernelIdeal.cc3_scratch4 : Memref Cert.KernelIdeal.sig Kind.scVector Space.vmem Cert.KernelIdeal.S128x128 EltTy.f32)
local notation "yAllK" => (Memref.slice (Memref.whole Cert.KernelIdeal.main_v1_scv : Memref Cert.KernelIdeal.sig Kind.scVector Space.hbm Cert.KernelIdeal.S8192x128 EltTy.f32) (Rect.unit (s := Cert.KernelIdeal.S8192x128) ![0, 0] Cert.KernelIdeal.S8192x128.size Cert.KernelIdeal.Facts₀.inb_S8192x128_S8192x128_0_0) (fun _ => rfl))

variable [FloatOps F]

/-! ## The gathered array, and a chunk held at it -/

omit [FloatOps F] in
/-- The output after the call as ONE function of y's contents and the index array's: row e is row idx[e] of y, the row
    number read modulo 8192 so that the function is total (every entry is below 8192 where it is used). -/
def gathF (d : Dev nD) (fy : Buf (Elt F) (yLoc d)) (fi : Buf (Elt F) (ixLoc1 d)) : Buf (Elt F) (oLoc1 d) :=
  fun i => fy (ValueIdx.ix2 (⟨(fi (srcIdx (i 0))).toNat % 8192, Nat.mod_lt _ (by decide)⟩ : Fin 8192) (i 1))

omit [FloatOps F] in
theorem gath1_eq (C : Conts F) (d : Dev nD) : gath1 C d = gathF d (C.y d) (C.ix1 d) := rfl

/-- The tile's four output chunks of trip t, each held at the one whole-array function G. -/
abbrev outTripG (d : Dev nD) (L : grid3.Coords) (G : Buf (Elt F) (oLoc1 d)) (t : Fin k3_t1_loop.trips) : sProp 𝕄 :=
  iprop(heldW d L (outK0 L t) fullShare G ∗ heldW d L (outK1 L t) fullShare G
    ∗ heldW d L (outK2 L t) fullShare G ∗ heldW d L (outK3 L t) fullShare G)

omit [FloatOps F] in
/-- The 32 chunks held at one function are the worker's 4096 rows held at it. -/
theorem out_joinG (d : Dev nD) (L : grid3.Coords) (G : Buf (Elt F) (oLoc1 d)) :
    bigSep Finset.univ (outTripG d L G) ⊢ (oLoc1 d ↦[(rowsRect (widL L)).set]{fullShare} G : sProp 𝕄) := by
  have step : ∀ t, outTripG d L G t ⊢ (oLoc1 d ↦[tripSet L t]{fullShare} G : sProp 𝕄) := by
    intro t
    iintro ⟨H0, H1, H2, H3⟩
    ihave K0 := (Entails.of_eq (pts_outK0 (F := F) d L t G)) $$ H0
    ihave K1 := (Entails.of_eq (pts_outK1 (F := F) d L t G)) $$ H1
    ihave K2 := (Entails.of_eq (pts_outK2 (F := F) d L t G)) $$ H2
    ihave K3 := (Entails.of_eq (pts_outK3 (F := F) d L t G)) $$ H3
    ihave H23 := (pointsTo_union (ℓ := oLoc1 d) (d23 L t)).2 $$ [K2 K3]
    · isplitl [K2]; · iexact K2
      iexact K3
    ihave H123 := (pointsTo_union (ℓ := oLoc1 d) (d1_23 L t)).2 $$ [K1 H23]
    · isplitl [K1]; · iexact K1
      iexact H23
    ihave H0123 := (pointsTo_union (ℓ := oLoc1 d) (d0_123 L t)).2 $$ [K0 H123]
    · isplitl [K0]; · iexact K0
      iexact H123
    iexact H0123
  rw [rows_cover]
  refine (bigSep_mono fun t _ => step t).trans ?_
  exact (Entails.of_eq (pointsTo_biUnion (ℓ := oLoc1 d) (q := fullShare) (f := G) Finset.univ (tripSet L) (fun t _ t' _ h => trip_disjoint L h)).symm)

/-! ## Reading a buffer written whole; a row buffer after its gather -/

omit [FloatOps F] in
/-- A buffer overwritten through a view by one whole-view piece agrees, on the view's elements, with any contents
    that read through the view as the piece. -/
theorem writes_whole_eq_on {κ : Kind} {sp : Space} {s : Shape} {e : EltTy} (v : View sig κ sp s e)
    (fo G : v.ty.Contents (Elt F)) (pay : s.Idx → Elt F e) (h : ∀ x, pay x = v.read (Elt F) G x) :
    ∀ i ∈ v.set, v.writes (Elt F) fo [⟨Rect.whole s, pay⟩] i = G i := by
  intro i hi
  have hi' : i ∈ Finset.univ.map v.emb := hi
  obtain ⟨x, -, rfl⟩ := Finset.mem_map.mp hi'
  have h1 := congrFun (View.read_writes_whole v fo pay) x
  rw [h x, View.read_apply, View.read_apply] at h1
  exact (cast_inj _).mp h1

/-- What the gather of the list at offsets `off` of the local index buffer delivers to a row buffer: at (r, f), y at
    (the row the list's word r names, f). -/
def rowBuf (d : Dev nD) (L : grid3.Coords) (fy : Buf (Elt F) ((yV).view.loc (thrV d L))) (fvc : Buf (Elt F) ((ivV).view.loc (thrV d L)))
    (hrowc : ∀ (off : Fin 2 → ℕ) (hk : ∀ a, off a + S1x128.size a ≤ S32x128.size a) (x : S128.Idx),
      (View.read (Elt F) (idxRowAt off hk).view fvc x).toNat < 8192)
    (off : Fin 2 → ℕ) (hk : ∀ a, off a + S1x128.size a ≤ S32x128.size a) : S128x128.Idx → Elt F .f32 :=
  SparseCore.gatherPayload Gen.gathers_S8192x128_S128x128 (View.read (Elt F) (yAllK).view fy)
    (SparseCore.rows (o := 128) (z := 8192) (View.read (Elt F) (idxRowAt off hk).view fvc) (by decide) (hrowc off hk))

/-- Row buffer rV holds the gather of list n. -/
def rbOK (d : Dev nD) (L : grid3.Coords) (fy : Buf (Elt F) ((yV).view.loc (thrV d L))) (fvc : Buf (Elt F) ((ivV).view.loc (thrV d L)))
    (hrowc : ∀ (off : Fin 2 → ℕ) (hk : ∀ a, off a + S1x128.size a ≤ S32x128.size a) (x : S128.Idx),
      (View.read (Elt F) (idxRowAt off hk).view fvc x).toNat < 8192)
    (rV : Memref sig .scVector .vmem S128x128 .f32) (n : ℕ) (hn : n < 32) (fr : Buf (Elt F) (rV.view.loc (thrV d L))) : Prop :=
  ∀ x, View.read (Elt F) rV.view fr x = rowBuf d L fy fvc hrowc ![n, 0] (rowsInb n hn) x

omit [FloatOps F] in
/-- A row buffer overwritten whole by the gather of the list at `off = (n, 0)` holds the gather of list n. -/
theorem rb_issue (d : Dev nD) (L : grid3.Coords) (fy : Buf (Elt F) ((yV).view.loc (thrV d L))) (fvc : Buf (Elt F) ((ivV).view.loc (thrV d L)))
    (hrowc : ∀ (off : Fin 2 → ℕ) (hk : ∀ a, off a + S1x128.size a ≤ S32x128.size a) (x : S128.Idx),
      (View.read (Elt F) (idxRowAt off hk).view fvc x).toNat < 8192)
    (rV : Memref sig .scVector .vmem S128x128 .f32) (fr0 : Buf (Elt F) (rV.view.loc (thrV d L)))
    (off : Fin 2 → ℕ) (hk : ∀ a, off a + S1x128.size a ≤ S32x128.size a) (n : ℕ) (hn : n < 32) (hoff : off = ![n, 0]) :
    rbOK d L fy fvc hrowc rV n hn (rV.view.writes (Elt F) fr0 [⟨Rect.whole S128x128, rowBuf d L fy fvc hrowc off hk⟩]) := by
  subst hoff
  intro x
  rw [View.read_writes_whole]

/-! ## The output chunks before trip k: those of the trips done are at the gathered array -/

/-- The tile's four output chunks of trip t before trip k: at some contents, which on the chunk are G's when t < k. -/
abbrev outTripV (d : Dev nD) (L : grid3.Coords) (G : Buf (Elt F) (oLoc1 d)) (k : ℕ) (t : Fin k3_t1_loop.trips) : sProp 𝕄 :=
  iprop((∃ f : Buf (Elt F) (oLoc1 d), ⌜t.val < k → ∀ i ∈ (outK0 L t).view.set, f i = G i⌝ ∗ heldW d L (outK0 L t) fullShare f)
    ∗ (∃ f : Buf (Elt F) (oLoc1 d), ⌜t.val < k → ∀ i ∈ (outK1 L t).view.set, f i = G i⌝ ∗ heldW d L (outK1 L t) fullShare f)
    ∗ (∃ f : Buf (Elt F) (oLoc1 d), ⌜t.val < k → ∀ i ∈ (outK2 L t).view.set, f i = G i⌝ ∗ heldW d L (outK2 L t) fullShare f)
    ∗ (∃ f : Buf (Elt F) (oLoc1 d), ⌜t.val < k → ∀ i ∈ (outK3 L t).view.set, f i = G i⌝ ∗ heldW d L (outK3 L t) fullShare f))

omit [FloatOps F] in
theorem outTripV_mono (d : Dev nD) (L : grid3.Coords) (G : Buf (Elt F) (oLoc1 d)) (k k' : ℕ) (t : Fin k3_t1_loop.trips)
    (h : t.val < k' → t.val < k) : outTripV d L G k t ⊢ outTripV d L G k' t := by
  iintro ⟨⟨%f0, %h0, H0⟩, ⟨%f1, %h1, H1⟩, ⟨%f2, %h2, H2⟩, ⟨%f3, %h3, H3⟩⟩
  isplitl [H0]
  · iexists f0; isplitr
    · ipureintro; exact fun hk => h0 (h hk)
    · iexact H0
  isplitl [H1]
  · iexists f1; isplitr
    · ipureintro; exact fun hk => h1 (h hk)
    · iexact H1
  isplitl [H2]
  · iexists f2; isplitr
    · ipureintro; exact fun hk => h2 (h hk)
    · iexact H2
  iexists f3; isplitr
  · ipureintro; exact fun hk => h3 (h hk)
  · iexact H3

omit [FloatOps F] in
/-- The chunks of the other trips, from before trip k to before trip k + 1. -/
theorem outs_step (d : Dev nD) (L : grid3.Coords) (G : Buf (Elt F) (oLoc1 d)) (k : Fin k3_t1_loop.trips) (k' : ℕ) (hk' : k' = k.val + 1) :
    bigSep (Finset.univ.erase k) (outTripV d L G k.val) ⊢ bigSep (Finset.univ.erase k) (outTripV d L G k') :=
  bigSep_mono fun t ht => outTripV_mono d L G _ _ t (fun h => by
    subst hk'
    have hne : t ≠ k := (Finset.mem_erase.mp ht).1
    have hv : t.val ≠ k.val := fun e => hne (Fin.ext e)
    omega)

omit [FloatOps F] in
/-- Before the first trip nothing is claimed of any chunk. -/
theorem outs_start (d : Dev nD) (L : grid3.Coords) (G : Buf (Elt F) (oLoc1 d)) :
    bigSep Finset.univ (outTrip d L) ⊢ bigSep Finset.univ (outTripV d L G 0) := by
  have step : ∀ t, outTrip d L t ⊢ outTripV d L G 0 t := by
    intro t
    iintro ⟨⟨%f0, H0⟩, ⟨%f1, H1⟩, ⟨%f2, H2⟩, ⟨%f3, H3⟩⟩
    isplitl [H0]
    · iexists f0; isplitr
      · ipureintro; exact fun hk => absurd hk (Nat.not_lt_zero _)
      · iexact H0
    isplitl [H1]
    · iexists f1; isplitr
      · ipureintro; exact fun hk => absurd hk (Nat.not_lt_zero _)
      · iexact H1
    isplitl [H2]
    · iexists f2; isplitr
      · ipureintro; exact fun hk => absurd hk (Nat.not_lt_zero _)
      · iexact H2
    iexists f3; isplitr
    · ipureintro; exact fun hk => absurd hk (Nat.not_lt_zero _)
    · iexact H3
  exact bigSep_mono fun t _ => step t

omit [FloatOps F] in
/-- After the last trip every chunk is at the gathered array. -/
theorem outs_end (d : Dev nD) (L : grid3.Coords) (G : Buf (Elt F) (oLoc1 d)) :
    bigSep Finset.univ (outTripV d L G 8) ⊢ bigSep Finset.univ (outTripG d L G) := by
  have step : ∀ t, outTripV d L G 8 t ⊢ outTripG d L G t := by
    intro t
    have ht : t.val < 8 := trips_eq ▸ t.isLt
    iintro ⟨⟨%f0, %h0, H0⟩, ⟨%f1, %h1, H1⟩, ⟨%f2, %h2, H2⟩, ⟨%f3, %h3, H3⟩⟩
    isplitl [H0]; · iapply (Entails.of_eq (pointsTo_congr (h0 ht))); iexact H0
    isplitl [H1]; · iapply (Entails.of_eq (pointsTo_congr (h1 ht))); iexact H1
    isplitl [H2]; · iapply (Entails.of_eq (pointsTo_congr (h2 ht))); iexact H2
    iapply (Entails.of_eq (pointsTo_congr (h3 ht))); iexact H3
  exact bigSep_mono fun t _ => step t

/-! ## What the loop holds before trip k, with contents -/

/-- Before trip k < 8: the four gathers of lists 4k … 4k + 3 in flight, every other list idle, the write semaphores at
    zero, the output chunks of the trips done at the gathered array,
    each gather's row buffer at the gather of its list. -/
def invAV (d : Dev nD) (L : grid3.Coords) (q : PosShare TreeShare) (O : CellTallies nD τ sig (HIx 4)) (W : Waits sig (HIx 4))
    (fy : Buf (Elt F) ((yV).view.loc (thrV d L))) (fvc : Buf (Elt F) ((ivV).view.loc (thrV d L)))
    (hrowc : ∀ (off : Fin 2 → ℕ) (hk : ∀ a, off a + S1x128.size a ≤ S32x128.size a) (x : S128.Idx),
      (View.read (Elt F) (idxRowAt off hk).view fvc x).toNat < 8192)
    (G : Buf (Elt F) (oLoc1 d)) (k : ℕ) (hk8 : k < 8) : sProp 𝕄 :=
  iprop(Transfers.MayWaits (thrV d L) (default : HIx 4) O
    ∗ (∃ W', ⌜∀ p ∈ W', p ∈ W ∨ p.2 = none⌝ ∗ owes (thrV d L) O W')
    ∗ (cellZ d L cc3_scratch9 ∗ cellZ d L cc3_scratch10 ∗ cellZ d L cc3_scratch11 ∗ cellZ d L cc3_scratch12)
    ∗ bigSep Finset.univ (outTripV d L G k)
    ∗ bigSep (idle k) (fun j => rowPts d L j fvc)
    ∗ ((∃ fr, ⌜rbOK d L fy fvc hrowc r0V (4 * k + 0) (by omega) fr⌝ ∗ gFlight d L q cc3_scratch5 26 r0V ![4 * k + 0, 0] (rowsInb _ (by omega)) fr fvc fy) ∗ yRest d L q 26 fy)
    ∗ ((∃ fr, ⌜rbOK d L fy fvc hrowc r1V (4 * k + 1) (by omega) fr⌝ ∗ gFlight d L q cc3_scratch6 27 r1V ![4 * k + 1, 0] (rowsInb _ (by omega)) fr fvc fy) ∗ yRest d L q 27 fy)
    ∗ ((∃ fr, ⌜rbOK d L fy fvc hrowc r2V (4 * k + 2) (by omega) fr⌝ ∗ gFlight d L q cc3_scratch7 28 r2V ![4 * k + 2, 0] (rowsInb _ (by omega)) fr fvc fy) ∗ yRest d L q 28 fy)
    ∗ ((∃ fr, ⌜rbOK d L fy fvc hrowc r3V (4 * k + 3) (by omega) fr⌝ ∗ gFlight d L q cc3_scratch8 29 r3V ![4 * k + 3, 0] (rowsInb _ (by omega)) fr fvc fy) ∗ yRest d L q 29 fy))

/-- After the last trip: nothing in flight; every list idle, the row buffers at some contents, every semaphore at
    zero, the four shares of y whole again, the 32 output chunks at the gathered array. -/
def invEndV (d : Dev nD) (L : grid3.Coords) (q : PosShare TreeShare) (O : CellTallies nD τ sig (HIx 4)) (W : Waits sig (HIx 4))
    (fy : Buf (Elt F) ((yV).view.loc (thrV d L))) (fvc : Buf (Elt F) ((ivV).view.loc (thrV d L)))
    (G : Buf (Elt F) (oLoc1 d)) : sProp 𝕄 :=
  iprop(Transfers.MayWaits (thrV d L) (default : HIx 4) O
    ∗ (∃ W', ⌜∀ p ∈ W', p ∈ W ∨ p.2 = none⌝ ∗ owes (thrV d L) O W')
    ∗ (cellZ d L cc3_scratch9 ∗ cellZ d L cc3_scratch10 ∗ cellZ d L cc3_scratch11 ∗ cellZ d L cc3_scratch12)
    ∗ bigSep Finset.univ (outTripV d L G 8)
    ∗ bigSep Finset.univ (fun j => rowPts d L j fvc)
    ∗ ((∃ fr, heldW d L r0V fullShare fr) ∗ cellZ d L cc3_scratch5 ∗ heldW d L yV (Transfers.shareTokN q 26) fy)
    ∗ ((∃ fr, heldW d L r1V fullShare fr) ∗ cellZ d L cc3_scratch6 ∗ heldW d L yV (Transfers.shareTokN q 27) fy)
    ∗ ((∃ fr, heldW d L r2V fullShare fr) ∗ cellZ d L cc3_scratch7 ∗ heldW d L yV (Transfers.shareTokN q 28) fy)
    ∗ ((∃ fr, heldW d L r3V fullShare fr) ∗ cellZ d L cc3_scratch8 ∗ heldW d L yV (Transfers.shareTokN q 29) fy))

/-! ## One trip -/

set_option maxHeartbeats 1000000 in
theorem gk_tripA_val (d : Dev nD) (L : grid3.Coords) (q : PosShare TreeShare) (O : CellTallies nD τ sig (HIx 4)) (W : Waits sig (HIx 4))
    (fy : Buf (Elt F) ((yV).view.loc (thrV d L))) (fvc : Buf (Elt F) ((ivV).view.loc (thrV d L)))
    (hrowc : ∀ (off : Fin 2 → ℕ) (hk : ∀ a, off a + S1x128.size a ≤ S32x128.size a) (x : S128.Idx),
      (View.read (Elt F) (idxRowAt off hk).view fvc x).toNat < 8192)
    (G : Buf (Elt F) (oLoc1 d))
    (hG0 : ∀ (t : Fin k3_t1_loop.trips) (ht : 4 * t.val + 0 < 32) (x : S128x128.Idx),
      View.read (Elt F) (outK0 L t).view G x = rowBuf d L fy fvc hrowc ![4 * t.val + 0, 0] (rowsInb _ ht) x)
    (hG1 : ∀ (t : Fin k3_t1_loop.trips) (ht : 4 * t.val + 1 < 32) (x : S128x128.Idx),
      View.read (Elt F) (outK1 L t).view G x = rowBuf d L fy fvc hrowc ![4 * t.val + 1, 0] (rowsInb _ ht) x)
    (hG2 : ∀ (t : Fin k3_t1_loop.trips) (ht : 4 * t.val + 2 < 32) (x : S128x128.Idx),
      View.read (Elt F) (outK2 L t).view G x = rowBuf d L fy fvc hrowc ![4 * t.val + 2, 0] (rowsInb _ ht) x)
    (hG3 : ∀ (t : Fin k3_t1_loop.trips) (ht : 4 * t.val + 3 < 32) (x : S128x128.Idx),
      View.read (Elt F) (outK3 L t).view G x = rowBuf d L fy fvc hrowc ![4 * t.val + 3, 0] (rowsInb _ ht) x)
    (v1 c0 c1 : BitVec 32) (k : Fin k3_t1_loop.trips) (hk : k.val < 7) (acc : Unit) :
    invAV d L q O W fy fvc hrowc G k.val (by omega)
      ⊢ wp frame (wpE (defs₀ (F := F)) 𝒱₀ (thrV d L) none) Set.univ
          (Gen.k3_t1_body L yV (Memref.isWhole_whole _) ixV (Memref.isWhole_whole _) oV (Memref.isWhole_whole _)
            ivV (Memref.isWhole_whole _) r0V (Memref.isWhole_whole _) r1V (Memref.isWhole_whole _)
            r2V (Memref.isWhole_whole _) r3V (Memref.isWhole_whole _)
            cc3_scratch5 cc3_scratch6 cc3_scratch7 cc3_scratch8 cc3_scratch9 cc3_scratch10 cc3_scratch11 cc3_scratch12 cc3_scoped0
            v1 c0 c1 k acc)
          fun _ => invAV d L q O W fy fvc hrowc G (k.val + 1) (by omega) := by
  obtain ⟨c1', c2', c3', c4', c5', c6', c7', c8'⟩ := conds k
  have hc1 : k3_cond1 k = 1#1 := c1'.mpr hk
  have hc2 : ¬ k3_cond2 k = 1#1 := fun h => (c2'.mp h) hk
  have hc3 : k3_cond3 k = 1#1 := c3'.mpr hk
  have hc4 : ¬ k3_cond4 k = 1#1 := fun h => (c4'.mp h) hk
  have hc5 : k3_cond5 k = 1#1 := c5'.mpr hk
  have hc6 : ¬ k3_cond6 k = 1#1 := fun h => (c6'.mp h) hk
  have hc7 : k3_cond7 k = 1#1 := c7'.mpr hk
  have hc8 : ¬ k3_cond8 k = 1#1 := fun h => (c8'.mp h) hk
  unfold invAV gFlight yRest
  iintro ⟨#Hmw, ⟨%W', %hW', HO⟩, ⟨HW0, HW1, HW2, HW3⟩, Hout, Hrows, ⟨⟨%fr0, %hfr0, HG0⟩, HY0⟩, ⟨⟨%fr1, %hfr1, HG1⟩, HY1⟩, ⟨⟨%fr2, %hfr2, HG2⟩, HY2⟩, ⟨⟨%fr3, %hfr3, HG3⟩, HY3⟩⟩
  -- the four output chunks of this trip
  ihave Hx := (Entails.of_eq (SparseCore.bigSep_erase' (i := k) (Finset.mem_univ _))) $$ Hout
  icases Hx with ⟨⟨⟨%fo0, %hfo0, HO0⟩, ⟨%fo1, %hfo1, HO1⟩, ⟨%fo2, %hfo2, HO2⟩, ⟨%fo3, %hfo3, HO3⟩⟩, Hout⟩
  ihave Hout := (outs_step (F := F) d L G k (k.val + 1) rfl) $$ Hout
  -- the four lists the trip's gathers will read
  ihave Hx := (Entails.of_eq (SparseCore.bigSep_erase' (i := (⟨4 * k.val + 4 + 0, by omega⟩ : Fin 32)) (mem_idle_next k.val hk 0 (by omega)))) $$ Hrows
  icases Hx with ⟨Hl0, Hrows⟩
  ihave Hx := (Entails.of_eq (SparseCore.bigSep_erase' (i := (⟨4 * k.val + 4 + 1, by omega⟩ : Fin 32))
    (Finset.mem_erase.mpr ⟨by simp [Fin.ext_iff], mem_idle_next k.val hk 1 (by omega)⟩))) $$ Hrows
  icases Hx with ⟨Hl1, Hrows⟩
  ihave Hx := (Entails.of_eq (SparseCore.bigSep_erase' (i := (⟨4 * k.val + 4 + 2, by omega⟩ : Fin 32))
    (Finset.mem_erase.mpr ⟨by simp [Fin.ext_iff], Finset.mem_erase.mpr ⟨by simp [Fin.ext_iff], mem_idle_next k.val hk 2 (by omega)⟩⟩))) $$ Hrows
  icases Hx with ⟨Hl2, Hrows⟩
  ihave Hx := (Entails.of_eq (SparseCore.bigSep_erase' (i := (⟨4 * k.val + 4 + 3, by omega⟩ : Fin 32))
    (Finset.mem_erase.mpr ⟨by simp [Fin.ext_iff], Finset.mem_erase.mpr ⟨by simp [Fin.ext_iff], Finset.mem_erase.mpr ⟨by simp [Fin.ext_iff], mem_idle_next k.val hk 3 (by omega)⟩⟩⟩))) $$ Hrows
  icases Hx with ⟨Hl3, Hrows⟩
  ihave Hl0' := (Entails.of_eq (rowPts_at (F := F) d L _ (k3_off5 k) (k3_off5_inb k hc1) (Gen.k3_off5_eq k) _)) $$ Hl0
  ihave Hl1' := (Entails.of_eq (rowPts_at (F := F) d L _ (k3_off8 k) (k3_off8_inb k hc3) (Gen.k3_off8_eq k) _)) $$ Hl1
  ihave Hl2' := (Entails.of_eq (rowPts_at (F := F) d L _ (k3_off11 k) (k3_off11_inb k hc5) (Gen.k3_off11_eq k) _)) $$ Hl2
  ihave Hl3' := (Entails.of_eq (rowPts_at (F := F) d L _ (k3_off14 k) (k3_off14_inb k hc7) (Gen.k3_off14_eq k) _)) $$ Hl3
  sl_unfold [Gen.k3_t1_body]
  sl_exec (disch := first | sl_exact hc1 | sl_exact hc2 | sl_exact hc3 | sl_exact hc4 | sl_exact hc5 | sl_exact hc6 | sl_exact hc7 | sl_exact hc8)
  sl_step
  isplitr; · iexact Hmw
  isplitl [HO]
  · iexists _; isplitr
    swap; · iexact HO
    ipureintro
    exact waits_ins (waits_ins (waits_ins (waits_ins (waits_ins (waits_ins (waits_ins (waits_ins hW' _) _) _) _) _) _) _) _
  isplitl [HW0 HW1 HW2 HW3]
  · isplitl [HW0]; · iexact HW0
    isplitl [HW1]; · iexact HW1
    isplitl [HW2]; · iexact HW2
    iexact HW3
  isplitl [Hout HO0 HO1 HO2 HO3]
  · iapply (Entails.of_eq (SparseCore.bigSep_erase' (i := k) (Finset.mem_univ _)).symm)
    isplitl [HO0 HO1 HO2 HO3]
    · isplitl [HO0]
      · iexists _; isplitr
        swap; · iexact HO0
        ipureintro
        exact fun _ => writes_whole_eq_on (outK0 L k).view fo0 G _ (fun x => (hfr0 x).trans (hG0 k (by omega) x).symm)
      isplitl [HO1]
      · iexists _; isplitr
        swap; · iexact HO1
        ipureintro
        exact fun _ => writes_whole_eq_on (outK1 L k).view fo1 G _ (fun x => (hfr1 x).trans (hG1 k (by omega) x).symm)
      isplitl [HO2]
      · iexists _; isplitr
        swap; · iexact HO2
        ipureintro
        exact fun _ => writes_whole_eq_on (outK2 L k).view fo2 G _ (fun x => (hfr2 x).trans (hG2 k (by omega) x).symm)
      iexists _; isplitr
      swap; · iexact HO3
      ipureintro
      exact fun _ => writes_whole_eq_on (outK3 L k).view fo3 G _ (fun x => (hfr3 x).trans (hG3 k (by omega) x).symm)
    iexact Hout
  isplitl [Hrows HG0_dst_and HG1_dst_and HG2_dst_and HG3_dst_and]
  · iapply (idle_step (F := F) k.val hk (fun j => rowPts d L j fvc) (by omega) (by omega) (by omega) (by omega) (by omega) (by omega) (by omega) (by omega))
    isplitl [Hrows]; · iexact Hrows
    isplitl [HG0_dst_and]; · iexact HG0_dst_and
    isplitl [HG1_dst_and]; · iexact HG1_dst_and
    isplitl [HG2_dst_and]; · iexact HG2_dst_and
    iexact HG3_dst_and
  isplitl [HG0 HY0]
  · isplitl [HG0]
    · iexists _; isplitr
      swap
      · iapply (Entails.of_eq (gFlight_off (F := F) d L q cc3_scratch5 26 r0V ((Gen.k3_off5_eq k).trans (by rw [show 4 * (k.val + 1) + 0 = 4 * k.val + 4 by omega])) (k3_off5_inb k hc1) _ _ fvc fy))
        iexact HG0
      ipureintro
      exact rb_issue d L fy fvc hrowc r0V fr0 (k3_off5 k) (k3_off5_inb k hc1) (4 * (k.val + 1) + 0) (by omega) ((Gen.k3_off5_eq k).trans (by rw [show 4 * (k.val + 1) + 0 = 4 * k.val + 4 by omega]))
    iexact HY0
  isplitl [HG1 HY1]
  · isplitl [HG1]
    · iexists _; isplitr
      swap
      · iapply (Entails.of_eq (gFlight_off (F := F) d L q cc3_scratch6 27 r1V ((Gen.k3_off8_eq k).trans (by rw [show 4 * (k.val + 1) + 1 = 4 * k.val + 5 by omega])) (k3_off8_inb k hc3) _ _ fvc fy))
        iexact HG1
      ipureintro
      exact rb_issue d L fy fvc hrowc r1V fr1 (k3_off8 k) (k3_off8_inb k hc3) (4 * (k.val + 1) + 1) (by omega) ((Gen.k3_off8_eq k).trans (by rw [show 4 * (k.val + 1) + 1 = 4 * k.val + 5 by omega]))
    iexact HY1
  isplitl [HG2 HY2]
  · isplitl [HG2]
    · iexists _; isplitr
      swap
      · iapply (Entails.of_eq (gFlight_off (F := F) d L q cc3_scratch7 28 r2V ((Gen.k3_off11_eq k).trans (by rw [show 4 * (k.val + 1) + 2 = 4 * k.val + 6 by omega])) (k3_off11_inb k hc5) _ _ fvc fy))
        iexact HG2
      ipureintro
      exact rb_issue d L fy fvc hrowc r2V fr2 (k3_off11 k) (k3_off11_inb k hc5) (4 * (k.val + 1) + 2) (by omega) ((Gen.k3_off11_eq k).trans (by rw [show 4 * (k.val + 1) + 2 = 4 * k.val + 6 by omega]))
    iexact HY2
  isplitl [HG3]
  · iexists _; isplitr
    swap
    · iapply (Entails.of_eq (gFlight_off (F := F) d L q cc3_scratch8 29 r3V ((Gen.k3_off14_eq k).trans (by rw [show 4 * (k.val + 1) + 3 = 4 * k.val + 7 by omega])) (k3_off14_inb k hc7) _ _ fvc fy))
      iexact HG3
    ipureintro
    exact rb_issue d L fy fvc hrowc r3V fr3 (k3_off14 k) (k3_off14_inb k hc7) (4 * (k.val + 1) + 3) (by omega) ((Gen.k3_off14_eq k).trans (by rw [show 4 * (k.val + 1) + 3 = 4 * k.val + 7 by omega]))
  iexact HY3

set_option maxHeartbeats 1000000 in
theorem gk_tripB_val (d : Dev nD) (L : grid3.Coords) (q : PosShare TreeShare) (O : CellTallies nD τ sig (HIx 4)) (W : Waits sig (HIx 4))
    (fy : Buf (Elt F) ((yV).view.loc (thrV d L))) (fvc : Buf (Elt F) ((ivV).view.loc (thrV d L)))
    (hrowc : ∀ (off : Fin 2 → ℕ) (hk : ∀ a, off a + S1x128.size a ≤ S32x128.size a) (x : S128.Idx),
      (View.read (Elt F) (idxRowAt off hk).view fvc x).toNat < 8192)
    (G : Buf (Elt F) (oLoc1 d))
    (hG0 : ∀ (t : Fin k3_t1_loop.trips) (ht : 4 * t.val + 0 < 32) (x : S128x128.Idx),
      View.read (Elt F) (outK0 L t).view G x = rowBuf d L fy fvc hrowc ![4 * t.val + 0, 0] (rowsInb _ ht) x)
    (hG1 : ∀ (t : Fin k3_t1_loop.trips) (ht : 4 * t.val + 1 < 32) (x : S128x128.Idx),
      View.read (Elt F) (outK1 L t).view G x = rowBuf d L fy fvc hrowc ![4 * t.val + 1, 0] (rowsInb _ ht) x)
    (hG2 : ∀ (t : Fin k3_t1_loop.trips) (ht : 4 * t.val + 2 < 32) (x : S128x128.Idx),
      View.read (Elt F) (outK2 L t).view G x = rowBuf d L fy fvc hrowc ![4 * t.val + 2, 0] (rowsInb _ ht) x)
    (hG3 : ∀ (t : Fin k3_t1_loop.trips) (ht : 4 * t.val + 3 < 32) (x : S128x128.Idx),
      View.read (Elt F) (outK3 L t).view G x = rowBuf d L fy fvc hrowc ![4 * t.val + 3, 0] (rowsInb _ ht) x)
    (v1 c0 c1 : BitVec 32) (k : Fin k3_t1_loop.trips) (hk : k.val = 7) (acc : Unit) :
    invAV d L q O W fy fvc hrowc G k.val (by omega)
      ⊢ wp frame (wpE (defs₀ (F := F)) 𝒱₀ (thrV d L) none) Set.univ
          (Gen.k3_t1_body L yV (Memref.isWhole_whole _) ixV (Memref.isWhole_whole _) oV (Memref.isWhole_whole _)
            ivV (Memref.isWhole_whole _) r0V (Memref.isWhole_whole _) r1V (Memref.isWhole_whole _)
            r2V (Memref.isWhole_whole _) r3V (Memref.isWhole_whole _)
            cc3_scratch5 cc3_scratch6 cc3_scratch7 cc3_scratch8 cc3_scratch9 cc3_scratch10 cc3_scratch11 cc3_scratch12 cc3_scoped0
            v1 c0 c1 k acc)
          fun _ => invEndV d L q O W fy fvc G := by
  obtain ⟨c1', c2', c3', c4', c5', c6', c7', c8'⟩ := conds k
  have hn : ¬ k.val < 7 := by omega
  have hc1 : ¬ k3_cond1 k = 1#1 := fun h => hn (c1'.mp h)
  have hc2 : k3_cond2 k = 1#1 := c2'.mpr hn
  have hc3 : ¬ k3_cond3 k = 1#1 := fun h => hn (c3'.mp h)
  have hc4 : k3_cond4 k = 1#1 := c4'.mpr hn
  have hc5 : ¬ k3_cond5 k = 1#1 := fun h => hn (c5'.mp h)
  have hc6 : k3_cond6 k = 1#1 := c6'.mpr hn
  have hc7 : ¬ k3_cond7 k = 1#1 := fun h => hn (c7'.mp h)
  have hc8 : k3_cond8 k = 1#1 := c8'.mpr hn
  unfold invAV invEndV gFlight yRest
  iintro ⟨#Hmw, ⟨%W', %hW', HO⟩, ⟨HW0, HW1, HW2, HW3⟩, Hout, Hrows, ⟨⟨%fr0, %hfr0, HG0⟩, HY0⟩, ⟨⟨%fr1, %hfr1, HG1⟩, HY1⟩, ⟨⟨%fr2, %hfr2, HG2⟩, HY2⟩, ⟨⟨%fr3, %hfr3, HG3⟩, HY3⟩⟩
  ihave Hx := (Entails.of_eq (SparseCore.bigSep_erase' (i := k) (Finset.mem_univ _))) $$ Hout
  icases Hx with ⟨⟨⟨%fo0, %hfo0, HO0⟩, ⟨%fo1, %hfo1, HO1⟩, ⟨%fo2, %hfo2, HO2⟩, ⟨%fo3, %hfo3, HO3⟩⟩, Hout⟩
  ihave Hout := (outs_step (F := F) d L G k 8 (by omega)) $$ Hout
  sl_unfold [Gen.k3_t1_body]
  sl_exec (disch := first | sl_exact hc1 | sl_exact hc2 | sl_exact hc3 | sl_exact hc4 | sl_exact hc5 | sl_exact hc6 | sl_exact hc7 | sl_exact hc8)
  sl_step
  isplitr; · iexact Hmw
  isplitl [HO]
  · iexists _; isplitr
    swap; · iexact HO
    ipureintro
    exact waits_ins (waits_ins (waits_ins (waits_ins (waits_ins (waits_ins (waits_ins (waits_ins hW' _) _) _) _) _) _) _) _
  isplitl [HW0 HW1 HW2 HW3]
  · isplitl [HW0]; · iexact HW0
    isplitl [HW1]; · iexact HW1
    isplitl [HW2]; · iexact HW2
    iexact HW3
  isplitl [Hout HO0 HO1 HO2 HO3]
  · iapply (Entails.of_eq (SparseCore.bigSep_erase' (i := k) (Finset.mem_univ _)).symm)
    isplitl [HO0 HO1 HO2 HO3]
    · isplitl [HO0]
      · iexists _; isplitr
        swap; · iexact HO0
        ipureintro
        exact fun _ => writes_whole_eq_on (outK0 L k).view fo0 G _ (fun x => (hfr0 x).trans (hG0 k (by omega) x).symm)
      isplitl [HO1]
      · iexists _; isplitr
        swap; · iexact HO1
        ipureintro
        exact fun _ => writes_whole_eq_on (outK1 L k).view fo1 G _ (fun x => (hfr1 x).trans (hG1 k (by omega) x).symm)
      isplitl [HO2]
      · iexists _; isplitr
        swap; · iexact HO2
        ipureintro
        exact fun _ => writes_whole_eq_on (outK2 L k).view fo2 G _ (fun x => (hfr2 x).trans (hG2 k (by omega) x).symm)
      iexists _; isplitr
      swap; · iexact HO3
      ipureintro
      exact fun _ => writes_whole_eq_on (outK3 L k).view fo3 G _ (fun x => (hfr3 x).trans (hG3 k (by omega) x).symm)
    iexact Hout
  isplitl [Hrows HG0_dst_and HG1_dst_and HG2_dst_and HG3_dst_and]
  · iapply (idle_last (F := F) k.val hk (fun j => rowPts d L j fvc) (by omega) (by omega) (by omega) (by omega))
    isplitl [Hrows]; · iexact Hrows
    isplitl [HG0_dst_and]; · iexact HG0_dst_and
    isplitl [HG1_dst_and]; · iexact HG1_dst_and
    isplitl [HG2_dst_and]; · iexact HG2_dst_and
    iexact HG3_dst_and
  isplitl [HG0_dst HG0 HY0]
  · isplitl [HG0_dst]; · iexists _; iexact HG0_dst
    isplitl [HG0]; · iexact HG0
    iexact HY0
  isplitl [HG1_dst HG1 HY1]
  · isplitl [HG1_dst]; · iexists _; iexact HG1_dst
    isplitl [HG1]; · iexact HG1
    iexact HY1
  isplitl [HG2_dst HG2 HY2]
  · isplitl [HG2_dst]; · iexists _; iexact HG2_dst
    isplitl [HG2]; · iexact HG2
    iexact HY2
  isplitl [HG3_dst]; · iexists _; iexact HG3_dst
  isplitl [HG3]; · iexact HG3
  iexact HY3

/-! ## The loop's invariant with contents, and the whole body -/

/-- What the loop holds before trip k: the gathers of trip k in flight while there is a trip k, nothing after; the
    chunks of the trips done at the gathered array. -/
def invV (d : Dev nD) (L : grid3.Coords) (q : PosShare TreeShare) (O : CellTallies nD τ sig (HIx 4)) (W : Waits sig (HIx 4))
    (fy : Buf (Elt F) ((yV).view.loc (thrV d L))) (fvc : Buf (Elt F) ((ivV).view.loc (thrV d L)))
    (hrowc : ∀ (off : Fin 2 → ℕ) (hk : ∀ a, off a + S1x128.size a ≤ S32x128.size a) (x : S128.Idx),
      (View.read (Elt F) (idxRowAt off hk).view fvc x).toNat < 8192)
    (G : Buf (Elt F) (oLoc1 d)) (k : ℕ) : Unit → sProp 𝕄 :=
  fun _ => if h : k < 8 then invAV d L q O W fy fvc hrowc G k h else invEndV d L q O W fy fvc G

theorem invV_lt (d : Dev nD) (L : grid3.Coords) (q : PosShare TreeShare) (O : CellTallies nD τ sig (HIx 4)) (W : Waits sig (HIx 4))
    (fy : Buf (Elt F) ((yV).view.loc (thrV d L))) (fvc : Buf (Elt F) ((ivV).view.loc (thrV d L)))
    (hrowc : ∀ (off : Fin 2 → ℕ) (hk : ∀ a, off a + S1x128.size a ≤ S32x128.size a) (x : S128.Idx),
      (View.read (Elt F) (idxRowAt off hk).view fvc x).toNat < 8192)
    (G : Buf (Elt F) (oLoc1 d)) (k : ℕ) (h : k < 8) :
    invV d L q O W fy fvc hrowc G k = fun _ => invAV d L q O W fy fvc hrowc G k h := by
  funext _; exact dif_pos h

theorem invV_ge (d : Dev nD) (L : grid3.Coords) (q : PosShare TreeShare) (O : CellTallies nD τ sig (HIx 4)) (W : Waits sig (HIx 4))
    (fy : Buf (Elt F) ((yV).view.loc (thrV d L))) (fvc : Buf (Elt F) ((ivV).view.loc (thrV d L)))
    (hrowc : ∀ (off : Fin 2 → ℕ) (hk : ∀ a, off a + S1x128.size a ≤ S32x128.size a) (x : S128.Idx),
      (View.read (Elt F) (idxRowAt off hk).view fvc x).toNat < 8192)
    (G : Buf (Elt F) (oLoc1 d)) (k : ℕ) (h : ¬ k < 8) :
    invV d L q O W fy fvc hrowc G k = fun _ => invEndV d L q O W fy fvc G := by
  funext _; exact dif_neg h

theorem invV_end (d : Dev nD) (L : grid3.Coords) (q : PosShare TreeShare) (O : CellTallies nD τ sig (HIx 4)) (W : Waits sig (HIx 4))
    (fy : Buf (Elt F) ((yV).view.loc (thrV d L))) (fvc : Buf (Elt F) ((ivV).view.loc (thrV d L)))
    (hrowc : ∀ (off : Fin 2 → ℕ) (hk : ∀ a, off a + S1x128.size a ≤ S32x128.size a) (x : S128.Idx),
      (View.read (Elt F) (idxRowAt off hk).view fvc x).toNat < 8192)
    (G : Buf (Elt F) (oLoc1 d)) :
    invV d L q O W fy fvc hrowc G (Scf.trips k3_t1_loop.lb k3_t1_loop.ub k3_t1_loop.st) = fun _ => invEndV d L q O W fy fvc G :=
  invV_ge d L q O W fy fvc hrowc G _ (by decide)

/-! ## The index equation of one chunk: the pieces, and the equation for any slot -/

omit [FloatOps F] in
/-- The local index buffer overwritten whole holds the payload, element by element. -/
theorem iv_written (d : Dev nD) (L : grid3.Coords) (g : Buf (Elt F) ((ivV).view.loc (thrV d L))) (pay : S32x128.Idx → Elt F .i32)
    (i : S32x128.Idx) : ((ivV).view.writes (Elt F) g [⟨Rect.whole cc3_scratch0.ty.shape, pay⟩]) i = pay i :=
  congrFun (View.read_writes_whole (ivV).view g pay) i

omit [FloatOps F] in
/-- Entry (a, b) of the tile's slab is entry (w, a, b) of the index array, w = 2·L₁ + L₀. -/
theorem slab_read (d : Dev nD) (L : grid3.Coords) (fi : Buf (Elt F) ((slabK L).view.loc (thrV d L))) (a : Fin 32) (b : Fin 128) :
    (slabK L).view.read (Elt F) fi (ValueIdx.ix2 a b)
      = fi (ValueIdx.ix3 (⟨2 * (L 1).val + (L 0).val, by have := L0_lt L; have := L1_lt L; omega⟩ : Fin 32) a b) := by
  rw [View.read_apply]
  show fi _ = fi _
  refine congrArg fi ?_
  have hre : Shape.reshapeEquiv (s := (Rect.unit (s := S32x32x128) (k3_off1 L) S1x32x128.size (k3_off1_inb L)).shape) (s' := S32x128)
      squeezes_S1x32x128_S32x128.numel_eq (ValueIdx.ix2 a b) = ValueIdx.ix3 (0 : Fin 1) a b :=
    Shape.reshapeEquiv_eq_of_rowMajor _ (by
      rw [Shape.rowMajor_val_three, Shape.rowMajor_val_two]
      show (0 * 32 + a.val) * 128 + b.val = a.val * 128 + b.val
      omega)
  show (Rect.unit (s := S32x32x128) (k3_off1 L) S1x32x128.size (k3_off1_inb L)).emb (Shape.reshapeEquiv _ (ValueIdx.ix2 a b)) = _
  rw [hre]
  have hoff := Gen.k3_off1_eq L
  funext c
  apply Fin.ext
  match c with
  | ⟨0, _⟩ => show k3_off1 L 0 + 1 * 0 = 2 * (L 1).val + (L 0).val; rw [hoff]; rfl
  | ⟨1, _⟩ => show k3_off1 L 1 + 1 * a.val = a.val; rw [hoff]; show 0 + 1 * a.val = a.val; omega
  | ⟨2, _⟩ => show k3_off1 L 2 + 1 * b.val = b.val; rw [hoff]; show 0 + 1 * b.val = b.val; omega

omit [FloatOps F] in
/-- Word p of list n of the local index buffer is the buffer's entry (n, p). -/
theorem list_read (d : Dev nD) (L : grid3.Coords) (fvc : Buf (Elt F) ((ivV).view.loc (thrV d L))) (n : ℕ) (hn : n < 32)
    (u : S128.Idx) (p : Fin 128) (hu : (u 0).val = p.val) :
    View.read (Elt F) (idxRowAt ![n, 0] (rowsInb n hn)).view fvc u = fvc (ValueIdx.ix2 (⟨n, hn⟩ : Fin 32) p) := by
  rw [View.read_apply]
  show fvc _ = fvc _
  refine congrArg fvc ?_
  have hre : Shape.reshapeEquiv (s := (Rect.unit (s := S32x128) ![n, 0] S1x128.size (rowsInb n hn)).shape) (s' := S128)
      squeezes_S1x128_S128.numel_eq u = ValueIdx.ix2 (0 : Fin 1) p :=
    Shape.reshapeEquiv_eq_of_rowMajor _ (by
      rw [Shape.rowMajor_val_two, Shape.rowMajor_val_one]
      show 0 * 128 + p.val = (u 0).val
      omega)
  show (Rect.unit (s := S32x128) ![n, 0] S1x128.size (rowsInb n hn)).emb (Shape.reshapeEquiv _ u) = _
  rw [hre]
  funext c
  apply Fin.ext
  match c with
  | ⟨0, _⟩ => show n + 1 * 0 = n; omega
  | ⟨1, _⟩ => show 0 + 1 * p.val = p.val; omega

omit [FloatOps F] in
/-- The index entry an output row reads, from the row's decomposition 4096·w + 128·n + p. -/
theorem srcIdx_of_val (e : Fin 131072) (w n : Fin 32) (p : Fin 128) (h : e.val = 4096 * w.val + 128 * n.val + p.val) :
    srcIdx e = ValueIdx.ix3 w n p := by
  have := w.isLt
  have := n.isLt
  have := p.isLt
  unfold srcIdx
  funext c
  apply Fin.ext
  match c with
  | ⟨0, _⟩ => show e.val / 4096 = w.val; omega
  | ⟨1, _⟩ => show e.val % 4096 / 128 = n.val; omega
  | ⟨2, _⟩ => show e.val % 128 = p.val; omega

set_option maxHeartbeats 4000000 in
omit [FloatOps F] in
/-- Chunk 4t + r of the tile's output rows, read off the gathered array, is the gather of list 4t + r of the local index
    buffer once that buffer holds the tile's slab: output row 4096·w + 128·(4t + r) + i reads index entry (w, 4t + r, i). -/
theorem gath_chunk_gen (d : Dev nD) (L : grid3.Coords) (fy : Buf (Elt F) ((yV).view.loc (thrV d L)))
    (fi : Buf (Elt F) ((slabK L).view.loc (thrV d L))) (hin : ∀ x, ((slabK L).view.read (Elt F) fi x).toNat < 8192)
    (g : Buf (Elt F) ((ivV).view.loc (thrV d L))) (pay : S32x128.Idx → Elt F .i32) (hpay : pay = (slabK L).view.read (Elt F) fi)
    (hrowc : ∀ (off : Fin 2 → ℕ) (hk : ∀ a, off a + S1x128.size a ≤ S32x128.size a) (x : S128.Idx),
      (View.read (Elt F) (idxRowAt off hk).view ((ivV).view.writes (Elt F) g [⟨Rect.whole cc3_scratch0.ty.shape, pay⟩]) x).toNat < 8192)
    (t : Fin k3_t1_loop.trips) (r : Fin 4) (ht : 4 * t.val + r.val < 32) (x : S128x128.Idx) :
    View.read (Elt F) ((oV).slice (Rect.unit (s := S131072x128) (k3_off3 L t (BitVec.ofNat 32 r.val)) S128x128.size (k3_off3_inb L t r)) (fun _ => rfl)).view (gathF d fy fi) x
      = rowBuf d L fy ((ivV).view.writes (Elt F) g [⟨Rect.whole cc3_scratch0.ty.shape, pay⟩]) hrowc ![4 * t.val + r.val, 0] (rowsInb _ ht) x := by
  have hL0 := L0_lt L
  have hL1 := L1_lt L
  obtain ⟨p, q, rfl⟩ : ∃ (p : Fin 128) (q : Fin 128), x = ValueIdx.ix2 p q := ⟨x 0, x 1, ValueIdx.eq_ix2 x⟩
  have hp := p.isLt
  have hoff := Gen.k3_off3_eq L t r
  have hr := r.isLt
  subst hpay
  -- the list word both sides read, and its bound
  have hw := hin (ValueIdx.ix2 (⟨4 * t.val + r.val, ht⟩ : Fin 32) p)
  rw [slab_read d L fi] at hw
  unfold rowBuf SparseCore.gatherPayload gathF
  rw [View.read_apply, View.read_apply]
  show fy _ = fy _
  refine congrArg fy (funext fun a => Fin.ext ?_)
  match a with
  | ⟨0, _⟩ =>
    show (fi (srcIdx _)).toNat % 8192 = 0 + 1 * (Shape.Gathers.idx Gen.gathers_S8192x128_S128x128 _ (ValueIdx.ix2 p q) Gen.gathers_S8192x128_S128x128.axis).val
    refine Eq.trans ?_ (congrArg (fun z : Fin (S8192x128.size Gen.gathers_S8192x128_S128x128.axis) => 0 + 1 * z.val)
      (Shape.Gathers.idx_axis Gen.gathers_S8192x128_S128x128 _ (ValueIdx.ix2 p q)).symm)
    show (fi (srcIdx _)).toNat % 8192 = 0 + 1 * (View.read (Elt F) (idxRowAt ![4 * t.val + r.val, 0] (rowsInb _ ht)).view _ _).toNat
    rw [list_read d L _ (4 * t.val + r.val) ht _ p (by
          show ((S128.rowMajor.symm (Fin.cast _ p)) 0).val = p.val
          rw [← Shape.rowMajor_val_one, Equiv.apply_symm_apply]
          rfl),
      iv_written d L, slab_read d L fi]
    have key : ∀ e : Fin 131072, e.val = 4096 * (2 * (L 1).val + (L 0).val) + 128 * (4 * t.val + r.val) + p.val →
        (fi (srcIdx e)).toNat % 8192
          = 0 + 1 * (fi (ValueIdx.ix3 (⟨2 * (L 1).val + (L 0).val, by omega⟩ : Fin 32) (⟨4 * t.val + r.val, ht⟩ : Fin 32) p)).toNat := by
      intro e he
      rw [srcIdx_of_val e (⟨2 * (L 1).val + (L 0).val, by omega⟩ : Fin 32) (⟨4 * t.val + r.val, ht⟩ : Fin 32) p he, Nat.mod_eq_of_lt hw]
      omega
    exact key _ (by
      show k3_off3 L t (BitVec.ofNat 32 r.val) 0 + 1 * p.val = _
      rw [hoff]
      show (8192 * (L 1).val + 4096 * (L 0).val + 512 * t.val + 128 * r.val) + 1 * p.val = _
      omega)
  | ⟨1, _⟩ =>
    have h2 : (k3_off3 L t (BitVec.ofNat 32 r.val)) 1 = 0 := by rw [hoff]; rfl
    show (k3_off3 L t (BitVec.ofNat 32 r.val)) 1 + 1 * q.val = 0 + 1 * (Shape.Gathers.idx Gen.gathers_S8192x128_S128x128 _ (ValueIdx.ix2 p q) 1).val
    rw [h2]
    exact congrArg (fun z => 0 + 1 * z) (Shape.Gathers.idx_of_ne Gen.gathers_S8192x128_S128x128 _ (ValueIdx.ix2 p q) 1 (by decide)).symm

/-! ## The index equation of one chunk, slot by slot -/

omit [FloatOps F] in
theorem gath_chunk0 (d : Dev nD) (L : grid3.Coords) (fy : Buf (Elt F) ((yV).view.loc (thrV d L)))
    (fi : Buf (Elt F) ((slabK L).view.loc (thrV d L))) (hin : ∀ x, ((slabK L).view.read (Elt F) fi x).toNat < 8192)
    (g : Buf (Elt F) ((ivV).view.loc (thrV d L))) (pay : S32x128.Idx → Elt F .i32) (hpay : pay = (slabK L).view.read (Elt F) fi)
    (hrowc : ∀ (off : Fin 2 → ℕ) (hk : ∀ a, off a + S1x128.size a ≤ S32x128.size a) (x : S128.Idx),
      (View.read (Elt F) (idxRowAt off hk).view ((ivV).view.writes (Elt F) g [⟨Rect.whole cc3_scratch0.ty.shape, pay⟩]) x).toNat < 8192)
    (t : Fin k3_t1_loop.trips) (ht : 4 * t.val + 0 < 32) (x : S128x128.Idx) :
    View.read (Elt F) (outK0 L t).view (gathF d fy fi) x
      = rowBuf d L fy ((ivV).view.writes (Elt F) g [⟨Rect.whole cc3_scratch0.ty.shape, pay⟩]) hrowc ![4 * t.val + 0, 0] (rowsInb _ ht) x := by
  exact gath_chunk_gen d L fy fi hin g pay hpay hrowc t 0 ht x

omit [FloatOps F] in
theorem gath_chunk1 (d : Dev nD) (L : grid3.Coords) (fy : Buf (Elt F) ((yV).view.loc (thrV d L)))
    (fi : Buf (Elt F) ((slabK L).view.loc (thrV d L))) (hin : ∀ x, ((slabK L).view.read (Elt F) fi x).toNat < 8192)
    (g : Buf (Elt F) ((ivV).view.loc (thrV d L))) (pay : S32x128.Idx → Elt F .i32) (hpay : pay = (slabK L).view.read (Elt F) fi)
    (hrowc : ∀ (off : Fin 2 → ℕ) (hk : ∀ a, off a + S1x128.size a ≤ S32x128.size a) (x : S128.Idx),
      (View.read (Elt F) (idxRowAt off hk).view ((ivV).view.writes (Elt F) g [⟨Rect.whole cc3_scratch0.ty.shape, pay⟩]) x).toNat < 8192)
    (t : Fin k3_t1_loop.trips) (ht : 4 * t.val + 1 < 32) (x : S128x128.Idx) :
    View.read (Elt F) (outK1 L t).view (gathF d fy fi) x
      = rowBuf d L fy ((ivV).view.writes (Elt F) g [⟨Rect.whole cc3_scratch0.ty.shape, pay⟩]) hrowc ![4 * t.val + 1, 0] (rowsInb _ ht) x := by
  exact gath_chunk_gen d L fy fi hin g pay hpay hrowc t 1 ht x

omit [FloatOps F] in
theorem gath_chunk2 (d : Dev nD) (L : grid3.Coords) (fy : Buf (Elt F) ((yV).view.loc (thrV d L)))
    (fi : Buf (Elt F) ((slabK L).view.loc (thrV d L))) (hin : ∀ x, ((slabK L).view.read (Elt F) fi x).toNat < 8192)
    (g : Buf (Elt F) ((ivV).view.loc (thrV d L))) (pay : S32x128.Idx → Elt F .i32) (hpay : pay = (slabK L).view.read (Elt F) fi)
    (hrowc : ∀ (off : Fin 2 → ℕ) (hk : ∀ a, off a + S1x128.size a ≤ S32x128.size a) (x : S128.Idx),
      (View.read (Elt F) (idxRowAt off hk).view ((ivV).view.writes (Elt F) g [⟨Rect.whole cc3_scratch0.ty.shape, pay⟩]) x).toNat < 8192)
    (t : Fin k3_t1_loop.trips) (ht : 4 * t.val + 2 < 32) (x : S128x128.Idx) :
    View.read (Elt F) (outK2 L t).view (gathF d fy fi) x
      = rowBuf d L fy ((ivV).view.writes (Elt F) g [⟨Rect.whole cc3_scratch0.ty.shape, pay⟩]) hrowc ![4 * t.val + 2, 0] (rowsInb _ ht) x := by
  exact gath_chunk_gen d L fy fi hin g pay hpay hrowc t 2 ht x

omit [FloatOps F] in
theorem gath_chunk3 (d : Dev nD) (L : grid3.Coords) (fy : Buf (Elt F) ((yV).view.loc (thrV d L)))
    (fi : Buf (Elt F) ((slabK L).view.loc (thrV d L))) (hin : ∀ x, ((slabK L).view.read (Elt F) fi x).toNat < 8192)
    (g : Buf (Elt F) ((ivV).view.loc (thrV d L))) (pay : S32x128.Idx → Elt F .i32) (hpay : pay = (slabK L).view.read (Elt F) fi)
    (hrowc : ∀ (off : Fin 2 → ℕ) (hk : ∀ a, off a + S1x128.size a ≤ S32x128.size a) (x : S128.Idx),
      (View.read (Elt F) (idxRowAt off hk).view ((ivV).view.writes (Elt F) g [⟨Rect.whole cc3_scratch0.ty.shape, pay⟩]) x).toNat < 8192)
    (t : Fin k3_t1_loop.trips) (ht : 4 * t.val + 3 < 32) (x : S128x128.Idx) :
    View.read (Elt F) (outK3 L t).view (gathF d fy fi) x
      = rowBuf d L fy ((ivV).view.writes (Elt F) g [⟨Rect.whole cc3_scratch0.ty.shape, pay⟩]) hrowc ![4 * t.val + 3, 0] (rowsInb _ ht) x := by
  exact gath_chunk_gen d L fy fi hin g pay hpay hrowc t 3 ht x

/-! ## The body from the tile's own spellings, with contents -/

set_option maxHeartbeats 4000000 in
/-- The body on tile (L 0, L 1) of device d, from the tile's own spellings of what it holds: four read shares of y, its
    slab of the index array with every word a row number of y, its 32 output chunks, its local index buffer, its four
    row buffers, its nine semaphores at zero. It ends with the same, the output chunks at the gathered array, the local
    buffers at some contents. -/
theorem gk_core_val (d : Dev nD) (L : grid3.Coords) (q : PosShare TreeShare)
    (O : CellTallies nD τ sig (HIx 4)) (W : Waits sig (HIx 4))
    (fy : Buf (Elt F) ((yV).view.loc (thrV d L))) (fi : Buf (Elt F) ((slabK L).view.loc (thrV d L)))
    (fv : Buf (Elt F) ((ivV).view.loc (thrV d L)))
    (f0 : Buf (Elt F) ((r0V).view.loc (thrV d L))) (f1 : Buf (Elt F) ((r1V).view.loc (thrV d L)))
    (f2 : Buf (Elt F) ((r2V).view.loc (thrV d L))) (f3 : Buf (Elt F) ((r3V).view.loc (thrV d L)))
    (hin : ∀ x, ((slabK L).view.read (Elt F) fi x).toNat < 8192) :
    (iprop(Transfers.MayWaits (thrV d L) (default : HIx 4) O
        ∗ heldW d L yV (Transfers.shareTokN q 26) fy ∗ heldW d L yV (Transfers.shareTokN q 27) fy
        ∗ heldW d L yV (Transfers.shareTokN q 28) fy ∗ heldW d L yV (Transfers.shareTokN q 29) fy
        ∗ heldW d L (slabK L) fullShare fi
        ∗ heldW d L ivV fullShare fv
        ∗ heldW d L r0V fullShare f0 ∗ heldW d L r1V fullShare f1 ∗ heldW d L r2V fullShare f2 ∗ heldW d L r3V fullShare f3
        ∗ cellZ d L cc3_scratch5 ∗ cellZ d L cc3_scratch6 ∗ cellZ d L cc3_scratch7 ∗ cellZ d L cc3_scratch8
        ∗ cellZ d L cc3_scratch9 ∗ cellZ d L cc3_scratch10 ∗ cellZ d L cc3_scratch11 ∗ cellZ d L cc3_scratch12
        ∗ cellZ d L cc3_scoped0
        ∗ bigSep Finset.univ (outTrip d L)
        ∗ owes (thrV d L) O W) : sProp 𝕄)
      ⊢ wp frame (wpE (defs₀ (F := F)) 𝒱₀ (thrV d L) none) Set.univ
          (cc3_gk L yV (Memref.isWhole_whole _) ixV (Memref.isWhole_whole _) oV (Memref.isWhole_whole _)
            ivV (Memref.isWhole_whole _) r0V (Memref.isWhole_whole _) r1V (Memref.isWhole_whole _)
            r2V (Memref.isWhole_whole _) r3V (Memref.isWhole_whole _)
            cc3_scratch5 cc3_scratch6 cc3_scratch7 cc3_scratch8 cc3_scratch9 cc3_scratch10 cc3_scratch11 cc3_scratch12 cc3_scoped0)
          fun _ => iprop(heldW d L yV (Transfers.shareTokN q 26) fy ∗ heldW d L yV (Transfers.shareTokN q 27) fy
            ∗ heldW d L yV (Transfers.shareTokN q 28) fy ∗ heldW d L yV (Transfers.shareTokN q 29) fy
            ∗ heldW d L (slabK L) fullShare fi
            ∗ (∃ f, heldW d L ivV fullShare f)
            ∗ (∃ f, heldW d L r0V fullShare f) ∗ (∃ f, heldW d L r1V fullShare f) ∗ (∃ f, heldW d L r2V fullShare f) ∗ (∃ f, heldW d L r3V fullShare f)
            ∗ cellZ d L cc3_scratch5 ∗ cellZ d L cc3_scratch6 ∗ cellZ d L cc3_scratch7 ∗ cellZ d L cc3_scratch8
            ∗ cellZ d L cc3_scratch9 ∗ cellZ d L cc3_scratch10 ∗ cellZ d L cc3_scratch11 ∗ cellZ d L cc3_scratch12
            ∗ cellZ d L cc3_scoped0
            ∗ bigSep Finset.univ (outTripG d L (gathF d fy fi))
            ∗ ∃ W', ⌜∀ p ∈ W', p ∈ W ∨ p.2 = none⌝ ∗ owes (thrV d L) O W') := by
  rw [Gen.cc3_gk_eq_skeleton]
  iintro ⟨#Hmw, HY0, HY1, HY2, HY3, HI, HV, HR0, HR1, HR2, HR3, HG0, HG1, HG2, HG3, HW0, HW1, HW2, HW3, HS, Hout, HO⟩
  sl_unfold [Gen.cc3_gk_skel, k3_part3]
  -- the slab lands in the local index buffer (one copy, awaited); the run stops before the first gather
  sl_exec
  -- whatever the buffer held before, every word of every list is now a word of the slab
  have hrow := fun g off hk => hin_rows d L fi hin g (gk_core_val.sl.dma0 d L fi) rfl off hk
  -- the buffer as its 32 lists; lists 0 … 3, spelt as the first four gathers slice them
  ihave Hrows := (Entails.of_eq (iv_rows (F := F) d L _)) $$ HV
  ihave Hx := (Entails.of_eq (SparseCore.bigSep_erase' (s := Finset.univ) (i := (0 : Fin 32)) (Finset.mem_univ _))) $$ Hrows
  icases Hx with ⟨Hl0, Hrows⟩
  ihave Hx := (Entails.of_eq (SparseCore.bigSep_erase' (i := (1 : Fin 32)) (by decide))) $$ Hrows
  icases Hx with ⟨Hl1, Hrows⟩
  ihave Hx := (Entails.of_eq (SparseCore.bigSep_erase' (i := (2 : Fin 32)) (by decide))) $$ Hrows
  icases Hx with ⟨Hl2, Hrows⟩
  ihave Hx := (Entails.of_eq (SparseCore.bigSep_erase' (i := (3 : Fin 32)) (by decide))) $$ Hrows
  icases Hx with ⟨Hl3, Hrows⟩
  ihave Hl0' := (Entails.of_eq (rowPts_at (F := F) d L 0 ![0, 0] inb_S32x128_S1x128_0_0 rfl _)) $$ Hl0
  ihave Hl1' := (Entails.of_eq (rowPts_at (F := F) d L 1 ![1, 0] inb_S32x128_S1x128_1_0 rfl _)) $$ Hl1
  ihave Hl2' := (Entails.of_eq (rowPts_at (F := F) d L 2 ![2, 0] inb_S32x128_S1x128_2_0 rfl _)) $$ Hl2
  ihave Hl3' := (Entails.of_eq (rowPts_at (F := F) d L 3 ![3, 0] inb_S32x128_S1x128_3_0 rfl _)) $$ Hl3
  -- the four gathers issue; the run stops at the loop
  sl_exec
  have hG0 := gath_chunk0 d L fy fi hin (ivV).view.junk (gk_core_val.sl.dma0 d L fi) rfl (hrow _)
  have hG1 := gath_chunk1 d L fy fi hin (ivV).view.junk (gk_core_val.sl.dma0 d L fi) rfl (hrow _)
  have hG2 := gath_chunk2 d L fy fi hin (ivV).view.junk (gk_core_val.sl.dma0 d L fi) rfl (hrow _)
  have hG3 := gath_chunk3 d L fy fi hin (ivV).view.junk (gk_core_val.sl.dma0 d L fi) rfl (hrow _)
  ihave Hout := (outs_start (F := F) d L (gathF d fy fi)) $$ Hout
  sl_for (invV d L q O W fy ((ivV).view.writes (Elt F) (ivV).view.junk [⟨Rect.whole cc3_scratch0.ty.shape, gk_core_val.sl.dma0 d L fi⟩]) (hrow _) (gathF d fy fi))
    $$ [HO HW0 HW1 HW2 HW3 Hout Hrows HG0 HY0 HG1 HY1 HG2 HY2 HG3 HY3]
  · -- one trip
    intro k acc
    have hk8 : k.val < 8 := trips_eq ▸ k.isLt
    rcases Nat.lt_or_ge k.val 7 with h7 | h7
    · rw [invV_lt (h := hk8), invV_lt (k := k.val + 1) (h := by omega)]
      exact gk_tripA_val d L q O W fy _ (hrow _) (gathF d fy fi) hG0 hG1 hG2 hG3 _ _ _ k h7 acc
    · rw [invV_lt (h := hk8), invV_ge (k := k.val + 1) (h := by omega)]
      exact gk_tripB_val d L q O W fy _ (hrow _) (gathF d fy fi) hG0 hG1 hG2 hG3 _ _ _ k (by omega) acc
  · -- the invariant before the first trip
    rw [invV_lt (k := 0) (h := by omega)]
    beta_reduce
    unfold invAV gFlight yRest
    isplitr; · iexact Hmw
    isplitl [HO]
    · iexists _; isplitr
      swap; · iexact HO
      ipureintro
      exact waits_ins (fun p hp => .inl hp) _
    isplitl [HW0 HW1 HW2 HW3]
    · isplitl [HW0]; · iexact HW0
      isplitl [HW1]; · iexact HW1
      isplitl [HW2]; · iexact HW2
      iexact HW3
    isplitl [Hout]; · iexact Hout
    isplitl [Hrows]; · rw [idle_zero]; iexact Hrows
    isplitl [HG0 HY0]
    · isplitl [HG0]
      · iexists _; isplitr
        swap; · iexact HG0
        ipureintro
        exact rb_issue d L fy _ (hrow _) r0V _ ![0, 0] inb_S32x128_S1x128_0_0 (4 * 0 + 0) (by omega) rfl
      iexact HY0
    isplitl [HG1 HY1]
    · isplitl [HG1]
      · iexists _; isplitr
        swap; · iexact HG1
        ipureintro
        exact rb_issue d L fy _ (hrow _) r1V _ ![1, 0] inb_S32x128_S1x128_1_0 (4 * 0 + 1) (by omega) rfl
      iexact HY1
    isplitl [HG2 HY2]
    · isplitl [HG2]
      · iexists _; isplitr
        swap; · iexact HG2
        ipureintro
        exact rb_issue d L fy _ (hrow _) r2V _ ![2, 0] inb_S32x128_S1x128_2_0 (4 * 0 + 2) (by omega) rfl
      iexact HY2
    isplitl [HG3]
    · iexists _; isplitr
      swap; · iexact HG3
      ipureintro
      exact rb_issue d L fy _ (hrow _) r3V _ ![3, 0] inb_S32x128_S1x128_3_0 (4 * 0 + 3) (by omega) rfl
    iexact HY3
  -- after the loop
  iintro %acc HL
  rw [invV_end]
  beta_reduce
  unfold invEndV
  icases HL with ⟨-, ⟨%W', %hW', HO⟩, ⟨HW0, HW1, HW2, HW3⟩, Hout, Hrows, ⟨⟨%fr0, HR0⟩, HG0, HY0⟩, ⟨⟨%fr1, HR1⟩, HG1, HY1⟩, ⟨⟨%fr2, HR2⟩, HG2, HY2⟩, ⟨⟨%fr3, HR3⟩, HG3, HY3⟩⟩
  sl_exec
  sl_step
  isplitl [HY0]; · iexact HY0
  isplitl [HY1]; · iexact HY1
  isplitl [HY2]; · iexact HY2
  isplitl [HY3]; · iexact HY3
  isplitl [HI]; · iexact HI
  isplitl [Hrows]
  · iexists _
    iapply (Entails.of_eq (iv_rows (F := F) d L _).symm)
    iexact Hrows
  isplitl [HR0]; · iexists _; iexact HR0
  isplitl [HR1]; · iexists _; iexact HR1
  isplitl [HR2]; · iexists _; iexact HR2
  isplitl [HR3]; · iexists _; iexact HR3
  isplitl [HG0]; · iexact HG0
  isplitl [HG1]; · iexact HG1
  isplitl [HG2]; · iexact HG2
  isplitl [HG3]; · iexact HG3
  isplitl [HW0]; · iexact HW0
  isplitl [HW1]; · iexact HW1
  isplitl [HW2]; · iexact HW2
  isplitl [HW3]; · iexact HW3
  isplitl [HS]; · iexact HS
  isplitl [Hout]; · iapply (outs_end (F := F) d L (gathF d fy fi)); iexact Hout
  iexists _; isplitr
  swap; · iexact HO
  ipureintro; exact hW'

/-! ## The body from what the launch hands the tile, with contents -/

set_option maxHeartbeats 4000000 in
/-- The body on tile (L 0, L 1) of device d from the worker's share with contents — a share of y at C.y, its slab of
    the index array at C.ix1 with every word a row number of y, its 4096 rows of the output — and the tile's scoped
    storage; it hands the same back, the output rows at the gather of y's rows by the slab, the local buffers at some
    contents, owing what it owed. -/
theorem gk_body_val (hF : (K (F := F)).Facts) (C : Conts F) (d : Dev nD) (L : grid3.Coords)
    (hinC : ∀ j, (C.ix1 d j).toNat < 8192)
    (O : CellTallies nD τ sig (HIx 4)) (W : Waits sig (HIx 4)) (hO : ∀ g, O g none = 0) :
    (iprop(levAts (K (F := F)).L (K (F := F)).lev ∗ shareIn1 C d (widL L)
        ∗ scopedBufs (thrV d L) ∗ scopedSems0 (thrV d L) ∗ owes (thrV d L) O W) : sProp 𝕄)
      ⊢ wp frame (wpE (defs₀ (F := F)) 𝒱₀ (thrV d L) none) Set.univ
          (cc3_gk L yV (Memref.isWhole_whole _) ixV (Memref.isWhole_whole _) oV (Memref.isWhole_whole _)
            ivV (Memref.isWhole_whole _) r0V (Memref.isWhole_whole _) r1V (Memref.isWhole_whole _)
            r2V (Memref.isWhole_whole _) r3V (Memref.isWhole_whole _)
            cc3_scratch5 cc3_scratch6 cc3_scratch7 cc3_scratch8 cc3_scratch9 cc3_scratch10 cc3_scratch11 cc3_scratch12 cc3_scoped0)
          fun _ => iprop(shareOut1 C d (widL L) ∗ scopedBufs (thrV d L) ∗ scopedSems0 (thrV d L)
            ∗ ∃ W', ⌜∀ p ∈ W', p ∈ W ∨ p.2 = none⌝ ∗ owes (thrV d L) O W') := by
  rw [(K (F := F)).scopedBufs_V hF d (cV L) (jV L), SparseCore.Cfg.scopedSems0_V (Val := Elt F) d (cV L) (jV L), tile_sems, tile_bufs]
  unfold shareIn1 shareOut1
  iintro ⟨#Hlv, ⟨HY, HI, ⟨%fo, HOut⟩⟩, ⟨⟨%fv, HV⟩, ⟨%f0, HR0⟩, ⟨%f1, HR1⟩, ⟨%f2, HR2⟩, ⟨%f3, HR3⟩, Hbufs⟩, ⟨HG0, HG1, HG2, HG3, HW0, HW1, HW2, HW3, HS, Hsems⟩, HO⟩
  ihave Hmw := (show levAts (K (F := F)).L (K (F := F)).lev ⊢ Transfers.MayWaits (thrV d L) (default : HIx 4) O from
    (K (F := F)).mayWaits_none (thr := thrV d L) hO) $$ Hlv
  -- the share of y as the four gathers' read shares and the rest
  ihave HYs := (y_toks (F := F) (yLoc d) (ysh (widL L)) (C.y d)).1 $$ HY
  icases HYs with ⟨HY0, HY1, HY2, HY3, Hkeep⟩
  ihave KY0 := (Entails.of_eq (pts_yV (F := F) d L _ (C.y d)).symm) $$ HY0
  ihave KY1 := (Entails.of_eq (pts_yV (F := F) d L _ (C.y d)).symm) $$ HY1
  ihave KY2 := (Entails.of_eq (pts_yV (F := F) d L _ (C.y d)).symm) $$ HY2
  ihave KY3 := (Entails.of_eq (pts_yV (F := F) d L _ (C.y d)).symm) $$ HY3
  -- the slab, the output rows as 32 chunks, the five local buffers, in the tile's spellings
  ihave KI := (Entails.of_eq (pts_slabK (F := F) d L (C.ix1 d)).symm) $$ HI
  ihave KOut := (out_split (F := F) d L fo) $$ HOut
  ihave KV := (Entails.of_eq (pts_whole (F := F) d L cc3_scratch0 fullShare fv).symm) $$ HV
  ihave KR0 := (Entails.of_eq (pts_whole (F := F) d L cc3_scratch1 fullShare f0).symm) $$ HR0
  ihave KR1 := (Entails.of_eq (pts_whole (F := F) d L cc3_scratch2 fullShare f1).symm) $$ HR1
  ihave KR2 := (Entails.of_eq (pts_whole (F := F) d L cc3_scratch3 fullShare f2).symm) $$ HR2
  ihave KR3 := (Entails.of_eq (pts_whole (F := F) d L cc3_scratch4 fullShare f3).symm) $$ HR3
  iapply (wp_wand_r frame (wpE (defs₀ (F := F)) 𝒱₀ (thrV d L) none) Set.univ)
  isplitl [Hmw KY0 KY1 KY2 KY3 KI KV KR0 KR1 KR2 KR3 HG0 HG1 HG2 HG3 HW0 HW1 HW2 HW3 HS KOut HO]
  · iapply (gk_core_val d L (ysh (widL L)) O W (C.y d) (C.ix1 d) fv f0 f1 f2 f3 (hin_slabK d L (C.ix1 d) (fun j _ => hinC j)))
    isplitl [Hmw]; · iexact Hmw
    isplitl [KY0]; · iexact KY0
    isplitl [KY1]; · iexact KY1
    isplitl [KY2]; · iexact KY2
    isplitl [KY3]; · iexact KY3
    isplitl [KI]; · iexact KI
    isplitl [KV]; · iexact KV
    isplitl [KR0]; · iexact KR0
    isplitl [KR1]; · iexact KR1
    isplitl [KR2]; · iexact KR2
    isplitl [KR3]; · iexact KR3
    isplitl [HG0]; · iexact HG0
    isplitl [HG1]; · iexact HG1
    isplitl [HG2]; · iexact HG2
    isplitl [HG3]; · iexact HG3
    isplitl [HW0]; · iexact HW0
    isplitl [HW1]; · iexact HW1
    isplitl [HW2]; · iexact HW2
    isplitl [HW3]; · iexact HW3
    isplitl [HS]; · iexact HS
    isplitl [KOut]; · iexact KOut
    iexact HO
  iintro %a ⟨HY0, HY1, HY2, HY3, HI, ⟨%gv, HV⟩, ⟨%g0, HR0⟩, ⟨%g1, HR1⟩, ⟨%g2, HR2⟩, ⟨%g3, HR3⟩, HG0, HG1, HG2, HG3, HW0, HW1, HW2, HW3, HS, HOut, HO⟩
  isplitl [HY0 HY1 HY2 HY3 Hkeep HI HOut]
  · isplitl [HY0 HY1 HY2 HY3 Hkeep]
    · iapply (y_toks (F := F) (yLoc d) (ysh (widL L)) (C.y d)).2
      isplitl [HY0]; · iapply (Entails.of_eq (pts_yV (F := F) d L _ (C.y d))); iexact HY0
      isplitl [HY1]; · iapply (Entails.of_eq (pts_yV (F := F) d L _ (C.y d))); iexact HY1
      isplitl [HY2]; · iapply (Entails.of_eq (pts_yV (F := F) d L _ (C.y d))); iexact HY2
      isplitl [HY3]; · iapply (Entails.of_eq (pts_yV (F := F) d L _ (C.y d))); iexact HY3
      iexact Hkeep
    isplitl [HI]
    · iapply (Entails.of_eq (pts_slabK (F := F) d L (C.ix1 d))); iexact HI
    iapply (out_joinG (F := F) d L (gathF d (C.y d) (C.ix1 d))); iexact HOut
  isplitl [HV HR0 HR1 HR2 HR3 Hbufs]
  · isplitl [HV]; · iexists gv; iapply (Entails.of_eq (pts_whole (F := F) d L cc3_scratch0 fullShare gv)); iexact HV
    isplitl [HR0]; · iexists g0; iapply (Entails.of_eq (pts_whole (F := F) d L cc3_scratch1 fullShare g0)); iexact HR0
    isplitl [HR1]; · iexists g1; iapply (Entails.of_eq (pts_whole (F := F) d L cc3_scratch2 fullShare g1)); iexact HR1
    isplitl [HR2]; · iexists g2; iapply (Entails.of_eq (pts_whole (F := F) d L cc3_scratch3 fullShare g2)); iexact HR2
    isplitl [HR3]; · iexists g3; iapply (Entails.of_eq (pts_whole (F := F) d L cc3_scratch4 fullShare g3)); iexact HR3
    iexact Hbufs
  isplitl [HG0 HG1 HG2 HG3 HW0 HW1 HW2 HW3 HS Hsems]
  · isplitl [HG0]; · iexact HG0
    isplitl [HG1]; · iexact HG1
    isplitl [HG2]; · iexact HG2
    isplitl [HG3]; · iexact HG3
    isplitl [HW0]; · iexact HW0
    isplitl [HW1]; · iexact HW1
    isplitl [HW2]; · iexact HW2
    isplitl [HW3]; · iexact HW3
    isplitl [HS]; · iexact HS
    iexact Hsems
  iexact HO

end Cert.KernelIdeal.Sc.GatherV1

end
-- ==== Proof.GatherValue5.lean ====
/-
  The sparse-core gather body of the third call, with contents, for any float instance.

  Tile w copies its slab of the index array (32 lists of 128 row numbers) into its local index buffer and, list by
  list, gathers the named rows of y into a row buffer and copies the row buffer to 128 consecutive rows of the output.
  So afterwards row 4096·w + 128·j + r of the output holds row idx[w, j, r] of y, column by column: the tile's 4096
  output rows are the gather of y's rows by the tile's slab. Nothing is computed; the claim is an equation of indices.
-/
import proofs.«215235_g2774548873965_cont_9to1_572_34_alg».proof.Proof.GatherBody5
import proofs.«215235_g2774548873965_cont_9to1_572_34_alg».proof.Proof.ScPayV

noncomputable section

namespace Cert.KernelIdeal.Sc.GatherV2

open Cert.KernelIdeal
open Cert.KernelIdeal.Facts₀ Cert.KernelIdeal.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ
open Cert.KernelIdeal.Sc.Gather2

local notation "yV" => (Memref.whole Cert.KernelIdeal.main_v1_scv : Memref Cert.KernelIdeal.sig Kind.scVector Space.hbm Cert.KernelIdeal.S8192x128 EltTy.f32)
local notation "ixV" => (Memref.whole Cert.KernelIdeal.main_v27_scv : Memref Cert.KernelIdeal.sig Kind.scVector Space.hbm Cert.KernelIdeal.S32x32x128 EltTy.i32)
local notation "oV" => (Memref.whole Cert.KernelIdeal.main_v28_scv : Memref Cert.KernelIdeal.sig Kind.scVector Space.hbm Cert.KernelIdeal.S131072x128 EltTy.f32)
local notation "ivV" => (Memref.whole Cert.KernelIdeal.cc5_scratch0 : Memref Cert.KernelIdeal.sig Kind.scVector Space.vmem Cert.KernelIdeal.S32x128 EltTy.i32)
local notation "r0V" => (Memref.whole Cert.KernelIdeal.cc5_scratch1 : Memref Cert.KernelIdeal.sig Kind.scVector Space.vmem Cert.KernelIdeal.S128x128 EltTy.f32)
local notation "r1V" => (Memref.whole Cert.KernelIdeal.cc5_scratch2 : Memref Cert.KernelIdeal.sig Kind.scVector Space.vmem Cert.KernelIdeal.S128x128 EltTy.f32)
local notation "r2V" => (Memref.whole Cert.KernelIdeal.cc5_scratch3 : Memref Cert.KernelIdeal.sig Kind.scVector Space.vmem Cert.KernelIdeal.S128x128 EltTy.f32)
local notation "r3V" => (Memref.whole Cert.KernelIdeal.cc5_scratch4 : Memref Cert.KernelIdeal.sig Kind.scVector Space.vmem Cert.KernelIdeal.S128x128 EltTy.f32)
local notation "yAllK" => (Memref.slice (Memref.whole Cert.KernelIdeal.main_v1_scv : Memref Cert.KernelIdeal.sig Kind.scVector Space.hbm Cert.KernelIdeal.S8192x128 EltTy.f32) (Rect.unit (s := Cert.KernelIdeal.S8192x128) ![0, 0] Cert.KernelIdeal.S8192x128.size Cert.KernelIdeal.Facts₀.inb_S8192x128_S8192x128_0_0) (fun _ => rfl))

variable [FloatOps F]

/-! ## The gathered array, and a chunk held at it -/

omit [FloatOps F] in
/-- The output after the call as ONE function of y's contents and the index array's: row e is row idx[e] of y, the row
    number read modulo 8192 so that the function is total (every entry is below 8192 where it is used). -/
def gathF (d : Dev nD) (fy : Buf (Elt F) (yLoc d)) (fi : Buf (Elt F) (ixLoc2 d)) : Buf (Elt F) (oLoc2 d) :=
  fun i => fy (ValueIdx.ix2 (⟨(fi (srcIdx (i 0))).toNat % 8192, Nat.mod_lt _ (by decide)⟩ : Fin 8192) (i 1))

omit [FloatOps F] in
theorem gath2_eq (C : Conts F) (d : Dev nD) : gath2 C d = gathF d (C.y d) (C.ix2 d) := rfl

/-- The tile's four output chunks of trip t, each held at the one whole-array function G. -/
abbrev outTripG (d : Dev nD) (L : grid5.Coords) (G : Buf (Elt F) (oLoc2 d)) (t : Fin k5_t1_loop.trips) : sProp 𝕄 :=
  iprop(heldW d L (outK0 L t) fullShare G ∗ heldW d L (outK1 L t) fullShare G
    ∗ heldW d L (outK2 L t) fullShare G ∗ heldW d L (outK3 L t) fullShare G)

omit [FloatOps F] in
/-- The 32 chunks held at one function are the worker's 4096 rows held at it. -/
theorem out_joinG (d : Dev nD) (L : grid5.Coords) (G : Buf (Elt F) (oLoc2 d)) :
    bigSep Finset.univ (outTripG d L G) ⊢ (oLoc2 d ↦[(rowsRect (widL L)).set]{fullShare} G : sProp 𝕄) := by
  have step : ∀ t, outTripG d L G t ⊢ (oLoc2 d ↦[tripSet L t]{fullShare} G : sProp 𝕄) := by
    intro t
    iintro ⟨H0, H1, H2, H3⟩
    ihave K0 := (Entails.of_eq (pts_outK0 (F := F) d L t G)) $$ H0
    ihave K1 := (Entails.of_eq (pts_outK1 (F := F) d L t G)) $$ H1
    ihave K2 := (Entails.of_eq (pts_outK2 (F := F) d L t G)) $$ H2
    ihave K3 := (Entails.of_eq (pts_outK3 (F := F) d L t G)) $$ H3
    ihave H23 := (pointsTo_union (ℓ := oLoc2 d) (d23 L t)).2 $$ [K2 K3]
    · isplitl [K2]; · iexact K2
      iexact K3
    ihave H123 := (pointsTo_union (ℓ := oLoc2 d) (d1_23 L t)).2 $$ [K1 H23]
    · isplitl [K1]; · iexact K1
      iexact H23
    ihave H0123 := (pointsTo_union (ℓ := oLoc2 d) (d0_123 L t)).2 $$ [K0 H123]
    · isplitl [K0]; · iexact K0
      iexact H123
    iexact H0123
  rw [rows_cover]
  refine (bigSep_mono fun t _ => step t).trans ?_
  exact (Entails.of_eq (pointsTo_biUnion (ℓ := oLoc2 d) (q := fullShare) (f := G) Finset.univ (tripSet L) (fun t _ t' _ h => trip_disjoint L h)).symm)

/-! ## Reading a buffer written whole; a row buffer after its gather -/

omit [FloatOps F] in
/-- A buffer overwritten through a view by one whole-view piece agrees, on the view's elements, with any contents
    that read through the view as the piece. -/
theorem writes_whole_eq_on {κ : Kind} {sp : Space} {s : Shape} {e : EltTy} (v : View sig κ sp s e)
    (fo G : v.ty.Contents (Elt F)) (pay : s.Idx → Elt F e) (h : ∀ x, pay x = v.read (Elt F) G x) :
    ∀ i ∈ v.set, v.writes (Elt F) fo [⟨Rect.whole s, pay⟩] i = G i := by
  intro i hi
  have hi' : i ∈ Finset.univ.map v.emb := hi
  obtain ⟨x, -, rfl⟩ := Finset.mem_map.mp hi'
  have h1 := congrFun (View.read_writes_whole v fo pay) x
  rw [h x, View.read_apply, View.read_apply] at h1
  exact (cast_inj _).mp h1

/-- What the gather of the list at offsets `off` of the local index buffer delivers to a row buffer: at (r, f), y at
    (the row the list's word r names, f). -/
def rowBuf (d : Dev nD) (L : grid5.Coords) (fy : Buf (Elt F) ((yV).view.loc (thrV d L))) (fvc : Buf (Elt F) ((ivV).view.loc (thrV d L)))
    (hrowc : ∀ (off : Fin 2 → ℕ) (hk : ∀ a, off a + S1x128.size a ≤ S32x128.size a) (x : S128.Idx),
      (View.read (Elt F) (idxRowAt off hk).view fvc x).toNat < 8192)
    (off : Fin 2 → ℕ) (hk : ∀ a, off a + S1x128.size a ≤ S32x128.size a) : S128x128.Idx → Elt F .f32 :=
  SparseCore.gatherPayload Gen.gathers_S8192x128_S128x128 (View.read (Elt F) (yAllK).view fy)
    (SparseCore.rows (o := 128) (z := 8192) (View.read (Elt F) (idxRowAt off hk).view fvc) (by decide) (hrowc off hk))

/-- Row buffer rV holds the gather of list n. -/
def rbOK (d : Dev nD) (L : grid5.Coords) (fy : Buf (Elt F) ((yV).view.loc (thrV d L))) (fvc : Buf (Elt F) ((ivV).view.loc (thrV d L)))
    (hrowc : ∀ (off : Fin 2 → ℕ) (hk : ∀ a, off a + S1x128.size a ≤ S32x128.size a) (x : S128.Idx),
      (View.read (Elt F) (idxRowAt off hk).view fvc x).toNat < 8192)
    (rV : Memref sig .scVector .vmem S128x128 .f32) (n : ℕ) (hn : n < 32) (fr : Buf (Elt F) (rV.view.loc (thrV d L))) : Prop :=
  ∀ x, View.read (Elt F) rV.view fr x = rowBuf d L fy fvc hrowc ![n, 0] (rowsInb n hn) x

omit [FloatOps F] in
/-- A row buffer overwritten whole by the gather of the list at `off = (n, 0)` holds the gather of list n. -/
theorem rb_issue (d : Dev nD) (L : grid5.Coords) (fy : Buf (Elt F) ((yV).view.loc (thrV d L))) (fvc : Buf (Elt F) ((ivV).view.loc (thrV d L)))
    (hrowc : ∀ (off : Fin 2 → ℕ) (hk : ∀ a, off a + S1x128.size a ≤ S32x128.size a) (x : S128.Idx),
      (View.read (Elt F) (idxRowAt off hk).view fvc x).toNat < 8192)
    (rV : Memref sig .scVector .vmem S128x128 .f32) (fr0 : Buf (Elt F) (rV.view.loc (thrV d L)))
    (off : Fin 2 → ℕ) (hk : ∀ a, off a + S1x128.size a ≤ S32x128.size a) (n : ℕ) (hn : n < 32) (hoff : off = ![n, 0]) :
    rbOK d L fy fvc hrowc rV n hn (rV.view.writes (Elt F) fr0 [⟨Rect.whole S128x128, rowBuf d L fy fvc hrowc off hk⟩]) := by
  subst hoff
  intro x
  rw [View.read_writes_whole]

/-! ## The output chunks before trip k: those of the trips done are at the gathered array -/

/-- The tile's four output chunks of trip t before trip k: at some contents, which on the chunk are G's when t < k. -/
abbrev outTripV (d : Dev nD) (L : grid5.Coords) (G : Buf (Elt F) (oLoc2 d)) (k : ℕ) (t : Fin k5_t1_loop.trips) : sProp 𝕄 :=
  iprop((∃ f : Buf (Elt F) (oLoc2 d), ⌜t.val < k → ∀ i ∈ (outK0 L t).view.set, f i = G i⌝ ∗ heldW d L (outK0 L t) fullShare f)
    ∗ (∃ f : Buf (Elt F) (oLoc2 d), ⌜t.val < k → ∀ i ∈ (outK1 L t).view.set, f i = G i⌝ ∗ heldW d L (outK1 L t) fullShare f)
    ∗ (∃ f : Buf (Elt F) (oLoc2 d), ⌜t.val < k → ∀ i ∈ (outK2 L t).view.set, f i = G i⌝ ∗ heldW d L (outK2 L t) fullShare f)
    ∗ (∃ f : Buf (Elt F) (oLoc2 d), ⌜t.val < k → ∀ i ∈ (outK3 L t).view.set, f i = G i⌝ ∗ heldW d L (outK3 L t) fullShare f))

omit [FloatOps F] in
theorem outTripV_mono (d : Dev nD) (L : grid5.Coords) (G : Buf (Elt F) (oLoc2 d)) (k k' : ℕ) (t : Fin k5_t1_loop.trips)
    (h : t.val < k' → t.val < k) : outTripV d L G k t ⊢ outTripV d L G k' t := by
  iintro ⟨⟨%f0, %h0, H0⟩, ⟨%f1, %h1, H1⟩, ⟨%f2, %h2, H2⟩, ⟨%f3, %h3, H3⟩⟩
  isplitl [H0]
  · iexists f0; isplitr
    · ipureintro; exact fun hk => h0 (h hk)
    · iexact H0
  isplitl [H1]
  · iexists f1; isplitr
    · ipureintro; exact fun hk => h1 (h hk)
    · iexact H1
  isplitl [H2]
  · iexists f2; isplitr
    · ipureintro; exact fun hk => h2 (h hk)
    · iexact H2
  iexists f3; isplitr
  · ipureintro; exact fun hk => h3 (h hk)
  · iexact H3

omit [FloatOps F] in
/-- The chunks of the other trips, from before trip k to before trip k + 1. -/
theorem outs_step (d : Dev nD) (L : grid5.Coords) (G : Buf (Elt F) (oLoc2 d)) (k : Fin k5_t1_loop.trips) (k' : ℕ) (hk' : k' = k.val + 1) :
    bigSep (Finset.univ.erase k) (outTripV d L G k.val) ⊢ bigSep (Finset.univ.erase k) (outTripV d L G k') :=
  bigSep_mono fun t ht => outTripV_mono d L G _ _ t (fun h => by
    subst hk'
    have hne : t ≠ k := (Finset.mem_erase.mp ht).1
    have hv : t.val ≠ k.val := fun e => hne (Fin.ext e)
    omega)

omit [FloatOps F] in
/-- Before the first trip nothing is claimed of any chunk. -/
theorem outs_start (d : Dev nD) (L : grid5.Coords) (G : Buf (Elt F) (oLoc2 d)) :
    bigSep Finset.univ (outTrip d L) ⊢ bigSep Finset.univ (outTripV d L G 0) := by
  have step : ∀ t, outTrip d L t ⊢ outTripV d L G 0 t := by
    intro t
    iintro ⟨⟨%f0, H0⟩, ⟨%f1, H1⟩, ⟨%f2, H2⟩, ⟨%f3, H3⟩⟩
    isplitl [H0]
    · iexists f0; isplitr
      · ipureintro; exact fun hk => absurd hk (Nat.not_lt_zero _)
      · iexact H0
    isplitl [H1]
    · iexists f1; isplitr
      · ipureintro; exact fun hk => absurd hk (Nat.not_lt_zero _)
      · iexact H1
    isplitl [H2]
    · iexists f2; isplitr
      · ipureintro; exact fun hk => absurd hk (Nat.not_lt_zero _)
      · iexact H2
    iexists f3; isplitr
    · ipureintro; exact fun hk => absurd hk (Nat.not_lt_zero _)
    · iexact H3
  exact bigSep_mono fun t _ => step t

omit [FloatOps F] in
/-- After the last trip every chunk is at the gathered array. -/
theorem outs_end (d : Dev nD) (L : grid5.Coords) (G : Buf (Elt F) (oLoc2 d)) :
    bigSep Finset.univ (outTripV d L G 8) ⊢ bigSep Finset.univ (outTripG d L G) := by
  have step : ∀ t, outTripV d L G 8 t ⊢ outTripG d L G t := by
    intro t
    have ht : t.val < 8 := trips_eq ▸ t.isLt
    iintro ⟨⟨%f0, %h0, H0⟩, ⟨%f1, %h1, H1⟩, ⟨%f2, %h2, H2⟩, ⟨%f3, %h3, H3⟩⟩
    isplitl [H0]; · iapply (Entails.of_eq (pointsTo_congr (h0 ht))); iexact H0
    isplitl [H1]; · iapply (Entails.of_eq (pointsTo_congr (h1 ht))); iexact H1
    isplitl [H2]; · iapply (Entails.of_eq (pointsTo_congr (h2 ht))); iexact H2
    iapply (Entails.of_eq (pointsTo_congr (h3 ht))); iexact H3
  exact bigSep_mono fun t _ => step t

/-! ## What the loop holds before trip k, with contents -/

/-- Before trip k < 8: the four gathers of lists 4k … 4k + 3 in flight, every other list idle, the write semaphores at
    zero, the output chunks of the trips done at the gathered array,
    each gather's row buffer at the gather of its list. -/
def invAV (d : Dev nD) (L : grid5.Coords) (q : PosShare TreeShare) (O : CellTallies nD τ sig (HIx 4)) (W : Waits sig (HIx 4))
    (fy : Buf (Elt F) ((yV).view.loc (thrV d L))) (fvc : Buf (Elt F) ((ivV).view.loc (thrV d L)))
    (hrowc : ∀ (off : Fin 2 → ℕ) (hk : ∀ a, off a + S1x128.size a ≤ S32x128.size a) (x : S128.Idx),
      (View.read (Elt F) (idxRowAt off hk).view fvc x).toNat < 8192)
    (G : Buf (Elt F) (oLoc2 d)) (k : ℕ) (hk8 : k < 8) : sProp 𝕄 :=
  iprop(Transfers.MayWaits (thrV d L) (default : HIx 4) O
    ∗ (∃ W', ⌜∀ p ∈ W', p ∈ W ∨ p.2 = none⌝ ∗ owes (thrV d L) O W')
    ∗ (cellZ d L cc5_scratch9 ∗ cellZ d L cc5_scratch10 ∗ cellZ d L cc5_scratch11 ∗ cellZ d L cc5_scratch12)
    ∗ bigSep Finset.univ (outTripV d L G k)
    ∗ bigSep (idle k) (fun j => rowPts d L j fvc)
    ∗ ((∃ fr, ⌜rbOK d L fy fvc hrowc r0V (4 * k + 0) (by omega) fr⌝ ∗ gFlight d L q cc5_scratch5 47 r0V ![4 * k + 0, 0] (rowsInb _ (by omega)) fr fvc fy) ∗ yRest d L q 47 fy)
    ∗ ((∃ fr, ⌜rbOK d L fy fvc hrowc r1V (4 * k + 1) (by omega) fr⌝ ∗ gFlight d L q cc5_scratch6 48 r1V ![4 * k + 1, 0] (rowsInb _ (by omega)) fr fvc fy) ∗ yRest d L q 48 fy)
    ∗ ((∃ fr, ⌜rbOK d L fy fvc hrowc r2V (4 * k + 2) (by omega) fr⌝ ∗ gFlight d L q cc5_scratch7 49 r2V ![4 * k + 2, 0] (rowsInb _ (by omega)) fr fvc fy) ∗ yRest d L q 49 fy)
    ∗ ((∃ fr, ⌜rbOK d L fy fvc hrowc r3V (4 * k + 3) (by omega) fr⌝ ∗ gFlight d L q cc5_scratch8 50 r3V ![4 * k + 3, 0] (rowsInb _ (by omega)) fr fvc fy) ∗ yRest d L q 50 fy))

/-- After the last trip: nothing in flight; every list idle, the row buffers at some contents, every semaphore at
    zero, the four shares of y whole again, the 32 output chunks at the gathered array. -/
def invEndV (d : Dev nD) (L : grid5.Coords) (q : PosShare TreeShare) (O : CellTallies nD τ sig (HIx 4)) (W : Waits sig (HIx 4))
    (fy : Buf (Elt F) ((yV).view.loc (thrV d L))) (fvc : Buf (Elt F) ((ivV).view.loc (thrV d L)))
    (G : Buf (Elt F) (oLoc2 d)) : sProp 𝕄 :=
  iprop(Transfers.MayWaits (thrV d L) (default : HIx 4) O
    ∗ (∃ W', ⌜∀ p ∈ W', p ∈ W ∨ p.2 = none⌝ ∗ owes (thrV d L) O W')
    ∗ (cellZ d L cc5_scratch9 ∗ cellZ d L cc5_scratch10 ∗ cellZ d L cc5_scratch11 ∗ cellZ d L cc5_scratch12)
    ∗ bigSep Finset.univ (outTripV d L G 8)
    ∗ bigSep Finset.univ (fun j => rowPts d L j fvc)
    ∗ ((∃ fr, heldW d L r0V fullShare fr) ∗ cellZ d L cc5_scratch5 ∗ heldW d L yV (Transfers.shareTokN q 47) fy)
    ∗ ((∃ fr, heldW d L r1V fullShare fr) ∗ cellZ d L cc5_scratch6 ∗ heldW d L yV (Transfers.shareTokN q 48) fy)
    ∗ ((∃ fr, heldW d L r2V fullShare fr) ∗ cellZ d L cc5_scratch7 ∗ heldW d L yV (Transfers.shareTokN q 49) fy)
    ∗ ((∃ fr, heldW d L r3V fullShare fr) ∗ cellZ d L cc5_scratch8 ∗ heldW d L yV (Transfers.shareTokN q 50) fy))

/-! ## One trip -/

set_option maxHeartbeats 1000000 in
theorem gk_tripA_val (d : Dev nD) (L : grid5.Coords) (q : PosShare TreeShare) (O : CellTallies nD τ sig (HIx 4)) (W : Waits sig (HIx 4))
    (fy : Buf (Elt F) ((yV).view.loc (thrV d L))) (fvc : Buf (Elt F) ((ivV).view.loc (thrV d L)))
    (hrowc : ∀ (off : Fin 2 → ℕ) (hk : ∀ a, off a + S1x128.size a ≤ S32x128.size a) (x : S128.Idx),
      (View.read (Elt F) (idxRowAt off hk).view fvc x).toNat < 8192)
    (G : Buf (Elt F) (oLoc2 d))
    (hG0 : ∀ (t : Fin k5_t1_loop.trips) (ht : 4 * t.val + 0 < 32) (x : S128x128.Idx),
      View.read (Elt F) (outK0 L t).view G x = rowBuf d L fy fvc hrowc ![4 * t.val + 0, 0] (rowsInb _ ht) x)
    (hG1 : ∀ (t : Fin k5_t1_loop.trips) (ht : 4 * t.val + 1 < 32) (x : S128x128.Idx),
      View.read (Elt F) (outK1 L t).view G x = rowBuf d L fy fvc hrowc ![4 * t.val + 1, 0] (rowsInb _ ht) x)
    (hG2 : ∀ (t : Fin k5_t1_loop.trips) (ht : 4 * t.val + 2 < 32) (x : S128x128.Idx),
      View.read (Elt F) (outK2 L t).view G x = rowBuf d L fy fvc hrowc ![4 * t.val + 2, 0] (rowsInb _ ht) x)
    (hG3 : ∀ (t : Fin k5_t1_loop.trips) (ht : 4 * t.val + 3 < 32) (x : S128x128.Idx),
      View.read (Elt F) (outK3 L t).view G x = rowBuf d L fy fvc hrowc ![4 * t.val + 3, 0] (rowsInb _ ht) x)
    (v1 c0 c1 : BitVec 32) (k : Fin k5_t1_loop.trips) (hk : k.val < 7) (acc : Unit) :
    invAV d L q O W fy fvc hrowc G k.val (by omega)
      ⊢ wp frame (wpE (defs₀ (F := F)) 𝒱₀ (thrV d L) none) Set.univ
          (Gen.k5_t1_body L yV (Memref.isWhole_whole _) ixV (Memref.isWhole_whole _) oV (Memref.isWhole_whole _)
            ivV (Memref.isWhole_whole _) r0V (Memref.isWhole_whole _) r1V (Memref.isWhole_whole _)
            r2V (Memref.isWhole_whole _) r3V (Memref.isWhole_whole _)
            cc5_scratch5 cc5_scratch6 cc5_scratch7 cc5_scratch8 cc5_scratch9 cc5_scratch10 cc5_scratch11 cc5_scratch12 cc5_scoped0
            v1 c0 c1 k acc)
          fun _ => invAV d L q O W fy fvc hrowc G (k.val + 1) (by omega) := by
  obtain ⟨c1', c2', c3', c4', c5', c6', c7', c8'⟩ := conds k
  have hc1 : k5_cond1 k = 1#1 := c1'.mpr hk
  have hc2 : ¬ k5_cond2 k = 1#1 := fun h => (c2'.mp h) hk
  have hc3 : k5_cond3 k = 1#1 := c3'.mpr hk
  have hc4 : ¬ k5_cond4 k = 1#1 := fun h => (c4'.mp h) hk
  have hc5 : k5_cond5 k = 1#1 := c5'.mpr hk
  have hc6 : ¬ k5_cond6 k = 1#1 := fun h => (c6'.mp h) hk
  have hc7 : k5_cond7 k = 1#1 := c7'.mpr hk
  have hc8 : ¬ k5_cond8 k = 1#1 := fun h => (c8'.mp h) hk
  unfold invAV gFlight yRest
  iintro ⟨#Hmw, ⟨%W', %hW', HO⟩, ⟨HW0, HW1, HW2, HW3⟩, Hout, Hrows, ⟨⟨%fr0, %hfr0, HG0⟩, HY0⟩, ⟨⟨%fr1, %hfr1, HG1⟩, HY1⟩, ⟨⟨%fr2, %hfr2, HG2⟩, HY2⟩, ⟨⟨%fr3, %hfr3, HG3⟩, HY3⟩⟩
  -- the four output chunks of this trip
  ihave Hx := (Entails.of_eq (SparseCore.bigSep_erase' (i := k) (Finset.mem_univ _))) $$ Hout
  icases Hx with ⟨⟨⟨%fo0, %hfo0, HO0⟩, ⟨%fo1, %hfo1, HO1⟩, ⟨%fo2, %hfo2, HO2⟩, ⟨%fo3, %hfo3, HO3⟩⟩, Hout⟩
  ihave Hout := (outs_step (F := F) d L G k (k.val + 1) rfl) $$ Hout
  -- the four lists the trip's gathers will read
  ihave Hx := (Entails.of_eq (SparseCore.bigSep_erase' (i := (⟨4 * k.val + 4 + 0, by omega⟩ : Fin 32)) (mem_idle_next k.val hk 0 (by omega)))) $$ Hrows
  icases Hx with ⟨Hl0, Hrows⟩
  ihave Hx := (Entails.of_eq (SparseCore.bigSep_erase' (i := (⟨4 * k.val + 4 + 1, by omega⟩ : Fin 32))
    (Finset.mem_erase.mpr ⟨by simp [Fin.ext_iff], mem_idle_next k.val hk 1 (by omega)⟩))) $$ Hrows
  icases Hx with ⟨Hl1, Hrows⟩
  ihave Hx := (Entails.of_eq (SparseCore.bigSep_erase' (i := (⟨4 * k.val + 4 + 2, by omega⟩ : Fin 32))
    (Finset.mem_erase.mpr ⟨by simp [Fin.ext_iff], Finset.mem_erase.mpr ⟨by simp [Fin.ext_iff], mem_idle_next k.val hk 2 (by omega)⟩⟩))) $$ Hrows
  icases Hx with ⟨Hl2, Hrows⟩
  ihave Hx := (Entails.of_eq (SparseCore.bigSep_erase' (i := (⟨4 * k.val + 4 + 3, by omega⟩ : Fin 32))
    (Finset.mem_erase.mpr ⟨by simp [Fin.ext_iff], Finset.mem_erase.mpr ⟨by simp [Fin.ext_iff], Finset.mem_erase.mpr ⟨by simp [Fin.ext_iff], mem_idle_next k.val hk 3 (by omega)⟩⟩⟩))) $$ Hrows
  icases Hx with ⟨Hl3, Hrows⟩
  ihave Hl0' := (Entails.of_eq (rowPts_at (F := F) d L _ (k5_off5 k) (k5_off5_inb k hc1) (Gen.k5_off5_eq k) _)) $$ Hl0
  ihave Hl1' := (Entails.of_eq (rowPts_at (F := F) d L _ (k5_off8 k) (k5_off8_inb k hc3) (Gen.k5_off8_eq k) _)) $$ Hl1
  ihave Hl2' := (Entails.of_eq (rowPts_at (F := F) d L _ (k5_off11 k) (k5_off11_inb k hc5) (Gen.k5_off11_eq k) _)) $$ Hl2
  ihave Hl3' := (Entails.of_eq (rowPts_at (F := F) d L _ (k5_off14 k) (k5_off14_inb k hc7) (Gen.k5_off14_eq k) _)) $$ Hl3
  sl_unfold [Gen.k5_t1_body]
  sl_exec (disch := first | sl_exact hc1 | sl_exact hc2 | sl_exact hc3 | sl_exact hc4 | sl_exact hc5 | sl_exact hc6 | sl_exact hc7 | sl_exact hc8)
  sl_step
  isplitr; · iexact Hmw
  isplitl [HO]
  · iexists _; isplitr
    swap; · iexact HO
    ipureintro
    exact waits_ins (waits_ins (waits_ins (waits_ins (waits_ins (waits_ins (waits_ins (waits_ins hW' _) _) _) _) _) _) _) _
  isplitl [HW0 HW1 HW2 HW3]
  · isplitl [HW0]; · iexact HW0
    isplitl [HW1]; · iexact HW1
    isplitl [HW2]; · iexact HW2
    iexact HW3
  isplitl [Hout HO0 HO1 HO2 HO3]
  · iapply (Entails.of_eq (SparseCore.bigSep_erase' (i := k) (Finset.mem_univ _)).symm)
    isplitl [HO0 HO1 HO2 HO3]
    · isplitl [HO0]
      · iexists _; isplitr
        swap; · iexact HO0
        ipureintro
        exact fun _ => writes_whole_eq_on (outK0 L k).view fo0 G _ (fun x => (hfr0 x).trans (hG0 k (by omega) x).symm)
      isplitl [HO1]
      · iexists _; isplitr
        swap; · iexact HO1
        ipureintro
        exact fun _ => writes_whole_eq_on (outK1 L k).view fo1 G _ (fun x => (hfr1 x).trans (hG1 k (by omega) x).symm)
      isplitl [HO2]
      · iexists _; isplitr
        swap; · iexact HO2
        ipureintro
        exact fun _ => writes_whole_eq_on (outK2 L k).view fo2 G _ (fun x => (hfr2 x).trans (hG2 k (by omega) x).symm)
      iexists _; isplitr
      swap; · iexact HO3
      ipureintro
      exact fun _ => writes_whole_eq_on (outK3 L k).view fo3 G _ (fun x => (hfr3 x).trans (hG3 k (by omega) x).symm)
    iexact Hout
  isplitl [Hrows HG0_dst_and HG1_dst_and HG2_dst_and HG3_dst_and]
  · iapply (idle_step (F := F) k.val hk (fun j => rowPts d L j fvc) (by omega) (by omega) (by omega) (by omega) (by omega) (by omega) (by omega) (by omega))
    isplitl [Hrows]; · iexact Hrows
    isplitl [HG0_dst_and]; · iexact HG0_dst_and
    isplitl [HG1_dst_and]; · iexact HG1_dst_and
    isplitl [HG2_dst_and]; · iexact HG2_dst_and
    iexact HG3_dst_and
  isplitl [HG0 HY0]
  · isplitl [HG0]
    · iexists _; isplitr
      swap
      · iapply (Entails.of_eq (gFlight_off (F := F) d L q cc5_scratch5 47 r0V ((Gen.k5_off5_eq k).trans (by rw [show 4 * (k.val + 1) + 0 = 4 * k.val + 4 by omega])) (k5_off5_inb k hc1) _ _ fvc fy))
        iexact HG0
      ipureintro
      exact rb_issue d L fy fvc hrowc r0V fr0 (k5_off5 k) (k5_off5_inb k hc1) (4 * (k.val + 1) + 0) (by omega) ((Gen.k5_off5_eq k).trans (by rw [show 4 * (k.val + 1) + 0 = 4 * k.val + 4 by omega]))
    iexact HY0
  isplitl [HG1 HY1]
  · isplitl [HG1]
    · iexists _; isplitr
      swap
      · iapply (Entails.of_eq (gFlight_off (F := F) d L q cc5_scratch6 48 r1V ((Gen.k5_off8_eq k).trans (by rw [show 4 * (k.val + 1) + 1 = 4 * k.val + 5 by omega])) (k5_off8_inb k hc3) _ _ fvc fy))
        iexact HG1
      ipureintro
      exact rb_issue d L fy fvc hrowc r1V fr1 (k5_off8 k) (k5_off8_inb k hc3) (4 * (k.val + 1) + 1) (by omega) ((Gen.k5_off8_eq k).trans (by rw [show 4 * (k.val + 1) + 1 = 4 * k.val + 5 by omega]))
    iexact HY1
  isplitl [HG2 HY2]
  · isplitl [HG2]
    · iexists _; isplitr
      swap
      · iapply (Entails.of_eq (gFlight_off (F := F) d L q cc5_scratch7 49 r2V ((Gen.k5_off11_eq k).trans (by rw [show 4 * (k.val + 1) + 2 = 4 * k.val + 6 by omega])) (k5_off11_inb k hc5) _ _ fvc fy))
        iexact HG2
      ipureintro
      exact rb_issue d L fy fvc hrowc r2V fr2 (k5_off11 k) (k5_off11_inb k hc5) (4 * (k.val + 1) + 2) (by omega) ((Gen.k5_off11_eq k).trans (by rw [show 4 * (k.val + 1) + 2 = 4 * k.val + 6 by omega]))
    iexact HY2
  isplitl [HG3]
  · iexists _; isplitr
    swap
    · iapply (Entails.of_eq (gFlight_off (F := F) d L q cc5_scratch8 50 r3V ((Gen.k5_off14_eq k).trans (by rw [show 4 * (k.val + 1) + 3 = 4 * k.val + 7 by omega])) (k5_off14_inb k hc7) _ _ fvc fy))
      iexact HG3
    ipureintro
    exact rb_issue d L fy fvc hrowc r3V fr3 (k5_off14 k) (k5_off14_inb k hc7) (4 * (k.val + 1) + 3) (by omega) ((Gen.k5_off14_eq k).trans (by rw [show 4 * (k.val + 1) + 3 = 4 * k.val + 7 by omega]))
  iexact HY3

set_option maxHeartbeats 1000000 in
theorem gk_tripB_val (d : Dev nD) (L : grid5.Coords) (q : PosShare TreeShare) (O : CellTallies nD τ sig (HIx 4)) (W : Waits sig (HIx 4))
    (fy : Buf (Elt F) ((yV).view.loc (thrV d L))) (fvc : Buf (Elt F) ((ivV).view.loc (thrV d L)))
    (hrowc : ∀ (off : Fin 2 → ℕ) (hk : ∀ a, off a + S1x128.size a ≤ S32x128.size a) (x : S128.Idx),
      (View.read (Elt F) (idxRowAt off hk).view fvc x).toNat < 8192)
    (G : Buf (Elt F) (oLoc2 d))
    (hG0 : ∀ (t : Fin k5_t1_loop.trips) (ht : 4 * t.val + 0 < 32) (x : S128x128.Idx),
      View.read (Elt F) (outK0 L t).view G x = rowBuf d L fy fvc hrowc ![4 * t.val + 0, 0] (rowsInb _ ht) x)
    (hG1 : ∀ (t : Fin k5_t1_loop.trips) (ht : 4 * t.val + 1 < 32) (x : S128x128.Idx),
      View.read (Elt F) (outK1 L t).view G x = rowBuf d L fy fvc hrowc ![4 * t.val + 1, 0] (rowsInb _ ht) x)
    (hG2 : ∀ (t : Fin k5_t1_loop.trips) (ht : 4 * t.val + 2 < 32) (x : S128x128.Idx),
      View.read (Elt F) (outK2 L t).view G x = rowBuf d L fy fvc hrowc ![4 * t.val + 2, 0] (rowsInb _ ht) x)
    (hG3 : ∀ (t : Fin k5_t1_loop.trips) (ht : 4 * t.val + 3 < 32) (x : S128x128.Idx),
      View.read (Elt F) (outK3 L t).view G x = rowBuf d L fy fvc hrowc ![4 * t.val + 3, 0] (rowsInb _ ht) x)
    (v1 c0 c1 : BitVec 32) (k : Fin k5_t1_loop.trips) (hk : k.val = 7) (acc : Unit) :
    invAV d L q O W fy fvc hrowc G k.val (by omega)
      ⊢ wp frame (wpE (defs₀ (F := F)) 𝒱₀ (thrV d L) none) Set.univ
          (Gen.k5_t1_body L yV (Memref.isWhole_whole _) ixV (Memref.isWhole_whole _) oV (Memref.isWhole_whole _)
            ivV (Memref.isWhole_whole _) r0V (Memref.isWhole_whole _) r1V (Memref.isWhole_whole _)
            r2V (Memref.isWhole_whole _) r3V (Memref.isWhole_whole _)
            cc5_scratch5 cc5_scratch6 cc5_scratch7 cc5_scratch8 cc5_scratch9 cc5_scratch10 cc5_scratch11 cc5_scratch12 cc5_scoped0
            v1 c0 c1 k acc)
          fun _ => invEndV d L q O W fy fvc G := by
  obtain ⟨c1', c2', c3', c4', c5', c6', c7', c8'⟩ := conds k
  have hn : ¬ k.val < 7 := by omega
  have hc1 : ¬ k5_cond1 k = 1#1 := fun h => hn (c1'.mp h)
  have hc2 : k5_cond2 k = 1#1 := c2'.mpr hn
  have hc3 : ¬ k5_cond3 k = 1#1 := fun h => hn (c3'.mp h)
  have hc4 : k5_cond4 k = 1#1 := c4'.mpr hn
  have hc5 : ¬ k5_cond5 k = 1#1 := fun h => hn (c5'.mp h)
  have hc6 : k5_cond6 k = 1#1 := c6'.mpr hn
  have hc7 : ¬ k5_cond7 k = 1#1 := fun h => hn (c7'.mp h)
  have hc8 : k5_cond8 k = 1#1 := c8'.mpr hn
  unfold invAV invEndV gFlight yRest
  iintro ⟨#Hmw, ⟨%W', %hW', HO⟩, ⟨HW0, HW1, HW2, HW3⟩, Hout, Hrows, ⟨⟨%fr0, %hfr0, HG0⟩, HY0⟩, ⟨⟨%fr1, %hfr1, HG1⟩, HY1⟩, ⟨⟨%fr2, %hfr2, HG2⟩, HY2⟩, ⟨⟨%fr3, %hfr3, HG3⟩, HY3⟩⟩
  ihave Hx := (Entails.of_eq (SparseCore.bigSep_erase' (i := k) (Finset.mem_univ _))) $$ Hout
  icases Hx with ⟨⟨⟨%fo0, %hfo0, HO0⟩, ⟨%fo1, %hfo1, HO1⟩, ⟨%fo2, %hfo2, HO2⟩, ⟨%fo3, %hfo3, HO3⟩⟩, Hout⟩
  ihave Hout := (outs_step (F := F) d L G k 8 (by omega)) $$ Hout
  sl_unfold [Gen.k5_t1_body]
  sl_exec (disch := first | sl_exact hc1 | sl_exact hc2 | sl_exact hc3 | sl_exact hc4 | sl_exact hc5 | sl_exact hc6 | sl_exact hc7 | sl_exact hc8)
  sl_step
  isplitr; · iexact Hmw
  isplitl [HO]
  · iexists _; isplitr
    swap; · iexact HO
    ipureintro
    exact waits_ins (waits_ins (waits_ins (waits_ins (waits_ins (waits_ins (waits_ins (waits_ins hW' _) _) _) _) _) _) _) _
  isplitl [HW0 HW1 HW2 HW3]
  · isplitl [HW0]; · iexact HW0
    isplitl [HW1]; · iexact HW1
    isplitl [HW2]; · iexact HW2
    iexact HW3
  isplitl [Hout HO0 HO1 HO2 HO3]
  · iapply (Entails.of_eq (SparseCore.bigSep_erase' (i := k) (Finset.mem_univ _)).symm)
    isplitl [HO0 HO1 HO2 HO3]
    · isplitl [HO0]
      · iexists _; isplitr
        swap; · iexact HO0
        ipureintro
        exact fun _ => writes_whole_eq_on (outK0 L k).view fo0 G _ (fun x => (hfr0 x).trans (hG0 k (by omega) x).symm)
      isplitl [HO1]
      · iexists _; isplitr
        swap; · iexact HO1
        ipureintro
        exact fun _ => writes_whole_eq_on (outK1 L k).view fo1 G _ (fun x => (hfr1 x).trans (hG1 k (by omega) x).symm)
      isplitl [HO2]
      · iexists _; isplitr
        swap; · iexact HO2
        ipureintro
        exact fun _ => writes_whole_eq_on (outK2 L k).view fo2 G _ (fun x => (hfr2 x).trans (hG2 k (by omega) x).symm)
      iexists _; isplitr
      swap; · iexact HO3
      ipureintro
      exact fun _ => writes_whole_eq_on (outK3 L k).view fo3 G _ (fun x => (hfr3 x).trans (hG3 k (by omega) x).symm)
    iexact Hout
  isplitl [Hrows HG0_dst_and HG1_dst_and HG2_dst_and HG3_dst_and]
  · iapply (idle_last (F := F) k.val hk (fun j => rowPts d L j fvc) (by omega) (by omega) (by omega) (by omega))
    isplitl [Hrows]; · iexact Hrows
    isplitl [HG0_dst_and]; · iexact HG0_dst_and
    isplitl [HG1_dst_and]; · iexact HG1_dst_and
    isplitl [HG2_dst_and]; · iexact HG2_dst_and
    iexact HG3_dst_and
  isplitl [HG0_dst HG0 HY0]
  · isplitl [HG0_dst]; · iexists _; iexact HG0_dst
    isplitl [HG0]; · iexact HG0
    iexact HY0
  isplitl [HG1_dst HG1 HY1]
  · isplitl [HG1_dst]; · iexists _; iexact HG1_dst
    isplitl [HG1]; · iexact HG1
    iexact HY1
  isplitl [HG2_dst HG2 HY2]
  · isplitl [HG2_dst]; · iexists _; iexact HG2_dst
    isplitl [HG2]; · iexact HG2
    iexact HY2
  isplitl [HG3_dst]; · iexists _; iexact HG3_dst
  isplitl [HG3]; · iexact HG3
  iexact HY3

/-! ## The loop's invariant with contents, and the whole body -/

/-- What the loop holds before trip k: the gathers of trip k in flight while there is a trip k, nothing after; the
    chunks of the trips done at the gathered array. -/
def invV (d : Dev nD) (L : grid5.Coords) (q : PosShare TreeShare) (O : CellTallies nD τ sig (HIx 4)) (W : Waits sig (HIx 4))
    (fy : Buf (Elt F) ((yV).view.loc (thrV d L))) (fvc : Buf (Elt F) ((ivV).view.loc (thrV d L)))
    (hrowc : ∀ (off : Fin 2 → ℕ) (hk : ∀ a, off a + S1x128.size a ≤ S32x128.size a) (x : S128.Idx),
      (View.read (Elt F) (idxRowAt off hk).view fvc x).toNat < 8192)
    (G : Buf (Elt F) (oLoc2 d)) (k : ℕ) : Unit → sProp 𝕄 :=
  fun _ => if h : k < 8 then invAV d L q O W fy fvc hrowc G k h else invEndV d L q O W fy fvc G

theorem invV_lt (d : Dev nD) (L : grid5.Coords) (q : PosShare TreeShare) (O : CellTallies nD τ sig (HIx 4)) (W : Waits sig (HIx 4))
    (fy : Buf (Elt F) ((yV).view.loc (thrV d L))) (fvc : Buf (Elt F) ((ivV).view.loc (thrV d L)))
    (hrowc : ∀ (off : Fin 2 → ℕ) (hk : ∀ a, off a + S1x128.size a ≤ S32x128.size a) (x : S128.Idx),
      (View.read (Elt F) (idxRowAt off hk).view fvc x).toNat < 8192)
    (G : Buf (Elt F) (oLoc2 d)) (k : ℕ) (h : k < 8) :
    invV d L q O W fy fvc hrowc G k = fun _ => invAV d L q O W fy fvc hrowc G k h := by
  funext _; exact dif_pos h

theorem invV_ge (d : Dev nD) (L : grid5.Coords) (q : PosShare TreeShare) (O : CellTallies nD τ sig (HIx 4)) (W : Waits sig (HIx 4))
    (fy : Buf (Elt F) ((yV).view.loc (thrV d L))) (fvc : Buf (Elt F) ((ivV).view.loc (thrV d L)))
    (hrowc : ∀ (off : Fin 2 → ℕ) (hk : ∀ a, off a + S1x128.size a ≤ S32x128.size a) (x : S128.Idx),
      (View.read (Elt F) (idxRowAt off hk).view fvc x).toNat < 8192)
    (G : Buf (Elt F) (oLoc2 d)) (k : ℕ) (h : ¬ k < 8) :
    invV d L q O W fy fvc hrowc G k = fun _ => invEndV d L q O W fy fvc G := by
  funext _; exact dif_neg h

theorem invV_end (d : Dev nD) (L : grid5.Coords) (q : PosShare TreeShare) (O : CellTallies nD τ sig (HIx 4)) (W : Waits sig (HIx 4))
    (fy : Buf (Elt F) ((yV).view.loc (thrV d L))) (fvc : Buf (Elt F) ((ivV).view.loc (thrV d L)))
    (hrowc : ∀ (off : Fin 2 → ℕ) (hk : ∀ a, off a + S1x128.size a ≤ S32x128.size a) (x : S128.Idx),
      (View.read (Elt F) (idxRowAt off hk).view fvc x).toNat < 8192)
    (G : Buf (Elt F) (oLoc2 d)) :
    invV d L q O W fy fvc hrowc G (Scf.trips k5_t1_loop.lb k5_t1_loop.ub k5_t1_loop.st) = fun _ => invEndV d L q O W fy fvc G :=
  invV_ge d L q O W fy fvc hrowc G _ (by decide)

/-! ## The index equation of one chunk: the pieces, and the equation for any slot -/

omit [FloatOps F] in
/-- The local index buffer overwritten whole holds the payload, element by element. -/
theorem iv_written (d : Dev nD) (L : grid5.Coords) (g : Buf (Elt F) ((ivV).view.loc (thrV d L))) (pay : S32x128.Idx → Elt F .i32)
    (i : S32x128.Idx) : ((ivV).view.writes (Elt F) g [⟨Rect.whole cc5_scratch0.ty.shape, pay⟩]) i = pay i :=
  congrFun (View.read_writes_whole (ivV).view g pay) i

omit [FloatOps F] in
/-- Entry (a, b) of the tile's slab is entry (w, a, b) of the index array, w = 2·L₁ + L₀. -/
theorem slab_read (d : Dev nD) (L : grid5.Coords) (fi : Buf (Elt F) ((slabK L).view.loc (thrV d L))) (a : Fin 32) (b : Fin 128) :
    (slabK L).view.read (Elt F) fi (ValueIdx.ix2 a b)
      = fi (ValueIdx.ix3 (⟨2 * (L 1).val + (L 0).val, by have := L0_lt L; have := L1_lt L; omega⟩ : Fin 32) a b) := by
  rw [View.read_apply]
  show fi _ = fi _
  refine congrArg fi ?_
  have hre : Shape.reshapeEquiv (s := (Rect.unit (s := S32x32x128) (k5_off1 L) S1x32x128.size (k5_off1_inb L)).shape) (s' := S32x128)
      squeezes_S1x32x128_S32x128.numel_eq (ValueIdx.ix2 a b) = ValueIdx.ix3 (0 : Fin 1) a b :=
    Shape.reshapeEquiv_eq_of_rowMajor _ (by
      rw [Shape.rowMajor_val_three, Shape.rowMajor_val_two]
      show (0 * 32 + a.val) * 128 + b.val = a.val * 128 + b.val
      omega)
  show (Rect.unit (s := S32x32x128) (k5_off1 L) S1x32x128.size (k5_off1_inb L)).emb (Shape.reshapeEquiv _ (ValueIdx.ix2 a b)) = _
  rw [hre]
  have hoff := Gen.k5_off1_eq L
  funext c
  apply Fin.ext
  match c with
  | ⟨0, _⟩ => show k5_off1 L 0 + 1 * 0 = 2 * (L 1).val + (L 0).val; rw [hoff]; rfl
  | ⟨1, _⟩ => show k5_off1 L 1 + 1 * a.val = a.val; rw [hoff]; show 0 + 1 * a.val = a.val; omega
  | ⟨2, _⟩ => show k5_off1 L 2 + 1 * b.val = b.val; rw [hoff]; show 0 + 1 * b.val = b.val; omega

omit [FloatOps F] in
/-- Word p of list n of the local index buffer is the buffer's entry (n, p). -/
theorem list_read (d : Dev nD) (L : grid5.Coords) (fvc : Buf (Elt F) ((ivV).view.loc (thrV d L))) (n : ℕ) (hn : n < 32)
    (u : S128.Idx) (p : Fin 128) (hu : (u 0).val = p.val) :
    View.read (Elt F) (idxRowAt ![n, 0] (rowsInb n hn)).view fvc u = fvc (ValueIdx.ix2 (⟨n, hn⟩ : Fin 32) p) := by
  rw [View.read_apply]
  show fvc _ = fvc _
  refine congrArg fvc ?_
  have hre : Shape.reshapeEquiv (s := (Rect.unit (s := S32x128) ![n, 0] S1x128.size (rowsInb n hn)).shape) (s' := S128)
      squeezes_S1x128_S128.numel_eq u = ValueIdx.ix2 (0 : Fin 1) p :=
    Shape.reshapeEquiv_eq_of_rowMajor _ (by
      rw [Shape.rowMajor_val_two, Shape.rowMajor_val_one]
      show 0 * 128 + p.val = (u 0).val
      omega)
  show (Rect.unit (s := S32x128) ![n, 0] S1x128.size (rowsInb n hn)).emb (Shape.reshapeEquiv _ u) = _
  rw [hre]
  funext c
  apply Fin.ext
  match c with
  | ⟨0, _⟩ => show n + 1 * 0 = n; omega
  | ⟨1, _⟩ => show 0 + 1 * p.val = p.val; omega

omit [FloatOps F] in
/-- The index entry an output row reads, from the row's decomposition 4096·w + 128·n + p. -/
theorem srcIdx_of_val (e : Fin 131072) (w n : Fin 32) (p : Fin 128) (h : e.val = 4096 * w.val + 128 * n.val + p.val) :
    srcIdx e = ValueIdx.ix3 w n p := by
  have := w.isLt
  have := n.isLt
  have := p.isLt
  unfold srcIdx
  funext c
  apply Fin.ext
  match c with
  | ⟨0, _⟩ => show e.val / 4096 = w.val; omega
  | ⟨1, _⟩ => show e.val % 4096 / 128 = n.val; omega
  | ⟨2, _⟩ => show e.val % 128 = p.val; omega

set_option maxHeartbeats 4000000 in
omit [FloatOps F] in
/-- Chunk 4t + r of the tile's output rows, read off the gathered array, is the gather of list 4t + r of the local index
    buffer once that buffer holds the tile's slab: output row 4096·w + 128·(4t + r) + i reads index entry (w, 4t + r, i). -/
theorem gath_chunk_gen (d : Dev nD) (L : grid5.Coords) (fy : Buf (Elt F) ((yV).view.loc (thrV d L)))
    (fi : Buf (Elt F) ((slabK L).view.loc (thrV d L))) (hin : ∀ x, ((slabK L).view.read (Elt F) fi x).toNat < 8192)
    (g : Buf (Elt F) ((ivV).view.loc (thrV d L))) (pay : S32x128.Idx → Elt F .i32) (hpay : pay = (slabK L).view.read (Elt F) fi)
    (hrowc : ∀ (off : Fin 2 → ℕ) (hk : ∀ a, off a + S1x128.size a ≤ S32x128.size a) (x : S128.Idx),
      (View.read (Elt F) (idxRowAt off hk).view ((ivV).view.writes (Elt F) g [⟨Rect.whole cc5_scratch0.ty.shape, pay⟩]) x).toNat < 8192)
    (t : Fin k5_t1_loop.trips) (r : Fin 4) (ht : 4 * t.val + r.val < 32) (x : S128x128.Idx) :
    View.read (Elt F) ((oV).slice (Rect.unit (s := S131072x128) (k5_off3 L t (BitVec.ofNat 32 r.val)) S128x128.size (k5_off3_inb L t r)) (fun _ => rfl)).view (gathF d fy fi) x
      = rowBuf d L fy ((ivV).view.writes (Elt F) g [⟨Rect.whole cc5_scratch0.ty.shape, pay⟩]) hrowc ![4 * t.val + r.val, 0] (rowsInb _ ht) x := by
  have hL0 := L0_lt L
  have hL1 := L1_lt L
  obtain ⟨p, q, rfl⟩ : ∃ (p : Fin 128) (q : Fin 128), x = ValueIdx.ix2 p q := ⟨x 0, x 1, ValueIdx.eq_ix2 x⟩
  have hp := p.isLt
  have hoff := Gen.k5_off3_eq L t r
  have hr := r.isLt
  subst hpay
  -- the list word both sides read, and its bound
  have hw := hin (ValueIdx.ix2 (⟨4 * t.val + r.val, ht⟩ : Fin 32) p)
  rw [slab_read d L fi] at hw
  unfold rowBuf SparseCore.gatherPayload gathF
  rw [View.read_apply, View.read_apply]
  show fy _ = fy _
  refine congrArg fy (funext fun a => Fin.ext ?_)
  match a with
  | ⟨0, _⟩ =>
    show (fi (srcIdx _)).toNat % 8192 = 0 + 1 * (Shape.Gathers.idx Gen.gathers_S8192x128_S128x128 _ (ValueIdx.ix2 p q) Gen.gathers_S8192x128_S128x128.axis).val
    refine Eq.trans ?_ (congrArg (fun z : Fin (S8192x128.size Gen.gathers_S8192x128_S128x128.axis) => 0 + 1 * z.val)
      (Shape.Gathers.idx_axis Gen.gathers_S8192x128_S128x128 _ (ValueIdx.ix2 p q)).symm)
    show (fi (srcIdx _)).toNat % 8192 = 0 + 1 * (View.read (Elt F) (idxRowAt ![4 * t.val + r.val, 0] (rowsInb _ ht)).view _ _).toNat
    rw [list_read d L _ (4 * t.val + r.val) ht _ p (by
          show ((S128.rowMajor.symm (Fin.cast _ p)) 0).val = p.val
          rw [← Shape.rowMajor_val_one, Equiv.apply_symm_apply]
          rfl),
      iv_written d L, slab_read d L fi]
    have key : ∀ e : Fin 131072, e.val = 4096 * (2 * (L 1).val + (L 0).val) + 128 * (4 * t.val + r.val) + p.val →
        (fi (srcIdx e)).toNat % 8192
          = 0 + 1 * (fi (ValueIdx.ix3 (⟨2 * (L 1).val + (L 0).val, by omega⟩ : Fin 32) (⟨4 * t.val + r.val, ht⟩ : Fin 32) p)).toNat := by
      intro e he
      rw [srcIdx_of_val e (⟨2 * (L 1).val + (L 0).val, by omega⟩ : Fin 32) (⟨4 * t.val + r.val, ht⟩ : Fin 32) p he, Nat.mod_eq_of_lt hw]
      omega
    exact key _ (by
      show k5_off3 L t (BitVec.ofNat 32 r.val) 0 + 1 * p.val = _
      rw [hoff]
      show (8192 * (L 1).val + 4096 * (L 0).val + 512 * t.val + 128 * r.val) + 1 * p.val = _
      omega)
  | ⟨1, _⟩ =>
    have h2 : (k5_off3 L t (BitVec.ofNat 32 r.val)) 1 = 0 := by rw [hoff]; rfl
    show (k5_off3 L t (BitVec.ofNat 32 r.val)) 1 + 1 * q.val = 0 + 1 * (Shape.Gathers.idx Gen.gathers_S8192x128_S128x128 _ (ValueIdx.ix2 p q) 1).val
    rw [h2]
    exact congrArg (fun z => 0 + 1 * z) (Shape.Gathers.idx_of_ne Gen.gathers_S8192x128_S128x128 _ (ValueIdx.ix2 p q) 1 (by decide)).symm

/-! ## The index equation of one chunk, slot by slot -/

omit [FloatOps F] in
theorem gath_chunk0 (d : Dev nD) (L : grid5.Coords) (fy : Buf (Elt F) ((yV).view.loc (thrV d L)))
    (fi : Buf (Elt F) ((slabK L).view.loc (thrV d L))) (hin : ∀ x, ((slabK L).view.read (Elt F) fi x).toNat < 8192)
    (g : Buf (Elt F) ((ivV).view.loc (thrV d L))) (pay : S32x128.Idx → Elt F .i32) (hpay : pay = (slabK L).view.read (Elt F) fi)
    (hrowc : ∀ (off : Fin 2 → ℕ) (hk : ∀ a, off a + S1x128.size a ≤ S32x128.size a) (x : S128.Idx),
      (View.read (Elt F) (idxRowAt off hk).view ((ivV).view.writes (Elt F) g [⟨Rect.whole cc5_scratch0.ty.shape, pay⟩]) x).toNat < 8192)
    (t : Fin k5_t1_loop.trips) (ht : 4 * t.val + 0 < 32) (x : S128x128.Idx) :
    View.read (Elt F) (outK0 L t).view (gathF d fy fi) x
      = rowBuf d L fy ((ivV).view.writes (Elt F) g [⟨Rect.whole cc5_scratch0.ty.shape, pay⟩]) hrowc ![4 * t.val + 0, 0] (rowsInb _ ht) x := by
  exact gath_chunk_gen d L fy fi hin g pay hpay hrowc t 0 ht x

omit [FloatOps F] in
theorem gath_chunk1 (d : Dev nD) (L : grid5.Coords) (fy : Buf (Elt F) ((yV).view.loc (thrV d L)))
    (fi : Buf (Elt F) ((slabK L).view.loc (thrV d L))) (hin : ∀ x, ((slabK L).view.read (Elt F) fi x).toNat < 8192)
    (g : Buf (Elt F) ((ivV).view.loc (thrV d L))) (pay : S32x128.Idx → Elt F .i32) (hpay : pay = (slabK L).view.read (Elt F) fi)
    (hrowc : ∀ (off : Fin 2 → ℕ) (hk : ∀ a, off a + S1x128.size a ≤ S32x128.size a) (x : S128.Idx),
      (View.read (Elt F) (idxRowAt off hk).view ((ivV).view.writes (Elt F) g [⟨Rect.whole cc5_scratch0.ty.shape, pay⟩]) x).toNat < 8192)
    (t : Fin k5_t1_loop.trips) (ht : 4 * t.val + 1 < 32) (x : S128x128.Idx) :
    View.read (Elt F) (outK1 L t).view (gathF d fy fi) x
      = rowBuf d L fy ((ivV).view.writes (Elt F) g [⟨Rect.whole cc5_scratch0.ty.shape, pay⟩]) hrowc ![4 * t.val + 1, 0] (rowsInb _ ht) x := by
  exact gath_chunk_gen d L fy fi hin g pay hpay hrowc t 1 ht x

omit [FloatOps F] in
theorem gath_chunk2 (d : Dev nD) (L : grid5.Coords) (fy : Buf (Elt F) ((yV).view.loc (thrV d L)))
    (fi : Buf (Elt F) ((slabK L).view.loc (thrV d L))) (hin : ∀ x, ((slabK L).view.read (Elt F) fi x).toNat < 8192)
    (g : Buf (Elt F) ((ivV).view.loc (thrV d L))) (pay : S32x128.Idx → Elt F .i32) (hpay : pay = (slabK L).view.read (Elt F) fi)
    (hrowc : ∀ (off : Fin 2 → ℕ) (hk : ∀ a, off a + S1x128.size a ≤ S32x128.size a) (x : S128.Idx),
      (View.read (Elt F) (idxRowAt off hk).view ((ivV).view.writes (Elt F) g [⟨Rect.whole cc5_scratch0.ty.shape, pay⟩]) x).toNat < 8192)
    (t : Fin k5_t1_loop.trips) (ht : 4 * t.val + 2 < 32) (x : S128x128.Idx) :
    View.read (Elt F) (outK2 L t).view (gathF d fy fi) x
      = rowBuf d L fy ((ivV).view.writes (Elt F) g [⟨Rect.whole cc5_scratch0.ty.shape, pay⟩]) hrowc ![4 * t.val + 2, 0] (rowsInb _ ht) x := by
  exact gath_chunk_gen d L fy fi hin g pay hpay hrowc t 2 ht x

omit [FloatOps F] in
theorem gath_chunk3 (d : Dev nD) (L : grid5.Coords) (fy : Buf (Elt F) ((yV).view.loc (thrV d L)))
    (fi : Buf (Elt F) ((slabK L).view.loc (thrV d L))) (hin : ∀ x, ((slabK L).view.read (Elt F) fi x).toNat < 8192)
    (g : Buf (Elt F) ((ivV).view.loc (thrV d L))) (pay : S32x128.Idx → Elt F .i32) (hpay : pay = (slabK L).view.read (Elt F) fi)
    (hrowc : ∀ (off : Fin 2 → ℕ) (hk : ∀ a, off a + S1x128.size a ≤ S32x128.size a) (x : S128.Idx),
      (View.read (Elt F) (idxRowAt off hk).view ((ivV).view.writes (Elt F) g [⟨Rect.whole cc5_scratch0.ty.shape, pay⟩]) x).toNat < 8192)
    (t : Fin k5_t1_loop.trips) (ht : 4 * t.val + 3 < 32) (x : S128x128.Idx) :
    View.read (Elt F) (outK3 L t).view (gathF d fy fi) x
      = rowBuf d L fy ((ivV).view.writes (Elt F) g [⟨Rect.whole cc5_scratch0.ty.shape, pay⟩]) hrowc ![4 * t.val + 3, 0] (rowsInb _ ht) x := by
  exact gath_chunk_gen d L fy fi hin g pay hpay hrowc t 3 ht x

/-! ## The body from the tile's own spellings, with contents -/

set_option maxHeartbeats 4000000 in
/-- The body on tile (L 0, L 1) of device d, from the tile's own spellings of what it holds: four read shares of y, its
    slab of the index array with every word a row number of y, its 32 output chunks, its local index buffer, its four
    row buffers, its nine semaphores at zero. It ends with the same, the output chunks at the gathered array, the local
    buffers at some contents. -/
theorem gk_core_val (d : Dev nD) (L : grid5.Coords) (q : PosShare TreeShare)
    (O : CellTallies nD τ sig (HIx 4)) (W : Waits sig (HIx 4))
    (fy : Buf (Elt F) ((yV).view.loc (thrV d L))) (fi : Buf (Elt F) ((slabK L).view.loc (thrV d L)))
    (fv : Buf (Elt F) ((ivV).view.loc (thrV d L)))
    (f0 : Buf (Elt F) ((r0V).view.loc (thrV d L))) (f1 : Buf (Elt F) ((r1V).view.loc (thrV d L)))
    (f2 : Buf (Elt F) ((r2V).view.loc (thrV d L))) (f3 : Buf (Elt F) ((r3V).view.loc (thrV d L)))
    (hin : ∀ x, ((slabK L).view.read (Elt F) fi x).toNat < 8192) :
    (iprop(Transfers.MayWaits (thrV d L) (default : HIx 4) O
        ∗ heldW d L yV (Transfers.shareTokN q 47) fy ∗ heldW d L yV (Transfers.shareTokN q 48) fy
        ∗ heldW d L yV (Transfers.shareTokN q 49) fy ∗ heldW d L yV (Transfers.shareTokN q 50) fy
        ∗ heldW d L (slabK L) fullShare fi
        ∗ heldW d L ivV fullShare fv
        ∗ heldW d L r0V fullShare f0 ∗ heldW d L r1V fullShare f1 ∗ heldW d L r2V fullShare f2 ∗ heldW d L r3V fullShare f3
        ∗ cellZ d L cc5_scratch5 ∗ cellZ d L cc5_scratch6 ∗ cellZ d L cc5_scratch7 ∗ cellZ d L cc5_scratch8
        ∗ cellZ d L cc5_scratch9 ∗ cellZ d L cc5_scratch10 ∗ cellZ d L cc5_scratch11 ∗ cellZ d L cc5_scratch12
        ∗ cellZ d L cc5_scoped0
        ∗ bigSep Finset.univ (outTrip d L)
        ∗ owes (thrV d L) O W) : sProp 𝕄)
      ⊢ wp frame (wpE (defs₀ (F := F)) 𝒱₀ (thrV d L) none) Set.univ
          (cc5_gk L yV (Memref.isWhole_whole _) ixV (Memref.isWhole_whole _) oV (Memref.isWhole_whole _)
            ivV (Memref.isWhole_whole _) r0V (Memref.isWhole_whole _) r1V (Memref.isWhole_whole _)
            r2V (Memref.isWhole_whole _) r3V (Memref.isWhole_whole _)
            cc5_scratch5 cc5_scratch6 cc5_scratch7 cc5_scratch8 cc5_scratch9 cc5_scratch10 cc5_scratch11 cc5_scratch12 cc5_scoped0)
          fun _ => iprop(heldW d L yV (Transfers.shareTokN q 47) fy ∗ heldW d L yV (Transfers.shareTokN q 48) fy
            ∗ heldW d L yV (Transfers.shareTokN q 49) fy ∗ heldW d L yV (Transfers.shareTokN q 50) fy
            ∗ heldW d L (slabK L) fullShare fi
            ∗ (∃ f, heldW d L ivV fullShare f)
            ∗ (∃ f, heldW d L r0V fullShare f) ∗ (∃ f, heldW d L r1V fullShare f) ∗ (∃ f, heldW d L r2V fullShare f) ∗ (∃ f, heldW d L r3V fullShare f)
            ∗ cellZ d L cc5_scratch5 ∗ cellZ d L cc5_scratch6 ∗ cellZ d L cc5_scratch7 ∗ cellZ d L cc5_scratch8
            ∗ cellZ d L cc5_scratch9 ∗ cellZ d L cc5_scratch10 ∗ cellZ d L cc5_scratch11 ∗ cellZ d L cc5_scratch12
            ∗ cellZ d L cc5_scoped0
            ∗ bigSep Finset.univ (outTripG d L (gathF d fy fi))
            ∗ ∃ W', ⌜∀ p ∈ W', p ∈ W ∨ p.2 = none⌝ ∗ owes (thrV d L) O W') := by
  rw [Gen.cc5_gk_eq_skeleton]
  iintro ⟨#Hmw, HY0, HY1, HY2, HY3, HI, HV, HR0, HR1, HR2, HR3, HG0, HG1, HG2, HG3, HW0, HW1, HW2, HW3, HS, Hout, HO⟩
  sl_unfold [Gen.cc5_gk_skel, k5_part3]
  -- the slab lands in the local index buffer (one copy, awaited); the run stops before the first gather
  sl_exec
  -- whatever the buffer held before, every word of every list is now a word of the slab
  have hrow := fun g off hk => hin_rows d L fi hin g (gk_core_val.sl.dma0 d L fi) rfl off hk
  -- the buffer as its 32 lists; lists 0 … 3, spelt as the first four gathers slice them
  ihave Hrows := (Entails.of_eq (iv_rows (F := F) d L _)) $$ HV
  ihave Hx := (Entails.of_eq (SparseCore.bigSep_erase' (s := Finset.univ) (i := (0 : Fin 32)) (Finset.mem_univ _))) $$ Hrows
  icases Hx with ⟨Hl0, Hrows⟩
  ihave Hx := (Entails.of_eq (SparseCore.bigSep_erase' (i := (1 : Fin 32)) (by decide))) $$ Hrows
  icases Hx with ⟨Hl1, Hrows⟩
  ihave Hx := (Entails.of_eq (SparseCore.bigSep_erase' (i := (2 : Fin 32)) (by decide))) $$ Hrows
  icases Hx with ⟨Hl2, Hrows⟩
  ihave Hx := (Entails.of_eq (SparseCore.bigSep_erase' (i := (3 : Fin 32)) (by decide))) $$ Hrows
  icases Hx with ⟨Hl3, Hrows⟩
  ihave Hl0' := (Entails.of_eq (rowPts_at (F := F) d L 0 ![0, 0] inb_S32x128_S1x128_0_0 rfl _)) $$ Hl0
  ihave Hl1' := (Entails.of_eq (rowPts_at (F := F) d L 1 ![1, 0] inb_S32x128_S1x128_1_0 rfl _)) $$ Hl1
  ihave Hl2' := (Entails.of_eq (rowPts_at (F := F) d L 2 ![2, 0] inb_S32x128_S1x128_2_0 rfl _)) $$ Hl2
  ihave Hl3' := (Entails.of_eq (rowPts_at (F := F) d L 3 ![3, 0] inb_S32x128_S1x128_3_0 rfl _)) $$ Hl3
  -- the four gathers issue; the run stops at the loop
  sl_exec
  have hG0 := gath_chunk0 d L fy fi hin (ivV).view.junk (gk_core_val.sl.dma0 d L fi) rfl (hrow _)
  have hG1 := gath_chunk1 d L fy fi hin (ivV).view.junk (gk_core_val.sl.dma0 d L fi) rfl (hrow _)
  have hG2 := gath_chunk2 d L fy fi hin (ivV).view.junk (gk_core_val.sl.dma0 d L fi) rfl (hrow _)
  have hG3 := gath_chunk3 d L fy fi hin (ivV).view.junk (gk_core_val.sl.dma0 d L fi) rfl (hrow _)
  ihave Hout := (outs_start (F := F) d L (gathF d fy fi)) $$ Hout
  sl_for (invV d L q O W fy ((ivV).view.writes (Elt F) (ivV).view.junk [⟨Rect.whole cc5_scratch0.ty.shape, gk_core_val.sl.dma0 d L fi⟩]) (hrow _) (gathF d fy fi))
    $$ [HO HW0 HW1 HW2 HW3 Hout Hrows HG0 HY0 HG1 HY1 HG2 HY2 HG3 HY3]
  · -- one trip
    intro k acc
    have hk8 : k.val < 8 := trips_eq ▸ k.isLt
    rcases Nat.lt_or_ge k.val 7 with h7 | h7
    · rw [invV_lt (h := hk8), invV_lt (k := k.val + 1) (h := by omega)]
      exact gk_tripA_val d L q O W fy _ (hrow _) (gathF d fy fi) hG0 hG1 hG2 hG3 _ _ _ k h7 acc
    · rw [invV_lt (h := hk8), invV_ge (k := k.val + 1) (h := by omega)]
      exact gk_tripB_val d L q O W fy _ (hrow _) (gathF d fy fi) hG0 hG1 hG2 hG3 _ _ _ k (by omega) acc
  · -- the invariant before the first trip
    rw [invV_lt (k := 0) (h := by omega)]
    beta_reduce
    unfold invAV gFlight yRest
    isplitr; · iexact Hmw
    isplitl [HO]
    · iexists _; isplitr
      swap; · iexact HO
      ipureintro
      exact waits_ins (fun p hp => .inl hp) _
    isplitl [HW0 HW1 HW2 HW3]
    · isplitl [HW0]; · iexact HW0
      isplitl [HW1]; · iexact HW1
      isplitl [HW2]; · iexact HW2
      iexact HW3
    isplitl [Hout]; · iexact Hout
    isplitl [Hrows]; · rw [idle_zero]; iexact Hrows
    isplitl [HG0 HY0]
    · isplitl [HG0]
      · iexists _; isplitr
        swap; · iexact HG0
        ipureintro
        exact rb_issue d L fy _ (hrow _) r0V _ ![0, 0] inb_S32x128_S1x128_0_0 (4 * 0 + 0) (by omega) rfl
      iexact HY0
    isplitl [HG1 HY1]
    · isplitl [HG1]
      · iexists _; isplitr
        swap; · iexact HG1
        ipureintro
        exact rb_issue d L fy _ (hrow _) r1V _ ![1, 0] inb_S32x128_S1x128_1_0 (4 * 0 + 1) (by omega) rfl
      iexact HY1
    isplitl [HG2 HY2]
    · isplitl [HG2]
      · iexists _; isplitr
        swap; · iexact HG2
        ipureintro
        exact rb_issue d L fy _ (hrow _) r2V _ ![2, 0] inb_S32x128_S1x128_2_0 (4 * 0 + 2) (by omega) rfl
      iexact HY2
    isplitl [HG3]
    · iexists _; isplitr
      swap; · iexact HG3
      ipureintro
      exact rb_issue d L fy _ (hrow _) r3V _ ![3, 0] inb_S32x128_S1x128_3_0 (4 * 0 + 3) (by omega) rfl
    iexact HY3
  -- after the loop
  iintro %acc HL
  rw [invV_end]
  beta_reduce
  unfold invEndV
  icases HL with ⟨-, ⟨%W', %hW', HO⟩, ⟨HW0, HW1, HW2, HW3⟩, Hout, Hrows, ⟨⟨%fr0, HR0⟩, HG0, HY0⟩, ⟨⟨%fr1, HR1⟩, HG1, HY1⟩, ⟨⟨%fr2, HR2⟩, HG2, HY2⟩, ⟨⟨%fr3, HR3⟩, HG3, HY3⟩⟩
  sl_exec
  sl_step
  isplitl [HY0]; · iexact HY0
  isplitl [HY1]; · iexact HY1
  isplitl [HY2]; · iexact HY2
  isplitl [HY3]; · iexact HY3
  isplitl [HI]; · iexact HI
  isplitl [Hrows]
  · iexists _
    iapply (Entails.of_eq (iv_rows (F := F) d L _).symm)
    iexact Hrows
  isplitl [HR0]; · iexists _; iexact HR0
  isplitl [HR1]; · iexists _; iexact HR1
  isplitl [HR2]; · iexists _; iexact HR2
  isplitl [HR3]; · iexists _; iexact HR3
  isplitl [HG0]; · iexact HG0
  isplitl [HG1]; · iexact HG1
  isplitl [HG2]; · iexact HG2
  isplitl [HG3]; · iexact HG3
  isplitl [HW0]; · iexact HW0
  isplitl [HW1]; · iexact HW1
  isplitl [HW2]; · iexact HW2
  isplitl [HW3]; · iexact HW3
  isplitl [HS]; · iexact HS
  isplitl [Hout]; · iapply (outs_end (F := F) d L (gathF d fy fi)); iexact Hout
  iexists _; isplitr
  swap; · iexact HO
  ipureintro; exact hW'

/-! ## The body from what the launch hands the tile, with contents -/

set_option maxHeartbeats 4000000 in
/-- The body on tile (L 0, L 1) of device d from the worker's share with contents — a share of y at C.y, its slab of
    the index array at C.ix2 with every word a row number of y, its 4096 rows of the output — and the tile's scoped
    storage; it hands the same back, the output rows at the gather of y's rows by the slab, the local buffers at some
    contents, owing what it owed. -/
theorem gk_body_val (hF : (K (F := F)).Facts) (C : Conts F) (d : Dev nD) (L : grid5.Coords)
    (hinC : ∀ j, (C.ix2 d j).toNat < 8192)
    (O : CellTallies nD τ sig (HIx 4)) (W : Waits sig (HIx 4)) (hO : ∀ g, O g none = 0) :
    (iprop(levAts (K (F := F)).L (K (F := F)).lev ∗ shareIn2 C d (widL L)
        ∗ scopedBufs (thrV d L) ∗ scopedSems0 (thrV d L) ∗ owes (thrV d L) O W) : sProp 𝕄)
      ⊢ wp frame (wpE (defs₀ (F := F)) 𝒱₀ (thrV d L) none) Set.univ
          (cc5_gk L yV (Memref.isWhole_whole _) ixV (Memref.isWhole_whole _) oV (Memref.isWhole_whole _)
            ivV (Memref.isWhole_whole _) r0V (Memref.isWhole_whole _) r1V (Memref.isWhole_whole _)
            r2V (Memref.isWhole_whole _) r3V (Memref.isWhole_whole _)
            cc5_scratch5 cc5_scratch6 cc5_scratch7 cc5_scratch8 cc5_scratch9 cc5_scratch10 cc5_scratch11 cc5_scratch12 cc5_scoped0)
          fun _ => iprop(shareOut2 C d (widL L) ∗ scopedBufs (thrV d L) ∗ scopedSems0 (thrV d L)
            ∗ ∃ W', ⌜∀ p ∈ W', p ∈ W ∨ p.2 = none⌝ ∗ owes (thrV d L) O W') := by
  rw [(K (F := F)).scopedBufs_V hF d (cV L) (jV L), SparseCore.Cfg.scopedSems0_V (Val := Elt F) d (cV L) (jV L), tile_sems, tile_bufs]
  unfold shareIn2 shareOut2
  iintro ⟨#Hlv, ⟨HY, HI, ⟨%fo, HOut⟩⟩, ⟨⟨%fv, HV⟩, ⟨%f0, HR0⟩, ⟨%f1, HR1⟩, ⟨%f2, HR2⟩, ⟨%f3, HR3⟩, Hbufs⟩, ⟨HG0, HG1, HG2, HG3, HW0, HW1, HW2, HW3, HS, Hsems⟩, HO⟩
  ihave Hmw := (show levAts (K (F := F)).L (K (F := F)).lev ⊢ Transfers.MayWaits (thrV d L) (default : HIx 4) O from
    (K (F := F)).mayWaits_none (thr := thrV d L) hO) $$ Hlv
  -- the share of y as the four gathers' read shares and the rest
  ihave HYs := (y_toks (F := F) (yLoc d) (ysh (widL L)) (C.y d)).1 $$ HY
  icases HYs with ⟨HY0, HY1, HY2, HY3, Hkeep⟩
  ihave KY0 := (Entails.of_eq (pts_yV (F := F) d L _ (C.y d)).symm) $$ HY0
  ihave KY1 := (Entails.of_eq (pts_yV (F := F) d L _ (C.y d)).symm) $$ HY1
  ihave KY2 := (Entails.of_eq (pts_yV (F := F) d L _ (C.y d)).symm) $$ HY2
  ihave KY3 := (Entails.of_eq (pts_yV (F := F) d L _ (C.y d)).symm) $$ HY3
  -- the slab, the output rows as 32 chunks, the five local buffers, in the tile's spellings
  ihave KI := (Entails.of_eq (pts_slabK (F := F) d L (C.ix2 d)).symm) $$ HI
  ihave KOut := (out_split (F := F) d L fo) $$ HOut
  ihave KV := (Entails.of_eq (pts_whole (F := F) d L cc5_scratch0 fullShare fv).symm) $$ HV
  ihave KR0 := (Entails.of_eq (pts_whole (F := F) d L cc5_scratch1 fullShare f0).symm) $$ HR0
  ihave KR1 := (Entails.of_eq (pts_whole (F := F) d L cc5_scratch2 fullShare f1).symm) $$ HR1
  ihave KR2 := (Entails.of_eq (pts_whole (F := F) d L cc5_scratch3 fullShare f2).symm) $$ HR2
  ihave KR3 := (Entails.of_eq (pts_whole (F := F) d L cc5_scratch4 fullShare f3).symm) $$ HR3
  iapply (wp_wand_r frame (wpE (defs₀ (F := F)) 𝒱₀ (thrV d L) none) Set.univ)
  isplitl [Hmw KY0 KY1 KY2 KY3 KI KV KR0 KR1 KR2 KR3 HG0 HG1 HG2 HG3 HW0 HW1 HW2 HW3 HS KOut HO]
  · iapply (gk_core_val d L (ysh (widL L)) O W (C.y d) (C.ix2 d) fv f0 f1 f2 f3 (hin_slabK d L (C.ix2 d) (fun j _ => hinC j)))
    isplitl [Hmw]; · iexact Hmw
    isplitl [KY0]; · iexact KY0
    isplitl [KY1]; · iexact KY1
    isplitl [KY2]; · iexact KY2
    isplitl [KY3]; · iexact KY3
    isplitl [KI]; · iexact KI
    isplitl [KV]; · iexact KV
    isplitl [KR0]; · iexact KR0
    isplitl [KR1]; · iexact KR1
    isplitl [KR2]; · iexact KR2
    isplitl [KR3]; · iexact KR3
    isplitl [HG0]; · iexact HG0
    isplitl [HG1]; · iexact HG1
    isplitl [HG2]; · iexact HG2
    isplitl [HG3]; · iexact HG3
    isplitl [HW0]; · iexact HW0
    isplitl [HW1]; · iexact HW1
    isplitl [HW2]; · iexact HW2
    isplitl [HW3]; · iexact HW3
    isplitl [HS]; · iexact HS
    isplitl [KOut]; · iexact KOut
    iexact HO
  iintro %a ⟨HY0, HY1, HY2, HY3, HI, ⟨%gv, HV⟩, ⟨%g0, HR0⟩, ⟨%g1, HR1⟩, ⟨%g2, HR2⟩, ⟨%g3, HR3⟩, HG0, HG1, HG2, HG3, HW0, HW1, HW2, HW3, HS, HOut, HO⟩
  isplitl [HY0 HY1 HY2 HY3 Hkeep HI HOut]
  · isplitl [HY0 HY1 HY2 HY3 Hkeep]
    · iapply (y_toks (F := F) (yLoc d) (ysh (widL L)) (C.y d)).2
      isplitl [HY0]; · iapply (Entails.of_eq (pts_yV (F := F) d L _ (C.y d))); iexact HY0
      isplitl [HY1]; · iapply (Entails.of_eq (pts_yV (F := F) d L _ (C.y d))); iexact HY1
      isplitl [HY2]; · iapply (Entails.of_eq (pts_yV (F := F) d L _ (C.y d))); iexact HY2
      isplitl [HY3]; · iapply (Entails.of_eq (pts_yV (F := F) d L _ (C.y d))); iexact HY3
      iexact Hkeep
    isplitl [HI]
    · iapply (Entails.of_eq (pts_slabK (F := F) d L (C.ix2 d))); iexact HI
    iapply (out_joinG (F := F) d L (gathF d (C.y d) (C.ix2 d))); iexact HOut
  isplitl [HV HR0 HR1 HR2 HR3 Hbufs]
  · isplitl [HV]; · iexists gv; iapply (Entails.of_eq (pts_whole (F := F) d L cc5_scratch0 fullShare gv)); iexact HV
    isplitl [HR0]; · iexists g0; iapply (Entails.of_eq (pts_whole (F := F) d L cc5_scratch1 fullShare g0)); iexact HR0
    isplitl [HR1]; · iexists g1; iapply (Entails.of_eq (pts_whole (F := F) d L cc5_scratch2 fullShare g1)); iexact HR1
    isplitl [HR2]; · iexists g2; iapply (Entails.of_eq (pts_whole (F := F) d L cc5_scratch3 fullShare g2)); iexact HR2
    isplitl [HR3]; · iexists g3; iapply (Entails.of_eq (pts_whole (F := F) d L cc5_scratch4 fullShare g3)); iexact HR3
    iexact Hbufs
  isplitl [HG0 HG1 HG2 HG3 HW0 HW1 HW2 HW3 HS Hsems]
  · isplitl [HG0]; · iexact HG0
    isplitl [HG1]; · iexact HG1
    isplitl [HG2]; · iexact HG2
    isplitl [HG3]; · iexact HG3
    isplitl [HW0]; · iexact HW0
    isplitl [HW1]; · iexact HW1
    isplitl [HW2]; · iexact HW2
    isplitl [HW3]; · iexact HW3
    isplitl [HS]; · iexact HS
    iexact Hsems
  iexact HO

end Cert.KernelIdeal.Sc.GatherV2

end
-- ==== Proof.GatherValue7.lean ====
/-
  The sparse-core gather body of the fourth call, with contents, for any float instance.

  Tile w copies its slab of the index array (32 lists of 128 row numbers) into its local index buffer and, list by
  list, gathers the named rows of y into a row buffer and copies the row buffer to 128 consecutive rows of the output.
  So afterwards row 4096·w + 128·j + r of the output holds row idx[w, j, r] of y, column by column: the tile's 4096
  output rows are the gather of y's rows by the tile's slab. Nothing is computed; the claim is an equation of indices.
-/
import proofs.«215235_g2774548873965_cont_9to1_572_34_alg».proof.Proof.GatherBody7
import proofs.«215235_g2774548873965_cont_9to1_572_34_alg».proof.Proof.ScPayV

noncomputable section

namespace Cert.KernelIdeal.Sc.GatherV3

open Cert.KernelIdeal
open Cert.KernelIdeal.Facts₀ Cert.KernelIdeal.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ
open Cert.KernelIdeal.Sc.Gather3

local notation "yV" => (Memref.whole Cert.KernelIdeal.main_v1_scv : Memref Cert.KernelIdeal.sig Kind.scVector Space.hbm Cert.KernelIdeal.S8192x128 EltTy.f32)
local notation "ixV" => (Memref.whole Cert.KernelIdeal.main_v31_scv : Memref Cert.KernelIdeal.sig Kind.scVector Space.hbm Cert.KernelIdeal.S32x32x128 EltTy.i32)
local notation "oV" => (Memref.whole Cert.KernelIdeal.main_v32_scv : Memref Cert.KernelIdeal.sig Kind.scVector Space.hbm Cert.KernelIdeal.S131072x128 EltTy.f32)
local notation "ivV" => (Memref.whole Cert.KernelIdeal.cc7_scratch0 : Memref Cert.KernelIdeal.sig Kind.scVector Space.vmem Cert.KernelIdeal.S32x128 EltTy.i32)
local notation "r0V" => (Memref.whole Cert.KernelIdeal.cc7_scratch1 : Memref Cert.KernelIdeal.sig Kind.scVector Space.vmem Cert.KernelIdeal.S128x128 EltTy.f32)
local notation "r1V" => (Memref.whole Cert.KernelIdeal.cc7_scratch2 : Memref Cert.KernelIdeal.sig Kind.scVector Space.vmem Cert.KernelIdeal.S128x128 EltTy.f32)
local notation "r2V" => (Memref.whole Cert.KernelIdeal.cc7_scratch3 : Memref Cert.KernelIdeal.sig Kind.scVector Space.vmem Cert.KernelIdeal.S128x128 EltTy.f32)
local notation "r3V" => (Memref.whole Cert.KernelIdeal.cc7_scratch4 : Memref Cert.KernelIdeal.sig Kind.scVector Space.vmem Cert.KernelIdeal.S128x128 EltTy.f32)
local notation "yAllK" => (Memref.slice (Memref.whole Cert.KernelIdeal.main_v1_scv : Memref Cert.KernelIdeal.sig Kind.scVector Space.hbm Cert.KernelIdeal.S8192x128 EltTy.f32) (Rect.unit (s := Cert.KernelIdeal.S8192x128) ![0, 0] Cert.KernelIdeal.S8192x128.size Cert.KernelIdeal.Facts₀.inb_S8192x128_S8192x128_0_0) (fun _ => rfl))

variable [FloatOps F]

/-! ## The gathered array, and a chunk held at it -/

omit [FloatOps F] in
/-- The output after the call as ONE function of y's contents and the index array's: row e is row idx[e] of y, the row
    number read modulo 8192 so that the function is total (every entry is below 8192 where it is used). -/
def gathF (d : Dev nD) (fy : Buf (Elt F) (yLoc d)) (fi : Buf (Elt F) (ixLoc3 d)) : Buf (Elt F) (oLoc3 d) :=
  fun i => fy (ValueIdx.ix2 (⟨(fi (srcIdx (i 0))).toNat % 8192, Nat.mod_lt _ (by decide)⟩ : Fin 8192) (i 1))

omit [FloatOps F] in
theorem gath3_eq (C : Conts F) (d : Dev nD) : gath3 C d = gathF d (C.y d) (C.ix3 d) := rfl

/-- The tile's four output chunks of trip t, each held at the one whole-array function G. -/
abbrev outTripG (d : Dev nD) (L : grid7.Coords) (G : Buf (Elt F) (oLoc3 d)) (t : Fin k7_t1_loop.trips) : sProp 𝕄 :=
  iprop(heldW d L (outK0 L t) fullShare G ∗ heldW d L (outK1 L t) fullShare G
    ∗ heldW d L (outK2 L t) fullShare G ∗ heldW d L (outK3 L t) fullShare G)

omit [FloatOps F] in
/-- The 32 chunks held at one function are the worker's 4096 rows held at it. -/
theorem out_joinG (d : Dev nD) (L : grid7.Coords) (G : Buf (Elt F) (oLoc3 d)) :
    bigSep Finset.univ (outTripG d L G) ⊢ (oLoc3 d ↦[(rowsRect (widL L)).set]{fullShare} G : sProp 𝕄) := by
  have step : ∀ t, outTripG d L G t ⊢ (oLoc3 d ↦[tripSet L t]{fullShare} G : sProp 𝕄) := by
    intro t
    iintro ⟨H0, H1, H2, H3⟩
    ihave K0 := (Entails.of_eq (pts_outK0 (F := F) d L t G)) $$ H0
    ihave K1 := (Entails.of_eq (pts_outK1 (F := F) d L t G)) $$ H1
    ihave K2 := (Entails.of_eq (pts_outK2 (F := F) d L t G)) $$ H2
    ihave K3 := (Entails.of_eq (pts_outK3 (F := F) d L t G)) $$ H3
    ihave H23 := (pointsTo_union (ℓ := oLoc3 d) (d23 L t)).2 $$ [K2 K3]
    · isplitl [K2]; · iexact K2
      iexact K3
    ihave H123 := (pointsTo_union (ℓ := oLoc3 d) (d1_23 L t)).2 $$ [K1 H23]
    · isplitl [K1]; · iexact K1
      iexact H23
    ihave H0123 := (pointsTo_union (ℓ := oLoc3 d) (d0_123 L t)).2 $$ [K0 H123]
    · isplitl [K0]; · iexact K0
      iexact H123
    iexact H0123
  rw [rows_cover]
  refine (bigSep_mono fun t _ => step t).trans ?_
  exact (Entails.of_eq (pointsTo_biUnion (ℓ := oLoc3 d) (q := fullShare) (f := G) Finset.univ (tripSet L) (fun t _ t' _ h => trip_disjoint L h)).symm)

/-! ## Reading a buffer written whole; a row buffer after its gather -/

omit [FloatOps F] in
/-- A buffer overwritten through a view by one whole-view piece agrees, on the view's elements, with any contents
    that read through the view as the piece. -/
theorem writes_whole_eq_on {κ : Kind} {sp : Space} {s : Shape} {e : EltTy} (v : View sig κ sp s e)
    (fo G : v.ty.Contents (Elt F)) (pay : s.Idx → Elt F e) (h : ∀ x, pay x = v.read (Elt F) G x) :
    ∀ i ∈ v.set, v.writes (Elt F) fo [⟨Rect.whole s, pay⟩] i = G i := by
  intro i hi
  have hi' : i ∈ Finset.univ.map v.emb := hi
  obtain ⟨x, -, rfl⟩ := Finset.mem_map.mp hi'
  have h1 := congrFun (View.read_writes_whole v fo pay) x
  rw [h x, View.read_apply, View.read_apply] at h1
  exact (cast_inj _).mp h1

/-- What the gather of the list at offsets `off` of the local index buffer delivers to a row buffer: at (r, f), y at
    (the row the list's word r names, f). -/
def rowBuf (d : Dev nD) (L : grid7.Coords) (fy : Buf (Elt F) ((yV).view.loc (thrV d L))) (fvc : Buf (Elt F) ((ivV).view.loc (thrV d L)))
    (hrowc : ∀ (off : Fin 2 → ℕ) (hk : ∀ a, off a + S1x128.size a ≤ S32x128.size a) (x : S128.Idx),
      (View.read (Elt F) (idxRowAt off hk).view fvc x).toNat < 8192)
    (off : Fin 2 → ℕ) (hk : ∀ a, off a + S1x128.size a ≤ S32x128.size a) : S128x128.Idx → Elt F .f32 :=
  SparseCore.gatherPayload Gen.gathers_S8192x128_S128x128 (View.read (Elt F) (yAllK).view fy)
    (SparseCore.rows (o := 128) (z := 8192) (View.read (Elt F) (idxRowAt off hk).view fvc) (by decide) (hrowc off hk))

/-- Row buffer rV holds the gather of list n. -/
def rbOK (d : Dev nD) (L : grid7.Coords) (fy : Buf (Elt F) ((yV).view.loc (thrV d L))) (fvc : Buf (Elt F) ((ivV).view.loc (thrV d L)))
    (hrowc : ∀ (off : Fin 2 → ℕ) (hk : ∀ a, off a + S1x128.size a ≤ S32x128.size a) (x : S128.Idx),
      (View.read (Elt F) (idxRowAt off hk).view fvc x).toNat < 8192)
    (rV : Memref sig .scVector .vmem S128x128 .f32) (n : ℕ) (hn : n < 32) (fr : Buf (Elt F) (rV.view.loc (thrV d L))) : Prop :=
  ∀ x, View.read (Elt F) rV.view fr x = rowBuf d L fy fvc hrowc ![n, 0] (rowsInb n hn) x

omit [FloatOps F] in
/-- A row buffer overwritten whole by the gather of the list at `off = (n, 0)` holds the gather of list n. -/
theorem rb_issue (d : Dev nD) (L : grid7.Coords) (fy : Buf (Elt F) ((yV).view.loc (thrV d L))) (fvc : Buf (Elt F) ((ivV).view.loc (thrV d L)))
    (hrowc : ∀ (off : Fin 2 → ℕ) (hk : ∀ a, off a + S1x128.size a ≤ S32x128.size a) (x : S128.Idx),
      (View.read (Elt F) (idxRowAt off hk).view fvc x).toNat < 8192)
    (rV : Memref sig .scVector .vmem S128x128 .f32) (fr0 : Buf (Elt F) (rV.view.loc (thrV d L)))
    (off : Fin 2 → ℕ) (hk : ∀ a, off a + S1x128.size a ≤ S32x128.size a) (n : ℕ) (hn : n < 32) (hoff : off = ![n, 0]) :
    rbOK d L fy fvc hrowc rV n hn (rV.view.writes (Elt F) fr0 [⟨Rect.whole S128x128, rowBuf d L fy fvc hrowc off hk⟩]) := by
  subst hoff
  intro x
  rw [View.read_writes_whole]

/-! ## The output chunks before trip k: those of the trips done are at the gathered array -/

/-- The tile's four output chunks of trip t before trip k: at some contents, which on the chunk are G's when t < k. -/
abbrev outTripV (d : Dev nD) (L : grid7.Coords) (G : Buf (Elt F) (oLoc3 d)) (k : ℕ) (t : Fin k7_t1_loop.trips) : sProp 𝕄 :=
  iprop((∃ f : Buf (Elt F) (oLoc3 d), ⌜t.val < k → ∀ i ∈ (outK0 L t).view.set, f i = G i⌝ ∗ heldW d L (outK0 L t) fullShare f)
    ∗ (∃ f : Buf (Elt F) (oLoc3 d), ⌜t.val < k → ∀ i ∈ (outK1 L t).view.set, f i = G i⌝ ∗ heldW d L (outK1 L t) fullShare f)
    ∗ (∃ f : Buf (Elt F) (oLoc3 d), ⌜t.val < k → ∀ i ∈ (outK2 L t).view.set, f i = G i⌝ ∗ heldW d L (outK2 L t) fullShare f)
    ∗ (∃ f : Buf (Elt F) (oLoc3 d), ⌜t.val < k → ∀ i ∈ (outK3 L t).view.set, f i = G i⌝ ∗ heldW d L (outK3 L t) fullShare f))

omit [FloatOps F] in
theorem outTripV_mono (d : Dev nD) (L : grid7.Coords) (G : Buf (Elt F) (oLoc3 d)) (k k' : ℕ) (t : Fin k7_t1_loop.trips)
    (h : t.val < k' → t.val < k) : outTripV d L G k t ⊢ outTripV d L G k' t := by
  iintro ⟨⟨%f0, %h0, H0⟩, ⟨%f1, %h1, H1⟩, ⟨%f2, %h2, H2⟩, ⟨%f3, %h3, H3⟩⟩
  isplitl [H0]
  · iexists f0; isplitr
    · ipureintro; exact fun hk => h0 (h hk)
    · iexact H0
  isplitl [H1]
  · iexists f1; isplitr
    · ipureintro; exact fun hk => h1 (h hk)
    · iexact H1
  isplitl [H2]
  · iexists f2; isplitr
    · ipureintro; exact fun hk => h2 (h hk)
    · iexact H2
  iexists f3; isplitr
  · ipureintro; exact fun hk => h3 (h hk)
  · iexact H3

omit [FloatOps F] in
/-- The chunks of the other trips, from before trip k to before trip k + 1. -/
theorem outs_step (d : Dev nD) (L : grid7.Coords) (G : Buf (Elt F) (oLoc3 d)) (k : Fin k7_t1_loop.trips) (k' : ℕ) (hk' : k' = k.val + 1) :
    bigSep (Finset.univ.erase k) (outTripV d L G k.val) ⊢ bigSep (Finset.univ.erase k) (outTripV d L G k') :=
  bigSep_mono fun t ht => outTripV_mono d L G _ _ t (fun h => by
    subst hk'
    have hne : t ≠ k := (Finset.mem_erase.mp ht).1
    have hv : t.val ≠ k.val := fun e => hne (Fin.ext e)
    omega)

omit [FloatOps F] in
/-- Before the first trip nothing is claimed of any chunk. -/
theorem outs_start (d : Dev nD) (L : grid7.Coords) (G : Buf (Elt F) (oLoc3 d)) :
    bigSep Finset.univ (outTrip d L) ⊢ bigSep Finset.univ (outTripV d L G 0) := by
  have step : ∀ t, outTrip d L t ⊢ outTripV d L G 0 t := by
    intro t
    iintro ⟨⟨%f0, H0⟩, ⟨%f1, H1⟩, ⟨%f2, H2⟩, ⟨%f3, H3⟩⟩
    isplitl [H0]
    · iexists f0; isplitr
      · ipureintro; exact fun hk => absurd hk (Nat.not_lt_zero _)
      · iexact H0
    isplitl [H1]
    · iexists f1; isplitr
      · ipureintro; exact fun hk => absurd hk (Nat.not_lt_zero _)
      · iexact H1
    isplitl [H2]
    · iexists f2; isplitr
      · ipureintro; exact fun hk => absurd hk (Nat.not_lt_zero _)
      · iexact H2
    iexists f3; isplitr
    · ipureintro; exact fun hk => absurd hk (Nat.not_lt_zero _)
    · iexact H3
  exact bigSep_mono fun t _ => step t

omit [FloatOps F] in
/-- After the last trip every chunk is at the gathered array. -/
theorem outs_end (d : Dev nD) (L : grid7.Coords) (G : Buf (Elt F) (oLoc3 d)) :
    bigSep Finset.univ (outTripV d L G 8) ⊢ bigSep Finset.univ (outTripG d L G) := by
  have step : ∀ t, outTripV d L G 8 t ⊢ outTripG d L G t := by
    intro t
    have ht : t.val < 8 := trips_eq ▸ t.isLt
    iintro ⟨⟨%f0, %h0, H0⟩, ⟨%f1, %h1, H1⟩, ⟨%f2, %h2, H2⟩, ⟨%f3, %h3, H3⟩⟩
    isplitl [H0]; · iapply (Entails.of_eq (pointsTo_congr (h0 ht))); iexact H0
    isplitl [H1]; · iapply (Entails.of_eq (pointsTo_congr (h1 ht))); iexact H1
    isplitl [H2]; · iapply (Entails.of_eq (pointsTo_congr (h2 ht))); iexact H2
    iapply (Entails.of_eq (pointsTo_congr (h3 ht))); iexact H3
  exact bigSep_mono fun t _ => step t

/-! ## What the loop holds before trip k, with contents -/

/-- Before trip k < 8: the four gathers of lists 4k … 4k + 3 in flight, every other list idle, the write semaphores at
    zero, the output chunks of the trips done at the gathered array,
    each gather's row buffer at the gather of its list. -/
def invAV (d : Dev nD) (L : grid7.Coords) (q : PosShare TreeShare) (O : CellTallies nD τ sig (HIx 4)) (W : Waits sig (HIx 4))
    (fy : Buf (Elt F) ((yV).view.loc (thrV d L))) (fvc : Buf (Elt F) ((ivV).view.loc (thrV d L)))
    (hrowc : ∀ (off : Fin 2 → ℕ) (hk : ∀ a, off a + S1x128.size a ≤ S32x128.size a) (x : S128.Idx),
      (View.read (Elt F) (idxRowAt off hk).view fvc x).toNat < 8192)
    (G : Buf (Elt F) (oLoc3 d)) (k : ℕ) (hk8 : k < 8) : sProp 𝕄 :=
  iprop(Transfers.MayWaits (thrV d L) (default : HIx 4) O
    ∗ (∃ W', ⌜∀ p ∈ W', p ∈ W ∨ p.2 = none⌝ ∗ owes (thrV d L) O W')
    ∗ (cellZ d L cc7_scratch9 ∗ cellZ d L cc7_scratch10 ∗ cellZ d L cc7_scratch11 ∗ cellZ d L cc7_scratch12)
    ∗ bigSep Finset.univ (outTripV d L G k)
    ∗ bigSep (idle k) (fun j => rowPts d L j fvc)
    ∗ ((∃ fr, ⌜rbOK d L fy fvc hrowc r0V (4 * k + 0) (by omega) fr⌝ ∗ gFlight d L q cc7_scratch5 68 r0V ![4 * k + 0, 0] (rowsInb _ (by omega)) fr fvc fy) ∗ yRest d L q 68 fy)
    ∗ ((∃ fr, ⌜rbOK d L fy fvc hrowc r1V (4 * k + 1) (by omega) fr⌝ ∗ gFlight d L q cc7_scratch6 69 r1V ![4 * k + 1, 0] (rowsInb _ (by omega)) fr fvc fy) ∗ yRest d L q 69 fy)
    ∗ ((∃ fr, ⌜rbOK d L fy fvc hrowc r2V (4 * k + 2) (by omega) fr⌝ ∗ gFlight d L q cc7_scratch7 70 r2V ![4 * k + 2, 0] (rowsInb _ (by omega)) fr fvc fy) ∗ yRest d L q 70 fy)
    ∗ ((∃ fr, ⌜rbOK d L fy fvc hrowc r3V (4 * k + 3) (by omega) fr⌝ ∗ gFlight d L q cc7_scratch8 71 r3V ![4 * k + 3, 0] (rowsInb _ (by omega)) fr fvc fy) ∗ yRest d L q 71 fy))

/-- After the last trip: nothing in flight; every list idle, the row buffers at some contents, every semaphore at
    zero, the four shares of y whole again, the 32 output chunks at the gathered array. -/
def invEndV (d : Dev nD) (L : grid7.Coords) (q : PosShare TreeShare) (O : CellTallies nD τ sig (HIx 4)) (W : Waits sig (HIx 4))
    (fy : Buf (Elt F) ((yV).view.loc (thrV d L))) (fvc : Buf (Elt F) ((ivV).view.loc (thrV d L)))
    (G : Buf (Elt F) (oLoc3 d)) : sProp 𝕄 :=
  iprop(Transfers.MayWaits (thrV d L) (default : HIx 4) O
    ∗ (∃ W', ⌜∀ p ∈ W', p ∈ W ∨ p.2 = none⌝ ∗ owes (thrV d L) O W')
    ∗ (cellZ d L cc7_scratch9 ∗ cellZ d L cc7_scratch10 ∗ cellZ d L cc7_scratch11 ∗ cellZ d L cc7_scratch12)
    ∗ bigSep Finset.univ (outTripV d L G 8)
    ∗ bigSep Finset.univ (fun j => rowPts d L j fvc)
    ∗ ((∃ fr, heldW d L r0V fullShare fr) ∗ cellZ d L cc7_scratch5 ∗ heldW d L yV (Transfers.shareTokN q 68) fy)
    ∗ ((∃ fr, heldW d L r1V fullShare fr) ∗ cellZ d L cc7_scratch6 ∗ heldW d L yV (Transfers.shareTokN q 69) fy)
    ∗ ((∃ fr, heldW d L r2V fullShare fr) ∗ cellZ d L cc7_scratch7 ∗ heldW d L yV (Transfers.shareTokN q 70) fy)
    ∗ ((∃ fr, heldW d L r3V fullShare fr) ∗ cellZ d L cc7_scratch8 ∗ heldW d L yV (Transfers.shareTokN q 71) fy))

/-! ## One trip -/

set_option maxHeartbeats 1000000 in
theorem gk_tripA_val (d : Dev nD) (L : grid7.Coords) (q : PosShare TreeShare) (O : CellTallies nD τ sig (HIx 4)) (W : Waits sig (HIx 4))
    (fy : Buf (Elt F) ((yV).view.loc (thrV d L))) (fvc : Buf (Elt F) ((ivV).view.loc (thrV d L)))
    (hrowc : ∀ (off : Fin 2 → ℕ) (hk : ∀ a, off a + S1x128.size a ≤ S32x128.size a) (x : S128.Idx),
      (View.read (Elt F) (idxRowAt off hk).view fvc x).toNat < 8192)
    (G : Buf (Elt F) (oLoc3 d))
    (hG0 : ∀ (t : Fin k7_t1_loop.trips) (ht : 4 * t.val + 0 < 32) (x : S128x128.Idx),
      View.read (Elt F) (outK0 L t).view G x = rowBuf d L fy fvc hrowc ![4 * t.val + 0, 0] (rowsInb _ ht) x)
    (hG1 : ∀ (t : Fin k7_t1_loop.trips) (ht : 4 * t.val + 1 < 32) (x : S128x128.Idx),
      View.read (Elt F) (outK1 L t).view G x = rowBuf d L fy fvc hrowc ![4 * t.val + 1, 0] (rowsInb _ ht) x)
    (hG2 : ∀ (t : Fin k7_t1_loop.trips) (ht : 4 * t.val + 2 < 32) (x : S128x128.Idx),
      View.read (Elt F) (outK2 L t).view G x = rowBuf d L fy fvc hrowc ![4 * t.val + 2, 0] (rowsInb _ ht) x)
    (hG3 : ∀ (t : Fin k7_t1_loop.trips) (ht : 4 * t.val + 3 < 32) (x : S128x128.Idx),
      View.read (Elt F) (outK3 L t).view G x = rowBuf d L fy fvc hrowc ![4 * t.val + 3, 0] (rowsInb _ ht) x)
    (v1 c0 c1 : BitVec 32) (k : Fin k7_t1_loop.trips) (hk : k.val < 7) (acc : Unit) :
    invAV d L q O W fy fvc hrowc G k.val (by omega)
      ⊢ wp frame (wpE (defs₀ (F := F)) 𝒱₀ (thrV d L) none) Set.univ
          (Gen.k7_t1_body L yV (Memref.isWhole_whole _) ixV (Memref.isWhole_whole _) oV (Memref.isWhole_whole _)
            ivV (Memref.isWhole_whole _) r0V (Memref.isWhole_whole _) r1V (Memref.isWhole_whole _)
            r2V (Memref.isWhole_whole _) r3V (Memref.isWhole_whole _)
            cc7_scratch5 cc7_scratch6 cc7_scratch7 cc7_scratch8 cc7_scratch9 cc7_scratch10 cc7_scratch11 cc7_scratch12 cc7_scoped0
            v1 c0 c1 k acc)
          fun _ => invAV d L q O W fy fvc hrowc G (k.val + 1) (by omega) := by
  obtain ⟨c1', c2', c3', c4', c5', c6', c7', c8'⟩ := conds k
  have hc1 : k7_cond1 k = 1#1 := c1'.mpr hk
  have hc2 : ¬ k7_cond2 k = 1#1 := fun h => (c2'.mp h) hk
  have hc3 : k7_cond3 k = 1#1 := c3'.mpr hk
  have hc4 : ¬ k7_cond4 k = 1#1 := fun h => (c4'.mp h) hk
  have hc5 : k7_cond5 k = 1#1 := c5'.mpr hk
  have hc6 : ¬ k7_cond6 k = 1#1 := fun h => (c6'.mp h) hk
  have hc7 : k7_cond7 k = 1#1 := c7'.mpr hk
  have hc8 : ¬ k7_cond8 k = 1#1 := fun h => (c8'.mp h) hk
  unfold invAV gFlight yRest
  iintro ⟨#Hmw, ⟨%W', %hW', HO⟩, ⟨HW0, HW1, HW2, HW3⟩, Hout, Hrows, ⟨⟨%fr0, %hfr0, HG0⟩, HY0⟩, ⟨⟨%fr1, %hfr1, HG1⟩, HY1⟩, ⟨⟨%fr2, %hfr2, HG2⟩, HY2⟩, ⟨⟨%fr3, %hfr3, HG3⟩, HY3⟩⟩
  -- the four output chunks of this trip
  ihave Hx := (Entails.of_eq (SparseCore.bigSep_erase' (i := k) (Finset.mem_univ _))) $$ Hout
  icases Hx with ⟨⟨⟨%fo0, %hfo0, HO0⟩, ⟨%fo1, %hfo1, HO1⟩, ⟨%fo2, %hfo2, HO2⟩, ⟨%fo3, %hfo3, HO3⟩⟩, Hout⟩
  ihave Hout := (outs_step (F := F) d L G k (k.val + 1) rfl) $$ Hout
  -- the four lists the trip's gathers will read
  ihave Hx := (Entails.of_eq (SparseCore.bigSep_erase' (i := (⟨4 * k.val + 4 + 0, by omega⟩ : Fin 32)) (mem_idle_next k.val hk 0 (by omega)))) $$ Hrows
  icases Hx with ⟨Hl0, Hrows⟩
  ihave Hx := (Entails.of_eq (SparseCore.bigSep_erase' (i := (⟨4 * k.val + 4 + 1, by omega⟩ : Fin 32))
    (Finset.mem_erase.mpr ⟨by simp [Fin.ext_iff], mem_idle_next k.val hk 1 (by omega)⟩))) $$ Hrows
  icases Hx with ⟨Hl1, Hrows⟩
  ihave Hx := (Entails.of_eq (SparseCore.bigSep_erase' (i := (⟨4 * k.val + 4 + 2, by omega⟩ : Fin 32))
    (Finset.mem_erase.mpr ⟨by simp [Fin.ext_iff], Finset.mem_erase.mpr ⟨by simp [Fin.ext_iff], mem_idle_next k.val hk 2 (by omega)⟩⟩))) $$ Hrows
  icases Hx with ⟨Hl2, Hrows⟩
  ihave Hx := (Entails.of_eq (SparseCore.bigSep_erase' (i := (⟨4 * k.val + 4 + 3, by omega⟩ : Fin 32))
    (Finset.mem_erase.mpr ⟨by simp [Fin.ext_iff], Finset.mem_erase.mpr ⟨by simp [Fin.ext_iff], Finset.mem_erase.mpr ⟨by simp [Fin.ext_iff], mem_idle_next k.val hk 3 (by omega)⟩⟩⟩))) $$ Hrows
  icases Hx with ⟨Hl3, Hrows⟩
  ihave Hl0' := (Entails.of_eq (rowPts_at (F := F) d L _ (k7_off5 k) (k7_off5_inb k hc1) (Gen.k7_off5_eq k) _)) $$ Hl0
  ihave Hl1' := (Entails.of_eq (rowPts_at (F := F) d L _ (k7_off8 k) (k7_off8_inb k hc3) (Gen.k7_off8_eq k) _)) $$ Hl1
  ihave Hl2' := (Entails.of_eq (rowPts_at (F := F) d L _ (k7_off11 k) (k7_off11_inb k hc5) (Gen.k7_off11_eq k) _)) $$ Hl2
  ihave Hl3' := (Entails.of_eq (rowPts_at (F := F) d L _ (k7_off14 k) (k7_off14_inb k hc7) (Gen.k7_off14_eq k) _)) $$ Hl3
  sl_unfold [Gen.k7_t1_body]
  sl_exec (disch := first | sl_exact hc1 | sl_exact hc2 | sl_exact hc3 | sl_exact hc4 | sl_exact hc5 | sl_exact hc6 | sl_exact hc7 | sl_exact hc8)
  sl_step
  isplitr; · iexact Hmw
  isplitl [HO]
  · iexists _; isplitr
    swap; · iexact HO
    ipureintro
    exact waits_ins (waits_ins (waits_ins (waits_ins (waits_ins (waits_ins (waits_ins (waits_ins hW' _) _) _) _) _) _) _) _
  isplitl [HW0 HW1 HW2 HW3]
  · isplitl [HW0]; · iexact HW0
    isplitl [HW1]; · iexact HW1
    isplitl [HW2]; · iexact HW2
    iexact HW3
  isplitl [Hout HO0 HO1 HO2 HO3]
  · iapply (Entails.of_eq (SparseCore.bigSep_erase' (i := k) (Finset.mem_univ _)).symm)
    isplitl [HO0 HO1 HO2 HO3]
    · isplitl [HO0]
      · iexists _; isplitr
        swap; · iexact HO0
        ipureintro
        exact fun _ => writes_whole_eq_on (outK0 L k).view fo0 G _ (fun x => (hfr0 x).trans (hG0 k (by omega) x).symm)
      isplitl [HO1]
      · iexists _; isplitr
        swap; · iexact HO1
        ipureintro
        exact fun _ => writes_whole_eq_on (outK1 L k).view fo1 G _ (fun x => (hfr1 x).trans (hG1 k (by omega) x).symm)
      isplitl [HO2]
      · iexists _; isplitr
        swap; · iexact HO2
        ipureintro
        exact fun _ => writes_whole_eq_on (outK2 L k).view fo2 G _ (fun x => (hfr2 x).trans (hG2 k (by omega) x).symm)
      iexists _; isplitr
      swap; · iexact HO3
      ipureintro
      exact fun _ => writes_whole_eq_on (outK3 L k).view fo3 G _ (fun x => (hfr3 x).trans (hG3 k (by omega) x).symm)
    iexact Hout
  isplitl [Hrows HG0_dst_and HG1_dst_and HG2_dst_and HG3_dst_and]
  · iapply (idle_step (F := F) k.val hk (fun j => rowPts d L j fvc) (by omega) (by omega) (by omega) (by omega) (by omega) (by omega) (by omega) (by omega))
    isplitl [Hrows]; · iexact Hrows
    isplitl [HG0_dst_and]; · iexact HG0_dst_and
    isplitl [HG1_dst_and]; · iexact HG1_dst_and
    isplitl [HG2_dst_and]; · iexact HG2_dst_and
    iexact HG3_dst_and
  isplitl [HG0 HY0]
  · isplitl [HG0]
    · iexists _; isplitr
      swap
      · iapply (Entails.of_eq (gFlight_off (F := F) d L q cc7_scratch5 68 r0V ((Gen.k7_off5_eq k).trans (by rw [show 4 * (k.val + 1) + 0 = 4 * k.val + 4 by omega])) (k7_off5_inb k hc1) _ _ fvc fy))
        iexact HG0
      ipureintro
      exact rb_issue d L fy fvc hrowc r0V fr0 (k7_off5 k) (k7_off5_inb k hc1) (4 * (k.val + 1) + 0) (by omega) ((Gen.k7_off5_eq k).trans (by rw [show 4 * (k.val + 1) + 0 = 4 * k.val + 4 by omega]))
    iexact HY0
  isplitl [HG1 HY1]
  · isplitl [HG1]
    · iexists _; isplitr
      swap
      · iapply (Entails.of_eq (gFlight_off (F := F) d L q cc7_scratch6 69 r1V ((Gen.k7_off8_eq k).trans (by rw [show 4 * (k.val + 1) + 1 = 4 * k.val + 5 by omega])) (k7_off8_inb k hc3) _ _ fvc fy))
        iexact HG1
      ipureintro
      exact rb_issue d L fy fvc hrowc r1V fr1 (k7_off8 k) (k7_off8_inb k hc3) (4 * (k.val + 1) + 1) (by omega) ((Gen.k7_off8_eq k).trans (by rw [show 4 * (k.val + 1) + 1 = 4 * k.val + 5 by omega]))
    iexact HY1
  isplitl [HG2 HY2]
  · isplitl [HG2]
    · iexists _; isplitr
      swap
      · iapply (Entails.of_eq (gFlight_off (F := F) d L q cc7_scratch7 70 r2V ((Gen.k7_off11_eq k).trans (by rw [show 4 * (k.val + 1) + 2 = 4 * k.val + 6 by omega])) (k7_off11_inb k hc5) _ _ fvc fy))
        iexact HG2
      ipureintro
      exact rb_issue d L fy fvc hrowc r2V fr2 (k7_off11 k) (k7_off11_inb k hc5) (4 * (k.val + 1) + 2) (by omega) ((Gen.k7_off11_eq k).trans (by rw [show 4 * (k.val + 1) + 2 = 4 * k.val + 6 by omega]))
    iexact HY2
  isplitl [HG3]
  · iexists _; isplitr
    swap
    · iapply (Entails.of_eq (gFlight_off (F := F) d L q cc7_scratch8 71 r3V ((Gen.k7_off14_eq k).trans (by rw [show 4 * (k.val + 1) + 3 = 4 * k.val + 7 by omega])) (k7_off14_inb k hc7) _ _ fvc fy))
      iexact HG3
    ipureintro
    exact rb_issue d L fy fvc hrowc r3V fr3 (k7_off14 k) (k7_off14_inb k hc7) (4 * (k.val + 1) + 3) (by omega) ((Gen.k7_off14_eq k).trans (by rw [show 4 * (k.val + 1) + 3 = 4 * k.val + 7 by omega]))
  iexact HY3

set_option maxHeartbeats 1000000 in
theorem gk_tripB_val (d : Dev nD) (L : grid7.Coords) (q : PosShare TreeShare) (O : CellTallies nD τ sig (HIx 4)) (W : Waits sig (HIx 4))
    (fy : Buf (Elt F) ((yV).view.loc (thrV d L))) (fvc : Buf (Elt F) ((ivV).view.loc (thrV d L)))
    (hrowc : ∀ (off : Fin 2 → ℕ) (hk : ∀ a, off a + S1x128.size a ≤ S32x128.size a) (x : S128.Idx),
      (View.read (Elt F) (idxRowAt off hk).view fvc x).toNat < 8192)
    (G : Buf (Elt F) (oLoc3 d))
    (hG0 : ∀ (t : Fin k7_t1_loop.trips) (ht : 4 * t.val + 0 < 32) (x : S128x128.Idx),
      View.read (Elt F) (outK0 L t).view G x = rowBuf d L fy fvc hrowc ![4 * t.val + 0, 0] (rowsInb _ ht) x)
    (hG1 : ∀ (t : Fin k7_t1_loop.trips) (ht : 4 * t.val + 1 < 32) (x : S128x128.Idx),
      View.read (Elt F) (outK1 L t).view G x = rowBuf d L fy fvc hrowc ![4 * t.val + 1, 0] (rowsInb _ ht) x)
    (hG2 : ∀ (t : Fin k7_t1_loop.trips) (ht : 4 * t.val + 2 < 32) (x : S128x128.Idx),
      View.read (Elt F) (outK2 L t).view G x = rowBuf d L fy fvc hrowc ![4 * t.val + 2, 0] (rowsInb _ ht) x)
    (hG3 : ∀ (t : Fin k7_t1_loop.trips) (ht : 4 * t.val + 3 < 32) (x : S128x128.Idx),
      View.read (Elt F) (outK3 L t).view G x = rowBuf d L fy fvc hrowc ![4 * t.val + 3, 0] (rowsInb _ ht) x)
    (v1 c0 c1 : BitVec 32) (k : Fin k7_t1_loop.trips) (hk : k.val = 7) (acc : Unit) :
    invAV d L q O W fy fvc hrowc G k.val (by omega)
      ⊢ wp frame (wpE (defs₀ (F := F)) 𝒱₀ (thrV d L) none) Set.univ
          (Gen.k7_t1_body L yV (Memref.isWhole_whole _) ixV (Memref.isWhole_whole _) oV (Memref.isWhole_whole _)
            ivV (Memref.isWhole_whole _) r0V (Memref.isWhole_whole _) r1V (Memref.isWhole_whole _)
            r2V (Memref.isWhole_whole _) r3V (Memref.isWhole_whole _)
            cc7_scratch5 cc7_scratch6 cc7_scratch7 cc7_scratch8 cc7_scratch9 cc7_scratch10 cc7_scratch11 cc7_scratch12 cc7_scoped0
            v1 c0 c1 k acc)
          fun _ => invEndV d L q O W fy fvc G := by
  obtain ⟨c1', c2', c3', c4', c5', c6', c7', c8'⟩ := conds k
  have hn : ¬ k.val < 7 := by omega
  have hc1 : ¬ k7_cond1 k = 1#1 := fun h => hn (c1'.mp h)
  have hc2 : k7_cond2 k = 1#1 := c2'.mpr hn
  have hc3 : ¬ k7_cond3 k = 1#1 := fun h => hn (c3'.mp h)
  have hc4 : k7_cond4 k = 1#1 := c4'.mpr hn
  have hc5 : ¬ k7_cond5 k = 1#1 := fun h => hn (c5'.mp h)
  have hc6 : k7_cond6 k = 1#1 := c6'.mpr hn
  have hc7 : ¬ k7_cond7 k = 1#1 := fun h => hn (c7'.mp h)
  have hc8 : k7_cond8 k = 1#1 := c8'.mpr hn
  unfold invAV invEndV gFlight yRest
  iintro ⟨#Hmw, ⟨%W', %hW', HO⟩, ⟨HW0, HW1, HW2, HW3⟩, Hout, Hrows, ⟨⟨%fr0, %hfr0, HG0⟩, HY0⟩, ⟨⟨%fr1, %hfr1, HG1⟩, HY1⟩, ⟨⟨%fr2, %hfr2, HG2⟩, HY2⟩, ⟨⟨%fr3, %hfr3, HG3⟩, HY3⟩⟩
  ihave Hx := (Entails.of_eq (SparseCore.bigSep_erase' (i := k) (Finset.mem_univ _))) $$ Hout
  icases Hx with ⟨⟨⟨%fo0, %hfo0, HO0⟩, ⟨%fo1, %hfo1, HO1⟩, ⟨%fo2, %hfo2, HO2⟩, ⟨%fo3, %hfo3, HO3⟩⟩, Hout⟩
  ihave Hout := (outs_step (F := F) d L G k 8 (by omega)) $$ Hout
  sl_unfold [Gen.k7_t1_body]
  sl_exec (disch := first | sl_exact hc1 | sl_exact hc2 | sl_exact hc3 | sl_exact hc4 | sl_exact hc5 | sl_exact hc6 | sl_exact hc7 | sl_exact hc8)
  sl_step
  isplitr; · iexact Hmw
  isplitl [HO]
  · iexists _; isplitr
    swap; · iexact HO
    ipureintro
    exact waits_ins (waits_ins (waits_ins (waits_ins (waits_ins (waits_ins (waits_ins (waits_ins hW' _) _) _) _) _) _) _) _
  isplitl [HW0 HW1 HW2 HW3]
  · isplitl [HW0]; · iexact HW0
    isplitl [HW1]; · iexact HW1
    isplitl [HW2]; · iexact HW2
    iexact HW3
  isplitl [Hout HO0 HO1 HO2 HO3]
  · iapply (Entails.of_eq (SparseCore.bigSep_erase' (i := k) (Finset.mem_univ _)).symm)
    isplitl [HO0 HO1 HO2 HO3]
    · isplitl [HO0]
      · iexists _; isplitr
        swap; · iexact HO0
        ipureintro
        exact fun _ => writes_whole_eq_on (outK0 L k).view fo0 G _ (fun x => (hfr0 x).trans (hG0 k (by omega) x).symm)
      isplitl [HO1]
      · iexists _; isplitr
        swap; · iexact HO1
        ipureintro
        exact fun _ => writes_whole_eq_on (outK1 L k).view fo1 G _ (fun x => (hfr1 x).trans (hG1 k (by omega) x).symm)
      isplitl [HO2]
      · iexists _; isplitr
        swap; · iexact HO2
        ipureintro
        exact fun _ => writes_whole_eq_on (outK2 L k).view fo2 G _ (fun x => (hfr2 x).trans (hG2 k (by omega) x).symm)
      iexists _; isplitr
      swap; · iexact HO3
      ipureintro
      exact fun _ => writes_whole_eq_on (outK3 L k).view fo3 G _ (fun x => (hfr3 x).trans (hG3 k (by omega) x).symm)
    iexact Hout
  isplitl [Hrows HG0_dst_and HG1_dst_and HG2_dst_and HG3_dst_and]
  · iapply (idle_last (F := F) k.val hk (fun j => rowPts d L j fvc) (by omega) (by omega) (by omega) (by omega))
    isplitl [Hrows]; · iexact Hrows
    isplitl [HG0_dst_and]; · iexact HG0_dst_and
    isplitl [HG1_dst_and]; · iexact HG1_dst_and
    isplitl [HG2_dst_and]; · iexact HG2_dst_and
    iexact HG3_dst_and
  isplitl [HG0_dst HG0 HY0]
  · isplitl [HG0_dst]; · iexists _; iexact HG0_dst
    isplitl [HG0]; · iexact HG0
    iexact HY0
  isplitl [HG1_dst HG1 HY1]
  · isplitl [HG1_dst]; · iexists _; iexact HG1_dst
    isplitl [HG1]; · iexact HG1
    iexact HY1
  isplitl [HG2_dst HG2 HY2]
  · isplitl [HG2_dst]; · iexists _; iexact HG2_dst
    isplitl [HG2]; · iexact HG2
    iexact HY2
  isplitl [HG3_dst]; · iexists _; iexact HG3_dst
  isplitl [HG3]; · iexact HG3
  iexact HY3

/-! ## The loop's invariant with contents, and the whole body -/

/-- What the loop holds before trip k: the gathers of trip k in flight while there is a trip k, nothing after; the
    chunks of the trips done at the gathered array. -/
def invV (d : Dev nD) (L : grid7.Coords) (q : PosShare TreeShare) (O : CellTallies nD τ sig (HIx 4)) (W : Waits sig (HIx 4))
    (fy : Buf (Elt F) ((yV).view.loc (thrV d L))) (fvc : Buf (Elt F) ((ivV).view.loc (thrV d L)))
    (hrowc : ∀ (off : Fin 2 → ℕ) (hk : ∀ a, off a + S1x128.size a ≤ S32x128.size a) (x : S128.Idx),
      (View.read (Elt F) (idxRowAt off hk).view fvc x).toNat < 8192)
    (G : Buf (Elt F) (oLoc3 d)) (k : ℕ) : Unit → sProp 𝕄 :=
  fun _ => if h : k < 8 then invAV d L q O W fy fvc hrowc G k h else invEndV d L q O W fy fvc G

theorem invV_lt (d : Dev nD) (L : grid7.Coords) (q : PosShare TreeShare) (O : CellTallies nD τ sig (HIx 4)) (W : Waits sig (HIx 4))
    (fy : Buf (Elt F) ((yV).view.loc (thrV d L))) (fvc : Buf (Elt F) ((ivV).view.loc (thrV d L)))
    (hrowc : ∀ (off : Fin 2 → ℕ) (hk : ∀ a, off a + S1x128.size a ≤ S32x128.size a) (x : S128.Idx),
      (View.read (Elt F) (idxRowAt off hk).view fvc x).toNat < 8192)
    (G : Buf (Elt F) (oLoc3 d)) (k : ℕ) (h : k < 8) :
    invV d L q O W fy fvc hrowc G k = fun _ => invAV d L q O W fy fvc hrowc G k h := by
  funext _; exact dif_pos h

theorem invV_ge (d : Dev nD) (L : grid7.Coords) (q : PosShare TreeShare) (O : CellTallies nD τ sig (HIx 4)) (W : Waits sig (HIx 4))
    (fy : Buf (Elt F) ((yV).view.loc (thrV d L))) (fvc : Buf (Elt F) ((ivV).view.loc (thrV d L)))
    (hrowc : ∀ (off : Fin 2 → ℕ) (hk : ∀ a, off a + S1x128.size a ≤ S32x128.size a) (x : S128.Idx),
      (View.read (Elt F) (idxRowAt off hk).view fvc x).toNat < 8192)
    (G : Buf (Elt F) (oLoc3 d)) (k : ℕ) (h : ¬ k < 8) :
    invV d L q O W fy fvc hrowc G k = fun _ => invEndV d L q O W fy fvc G := by
  funext _; exact dif_neg h

theorem invV_end (d : Dev nD) (L : grid7.Coords) (q : PosShare TreeShare) (O : CellTallies nD τ sig (HIx 4)) (W : Waits sig (HIx 4))
    (fy : Buf (Elt F) ((yV).view.loc (thrV d L))) (fvc : Buf (Elt F) ((ivV).view.loc (thrV d L)))
    (hrowc : ∀ (off : Fin 2 → ℕ) (hk : ∀ a, off a + S1x128.size a ≤ S32x128.size a) (x : S128.Idx),
      (View.read (Elt F) (idxRowAt off hk).view fvc x).toNat < 8192)
    (G : Buf (Elt F) (oLoc3 d)) :
    invV d L q O W fy fvc hrowc G (Scf.trips k7_t1_loop.lb k7_t1_loop.ub k7_t1_loop.st) = fun _ => invEndV d L q O W fy fvc G :=
  invV_ge d L q O W fy fvc hrowc G _ (by decide)

/-! ## The index equation of one chunk: the pieces, and the equation for any slot -/

omit [FloatOps F] in
/-- The local index buffer overwritten whole holds the payload, element by element. -/
theorem iv_written (d : Dev nD) (L : grid7.Coords) (g : Buf (Elt F) ((ivV).view.loc (thrV d L))) (pay : S32x128.Idx → Elt F .i32)
    (i : S32x128.Idx) : ((ivV).view.writes (Elt F) g [⟨Rect.whole cc7_scratch0.ty.shape, pay⟩]) i = pay i :=
  congrFun (View.read_writes_whole (ivV).view g pay) i

omit [FloatOps F] in
/-- Entry (a, b) of the tile's slab is entry (w, a, b) of the index array, w = 2·L₁ + L₀. -/
theorem slab_read (d : Dev nD) (L : grid7.Coords) (fi : Buf (Elt F) ((slabK L).view.loc (thrV d L))) (a : Fin 32) (b : Fin 128) :
    (slabK L).view.read (Elt F) fi (ValueIdx.ix2 a b)
      = fi (ValueIdx.ix3 (⟨2 * (L 1).val + (L 0).val, by have := L0_lt L; have := L1_lt L; omega⟩ : Fin 32) a b) := by
  rw [View.read_apply]
  show fi _ = fi _
  refine congrArg fi ?_
  have hre : Shape.reshapeEquiv (s := (Rect.unit (s := S32x32x128) (k7_off1 L) S1x32x128.size (k7_off1_inb L)).shape) (s' := S32x128)
      squeezes_S1x32x128_S32x128.numel_eq (ValueIdx.ix2 a b) = ValueIdx.ix3 (0 : Fin 1) a b :=
    Shape.reshapeEquiv_eq_of_rowMajor _ (by
      rw [Shape.rowMajor_val_three, Shape.rowMajor_val_two]
      show (0 * 32 + a.val) * 128 + b.val = a.val * 128 + b.val
      omega)
  show (Rect.unit (s := S32x32x128) (k7_off1 L) S1x32x128.size (k7_off1_inb L)).emb (Shape.reshapeEquiv _ (ValueIdx.ix2 a b)) = _
  rw [hre]
  have hoff := Gen.k7_off1_eq L
  funext c
  apply Fin.ext
  match c with
  | ⟨0, _⟩ => show k7_off1 L 0 + 1 * 0 = 2 * (L 1).val + (L 0).val; rw [hoff]; rfl
  | ⟨1, _⟩ => show k7_off1 L 1 + 1 * a.val = a.val; rw [hoff]; show 0 + 1 * a.val = a.val; omega
  | ⟨2, _⟩ => show k7_off1 L 2 + 1 * b.val = b.val; rw [hoff]; show 0 + 1 * b.val = b.val; omega

omit [FloatOps F] in
/-- Word p of list n of the local index buffer is the buffer's entry (n, p). -/
theorem list_read (d : Dev nD) (L : grid7.Coords) (fvc : Buf (Elt F) ((ivV).view.loc (thrV d L))) (n : ℕ) (hn : n < 32)
    (u : S128.Idx) (p : Fin 128) (hu : (u 0).val = p.val) :
    View.read (Elt F) (idxRowAt ![n, 0] (rowsInb n hn)).view fvc u = fvc (ValueIdx.ix2 (⟨n, hn⟩ : Fin 32) p) := by
  rw [View.read_apply]
  show fvc _ = fvc _
  refine congrArg fvc ?_
  have hre : Shape.reshapeEquiv (s := (Rect.unit (s := S32x128) ![n, 0] S1x128.size (rowsInb n hn)).shape) (s' := S128)
      squeezes_S1x128_S128.numel_eq u = ValueIdx.ix2 (0 : Fin 1) p :=
    Shape.reshapeEquiv_eq_of_rowMajor _ (by
      rw [Shape.rowMajor_val_two, Shape.rowMajor_val_one]
      show 0 * 128 + p.val = (u 0).val
      omega)
  show (Rect.unit (s := S32x128) ![n, 0] S1x128.size (rowsInb n hn)).emb (Shape.reshapeEquiv _ u) = _
  rw [hre]
  funext c
  apply Fin.ext
  match c with
  | ⟨0, _⟩ => show n + 1 * 0 = n; omega
  | ⟨1, _⟩ => show 0 + 1 * p.val = p.val; omega

omit [FloatOps F] in
/-- The index entry an output row reads, from the row's decomposition 4096·w + 128·n + p. -/
theorem srcIdx_of_val (e : Fin 131072) (w n : Fin 32) (p : Fin 128) (h : e.val = 4096 * w.val + 128 * n.val + p.val) :
    srcIdx e = ValueIdx.ix3 w n p := by
  have := w.isLt
  have := n.isLt
  have := p.isLt
  unfold srcIdx
  funext c
  apply Fin.ext
  match c with
  | ⟨0, _⟩ => show e.val / 4096 = w.val; omega
  | ⟨1, _⟩ => show e.val % 4096 / 128 = n.val; omega
  | ⟨2, _⟩ => show e.val % 128 = p.val; omega

set_option maxHeartbeats 4000000 in
omit [FloatOps F] in
/-- Chunk 4t + r of the tile's output rows, read off the gathered array, is the gather of list 4t + r of the local index
    buffer once that buffer holds the tile's slab: output row 4096·w + 128·(4t + r) + i reads index entry (w, 4t + r, i). -/
theorem gath_chunk_gen (d : Dev nD) (L : grid7.Coords) (fy : Buf (Elt F) ((yV).view.loc (thrV d L)))
    (fi : Buf (Elt F) ((slabK L).view.loc (thrV d L))) (hin : ∀ x, ((slabK L).view.read (Elt F) fi x).toNat < 8192)
    (g : Buf (Elt F) ((ivV).view.loc (thrV d L))) (pay : S32x128.Idx → Elt F .i32) (hpay : pay = (slabK L).view.read (Elt F) fi)
    (hrowc : ∀ (off : Fin 2 → ℕ) (hk : ∀ a, off a + S1x128.size a ≤ S32x128.size a) (x : S128.Idx),
      (View.read (Elt F) (idxRowAt off hk).view ((ivV).view.writes (Elt F) g [⟨Rect.whole cc7_scratch0.ty.shape, pay⟩]) x).toNat < 8192)
    (t : Fin k7_t1_loop.trips) (r : Fin 4) (ht : 4 * t.val + r.val < 32) (x : S128x128.Idx) :
    View.read (Elt F) ((oV).slice (Rect.unit (s := S131072x128) (k7_off3 L t (BitVec.ofNat 32 r.val)) S128x128.size (k7_off3_inb L t r)) (fun _ => rfl)).view (gathF d fy fi) x
      = rowBuf d L fy ((ivV).view.writes (Elt F) g [⟨Rect.whole cc7_scratch0.ty.shape, pay⟩]) hrowc ![4 * t.val + r.val, 0] (rowsInb _ ht) x := by
  have hL0 := L0_lt L
  have hL1 := L1_lt L
  obtain ⟨p, q, rfl⟩ : ∃ (p : Fin 128) (q : Fin 128), x = ValueIdx.ix2 p q := ⟨x 0, x 1, ValueIdx.eq_ix2 x⟩
  have hp := p.isLt
  have hoff := Gen.k7_off3_eq L t r
  have hr := r.isLt
  subst hpay
  -- the list word both sides read, and its bound
  have hw := hin (ValueIdx.ix2 (⟨4 * t.val + r.val, ht⟩ : Fin 32) p)
  rw [slab_read d L fi] at hw
  unfold rowBuf SparseCore.gatherPayload gathF
  rw [View.read_apply, View.read_apply]
  show fy _ = fy _
  refine congrArg fy (funext fun a => Fin.ext ?_)
  match a with
  | ⟨0, _⟩ =>
    show (fi (srcIdx _)).toNat % 8192 = 0 + 1 * (Shape.Gathers.idx Gen.gathers_S8192x128_S128x128 _ (ValueIdx.ix2 p q) Gen.gathers_S8192x128_S128x128.axis).val
    refine Eq.trans ?_ (congrArg (fun z : Fin (S8192x128.size Gen.gathers_S8192x128_S128x128.axis) => 0 + 1 * z.val)
      (Shape.Gathers.idx_axis Gen.gathers_S8192x128_S128x128 _ (ValueIdx.ix2 p q)).symm)
    show (fi (srcIdx _)).toNat % 8192 = 0 + 1 * (View.read (Elt F) (idxRowAt ![4 * t.val + r.val, 0] (rowsInb _ ht)).view _ _).toNat
    rw [list_read d L _ (4 * t.val + r.val) ht _ p (by
          show ((S128.rowMajor.symm (Fin.cast _ p)) 0).val = p.val
          rw [← Shape.rowMajor_val_one, Equiv.apply_symm_apply]
          rfl),
      iv_written d L, slab_read d L fi]
    have key : ∀ e : Fin 131072, e.val = 4096 * (2 * (L 1).val + (L 0).val) + 128 * (4 * t.val + r.val) + p.val →
        (fi (srcIdx e)).toNat % 8192
          = 0 + 1 * (fi (ValueIdx.ix3 (⟨2 * (L 1).val + (L 0).val, by omega⟩ : Fin 32) (⟨4 * t.val + r.val, ht⟩ : Fin 32) p)).toNat := by
      intro e he
      rw [srcIdx_of_val e (⟨2 * (L 1).val + (L 0).val, by omega⟩ : Fin 32) (⟨4 * t.val + r.val, ht⟩ : Fin 32) p he, Nat.mod_eq_of_lt hw]
      omega
    exact key _ (by
      show k7_off3 L t (BitVec.ofNat 32 r.val) 0 + 1 * p.val = _
      rw [hoff]
      show (8192 * (L 1).val + 4096 * (L 0).val + 512 * t.val + 128 * r.val) + 1 * p.val = _
      omega)
  | ⟨1, _⟩ =>
    have h2 : (k7_off3 L t (BitVec.ofNat 32 r.val)) 1 = 0 := by rw [hoff]; rfl
    show (k7_off3 L t (BitVec.ofNat 32 r.val)) 1 + 1 * q.val = 0 + 1 * (Shape.Gathers.idx Gen.gathers_S8192x128_S128x128 _ (ValueIdx.ix2 p q) 1).val
    rw [h2]
    exact congrArg (fun z => 0 + 1 * z) (Shape.Gathers.idx_of_ne Gen.gathers_S8192x128_S128x128 _ (ValueIdx.ix2 p q) 1 (by decide)).symm

/-! ## The index equation of one chunk, slot by slot -/

omit [FloatOps F] in
theorem gath_chunk0 (d : Dev nD) (L : grid7.Coords) (fy : Buf (Elt F) ((yV).view.loc (thrV d L)))
    (fi : Buf (Elt F) ((slabK L).view.loc (thrV d L))) (hin : ∀ x, ((slabK L).view.read (Elt F) fi x).toNat < 8192)
    (g : Buf (Elt F) ((ivV).view.loc (thrV d L))) (pay : S32x128.Idx → Elt F .i32) (hpay : pay = (slabK L).view.read (Elt F) fi)
    (hrowc : ∀ (off : Fin 2 → ℕ) (hk : ∀ a, off a + S1x128.size a ≤ S32x128.size a) (x : S128.Idx),
      (View.read (Elt F) (idxRowAt off hk).view ((ivV).view.writes (Elt F) g [⟨Rect.whole cc7_scratch0.ty.shape, pay⟩]) x).toNat < 8192)
    (t : Fin k7_t1_loop.trips) (ht : 4 * t.val + 0 < 32) (x : S128x128.Idx) :
    View.read (Elt F) (outK0 L t).view (gathF d fy fi) x
      = rowBuf d L fy ((ivV).view.writes (Elt F) g [⟨Rect.whole cc7_scratch0.ty.shape, pay⟩]) hrowc ![4 * t.val + 0, 0] (rowsInb _ ht) x := by
  exact gath_chunk_gen d L fy fi hin g pay hpay hrowc t 0 ht x

omit [FloatOps F] in
theorem gath_chunk1 (d : Dev nD) (L : grid7.Coords) (fy : Buf (Elt F) ((yV).view.loc (thrV d L)))
    (fi : Buf (Elt F) ((slabK L).view.loc (thrV d L))) (hin : ∀ x, ((slabK L).view.read (Elt F) fi x).toNat < 8192)
    (g : Buf (Elt F) ((ivV).view.loc (thrV d L))) (pay : S32x128.Idx → Elt F .i32) (hpay : pay = (slabK L).view.read (Elt F) fi)
    (hrowc : ∀ (off : Fin 2 → ℕ) (hk : ∀ a, off a + S1x128.size a ≤ S32x128.size a) (x : S128.Idx),
      (View.read (Elt F) (idxRowAt off hk).view ((ivV).view.writes (Elt F) g [⟨Rect.whole cc7_scratch0.ty.shape, pay⟩]) x).toNat < 8192)
    (t : Fin k7_t1_loop.trips) (ht : 4 * t.val + 1 < 32) (x : S128x128.Idx) :
    View.read (Elt F) (outK1 L t).view (gathF d fy fi) x
      = rowBuf d L fy ((ivV).view.writes (Elt F) g [⟨Rect.whole cc7_scratch0.ty.shape, pay⟩]) hrowc ![4 * t.val + 1, 0] (rowsInb _ ht) x := by
  exact gath_chunk_gen d L fy fi hin g pay hpay hrowc t 1 ht x

omit [FloatOps F] in
theorem gath_chunk2 (d : Dev nD) (L : grid7.Coords) (fy : Buf (Elt F) ((yV).view.loc (thrV d L)))
    (fi : Buf (Elt F) ((slabK L).view.loc (thrV d L))) (hin : ∀ x, ((slabK L).view.read (Elt F) fi x).toNat < 8192)
    (g : Buf (Elt F) ((ivV).view.loc (thrV d L))) (pay : S32x128.Idx → Elt F .i32) (hpay : pay = (slabK L).view.read (Elt F) fi)
    (hrowc : ∀ (off : Fin 2 → ℕ) (hk : ∀ a, off a + S1x128.size a ≤ S32x128.size a) (x : S128.Idx),
      (View.read (Elt F) (idxRowAt off hk).view ((ivV).view.writes (Elt F) g [⟨Rect.whole cc7_scratch0.ty.shape, pay⟩]) x).toNat < 8192)
    (t : Fin k7_t1_loop.trips) (ht : 4 * t.val + 2 < 32) (x : S128x128.Idx) :
    View.read (Elt F) (outK2 L t).view (gathF d fy fi) x
      = rowBuf d L fy ((ivV).view.writes (Elt F) g [⟨Rect.whole cc7_scratch0.ty.shape, pay⟩]) hrowc ![4 * t.val + 2, 0] (rowsInb _ ht) x := by
  exact gath_chunk_gen d L fy fi hin g pay hpay hrowc t 2 ht x

omit [FloatOps F] in
theorem gath_chunk3 (d : Dev nD) (L : grid7.Coords) (fy : Buf (Elt F) ((yV).view.loc (thrV d L)))
    (fi : Buf (Elt F) ((slabK L).view.loc (thrV d L))) (hin : ∀ x, ((slabK L).view.read (Elt F) fi x).toNat < 8192)
    (g : Buf (Elt F) ((ivV).view.loc (thrV d L))) (pay : S32x128.Idx → Elt F .i32) (hpay : pay = (slabK L).view.read (Elt F) fi)
    (hrowc : ∀ (off : Fin 2 → ℕ) (hk : ∀ a, off a + S1x128.size a ≤ S32x128.size a) (x : S128.Idx),
      (View.read (Elt F) (idxRowAt off hk).view ((ivV).view.writes (Elt F) g [⟨Rect.whole cc7_scratch0.ty.shape, pay⟩]) x).toNat < 8192)
    (t : Fin k7_t1_loop.trips) (ht : 4 * t.val + 3 < 32) (x : S128x128.Idx) :
    View.read (Elt F) (outK3 L t).view (gathF d fy fi) x
      = rowBuf d L fy ((ivV).view.writes (Elt F) g [⟨Rect.whole cc7_scratch0.ty.shape, pay⟩]) hrowc ![4 * t.val + 3, 0] (rowsInb _ ht) x := by
  exact gath_chunk_gen d L fy fi hin g pay hpay hrowc t 3 ht x

/-! ## The body from the tile's own spellings, with contents -/

set_option maxHeartbeats 4000000 in
/-- The body on tile (L 0, L 1) of device d, from the tile's own spellings of what it holds: four read shares of y, its
    slab of the index array with every word a row number of y, its 32 output chunks, its local index buffer, its four
    row buffers, its nine semaphores at zero. It ends with the same, the output chunks at the gathered array, the local
    buffers at some contents. -/
theorem gk_core_val (d : Dev nD) (L : grid7.Coords) (q : PosShare TreeShare)
    (O : CellTallies nD τ sig (HIx 4)) (W : Waits sig (HIx 4))
    (fy : Buf (Elt F) ((yV).view.loc (thrV d L))) (fi : Buf (Elt F) ((slabK L).view.loc (thrV d L)))
    (fv : Buf (Elt F) ((ivV).view.loc (thrV d L)))
    (f0 : Buf (Elt F) ((r0V).view.loc (thrV d L))) (f1 : Buf (Elt F) ((r1V).view.loc (thrV d L)))
    (f2 : Buf (Elt F) ((r2V).view.loc (thrV d L))) (f3 : Buf (Elt F) ((r3V).view.loc (thrV d L)))
    (hin : ∀ x, ((slabK L).view.read (Elt F) fi x).toNat < 8192) :
    (iprop(Transfers.MayWaits (thrV d L) (default : HIx 4) O
        ∗ heldW d L yV (Transfers.shareTokN q 68) fy ∗ heldW d L yV (Transfers.shareTokN q 69) fy
        ∗ heldW d L yV (Transfers.shareTokN q 70) fy ∗ heldW d L yV (Transfers.shareTokN q 71) fy
        ∗ heldW d L (slabK L) fullShare fi
        ∗ heldW d L ivV fullShare fv
        ∗ heldW d L r0V fullShare f0 ∗ heldW d L r1V fullShare f1 ∗ heldW d L r2V fullShare f2 ∗ heldW d L r3V fullShare f3
        ∗ cellZ d L cc7_scratch5 ∗ cellZ d L cc7_scratch6 ∗ cellZ d L cc7_scratch7 ∗ cellZ d L cc7_scratch8
        ∗ cellZ d L cc7_scratch9 ∗ cellZ d L cc7_scratch10 ∗ cellZ d L cc7_scratch11 ∗ cellZ d L cc7_scratch12
        ∗ cellZ d L cc7_scoped0
        ∗ bigSep Finset.univ (outTrip d L)
        ∗ owes (thrV d L) O W) : sProp 𝕄)
      ⊢ wp frame (wpE (defs₀ (F := F)) 𝒱₀ (thrV d L) none) Set.univ
          (cc7_gk L yV (Memref.isWhole_whole _) ixV (Memref.isWhole_whole _) oV (Memref.isWhole_whole _)
            ivV (Memref.isWhole_whole _) r0V (Memref.isWhole_whole _) r1V (Memref.isWhole_whole _)
            r2V (Memref.isWhole_whole _) r3V (Memref.isWhole_whole _)
            cc7_scratch5 cc7_scratch6 cc7_scratch7 cc7_scratch8 cc7_scratch9 cc7_scratch10 cc7_scratch11 cc7_scratch12 cc7_scoped0)
          fun _ => iprop(heldW d L yV (Transfers.shareTokN q 68) fy ∗ heldW d L yV (Transfers.shareTokN q 69) fy
            ∗ heldW d L yV (Transfers.shareTokN q 70) fy ∗ heldW d L yV (Transfers.shareTokN q 71) fy
            ∗ heldW d L (slabK L) fullShare fi
            ∗ (∃ f, heldW d L ivV fullShare f)
            ∗ (∃ f, heldW d L r0V fullShare f) ∗ (∃ f, heldW d L r1V fullShare f) ∗ (∃ f, heldW d L r2V fullShare f) ∗ (∃ f, heldW d L r3V fullShare f)
            ∗ cellZ d L cc7_scratch5 ∗ cellZ d L cc7_scratch6 ∗ cellZ d L cc7_scratch7 ∗ cellZ d L cc7_scratch8
            ∗ cellZ d L cc7_scratch9 ∗ cellZ d L cc7_scratch10 ∗ cellZ d L cc7_scratch11 ∗ cellZ d L cc7_scratch12
            ∗ cellZ d L cc7_scoped0
            ∗ bigSep Finset.univ (outTripG d L (gathF d fy fi))
            ∗ ∃ W', ⌜∀ p ∈ W', p ∈ W ∨ p.2 = none⌝ ∗ owes (thrV d L) O W') := by
  rw [Gen.cc7_gk_eq_skeleton]
  iintro ⟨#Hmw, HY0, HY1, HY2, HY3, HI, HV, HR0, HR1, HR2, HR3, HG0, HG1, HG2, HG3, HW0, HW1, HW2, HW3, HS, Hout, HO⟩
  sl_unfold [Gen.cc7_gk_skel, k7_part3]
  -- the slab lands in the local index buffer (one copy, awaited); the run stops before the first gather
  sl_exec
  -- whatever the buffer held before, every word of every list is now a word of the slab
  have hrow := fun g off hk => hin_rows d L fi hin g (gk_core_val.sl.dma0 d L fi) rfl off hk
  -- the buffer as its 32 lists; lists 0 … 3, spelt as the first four gathers slice them
  ihave Hrows := (Entails.of_eq (iv_rows (F := F) d L _)) $$ HV
  ihave Hx := (Entails.of_eq (SparseCore.bigSep_erase' (s := Finset.univ) (i := (0 : Fin 32)) (Finset.mem_univ _))) $$ Hrows
  icases Hx with ⟨Hl0, Hrows⟩
  ihave Hx := (Entails.of_eq (SparseCore.bigSep_erase' (i := (1 : Fin 32)) (by decide))) $$ Hrows
  icases Hx with ⟨Hl1, Hrows⟩
  ihave Hx := (Entails.of_eq (SparseCore.bigSep_erase' (i := (2 : Fin 32)) (by decide))) $$ Hrows
  icases Hx with ⟨Hl2, Hrows⟩
  ihave Hx := (Entails.of_eq (SparseCore.bigSep_erase' (i := (3 : Fin 32)) (by decide))) $$ Hrows
  icases Hx with ⟨Hl3, Hrows⟩
  ihave Hl0' := (Entails.of_eq (rowPts_at (F := F) d L 0 ![0, 0] inb_S32x128_S1x128_0_0 rfl _)) $$ Hl0
  ihave Hl1' := (Entails.of_eq (rowPts_at (F := F) d L 1 ![1, 0] inb_S32x128_S1x128_1_0 rfl _)) $$ Hl1
  ihave Hl2' := (Entails.of_eq (rowPts_at (F := F) d L 2 ![2, 0] inb_S32x128_S1x128_2_0 rfl _)) $$ Hl2
  ihave Hl3' := (Entails.of_eq (rowPts_at (F := F) d L 3 ![3, 0] inb_S32x128_S1x128_3_0 rfl _)) $$ Hl3
  -- the four gathers issue; the run stops at the loop
  sl_exec
  have hG0 := gath_chunk0 d L fy fi hin (ivV).view.junk (gk_core_val.sl.dma0 d L fi) rfl (hrow _)
  have hG1 := gath_chunk1 d L fy fi hin (ivV).view.junk (gk_core_val.sl.dma0 d L fi) rfl (hrow _)
  have hG2 := gath_chunk2 d L fy fi hin (ivV).view.junk (gk_core_val.sl.dma0 d L fi) rfl (hrow _)
  have hG3 := gath_chunk3 d L fy fi hin (ivV).view.junk (gk_core_val.sl.dma0 d L fi) rfl (hrow _)
  ihave Hout := (outs_start (F := F) d L (gathF d fy fi)) $$ Hout
  sl_for (invV d L q O W fy ((ivV).view.writes (Elt F) (ivV).view.junk [⟨Rect.whole cc7_scratch0.ty.shape, gk_core_val.sl.dma0 d L fi⟩]) (hrow _) (gathF d fy fi))
    $$ [HO HW0 HW1 HW2 HW3 Hout Hrows HG0 HY0 HG1 HY1 HG2 HY2 HG3 HY3]
  · -- one trip
    intro k acc
    have hk8 : k.val < 8 := trips_eq ▸ k.isLt
    rcases Nat.lt_or_ge k.val 7 with h7 | h7
    · rw [invV_lt (h := hk8), invV_lt (k := k.val + 1) (h := by omega)]
      exact gk_tripA_val d L q O W fy _ (hrow _) (gathF d fy fi) hG0 hG1 hG2 hG3 _ _ _ k h7 acc
    · rw [invV_lt (h := hk8), invV_ge (k := k.val + 1) (h := by omega)]
      exact gk_tripB_val d L q O W fy _ (hrow _) (gathF d fy fi) hG0 hG1 hG2 hG3 _ _ _ k (by omega) acc
  · -- the invariant before the first trip
    rw [invV_lt (k := 0) (h := by omega)]
    beta_reduce
    unfold invAV gFlight yRest
    isplitr; · iexact Hmw
    isplitl [HO]
    · iexists _; isplitr
      swap; · iexact HO
      ipureintro
      exact waits_ins (fun p hp => .inl hp) _
    isplitl [HW0 HW1 HW2 HW3]
    · isplitl [HW0]; · iexact HW0
      isplitl [HW1]; · iexact HW1
      isplitl [HW2]; · iexact HW2
      iexact HW3
    isplitl [Hout]; · iexact Hout
    isplitl [Hrows]; · rw [idle_zero]; iexact Hrows
    isplitl [HG0 HY0]
    · isplitl [HG0]
      · iexists _; isplitr
        swap; · iexact HG0
        ipureintro
        exact rb_issue d L fy _ (hrow _) r0V _ ![0, 0] inb_S32x128_S1x128_0_0 (4 * 0 + 0) (by omega) rfl
      iexact HY0
    isplitl [HG1 HY1]
    · isplitl [HG1]
      · iexists _; isplitr
        swap; · iexact HG1
        ipureintro
        exact rb_issue d L fy _ (hrow _) r1V _ ![1, 0] inb_S32x128_S1x128_1_0 (4 * 0 + 1) (by omega) rfl
      iexact HY1
    isplitl [HG2 HY2]
    · isplitl [HG2]
      · iexists _; isplitr
        swap; · iexact HG2
        ipureintro
        exact rb_issue d L fy _ (hrow _) r2V _ ![2, 0] inb_S32x128_S1x128_2_0 (4 * 0 + 2) (by omega) rfl
      iexact HY2
    isplitl [HG3]
    · iexists _; isplitr
      swap; · iexact HG3
      ipureintro
      exact rb_issue d L fy _ (hrow _) r3V _ ![3, 0] inb_S32x128_S1x128_3_0 (4 * 0 + 3) (by omega) rfl
    iexact HY3
  -- after the loop
  iintro %acc HL
  rw [invV_end]
  beta_reduce
  unfold invEndV
  icases HL with ⟨-, ⟨%W', %hW', HO⟩, ⟨HW0, HW1, HW2, HW3⟩, Hout, Hrows, ⟨⟨%fr0, HR0⟩, HG0, HY0⟩, ⟨⟨%fr1, HR1⟩, HG1, HY1⟩, ⟨⟨%fr2, HR2⟩, HG2, HY2⟩, ⟨⟨%fr3, HR3⟩, HG3, HY3⟩⟩
  sl_exec
  sl_step
  isplitl [HY0]; · iexact HY0
  isplitl [HY1]; · iexact HY1
  isplitl [HY2]; · iexact HY2
  isplitl [HY3]; · iexact HY3
  isplitl [HI]; · iexact HI
  isplitl [Hrows]
  · iexists _
    iapply (Entails.of_eq (iv_rows (F := F) d L _).symm)
    iexact Hrows
  isplitl [HR0]; · iexists _; iexact HR0
  isplitl [HR1]; · iexists _; iexact HR1
  isplitl [HR2]; · iexists _; iexact HR2
  isplitl [HR3]; · iexists _; iexact HR3
  isplitl [HG0]; · iexact HG0
  isplitl [HG1]; · iexact HG1
  isplitl [HG2]; · iexact HG2
  isplitl [HG3]; · iexact HG3
  isplitl [HW0]; · iexact HW0
  isplitl [HW1]; · iexact HW1
  isplitl [HW2]; · iexact HW2
  isplitl [HW3]; · iexact HW3
  isplitl [HS]; · iexact HS
  isplitl [Hout]; · iapply (outs_end (F := F) d L (gathF d fy fi)); iexact Hout
  iexists _; isplitr
  swap; · iexact HO
  ipureintro; exact hW'

/-! ## The body from what the launch hands the tile, with contents -/

set_option maxHeartbeats 4000000 in
/-- The body on tile (L 0, L 1) of device d from the worker's share with contents — a share of y at C.y, its slab of
    the index array at C.ix3 with every word a row number of y, its 4096 rows of the output — and the tile's scoped
    storage; it hands the same back, the output rows at the gather of y's rows by the slab, the local buffers at some
    contents, owing what it owed. -/
theorem gk_body_val (hF : (K (F := F)).Facts) (C : Conts F) (d : Dev nD) (L : grid7.Coords)
    (hinC : ∀ j, (C.ix3 d j).toNat < 8192)
    (O : CellTallies nD τ sig (HIx 4)) (W : Waits sig (HIx 4)) (hO : ∀ g, O g none = 0) :
    (iprop(levAts (K (F := F)).L (K (F := F)).lev ∗ shareIn3 C d (widL L)
        ∗ scopedBufs (thrV d L) ∗ scopedSems0 (thrV d L) ∗ owes (thrV d L) O W) : sProp 𝕄)
      ⊢ wp frame (wpE (defs₀ (F := F)) 𝒱₀ (thrV d L) none) Set.univ
          (cc7_gk L yV (Memref.isWhole_whole _) ixV (Memref.isWhole_whole _) oV (Memref.isWhole_whole _)
            ivV (Memref.isWhole_whole _) r0V (Memref.isWhole_whole _) r1V (Memref.isWhole_whole _)
            r2V (Memref.isWhole_whole _) r3V (Memref.isWhole_whole _)
            cc7_scratch5 cc7_scratch6 cc7_scratch7 cc7_scratch8 cc7_scratch9 cc7_scratch10 cc7_scratch11 cc7_scratch12 cc7_scoped0)
          fun _ => iprop(shareOut3 C d (widL L) ∗ scopedBufs (thrV d L) ∗ scopedSems0 (thrV d L)
            ∗ ∃ W', ⌜∀ p ∈ W', p ∈ W ∨ p.2 = none⌝ ∗ owes (thrV d L) O W') := by
  rw [(K (F := F)).scopedBufs_V hF d (cV L) (jV L), SparseCore.Cfg.scopedSems0_V (Val := Elt F) d (cV L) (jV L), tile_sems, tile_bufs]
  unfold shareIn3 shareOut3
  iintro ⟨#Hlv, ⟨HY, HI, ⟨%fo, HOut⟩⟩, ⟨⟨%fv, HV⟩, ⟨%f0, HR0⟩, ⟨%f1, HR1⟩, ⟨%f2, HR2⟩, ⟨%f3, HR3⟩, Hbufs⟩, ⟨HG0, HG1, HG2, HG3, HW0, HW1, HW2, HW3, HS, Hsems⟩, HO⟩
  ihave Hmw := (show levAts (K (F := F)).L (K (F := F)).lev ⊢ Transfers.MayWaits (thrV d L) (default : HIx 4) O from
    (K (F := F)).mayWaits_none (thr := thrV d L) hO) $$ Hlv
  -- the share of y as the four gathers' read shares and the rest
  ihave HYs := (y_toks (F := F) (yLoc d) (ysh (widL L)) (C.y d)).1 $$ HY
  icases HYs with ⟨HY0, HY1, HY2, HY3, Hkeep⟩
  ihave KY0 := (Entails.of_eq (pts_yV (F := F) d L _ (C.y d)).symm) $$ HY0
  ihave KY1 := (Entails.of_eq (pts_yV (F := F) d L _ (C.y d)).symm) $$ HY1
  ihave KY2 := (Entails.of_eq (pts_yV (F := F) d L _ (C.y d)).symm) $$ HY2
  ihave KY3 := (Entails.of_eq (pts_yV (F := F) d L _ (C.y d)).symm) $$ HY3
  -- the slab, the output rows as 32 chunks, the five local buffers, in the tile's spellings
  ihave KI := (Entails.of_eq (pts_slabK (F := F) d L (C.ix3 d)).symm) $$ HI
  ihave KOut := (out_split (F := F) d L fo) $$ HOut
  ihave KV := (Entails.of_eq (pts_whole (F := F) d L cc7_scratch0 fullShare fv).symm) $$ HV
  ihave KR0 := (Entails.of_eq (pts_whole (F := F) d L cc7_scratch1 fullShare f0).symm) $$ HR0
  ihave KR1 := (Entails.of_eq (pts_whole (F := F) d L cc7_scratch2 fullShare f1).symm) $$ HR1
  ihave KR2 := (Entails.of_eq (pts_whole (F := F) d L cc7_scratch3 fullShare f2).symm) $$ HR2
  ihave KR3 := (Entails.of_eq (pts_whole (F := F) d L cc7_scratch4 fullShare f3).symm) $$ HR3
  iapply (wp_wand_r frame (wpE (defs₀ (F := F)) 𝒱₀ (thrV d L) none) Set.univ)
  isplitl [Hmw KY0 KY1 KY2 KY3 KI KV KR0 KR1 KR2 KR3 HG0 HG1 HG2 HG3 HW0 HW1 HW2 HW3 HS KOut HO]
  · iapply (gk_core_val d L (ysh (widL L)) O W (C.y d) (C.ix3 d) fv f0 f1 f2 f3 (hin_slabK d L (C.ix3 d) (fun j _ => hinC j)))
    isplitl [Hmw]; · iexact Hmw
    isplitl [KY0]; · iexact KY0
    isplitl [KY1]; · iexact KY1
    isplitl [KY2]; · iexact KY2
    isplitl [KY3]; · iexact KY3
    isplitl [KI]; · iexact KI
    isplitl [KV]; · iexact KV
    isplitl [KR0]; · iexact KR0
    isplitl [KR1]; · iexact KR1
    isplitl [KR2]; · iexact KR2
    isplitl [KR3]; · iexact KR3
    isplitl [HG0]; · iexact HG0
    isplitl [HG1]; · iexact HG1
    isplitl [HG2]; · iexact HG2
    isplitl [HG3]; · iexact HG3
    isplitl [HW0]; · iexact HW0
    isplitl [HW1]; · iexact HW1
    isplitl [HW2]; · iexact HW2
    isplitl [HW3]; · iexact HW3
    isplitl [HS]; · iexact HS
    isplitl [KOut]; · iexact KOut
    iexact HO
  iintro %a ⟨HY0, HY1, HY2, HY3, HI, ⟨%gv, HV⟩, ⟨%g0, HR0⟩, ⟨%g1, HR1⟩, ⟨%g2, HR2⟩, ⟨%g3, HR3⟩, HG0, HG1, HG2, HG3, HW0, HW1, HW2, HW3, HS, HOut, HO⟩
  isplitl [HY0 HY1 HY2 HY3 Hkeep HI HOut]
  · isplitl [HY0 HY1 HY2 HY3 Hkeep]
    · iapply (y_toks (F := F) (yLoc d) (ysh (widL L)) (C.y d)).2
      isplitl [HY0]; · iapply (Entails.of_eq (pts_yV (F := F) d L _ (C.y d))); iexact HY0
      isplitl [HY1]; · iapply (Entails.of_eq (pts_yV (F := F) d L _ (C.y d))); iexact HY1
      isplitl [HY2]; · iapply (Entails.of_eq (pts_yV (F := F) d L _ (C.y d))); iexact HY2
      isplitl [HY3]; · iapply (Entails.of_eq (pts_yV (F := F) d L _ (C.y d))); iexact HY3
      iexact Hkeep
    isplitl [HI]
    · iapply (Entails.of_eq (pts_slabK (F := F) d L (C.ix3 d))); iexact HI
    iapply (out_joinG (F := F) d L (gathF d (C.y d) (C.ix3 d))); iexact HOut
  isplitl [HV HR0 HR1 HR2 HR3 Hbufs]
  · isplitl [HV]; · iexists gv; iapply (Entails.of_eq (pts_whole (F := F) d L cc7_scratch0 fullShare gv)); iexact HV
    isplitl [HR0]; · iexists g0; iapply (Entails.of_eq (pts_whole (F := F) d L cc7_scratch1 fullShare g0)); iexact HR0
    isplitl [HR1]; · iexists g1; iapply (Entails.of_eq (pts_whole (F := F) d L cc7_scratch2 fullShare g1)); iexact HR1
    isplitl [HR2]; · iexists g2; iapply (Entails.of_eq (pts_whole (F := F) d L cc7_scratch3 fullShare g2)); iexact HR2
    isplitl [HR3]; · iexists g3; iapply (Entails.of_eq (pts_whole (F := F) d L cc7_scratch4 fullShare g3)); iexact HR3
    iexact Hbufs
  isplitl [HG0 HG1 HG2 HG3 HW0 HW1 HW2 HW3 HS Hsems]
  · isplitl [HG0]; · iexact HG0
    isplitl [HG1]; · iexact HG1
    isplitl [HG2]; · iexact HG2
    isplitl [HG3]; · iexact HG3
    isplitl [HW0]; · iexact HW0
    isplitl [HW1]; · iexact HW1
    isplitl [HW2]; · iexact HW2
    isplitl [HW3]; · iexact HW3
    isplitl [HS]; · iexact HS
    iexact Hsems
  iexact HO

end Cert.KernelIdeal.Sc.GatherV3

end
-- ==== Proof.GatherLiftV.lean ====
/-
  The gather body with contents, lifted into the launch's form: for each of the four sparse-core calls, IF the body on
  any tile runs from what the tile's worker is handed — a share of y, its slab of the call's index array and its 4096
  output rows, the first two at named contents — and the tile's scoped storage, to what the worker hands back — the same
  with the output rows at the gather — owing throughout what it owed, THEN every tile of the call meets the launch's
  obligation for the payload that names contents. The body enters as a hypothesis; nothing about its run is used
  but its statement. What a tile is handed is what the worker its grid coordinates name is handed, the program the
  launch runs on a tile is the body at those coordinates, and a post over the waits recorded or at no index is one over
  those or at the call's index.
-/
import proofs.«215235_g2774548873965_cont_9to1_572_34_alg».proof.Proof.GatherBody
import proofs.«215235_g2774548873965_cont_9to1_572_34_alg».proof.Proof.GatherBody3
import proofs.«215235_g2774548873965_cont_9to1_572_34_alg».proof.Proof.GatherBody5
import proofs.«215235_g2774548873965_cont_9to1_572_34_alg».proof.Proof.GatherBody7
import proofs.«215235_g2774548873965_cont_9to1_572_34_alg».proof.Proof.ScPayV
import proofs.«215235_g2774548873965_cont_9to1_572_34_alg».proof.Proof.ScLaunchV

noncomputable section

namespace Cert.KernelIdeal.Sc.GatherV0

open Cert.KernelIdeal
open Cert.KernelIdeal.Facts₀ Cert.KernelIdeal.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal.Sc.Gather0 (thrV widL coordsV defs₀_vec1 post_weaken)

variable {F : FTy → Type} [FloatOps F]

local notation "𝕄" => MT nD τ sig (HIx 4) (Elt F) ℕ UU ℕ

local notation "yV" => (Memref.whole Cert.KernelIdeal.main_v1_scv : Memref Cert.KernelIdeal.sig Kind.scVector Space.hbm Cert.KernelIdeal.S8192x128 EltTy.f32)
local notation "ixV" => (Memref.whole Cert.KernelIdeal.main_v19_scv : Memref Cert.KernelIdeal.sig Kind.scVector Space.hbm Cert.KernelIdeal.S32x32x128 EltTy.i32)
local notation "oV" => (Memref.whole Cert.KernelIdeal.main_v20_scv : Memref Cert.KernelIdeal.sig Kind.scVector Space.hbm Cert.KernelIdeal.S131072x128 EltTy.f32)
local notation "ivV" => (Memref.whole Cert.KernelIdeal.cc1_scratch0 : Memref Cert.KernelIdeal.sig Kind.scVector Space.vmem Cert.KernelIdeal.S32x128 EltTy.i32)
local notation "r0V" => (Memref.whole Cert.KernelIdeal.cc1_scratch1 : Memref Cert.KernelIdeal.sig Kind.scVector Space.vmem Cert.KernelIdeal.S128x128 EltTy.f32)
local notation "r1V" => (Memref.whole Cert.KernelIdeal.cc1_scratch2 : Memref Cert.KernelIdeal.sig Kind.scVector Space.vmem Cert.KernelIdeal.S128x128 EltTy.f32)
local notation "r2V" => (Memref.whole Cert.KernelIdeal.cc1_scratch3 : Memref Cert.KernelIdeal.sig Kind.scVector Space.vmem Cert.KernelIdeal.S128x128 EltTy.f32)
local notation "r3V" => (Memref.whole Cert.KernelIdeal.cc1_scratch4 : Memref Cert.KernelIdeal.sig Kind.scVector Space.vmem Cert.KernelIdeal.S128x128 EltTy.f32)

/-- What tile i of core c is handed for the first call is what the worker its coordinates name is handed, -/
theorem go_eqV (C : Conts F) (d : Dev nD) (c : Fin ((K (F := F)).nCore 0)) (i : Fin ((K (F := F)).nSub 0))
    (h0 : ((K (F := F)).core 0 c).val < grid1.bound 0) (h1 : ((K (F := F)).sub 0 i).val < grid1.bound 1) :
    (PV C).go 0 d c i = shareIn0 C d (widL (coordsV ⟨((K (F := F)).core 0 c).val, h0⟩ ⟨((K (F := F)).sub 0 i).val, h1⟩)) := by
  show shareIn0 C d (wid (Fin.cast (nCore_eq 0) c) (Fin.cast (nSub_eq 0) i)) = _
  congr 1

/-- and what it hands back is what that worker hands back. -/
theorem td_eqV (C : Conts F) (d : Dev nD) (c : Fin ((K (F := F)).nCore 0)) (i : Fin ((K (F := F)).nSub 0))
    (h0 : ((K (F := F)).core 0 c).val < grid1.bound 0) (h1 : ((K (F := F)).sub 0 i).val < grid1.bound 1) :
    (PV C).td 0 d c i = shareOut0 C d (widL (coordsV ⟨((K (F := F)).core 0 c).val, h0⟩ ⟨((K (F := F)).sub 0 i).val, h1⟩)) := by
  show shareOut0 C d (wid (Fin.cast (nCore_eq 0) c) (Fin.cast (nSub_eq 0) i)) = _
  congr 1

set_option maxRecDepth 16384 in
/-- If the body, on any tile, runs from what its worker is handed (contents named) and the tile's scoped storage to what
    the worker hands back (the output rows at the gather), owing what it owed, then every tile of the first call
    meets the launch's obligation for the payload that names contents. -/
theorem tileObl0V_of (C : Conts F)
    (hbody : ∀ (d : Dev nD) (L : grid1.Coords) (O : CellTallies nD τ sig (HIx 4)) (W : Waits sig (HIx 4)) (hO : ∀ g, O g none = 0),
      (iprop(levAts (K (F := F)).L (K (F := F)).lev ∗ shareIn0 C d (widL L)
          ∗ scopedBufs (thrV d L) ∗ scopedSems0 (thrV d L) ∗ owes (thrV d L) O W) : sProp 𝕄)
        ⊢ wp frame (wpE (defs₀ (F := F)) Variants.none (thrV d L) none) Set.univ
          (cc1_gk L yV (Memref.isWhole_whole _) ixV (Memref.isWhole_whole _) oV (Memref.isWhole_whole _)
            ivV (Memref.isWhole_whole _) r0V (Memref.isWhole_whole _) r1V (Memref.isWhole_whole _)
            r2V (Memref.isWhole_whole _) r3V (Memref.isWhole_whole _)
            cc1_scratch5 cc1_scratch6 cc1_scratch7 cc1_scratch8 cc1_scratch9 cc1_scratch10 cc1_scratch11 cc1_scratch12 cc1_scoped0)
          fun _ => iprop(shareOut0 C d (widL L) ∗ scopedBufs (thrV d L) ∗ scopedSems0 (thrV d L)
            ∗ ∃ W', ⌜∀ p ∈ W', p ∈ W ∨ p.2 = none⌝ ∗ owes (thrV d L) O W')) :
    (K (F := F)).TileObl (D (F := F)) 𝒱 (PV C) v₀ 0 := by
  intro d c i O W hO _ _
  simp only [show (PV C).ox = fun _ _ => 0 from rfl, add_zero]
  have hci : ((K (F := F)).core 0 c).val < grid1.bound 0 ∧ ((K (F := F)).sub 0 i).val < grid1.bound 1 := ⟨c.isLt, i.isLt⟩
  rw [go_eqV C d c i hci.1 hci.2, td_eqV C d c i hci.1 hci.2]
  change _ ⊢ wp _ _ _ (Pipeline.liftProg (defs₀ (F := F) (.scVector ((K (F := F)).core 0 c) ((K (F := F)).sub 0 i)) 1 ())) _
  refine BIBase.Entails.trans ?_ (Pipeline.wp_liftProg (D (F := F)) (Pipeline.defs_kernel pcfgs defs₀) Variants.none _ Set.univ none _ _)
  rw [defs₀_vec1]; simp only [SparseCore.onTile, hci, and_self, ↓reduceDIte]
  refine BIBase.Entails.trans ?_ ((hbody d (coordsV ⟨_, hci.1⟩ ⟨_, hci.2⟩) O W hO).trans (wp_mono frame _ _ fun _ => post_weaken))
  iintro ⟨Hlv, -, Hgo, Hb, Hs, HO⟩
  isplitl [Hlv]; · iexact Hlv
  isplitl [Hgo]; · iexact Hgo
  isplitl [Hb]; · iexact Hb
  isplitl [Hs]; · iexact Hs
  iexact HO

end Cert.KernelIdeal.Sc.GatherV0

namespace Cert.KernelIdeal.Sc.GatherV1

open Cert.KernelIdeal
open Cert.KernelIdeal.Facts₀ Cert.KernelIdeal.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal.Sc.Gather1 (thrV widL coordsV defs₀_vec3 post_weaken)

variable {F : FTy → Type} [FloatOps F]

local notation "𝕄" => MT nD τ sig (HIx 4) (Elt F) ℕ UU ℕ

local notation "yV" => (Memref.whole Cert.KernelIdeal.main_v1_scv : Memref Cert.KernelIdeal.sig Kind.scVector Space.hbm Cert.KernelIdeal.S8192x128 EltTy.f32)
local notation "ixV" => (Memref.whole Cert.KernelIdeal.main_v23_scv : Memref Cert.KernelIdeal.sig Kind.scVector Space.hbm Cert.KernelIdeal.S32x32x128 EltTy.i32)
local notation "oV" => (Memref.whole Cert.KernelIdeal.main_v24_scv : Memref Cert.KernelIdeal.sig Kind.scVector Space.hbm Cert.KernelIdeal.S131072x128 EltTy.f32)
local notation "ivV" => (Memref.whole Cert.KernelIdeal.cc3_scratch0 : Memref Cert.KernelIdeal.sig Kind.scVector Space.vmem Cert.KernelIdeal.S32x128 EltTy.i32)
local notation "r0V" => (Memref.whole Cert.KernelIdeal.cc3_scratch1 : Memref Cert.KernelIdeal.sig Kind.scVector Space.vmem Cert.KernelIdeal.S128x128 EltTy.f32)
local notation "r1V" => (Memref.whole Cert.KernelIdeal.cc3_scratch2 : Memref Cert.KernelIdeal.sig Kind.scVector Space.vmem Cert.KernelIdeal.S128x128 EltTy.f32)
local notation "r2V" => (Memref.whole Cert.KernelIdeal.cc3_scratch3 : Memref Cert.KernelIdeal.sig Kind.scVector Space.vmem Cert.KernelIdeal.S128x128 EltTy.f32)
local notation "r3V" => (Memref.whole Cert.KernelIdeal.cc3_scratch4 : Memref Cert.KernelIdeal.sig Kind.scVector Space.vmem Cert.KernelIdeal.S128x128 EltTy.f32)

/-- What tile i of core c is handed for the second call is what the worker its coordinates name is handed, -/
theorem go_eqV (C : Conts F) (d : Dev nD) (c : Fin ((K (F := F)).nCore 1)) (i : Fin ((K (F := F)).nSub 1))
    (h0 : ((K (F := F)).core 1 c).val < grid3.bound 0) (h1 : ((K (F := F)).sub 1 i).val < grid3.bound 1) :
    (PV C).go 1 d c i = shareIn1 C d (widL (coordsV ⟨((K (F := F)).core 1 c).val, h0⟩ ⟨((K (F := F)).sub 1 i).val, h1⟩)) := by
  show shareIn1 C d (wid (Fin.cast (nCore_eq 1) c) (Fin.cast (nSub_eq 1) i)) = _
  congr 1

/-- and what it hands back is what that worker hands back. -/
theorem td_eqV (C : Conts F) (d : Dev nD) (c : Fin ((K (F := F)).nCore 1)) (i : Fin ((K (F := F)).nSub 1))
    (h0 : ((K (F := F)).core 1 c).val < grid3.bound 0) (h1 : ((K (F := F)).sub 1 i).val < grid3.bound 1) :
    (PV C).td 1 d c i = shareOut1 C d (widL (coordsV ⟨((K (F := F)).core 1 c).val, h0⟩ ⟨((K (F := F)).sub 1 i).val, h1⟩)) := by
  show shareOut1 C d (wid (Fin.cast (nCore_eq 1) c) (Fin.cast (nSub_eq 1) i)) = _
  congr 1

set_option maxRecDepth 16384 in
/-- If the body, on any tile, runs from what its worker is handed (contents named) and the tile's scoped storage to what
    the worker hands back (the output rows at the gather), owing what it owed, then every tile of the second call
    meets the launch's obligation for the payload that names contents. -/
theorem tileObl1V_of (C : Conts F)
    (hbody : ∀ (d : Dev nD) (L : grid3.Coords) (O : CellTallies nD τ sig (HIx 4)) (W : Waits sig (HIx 4)) (hO : ∀ g, O g none = 0),
      (iprop(levAts (K (F := F)).L (K (F := F)).lev ∗ shareIn1 C d (widL L)
          ∗ scopedBufs (thrV d L) ∗ scopedSems0 (thrV d L) ∗ owes (thrV d L) O W) : sProp 𝕄)
        ⊢ wp frame (wpE (defs₀ (F := F)) Variants.none (thrV d L) none) Set.univ
          (cc3_gk L yV (Memref.isWhole_whole _) ixV (Memref.isWhole_whole _) oV (Memref.isWhole_whole _)
            ivV (Memref.isWhole_whole _) r0V (Memref.isWhole_whole _) r1V (Memref.isWhole_whole _)
            r2V (Memref.isWhole_whole _) r3V (Memref.isWhole_whole _)
            cc3_scratch5 cc3_scratch6 cc3_scratch7 cc3_scratch8 cc3_scratch9 cc3_scratch10 cc3_scratch11 cc3_scratch12 cc3_scoped0)
          fun _ => iprop(shareOut1 C d (widL L) ∗ scopedBufs (thrV d L) ∗ scopedSems0 (thrV d L)
            ∗ ∃ W', ⌜∀ p ∈ W', p ∈ W ∨ p.2 = none⌝ ∗ owes (thrV d L) O W')) :
    (K (F := F)).TileObl (D (F := F)) 𝒱 (PV C) v₀ 1 := by
  intro d c i O W hO _ _
  simp only [show (PV C).ox = fun _ _ => 0 from rfl, add_zero]
  have hci : ((K (F := F)).core 1 c).val < grid3.bound 0 ∧ ((K (F := F)).sub 1 i).val < grid3.bound 1 := ⟨c.isLt, i.isLt⟩
  rw [go_eqV C d c i hci.1 hci.2, td_eqV C d c i hci.1 hci.2]
  change _ ⊢ wp _ _ _ (Pipeline.liftProg (defs₀ (F := F) (.scVector ((K (F := F)).core 1 c) ((K (F := F)).sub 1 i)) 3 ())) _
  refine BIBase.Entails.trans ?_ (Pipeline.wp_liftProg (D (F := F)) (Pipeline.defs_kernel pcfgs defs₀) Variants.none _ Set.univ none _ _)
  rw [defs₀_vec3]; simp only [SparseCore.onTile, hci, and_self, ↓reduceDIte]
  refine BIBase.Entails.trans ?_ ((hbody d (coordsV ⟨_, hci.1⟩ ⟨_, hci.2⟩) O W hO).trans (wp_mono frame _ _ fun _ => post_weaken))
  iintro ⟨Hlv, -, Hgo, Hb, Hs, HO⟩
  isplitl [Hlv]; · iexact Hlv
  isplitl [Hgo]; · iexact Hgo
  isplitl [Hb]; · iexact Hb
  isplitl [Hs]; · iexact Hs
  iexact HO

end Cert.KernelIdeal.Sc.GatherV1

namespace Cert.KernelIdeal.Sc.GatherV2

open Cert.KernelIdeal
open Cert.KernelIdeal.Facts₀ Cert.KernelIdeal.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal.Sc.Gather2 (thrV widL coordsV defs₀_vec5 post_weaken)

variable {F : FTy → Type} [FloatOps F]

local notation "𝕄" => MT nD τ sig (HIx 4) (Elt F) ℕ UU ℕ

local notation "yV" => (Memref.whole Cert.KernelIdeal.main_v1_scv : Memref Cert.KernelIdeal.sig Kind.scVector Space.hbm Cert.KernelIdeal.S8192x128 EltTy.f32)
local notation "ixV" => (Memref.whole Cert.KernelIdeal.main_v27_scv : Memref Cert.KernelIdeal.sig Kind.scVector Space.hbm Cert.KernelIdeal.S32x32x128 EltTy.i32)
local notation "oV" => (Memref.whole Cert.KernelIdeal.main_v28_scv : Memref Cert.KernelIdeal.sig Kind.scVector Space.hbm Cert.KernelIdeal.S131072x128 EltTy.f32)
local notation "ivV" => (Memref.whole Cert.KernelIdeal.cc5_scratch0 : Memref Cert.KernelIdeal.sig Kind.scVector Space.vmem Cert.KernelIdeal.S32x128 EltTy.i32)
local notation "r0V" => (Memref.whole Cert.KernelIdeal.cc5_scratch1 : Memref Cert.KernelIdeal.sig Kind.scVector Space.vmem Cert.KernelIdeal.S128x128 EltTy.f32)
local notation "r1V" => (Memref.whole Cert.KernelIdeal.cc5_scratch2 : Memref Cert.KernelIdeal.sig Kind.scVector Space.vmem Cert.KernelIdeal.S128x128 EltTy.f32)
local notation "r2V" => (Memref.whole Cert.KernelIdeal.cc5_scratch3 : Memref Cert.KernelIdeal.sig Kind.scVector Space.vmem Cert.KernelIdeal.S128x128 EltTy.f32)
local notation "r3V" => (Memref.whole Cert.KernelIdeal.cc5_scratch4 : Memref Cert.KernelIdeal.sig Kind.scVector Space.vmem Cert.KernelIdeal.S128x128 EltTy.f32)

/-- What tile i of core c is handed for the third call is what the worker its coordinates name is handed, -/
theorem go_eqV (C : Conts F) (d : Dev nD) (c : Fin ((K (F := F)).nCore 2)) (i : Fin ((K (F := F)).nSub 2))
    (h0 : ((K (F := F)).core 2 c).val < grid5.bound 0) (h1 : ((K (F := F)).sub 2 i).val < grid5.bound 1) :
    (PV C).go 2 d c i = shareIn2 C d (widL (coordsV ⟨((K (F := F)).core 2 c).val, h0⟩ ⟨((K (F := F)).sub 2 i).val, h1⟩)) := by
  show shareIn2 C d (wid (Fin.cast (nCore_eq 2) c) (Fin.cast (nSub_eq 2) i)) = _
  congr 1

/-- and what it hands back is what that worker hands back. -/
theorem td_eqV (C : Conts F) (d : Dev nD) (c : Fin ((K (F := F)).nCore 2)) (i : Fin ((K (F := F)).nSub 2))
    (h0 : ((K (F := F)).core 2 c).val < grid5.bound 0) (h1 : ((K (F := F)).sub 2 i).val < grid5.bound 1) :
    (PV C).td 2 d c i = shareOut2 C d (widL (coordsV ⟨((K (F := F)).core 2 c).val, h0⟩ ⟨((K (F := F)).sub 2 i).val, h1⟩)) := by
  show shareOut2 C d (wid (Fin.cast (nCore_eq 2) c) (Fin.cast (nSub_eq 2) i)) = _
  congr 1

set_option maxRecDepth 16384 in
/-- If the body, on any tile, runs from what its worker is handed (contents named) and the tile's scoped storage to what
    the worker hands back (the output rows at the gather), owing what it owed, then every tile of the third call
    meets the launch's obligation for the payload that names contents. -/
theorem tileObl2V_of (C : Conts F)
    (hbody : ∀ (d : Dev nD) (L : grid5.Coords) (O : CellTallies nD τ sig (HIx 4)) (W : Waits sig (HIx 4)) (hO : ∀ g, O g none = 0),
      (iprop(levAts (K (F := F)).L (K (F := F)).lev ∗ shareIn2 C d (widL L)
          ∗ scopedBufs (thrV d L) ∗ scopedSems0 (thrV d L) ∗ owes (thrV d L) O W) : sProp 𝕄)
        ⊢ wp frame (wpE (defs₀ (F := F)) Variants.none (thrV d L) none) Set.univ
          (cc5_gk L yV (Memref.isWhole_whole _) ixV (Memref.isWhole_whole _) oV (Memref.isWhole_whole _)
            ivV (Memref.isWhole_whole _) r0V (Memref.isWhole_whole _) r1V (Memref.isWhole_whole _)
            r2V (Memref.isWhole_whole _) r3V (Memref.isWhole_whole _)
            cc5_scratch5 cc5_scratch6 cc5_scratch7 cc5_scratch8 cc5_scratch9 cc5_scratch10 cc5_scratch11 cc5_scratch12 cc5_scoped0)
          fun _ => iprop(shareOut2 C d (widL L) ∗ scopedBufs (thrV d L) ∗ scopedSems0 (thrV d L)
            ∗ ∃ W', ⌜∀ p ∈ W', p ∈ W ∨ p.2 = none⌝ ∗ owes (thrV d L) O W')) :
    (K (F := F)).TileObl (D (F := F)) 𝒱 (PV C) v₀ 2 := by
  intro d c i O W hO _ _
  simp only [show (PV C).ox = fun _ _ => 0 from rfl, add_zero]
  have hci : ((K (F := F)).core 2 c).val < grid5.bound 0 ∧ ((K (F := F)).sub 2 i).val < grid5.bound 1 := ⟨c.isLt, i.isLt⟩
  rw [go_eqV C d c i hci.1 hci.2, td_eqV C d c i hci.1 hci.2]
  change _ ⊢ wp _ _ _ (Pipeline.liftProg (defs₀ (F := F) (.scVector ((K (F := F)).core 2 c) ((K (F := F)).sub 2 i)) 5 ())) _
  refine BIBase.Entails.trans ?_ (Pipeline.wp_liftProg (D (F := F)) (Pipeline.defs_kernel pcfgs defs₀) Variants.none _ Set.univ none _ _)
  rw [defs₀_vec5]; simp only [SparseCore.onTile, hci, and_self, ↓reduceDIte]
  refine BIBase.Entails.trans ?_ ((hbody d (coordsV ⟨_, hci.1⟩ ⟨_, hci.2⟩) O W hO).trans (wp_mono frame _ _ fun _ => post_weaken))
  iintro ⟨Hlv, -, Hgo, Hb, Hs, HO⟩
  isplitl [Hlv]; · iexact Hlv
  isplitl [Hgo]; · iexact Hgo
  isplitl [Hb]; · iexact Hb
  isplitl [Hs]; · iexact Hs
  iexact HO

end Cert.KernelIdeal.Sc.GatherV2

namespace Cert.KernelIdeal.Sc.GatherV3

open Cert.KernelIdeal
open Cert.KernelIdeal.Facts₀ Cert.KernelIdeal.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal.Sc.Gather3 (thrV widL coordsV defs₀_vec7 post_weaken)

variable {F : FTy → Type} [FloatOps F]

local notation "𝕄" => MT nD τ sig (HIx 4) (Elt F) ℕ UU ℕ

local notation "yV" => (Memref.whole Cert.KernelIdeal.main_v1_scv : Memref Cert.KernelIdeal.sig Kind.scVector Space.hbm Cert.KernelIdeal.S8192x128 EltTy.f32)
local notation "ixV" => (Memref.whole Cert.KernelIdeal.main_v31_scv : Memref Cert.KernelIdeal.sig Kind.scVector Space.hbm Cert.KernelIdeal.S32x32x128 EltTy.i32)
local notation "oV" => (Memref.whole Cert.KernelIdeal.main_v32_scv : Memref Cert.KernelIdeal.sig Kind.scVector Space.hbm Cert.KernelIdeal.S131072x128 EltTy.f32)
local notation "ivV" => (Memref.whole Cert.KernelIdeal.cc7_scratch0 : Memref Cert.KernelIdeal.sig Kind.scVector Space.vmem Cert.KernelIdeal.S32x128 EltTy.i32)
local notation "r0V" => (Memref.whole Cert.KernelIdeal.cc7_scratch1 : Memref Cert.KernelIdeal.sig Kind.scVector Space.vmem Cert.KernelIdeal.S128x128 EltTy.f32)
local notation "r1V" => (Memref.whole Cert.KernelIdeal.cc7_scratch2 : Memref Cert.KernelIdeal.sig Kind.scVector Space.vmem Cert.KernelIdeal.S128x128 EltTy.f32)
local notation "r2V" => (Memref.whole Cert.KernelIdeal.cc7_scratch3 : Memref Cert.KernelIdeal.sig Kind.scVector Space.vmem Cert.KernelIdeal.S128x128 EltTy.f32)
local notation "r3V" => (Memref.whole Cert.KernelIdeal.cc7_scratch4 : Memref Cert.KernelIdeal.sig Kind.scVector Space.vmem Cert.KernelIdeal.S128x128 EltTy.f32)

/-- What tile i of core c is handed for the fourth call is what the worker its coordinates name is handed, -/
theorem go_eqV (C : Conts F) (d : Dev nD) (c : Fin ((K (F := F)).nCore 3)) (i : Fin ((K (F := F)).nSub 3))
    (h0 : ((K (F := F)).core 3 c).val < grid7.bound 0) (h1 : ((K (F := F)).sub 3 i).val < grid7.bound 1) :
    (PV C).go 3 d c i = shareIn3 C d (widL (coordsV ⟨((K (F := F)).core 3 c).val, h0⟩ ⟨((K (F := F)).sub 3 i).val, h1⟩)) := by
  show shareIn3 C d (wid (Fin.cast (nCore_eq 3) c) (Fin.cast (nSub_eq 3) i)) = _
  congr 1

/-- and what it hands back is what that worker hands back. -/
theorem td_eqV (C : Conts F) (d : Dev nD) (c : Fin ((K (F := F)).nCore 3)) (i : Fin ((K (F := F)).nSub 3))
    (h0 : ((K (F := F)).core 3 c).val < grid7.bound 0) (h1 : ((K (F := F)).sub 3 i).val < grid7.bound 1) :
    (PV C).td 3 d c i = shareOut3 C d (widL (coordsV ⟨((K (F := F)).core 3 c).val, h0⟩ ⟨((K (F := F)).sub 3 i).val, h1⟩)) := by
  show shareOut3 C d (wid (Fin.cast (nCore_eq 3) c) (Fin.cast (nSub_eq 3) i)) = _
  congr 1

set_option maxRecDepth 16384 in
/-- If the body, on any tile, runs from what its worker is handed (contents named) and the tile's scoped storage to what
    the worker hands back (the output rows at the gather), owing what it owed, then every tile of the fourth call
    meets the launch's obligation for the payload that names contents. -/
theorem tileObl3V_of (C : Conts F)
    (hbody : ∀ (d : Dev nD) (L : grid7.Coords) (O : CellTallies nD τ sig (HIx 4)) (W : Waits sig (HIx 4)) (hO : ∀ g, O g none = 0),
      (iprop(levAts (K (F := F)).L (K (F := F)).lev ∗ shareIn3 C d (widL L)
          ∗ scopedBufs (thrV d L) ∗ scopedSems0 (thrV d L) ∗ owes (thrV d L) O W) : sProp 𝕄)
        ⊢ wp frame (wpE (defs₀ (F := F)) Variants.none (thrV d L) none) Set.univ
          (cc7_gk L yV (Memref.isWhole_whole _) ixV (Memref.isWhole_whole _) oV (Memref.isWhole_whole _)
            ivV (Memref.isWhole_whole _) r0V (Memref.isWhole_whole _) r1V (Memref.isWhole_whole _)
            r2V (Memref.isWhole_whole _) r3V (Memref.isWhole_whole _)
            cc7_scratch5 cc7_scratch6 cc7_scratch7 cc7_scratch8 cc7_scratch9 cc7_scratch10 cc7_scratch11 cc7_scratch12 cc7_scoped0)
          fun _ => iprop(shareOut3 C d (widL L) ∗ scopedBufs (thrV d L) ∗ scopedSems0 (thrV d L)
            ∗ ∃ W', ⌜∀ p ∈ W', p ∈ W ∨ p.2 = none⌝ ∗ owes (thrV d L) O W')) :
    (K (F := F)).TileObl (D (F := F)) 𝒱 (PV C) v₀ 3 := by
  intro d c i O W hO _ _
  simp only [show (PV C).ox = fun _ _ => 0 from rfl, add_zero]
  have hci : ((K (F := F)).core 3 c).val < grid7.bound 0 ∧ ((K (F := F)).sub 3 i).val < grid7.bound 1 := ⟨c.isLt, i.isLt⟩
  rw [go_eqV C d c i hci.1 hci.2, td_eqV C d c i hci.1 hci.2]
  change _ ⊢ wp _ _ _ (Pipeline.liftProg (defs₀ (F := F) (.scVector ((K (F := F)).core 3 c) ((K (F := F)).sub 3 i)) 7 ())) _
  refine BIBase.Entails.trans ?_ (Pipeline.wp_liftProg (D (F := F)) (Pipeline.defs_kernel pcfgs defs₀) Variants.none _ Set.univ none _ _)
  rw [defs₀_vec7]; simp only [SparseCore.onTile, hci, and_self, ↓reduceDIte]
  refine BIBase.Entails.trans ?_ ((hbody d (coordsV ⟨_, hci.1⟩ ⟨_, hci.2⟩) O W hO).trans (wp_mono frame _ _ fun _ => post_weaken))
  iintro ⟨Hlv, -, Hgo, Hb, Hs, HO⟩
  isplitl [Hlv]; · iexact Hlv
  isplitl [Hgo]; · iexact Hgo
  isplitl [Hb]; · iexact Hb
  isplitl [Hs]; · iexact Hs
  iexact HO

end Cert.KernelIdeal.Sc.GatherV3

end
-- ==== Proof.GatherAllV.lean ====
/-
  Every tile of every sparse-core call meets the launch's obligation for the payload that names contents, when the
  contents are the ones the program computes from the launch memory and the precondition holds.

  The body of a call needs every entry of the call's index array to be a row number of y, below 8192. The index array
  of call q is the computed one of the neighbour argument: slots 16q … 16q + 15 of "neighbour plus batch offset", read
  in another shape. The precondition says every neighbour index is below 1024, so every entry is below 8 · 1024.
-/
import proofs.«215235_g2774548873965_cont_9to1_572_34_alg».proof.Proof.GatherValue
import proofs.«215235_g2774548873965_cont_9to1_572_34_alg».proof.Proof.GatherValue3
import proofs.«215235_g2774548873965_cont_9to1_572_34_alg».proof.Proof.GatherValue5
import proofs.«215235_g2774548873965_cont_9to1_572_34_alg».proof.Proof.GatherValue7
import proofs.«215235_g2774548873965_cont_9to1_572_34_alg».proof.Proof.GatherLiftV
import proofs.«215235_g2774548873965_cont_9to1_572_34_alg».proof.Proof.ScValue
import proofs.«215235_g2774548873965_cont_9to1_572_34_alg».proof.Proof.HostIdx
import proofs.«215235_g2774548873965_cont_9to1_572_34_alg».proof.Proof.PreNbr
import proofs.«215235_g2774548873965_cont_9to1_572_34_alg».proof.Defs

noncomputable section

namespace Cert.KernelIdeal.Sc

open Cert.KernelIdeal Idealize.ShloMosaic
open Idealize.ShloMosaic.SparseCore.Cfg (HIx Pay)

/-- Under the precondition every neighbour index of the launch memory, on every device, is below 1024. -/
theorem nbr_of_pre [Cert.Pre_input_domain.Facts] (m : (ℓ : Loc nD τ sig) → Buf (Elt Ideal) ℓ) (hpre : Cert.Pre_KernelIdeal m)
    (d : Dev nD) : ∀ j, (StableHlo.launchContents m d (Proc.devRef .tc main_arg2) j).toNat < 1024 :=
  fun j => Cert.PreNbr.nbr_lt (F := Ideal) _ _ _ _ _ _ _ _ _ _ _ _ _ _ (hpre d) j

/-- So every entry of each call's index array, as computed from the launch memory, is below 8192. -/
theorem ix0_lt [Cert.Pre_input_domain.Facts] (m : (ℓ : Loc nD τ sig) → Buf (Elt Ideal) ℓ) (hpre : Cert.Pre_KernelIdeal m)
    (d : Dev nD) : ∀ j, ((contsOf (F := Ideal) m).ix0 d j).toNat < 8192 := by
  rw [contsOf_ix0]
  exact HostIdx.idxVal_lt 0 _ (nbr_of_pre m hpre d)
theorem ix1_lt [Cert.Pre_input_domain.Facts] (m : (ℓ : Loc nD τ sig) → Buf (Elt Ideal) ℓ) (hpre : Cert.Pre_KernelIdeal m)
    (d : Dev nD) : ∀ j, ((contsOf (F := Ideal) m).ix1 d j).toNat < 8192 := by
  rw [← contsOf_ix1]
  exact HostIdx.idxVal_lt 1 _ (nbr_of_pre m hpre d)
theorem ix2_lt [Cert.Pre_input_domain.Facts] (m : (ℓ : Loc nD τ sig) → Buf (Elt Ideal) ℓ) (hpre : Cert.Pre_KernelIdeal m)
    (d : Dev nD) : ∀ j, ((contsOf (F := Ideal) m).ix2 d j).toNat < 8192 := by
  rw [← contsOf_ix2]
  exact HostIdx.idxVal_lt 2 _ (nbr_of_pre m hpre d)
theorem ix3_lt [Cert.Pre_input_domain.Facts] (m : (ℓ : Loc nD τ sig) → Buf (Elt Ideal) ℓ) (hpre : Cert.Pre_KernelIdeal m)
    (d : Dev nD) : ∀ j, ((contsOf (F := Ideal) m).ix3 d j).toNat < 8192 := by
  rw [← contsOf_ix3]
  exact HostIdx.idxVal_lt 3 _ (nbr_of_pre m hpre d)

/-- THE TILES' OBLIGATION WITH CONTENTS, at every call: each call's body with contents, lifted. -/
theorem tileV_all [Cert.Pre_input_domain.Facts] (m : (ℓ : Loc nD τ sig) → Buf (Elt Ideal) ℓ) (hpre : Cert.Pre_KernelIdeal m) :
    ∀ q, (K (F := Ideal)).TileObl (D (F := Ideal)) 𝒱 (PV (contsOf (F := Ideal) m)) v₀ q
  | 0 => GatherV0.tileObl0V_of (contsOf (F := Ideal) m)
      (fun d L O W hO => GatherV0.gk_body_val facts (contsOf (F := Ideal) m) d L (ix0_lt m hpre d) O W hO)
  | 1 => GatherV1.tileObl1V_of (contsOf (F := Ideal) m)
      (fun d L O W hO => GatherV1.gk_body_val facts (contsOf (F := Ideal) m) d L (ix1_lt m hpre d) O W hO)
  | 2 => GatherV2.tileObl2V_of (contsOf (F := Ideal) m)
      (fun d L O W hO => GatherV2.gk_body_val facts (contsOf (F := Ideal) m) d L (ix2_lt m hpre d) O W hO)
  | 3 => GatherV3.tileObl3V_of (contsOf (F := Ideal) m)
      (fun d L O W hO => GatherV3.gk_body_val facts (contsOf (F := Ideal) m) d L (ix3_lt m hpre d) O W hO)

end Cert.KernelIdeal.Sc

end
-- ==== Proof.ScOpenV.lean ====
/-
  What the equality of results rests on, one statement each, both proved.

  (1) Each tile's task with contents named: from its share of y, its slab of the call's index array (every entry a row
      number of y) and its output rows, to the same with the output rows holding the gathered rows of y. (Proved: the
      gather body with the chunks written so far held at the gathered contents, for each of the four calls.)
  (2) The composed value the walk of @main leaves in the result array is the specification G of the fourteen arguments:
      region 0's product, the four gathers, the four fused regions' partial sums and the last region's two layers, read
      through the host operations' transposes and reshapes. (Proved: the plumbing through the walk's valuations, then the
      kernel's index-level function is the specification for real-valued inputs, which the precondition gives.)
-/
import proofs.«215235_g2774548873965_cont_9to1_572_34_alg».proof.Proof.ScAlg
import proofs.«215235_g2774548873965_cont_9to1_572_34_alg».proof.Proof.KvalGlue
import proofs.«215235_g2774548873965_cont_9to1_572_34_alg».proof.Proof.KvalBridge
import proofs.«215235_g2774548873965_cont_9to1_572_34_alg».proof.Proof.GatherAllV

noncomputable section

namespace Cert.Proof.Alg

open Idealize.ShloMosaic Idealize.SL.Sem Cert.KernelIdeal.Sc

theorem tileV_owed (m : (ℓ : Loc Cert.KernelIdeal.nD Cert.KernelIdeal.τ Cert.KernelIdeal.sig) → Buf (Elt Ideal) ℓ) (hpre : Cert.Pre_KernelIdeal m) (q : Fin 4) :
    (K (F := Ideal)).TileObl (D (F := Ideal)) 𝒱 (PV (contsOf (F := Ideal) m)) v₀ q :=
  Cert.KernelIdeal.Sc.tileV_all m hpre q

theorem kval_owed (m : (ℓ : Loc Cert.KernelIdeal.nD Cert.KernelIdeal.τ Cert.KernelIdeal.sig) → Buf (Elt Ideal) ℓ) (hpre : Cert.Pre_KernelIdeal m)
    (c : Dev Cert.KernelIdeal.nD) (i : Cert.KernelIdeal.S8x1024x128.Idx) :
    Kval (F := Ideal) m c i
      = Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) i :=
  kval_G_of Cert.KernelIdeal.Sc.kval_eq m hpre c i

end Cert.Proof.Alg

end
-- ==== Proof.lean ====
/-
  A continuous-filter convolution layer over 8 molecules of 1024 atoms with 64 neighbour slots each.

  Both programs compute, for atom n of molecule b,
      out[b,n,:] = ssp( agg[b,n,:] · W_out + b_out ) · W_d + b_d ,
      agg[b,n,:] = Σ_k  y[b, nbr[b,n,k], :] * filt[b,n,k,:] * cut[b,n,k] * mask[b,n,k] ,
  where y = x · W_in, filt = ssp(f_ij · W1 + b1) · W2 + b2 is the filter network applied to every edge,
  cut[b,n,k] is 1 where r_ij[b,n,k] ≤ 5 and 0 elsewhere, and ssp is the shifted softplus.

  The reference writes ssp(v) as max(v,0) + log(1 + exp(-|v|)) - log 2 and sums the 64 slots in one reduction over a
  gathered array. The kernel writes ssp(v) as log(exp(v)/2 + 1/2), moves the rows y[b·1024 + nbr] with an indexed
  copy on the sparse cores (sixteen slots at a time, four times), multiplies by cut·mask before the filter, and adds
  the 64 slots as four partial sums of two blocks of eight. Over the reals the two forms of ssp are one function
  (log(1+e^v) = max(v,0) + log(1+e^{-|v|}), and log((e^v+1)/2) = log(e^v+1) - log 2), the products differ only by
  commutativity and associativity, and the sums only by grouping; every neighbour index lies in 0..1023 by the
  precondition, so every gathered row exists on both sides.

  Below: the reference has no kernel, so its frame is its run with the result forgotten; the idealization rewrote no
  operation, so there is nothing to preserve. The kernel program runs on 35 threads per device. Its tensor core walks
  @main in seventeen segments (stretches of host operations, six pipelined regions, four sparse-core calls); each call
  hands each of its 32 tiles a share of y, a slab of the call's index array and 4096 output rows, and takes them back;
  each region is entered while the tensor core still owes the later calls their start signals. The two frames are that
  walk, at either float instance. For the equality of results the same walk carries contents: region 0 leaves
  y = x · W_in, each call leaves the gathered rows of y, each fused region the sum of its sixteen slots' terms, the last
  region the two dense layers; composed, and read through the host operations' transposes and reshapes, that is one
  function of the fourteen arguments, which for real inputs is the function the reference computes.
-/
import proofs.«215235_g2774548873965_cont_9to1_572_34_alg».proof.Defs
import proofs.«215235_g2774548873965_cont_9to1_572_34_alg».proof.Proof.Gen.Kernel
import proofs.«215235_g2774548873965_cont_9to1_572_34_alg».proof.Proof.Gen.Kernel.Skeleton
import proofs.«215235_g2774548873965_cont_9to1_572_34_alg».proof.Proof.Gen.Kernel.Launch
import proofs.«215235_g2774548873965_cont_9to1_572_34_alg».proof.Proof.Gen.Kernel.Regions
import proofs.«215235_g2774548873965_cont_9to1_572_34_alg».proof.Proof.Gen.Kernel.Points
import proofs.«215235_g2774548873965_cont_9to1_572_34_alg».proof.Proof.Gen.KernelIdeal
import proofs.«215235_g2774548873965_cont_9to1_572_34_alg».proof.Proof.Gen.KernelIdeal.Skeleton
import proofs.«215235_g2774548873965_cont_9to1_572_34_alg».proof.Proof.Gen.KernelIdeal.Launch
import proofs.«215235_g2774548873965_cont_9to1_572_34_alg».proof.Proof.Gen.KernelIdeal.Regions
import proofs.«215235_g2774548873965_cont_9to1_572_34_alg».proof.Proof.Gen.KernelIdeal.Points
import proofs.«215235_g2774548873965_cont_9to1_572_34_alg».proof.Proof.Gen.ReferenceIdeal
import proofs.«215235_g2774548873965_cont_9to1_572_34_alg».proof.Proof.Gen.Pre_input_domain
import proofs.«215235_g2774548873965_cont_9to1_572_34_alg».proof.Proof.RefRunPatched
import proofs.«215235_g2774548873965_cont_9to1_572_34_alg».proof.Proof.ScOpen
import proofs.«215235_g2774548873965_cont_9to1_572_34_alg».proof.Proof.ScOpenK
import proofs.«215235_g2774548873965_cont_9to1_572_34_alg».proof.Proof.ScOpenV
import Idealize.ShloMosaic.Adequacy
import Idealize.ShloMosaic.Init

noncomputable section

namespace Cert.Proof

open Idealize.ShloMosaic Idealize.SL.Sem

/-- The reference is a straight line of host operations: every weakly fair execution ends, and its run leaves each
    argument array as it found it. -/
theorem frame_reference : Cert.frame_ReferenceIdeal := fun m ρ _ =>
  (θ_run Cert.ReferenceIdeal.defs _ _).mono (fun _ h c => (h c).2) (Cert.ReferenceIdeal.ValueP.run (F := Ideal) m ρ)

/-- The idealized kernel is the kernel's own text read over the extended reals: no operation was rewritten. -/
theorem preserves : Cert.preserves_Kernel_KernelIdeal := trivial

/-- The kernel at the word level: the tensor core, the two sequencers and the thirty-two tiles all run to the end,
    nothing faults, and the fourteen argument arrays are unchanged. -/
theorem frame_kernel : Cert.frame_Kernel := fun m ρ hpre =>
  (θ_run Cert.Kernel.defs _ _).mono (fun _ h c => h c)
    (Cert.Kernel.Sc.run_frame_of (F := Bits) Cert.Kernel.Sc.owed m ρ (Cert.Kernel.Sc.nbrOK_of_pre (F := Bits) m hpre))

/-- The same over the extended reals: the launch theorem's run, whose post is the frame's, under the fact the precondition
    gives about the neighbour indices. -/
theorem frame_kernelIdeal : Cert.frame_KernelIdeal := fun m ρ hpre =>
  (θ_run Cert.KernelIdeal.defs _ _).mono (fun _ h c => h c)
    (Cert.KernelIdeal.Sc.run_frame_of (F := Ideal) Cert.KernelIdeal.Sc.owed m ρ (Cert.KernelIdeal.Sc.nbrOK_of_pre (F := Ideal) m hpre))

/-- Over the extended reals the kernel's result array and the reference's are equal entry by entry. -/
theorem algebraic : Cert.algebraic_KernelIdeal_ReferenceIdeal :=
  Cert.Proof.Alg.algebraic_of Cert.Proof.Alg.tileV_owed Cert.Proof.Alg.kval_owed

theorem claim : Cert.Claim := ⟨Cert.Kernel.Gen.facts, Cert.KernelIdeal.Gen.facts, Cert.ReferenceIdeal.Gen.facts, Cert.Pre_input_domain.Gen.facts,
  frame_kernel, frame_kernelIdeal, frame_reference, preserves, algebraic⟩

end Cert.Proof

end
